-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x576x768 : Shape := ⟨3, ![64, 576, 768]⟩
abbrev S577x768 : Shape := ⟨2, ![577, 768]⟩
abbrev S1x1x768 : Shape := ⟨3, ![1, 1, 768]⟩
abbrev S_ : Shape := ⟨0, ![]⟩

class Facts : Prop where
  bcast_S_S64x576x768 : S_.BroadcastsInDim S64x576x768 (![] : Fin 0 → Fin S64x576x768.rank)
  reducesTo_S64x576x768_S_d0_1_2 : S64x576x768.ReducesTo [0, 1, 2] S_
  h_S_ : 0 < S_.numel
  bcast_S_S577x768 : S_.BroadcastsInDim S577x768 (![] : Fin 0 → Fin S577x768.rank)
  reducesTo_S577x768_S_d0_1 : S577x768.ReducesTo [0, 1] S_
  bcast_S_S1x1x768 : S_.BroadcastsInDim S1x1x768 (![] : Fin 0 → Fin S1x1x768.rank)
  reducesTo_S1x1x768_S_d0_1_2 : S1x1x768.ReducesTo [0, 1, 2] S_

variable [Facts]

def fn {F : FTy → Type} [FloatOps F] (main_arg0 : FVec F S64x576x768 .f32) (main_arg1 : FVec F S577x768 .f32) (main_arg2 : FVec F S1x1x768 .f32) : IVec S_ 1 :=
  let main_v0 : FVec F S64x576x768 .f32 := Host.absf main_arg0
  let main_cst : FVec F S_ .f32 := constant S_ .f32 0x7F800000#32
  let main_v1 : FVec F S64x576x768 .f32 := broadcastInDim S64x576x768 ![] bcast_S_S64x576x768 main_cst
  let main_v2 : IVec S64x576x768 1 := cmpf .olt main_v0 main_v1
  let main_c : IVec S_ 1 := constantI S_ 1 1#1
  let main_v3 : IVec S_ 1 := (fun x v => Host.reduce IntOp.andi x v reducesTo_S64x576x768_S_d0_1_2 h_S_) main_v2 main_c
  let main_v4 : FVec F S577x768 .f32 := Host.absf main_arg1
  let main_cst_0 : FVec F S_ .f32 := constant S_ .f32 0x7F800000#32
  let main_v5 : FVec F S577x768 .f32 := broadcastInDim S577x768 ![] bcast_S_S577x768 main_cst_0
  let main_v6 : IVec S577x768 1 := cmpf .olt main_v4 main_v5
  let main_c_1 : IVec S_ 1 := constantI S_ 1 1#1
  let main_v7 : IVec S_ 1 := (fun x v => Host.reduce IntOp.andi x v reducesTo_S577x768_S_d0_1 h_S_) main_v6 main_c_1
  let main_v8 : IVec S_ 1 := andi main_v3 main_v7
  let main_v9 : FVec F S1x1x768 .f32 := Host.absf main_arg2
  let main_cst_2 : FVec F S_ .f32 := constant S_ .f32 0x7F800000#32
  let main_v10 : FVec F S1x1x768 .f32 := broadcastInDim S1x1x768 ![] bcast_S_S1x1x768 main_cst_2
  let main_v11 : IVec S1x1x768 1 := cmpf .olt main_v9 main_v10
  let main_c_3 : IVec S_ 1 := constantI S_ 1 1#1
  let main_v12 : IVec S_ 1 := (fun x v => Host.reduce IntOp.andi x v reducesTo_S1x1x768_S_d0_1_2 h_S_) main_v11 main_c_3
  let main_v13 : IVec S_ 1 := andi main_v8 main_v12
  main_v13
-- ==== Kernel.lean ====
abbrev S64x576x768 : Shape := ⟨3, ![64, 576, 768]⟩
abbrev S577x768 : Shape := ⟨2, ![577, 768]⟩
abbrev S1x1x768 : Shape := ⟨3, ![1, 1, 768]⟩
abbrev S577x64x768 : Shape := ⟨3, ![577, 64, 768]⟩
abbrev S8x768 : Shape := ⟨2, ![8, 768]⟩
abbrev S2x8x8x768 : Shape := ⟨4, ![2, 8, 8, 768]⟩
abbrev S2 : Shape := ⟨1, ![2]⟩
abbrev S1x8x8x768 : Shape := ⟨4, ![1, 8, 8, 768]⟩
abbrev S8x8x768 : Shape := ⟨3, ![8, 8, 768]⟩
abbrev S1 : Shape := ⟨1, ![1]⟩
abbrev S_ : Shape := ⟨0, ![]⟩
abbrev S1x8x1x768 : Shape := ⟨4, ![1, 8, 1, 768]⟩
abbrev S1x8x768 : Shape := ⟨3, ![1, 8, 768]⟩
abbrev S1x16 : Shape := ⟨2, ![1, 16]⟩
abbrev S16 : Shape := ⟨1, ![16]⟩
abbrev S1x1x1x16 : Shape := ⟨4, ![1, 1, 1, 16]⟩
abbrev S1x1x1x768 : Shape := ⟨4, ![1, 1, 1, 768]⟩
abbrev S1x768 : Shape := ⟨2, ![1, 768]⟩
abbrev S1x1x8x768 : Shape := ⟨4, ![1, 1, 8, 768]⟩
abbrev S64x577x768 : Shape := ⟨3, ![64, 577, 768]⟩

abbrev nBuf : Table → Nat
  | .hbm => 5
  | .local .scVector .vmem => 2
  | _ => 0

abbrev bufTy : (tb : Table) → Fin (nBuf tb) → BufTy
  | .hbm, ⟨0, _⟩ => ⟨S64x576x768, .f32⟩
  | .hbm, ⟨1, _⟩ => ⟨S577x768, .f32⟩
  | .hbm, ⟨2, _⟩ => ⟨S1x1x768, .f32⟩
  | .hbm, ⟨3, _⟩ => ⟨S577x64x768, .f32⟩
  | .hbm, ⟨4, _⟩ => ⟨S64x577x768, .f32⟩
  | .local .scVector .vmem, ⟨0, _⟩ => ⟨S8x768, .f32⟩
  | .local .scVector .vmem, ⟨1, _⟩ => ⟨S2x8x8x768, .f32⟩
  | _, _ => ⟨S64x576x768, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_v0_scv : Ref sig .scVector := ⟨.hbm, 3, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c16_i32 : BitVec 32 := 16#32
  let v29 : BitVec 32 := Scalar.muli v18 c16_i32
  let c0_i32_10 : BitVec 32 := 0#32
  let v31 : BitVec 32 := Scalar.addi v29 c0_i32_10
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c72_i32 : BitVec 32 := 72#32
  let v30 : BitVec 32 := Scalar.muli v28 c72_i32
  let c0_i32_11 : BitVec 32 := 0#32
  let v32 : BitVec 32 := Scalar.addi v30 c0_i32_11
  let c0_i32_17 : BitVec 32 := 0#32
  ![v31.toNat, v32.toNat, 0]
@[reducible] def k0_t1_loop : Scf.Loop 32 :=
  let c0_i32_23 : BitVec 32 := 0#32
  let c9_i32 : BitVec 32 := 9#32
  let v41 : BitVec 32 := Scalar.addi c0_i32_23 c9_i32
  let c1_i32_24 : BitVec 32 := 1#32
  ⟨c0_i32_23, v41, c1_i32_24⟩
def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c72_i32 : BitVec 32 := 72#32
  let v30 : BitVec 32 := Scalar.muli v28 c72_i32
  let c0_i32_23 : BitVec 32 := 0#32
  let c1_i32_24 : BitVec 32 := 1#32
  let arg10 : BitVec 32 := Scf.iv c0_i32_23 c1_i32_24 k0_t1
  let c8_i32_214 : BitVec 32 := 8#32
  let v253 : BitVec 32 := Scalar.muli arg10 c8_i32_214
  let v254 : BitVec 32 := Scalar.addi v30 v253
  let c0_i32_280_r0 : BitVec 32 := 0#32
  ![v254.toNat, 0]
def k0_off3 (i : grid0.Coords) (k0_t1 : Fin k0_t1_loop.trips) (c0_i32_215 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c16_i32 : BitVec 32 := 16#32
  let v29 : BitVec 32 := Scalar.muli v18 c16_i32
  let v255 : BitVec 32 := Scalar.addi v29 c0_i32_215
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c72_i32 : BitVec 32 := 72#32
  let v30 : BitVec 32 := Scalar.muli v28 c72_i32
  let c0_i32_23 : BitVec 32 := 0#32
  let c1_i32_24 : BitVec 32 := 1#32
  let arg10 : BitVec 32 := Scf.iv c0_i32_23 c1_i32_24 k0_t1
  let c8_i32_216 : BitVec 32 := 8#32
  let v256 : BitVec 32 := Scalar.muli arg10 c8_i32_216
  let v257 : BitVec 32 := Scalar.addi v30 v256
  let c0_i32_222 : BitVec 32 := 0#32
  ![v255.toNat, v257.toNat, 0]
def k0_cond1 (k0_t1 : Fin k0_t1_loop.trips) : BitVec 1 :=
  let c0_i32_23 : BitVec 32 := 0#32
  let c1_i32_24 : BitVec 32 := 1#32
  let arg10 : BitVec 32 := Scf.iv c0_i32_23 c1_i32_24 k0_t1
  let c0_i32_227 : BitVec 32 := 0#32
  let v266 : BitVec 1 := Scalar.cmpi .sgt arg10 c0_i32_227
  let v267 : BitVec 32 := Scalar.extui v266
  let c0_i32_228 : BitVec 32 := 0#32
  let v268 : BitVec 1 := Scalar.cmpi .ne v267 c0_i32_228
  v268

def k0_off4 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c72_i32 : BitVec 32 := 72#32
  let v30 : BitVec 32 := Scalar.muli v28 c72_i32
  let c0_i32_23 : BitVec 32 := 0#32
  let c1_i32_24 : BitVec 32 := 1#32
  let arg10 : BitVec 32 := Scf.iv c0_i32_23 c1_i32_24 k0_t1
  let c8_i32_280 : BitVec 32 := 8#32
  let v318 : BitVec 32 := Scalar.muli arg10 c8_i32_280
  let v319 : BitVec 32 := Scalar.addi v30 v318
  let c0_i32_281 : BitVec 32 := 0#32
  let v320 : BitVec 32 := Scalar.addi v319 c0_i32_281
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c16_i32 : BitVec 32 := 16#32
  let v29 : BitVec 32 := Scalar.muli v18 c16_i32
  let c0_i32_282 : BitVec 32 := 0#32
  let v321 : BitVec 32 := Scalar.addi v29 c0_i32_282
  let c0_i32_288 : BitVec 32 := 0#32
  ![v320.toNat, v321.toNat, 0]
def k0_cond2 (k0_t1 : Fin k0_t1_loop.trips) : BitVec 1 :=
  let c0_i32_23 : BitVec 32 := 0#32
  let c1_i32_24 : BitVec 32 := 1#32
  let arg10 : BitVec 32 := Scf.iv c0_i32_23 c1_i32_24 k0_t1
  let c0_i32_229 : BitVec 32 := 0#32
  let v269 : BitVec 1 := Scalar.cmpi .sgt arg10 c0_i32_229
  let v270 : BitVec 32 := Scalar.extui v269
  let c0_i32_230 : BitVec 32 := 0#32
  let v271 : BitVec 1 := Scalar.cmpi .ne v270 c0_i32_230
  v271

def k0_off5 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c72_i32 : BitVec 32 := 72#32
  let v30 : BitVec 32 := Scalar.muli v28 c72_i32
  let c0_i32_23 : BitVec 32 := 0#32
  let c1_i32_24 : BitVec 32 := 1#32
  let arg10 : BitVec 32 := Scf.iv c0_i32_23 c1_i32_24 k0_t1
  let c8_i32_280 : BitVec 32 := 8#32
  let v318 : BitVec 32 := Scalar.muli arg10 c8_i32_280
  let v319 : BitVec 32 := Scalar.addi v30 v318
  let c1_i32_281 : BitVec 32 := 1#32
  let v320 : BitVec 32 := Scalar.addi v319 c1_i32_281
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c16_i32 : BitVec 32 := 16#32
  let v29 : BitVec 32 := Scalar.muli v18 c16_i32
  let c0_i32_282 : BitVec 32 := 0#32
  let v321 : BitVec 32 := Scalar.addi v29 c0_i32_282
  let c0_i32_288 : BitVec 32 := 0#32
  ![v320.toNat, v321.toNat, 0]
def k0_cond3 (k0_t1 : Fin k0_t1_loop.trips) : BitVec 1 :=
  let c0_i32_23 : BitVec 32 := 0#32
  let c1_i32_24 : BitVec 32 := 1#32
  let arg10 : BitVec 32 := Scf.iv c0_i32_23 c1_i32_24 k0_t1
  let c0_i32_231 : BitVec 32 := 0#32
  let v272 : BitVec 1 := Scalar.cmpi .sgt arg10 c0_i32_231
  let v273 : BitVec 32 := Scalar.extui v272
  let c0_i32_232 : BitVec 32 := 0#32
  let v274 : BitVec 1 := Scalar.cmpi .ne v273 c0_i32_232
  v274

def k0_off6 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c72_i32 : BitVec 32 := 72#32
  let v30 : BitVec 32 := Scalar.muli v28 c72_i32
  let c0_i32_23 : BitVec 32 := 0#32
  let c1_i32_24 : BitVec 32 := 1#32
  let arg10 : BitVec 32 := Scf.iv c0_i32_23 c1_i32_24 k0_t1
  let c8_i32_280 : BitVec 32 := 8#32
  let v318 : BitVec 32 := Scalar.muli arg10 c8_i32_280
  let v319 : BitVec 32 := Scalar.addi v30 v318
  let c2_i32_281 : BitVec 32 := 2#32
  let v320 : BitVec 32 := Scalar.addi v319 c2_i32_281
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c16_i32 : BitVec 32 := 16#32
  let v29 : BitVec 32 := Scalar.muli v18 c16_i32
  let c0_i32_282 : BitVec 32 := 0#32
  let v321 : BitVec 32 := Scalar.addi v29 c0_i32_282
  let c0_i32_288 : BitVec 32 := 0#32
  ![v320.toNat, v321.toNat, 0]
def k0_cond4 (k0_t1 : Fin k0_t1_loop.trips) : BitVec 1 :=
  let c0_i32_23 : BitVec 32 := 0#32
  let c1_i32_24 : BitVec 32 := 1#32
  let arg10 : BitVec 32 := Scf.iv c0_i32_23 c1_i32_24 k0_t1
  let c0_i32_233 : BitVec 32 := 0#32
  let v275 : BitVec 1 := Scalar.cmpi .sgt arg10 c0_i32_233
  let v276 : BitVec 32 := Scalar.extui v275
  let c0_i32_234 : BitVec 32 := 0#32
  let v277 : BitVec 1 := Scalar.cmpi .ne v276 c0_i32_234
  v277

def k0_off7 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c72_i32 : BitVec 32 := 72#32
  let v30 : BitVec 32 := Scalar.muli v28 c72_i32
  let c0_i32_23 : BitVec 32 := 0#32
  let c1_i32_24 : BitVec 32 := 1#32
  let arg10 : BitVec 32 := Scf.iv c0_i32_23 c1_i32_24 k0_t1
  let c8_i32_280 : BitVec 32 := 8#32
  let v318 : BitVec 32 := Scalar.muli arg10 c8_i32_280
  let v319 : BitVec 32 := Scalar.addi v30 v318
  let c3_i32_281 : BitVec 32 := 3#32
  let v320 : BitVec 32 := Scalar.addi v319 c3_i32_281
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c16_i32 : BitVec 32 := 16#32
  let v29 : BitVec 32 := Scalar.muli v18 c16_i32
  let c0_i32_282 : BitVec 32 := 0#32
  let v321 : BitVec 32 := Scalar.addi v29 c0_i32_282
  let c0_i32_288 : BitVec 32 := 0#32
  ![v320.toNat, v321.toNat, 0]
def k0_cond5 (k0_t1 : Fin k0_t1_loop.trips) : BitVec 1 :=
  let c0_i32_23 : BitVec 32 := 0#32
  let c1_i32_24 : BitVec 32 := 1#32
  let arg10 : BitVec 32 := Scf.iv c0_i32_23 c1_i32_24 k0_t1
  let c0_i32_235 : BitVec 32 := 0#32
  let v278 : BitVec 1 := Scalar.cmpi .sgt arg10 c0_i32_235
  let v279 : BitVec 32 := Scalar.extui v278
  let c0_i32_236 : BitVec 32 := 0#32
  let v280 : BitVec 1 := Scalar.cmpi .ne v279 c0_i32_236
  v280

def k0_off8 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c72_i32 : BitVec 32 := 72#32
  let v30 : BitVec 32 := Scalar.muli v28 c72_i32
  let c0_i32_23 : BitVec 32 := 0#32
  let c1_i32_24 : BitVec 32 := 1#32
  let arg10 : BitVec 32 := Scf.iv c0_i32_23 c1_i32_24 k0_t1
  let c8_i32_280 : BitVec 32 := 8#32
  let v318 : BitVec 32 := Scalar.muli arg10 c8_i32_280
  let v319 : BitVec 32 := Scalar.addi v30 v318
  let c4_i32_281 : BitVec 32 := 4#32
  let v320 : BitVec 32 := Scalar.addi v319 c4_i32_281
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c16_i32 : BitVec 32 := 16#32
  let v29 : BitVec 32 := Scalar.muli v18 c16_i32
  let c0_i32_282 : BitVec 32 := 0#32
  let v321 : BitVec 32 := Scalar.addi v29 c0_i32_282
  let c0_i32_288 : BitVec 32 := 0#32
  ![v320.toNat, v321.toNat, 0]
def k0_cond6 (k0_t1 : Fin k0_t1_loop.trips) : BitVec 1 :=
  let c0_i32_23 : BitVec 32 := 0#32
  let c1_i32_24 : BitVec 32 := 1#32
  let arg10 : BitVec 32 := Scf.iv c0_i32_23 c1_i32_24 k0_t1
  let c0_i32_237 : BitVec 32 := 0#32
  let v281 : BitVec 1 := Scalar.cmpi .sgt arg10 c0_i32_237
  let v282 : BitVec 32 := Scalar.extui v281
  let c0_i32_238 : BitVec 32 := 0#32
  let v283 : BitVec 1 := Scalar.cmpi .ne v282 c0_i32_238
  v283

def k0_off9 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c72_i32 : BitVec 32 := 72#32
  let v30 : BitVec 32 := Scalar.muli v28 c72_i32
  let c0_i32_23 : BitVec 32 := 0#32
  let c1_i32_24 : BitVec 32 := 1#32
  let arg10 : BitVec 32 := Scf.iv c0_i32_23 c1_i32_24 k0_t1
  let c8_i32_280 : BitVec 32 := 8#32
  let v318 : BitVec 32 := Scalar.muli arg10 c8_i32_280
  let v319 : BitVec 32 := Scalar.addi v30 v318
  let c5_i32_281 : BitVec 32 := 5#32
  let v320 : BitVec 32 := Scalar.addi v319 c5_i32_281
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c16_i32 : BitVec 32 := 16#32
  let v29 : BitVec 32 := Scalar.muli v18 c16_i32
  let c0_i32_282 : BitVec 32 := 0#32
  let v321 : BitVec 32 := Scalar.addi v29 c0_i32_282
  let c0_i32_288 : BitVec 32 := 0#32
  ![v320.toNat, v321.toNat, 0]
def k0_cond7 (k0_t1 : Fin k0_t1_loop.trips) : BitVec 1 :=
  let c0_i32_23 : BitVec 32 := 0#32
  let c1_i32_24 : BitVec 32 := 1#32
  let arg10 : BitVec 32 := Scf.iv c0_i32_23 c1_i32_24 k0_t1
  let c0_i32_239 : BitVec 32 := 0#32
  let v284 : BitVec 1 := Scalar.cmpi .sgt arg10 c0_i32_239
  let v285 : BitVec 32 := Scalar.extui v284
  let c0_i32_240 : BitVec 32 := 0#32
  let v286 : BitVec 1 := Scalar.cmpi .ne v285 c0_i32_240
  v286

def k0_off10 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c72_i32 : BitVec 32 := 72#32
  let v30 : BitVec 32 := Scalar.muli v28 c72_i32
  let c0_i32_23 : BitVec 32 := 0#32
  let c1_i32_24 : BitVec 32 := 1#32
  let arg10 : BitVec 32 := Scf.iv c0_i32_23 c1_i32_24 k0_t1
  let c8_i32_280 : BitVec 32 := 8#32
  let v318 : BitVec 32 := Scalar.muli arg10 c8_i32_280
  let v319 : BitVec 32 := Scalar.addi v30 v318
  let c6_i32_281 : BitVec 32 := 6#32
  let v320 : BitVec 32 := Scalar.addi v319 c6_i32_281
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c16_i32 : BitVec 32 := 16#32
  let v29 : BitVec 32 := Scalar.muli v18 c16_i32
  let c0_i32_282 : BitVec 32 := 0#32
  let v321 : BitVec 32 := Scalar.addi v29 c0_i32_282
  let c0_i32_288 : BitVec 32 := 0#32
  ![v320.toNat, v321.toNat, 0]
def k0_cond8 (k0_t1 : Fin k0_t1_loop.trips) : BitVec 1 :=
  let c0_i32_23 : BitVec 32 := 0#32
  let c1_i32_24 : BitVec 32 := 1#32
  let arg10 : BitVec 32 := Scf.iv c0_i32_23 c1_i32_24 k0_t1
  let c0_i32_241 : BitVec 32 := 0#32
  let v287 : BitVec 1 := Scalar.cmpi .sgt arg10 c0_i32_241
  let v288 : BitVec 32 := Scalar.extui v287
  let c0_i32_242 : BitVec 32 := 0#32
  let v289 : BitVec 1 := Scalar.cmpi .ne v288 c0_i32_242
  v289

def k0_off11 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c72_i32 : BitVec 32 := 72#32
  let v30 : BitVec 32 := Scalar.muli v28 c72_i32
  let c0_i32_23 : BitVec 32 := 0#32
  let c1_i32_24 : BitVec 32 := 1#32
  let arg10 : BitVec 32 := Scf.iv c0_i32_23 c1_i32_24 k0_t1
  let c8_i32_280 : BitVec 32 := 8#32
  let v318 : BitVec 32 := Scalar.muli arg10 c8_i32_280
  let v319 : BitVec 32 := Scalar.addi v30 v318
  let c7_i32_281 : BitVec 32 := 7#32
  let v320 : BitVec 32 := Scalar.addi v319 c7_i32_281
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c16_i32 : BitVec 32 := 16#32
  let v29 : BitVec 32 := Scalar.muli v18 c16_i32
  let c0_i32_282 : BitVec 32 := 0#32
  let v321 : BitVec 32 := Scalar.addi v29 c0_i32_282
  let c0_i32_288 : BitVec 32 := 0#32
  ![v320.toNat, v321.toNat, 0]
@[reducible] def k0_t2_loop : Scf.Loop 32 :=
  let c0_i32_256 : BitVec 32 := 0#32
  let c8_i32_257 : BitVec 32 := 8#32
  let v301 : BitVec 32 := Scalar.addi c0_i32_256 c8_i32_257
  let c1_i32_258 : BitVec 32 := 1#32
  ⟨c0_i32_256, v301, c1_i32_258⟩
def k0_off12 (k0_t2 : Fin k0_t2_loop.trips) : Fin 2 → Nat :=
  let c0_i32_256 : BitVec 32 := 0#32
  let c1_i32_258 : BitVec 32 := 1#32
  let arg11 : BitVec 32 := Scf.iv c0_i32_256 c1_i32_258 k0_t2
  let v318 : Index := Scalar.indexCast arg11
  let c0 : Index := 0#32
  ![v318.toNat, 0]
def k0_off13 (k0_t2 : Fin k0_t2_loop.trips) : Fin 4 → Nat :=
  let c0_i32_280 : BitVec 32 := 0#32
  let v321 : Index := Scalar.indexCast c0_i32_280
  let c0_i32_281 : BitVec 32 := 0#32
  let v322 : Index := Scalar.indexCast c0_i32_281
  let c0_i32_256 : BitVec 32 := 0#32
  let c1_i32_258 : BitVec 32 := 1#32
  let arg11 : BitVec 32 := Scf.iv c0_i32_256 c1_i32_258 k0_t2
  let v323 : Index := Scalar.indexCast arg11
  let c0_282 : Index := 0#32
  ![0, 0, v323.toNat, 0]
def k0_off14 (k0_t2 : Fin k0_t2_loop.trips) : Fin 4 → Nat :=
  let c0_i32_286 : BitVec 32 := 0#32
  let v333 : Index := Scalar.indexCast c0_i32_286
  let c1_i32_287 : BitVec 32 := 1#32
  let v334 : Index := Scalar.indexCast c1_i32_287
  let c0_i32_256 : BitVec 32 := 0#32
  let c1_i32_258 : BitVec 32 := 1#32
  let arg11 : BitVec 32 := Scf.iv c0_i32_256 c1_i32_258 k0_t2
  let v335 : Index := Scalar.indexCast arg11
  let c0_288 : Index := 0#32
  ![0, 1, v335.toNat, 0]
def k0_off15 (k0_t2 : Fin k0_t2_loop.trips) : Fin 4 → Nat :=
  let c0_i32_292 : BitVec 32 := 0#32
  let v345 : Index := Scalar.indexCast c0_i32_292
  let c2_i32_293 : BitVec 32 := 2#32
  let v346 : Index := Scalar.indexCast c2_i32_293
  let c0_i32_256 : BitVec 32 := 0#32
  let c1_i32_258 : BitVec 32 := 1#32
  let arg11 : BitVec 32 := Scf.iv c0_i32_256 c1_i32_258 k0_t2
  let v347 : Index := Scalar.indexCast arg11
  let c0_294 : Index := 0#32
  ![0, 2, v347.toNat, 0]
def k0_off16 (k0_t2 : Fin k0_t2_loop.trips) : Fin 4 → Nat :=
  let c0_i32_298 : BitVec 32 := 0#32
  let v357 : Index := Scalar.indexCast c0_i32_298
  let c3_i32_299 : BitVec 32 := 3#32
  let v358 : Index := Scalar.indexCast c3_i32_299
  let c0_i32_256 : BitVec 32 := 0#32
  let c1_i32_258 : BitVec 32 := 1#32
  let arg11 : BitVec 32 := Scf.iv c0_i32_256 c1_i32_258 k0_t2
  let v359 : Index := Scalar.indexCast arg11
  let c0_300 : Index := 0#32
  ![0, 3, v359.toNat, 0]
def k0_off17 (k0_t2 : Fin k0_t2_loop.trips) : Fin 4 → Nat :=
  let c0_i32_304 : BitVec 32 := 0#32
  let v369 : Index := Scalar.indexCast c0_i32_304
  let c4_i32_305 : BitVec 32 := 4#32
  let v370 : Index := Scalar.indexCast c4_i32_305
  let c0_i32_256 : BitVec 32 := 0#32
  let c1_i32_258 : BitVec 32 := 1#32
  let arg11 : BitVec 32 := Scf.iv c0_i32_256 c1_i32_258 k0_t2
  let v371 : Index := Scalar.indexCast arg11
  let c0_306 : Index := 0#32
  ![0, 4, v371.toNat, 0]
def k0_off18 (k0_t2 : Fin k0_t2_loop.trips) : Fin 4 → Nat :=
  let c0_i32_310 : BitVec 32 := 0#32
  let v381 : Index := Scalar.indexCast c0_i32_310
  let c5_i32_311 : BitVec 32 := 5#32
  let v382 : Index := Scalar.indexCast c5_i32_311
  let c0_i32_256 : BitVec 32 := 0#32
  let c1_i32_258 : BitVec 32 := 1#32
  let arg11 : BitVec 32 := Scf.iv c0_i32_256 c1_i32_258 k0_t2
  let v383 : Index := Scalar.indexCast arg11
  let c0_312 : Index := 0#32
  ![0, 5, v383.toNat, 0]
def k0_off19 (k0_t2 : Fin k0_t2_loop.trips) : Fin 4 → Nat :=
  let c0_i32_316 : BitVec 32 := 0#32
  let v393 : Index := Scalar.indexCast c0_i32_316
  let c6_i32_317 : BitVec 32 := 6#32
  let v394 : Index := Scalar.indexCast c6_i32_317
  let c0_i32_256 : BitVec 32 := 0#32
  let c1_i32_258 : BitVec 32 := 1#32
  let arg11 : BitVec 32 := Scf.iv c0_i32_256 c1_i32_258 k0_t2
  let v395 : Index := Scalar.indexCast arg11
  let c0_318 : Index := 0#32
  ![0, 6, v395.toNat, 0]
def k0_off20 (k0_t2 : Fin k0_t2_loop.trips) : Fin 4 → Nat :=
  let c0_i32_322 : BitVec 32 := 0#32
  let v405 : Index := Scalar.indexCast c0_i32_322
  let c7_i32_323 : BitVec 32 := 7#32
  let v406 : Index := Scalar.indexCast c7_i32_323
  let c0_i32_256 : BitVec 32 := 0#32
  let c1_i32_258 : BitVec 32 := 1#32
  let arg11 : BitVec 32 := Scf.iv c0_i32_256 c1_i32_258 k0_t2
  let v407 : Index := Scalar.indexCast arg11
  let c0_324 : Index := 0#32
  ![0, 7, v407.toNat, 0]
def k0_off21 (k0_t2 : Fin k0_t2_loop.trips) : Fin 2 → Nat :=
  let c0_i32_256 : BitVec 32 := 0#32
  let c1_i32_258 : BitVec 32 := 1#32
  let arg11 : BitVec 32 := Scf.iv c0_i32_256 c1_i32_258 k0_t2
  let v417 : Index := Scalar.indexCast arg11
  let c16 : Index := 16#32
  ![v417.toNat, 16]
def k0_off22 (k0_t2 : Fin k0_t2_loop.trips) : Fin 4 → Nat :=
  let c0_i32_328 : BitVec 32 := 0#32
  let v420 : Index := Scalar.indexCast c0_i32_328
  let c0_i32_329 : BitVec 32 := 0#32
  let v421 : Index := Scalar.indexCast c0_i32_329
  let c0_i32_256 : BitVec 32 := 0#32
  let c1_i32_258 : BitVec 32 := 1#32
  let arg11 : BitVec 32 := Scf.iv c0_i32_256 c1_i32_258 k0_t2
  let v422 : Index := Scalar.indexCast arg11
  let c16_330 : Index := 16#32
  ![0, 0, v422.toNat, 16]
def k0_off23 (k0_t2 : Fin k0_t2_loop.trips) : Fin 4 → Nat :=
  let c0_i32_334 : BitVec 32 := 0#32
  let v432 : Index := Scalar.indexCast c0_i32_334
  let c1_i32_335 : BitVec 32 := 1#32
  let v433 : Index := Scalar.indexCast c1_i32_335
  let c0_i32_256 : BitVec 32 := 0#32
  let c1_i32_258 : BitVec 32 := 1#32
  let arg11 : BitVec 32 := Scf.iv c0_i32_256 c1_i32_258 k0_t2
  let v434 : Index := Scalar.indexCast arg11
  let c16_336 : Index := 16#32
  ![0, 1, v434.toNat, 16]
def k0_off24 (k0_t2 : Fin k0_t2_loop.trips) : Fin 4 → Nat :=
  let c0_i32_340 : BitVec 32 := 0#32
  let v444 : Index := Scalar.indexCast c0_i32_340
  let c2_i32_341 : BitVec 32 := 2#32
  let v445 : Index := Scalar.indexCast c2_i32_341
  let c0_i32_256 : BitVec 32 := 0#32
  let c1_i32_258 : BitVec 32 := 1#32
  let arg11 : BitVec 32 := Scf.iv c0_i32_256 c1_i32_258 k0_t2
  let v446 : Index := Scalar.indexCast arg11
  let c16_342 : Index := 16#32
  ![0, 2, v446.toNat, 16]
def k0_off25 (k0_t2 : Fin k0_t2_loop.trips) : Fin 4 → Nat :=
  let c0_i32_346 : BitVec 32 := 0#32
  let v456 : Index := Scalar.indexCast c0_i32_346
  let c3_i32_347 : BitVec 32 := 3#32
  let v457 : Index := Scalar.indexCast c3_i32_347
  let c0_i32_256 : BitVec 32 := 0#32
  let c1_i32_258 : BitVec 32 := 1#32
  let arg11 : BitVec 32 := Scf.iv c0_i32_256 c1_i32_258 k0_t2
  let v458 : Index := Scalar.indexCast arg11
  let c16_348 : Index := 16#32
  ![0, 3, v458.toNat, 16]
def k0_off26 (k0_t2 : Fin k0_t2_loop.trips) : Fin 4 → Nat :=
  let c0_i32_352 : BitVec 32 := 0#32
  let v468 : Index := Scalar.indexCast c0_i32_352
  let c4_i32_353 : BitVec 32 := 4#32
  let v469 : Index := Scalar.indexCast c4_i32_353
  let c0_i32_256 : BitVec 32 := 0#32
  let c1_i32_258 : BitVec 32 := 1#32
  let arg11 : BitVec 32 := Scf.iv c0_i32_256 c1_i32_258 k0_t2
  let v470 : Index := Scalar.indexCast arg11
  let c16_354 : Index := 16#32
  ![0, 4, v470.toNat, 16]
def k0_off27 (k0_t2 : Fin k0_t2_loop.trips) : Fin 4 → Nat :=
  let c0_i32_358 : BitVec 32 := 0#32
  let v480 : Index := Scalar.indexCast c0_i32_358
  let c5_i32_359 : BitVec 32 := 5#32
  let v481 : Index := Scalar.indexCast c5_i32_359
  let c0_i32_256 : BitVec 32 := 0#32
  let c1_i32_258 : BitVec 32 := 1#32
  let arg11 : BitVec 32 := Scf.iv c0_i32_256 c1_i32_258 k0_t2
  let v482 : Index := Scalar.indexCast arg11
  let c16_360 : Index := 16#32
  ![0, 5, v482.toNat, 16]
def k0_off28 (k0_t2 : Fin k0_t2_loop.trips) : Fin 4 → Nat :=
  let c0_i32_364 : BitVec 32 := 0#32
  let v492 : Index := Scalar.indexCast c0_i32_364
  let c6_i32_365 : BitVec 32 := 6#32
  let v493 : Index := Scalar.indexCast c6_i32_365
  let c0_i32_256 : BitVec 32 := 0#32
  let c1_i32_258 : BitVec 32 := 1#32
  let arg11 : BitVec 32 := Scf.iv c0_i32_256 c1_i32_258 k0_t2
  let v494 : Index := Scalar.indexCast arg11
  let c16_366 : Index := 16#32
  ![0, 6, v494.toNat, 16]
def k0_off29 (k0_t2 : Fin k0_t2_loop.trips) : Fin 4 → Nat :=
  let c0_i32_370 : BitVec 32 := 0#32
  let v504 : Index := Scalar.indexCast c0_i32_370
  let c7_i32_371 : BitVec 32 := 7#32
  let v505 : Index := Scalar.indexCast c7_i32_371
  let c0_i32_256 : BitVec 32 := 0#32
  let c1_i32_258 : BitVec 32 := 1#32
  let arg11 : BitVec 32 := Scf.iv c0_i32_256 c1_i32_258 k0_t2
  let v506 : Index := Scalar.indexCast arg11
  let c16_372 : Index := 16#32
  ![0, 7, v506.toNat, 16]
def k0_off30 (k0_t2 : Fin k0_t2_loop.trips) : Fin 2 → Nat :=
  let c0_i32_256 : BitVec 32 := 0#32
  let c1_i32_258 : BitVec 32 := 1#32
  let arg11 : BitVec 32 := Scf.iv c0_i32_256 c1_i32_258 k0_t2
  let v516 : Index := Scalar.indexCast arg11
  let c32 : Index := 32#32
  ![v516.toNat, 32]
def k0_off31 (k0_t2 : Fin k0_t2_loop.trips) : Fin 4 → Nat :=
  let c0_i32_376 : BitVec 32 := 0#32
  let v519 : Index := Scalar.indexCast c0_i32_376
  let c0_i32_377 : BitVec 32 := 0#32
  let v520 : Index := Scalar.indexCast c0_i32_377
  let c0_i32_256 : BitVec 32 := 0#32
  let c1_i32_258 : BitVec 32 := 1#32
  let arg11 : BitVec 32 := Scf.iv c0_i32_256 c1_i32_258 k0_t2
  let v521 : Index := Scalar.indexCast arg11
  let c32_378 : Index := 32#32
  ![0, 0, v521.toNat, 32]
def k0_off32 (k0_t2 : Fin k0_t2_loop.trips) : Fin 4 → Nat :=
  let c0_i32_382 : BitVec 32 := 0#32
  let v531 : Index := Scalar.indexCast c0_i32_382
  let c1_i32_383 : BitVec 32 := 1#32
  let v532 : Index := Scalar.indexCast c1_i32_383
  let c0_i32_256 : BitVec 32 := 0#32
  let c1_i32_258 : BitVec 32 := 1#32
  let arg11 : BitVec 32 := Scf.iv c0_i32_256 c1_i32_258 k0_t2
  let v533 : Index := Scalar.indexCast arg11
  let c32_384 : Index := 32#32
  ![0, 1, v533.toNat, 32]
def k0_off33 (k0_t2 : Fin k0_t2_loop.trips) : Fin 4 → Nat :=
  let c0_i32_388 : BitVec 32 := 0#32
  let v543 : Index := Scalar.indexCast c0_i32_388
  let c2_i32_389 : BitVec 32 := 2#32
  let v544 : Index := Scalar.indexCast c2_i32_389
  let c0_i32_256 : BitVec 32 := 0#32
  let c1_i32_258 : BitVec 32 := 1#32
  let arg11 : BitVec 32 := Scf.iv c0_i32_256 c1_i32_258 k0_t2
  let v545 : Index := Scalar.indexCast arg11
  let c32_390 : Index := 32#32
  ![0, 2, v545.toNat, 32]
def k0_off34 (k0_t2 : Fin k0_t2_loop.trips) : Fin 4 → Nat :=
  let c0_i32_394 : BitVec 32 := 0#32
  let v555 : Index := Scalar.indexCast c0_i32_394
  let c3_i32_395 : BitVec 32 := 3#32
  let v556 : Index := Scalar.indexCast c3_i32_395
  let c0_i32_256 : BitVec 32 := 0#32
  let c1_i32_258 : BitVec 32 := 1#32
  let arg11 : BitVec 32 := Scf.iv c0_i32_256 c1_i32_258 k0_t2
  let v557 : Index := Scalar.indexCast arg11
  let c32_396 : Index := 32#32
  ![0, 3, v557.toNat, 32]
def k0_off35 (k0_t2 : Fin k0_t2_loop.trips) : Fin 4 → Nat :=
  let c0_i32_400 : BitVec 32 := 0#32
  let v567 : Index := Scalar.indexCast c0_i32_400
  let c4_i32_401 : BitVec 32 := 4#32
  let v568 : Index := Scalar.indexCast c4_i32_401
  let c0_i32_256 : BitVec 32 := 0#32
  let c1_i32_258 : BitVec 32 := 1#32
  let arg11 : BitVec 32 := Scf.iv c0_i32_256 c1_i32_258 k0_t2
  let v569 : Index := Scalar.indexCast arg11
  let c32_402 : Index := 32#32
  ![0, 4, v569.toNat, 32]
def k0_off36 (k0_t2 : Fin k0_t2_loop.trips) : Fin 4 → Nat :=
  let c0_i32_406 : BitVec 32 := 0#32
  let v579 : Index := Scalar.indexCast c0_i32_406
  let c5_i32_407 : BitVec 32 := 5#32
  let v580 : Index := Scalar.indexCast c5_i32_407
  let c0_i32_256 : BitVec 32 := 0#32
  let c1_i32_258 : BitVec 32 := 1#32
  let arg11 : BitVec 32 := Scf.iv c0_i32_256 c1_i32_258 k0_t2
  let v581 : Index := Scalar.indexCast arg11
  let c32_408 : Index := 32#32
  ![0, 5, v581.toNat, 32]
def k0_off37 (k0_t2 : Fin k0_t2_loop.trips) : Fin 4 → Nat :=
  let c0_i32_412 : BitVec 32 := 0#32
  let v591 : Index := Scalar.indexCast c0_i32_412
  let c6_i32_413 : BitVec 32 := 6#32
  let v592 : Index := Scalar.indexCast c6_i32_413
  let c0_i32_256 : BitVec 32 := 0#32
  let c1_i32_258 : BitVec 32 := 1#32
  let arg11 : BitVec 32 := Scf.iv c0_i32_256 c1_i32_258 k0_t2
  let v593 : Index := Scalar.indexCast arg11
  let c32_414 : Index := 32#32
  ![0, 6, v593.toNat, 32]
def k0_off38 (k0_t2 : Fin k0_t2_loop.trips) : Fin 4 → Nat :=
  let c0_i32_418 : BitVec 32 := 0#32
  let v603 : Index := Scalar.indexCast c0_i32_418
  let c7_i32_419 : BitVec 32 := 7#32
  let v604 : Index := Scalar.indexCast c7_i32_419
  let c0_i32_256 : BitVec 32 := 0#32
  let c1_i32_258 : BitVec 32 := 1#32
  let arg11 : BitVec 32 := Scf.iv c0_i32_256 c1_i32_258 k0_t2
  let v605 : Index := Scalar.indexCast arg11
  let c32_420 : Index := 32#32
  ![0, 7, v605.toNat, 32]
def k0_off39 (k0_t2 : Fin k0_t2_loop.trips) : Fin 2 → Nat :=
  let c0_i32_256 : BitVec 32 := 0#32
  let c1_i32_258 : BitVec 32 := 1#32
  let arg11 : BitVec 32 := Scf.iv c0_i32_256 c1_i32_258 k0_t2
  let v615 : Index := Scalar.indexCast arg11
  let c48 : Index := 48#32
  ![v615.toNat, 48]
def k0_off40 (k0_t2 : Fin k0_t2_loop.trips) : Fin 4 → Nat :=
  let c0_i32_424 : BitVec 32 := 0#32
  let v618 : Index := Scalar.indexCast c0_i32_424
  let c0_i32_425 : BitVec 32 := 0#32
  let v619 : Index := Scalar.indexCast c0_i32_425
  let c0_i32_256 : BitVec 32 := 0#32
  let c1_i32_258 : BitVec 32 := 1#32
  let arg11 : BitVec 32 := Scf.iv c0_i32_256 c1_i32_258 k0_t2
  let v620 : Index := Scalar.indexCast arg11
  let c48_426 : Index := 48#32
  ![0, 0, v620.toNat, 48]
def k0_off41 (k0_t2 : Fin k0_t2_loop.trips) : Fin 4 → Nat :=
  let c0_i32_430 : BitVec 32 := 0#32
  let v630 : Index := Scalar.indexCast c0_i32_430
  let c1_i32_431 : BitVec 32 := 1#32
  let v631 : Index := Scalar.indexCast c1_i32_431
  let c0_i32_256 : BitVec 32 := 0#32
  let c1_i32_258 : BitVec 32 := 1#32
  let arg11 : BitVec 32 := Scf.iv c0_i32_256 c1_i32_258 k0_t2
  let v632 : Index := Scalar.indexCast arg11
  let c48_432 : Index := 48#32
  ![0, 1, v632.toNat, 48]
def k0_off42 (k0_t2 : Fin k0_t2_loop.trips) : Fin 4 → Nat :=
  let c0_i32_436 : BitVec 32 := 0#32
  let v642 : Index := Scalar.indexCast c0_i32_436
  let c2_i32_437 : BitVec 32 := 2#32
  let v643 : Index := Scalar.indexCast c2_i32_437
  let c0_i32_256 : BitVec 32 := 0#32
  let c1_i32_258 : BitVec 32 := 1#32
  let arg11 : BitVec 32 := Scf.iv c0_i32_256 c1_i32_258 k0_t2
  let v644 : Index := Scalar.indexCast arg11
  let c48_438 : Index := 48#32
  ![0, 2, v644.toNat, 48]
def k0_off43 (k0_t2 : Fin k0_t2_loop.trips) : Fin 4 → Nat :=
  let c0_i32_442 : BitVec 32 := 0#32
  let v654 : Index := Scalar.indexCast c0_i32_442
  let c3_i32_443 : BitVec 32 := 3#32
  let v655 : Index := Scalar.indexCast c3_i32_443
  let c0_i32_256 : BitVec 32 := 0#32
  let c1_i32_258 : BitVec 32 := 1#32
  let arg11 : BitVec 32 := Scf.iv c0_i32_256 c1_i32_258 k0_t2
  let v656 : Index := Scalar.indexCast arg11
  let c48_444 : Index := 48#32
  ![0, 3, v656.toNat, 48]
def k0_off44 (k0_t2 : Fin k0_t2_loop.trips) : Fin 4 → Nat :=
  let c0_i32_448 : BitVec 32 := 0#32
  let v666 : Index := Scalar.indexCast c0_i32_448
  let c4_i32_449 : BitVec 32 := 4#32
  let v667 : Index := Scalar.indexCast c4_i32_449
  let c0_i32_256 : BitVec 32 := 0#32
  let c1_i32_258 : BitVec 32 := 1#32
  let arg11 : BitVec 32 := Scf.iv c0_i32_256 c1_i32_258 k0_t2
  let v668 : Index := Scalar.indexCast arg11
  let c48_450 : Index := 48#32
  ![0, 4, v668.toNat, 48]
def k0_off45 (k0_t2 : Fin k0_t2_loop.trips) : Fin 4 → Nat :=
  let c0_i32_454 : BitVec 32 := 0#32
  let v678 : Index := Scalar.indexCast c0_i32_454
  let c5_i32_455 : BitVec 32 := 5#32
  let v679 : Index := Scalar.indexCast c5_i32_455
  let c0_i32_256 : BitVec 32 := 0#32
  let c1_i32_258 : BitVec 32 := 1#32
  let arg11 : BitVec 32 := Scf.iv c0_i32_256 c1_i32_258 k0_t2
  let v680 : Index := Scalar.indexCast arg11
  let c48_456 : Index := 48#32
  ![0, 5, v680.toNat, 48]
def k0_off46 (k0_t2 : Fin k0_t2_loop.trips) : Fin 4 → Nat :=
  let c0_i32_460 : BitVec 32 := 0#32
  let v690 : Index := Scalar.indexCast c0_i32_460
  let c6_i32_461 : BitVec 32 := 6#32
  let v691 : Index := Scalar.indexCast c6_i32_461
  let c0_i32_256 : BitVec 32 := 0#32
  let c1_i32_258 : BitVec 32 := 1#32
  let arg11 : BitVec 32 := Scf.iv c0_i32_256 c1_i32_258 k0_t2
  let v692 : Index := Scalar.indexCast arg11
  let c48_462 : Index := 48#32
  ![0, 6, v692.toNat, 48]
def k0_off47 (k0_t2 : Fin k0_t2_loop.trips) : Fin 4 → Nat :=
  let c0_i32_466 : BitVec 32 := 0#32
  let v702 : Index := Scalar.indexCast c0_i32_466
  let c7_i32_467 : BitVec 32 := 7#32
  let v703 : Index := Scalar.indexCast c7_i32_467
  let c0_i32_256 : BitVec 32 := 0#32
  let c1_i32_258 : BitVec 32 := 1#32
  let arg11 : BitVec 32 := Scf.iv c0_i32_256 c1_i32_258 k0_t2
  let v704 : Index := Scalar.indexCast arg11
  let c48_468 : Index := 48#32
  ![0, 7, v704.toNat, 48]
def k0_off48 (k0_t2 : Fin k0_t2_loop.trips) : Fin 2 → Nat :=
  let c0_i32_256 : BitVec 32 := 0#32
  let c1_i32_258 : BitVec 32 := 1#32
  let arg11 : BitVec 32 := Scf.iv c0_i32_256 c1_i32_258 k0_t2
  let v714 : Index := Scalar.indexCast arg11
  let c64 : Index := 64#32
  ![v714.toNat, 64]
def k0_off49 (k0_t2 : Fin k0_t2_loop.trips) : Fin 4 → Nat :=
  let c0_i32_472 : BitVec 32 := 0#32
  let v717 : Index := Scalar.indexCast c0_i32_472
  let c0_i32_473 : BitVec 32 := 0#32
  let v718 : Index := Scalar.indexCast c0_i32_473
  let c0_i32_256 : BitVec 32 := 0#32
  let c1_i32_258 : BitVec 32 := 1#32
  let arg11 : BitVec 32 := Scf.iv c0_i32_256 c1_i32_258 k0_t2
  let v719 : Index := Scalar.indexCast arg11
  let c64_474 : Index := 64#32
  ![0, 0, v719.toNat, 64]
def k0_off50 (k0_t2 : Fin k0_t2_loop.trips) : Fin 4 → Nat :=
  let c0_i32_478 : BitVec 32 := 0#32
  let v729 : Index := Scalar.indexCast c0_i32_478
  let c1_i32_479 : BitVec 32 := 1#32
  let v730 : Index := Scalar.indexCast c1_i32_479
  let c0_i32_256 : BitVec 32 := 0#32
  let c1_i32_258 : BitVec 32 := 1#32
  let arg11 : BitVec 32 := Scf.iv c0_i32_256 c1_i32_258 k0_t2
  let v731 : Index := Scalar.indexCast arg11
  let c64_480 : Index := 64#32
  ![0, 1, v731.toNat, 64]
def k0_off51 (k0_t2 : Fin k0_t2_loop.trips) : Fin 4 → Nat :=
  let c0_i32_484 : BitVec 32 := 0#32
  let v741 : Index := Scalar.indexCast c0_i32_484
  let c2_i32_485 : BitVec 32 := 2#32
  let v742 : Index := Scalar.indexCast c2_i32_485
  let c0_i32_256 : BitVec 32 := 0#32
  let c1_i32_258 : BitVec 32 := 1#32
  let arg11 : BitVec 32 := Scf.iv c0_i32_256 c1_i32_258 k0_t2
  let v743 : Index := Scalar.indexCast arg11
  let c64_486 : Index := 64#32
  ![0, 2, v743.toNat, 64]
def k0_off52 (k0_t2 : Fin k0_t2_loop.trips) : Fin 4 → Nat :=
  let c0_i32_490 : BitVec 32 := 0#32
  let v753 : Index := Scalar.indexCast c0_i32_490
  let c3_i32_491 : BitVec 32 := 3#32
  let v754 : Index := Scalar.indexCast c3_i32_491
  let c0_i32_256 : BitVec 32 := 0#32
  let c1_i32_258 : BitVec 32 := 1#32
  let arg11 : BitVec 32 := Scf.iv c0_i32_256 c1_i32_258 k0_t2
  let v755 : Index := Scalar.indexCast arg11
  let c64_492 : Index := 64#32
  ![0, 3, v755.toNat, 64]
def k0_off53 (k0_t2 : Fin k0_t2_loop.trips) : Fin 4 → Nat :=
  let c0_i32_496 : BitVec 32 := 0#32
  let v765 : Index := Scalar.indexCast c0_i32_496
  let c4_i32_497 : BitVec 32 := 4#32
  let v766 : Index := Scalar.indexCast c4_i32_497
  let c0_i32_256 : BitVec 32 := 0#32
  let c1_i32_258 : BitVec 32 := 1#32
  let arg11 : BitVec 32 := Scf.iv c0_i32_256 c1_i32_258 k0_t2
  let v767 : Index := Scalar.indexCast arg11
  let c64_498 : Index := 64#32
  ![0, 4, v767.toNat, 64]
def k0_off54 (k0_t2 : Fin k0_t2_loop.trips) : Fin 4 → Nat :=
  let c0_i32_502 : BitVec 32 := 0#32
  let v777 : Index := Scalar.indexCast c0_i32_502
  let c5_i32_503 : BitVec 32 := 5#32
  let v778 : Index := Scalar.indexCast c5_i32_503
  let c0_i32_256 : BitVec 32 := 0#32
  let c1_i32_258 : BitVec 32 := 1#32
  let arg11 : BitVec 32 := Scf.iv c0_i32_256 c1_i32_258 k0_t2
  let v779 : Index := Scalar.indexCast arg11
  let c64_504 : Index := 64#32
  ![0, 5, v779.toNat, 64]
def k0_off55 (k0_t2 : Fin k0_t2_loop.trips) : Fin 4 → Nat :=
  let c0_i32_508 : BitVec 32 := 0#32
  let v789 : Index := Scalar.indexCast c0_i32_508
  let c6_i32_509 : BitVec 32 := 6#32
  let v790 : Index := Scalar.indexCast c6_i32_509
  let c0_i32_256 : BitVec 32 := 0#32
  let c1_i32_258 : BitVec 32 := 1#32
  let arg11 : BitVec 32 := Scf.iv c0_i32_256 c1_i32_258 k0_t2
  let v791 : Index := Scalar.indexCast arg11
  let c64_510 : Index := 64#32
  ![0, 6, v791.toNat, 64]
def k0_off56 (k0_t2 : Fin k0_t2_loop.trips) : Fin 4 → Nat :=
  let c0_i32_514 : BitVec 32 := 0#32
  let v801 : Index := Scalar.indexCast c0_i32_514
  let c7_i32_515 : BitVec 32 := 7#32
  let v802 : Index := Scalar.indexCast c7_i32_515
  let c0_i32_256 : BitVec 32 := 0#32
  let c1_i32_258 : BitVec 32 := 1#32
  let arg11 : BitVec 32 := Scf.iv c0_i32_256 c1_i32_258 k0_t2
  let v803 : Index := Scalar.indexCast arg11
  let c64_516 : Index := 64#32
  ![0, 7, v803.toNat, 64]
def k0_off57 (k0_t2 : Fin k0_t2_loop.trips) : Fin 2 → Nat :=
  let c0_i32_256 : BitVec 32 := 0#32
  let c1_i32_258 : BitVec 32 := 1#32
  let arg11 : BitVec 32 := Scf.iv c0_i32_256 c1_i32_258 k0_t2
  let v813 : Index := Scalar.indexCast arg11
  let c80 : Index := 80#32
  ![v813.toNat, 80]
def k0_off58 (k0_t2 : Fin k0_t2_loop.trips) : Fin 4 → Nat :=
  let c0_i32_520 : BitVec 32 := 0#32
  let v816 : Index := Scalar.indexCast c0_i32_520
  let c0_i32_521 : BitVec 32 := 0#32
  let v817 : Index := Scalar.indexCast c0_i32_521
  let c0_i32_256 : BitVec 32 := 0#32
  let c1_i32_258 : BitVec 32 := 1#32
  let arg11 : BitVec 32 := Scf.iv c0_i32_256 c1_i32_258 k0_t2
  let v818 : Index := Scalar.indexCast arg11
  let c80_522 : Index := 80#32
  ![0, 0, v818.toNat, 80]
def k0_off59 (k0_t2 : Fin k0_t2_loop.trips) : Fin 4 → Nat :=
  let c0_i32_526 : BitVec 32 := 0#32
  let v828 : Index := Scalar.indexCast c0_i32_526
  let c1_i32_527 : BitVec 32 := 1#32
  let v829 : Index := Scalar.indexCast c1_i32_527
  let c0_i32_256 : BitVec 32 := 0#32
  let c1_i32_258 : BitVec 32 := 1#32
  let arg11 : BitVec 32 := Scf.iv c0_i32_256 c1_i32_258 k0_t2
  let v830 : Index := Scalar.indexCast arg11
  let c80_528 : Index := 80#32
  ![0, 1, v830.toNat, 80]
def k0_off60 (k0_t2 : Fin k0_t2_loop.trips) : Fin 4 → Nat :=
  let c0_i32_532 : BitVec 32 := 0#32
  let v840 : Index := Scalar.indexCast c0_i32_532
  let c2_i32_533 : BitVec 32 := 2#32
  let v841 : Index := Scalar.indexCast c2_i32_533
  let c0_i32_256 : BitVec 32 := 0#32
  let c1_i32_258 : BitVec 32 := 1#32
  let arg11 : BitVec 32 := Scf.iv c0_i32_256 c1_i32_258 k0_t2
  let v842 : Index := Scalar.indexCast arg11
  let c80_534 : Index := 80#32
  ![0, 2, v842.toNat, 80]
def k0_off61 (k0_t2 : Fin k0_t2_loop.trips) : Fin 4 → Nat :=
  let c0_i32_538 : BitVec 32 := 0#32
  let v852 : Index := Scalar.indexCast c0_i32_538
  let c3_i32_539 : BitVec 32 := 3#32
  let v853 : Index := Scalar.indexCast c3_i32_539
  let c0_i32_256 : BitVec 32 := 0#32
  let c1_i32_258 : BitVec 32 := 1#32
  let arg11 : BitVec 32 := Scf.iv c0_i32_256 c1_i32_258 k0_t2
  let v854 : Index := Scalar.indexCast arg11
  let c80_540 : Index := 80#32
  ![0, 3, v854.toNat, 80]
def k0_off62 (k0_t2 : Fin k0_t2_loop.trips) : Fin 4 → Nat :=
  let c0_i32_544 : BitVec 32 := 0#32
  let v864 : Index := Scalar.indexCast c0_i32_544
  let c4_i32_545 : BitVec 32 := 4#32
  let v865 : Index := Scalar.indexCast c4_i32_545
  let c0_i32_256 : BitVec 32 := 0#32
  let c1_i32_258 : BitVec 32 := 1#32
  let arg11 : BitVec 32 := Scf.iv c0_i32_256 c1_i32_258 k0_t2
  let v866 : Index := Scalar.indexCast arg11
  let c80_546 : Index := 80#32
  ![0, 4, v866.toNat, 80]
def k0_off63 (k0_t2 : Fin k0_t2_loop.trips) : Fin 4 → Nat :=
  let c0_i32_550 : BitVec 32 := 0#32
  let v876 : Index := Scalar.indexCast c0_i32_550
  let c5_i32_551 : BitVec 32 := 5#32
  let v877 : Index := Scalar.indexCast c5_i32_551
  let c0_i32_256 : BitVec 32 := 0#32
  let c1_i32_258 : BitVec 32 := 1#32
  let arg11 : BitVec 32 := Scf.iv c0_i32_256 c1_i32_258 k0_t2
  let v878 : Index := Scalar.indexCast arg11
  let c80_552 : Index := 80#32
  ![0, 5, v878.toNat, 80]
def k0_off64 (k0_t2 : Fin k0_t2_loop.trips) : Fin 4 → Nat :=
  let c0_i32_556 : BitVec 32 := 0#32
  let v888 : Index := Scalar.indexCast c0_i32_556
  let c6_i32_557 : BitVec 32 := 6#32
  let v889 : Index := Scalar.indexCast c6_i32_557
  let c0_i32_256 : BitVec 32 := 0#32
  let c1_i32_258 : BitVec 32 := 1#32
  let arg11 : BitVec 32 := Scf.iv c0_i32_256 c1_i32_258 k0_t2
  let v890 : Index := Scalar.indexCast arg11
  let c80_558 : Index := 80#32
  ![0, 6, v890.toNat, 80]
def k0_off65 (k0_t2 : Fin k0_t2_loop.trips) : Fin 4 → Nat :=
  let c0_i32_562 : BitVec 32 := 0#32
  let v900 : Index := Scalar.indexCast c0_i32_562
  let c7_i32_563 : BitVec 32 := 7#32
  let v901 : Index := Scalar.indexCast c7_i32_563
  let c0_i32_256 : BitVec 32 := 0#32
  let c1_i32_258 : BitVec 32 := 1#32
  let arg11 : BitVec 32 := Scf.iv c0_i32_256 c1_i32_258 k0_t2
  let v902 : Index := Scalar.indexCast arg11
  let c80_564 : Index := 80#32
  ![0, 7, v902.toNat, 80]
def k0_off66 (k0_t2 : Fin k0_t2_loop.trips) : Fin 2 → Nat :=
  let c0_i32_256 : BitVec 32 := 0#32
  let c1_i32_258 : BitVec 32 := 1#32
  let arg11 : BitVec 32 := Scf.iv c0_i32_256 c1_i32_258 k0_t2
  let v912 : Index := Scalar.indexCast arg11
  let c96 : Index := 96#32
  ![v912.toNat, 96]
def k0_off67 (k0_t2 : Fin k0_t2_loop.trips) : Fin 4 → Nat :=
  let c0_i32_568 : BitVec 32 := 0#32
  let v915 : Index := Scalar.indexCast c0_i32_568
  let c0_i32_569 : BitVec 32 := 0#32
  let v916 : Index := Scalar.indexCast c0_i32_569
  let c0_i32_256 : BitVec 32 := 0#32
  let c1_i32_258 : BitVec 32 := 1#32
  let arg11 : BitVec 32 := Scf.iv c0_i32_256 c1_i32_258 k0_t2
  let v917 : Index := Scalar.indexCast arg11
  let c96_570 : Index := 96#32
  ![0, 0, v917.toNat, 96]
def k0_off68 (k0_t2 : Fin k0_t2_loop.trips) : Fin 4 → Nat :=
  let c0_i32_574 : BitVec 32 := 0#32
  let v927 : Index := Scalar.indexCast c0_i32_574
  let c1_i32_575 : BitVec 32 := 1#32
  let v928 : Index := Scalar.indexCast c1_i32_575
  let c0_i32_256 : BitVec 32 := 0#32
  let c1_i32_258 : BitVec 32 := 1#32
  let arg11 : BitVec 32 := Scf.iv c0_i32_256 c1_i32_258 k0_t2
  let v929 : Index := Scalar.indexCast arg11
  let c96_576 : Index := 96#32
  ![0, 1, v929.toNat, 96]
def k0_off69 (k0_t2 : Fin k0_t2_loop.trips) : Fin 4 → Nat :=
  let c0_i32_580 : BitVec 32 := 0#32
  let v939 : Index := Scalar.indexCast c0_i32_580
  let c2_i32_581 : BitVec 32 := 2#32
  let v940 : Index := Scalar.indexCast c2_i32_581
  let c0_i32_256 : BitVec 32 := 0#32
  let c1_i32_258 : BitVec 32 := 1#32
  let arg11 : BitVec 32 := Scf.iv c0_i32_256 c1_i32_258 k0_t2
  let v941 : Index := Scalar.indexCast arg11
  let c96_582 : Index := 96#32
  ![0, 2, v941.toNat, 96]
def k0_off70 (k0_t2 : Fin k0_t2_loop.trips) : Fin 4 → Nat :=
  let c0_i32_586 : BitVec 32 := 0#32
  let v951 : Index := Scalar.indexCast c0_i32_586
  let c3_i32_587 : BitVec 32 := 3#32
  let v952 : Index := Scalar.indexCast c3_i32_587
  let c0_i32_256 : BitVec 32 := 0#32
  let c1_i32_258 : BitVec 32 := 1#32
  let arg11 : BitVec 32 := Scf.iv c0_i32_256 c1_i32_258 k0_t2
  let v953 : Index := Scalar.indexCast arg11
  let c96_588 : Index := 96#32
  ![0, 3, v953.toNat, 96]
def k0_off71 (k0_t2 : Fin k0_t2_loop.trips) : Fin 4 → Nat :=
  let c0_i32_592 : BitVec 32 := 0#32
  let v963 : Index := Scalar.indexCast c0_i32_592
  let c4_i32_593 : BitVec 32 := 4#32
  let v964 : Index := Scalar.indexCast c4_i32_593
  let c0_i32_256 : BitVec 32 := 0#32
  let c1_i32_258 : BitVec 32 := 1#32
  let arg11 : BitVec 32 := Scf.iv c0_i32_256 c1_i32_258 k0_t2
  let v965 : Index := Scalar.indexCast arg11
  let c96_594 : Index := 96#32
  ![0, 4, v965.toNat, 96]
def k0_off72 (k0_t2 : Fin k0_t2_loop.trips) : Fin 4 → Nat :=
  let c0_i32_598 : BitVec 32 := 0#32
  let v975 : Index := Scalar.indexCast c0_i32_598
  let c5_i32_599 : BitVec 32 := 5#32
  let v976 : Index := Scalar.indexCast c5_i32_599
  let c0_i32_256 : BitVec 32 := 0#32
  let c1_i32_258 : BitVec 32 := 1#32
  let arg11 : BitVec 32 := Scf.iv c0_i32_256 c1_i32_258 k0_t2
  let v977 : Index := Scalar.indexCast arg11
  let c96_600 : Index := 96#32
  ![0, 5, v977.toNat, 96]
def k0_off73 (k0_t2 : Fin k0_t2_loop.trips) : Fin 4 → Nat :=
  let c0_i32_604 : BitVec 32 := 0#32
  let v987 : Index := Scalar.indexCast c0_i32_604
  let c6_i32_605 : BitVec 32 := 6#32
  let v988 : Index := Scalar.indexCast c6_i32_605
  let c0_i32_256 : BitVec 32 := 0#32
  let c1_i32_258 : BitVec 32 := 1#32
  let arg11 : BitVec 32 := Scf.iv c0_i32_256 c1_i32_258 k0_t2
  let v989 : Index := Scalar.indexCast arg11
  let c96_606 : Index := 96#32
  ![0, 6, v989.toNat, 96]
def k0_off74 (k0_t2 : Fin k0_t2_loop.trips) : Fin 4 → Nat :=
  let c0_i32_610 : BitVec 32 := 0#32
  let v999 : Index := Scalar.indexCast c0_i32_610
  let c7_i32_611 : BitVec 32 := 7#32
  let v1000 : Index := Scalar.indexCast c7_i32_611
  let c0_i32_256 : BitVec 32 := 0#32
  let c1_i32_258 : BitVec 32 := 1#32
  let arg11 : BitVec 32 := Scf.iv c0_i32_256 c1_i32_258 k0_t2
  let v1001 : Index := Scalar.indexCast arg11
  let c96_612 : Index := 96#32
  ![0, 7, v1001.toNat, 96]
def k0_off75 (k0_t2 : Fin k0_t2_loop.trips) : Fin 2 → Nat :=
  let c0_i32_256 : BitVec 32 := 0#32
  let c1_i32_258 : BitVec 32 := 1#32
  let arg11 : BitVec 32 := Scf.iv c0_i32_256 c1_i32_258 k0_t2
  let v1011 : Index := Scalar.indexCast arg11
  let c112 : Index := 112#32
  ![v1011.toNat, 112]
def k0_off76 (k0_t2 : Fin k0_t2_loop.trips) : Fin 4 → Nat :=
  let c0_i32_616 : BitVec 32 := 0#32
  let v1014 : Index := Scalar.indexCast c0_i32_616
  let c0_i32_617 : BitVec 32 := 0#32
  let v1015 : Index := Scalar.indexCast c0_i32_617
  let c0_i32_256 : BitVec 32 := 0#32
  let c1_i32_258 : BitVec 32 := 1#32
  let arg11 : BitVec 32 := Scf.iv c0_i32_256 c1_i32_258 k0_t2
  let v1016 : Index := Scalar.indexCast arg11
  let c112_618 : Index := 112#32
  ![0, 0, v1016.toNat, 112]
def k0_off77 (k0_t2 : Fin k0_t2_loop.trips) : Fin 4 → Nat :=
  let c0_i32_622 : BitVec 32 := 0#32
  let v1026 : Index := Scalar.indexCast c0_i32_622
  let c1_i32_623 : BitVec 32 := 1#32
  let v1027 : Index := Scalar.indexCast c1_i32_623
  let c0_i32_256 : BitVec 32 := 0#32
  let c1_i32_258 : BitVec 32 := 1#32
  let arg11 : BitVec 32 := Scf.iv c0_i32_256 c1_i32_258 k0_t2
  let v1028 : Index := Scalar.indexCast arg11
  let c112_624 : Index := 112#32
  ![0, 1, v1028.toNat, 112]
def k0_off78 (k0_t2 : Fin k0_t2_loop.trips) : Fin 4 → Nat :=
  let c0_i32_628 : BitVec 32 := 0#32
  let v1038 : Index := Scalar.indexCast c0_i32_628
  let c2_i32_629 : BitVec 32 := 2#32
  let v1039 : Index := Scalar.indexCast c2_i32_629
  let c0_i32_256 : BitVec 32 := 0#32
  let c1_i32_258 : BitVec 32 := 1#32
  let arg11 : BitVec 32 := Scf.iv c0_i32_256 c1_i32_258 k0_t2
  let v1040 : Index := Scalar.indexCast arg11
  let c112_630 : Index := 112#32
  ![0, 2, v1040.toNat, 112]
def k0_off79 (k0_t2 : Fin k0_t2_loop.trips) : Fin 4 → Nat :=
  let c0_i32_634 : BitVec 32 := 0#32
  let v1050 : Index := Scalar.indexCast c0_i32_634
  let c3_i32_635 : BitVec 32 := 3#32
  let v1051 : Index := Scalar.indexCast c3_i32_635
  let c0_i32_256 : BitVec 32 := 0#32
  let c1_i32_258 : BitVec 32 := 1#32
  let arg11 : BitVec 32 := Scf.iv c0_i32_256 c1_i32_258 k0_t2
  let v1052 : Index := Scalar.indexCast arg11
  let c112_636 : Index := 112#32
  ![0, 3, v1052.toNat, 112]
def k0_off80 (k0_t2 : Fin k0_t2_loop.trips) : Fin 4 → Nat :=
  let c0_i32_640 : BitVec 32 := 0#32
  let v1062 : Index := Scalar.indexCast c0_i32_640
  let c4_i32_641 : BitVec 32 := 4#32
  let v1063 : Index := Scalar.indexCast c4_i32_641
  let c0_i32_256 : BitVec 32 := 0#32
  let c1_i32_258 : BitVec 32 := 1#32
  let arg11 : BitVec 32 := Scf.iv c0_i32_256 c1_i32_258 k0_t2
  let v1064 : Index := Scalar.indexCast arg11
  let c112_642 : Index := 112#32
  ![0, 4, v1064.toNat, 112]
def k0_off81 (k0_t2 : Fin k0_t2_loop.trips) : Fin 4 → Nat :=
  let c0_i32_646 : BitVec 32 := 0#32
  let v1074 : Index := Scalar.indexCast c0_i32_646
  let c5_i32_647 : BitVec 32 := 5#32
  let v1075 : Index := Scalar.indexCast c5_i32_647
  let c0_i32_256 : BitVec 32 := 0#32
  let c1_i32_258 : BitVec 32 := 1#32
  let arg11 : BitVec 32 := Scf.iv c0_i32_256 c1_i32_258 k0_t2
  let v1076 : Index := Scalar.indexCast arg11
  let c112_648 : Index := 112#32
  ![0, 5, v1076.toNat, 112]
def k0_off82 (k0_t2 : Fin k0_t2_loop.trips) : Fin 4 → Nat :=
  let c0_i32_652 : BitVec 32 := 0#32
  let v1086 : Index := Scalar.indexCast c0_i32_652
  let c6_i32_653 : BitVec 32 := 6#32
  let v1087 : Index := Scalar.indexCast c6_i32_653
  let c0_i32_256 : BitVec 32 := 0#32
  let c1_i32_258 : BitVec 32 := 1#32
  let arg11 : BitVec 32 := Scf.iv c0_i32_256 c1_i32_258 k0_t2
  let v1088 : Index := Scalar.indexCast arg11
  let c112_654 : Index := 112#32
  ![0, 6, v1088.toNat, 112]
def k0_off83 (k0_t2 : Fin k0_t2_loop.trips) : Fin 4 → Nat :=
  let c0_i32_658 : BitVec 32 := 0#32
  let v1098 : Index := Scalar.indexCast c0_i32_658
  let c7_i32_659 : BitVec 32 := 7#32
  let v1099 : Index := Scalar.indexCast c7_i32_659
  let c0_i32_256 : BitVec 32 := 0#32
  let c1_i32_258 : BitVec 32 := 1#32
  let arg11 : BitVec 32 := Scf.iv c0_i32_256 c1_i32_258 k0_t2
  let v1100 : Index := Scalar.indexCast arg11
  let c112_660 : Index := 112#32
  ![0, 7, v1100.toNat, 112]
def k0_off84 (k0_t2 : Fin k0_t2_loop.trips) : Fin 2 → Nat :=
  let c0_i32_256 : BitVec 32 := 0#32
  let c1_i32_258 : BitVec 32 := 1#32
  let arg11 : BitVec 32 := Scf.iv c0_i32_256 c1_i32_258 k0_t2
  let v1110 : Index := Scalar.indexCast arg11
  let c128 : Index := 128#32
  ![v1110.toNat, 128]
def k0_off85 (k0_t2 : Fin k0_t2_loop.trips) : Fin 4 → Nat :=
  let c0_i32_664 : BitVec 32 := 0#32
  let v1113 : Index := Scalar.indexCast c0_i32_664
  let c0_i32_665 : BitVec 32 := 0#32
  let v1114 : Index := Scalar.indexCast c0_i32_665
  let c0_i32_256 : BitVec 32 := 0#32
  let c1_i32_258 : BitVec 32 := 1#32
  let arg11 : BitVec 32 := Scf.iv c0_i32_256 c1_i32_258 k0_t2
  let v1115 : Index := Scalar.indexCast arg11
  let c128_666 : Index := 128#32
  ![0, 0, v1115.toNat, 128]
def k0_off86 (k0_t2 : Fin k0_t2_loop.trips) : Fin 4 → Nat :=
  let c0_i32_670 : BitVec 32 := 0#32
  let v1125 : Index := Scalar.indexCast c0_i32_670
  let c1_i32_671 : BitVec 32 := 1#32
  let v1126 : Index := Scalar.indexCast c1_i32_671
  let c0_i32_256 : BitVec 32 := 0#32
  let c1_i32_258 : BitVec 32 := 1#32
  let arg11 : BitVec 32 := Scf.iv c0_i32_256 c1_i32_258 k0_t2
  let v1127 : Index := Scalar.indexCast arg11
  let c128_672 : Index := 128#32
  ![0, 1, v1127.toNat, 128]
def k0_off87 (k0_t2 : Fin k0_t2_loop.trips) : Fin 4 → Nat :=
  let c0_i32_676 : BitVec 32 := 0#32
  let v1137 : Index := Scalar.indexCast c0_i32_676
  let c2_i32_677 : BitVec 32 := 2#32
  let v1138 : Index := Scalar.indexCast c2_i32_677
  let c0_i32_256 : BitVec 32 := 0#32
  let c1_i32_258 : BitVec 32 := 1#32
  let arg11 : BitVec 32 := Scf.iv c0_i32_256 c1_i32_258 k0_t2
  let v1139 : Index := Scalar.indexCast arg11
  let c128_678 : Index := 128#32
  ![0, 2, v1139.toNat, 128]
def k0_off88 (k0_t2 : Fin k0_t2_loop.trips) : Fin 4 → Nat :=
  let c0_i32_682 : BitVec 32 := 0#32
  let v1149 : Index := Scalar.indexCast c0_i32_682
  let c3_i32_683 : BitVec 32 := 3#32
  let v1150 : Index := Scalar.indexCast c3_i32_683
  let c0_i32_256 : BitVec 32 := 0#32
  let c1_i32_258 : BitVec 32 := 1#32
  let arg11 : BitVec 32 := Scf.iv c0_i32_256 c1_i32_258 k0_t2
  let v1151 : Index := Scalar.indexCast arg11
  let c128_684 : Index := 128#32
  ![0, 3, v1151.toNat, 128]
def k0_off89 (k0_t2 : Fin k0_t2_loop.trips) : Fin 4 → Nat :=
  let c0_i32_688 : BitVec 32 := 0#32
  let v1161 : Index := Scalar.indexCast c0_i32_688
  let c4_i32_689 : BitVec 32 := 4#32
  let v1162 : Index := Scalar.indexCast c4_i32_689
  let c0_i32_256 : BitVec 32 := 0#32
  let c1_i32_258 : BitVec 32 := 1#32
  let arg11 : BitVec 32 := Scf.iv c0_i32_256 c1_i32_258 k0_t2
  let v1163 : Index := Scalar.indexCast arg11
  let c128_690 : Index := 128#32
  ![0, 4, v1163.toNat, 128]
def k0_off90 (k0_t2 : Fin k0_t2_loop.trips) : Fin 4 → Nat :=
  let c0_i32_694 : BitVec 32 := 0#32
  let v1173 : Index := Scalar.indexCast c0_i32_694
  let c5_i32_695 : BitVec 32 := 5#32
  let v1174 : Index := Scalar.indexCast c5_i32_695
  let c0_i32_256 : BitVec 32 := 0#32
  let c1_i32_258 : BitVec 32 := 1#32
  let arg11 : BitVec 32 := Scf.iv c0_i32_256 c1_i32_258 k0_t2
  let v1175 : Index := Scalar.indexCast arg11
  let c128_696 : Index := 128#32
  ![0, 5, v1175.toNat, 128]
def k0_off91 (k0_t2 : Fin k0_t2_loop.trips) : Fin 4 → Nat :=
  let c0_i32_700 : BitVec 32 := 0#32
  let v1185 : Index := Scalar.indexCast c0_i32_700
  let c6_i32_701 : BitVec 32 := 6#32
  let v1186 : Index := Scalar.indexCast c6_i32_701
  let c0_i32_256 : BitVec 32 := 0#32
  let c1_i32_258 : BitVec 32 := 1#32
  let arg11 : BitVec 32 := Scf.iv c0_i32_256 c1_i32_258 k0_t2
  let v1187 : Index := Scalar.indexCast arg11
  let c128_702 : Index := 128#32
  ![0, 6, v1187.toNat, 128]
def k0_off92 (k0_t2 : Fin k0_t2_loop.trips) : Fin 4 → Nat :=
  let c0_i32_706 : BitVec 32 := 0#32
  let v1197 : Index := Scalar.indexCast c0_i32_706
  let c7_i32_707 : BitVec 32 := 7#32
  let v1198 : Index := Scalar.indexCast c7_i32_707
  let c0_i32_256 : BitVec 32 := 0#32
  let c1_i32_258 : BitVec 32 := 1#32
  let arg11 : BitVec 32 := Scf.iv c0_i32_256 c1_i32_258 k0_t2
  let v1199 : Index := Scalar.indexCast arg11
  let c128_708 : Index := 128#32
  ![0, 7, v1199.toNat, 128]
def k0_off93 (k0_t2 : Fin k0_t2_loop.trips) : Fin 2 → Nat :=
  let c0_i32_256 : BitVec 32 := 0#32
  let c1_i32_258 : BitVec 32 := 1#32
  let arg11 : BitVec 32 := Scf.iv c0_i32_256 c1_i32_258 k0_t2
  let v1209 : Index := Scalar.indexCast arg11
  let c144 : Index := 144#32
  ![v1209.toNat, 144]
def k0_off94 (k0_t2 : Fin k0_t2_loop.trips) : Fin 4 → Nat :=
  let c0_i32_712 : BitVec 32 := 0#32
  let v1212 : Index := Scalar.indexCast c0_i32_712
  let c0_i32_713 : BitVec 32 := 0#32
  let v1213 : Index := Scalar.indexCast c0_i32_713
  let c0_i32_256 : BitVec 32 := 0#32
  let c1_i32_258 : BitVec 32 := 1#32
  let arg11 : BitVec 32 := Scf.iv c0_i32_256 c1_i32_258 k0_t2
  let v1214 : Index := Scalar.indexCast arg11
  let c144_714 : Index := 144#32
  ![0, 0, v1214.toNat, 144]
def k0_off95 (k0_t2 : Fin k0_t2_loop.trips) : Fin 4 → Nat :=
  let c0_i32_718 : BitVec 32 := 0#32
  let v1224 : Index := Scalar.indexCast c0_i32_718
  let c1_i32_719 : BitVec 32 := 1#32
  let v1225 : Index := Scalar.indexCast c1_i32_719
  let c0_i32_256 : BitVec 32 := 0#32
  let c1_i32_258 : BitVec 32 := 1#32
  let arg11 : BitVec 32 := Scf.iv c0_i32_256 c1_i32_258 k0_t2
  let v1226 : Index := Scalar.indexCast arg11
  let c144_720 : Index := 144#32
  ![0, 1, v1226.toNat, 144]
def k0_off96 (k0_t2 : Fin k0_t2_loop.trips) : Fin 4 → Nat :=
  let c0_i32_724 : BitVec 32 := 0#32
  let v1236 : Index := Scalar.indexCast c0_i32_724
  let c2_i32_725 : BitVec 32 := 2#32
  let v1237 : Index := Scalar.indexCast c2_i32_725
  let c0_i32_256 : BitVec 32 := 0#32
  let c1_i32_258 : BitVec 32 := 1#32
  let arg11 : BitVec 32 := Scf.iv c0_i32_256 c1_i32_258 k0_t2
  let v1238 : Index := Scalar.indexCast arg11
  let c144_726 : Index := 144#32
  ![0, 2, v1238.toNat, 144]
def k0_off97 (k0_t2 : Fin k0_t2_loop.trips) : Fin 4 → Nat :=
  let c0_i32_730 : BitVec 32 := 0#32
  let v1248 : Index := Scalar.indexCast c0_i32_730
  let c3_i32_731 : BitVec 32 := 3#32
  let v1249 : Index := Scalar.indexCast c3_i32_731
  let c0_i32_256 : BitVec 32 := 0#32
  let c1_i32_258 : BitVec 32 := 1#32
  let arg11 : BitVec 32 := Scf.iv c0_i32_256 c1_i32_258 k0_t2
  let v1250 : Index := Scalar.indexCast arg11
  let c144_732 : Index := 144#32
  ![0, 3, v1250.toNat, 144]
def k0_off98 (k0_t2 : Fin k0_t2_loop.trips) : Fin 4 → Nat :=
  let c0_i32_736 : BitVec 32 := 0#32
  let v1260 : Index := Scalar.indexCast c0_i32_736
  let c4_i32_737 : BitVec 32 := 4#32
  let v1261 : Index := Scalar.indexCast c4_i32_737
  let c0_i32_256 : BitVec 32 := 0#32
  let c1_i32_258 : BitVec 32 := 1#32
  let arg11 : BitVec 32 := Scf.iv c0_i32_256 c1_i32_258 k0_t2
  let v1262 : Index := Scalar.indexCast arg11
  let c144_738 : Index := 144#32
  ![0, 4, v1262.toNat, 144]
def k0_off99 (k0_t2 : Fin k0_t2_loop.trips) : Fin 4 → Nat :=
  let c0_i32_742 : BitVec 32 := 0#32
  let v1272 : Index := Scalar.indexCast c0_i32_742
  let c5_i32_743 : BitVec 32 := 5#32
  let v1273 : Index := Scalar.indexCast c5_i32_743
  let c0_i32_256 : BitVec 32 := 0#32
  let c1_i32_258 : BitVec 32 := 1#32
  let arg11 : BitVec 32 := Scf.iv c0_i32_256 c1_i32_258 k0_t2
  let v1274 : Index := Scalar.indexCast arg11
  let c144_744 : Index := 144#32
  ![0, 5, v1274.toNat, 144]
def k0_off100 (k0_t2 : Fin k0_t2_loop.trips) : Fin 4 → Nat :=
  let c0_i32_748 : BitVec 32 := 0#32
  let v1284 : Index := Scalar.indexCast c0_i32_748
  let c6_i32_749 : BitVec 32 := 6#32
  let v1285 : Index := Scalar.indexCast c6_i32_749
  let c0_i32_256 : BitVec 32 := 0#32
  let c1_i32_258 : BitVec 32 := 1#32
  let arg11 : BitVec 32 := Scf.iv c0_i32_256 c1_i32_258 k0_t2
  let v1286 : Index := Scalar.indexCast arg11
  let c144_750 : Index := 144#32
  ![0, 6, v1286.toNat, 144]
def k0_off101 (k0_t2 : Fin k0_t2_loop.trips) : Fin 4 → Nat :=
  let c0_i32_754 : BitVec 32 := 0#32
  let v1296 : Index := Scalar.indexCast c0_i32_754
  let c7_i32_755 : BitVec 32 := 7#32
  let v1297 : Index := Scalar.indexCast c7_i32_755
  let c0_i32_256 : BitVec 32 := 0#32
  let c1_i32_258 : BitVec 32 := 1#32
  let arg11 : BitVec 32 := Scf.iv c0_i32_256 c1_i32_258 k0_t2
  let v1298 : Index := Scalar.indexCast arg11
  let c144_756 : Index := 144#32
  ![0, 7, v1298.toNat, 144]
def k0_off102 (k0_t2 : Fin k0_t2_loop.trips) : Fin 2 → Nat :=
  let c0_i32_256 : BitVec 32 := 0#32
  let c1_i32_258 : BitVec 32 := 1#32
  let arg11 : BitVec 32 := Scf.iv c0_i32_256 c1_i32_258 k0_t2
  let v1308 : Index := Scalar.indexCast arg11
  let c160 : Index := 160#32
  ![v1308.toNat, 160]
def k0_off103 (k0_t2 : Fin k0_t2_loop.trips) : Fin 4 → Nat :=
  let c0_i32_760 : BitVec 32 := 0#32
  let v1311 : Index := Scalar.indexCast c0_i32_760
  let c0_i32_761 : BitVec 32 := 0#32
  let v1312 : Index := Scalar.indexCast c0_i32_761
  let c0_i32_256 : BitVec 32 := 0#32
  let c1_i32_258 : BitVec 32 := 1#32
  let arg11 : BitVec 32 := Scf.iv c0_i32_256 c1_i32_258 k0_t2
  let v1313 : Index := Scalar.indexCast arg11
  let c160_762 : Index := 160#32
  ![0, 0, v1313.toNat, 160]
def k0_off104 (k0_t2 : Fin k0_t2_loop.trips) : Fin 4 → Nat :=
  let c0_i32_766 : BitVec 32 := 0#32
  let v1323 : Index := Scalar.indexCast c0_i32_766
  let c1_i32_767 : BitVec 32 := 1#32
  let v1324 : Index := Scalar.indexCast c1_i32_767
  let c0_i32_256 : BitVec 32 := 0#32
  let c1_i32_258 : BitVec 32 := 1#32
  let arg11 : BitVec 32 := Scf.iv c0_i32_256 c1_i32_258 k0_t2
  let v1325 : Index := Scalar.indexCast arg11
  let c160_768 : Index := 160#32
  ![0, 1, v1325.toNat, 160]
def k0_off105 (k0_t2 : Fin k0_t2_loop.trips) : Fin 4 → Nat :=
  let c0_i32_772 : BitVec 32 := 0#32
  let v1335 : Index := Scalar.indexCast c0_i32_772
  let c2_i32_773 : BitVec 32 := 2#32
  let v1336 : Index := Scalar.indexCast c2_i32_773
  let c0_i32_256 : BitVec 32 := 0#32
  let c1_i32_258 : BitVec 32 := 1#32
  let arg11 : BitVec 32 := Scf.iv c0_i32_256 c1_i32_258 k0_t2
  let v1337 : Index := Scalar.indexCast arg11
  let c160_774 : Index := 160#32
  ![0, 2, v1337.toNat, 160]
def k0_off106 (k0_t2 : Fin k0_t2_loop.trips) : Fin 4 → Nat :=
  let c0_i32_778 : BitVec 32 := 0#32
  let v1347 : Index := Scalar.indexCast c0_i32_778
  let c3_i32_779 : BitVec 32 := 3#32
  let v1348 : Index := Scalar.indexCast c3_i32_779
  let c0_i32_256 : BitVec 32 := 0#32
  let c1_i32_258 : BitVec 32 := 1#32
  let arg11 : BitVec 32 := Scf.iv c0_i32_256 c1_i32_258 k0_t2
  let v1349 : Index := Scalar.indexCast arg11
  let c160_780 : Index := 160#32
  ![0, 3, v1349.toNat, 160]
def k0_off107 (k0_t2 : Fin k0_t2_loop.trips) : Fin 4 → Nat :=
  let c0_i32_784 : BitVec 32 := 0#32
  let v1359 : Index := Scalar.indexCast c0_i32_784
  let c4_i32_785 : BitVec 32 := 4#32
  let v1360 : Index := Scalar.indexCast c4_i32_785
  let c0_i32_256 : BitVec 32 := 0#32
  let c1_i32_258 : BitVec 32 := 1#32
  let arg11 : BitVec 32 := Scf.iv c0_i32_256 c1_i32_258 k0_t2
  let v1361 : Index := Scalar.indexCast arg11
  let c160_786 : Index := 160#32
  ![0, 4, v1361.toNat, 160]
def k0_off108 (k0_t2 : Fin k0_t2_loop.trips) : Fin 4 → Nat :=
  let c0_i32_790 : BitVec 32 := 0#32
  let v1371 : Index := Scalar.indexCast c0_i32_790
  let c5_i32_791 : BitVec 32 := 5#32
  let v1372 : Index := Scalar.indexCast c5_i32_791
  let c0_i32_256 : BitVec 32 := 0#32
  let c1_i32_258 : BitVec 32 := 1#32
  let arg11 : BitVec 32 := Scf.iv c0_i32_256 c1_i32_258 k0_t2
  let v1373 : Index := Scalar.indexCast arg11
  let c160_792 : Index := 160#32
  ![0, 5, v1373.toNat, 160]
def k0_off109 (k0_t2 : Fin k0_t2_loop.trips) : Fin 4 → Nat :=
  let c0_i32_796 : BitVec 32 := 0#32
  let v1383 : Index := Scalar.indexCast c0_i32_796
  let c6_i32_797 : BitVec 32 := 6#32
  let v1384 : Index := Scalar.indexCast c6_i32_797
  let c0_i32_256 : BitVec 32 := 0#32
  let c1_i32_258 : BitVec 32 := 1#32
  let arg11 : BitVec 32 := Scf.iv c0_i32_256 c1_i32_258 k0_t2
  let v1385 : Index := Scalar.indexCast arg11
  let c160_798 : Index := 160#32
  ![0, 6, v1385.toNat, 160]
def k0_off110 (k0_t2 : Fin k0_t2_loop.trips) : Fin 4 → Nat :=
  let c0_i32_802 : BitVec 32 := 0#32
  let v1395 : Index := Scalar.indexCast c0_i32_802
  let c7_i32_803 : BitVec 32 := 7#32
  let v1396 : Index := Scalar.indexCast c7_i32_803
  let c0_i32_256 : BitVec 32 := 0#32
  let c1_i32_258 : BitVec 32 := 1#32
  let arg11 : BitVec 32 := Scf.iv c0_i32_256 c1_i32_258 k0_t2
  let v1397 : Index := Scalar.indexCast arg11
  let c160_804 : Index := 160#32
  ![0, 7, v1397.toNat, 160]
def k0_off111 (k0_t2 : Fin k0_t2_loop.trips) : Fin 2 → Nat :=
  let c0_i32_256 : BitVec 32 := 0#32
  let c1_i32_258 : BitVec 32 := 1#32
  let arg11 : BitVec 32 := Scf.iv c0_i32_256 c1_i32_258 k0_t2
  let v1407 : Index := Scalar.indexCast arg11
  let c176 : Index := 176#32
  ![v1407.toNat, 176]
def k0_off112 (k0_t2 : Fin k0_t2_loop.trips) : Fin 4 → Nat :=
  let c0_i32_808 : BitVec 32 := 0#32
  let v1410 : Index := Scalar.indexCast c0_i32_808
  let c0_i32_809 : BitVec 32 := 0#32
  let v1411 : Index := Scalar.indexCast c0_i32_809
  let c0_i32_256 : BitVec 32 := 0#32
  let c1_i32_258 : BitVec 32 := 1#32
  let arg11 : BitVec 32 := Scf.iv c0_i32_256 c1_i32_258 k0_t2
  let v1412 : Index := Scalar.indexCast arg11
  let c176_810 : Index := 176#32
  ![0, 0, v1412.toNat, 176]
def k0_off113 (k0_t2 : Fin k0_t2_loop.trips) : Fin 4 → Nat :=
  let c0_i32_814 : BitVec 32 := 0#32
  let v1422 : Index := Scalar.indexCast c0_i32_814
  let c1_i32_815 : BitVec 32 := 1#32
  let v1423 : Index := Scalar.indexCast c1_i32_815
  let c0_i32_256 : BitVec 32 := 0#32
  let c1_i32_258 : BitVec 32 := 1#32
  let arg11 : BitVec 32 := Scf.iv c0_i32_256 c1_i32_258 k0_t2
  let v1424 : Index := Scalar.indexCast arg11
  let c176_816 : Index := 176#32
  ![0, 1, v1424.toNat, 176]
def k0_off114 (k0_t2 : Fin k0_t2_loop.trips) : Fin 4 → Nat :=
  let c0_i32_820 : BitVec 32 := 0#32
  let v1434 : Index := Scalar.indexCast c0_i32_820
  let c2_i32_821 : BitVec 32 := 2#32
  let v1435 : Index := Scalar.indexCast c2_i32_821
  let c0_i32_256 : BitVec 32 := 0#32
  let c1_i32_258 : BitVec 32 := 1#32
  let arg11 : BitVec 32 := Scf.iv c0_i32_256 c1_i32_258 k0_t2
  let v1436 : Index := Scalar.indexCast arg11
  let c176_822 : Index := 176#32
  ![0, 2, v1436.toNat, 176]
def k0_off115 (k0_t2 : Fin k0_t2_loop.trips) : Fin 4 → Nat :=
  let c0_i32_826 : BitVec 32 := 0#32
  let v1446 : Index := Scalar.indexCast c0_i32_826
  let c3_i32_827 : BitVec 32 := 3#32
  let v1447 : Index := Scalar.indexCast c3_i32_827
  let c0_i32_256 : BitVec 32 := 0#32
  let c1_i32_258 : BitVec 32 := 1#32
  let arg11 : BitVec 32 := Scf.iv c0_i32_256 c1_i32_258 k0_t2
  let v1448 : Index := Scalar.indexCast arg11
  let c176_828 : Index := 176#32
  ![0, 3, v1448.toNat, 176]
def k0_off116 (k0_t2 : Fin k0_t2_loop.trips) : Fin 4 → Nat :=
  let c0_i32_832 : BitVec 32 := 0#32
  let v1458 : Index := Scalar.indexCast c0_i32_832
  let c4_i32_833 : BitVec 32 := 4#32
  let v1459 : Index := Scalar.indexCast c4_i32_833
  let c0_i32_256 : BitVec 32 := 0#32
  let c1_i32_258 : BitVec 32 := 1#32
  let arg11 : BitVec 32 := Scf.iv c0_i32_256 c1_i32_258 k0_t2
  let v1460 : Index := Scalar.indexCast arg11
  let c176_834 : Index := 176#32
  ![0, 4, v1460.toNat, 176]
def k0_off117 (k0_t2 : Fin k0_t2_loop.trips) : Fin 4 → Nat :=
  let c0_i32_838 : BitVec 32 := 0#32
  let v1470 : Index := Scalar.indexCast c0_i32_838
  let c5_i32_839 : BitVec 32 := 5#32
  let v1471 : Index := Scalar.indexCast c5_i32_839
  let c0_i32_256 : BitVec 32 := 0#32
  let c1_i32_258 : BitVec 32 := 1#32
  let arg11 : BitVec 32 := Scf.iv c0_i32_256 c1_i32_258 k0_t2
  let v1472 : Index := Scalar.indexCast arg11
  let c176_840 : Index := 176#32
  ![0, 5, v1472.toNat, 176]
def k0_off118 (k0_t2 : Fin k0_t2_loop.trips) : Fin 4 → Nat :=
  let c0_i32_844 : BitVec 32 := 0#32
  let v1482 : Index := Scalar.indexCast c0_i32_844
  let c6_i32_845 : BitVec 32 := 6#32
  let v1483 : Index := Scalar.indexCast c6_i32_845
  let c0_i32_256 : BitVec 32 := 0#32
  let c1_i32_258 : BitVec 32 := 1#32
  let arg11 : BitVec 32 := Scf.iv c0_i32_256 c1_i32_258 k0_t2
  let v1484 : Index := Scalar.indexCast arg11
  let c176_846 : Index := 176#32
  ![0, 6, v1484.toNat, 176]
def k0_off119 (k0_t2 : Fin k0_t2_loop.trips) : Fin 4 → Nat :=
  let c0_i32_850 : BitVec 32 := 0#32
  let v1494 : Index := Scalar.indexCast c0_i32_850
  let c7_i32_851 : BitVec 32 := 7#32
  let v1495 : Index := Scalar.indexCast c7_i32_851
  let c0_i32_256 : BitVec 32 := 0#32
  let c1_i32_258 : BitVec 32 := 1#32
  let arg11 : BitVec 32 := Scf.iv c0_i32_256 c1_i32_258 k0_t2
  let v1496 : Index := Scalar.indexCast arg11
  let c176_852 : Index := 176#32
  ![0, 7, v1496.toNat, 176]
def k0_off120 (k0_t2 : Fin k0_t2_loop.trips) : Fin 2 → Nat :=
  let c0_i32_256 : BitVec 32 := 0#32
  let c1_i32_258 : BitVec 32 := 1#32
  let arg11 : BitVec 32 := Scf.iv c0_i32_256 c1_i32_258 k0_t2
  let v1506 : Index := Scalar.indexCast arg11
  let c192 : Index := 192#32
  ![v1506.toNat, 192]
def k0_off121 (k0_t2 : Fin k0_t2_loop.trips) : Fin 4 → Nat :=
  let c0_i32_856 : BitVec 32 := 0#32
  let v1509 : Index := Scalar.indexCast c0_i32_856
  let c0_i32_857 : BitVec 32 := 0#32
  let v1510 : Index := Scalar.indexCast c0_i32_857
  let c0_i32_256 : BitVec 32 := 0#32
  let c1_i32_258 : BitVec 32 := 1#32
  let arg11 : BitVec 32 := Scf.iv c0_i32_256 c1_i32_258 k0_t2
  let v1511 : Index := Scalar.indexCast arg11
  let c192_858 : Index := 192#32
  ![0, 0, v1511.toNat, 192]
def k0_off122 (k0_t2 : Fin k0_t2_loop.trips) : Fin 4 → Nat :=
  let c0_i32_862 : BitVec 32 := 0#32
  let v1521 : Index := Scalar.indexCast c0_i32_862
  let c1_i32_863 : BitVec 32 := 1#32
  let v1522 : Index := Scalar.indexCast c1_i32_863
  let c0_i32_256 : BitVec 32 := 0#32
  let c1_i32_258 : BitVec 32 := 1#32
  let arg11 : BitVec 32 := Scf.iv c0_i32_256 c1_i32_258 k0_t2
  let v1523 : Index := Scalar.indexCast arg11
  let c192_864 : Index := 192#32
  ![0, 1, v1523.toNat, 192]
def k0_off123 (k0_t2 : Fin k0_t2_loop.trips) : Fin 4 → Nat :=
  let c0_i32_868 : BitVec 32 := 0#32
  let v1533 : Index := Scalar.indexCast c0_i32_868
  let c2_i32_869 : BitVec 32 := 2#32
  let v1534 : Index := Scalar.indexCast c2_i32_869
  let c0_i32_256 : BitVec 32 := 0#32
  let c1_i32_258 : BitVec 32 := 1#32
  let arg11 : BitVec 32 := Scf.iv c0_i32_256 c1_i32_258 k0_t2
  let v1535 : Index := Scalar.indexCast arg11
  let c192_870 : Index := 192#32
  ![0, 2, v1535.toNat, 192]
def k0_off124 (k0_t2 : Fin k0_t2_loop.trips) : Fin 4 → Nat :=
  let c0_i32_874 : BitVec 32 := 0#32
  let v1545 : Index := Scalar.indexCast c0_i32_874
  let c3_i32_875 : BitVec 32 := 3#32
  let v1546 : Index := Scalar.indexCast c3_i32_875
  let c0_i32_256 : BitVec 32 := 0#32
  let c1_i32_258 : BitVec 32 := 1#32
  let arg11 : BitVec 32 := Scf.iv c0_i32_256 c1_i32_258 k0_t2
  let v1547 : Index := Scalar.indexCast arg11
  let c192_876 : Index := 192#32
  ![0, 3, v1547.toNat, 192]
def k0_off125 (k0_t2 : Fin k0_t2_loop.trips) : Fin 4 → Nat :=
  let c0_i32_880 : BitVec 32 := 0#32
  let v1557 : Index := Scalar.indexCast c0_i32_880
  let c4_i32_881 : BitVec 32 := 4#32
  let v1558 : Index := Scalar.indexCast c4_i32_881
  let c0_i32_256 : BitVec 32 := 0#32
  let c1_i32_258 : BitVec 32 := 1#32
  let arg11 : BitVec 32 := Scf.iv c0_i32_256 c1_i32_258 k0_t2
  let v1559 : Index := Scalar.indexCast arg11
  let c192_882 : Index := 192#32
  ![0, 4, v1559.toNat, 192]
def k0_off126 (k0_t2 : Fin k0_t2_loop.trips) : Fin 4 → Nat :=
  let c0_i32_886 : BitVec 32 := 0#32
  let v1569 : Index := Scalar.indexCast c0_i32_886
  let c5_i32_887 : BitVec 32 := 5#32
  let v1570 : Index := Scalar.indexCast c5_i32_887
  let c0_i32_256 : BitVec 32 := 0#32
  let c1_i32_258 : BitVec 32 := 1#32
  let arg11 : BitVec 32 := Scf.iv c0_i32_256 c1_i32_258 k0_t2
  let v1571 : Index := Scalar.indexCast arg11
  let c192_888 : Index := 192#32
  ![0, 5, v1571.toNat, 192]
def k0_off127 (k0_t2 : Fin k0_t2_loop.trips) : Fin 4 → Nat :=
  let c0_i32_892 : BitVec 32 := 0#32
  let v1581 : Index := Scalar.indexCast c0_i32_892
  let c6_i32_893 : BitVec 32 := 6#32
  let v1582 : Index := Scalar.indexCast c6_i32_893
  let c0_i32_256 : BitVec 32 := 0#32
  let c1_i32_258 : BitVec 32 := 1#32
  let arg11 : BitVec 32 := Scf.iv c0_i32_256 c1_i32_258 k0_t2
  let v1583 : Index := Scalar.indexCast arg11
  let c192_894 : Index := 192#32
  ![0, 6, v1583.toNat, 192]
def k0_off128 (k0_t2 : Fin k0_t2_loop.trips) : Fin 4 → Nat :=
  let c0_i32_898 : BitVec 32 := 0#32
  let v1593 : Index := Scalar.indexCast c0_i32_898
  let c7_i32_899 : BitVec 32 := 7#32
  let v1594 : Index := Scalar.indexCast c7_i32_899
  let c0_i32_256 : BitVec 32 := 0#32
  let c1_i32_258 : BitVec 32 := 1#32
  let arg11 : BitVec 32 := Scf.iv c0_i32_256 c1_i32_258 k0_t2
  let v1595 : Index := Scalar.indexCast arg11
  let c192_900 : Index := 192#32
  ![0, 7, v1595.toNat, 192]
def k0_off129 (k0_t2 : Fin k0_t2_loop.trips) : Fin 2 → Nat :=
  let c0_i32_256 : BitVec 32 := 0#32
  let c1_i32_258 : BitVec 32 := 1#32
  let arg11 : BitVec 32 := Scf.iv c0_i32_256 c1_i32_258 k0_t2
  let v1605 : Index := Scalar.indexCast arg11
  let c208 : Index := 208#32
  ![v1605.toNat, 208]
def k0_off130 (k0_t2 : Fin k0_t2_loop.trips) : Fin 4 → Nat :=
  let c0_i32_904 : BitVec 32 := 0#32
  let v1608 : Index := Scalar.indexCast c0_i32_904
  let c0_i32_905 : BitVec 32 := 0#32
  let v1609 : Index := Scalar.indexCast c0_i32_905
  let c0_i32_256 : BitVec 32 := 0#32
  let c1_i32_258 : BitVec 32 := 1#32
  let arg11 : BitVec 32 := Scf.iv c0_i32_256 c1_i32_258 k0_t2
  let v1610 : Index := Scalar.indexCast arg11
  let c208_906 : Index := 208#32
  ![0, 0, v1610.toNat, 208]
def k0_off131 (k0_t2 : Fin k0_t2_loop.trips) : Fin 4 → Nat :=
  let c0_i32_910 : BitVec 32 := 0#32
  let v1620 : Index := Scalar.indexCast c0_i32_910
  let c1_i32_911 : BitVec 32 := 1#32
  let v1621 : Index := Scalar.indexCast c1_i32_911
  let c0_i32_256 : BitVec 32 := 0#32
  let c1_i32_258 : BitVec 32 := 1#32
  let arg11 : BitVec 32 := Scf.iv c0_i32_256 c1_i32_258 k0_t2
  let v1622 : Index := Scalar.indexCast arg11
  let c208_912 : Index := 208#32
  ![0, 1, v1622.toNat, 208]
def k0_off132 (k0_t2 : Fin k0_t2_loop.trips) : Fin 4 → Nat :=
  let c0_i32_916 : BitVec 32 := 0#32
  let v1632 : Index := Scalar.indexCast c0_i32_916
  let c2_i32_917 : BitVec 32 := 2#32
  let v1633 : Index := Scalar.indexCast c2_i32_917
  let c0_i32_256 : BitVec 32 := 0#32
  let c1_i32_258 : BitVec 32 := 1#32
  let arg11 : BitVec 32 := Scf.iv c0_i32_256 c1_i32_258 k0_t2
  let v1634 : Index := Scalar.indexCast arg11
  let c208_918 : Index := 208#32
  ![0, 2, v1634.toNat, 208]
def k0_off133 (k0_t2 : Fin k0_t2_loop.trips) : Fin 4 → Nat :=
  let c0_i32_922 : BitVec 32 := 0#32
  let v1644 : Index := Scalar.indexCast c0_i32_922
  let c3_i32_923 : BitVec 32 := 3#32
  let v1645 : Index := Scalar.indexCast c3_i32_923
  let c0_i32_256 : BitVec 32 := 0#32
  let c1_i32_258 : BitVec 32 := 1#32
  let arg11 : BitVec 32 := Scf.iv c0_i32_256 c1_i32_258 k0_t2
  let v1646 : Index := Scalar.indexCast arg11
  let c208_924 : Index := 208#32
  ![0, 3, v1646.toNat, 208]
def k0_off134 (k0_t2 : Fin k0_t2_loop.trips) : Fin 4 → Nat :=
  let c0_i32_928 : BitVec 32 := 0#32
  let v1656 : Index := Scalar.indexCast c0_i32_928
  let c4_i32_929 : BitVec 32 := 4#32
  let v1657 : Index := Scalar.indexCast c4_i32_929
  let c0_i32_256 : BitVec 32 := 0#32
  let c1_i32_258 : BitVec 32 := 1#32
  let arg11 : BitVec 32 := Scf.iv c0_i32_256 c1_i32_258 k0_t2
  let v1658 : Index := Scalar.indexCast arg11
  let c208_930 : Index := 208#32
  ![0, 4, v1658.toNat, 208]
def k0_off135 (k0_t2 : Fin k0_t2_loop.trips) : Fin 4 → Nat :=
  let c0_i32_934 : BitVec 32 := 0#32
  let v1668 : Index := Scalar.indexCast c0_i32_934
  let c5_i32_935 : BitVec 32 := 5#32
  let v1669 : Index := Scalar.indexCast c5_i32_935
  let c0_i32_256 : BitVec 32 := 0#32
  let c1_i32_258 : BitVec 32 := 1#32
  let arg11 : BitVec 32 := Scf.iv c0_i32_256 c1_i32_258 k0_t2
  let v1670 : Index := Scalar.indexCast arg11
  let c208_936 : Index := 208#32
  ![0, 5, v1670.toNat, 208]
def k0_off136 (k0_t2 : Fin k0_t2_loop.trips) : Fin 4 → Nat :=
  let c0_i32_940 : BitVec 32 := 0#32
  let v1680 : Index := Scalar.indexCast c0_i32_940
  let c6_i32_941 : BitVec 32 := 6#32
  let v1681 : Index := Scalar.indexCast c6_i32_941
  let c0_i32_256 : BitVec 32 := 0#32
  let c1_i32_258 : BitVec 32 := 1#32
  let arg11 : BitVec 32 := Scf.iv c0_i32_256 c1_i32_258 k0_t2
  let v1682 : Index := Scalar.indexCast arg11
  let c208_942 : Index := 208#32
  ![0, 6, v1682.toNat, 208]
def k0_off137 (k0_t2 : Fin k0_t2_loop.trips) : Fin 4 → Nat :=
  let c0_i32_946 : BitVec 32 := 0#32
  let v1692 : Index := Scalar.indexCast c0_i32_946
  let c7_i32_947 : BitVec 32 := 7#32
  let v1693 : Index := Scalar.indexCast c7_i32_947
  let c0_i32_256 : BitVec 32 := 0#32
  let c1_i32_258 : BitVec 32 := 1#32
  let arg11 : BitVec 32 := Scf.iv c0_i32_256 c1_i32_258 k0_t2
  let v1694 : Index := Scalar.indexCast arg11
  let c208_948 : Index := 208#32
  ![0, 7, v1694.toNat, 208]
def k0_off138 (k0_t2 : Fin k0_t2_loop.trips) : Fin 2 → Nat :=
  let c0_i32_256 : BitVec 32 := 0#32
  let c1_i32_258 : BitVec 32 := 1#32
  let arg11 : BitVec 32 := Scf.iv c0_i32_256 c1_i32_258 k0_t2
  let v1704 : Index := Scalar.indexCast arg11
  let c224 : Index := 224#32
  ![v1704.toNat, 224]
def k0_off139 (k0_t2 : Fin k0_t2_loop.trips) : Fin 4 → Nat :=
  let c0_i32_952 : BitVec 32 := 0#32
  let v1707 : Index := Scalar.indexCast c0_i32_952
  let c0_i32_953 : BitVec 32 := 0#32
  let v1708 : Index := Scalar.indexCast c0_i32_953
  let c0_i32_256 : BitVec 32 := 0#32
  let c1_i32_258 : BitVec 32 := 1#32
  let arg11 : BitVec 32 := Scf.iv c0_i32_256 c1_i32_258 k0_t2
  let v1709 : Index := Scalar.indexCast arg11
  let c224_954 : Index := 224#32
  ![0, 0, v1709.toNat, 224]
def k0_off140 (k0_t2 : Fin k0_t2_loop.trips) : Fin 4 → Nat :=
  let c0_i32_958 : BitVec 32 := 0#32
  let v1719 : Index := Scalar.indexCast c0_i32_958
  let c1_i32_959 : BitVec 32 := 1#32
  let v1720 : Index := Scalar.indexCast c1_i32_959
  let c0_i32_256 : BitVec 32 := 0#32
  let c1_i32_258 : BitVec 32 := 1#32
  let arg11 : BitVec 32 := Scf.iv c0_i32_256 c1_i32_258 k0_t2
  let v1721 : Index := Scalar.indexCast arg11
  let c224_960 : Index := 224#32
  ![0, 1, v1721.toNat, 224]
def k0_off141 (k0_t2 : Fin k0_t2_loop.trips) : Fin 4 → Nat :=
  let c0_i32_964 : BitVec 32 := 0#32
  let v1731 : Index := Scalar.indexCast c0_i32_964
  let c2_i32_965 : BitVec 32 := 2#32
  let v1732 : Index := Scalar.indexCast c2_i32_965
  let c0_i32_256 : BitVec 32 := 0#32
  let c1_i32_258 : BitVec 32 := 1#32
  let arg11 : BitVec 32 := Scf.iv c0_i32_256 c1_i32_258 k0_t2
  let v1733 : Index := Scalar.indexCast arg11
  let c224_966 : Index := 224#32
  ![0, 2, v1733.toNat, 224]
def k0_off142 (k0_t2 : Fin k0_t2_loop.trips) : Fin 4 → Nat :=
  let c0_i32_970 : BitVec 32 := 0#32
  let v1743 : Index := Scalar.indexCast c0_i32_970
  let c3_i32_971 : BitVec 32 := 3#32
  let v1744 : Index := Scalar.indexCast c3_i32_971
  let c0_i32_256 : BitVec 32 := 0#32
  let c1_i32_258 : BitVec 32 := 1#32
  let arg11 : BitVec 32 := Scf.iv c0_i32_256 c1_i32_258 k0_t2
  let v1745 : Index := Scalar.indexCast arg11
  let c224_972 : Index := 224#32
  ![0, 3, v1745.toNat, 224]
def k0_off143 (k0_t2 : Fin k0_t2_loop.trips) : Fin 4 → Nat :=
  let c0_i32_976 : BitVec 32 := 0#32
  let v1755 : Index := Scalar.indexCast c0_i32_976
  let c4_i32_977 : BitVec 32 := 4#32
  let v1756 : Index := Scalar.indexCast c4_i32_977
  let c0_i32_256 : BitVec 32 := 0#32
  let c1_i32_258 : BitVec 32 := 1#32
  let arg11 : BitVec 32 := Scf.iv c0_i32_256 c1_i32_258 k0_t2
  let v1757 : Index := Scalar.indexCast arg11
  let c224_978 : Index := 224#32
  ![0, 4, v1757.toNat, 224]
def k0_off144 (k0_t2 : Fin k0_t2_loop.trips) : Fin 4 → Nat :=
  let c0_i32_982 : BitVec 32 := 0#32
  let v1767 : Index := Scalar.indexCast c0_i32_982
  let c5_i32_983 : BitVec 32 := 5#32
  let v1768 : Index := Scalar.indexCast c5_i32_983
  let c0_i32_256 : BitVec 32 := 0#32
  let c1_i32_258 : BitVec 32 := 1#32
  let arg11 : BitVec 32 := Scf.iv c0_i32_256 c1_i32_258 k0_t2
  let v1769 : Index := Scalar.indexCast arg11
  let c224_984 : Index := 224#32
  ![0, 5, v1769.toNat, 224]
def k0_off145 (k0_t2 : Fin k0_t2_loop.trips) : Fin 4 → Nat :=
  let c0_i32_988 : BitVec 32 := 0#32
  let v1779 : Index := Scalar.indexCast c0_i32_988
  let c6_i32_989 : BitVec 32 := 6#32
  let v1780 : Index := Scalar.indexCast c6_i32_989
  let c0_i32_256 : BitVec 32 := 0#32
  let c1_i32_258 : BitVec 32 := 1#32
  let arg11 : BitVec 32 := Scf.iv c0_i32_256 c1_i32_258 k0_t2
  let v1781 : Index := Scalar.indexCast arg11
  let c224_990 : Index := 224#32
  ![0, 6, v1781.toNat, 224]
def k0_off146 (k0_t2 : Fin k0_t2_loop.trips) : Fin 4 → Nat :=
  let c0_i32_994 : BitVec 32 := 0#32
  let v1791 : Index := Scalar.indexCast c0_i32_994
  let c7_i32_995 : BitVec 32 := 7#32
  let v1792 : Index := Scalar.indexCast c7_i32_995
  let c0_i32_256 : BitVec 32 := 0#32
  let c1_i32_258 : BitVec 32 := 1#32
  let arg11 : BitVec 32 := Scf.iv c0_i32_256 c1_i32_258 k0_t2
  let v1793 : Index := Scalar.indexCast arg11
  let c224_996 : Index := 224#32
  ![0, 7, v1793.toNat, 224]
def k0_off147 (k0_t2 : Fin k0_t2_loop.trips) : Fin 2 → Nat :=
  let c0_i32_256 : BitVec 32 := 0#32
  let c1_i32_258 : BitVec 32 := 1#32
  let arg11 : BitVec 32 := Scf.iv c0_i32_256 c1_i32_258 k0_t2
  let v1803 : Index := Scalar.indexCast arg11
  let c240 : Index := 240#32
  ![v1803.toNat, 240]
def k0_off148 (k0_t2 : Fin k0_t2_loop.trips) : Fin 4 → Nat :=
  let c0_i32_1000 : BitVec 32 := 0#32
  let v1806 : Index := Scalar.indexCast c0_i32_1000
  let c0_i32_1001 : BitVec 32 := 0#32
  let v1807 : Index := Scalar.indexCast c0_i32_1001
  let c0_i32_256 : BitVec 32 := 0#32
  let c1_i32_258 : BitVec 32 := 1#32
  let arg11 : BitVec 32 := Scf.iv c0_i32_256 c1_i32_258 k0_t2
  let v1808 : Index := Scalar.indexCast arg11
  let c240_1002 : Index := 240#32
  ![0, 0, v1808.toNat, 240]
def k0_off149 (k0_t2 : Fin k0_t2_loop.trips) : Fin 4 → Nat :=
  let c0_i32_1006 : BitVec 32 := 0#32
  let v1818 : Index := Scalar.indexCast c0_i32_1006
  let c1_i32_1007 : BitVec 32 := 1#32
  let v1819 : Index := Scalar.indexCast c1_i32_1007
  let c0_i32_256 : BitVec 32 := 0#32
  let c1_i32_258 : BitVec 32 := 1#32
  let arg11 : BitVec 32 := Scf.iv c0_i32_256 c1_i32_258 k0_t2
  let v1820 : Index := Scalar.indexCast arg11
  let c240_1008 : Index := 240#32
  ![0, 1, v1820.toNat, 240]
def k0_off150 (k0_t2 : Fin k0_t2_loop.trips) : Fin 4 → Nat :=
  let c0_i32_1012 : BitVec 32 := 0#32
  let v1830 : Index := Scalar.indexCast c0_i32_1012
  let c2_i32_1013 : BitVec 32 := 2#32
  let v1831 : Index := Scalar.indexCast c2_i32_1013
  let c0_i32_256 : BitVec 32 := 0#32
  let c1_i32_258 : BitVec 32 := 1#32
  let arg11 : BitVec 32 := Scf.iv c0_i32_256 c1_i32_258 k0_t2
  let v1832 : Index := Scalar.indexCast arg11
  let c240_1014 : Index := 240#32
  ![0, 2, v1832.toNat, 240]
def k0_off151 (k0_t2 : Fin k0_t2_loop.trips) : Fin 4 → Nat :=
  let c0_i32_1018 : BitVec 32 := 0#32
  let v1842 : Index := Scalar.indexCast c0_i32_1018
  let c3_i32_1019 : BitVec 32 := 3#32
  let v1843 : Index := Scalar.indexCast c3_i32_1019
  let c0_i32_256 : BitVec 32 := 0#32
  let c1_i32_258 : BitVec 32 := 1#32
  let arg11 : BitVec 32 := Scf.iv c0_i32_256 c1_i32_258 k0_t2
  let v1844 : Index := Scalar.indexCast arg11
  let c240_1020 : Index := 240#32
  ![0, 3, v1844.toNat, 240]
def k0_off152 (k0_t2 : Fin k0_t2_loop.trips) : Fin 4 → Nat :=
  let c0_i32_1024 : BitVec 32 := 0#32
  let v1854 : Index := Scalar.indexCast c0_i32_1024
  let c4_i32_1025 : BitVec 32 := 4#32
  let v1855 : Index := Scalar.indexCast c4_i32_1025
  let c0_i32_256 : BitVec 32 := 0#32
  let c1_i32_258 : BitVec 32 := 1#32
  let arg11 : BitVec 32 := Scf.iv c0_i32_256 c1_i32_258 k0_t2
  let v1856 : Index := Scalar.indexCast arg11
  let c240_1026 : Index := 240#32
  ![0, 4, v1856.toNat, 240]
def k0_off153 (k0_t2 : Fin k0_t2_loop.trips) : Fin 4 → Nat :=
  let c0_i32_1030 : BitVec 32 := 0#32
  let v1866 : Index := Scalar.indexCast c0_i32_1030
  let c5_i32_1031 : BitVec 32 := 5#32
  let v1867 : Index := Scalar.indexCast c5_i32_1031
  let c0_i32_256 : BitVec 32 := 0#32
  let c1_i32_258 : BitVec 32 := 1#32
  let arg11 : BitVec 32 := Scf.iv c0_i32_256 c1_i32_258 k0_t2
  let v1868 : Index := Scalar.indexCast arg11
  let c240_1032 : Index := 240#32
  ![0, 5, v1868.toNat, 240]
def k0_off154 (k0_t2 : Fin k0_t2_loop.trips) : Fin 4 → Nat :=
  let c0_i32_1036 : BitVec 32 := 0#32
  let v1878 : Index := Scalar.indexCast c0_i32_1036
  let c6_i32_1037 : BitVec 32 := 6#32
  let v1879 : Index := Scalar.indexCast c6_i32_1037
  let c0_i32_256 : BitVec 32 := 0#32
  let c1_i32_258 : BitVec 32 := 1#32
  let arg11 : BitVec 32 := Scf.iv c0_i32_256 c1_i32_258 k0_t2
  let v1880 : Index := Scalar.indexCast arg11
  let c240_1038 : Index := 240#32
  ![0, 6, v1880.toNat, 240]
def k0_off155 (k0_t2 : Fin k0_t2_loop.trips) : Fin 4 → Nat :=
  let c0_i32_1042 : BitVec 32 := 0#32
  let v1890 : Index := Scalar.indexCast c0_i32_1042
  let c7_i32_1043 : BitVec 32 := 7#32
  let v1891 : Index := Scalar.indexCast c7_i32_1043
  let c0_i32_256 : BitVec 32 := 0#32
  let c1_i32_258 : BitVec 32 := 1#32
  let arg11 : BitVec 32 := Scf.iv c0_i32_256 c1_i32_258 k0_t2
  let v1892 : Index := Scalar.indexCast arg11
  let c240_1044 : Index := 240#32
  ![0, 7, v1892.toNat, 240]
def k0_off156 (k0_t2 : Fin k0_t2_loop.trips) : Fin 2 → Nat :=
  let c0_i32_256 : BitVec 32 := 0#32
  let c1_i32_258 : BitVec 32 := 1#32
  let arg11 : BitVec 32 := Scf.iv c0_i32_256 c1_i32_258 k0_t2
  let v1902 : Index := Scalar.indexCast arg11
  let c256 : Index := 256#32
  ![v1902.toNat, 256]
def k0_off157 (k0_t2 : Fin k0_t2_loop.trips) : Fin 4 → Nat :=
  let c0_i32_1048 : BitVec 32 := 0#32
  let v1905 : Index := Scalar.indexCast c0_i32_1048
  let c0_i32_1049 : BitVec 32 := 0#32
  let v1906 : Index := Scalar.indexCast c0_i32_1049
  let c0_i32_256 : BitVec 32 := 0#32
  let c1_i32_258 : BitVec 32 := 1#32
  let arg11 : BitVec 32 := Scf.iv c0_i32_256 c1_i32_258 k0_t2
  let v1907 : Index := Scalar.indexCast arg11
  let c256_1050 : Index := 256#32
  ![0, 0, v1907.toNat, 256]
def k0_off158 (k0_t2 : Fin k0_t2_loop.trips) : Fin 4 → Nat :=
  let c0_i32_1054 : BitVec 32 := 0#32
  let v1917 : Index := Scalar.indexCast c0_i32_1054
  let c1_i32_1055 : BitVec 32 := 1#32
  let v1918 : Index := Scalar.indexCast c1_i32_1055
  let c0_i32_256 : BitVec 32 := 0#32
  let c1_i32_258 : BitVec 32 := 1#32
  let arg11 : BitVec 32 := Scf.iv c0_i32_256 c1_i32_258 k0_t2
  let v1919 : Index := Scalar.indexCast arg11
  let c256_1056 : Index := 256#32
  ![0, 1, v1919.toNat, 256]
def k0_off159 (k0_t2 : Fin k0_t2_loop.trips) : Fin 4 → Nat :=
  let c0_i32_1060 : BitVec 32 := 0#32
  let v1929 : Index := Scalar.indexCast c0_i32_1060
  let c2_i32_1061 : BitVec 32 := 2#32
  let v1930 : Index := Scalar.indexCast c2_i32_1061
  let c0_i32_256 : BitVec 32 := 0#32
  let c1_i32_258 : BitVec 32 := 1#32
  let arg11 : BitVec 32 := Scf.iv c0_i32_256 c1_i32_258 k0_t2
  let v1931 : Index := Scalar.indexCast arg11
  let c256_1062 : Index := 256#32
  ![0, 2, v1931.toNat, 256]
def k0_off160 (k0_t2 : Fin k0_t2_loop.trips) : Fin 4 → Nat :=
  let c0_i32_1066 : BitVec 32 := 0#32
  let v1941 : Index := Scalar.indexCast c0_i32_1066
  let c3_i32_1067 : BitVec 32 := 3#32
  let v1942 : Index := Scalar.indexCast c3_i32_1067
  let c0_i32_256 : BitVec 32 := 0#32
  let c1_i32_258 : BitVec 32 := 1#32
  let arg11 : BitVec 32 := Scf.iv c0_i32_256 c1_i32_258 k0_t2
  let v1943 : Index := Scalar.indexCast arg11
  let c256_1068 : Index := 256#32
  ![0, 3, v1943.toNat, 256]
def k0_off161 (k0_t2 : Fin k0_t2_loop.trips) : Fin 4 → Nat :=
  let c0_i32_1072 : BitVec 32 := 0#32
  let v1953 : Index := Scalar.indexCast c0_i32_1072
  let c4_i32_1073 : BitVec 32 := 4#32
  let v1954 : Index := Scalar.indexCast c4_i32_1073
  let c0_i32_256 : BitVec 32 := 0#32
  let c1_i32_258 : BitVec 32 := 1#32
  let arg11 : BitVec 32 := Scf.iv c0_i32_256 c1_i32_258 k0_t2
  let v1955 : Index := Scalar.indexCast arg11
  let c256_1074 : Index := 256#32
  ![0, 4, v1955.toNat, 256]
def k0_off162 (k0_t2 : Fin k0_t2_loop.trips) : Fin 4 → Nat :=
  let c0_i32_1078 : BitVec 32 := 0#32
  let v1965 : Index := Scalar.indexCast c0_i32_1078
  let c5_i32_1079 : BitVec 32 := 5#32
  let v1966 : Index := Scalar.indexCast c5_i32_1079
  let c0_i32_256 : BitVec 32 := 0#32
  let c1_i32_258 : BitVec 32 := 1#32
  let arg11 : BitVec 32 := Scf.iv c0_i32_256 c1_i32_258 k0_t2
  let v1967 : Index := Scalar.indexCast arg11
  let c256_1080 : Index := 256#32
  ![0, 5, v1967.toNat, 256]
def k0_off163 (k0_t2 : Fin k0_t2_loop.trips) : Fin 4 → Nat :=
  let c0_i32_1084 : BitVec 32 := 0#32
  let v1977 : Index := Scalar.indexCast c0_i32_1084
  let c6_i32_1085 : BitVec 32 := 6#32
  let v1978 : Index := Scalar.indexCast c6_i32_1085
  let c0_i32_256 : BitVec 32 := 0#32
  let c1_i32_258 : BitVec 32 := 1#32
  let arg11 : BitVec 32 := Scf.iv c0_i32_256 c1_i32_258 k0_t2
  let v1979 : Index := Scalar.indexCast arg11
  let c256_1086 : Index := 256#32
  ![0, 6, v1979.toNat, 256]
def k0_off164 (k0_t2 : Fin k0_t2_loop.trips) : Fin 4 → Nat :=
  let c0_i32_1090 : BitVec 32 := 0#32
  let v1989 : Index := Scalar.indexCast c0_i32_1090
  let c7_i32_1091 : BitVec 32 := 7#32
  let v1990 : Index := Scalar.indexCast c7_i32_1091
  let c0_i32_256 : BitVec 32 := 0#32
  let c1_i32_258 : BitVec 32 := 1#32
  let arg11 : BitVec 32 := Scf.iv c0_i32_256 c1_i32_258 k0_t2
  let v1991 : Index := Scalar.indexCast arg11
  let c256_1092 : Index := 256#32
  ![0, 7, v1991.toNat, 256]
def k0_off165 (k0_t2 : Fin k0_t2_loop.trips) : Fin 2 → Nat :=
  let c0_i32_256 : BitVec 32 := 0#32
  let c1_i32_258 : BitVec 32 := 1#32
  let arg11 : BitVec 32 := Scf.iv c0_i32_256 c1_i32_258 k0_t2
  let v2001 : Index := Scalar.indexCast arg11
  let c272 : Index := 272#32
  ![v2001.toNat, 272]
def k0_off166 (k0_t2 : Fin k0_t2_loop.trips) : Fin 4 → Nat :=
  let c0_i32_1096 : BitVec 32 := 0#32
  let v2004 : Index := Scalar.indexCast c0_i32_1096
  let c0_i32_1097 : BitVec 32 := 0#32
  let v2005 : Index := Scalar.indexCast c0_i32_1097
  let c0_i32_256 : BitVec 32 := 0#32
  let c1_i32_258 : BitVec 32 := 1#32
  let arg11 : BitVec 32 := Scf.iv c0_i32_256 c1_i32_258 k0_t2
  let v2006 : Index := Scalar.indexCast arg11
  let c272_1098 : Index := 272#32
  ![0, 0, v2006.toNat, 272]
def k0_off167 (k0_t2 : Fin k0_t2_loop.trips) : Fin 4 → Nat :=
  let c0_i32_1102 : BitVec 32 := 0#32
  let v2016 : Index := Scalar.indexCast c0_i32_1102
  let c1_i32_1103 : BitVec 32 := 1#32
  let v2017 : Index := Scalar.indexCast c1_i32_1103
  let c0_i32_256 : BitVec 32 := 0#32
  let c1_i32_258 : BitVec 32 := 1#32
  let arg11 : BitVec 32 := Scf.iv c0_i32_256 c1_i32_258 k0_t2
  let v2018 : Index := Scalar.indexCast arg11
  let c272_1104 : Index := 272#32
  ![0, 1, v2018.toNat, 272]
def k0_off168 (k0_t2 : Fin k0_t2_loop.trips) : Fin 4 → Nat :=
  let c0_i32_1108 : BitVec 32 := 0#32
  let v2028 : Index := Scalar.indexCast c0_i32_1108
  let c2_i32_1109 : BitVec 32 := 2#32
  let v2029 : Index := Scalar.indexCast c2_i32_1109
  let c0_i32_256 : BitVec 32 := 0#32
  let c1_i32_258 : BitVec 32 := 1#32
  let arg11 : BitVec 32 := Scf.iv c0_i32_256 c1_i32_258 k0_t2
  let v2030 : Index := Scalar.indexCast arg11
  let c272_1110 : Index := 272#32
  ![0, 2, v2030.toNat, 272]
def k0_off169 (k0_t2 : Fin k0_t2_loop.trips) : Fin 4 → Nat :=
  let c0_i32_1114 : BitVec 32 := 0#32
  let v2040 : Index := Scalar.indexCast c0_i32_1114
  let c3_i32_1115 : BitVec 32 := 3#32
  let v2041 : Index := Scalar.indexCast c3_i32_1115
  let c0_i32_256 : BitVec 32 := 0#32
  let c1_i32_258 : BitVec 32 := 1#32
  let arg11 : BitVec 32 := Scf.iv c0_i32_256 c1_i32_258 k0_t2
  let v2042 : Index := Scalar.indexCast arg11
  let c272_1116 : Index := 272#32
  ![0, 3, v2042.toNat, 272]
def k0_off170 (k0_t2 : Fin k0_t2_loop.trips) : Fin 4 → Nat :=
  let c0_i32_1120 : BitVec 32 := 0#32
  let v2052 : Index := Scalar.indexCast c0_i32_1120
  let c4_i32_1121 : BitVec 32 := 4#32
  let v2053 : Index := Scalar.indexCast c4_i32_1121
  let c0_i32_256 : BitVec 32 := 0#32
  let c1_i32_258 : BitVec 32 := 1#32
  let arg11 : BitVec 32 := Scf.iv c0_i32_256 c1_i32_258 k0_t2
  let v2054 : Index := Scalar.indexCast arg11
  let c272_1122 : Index := 272#32
  ![0, 4, v2054.toNat, 272]
def k0_off171 (k0_t2 : Fin k0_t2_loop.trips) : Fin 4 → Nat :=
  let c0_i32_1126 : BitVec 32 := 0#32
  let v2064 : Index := Scalar.indexCast c0_i32_1126
  let c5_i32_1127 : BitVec 32 := 5#32
  let v2065 : Index := Scalar.indexCast c5_i32_1127
  let c0_i32_256 : BitVec 32 := 0#32
  let c1_i32_258 : BitVec 32 := 1#32
  let arg11 : BitVec 32 := Scf.iv c0_i32_256 c1_i32_258 k0_t2
  let v2066 : Index := Scalar.indexCast arg11
  let c272_1128 : Index := 272#32
  ![0, 5, v2066.toNat, 272]
def k0_off172 (k0_t2 : Fin k0_t2_loop.trips) : Fin 4 → Nat :=
  let c0_i32_1132 : BitVec 32 := 0#32
  let v2076 : Index := Scalar.indexCast c0_i32_1132
  let c6_i32_1133 : BitVec 32 := 6#32
  let v2077 : Index := Scalar.indexCast c6_i32_1133
  let c0_i32_256 : BitVec 32 := 0#32
  let c1_i32_258 : BitVec 32 := 1#32
  let arg11 : BitVec 32 := Scf.iv c0_i32_256 c1_i32_258 k0_t2
  let v2078 : Index := Scalar.indexCast arg11
  let c272_1134 : Index := 272#32
  ![0, 6, v2078.toNat, 272]
def k0_off173 (k0_t2 : Fin k0_t2_loop.trips) : Fin 4 → Nat :=
  let c0_i32_1138 : BitVec 32 := 0#32
  let v2088 : Index := Scalar.indexCast c0_i32_1138
  let c7_i32_1139 : BitVec 32 := 7#32
  let v2089 : Index := Scalar.indexCast c7_i32_1139
  let c0_i32_256 : BitVec 32 := 0#32
  let c1_i32_258 : BitVec 32 := 1#32
  let arg11 : BitVec 32 := Scf.iv c0_i32_256 c1_i32_258 k0_t2
  let v2090 : Index := Scalar.indexCast arg11
  let c272_1140 : Index := 272#32
  ![0, 7, v2090.toNat, 272]
def k0_off174 (k0_t2 : Fin k0_t2_loop.trips) : Fin 2 → Nat :=
  let c0_i32_256 : BitVec 32 := 0#32
  let c1_i32_258 : BitVec 32 := 1#32
  let arg11 : BitVec 32 := Scf.iv c0_i32_256 c1_i32_258 k0_t2
  let v2100 : Index := Scalar.indexCast arg11
  let c288 : Index := 288#32
  ![v2100.toNat, 288]
def k0_off175 (k0_t2 : Fin k0_t2_loop.trips) : Fin 4 → Nat :=
  let c0_i32_1144 : BitVec 32 := 0#32
  let v2103 : Index := Scalar.indexCast c0_i32_1144
  let c0_i32_1145 : BitVec 32 := 0#32
  let v2104 : Index := Scalar.indexCast c0_i32_1145
  let c0_i32_256 : BitVec 32 := 0#32
  let c1_i32_258 : BitVec 32 := 1#32
  let arg11 : BitVec 32 := Scf.iv c0_i32_256 c1_i32_258 k0_t2
  let v2105 : Index := Scalar.indexCast arg11
  let c288_1146 : Index := 288#32
  ![0, 0, v2105.toNat, 288]
def k0_off176 (k0_t2 : Fin k0_t2_loop.trips) : Fin 4 → Nat :=
  let c0_i32_1150 : BitVec 32 := 0#32
  let v2115 : Index := Scalar.indexCast c0_i32_1150
  let c1_i32_1151 : BitVec 32 := 1#32
  let v2116 : Index := Scalar.indexCast c1_i32_1151
  let c0_i32_256 : BitVec 32 := 0#32
  let c1_i32_258 : BitVec 32 := 1#32
  let arg11 : BitVec 32 := Scf.iv c0_i32_256 c1_i32_258 k0_t2
  let v2117 : Index := Scalar.indexCast arg11
  let c288_1152 : Index := 288#32
  ![0, 1, v2117.toNat, 288]
def k0_off177 (k0_t2 : Fin k0_t2_loop.trips) : Fin 4 → Nat :=
  let c0_i32_1156 : BitVec 32 := 0#32
  let v2127 : Index := Scalar.indexCast c0_i32_1156
  let c2_i32_1157 : BitVec 32 := 2#32
  let v2128 : Index := Scalar.indexCast c2_i32_1157
  let c0_i32_256 : BitVec 32 := 0#32
  let c1_i32_258 : BitVec 32 := 1#32
  let arg11 : BitVec 32 := Scf.iv c0_i32_256 c1_i32_258 k0_t2
  let v2129 : Index := Scalar.indexCast arg11
  let c288_1158 : Index := 288#32
  ![0, 2, v2129.toNat, 288]
def k0_off178 (k0_t2 : Fin k0_t2_loop.trips) : Fin 4 → Nat :=
  let c0_i32_1162 : BitVec 32 := 0#32
  let v2139 : Index := Scalar.indexCast c0_i32_1162
  let c3_i32_1163 : BitVec 32 := 3#32
  let v2140 : Index := Scalar.indexCast c3_i32_1163
  let c0_i32_256 : BitVec 32 := 0#32
  let c1_i32_258 : BitVec 32 := 1#32
  let arg11 : BitVec 32 := Scf.iv c0_i32_256 c1_i32_258 k0_t2
  let v2141 : Index := Scalar.indexCast arg11
  let c288_1164 : Index := 288#32
  ![0, 3, v2141.toNat, 288]
def k0_off179 (k0_t2 : Fin k0_t2_loop.trips) : Fin 4 → Nat :=
  let c0_i32_1168 : BitVec 32 := 0#32
  let v2151 : Index := Scalar.indexCast c0_i32_1168
  let c4_i32_1169 : BitVec 32 := 4#32
  let v2152 : Index := Scalar.indexCast c4_i32_1169
  let c0_i32_256 : BitVec 32 := 0#32
  let c1_i32_258 : BitVec 32 := 1#32
  let arg11 : BitVec 32 := Scf.iv c0_i32_256 c1_i32_258 k0_t2
  let v2153 : Index := Scalar.indexCast arg11
  let c288_1170 : Index := 288#32
  ![0, 4, v2153.toNat, 288]
def k0_off180 (k0_t2 : Fin k0_t2_loop.trips) : Fin 4 → Nat :=
  let c0_i32_1174 : BitVec 32 := 0#32
  let v2163 : Index := Scalar.indexCast c0_i32_1174
  let c5_i32_1175 : BitVec 32 := 5#32
  let v2164 : Index := Scalar.indexCast c5_i32_1175
  let c0_i32_256 : BitVec 32 := 0#32
  let c1_i32_258 : BitVec 32 := 1#32
  let arg11 : BitVec 32 := Scf.iv c0_i32_256 c1_i32_258 k0_t2
  let v2165 : Index := Scalar.indexCast arg11
  let c288_1176 : Index := 288#32
  ![0, 5, v2165.toNat, 288]
def k0_off181 (k0_t2 : Fin k0_t2_loop.trips) : Fin 4 → Nat :=
  let c0_i32_1180 : BitVec 32 := 0#32
  let v2175 : Index := Scalar.indexCast c0_i32_1180
  let c6_i32_1181 : BitVec 32 := 6#32
  let v2176 : Index := Scalar.indexCast c6_i32_1181
  let c0_i32_256 : BitVec 32 := 0#32
  let c1_i32_258 : BitVec 32 := 1#32
  let arg11 : BitVec 32 := Scf.iv c0_i32_256 c1_i32_258 k0_t2
  let v2177 : Index := Scalar.indexCast arg11
  let c288_1182 : Index := 288#32
  ![0, 6, v2177.toNat, 288]
def k0_off182 (k0_t2 : Fin k0_t2_loop.trips) : Fin 4 → Nat :=
  let c0_i32_1186 : BitVec 32 := 0#32
  let v2187 : Index := Scalar.indexCast c0_i32_1186
  let c7_i32_1187 : BitVec 32 := 7#32
  let v2188 : Index := Scalar.indexCast c7_i32_1187
  let c0_i32_256 : BitVec 32 := 0#32
  let c1_i32_258 : BitVec 32 := 1#32
  let arg11 : BitVec 32 := Scf.iv c0_i32_256 c1_i32_258 k0_t2
  let v2189 : Index := Scalar.indexCast arg11
  let c288_1188 : Index := 288#32
  ![0, 7, v2189.toNat, 288]
def k0_off183 (k0_t2 : Fin k0_t2_loop.trips) : Fin 2 → Nat :=
  let c0_i32_256 : BitVec 32 := 0#32
  let c1_i32_258 : BitVec 32 := 1#32
  let arg11 : BitVec 32 := Scf.iv c0_i32_256 c1_i32_258 k0_t2
  let v2199 : Index := Scalar.indexCast arg11
  let c304 : Index := 304#32
  ![v2199.toNat, 304]
def k0_off184 (k0_t2 : Fin k0_t2_loop.trips) : Fin 4 → Nat :=
  let c0_i32_1192 : BitVec 32 := 0#32
  let v2202 : Index := Scalar.indexCast c0_i32_1192
  let c0_i32_1193 : BitVec 32 := 0#32
  let v2203 : Index := Scalar.indexCast c0_i32_1193
  let c0_i32_256 : BitVec 32 := 0#32
  let c1_i32_258 : BitVec 32 := 1#32
  let arg11 : BitVec 32 := Scf.iv c0_i32_256 c1_i32_258 k0_t2
  let v2204 : Index := Scalar.indexCast arg11
  let c304_1194 : Index := 304#32
  ![0, 0, v2204.toNat, 304]
def k0_off185 (k0_t2 : Fin k0_t2_loop.trips) : Fin 4 → Nat :=
  let c0_i32_1198 : BitVec 32 := 0#32
  let v2214 : Index := Scalar.indexCast c0_i32_1198
  let c1_i32_1199 : BitVec 32 := 1#32
  let v2215 : Index := Scalar.indexCast c1_i32_1199
  let c0_i32_256 : BitVec 32 := 0#32
  let c1_i32_258 : BitVec 32 := 1#32
  let arg11 : BitVec 32 := Scf.iv c0_i32_256 c1_i32_258 k0_t2
  let v2216 : Index := Scalar.indexCast arg11
  let c304_1200 : Index := 304#32
  ![0, 1, v2216.toNat, 304]
def k0_off186 (k0_t2 : Fin k0_t2_loop.trips) : Fin 4 → Nat :=
  let c0_i32_1204 : BitVec 32 := 0#32
  let v2226 : Index := Scalar.indexCast c0_i32_1204
  let c2_i32_1205 : BitVec 32 := 2#32
  let v2227 : Index := Scalar.indexCast c2_i32_1205
  let c0_i32_256 : BitVec 32 := 0#32
  let c1_i32_258 : BitVec 32 := 1#32
  let arg11 : BitVec 32 := Scf.iv c0_i32_256 c1_i32_258 k0_t2
  let v2228 : Index := Scalar.indexCast arg11
  let c304_1206 : Index := 304#32
  ![0, 2, v2228.toNat, 304]
def k0_off187 (k0_t2 : Fin k0_t2_loop.trips) : Fin 4 → Nat :=
  let c0_i32_1210 : BitVec 32 := 0#32
  let v2238 : Index := Scalar.indexCast c0_i32_1210
  let c3_i32_1211 : BitVec 32 := 3#32
  let v2239 : Index := Scalar.indexCast c3_i32_1211
  let c0_i32_256 : BitVec 32 := 0#32
  let c1_i32_258 : BitVec 32 := 1#32
  let arg11 : BitVec 32 := Scf.iv c0_i32_256 c1_i32_258 k0_t2
  let v2240 : Index := Scalar.indexCast arg11
  let c304_1212 : Index := 304#32
  ![0, 3, v2240.toNat, 304]
def k0_off188 (k0_t2 : Fin k0_t2_loop.trips) : Fin 4 → Nat :=
  let c0_i32_1216 : BitVec 32 := 0#32
  let v2250 : Index := Scalar.indexCast c0_i32_1216
  let c4_i32_1217 : BitVec 32 := 4#32
  let v2251 : Index := Scalar.indexCast c4_i32_1217
  let c0_i32_256 : BitVec 32 := 0#32
  let c1_i32_258 : BitVec 32 := 1#32
  let arg11 : BitVec 32 := Scf.iv c0_i32_256 c1_i32_258 k0_t2
  let v2252 : Index := Scalar.indexCast arg11
  let c304_1218 : Index := 304#32
  ![0, 4, v2252.toNat, 304]
def k0_off189 (k0_t2 : Fin k0_t2_loop.trips) : Fin 4 → Nat :=
  let c0_i32_1222 : BitVec 32 := 0#32
  let v2262 : Index := Scalar.indexCast c0_i32_1222
  let c5_i32_1223 : BitVec 32 := 5#32
  let v2263 : Index := Scalar.indexCast c5_i32_1223
  let c0_i32_256 : BitVec 32 := 0#32
  let c1_i32_258 : BitVec 32 := 1#32
  let arg11 : BitVec 32 := Scf.iv c0_i32_256 c1_i32_258 k0_t2
  let v2264 : Index := Scalar.indexCast arg11
  let c304_1224 : Index := 304#32
  ![0, 5, v2264.toNat, 304]
def k0_off190 (k0_t2 : Fin k0_t2_loop.trips) : Fin 4 → Nat :=
  let c0_i32_1228 : BitVec 32 := 0#32
  let v2274 : Index := Scalar.indexCast c0_i32_1228
  let c6_i32_1229 : BitVec 32 := 6#32
  let v2275 : Index := Scalar.indexCast c6_i32_1229
  let c0_i32_256 : BitVec 32 := 0#32
  let c1_i32_258 : BitVec 32 := 1#32
  let arg11 : BitVec 32 := Scf.iv c0_i32_256 c1_i32_258 k0_t2
  let v2276 : Index := Scalar.indexCast arg11
  let c304_1230 : Index := 304#32
  ![0, 6, v2276.toNat, 304]
def k0_off191 (k0_t2 : Fin k0_t2_loop.trips) : Fin 4 → Nat :=
  let c0_i32_1234 : BitVec 32 := 0#32
  let v2286 : Index := Scalar.indexCast c0_i32_1234
  let c7_i32_1235 : BitVec 32 := 7#32
  let v2287 : Index := Scalar.indexCast c7_i32_1235
  let c0_i32_256 : BitVec 32 := 0#32
  let c1_i32_258 : BitVec 32 := 1#32
  let arg11 : BitVec 32 := Scf.iv c0_i32_256 c1_i32_258 k0_t2
  let v2288 : Index := Scalar.indexCast arg11
  let c304_1236 : Index := 304#32
  ![0, 7, v2288.toNat, 304]
def k0_off192 (k0_t2 : Fin k0_t2_loop.trips) : Fin 2 → Nat :=
  let c0_i32_256 : BitVec 32 := 0#32
  let c1_i32_258 : BitVec 32 := 1#32
  let arg11 : BitVec 32 := Scf.iv c0_i32_256 c1_i32_258 k0_t2
  let v2298 : Index := Scalar.indexCast arg11
  let c320 : Index := 320#32
  ![v2298.toNat, 320]
def k0_off193 (k0_t2 : Fin k0_t2_loop.trips) : Fin 4 → Nat :=
  let c0_i32_1240 : BitVec 32 := 0#32
  let v2301 : Index := Scalar.indexCast c0_i32_1240
  let c0_i32_1241 : BitVec 32 := 0#32
  let v2302 : Index := Scalar.indexCast c0_i32_1241
  let c0_i32_256 : BitVec 32 := 0#32
  let c1_i32_258 : BitVec 32 := 1#32
  let arg11 : BitVec 32 := Scf.iv c0_i32_256 c1_i32_258 k0_t2
  let v2303 : Index := Scalar.indexCast arg11
  let c320_1242 : Index := 320#32
  ![0, 0, v2303.toNat, 320]
def k0_off194 (k0_t2 : Fin k0_t2_loop.trips) : Fin 4 → Nat :=
  let c0_i32_1246 : BitVec 32 := 0#32
  let v2313 : Index := Scalar.indexCast c0_i32_1246
  let c1_i32_1247 : BitVec 32 := 1#32
  let v2314 : Index := Scalar.indexCast c1_i32_1247
  let c0_i32_256 : BitVec 32 := 0#32
  let c1_i32_258 : BitVec 32 := 1#32
  let arg11 : BitVec 32 := Scf.iv c0_i32_256 c1_i32_258 k0_t2
  let v2315 : Index := Scalar.indexCast arg11
  let c320_1248 : Index := 320#32
  ![0, 1, v2315.toNat, 320]
def k0_off195 (k0_t2 : Fin k0_t2_loop.trips) : Fin 4 → Nat :=
  let c0_i32_1252 : BitVec 32 := 0#32
  let v2325 : Index := Scalar.indexCast c0_i32_1252
  let c2_i32_1253 : BitVec 32 := 2#32
  let v2326 : Index := Scalar.indexCast c2_i32_1253
  let c0_i32_256 : BitVec 32 := 0#32
  let c1_i32_258 : BitVec 32 := 1#32
  let arg11 : BitVec 32 := Scf.iv c0_i32_256 c1_i32_258 k0_t2
  let v2327 : Index := Scalar.indexCast arg11
  let c320_1254 : Index := 320#32
  ![0, 2, v2327.toNat, 320]
def k0_off196 (k0_t2 : Fin k0_t2_loop.trips) : Fin 4 → Nat :=
  let c0_i32_1258 : BitVec 32 := 0#32
  let v2337 : Index := Scalar.indexCast c0_i32_1258
  let c3_i32_1259 : BitVec 32 := 3#32
  let v2338 : Index := Scalar.indexCast c3_i32_1259
  let c0_i32_256 : BitVec 32 := 0#32
  let c1_i32_258 : BitVec 32 := 1#32
  let arg11 : BitVec 32 := Scf.iv c0_i32_256 c1_i32_258 k0_t2
  let v2339 : Index := Scalar.indexCast arg11
  let c320_1260 : Index := 320#32
  ![0, 3, v2339.toNat, 320]
def k0_off197 (k0_t2 : Fin k0_t2_loop.trips) : Fin 4 → Nat :=
  let c0_i32_1264 : BitVec 32 := 0#32
  let v2349 : Index := Scalar.indexCast c0_i32_1264
  let c4_i32_1265 : BitVec 32 := 4#32
  let v2350 : Index := Scalar.indexCast c4_i32_1265
  let c0_i32_256 : BitVec 32 := 0#32
  let c1_i32_258 : BitVec 32 := 1#32
  let arg11 : BitVec 32 := Scf.iv c0_i32_256 c1_i32_258 k0_t2
  let v2351 : Index := Scalar.indexCast arg11
  let c320_1266 : Index := 320#32
  ![0, 4, v2351.toNat, 320]
def k0_off198 (k0_t2 : Fin k0_t2_loop.trips) : Fin 4 → Nat :=
  let c0_i32_1270 : BitVec 32 := 0#32
  let v2361 : Index := Scalar.indexCast c0_i32_1270
  let c5_i32_1271 : BitVec 32 := 5#32
  let v2362 : Index := Scalar.indexCast c5_i32_1271
  let c0_i32_256 : BitVec 32 := 0#32
  let c1_i32_258 : BitVec 32 := 1#32
  let arg11 : BitVec 32 := Scf.iv c0_i32_256 c1_i32_258 k0_t2
  let v2363 : Index := Scalar.indexCast arg11
  let c320_1272 : Index := 320#32
  ![0, 5, v2363.toNat, 320]
def k0_off199 (k0_t2 : Fin k0_t2_loop.trips) : Fin 4 → Nat :=
  let c0_i32_1276 : BitVec 32 := 0#32
  let v2373 : Index := Scalar.indexCast c0_i32_1276
  let c6_i32_1277 : BitVec 32 := 6#32
  let v2374 : Index := Scalar.indexCast c6_i32_1277
  let c0_i32_256 : BitVec 32 := 0#32
  let c1_i32_258 : BitVec 32 := 1#32
  let arg11 : BitVec 32 := Scf.iv c0_i32_256 c1_i32_258 k0_t2
  let v2375 : Index := Scalar.indexCast arg11
  let c320_1278 : Index := 320#32
  ![0, 6, v2375.toNat, 320]
def k0_off200 (k0_t2 : Fin k0_t2_loop.trips) : Fin 4 → Nat :=
  let c0_i32_1282 : BitVec 32 := 0#32
  let v2385 : Index := Scalar.indexCast c0_i32_1282
  let c7_i32_1283 : BitVec 32 := 7#32
  let v2386 : Index := Scalar.indexCast c7_i32_1283
  let c0_i32_256 : BitVec 32 := 0#32
  let c1_i32_258 : BitVec 32 := 1#32
  let arg11 : BitVec 32 := Scf.iv c0_i32_256 c1_i32_258 k0_t2
  let v2387 : Index := Scalar.indexCast arg11
  let c320_1284 : Index := 320#32
  ![0, 7, v2387.toNat, 320]
def k0_off201 (k0_t2 : Fin k0_t2_loop.trips) : Fin 2 → Nat :=
  let c0_i32_256 : BitVec 32 := 0#32
  let c1_i32_258 : BitVec 32 := 1#32
  let arg11 : BitVec 32 := Scf.iv c0_i32_256 c1_i32_258 k0_t2
  let v2397 : Index := Scalar.indexCast arg11
  let c336 : Index := 336#32
  ![v2397.toNat, 336]
def k0_off202 (k0_t2 : Fin k0_t2_loop.trips) : Fin 4 → Nat :=
  let c0_i32_1288 : BitVec 32 := 0#32
  let v2400 : Index := Scalar.indexCast c0_i32_1288
  let c0_i32_1289 : BitVec 32 := 0#32
  let v2401 : Index := Scalar.indexCast c0_i32_1289
  let c0_i32_256 : BitVec 32 := 0#32
  let c1_i32_258 : BitVec 32 := 1#32
  let arg11 : BitVec 32 := Scf.iv c0_i32_256 c1_i32_258 k0_t2
  let v2402 : Index := Scalar.indexCast arg11
  let c336_1290 : Index := 336#32
  ![0, 0, v2402.toNat, 336]
def k0_off203 (k0_t2 : Fin k0_t2_loop.trips) : Fin 4 → Nat :=
  let c0_i32_1294 : BitVec 32 := 0#32
  let v2412 : Index := Scalar.indexCast c0_i32_1294
  let c1_i32_1295 : BitVec 32 := 1#32
  let v2413 : Index := Scalar.indexCast c1_i32_1295
  let c0_i32_256 : BitVec 32 := 0#32
  let c1_i32_258 : BitVec 32 := 1#32
  let arg11 : BitVec 32 := Scf.iv c0_i32_256 c1_i32_258 k0_t2
  let v2414 : Index := Scalar.indexCast arg11
  let c336_1296 : Index := 336#32
  ![0, 1, v2414.toNat, 336]
def k0_off204 (k0_t2 : Fin k0_t2_loop.trips) : Fin 4 → Nat :=
  let c0_i32_1300 : BitVec 32 := 0#32
  let v2424 : Index := Scalar.indexCast c0_i32_1300
  let c2_i32_1301 : BitVec 32 := 2#32
  let v2425 : Index := Scalar.indexCast c2_i32_1301
  let c0_i32_256 : BitVec 32 := 0#32
  let c1_i32_258 : BitVec 32 := 1#32
  let arg11 : BitVec 32 := Scf.iv c0_i32_256 c1_i32_258 k0_t2
  let v2426 : Index := Scalar.indexCast arg11
  let c336_1302 : Index := 336#32
  ![0, 2, v2426.toNat, 336]
def k0_off205 (k0_t2 : Fin k0_t2_loop.trips) : Fin 4 → Nat :=
  let c0_i32_1306 : BitVec 32 := 0#32
  let v2436 : Index := Scalar.indexCast c0_i32_1306
  let c3_i32_1307 : BitVec 32 := 3#32
  let v2437 : Index := Scalar.indexCast c3_i32_1307
  let c0_i32_256 : BitVec 32 := 0#32
  let c1_i32_258 : BitVec 32 := 1#32
  let arg11 : BitVec 32 := Scf.iv c0_i32_256 c1_i32_258 k0_t2
  let v2438 : Index := Scalar.indexCast arg11
  let c336_1308 : Index := 336#32
  ![0, 3, v2438.toNat, 336]
def k0_off206 (k0_t2 : Fin k0_t2_loop.trips) : Fin 4 → Nat :=
  let c0_i32_1312 : BitVec 32 := 0#32
  let v2448 : Index := Scalar.indexCast c0_i32_1312
  let c4_i32_1313 : BitVec 32 := 4#32
  let v2449 : Index := Scalar.indexCast c4_i32_1313
  let c0_i32_256 : BitVec 32 := 0#32
  let c1_i32_258 : BitVec 32 := 1#32
  let arg11 : BitVec 32 := Scf.iv c0_i32_256 c1_i32_258 k0_t2
  let v2450 : Index := Scalar.indexCast arg11
  let c336_1314 : Index := 336#32
  ![0, 4, v2450.toNat, 336]
def k0_off207 (k0_t2 : Fin k0_t2_loop.trips) : Fin 4 → Nat :=
  let c0_i32_1318 : BitVec 32 := 0#32
  let v2460 : Index := Scalar.indexCast c0_i32_1318
  let c5_i32_1319 : BitVec 32 := 5#32
  let v2461 : Index := Scalar.indexCast c5_i32_1319
  let c0_i32_256 : BitVec 32 := 0#32
  let c1_i32_258 : BitVec 32 := 1#32
  let arg11 : BitVec 32 := Scf.iv c0_i32_256 c1_i32_258 k0_t2
  let v2462 : Index := Scalar.indexCast arg11
  let c336_1320 : Index := 336#32
  ![0, 5, v2462.toNat, 336]
def k0_off208 (k0_t2 : Fin k0_t2_loop.trips) : Fin 4 → Nat :=
  let c0_i32_1324 : BitVec 32 := 0#32
  let v2472 : Index := Scalar.indexCast c0_i32_1324
  let c6_i32_1325 : BitVec 32 := 6#32
  let v2473 : Index := Scalar.indexCast c6_i32_1325
  let c0_i32_256 : BitVec 32 := 0#32
  let c1_i32_258 : BitVec 32 := 1#32
  let arg11 : BitVec 32 := Scf.iv c0_i32_256 c1_i32_258 k0_t2
  let v2474 : Index := Scalar.indexCast arg11
  let c336_1326 : Index := 336#32
  ![0, 6, v2474.toNat, 336]
def k0_off209 (k0_t2 : Fin k0_t2_loop.trips) : Fin 4 → Nat :=
  let c0_i32_1330 : BitVec 32 := 0#32
  let v2484 : Index := Scalar.indexCast c0_i32_1330
  let c7_i32_1331 : BitVec 32 := 7#32
  let v2485 : Index := Scalar.indexCast c7_i32_1331
  let c0_i32_256 : BitVec 32 := 0#32
  let c1_i32_258 : BitVec 32 := 1#32
  let arg11 : BitVec 32 := Scf.iv c0_i32_256 c1_i32_258 k0_t2
  let v2486 : Index := Scalar.indexCast arg11
  let c336_1332 : Index := 336#32
  ![0, 7, v2486.toNat, 336]
def k0_off210 (k0_t2 : Fin k0_t2_loop.trips) : Fin 2 → Nat :=
  let c0_i32_256 : BitVec 32 := 0#32
  let c1_i32_258 : BitVec 32 := 1#32
  let arg11 : BitVec 32 := Scf.iv c0_i32_256 c1_i32_258 k0_t2
  let v2496 : Index := Scalar.indexCast arg11
  let c352 : Index := 352#32
  ![v2496.toNat, 352]
def k0_off211 (k0_t2 : Fin k0_t2_loop.trips) : Fin 4 → Nat :=
  let c0_i32_1336 : BitVec 32 := 0#32
  let v2499 : Index := Scalar.indexCast c0_i32_1336
  let c0_i32_1337 : BitVec 32 := 0#32
  let v2500 : Index := Scalar.indexCast c0_i32_1337
  let c0_i32_256 : BitVec 32 := 0#32
  let c1_i32_258 : BitVec 32 := 1#32
  let arg11 : BitVec 32 := Scf.iv c0_i32_256 c1_i32_258 k0_t2
  let v2501 : Index := Scalar.indexCast arg11
  let c352_1338 : Index := 352#32
  ![0, 0, v2501.toNat, 352]
def k0_off212 (k0_t2 : Fin k0_t2_loop.trips) : Fin 4 → Nat :=
  let c0_i32_1342 : BitVec 32 := 0#32
  let v2511 : Index := Scalar.indexCast c0_i32_1342
  let c1_i32_1343 : BitVec 32 := 1#32
  let v2512 : Index := Scalar.indexCast c1_i32_1343
  let c0_i32_256 : BitVec 32 := 0#32
  let c1_i32_258 : BitVec 32 := 1#32
  let arg11 : BitVec 32 := Scf.iv c0_i32_256 c1_i32_258 k0_t2
  let v2513 : Index := Scalar.indexCast arg11
  let c352_1344 : Index := 352#32
  ![0, 1, v2513.toNat, 352]
def k0_off213 (k0_t2 : Fin k0_t2_loop.trips) : Fin 4 → Nat :=
  let c0_i32_1348 : BitVec 32 := 0#32
  let v2523 : Index := Scalar.indexCast c0_i32_1348
  let c2_i32_1349 : BitVec 32 := 2#32
  let v2524 : Index := Scalar.indexCast c2_i32_1349
  let c0_i32_256 : BitVec 32 := 0#32
  let c1_i32_258 : BitVec 32 := 1#32
  let arg11 : BitVec 32 := Scf.iv c0_i32_256 c1_i32_258 k0_t2
  let v2525 : Index := Scalar.indexCast arg11
  let c352_1350 : Index := 352#32
  ![0, 2, v2525.toNat, 352]
def k0_off214 (k0_t2 : Fin k0_t2_loop.trips) : Fin 4 → Nat :=
  let c0_i32_1354 : BitVec 32 := 0#32
  let v2535 : Index := Scalar.indexCast c0_i32_1354
  let c3_i32_1355 : BitVec 32 := 3#32
  let v2536 : Index := Scalar.indexCast c3_i32_1355
  let c0_i32_256 : BitVec 32 := 0#32
  let c1_i32_258 : BitVec 32 := 1#32
  let arg11 : BitVec 32 := Scf.iv c0_i32_256 c1_i32_258 k0_t2
  let v2537 : Index := Scalar.indexCast arg11
  let c352_1356 : Index := 352#32
  ![0, 3, v2537.toNat, 352]
def k0_off215 (k0_t2 : Fin k0_t2_loop.trips) : Fin 4 → Nat :=
  let c0_i32_1360 : BitVec 32 := 0#32
  let v2547 : Index := Scalar.indexCast c0_i32_1360
  let c4_i32_1361 : BitVec 32 := 4#32
  let v2548 : Index := Scalar.indexCast c4_i32_1361
  let c0_i32_256 : BitVec 32 := 0#32
  let c1_i32_258 : BitVec 32 := 1#32
  let arg11 : BitVec 32 := Scf.iv c0_i32_256 c1_i32_258 k0_t2
  let v2549 : Index := Scalar.indexCast arg11
  let c352_1362 : Index := 352#32
  ![0, 4, v2549.toNat, 352]
def k0_off216 (k0_t2 : Fin k0_t2_loop.trips) : Fin 4 → Nat :=
  let c0_i32_1366 : BitVec 32 := 0#32
  let v2559 : Index := Scalar.indexCast c0_i32_1366
  let c5_i32_1367 : BitVec 32 := 5#32
  let v2560 : Index := Scalar.indexCast c5_i32_1367
  let c0_i32_256 : BitVec 32 := 0#32
  let c1_i32_258 : BitVec 32 := 1#32
  let arg11 : BitVec 32 := Scf.iv c0_i32_256 c1_i32_258 k0_t2
  let v2561 : Index := Scalar.indexCast arg11
  let c352_1368 : Index := 352#32
  ![0, 5, v2561.toNat, 352]
def k0_off217 (k0_t2 : Fin k0_t2_loop.trips) : Fin 4 → Nat :=
  let c0_i32_1372 : BitVec 32 := 0#32
  let v2571 : Index := Scalar.indexCast c0_i32_1372
  let c6_i32_1373 : BitVec 32 := 6#32
  let v2572 : Index := Scalar.indexCast c6_i32_1373
  let c0_i32_256 : BitVec 32 := 0#32
  let c1_i32_258 : BitVec 32 := 1#32
  let arg11 : BitVec 32 := Scf.iv c0_i32_256 c1_i32_258 k0_t2
  let v2573 : Index := Scalar.indexCast arg11
  let c352_1374 : Index := 352#32
  ![0, 6, v2573.toNat, 352]
def k0_off218 (k0_t2 : Fin k0_t2_loop.trips) : Fin 4 → Nat :=
  let c0_i32_1378 : BitVec 32 := 0#32
  let v2583 : Index := Scalar.indexCast c0_i32_1378
  let c7_i32_1379 : BitVec 32 := 7#32
  let v2584 : Index := Scalar.indexCast c7_i32_1379
  let c0_i32_256 : BitVec 32 := 0#32
  let c1_i32_258 : BitVec 32 := 1#32
  let arg11 : BitVec 32 := Scf.iv c0_i32_256 c1_i32_258 k0_t2
  let v2585 : Index := Scalar.indexCast arg11
  let c352_1380 : Index := 352#32
  ![0, 7, v2585.toNat, 352]
def k0_off219 (k0_t2 : Fin k0_t2_loop.trips) : Fin 2 → Nat :=
  let c0_i32_256 : BitVec 32 := 0#32
  let c1_i32_258 : BitVec 32 := 1#32
  let arg11 : BitVec 32 := Scf.iv c0_i32_256 c1_i32_258 k0_t2
  let v2595 : Index := Scalar.indexCast arg11
  let c368 : Index := 368#32
  ![v2595.toNat, 368]
def k0_off220 (k0_t2 : Fin k0_t2_loop.trips) : Fin 4 → Nat :=
  let c0_i32_1384 : BitVec 32 := 0#32
  let v2598 : Index := Scalar.indexCast c0_i32_1384
  let c0_i32_1385 : BitVec 32 := 0#32
  let v2599 : Index := Scalar.indexCast c0_i32_1385
  let c0_i32_256 : BitVec 32 := 0#32
  let c1_i32_258 : BitVec 32 := 1#32
  let arg11 : BitVec 32 := Scf.iv c0_i32_256 c1_i32_258 k0_t2
  let v2600 : Index := Scalar.indexCast arg11
  let c368_1386 : Index := 368#32
  ![0, 0, v2600.toNat, 368]
def k0_off221 (k0_t2 : Fin k0_t2_loop.trips) : Fin 4 → Nat :=
  let c0_i32_1390 : BitVec 32 := 0#32
  let v2610 : Index := Scalar.indexCast c0_i32_1390
  let c1_i32_1391 : BitVec 32 := 1#32
  let v2611 : Index := Scalar.indexCast c1_i32_1391
  let c0_i32_256 : BitVec 32 := 0#32
  let c1_i32_258 : BitVec 32 := 1#32
  let arg11 : BitVec 32 := Scf.iv c0_i32_256 c1_i32_258 k0_t2
  let v2612 : Index := Scalar.indexCast arg11
  let c368_1392 : Index := 368#32
  ![0, 1, v2612.toNat, 368]
def k0_off222 (k0_t2 : Fin k0_t2_loop.trips) : Fin 4 → Nat :=
  let c0_i32_1396 : BitVec 32 := 0#32
  let v2622 : Index := Scalar.indexCast c0_i32_1396
  let c2_i32_1397 : BitVec 32 := 2#32
  let v2623 : Index := Scalar.indexCast c2_i32_1397
  let c0_i32_256 : BitVec 32 := 0#32
  let c1_i32_258 : BitVec 32 := 1#32
  let arg11 : BitVec 32 := Scf.iv c0_i32_256 c1_i32_258 k0_t2
  let v2624 : Index := Scalar.indexCast arg11
  let c368_1398 : Index := 368#32
  ![0, 2, v2624.toNat, 368]
def k0_off223 (k0_t2 : Fin k0_t2_loop.trips) : Fin 4 → Nat :=
  let c0_i32_1402 : BitVec 32 := 0#32
  let v2634 : Index := Scalar.indexCast c0_i32_1402
  let c3_i32_1403 : BitVec 32 := 3#32
  let v2635 : Index := Scalar.indexCast c3_i32_1403
  let c0_i32_256 : BitVec 32 := 0#32
  let c1_i32_258 : BitVec 32 := 1#32
  let arg11 : BitVec 32 := Scf.iv c0_i32_256 c1_i32_258 k0_t2
  let v2636 : Index := Scalar.indexCast arg11
  let c368_1404 : Index := 368#32
  ![0, 3, v2636.toNat, 368]
def k0_off224 (k0_t2 : Fin k0_t2_loop.trips) : Fin 4 → Nat :=
  let c0_i32_1408 : BitVec 32 := 0#32
  let v2646 : Index := Scalar.indexCast c0_i32_1408
  let c4_i32_1409 : BitVec 32 := 4#32
  let v2647 : Index := Scalar.indexCast c4_i32_1409
  let c0_i32_256 : BitVec 32 := 0#32
  let c1_i32_258 : BitVec 32 := 1#32
  let arg11 : BitVec 32 := Scf.iv c0_i32_256 c1_i32_258 k0_t2
  let v2648 : Index := Scalar.indexCast arg11
  let c368_1410 : Index := 368#32
  ![0, 4, v2648.toNat, 368]
def k0_off225 (k0_t2 : Fin k0_t2_loop.trips) : Fin 4 → Nat :=
  let c0_i32_1414 : BitVec 32 := 0#32
  let v2658 : Index := Scalar.indexCast c0_i32_1414
  let c5_i32_1415 : BitVec 32 := 5#32
  let v2659 : Index := Scalar.indexCast c5_i32_1415
  let c0_i32_256 : BitVec 32 := 0#32
  let c1_i32_258 : BitVec 32 := 1#32
  let arg11 : BitVec 32 := Scf.iv c0_i32_256 c1_i32_258 k0_t2
  let v2660 : Index := Scalar.indexCast arg11
  let c368_1416 : Index := 368#32
  ![0, 5, v2660.toNat, 368]
def k0_off226 (k0_t2 : Fin k0_t2_loop.trips) : Fin 4 → Nat :=
  let c0_i32_1420 : BitVec 32 := 0#32
  let v2670 : Index := Scalar.indexCast c0_i32_1420
  let c6_i32_1421 : BitVec 32 := 6#32
  let v2671 : Index := Scalar.indexCast c6_i32_1421
  let c0_i32_256 : BitVec 32 := 0#32
  let c1_i32_258 : BitVec 32 := 1#32
  let arg11 : BitVec 32 := Scf.iv c0_i32_256 c1_i32_258 k0_t2
  let v2672 : Index := Scalar.indexCast arg11
  let c368_1422 : Index := 368#32
  ![0, 6, v2672.toNat, 368]
def k0_off227 (k0_t2 : Fin k0_t2_loop.trips) : Fin 4 → Nat :=
  let c0_i32_1426 : BitVec 32 := 0#32
  let v2682 : Index := Scalar.indexCast c0_i32_1426
  let c7_i32_1427 : BitVec 32 := 7#32
  let v2683 : Index := Scalar.indexCast c7_i32_1427
  let c0_i32_256 : BitVec 32 := 0#32
  let c1_i32_258 : BitVec 32 := 1#32
  let arg11 : BitVec 32 := Scf.iv c0_i32_256 c1_i32_258 k0_t2
  let v2684 : Index := Scalar.indexCast arg11
  let c368_1428 : Index := 368#32
  ![0, 7, v2684.toNat, 368]
def k0_off228 (k0_t2 : Fin k0_t2_loop.trips) : Fin 2 → Nat :=
  let c0_i32_256 : BitVec 32 := 0#32
  let c1_i32_258 : BitVec 32 := 1#32
  let arg11 : BitVec 32 := Scf.iv c0_i32_256 c1_i32_258 k0_t2
  let v2694 : Index := Scalar.indexCast arg11
  let c384 : Index := 384#32
  ![v2694.toNat, 384]
def k0_off229 (k0_t2 : Fin k0_t2_loop.trips) : Fin 4 → Nat :=
  let c0_i32_1432 : BitVec 32 := 0#32
  let v2697 : Index := Scalar.indexCast c0_i32_1432
  let c0_i32_1433 : BitVec 32 := 0#32
  let v2698 : Index := Scalar.indexCast c0_i32_1433
  let c0_i32_256 : BitVec 32 := 0#32
  let c1_i32_258 : BitVec 32 := 1#32
  let arg11 : BitVec 32 := Scf.iv c0_i32_256 c1_i32_258 k0_t2
  let v2699 : Index := Scalar.indexCast arg11
  let c384_1434 : Index := 384#32
  ![0, 0, v2699.toNat, 384]
def k0_off230 (k0_t2 : Fin k0_t2_loop.trips) : Fin 4 → Nat :=
  let c0_i32_1438 : BitVec 32 := 0#32
  let v2709 : Index := Scalar.indexCast c0_i32_1438
  let c1_i32_1439 : BitVec 32 := 1#32
  let v2710 : Index := Scalar.indexCast c1_i32_1439
  let c0_i32_256 : BitVec 32 := 0#32
  let c1_i32_258 : BitVec 32 := 1#32
  let arg11 : BitVec 32 := Scf.iv c0_i32_256 c1_i32_258 k0_t2
  let v2711 : Index := Scalar.indexCast arg11
  let c384_1440 : Index := 384#32
  ![0, 1, v2711.toNat, 384]
def k0_off231 (k0_t2 : Fin k0_t2_loop.trips) : Fin 4 → Nat :=
  let c0_i32_1444 : BitVec 32 := 0#32
  let v2721 : Index := Scalar.indexCast c0_i32_1444
  let c2_i32_1445 : BitVec 32 := 2#32
  let v2722 : Index := Scalar.indexCast c2_i32_1445
  let c0_i32_256 : BitVec 32 := 0#32
  let c1_i32_258 : BitVec 32 := 1#32
  let arg11 : BitVec 32 := Scf.iv c0_i32_256 c1_i32_258 k0_t2
  let v2723 : Index := Scalar.indexCast arg11
  let c384_1446 : Index := 384#32
  ![0, 2, v2723.toNat, 384]
def k0_off232 (k0_t2 : Fin k0_t2_loop.trips) : Fin 4 → Nat :=
  let c0_i32_1450 : BitVec 32 := 0#32
  let v2733 : Index := Scalar.indexCast c0_i32_1450
  let c3_i32_1451 : BitVec 32 := 3#32
  let v2734 : Index := Scalar.indexCast c3_i32_1451
  let c0_i32_256 : BitVec 32 := 0#32
  let c1_i32_258 : BitVec 32 := 1#32
  let arg11 : BitVec 32 := Scf.iv c0_i32_256 c1_i32_258 k0_t2
  let v2735 : Index := Scalar.indexCast arg11
  let c384_1452 : Index := 384#32
  ![0, 3, v2735.toNat, 384]
def k0_off233 (k0_t2 : Fin k0_t2_loop.trips) : Fin 4 → Nat :=
  let c0_i32_1456 : BitVec 32 := 0#32
  let v2745 : Index := Scalar.indexCast c0_i32_1456
  let c4_i32_1457 : BitVec 32 := 4#32
  let v2746 : Index := Scalar.indexCast c4_i32_1457
  let c0_i32_256 : BitVec 32 := 0#32
  let c1_i32_258 : BitVec 32 := 1#32
  let arg11 : BitVec 32 := Scf.iv c0_i32_256 c1_i32_258 k0_t2
  let v2747 : Index := Scalar.indexCast arg11
  let c384_1458 : Index := 384#32
  ![0, 4, v2747.toNat, 384]
def k0_off234 (k0_t2 : Fin k0_t2_loop.trips) : Fin 4 → Nat :=
  let c0_i32_1462 : BitVec 32 := 0#32
  let v2757 : Index := Scalar.indexCast c0_i32_1462
  let c5_i32_1463 : BitVec 32 := 5#32
  let v2758 : Index := Scalar.indexCast c5_i32_1463
  let c0_i32_256 : BitVec 32 := 0#32
  let c1_i32_258 : BitVec 32 := 1#32
  let arg11 : BitVec 32 := Scf.iv c0_i32_256 c1_i32_258 k0_t2
  let v2759 : Index := Scalar.indexCast arg11
  let c384_1464 : Index := 384#32
  ![0, 5, v2759.toNat, 384]
def k0_off235 (k0_t2 : Fin k0_t2_loop.trips) : Fin 4 → Nat :=
  let c0_i32_1468 : BitVec 32 := 0#32
  let v2769 : Index := Scalar.indexCast c0_i32_1468
  let c6_i32_1469 : BitVec 32 := 6#32
  let v2770 : Index := Scalar.indexCast c6_i32_1469
  let c0_i32_256 : BitVec 32 := 0#32
  let c1_i32_258 : BitVec 32 := 1#32
  let arg11 : BitVec 32 := Scf.iv c0_i32_256 c1_i32_258 k0_t2
  let v2771 : Index := Scalar.indexCast arg11
  let c384_1470 : Index := 384#32
  ![0, 6, v2771.toNat, 384]
def k0_off236 (k0_t2 : Fin k0_t2_loop.trips) : Fin 4 → Nat :=
  let c0_i32_1474 : BitVec 32 := 0#32
  let v2781 : Index := Scalar.indexCast c0_i32_1474
  let c7_i32_1475 : BitVec 32 := 7#32
  let v2782 : Index := Scalar.indexCast c7_i32_1475
  let c0_i32_256 : BitVec 32 := 0#32
  let c1_i32_258 : BitVec 32 := 1#32
  let arg11 : BitVec 32 := Scf.iv c0_i32_256 c1_i32_258 k0_t2
  let v2783 : Index := Scalar.indexCast arg11
  let c384_1476 : Index := 384#32
  ![0, 7, v2783.toNat, 384]
def k0_off237 (k0_t2 : Fin k0_t2_loop.trips) : Fin 2 → Nat :=
  let c0_i32_256 : BitVec 32 := 0#32
  let c1_i32_258 : BitVec 32 := 1#32
  let arg11 : BitVec 32 := Scf.iv c0_i32_256 c1_i32_258 k0_t2
  let v2793 : Index := Scalar.indexCast arg11
  let c400 : Index := 400#32
  ![v2793.toNat, 400]
def k0_off238 (k0_t2 : Fin k0_t2_loop.trips) : Fin 4 → Nat :=
  let c0_i32_1480 : BitVec 32 := 0#32
  let v2796 : Index := Scalar.indexCast c0_i32_1480
  let c0_i32_1481 : BitVec 32 := 0#32
  let v2797 : Index := Scalar.indexCast c0_i32_1481
  let c0_i32_256 : BitVec 32 := 0#32
  let c1_i32_258 : BitVec 32 := 1#32
  let arg11 : BitVec 32 := Scf.iv c0_i32_256 c1_i32_258 k0_t2
  let v2798 : Index := Scalar.indexCast arg11
  let c400_1482 : Index := 400#32
  ![0, 0, v2798.toNat, 400]
def k0_off239 (k0_t2 : Fin k0_t2_loop.trips) : Fin 4 → Nat :=
  let c0_i32_1486 : BitVec 32 := 0#32
  let v2808 : Index := Scalar.indexCast c0_i32_1486
  let c1_i32_1487 : BitVec 32 := 1#32
  let v2809 : Index := Scalar.indexCast c1_i32_1487
  let c0_i32_256 : BitVec 32 := 0#32
  let c1_i32_258 : BitVec 32 := 1#32
  let arg11 : BitVec 32 := Scf.iv c0_i32_256 c1_i32_258 k0_t2
  let v2810 : Index := Scalar.indexCast arg11
  let c400_1488 : Index := 400#32
  ![0, 1, v2810.toNat, 400]
def k0_off240 (k0_t2 : Fin k0_t2_loop.trips) : Fin 4 → Nat :=
  let c0_i32_1492 : BitVec 32 := 0#32
  let v2820 : Index := Scalar.indexCast c0_i32_1492
  let c2_i32_1493 : BitVec 32 := 2#32
  let v2821 : Index := Scalar.indexCast c2_i32_1493
  let c0_i32_256 : BitVec 32 := 0#32
  let c1_i32_258 : BitVec 32 := 1#32
  let arg11 : BitVec 32 := Scf.iv c0_i32_256 c1_i32_258 k0_t2
  let v2822 : Index := Scalar.indexCast arg11
  let c400_1494 : Index := 400#32
  ![0, 2, v2822.toNat, 400]
def k0_off241 (k0_t2 : Fin k0_t2_loop.trips) : Fin 4 → Nat :=
  let c0_i32_1498 : BitVec 32 := 0#32
  let v2832 : Index := Scalar.indexCast c0_i32_1498
  let c3_i32_1499 : BitVec 32 := 3#32
  let v2833 : Index := Scalar.indexCast c3_i32_1499
  let c0_i32_256 : BitVec 32 := 0#32
  let c1_i32_258 : BitVec 32 := 1#32
  let arg11 : BitVec 32 := Scf.iv c0_i32_256 c1_i32_258 k0_t2
  let v2834 : Index := Scalar.indexCast arg11
  let c400_1500 : Index := 400#32
  ![0, 3, v2834.toNat, 400]
def k0_off242 (k0_t2 : Fin k0_t2_loop.trips) : Fin 4 → Nat :=
  let c0_i32_1504 : BitVec 32 := 0#32
  let v2844 : Index := Scalar.indexCast c0_i32_1504
  let c4_i32_1505 : BitVec 32 := 4#32
  let v2845 : Index := Scalar.indexCast c4_i32_1505
  let c0_i32_256 : BitVec 32 := 0#32
  let c1_i32_258 : BitVec 32 := 1#32
  let arg11 : BitVec 32 := Scf.iv c0_i32_256 c1_i32_258 k0_t2
  let v2846 : Index := Scalar.indexCast arg11
  let c400_1506 : Index := 400#32
  ![0, 4, v2846.toNat, 400]
def k0_off243 (k0_t2 : Fin k0_t2_loop.trips) : Fin 4 → Nat :=
  let c0_i32_1510 : BitVec 32 := 0#32
  let v2856 : Index := Scalar.indexCast c0_i32_1510
  let c5_i32_1511 : BitVec 32 := 5#32
  let v2857 : Index := Scalar.indexCast c5_i32_1511
  let c0_i32_256 : BitVec 32 := 0#32
  let c1_i32_258 : BitVec 32 := 1#32
  let arg11 : BitVec 32 := Scf.iv c0_i32_256 c1_i32_258 k0_t2
  let v2858 : Index := Scalar.indexCast arg11
  let c400_1512 : Index := 400#32
  ![0, 5, v2858.toNat, 400]
def k0_off244 (k0_t2 : Fin k0_t2_loop.trips) : Fin 4 → Nat :=
  let c0_i32_1516 : BitVec 32 := 0#32
  let v2868 : Index := Scalar.indexCast c0_i32_1516
  let c6_i32_1517 : BitVec 32 := 6#32
  let v2869 : Index := Scalar.indexCast c6_i32_1517
  let c0_i32_256 : BitVec 32 := 0#32
  let c1_i32_258 : BitVec 32 := 1#32
  let arg11 : BitVec 32 := Scf.iv c0_i32_256 c1_i32_258 k0_t2
  let v2870 : Index := Scalar.indexCast arg11
  let c400_1518 : Index := 400#32
  ![0, 6, v2870.toNat, 400]
def k0_off245 (k0_t2 : Fin k0_t2_loop.trips) : Fin 4 → Nat :=
  let c0_i32_1522 : BitVec 32 := 0#32
  let v2880 : Index := Scalar.indexCast c0_i32_1522
  let c7_i32_1523 : BitVec 32 := 7#32
  let v2881 : Index := Scalar.indexCast c7_i32_1523
  let c0_i32_256 : BitVec 32 := 0#32
  let c1_i32_258 : BitVec 32 := 1#32
  let arg11 : BitVec 32 := Scf.iv c0_i32_256 c1_i32_258 k0_t2
  let v2882 : Index := Scalar.indexCast arg11
  let c400_1524 : Index := 400#32
  ![0, 7, v2882.toNat, 400]
def k0_off246 (k0_t2 : Fin k0_t2_loop.trips) : Fin 2 → Nat :=
  let c0_i32_256 : BitVec 32 := 0#32
  let c1_i32_258 : BitVec 32 := 1#32
  let arg11 : BitVec 32 := Scf.iv c0_i32_256 c1_i32_258 k0_t2
  let v2892 : Index := Scalar.indexCast arg11
  let c416 : Index := 416#32
  ![v2892.toNat, 416]
def k0_off247 (k0_t2 : Fin k0_t2_loop.trips) : Fin 4 → Nat :=
  let c0_i32_1528 : BitVec 32 := 0#32
  let v2895 : Index := Scalar.indexCast c0_i32_1528
  let c0_i32_1529 : BitVec 32 := 0#32
  let v2896 : Index := Scalar.indexCast c0_i32_1529
  let c0_i32_256 : BitVec 32 := 0#32
  let c1_i32_258 : BitVec 32 := 1#32
  let arg11 : BitVec 32 := Scf.iv c0_i32_256 c1_i32_258 k0_t2
  let v2897 : Index := Scalar.indexCast arg11
  let c416_1530 : Index := 416#32
  ![0, 0, v2897.toNat, 416]
def k0_off248 (k0_t2 : Fin k0_t2_loop.trips) : Fin 4 → Nat :=
  let c0_i32_1534 : BitVec 32 := 0#32
  let v2907 : Index := Scalar.indexCast c0_i32_1534
  let c1_i32_1535 : BitVec 32 := 1#32
  let v2908 : Index := Scalar.indexCast c1_i32_1535
  let c0_i32_256 : BitVec 32 := 0#32
  let c1_i32_258 : BitVec 32 := 1#32
  let arg11 : BitVec 32 := Scf.iv c0_i32_256 c1_i32_258 k0_t2
  let v2909 : Index := Scalar.indexCast arg11
  let c416_1536 : Index := 416#32
  ![0, 1, v2909.toNat, 416]
def k0_off249 (k0_t2 : Fin k0_t2_loop.trips) : Fin 4 → Nat :=
  let c0_i32_1540 : BitVec 32 := 0#32
  let v2919 : Index := Scalar.indexCast c0_i32_1540
  let c2_i32_1541 : BitVec 32 := 2#32
  let v2920 : Index := Scalar.indexCast c2_i32_1541
  let c0_i32_256 : BitVec 32 := 0#32
  let c1_i32_258 : BitVec 32 := 1#32
  let arg11 : BitVec 32 := Scf.iv c0_i32_256 c1_i32_258 k0_t2
  let v2921 : Index := Scalar.indexCast arg11
  let c416_1542 : Index := 416#32
  ![0, 2, v2921.toNat, 416]
def k0_off250 (k0_t2 : Fin k0_t2_loop.trips) : Fin 4 → Nat :=
  let c0_i32_1546 : BitVec 32 := 0#32
  let v2931 : Index := Scalar.indexCast c0_i32_1546
  let c3_i32_1547 : BitVec 32 := 3#32
  let v2932 : Index := Scalar.indexCast c3_i32_1547
  let c0_i32_256 : BitVec 32 := 0#32
  let c1_i32_258 : BitVec 32 := 1#32
  let arg11 : BitVec 32 := Scf.iv c0_i32_256 c1_i32_258 k0_t2
  let v2933 : Index := Scalar.indexCast arg11
  let c416_1548 : Index := 416#32
  ![0, 3, v2933.toNat, 416]
def k0_off251 (k0_t2 : Fin k0_t2_loop.trips) : Fin 4 → Nat :=
  let c0_i32_1552 : BitVec 32 := 0#32
  let v2943 : Index := Scalar.indexCast c0_i32_1552
  let c4_i32_1553 : BitVec 32 := 4#32
  let v2944 : Index := Scalar.indexCast c4_i32_1553
  let c0_i32_256 : BitVec 32 := 0#32
  let c1_i32_258 : BitVec 32 := 1#32
  let arg11 : BitVec 32 := Scf.iv c0_i32_256 c1_i32_258 k0_t2
  let v2945 : Index := Scalar.indexCast arg11
  let c416_1554 : Index := 416#32
  ![0, 4, v2945.toNat, 416]
def k0_off252 (k0_t2 : Fin k0_t2_loop.trips) : Fin 4 → Nat :=
  let c0_i32_1558 : BitVec 32 := 0#32
  let v2955 : Index := Scalar.indexCast c0_i32_1558
  let c5_i32_1559 : BitVec 32 := 5#32
  let v2956 : Index := Scalar.indexCast c5_i32_1559
  let c0_i32_256 : BitVec 32 := 0#32
  let c1_i32_258 : BitVec 32 := 1#32
  let arg11 : BitVec 32 := Scf.iv c0_i32_256 c1_i32_258 k0_t2
  let v2957 : Index := Scalar.indexCast arg11
  let c416_1560 : Index := 416#32
  ![0, 5, v2957.toNat, 416]
def k0_off253 (k0_t2 : Fin k0_t2_loop.trips) : Fin 4 → Nat :=
  let c0_i32_1564 : BitVec 32 := 0#32
  let v2967 : Index := Scalar.indexCast c0_i32_1564
  let c6_i32_1565 : BitVec 32 := 6#32
  let v2968 : Index := Scalar.indexCast c6_i32_1565
  let c0_i32_256 : BitVec 32 := 0#32
  let c1_i32_258 : BitVec 32 := 1#32
  let arg11 : BitVec 32 := Scf.iv c0_i32_256 c1_i32_258 k0_t2
  let v2969 : Index := Scalar.indexCast arg11
  let c416_1566 : Index := 416#32
  ![0, 6, v2969.toNat, 416]
def k0_off254 (k0_t2 : Fin k0_t2_loop.trips) : Fin 4 → Nat :=
  let c0_i32_1570 : BitVec 32 := 0#32
  let v2979 : Index := Scalar.indexCast c0_i32_1570
  let c7_i32_1571 : BitVec 32 := 7#32
  let v2980 : Index := Scalar.indexCast c7_i32_1571
  let c0_i32_256 : BitVec 32 := 0#32
  let c1_i32_258 : BitVec 32 := 1#32
  let arg11 : BitVec 32 := Scf.iv c0_i32_256 c1_i32_258 k0_t2
  let v2981 : Index := Scalar.indexCast arg11
  let c416_1572 : Index := 416#32
  ![0, 7, v2981.toNat, 416]
def k0_off255 (k0_t2 : Fin k0_t2_loop.trips) : Fin 2 → Nat :=
  let c0_i32_256 : BitVec 32 := 0#32
  let c1_i32_258 : BitVec 32 := 1#32
  let arg11 : BitVec 32 := Scf.iv c0_i32_256 c1_i32_258 k0_t2
  let v2991 : Index := Scalar.indexCast arg11
  let c432 : Index := 432#32
  ![v2991.toNat, 432]
def k0_off256 (k0_t2 : Fin k0_t2_loop.trips) : Fin 4 → Nat :=
  let c0_i32_1576 : BitVec 32 := 0#32
  let v2994 : Index := Scalar.indexCast c0_i32_1576
  let c0_i32_1577 : BitVec 32 := 0#32
  let v2995 : Index := Scalar.indexCast c0_i32_1577
  let c0_i32_256 : BitVec 32 := 0#32
  let c1_i32_258 : BitVec 32 := 1#32
  let arg11 : BitVec 32 := Scf.iv c0_i32_256 c1_i32_258 k0_t2
  let v2996 : Index := Scalar.indexCast arg11
  let c432_1578 : Index := 432#32
  ![0, 0, v2996.toNat, 432]
def k0_off257 (k0_t2 : Fin k0_t2_loop.trips) : Fin 4 → Nat :=
  let c0_i32_1582 : BitVec 32 := 0#32
  let v3006 : Index := Scalar.indexCast c0_i32_1582
  let c1_i32_1583 : BitVec 32 := 1#32
  let v3007 : Index := Scalar.indexCast c1_i32_1583
  let c0_i32_256 : BitVec 32 := 0#32
  let c1_i32_258 : BitVec 32 := 1#32
  let arg11 : BitVec 32 := Scf.iv c0_i32_256 c1_i32_258 k0_t2
  let v3008 : Index := Scalar.indexCast arg11
  let c432_1584 : Index := 432#32
  ![0, 1, v3008.toNat, 432]
def k0_off258 (k0_t2 : Fin k0_t2_loop.trips) : Fin 4 → Nat :=
  let c0_i32_1588 : BitVec 32 := 0#32
  let v3018 : Index := Scalar.indexCast c0_i32_1588
  let c2_i32_1589 : BitVec 32 := 2#32
  let v3019 : Index := Scalar.indexCast c2_i32_1589
  let c0_i32_256 : BitVec 32 := 0#32
  let c1_i32_258 : BitVec 32 := 1#32
  let arg11 : BitVec 32 := Scf.iv c0_i32_256 c1_i32_258 k0_t2
  let v3020 : Index := Scalar.indexCast arg11
  let c432_1590 : Index := 432#32
  ![0, 2, v3020.toNat, 432]
def k0_off259 (k0_t2 : Fin k0_t2_loop.trips) : Fin 4 → Nat :=
  let c0_i32_1594 : BitVec 32 := 0#32
  let v3030 : Index := Scalar.indexCast c0_i32_1594
  let c3_i32_1595 : BitVec 32 := 3#32
  let v3031 : Index := Scalar.indexCast c3_i32_1595
  let c0_i32_256 : BitVec 32 := 0#32
  let c1_i32_258 : BitVec 32 := 1#32
  let arg11 : BitVec 32 := Scf.iv c0_i32_256 c1_i32_258 k0_t2
  let v3032 : Index := Scalar.indexCast arg11
  let c432_1596 : Index := 432#32
  ![0, 3, v3032.toNat, 432]
def k0_off260 (k0_t2 : Fin k0_t2_loop.trips) : Fin 4 → Nat :=
  let c0_i32_1600 : BitVec 32 := 0#32
  let v3042 : Index := Scalar.indexCast c0_i32_1600
  let c4_i32_1601 : BitVec 32 := 4#32
  let v3043 : Index := Scalar.indexCast c4_i32_1601
  let c0_i32_256 : BitVec 32 := 0#32
  let c1_i32_258 : BitVec 32 := 1#32
  let arg11 : BitVec 32 := Scf.iv c0_i32_256 c1_i32_258 k0_t2
  let v3044 : Index := Scalar.indexCast arg11
  let c432_1602 : Index := 432#32
  ![0, 4, v3044.toNat, 432]
def k0_off261 (k0_t2 : Fin k0_t2_loop.trips) : Fin 4 → Nat :=
  let c0_i32_1606 : BitVec 32 := 0#32
  let v3054 : Index := Scalar.indexCast c0_i32_1606
  let c5_i32_1607 : BitVec 32 := 5#32
  let v3055 : Index := Scalar.indexCast c5_i32_1607
  let c0_i32_256 : BitVec 32 := 0#32
  let c1_i32_258 : BitVec 32 := 1#32
  let arg11 : BitVec 32 := Scf.iv c0_i32_256 c1_i32_258 k0_t2
  let v3056 : Index := Scalar.indexCast arg11
  let c432_1608 : Index := 432#32
  ![0, 5, v3056.toNat, 432]
def k0_off262 (k0_t2 : Fin k0_t2_loop.trips) : Fin 4 → Nat :=
  let c0_i32_1612 : BitVec 32 := 0#32
  let v3066 : Index := Scalar.indexCast c0_i32_1612
  let c6_i32_1613 : BitVec 32 := 6#32
  let v3067 : Index := Scalar.indexCast c6_i32_1613
  let c0_i32_256 : BitVec 32 := 0#32
  let c1_i32_258 : BitVec 32 := 1#32
  let arg11 : BitVec 32 := Scf.iv c0_i32_256 c1_i32_258 k0_t2
  let v3068 : Index := Scalar.indexCast arg11
  let c432_1614 : Index := 432#32
  ![0, 6, v3068.toNat, 432]
def k0_off263 (k0_t2 : Fin k0_t2_loop.trips) : Fin 4 → Nat :=
  let c0_i32_1618 : BitVec 32 := 0#32
  let v3078 : Index := Scalar.indexCast c0_i32_1618
  let c7_i32_1619 : BitVec 32 := 7#32
  let v3079 : Index := Scalar.indexCast c7_i32_1619
  let c0_i32_256 : BitVec 32 := 0#32
  let c1_i32_258 : BitVec 32 := 1#32
  let arg11 : BitVec 32 := Scf.iv c0_i32_256 c1_i32_258 k0_t2
  let v3080 : Index := Scalar.indexCast arg11
  let c432_1620 : Index := 432#32
  ![0, 7, v3080.toNat, 432]
def k0_off264 (k0_t2 : Fin k0_t2_loop.trips) : Fin 2 → Nat :=
  let c0_i32_256 : BitVec 32 := 0#32
  let c1_i32_258 : BitVec 32 := 1#32
  let arg11 : BitVec 32 := Scf.iv c0_i32_256 c1_i32_258 k0_t2
  let v3090 : Index := Scalar.indexCast arg11
  let c448 : Index := 448#32
  ![v3090.toNat, 448]
def k0_off265 (k0_t2 : Fin k0_t2_loop.trips) : Fin 4 → Nat :=
  let c0_i32_1624 : BitVec 32 := 0#32
  let v3093 : Index := Scalar.indexCast c0_i32_1624
  let c0_i32_1625 : BitVec 32 := 0#32
  let v3094 : Index := Scalar.indexCast c0_i32_1625
  let c0_i32_256 : BitVec 32 := 0#32
  let c1_i32_258 : BitVec 32 := 1#32
  let arg11 : BitVec 32 := Scf.iv c0_i32_256 c1_i32_258 k0_t2
  let v3095 : Index := Scalar.indexCast arg11
  let c448_1626 : Index := 448#32
  ![0, 0, v3095.toNat, 448]
def k0_off266 (k0_t2 : Fin k0_t2_loop.trips) : Fin 4 → Nat :=
  let c0_i32_1630 : BitVec 32 := 0#32
  let v3105 : Index := Scalar.indexCast c0_i32_1630
  let c1_i32_1631 : BitVec 32 := 1#32
  let v3106 : Index := Scalar.indexCast c1_i32_1631
  let c0_i32_256 : BitVec 32 := 0#32
  let c1_i32_258 : BitVec 32 := 1#32
  let arg11 : BitVec 32 := Scf.iv c0_i32_256 c1_i32_258 k0_t2
  let v3107 : Index := Scalar.indexCast arg11
  let c448_1632 : Index := 448#32
  ![0, 1, v3107.toNat, 448]
def k0_off267 (k0_t2 : Fin k0_t2_loop.trips) : Fin 4 → Nat :=
  let c0_i32_1636 : BitVec 32 := 0#32
  let v3117 : Index := Scalar.indexCast c0_i32_1636
  let c2_i32_1637 : BitVec 32 := 2#32
  let v3118 : Index := Scalar.indexCast c2_i32_1637
  let c0_i32_256 : BitVec 32 := 0#32
  let c1_i32_258 : BitVec 32 := 1#32
  let arg11 : BitVec 32 := Scf.iv c0_i32_256 c1_i32_258 k0_t2
  let v3119 : Index := Scalar.indexCast arg11
  let c448_1638 : Index := 448#32
  ![0, 2, v3119.toNat, 448]
def k0_off268 (k0_t2 : Fin k0_t2_loop.trips) : Fin 4 → Nat :=
  let c0_i32_1642 : BitVec 32 := 0#32
  let v3129 : Index := Scalar.indexCast c0_i32_1642
  let c3_i32_1643 : BitVec 32 := 3#32
  let v3130 : Index := Scalar.indexCast c3_i32_1643
  let c0_i32_256 : BitVec 32 := 0#32
  let c1_i32_258 : BitVec 32 := 1#32
  let arg11 : BitVec 32 := Scf.iv c0_i32_256 c1_i32_258 k0_t2
  let v3131 : Index := Scalar.indexCast arg11
  let c448_1644 : Index := 448#32
  ![0, 3, v3131.toNat, 448]
def k0_off269 (k0_t2 : Fin k0_t2_loop.trips) : Fin 4 → Nat :=
  let c0_i32_1648 : BitVec 32 := 0#32
  let v3141 : Index := Scalar.indexCast c0_i32_1648
  let c4_i32_1649 : BitVec 32 := 4#32
  let v3142 : Index := Scalar.indexCast c4_i32_1649
  let c0_i32_256 : BitVec 32 := 0#32
  let c1_i32_258 : BitVec 32 := 1#32
  let arg11 : BitVec 32 := Scf.iv c0_i32_256 c1_i32_258 k0_t2
  let v3143 : Index := Scalar.indexCast arg11
  let c448_1650 : Index := 448#32
  ![0, 4, v3143.toNat, 448]
def k0_off270 (k0_t2 : Fin k0_t2_loop.trips) : Fin 4 → Nat :=
  let c0_i32_1654 : BitVec 32 := 0#32
  let v3153 : Index := Scalar.indexCast c0_i32_1654
  let c5_i32_1655 : BitVec 32 := 5#32
  let v3154 : Index := Scalar.indexCast c5_i32_1655
  let c0_i32_256 : BitVec 32 := 0#32
  let c1_i32_258 : BitVec 32 := 1#32
  let arg11 : BitVec 32 := Scf.iv c0_i32_256 c1_i32_258 k0_t2
  let v3155 : Index := Scalar.indexCast arg11
  let c448_1656 : Index := 448#32
  ![0, 5, v3155.toNat, 448]
def k0_off271 (k0_t2 : Fin k0_t2_loop.trips) : Fin 4 → Nat :=
  let c0_i32_1660 : BitVec 32 := 0#32
  let v3165 : Index := Scalar.indexCast c0_i32_1660
  let c6_i32_1661 : BitVec 32 := 6#32
  let v3166 : Index := Scalar.indexCast c6_i32_1661
  let c0_i32_256 : BitVec 32 := 0#32
  let c1_i32_258 : BitVec 32 := 1#32
  let arg11 : BitVec 32 := Scf.iv c0_i32_256 c1_i32_258 k0_t2
  let v3167 : Index := Scalar.indexCast arg11
  let c448_1662 : Index := 448#32
  ![0, 6, v3167.toNat, 448]
def k0_off272 (k0_t2 : Fin k0_t2_loop.trips) : Fin 4 → Nat :=
  let c0_i32_1666 : BitVec 32 := 0#32
  let v3177 : Index := Scalar.indexCast c0_i32_1666
  let c7_i32_1667 : BitVec 32 := 7#32
  let v3178 : Index := Scalar.indexCast c7_i32_1667
  let c0_i32_256 : BitVec 32 := 0#32
  let c1_i32_258 : BitVec 32 := 1#32
  let arg11 : BitVec 32 := Scf.iv c0_i32_256 c1_i32_258 k0_t2
  let v3179 : Index := Scalar.indexCast arg11
  let c448_1668 : Index := 448#32
  ![0, 7, v3179.toNat, 448]
def k0_off273 (k0_t2 : Fin k0_t2_loop.trips) : Fin 2 → Nat :=
  let c0_i32_256 : BitVec 32 := 0#32
  let c1_i32_258 : BitVec 32 := 1#32
  let arg11 : BitVec 32 := Scf.iv c0_i32_256 c1_i32_258 k0_t2
  let v3189 : Index := Scalar.indexCast arg11
  let c464 : Index := 464#32
  ![v3189.toNat, 464]
def k0_off274 (k0_t2 : Fin k0_t2_loop.trips) : Fin 4 → Nat :=
  let c0_i32_1672 : BitVec 32 := 0#32
  let v3192 : Index := Scalar.indexCast c0_i32_1672
  let c0_i32_1673 : BitVec 32 := 0#32
  let v3193 : Index := Scalar.indexCast c0_i32_1673
  let c0_i32_256 : BitVec 32 := 0#32
  let c1_i32_258 : BitVec 32 := 1#32
  let arg11 : BitVec 32 := Scf.iv c0_i32_256 c1_i32_258 k0_t2
  let v3194 : Index := Scalar.indexCast arg11
  let c464_1674 : Index := 464#32
  ![0, 0, v3194.toNat, 464]
def k0_off275 (k0_t2 : Fin k0_t2_loop.trips) : Fin 4 → Nat :=
  let c0_i32_1678 : BitVec 32 := 0#32
  let v3204 : Index := Scalar.indexCast c0_i32_1678
  let c1_i32_1679 : BitVec 32 := 1#32
  let v3205 : Index := Scalar.indexCast c1_i32_1679
  let c0_i32_256 : BitVec 32 := 0#32
  let c1_i32_258 : BitVec 32 := 1#32
  let arg11 : BitVec 32 := Scf.iv c0_i32_256 c1_i32_258 k0_t2
  let v3206 : Index := Scalar.indexCast arg11
  let c464_1680 : Index := 464#32
  ![0, 1, v3206.toNat, 464]
def k0_off276 (k0_t2 : Fin k0_t2_loop.trips) : Fin 4 → Nat :=
  let c0_i32_1684 : BitVec 32 := 0#32
  let v3216 : Index := Scalar.indexCast c0_i32_1684
  let c2_i32_1685 : BitVec 32 := 2#32
  let v3217 : Index := Scalar.indexCast c2_i32_1685
  let c0_i32_256 : BitVec 32 := 0#32
  let c1_i32_258 : BitVec 32 := 1#32
  let arg11 : BitVec 32 := Scf.iv c0_i32_256 c1_i32_258 k0_t2
  let v3218 : Index := Scalar.indexCast arg11
  let c464_1686 : Index := 464#32
  ![0, 2, v3218.toNat, 464]
def k0_off277 (k0_t2 : Fin k0_t2_loop.trips) : Fin 4 → Nat :=
  let c0_i32_1690 : BitVec 32 := 0#32
  let v3228 : Index := Scalar.indexCast c0_i32_1690
  let c3_i32_1691 : BitVec 32 := 3#32
  let v3229 : Index := Scalar.indexCast c3_i32_1691
  let c0_i32_256 : BitVec 32 := 0#32
  let c1_i32_258 : BitVec 32 := 1#32
  let arg11 : BitVec 32 := Scf.iv c0_i32_256 c1_i32_258 k0_t2
  let v3230 : Index := Scalar.indexCast arg11
  let c464_1692 : Index := 464#32
  ![0, 3, v3230.toNat, 464]
def k0_off278 (k0_t2 : Fin k0_t2_loop.trips) : Fin 4 → Nat :=
  let c0_i32_1696 : BitVec 32 := 0#32
  let v3240 : Index := Scalar.indexCast c0_i32_1696
  let c4_i32_1697 : BitVec 32 := 4#32
  let v3241 : Index := Scalar.indexCast c4_i32_1697
  let c0_i32_256 : BitVec 32 := 0#32
  let c1_i32_258 : BitVec 32 := 1#32
  let arg11 : BitVec 32 := Scf.iv c0_i32_256 c1_i32_258 k0_t2
  let v3242 : Index := Scalar.indexCast arg11
  let c464_1698 : Index := 464#32
  ![0, 4, v3242.toNat, 464]
def k0_off279 (k0_t2 : Fin k0_t2_loop.trips) : Fin 4 → Nat :=
  let c0_i32_1702 : BitVec 32 := 0#32
  let v3252 : Index := Scalar.indexCast c0_i32_1702
  let c5_i32_1703 : BitVec 32 := 5#32
  let v3253 : Index := Scalar.indexCast c5_i32_1703
  let c0_i32_256 : BitVec 32 := 0#32
  let c1_i32_258 : BitVec 32 := 1#32
  let arg11 : BitVec 32 := Scf.iv c0_i32_256 c1_i32_258 k0_t2
  let v3254 : Index := Scalar.indexCast arg11
  let c464_1704 : Index := 464#32
  ![0, 5, v3254.toNat, 464]
def k0_off280 (k0_t2 : Fin k0_t2_loop.trips) : Fin 4 → Nat :=
  let c0_i32_1708 : BitVec 32 := 0#32
  let v3264 : Index := Scalar.indexCast c0_i32_1708
  let c6_i32_1709 : BitVec 32 := 6#32
  let v3265 : Index := Scalar.indexCast c6_i32_1709
  let c0_i32_256 : BitVec 32 := 0#32
  let c1_i32_258 : BitVec 32 := 1#32
  let arg11 : BitVec 32 := Scf.iv c0_i32_256 c1_i32_258 k0_t2
  let v3266 : Index := Scalar.indexCast arg11
  let c464_1710 : Index := 464#32
  ![0, 6, v3266.toNat, 464]
def k0_off281 (k0_t2 : Fin k0_t2_loop.trips) : Fin 4 → Nat :=
  let c0_i32_1714 : BitVec 32 := 0#32
  let v3276 : Index := Scalar.indexCast c0_i32_1714
  let c7_i32_1715 : BitVec 32 := 7#32
  let v3277 : Index := Scalar.indexCast c7_i32_1715
  let c0_i32_256 : BitVec 32 := 0#32
  let c1_i32_258 : BitVec 32 := 1#32
  let arg11 : BitVec 32 := Scf.iv c0_i32_256 c1_i32_258 k0_t2
  let v3278 : Index := Scalar.indexCast arg11
  let c464_1716 : Index := 464#32
  ![0, 7, v3278.toNat, 464]
def k0_off282 (k0_t2 : Fin k0_t2_loop.trips) : Fin 2 → Nat :=
  let c0_i32_256 : BitVec 32 := 0#32
  let c1_i32_258 : BitVec 32 := 1#32
  let arg11 : BitVec 32 := Scf.iv c0_i32_256 c1_i32_258 k0_t2
  let v3288 : Index := Scalar.indexCast arg11
  let c480 : Index := 480#32
  ![v3288.toNat, 480]
def k0_off283 (k0_t2 : Fin k0_t2_loop.trips) : Fin 4 → Nat :=
  let c0_i32_1720 : BitVec 32 := 0#32
  let v3291 : Index := Scalar.indexCast c0_i32_1720
  let c0_i32_1721 : BitVec 32 := 0#32
  let v3292 : Index := Scalar.indexCast c0_i32_1721
  let c0_i32_256 : BitVec 32 := 0#32
  let c1_i32_258 : BitVec 32 := 1#32
  let arg11 : BitVec 32 := Scf.iv c0_i32_256 c1_i32_258 k0_t2
  let v3293 : Index := Scalar.indexCast arg11
  let c480_1722 : Index := 480#32
  ![0, 0, v3293.toNat, 480]
def k0_off284 (k0_t2 : Fin k0_t2_loop.trips) : Fin 4 → Nat :=
  let c0_i32_1726 : BitVec 32 := 0#32
  let v3303 : Index := Scalar.indexCast c0_i32_1726
  let c1_i32_1727 : BitVec 32 := 1#32
  let v3304 : Index := Scalar.indexCast c1_i32_1727
  let c0_i32_256 : BitVec 32 := 0#32
  let c1_i32_258 : BitVec 32 := 1#32
  let arg11 : BitVec 32 := Scf.iv c0_i32_256 c1_i32_258 k0_t2
  let v3305 : Index := Scalar.indexCast arg11
  let c480_1728 : Index := 480#32
  ![0, 1, v3305.toNat, 480]
def k0_off285 (k0_t2 : Fin k0_t2_loop.trips) : Fin 4 → Nat :=
  let c0_i32_1732 : BitVec 32 := 0#32
  let v3315 : Index := Scalar.indexCast c0_i32_1732
  let c2_i32_1733 : BitVec 32 := 2#32
  let v3316 : Index := Scalar.indexCast c2_i32_1733
  let c0_i32_256 : BitVec 32 := 0#32
  let c1_i32_258 : BitVec 32 := 1#32
  let arg11 : BitVec 32 := Scf.iv c0_i32_256 c1_i32_258 k0_t2
  let v3317 : Index := Scalar.indexCast arg11
  let c480_1734 : Index := 480#32
  ![0, 2, v3317.toNat, 480]
def k0_off286 (k0_t2 : Fin k0_t2_loop.trips) : Fin 4 → Nat :=
  let c0_i32_1738 : BitVec 32 := 0#32
  let v3327 : Index := Scalar.indexCast c0_i32_1738
  let c3_i32_1739 : BitVec 32 := 3#32
  let v3328 : Index := Scalar.indexCast c3_i32_1739
  let c0_i32_256 : BitVec 32 := 0#32
  let c1_i32_258 : BitVec 32 := 1#32
  let arg11 : BitVec 32 := Scf.iv c0_i32_256 c1_i32_258 k0_t2
  let v3329 : Index := Scalar.indexCast arg11
  let c480_1740 : Index := 480#32
  ![0, 3, v3329.toNat, 480]
def k0_off287 (k0_t2 : Fin k0_t2_loop.trips) : Fin 4 → Nat :=
  let c0_i32_1744 : BitVec 32 := 0#32
  let v3339 : Index := Scalar.indexCast c0_i32_1744
  let c4_i32_1745 : BitVec 32 := 4#32
  let v3340 : Index := Scalar.indexCast c4_i32_1745
  let c0_i32_256 : BitVec 32 := 0#32
  let c1_i32_258 : BitVec 32 := 1#32
  let arg11 : BitVec 32 := Scf.iv c0_i32_256 c1_i32_258 k0_t2
  let v3341 : Index := Scalar.indexCast arg11
  let c480_1746 : Index := 480#32
  ![0, 4, v3341.toNat, 480]
def k0_off288 (k0_t2 : Fin k0_t2_loop.trips) : Fin 4 → Nat :=
  let c0_i32_1750 : BitVec 32 := 0#32
  let v3351 : Index := Scalar.indexCast c0_i32_1750
  let c5_i32_1751 : BitVec 32 := 5#32
  let v3352 : Index := Scalar.indexCast c5_i32_1751
  let c0_i32_256 : BitVec 32 := 0#32
  let c1_i32_258 : BitVec 32 := 1#32
  let arg11 : BitVec 32 := Scf.iv c0_i32_256 c1_i32_258 k0_t2
  let v3353 : Index := Scalar.indexCast arg11
  let c480_1752 : Index := 480#32
  ![0, 5, v3353.toNat, 480]
def k0_off289 (k0_t2 : Fin k0_t2_loop.trips) : Fin 4 → Nat :=
  let c0_i32_1756 : BitVec 32 := 0#32
  let v3363 : Index := Scalar.indexCast c0_i32_1756
  let c6_i32_1757 : BitVec 32 := 6#32
  let v3364 : Index := Scalar.indexCast c6_i32_1757
  let c0_i32_256 : BitVec 32 := 0#32
  let c1_i32_258 : BitVec 32 := 1#32
  let arg11 : BitVec 32 := Scf.iv c0_i32_256 c1_i32_258 k0_t2
  let v3365 : Index := Scalar.indexCast arg11
  let c480_1758 : Index := 480#32
  ![0, 6, v3365.toNat, 480]
def k0_off290 (k0_t2 : Fin k0_t2_loop.trips) : Fin 4 → Nat :=
  let c0_i32_1762 : BitVec 32 := 0#32
  let v3375 : Index := Scalar.indexCast c0_i32_1762
  let c7_i32_1763 : BitVec 32 := 7#32
  let v3376 : Index := Scalar.indexCast c7_i32_1763
  let c0_i32_256 : BitVec 32 := 0#32
  let c1_i32_258 : BitVec 32 := 1#32
  let arg11 : BitVec 32 := Scf.iv c0_i32_256 c1_i32_258 k0_t2
  let v3377 : Index := Scalar.indexCast arg11
  let c480_1764 : Index := 480#32
  ![0, 7, v3377.toNat, 480]
def k0_off291 (k0_t2 : Fin k0_t2_loop.trips) : Fin 2 → Nat :=
  let c0_i32_256 : BitVec 32 := 0#32
  let c1_i32_258 : BitVec 32 := 1#32
  let arg11 : BitVec 32 := Scf.iv c0_i32_256 c1_i32_258 k0_t2
  let v3387 : Index := Scalar.indexCast arg11
  let c496 : Index := 496#32
  ![v3387.toNat, 496]
def k0_off292 (k0_t2 : Fin k0_t2_loop.trips) : Fin 4 → Nat :=
  let c0_i32_1768 : BitVec 32 := 0#32
  let v3390 : Index := Scalar.indexCast c0_i32_1768
  let c0_i32_1769 : BitVec 32 := 0#32
  let v3391 : Index := Scalar.indexCast c0_i32_1769
  let c0_i32_256 : BitVec 32 := 0#32
  let c1_i32_258 : BitVec 32 := 1#32
  let arg11 : BitVec 32 := Scf.iv c0_i32_256 c1_i32_258 k0_t2
  let v3392 : Index := Scalar.indexCast arg11
  let c496_1770 : Index := 496#32
  ![0, 0, v3392.toNat, 496]
def k0_off293 (k0_t2 : Fin k0_t2_loop.trips) : Fin 4 → Nat :=
  let c0_i32_1774 : BitVec 32 := 0#32
  let v3402 : Index := Scalar.indexCast c0_i32_1774
  let c1_i32_1775 : BitVec 32 := 1#32
  let v3403 : Index := Scalar.indexCast c1_i32_1775
  let c0_i32_256 : BitVec 32 := 0#32
  let c1_i32_258 : BitVec 32 := 1#32
  let arg11 : BitVec 32 := Scf.iv c0_i32_256 c1_i32_258 k0_t2
  let v3404 : Index := Scalar.indexCast arg11
  let c496_1776 : Index := 496#32
  ![0, 1, v3404.toNat, 496]
def k0_off294 (k0_t2 : Fin k0_t2_loop.trips) : Fin 4 → Nat :=
  let c0_i32_1780 : BitVec 32 := 0#32
  let v3414 : Index := Scalar.indexCast c0_i32_1780
  let c2_i32_1781 : BitVec 32 := 2#32
  let v3415 : Index := Scalar.indexCast c2_i32_1781
  let c0_i32_256 : BitVec 32 := 0#32
  let c1_i32_258 : BitVec 32 := 1#32
  let arg11 : BitVec 32 := Scf.iv c0_i32_256 c1_i32_258 k0_t2
  let v3416 : Index := Scalar.indexCast arg11
  let c496_1782 : Index := 496#32
  ![0, 2, v3416.toNat, 496]
def k0_off295 (k0_t2 : Fin k0_t2_loop.trips) : Fin 4 → Nat :=
  let c0_i32_1786 : BitVec 32 := 0#32
  let v3426 : Index := Scalar.indexCast c0_i32_1786
  let c3_i32_1787 : BitVec 32 := 3#32
  let v3427 : Index := Scalar.indexCast c3_i32_1787
  let c0_i32_256 : BitVec 32 := 0#32
  let c1_i32_258 : BitVec 32 := 1#32
  let arg11 : BitVec 32 := Scf.iv c0_i32_256 c1_i32_258 k0_t2
  let v3428 : Index := Scalar.indexCast arg11
  let c496_1788 : Index := 496#32
  ![0, 3, v3428.toNat, 496]
def k0_off296 (k0_t2 : Fin k0_t2_loop.trips) : Fin 4 → Nat :=
  let c0_i32_1792 : BitVec 32 := 0#32
  let v3438 : Index := Scalar.indexCast c0_i32_1792
  let c4_i32_1793 : BitVec 32 := 4#32
  let v3439 : Index := Scalar.indexCast c4_i32_1793
  let c0_i32_256 : BitVec 32 := 0#32
  let c1_i32_258 : BitVec 32 := 1#32
  let arg11 : BitVec 32 := Scf.iv c0_i32_256 c1_i32_258 k0_t2
  let v3440 : Index := Scalar.indexCast arg11
  let c496_1794 : Index := 496#32
  ![0, 4, v3440.toNat, 496]
def k0_off297 (k0_t2 : Fin k0_t2_loop.trips) : Fin 4 → Nat :=
  let c0_i32_1798 : BitVec 32 := 0#32
  let v3450 : Index := Scalar.indexCast c0_i32_1798
  let c5_i32_1799 : BitVec 32 := 5#32
  let v3451 : Index := Scalar.indexCast c5_i32_1799
  let c0_i32_256 : BitVec 32 := 0#32
  let c1_i32_258 : BitVec 32 := 1#32
  let arg11 : BitVec 32 := Scf.iv c0_i32_256 c1_i32_258 k0_t2
  let v3452 : Index := Scalar.indexCast arg11
  let c496_1800 : Index := 496#32
  ![0, 5, v3452.toNat, 496]
def k0_off298 (k0_t2 : Fin k0_t2_loop.trips) : Fin 4 → Nat :=
  let c0_i32_1804 : BitVec 32 := 0#32
  let v3462 : Index := Scalar.indexCast c0_i32_1804
  let c6_i32_1805 : BitVec 32 := 6#32
  let v3463 : Index := Scalar.indexCast c6_i32_1805
  let c0_i32_256 : BitVec 32 := 0#32
  let c1_i32_258 : BitVec 32 := 1#32
  let arg11 : BitVec 32 := Scf.iv c0_i32_256 c1_i32_258 k0_t2
  let v3464 : Index := Scalar.indexCast arg11
  let c496_1806 : Index := 496#32
  ![0, 6, v3464.toNat, 496]
def k0_off299 (k0_t2 : Fin k0_t2_loop.trips) : Fin 4 → Nat :=
  let c0_i32_1810 : BitVec 32 := 0#32
  let v3474 : Index := Scalar.indexCast c0_i32_1810
  let c7_i32_1811 : BitVec 32 := 7#32
  let v3475 : Index := Scalar.indexCast c7_i32_1811
  let c0_i32_256 : BitVec 32 := 0#32
  let c1_i32_258 : BitVec 32 := 1#32
  let arg11 : BitVec 32 := Scf.iv c0_i32_256 c1_i32_258 k0_t2
  let v3476 : Index := Scalar.indexCast arg11
  let c496_1812 : Index := 496#32
  ![0, 7, v3476.toNat, 496]
def k0_off300 (k0_t2 : Fin k0_t2_loop.trips) : Fin 2 → Nat :=
  let c0_i32_256 : BitVec 32 := 0#32
  let c1_i32_258 : BitVec 32 := 1#32
  let arg11 : BitVec 32 := Scf.iv c0_i32_256 c1_i32_258 k0_t2
  let v3486 : Index := Scalar.indexCast arg11
  let c512 : Index := 512#32
  ![v3486.toNat, 512]
def k0_off301 (k0_t2 : Fin k0_t2_loop.trips) : Fin 4 → Nat :=
  let c0_i32_1816 : BitVec 32 := 0#32
  let v3489 : Index := Scalar.indexCast c0_i32_1816
  let c0_i32_1817 : BitVec 32 := 0#32
  let v3490 : Index := Scalar.indexCast c0_i32_1817
  let c0_i32_256 : BitVec 32 := 0#32
  let c1_i32_258 : BitVec 32 := 1#32
  let arg11 : BitVec 32 := Scf.iv c0_i32_256 c1_i32_258 k0_t2
  let v3491 : Index := Scalar.indexCast arg11
  let c512_1818 : Index := 512#32
  ![0, 0, v3491.toNat, 512]
def k0_off302 (k0_t2 : Fin k0_t2_loop.trips) : Fin 4 → Nat :=
  let c0_i32_1822 : BitVec 32 := 0#32
  let v3501 : Index := Scalar.indexCast c0_i32_1822
  let c1_i32_1823 : BitVec 32 := 1#32
  let v3502 : Index := Scalar.indexCast c1_i32_1823
  let c0_i32_256 : BitVec 32 := 0#32
  let c1_i32_258 : BitVec 32 := 1#32
  let arg11 : BitVec 32 := Scf.iv c0_i32_256 c1_i32_258 k0_t2
  let v3503 : Index := Scalar.indexCast arg11
  let c512_1824 : Index := 512#32
  ![0, 1, v3503.toNat, 512]
def k0_off303 (k0_t2 : Fin k0_t2_loop.trips) : Fin 4 → Nat :=
  let c0_i32_1828 : BitVec 32 := 0#32
  let v3513 : Index := Scalar.indexCast c0_i32_1828
  let c2_i32_1829 : BitVec 32 := 2#32
  let v3514 : Index := Scalar.indexCast c2_i32_1829
  let c0_i32_256 : BitVec 32 := 0#32
  let c1_i32_258 : BitVec 32 := 1#32
  let arg11 : BitVec 32 := Scf.iv c0_i32_256 c1_i32_258 k0_t2
  let v3515 : Index := Scalar.indexCast arg11
  let c512_1830 : Index := 512#32
  ![0, 2, v3515.toNat, 512]
def k0_off304 (k0_t2 : Fin k0_t2_loop.trips) : Fin 4 → Nat :=
  let c0_i32_1834 : BitVec 32 := 0#32
  let v3525 : Index := Scalar.indexCast c0_i32_1834
  let c3_i32_1835 : BitVec 32 := 3#32
  let v3526 : Index := Scalar.indexCast c3_i32_1835
  let c0_i32_256 : BitVec 32 := 0#32
  let c1_i32_258 : BitVec 32 := 1#32
  let arg11 : BitVec 32 := Scf.iv c0_i32_256 c1_i32_258 k0_t2
  let v3527 : Index := Scalar.indexCast arg11
  let c512_1836 : Index := 512#32
  ![0, 3, v3527.toNat, 512]
def k0_off305 (k0_t2 : Fin k0_t2_loop.trips) : Fin 4 → Nat :=
  let c0_i32_1840 : BitVec 32 := 0#32
  let v3537 : Index := Scalar.indexCast c0_i32_1840
  let c4_i32_1841 : BitVec 32 := 4#32
  let v3538 : Index := Scalar.indexCast c4_i32_1841
  let c0_i32_256 : BitVec 32 := 0#32
  let c1_i32_258 : BitVec 32 := 1#32
  let arg11 : BitVec 32 := Scf.iv c0_i32_256 c1_i32_258 k0_t2
  let v3539 : Index := Scalar.indexCast arg11
  let c512_1842 : Index := 512#32
  ![0, 4, v3539.toNat, 512]
def k0_off306 (k0_t2 : Fin k0_t2_loop.trips) : Fin 4 → Nat :=
  let c0_i32_1846 : BitVec 32 := 0#32
  let v3549 : Index := Scalar.indexCast c0_i32_1846
  let c5_i32_1847 : BitVec 32 := 5#32
  let v3550 : Index := Scalar.indexCast c5_i32_1847
  let c0_i32_256 : BitVec 32 := 0#32
  let c1_i32_258 : BitVec 32 := 1#32
  let arg11 : BitVec 32 := Scf.iv c0_i32_256 c1_i32_258 k0_t2
  let v3551 : Index := Scalar.indexCast arg11
  let c512_1848 : Index := 512#32
  ![0, 5, v3551.toNat, 512]
def k0_off307 (k0_t2 : Fin k0_t2_loop.trips) : Fin 4 → Nat :=
  let c0_i32_1852 : BitVec 32 := 0#32
  let v3561 : Index := Scalar.indexCast c0_i32_1852
  let c6_i32_1853 : BitVec 32 := 6#32
  let v3562 : Index := Scalar.indexCast c6_i32_1853
  let c0_i32_256 : BitVec 32 := 0#32
  let c1_i32_258 : BitVec 32 := 1#32
  let arg11 : BitVec 32 := Scf.iv c0_i32_256 c1_i32_258 k0_t2
  let v3563 : Index := Scalar.indexCast arg11
  let c512_1854 : Index := 512#32
  ![0, 6, v3563.toNat, 512]
def k0_off308 (k0_t2 : Fin k0_t2_loop.trips) : Fin 4 → Nat :=
  let c0_i32_1858 : BitVec 32 := 0#32
  let v3573 : Index := Scalar.indexCast c0_i32_1858
  let c7_i32_1859 : BitVec 32 := 7#32
  let v3574 : Index := Scalar.indexCast c7_i32_1859
  let c0_i32_256 : BitVec 32 := 0#32
  let c1_i32_258 : BitVec 32 := 1#32
  let arg11 : BitVec 32 := Scf.iv c0_i32_256 c1_i32_258 k0_t2
  let v3575 : Index := Scalar.indexCast arg11
  let c512_1860 : Index := 512#32
  ![0, 7, v3575.toNat, 512]
def k0_off309 (k0_t2 : Fin k0_t2_loop.trips) : Fin 2 → Nat :=
  let c0_i32_256 : BitVec 32 := 0#32
  let c1_i32_258 : BitVec 32 := 1#32
  let arg11 : BitVec 32 := Scf.iv c0_i32_256 c1_i32_258 k0_t2
  let v3585 : Index := Scalar.indexCast arg11
  let c528 : Index := 528#32
  ![v3585.toNat, 528]
def k0_off310 (k0_t2 : Fin k0_t2_loop.trips) : Fin 4 → Nat :=
  let c0_i32_1864 : BitVec 32 := 0#32
  let v3588 : Index := Scalar.indexCast c0_i32_1864
  let c0_i32_1865 : BitVec 32 := 0#32
  let v3589 : Index := Scalar.indexCast c0_i32_1865
  let c0_i32_256 : BitVec 32 := 0#32
  let c1_i32_258 : BitVec 32 := 1#32
  let arg11 : BitVec 32 := Scf.iv c0_i32_256 c1_i32_258 k0_t2
  let v3590 : Index := Scalar.indexCast arg11
  let c528_1866 : Index := 528#32
  ![0, 0, v3590.toNat, 528]
def k0_off311 (k0_t2 : Fin k0_t2_loop.trips) : Fin 4 → Nat :=
  let c0_i32_1870 : BitVec 32 := 0#32
  let v3600 : Index := Scalar.indexCast c0_i32_1870
  let c1_i32_1871 : BitVec 32 := 1#32
  let v3601 : Index := Scalar.indexCast c1_i32_1871
  let c0_i32_256 : BitVec 32 := 0#32
  let c1_i32_258 : BitVec 32 := 1#32
  let arg11 : BitVec 32 := Scf.iv c0_i32_256 c1_i32_258 k0_t2
  let v3602 : Index := Scalar.indexCast arg11
  let c528_1872 : Index := 528#32
  ![0, 1, v3602.toNat, 528]
def k0_off312 (k0_t2 : Fin k0_t2_loop.trips) : Fin 4 → Nat :=
  let c0_i32_1876 : BitVec 32 := 0#32
  let v3612 : Index := Scalar.indexCast c0_i32_1876
  let c2_i32_1877 : BitVec 32 := 2#32
  let v3613 : Index := Scalar.indexCast c2_i32_1877
  let c0_i32_256 : BitVec 32 := 0#32
  let c1_i32_258 : BitVec 32 := 1#32
  let arg11 : BitVec 32 := Scf.iv c0_i32_256 c1_i32_258 k0_t2
  let v3614 : Index := Scalar.indexCast arg11
  let c528_1878 : Index := 528#32
  ![0, 2, v3614.toNat, 528]
def k0_off313 (k0_t2 : Fin k0_t2_loop.trips) : Fin 4 → Nat :=
  let c0_i32_1882 : BitVec 32 := 0#32
  let v3624 : Index := Scalar.indexCast c0_i32_1882
  let c3_i32_1883 : BitVec 32 := 3#32
  let v3625 : Index := Scalar.indexCast c3_i32_1883
  let c0_i32_256 : BitVec 32 := 0#32
  let c1_i32_258 : BitVec 32 := 1#32
  let arg11 : BitVec 32 := Scf.iv c0_i32_256 c1_i32_258 k0_t2
  let v3626 : Index := Scalar.indexCast arg11
  let c528_1884 : Index := 528#32
  ![0, 3, v3626.toNat, 528]
def k0_off314 (k0_t2 : Fin k0_t2_loop.trips) : Fin 4 → Nat :=
  let c0_i32_1888 : BitVec 32 := 0#32
  let v3636 : Index := Scalar.indexCast c0_i32_1888
  let c4_i32_1889 : BitVec 32 := 4#32
  let v3637 : Index := Scalar.indexCast c4_i32_1889
  let c0_i32_256 : BitVec 32 := 0#32
  let c1_i32_258 : BitVec 32 := 1#32
  let arg11 : BitVec 32 := Scf.iv c0_i32_256 c1_i32_258 k0_t2
  let v3638 : Index := Scalar.indexCast arg11
  let c528_1890 : Index := 528#32
  ![0, 4, v3638.toNat, 528]
def k0_off315 (k0_t2 : Fin k0_t2_loop.trips) : Fin 4 → Nat :=
  let c0_i32_1894 : BitVec 32 := 0#32
  let v3648 : Index := Scalar.indexCast c0_i32_1894
  let c5_i32_1895 : BitVec 32 := 5#32
  let v3649 : Index := Scalar.indexCast c5_i32_1895
  let c0_i32_256 : BitVec 32 := 0#32
  let c1_i32_258 : BitVec 32 := 1#32
  let arg11 : BitVec 32 := Scf.iv c0_i32_256 c1_i32_258 k0_t2
  let v3650 : Index := Scalar.indexCast arg11
  let c528_1896 : Index := 528#32
  ![0, 5, v3650.toNat, 528]
def k0_off316 (k0_t2 : Fin k0_t2_loop.trips) : Fin 4 → Nat :=
  let c0_i32_1900 : BitVec 32 := 0#32
  let v3660 : Index := Scalar.indexCast c0_i32_1900
  let c6_i32_1901 : BitVec 32 := 6#32
  let v3661 : Index := Scalar.indexCast c6_i32_1901
  let c0_i32_256 : BitVec 32 := 0#32
  let c1_i32_258 : BitVec 32 := 1#32
  let arg11 : BitVec 32 := Scf.iv c0_i32_256 c1_i32_258 k0_t2
  let v3662 : Index := Scalar.indexCast arg11
  let c528_1902 : Index := 528#32
  ![0, 6, v3662.toNat, 528]
def k0_off317 (k0_t2 : Fin k0_t2_loop.trips) : Fin 4 → Nat :=
  let c0_i32_1906 : BitVec 32 := 0#32
  let v3672 : Index := Scalar.indexCast c0_i32_1906
  let c7_i32_1907 : BitVec 32 := 7#32
  let v3673 : Index := Scalar.indexCast c7_i32_1907
  let c0_i32_256 : BitVec 32 := 0#32
  let c1_i32_258 : BitVec 32 := 1#32
  let arg11 : BitVec 32 := Scf.iv c0_i32_256 c1_i32_258 k0_t2
  let v3674 : Index := Scalar.indexCast arg11
  let c528_1908 : Index := 528#32
  ![0, 7, v3674.toNat, 528]
def k0_off318 (k0_t2 : Fin k0_t2_loop.trips) : Fin 2 → Nat :=
  let c0_i32_256 : BitVec 32 := 0#32
  let c1_i32_258 : BitVec 32 := 1#32
  let arg11 : BitVec 32 := Scf.iv c0_i32_256 c1_i32_258 k0_t2
  let v3684 : Index := Scalar.indexCast arg11
  let c544 : Index := 544#32
  ![v3684.toNat, 544]
def k0_off319 (k0_t2 : Fin k0_t2_loop.trips) : Fin 4 → Nat :=
  let c0_i32_1912 : BitVec 32 := 0#32
  let v3687 : Index := Scalar.indexCast c0_i32_1912
  let c0_i32_1913 : BitVec 32 := 0#32
  let v3688 : Index := Scalar.indexCast c0_i32_1913
  let c0_i32_256 : BitVec 32 := 0#32
  let c1_i32_258 : BitVec 32 := 1#32
  let arg11 : BitVec 32 := Scf.iv c0_i32_256 c1_i32_258 k0_t2
  let v3689 : Index := Scalar.indexCast arg11
  let c544_1914 : Index := 544#32
  ![0, 0, v3689.toNat, 544]
def k0_off320 (k0_t2 : Fin k0_t2_loop.trips) : Fin 4 → Nat :=
  let c0_i32_1918 : BitVec 32 := 0#32
  let v3699 : Index := Scalar.indexCast c0_i32_1918
  let c1_i32_1919 : BitVec 32 := 1#32
  let v3700 : Index := Scalar.indexCast c1_i32_1919
  let c0_i32_256 : BitVec 32 := 0#32
  let c1_i32_258 : BitVec 32 := 1#32
  let arg11 : BitVec 32 := Scf.iv c0_i32_256 c1_i32_258 k0_t2
  let v3701 : Index := Scalar.indexCast arg11
  let c544_1920 : Index := 544#32
  ![0, 1, v3701.toNat, 544]
def k0_off321 (k0_t2 : Fin k0_t2_loop.trips) : Fin 4 → Nat :=
  let c0_i32_1924 : BitVec 32 := 0#32
  let v3711 : Index := Scalar.indexCast c0_i32_1924
  let c2_i32_1925 : BitVec 32 := 2#32
  let v3712 : Index := Scalar.indexCast c2_i32_1925
  let c0_i32_256 : BitVec 32 := 0#32
  let c1_i32_258 : BitVec 32 := 1#32
  let arg11 : BitVec 32 := Scf.iv c0_i32_256 c1_i32_258 k0_t2
  let v3713 : Index := Scalar.indexCast arg11
  let c544_1926 : Index := 544#32
  ![0, 2, v3713.toNat, 544]
def k0_off322 (k0_t2 : Fin k0_t2_loop.trips) : Fin 4 → Nat :=
  let c0_i32_1930 : BitVec 32 := 0#32
  let v3723 : Index := Scalar.indexCast c0_i32_1930
  let c3_i32_1931 : BitVec 32 := 3#32
  let v3724 : Index := Scalar.indexCast c3_i32_1931
  let c0_i32_256 : BitVec 32 := 0#32
  let c1_i32_258 : BitVec 32 := 1#32
  let arg11 : BitVec 32 := Scf.iv c0_i32_256 c1_i32_258 k0_t2
  let v3725 : Index := Scalar.indexCast arg11
  let c544_1932 : Index := 544#32
  ![0, 3, v3725.toNat, 544]
def k0_off323 (k0_t2 : Fin k0_t2_loop.trips) : Fin 4 → Nat :=
  let c0_i32_1936 : BitVec 32 := 0#32
  let v3735 : Index := Scalar.indexCast c0_i32_1936
  let c4_i32_1937 : BitVec 32 := 4#32
  let v3736 : Index := Scalar.indexCast c4_i32_1937
  let c0_i32_256 : BitVec 32 := 0#32
  let c1_i32_258 : BitVec 32 := 1#32
  let arg11 : BitVec 32 := Scf.iv c0_i32_256 c1_i32_258 k0_t2
  let v3737 : Index := Scalar.indexCast arg11
  let c544_1938 : Index := 544#32
  ![0, 4, v3737.toNat, 544]
def k0_off324 (k0_t2 : Fin k0_t2_loop.trips) : Fin 4 → Nat :=
  let c0_i32_1942 : BitVec 32 := 0#32
  let v3747 : Index := Scalar.indexCast c0_i32_1942
  let c5_i32_1943 : BitVec 32 := 5#32
  let v3748 : Index := Scalar.indexCast c5_i32_1943
  let c0_i32_256 : BitVec 32 := 0#32
  let c1_i32_258 : BitVec 32 := 1#32
  let arg11 : BitVec 32 := Scf.iv c0_i32_256 c1_i32_258 k0_t2
  let v3749 : Index := Scalar.indexCast arg11
  let c544_1944 : Index := 544#32
  ![0, 5, v3749.toNat, 544]
def k0_off325 (k0_t2 : Fin k0_t2_loop.trips) : Fin 4 → Nat :=
  let c0_i32_1948 : BitVec 32 := 0#32
  let v3759 : Index := Scalar.indexCast c0_i32_1948
  let c6_i32_1949 : BitVec 32 := 6#32
  let v3760 : Index := Scalar.indexCast c6_i32_1949
  let c0_i32_256 : BitVec 32 := 0#32
  let c1_i32_258 : BitVec 32 := 1#32
  let arg11 : BitVec 32 := Scf.iv c0_i32_256 c1_i32_258 k0_t2
  let v3761 : Index := Scalar.indexCast arg11
  let c544_1950 : Index := 544#32
  ![0, 6, v3761.toNat, 544]
def k0_off326 (k0_t2 : Fin k0_t2_loop.trips) : Fin 4 → Nat :=
  let c0_i32_1954 : BitVec 32 := 0#32
  let v3771 : Index := Scalar.indexCast c0_i32_1954
  let c7_i32_1955 : BitVec 32 := 7#32
  let v3772 : Index := Scalar.indexCast c7_i32_1955
  let c0_i32_256 : BitVec 32 := 0#32
  let c1_i32_258 : BitVec 32 := 1#32
  let arg11 : BitVec 32 := Scf.iv c0_i32_256 c1_i32_258 k0_t2
  let v3773 : Index := Scalar.indexCast arg11
  let c544_1956 : Index := 544#32
  ![0, 7, v3773.toNat, 544]
def k0_off327 (k0_t2 : Fin k0_t2_loop.trips) : Fin 2 → Nat :=
  let c0_i32_256 : BitVec 32 := 0#32
  let c1_i32_258 : BitVec 32 := 1#32
  let arg11 : BitVec 32 := Scf.iv c0_i32_256 c1_i32_258 k0_t2
  let v3783 : Index := Scalar.indexCast arg11
  let c560 : Index := 560#32
  ![v3783.toNat, 560]
def k0_off328 (k0_t2 : Fin k0_t2_loop.trips) : Fin 4 → Nat :=
  let c0_i32_1960 : BitVec 32 := 0#32
  let v3786 : Index := Scalar.indexCast c0_i32_1960
  let c0_i32_1961 : BitVec 32 := 0#32
  let v3787 : Index := Scalar.indexCast c0_i32_1961
  let c0_i32_256 : BitVec 32 := 0#32
  let c1_i32_258 : BitVec 32 := 1#32
  let arg11 : BitVec 32 := Scf.iv c0_i32_256 c1_i32_258 k0_t2
  let v3788 : Index := Scalar.indexCast arg11
  let c560_1962 : Index := 560#32
  ![0, 0, v3788.toNat, 560]
def k0_off329 (k0_t2 : Fin k0_t2_loop.trips) : Fin 4 → Nat :=
  let c0_i32_1966 : BitVec 32 := 0#32
  let v3798 : Index := Scalar.indexCast c0_i32_1966
  let c1_i32_1967 : BitVec 32 := 1#32
  let v3799 : Index := Scalar.indexCast c1_i32_1967
  let c0_i32_256 : BitVec 32 := 0#32
  let c1_i32_258 : BitVec 32 := 1#32
  let arg11 : BitVec 32 := Scf.iv c0_i32_256 c1_i32_258 k0_t2
  let v3800 : Index := Scalar.indexCast arg11
  let c560_1968 : Index := 560#32
  ![0, 1, v3800.toNat, 560]
def k0_off330 (k0_t2 : Fin k0_t2_loop.trips) : Fin 4 → Nat :=
  let c0_i32_1972 : BitVec 32 := 0#32
  let v3810 : Index := Scalar.indexCast c0_i32_1972
  let c2_i32_1973 : BitVec 32 := 2#32
  let v3811 : Index := Scalar.indexCast c2_i32_1973
  let c0_i32_256 : BitVec 32 := 0#32
  let c1_i32_258 : BitVec 32 := 1#32
  let arg11 : BitVec 32 := Scf.iv c0_i32_256 c1_i32_258 k0_t2
  let v3812 : Index := Scalar.indexCast arg11
  let c560_1974 : Index := 560#32
  ![0, 2, v3812.toNat, 560]
def k0_off331 (k0_t2 : Fin k0_t2_loop.trips) : Fin 4 → Nat :=
  let c0_i32_1978 : BitVec 32 := 0#32
  let v3822 : Index := Scalar.indexCast c0_i32_1978
  let c3_i32_1979 : BitVec 32 := 3#32
  let v3823 : Index := Scalar.indexCast c3_i32_1979
  let c0_i32_256 : BitVec 32 := 0#32
  let c1_i32_258 : BitVec 32 := 1#32
  let arg11 : BitVec 32 := Scf.iv c0_i32_256 c1_i32_258 k0_t2
  let v3824 : Index := Scalar.indexCast arg11
  let c560_1980 : Index := 560#32
  ![0, 3, v3824.toNat, 560]
def k0_off332 (k0_t2 : Fin k0_t2_loop.trips) : Fin 4 → Nat :=
  let c0_i32_1984 : BitVec 32 := 0#32
  let v3834 : Index := Scalar.indexCast c0_i32_1984
  let c4_i32_1985 : BitVec 32 := 4#32
  let v3835 : Index := Scalar.indexCast c4_i32_1985
  let c0_i32_256 : BitVec 32 := 0#32
  let c1_i32_258 : BitVec 32 := 1#32
  let arg11 : BitVec 32 := Scf.iv c0_i32_256 c1_i32_258 k0_t2
  let v3836 : Index := Scalar.indexCast arg11
  let c560_1986 : Index := 560#32
  ![0, 4, v3836.toNat, 560]
def k0_off333 (k0_t2 : Fin k0_t2_loop.trips) : Fin 4 → Nat :=
  let c0_i32_1990 : BitVec 32 := 0#32
  let v3846 : Index := Scalar.indexCast c0_i32_1990
  let c5_i32_1991 : BitVec 32 := 5#32
  let v3847 : Index := Scalar.indexCast c5_i32_1991
  let c0_i32_256 : BitVec 32 := 0#32
  let c1_i32_258 : BitVec 32 := 1#32
  let arg11 : BitVec 32 := Scf.iv c0_i32_256 c1_i32_258 k0_t2
  let v3848 : Index := Scalar.indexCast arg11
  let c560_1992 : Index := 560#32
  ![0, 5, v3848.toNat, 560]
def k0_off334 (k0_t2 : Fin k0_t2_loop.trips) : Fin 4 → Nat :=
  let c0_i32_1996 : BitVec 32 := 0#32
  let v3858 : Index := Scalar.indexCast c0_i32_1996
  let c6_i32_1997 : BitVec 32 := 6#32
  let v3859 : Index := Scalar.indexCast c6_i32_1997
  let c0_i32_256 : BitVec 32 := 0#32
  let c1_i32_258 : BitVec 32 := 1#32
  let arg11 : BitVec 32 := Scf.iv c0_i32_256 c1_i32_258 k0_t2
  let v3860 : Index := Scalar.indexCast arg11
  let c560_1998 : Index := 560#32
  ![0, 6, v3860.toNat, 560]
def k0_off335 (k0_t2 : Fin k0_t2_loop.trips) : Fin 4 → Nat :=
  let c0_i32_2002 : BitVec 32 := 0#32
  let v3870 : Index := Scalar.indexCast c0_i32_2002
  let c7_i32_2003 : BitVec 32 := 7#32
  let v3871 : Index := Scalar.indexCast c7_i32_2003
  let c0_i32_256 : BitVec 32 := 0#32
  let c1_i32_258 : BitVec 32 := 1#32
  let arg11 : BitVec 32 := Scf.iv c0_i32_256 c1_i32_258 k0_t2
  let v3872 : Index := Scalar.indexCast arg11
  let c560_2004 : Index := 560#32
  ![0, 7, v3872.toNat, 560]
def k0_off336 (k0_t2 : Fin k0_t2_loop.trips) : Fin 2 → Nat :=
  let c0_i32_256 : BitVec 32 := 0#32
  let c1_i32_258 : BitVec 32 := 1#32
  let arg11 : BitVec 32 := Scf.iv c0_i32_256 c1_i32_258 k0_t2
  let v3882 : Index := Scalar.indexCast arg11
  let c576 : Index := 576#32
  ![v3882.toNat, 576]
def k0_off337 (k0_t2 : Fin k0_t2_loop.trips) : Fin 4 → Nat :=
  let c0_i32_2008 : BitVec 32 := 0#32
  let v3885 : Index := Scalar.indexCast c0_i32_2008
  let c0_i32_2009 : BitVec 32 := 0#32
  let v3886 : Index := Scalar.indexCast c0_i32_2009
  let c0_i32_256 : BitVec 32 := 0#32
  let c1_i32_258 : BitVec 32 := 1#32
  let arg11 : BitVec 32 := Scf.iv c0_i32_256 c1_i32_258 k0_t2
  let v3887 : Index := Scalar.indexCast arg11
  let c576_2010 : Index := 576#32
  ![0, 0, v3887.toNat, 576]
def k0_off338 (k0_t2 : Fin k0_t2_loop.trips) : Fin 4 → Nat :=
  let c0_i32_2014 : BitVec 32 := 0#32
  let v3897 : Index := Scalar.indexCast c0_i32_2014
  let c1_i32_2015 : BitVec 32 := 1#32
  let v3898 : Index := Scalar.indexCast c1_i32_2015
  let c0_i32_256 : BitVec 32 := 0#32
  let c1_i32_258 : BitVec 32 := 1#32
  let arg11 : BitVec 32 := Scf.iv c0_i32_256 c1_i32_258 k0_t2
  let v3899 : Index := Scalar.indexCast arg11
  let c576_2016 : Index := 576#32
  ![0, 1, v3899.toNat, 576]
def k0_off339 (k0_t2 : Fin k0_t2_loop.trips) : Fin 4 → Nat :=
  let c0_i32_2020 : BitVec 32 := 0#32
  let v3909 : Index := Scalar.indexCast c0_i32_2020
  let c2_i32_2021 : BitVec 32 := 2#32
  let v3910 : Index := Scalar.indexCast c2_i32_2021
  let c0_i32_256 : BitVec 32 := 0#32
  let c1_i32_258 : BitVec 32 := 1#32
  let arg11 : BitVec 32 := Scf.iv c0_i32_256 c1_i32_258 k0_t2
  let v3911 : Index := Scalar.indexCast arg11
  let c576_2022 : Index := 576#32
  ![0, 2, v3911.toNat, 576]
def k0_off340 (k0_t2 : Fin k0_t2_loop.trips) : Fin 4 → Nat :=
  let c0_i32_2026 : BitVec 32 := 0#32
  let v3921 : Index := Scalar.indexCast c0_i32_2026
  let c3_i32_2027 : BitVec 32 := 3#32
  let v3922 : Index := Scalar.indexCast c3_i32_2027
  let c0_i32_256 : BitVec 32 := 0#32
  let c1_i32_258 : BitVec 32 := 1#32
  let arg11 : BitVec 32 := Scf.iv c0_i32_256 c1_i32_258 k0_t2
  let v3923 : Index := Scalar.indexCast arg11
  let c576_2028 : Index := 576#32
  ![0, 3, v3923.toNat, 576]
def k0_off341 (k0_t2 : Fin k0_t2_loop.trips) : Fin 4 → Nat :=
  let c0_i32_2032 : BitVec 32 := 0#32
  let v3933 : Index := Scalar.indexCast c0_i32_2032
  let c4_i32_2033 : BitVec 32 := 4#32
  let v3934 : Index := Scalar.indexCast c4_i32_2033
  let c0_i32_256 : BitVec 32 := 0#32
  let c1_i32_258 : BitVec 32 := 1#32
  let arg11 : BitVec 32 := Scf.iv c0_i32_256 c1_i32_258 k0_t2
  let v3935 : Index := Scalar.indexCast arg11
  let c576_2034 : Index := 576#32
  ![0, 4, v3935.toNat, 576]
def k0_off342 (k0_t2 : Fin k0_t2_loop.trips) : Fin 4 → Nat :=
  let c0_i32_2038 : BitVec 32 := 0#32
  let v3945 : Index := Scalar.indexCast c0_i32_2038
  let c5_i32_2039 : BitVec 32 := 5#32
  let v3946 : Index := Scalar.indexCast c5_i32_2039
  let c0_i32_256 : BitVec 32 := 0#32
  let c1_i32_258 : BitVec 32 := 1#32
  let arg11 : BitVec 32 := Scf.iv c0_i32_256 c1_i32_258 k0_t2
  let v3947 : Index := Scalar.indexCast arg11
  let c576_2040 : Index := 576#32
  ![0, 5, v3947.toNat, 576]
def k0_off343 (k0_t2 : Fin k0_t2_loop.trips) : Fin 4 → Nat :=
  let c0_i32_2044 : BitVec 32 := 0#32
  let v3957 : Index := Scalar.indexCast c0_i32_2044
  let c6_i32_2045 : BitVec 32 := 6#32
  let v3958 : Index := Scalar.indexCast c6_i32_2045
  let c0_i32_256 : BitVec 32 := 0#32
  let c1_i32_258 : BitVec 32 := 1#32
  let arg11 : BitVec 32 := Scf.iv c0_i32_256 c1_i32_258 k0_t2
  let v3959 : Index := Scalar.indexCast arg11
  let c576_2046 : Index := 576#32
  ![0, 6, v3959.toNat, 576]
def k0_off344 (k0_t2 : Fin k0_t2_loop.trips) : Fin 4 → Nat :=
  let c0_i32_2050 : BitVec 32 := 0#32
  let v3969 : Index := Scalar.indexCast c0_i32_2050
  let c7_i32_2051 : BitVec 32 := 7#32
  let v3970 : Index := Scalar.indexCast c7_i32_2051
  let c0_i32_256 : BitVec 32 := 0#32
  let c1_i32_258 : BitVec 32 := 1#32
  let arg11 : BitVec 32 := Scf.iv c0_i32_256 c1_i32_258 k0_t2
  let v3971 : Index := Scalar.indexCast arg11
  let c576_2052 : Index := 576#32
  ![0, 7, v3971.toNat, 576]
def k0_off345 (k0_t2 : Fin k0_t2_loop.trips) : Fin 2 → Nat :=
  let c0_i32_256 : BitVec 32 := 0#32
  let c1_i32_258 : BitVec 32 := 1#32
  let arg11 : BitVec 32 := Scf.iv c0_i32_256 c1_i32_258 k0_t2
  let v3981 : Index := Scalar.indexCast arg11
  let c592 : Index := 592#32
  ![v3981.toNat, 592]
def k0_off346 (k0_t2 : Fin k0_t2_loop.trips) : Fin 4 → Nat :=
  let c0_i32_2056 : BitVec 32 := 0#32
  let v3984 : Index := Scalar.indexCast c0_i32_2056
  let c0_i32_2057 : BitVec 32 := 0#32
  let v3985 : Index := Scalar.indexCast c0_i32_2057
  let c0_i32_256 : BitVec 32 := 0#32
  let c1_i32_258 : BitVec 32 := 1#32
  let arg11 : BitVec 32 := Scf.iv c0_i32_256 c1_i32_258 k0_t2
  let v3986 : Index := Scalar.indexCast arg11
  let c592_2058 : Index := 592#32
  ![0, 0, v3986.toNat, 592]
def k0_off347 (k0_t2 : Fin k0_t2_loop.trips) : Fin 4 → Nat :=
  let c0_i32_2062 : BitVec 32 := 0#32
  let v3996 : Index := Scalar.indexCast c0_i32_2062
  let c1_i32_2063 : BitVec 32 := 1#32
  let v3997 : Index := Scalar.indexCast c1_i32_2063
  let c0_i32_256 : BitVec 32 := 0#32
  let c1_i32_258 : BitVec 32 := 1#32
  let arg11 : BitVec 32 := Scf.iv c0_i32_256 c1_i32_258 k0_t2
  let v3998 : Index := Scalar.indexCast arg11
  let c592_2064 : Index := 592#32
  ![0, 1, v3998.toNat, 592]
def k0_off348 (k0_t2 : Fin k0_t2_loop.trips) : Fin 4 → Nat :=
  let c0_i32_2068 : BitVec 32 := 0#32
  let v4008 : Index := Scalar.indexCast c0_i32_2068
  let c2_i32_2069 : BitVec 32 := 2#32
  let v4009 : Index := Scalar.indexCast c2_i32_2069
  let c0_i32_256 : BitVec 32 := 0#32
  let c1_i32_258 : BitVec 32 := 1#32
  let arg11 : BitVec 32 := Scf.iv c0_i32_256 c1_i32_258 k0_t2
  let v4010 : Index := Scalar.indexCast arg11
  let c592_2070 : Index := 592#32
  ![0, 2, v4010.toNat, 592]
def k0_off349 (k0_t2 : Fin k0_t2_loop.trips) : Fin 4 → Nat :=
  let c0_i32_2074 : BitVec 32 := 0#32
  let v4020 : Index := Scalar.indexCast c0_i32_2074
  let c3_i32_2075 : BitVec 32 := 3#32
  let v4021 : Index := Scalar.indexCast c3_i32_2075
  let c0_i32_256 : BitVec 32 := 0#32
  let c1_i32_258 : BitVec 32 := 1#32
  let arg11 : BitVec 32 := Scf.iv c0_i32_256 c1_i32_258 k0_t2
  let v4022 : Index := Scalar.indexCast arg11
  let c592_2076 : Index := 592#32
  ![0, 3, v4022.toNat, 592]
def k0_off350 (k0_t2 : Fin k0_t2_loop.trips) : Fin 4 → Nat :=
  let c0_i32_2080 : BitVec 32 := 0#32
  let v4032 : Index := Scalar.indexCast c0_i32_2080
  let c4_i32_2081 : BitVec 32 := 4#32
  let v4033 : Index := Scalar.indexCast c4_i32_2081
  let c0_i32_256 : BitVec 32 := 0#32
  let c1_i32_258 : BitVec 32 := 1#32
  let arg11 : BitVec 32 := Scf.iv c0_i32_256 c1_i32_258 k0_t2
  let v4034 : Index := Scalar.indexCast arg11
  let c592_2082 : Index := 592#32
  ![0, 4, v4034.toNat, 592]
def k0_off351 (k0_t2 : Fin k0_t2_loop.trips) : Fin 4 → Nat :=
  let c0_i32_2086 : BitVec 32 := 0#32
  let v4044 : Index := Scalar.indexCast c0_i32_2086
  let c5_i32_2087 : BitVec 32 := 5#32
  let v4045 : Index := Scalar.indexCast c5_i32_2087
  let c0_i32_256 : BitVec 32 := 0#32
  let c1_i32_258 : BitVec 32 := 1#32
  let arg11 : BitVec 32 := Scf.iv c0_i32_256 c1_i32_258 k0_t2
  let v4046 : Index := Scalar.indexCast arg11
  let c592_2088 : Index := 592#32
  ![0, 5, v4046.toNat, 592]
def k0_off352 (k0_t2 : Fin k0_t2_loop.trips) : Fin 4 → Nat :=
  let c0_i32_2092 : BitVec 32 := 0#32
  let v4056 : Index := Scalar.indexCast c0_i32_2092
  let c6_i32_2093 : BitVec 32 := 6#32
  let v4057 : Index := Scalar.indexCast c6_i32_2093
  let c0_i32_256 : BitVec 32 := 0#32
  let c1_i32_258 : BitVec 32 := 1#32
  let arg11 : BitVec 32 := Scf.iv c0_i32_256 c1_i32_258 k0_t2
  let v4058 : Index := Scalar.indexCast arg11
  let c592_2094 : Index := 592#32
  ![0, 6, v4058.toNat, 592]
def k0_off353 (k0_t2 : Fin k0_t2_loop.trips) : Fin 4 → Nat :=
  let c0_i32_2098 : BitVec 32 := 0#32
  let v4068 : Index := Scalar.indexCast c0_i32_2098
  let c7_i32_2099 : BitVec 32 := 7#32
  let v4069 : Index := Scalar.indexCast c7_i32_2099
  let c0_i32_256 : BitVec 32 := 0#32
  let c1_i32_258 : BitVec 32 := 1#32
  let arg11 : BitVec 32 := Scf.iv c0_i32_256 c1_i32_258 k0_t2
  let v4070 : Index := Scalar.indexCast arg11
  let c592_2100 : Index := 592#32
  ![0, 7, v4070.toNat, 592]
def k0_off354 (k0_t2 : Fin k0_t2_loop.trips) : Fin 2 → Nat :=
  let c0_i32_256 : BitVec 32 := 0#32
  let c1_i32_258 : BitVec 32 := 1#32
  let arg11 : BitVec 32 := Scf.iv c0_i32_256 c1_i32_258 k0_t2
  let v4080 : Index := Scalar.indexCast arg11
  let c608 : Index := 608#32
  ![v4080.toNat, 608]
def k0_off355 (k0_t2 : Fin k0_t2_loop.trips) : Fin 4 → Nat :=
  let c0_i32_2104 : BitVec 32 := 0#32
  let v4083 : Index := Scalar.indexCast c0_i32_2104
  let c0_i32_2105 : BitVec 32 := 0#32
  let v4084 : Index := Scalar.indexCast c0_i32_2105
  let c0_i32_256 : BitVec 32 := 0#32
  let c1_i32_258 : BitVec 32 := 1#32
  let arg11 : BitVec 32 := Scf.iv c0_i32_256 c1_i32_258 k0_t2
  let v4085 : Index := Scalar.indexCast arg11
  let c608_2106 : Index := 608#32
  ![0, 0, v4085.toNat, 608]
def k0_off356 (k0_t2 : Fin k0_t2_loop.trips) : Fin 4 → Nat :=
  let c0_i32_2110 : BitVec 32 := 0#32
  let v4095 : Index := Scalar.indexCast c0_i32_2110
  let c1_i32_2111 : BitVec 32 := 1#32
  let v4096 : Index := Scalar.indexCast c1_i32_2111
  let c0_i32_256 : BitVec 32 := 0#32
  let c1_i32_258 : BitVec 32 := 1#32
  let arg11 : BitVec 32 := Scf.iv c0_i32_256 c1_i32_258 k0_t2
  let v4097 : Index := Scalar.indexCast arg11
  let c608_2112 : Index := 608#32
  ![0, 1, v4097.toNat, 608]
def k0_off357 (k0_t2 : Fin k0_t2_loop.trips) : Fin 4 → Nat :=
  let c0_i32_2116 : BitVec 32 := 0#32
  let v4107 : Index := Scalar.indexCast c0_i32_2116
  let c2_i32_2117 : BitVec 32 := 2#32
  let v4108 : Index := Scalar.indexCast c2_i32_2117
  let c0_i32_256 : BitVec 32 := 0#32
  let c1_i32_258 : BitVec 32 := 1#32
  let arg11 : BitVec 32 := Scf.iv c0_i32_256 c1_i32_258 k0_t2
  let v4109 : Index := Scalar.indexCast arg11
  let c608_2118 : Index := 608#32
  ![0, 2, v4109.toNat, 608]
def k0_off358 (k0_t2 : Fin k0_t2_loop.trips) : Fin 4 → Nat :=
  let c0_i32_2122 : BitVec 32 := 0#32
  let v4119 : Index := Scalar.indexCast c0_i32_2122
  let c3_i32_2123 : BitVec 32 := 3#32
  let v4120 : Index := Scalar.indexCast c3_i32_2123
  let c0_i32_256 : BitVec 32 := 0#32
  let c1_i32_258 : BitVec 32 := 1#32
  let arg11 : BitVec 32 := Scf.iv c0_i32_256 c1_i32_258 k0_t2
  let v4121 : Index := Scalar.indexCast arg11
  let c608_2124 : Index := 608#32
  ![0, 3, v4121.toNat, 608]
def k0_off359 (k0_t2 : Fin k0_t2_loop.trips) : Fin 4 → Nat :=
  let c0_i32_2128 : BitVec 32 := 0#32
  let v4131 : Index := Scalar.indexCast c0_i32_2128
  let c4_i32_2129 : BitVec 32 := 4#32
  let v4132 : Index := Scalar.indexCast c4_i32_2129
  let c0_i32_256 : BitVec 32 := 0#32
  let c1_i32_258 : BitVec 32 := 1#32
  let arg11 : BitVec 32 := Scf.iv c0_i32_256 c1_i32_258 k0_t2
  let v4133 : Index := Scalar.indexCast arg11
  let c608_2130 : Index := 608#32
  ![0, 4, v4133.toNat, 608]
def k0_off360 (k0_t2 : Fin k0_t2_loop.trips) : Fin 4 → Nat :=
  let c0_i32_2134 : BitVec 32 := 0#32
  let v4143 : Index := Scalar.indexCast c0_i32_2134
  let c5_i32_2135 : BitVec 32 := 5#32
  let v4144 : Index := Scalar.indexCast c5_i32_2135
  let c0_i32_256 : BitVec 32 := 0#32
  let c1_i32_258 : BitVec 32 := 1#32
  let arg11 : BitVec 32 := Scf.iv c0_i32_256 c1_i32_258 k0_t2
  let v4145 : Index := Scalar.indexCast arg11
  let c608_2136 : Index := 608#32
  ![0, 5, v4145.toNat, 608]
def k0_off361 (k0_t2 : Fin k0_t2_loop.trips) : Fin 4 → Nat :=
  let c0_i32_2140 : BitVec 32 := 0#32
  let v4155 : Index := Scalar.indexCast c0_i32_2140
  let c6_i32_2141 : BitVec 32 := 6#32
  let v4156 : Index := Scalar.indexCast c6_i32_2141
  let c0_i32_256 : BitVec 32 := 0#32
  let c1_i32_258 : BitVec 32 := 1#32
  let arg11 : BitVec 32 := Scf.iv c0_i32_256 c1_i32_258 k0_t2
  let v4157 : Index := Scalar.indexCast arg11
  let c608_2142 : Index := 608#32
  ![0, 6, v4157.toNat, 608]
def k0_off362 (k0_t2 : Fin k0_t2_loop.trips) : Fin 4 → Nat :=
  let c0_i32_2146 : BitVec 32 := 0#32
  let v4167 : Index := Scalar.indexCast c0_i32_2146
  let c7_i32_2147 : BitVec 32 := 7#32
  let v4168 : Index := Scalar.indexCast c7_i32_2147
  let c0_i32_256 : BitVec 32 := 0#32
  let c1_i32_258 : BitVec 32 := 1#32
  let arg11 : BitVec 32 := Scf.iv c0_i32_256 c1_i32_258 k0_t2
  let v4169 : Index := Scalar.indexCast arg11
  let c608_2148 : Index := 608#32
  ![0, 7, v4169.toNat, 608]
def k0_off363 (k0_t2 : Fin k0_t2_loop.trips) : Fin 2 → Nat :=
  let c0_i32_256 : BitVec 32 := 0#32
  let c1_i32_258 : BitVec 32 := 1#32
  let arg11 : BitVec 32 := Scf.iv c0_i32_256 c1_i32_258 k0_t2
  let v4179 : Index := Scalar.indexCast arg11
  let c624 : Index := 624#32
  ![v4179.toNat, 624]
def k0_off364 (k0_t2 : Fin k0_t2_loop.trips) : Fin 4 → Nat :=
  let c0_i32_2152 : BitVec 32 := 0#32
  let v4182 : Index := Scalar.indexCast c0_i32_2152
  let c0_i32_2153 : BitVec 32 := 0#32
  let v4183 : Index := Scalar.indexCast c0_i32_2153
  let c0_i32_256 : BitVec 32 := 0#32
  let c1_i32_258 : BitVec 32 := 1#32
  let arg11 : BitVec 32 := Scf.iv c0_i32_256 c1_i32_258 k0_t2
  let v4184 : Index := Scalar.indexCast arg11
  let c624_2154 : Index := 624#32
  ![0, 0, v4184.toNat, 624]
def k0_off365 (k0_t2 : Fin k0_t2_loop.trips) : Fin 4 → Nat :=
  let c0_i32_2158 : BitVec 32 := 0#32
  let v4194 : Index := Scalar.indexCast c0_i32_2158
  let c1_i32_2159 : BitVec 32 := 1#32
  let v4195 : Index := Scalar.indexCast c1_i32_2159
  let c0_i32_256 : BitVec 32 := 0#32
  let c1_i32_258 : BitVec 32 := 1#32
  let arg11 : BitVec 32 := Scf.iv c0_i32_256 c1_i32_258 k0_t2
  let v4196 : Index := Scalar.indexCast arg11
  let c624_2160 : Index := 624#32
  ![0, 1, v4196.toNat, 624]
def k0_off366 (k0_t2 : Fin k0_t2_loop.trips) : Fin 4 → Nat :=
  let c0_i32_2164 : BitVec 32 := 0#32
  let v4206 : Index := Scalar.indexCast c0_i32_2164
  let c2_i32_2165 : BitVec 32 := 2#32
  let v4207 : Index := Scalar.indexCast c2_i32_2165
  let c0_i32_256 : BitVec 32 := 0#32
  let c1_i32_258 : BitVec 32 := 1#32
  let arg11 : BitVec 32 := Scf.iv c0_i32_256 c1_i32_258 k0_t2
  let v4208 : Index := Scalar.indexCast arg11
  let c624_2166 : Index := 624#32
  ![0, 2, v4208.toNat, 624]
def k0_off367 (k0_t2 : Fin k0_t2_loop.trips) : Fin 4 → Nat :=
  let c0_i32_2170 : BitVec 32 := 0#32
  let v4218 : Index := Scalar.indexCast c0_i32_2170
  let c3_i32_2171 : BitVec 32 := 3#32
  let v4219 : Index := Scalar.indexCast c3_i32_2171
  let c0_i32_256 : BitVec 32 := 0#32
  let c1_i32_258 : BitVec 32 := 1#32
  let arg11 : BitVec 32 := Scf.iv c0_i32_256 c1_i32_258 k0_t2
  let v4220 : Index := Scalar.indexCast arg11
  let c624_2172 : Index := 624#32
  ![0, 3, v4220.toNat, 624]
def k0_off368 (k0_t2 : Fin k0_t2_loop.trips) : Fin 4 → Nat :=
  let c0_i32_2176 : BitVec 32 := 0#32
  let v4230 : Index := Scalar.indexCast c0_i32_2176
  let c4_i32_2177 : BitVec 32 := 4#32
  let v4231 : Index := Scalar.indexCast c4_i32_2177
  let c0_i32_256 : BitVec 32 := 0#32
  let c1_i32_258 : BitVec 32 := 1#32
  let arg11 : BitVec 32 := Scf.iv c0_i32_256 c1_i32_258 k0_t2
  let v4232 : Index := Scalar.indexCast arg11
  let c624_2178 : Index := 624#32
  ![0, 4, v4232.toNat, 624]
def k0_off369 (k0_t2 : Fin k0_t2_loop.trips) : Fin 4 → Nat :=
  let c0_i32_2182 : BitVec 32 := 0#32
  let v4242 : Index := Scalar.indexCast c0_i32_2182
  let c5_i32_2183 : BitVec 32 := 5#32
  let v4243 : Index := Scalar.indexCast c5_i32_2183
  let c0_i32_256 : BitVec 32 := 0#32
  let c1_i32_258 : BitVec 32 := 1#32
  let arg11 : BitVec 32 := Scf.iv c0_i32_256 c1_i32_258 k0_t2
  let v4244 : Index := Scalar.indexCast arg11
  let c624_2184 : Index := 624#32
  ![0, 5, v4244.toNat, 624]
def k0_off370 (k0_t2 : Fin k0_t2_loop.trips) : Fin 4 → Nat :=
  let c0_i32_2188 : BitVec 32 := 0#32
  let v4254 : Index := Scalar.indexCast c0_i32_2188
  let c6_i32_2189 : BitVec 32 := 6#32
  let v4255 : Index := Scalar.indexCast c6_i32_2189
  let c0_i32_256 : BitVec 32 := 0#32
  let c1_i32_258 : BitVec 32 := 1#32
  let arg11 : BitVec 32 := Scf.iv c0_i32_256 c1_i32_258 k0_t2
  let v4256 : Index := Scalar.indexCast arg11
  let c624_2190 : Index := 624#32
  ![0, 6, v4256.toNat, 624]
def k0_off371 (k0_t2 : Fin k0_t2_loop.trips) : Fin 4 → Nat :=
  let c0_i32_2194 : BitVec 32 := 0#32
  let v4266 : Index := Scalar.indexCast c0_i32_2194
  let c7_i32_2195 : BitVec 32 := 7#32
  let v4267 : Index := Scalar.indexCast c7_i32_2195
  let c0_i32_256 : BitVec 32 := 0#32
  let c1_i32_258 : BitVec 32 := 1#32
  let arg11 : BitVec 32 := Scf.iv c0_i32_256 c1_i32_258 k0_t2
  let v4268 : Index := Scalar.indexCast arg11
  let c624_2196 : Index := 624#32
  ![0, 7, v4268.toNat, 624]
def k0_off372 (k0_t2 : Fin k0_t2_loop.trips) : Fin 2 → Nat :=
  let c0_i32_256 : BitVec 32 := 0#32
  let c1_i32_258 : BitVec 32 := 1#32
  let arg11 : BitVec 32 := Scf.iv c0_i32_256 c1_i32_258 k0_t2
  let v4278 : Index := Scalar.indexCast arg11
  let c640 : Index := 640#32
  ![v4278.toNat, 640]
def k0_off373 (k0_t2 : Fin k0_t2_loop.trips) : Fin 4 → Nat :=
  let c0_i32_2200 : BitVec 32 := 0#32
  let v4281 : Index := Scalar.indexCast c0_i32_2200
  let c0_i32_2201 : BitVec 32 := 0#32
  let v4282 : Index := Scalar.indexCast c0_i32_2201
  let c0_i32_256 : BitVec 32 := 0#32
  let c1_i32_258 : BitVec 32 := 1#32
  let arg11 : BitVec 32 := Scf.iv c0_i32_256 c1_i32_258 k0_t2
  let v4283 : Index := Scalar.indexCast arg11
  let c640_2202 : Index := 640#32
  ![0, 0, v4283.toNat, 640]
def k0_off374 (k0_t2 : Fin k0_t2_loop.trips) : Fin 4 → Nat :=
  let c0_i32_2206 : BitVec 32 := 0#32
  let v4293 : Index := Scalar.indexCast c0_i32_2206
  let c1_i32_2207 : BitVec 32 := 1#32
  let v4294 : Index := Scalar.indexCast c1_i32_2207
  let c0_i32_256 : BitVec 32 := 0#32
  let c1_i32_258 : BitVec 32 := 1#32
  let arg11 : BitVec 32 := Scf.iv c0_i32_256 c1_i32_258 k0_t2
  let v4295 : Index := Scalar.indexCast arg11
  let c640_2208 : Index := 640#32
  ![0, 1, v4295.toNat, 640]
def k0_off375 (k0_t2 : Fin k0_t2_loop.trips) : Fin 4 → Nat :=
  let c0_i32_2212 : BitVec 32 := 0#32
  let v4305 : Index := Scalar.indexCast c0_i32_2212
  let c2_i32_2213 : BitVec 32 := 2#32
  let v4306 : Index := Scalar.indexCast c2_i32_2213
  let c0_i32_256 : BitVec 32 := 0#32
  let c1_i32_258 : BitVec 32 := 1#32
  let arg11 : BitVec 32 := Scf.iv c0_i32_256 c1_i32_258 k0_t2
  let v4307 : Index := Scalar.indexCast arg11
  let c640_2214 : Index := 640#32
  ![0, 2, v4307.toNat, 640]
def k0_off376 (k0_t2 : Fin k0_t2_loop.trips) : Fin 4 → Nat :=
  let c0_i32_2218 : BitVec 32 := 0#32
  let v4317 : Index := Scalar.indexCast c0_i32_2218
  let c3_i32_2219 : BitVec 32 := 3#32
  let v4318 : Index := Scalar.indexCast c3_i32_2219
  let c0_i32_256 : BitVec 32 := 0#32
  let c1_i32_258 : BitVec 32 := 1#32
  let arg11 : BitVec 32 := Scf.iv c0_i32_256 c1_i32_258 k0_t2
  let v4319 : Index := Scalar.indexCast arg11
  let c640_2220 : Index := 640#32
  ![0, 3, v4319.toNat, 640]
def k0_off377 (k0_t2 : Fin k0_t2_loop.trips) : Fin 4 → Nat :=
  let c0_i32_2224 : BitVec 32 := 0#32
  let v4329 : Index := Scalar.indexCast c0_i32_2224
  let c4_i32_2225 : BitVec 32 := 4#32
  let v4330 : Index := Scalar.indexCast c4_i32_2225
  let c0_i32_256 : BitVec 32 := 0#32
  let c1_i32_258 : BitVec 32 := 1#32
  let arg11 : BitVec 32 := Scf.iv c0_i32_256 c1_i32_258 k0_t2
  let v4331 : Index := Scalar.indexCast arg11
  let c640_2226 : Index := 640#32
  ![0, 4, v4331.toNat, 640]
def k0_off378 (k0_t2 : Fin k0_t2_loop.trips) : Fin 4 → Nat :=
  let c0_i32_2230 : BitVec 32 := 0#32
  let v4341 : Index := Scalar.indexCast c0_i32_2230
  let c5_i32_2231 : BitVec 32 := 5#32
  let v4342 : Index := Scalar.indexCast c5_i32_2231
  let c0_i32_256 : BitVec 32 := 0#32
  let c1_i32_258 : BitVec 32 := 1#32
  let arg11 : BitVec 32 := Scf.iv c0_i32_256 c1_i32_258 k0_t2
  let v4343 : Index := Scalar.indexCast arg11
  let c640_2232 : Index := 640#32
  ![0, 5, v4343.toNat, 640]
def k0_off379 (k0_t2 : Fin k0_t2_loop.trips) : Fin 4 → Nat :=
  let c0_i32_2236 : BitVec 32 := 0#32
  let v4353 : Index := Scalar.indexCast c0_i32_2236
  let c6_i32_2237 : BitVec 32 := 6#32
  let v4354 : Index := Scalar.indexCast c6_i32_2237
  let c0_i32_256 : BitVec 32 := 0#32
  let c1_i32_258 : BitVec 32 := 1#32
  let arg11 : BitVec 32 := Scf.iv c0_i32_256 c1_i32_258 k0_t2
  let v4355 : Index := Scalar.indexCast arg11
  let c640_2238 : Index := 640#32
  ![0, 6, v4355.toNat, 640]
def k0_off380 (k0_t2 : Fin k0_t2_loop.trips) : Fin 4 → Nat :=
  let c0_i32_2242 : BitVec 32 := 0#32
  let v4365 : Index := Scalar.indexCast c0_i32_2242
  let c7_i32_2243 : BitVec 32 := 7#32
  let v4366 : Index := Scalar.indexCast c7_i32_2243
  let c0_i32_256 : BitVec 32 := 0#32
  let c1_i32_258 : BitVec 32 := 1#32
  let arg11 : BitVec 32 := Scf.iv c0_i32_256 c1_i32_258 k0_t2
  let v4367 : Index := Scalar.indexCast arg11
  let c640_2244 : Index := 640#32
  ![0, 7, v4367.toNat, 640]
def k0_off381 (k0_t2 : Fin k0_t2_loop.trips) : Fin 2 → Nat :=
  let c0_i32_256 : BitVec 32 := 0#32
  let c1_i32_258 : BitVec 32 := 1#32
  let arg11 : BitVec 32 := Scf.iv c0_i32_256 c1_i32_258 k0_t2
  let v4377 : Index := Scalar.indexCast arg11
  let c656 : Index := 656#32
  ![v4377.toNat, 656]
def k0_off382 (k0_t2 : Fin k0_t2_loop.trips) : Fin 4 → Nat :=
  let c0_i32_2248 : BitVec 32 := 0#32
  let v4380 : Index := Scalar.indexCast c0_i32_2248
  let c0_i32_2249 : BitVec 32 := 0#32
  let v4381 : Index := Scalar.indexCast c0_i32_2249
  let c0_i32_256 : BitVec 32 := 0#32
  let c1_i32_258 : BitVec 32 := 1#32
  let arg11 : BitVec 32 := Scf.iv c0_i32_256 c1_i32_258 k0_t2
  let v4382 : Index := Scalar.indexCast arg11
  let c656_2250 : Index := 656#32
  ![0, 0, v4382.toNat, 656]
def k0_off383 (k0_t2 : Fin k0_t2_loop.trips) : Fin 4 → Nat :=
  let c0_i32_2254 : BitVec 32 := 0#32
  let v4392 : Index := Scalar.indexCast c0_i32_2254
  let c1_i32_2255 : BitVec 32 := 1#32
  let v4393 : Index := Scalar.indexCast c1_i32_2255
  let c0_i32_256 : BitVec 32 := 0#32
  let c1_i32_258 : BitVec 32 := 1#32
  let arg11 : BitVec 32 := Scf.iv c0_i32_256 c1_i32_258 k0_t2
  let v4394 : Index := Scalar.indexCast arg11
  let c656_2256 : Index := 656#32
  ![0, 1, v4394.toNat, 656]
def k0_off384 (k0_t2 : Fin k0_t2_loop.trips) : Fin 4 → Nat :=
  let c0_i32_2260 : BitVec 32 := 0#32
  let v4404 : Index := Scalar.indexCast c0_i32_2260
  let c2_i32_2261 : BitVec 32 := 2#32
  let v4405 : Index := Scalar.indexCast c2_i32_2261
  let c0_i32_256 : BitVec 32 := 0#32
  let c1_i32_258 : BitVec 32 := 1#32
  let arg11 : BitVec 32 := Scf.iv c0_i32_256 c1_i32_258 k0_t2
  let v4406 : Index := Scalar.indexCast arg11
  let c656_2262 : Index := 656#32
  ![0, 2, v4406.toNat, 656]
def k0_off385 (k0_t2 : Fin k0_t2_loop.trips) : Fin 4 → Nat :=
  let c0_i32_2266 : BitVec 32 := 0#32
  let v4416 : Index := Scalar.indexCast c0_i32_2266
  let c3_i32_2267 : BitVec 32 := 3#32
  let v4417 : Index := Scalar.indexCast c3_i32_2267
  let c0_i32_256 : BitVec 32 := 0#32
  let c1_i32_258 : BitVec 32 := 1#32
  let arg11 : BitVec 32 := Scf.iv c0_i32_256 c1_i32_258 k0_t2
  let v4418 : Index := Scalar.indexCast arg11
  let c656_2268 : Index := 656#32
  ![0, 3, v4418.toNat, 656]
def k0_off386 (k0_t2 : Fin k0_t2_loop.trips) : Fin 4 → Nat :=
  let c0_i32_2272 : BitVec 32 := 0#32
  let v4428 : Index := Scalar.indexCast c0_i32_2272
  let c4_i32_2273 : BitVec 32 := 4#32
  let v4429 : Index := Scalar.indexCast c4_i32_2273
  let c0_i32_256 : BitVec 32 := 0#32
  let c1_i32_258 : BitVec 32 := 1#32
  let arg11 : BitVec 32 := Scf.iv c0_i32_256 c1_i32_258 k0_t2
  let v4430 : Index := Scalar.indexCast arg11
  let c656_2274 : Index := 656#32
  ![0, 4, v4430.toNat, 656]
def k0_off387 (k0_t2 : Fin k0_t2_loop.trips) : Fin 4 → Nat :=
  let c0_i32_2278 : BitVec 32 := 0#32
  let v4440 : Index := Scalar.indexCast c0_i32_2278
  let c5_i32_2279 : BitVec 32 := 5#32
  let v4441 : Index := Scalar.indexCast c5_i32_2279
  let c0_i32_256 : BitVec 32 := 0#32
  let c1_i32_258 : BitVec 32 := 1#32
  let arg11 : BitVec 32 := Scf.iv c0_i32_256 c1_i32_258 k0_t2
  let v4442 : Index := Scalar.indexCast arg11
  let c656_2280 : Index := 656#32
  ![0, 5, v4442.toNat, 656]
def k0_off388 (k0_t2 : Fin k0_t2_loop.trips) : Fin 4 → Nat :=
  let c0_i32_2284 : BitVec 32 := 0#32
  let v4452 : Index := Scalar.indexCast c0_i32_2284
  let c6_i32_2285 : BitVec 32 := 6#32
  let v4453 : Index := Scalar.indexCast c6_i32_2285
  let c0_i32_256 : BitVec 32 := 0#32
  let c1_i32_258 : BitVec 32 := 1#32
  let arg11 : BitVec 32 := Scf.iv c0_i32_256 c1_i32_258 k0_t2
  let v4454 : Index := Scalar.indexCast arg11
  let c656_2286 : Index := 656#32
  ![0, 6, v4454.toNat, 656]
def k0_off389 (k0_t2 : Fin k0_t2_loop.trips) : Fin 4 → Nat :=
  let c0_i32_2290 : BitVec 32 := 0#32
  let v4464 : Index := Scalar.indexCast c0_i32_2290
  let c7_i32_2291 : BitVec 32 := 7#32
  let v4465 : Index := Scalar.indexCast c7_i32_2291
  let c0_i32_256 : BitVec 32 := 0#32
  let c1_i32_258 : BitVec 32 := 1#32
  let arg11 : BitVec 32 := Scf.iv c0_i32_256 c1_i32_258 k0_t2
  let v4466 : Index := Scalar.indexCast arg11
  let c656_2292 : Index := 656#32
  ![0, 7, v4466.toNat, 656]
def k0_off390 (k0_t2 : Fin k0_t2_loop.trips) : Fin 2 → Nat :=
  let c0_i32_256 : BitVec 32 := 0#32
  let c1_i32_258 : BitVec 32 := 1#32
  let arg11 : BitVec 32 := Scf.iv c0_i32_256 c1_i32_258 k0_t2
  let v4476 : Index := Scalar.indexCast arg11
  let c672 : Index := 672#32
  ![v4476.toNat, 672]
def k0_off391 (k0_t2 : Fin k0_t2_loop.trips) : Fin 4 → Nat :=
  let c0_i32_2296 : BitVec 32 := 0#32
  let v4479 : Index := Scalar.indexCast c0_i32_2296
  let c0_i32_2297 : BitVec 32 := 0#32
  let v4480 : Index := Scalar.indexCast c0_i32_2297
  let c0_i32_256 : BitVec 32 := 0#32
  let c1_i32_258 : BitVec 32 := 1#32
  let arg11 : BitVec 32 := Scf.iv c0_i32_256 c1_i32_258 k0_t2
  let v4481 : Index := Scalar.indexCast arg11
  let c672_2298 : Index := 672#32
  ![0, 0, v4481.toNat, 672]
def k0_off392 (k0_t2 : Fin k0_t2_loop.trips) : Fin 4 → Nat :=
  let c0_i32_2302 : BitVec 32 := 0#32
  let v4491 : Index := Scalar.indexCast c0_i32_2302
  let c1_i32_2303 : BitVec 32 := 1#32
  let v4492 : Index := Scalar.indexCast c1_i32_2303
  let c0_i32_256 : BitVec 32 := 0#32
  let c1_i32_258 : BitVec 32 := 1#32
  let arg11 : BitVec 32 := Scf.iv c0_i32_256 c1_i32_258 k0_t2
  let v4493 : Index := Scalar.indexCast arg11
  let c672_2304 : Index := 672#32
  ![0, 1, v4493.toNat, 672]
def k0_off393 (k0_t2 : Fin k0_t2_loop.trips) : Fin 4 → Nat :=
  let c0_i32_2308 : BitVec 32 := 0#32
  let v4503 : Index := Scalar.indexCast c0_i32_2308
  let c2_i32_2309 : BitVec 32 := 2#32
  let v4504 : Index := Scalar.indexCast c2_i32_2309
  let c0_i32_256 : BitVec 32 := 0#32
  let c1_i32_258 : BitVec 32 := 1#32
  let arg11 : BitVec 32 := Scf.iv c0_i32_256 c1_i32_258 k0_t2
  let v4505 : Index := Scalar.indexCast arg11
  let c672_2310 : Index := 672#32
  ![0, 2, v4505.toNat, 672]
def k0_off394 (k0_t2 : Fin k0_t2_loop.trips) : Fin 4 → Nat :=
  let c0_i32_2314 : BitVec 32 := 0#32
  let v4515 : Index := Scalar.indexCast c0_i32_2314
  let c3_i32_2315 : BitVec 32 := 3#32
  let v4516 : Index := Scalar.indexCast c3_i32_2315
  let c0_i32_256 : BitVec 32 := 0#32
  let c1_i32_258 : BitVec 32 := 1#32
  let arg11 : BitVec 32 := Scf.iv c0_i32_256 c1_i32_258 k0_t2
  let v4517 : Index := Scalar.indexCast arg11
  let c672_2316 : Index := 672#32
  ![0, 3, v4517.toNat, 672]
def k0_off395 (k0_t2 : Fin k0_t2_loop.trips) : Fin 4 → Nat :=
  let c0_i32_2320 : BitVec 32 := 0#32
  let v4527 : Index := Scalar.indexCast c0_i32_2320
  let c4_i32_2321 : BitVec 32 := 4#32
  let v4528 : Index := Scalar.indexCast c4_i32_2321
  let c0_i32_256 : BitVec 32 := 0#32
  let c1_i32_258 : BitVec 32 := 1#32
  let arg11 : BitVec 32 := Scf.iv c0_i32_256 c1_i32_258 k0_t2
  let v4529 : Index := Scalar.indexCast arg11
  let c672_2322 : Index := 672#32
  ![0, 4, v4529.toNat, 672]
def k0_off396 (k0_t2 : Fin k0_t2_loop.trips) : Fin 4 → Nat :=
  let c0_i32_2326 : BitVec 32 := 0#32
  let v4539 : Index := Scalar.indexCast c0_i32_2326
  let c5_i32_2327 : BitVec 32 := 5#32
  let v4540 : Index := Scalar.indexCast c5_i32_2327
  let c0_i32_256 : BitVec 32 := 0#32
  let c1_i32_258 : BitVec 32 := 1#32
  let arg11 : BitVec 32 := Scf.iv c0_i32_256 c1_i32_258 k0_t2
  let v4541 : Index := Scalar.indexCast arg11
  let c672_2328 : Index := 672#32
  ![0, 5, v4541.toNat, 672]
def k0_off397 (k0_t2 : Fin k0_t2_loop.trips) : Fin 4 → Nat :=
  let c0_i32_2332 : BitVec 32 := 0#32
  let v4551 : Index := Scalar.indexCast c0_i32_2332
  let c6_i32_2333 : BitVec 32 := 6#32
  let v4552 : Index := Scalar.indexCast c6_i32_2333
  let c0_i32_256 : BitVec 32 := 0#32
  let c1_i32_258 : BitVec 32 := 1#32
  let arg11 : BitVec 32 := Scf.iv c0_i32_256 c1_i32_258 k0_t2
  let v4553 : Index := Scalar.indexCast arg11
  let c672_2334 : Index := 672#32
  ![0, 6, v4553.toNat, 672]
def k0_off398 (k0_t2 : Fin k0_t2_loop.trips) : Fin 4 → Nat :=
  let c0_i32_2338 : BitVec 32 := 0#32
  let v4563 : Index := Scalar.indexCast c0_i32_2338
  let c7_i32_2339 : BitVec 32 := 7#32
  let v4564 : Index := Scalar.indexCast c7_i32_2339
  let c0_i32_256 : BitVec 32 := 0#32
  let c1_i32_258 : BitVec 32 := 1#32
  let arg11 : BitVec 32 := Scf.iv c0_i32_256 c1_i32_258 k0_t2
  let v4565 : Index := Scalar.indexCast arg11
  let c672_2340 : Index := 672#32
  ![0, 7, v4565.toNat, 672]
def k0_off399 (k0_t2 : Fin k0_t2_loop.trips) : Fin 2 → Nat :=
  let c0_i32_256 : BitVec 32 := 0#32
  let c1_i32_258 : BitVec 32 := 1#32
  let arg11 : BitVec 32 := Scf.iv c0_i32_256 c1_i32_258 k0_t2
  let v4575 : Index := Scalar.indexCast arg11
  let c688 : Index := 688#32
  ![v4575.toNat, 688]
def k0_off400 (k0_t2 : Fin k0_t2_loop.trips) : Fin 4 → Nat :=
  let c0_i32_2344 : BitVec 32 := 0#32
  let v4578 : Index := Scalar.indexCast c0_i32_2344
  let c0_i32_2345 : BitVec 32 := 0#32
  let v4579 : Index := Scalar.indexCast c0_i32_2345
  let c0_i32_256 : BitVec 32 := 0#32
  let c1_i32_258 : BitVec 32 := 1#32
  let arg11 : BitVec 32 := Scf.iv c0_i32_256 c1_i32_258 k0_t2
  let v4580 : Index := Scalar.indexCast arg11
  let c688_2346 : Index := 688#32
  ![0, 0, v4580.toNat, 688]
def k0_off401 (k0_t2 : Fin k0_t2_loop.trips) : Fin 4 → Nat :=
  let c0_i32_2350 : BitVec 32 := 0#32
  let v4590 : Index := Scalar.indexCast c0_i32_2350
  let c1_i32_2351 : BitVec 32 := 1#32
  let v4591 : Index := Scalar.indexCast c1_i32_2351
  let c0_i32_256 : BitVec 32 := 0#32
  let c1_i32_258 : BitVec 32 := 1#32
  let arg11 : BitVec 32 := Scf.iv c0_i32_256 c1_i32_258 k0_t2
  let v4592 : Index := Scalar.indexCast arg11
  let c688_2352 : Index := 688#32
  ![0, 1, v4592.toNat, 688]
def k0_off402 (k0_t2 : Fin k0_t2_loop.trips) : Fin 4 → Nat :=
  let c0_i32_2356 : BitVec 32 := 0#32
  let v4602 : Index := Scalar.indexCast c0_i32_2356
  let c2_i32_2357 : BitVec 32 := 2#32
  let v4603 : Index := Scalar.indexCast c2_i32_2357
  let c0_i32_256 : BitVec 32 := 0#32
  let c1_i32_258 : BitVec 32 := 1#32
  let arg11 : BitVec 32 := Scf.iv c0_i32_256 c1_i32_258 k0_t2
  let v4604 : Index := Scalar.indexCast arg11
  let c688_2358 : Index := 688#32
  ![0, 2, v4604.toNat, 688]
def k0_off403 (k0_t2 : Fin k0_t2_loop.trips) : Fin 4 → Nat :=
  let c0_i32_2362 : BitVec 32 := 0#32
  let v4614 : Index := Scalar.indexCast c0_i32_2362
  let c3_i32_2363 : BitVec 32 := 3#32
  let v4615 : Index := Scalar.indexCast c3_i32_2363
  let c0_i32_256 : BitVec 32 := 0#32
  let c1_i32_258 : BitVec 32 := 1#32
  let arg11 : BitVec 32 := Scf.iv c0_i32_256 c1_i32_258 k0_t2
  let v4616 : Index := Scalar.indexCast arg11
  let c688_2364 : Index := 688#32
  ![0, 3, v4616.toNat, 688]
def k0_off404 (k0_t2 : Fin k0_t2_loop.trips) : Fin 4 → Nat :=
  let c0_i32_2368 : BitVec 32 := 0#32
  let v4626 : Index := Scalar.indexCast c0_i32_2368
  let c4_i32_2369 : BitVec 32 := 4#32
  let v4627 : Index := Scalar.indexCast c4_i32_2369
  let c0_i32_256 : BitVec 32 := 0#32
  let c1_i32_258 : BitVec 32 := 1#32
  let arg11 : BitVec 32 := Scf.iv c0_i32_256 c1_i32_258 k0_t2
  let v4628 : Index := Scalar.indexCast arg11
  let c688_2370 : Index := 688#32
  ![0, 4, v4628.toNat, 688]
def k0_off405 (k0_t2 : Fin k0_t2_loop.trips) : Fin 4 → Nat :=
  let c0_i32_2374 : BitVec 32 := 0#32
  let v4638 : Index := Scalar.indexCast c0_i32_2374
  let c5_i32_2375 : BitVec 32 := 5#32
  let v4639 : Index := Scalar.indexCast c5_i32_2375
  let c0_i32_256 : BitVec 32 := 0#32
  let c1_i32_258 : BitVec 32 := 1#32
  let arg11 : BitVec 32 := Scf.iv c0_i32_256 c1_i32_258 k0_t2
  let v4640 : Index := Scalar.indexCast arg11
  let c688_2376 : Index := 688#32
  ![0, 5, v4640.toNat, 688]
def k0_off406 (k0_t2 : Fin k0_t2_loop.trips) : Fin 4 → Nat :=
  let c0_i32_2380 : BitVec 32 := 0#32
  let v4650 : Index := Scalar.indexCast c0_i32_2380
  let c6_i32_2381 : BitVec 32 := 6#32
  let v4651 : Index := Scalar.indexCast c6_i32_2381
  let c0_i32_256 : BitVec 32 := 0#32
  let c1_i32_258 : BitVec 32 := 1#32
  let arg11 : BitVec 32 := Scf.iv c0_i32_256 c1_i32_258 k0_t2
  let v4652 : Index := Scalar.indexCast arg11
  let c688_2382 : Index := 688#32
  ![0, 6, v4652.toNat, 688]
def k0_off407 (k0_t2 : Fin k0_t2_loop.trips) : Fin 4 → Nat :=
  let c0_i32_2386 : BitVec 32 := 0#32
  let v4662 : Index := Scalar.indexCast c0_i32_2386
  let c7_i32_2387 : BitVec 32 := 7#32
  let v4663 : Index := Scalar.indexCast c7_i32_2387
  let c0_i32_256 : BitVec 32 := 0#32
  let c1_i32_258 : BitVec 32 := 1#32
  let arg11 : BitVec 32 := Scf.iv c0_i32_256 c1_i32_258 k0_t2
  let v4664 : Index := Scalar.indexCast arg11
  let c688_2388 : Index := 688#32
  ![0, 7, v4664.toNat, 688]
def k0_off408 (k0_t2 : Fin k0_t2_loop.trips) : Fin 2 → Nat :=
  let c0_i32_256 : BitVec 32 := 0#32
  let c1_i32_258 : BitVec 32 := 1#32
  let arg11 : BitVec 32 := Scf.iv c0_i32_256 c1_i32_258 k0_t2
  let v4674 : Index := Scalar.indexCast arg11
  let c704 : Index := 704#32
  ![v4674.toNat, 704]
def k0_off409 (k0_t2 : Fin k0_t2_loop.trips) : Fin 4 → Nat :=
  let c0_i32_2392 : BitVec 32 := 0#32
  let v4677 : Index := Scalar.indexCast c0_i32_2392
  let c0_i32_2393 : BitVec 32 := 0#32
  let v4678 : Index := Scalar.indexCast c0_i32_2393
  let c0_i32_256 : BitVec 32 := 0#32
  let c1_i32_258 : BitVec 32 := 1#32
  let arg11 : BitVec 32 := Scf.iv c0_i32_256 c1_i32_258 k0_t2
  let v4679 : Index := Scalar.indexCast arg11
  let c704_2394 : Index := 704#32
  ![0, 0, v4679.toNat, 704]
def k0_off410 (k0_t2 : Fin k0_t2_loop.trips) : Fin 4 → Nat :=
  let c0_i32_2398 : BitVec 32 := 0#32
  let v4689 : Index := Scalar.indexCast c0_i32_2398
  let c1_i32_2399 : BitVec 32 := 1#32
  let v4690 : Index := Scalar.indexCast c1_i32_2399
  let c0_i32_256 : BitVec 32 := 0#32
  let c1_i32_258 : BitVec 32 := 1#32
  let arg11 : BitVec 32 := Scf.iv c0_i32_256 c1_i32_258 k0_t2
  let v4691 : Index := Scalar.indexCast arg11
  let c704_2400 : Index := 704#32
  ![0, 1, v4691.toNat, 704]
def k0_off411 (k0_t2 : Fin k0_t2_loop.trips) : Fin 4 → Nat :=
  let c0_i32_2404 : BitVec 32 := 0#32
  let v4701 : Index := Scalar.indexCast c0_i32_2404
  let c2_i32_2405 : BitVec 32 := 2#32
  let v4702 : Index := Scalar.indexCast c2_i32_2405
  let c0_i32_256 : BitVec 32 := 0#32
  let c1_i32_258 : BitVec 32 := 1#32
  let arg11 : BitVec 32 := Scf.iv c0_i32_256 c1_i32_258 k0_t2
  let v4703 : Index := Scalar.indexCast arg11
  let c704_2406 : Index := 704#32
  ![0, 2, v4703.toNat, 704]
def k0_off412 (k0_t2 : Fin k0_t2_loop.trips) : Fin 4 → Nat :=
  let c0_i32_2410 : BitVec 32 := 0#32
  let v4713 : Index := Scalar.indexCast c0_i32_2410
  let c3_i32_2411 : BitVec 32 := 3#32
  let v4714 : Index := Scalar.indexCast c3_i32_2411
  let c0_i32_256 : BitVec 32 := 0#32
  let c1_i32_258 : BitVec 32 := 1#32
  let arg11 : BitVec 32 := Scf.iv c0_i32_256 c1_i32_258 k0_t2
  let v4715 : Index := Scalar.indexCast arg11
  let c704_2412 : Index := 704#32
  ![0, 3, v4715.toNat, 704]
def k0_off413 (k0_t2 : Fin k0_t2_loop.trips) : Fin 4 → Nat :=
  let c0_i32_2416 : BitVec 32 := 0#32
  let v4725 : Index := Scalar.indexCast c0_i32_2416
  let c4_i32_2417 : BitVec 32 := 4#32
  let v4726 : Index := Scalar.indexCast c4_i32_2417
  let c0_i32_256 : BitVec 32 := 0#32
  let c1_i32_258 : BitVec 32 := 1#32
  let arg11 : BitVec 32 := Scf.iv c0_i32_256 c1_i32_258 k0_t2
  let v4727 : Index := Scalar.indexCast arg11
  let c704_2418 : Index := 704#32
  ![0, 4, v4727.toNat, 704]
def k0_off414 (k0_t2 : Fin k0_t2_loop.trips) : Fin 4 → Nat :=
  let c0_i32_2422 : BitVec 32 := 0#32
  let v4737 : Index := Scalar.indexCast c0_i32_2422
  let c5_i32_2423 : BitVec 32 := 5#32
  let v4738 : Index := Scalar.indexCast c5_i32_2423
  let c0_i32_256 : BitVec 32 := 0#32
  let c1_i32_258 : BitVec 32 := 1#32
  let arg11 : BitVec 32 := Scf.iv c0_i32_256 c1_i32_258 k0_t2
  let v4739 : Index := Scalar.indexCast arg11
  let c704_2424 : Index := 704#32
  ![0, 5, v4739.toNat, 704]
def k0_off415 (k0_t2 : Fin k0_t2_loop.trips) : Fin 4 → Nat :=
  let c0_i32_2428 : BitVec 32 := 0#32
  let v4749 : Index := Scalar.indexCast c0_i32_2428
  let c6_i32_2429 : BitVec 32 := 6#32
  let v4750 : Index := Scalar.indexCast c6_i32_2429
  let c0_i32_256 : BitVec 32 := 0#32
  let c1_i32_258 : BitVec 32 := 1#32
  let arg11 : BitVec 32 := Scf.iv c0_i32_256 c1_i32_258 k0_t2
  let v4751 : Index := Scalar.indexCast arg11
  let c704_2430 : Index := 704#32
  ![0, 6, v4751.toNat, 704]
def k0_off416 (k0_t2 : Fin k0_t2_loop.trips) : Fin 4 → Nat :=
  let c0_i32_2434 : BitVec 32 := 0#32
  let v4761 : Index := Scalar.indexCast c0_i32_2434
  let c7_i32_2435 : BitVec 32 := 7#32
  let v4762 : Index := Scalar.indexCast c7_i32_2435
  let c0_i32_256 : BitVec 32 := 0#32
  let c1_i32_258 : BitVec 32 := 1#32
  let arg11 : BitVec 32 := Scf.iv c0_i32_256 c1_i32_258 k0_t2
  let v4763 : Index := Scalar.indexCast arg11
  let c704_2436 : Index := 704#32
  ![0, 7, v4763.toNat, 704]
def k0_off417 (k0_t2 : Fin k0_t2_loop.trips) : Fin 2 → Nat :=
  let c0_i32_256 : BitVec 32 := 0#32
  let c1_i32_258 : BitVec 32 := 1#32
  let arg11 : BitVec 32 := Scf.iv c0_i32_256 c1_i32_258 k0_t2
  let v4773 : Index := Scalar.indexCast arg11
  let c720 : Index := 720#32
  ![v4773.toNat, 720]
def k0_off418 (k0_t2 : Fin k0_t2_loop.trips) : Fin 4 → Nat :=
  let c0_i32_2440 : BitVec 32 := 0#32
  let v4776 : Index := Scalar.indexCast c0_i32_2440
  let c0_i32_2441 : BitVec 32 := 0#32
  let v4777 : Index := Scalar.indexCast c0_i32_2441
  let c0_i32_256 : BitVec 32 := 0#32
  let c1_i32_258 : BitVec 32 := 1#32
  let arg11 : BitVec 32 := Scf.iv c0_i32_256 c1_i32_258 k0_t2
  let v4778 : Index := Scalar.indexCast arg11
  let c720_2442 : Index := 720#32
  ![0, 0, v4778.toNat, 720]
def k0_off419 (k0_t2 : Fin k0_t2_loop.trips) : Fin 4 → Nat :=
  let c0_i32_2446 : BitVec 32 := 0#32
  let v4788 : Index := Scalar.indexCast c0_i32_2446
  let c1_i32_2447 : BitVec 32 := 1#32
  let v4789 : Index := Scalar.indexCast c1_i32_2447
  let c0_i32_256 : BitVec 32 := 0#32
  let c1_i32_258 : BitVec 32 := 1#32
  let arg11 : BitVec 32 := Scf.iv c0_i32_256 c1_i32_258 k0_t2
  let v4790 : Index := Scalar.indexCast arg11
  let c720_2448 : Index := 720#32
  ![0, 1, v4790.toNat, 720]
def k0_off420 (k0_t2 : Fin k0_t2_loop.trips) : Fin 4 → Nat :=
  let c0_i32_2452 : BitVec 32 := 0#32
  let v4800 : Index := Scalar.indexCast c0_i32_2452
  let c2_i32_2453 : BitVec 32 := 2#32
  let v4801 : Index := Scalar.indexCast c2_i32_2453
  let c0_i32_256 : BitVec 32 := 0#32
  let c1_i32_258 : BitVec 32 := 1#32
  let arg11 : BitVec 32 := Scf.iv c0_i32_256 c1_i32_258 k0_t2
  let v4802 : Index := Scalar.indexCast arg11
  let c720_2454 : Index := 720#32
  ![0, 2, v4802.toNat, 720]
def k0_off421 (k0_t2 : Fin k0_t2_loop.trips) : Fin 4 → Nat :=
  let c0_i32_2458 : BitVec 32 := 0#32
  let v4812 : Index := Scalar.indexCast c0_i32_2458
  let c3_i32_2459 : BitVec 32 := 3#32
  let v4813 : Index := Scalar.indexCast c3_i32_2459
  let c0_i32_256 : BitVec 32 := 0#32
  let c1_i32_258 : BitVec 32 := 1#32
  let arg11 : BitVec 32 := Scf.iv c0_i32_256 c1_i32_258 k0_t2
  let v4814 : Index := Scalar.indexCast arg11
  let c720_2460 : Index := 720#32
  ![0, 3, v4814.toNat, 720]
def k0_off422 (k0_t2 : Fin k0_t2_loop.trips) : Fin 4 → Nat :=
  let c0_i32_2464 : BitVec 32 := 0#32
  let v4824 : Index := Scalar.indexCast c0_i32_2464
  let c4_i32_2465 : BitVec 32 := 4#32
  let v4825 : Index := Scalar.indexCast c4_i32_2465
  let c0_i32_256 : BitVec 32 := 0#32
  let c1_i32_258 : BitVec 32 := 1#32
  let arg11 : BitVec 32 := Scf.iv c0_i32_256 c1_i32_258 k0_t2
  let v4826 : Index := Scalar.indexCast arg11
  let c720_2466 : Index := 720#32
  ![0, 4, v4826.toNat, 720]
def k0_off423 (k0_t2 : Fin k0_t2_loop.trips) : Fin 4 → Nat :=
  let c0_i32_2470 : BitVec 32 := 0#32
  let v4836 : Index := Scalar.indexCast c0_i32_2470
  let c5_i32_2471 : BitVec 32 := 5#32
  let v4837 : Index := Scalar.indexCast c5_i32_2471
  let c0_i32_256 : BitVec 32 := 0#32
  let c1_i32_258 : BitVec 32 := 1#32
  let arg11 : BitVec 32 := Scf.iv c0_i32_256 c1_i32_258 k0_t2
  let v4838 : Index := Scalar.indexCast arg11
  let c720_2472 : Index := 720#32
  ![0, 5, v4838.toNat, 720]
def k0_off424 (k0_t2 : Fin k0_t2_loop.trips) : Fin 4 → Nat :=
  let c0_i32_2476 : BitVec 32 := 0#32
  let v4848 : Index := Scalar.indexCast c0_i32_2476
  let c6_i32_2477 : BitVec 32 := 6#32
  let v4849 : Index := Scalar.indexCast c6_i32_2477
  let c0_i32_256 : BitVec 32 := 0#32
  let c1_i32_258 : BitVec 32 := 1#32
  let arg11 : BitVec 32 := Scf.iv c0_i32_256 c1_i32_258 k0_t2
  let v4850 : Index := Scalar.indexCast arg11
  let c720_2478 : Index := 720#32
  ![0, 6, v4850.toNat, 720]
def k0_off425 (k0_t2 : Fin k0_t2_loop.trips) : Fin 4 → Nat :=
  let c0_i32_2482 : BitVec 32 := 0#32
  let v4860 : Index := Scalar.indexCast c0_i32_2482
  let c7_i32_2483 : BitVec 32 := 7#32
  let v4861 : Index := Scalar.indexCast c7_i32_2483
  let c0_i32_256 : BitVec 32 := 0#32
  let c1_i32_258 : BitVec 32 := 1#32
  let arg11 : BitVec 32 := Scf.iv c0_i32_256 c1_i32_258 k0_t2
  let v4862 : Index := Scalar.indexCast arg11
  let c720_2484 : Index := 720#32
  ![0, 7, v4862.toNat, 720]
def k0_off426 (k0_t2 : Fin k0_t2_loop.trips) : Fin 2 → Nat :=
  let c0_i32_256 : BitVec 32 := 0#32
  let c1_i32_258 : BitVec 32 := 1#32
  let arg11 : BitVec 32 := Scf.iv c0_i32_256 c1_i32_258 k0_t2
  let v4872 : Index := Scalar.indexCast arg11
  let c736 : Index := 736#32
  ![v4872.toNat, 736]
def k0_off427 (k0_t2 : Fin k0_t2_loop.trips) : Fin 4 → Nat :=
  let c0_i32_2488 : BitVec 32 := 0#32
  let v4875 : Index := Scalar.indexCast c0_i32_2488
  let c0_i32_2489 : BitVec 32 := 0#32
  let v4876 : Index := Scalar.indexCast c0_i32_2489
  let c0_i32_256 : BitVec 32 := 0#32
  let c1_i32_258 : BitVec 32 := 1#32
  let arg11 : BitVec 32 := Scf.iv c0_i32_256 c1_i32_258 k0_t2
  let v4877 : Index := Scalar.indexCast arg11
  let c736_2490 : Index := 736#32
  ![0, 0, v4877.toNat, 736]
def k0_off428 (k0_t2 : Fin k0_t2_loop.trips) : Fin 4 → Nat :=
  let c0_i32_2494 : BitVec 32 := 0#32
  let v4887 : Index := Scalar.indexCast c0_i32_2494
  let c1_i32_2495 : BitVec 32 := 1#32
  let v4888 : Index := Scalar.indexCast c1_i32_2495
  let c0_i32_256 : BitVec 32 := 0#32
  let c1_i32_258 : BitVec 32 := 1#32
  let arg11 : BitVec 32 := Scf.iv c0_i32_256 c1_i32_258 k0_t2
  let v4889 : Index := Scalar.indexCast arg11
  let c736_2496 : Index := 736#32
  ![0, 1, v4889.toNat, 736]
def k0_off429 (k0_t2 : Fin k0_t2_loop.trips) : Fin 4 → Nat :=
  let c0_i32_2500 : BitVec 32 := 0#32
  let v4899 : Index := Scalar.indexCast c0_i32_2500
  let c2_i32_2501 : BitVec 32 := 2#32
  let v4900 : Index := Scalar.indexCast c2_i32_2501
  let c0_i32_256 : BitVec 32 := 0#32
  let c1_i32_258 : BitVec 32 := 1#32
  let arg11 : BitVec 32 := Scf.iv c0_i32_256 c1_i32_258 k0_t2
  let v4901 : Index := Scalar.indexCast arg11
  let c736_2502 : Index := 736#32
  ![0, 2, v4901.toNat, 736]
def k0_off430 (k0_t2 : Fin k0_t2_loop.trips) : Fin 4 → Nat :=
  let c0_i32_2506 : BitVec 32 := 0#32
  let v4911 : Index := Scalar.indexCast c0_i32_2506
  let c3_i32_2507 : BitVec 32 := 3#32
  let v4912 : Index := Scalar.indexCast c3_i32_2507
  let c0_i32_256 : BitVec 32 := 0#32
  let c1_i32_258 : BitVec 32 := 1#32
  let arg11 : BitVec 32 := Scf.iv c0_i32_256 c1_i32_258 k0_t2
  let v4913 : Index := Scalar.indexCast arg11
  let c736_2508 : Index := 736#32
  ![0, 3, v4913.toNat, 736]
def k0_off431 (k0_t2 : Fin k0_t2_loop.trips) : Fin 4 → Nat :=
  let c0_i32_2512 : BitVec 32 := 0#32
  let v4923 : Index := Scalar.indexCast c0_i32_2512
  let c4_i32_2513 : BitVec 32 := 4#32
  let v4924 : Index := Scalar.indexCast c4_i32_2513
  let c0_i32_256 : BitVec 32 := 0#32
  let c1_i32_258 : BitVec 32 := 1#32
  let arg11 : BitVec 32 := Scf.iv c0_i32_256 c1_i32_258 k0_t2
  let v4925 : Index := Scalar.indexCast arg11
  let c736_2514 : Index := 736#32
  ![0, 4, v4925.toNat, 736]
def k0_off432 (k0_t2 : Fin k0_t2_loop.trips) : Fin 4 → Nat :=
  let c0_i32_2518 : BitVec 32 := 0#32
  let v4935 : Index := Scalar.indexCast c0_i32_2518
  let c5_i32_2519 : BitVec 32 := 5#32
  let v4936 : Index := Scalar.indexCast c5_i32_2519
  let c0_i32_256 : BitVec 32 := 0#32
  let c1_i32_258 : BitVec 32 := 1#32
  let arg11 : BitVec 32 := Scf.iv c0_i32_256 c1_i32_258 k0_t2
  let v4937 : Index := Scalar.indexCast arg11
  let c736_2520 : Index := 736#32
  ![0, 5, v4937.toNat, 736]
def k0_off433 (k0_t2 : Fin k0_t2_loop.trips) : Fin 4 → Nat :=
  let c0_i32_2524 : BitVec 32 := 0#32
  let v4947 : Index := Scalar.indexCast c0_i32_2524
  let c6_i32_2525 : BitVec 32 := 6#32
  let v4948 : Index := Scalar.indexCast c6_i32_2525
  let c0_i32_256 : BitVec 32 := 0#32
  let c1_i32_258 : BitVec 32 := 1#32
  let arg11 : BitVec 32 := Scf.iv c0_i32_256 c1_i32_258 k0_t2
  let v4949 : Index := Scalar.indexCast arg11
  let c736_2526 : Index := 736#32
  ![0, 6, v4949.toNat, 736]
def k0_off434 (k0_t2 : Fin k0_t2_loop.trips) : Fin 4 → Nat :=
  let c0_i32_2530 : BitVec 32 := 0#32
  let v4959 : Index := Scalar.indexCast c0_i32_2530
  let c7_i32_2531 : BitVec 32 := 7#32
  let v4960 : Index := Scalar.indexCast c7_i32_2531
  let c0_i32_256 : BitVec 32 := 0#32
  let c1_i32_258 : BitVec 32 := 1#32
  let arg11 : BitVec 32 := Scf.iv c0_i32_256 c1_i32_258 k0_t2
  let v4961 : Index := Scalar.indexCast arg11
  let c736_2532 : Index := 736#32
  ![0, 7, v4961.toNat, 736]
def k0_off435 (k0_t2 : Fin k0_t2_loop.trips) : Fin 2 → Nat :=
  let c0_i32_256 : BitVec 32 := 0#32
  let c1_i32_258 : BitVec 32 := 1#32
  let arg11 : BitVec 32 := Scf.iv c0_i32_256 c1_i32_258 k0_t2
  let v4971 : Index := Scalar.indexCast arg11
  let c752 : Index := 752#32
  ![v4971.toNat, 752]
def k0_off436 (k0_t2 : Fin k0_t2_loop.trips) : Fin 4 → Nat :=
  let c0_i32_2536 : BitVec 32 := 0#32
  let v4974 : Index := Scalar.indexCast c0_i32_2536
  let c0_i32_2537 : BitVec 32 := 0#32
  let v4975 : Index := Scalar.indexCast c0_i32_2537
  let c0_i32_256 : BitVec 32 := 0#32
  let c1_i32_258 : BitVec 32 := 1#32
  let arg11 : BitVec 32 := Scf.iv c0_i32_256 c1_i32_258 k0_t2
  let v4976 : Index := Scalar.indexCast arg11
  let c752_2538 : Index := 752#32
  ![0, 0, v4976.toNat, 752]
def k0_off437 (k0_t2 : Fin k0_t2_loop.trips) : Fin 4 → Nat :=
  let c0_i32_2542 : BitVec 32 := 0#32
  let v4986 : Index := Scalar.indexCast c0_i32_2542
  let c1_i32_2543 : BitVec 32 := 1#32
  let v4987 : Index := Scalar.indexCast c1_i32_2543
  let c0_i32_256 : BitVec 32 := 0#32
  let c1_i32_258 : BitVec 32 := 1#32
  let arg11 : BitVec 32 := Scf.iv c0_i32_256 c1_i32_258 k0_t2
  let v4988 : Index := Scalar.indexCast arg11
  let c752_2544 : Index := 752#32
  ![0, 1, v4988.toNat, 752]
def k0_off438 (k0_t2 : Fin k0_t2_loop.trips) : Fin 4 → Nat :=
  let c0_i32_2548 : BitVec 32 := 0#32
  let v4998 : Index := Scalar.indexCast c0_i32_2548
  let c2_i32_2549 : BitVec 32 := 2#32
  let v4999 : Index := Scalar.indexCast c2_i32_2549
  let c0_i32_256 : BitVec 32 := 0#32
  let c1_i32_258 : BitVec 32 := 1#32
  let arg11 : BitVec 32 := Scf.iv c0_i32_256 c1_i32_258 k0_t2
  let v5000 : Index := Scalar.indexCast arg11
  let c752_2550 : Index := 752#32
  ![0, 2, v5000.toNat, 752]
def k0_off439 (k0_t2 : Fin k0_t2_loop.trips) : Fin 4 → Nat :=
  let c0_i32_2554 : BitVec 32 := 0#32
  let v5010 : Index := Scalar.indexCast c0_i32_2554
  let c3_i32_2555 : BitVec 32 := 3#32
  let v5011 : Index := Scalar.indexCast c3_i32_2555
  let c0_i32_256 : BitVec 32 := 0#32
  let c1_i32_258 : BitVec 32 := 1#32
  let arg11 : BitVec 32 := Scf.iv c0_i32_256 c1_i32_258 k0_t2
  let v5012 : Index := Scalar.indexCast arg11
  let c752_2556 : Index := 752#32
  ![0, 3, v5012.toNat, 752]
def k0_off440 (k0_t2 : Fin k0_t2_loop.trips) : Fin 4 → Nat :=
  let c0_i32_2560 : BitVec 32 := 0#32
  let v5022 : Index := Scalar.indexCast c0_i32_2560
  let c4_i32_2561 : BitVec 32 := 4#32
  let v5023 : Index := Scalar.indexCast c4_i32_2561
  let c0_i32_256 : BitVec 32 := 0#32
  let c1_i32_258 : BitVec 32 := 1#32
  let arg11 : BitVec 32 := Scf.iv c0_i32_256 c1_i32_258 k0_t2
  let v5024 : Index := Scalar.indexCast arg11
  let c752_2562 : Index := 752#32
  ![0, 4, v5024.toNat, 752]
def k0_off441 (k0_t2 : Fin k0_t2_loop.trips) : Fin 4 → Nat :=
  let c0_i32_2566 : BitVec 32 := 0#32
  let v5034 : Index := Scalar.indexCast c0_i32_2566
  let c5_i32_2567 : BitVec 32 := 5#32
  let v5035 : Index := Scalar.indexCast c5_i32_2567
  let c0_i32_256 : BitVec 32 := 0#32
  let c1_i32_258 : BitVec 32 := 1#32
  let arg11 : BitVec 32 := Scf.iv c0_i32_256 c1_i32_258 k0_t2
  let v5036 : Index := Scalar.indexCast arg11
  let c752_2568 : Index := 752#32
  ![0, 5, v5036.toNat, 752]
def k0_off442 (k0_t2 : Fin k0_t2_loop.trips) : Fin 4 → Nat :=
  let c0_i32_2572 : BitVec 32 := 0#32
  let v5046 : Index := Scalar.indexCast c0_i32_2572
  let c6_i32_2573 : BitVec 32 := 6#32
  let v5047 : Index := Scalar.indexCast c6_i32_2573
  let c0_i32_256 : BitVec 32 := 0#32
  let c1_i32_258 : BitVec 32 := 1#32
  let arg11 : BitVec 32 := Scf.iv c0_i32_256 c1_i32_258 k0_t2
  let v5048 : Index := Scalar.indexCast arg11
  let c752_2574 : Index := 752#32
  ![0, 6, v5048.toNat, 752]
def k0_off443 (k0_t2 : Fin k0_t2_loop.trips) : Fin 4 → Nat :=
  let c0_i32_2578 : BitVec 32 := 0#32
  let v5058 : Index := Scalar.indexCast c0_i32_2578
  let c7_i32_2579 : BitVec 32 := 7#32
  let v5059 : Index := Scalar.indexCast c7_i32_2579
  let c0_i32_256 : BitVec 32 := 0#32
  let c1_i32_258 : BitVec 32 := 1#32
  let arg11 : BitVec 32 := Scf.iv c0_i32_256 c1_i32_258 k0_t2
  let v5060 : Index := Scalar.indexCast arg11
  let c752_2580 : Index := 752#32
  ![0, 7, v5060.toNat, 752]
def k0_off444 (k0_t2 : Fin k0_t2_loop.trips) : Fin 4 → Nat :=
  let c0_i32_2586 : BitVec 32 := 0#32
  let c0_i32_2588 : BitVec 32 := 0#32
  let c0_i32_256 : BitVec 32 := 0#32
  let c1_i32_258 : BitVec 32 := 1#32
  let arg11 : BitVec 32 := Scf.iv c0_i32_256 c1_i32_258 k0_t2
  let c0_i32_2589 : BitVec 32 := 0#32
  ![0, 0, arg11.toNat, 0]
def k0_off445 (i : grid0.Coords) (k0_t1 : Fin k0_t1_loop.trips) (k0_t2 : Fin k0_t2_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c72_i32 : BitVec 32 := 72#32
  let v30 : BitVec 32 := Scalar.muli v28 c72_i32
  let c0_i32_23 : BitVec 32 := 0#32
  let c1_i32_24 : BitVec 32 := 1#32
  let arg10 : BitVec 32 := Scf.iv c0_i32_23 c1_i32_24 k0_t1
  let c8_i32_2584 : BitVec 32 := 8#32
  let v5070 : BitVec 32 := Scalar.muli arg10 c8_i32_2584
  let v5071 : BitVec 32 := Scalar.addi v30 v5070
  let c0_i32_256 : BitVec 32 := 0#32
  let c1_i32_258 : BitVec 32 := 1#32
  let arg11 : BitVec 32 := Scf.iv c0_i32_256 c1_i32_258 k0_t2
  let v5072 : BitVec 32 := Scalar.addi v5071 arg11
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c16_i32 : BitVec 32 := 16#32
  let v29 : BitVec 32 := Scalar.muli v18 c16_i32
  let c0_i32_2585 : BitVec 32 := 0#32
  let v5073 : BitVec 32 := Scalar.addi v29 c0_i32_2585
  let c0_i32_2590 : BitVec 32 := 0#32
  ![v5072.toNat, v5073.toNat, 0]
def k0_cond9 (k0_t1 : Fin k0_t1_loop.trips) : BitVec 1 :=
  let c0_i32_23 : BitVec 32 := 0#32
  let c1_i32_24 : BitVec 32 := 1#32
  let arg10 : BitVec 32 := Scf.iv c0_i32_23 c1_i32_24 k0_t1
  let c1_i32_272 : BitVec 32 := 1#32
  let v313 : BitVec 32 := Scalar.addi arg10 c1_i32_272
  let c9_i32_273 : BitVec 32 := 9#32
  let v314 : BitVec 1 := Scalar.cmpi .slt v313 c9_i32_273
  let v315 : BitVec 32 := Scalar.extui v314
  let c0_i32_274 : BitVec 32 := 0#32
  let v316 : BitVec 1 := Scalar.cmpi .ne v315 c0_i32_274
  v316

def k0_off446 (i : grid0.Coords) (k0_t1 : Fin k0_t1_loop.trips) (c0_i32_281 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c72_i32 : BitVec 32 := 72#32
  let v30 : BitVec 32 := Scalar.muli v28 c72_i32
  let c0_i32_23 : BitVec 32 := 0#32
  let c1_i32_24 : BitVec 32 := 1#32
  let arg10 : BitVec 32 := Scf.iv c0_i32_23 c1_i32_24 k0_t1
  let c8_i32_280 : BitVec 32 := 8#32
  let v318 : BitVec 32 := Scalar.muli arg10 c8_i32_280
  let v319 : BitVec 32 := Scalar.addi v30 v318
  let v320 : BitVec 32 := Scalar.addi v319 c0_i32_281
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c16_i32 : BitVec 32 := 16#32
  let v29 : BitVec 32 := Scalar.muli v18 c16_i32
  let c8_i32_282 : BitVec 32 := 8#32
  let v321 : BitVec 32 := Scalar.addi v29 c8_i32_282
  let c0_i32_288 : BitVec 32 := 0#32
  ![v320.toNat, v321.toNat, 0]
def k0_off447 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c16_i32 : BitVec 32 := 16#32
  let v29 : BitVec 32 := Scalar.muli v18 c16_i32
  let c0_i32_377 : BitVec 32 := 0#32
  let v431 : BitVec 32 := Scalar.addi v29 c0_i32_377
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c72_i32 : BitVec 32 := 72#32
  let v30 : BitVec 32 := Scalar.muli v28 c72_i32
  let c0_i32_23 : BitVec 32 := 0#32
  let c1_i32_24 : BitVec 32 := 1#32
  let arg10 : BitVec 32 := Scf.iv c0_i32_23 c1_i32_24 k0_t1
  let c1_i32_376 : BitVec 32 := 1#32
  let v430 : BitVec 32 := Scalar.addi arg10 c1_i32_376
  let c8_i32_378 : BitVec 32 := 8#32
  let v432 : BitVec 32 := Scalar.muli v430 c8_i32_378
  let v433 : BitVec 32 := Scalar.addi v30 v432
  let c0_i32_384 : BitVec 32 := 0#32
  ![v431.toNat, v433.toNat, 0]
@[reducible] def k0_t3_loop : Scf.Loop 32 :=
  let c0_i32_276 : BitVec 32 := 0#32
  let c8_i32_277 : BitVec 32 := 8#32
  let v317 : BitVec 32 := Scalar.addi c0_i32_276 c8_i32_277
  let c1_i32_278 : BitVec 32 := 1#32
  ⟨c0_i32_276, v317, c1_i32_278⟩
def k0_off448 (k0_t3 : Fin k0_t3_loop.trips) : Fin 2 → Nat :=
  let c0_i32_276 : BitVec 32 := 0#32
  let c1_i32_278 : BitVec 32 := 1#32
  let arg11 : BitVec 32 := Scf.iv c0_i32_276 c1_i32_278 k0_t3
  let v318 : Index := Scalar.indexCast arg11
  let c0 : Index := 0#32
  ![v318.toNat, 0]
def k0_off449 (k0_t3 : Fin k0_t3_loop.trips) : Fin 4 → Nat :=
  let c1_i32_280 : BitVec 32 := 1#32
  let v321 : Index := Scalar.indexCast c1_i32_280
  let c0_i32_281 : BitVec 32 := 0#32
  let v322 : Index := Scalar.indexCast c0_i32_281
  let c0_i32_276 : BitVec 32 := 0#32
  let c1_i32_278 : BitVec 32 := 1#32
  let arg11 : BitVec 32 := Scf.iv c0_i32_276 c1_i32_278 k0_t3
  let v323 : Index := Scalar.indexCast arg11
  let c0_282 : Index := 0#32
  ![1, 0, v323.toNat, 0]
def k0_off450 (k0_t3 : Fin k0_t3_loop.trips) : Fin 4 → Nat :=
  let c1_i32_286 : BitVec 32 := 1#32
  let v333 : Index := Scalar.indexCast c1_i32_286
  let c1_i32_287 : BitVec 32 := 1#32
  let v334 : Index := Scalar.indexCast c1_i32_287
  let c0_i32_276 : BitVec 32 := 0#32
  let c1_i32_278 : BitVec 32 := 1#32
  let arg11 : BitVec 32 := Scf.iv c0_i32_276 c1_i32_278 k0_t3
  let v335 : Index := Scalar.indexCast arg11
  let c0_288 : Index := 0#32
  ![1, 1, v335.toNat, 0]
def k0_off451 (k0_t3 : Fin k0_t3_loop.trips) : Fin 4 → Nat :=
  let c1_i32_292 : BitVec 32 := 1#32
  let v345 : Index := Scalar.indexCast c1_i32_292
  let c2_i32_293 : BitVec 32 := 2#32
  let v346 : Index := Scalar.indexCast c2_i32_293
  let c0_i32_276 : BitVec 32 := 0#32
  let c1_i32_278 : BitVec 32 := 1#32
  let arg11 : BitVec 32 := Scf.iv c0_i32_276 c1_i32_278 k0_t3
  let v347 : Index := Scalar.indexCast arg11
  let c0_294 : Index := 0#32
  ![1, 2, v347.toNat, 0]
def k0_off452 (k0_t3 : Fin k0_t3_loop.trips) : Fin 4 → Nat :=
  let c1_i32_298 : BitVec 32 := 1#32
  let v357 : Index := Scalar.indexCast c1_i32_298
  let c3_i32_299 : BitVec 32 := 3#32
  let v358 : Index := Scalar.indexCast c3_i32_299
  let c0_i32_276 : BitVec 32 := 0#32
  let c1_i32_278 : BitVec 32 := 1#32
  let arg11 : BitVec 32 := Scf.iv c0_i32_276 c1_i32_278 k0_t3
  let v359 : Index := Scalar.indexCast arg11
  let c0_300 : Index := 0#32
  ![1, 3, v359.toNat, 0]
def k0_off453 (k0_t3 : Fin k0_t3_loop.trips) : Fin 4 → Nat :=
  let c1_i32_304 : BitVec 32 := 1#32
  let v369 : Index := Scalar.indexCast c1_i32_304
  let c4_i32_305 : BitVec 32 := 4#32
  let v370 : Index := Scalar.indexCast c4_i32_305
  let c0_i32_276 : BitVec 32 := 0#32
  let c1_i32_278 : BitVec 32 := 1#32
  let arg11 : BitVec 32 := Scf.iv c0_i32_276 c1_i32_278 k0_t3
  let v371 : Index := Scalar.indexCast arg11
  let c0_306 : Index := 0#32
  ![1, 4, v371.toNat, 0]
def k0_off454 (k0_t3 : Fin k0_t3_loop.trips) : Fin 4 → Nat :=
  let c1_i32_310 : BitVec 32 := 1#32
  let v381 : Index := Scalar.indexCast c1_i32_310
  let c5_i32_311 : BitVec 32 := 5#32
  let v382 : Index := Scalar.indexCast c5_i32_311
  let c0_i32_276 : BitVec 32 := 0#32
  let c1_i32_278 : BitVec 32 := 1#32
  let arg11 : BitVec 32 := Scf.iv c0_i32_276 c1_i32_278 k0_t3
  let v383 : Index := Scalar.indexCast arg11
  let c0_312 : Index := 0#32
  ![1, 5, v383.toNat, 0]
def k0_off455 (k0_t3 : Fin k0_t3_loop.trips) : Fin 4 → Nat :=
  let c1_i32_316 : BitVec 32 := 1#32
  let v393 : Index := Scalar.indexCast c1_i32_316
  let c6_i32_317 : BitVec 32 := 6#32
  let v394 : Index := Scalar.indexCast c6_i32_317
  let c0_i32_276 : BitVec 32 := 0#32
  let c1_i32_278 : BitVec 32 := 1#32
  let arg11 : BitVec 32 := Scf.iv c0_i32_276 c1_i32_278 k0_t3
  let v395 : Index := Scalar.indexCast arg11
  let c0_318 : Index := 0#32
  ![1, 6, v395.toNat, 0]
def k0_off456 (k0_t3 : Fin k0_t3_loop.trips) : Fin 4 → Nat :=
  let c1_i32_322 : BitVec 32 := 1#32
  let v405 : Index := Scalar.indexCast c1_i32_322
  let c7_i32_323 : BitVec 32 := 7#32
  let v406 : Index := Scalar.indexCast c7_i32_323
  let c0_i32_276 : BitVec 32 := 0#32
  let c1_i32_278 : BitVec 32 := 1#32
  let arg11 : BitVec 32 := Scf.iv c0_i32_276 c1_i32_278 k0_t3
  let v407 : Index := Scalar.indexCast arg11
  let c0_324 : Index := 0#32
  ![1, 7, v407.toNat, 0]
def k0_off457 (k0_t3 : Fin k0_t3_loop.trips) : Fin 2 → Nat :=
  let c0_i32_276 : BitVec 32 := 0#32
  let c1_i32_278 : BitVec 32 := 1#32
  let arg11 : BitVec 32 := Scf.iv c0_i32_276 c1_i32_278 k0_t3
  let v417 : Index := Scalar.indexCast arg11
  let c16 : Index := 16#32
  ![v417.toNat, 16]
def k0_off458 (k0_t3 : Fin k0_t3_loop.trips) : Fin 4 → Nat :=
  let c1_i32_328 : BitVec 32 := 1#32
  let v420 : Index := Scalar.indexCast c1_i32_328
  let c0_i32_329 : BitVec 32 := 0#32
  let v421 : Index := Scalar.indexCast c0_i32_329
  let c0_i32_276 : BitVec 32 := 0#32
  let c1_i32_278 : BitVec 32 := 1#32
  let arg11 : BitVec 32 := Scf.iv c0_i32_276 c1_i32_278 k0_t3
  let v422 : Index := Scalar.indexCast arg11
  let c16_330 : Index := 16#32
  ![1, 0, v422.toNat, 16]
def k0_off459 (k0_t3 : Fin k0_t3_loop.trips) : Fin 4 → Nat :=
  let c1_i32_334 : BitVec 32 := 1#32
  let v432 : Index := Scalar.indexCast c1_i32_334
  let c1_i32_335 : BitVec 32 := 1#32
  let v433 : Index := Scalar.indexCast c1_i32_335
  let c0_i32_276 : BitVec 32 := 0#32
  let c1_i32_278 : BitVec 32 := 1#32
  let arg11 : BitVec 32 := Scf.iv c0_i32_276 c1_i32_278 k0_t3
  let v434 : Index := Scalar.indexCast arg11
  let c16_336 : Index := 16#32
  ![1, 1, v434.toNat, 16]
def k0_off460 (k0_t3 : Fin k0_t3_loop.trips) : Fin 4 → Nat :=
  let c1_i32_340 : BitVec 32 := 1#32
  let v444 : Index := Scalar.indexCast c1_i32_340
  let c2_i32_341 : BitVec 32 := 2#32
  let v445 : Index := Scalar.indexCast c2_i32_341
  let c0_i32_276 : BitVec 32 := 0#32
  let c1_i32_278 : BitVec 32 := 1#32
  let arg11 : BitVec 32 := Scf.iv c0_i32_276 c1_i32_278 k0_t3
  let v446 : Index := Scalar.indexCast arg11
  let c16_342 : Index := 16#32
  ![1, 2, v446.toNat, 16]
def k0_off461 (k0_t3 : Fin k0_t3_loop.trips) : Fin 4 → Nat :=
  let c1_i32_346 : BitVec 32 := 1#32
  let v456 : Index := Scalar.indexCast c1_i32_346
  let c3_i32_347 : BitVec 32 := 3#32
  let v457 : Index := Scalar.indexCast c3_i32_347
  let c0_i32_276 : BitVec 32 := 0#32
  let c1_i32_278 : BitVec 32 := 1#32
  let arg11 : BitVec 32 := Scf.iv c0_i32_276 c1_i32_278 k0_t3
  let v458 : Index := Scalar.indexCast arg11
  let c16_348 : Index := 16#32
  ![1, 3, v458.toNat, 16]
def k0_off462 (k0_t3 : Fin k0_t3_loop.trips) : Fin 4 → Nat :=
  let c1_i32_352 : BitVec 32 := 1#32
  let v468 : Index := Scalar.indexCast c1_i32_352
  let c4_i32_353 : BitVec 32 := 4#32
  let v469 : Index := Scalar.indexCast c4_i32_353
  let c0_i32_276 : BitVec 32 := 0#32
  let c1_i32_278 : BitVec 32 := 1#32
  let arg11 : BitVec 32 := Scf.iv c0_i32_276 c1_i32_278 k0_t3
  let v470 : Index := Scalar.indexCast arg11
  let c16_354 : Index := 16#32
  ![1, 4, v470.toNat, 16]
def k0_off463 (k0_t3 : Fin k0_t3_loop.trips) : Fin 4 → Nat :=
  let c1_i32_358 : BitVec 32 := 1#32
  let v480 : Index := Scalar.indexCast c1_i32_358
  let c5_i32_359 : BitVec 32 := 5#32
  let v481 : Index := Scalar.indexCast c5_i32_359
  let c0_i32_276 : BitVec 32 := 0#32
  let c1_i32_278 : BitVec 32 := 1#32
  let arg11 : BitVec 32 := Scf.iv c0_i32_276 c1_i32_278 k0_t3
  let v482 : Index := Scalar.indexCast arg11
  let c16_360 : Index := 16#32
  ![1, 5, v482.toNat, 16]
def k0_off464 (k0_t3 : Fin k0_t3_loop.trips) : Fin 4 → Nat :=
  let c1_i32_364 : BitVec 32 := 1#32
  let v492 : Index := Scalar.indexCast c1_i32_364
  let c6_i32_365 : BitVec 32 := 6#32
  let v493 : Index := Scalar.indexCast c6_i32_365
  let c0_i32_276 : BitVec 32 := 0#32
  let c1_i32_278 : BitVec 32 := 1#32
  let arg11 : BitVec 32 := Scf.iv c0_i32_276 c1_i32_278 k0_t3
  let v494 : Index := Scalar.indexCast arg11
  let c16_366 : Index := 16#32
  ![1, 6, v494.toNat, 16]
def k0_off465 (k0_t3 : Fin k0_t3_loop.trips) : Fin 4 → Nat :=
  let c1_i32_370 : BitVec 32 := 1#32
  let v504 : Index := Scalar.indexCast c1_i32_370
  let c7_i32_371 : BitVec 32 := 7#32
  let v505 : Index := Scalar.indexCast c7_i32_371
  let c0_i32_276 : BitVec 32 := 0#32
  let c1_i32_278 : BitVec 32 := 1#32
  let arg11 : BitVec 32 := Scf.iv c0_i32_276 c1_i32_278 k0_t3
  let v506 : Index := Scalar.indexCast arg11
  let c16_372 : Index := 16#32
  ![1, 7, v506.toNat, 16]
def k0_off466 (k0_t3 : Fin k0_t3_loop.trips) : Fin 2 → Nat :=
  let c0_i32_276 : BitVec 32 := 0#32
  let c1_i32_278 : BitVec 32 := 1#32
  let arg11 : BitVec 32 := Scf.iv c0_i32_276 c1_i32_278 k0_t3
  let v516 : Index := Scalar.indexCast arg11
  let c32 : Index := 32#32
  ![v516.toNat, 32]
def k0_off467 (k0_t3 : Fin k0_t3_loop.trips) : Fin 4 → Nat :=
  let c1_i32_376 : BitVec 32 := 1#32
  let v519 : Index := Scalar.indexCast c1_i32_376
  let c0_i32_377 : BitVec 32 := 0#32
  let v520 : Index := Scalar.indexCast c0_i32_377
  let c0_i32_276 : BitVec 32 := 0#32
  let c1_i32_278 : BitVec 32 := 1#32
  let arg11 : BitVec 32 := Scf.iv c0_i32_276 c1_i32_278 k0_t3
  let v521 : Index := Scalar.indexCast arg11
  let c32_378 : Index := 32#32
  ![1, 0, v521.toNat, 32]
def k0_off468 (k0_t3 : Fin k0_t3_loop.trips) : Fin 4 → Nat :=
  let c1_i32_382 : BitVec 32 := 1#32
  let v531 : Index := Scalar.indexCast c1_i32_382
  let c1_i32_383 : BitVec 32 := 1#32
  let v532 : Index := Scalar.indexCast c1_i32_383
  let c0_i32_276 : BitVec 32 := 0#32
  let c1_i32_278 : BitVec 32 := 1#32
  let arg11 : BitVec 32 := Scf.iv c0_i32_276 c1_i32_278 k0_t3
  let v533 : Index := Scalar.indexCast arg11
  let c32_384 : Index := 32#32
  ![1, 1, v533.toNat, 32]
def k0_off469 (k0_t3 : Fin k0_t3_loop.trips) : Fin 4 → Nat :=
  let c1_i32_388 : BitVec 32 := 1#32
  let v543 : Index := Scalar.indexCast c1_i32_388
  let c2_i32_389 : BitVec 32 := 2#32
  let v544 : Index := Scalar.indexCast c2_i32_389
  let c0_i32_276 : BitVec 32 := 0#32
  let c1_i32_278 : BitVec 32 := 1#32
  let arg11 : BitVec 32 := Scf.iv c0_i32_276 c1_i32_278 k0_t3
  let v545 : Index := Scalar.indexCast arg11
  let c32_390 : Index := 32#32
  ![1, 2, v545.toNat, 32]
def k0_off470 (k0_t3 : Fin k0_t3_loop.trips) : Fin 4 → Nat :=
  let c1_i32_394 : BitVec 32 := 1#32
  let v555 : Index := Scalar.indexCast c1_i32_394
  let c3_i32_395 : BitVec 32 := 3#32
  let v556 : Index := Scalar.indexCast c3_i32_395
  let c0_i32_276 : BitVec 32 := 0#32
  let c1_i32_278 : BitVec 32 := 1#32
  let arg11 : BitVec 32 := Scf.iv c0_i32_276 c1_i32_278 k0_t3
  let v557 : Index := Scalar.indexCast arg11
  let c32_396 : Index := 32#32
  ![1, 3, v557.toNat, 32]
def k0_off471 (k0_t3 : Fin k0_t3_loop.trips) : Fin 4 → Nat :=
  let c1_i32_400 : BitVec 32 := 1#32
  let v567 : Index := Scalar.indexCast c1_i32_400
  let c4_i32_401 : BitVec 32 := 4#32
  let v568 : Index := Scalar.indexCast c4_i32_401
  let c0_i32_276 : BitVec 32 := 0#32
  let c1_i32_278 : BitVec 32 := 1#32
  let arg11 : BitVec 32 := Scf.iv c0_i32_276 c1_i32_278 k0_t3
  let v569 : Index := Scalar.indexCast arg11
  let c32_402 : Index := 32#32
  ![1, 4, v569.toNat, 32]
def k0_off472 (k0_t3 : Fin k0_t3_loop.trips) : Fin 4 → Nat :=
  let c1_i32_406 : BitVec 32 := 1#32
  let v579 : Index := Scalar.indexCast c1_i32_406
  let c5_i32_407 : BitVec 32 := 5#32
  let v580 : Index := Scalar.indexCast c5_i32_407
  let c0_i32_276 : BitVec 32 := 0#32
  let c1_i32_278 : BitVec 32 := 1#32
  let arg11 : BitVec 32 := Scf.iv c0_i32_276 c1_i32_278 k0_t3
  let v581 : Index := Scalar.indexCast arg11
  let c32_408 : Index := 32#32
  ![1, 5, v581.toNat, 32]
def k0_off473 (k0_t3 : Fin k0_t3_loop.trips) : Fin 4 → Nat :=
  let c1_i32_412 : BitVec 32 := 1#32
  let v591 : Index := Scalar.indexCast c1_i32_412
  let c6_i32_413 : BitVec 32 := 6#32
  let v592 : Index := Scalar.indexCast c6_i32_413
  let c0_i32_276 : BitVec 32 := 0#32
  let c1_i32_278 : BitVec 32 := 1#32
  let arg11 : BitVec 32 := Scf.iv c0_i32_276 c1_i32_278 k0_t3
  let v593 : Index := Scalar.indexCast arg11
  let c32_414 : Index := 32#32
  ![1, 6, v593.toNat, 32]
def k0_off474 (k0_t3 : Fin k0_t3_loop.trips) : Fin 4 → Nat :=
  let c1_i32_418 : BitVec 32 := 1#32
  let v603 : Index := Scalar.indexCast c1_i32_418
  let c7_i32_419 : BitVec 32 := 7#32
  let v604 : Index := Scalar.indexCast c7_i32_419
  let c0_i32_276 : BitVec 32 := 0#32
  let c1_i32_278 : BitVec 32 := 1#32
  let arg11 : BitVec 32 := Scf.iv c0_i32_276 c1_i32_278 k0_t3
  let v605 : Index := Scalar.indexCast arg11
  let c32_420 : Index := 32#32
  ![1, 7, v605.toNat, 32]
def k0_off475 (k0_t3 : Fin k0_t3_loop.trips) : Fin 2 → Nat :=
  let c0_i32_276 : BitVec 32 := 0#32
  let c1_i32_278 : BitVec 32 := 1#32
  let arg11 : BitVec 32 := Scf.iv c0_i32_276 c1_i32_278 k0_t3
  let v615 : Index := Scalar.indexCast arg11
  let c48 : Index := 48#32
  ![v615.toNat, 48]
def k0_off476 (k0_t3 : Fin k0_t3_loop.trips) : Fin 4 → Nat :=
  let c1_i32_424 : BitVec 32 := 1#32
  let v618 : Index := Scalar.indexCast c1_i32_424
  let c0_i32_425 : BitVec 32 := 0#32
  let v619 : Index := Scalar.indexCast c0_i32_425
  let c0_i32_276 : BitVec 32 := 0#32
  let c1_i32_278 : BitVec 32 := 1#32
  let arg11 : BitVec 32 := Scf.iv c0_i32_276 c1_i32_278 k0_t3
  let v620 : Index := Scalar.indexCast arg11
  let c48_426 : Index := 48#32
  ![1, 0, v620.toNat, 48]
def k0_off477 (k0_t3 : Fin k0_t3_loop.trips) : Fin 4 → Nat :=
  let c1_i32_430 : BitVec 32 := 1#32
  let v630 : Index := Scalar.indexCast c1_i32_430
  let c1_i32_431 : BitVec 32 := 1#32
  let v631 : Index := Scalar.indexCast c1_i32_431
  let c0_i32_276 : BitVec 32 := 0#32
  let c1_i32_278 : BitVec 32 := 1#32
  let arg11 : BitVec 32 := Scf.iv c0_i32_276 c1_i32_278 k0_t3
  let v632 : Index := Scalar.indexCast arg11
  let c48_432 : Index := 48#32
  ![1, 1, v632.toNat, 48]
def k0_off478 (k0_t3 : Fin k0_t3_loop.trips) : Fin 4 → Nat :=
  let c1_i32_436 : BitVec 32 := 1#32
  let v642 : Index := Scalar.indexCast c1_i32_436
  let c2_i32_437 : BitVec 32 := 2#32
  let v643 : Index := Scalar.indexCast c2_i32_437
  let c0_i32_276 : BitVec 32 := 0#32
  let c1_i32_278 : BitVec 32 := 1#32
  let arg11 : BitVec 32 := Scf.iv c0_i32_276 c1_i32_278 k0_t3
  let v644 : Index := Scalar.indexCast arg11
  let c48_438 : Index := 48#32
  ![1, 2, v644.toNat, 48]
def k0_off479 (k0_t3 : Fin k0_t3_loop.trips) : Fin 4 → Nat :=
  let c1_i32_442 : BitVec 32 := 1#32
  let v654 : Index := Scalar.indexCast c1_i32_442
  let c3_i32_443 : BitVec 32 := 3#32
  let v655 : Index := Scalar.indexCast c3_i32_443
  let c0_i32_276 : BitVec 32 := 0#32
  let c1_i32_278 : BitVec 32 := 1#32
  let arg11 : BitVec 32 := Scf.iv c0_i32_276 c1_i32_278 k0_t3
  let v656 : Index := Scalar.indexCast arg11
  let c48_444 : Index := 48#32
  ![1, 3, v656.toNat, 48]
def k0_off480 (k0_t3 : Fin k0_t3_loop.trips) : Fin 4 → Nat :=
  let c1_i32_448 : BitVec 32 := 1#32
  let v666 : Index := Scalar.indexCast c1_i32_448
  let c4_i32_449 : BitVec 32 := 4#32
  let v667 : Index := Scalar.indexCast c4_i32_449
  let c0_i32_276 : BitVec 32 := 0#32
  let c1_i32_278 : BitVec 32 := 1#32
  let arg11 : BitVec 32 := Scf.iv c0_i32_276 c1_i32_278 k0_t3
  let v668 : Index := Scalar.indexCast arg11
  let c48_450 : Index := 48#32
  ![1, 4, v668.toNat, 48]
def k0_off481 (k0_t3 : Fin k0_t3_loop.trips) : Fin 4 → Nat :=
  let c1_i32_454 : BitVec 32 := 1#32
  let v678 : Index := Scalar.indexCast c1_i32_454
  let c5_i32_455 : BitVec 32 := 5#32
  let v679 : Index := Scalar.indexCast c5_i32_455
  let c0_i32_276 : BitVec 32 := 0#32
  let c1_i32_278 : BitVec 32 := 1#32
  let arg11 : BitVec 32 := Scf.iv c0_i32_276 c1_i32_278 k0_t3
  let v680 : Index := Scalar.indexCast arg11
  let c48_456 : Index := 48#32
  ![1, 5, v680.toNat, 48]
def k0_off482 (k0_t3 : Fin k0_t3_loop.trips) : Fin 4 → Nat :=
  let c1_i32_460 : BitVec 32 := 1#32
  let v690 : Index := Scalar.indexCast c1_i32_460
  let c6_i32_461 : BitVec 32 := 6#32
  let v691 : Index := Scalar.indexCast c6_i32_461
  let c0_i32_276 : BitVec 32 := 0#32
  let c1_i32_278 : BitVec 32 := 1#32
  let arg11 : BitVec 32 := Scf.iv c0_i32_276 c1_i32_278 k0_t3
  let v692 : Index := Scalar.indexCast arg11
  let c48_462 : Index := 48#32
  ![1, 6, v692.toNat, 48]
def k0_off483 (k0_t3 : Fin k0_t3_loop.trips) : Fin 4 → Nat :=
  let c1_i32_466 : BitVec 32 := 1#32
  let v702 : Index := Scalar.indexCast c1_i32_466
  let c7_i32_467 : BitVec 32 := 7#32
  let v703 : Index := Scalar.indexCast c7_i32_467
  let c0_i32_276 : BitVec 32 := 0#32
  let c1_i32_278 : BitVec 32 := 1#32
  let arg11 : BitVec 32 := Scf.iv c0_i32_276 c1_i32_278 k0_t3
  let v704 : Index := Scalar.indexCast arg11
  let c48_468 : Index := 48#32
  ![1, 7, v704.toNat, 48]
def k0_off484 (k0_t3 : Fin k0_t3_loop.trips) : Fin 2 → Nat :=
  let c0_i32_276 : BitVec 32 := 0#32
  let c1_i32_278 : BitVec 32 := 1#32
  let arg11 : BitVec 32 := Scf.iv c0_i32_276 c1_i32_278 k0_t3
  let v714 : Index := Scalar.indexCast arg11
  let c64 : Index := 64#32
  ![v714.toNat, 64]
def k0_off485 (k0_t3 : Fin k0_t3_loop.trips) : Fin 4 → Nat :=
  let c1_i32_472 : BitVec 32 := 1#32
  let v717 : Index := Scalar.indexCast c1_i32_472
  let c0_i32_473 : BitVec 32 := 0#32
  let v718 : Index := Scalar.indexCast c0_i32_473
  let c0_i32_276 : BitVec 32 := 0#32
  let c1_i32_278 : BitVec 32 := 1#32
  let arg11 : BitVec 32 := Scf.iv c0_i32_276 c1_i32_278 k0_t3
  let v719 : Index := Scalar.indexCast arg11
  let c64_474 : Index := 64#32
  ![1, 0, v719.toNat, 64]
def k0_off486 (k0_t3 : Fin k0_t3_loop.trips) : Fin 4 → Nat :=
  let c1_i32_478 : BitVec 32 := 1#32
  let v729 : Index := Scalar.indexCast c1_i32_478
  let c1_i32_479 : BitVec 32 := 1#32
  let v730 : Index := Scalar.indexCast c1_i32_479
  let c0_i32_276 : BitVec 32 := 0#32
  let c1_i32_278 : BitVec 32 := 1#32
  let arg11 : BitVec 32 := Scf.iv c0_i32_276 c1_i32_278 k0_t3
  let v731 : Index := Scalar.indexCast arg11
  let c64_480 : Index := 64#32
  ![1, 1, v731.toNat, 64]
def k0_off487 (k0_t3 : Fin k0_t3_loop.trips) : Fin 4 → Nat :=
  let c1_i32_484 : BitVec 32 := 1#32
  let v741 : Index := Scalar.indexCast c1_i32_484
  let c2_i32_485 : BitVec 32 := 2#32
  let v742 : Index := Scalar.indexCast c2_i32_485
  let c0_i32_276 : BitVec 32 := 0#32
  let c1_i32_278 : BitVec 32 := 1#32
  let arg11 : BitVec 32 := Scf.iv c0_i32_276 c1_i32_278 k0_t3
  let v743 : Index := Scalar.indexCast arg11
  let c64_486 : Index := 64#32
  ![1, 2, v743.toNat, 64]
def k0_off488 (k0_t3 : Fin k0_t3_loop.trips) : Fin 4 → Nat :=
  let c1_i32_490 : BitVec 32 := 1#32
  let v753 : Index := Scalar.indexCast c1_i32_490
  let c3_i32_491 : BitVec 32 := 3#32
  let v754 : Index := Scalar.indexCast c3_i32_491
  let c0_i32_276 : BitVec 32 := 0#32
  let c1_i32_278 : BitVec 32 := 1#32
  let arg11 : BitVec 32 := Scf.iv c0_i32_276 c1_i32_278 k0_t3
  let v755 : Index := Scalar.indexCast arg11
  let c64_492 : Index := 64#32
  ![1, 3, v755.toNat, 64]
def k0_off489 (k0_t3 : Fin k0_t3_loop.trips) : Fin 4 → Nat :=
  let c1_i32_496 : BitVec 32 := 1#32
  let v765 : Index := Scalar.indexCast c1_i32_496
  let c4_i32_497 : BitVec 32 := 4#32
  let v766 : Index := Scalar.indexCast c4_i32_497
  let c0_i32_276 : BitVec 32 := 0#32
  let c1_i32_278 : BitVec 32 := 1#32
  let arg11 : BitVec 32 := Scf.iv c0_i32_276 c1_i32_278 k0_t3
  let v767 : Index := Scalar.indexCast arg11
  let c64_498 : Index := 64#32
  ![1, 4, v767.toNat, 64]
def k0_off490 (k0_t3 : Fin k0_t3_loop.trips) : Fin 4 → Nat :=
  let c1_i32_502 : BitVec 32 := 1#32
  let v777 : Index := Scalar.indexCast c1_i32_502
  let c5_i32_503 : BitVec 32 := 5#32
  let v778 : Index := Scalar.indexCast c5_i32_503
  let c0_i32_276 : BitVec 32 := 0#32
  let c1_i32_278 : BitVec 32 := 1#32
  let arg11 : BitVec 32 := Scf.iv c0_i32_276 c1_i32_278 k0_t3
  let v779 : Index := Scalar.indexCast arg11
  let c64_504 : Index := 64#32
  ![1, 5, v779.toNat, 64]
def k0_off491 (k0_t3 : Fin k0_t3_loop.trips) : Fin 4 → Nat :=
  let c1_i32_508 : BitVec 32 := 1#32
  let v789 : Index := Scalar.indexCast c1_i32_508
  let c6_i32_509 : BitVec 32 := 6#32
  let v790 : Index := Scalar.indexCast c6_i32_509
  let c0_i32_276 : BitVec 32 := 0#32
  let c1_i32_278 : BitVec 32 := 1#32
  let arg11 : BitVec 32 := Scf.iv c0_i32_276 c1_i32_278 k0_t3
  let v791 : Index := Scalar.indexCast arg11
  let c64_510 : Index := 64#32
  ![1, 6, v791.toNat, 64]
def k0_off492 (k0_t3 : Fin k0_t3_loop.trips) : Fin 4 → Nat :=
  let c1_i32_514 : BitVec 32 := 1#32
  let v801 : Index := Scalar.indexCast c1_i32_514
  let c7_i32_515 : BitVec 32 := 7#32
  let v802 : Index := Scalar.indexCast c7_i32_515
  let c0_i32_276 : BitVec 32 := 0#32
  let c1_i32_278 : BitVec 32 := 1#32
  let arg11 : BitVec 32 := Scf.iv c0_i32_276 c1_i32_278 k0_t3
  let v803 : Index := Scalar.indexCast arg11
  let c64_516 : Index := 64#32
  ![1, 7, v803.toNat, 64]
def k0_off493 (k0_t3 : Fin k0_t3_loop.trips) : Fin 2 → Nat :=
  let c0_i32_276 : BitVec 32 := 0#32
  let c1_i32_278 : BitVec 32 := 1#32
  let arg11 : BitVec 32 := Scf.iv c0_i32_276 c1_i32_278 k0_t3
  let v813 : Index := Scalar.indexCast arg11
  let c80 : Index := 80#32
  ![v813.toNat, 80]
def k0_off494 (k0_t3 : Fin k0_t3_loop.trips) : Fin 4 → Nat :=
  let c1_i32_520 : BitVec 32 := 1#32
  let v816 : Index := Scalar.indexCast c1_i32_520
  let c0_i32_521 : BitVec 32 := 0#32
  let v817 : Index := Scalar.indexCast c0_i32_521
  let c0_i32_276 : BitVec 32 := 0#32
  let c1_i32_278 : BitVec 32 := 1#32
  let arg11 : BitVec 32 := Scf.iv c0_i32_276 c1_i32_278 k0_t3
  let v818 : Index := Scalar.indexCast arg11
  let c80_522 : Index := 80#32
  ![1, 0, v818.toNat, 80]
def k0_off495 (k0_t3 : Fin k0_t3_loop.trips) : Fin 4 → Nat :=
  let c1_i32_526 : BitVec 32 := 1#32
  let v828 : Index := Scalar.indexCast c1_i32_526
  let c1_i32_527 : BitVec 32 := 1#32
  let v829 : Index := Scalar.indexCast c1_i32_527
  let c0_i32_276 : BitVec 32 := 0#32
  let c1_i32_278 : BitVec 32 := 1#32
  let arg11 : BitVec 32 := Scf.iv c0_i32_276 c1_i32_278 k0_t3
  let v830 : Index := Scalar.indexCast arg11
  let c80_528 : Index := 80#32
  ![1, 1, v830.toNat, 80]
def k0_off496 (k0_t3 : Fin k0_t3_loop.trips) : Fin 4 → Nat :=
  let c1_i32_532 : BitVec 32 := 1#32
  let v840 : Index := Scalar.indexCast c1_i32_532
  let c2_i32_533 : BitVec 32 := 2#32
  let v841 : Index := Scalar.indexCast c2_i32_533
  let c0_i32_276 : BitVec 32 := 0#32
  let c1_i32_278 : BitVec 32 := 1#32
  let arg11 : BitVec 32 := Scf.iv c0_i32_276 c1_i32_278 k0_t3
  let v842 : Index := Scalar.indexCast arg11
  let c80_534 : Index := 80#32
  ![1, 2, v842.toNat, 80]
def k0_off497 (k0_t3 : Fin k0_t3_loop.trips) : Fin 4 → Nat :=
  let c1_i32_538 : BitVec 32 := 1#32
  let v852 : Index := Scalar.indexCast c1_i32_538
  let c3_i32_539 : BitVec 32 := 3#32
  let v853 : Index := Scalar.indexCast c3_i32_539
  let c0_i32_276 : BitVec 32 := 0#32
  let c1_i32_278 : BitVec 32 := 1#32
  let arg11 : BitVec 32 := Scf.iv c0_i32_276 c1_i32_278 k0_t3
  let v854 : Index := Scalar.indexCast arg11
  let c80_540 : Index := 80#32
  ![1, 3, v854.toNat, 80]
def k0_off498 (k0_t3 : Fin k0_t3_loop.trips) : Fin 4 → Nat :=
  let c1_i32_544 : BitVec 32 := 1#32
  let v864 : Index := Scalar.indexCast c1_i32_544
  let c4_i32_545 : BitVec 32 := 4#32
  let v865 : Index := Scalar.indexCast c4_i32_545
  let c0_i32_276 : BitVec 32 := 0#32
  let c1_i32_278 : BitVec 32 := 1#32
  let arg11 : BitVec 32 := Scf.iv c0_i32_276 c1_i32_278 k0_t3
  let v866 : Index := Scalar.indexCast arg11
  let c80_546 : Index := 80#32
  ![1, 4, v866.toNat, 80]
def k0_off499 (k0_t3 : Fin k0_t3_loop.trips) : Fin 4 → Nat :=
  let c1_i32_550 : BitVec 32 := 1#32
  let v876 : Index := Scalar.indexCast c1_i32_550
  let c5_i32_551 : BitVec 32 := 5#32
  let v877 : Index := Scalar.indexCast c5_i32_551
  let c0_i32_276 : BitVec 32 := 0#32
  let c1_i32_278 : BitVec 32 := 1#32
  let arg11 : BitVec 32 := Scf.iv c0_i32_276 c1_i32_278 k0_t3
  let v878 : Index := Scalar.indexCast arg11
  let c80_552 : Index := 80#32
  ![1, 5, v878.toNat, 80]
def k0_off500 (k0_t3 : Fin k0_t3_loop.trips) : Fin 4 → Nat :=
  let c1_i32_556 : BitVec 32 := 1#32
  let v888 : Index := Scalar.indexCast c1_i32_556
  let c6_i32_557 : BitVec 32 := 6#32
  let v889 : Index := Scalar.indexCast c6_i32_557
  let c0_i32_276 : BitVec 32 := 0#32
  let c1_i32_278 : BitVec 32 := 1#32
  let arg11 : BitVec 32 := Scf.iv c0_i32_276 c1_i32_278 k0_t3
  let v890 : Index := Scalar.indexCast arg11
  let c80_558 : Index := 80#32
  ![1, 6, v890.toNat, 80]
def k0_off501 (k0_t3 : Fin k0_t3_loop.trips) : Fin 4 → Nat :=
  let c1_i32_562 : BitVec 32 := 1#32
  let v900 : Index := Scalar.indexCast c1_i32_562
  let c7_i32_563 : BitVec 32 := 7#32
  let v901 : Index := Scalar.indexCast c7_i32_563
  let c0_i32_276 : BitVec 32 := 0#32
  let c1_i32_278 : BitVec 32 := 1#32
  let arg11 : BitVec 32 := Scf.iv c0_i32_276 c1_i32_278 k0_t3
  let v902 : Index := Scalar.indexCast arg11
  let c80_564 : Index := 80#32
  ![1, 7, v902.toNat, 80]
def k0_off502 (k0_t3 : Fin k0_t3_loop.trips) : Fin 2 → Nat :=
  let c0_i32_276 : BitVec 32 := 0#32
  let c1_i32_278 : BitVec 32 := 1#32
  let arg11 : BitVec 32 := Scf.iv c0_i32_276 c1_i32_278 k0_t3
  let v912 : Index := Scalar.indexCast arg11
  let c96 : Index := 96#32
  ![v912.toNat, 96]
def k0_off503 (k0_t3 : Fin k0_t3_loop.trips) : Fin 4 → Nat :=
  let c1_i32_568 : BitVec 32 := 1#32
  let v915 : Index := Scalar.indexCast c1_i32_568
  let c0_i32_569 : BitVec 32 := 0#32
  let v916 : Index := Scalar.indexCast c0_i32_569
  let c0_i32_276 : BitVec 32 := 0#32
  let c1_i32_278 : BitVec 32 := 1#32
  let arg11 : BitVec 32 := Scf.iv c0_i32_276 c1_i32_278 k0_t3
  let v917 : Index := Scalar.indexCast arg11
  let c96_570 : Index := 96#32
  ![1, 0, v917.toNat, 96]
def k0_off504 (k0_t3 : Fin k0_t3_loop.trips) : Fin 4 → Nat :=
  let c1_i32_574 : BitVec 32 := 1#32
  let v927 : Index := Scalar.indexCast c1_i32_574
  let c1_i32_575 : BitVec 32 := 1#32
  let v928 : Index := Scalar.indexCast c1_i32_575
  let c0_i32_276 : BitVec 32 := 0#32
  let c1_i32_278 : BitVec 32 := 1#32
  let arg11 : BitVec 32 := Scf.iv c0_i32_276 c1_i32_278 k0_t3
  let v929 : Index := Scalar.indexCast arg11
  let c96_576 : Index := 96#32
  ![1, 1, v929.toNat, 96]
def k0_off505 (k0_t3 : Fin k0_t3_loop.trips) : Fin 4 → Nat :=
  let c1_i32_580 : BitVec 32 := 1#32
  let v939 : Index := Scalar.indexCast c1_i32_580
  let c2_i32_581 : BitVec 32 := 2#32
  let v940 : Index := Scalar.indexCast c2_i32_581
  let c0_i32_276 : BitVec 32 := 0#32
  let c1_i32_278 : BitVec 32 := 1#32
  let arg11 : BitVec 32 := Scf.iv c0_i32_276 c1_i32_278 k0_t3
  let v941 : Index := Scalar.indexCast arg11
  let c96_582 : Index := 96#32
  ![1, 2, v941.toNat, 96]
def k0_off506 (k0_t3 : Fin k0_t3_loop.trips) : Fin 4 → Nat :=
  let c1_i32_586 : BitVec 32 := 1#32
  let v951 : Index := Scalar.indexCast c1_i32_586
  let c3_i32_587 : BitVec 32 := 3#32
  let v952 : Index := Scalar.indexCast c3_i32_587
  let c0_i32_276 : BitVec 32 := 0#32
  let c1_i32_278 : BitVec 32 := 1#32
  let arg11 : BitVec 32 := Scf.iv c0_i32_276 c1_i32_278 k0_t3
  let v953 : Index := Scalar.indexCast arg11
  let c96_588 : Index := 96#32
  ![1, 3, v953.toNat, 96]
def k0_off507 (k0_t3 : Fin k0_t3_loop.trips) : Fin 4 → Nat :=
  let c1_i32_592 : BitVec 32 := 1#32
  let v963 : Index := Scalar.indexCast c1_i32_592
  let c4_i32_593 : BitVec 32 := 4#32
  let v964 : Index := Scalar.indexCast c4_i32_593
  let c0_i32_276 : BitVec 32 := 0#32
  let c1_i32_278 : BitVec 32 := 1#32
  let arg11 : BitVec 32 := Scf.iv c0_i32_276 c1_i32_278 k0_t3
  let v965 : Index := Scalar.indexCast arg11
  let c96_594 : Index := 96#32
  ![1, 4, v965.toNat, 96]
def k0_off508 (k0_t3 : Fin k0_t3_loop.trips) : Fin 4 → Nat :=
  let c1_i32_598 : BitVec 32 := 1#32
  let v975 : Index := Scalar.indexCast c1_i32_598
  let c5_i32_599 : BitVec 32 := 5#32
  let v976 : Index := Scalar.indexCast c5_i32_599
  let c0_i32_276 : BitVec 32 := 0#32
  let c1_i32_278 : BitVec 32 := 1#32
  let arg11 : BitVec 32 := Scf.iv c0_i32_276 c1_i32_278 k0_t3
  let v977 : Index := Scalar.indexCast arg11
  let c96_600 : Index := 96#32
  ![1, 5, v977.toNat, 96]
def k0_off509 (k0_t3 : Fin k0_t3_loop.trips) : Fin 4 → Nat :=
  let c1_i32_604 : BitVec 32 := 1#32
  let v987 : Index := Scalar.indexCast c1_i32_604
  let c6_i32_605 : BitVec 32 := 6#32
  let v988 : Index := Scalar.indexCast c6_i32_605
  let c0_i32_276 : BitVec 32 := 0#32
  let c1_i32_278 : BitVec 32 := 1#32
  let arg11 : BitVec 32 := Scf.iv c0_i32_276 c1_i32_278 k0_t3
  let v989 : Index := Scalar.indexCast arg11
  let c96_606 : Index := 96#32
  ![1, 6, v989.toNat, 96]
def k0_off510 (k0_t3 : Fin k0_t3_loop.trips) : Fin 4 → Nat :=
  let c1_i32_610 : BitVec 32 := 1#32
  let v999 : Index := Scalar.indexCast c1_i32_610
  let c7_i32_611 : BitVec 32 := 7#32
  let v1000 : Index := Scalar.indexCast c7_i32_611
  let c0_i32_276 : BitVec 32 := 0#32
  let c1_i32_278 : BitVec 32 := 1#32
  let arg11 : BitVec 32 := Scf.iv c0_i32_276 c1_i32_278 k0_t3
  let v1001 : Index := Scalar.indexCast arg11
  let c96_612 : Index := 96#32
  ![1, 7, v1001.toNat, 96]
def k0_off511 (k0_t3 : Fin k0_t3_loop.trips) : Fin 2 → Nat :=
  let c0_i32_276 : BitVec 32 := 0#32
  let c1_i32_278 : BitVec 32 := 1#32
  let arg11 : BitVec 32 := Scf.iv c0_i32_276 c1_i32_278 k0_t3
  let v1011 : Index := Scalar.indexCast arg11
  let c112 : Index := 112#32
  ![v1011.toNat, 112]
def k0_off512 (k0_t3 : Fin k0_t3_loop.trips) : Fin 4 → Nat :=
  let c1_i32_616 : BitVec 32 := 1#32
  let v1014 : Index := Scalar.indexCast c1_i32_616
  let c0_i32_617 : BitVec 32 := 0#32
  let v1015 : Index := Scalar.indexCast c0_i32_617
  let c0_i32_276 : BitVec 32 := 0#32
  let c1_i32_278 : BitVec 32 := 1#32
  let arg11 : BitVec 32 := Scf.iv c0_i32_276 c1_i32_278 k0_t3
  let v1016 : Index := Scalar.indexCast arg11
  let c112_618 : Index := 112#32
  ![1, 0, v1016.toNat, 112]
def k0_off513 (k0_t3 : Fin k0_t3_loop.trips) : Fin 4 → Nat :=
  let c1_i32_622 : BitVec 32 := 1#32
  let v1026 : Index := Scalar.indexCast c1_i32_622
  let c1_i32_623 : BitVec 32 := 1#32
  let v1027 : Index := Scalar.indexCast c1_i32_623
  let c0_i32_276 : BitVec 32 := 0#32
  let c1_i32_278 : BitVec 32 := 1#32
  let arg11 : BitVec 32 := Scf.iv c0_i32_276 c1_i32_278 k0_t3
  let v1028 : Index := Scalar.indexCast arg11
  let c112_624 : Index := 112#32
  ![1, 1, v1028.toNat, 112]
def k0_off514 (k0_t3 : Fin k0_t3_loop.trips) : Fin 4 → Nat :=
  let c1_i32_628 : BitVec 32 := 1#32
  let v1038 : Index := Scalar.indexCast c1_i32_628
  let c2_i32_629 : BitVec 32 := 2#32
  let v1039 : Index := Scalar.indexCast c2_i32_629
  let c0_i32_276 : BitVec 32 := 0#32
  let c1_i32_278 : BitVec 32 := 1#32
  let arg11 : BitVec 32 := Scf.iv c0_i32_276 c1_i32_278 k0_t3
  let v1040 : Index := Scalar.indexCast arg11
  let c112_630 : Index := 112#32
  ![1, 2, v1040.toNat, 112]
def k0_off515 (k0_t3 : Fin k0_t3_loop.trips) : Fin 4 → Nat :=
  let c1_i32_634 : BitVec 32 := 1#32
  let v1050 : Index := Scalar.indexCast c1_i32_634
  let c3_i32_635 : BitVec 32 := 3#32
  let v1051 : Index := Scalar.indexCast c3_i32_635
  let c0_i32_276 : BitVec 32 := 0#32
  let c1_i32_278 : BitVec 32 := 1#32
  let arg11 : BitVec 32 := Scf.iv c0_i32_276 c1_i32_278 k0_t3
  let v1052 : Index := Scalar.indexCast arg11
  let c112_636 : Index := 112#32
  ![1, 3, v1052.toNat, 112]
def k0_off516 (k0_t3 : Fin k0_t3_loop.trips) : Fin 4 → Nat :=
  let c1_i32_640 : BitVec 32 := 1#32
  let v1062 : Index := Scalar.indexCast c1_i32_640
  let c4_i32_641 : BitVec 32 := 4#32
  let v1063 : Index := Scalar.indexCast c4_i32_641
  let c0_i32_276 : BitVec 32 := 0#32
  let c1_i32_278 : BitVec 32 := 1#32
  let arg11 : BitVec 32 := Scf.iv c0_i32_276 c1_i32_278 k0_t3
  let v1064 : Index := Scalar.indexCast arg11
  let c112_642 : Index := 112#32
  ![1, 4, v1064.toNat, 112]
def k0_off517 (k0_t3 : Fin k0_t3_loop.trips) : Fin 4 → Nat :=
  let c1_i32_646 : BitVec 32 := 1#32
  let v1074 : Index := Scalar.indexCast c1_i32_646
  let c5_i32_647 : BitVec 32 := 5#32
  let v1075 : Index := Scalar.indexCast c5_i32_647
  let c0_i32_276 : BitVec 32 := 0#32
  let c1_i32_278 : BitVec 32 := 1#32
  let arg11 : BitVec 32 := Scf.iv c0_i32_276 c1_i32_278 k0_t3
  let v1076 : Index := Scalar.indexCast arg11
  let c112_648 : Index := 112#32
  ![1, 5, v1076.toNat, 112]
def k0_off518 (k0_t3 : Fin k0_t3_loop.trips) : Fin 4 → Nat :=
  let c1_i32_652 : BitVec 32 := 1#32
  let v1086 : Index := Scalar.indexCast c1_i32_652
  let c6_i32_653 : BitVec 32 := 6#32
  let v1087 : Index := Scalar.indexCast c6_i32_653
  let c0_i32_276 : BitVec 32 := 0#32
  let c1_i32_278 : BitVec 32 := 1#32
  let arg11 : BitVec 32 := Scf.iv c0_i32_276 c1_i32_278 k0_t3
  let v1088 : Index := Scalar.indexCast arg11
  let c112_654 : Index := 112#32
  ![1, 6, v1088.toNat, 112]
def k0_off519 (k0_t3 : Fin k0_t3_loop.trips) : Fin 4 → Nat :=
  let c1_i32_658 : BitVec 32 := 1#32
  let v1098 : Index := Scalar.indexCast c1_i32_658
  let c7_i32_659 : BitVec 32 := 7#32
  let v1099 : Index := Scalar.indexCast c7_i32_659
  let c0_i32_276 : BitVec 32 := 0#32
  let c1_i32_278 : BitVec 32 := 1#32
  let arg11 : BitVec 32 := Scf.iv c0_i32_276 c1_i32_278 k0_t3
  let v1100 : Index := Scalar.indexCast arg11
  let c112_660 : Index := 112#32
  ![1, 7, v1100.toNat, 112]
def k0_off520 (k0_t3 : Fin k0_t3_loop.trips) : Fin 2 → Nat :=
  let c0_i32_276 : BitVec 32 := 0#32
  let c1_i32_278 : BitVec 32 := 1#32
  let arg11 : BitVec 32 := Scf.iv c0_i32_276 c1_i32_278 k0_t3
  let v1110 : Index := Scalar.indexCast arg11
  let c128 : Index := 128#32
  ![v1110.toNat, 128]
def k0_off521 (k0_t3 : Fin k0_t3_loop.trips) : Fin 4 → Nat :=
  let c1_i32_664 : BitVec 32 := 1#32
  let v1113 : Index := Scalar.indexCast c1_i32_664
  let c0_i32_665 : BitVec 32 := 0#32
  let v1114 : Index := Scalar.indexCast c0_i32_665
  let c0_i32_276 : BitVec 32 := 0#32
  let c1_i32_278 : BitVec 32 := 1#32
  let arg11 : BitVec 32 := Scf.iv c0_i32_276 c1_i32_278 k0_t3
  let v1115 : Index := Scalar.indexCast arg11
  let c128_666 : Index := 128#32
  ![1, 0, v1115.toNat, 128]
def k0_off522 (k0_t3 : Fin k0_t3_loop.trips) : Fin 4 → Nat :=
  let c1_i32_670 : BitVec 32 := 1#32
  let v1125 : Index := Scalar.indexCast c1_i32_670
  let c1_i32_671 : BitVec 32 := 1#32
  let v1126 : Index := Scalar.indexCast c1_i32_671
  let c0_i32_276 : BitVec 32 := 0#32
  let c1_i32_278 : BitVec 32 := 1#32
  let arg11 : BitVec 32 := Scf.iv c0_i32_276 c1_i32_278 k0_t3
  let v1127 : Index := Scalar.indexCast arg11
  let c128_672 : Index := 128#32
  ![1, 1, v1127.toNat, 128]
def k0_off523 (k0_t3 : Fin k0_t3_loop.trips) : Fin 4 → Nat :=
  let c1_i32_676 : BitVec 32 := 1#32
  let v1137 : Index := Scalar.indexCast c1_i32_676
  let c2_i32_677 : BitVec 32 := 2#32
  let v1138 : Index := Scalar.indexCast c2_i32_677
  let c0_i32_276 : BitVec 32 := 0#32
  let c1_i32_278 : BitVec 32 := 1#32
  let arg11 : BitVec 32 := Scf.iv c0_i32_276 c1_i32_278 k0_t3
  let v1139 : Index := Scalar.indexCast arg11
  let c128_678 : Index := 128#32
  ![1, 2, v1139.toNat, 128]
def k0_off524 (k0_t3 : Fin k0_t3_loop.trips) : Fin 4 → Nat :=
  let c1_i32_682 : BitVec 32 := 1#32
  let v1149 : Index := Scalar.indexCast c1_i32_682
  let c3_i32_683 : BitVec 32 := 3#32
  let v1150 : Index := Scalar.indexCast c3_i32_683
  let c0_i32_276 : BitVec 32 := 0#32
  let c1_i32_278 : BitVec 32 := 1#32
  let arg11 : BitVec 32 := Scf.iv c0_i32_276 c1_i32_278 k0_t3
  let v1151 : Index := Scalar.indexCast arg11
  let c128_684 : Index := 128#32
  ![1, 3, v1151.toNat, 128]
def k0_off525 (k0_t3 : Fin k0_t3_loop.trips) : Fin 4 → Nat :=
  let c1_i32_688 : BitVec 32 := 1#32
  let v1161 : Index := Scalar.indexCast c1_i32_688
  let c4_i32_689 : BitVec 32 := 4#32
  let v1162 : Index := Scalar.indexCast c4_i32_689
  let c0_i32_276 : BitVec 32 := 0#32
  let c1_i32_278 : BitVec 32 := 1#32
  let arg11 : BitVec 32 := Scf.iv c0_i32_276 c1_i32_278 k0_t3
  let v1163 : Index := Scalar.indexCast arg11
  let c128_690 : Index := 128#32
  ![1, 4, v1163.toNat, 128]
def k0_off526 (k0_t3 : Fin k0_t3_loop.trips) : Fin 4 → Nat :=
  let c1_i32_694 : BitVec 32 := 1#32
  let v1173 : Index := Scalar.indexCast c1_i32_694
  let c5_i32_695 : BitVec 32 := 5#32
  let v1174 : Index := Scalar.indexCast c5_i32_695
  let c0_i32_276 : BitVec 32 := 0#32
  let c1_i32_278 : BitVec 32 := 1#32
  let arg11 : BitVec 32 := Scf.iv c0_i32_276 c1_i32_278 k0_t3
  let v1175 : Index := Scalar.indexCast arg11
  let c128_696 : Index := 128#32
  ![1, 5, v1175.toNat, 128]
def k0_off527 (k0_t3 : Fin k0_t3_loop.trips) : Fin 4 → Nat :=
  let c1_i32_700 : BitVec 32 := 1#32
  let v1185 : Index := Scalar.indexCast c1_i32_700
  let c6_i32_701 : BitVec 32 := 6#32
  let v1186 : Index := Scalar.indexCast c6_i32_701
  let c0_i32_276 : BitVec 32 := 0#32
  let c1_i32_278 : BitVec 32 := 1#32
  let arg11 : BitVec 32 := Scf.iv c0_i32_276 c1_i32_278 k0_t3
  let v1187 : Index := Scalar.indexCast arg11
  let c128_702 : Index := 128#32
  ![1, 6, v1187.toNat, 128]
def k0_off528 (k0_t3 : Fin k0_t3_loop.trips) : Fin 4 → Nat :=
  let c1_i32_706 : BitVec 32 := 1#32
  let v1197 : Index := Scalar.indexCast c1_i32_706
  let c7_i32_707 : BitVec 32 := 7#32
  let v1198 : Index := Scalar.indexCast c7_i32_707
  let c0_i32_276 : BitVec 32 := 0#32
  let c1_i32_278 : BitVec 32 := 1#32
  let arg11 : BitVec 32 := Scf.iv c0_i32_276 c1_i32_278 k0_t3
  let v1199 : Index := Scalar.indexCast arg11
  let c128_708 : Index := 128#32
  ![1, 7, v1199.toNat, 128]
def k0_off529 (k0_t3 : Fin k0_t3_loop.trips) : Fin 2 → Nat :=
  let c0_i32_276 : BitVec 32 := 0#32
  let c1_i32_278 : BitVec 32 := 1#32
  let arg11 : BitVec 32 := Scf.iv c0_i32_276 c1_i32_278 k0_t3
  let v1209 : Index := Scalar.indexCast arg11
  let c144 : Index := 144#32
  ![v1209.toNat, 144]
def k0_off530 (k0_t3 : Fin k0_t3_loop.trips) : Fin 4 → Nat :=
  let c1_i32_712 : BitVec 32 := 1#32
  let v1212 : Index := Scalar.indexCast c1_i32_712
  let c0_i32_713 : BitVec 32 := 0#32
  let v1213 : Index := Scalar.indexCast c0_i32_713
  let c0_i32_276 : BitVec 32 := 0#32
  let c1_i32_278 : BitVec 32 := 1#32
  let arg11 : BitVec 32 := Scf.iv c0_i32_276 c1_i32_278 k0_t3
  let v1214 : Index := Scalar.indexCast arg11
  let c144_714 : Index := 144#32
  ![1, 0, v1214.toNat, 144]
def k0_off531 (k0_t3 : Fin k0_t3_loop.trips) : Fin 4 → Nat :=
  let c1_i32_718 : BitVec 32 := 1#32
  let v1224 : Index := Scalar.indexCast c1_i32_718
  let c1_i32_719 : BitVec 32 := 1#32
  let v1225 : Index := Scalar.indexCast c1_i32_719
  let c0_i32_276 : BitVec 32 := 0#32
  let c1_i32_278 : BitVec 32 := 1#32
  let arg11 : BitVec 32 := Scf.iv c0_i32_276 c1_i32_278 k0_t3
  let v1226 : Index := Scalar.indexCast arg11
  let c144_720 : Index := 144#32
  ![1, 1, v1226.toNat, 144]
def k0_off532 (k0_t3 : Fin k0_t3_loop.trips) : Fin 4 → Nat :=
  let c1_i32_724 : BitVec 32 := 1#32
  let v1236 : Index := Scalar.indexCast c1_i32_724
  let c2_i32_725 : BitVec 32 := 2#32
  let v1237 : Index := Scalar.indexCast c2_i32_725
  let c0_i32_276 : BitVec 32 := 0#32
  let c1_i32_278 : BitVec 32 := 1#32
  let arg11 : BitVec 32 := Scf.iv c0_i32_276 c1_i32_278 k0_t3
  let v1238 : Index := Scalar.indexCast arg11
  let c144_726 : Index := 144#32
  ![1, 2, v1238.toNat, 144]
def k0_off533 (k0_t3 : Fin k0_t3_loop.trips) : Fin 4 → Nat :=
  let c1_i32_730 : BitVec 32 := 1#32
  let v1248 : Index := Scalar.indexCast c1_i32_730
  let c3_i32_731 : BitVec 32 := 3#32
  let v1249 : Index := Scalar.indexCast c3_i32_731
  let c0_i32_276 : BitVec 32 := 0#32
  let c1_i32_278 : BitVec 32 := 1#32
  let arg11 : BitVec 32 := Scf.iv c0_i32_276 c1_i32_278 k0_t3
  let v1250 : Index := Scalar.indexCast arg11
  let c144_732 : Index := 144#32
  ![1, 3, v1250.toNat, 144]
def k0_off534 (k0_t3 : Fin k0_t3_loop.trips) : Fin 4 → Nat :=
  let c1_i32_736 : BitVec 32 := 1#32
  let v1260 : Index := Scalar.indexCast c1_i32_736
  let c4_i32_737 : BitVec 32 := 4#32
  let v1261 : Index := Scalar.indexCast c4_i32_737
  let c0_i32_276 : BitVec 32 := 0#32
  let c1_i32_278 : BitVec 32 := 1#32
  let arg11 : BitVec 32 := Scf.iv c0_i32_276 c1_i32_278 k0_t3
  let v1262 : Index := Scalar.indexCast arg11
  let c144_738 : Index := 144#32
  ![1, 4, v1262.toNat, 144]
def k0_off535 (k0_t3 : Fin k0_t3_loop.trips) : Fin 4 → Nat :=
  let c1_i32_742 : BitVec 32 := 1#32
  let v1272 : Index := Scalar.indexCast c1_i32_742
  let c5_i32_743 : BitVec 32 := 5#32
  let v1273 : Index := Scalar.indexCast c5_i32_743
  let c0_i32_276 : BitVec 32 := 0#32
  let c1_i32_278 : BitVec 32 := 1#32
  let arg11 : BitVec 32 := Scf.iv c0_i32_276 c1_i32_278 k0_t3
  let v1274 : Index := Scalar.indexCast arg11
  let c144_744 : Index := 144#32
  ![1, 5, v1274.toNat, 144]
def k0_off536 (k0_t3 : Fin k0_t3_loop.trips) : Fin 4 → Nat :=
  let c1_i32_748 : BitVec 32 := 1#32
  let v1284 : Index := Scalar.indexCast c1_i32_748
  let c6_i32_749 : BitVec 32 := 6#32
  let v1285 : Index := Scalar.indexCast c6_i32_749
  let c0_i32_276 : BitVec 32 := 0#32
  let c1_i32_278 : BitVec 32 := 1#32
  let arg11 : BitVec 32 := Scf.iv c0_i32_276 c1_i32_278 k0_t3
  let v1286 : Index := Scalar.indexCast arg11
  let c144_750 : Index := 144#32
  ![1, 6, v1286.toNat, 144]
def k0_off537 (k0_t3 : Fin k0_t3_loop.trips) : Fin 4 → Nat :=
  let c1_i32_754 : BitVec 32 := 1#32
  let v1296 : Index := Scalar.indexCast c1_i32_754
  let c7_i32_755 : BitVec 32 := 7#32
  let v1297 : Index := Scalar.indexCast c7_i32_755
  let c0_i32_276 : BitVec 32 := 0#32
  let c1_i32_278 : BitVec 32 := 1#32
  let arg11 : BitVec 32 := Scf.iv c0_i32_276 c1_i32_278 k0_t3
  let v1298 : Index := Scalar.indexCast arg11
  let c144_756 : Index := 144#32
  ![1, 7, v1298.toNat, 144]
def k0_off538 (k0_t3 : Fin k0_t3_loop.trips) : Fin 2 → Nat :=
  let c0_i32_276 : BitVec 32 := 0#32
  let c1_i32_278 : BitVec 32 := 1#32
  let arg11 : BitVec 32 := Scf.iv c0_i32_276 c1_i32_278 k0_t3
  let v1308 : Index := Scalar.indexCast arg11
  let c160 : Index := 160#32
  ![v1308.toNat, 160]
def k0_off539 (k0_t3 : Fin k0_t3_loop.trips) : Fin 4 → Nat :=
  let c1_i32_760 : BitVec 32 := 1#32
  let v1311 : Index := Scalar.indexCast c1_i32_760
  let c0_i32_761 : BitVec 32 := 0#32
  let v1312 : Index := Scalar.indexCast c0_i32_761
  let c0_i32_276 : BitVec 32 := 0#32
  let c1_i32_278 : BitVec 32 := 1#32
  let arg11 : BitVec 32 := Scf.iv c0_i32_276 c1_i32_278 k0_t3
  let v1313 : Index := Scalar.indexCast arg11
  let c160_762 : Index := 160#32
  ![1, 0, v1313.toNat, 160]
def k0_off540 (k0_t3 : Fin k0_t3_loop.trips) : Fin 4 → Nat :=
  let c1_i32_766 : BitVec 32 := 1#32
  let v1323 : Index := Scalar.indexCast c1_i32_766
  let c1_i32_767 : BitVec 32 := 1#32
  let v1324 : Index := Scalar.indexCast c1_i32_767
  let c0_i32_276 : BitVec 32 := 0#32
  let c1_i32_278 : BitVec 32 := 1#32
  let arg11 : BitVec 32 := Scf.iv c0_i32_276 c1_i32_278 k0_t3
  let v1325 : Index := Scalar.indexCast arg11
  let c160_768 : Index := 160#32
  ![1, 1, v1325.toNat, 160]
def k0_off541 (k0_t3 : Fin k0_t3_loop.trips) : Fin 4 → Nat :=
  let c1_i32_772 : BitVec 32 := 1#32
  let v1335 : Index := Scalar.indexCast c1_i32_772
  let c2_i32_773 : BitVec 32 := 2#32
  let v1336 : Index := Scalar.indexCast c2_i32_773
  let c0_i32_276 : BitVec 32 := 0#32
  let c1_i32_278 : BitVec 32 := 1#32
  let arg11 : BitVec 32 := Scf.iv c0_i32_276 c1_i32_278 k0_t3
  let v1337 : Index := Scalar.indexCast arg11
  let c160_774 : Index := 160#32
  ![1, 2, v1337.toNat, 160]
def k0_off542 (k0_t3 : Fin k0_t3_loop.trips) : Fin 4 → Nat :=
  let c1_i32_778 : BitVec 32 := 1#32
  let v1347 : Index := Scalar.indexCast c1_i32_778
  let c3_i32_779 : BitVec 32 := 3#32
  let v1348 : Index := Scalar.indexCast c3_i32_779
  let c0_i32_276 : BitVec 32 := 0#32
  let c1_i32_278 : BitVec 32 := 1#32
  let arg11 : BitVec 32 := Scf.iv c0_i32_276 c1_i32_278 k0_t3
  let v1349 : Index := Scalar.indexCast arg11
  let c160_780 : Index := 160#32
  ![1, 3, v1349.toNat, 160]
def k0_off543 (k0_t3 : Fin k0_t3_loop.trips) : Fin 4 → Nat :=
  let c1_i32_784 : BitVec 32 := 1#32
  let v1359 : Index := Scalar.indexCast c1_i32_784
  let c4_i32_785 : BitVec 32 := 4#32
  let v1360 : Index := Scalar.indexCast c4_i32_785
  let c0_i32_276 : BitVec 32 := 0#32
  let c1_i32_278 : BitVec 32 := 1#32
  let arg11 : BitVec 32 := Scf.iv c0_i32_276 c1_i32_278 k0_t3
  let v1361 : Index := Scalar.indexCast arg11
  let c160_786 : Index := 160#32
  ![1, 4, v1361.toNat, 160]
def k0_off544 (k0_t3 : Fin k0_t3_loop.trips) : Fin 4 → Nat :=
  let c1_i32_790 : BitVec 32 := 1#32
  let v1371 : Index := Scalar.indexCast c1_i32_790
  let c5_i32_791 : BitVec 32 := 5#32
  let v1372 : Index := Scalar.indexCast c5_i32_791
  let c0_i32_276 : BitVec 32 := 0#32
  let c1_i32_278 : BitVec 32 := 1#32
  let arg11 : BitVec 32 := Scf.iv c0_i32_276 c1_i32_278 k0_t3
  let v1373 : Index := Scalar.indexCast arg11
  let c160_792 : Index := 160#32
  ![1, 5, v1373.toNat, 160]
def k0_off545 (k0_t3 : Fin k0_t3_loop.trips) : Fin 4 → Nat :=
  let c1_i32_796 : BitVec 32 := 1#32
  let v1383 : Index := Scalar.indexCast c1_i32_796
  let c6_i32_797 : BitVec 32 := 6#32
  let v1384 : Index := Scalar.indexCast c6_i32_797
  let c0_i32_276 : BitVec 32 := 0#32
  let c1_i32_278 : BitVec 32 := 1#32
  let arg11 : BitVec 32 := Scf.iv c0_i32_276 c1_i32_278 k0_t3
  let v1385 : Index := Scalar.indexCast arg11
  let c160_798 : Index := 160#32
  ![1, 6, v1385.toNat, 160]
def k0_off546 (k0_t3 : Fin k0_t3_loop.trips) : Fin 4 → Nat :=
  let c1_i32_802 : BitVec 32 := 1#32
  let v1395 : Index := Scalar.indexCast c1_i32_802
  let c7_i32_803 : BitVec 32 := 7#32
  let v1396 : Index := Scalar.indexCast c7_i32_803
  let c0_i32_276 : BitVec 32 := 0#32
  let c1_i32_278 : BitVec 32 := 1#32
  let arg11 : BitVec 32 := Scf.iv c0_i32_276 c1_i32_278 k0_t3
  let v1397 : Index := Scalar.indexCast arg11
  let c160_804 : Index := 160#32
  ![1, 7, v1397.toNat, 160]
def k0_off547 (k0_t3 : Fin k0_t3_loop.trips) : Fin 2 → Nat :=
  let c0_i32_276 : BitVec 32 := 0#32
  let c1_i32_278 : BitVec 32 := 1#32
  let arg11 : BitVec 32 := Scf.iv c0_i32_276 c1_i32_278 k0_t3
  let v1407 : Index := Scalar.indexCast arg11
  let c176 : Index := 176#32
  ![v1407.toNat, 176]
def k0_off548 (k0_t3 : Fin k0_t3_loop.trips) : Fin 4 → Nat :=
  let c1_i32_808 : BitVec 32 := 1#32
  let v1410 : Index := Scalar.indexCast c1_i32_808
  let c0_i32_809 : BitVec 32 := 0#32
  let v1411 : Index := Scalar.indexCast c0_i32_809
  let c0_i32_276 : BitVec 32 := 0#32
  let c1_i32_278 : BitVec 32 := 1#32
  let arg11 : BitVec 32 := Scf.iv c0_i32_276 c1_i32_278 k0_t3
  let v1412 : Index := Scalar.indexCast arg11
  let c176_810 : Index := 176#32
  ![1, 0, v1412.toNat, 176]
def k0_off549 (k0_t3 : Fin k0_t3_loop.trips) : Fin 4 → Nat :=
  let c1_i32_814 : BitVec 32 := 1#32
  let v1422 : Index := Scalar.indexCast c1_i32_814
  let c1_i32_815 : BitVec 32 := 1#32
  let v1423 : Index := Scalar.indexCast c1_i32_815
  let c0_i32_276 : BitVec 32 := 0#32
  let c1_i32_278 : BitVec 32 := 1#32
  let arg11 : BitVec 32 := Scf.iv c0_i32_276 c1_i32_278 k0_t3
  let v1424 : Index := Scalar.indexCast arg11
  let c176_816 : Index := 176#32
  ![1, 1, v1424.toNat, 176]
def k0_off550 (k0_t3 : Fin k0_t3_loop.trips) : Fin 4 → Nat :=
  let c1_i32_820 : BitVec 32 := 1#32
  let v1434 : Index := Scalar.indexCast c1_i32_820
  let c2_i32_821 : BitVec 32 := 2#32
  let v1435 : Index := Scalar.indexCast c2_i32_821
  let c0_i32_276 : BitVec 32 := 0#32
  let c1_i32_278 : BitVec 32 := 1#32
  let arg11 : BitVec 32 := Scf.iv c0_i32_276 c1_i32_278 k0_t3
  let v1436 : Index := Scalar.indexCast arg11
  let c176_822 : Index := 176#32
  ![1, 2, v1436.toNat, 176]
def k0_off551 (k0_t3 : Fin k0_t3_loop.trips) : Fin 4 → Nat :=
  let c1_i32_826 : BitVec 32 := 1#32
  let v1446 : Index := Scalar.indexCast c1_i32_826
  let c3_i32_827 : BitVec 32 := 3#32
  let v1447 : Index := Scalar.indexCast c3_i32_827
  let c0_i32_276 : BitVec 32 := 0#32
  let c1_i32_278 : BitVec 32 := 1#32
  let arg11 : BitVec 32 := Scf.iv c0_i32_276 c1_i32_278 k0_t3
  let v1448 : Index := Scalar.indexCast arg11
  let c176_828 : Index := 176#32
  ![1, 3, v1448.toNat, 176]
def k0_off552 (k0_t3 : Fin k0_t3_loop.trips) : Fin 4 → Nat :=
  let c1_i32_832 : BitVec 32 := 1#32
  let v1458 : Index := Scalar.indexCast c1_i32_832
  let c4_i32_833 : BitVec 32 := 4#32
  let v1459 : Index := Scalar.indexCast c4_i32_833
  let c0_i32_276 : BitVec 32 := 0#32
  let c1_i32_278 : BitVec 32 := 1#32
  let arg11 : BitVec 32 := Scf.iv c0_i32_276 c1_i32_278 k0_t3
  let v1460 : Index := Scalar.indexCast arg11
  let c176_834 : Index := 176#32
  ![1, 4, v1460.toNat, 176]
def k0_off553 (k0_t3 : Fin k0_t3_loop.trips) : Fin 4 → Nat :=
  let c1_i32_838 : BitVec 32 := 1#32
  let v1470 : Index := Scalar.indexCast c1_i32_838
  let c5_i32_839 : BitVec 32 := 5#32
  let v1471 : Index := Scalar.indexCast c5_i32_839
  let c0_i32_276 : BitVec 32 := 0#32
  let c1_i32_278 : BitVec 32 := 1#32
  let arg11 : BitVec 32 := Scf.iv c0_i32_276 c1_i32_278 k0_t3
  let v1472 : Index := Scalar.indexCast arg11
  let c176_840 : Index := 176#32
  ![1, 5, v1472.toNat, 176]
def k0_off554 (k0_t3 : Fin k0_t3_loop.trips) : Fin 4 → Nat :=
  let c1_i32_844 : BitVec 32 := 1#32
  let v1482 : Index := Scalar.indexCast c1_i32_844
  let c6_i32_845 : BitVec 32 := 6#32
  let v1483 : Index := Scalar.indexCast c6_i32_845
  let c0_i32_276 : BitVec 32 := 0#32
  let c1_i32_278 : BitVec 32 := 1#32
  let arg11 : BitVec 32 := Scf.iv c0_i32_276 c1_i32_278 k0_t3
  let v1484 : Index := Scalar.indexCast arg11
  let c176_846 : Index := 176#32
  ![1, 6, v1484.toNat, 176]
def k0_off555 (k0_t3 : Fin k0_t3_loop.trips) : Fin 4 → Nat :=
  let c1_i32_850 : BitVec 32 := 1#32
  let v1494 : Index := Scalar.indexCast c1_i32_850
  let c7_i32_851 : BitVec 32 := 7#32
  let v1495 : Index := Scalar.indexCast c7_i32_851
  let c0_i32_276 : BitVec 32 := 0#32
  let c1_i32_278 : BitVec 32 := 1#32
  let arg11 : BitVec 32 := Scf.iv c0_i32_276 c1_i32_278 k0_t3
  let v1496 : Index := Scalar.indexCast arg11
  let c176_852 : Index := 176#32
  ![1, 7, v1496.toNat, 176]
def k0_off556 (k0_t3 : Fin k0_t3_loop.trips) : Fin 2 → Nat :=
  let c0_i32_276 : BitVec 32 := 0#32
  let c1_i32_278 : BitVec 32 := 1#32
  let arg11 : BitVec 32 := Scf.iv c0_i32_276 c1_i32_278 k0_t3
  let v1506 : Index := Scalar.indexCast arg11
  let c192 : Index := 192#32
  ![v1506.toNat, 192]
def k0_off557 (k0_t3 : Fin k0_t3_loop.trips) : Fin 4 → Nat :=
  let c1_i32_856 : BitVec 32 := 1#32
  let v1509 : Index := Scalar.indexCast c1_i32_856
  let c0_i32_857 : BitVec 32 := 0#32
  let v1510 : Index := Scalar.indexCast c0_i32_857
  let c0_i32_276 : BitVec 32 := 0#32
  let c1_i32_278 : BitVec 32 := 1#32
  let arg11 : BitVec 32 := Scf.iv c0_i32_276 c1_i32_278 k0_t3
  let v1511 : Index := Scalar.indexCast arg11
  let c192_858 : Index := 192#32
  ![1, 0, v1511.toNat, 192]
def k0_off558 (k0_t3 : Fin k0_t3_loop.trips) : Fin 4 → Nat :=
  let c1_i32_862 : BitVec 32 := 1#32
  let v1521 : Index := Scalar.indexCast c1_i32_862
  let c1_i32_863 : BitVec 32 := 1#32
  let v1522 : Index := Scalar.indexCast c1_i32_863
  let c0_i32_276 : BitVec 32 := 0#32
  let c1_i32_278 : BitVec 32 := 1#32
  let arg11 : BitVec 32 := Scf.iv c0_i32_276 c1_i32_278 k0_t3
  let v1523 : Index := Scalar.indexCast arg11
  let c192_864 : Index := 192#32
  ![1, 1, v1523.toNat, 192]
def k0_off559 (k0_t3 : Fin k0_t3_loop.trips) : Fin 4 → Nat :=
  let c1_i32_868 : BitVec 32 := 1#32
  let v1533 : Index := Scalar.indexCast c1_i32_868
  let c2_i32_869 : BitVec 32 := 2#32
  let v1534 : Index := Scalar.indexCast c2_i32_869
  let c0_i32_276 : BitVec 32 := 0#32
  let c1_i32_278 : BitVec 32 := 1#32
  let arg11 : BitVec 32 := Scf.iv c0_i32_276 c1_i32_278 k0_t3
  let v1535 : Index := Scalar.indexCast arg11
  let c192_870 : Index := 192#32
  ![1, 2, v1535.toNat, 192]
def k0_off560 (k0_t3 : Fin k0_t3_loop.trips) : Fin 4 → Nat :=
  let c1_i32_874 : BitVec 32 := 1#32
  let v1545 : Index := Scalar.indexCast c1_i32_874
  let c3_i32_875 : BitVec 32 := 3#32
  let v1546 : Index := Scalar.indexCast c3_i32_875
  let c0_i32_276 : BitVec 32 := 0#32
  let c1_i32_278 : BitVec 32 := 1#32
  let arg11 : BitVec 32 := Scf.iv c0_i32_276 c1_i32_278 k0_t3
  let v1547 : Index := Scalar.indexCast arg11
  let c192_876 : Index := 192#32
  ![1, 3, v1547.toNat, 192]
def k0_off561 (k0_t3 : Fin k0_t3_loop.trips) : Fin 4 → Nat :=
  let c1_i32_880 : BitVec 32 := 1#32
  let v1557 : Index := Scalar.indexCast c1_i32_880
  let c4_i32_881 : BitVec 32 := 4#32
  let v1558 : Index := Scalar.indexCast c4_i32_881
  let c0_i32_276 : BitVec 32 := 0#32
  let c1_i32_278 : BitVec 32 := 1#32
  let arg11 : BitVec 32 := Scf.iv c0_i32_276 c1_i32_278 k0_t3
  let v1559 : Index := Scalar.indexCast arg11
  let c192_882 : Index := 192#32
  ![1, 4, v1559.toNat, 192]
def k0_off562 (k0_t3 : Fin k0_t3_loop.trips) : Fin 4 → Nat :=
  let c1_i32_886 : BitVec 32 := 1#32
  let v1569 : Index := Scalar.indexCast c1_i32_886
  let c5_i32_887 : BitVec 32 := 5#32
  let v1570 : Index := Scalar.indexCast c5_i32_887
  let c0_i32_276 : BitVec 32 := 0#32
  let c1_i32_278 : BitVec 32 := 1#32
  let arg11 : BitVec 32 := Scf.iv c0_i32_276 c1_i32_278 k0_t3
  let v1571 : Index := Scalar.indexCast arg11
  let c192_888 : Index := 192#32
  ![1, 5, v1571.toNat, 192]
def k0_off563 (k0_t3 : Fin k0_t3_loop.trips) : Fin 4 → Nat :=
  let c1_i32_892 : BitVec 32 := 1#32
  let v1581 : Index := Scalar.indexCast c1_i32_892
  let c6_i32_893 : BitVec 32 := 6#32
  let v1582 : Index := Scalar.indexCast c6_i32_893
  let c0_i32_276 : BitVec 32 := 0#32
  let c1_i32_278 : BitVec 32 := 1#32
  let arg11 : BitVec 32 := Scf.iv c0_i32_276 c1_i32_278 k0_t3
  let v1583 : Index := Scalar.indexCast arg11
  let c192_894 : Index := 192#32
  ![1, 6, v1583.toNat, 192]
def k0_off564 (k0_t3 : Fin k0_t3_loop.trips) : Fin 4 → Nat :=
  let c1_i32_898 : BitVec 32 := 1#32
  let v1593 : Index := Scalar.indexCast c1_i32_898
  let c7_i32_899 : BitVec 32 := 7#32
  let v1594 : Index := Scalar.indexCast c7_i32_899
  let c0_i32_276 : BitVec 32 := 0#32
  let c1_i32_278 : BitVec 32 := 1#32
  let arg11 : BitVec 32 := Scf.iv c0_i32_276 c1_i32_278 k0_t3
  let v1595 : Index := Scalar.indexCast arg11
  let c192_900 : Index := 192#32
  ![1, 7, v1595.toNat, 192]
def k0_off565 (k0_t3 : Fin k0_t3_loop.trips) : Fin 2 → Nat :=
  let c0_i32_276 : BitVec 32 := 0#32
  let c1_i32_278 : BitVec 32 := 1#32
  let arg11 : BitVec 32 := Scf.iv c0_i32_276 c1_i32_278 k0_t3
  let v1605 : Index := Scalar.indexCast arg11
  let c208 : Index := 208#32
  ![v1605.toNat, 208]
def k0_off566 (k0_t3 : Fin k0_t3_loop.trips) : Fin 4 → Nat :=
  let c1_i32_904 : BitVec 32 := 1#32
  let v1608 : Index := Scalar.indexCast c1_i32_904
  let c0_i32_905 : BitVec 32 := 0#32
  let v1609 : Index := Scalar.indexCast c0_i32_905
  let c0_i32_276 : BitVec 32 := 0#32
  let c1_i32_278 : BitVec 32 := 1#32
  let arg11 : BitVec 32 := Scf.iv c0_i32_276 c1_i32_278 k0_t3
  let v1610 : Index := Scalar.indexCast arg11
  let c208_906 : Index := 208#32
  ![1, 0, v1610.toNat, 208]
def k0_off567 (k0_t3 : Fin k0_t3_loop.trips) : Fin 4 → Nat :=
  let c1_i32_910 : BitVec 32 := 1#32
  let v1620 : Index := Scalar.indexCast c1_i32_910
  let c1_i32_911 : BitVec 32 := 1#32
  let v1621 : Index := Scalar.indexCast c1_i32_911
  let c0_i32_276 : BitVec 32 := 0#32
  let c1_i32_278 : BitVec 32 := 1#32
  let arg11 : BitVec 32 := Scf.iv c0_i32_276 c1_i32_278 k0_t3
  let v1622 : Index := Scalar.indexCast arg11
  let c208_912 : Index := 208#32
  ![1, 1, v1622.toNat, 208]
def k0_off568 (k0_t3 : Fin k0_t3_loop.trips) : Fin 4 → Nat :=
  let c1_i32_916 : BitVec 32 := 1#32
  let v1632 : Index := Scalar.indexCast c1_i32_916
  let c2_i32_917 : BitVec 32 := 2#32
  let v1633 : Index := Scalar.indexCast c2_i32_917
  let c0_i32_276 : BitVec 32 := 0#32
  let c1_i32_278 : BitVec 32 := 1#32
  let arg11 : BitVec 32 := Scf.iv c0_i32_276 c1_i32_278 k0_t3
  let v1634 : Index := Scalar.indexCast arg11
  let c208_918 : Index := 208#32
  ![1, 2, v1634.toNat, 208]
def k0_off569 (k0_t3 : Fin k0_t3_loop.trips) : Fin 4 → Nat :=
  let c1_i32_922 : BitVec 32 := 1#32
  let v1644 : Index := Scalar.indexCast c1_i32_922
  let c3_i32_923 : BitVec 32 := 3#32
  let v1645 : Index := Scalar.indexCast c3_i32_923
  let c0_i32_276 : BitVec 32 := 0#32
  let c1_i32_278 : BitVec 32 := 1#32
  let arg11 : BitVec 32 := Scf.iv c0_i32_276 c1_i32_278 k0_t3
  let v1646 : Index := Scalar.indexCast arg11
  let c208_924 : Index := 208#32
  ![1, 3, v1646.toNat, 208]
def k0_off570 (k0_t3 : Fin k0_t3_loop.trips) : Fin 4 → Nat :=
  let c1_i32_928 : BitVec 32 := 1#32
  let v1656 : Index := Scalar.indexCast c1_i32_928
  let c4_i32_929 : BitVec 32 := 4#32
  let v1657 : Index := Scalar.indexCast c4_i32_929
  let c0_i32_276 : BitVec 32 := 0#32
  let c1_i32_278 : BitVec 32 := 1#32
  let arg11 : BitVec 32 := Scf.iv c0_i32_276 c1_i32_278 k0_t3
  let v1658 : Index := Scalar.indexCast arg11
  let c208_930 : Index := 208#32
  ![1, 4, v1658.toNat, 208]
def k0_off571 (k0_t3 : Fin k0_t3_loop.trips) : Fin 4 → Nat :=
  let c1_i32_934 : BitVec 32 := 1#32
  let v1668 : Index := Scalar.indexCast c1_i32_934
  let c5_i32_935 : BitVec 32 := 5#32
  let v1669 : Index := Scalar.indexCast c5_i32_935
  let c0_i32_276 : BitVec 32 := 0#32
  let c1_i32_278 : BitVec 32 := 1#32
  let arg11 : BitVec 32 := Scf.iv c0_i32_276 c1_i32_278 k0_t3
  let v1670 : Index := Scalar.indexCast arg11
  let c208_936 : Index := 208#32
  ![1, 5, v1670.toNat, 208]
def k0_off572 (k0_t3 : Fin k0_t3_loop.trips) : Fin 4 → Nat :=
  let c1_i32_940 : BitVec 32 := 1#32
  let v1680 : Index := Scalar.indexCast c1_i32_940
  let c6_i32_941 : BitVec 32 := 6#32
  let v1681 : Index := Scalar.indexCast c6_i32_941
  let c0_i32_276 : BitVec 32 := 0#32
  let c1_i32_278 : BitVec 32 := 1#32
  let arg11 : BitVec 32 := Scf.iv c0_i32_276 c1_i32_278 k0_t3
  let v1682 : Index := Scalar.indexCast arg11
  let c208_942 : Index := 208#32
  ![1, 6, v1682.toNat, 208]
def k0_off573 (k0_t3 : Fin k0_t3_loop.trips) : Fin 4 → Nat :=
  let c1_i32_946 : BitVec 32 := 1#32
  let v1692 : Index := Scalar.indexCast c1_i32_946
  let c7_i32_947 : BitVec 32 := 7#32
  let v1693 : Index := Scalar.indexCast c7_i32_947
  let c0_i32_276 : BitVec 32 := 0#32
  let c1_i32_278 : BitVec 32 := 1#32
  let arg11 : BitVec 32 := Scf.iv c0_i32_276 c1_i32_278 k0_t3
  let v1694 : Index := Scalar.indexCast arg11
  let c208_948 : Index := 208#32
  ![1, 7, v1694.toNat, 208]
def k0_off574 (k0_t3 : Fin k0_t3_loop.trips) : Fin 2 → Nat :=
  let c0_i32_276 : BitVec 32 := 0#32
  let c1_i32_278 : BitVec 32 := 1#32
  let arg11 : BitVec 32 := Scf.iv c0_i32_276 c1_i32_278 k0_t3
  let v1704 : Index := Scalar.indexCast arg11
  let c224 : Index := 224#32
  ![v1704.toNat, 224]
def k0_off575 (k0_t3 : Fin k0_t3_loop.trips) : Fin 4 → Nat :=
  let c1_i32_952 : BitVec 32 := 1#32
  let v1707 : Index := Scalar.indexCast c1_i32_952
  let c0_i32_953 : BitVec 32 := 0#32
  let v1708 : Index := Scalar.indexCast c0_i32_953
  let c0_i32_276 : BitVec 32 := 0#32
  let c1_i32_278 : BitVec 32 := 1#32
  let arg11 : BitVec 32 := Scf.iv c0_i32_276 c1_i32_278 k0_t3
  let v1709 : Index := Scalar.indexCast arg11
  let c224_954 : Index := 224#32
  ![1, 0, v1709.toNat, 224]
def k0_off576 (k0_t3 : Fin k0_t3_loop.trips) : Fin 4 → Nat :=
  let c1_i32_958 : BitVec 32 := 1#32
  let v1719 : Index := Scalar.indexCast c1_i32_958
  let c1_i32_959 : BitVec 32 := 1#32
  let v1720 : Index := Scalar.indexCast c1_i32_959
  let c0_i32_276 : BitVec 32 := 0#32
  let c1_i32_278 : BitVec 32 := 1#32
  let arg11 : BitVec 32 := Scf.iv c0_i32_276 c1_i32_278 k0_t3
  let v1721 : Index := Scalar.indexCast arg11
  let c224_960 : Index := 224#32
  ![1, 1, v1721.toNat, 224]
def k0_off577 (k0_t3 : Fin k0_t3_loop.trips) : Fin 4 → Nat :=
  let c1_i32_964 : BitVec 32 := 1#32
  let v1731 : Index := Scalar.indexCast c1_i32_964
  let c2_i32_965 : BitVec 32 := 2#32
  let v1732 : Index := Scalar.indexCast c2_i32_965
  let c0_i32_276 : BitVec 32 := 0#32
  let c1_i32_278 : BitVec 32 := 1#32
  let arg11 : BitVec 32 := Scf.iv c0_i32_276 c1_i32_278 k0_t3
  let v1733 : Index := Scalar.indexCast arg11
  let c224_966 : Index := 224#32
  ![1, 2, v1733.toNat, 224]
def k0_off578 (k0_t3 : Fin k0_t3_loop.trips) : Fin 4 → Nat :=
  let c1_i32_970 : BitVec 32 := 1#32
  let v1743 : Index := Scalar.indexCast c1_i32_970
  let c3_i32_971 : BitVec 32 := 3#32
  let v1744 : Index := Scalar.indexCast c3_i32_971
  let c0_i32_276 : BitVec 32 := 0#32
  let c1_i32_278 : BitVec 32 := 1#32
  let arg11 : BitVec 32 := Scf.iv c0_i32_276 c1_i32_278 k0_t3
  let v1745 : Index := Scalar.indexCast arg11
  let c224_972 : Index := 224#32
  ![1, 3, v1745.toNat, 224]
def k0_off579 (k0_t3 : Fin k0_t3_loop.trips) : Fin 4 → Nat :=
  let c1_i32_976 : BitVec 32 := 1#32
  let v1755 : Index := Scalar.indexCast c1_i32_976
  let c4_i32_977 : BitVec 32 := 4#32
  let v1756 : Index := Scalar.indexCast c4_i32_977
  let c0_i32_276 : BitVec 32 := 0#32
  let c1_i32_278 : BitVec 32 := 1#32
  let arg11 : BitVec 32 := Scf.iv c0_i32_276 c1_i32_278 k0_t3
  let v1757 : Index := Scalar.indexCast arg11
  let c224_978 : Index := 224#32
  ![1, 4, v1757.toNat, 224]
def k0_off580 (k0_t3 : Fin k0_t3_loop.trips) : Fin 4 → Nat :=
  let c1_i32_982 : BitVec 32 := 1#32
  let v1767 : Index := Scalar.indexCast c1_i32_982
  let c5_i32_983 : BitVec 32 := 5#32
  let v1768 : Index := Scalar.indexCast c5_i32_983
  let c0_i32_276 : BitVec 32 := 0#32
  let c1_i32_278 : BitVec 32 := 1#32
  let arg11 : BitVec 32 := Scf.iv c0_i32_276 c1_i32_278 k0_t3
  let v1769 : Index := Scalar.indexCast arg11
  let c224_984 : Index := 224#32
  ![1, 5, v1769.toNat, 224]
def k0_off581 (k0_t3 : Fin k0_t3_loop.trips) : Fin 4 → Nat :=
  let c1_i32_988 : BitVec 32 := 1#32
  let v1779 : Index := Scalar.indexCast c1_i32_988
  let c6_i32_989 : BitVec 32 := 6#32
  let v1780 : Index := Scalar.indexCast c6_i32_989
  let c0_i32_276 : BitVec 32 := 0#32
  let c1_i32_278 : BitVec 32 := 1#32
  let arg11 : BitVec 32 := Scf.iv c0_i32_276 c1_i32_278 k0_t3
  let v1781 : Index := Scalar.indexCast arg11
  let c224_990 : Index := 224#32
  ![1, 6, v1781.toNat, 224]
def k0_off582 (k0_t3 : Fin k0_t3_loop.trips) : Fin 4 → Nat :=
  let c1_i32_994 : BitVec 32 := 1#32
  let v1791 : Index := Scalar.indexCast c1_i32_994
  let c7_i32_995 : BitVec 32 := 7#32
  let v1792 : Index := Scalar.indexCast c7_i32_995
  let c0_i32_276 : BitVec 32 := 0#32
  let c1_i32_278 : BitVec 32 := 1#32
  let arg11 : BitVec 32 := Scf.iv c0_i32_276 c1_i32_278 k0_t3
  let v1793 : Index := Scalar.indexCast arg11
  let c224_996 : Index := 224#32
  ![1, 7, v1793.toNat, 224]
def k0_off583 (k0_t3 : Fin k0_t3_loop.trips) : Fin 2 → Nat :=
  let c0_i32_276 : BitVec 32 := 0#32
  let c1_i32_278 : BitVec 32 := 1#32
  let arg11 : BitVec 32 := Scf.iv c0_i32_276 c1_i32_278 k0_t3
  let v1803 : Index := Scalar.indexCast arg11
  let c240 : Index := 240#32
  ![v1803.toNat, 240]
def k0_off584 (k0_t3 : Fin k0_t3_loop.trips) : Fin 4 → Nat :=
  let c1_i32_1000 : BitVec 32 := 1#32
  let v1806 : Index := Scalar.indexCast c1_i32_1000
  let c0_i32_1001 : BitVec 32 := 0#32
  let v1807 : Index := Scalar.indexCast c0_i32_1001
  let c0_i32_276 : BitVec 32 := 0#32
  let c1_i32_278 : BitVec 32 := 1#32
  let arg11 : BitVec 32 := Scf.iv c0_i32_276 c1_i32_278 k0_t3
  let v1808 : Index := Scalar.indexCast arg11
  let c240_1002 : Index := 240#32
  ![1, 0, v1808.toNat, 240]
def k0_off585 (k0_t3 : Fin k0_t3_loop.trips) : Fin 4 → Nat :=
  let c1_i32_1006 : BitVec 32 := 1#32
  let v1818 : Index := Scalar.indexCast c1_i32_1006
  let c1_i32_1007 : BitVec 32 := 1#32
  let v1819 : Index := Scalar.indexCast c1_i32_1007
  let c0_i32_276 : BitVec 32 := 0#32
  let c1_i32_278 : BitVec 32 := 1#32
  let arg11 : BitVec 32 := Scf.iv c0_i32_276 c1_i32_278 k0_t3
  let v1820 : Index := Scalar.indexCast arg11
  let c240_1008 : Index := 240#32
  ![1, 1, v1820.toNat, 240]
def k0_off586 (k0_t3 : Fin k0_t3_loop.trips) : Fin 4 → Nat :=
  let c1_i32_1012 : BitVec 32 := 1#32
  let v1830 : Index := Scalar.indexCast c1_i32_1012
  let c2_i32_1013 : BitVec 32 := 2#32
  let v1831 : Index := Scalar.indexCast c2_i32_1013
  let c0_i32_276 : BitVec 32 := 0#32
  let c1_i32_278 : BitVec 32 := 1#32
  let arg11 : BitVec 32 := Scf.iv c0_i32_276 c1_i32_278 k0_t3
  let v1832 : Index := Scalar.indexCast arg11
  let c240_1014 : Index := 240#32
  ![1, 2, v1832.toNat, 240]
def k0_off587 (k0_t3 : Fin k0_t3_loop.trips) : Fin 4 → Nat :=
  let c1_i32_1018 : BitVec 32 := 1#32
  let v1842 : Index := Scalar.indexCast c1_i32_1018
  let c3_i32_1019 : BitVec 32 := 3#32
  let v1843 : Index := Scalar.indexCast c3_i32_1019
  let c0_i32_276 : BitVec 32 := 0#32
  let c1_i32_278 : BitVec 32 := 1#32
  let arg11 : BitVec 32 := Scf.iv c0_i32_276 c1_i32_278 k0_t3
  let v1844 : Index := Scalar.indexCast arg11
  let c240_1020 : Index := 240#32
  ![1, 3, v1844.toNat, 240]
def k0_off588 (k0_t3 : Fin k0_t3_loop.trips) : Fin 4 → Nat :=
  let c1_i32_1024 : BitVec 32 := 1#32
  let v1854 : Index := Scalar.indexCast c1_i32_1024
  let c4_i32_1025 : BitVec 32 := 4#32
  let v1855 : Index := Scalar.indexCast c4_i32_1025
  let c0_i32_276 : BitVec 32 := 0#32
  let c1_i32_278 : BitVec 32 := 1#32
  let arg11 : BitVec 32 := Scf.iv c0_i32_276 c1_i32_278 k0_t3
  let v1856 : Index := Scalar.indexCast arg11
  let c240_1026 : Index := 240#32
  ![1, 4, v1856.toNat, 240]
def k0_off589 (k0_t3 : Fin k0_t3_loop.trips) : Fin 4 → Nat :=
  let c1_i32_1030 : BitVec 32 := 1#32
  let v1866 : Index := Scalar.indexCast c1_i32_1030
  let c5_i32_1031 : BitVec 32 := 5#32
  let v1867 : Index := Scalar.indexCast c5_i32_1031
  let c0_i32_276 : BitVec 32 := 0#32
  let c1_i32_278 : BitVec 32 := 1#32
  let arg11 : BitVec 32 := Scf.iv c0_i32_276 c1_i32_278 k0_t3
  let v1868 : Index := Scalar.indexCast arg11
  let c240_1032 : Index := 240#32
  ![1, 5, v1868.toNat, 240]
def k0_off590 (k0_t3 : Fin k0_t3_loop.trips) : Fin 4 → Nat :=
  let c1_i32_1036 : BitVec 32 := 1#32
  let v1878 : Index := Scalar.indexCast c1_i32_1036
  let c6_i32_1037 : BitVec 32 := 6#32
  let v1879 : Index := Scalar.indexCast c6_i32_1037
  let c0_i32_276 : BitVec 32 := 0#32
  let c1_i32_278 : BitVec 32 := 1#32
  let arg11 : BitVec 32 := Scf.iv c0_i32_276 c1_i32_278 k0_t3
  let v1880 : Index := Scalar.indexCast arg11
  let c240_1038 : Index := 240#32
  ![1, 6, v1880.toNat, 240]
def k0_off591 (k0_t3 : Fin k0_t3_loop.trips) : Fin 4 → Nat :=
  let c1_i32_1042 : BitVec 32 := 1#32
  let v1890 : Index := Scalar.indexCast c1_i32_1042
  let c7_i32_1043 : BitVec 32 := 7#32
  let v1891 : Index := Scalar.indexCast c7_i32_1043
  let c0_i32_276 : BitVec 32 := 0#32
  let c1_i32_278 : BitVec 32 := 1#32
  let arg11 : BitVec 32 := Scf.iv c0_i32_276 c1_i32_278 k0_t3
  let v1892 : Index := Scalar.indexCast arg11
  let c240_1044 : Index := 240#32
  ![1, 7, v1892.toNat, 240]
def k0_off592 (k0_t3 : Fin k0_t3_loop.trips) : Fin 2 → Nat :=
  let c0_i32_276 : BitVec 32 := 0#32
  let c1_i32_278 : BitVec 32 := 1#32
  let arg11 : BitVec 32 := Scf.iv c0_i32_276 c1_i32_278 k0_t3
  let v1902 : Index := Scalar.indexCast arg11
  let c256 : Index := 256#32
  ![v1902.toNat, 256]
def k0_off593 (k0_t3 : Fin k0_t3_loop.trips) : Fin 4 → Nat :=
  let c1_i32_1048 : BitVec 32 := 1#32
  let v1905 : Index := Scalar.indexCast c1_i32_1048
  let c0_i32_1049 : BitVec 32 := 0#32
  let v1906 : Index := Scalar.indexCast c0_i32_1049
  let c0_i32_276 : BitVec 32 := 0#32
  let c1_i32_278 : BitVec 32 := 1#32
  let arg11 : BitVec 32 := Scf.iv c0_i32_276 c1_i32_278 k0_t3
  let v1907 : Index := Scalar.indexCast arg11
  let c256_1050 : Index := 256#32
  ![1, 0, v1907.toNat, 256]
def k0_off594 (k0_t3 : Fin k0_t3_loop.trips) : Fin 4 → Nat :=
  let c1_i32_1054 : BitVec 32 := 1#32
  let v1917 : Index := Scalar.indexCast c1_i32_1054
  let c1_i32_1055 : BitVec 32 := 1#32
  let v1918 : Index := Scalar.indexCast c1_i32_1055
  let c0_i32_276 : BitVec 32 := 0#32
  let c1_i32_278 : BitVec 32 := 1#32
  let arg11 : BitVec 32 := Scf.iv c0_i32_276 c1_i32_278 k0_t3
  let v1919 : Index := Scalar.indexCast arg11
  let c256_1056 : Index := 256#32
  ![1, 1, v1919.toNat, 256]
def k0_off595 (k0_t3 : Fin k0_t3_loop.trips) : Fin 4 → Nat :=
  let c1_i32_1060 : BitVec 32 := 1#32
  let v1929 : Index := Scalar.indexCast c1_i32_1060
  let c2_i32_1061 : BitVec 32 := 2#32
  let v1930 : Index := Scalar.indexCast c2_i32_1061
  let c0_i32_276 : BitVec 32 := 0#32
  let c1_i32_278 : BitVec 32 := 1#32
  let arg11 : BitVec 32 := Scf.iv c0_i32_276 c1_i32_278 k0_t3
  let v1931 : Index := Scalar.indexCast arg11
  let c256_1062 : Index := 256#32
  ![1, 2, v1931.toNat, 256]
def k0_off596 (k0_t3 : Fin k0_t3_loop.trips) : Fin 4 → Nat :=
  let c1_i32_1066 : BitVec 32 := 1#32
  let v1941 : Index := Scalar.indexCast c1_i32_1066
  let c3_i32_1067 : BitVec 32 := 3#32
  let v1942 : Index := Scalar.indexCast c3_i32_1067
  let c0_i32_276 : BitVec 32 := 0#32
  let c1_i32_278 : BitVec 32 := 1#32
  let arg11 : BitVec 32 := Scf.iv c0_i32_276 c1_i32_278 k0_t3
  let v1943 : Index := Scalar.indexCast arg11
  let c256_1068 : Index := 256#32
  ![1, 3, v1943.toNat, 256]
def k0_off597 (k0_t3 : Fin k0_t3_loop.trips) : Fin 4 → Nat :=
  let c1_i32_1072 : BitVec 32 := 1#32
  let v1953 : Index := Scalar.indexCast c1_i32_1072
  let c4_i32_1073 : BitVec 32 := 4#32
  let v1954 : Index := Scalar.indexCast c4_i32_1073
  let c0_i32_276 : BitVec 32 := 0#32
  let c1_i32_278 : BitVec 32 := 1#32
  let arg11 : BitVec 32 := Scf.iv c0_i32_276 c1_i32_278 k0_t3
  let v1955 : Index := Scalar.indexCast arg11
  let c256_1074 : Index := 256#32
  ![1, 4, v1955.toNat, 256]
def k0_off598 (k0_t3 : Fin k0_t3_loop.trips) : Fin 4 → Nat :=
  let c1_i32_1078 : BitVec 32 := 1#32
  let v1965 : Index := Scalar.indexCast c1_i32_1078
  let c5_i32_1079 : BitVec 32 := 5#32
  let v1966 : Index := Scalar.indexCast c5_i32_1079
  let c0_i32_276 : BitVec 32 := 0#32
  let c1_i32_278 : BitVec 32 := 1#32
  let arg11 : BitVec 32 := Scf.iv c0_i32_276 c1_i32_278 k0_t3
  let v1967 : Index := Scalar.indexCast arg11
  let c256_1080 : Index := 256#32
  ![1, 5, v1967.toNat, 256]
def k0_off599 (k0_t3 : Fin k0_t3_loop.trips) : Fin 4 → Nat :=
  let c1_i32_1084 : BitVec 32 := 1#32
  let v1977 : Index := Scalar.indexCast c1_i32_1084
  let c6_i32_1085 : BitVec 32 := 6#32
  let v1978 : Index := Scalar.indexCast c6_i32_1085
  let c0_i32_276 : BitVec 32 := 0#32
  let c1_i32_278 : BitVec 32 := 1#32
  let arg11 : BitVec 32 := Scf.iv c0_i32_276 c1_i32_278 k0_t3
  let v1979 : Index := Scalar.indexCast arg11
  let c256_1086 : Index := 256#32
  ![1, 6, v1979.toNat, 256]
def k0_off600 (k0_t3 : Fin k0_t3_loop.trips) : Fin 4 → Nat :=
  let c1_i32_1090 : BitVec 32 := 1#32
  let v1989 : Index := Scalar.indexCast c1_i32_1090
  let c7_i32_1091 : BitVec 32 := 7#32
  let v1990 : Index := Scalar.indexCast c7_i32_1091
  let c0_i32_276 : BitVec 32 := 0#32
  let c1_i32_278 : BitVec 32 := 1#32
  let arg11 : BitVec 32 := Scf.iv c0_i32_276 c1_i32_278 k0_t3
  let v1991 : Index := Scalar.indexCast arg11
  let c256_1092 : Index := 256#32
  ![1, 7, v1991.toNat, 256]
def k0_off601 (k0_t3 : Fin k0_t3_loop.trips) : Fin 2 → Nat :=
  let c0_i32_276 : BitVec 32 := 0#32
  let c1_i32_278 : BitVec 32 := 1#32
  let arg11 : BitVec 32 := Scf.iv c0_i32_276 c1_i32_278 k0_t3
  let v2001 : Index := Scalar.indexCast arg11
  let c272 : Index := 272#32
  ![v2001.toNat, 272]
def k0_off602 (k0_t3 : Fin k0_t3_loop.trips) : Fin 4 → Nat :=
  let c1_i32_1096 : BitVec 32 := 1#32
  let v2004 : Index := Scalar.indexCast c1_i32_1096
  let c0_i32_1097 : BitVec 32 := 0#32
  let v2005 : Index := Scalar.indexCast c0_i32_1097
  let c0_i32_276 : BitVec 32 := 0#32
  let c1_i32_278 : BitVec 32 := 1#32
  let arg11 : BitVec 32 := Scf.iv c0_i32_276 c1_i32_278 k0_t3
  let v2006 : Index := Scalar.indexCast arg11
  let c272_1098 : Index := 272#32
  ![1, 0, v2006.toNat, 272]
def k0_off603 (k0_t3 : Fin k0_t3_loop.trips) : Fin 4 → Nat :=
  let c1_i32_1102 : BitVec 32 := 1#32
  let v2016 : Index := Scalar.indexCast c1_i32_1102
  let c1_i32_1103 : BitVec 32 := 1#32
  let v2017 : Index := Scalar.indexCast c1_i32_1103
  let c0_i32_276 : BitVec 32 := 0#32
  let c1_i32_278 : BitVec 32 := 1#32
  let arg11 : BitVec 32 := Scf.iv c0_i32_276 c1_i32_278 k0_t3
  let v2018 : Index := Scalar.indexCast arg11
  let c272_1104 : Index := 272#32
  ![1, 1, v2018.toNat, 272]
def k0_off604 (k0_t3 : Fin k0_t3_loop.trips) : Fin 4 → Nat :=
  let c1_i32_1108 : BitVec 32 := 1#32
  let v2028 : Index := Scalar.indexCast c1_i32_1108
  let c2_i32_1109 : BitVec 32 := 2#32
  let v2029 : Index := Scalar.indexCast c2_i32_1109
  let c0_i32_276 : BitVec 32 := 0#32
  let c1_i32_278 : BitVec 32 := 1#32
  let arg11 : BitVec 32 := Scf.iv c0_i32_276 c1_i32_278 k0_t3
  let v2030 : Index := Scalar.indexCast arg11
  let c272_1110 : Index := 272#32
  ![1, 2, v2030.toNat, 272]
def k0_off605 (k0_t3 : Fin k0_t3_loop.trips) : Fin 4 → Nat :=
  let c1_i32_1114 : BitVec 32 := 1#32
  let v2040 : Index := Scalar.indexCast c1_i32_1114
  let c3_i32_1115 : BitVec 32 := 3#32
  let v2041 : Index := Scalar.indexCast c3_i32_1115
  let c0_i32_276 : BitVec 32 := 0#32
  let c1_i32_278 : BitVec 32 := 1#32
  let arg11 : BitVec 32 := Scf.iv c0_i32_276 c1_i32_278 k0_t3
  let v2042 : Index := Scalar.indexCast arg11
  let c272_1116 : Index := 272#32
  ![1, 3, v2042.toNat, 272]
def k0_off606 (k0_t3 : Fin k0_t3_loop.trips) : Fin 4 → Nat :=
  let c1_i32_1120 : BitVec 32 := 1#32
  let v2052 : Index := Scalar.indexCast c1_i32_1120
  let c4_i32_1121 : BitVec 32 := 4#32
  let v2053 : Index := Scalar.indexCast c4_i32_1121
  let c0_i32_276 : BitVec 32 := 0#32
  let c1_i32_278 : BitVec 32 := 1#32
  let arg11 : BitVec 32 := Scf.iv c0_i32_276 c1_i32_278 k0_t3
  let v2054 : Index := Scalar.indexCast arg11
  let c272_1122 : Index := 272#32
  ![1, 4, v2054.toNat, 272]
def k0_off607 (k0_t3 : Fin k0_t3_loop.trips) : Fin 4 → Nat :=
  let c1_i32_1126 : BitVec 32 := 1#32
  let v2064 : Index := Scalar.indexCast c1_i32_1126
  let c5_i32_1127 : BitVec 32 := 5#32
  let v2065 : Index := Scalar.indexCast c5_i32_1127
  let c0_i32_276 : BitVec 32 := 0#32
  let c1_i32_278 : BitVec 32 := 1#32
  let arg11 : BitVec 32 := Scf.iv c0_i32_276 c1_i32_278 k0_t3
  let v2066 : Index := Scalar.indexCast arg11
  let c272_1128 : Index := 272#32
  ![1, 5, v2066.toNat, 272]
def k0_off608 (k0_t3 : Fin k0_t3_loop.trips) : Fin 4 → Nat :=
  let c1_i32_1132 : BitVec 32 := 1#32
  let v2076 : Index := Scalar.indexCast c1_i32_1132
  let c6_i32_1133 : BitVec 32 := 6#32
  let v2077 : Index := Scalar.indexCast c6_i32_1133
  let c0_i32_276 : BitVec 32 := 0#32
  let c1_i32_278 : BitVec 32 := 1#32
  let arg11 : BitVec 32 := Scf.iv c0_i32_276 c1_i32_278 k0_t3
  let v2078 : Index := Scalar.indexCast arg11
  let c272_1134 : Index := 272#32
  ![1, 6, v2078.toNat, 272]
def k0_off609 (k0_t3 : Fin k0_t3_loop.trips) : Fin 4 → Nat :=
  let c1_i32_1138 : BitVec 32 := 1#32
  let v2088 : Index := Scalar.indexCast c1_i32_1138
  let c7_i32_1139 : BitVec 32 := 7#32
  let v2089 : Index := Scalar.indexCast c7_i32_1139
  let c0_i32_276 : BitVec 32 := 0#32
  let c1_i32_278 : BitVec 32 := 1#32
  let arg11 : BitVec 32 := Scf.iv c0_i32_276 c1_i32_278 k0_t3
  let v2090 : Index := Scalar.indexCast arg11
  let c272_1140 : Index := 272#32
  ![1, 7, v2090.toNat, 272]
def k0_off610 (k0_t3 : Fin k0_t3_loop.trips) : Fin 2 → Nat :=
  let c0_i32_276 : BitVec 32 := 0#32
  let c1_i32_278 : BitVec 32 := 1#32
  let arg11 : BitVec 32 := Scf.iv c0_i32_276 c1_i32_278 k0_t3
  let v2100 : Index := Scalar.indexCast arg11
  let c288 : Index := 288#32
  ![v2100.toNat, 288]
def k0_off611 (k0_t3 : Fin k0_t3_loop.trips) : Fin 4 → Nat :=
  let c1_i32_1144 : BitVec 32 := 1#32
  let v2103 : Index := Scalar.indexCast c1_i32_1144
  let c0_i32_1145 : BitVec 32 := 0#32
  let v2104 : Index := Scalar.indexCast c0_i32_1145
  let c0_i32_276 : BitVec 32 := 0#32
  let c1_i32_278 : BitVec 32 := 1#32
  let arg11 : BitVec 32 := Scf.iv c0_i32_276 c1_i32_278 k0_t3
  let v2105 : Index := Scalar.indexCast arg11
  let c288_1146 : Index := 288#32
  ![1, 0, v2105.toNat, 288]
def k0_off612 (k0_t3 : Fin k0_t3_loop.trips) : Fin 4 → Nat :=
  let c1_i32_1150 : BitVec 32 := 1#32
  let v2115 : Index := Scalar.indexCast c1_i32_1150
  let c1_i32_1151 : BitVec 32 := 1#32
  let v2116 : Index := Scalar.indexCast c1_i32_1151
  let c0_i32_276 : BitVec 32 := 0#32
  let c1_i32_278 : BitVec 32 := 1#32
  let arg11 : BitVec 32 := Scf.iv c0_i32_276 c1_i32_278 k0_t3
  let v2117 : Index := Scalar.indexCast arg11
  let c288_1152 : Index := 288#32
  ![1, 1, v2117.toNat, 288]
def k0_off613 (k0_t3 : Fin k0_t3_loop.trips) : Fin 4 → Nat :=
  let c1_i32_1156 : BitVec 32 := 1#32
  let v2127 : Index := Scalar.indexCast c1_i32_1156
  let c2_i32_1157 : BitVec 32 := 2#32
  let v2128 : Index := Scalar.indexCast c2_i32_1157
  let c0_i32_276 : BitVec 32 := 0#32
  let c1_i32_278 : BitVec 32 := 1#32
  let arg11 : BitVec 32 := Scf.iv c0_i32_276 c1_i32_278 k0_t3
  let v2129 : Index := Scalar.indexCast arg11
  let c288_1158 : Index := 288#32
  ![1, 2, v2129.toNat, 288]
def k0_off614 (k0_t3 : Fin k0_t3_loop.trips) : Fin 4 → Nat :=
  let c1_i32_1162 : BitVec 32 := 1#32
  let v2139 : Index := Scalar.indexCast c1_i32_1162
  let c3_i32_1163 : BitVec 32 := 3#32
  let v2140 : Index := Scalar.indexCast c3_i32_1163
  let c0_i32_276 : BitVec 32 := 0#32
  let c1_i32_278 : BitVec 32 := 1#32
  let arg11 : BitVec 32 := Scf.iv c0_i32_276 c1_i32_278 k0_t3
  let v2141 : Index := Scalar.indexCast arg11
  let c288_1164 : Index := 288#32
  ![1, 3, v2141.toNat, 288]
def k0_off615 (k0_t3 : Fin k0_t3_loop.trips) : Fin 4 → Nat :=
  let c1_i32_1168 : BitVec 32 := 1#32
  let v2151 : Index := Scalar.indexCast c1_i32_1168
  let c4_i32_1169 : BitVec 32 := 4#32
  let v2152 : Index := Scalar.indexCast c4_i32_1169
  let c0_i32_276 : BitVec 32 := 0#32
  let c1_i32_278 : BitVec 32 := 1#32
  let arg11 : BitVec 32 := Scf.iv c0_i32_276 c1_i32_278 k0_t3
  let v2153 : Index := Scalar.indexCast arg11
  let c288_1170 : Index := 288#32
  ![1, 4, v2153.toNat, 288]
def k0_off616 (k0_t3 : Fin k0_t3_loop.trips) : Fin 4 → Nat :=
  let c1_i32_1174 : BitVec 32 := 1#32
  let v2163 : Index := Scalar.indexCast c1_i32_1174
  let c5_i32_1175 : BitVec 32 := 5#32
  let v2164 : Index := Scalar.indexCast c5_i32_1175
  let c0_i32_276 : BitVec 32 := 0#32
  let c1_i32_278 : BitVec 32 := 1#32
  let arg11 : BitVec 32 := Scf.iv c0_i32_276 c1_i32_278 k0_t3
  let v2165 : Index := Scalar.indexCast arg11
  let c288_1176 : Index := 288#32
  ![1, 5, v2165.toNat, 288]
def k0_off617 (k0_t3 : Fin k0_t3_loop.trips) : Fin 4 → Nat :=
  let c1_i32_1180 : BitVec 32 := 1#32
  let v2175 : Index := Scalar.indexCast c1_i32_1180
  let c6_i32_1181 : BitVec 32 := 6#32
  let v2176 : Index := Scalar.indexCast c6_i32_1181
  let c0_i32_276 : BitVec 32 := 0#32
  let c1_i32_278 : BitVec 32 := 1#32
  let arg11 : BitVec 32 := Scf.iv c0_i32_276 c1_i32_278 k0_t3
  let v2177 : Index := Scalar.indexCast arg11
  let c288_1182 : Index := 288#32
  ![1, 6, v2177.toNat, 288]
def k0_off618 (k0_t3 : Fin k0_t3_loop.trips) : Fin 4 → Nat :=
  let c1_i32_1186 : BitVec 32 := 1#32
  let v2187 : Index := Scalar.indexCast c1_i32_1186
  let c7_i32_1187 : BitVec 32 := 7#32
  let v2188 : Index := Scalar.indexCast c7_i32_1187
  let c0_i32_276 : BitVec 32 := 0#32
  let c1_i32_278 : BitVec 32 := 1#32
  let arg11 : BitVec 32 := Scf.iv c0_i32_276 c1_i32_278 k0_t3
  let v2189 : Index := Scalar.indexCast arg11
  let c288_1188 : Index := 288#32
  ![1, 7, v2189.toNat, 288]
def k0_off619 (k0_t3 : Fin k0_t3_loop.trips) : Fin 2 → Nat :=
  let c0_i32_276 : BitVec 32 := 0#32
  let c1_i32_278 : BitVec 32 := 1#32
  let arg11 : BitVec 32 := Scf.iv c0_i32_276 c1_i32_278 k0_t3
  let v2199 : Index := Scalar.indexCast arg11
  let c304 : Index := 304#32
  ![v2199.toNat, 304]
def k0_off620 (k0_t3 : Fin k0_t3_loop.trips) : Fin 4 → Nat :=
  let c1_i32_1192 : BitVec 32 := 1#32
  let v2202 : Index := Scalar.indexCast c1_i32_1192
  let c0_i32_1193 : BitVec 32 := 0#32
  let v2203 : Index := Scalar.indexCast c0_i32_1193
  let c0_i32_276 : BitVec 32 := 0#32
  let c1_i32_278 : BitVec 32 := 1#32
  let arg11 : BitVec 32 := Scf.iv c0_i32_276 c1_i32_278 k0_t3
  let v2204 : Index := Scalar.indexCast arg11
  let c304_1194 : Index := 304#32
  ![1, 0, v2204.toNat, 304]
def k0_off621 (k0_t3 : Fin k0_t3_loop.trips) : Fin 4 → Nat :=
  let c1_i32_1198 : BitVec 32 := 1#32
  let v2214 : Index := Scalar.indexCast c1_i32_1198
  let c1_i32_1199 : BitVec 32 := 1#32
  let v2215 : Index := Scalar.indexCast c1_i32_1199
  let c0_i32_276 : BitVec 32 := 0#32
  let c1_i32_278 : BitVec 32 := 1#32
  let arg11 : BitVec 32 := Scf.iv c0_i32_276 c1_i32_278 k0_t3
  let v2216 : Index := Scalar.indexCast arg11
  let c304_1200 : Index := 304#32
  ![1, 1, v2216.toNat, 304]
def k0_off622 (k0_t3 : Fin k0_t3_loop.trips) : Fin 4 → Nat :=
  let c1_i32_1204 : BitVec 32 := 1#32
  let v2226 : Index := Scalar.indexCast c1_i32_1204
  let c2_i32_1205 : BitVec 32 := 2#32
  let v2227 : Index := Scalar.indexCast c2_i32_1205
  let c0_i32_276 : BitVec 32 := 0#32
  let c1_i32_278 : BitVec 32 := 1#32
  let arg11 : BitVec 32 := Scf.iv c0_i32_276 c1_i32_278 k0_t3
  let v2228 : Index := Scalar.indexCast arg11
  let c304_1206 : Index := 304#32
  ![1, 2, v2228.toNat, 304]
def k0_off623 (k0_t3 : Fin k0_t3_loop.trips) : Fin 4 → Nat :=
  let c1_i32_1210 : BitVec 32 := 1#32
  let v2238 : Index := Scalar.indexCast c1_i32_1210
  let c3_i32_1211 : BitVec 32 := 3#32
  let v2239 : Index := Scalar.indexCast c3_i32_1211
  let c0_i32_276 : BitVec 32 := 0#32
  let c1_i32_278 : BitVec 32 := 1#32
  let arg11 : BitVec 32 := Scf.iv c0_i32_276 c1_i32_278 k0_t3
  let v2240 : Index := Scalar.indexCast arg11
  let c304_1212 : Index := 304#32
  ![1, 3, v2240.toNat, 304]
def k0_off624 (k0_t3 : Fin k0_t3_loop.trips) : Fin 4 → Nat :=
  let c1_i32_1216 : BitVec 32 := 1#32
  let v2250 : Index := Scalar.indexCast c1_i32_1216
  let c4_i32_1217 : BitVec 32 := 4#32
  let v2251 : Index := Scalar.indexCast c4_i32_1217
  let c0_i32_276 : BitVec 32 := 0#32
  let c1_i32_278 : BitVec 32 := 1#32
  let arg11 : BitVec 32 := Scf.iv c0_i32_276 c1_i32_278 k0_t3
  let v2252 : Index := Scalar.indexCast arg11
  let c304_1218 : Index := 304#32
  ![1, 4, v2252.toNat, 304]
def k0_off625 (k0_t3 : Fin k0_t3_loop.trips) : Fin 4 → Nat :=
  let c1_i32_1222 : BitVec 32 := 1#32
  let v2262 : Index := Scalar.indexCast c1_i32_1222
  let c5_i32_1223 : BitVec 32 := 5#32
  let v2263 : Index := Scalar.indexCast c5_i32_1223
  let c0_i32_276 : BitVec 32 := 0#32
  let c1_i32_278 : BitVec 32 := 1#32
  let arg11 : BitVec 32 := Scf.iv c0_i32_276 c1_i32_278 k0_t3
  let v2264 : Index := Scalar.indexCast arg11
  let c304_1224 : Index := 304#32
  ![1, 5, v2264.toNat, 304]
def k0_off626 (k0_t3 : Fin k0_t3_loop.trips) : Fin 4 → Nat :=
  let c1_i32_1228 : BitVec 32 := 1#32
  let v2274 : Index := Scalar.indexCast c1_i32_1228
  let c6_i32_1229 : BitVec 32 := 6#32
  let v2275 : Index := Scalar.indexCast c6_i32_1229
  let c0_i32_276 : BitVec 32 := 0#32
  let c1_i32_278 : BitVec 32 := 1#32
  let arg11 : BitVec 32 := Scf.iv c0_i32_276 c1_i32_278 k0_t3
  let v2276 : Index := Scalar.indexCast arg11
  let c304_1230 : Index := 304#32
  ![1, 6, v2276.toNat, 304]
def k0_off627 (k0_t3 : Fin k0_t3_loop.trips) : Fin 4 → Nat :=
  let c1_i32_1234 : BitVec 32 := 1#32
  let v2286 : Index := Scalar.indexCast c1_i32_1234
  let c7_i32_1235 : BitVec 32 := 7#32
  let v2287 : Index := Scalar.indexCast c7_i32_1235
  let c0_i32_276 : BitVec 32 := 0#32
  let c1_i32_278 : BitVec 32 := 1#32
  let arg11 : BitVec 32 := Scf.iv c0_i32_276 c1_i32_278 k0_t3
  let v2288 : Index := Scalar.indexCast arg11
  let c304_1236 : Index := 304#32
  ![1, 7, v2288.toNat, 304]
def k0_off628 (k0_t3 : Fin k0_t3_loop.trips) : Fin 2 → Nat :=
  let c0_i32_276 : BitVec 32 := 0#32
  let c1_i32_278 : BitVec 32 := 1#32
  let arg11 : BitVec 32 := Scf.iv c0_i32_276 c1_i32_278 k0_t3
  let v2298 : Index := Scalar.indexCast arg11
  let c320 : Index := 320#32
  ![v2298.toNat, 320]
def k0_off629 (k0_t3 : Fin k0_t3_loop.trips) : Fin 4 → Nat :=
  let c1_i32_1240 : BitVec 32 := 1#32
  let v2301 : Index := Scalar.indexCast c1_i32_1240
  let c0_i32_1241 : BitVec 32 := 0#32
  let v2302 : Index := Scalar.indexCast c0_i32_1241
  let c0_i32_276 : BitVec 32 := 0#32
  let c1_i32_278 : BitVec 32 := 1#32
  let arg11 : BitVec 32 := Scf.iv c0_i32_276 c1_i32_278 k0_t3
  let v2303 : Index := Scalar.indexCast arg11
  let c320_1242 : Index := 320#32
  ![1, 0, v2303.toNat, 320]
def k0_off630 (k0_t3 : Fin k0_t3_loop.trips) : Fin 4 → Nat :=
  let c1_i32_1246 : BitVec 32 := 1#32
  let v2313 : Index := Scalar.indexCast c1_i32_1246
  let c1_i32_1247 : BitVec 32 := 1#32
  let v2314 : Index := Scalar.indexCast c1_i32_1247
  let c0_i32_276 : BitVec 32 := 0#32
  let c1_i32_278 : BitVec 32 := 1#32
  let arg11 : BitVec 32 := Scf.iv c0_i32_276 c1_i32_278 k0_t3
  let v2315 : Index := Scalar.indexCast arg11
  let c320_1248 : Index := 320#32
  ![1, 1, v2315.toNat, 320]
def k0_off631 (k0_t3 : Fin k0_t3_loop.trips) : Fin 4 → Nat :=
  let c1_i32_1252 : BitVec 32 := 1#32
  let v2325 : Index := Scalar.indexCast c1_i32_1252
  let c2_i32_1253 : BitVec 32 := 2#32
  let v2326 : Index := Scalar.indexCast c2_i32_1253
  let c0_i32_276 : BitVec 32 := 0#32
  let c1_i32_278 : BitVec 32 := 1#32
  let arg11 : BitVec 32 := Scf.iv c0_i32_276 c1_i32_278 k0_t3
  let v2327 : Index := Scalar.indexCast arg11
  let c320_1254 : Index := 320#32
  ![1, 2, v2327.toNat, 320]
def k0_off632 (k0_t3 : Fin k0_t3_loop.trips) : Fin 4 → Nat :=
  let c1_i32_1258 : BitVec 32 := 1#32
  let v2337 : Index := Scalar.indexCast c1_i32_1258
  let c3_i32_1259 : BitVec 32 := 3#32
  let v2338 : Index := Scalar.indexCast c3_i32_1259
  let c0_i32_276 : BitVec 32 := 0#32
  let c1_i32_278 : BitVec 32 := 1#32
  let arg11 : BitVec 32 := Scf.iv c0_i32_276 c1_i32_278 k0_t3
  let v2339 : Index := Scalar.indexCast arg11
  let c320_1260 : Index := 320#32
  ![1, 3, v2339.toNat, 320]
def k0_off633 (k0_t3 : Fin k0_t3_loop.trips) : Fin 4 → Nat :=
  let c1_i32_1264 : BitVec 32 := 1#32
  let v2349 : Index := Scalar.indexCast c1_i32_1264
  let c4_i32_1265 : BitVec 32 := 4#32
  let v2350 : Index := Scalar.indexCast c4_i32_1265
  let c0_i32_276 : BitVec 32 := 0#32
  let c1_i32_278 : BitVec 32 := 1#32
  let arg11 : BitVec 32 := Scf.iv c0_i32_276 c1_i32_278 k0_t3
  let v2351 : Index := Scalar.indexCast arg11
  let c320_1266 : Index := 320#32
  ![1, 4, v2351.toNat, 320]
def k0_off634 (k0_t3 : Fin k0_t3_loop.trips) : Fin 4 → Nat :=
  let c1_i32_1270 : BitVec 32 := 1#32
  let v2361 : Index := Scalar.indexCast c1_i32_1270
  let c5_i32_1271 : BitVec 32 := 5#32
  let v2362 : Index := Scalar.indexCast c5_i32_1271
  let c0_i32_276 : BitVec 32 := 0#32
  let c1_i32_278 : BitVec 32 := 1#32
  let arg11 : BitVec 32 := Scf.iv c0_i32_276 c1_i32_278 k0_t3
  let v2363 : Index := Scalar.indexCast arg11
  let c320_1272 : Index := 320#32
  ![1, 5, v2363.toNat, 320]
def k0_off635 (k0_t3 : Fin k0_t3_loop.trips) : Fin 4 → Nat :=
  let c1_i32_1276 : BitVec 32 := 1#32
  let v2373 : Index := Scalar.indexCast c1_i32_1276
  let c6_i32_1277 : BitVec 32 := 6#32
  let v2374 : Index := Scalar.indexCast c6_i32_1277
  let c0_i32_276 : BitVec 32 := 0#32
  let c1_i32_278 : BitVec 32 := 1#32
  let arg11 : BitVec 32 := Scf.iv c0_i32_276 c1_i32_278 k0_t3
  let v2375 : Index := Scalar.indexCast arg11
  let c320_1278 : Index := 320#32
  ![1, 6, v2375.toNat, 320]
def k0_off636 (k0_t3 : Fin k0_t3_loop.trips) : Fin 4 → Nat :=
  let c1_i32_1282 : BitVec 32 := 1#32
  let v2385 : Index := Scalar.indexCast c1_i32_1282
  let c7_i32_1283 : BitVec 32 := 7#32
  let v2386 : Index := Scalar.indexCast c7_i32_1283
  let c0_i32_276 : BitVec 32 := 0#32
  let c1_i32_278 : BitVec 32 := 1#32
  let arg11 : BitVec 32 := Scf.iv c0_i32_276 c1_i32_278 k0_t3
  let v2387 : Index := Scalar.indexCast arg11
  let c320_1284 : Index := 320#32
  ![1, 7, v2387.toNat, 320]
def k0_off637 (k0_t3 : Fin k0_t3_loop.trips) : Fin 2 → Nat :=
  let c0_i32_276 : BitVec 32 := 0#32
  let c1_i32_278 : BitVec 32 := 1#32
  let arg11 : BitVec 32 := Scf.iv c0_i32_276 c1_i32_278 k0_t3
  let v2397 : Index := Scalar.indexCast arg11
  let c336 : Index := 336#32
  ![v2397.toNat, 336]
def k0_off638 (k0_t3 : Fin k0_t3_loop.trips) : Fin 4 → Nat :=
  let c1_i32_1288 : BitVec 32 := 1#32
  let v2400 : Index := Scalar.indexCast c1_i32_1288
  let c0_i32_1289 : BitVec 32 := 0#32
  let v2401 : Index := Scalar.indexCast c0_i32_1289
  let c0_i32_276 : BitVec 32 := 0#32
  let c1_i32_278 : BitVec 32 := 1#32
  let arg11 : BitVec 32 := Scf.iv c0_i32_276 c1_i32_278 k0_t3
  let v2402 : Index := Scalar.indexCast arg11
  let c336_1290 : Index := 336#32
  ![1, 0, v2402.toNat, 336]
def k0_off639 (k0_t3 : Fin k0_t3_loop.trips) : Fin 4 → Nat :=
  let c1_i32_1294 : BitVec 32 := 1#32
  let v2412 : Index := Scalar.indexCast c1_i32_1294
  let c1_i32_1295 : BitVec 32 := 1#32
  let v2413 : Index := Scalar.indexCast c1_i32_1295
  let c0_i32_276 : BitVec 32 := 0#32
  let c1_i32_278 : BitVec 32 := 1#32
  let arg11 : BitVec 32 := Scf.iv c0_i32_276 c1_i32_278 k0_t3
  let v2414 : Index := Scalar.indexCast arg11
  let c336_1296 : Index := 336#32
  ![1, 1, v2414.toNat, 336]
def k0_off640 (k0_t3 : Fin k0_t3_loop.trips) : Fin 4 → Nat :=
  let c1_i32_1300 : BitVec 32 := 1#32
  let v2424 : Index := Scalar.indexCast c1_i32_1300
  let c2_i32_1301 : BitVec 32 := 2#32
  let v2425 : Index := Scalar.indexCast c2_i32_1301
  let c0_i32_276 : BitVec 32 := 0#32
  let c1_i32_278 : BitVec 32 := 1#32
  let arg11 : BitVec 32 := Scf.iv c0_i32_276 c1_i32_278 k0_t3
  let v2426 : Index := Scalar.indexCast arg11
  let c336_1302 : Index := 336#32
  ![1, 2, v2426.toNat, 336]
def k0_off641 (k0_t3 : Fin k0_t3_loop.trips) : Fin 4 → Nat :=
  let c1_i32_1306 : BitVec 32 := 1#32
  let v2436 : Index := Scalar.indexCast c1_i32_1306
  let c3_i32_1307 : BitVec 32 := 3#32
  let v2437 : Index := Scalar.indexCast c3_i32_1307
  let c0_i32_276 : BitVec 32 := 0#32
  let c1_i32_278 : BitVec 32 := 1#32
  let arg11 : BitVec 32 := Scf.iv c0_i32_276 c1_i32_278 k0_t3
  let v2438 : Index := Scalar.indexCast arg11
  let c336_1308 : Index := 336#32
  ![1, 3, v2438.toNat, 336]
def k0_off642 (k0_t3 : Fin k0_t3_loop.trips) : Fin 4 → Nat :=
  let c1_i32_1312 : BitVec 32 := 1#32
  let v2448 : Index := Scalar.indexCast c1_i32_1312
  let c4_i32_1313 : BitVec 32 := 4#32
  let v2449 : Index := Scalar.indexCast c4_i32_1313
  let c0_i32_276 : BitVec 32 := 0#32
  let c1_i32_278 : BitVec 32 := 1#32
  let arg11 : BitVec 32 := Scf.iv c0_i32_276 c1_i32_278 k0_t3
  let v2450 : Index := Scalar.indexCast arg11
  let c336_1314 : Index := 336#32
  ![1, 4, v2450.toNat, 336]
def k0_off643 (k0_t3 : Fin k0_t3_loop.trips) : Fin 4 → Nat :=
  let c1_i32_1318 : BitVec 32 := 1#32
  let v2460 : Index := Scalar.indexCast c1_i32_1318
  let c5_i32_1319 : BitVec 32 := 5#32
  let v2461 : Index := Scalar.indexCast c5_i32_1319
  let c0_i32_276 : BitVec 32 := 0#32
  let c1_i32_278 : BitVec 32 := 1#32
  let arg11 : BitVec 32 := Scf.iv c0_i32_276 c1_i32_278 k0_t3
  let v2462 : Index := Scalar.indexCast arg11
  let c336_1320 : Index := 336#32
  ![1, 5, v2462.toNat, 336]
def k0_off644 (k0_t3 : Fin k0_t3_loop.trips) : Fin 4 → Nat :=
  let c1_i32_1324 : BitVec 32 := 1#32
  let v2472 : Index := Scalar.indexCast c1_i32_1324
  let c6_i32_1325 : BitVec 32 := 6#32
  let v2473 : Index := Scalar.indexCast c6_i32_1325
  let c0_i32_276 : BitVec 32 := 0#32
  let c1_i32_278 : BitVec 32 := 1#32
  let arg11 : BitVec 32 := Scf.iv c0_i32_276 c1_i32_278 k0_t3
  let v2474 : Index := Scalar.indexCast arg11
  let c336_1326 : Index := 336#32
  ![1, 6, v2474.toNat, 336]
def k0_off645 (k0_t3 : Fin k0_t3_loop.trips) : Fin 4 → Nat :=
  let c1_i32_1330 : BitVec 32 := 1#32
  let v2484 : Index := Scalar.indexCast c1_i32_1330
  let c7_i32_1331 : BitVec 32 := 7#32
  let v2485 : Index := Scalar.indexCast c7_i32_1331
  let c0_i32_276 : BitVec 32 := 0#32
  let c1_i32_278 : BitVec 32 := 1#32
  let arg11 : BitVec 32 := Scf.iv c0_i32_276 c1_i32_278 k0_t3
  let v2486 : Index := Scalar.indexCast arg11
  let c336_1332 : Index := 336#32
  ![1, 7, v2486.toNat, 336]
def k0_off646 (k0_t3 : Fin k0_t3_loop.trips) : Fin 2 → Nat :=
  let c0_i32_276 : BitVec 32 := 0#32
  let c1_i32_278 : BitVec 32 := 1#32
  let arg11 : BitVec 32 := Scf.iv c0_i32_276 c1_i32_278 k0_t3
  let v2496 : Index := Scalar.indexCast arg11
  let c352 : Index := 352#32
  ![v2496.toNat, 352]
def k0_off647 (k0_t3 : Fin k0_t3_loop.trips) : Fin 4 → Nat :=
  let c1_i32_1336 : BitVec 32 := 1#32
  let v2499 : Index := Scalar.indexCast c1_i32_1336
  let c0_i32_1337 : BitVec 32 := 0#32
  let v2500 : Index := Scalar.indexCast c0_i32_1337
  let c0_i32_276 : BitVec 32 := 0#32
  let c1_i32_278 : BitVec 32 := 1#32
  let arg11 : BitVec 32 := Scf.iv c0_i32_276 c1_i32_278 k0_t3
  let v2501 : Index := Scalar.indexCast arg11
  let c352_1338 : Index := 352#32
  ![1, 0, v2501.toNat, 352]
def k0_off648 (k0_t3 : Fin k0_t3_loop.trips) : Fin 4 → Nat :=
  let c1_i32_1342 : BitVec 32 := 1#32
  let v2511 : Index := Scalar.indexCast c1_i32_1342
  let c1_i32_1343 : BitVec 32 := 1#32
  let v2512 : Index := Scalar.indexCast c1_i32_1343
  let c0_i32_276 : BitVec 32 := 0#32
  let c1_i32_278 : BitVec 32 := 1#32
  let arg11 : BitVec 32 := Scf.iv c0_i32_276 c1_i32_278 k0_t3
  let v2513 : Index := Scalar.indexCast arg11
  let c352_1344 : Index := 352#32
  ![1, 1, v2513.toNat, 352]
def k0_off649 (k0_t3 : Fin k0_t3_loop.trips) : Fin 4 → Nat :=
  let c1_i32_1348 : BitVec 32 := 1#32
  let v2523 : Index := Scalar.indexCast c1_i32_1348
  let c2_i32_1349 : BitVec 32 := 2#32
  let v2524 : Index := Scalar.indexCast c2_i32_1349
  let c0_i32_276 : BitVec 32 := 0#32
  let c1_i32_278 : BitVec 32 := 1#32
  let arg11 : BitVec 32 := Scf.iv c0_i32_276 c1_i32_278 k0_t3
  let v2525 : Index := Scalar.indexCast arg11
  let c352_1350 : Index := 352#32
  ![1, 2, v2525.toNat, 352]
def k0_off650 (k0_t3 : Fin k0_t3_loop.trips) : Fin 4 → Nat :=
  let c1_i32_1354 : BitVec 32 := 1#32
  let v2535 : Index := Scalar.indexCast c1_i32_1354
  let c3_i32_1355 : BitVec 32 := 3#32
  let v2536 : Index := Scalar.indexCast c3_i32_1355
  let c0_i32_276 : BitVec 32 := 0#32
  let c1_i32_278 : BitVec 32 := 1#32
  let arg11 : BitVec 32 := Scf.iv c0_i32_276 c1_i32_278 k0_t3
  let v2537 : Index := Scalar.indexCast arg11
  let c352_1356 : Index := 352#32
  ![1, 3, v2537.toNat, 352]
def k0_off651 (k0_t3 : Fin k0_t3_loop.trips) : Fin 4 → Nat :=
  let c1_i32_1360 : BitVec 32 := 1#32
  let v2547 : Index := Scalar.indexCast c1_i32_1360
  let c4_i32_1361 : BitVec 32 := 4#32
  let v2548 : Index := Scalar.indexCast c4_i32_1361
  let c0_i32_276 : BitVec 32 := 0#32
  let c1_i32_278 : BitVec 32 := 1#32
  let arg11 : BitVec 32 := Scf.iv c0_i32_276 c1_i32_278 k0_t3
  let v2549 : Index := Scalar.indexCast arg11
  let c352_1362 : Index := 352#32
  ![1, 4, v2549.toNat, 352]
def k0_off652 (k0_t3 : Fin k0_t3_loop.trips) : Fin 4 → Nat :=
  let c1_i32_1366 : BitVec 32 := 1#32
  let v2559 : Index := Scalar.indexCast c1_i32_1366
  let c5_i32_1367 : BitVec 32 := 5#32
  let v2560 : Index := Scalar.indexCast c5_i32_1367
  let c0_i32_276 : BitVec 32 := 0#32
  let c1_i32_278 : BitVec 32 := 1#32
  let arg11 : BitVec 32 := Scf.iv c0_i32_276 c1_i32_278 k0_t3
  let v2561 : Index := Scalar.indexCast arg11
  let c352_1368 : Index := 352#32
  ![1, 5, v2561.toNat, 352]
def k0_off653 (k0_t3 : Fin k0_t3_loop.trips) : Fin 4 → Nat :=
  let c1_i32_1372 : BitVec 32 := 1#32
  let v2571 : Index := Scalar.indexCast c1_i32_1372
  let c6_i32_1373 : BitVec 32 := 6#32
  let v2572 : Index := Scalar.indexCast c6_i32_1373
  let c0_i32_276 : BitVec 32 := 0#32
  let c1_i32_278 : BitVec 32 := 1#32
  let arg11 : BitVec 32 := Scf.iv c0_i32_276 c1_i32_278 k0_t3
  let v2573 : Index := Scalar.indexCast arg11
  let c352_1374 : Index := 352#32
  ![1, 6, v2573.toNat, 352]
def k0_off654 (k0_t3 : Fin k0_t3_loop.trips) : Fin 4 → Nat :=
  let c1_i32_1378 : BitVec 32 := 1#32
  let v2583 : Index := Scalar.indexCast c1_i32_1378
  let c7_i32_1379 : BitVec 32 := 7#32
  let v2584 : Index := Scalar.indexCast c7_i32_1379
  let c0_i32_276 : BitVec 32 := 0#32
  let c1_i32_278 : BitVec 32 := 1#32
  let arg11 : BitVec 32 := Scf.iv c0_i32_276 c1_i32_278 k0_t3
  let v2585 : Index := Scalar.indexCast arg11
  let c352_1380 : Index := 352#32
  ![1, 7, v2585.toNat, 352]
def k0_off655 (k0_t3 : Fin k0_t3_loop.trips) : Fin 2 → Nat :=
  let c0_i32_276 : BitVec 32 := 0#32
  let c1_i32_278 : BitVec 32 := 1#32
  let arg11 : BitVec 32 := Scf.iv c0_i32_276 c1_i32_278 k0_t3
  let v2595 : Index := Scalar.indexCast arg11
  let c368 : Index := 368#32
  ![v2595.toNat, 368]
def k0_off656 (k0_t3 : Fin k0_t3_loop.trips) : Fin 4 → Nat :=
  let c1_i32_1384 : BitVec 32 := 1#32
  let v2598 : Index := Scalar.indexCast c1_i32_1384
  let c0_i32_1385 : BitVec 32 := 0#32
  let v2599 : Index := Scalar.indexCast c0_i32_1385
  let c0_i32_276 : BitVec 32 := 0#32
  let c1_i32_278 : BitVec 32 := 1#32
  let arg11 : BitVec 32 := Scf.iv c0_i32_276 c1_i32_278 k0_t3
  let v2600 : Index := Scalar.indexCast arg11
  let c368_1386 : Index := 368#32
  ![1, 0, v2600.toNat, 368]
def k0_off657 (k0_t3 : Fin k0_t3_loop.trips) : Fin 4 → Nat :=
  let c1_i32_1390 : BitVec 32 := 1#32
  let v2610 : Index := Scalar.indexCast c1_i32_1390
  let c1_i32_1391 : BitVec 32 := 1#32
  let v2611 : Index := Scalar.indexCast c1_i32_1391
  let c0_i32_276 : BitVec 32 := 0#32
  let c1_i32_278 : BitVec 32 := 1#32
  let arg11 : BitVec 32 := Scf.iv c0_i32_276 c1_i32_278 k0_t3
  let v2612 : Index := Scalar.indexCast arg11
  let c368_1392 : Index := 368#32
  ![1, 1, v2612.toNat, 368]
def k0_off658 (k0_t3 : Fin k0_t3_loop.trips) : Fin 4 → Nat :=
  let c1_i32_1396 : BitVec 32 := 1#32
  let v2622 : Index := Scalar.indexCast c1_i32_1396
  let c2_i32_1397 : BitVec 32 := 2#32
  let v2623 : Index := Scalar.indexCast c2_i32_1397
  let c0_i32_276 : BitVec 32 := 0#32
  let c1_i32_278 : BitVec 32 := 1#32
  let arg11 : BitVec 32 := Scf.iv c0_i32_276 c1_i32_278 k0_t3
  let v2624 : Index := Scalar.indexCast arg11
  let c368_1398 : Index := 368#32
  ![1, 2, v2624.toNat, 368]
def k0_off659 (k0_t3 : Fin k0_t3_loop.trips) : Fin 4 → Nat :=
  let c1_i32_1402 : BitVec 32 := 1#32
  let v2634 : Index := Scalar.indexCast c1_i32_1402
  let c3_i32_1403 : BitVec 32 := 3#32
  let v2635 : Index := Scalar.indexCast c3_i32_1403
  let c0_i32_276 : BitVec 32 := 0#32
  let c1_i32_278 : BitVec 32 := 1#32
  let arg11 : BitVec 32 := Scf.iv c0_i32_276 c1_i32_278 k0_t3
  let v2636 : Index := Scalar.indexCast arg11
  let c368_1404 : Index := 368#32
  ![1, 3, v2636.toNat, 368]
def k0_off660 (k0_t3 : Fin k0_t3_loop.trips) : Fin 4 → Nat :=
  let c1_i32_1408 : BitVec 32 := 1#32
  let v2646 : Index := Scalar.indexCast c1_i32_1408
  let c4_i32_1409 : BitVec 32 := 4#32
  let v2647 : Index := Scalar.indexCast c4_i32_1409
  let c0_i32_276 : BitVec 32 := 0#32
  let c1_i32_278 : BitVec 32 := 1#32
  let arg11 : BitVec 32 := Scf.iv c0_i32_276 c1_i32_278 k0_t3
  let v2648 : Index := Scalar.indexCast arg11
  let c368_1410 : Index := 368#32
  ![1, 4, v2648.toNat, 368]
def k0_off661 (k0_t3 : Fin k0_t3_loop.trips) : Fin 4 → Nat :=
  let c1_i32_1414 : BitVec 32 := 1#32
  let v2658 : Index := Scalar.indexCast c1_i32_1414
  let c5_i32_1415 : BitVec 32 := 5#32
  let v2659 : Index := Scalar.indexCast c5_i32_1415
  let c0_i32_276 : BitVec 32 := 0#32
  let c1_i32_278 : BitVec 32 := 1#32
  let arg11 : BitVec 32 := Scf.iv c0_i32_276 c1_i32_278 k0_t3
  let v2660 : Index := Scalar.indexCast arg11
  let c368_1416 : Index := 368#32
  ![1, 5, v2660.toNat, 368]
def k0_off662 (k0_t3 : Fin k0_t3_loop.trips) : Fin 4 → Nat :=
  let c1_i32_1420 : BitVec 32 := 1#32
  let v2670 : Index := Scalar.indexCast c1_i32_1420
  let c6_i32_1421 : BitVec 32 := 6#32
  let v2671 : Index := Scalar.indexCast c6_i32_1421
  let c0_i32_276 : BitVec 32 := 0#32
  let c1_i32_278 : BitVec 32 := 1#32
  let arg11 : BitVec 32 := Scf.iv c0_i32_276 c1_i32_278 k0_t3
  let v2672 : Index := Scalar.indexCast arg11
  let c368_1422 : Index := 368#32
  ![1, 6, v2672.toNat, 368]
def k0_off663 (k0_t3 : Fin k0_t3_loop.trips) : Fin 4 → Nat :=
  let c1_i32_1426 : BitVec 32 := 1#32
  let v2682 : Index := Scalar.indexCast c1_i32_1426
  let c7_i32_1427 : BitVec 32 := 7#32
  let v2683 : Index := Scalar.indexCast c7_i32_1427
  let c0_i32_276 : BitVec 32 := 0#32
  let c1_i32_278 : BitVec 32 := 1#32
  let arg11 : BitVec 32 := Scf.iv c0_i32_276 c1_i32_278 k0_t3
  let v2684 : Index := Scalar.indexCast arg11
  let c368_1428 : Index := 368#32
  ![1, 7, v2684.toNat, 368]
def k0_off664 (k0_t3 : Fin k0_t3_loop.trips) : Fin 2 → Nat :=
  let c0_i32_276 : BitVec 32 := 0#32
  let c1_i32_278 : BitVec 32 := 1#32
  let arg11 : BitVec 32 := Scf.iv c0_i32_276 c1_i32_278 k0_t3
  let v2694 : Index := Scalar.indexCast arg11
  let c384 : Index := 384#32
  ![v2694.toNat, 384]
def k0_off665 (k0_t3 : Fin k0_t3_loop.trips) : Fin 4 → Nat :=
  let c1_i32_1432 : BitVec 32 := 1#32
  let v2697 : Index := Scalar.indexCast c1_i32_1432
  let c0_i32_1433 : BitVec 32 := 0#32
  let v2698 : Index := Scalar.indexCast c0_i32_1433
  let c0_i32_276 : BitVec 32 := 0#32
  let c1_i32_278 : BitVec 32 := 1#32
  let arg11 : BitVec 32 := Scf.iv c0_i32_276 c1_i32_278 k0_t3
  let v2699 : Index := Scalar.indexCast arg11
  let c384_1434 : Index := 384#32
  ![1, 0, v2699.toNat, 384]
def k0_off666 (k0_t3 : Fin k0_t3_loop.trips) : Fin 4 → Nat :=
  let c1_i32_1438 : BitVec 32 := 1#32
  let v2709 : Index := Scalar.indexCast c1_i32_1438
  let c1_i32_1439 : BitVec 32 := 1#32
  let v2710 : Index := Scalar.indexCast c1_i32_1439
  let c0_i32_276 : BitVec 32 := 0#32
  let c1_i32_278 : BitVec 32 := 1#32
  let arg11 : BitVec 32 := Scf.iv c0_i32_276 c1_i32_278 k0_t3
  let v2711 : Index := Scalar.indexCast arg11
  let c384_1440 : Index := 384#32
  ![1, 1, v2711.toNat, 384]
def k0_off667 (k0_t3 : Fin k0_t3_loop.trips) : Fin 4 → Nat :=
  let c1_i32_1444 : BitVec 32 := 1#32
  let v2721 : Index := Scalar.indexCast c1_i32_1444
  let c2_i32_1445 : BitVec 32 := 2#32
  let v2722 : Index := Scalar.indexCast c2_i32_1445
  let c0_i32_276 : BitVec 32 := 0#32
  let c1_i32_278 : BitVec 32 := 1#32
  let arg11 : BitVec 32 := Scf.iv c0_i32_276 c1_i32_278 k0_t3
  let v2723 : Index := Scalar.indexCast arg11
  let c384_1446 : Index := 384#32
  ![1, 2, v2723.toNat, 384]
def k0_off668 (k0_t3 : Fin k0_t3_loop.trips) : Fin 4 → Nat :=
  let c1_i32_1450 : BitVec 32 := 1#32
  let v2733 : Index := Scalar.indexCast c1_i32_1450
  let c3_i32_1451 : BitVec 32 := 3#32
  let v2734 : Index := Scalar.indexCast c3_i32_1451
  let c0_i32_276 : BitVec 32 := 0#32
  let c1_i32_278 : BitVec 32 := 1#32
  let arg11 : BitVec 32 := Scf.iv c0_i32_276 c1_i32_278 k0_t3
  let v2735 : Index := Scalar.indexCast arg11
  let c384_1452 : Index := 384#32
  ![1, 3, v2735.toNat, 384]
def k0_off669 (k0_t3 : Fin k0_t3_loop.trips) : Fin 4 → Nat :=
  let c1_i32_1456 : BitVec 32 := 1#32
  let v2745 : Index := Scalar.indexCast c1_i32_1456
  let c4_i32_1457 : BitVec 32 := 4#32
  let v2746 : Index := Scalar.indexCast c4_i32_1457
  let c0_i32_276 : BitVec 32 := 0#32
  let c1_i32_278 : BitVec 32 := 1#32
  let arg11 : BitVec 32 := Scf.iv c0_i32_276 c1_i32_278 k0_t3
  let v2747 : Index := Scalar.indexCast arg11
  let c384_1458 : Index := 384#32
  ![1, 4, v2747.toNat, 384]
def k0_off670 (k0_t3 : Fin k0_t3_loop.trips) : Fin 4 → Nat :=
  let c1_i32_1462 : BitVec 32 := 1#32
  let v2757 : Index := Scalar.indexCast c1_i32_1462
  let c5_i32_1463 : BitVec 32 := 5#32
  let v2758 : Index := Scalar.indexCast c5_i32_1463
  let c0_i32_276 : BitVec 32 := 0#32
  let c1_i32_278 : BitVec 32 := 1#32
  let arg11 : BitVec 32 := Scf.iv c0_i32_276 c1_i32_278 k0_t3
  let v2759 : Index := Scalar.indexCast arg11
  let c384_1464 : Index := 384#32
  ![1, 5, v2759.toNat, 384]
def k0_off671 (k0_t3 : Fin k0_t3_loop.trips) : Fin 4 → Nat :=
  let c1_i32_1468 : BitVec 32 := 1#32
  let v2769 : Index := Scalar.indexCast c1_i32_1468
  let c6_i32_1469 : BitVec 32 := 6#32
  let v2770 : Index := Scalar.indexCast c6_i32_1469
  let c0_i32_276 : BitVec 32 := 0#32
  let c1_i32_278 : BitVec 32 := 1#32
  let arg11 : BitVec 32 := Scf.iv c0_i32_276 c1_i32_278 k0_t3
  let v2771 : Index := Scalar.indexCast arg11
  let c384_1470 : Index := 384#32
  ![1, 6, v2771.toNat, 384]
def k0_off672 (k0_t3 : Fin k0_t3_loop.trips) : Fin 4 → Nat :=
  let c1_i32_1474 : BitVec 32 := 1#32
  let v2781 : Index := Scalar.indexCast c1_i32_1474
  let c7_i32_1475 : BitVec 32 := 7#32
  let v2782 : Index := Scalar.indexCast c7_i32_1475
  let c0_i32_276 : BitVec 32 := 0#32
  let c1_i32_278 : BitVec 32 := 1#32
  let arg11 : BitVec 32 := Scf.iv c0_i32_276 c1_i32_278 k0_t3
  let v2783 : Index := Scalar.indexCast arg11
  let c384_1476 : Index := 384#32
  ![1, 7, v2783.toNat, 384]
def k0_off673 (k0_t3 : Fin k0_t3_loop.trips) : Fin 2 → Nat :=
  let c0_i32_276 : BitVec 32 := 0#32
  let c1_i32_278 : BitVec 32 := 1#32
  let arg11 : BitVec 32 := Scf.iv c0_i32_276 c1_i32_278 k0_t3
  let v2793 : Index := Scalar.indexCast arg11
  let c400 : Index := 400#32
  ![v2793.toNat, 400]
def k0_off674 (k0_t3 : Fin k0_t3_loop.trips) : Fin 4 → Nat :=
  let c1_i32_1480 : BitVec 32 := 1#32
  let v2796 : Index := Scalar.indexCast c1_i32_1480
  let c0_i32_1481 : BitVec 32 := 0#32
  let v2797 : Index := Scalar.indexCast c0_i32_1481
  let c0_i32_276 : BitVec 32 := 0#32
  let c1_i32_278 : BitVec 32 := 1#32
  let arg11 : BitVec 32 := Scf.iv c0_i32_276 c1_i32_278 k0_t3
  let v2798 : Index := Scalar.indexCast arg11
  let c400_1482 : Index := 400#32
  ![1, 0, v2798.toNat, 400]
def k0_off675 (k0_t3 : Fin k0_t3_loop.trips) : Fin 4 → Nat :=
  let c1_i32_1486 : BitVec 32 := 1#32
  let v2808 : Index := Scalar.indexCast c1_i32_1486
  let c1_i32_1487 : BitVec 32 := 1#32
  let v2809 : Index := Scalar.indexCast c1_i32_1487
  let c0_i32_276 : BitVec 32 := 0#32
  let c1_i32_278 : BitVec 32 := 1#32
  let arg11 : BitVec 32 := Scf.iv c0_i32_276 c1_i32_278 k0_t3
  let v2810 : Index := Scalar.indexCast arg11
  let c400_1488 : Index := 400#32
  ![1, 1, v2810.toNat, 400]
def k0_off676 (k0_t3 : Fin k0_t3_loop.trips) : Fin 4 → Nat :=
  let c1_i32_1492 : BitVec 32 := 1#32
  let v2820 : Index := Scalar.indexCast c1_i32_1492
  let c2_i32_1493 : BitVec 32 := 2#32
  let v2821 : Index := Scalar.indexCast c2_i32_1493
  let c0_i32_276 : BitVec 32 := 0#32
  let c1_i32_278 : BitVec 32 := 1#32
  let arg11 : BitVec 32 := Scf.iv c0_i32_276 c1_i32_278 k0_t3
  let v2822 : Index := Scalar.indexCast arg11
  let c400_1494 : Index := 400#32
  ![1, 2, v2822.toNat, 400]
def k0_off677 (k0_t3 : Fin k0_t3_loop.trips) : Fin 4 → Nat :=
  let c1_i32_1498 : BitVec 32 := 1#32
  let v2832 : Index := Scalar.indexCast c1_i32_1498
  let c3_i32_1499 : BitVec 32 := 3#32
  let v2833 : Index := Scalar.indexCast c3_i32_1499
  let c0_i32_276 : BitVec 32 := 0#32
  let c1_i32_278 : BitVec 32 := 1#32
  let arg11 : BitVec 32 := Scf.iv c0_i32_276 c1_i32_278 k0_t3
  let v2834 : Index := Scalar.indexCast arg11
  let c400_1500 : Index := 400#32
  ![1, 3, v2834.toNat, 400]
def k0_off678 (k0_t3 : Fin k0_t3_loop.trips) : Fin 4 → Nat :=
  let c1_i32_1504 : BitVec 32 := 1#32
  let v2844 : Index := Scalar.indexCast c1_i32_1504
  let c4_i32_1505 : BitVec 32 := 4#32
  let v2845 : Index := Scalar.indexCast c4_i32_1505
  let c0_i32_276 : BitVec 32 := 0#32
  let c1_i32_278 : BitVec 32 := 1#32
  let arg11 : BitVec 32 := Scf.iv c0_i32_276 c1_i32_278 k0_t3
  let v2846 : Index := Scalar.indexCast arg11
  let c400_1506 : Index := 400#32
  ![1, 4, v2846.toNat, 400]
def k0_off679 (k0_t3 : Fin k0_t3_loop.trips) : Fin 4 → Nat :=
  let c1_i32_1510 : BitVec 32 := 1#32
  let v2856 : Index := Scalar.indexCast c1_i32_1510
  let c5_i32_1511 : BitVec 32 := 5#32
  let v2857 : Index := Scalar.indexCast c5_i32_1511
  let c0_i32_276 : BitVec 32 := 0#32
  let c1_i32_278 : BitVec 32 := 1#32
  let arg11 : BitVec 32 := Scf.iv c0_i32_276 c1_i32_278 k0_t3
  let v2858 : Index := Scalar.indexCast arg11
  let c400_1512 : Index := 400#32
  ![1, 5, v2858.toNat, 400]
def k0_off680 (k0_t3 : Fin k0_t3_loop.trips) : Fin 4 → Nat :=
  let c1_i32_1516 : BitVec 32 := 1#32
  let v2868 : Index := Scalar.indexCast c1_i32_1516
  let c6_i32_1517 : BitVec 32 := 6#32
  let v2869 : Index := Scalar.indexCast c6_i32_1517
  let c0_i32_276 : BitVec 32 := 0#32
  let c1_i32_278 : BitVec 32 := 1#32
  let arg11 : BitVec 32 := Scf.iv c0_i32_276 c1_i32_278 k0_t3
  let v2870 : Index := Scalar.indexCast arg11
  let c400_1518 : Index := 400#32
  ![1, 6, v2870.toNat, 400]
def k0_off681 (k0_t3 : Fin k0_t3_loop.trips) : Fin 4 → Nat :=
  let c1_i32_1522 : BitVec 32 := 1#32
  let v2880 : Index := Scalar.indexCast c1_i32_1522
  let c7_i32_1523 : BitVec 32 := 7#32
  let v2881 : Index := Scalar.indexCast c7_i32_1523
  let c0_i32_276 : BitVec 32 := 0#32
  let c1_i32_278 : BitVec 32 := 1#32
  let arg11 : BitVec 32 := Scf.iv c0_i32_276 c1_i32_278 k0_t3
  let v2882 : Index := Scalar.indexCast arg11
  let c400_1524 : Index := 400#32
  ![1, 7, v2882.toNat, 400]
def k0_off682 (k0_t3 : Fin k0_t3_loop.trips) : Fin 2 → Nat :=
  let c0_i32_276 : BitVec 32 := 0#32
  let c1_i32_278 : BitVec 32 := 1#32
  let arg11 : BitVec 32 := Scf.iv c0_i32_276 c1_i32_278 k0_t3
  let v2892 : Index := Scalar.indexCast arg11
  let c416 : Index := 416#32
  ![v2892.toNat, 416]
def k0_off683 (k0_t3 : Fin k0_t3_loop.trips) : Fin 4 → Nat :=
  let c1_i32_1528 : BitVec 32 := 1#32
  let v2895 : Index := Scalar.indexCast c1_i32_1528
  let c0_i32_1529 : BitVec 32 := 0#32
  let v2896 : Index := Scalar.indexCast c0_i32_1529
  let c0_i32_276 : BitVec 32 := 0#32
  let c1_i32_278 : BitVec 32 := 1#32
  let arg11 : BitVec 32 := Scf.iv c0_i32_276 c1_i32_278 k0_t3
  let v2897 : Index := Scalar.indexCast arg11
  let c416_1530 : Index := 416#32
  ![1, 0, v2897.toNat, 416]
def k0_off684 (k0_t3 : Fin k0_t3_loop.trips) : Fin 4 → Nat :=
  let c1_i32_1534 : BitVec 32 := 1#32
  let v2907 : Index := Scalar.indexCast c1_i32_1534
  let c1_i32_1535 : BitVec 32 := 1#32
  let v2908 : Index := Scalar.indexCast c1_i32_1535
  let c0_i32_276 : BitVec 32 := 0#32
  let c1_i32_278 : BitVec 32 := 1#32
  let arg11 : BitVec 32 := Scf.iv c0_i32_276 c1_i32_278 k0_t3
  let v2909 : Index := Scalar.indexCast arg11
  let c416_1536 : Index := 416#32
  ![1, 1, v2909.toNat, 416]
def k0_off685 (k0_t3 : Fin k0_t3_loop.trips) : Fin 4 → Nat :=
  let c1_i32_1540 : BitVec 32 := 1#32
  let v2919 : Index := Scalar.indexCast c1_i32_1540
  let c2_i32_1541 : BitVec 32 := 2#32
  let v2920 : Index := Scalar.indexCast c2_i32_1541
  let c0_i32_276 : BitVec 32 := 0#32
  let c1_i32_278 : BitVec 32 := 1#32
  let arg11 : BitVec 32 := Scf.iv c0_i32_276 c1_i32_278 k0_t3
  let v2921 : Index := Scalar.indexCast arg11
  let c416_1542 : Index := 416#32
  ![1, 2, v2921.toNat, 416]
def k0_off686 (k0_t3 : Fin k0_t3_loop.trips) : Fin 4 → Nat :=
  let c1_i32_1546 : BitVec 32 := 1#32
  let v2931 : Index := Scalar.indexCast c1_i32_1546
  let c3_i32_1547 : BitVec 32 := 3#32
  let v2932 : Index := Scalar.indexCast c3_i32_1547
  let c0_i32_276 : BitVec 32 := 0#32
  let c1_i32_278 : BitVec 32 := 1#32
  let arg11 : BitVec 32 := Scf.iv c0_i32_276 c1_i32_278 k0_t3
  let v2933 : Index := Scalar.indexCast arg11
  let c416_1548 : Index := 416#32
  ![1, 3, v2933.toNat, 416]
def k0_off687 (k0_t3 : Fin k0_t3_loop.trips) : Fin 4 → Nat :=
  let c1_i32_1552 : BitVec 32 := 1#32
  let v2943 : Index := Scalar.indexCast c1_i32_1552
  let c4_i32_1553 : BitVec 32 := 4#32
  let v2944 : Index := Scalar.indexCast c4_i32_1553
  let c0_i32_276 : BitVec 32 := 0#32
  let c1_i32_278 : BitVec 32 := 1#32
  let arg11 : BitVec 32 := Scf.iv c0_i32_276 c1_i32_278 k0_t3
  let v2945 : Index := Scalar.indexCast arg11
  let c416_1554 : Index := 416#32
  ![1, 4, v2945.toNat, 416]
def k0_off688 (k0_t3 : Fin k0_t3_loop.trips) : Fin 4 → Nat :=
  let c1_i32_1558 : BitVec 32 := 1#32
  let v2955 : Index := Scalar.indexCast c1_i32_1558
  let c5_i32_1559 : BitVec 32 := 5#32
  let v2956 : Index := Scalar.indexCast c5_i32_1559
  let c0_i32_276 : BitVec 32 := 0#32
  let c1_i32_278 : BitVec 32 := 1#32
  let arg11 : BitVec 32 := Scf.iv c0_i32_276 c1_i32_278 k0_t3
  let v2957 : Index := Scalar.indexCast arg11
  let c416_1560 : Index := 416#32
  ![1, 5, v2957.toNat, 416]
def k0_off689 (k0_t3 : Fin k0_t3_loop.trips) : Fin 4 → Nat :=
  let c1_i32_1564 : BitVec 32 := 1#32
  let v2967 : Index := Scalar.indexCast c1_i32_1564
  let c6_i32_1565 : BitVec 32 := 6#32
  let v2968 : Index := Scalar.indexCast c6_i32_1565
  let c0_i32_276 : BitVec 32 := 0#32
  let c1_i32_278 : BitVec 32 := 1#32
  let arg11 : BitVec 32 := Scf.iv c0_i32_276 c1_i32_278 k0_t3
  let v2969 : Index := Scalar.indexCast arg11
  let c416_1566 : Index := 416#32
  ![1, 6, v2969.toNat, 416]
def k0_off690 (k0_t3 : Fin k0_t3_loop.trips) : Fin 4 → Nat :=
  let c1_i32_1570 : BitVec 32 := 1#32
  let v2979 : Index := Scalar.indexCast c1_i32_1570
  let c7_i32_1571 : BitVec 32 := 7#32
  let v2980 : Index := Scalar.indexCast c7_i32_1571
  let c0_i32_276 : BitVec 32 := 0#32
  let c1_i32_278 : BitVec 32 := 1#32
  let arg11 : BitVec 32 := Scf.iv c0_i32_276 c1_i32_278 k0_t3
  let v2981 : Index := Scalar.indexCast arg11
  let c416_1572 : Index := 416#32
  ![1, 7, v2981.toNat, 416]
def k0_off691 (k0_t3 : Fin k0_t3_loop.trips) : Fin 2 → Nat :=
  let c0_i32_276 : BitVec 32 := 0#32
  let c1_i32_278 : BitVec 32 := 1#32
  let arg11 : BitVec 32 := Scf.iv c0_i32_276 c1_i32_278 k0_t3
  let v2991 : Index := Scalar.indexCast arg11
  let c432 : Index := 432#32
  ![v2991.toNat, 432]
def k0_off692 (k0_t3 : Fin k0_t3_loop.trips) : Fin 4 → Nat :=
  let c1_i32_1576 : BitVec 32 := 1#32
  let v2994 : Index := Scalar.indexCast c1_i32_1576
  let c0_i32_1577 : BitVec 32 := 0#32
  let v2995 : Index := Scalar.indexCast c0_i32_1577
  let c0_i32_276 : BitVec 32 := 0#32
  let c1_i32_278 : BitVec 32 := 1#32
  let arg11 : BitVec 32 := Scf.iv c0_i32_276 c1_i32_278 k0_t3
  let v2996 : Index := Scalar.indexCast arg11
  let c432_1578 : Index := 432#32
  ![1, 0, v2996.toNat, 432]
def k0_off693 (k0_t3 : Fin k0_t3_loop.trips) : Fin 4 → Nat :=
  let c1_i32_1582 : BitVec 32 := 1#32
  let v3006 : Index := Scalar.indexCast c1_i32_1582
  let c1_i32_1583 : BitVec 32 := 1#32
  let v3007 : Index := Scalar.indexCast c1_i32_1583
  let c0_i32_276 : BitVec 32 := 0#32
  let c1_i32_278 : BitVec 32 := 1#32
  let arg11 : BitVec 32 := Scf.iv c0_i32_276 c1_i32_278 k0_t3
  let v3008 : Index := Scalar.indexCast arg11
  let c432_1584 : Index := 432#32
  ![1, 1, v3008.toNat, 432]
def k0_off694 (k0_t3 : Fin k0_t3_loop.trips) : Fin 4 → Nat :=
  let c1_i32_1588 : BitVec 32 := 1#32
  let v3018 : Index := Scalar.indexCast c1_i32_1588
  let c2_i32_1589 : BitVec 32 := 2#32
  let v3019 : Index := Scalar.indexCast c2_i32_1589
  let c0_i32_276 : BitVec 32 := 0#32
  let c1_i32_278 : BitVec 32 := 1#32
  let arg11 : BitVec 32 := Scf.iv c0_i32_276 c1_i32_278 k0_t3
  let v3020 : Index := Scalar.indexCast arg11
  let c432_1590 : Index := 432#32
  ![1, 2, v3020.toNat, 432]
def k0_off695 (k0_t3 : Fin k0_t3_loop.trips) : Fin 4 → Nat :=
  let c1_i32_1594 : BitVec 32 := 1#32
  let v3030 : Index := Scalar.indexCast c1_i32_1594
  let c3_i32_1595 : BitVec 32 := 3#32
  let v3031 : Index := Scalar.indexCast c3_i32_1595
  let c0_i32_276 : BitVec 32 := 0#32
  let c1_i32_278 : BitVec 32 := 1#32
  let arg11 : BitVec 32 := Scf.iv c0_i32_276 c1_i32_278 k0_t3
  let v3032 : Index := Scalar.indexCast arg11
  let c432_1596 : Index := 432#32
  ![1, 3, v3032.toNat, 432]
def k0_off696 (k0_t3 : Fin k0_t3_loop.trips) : Fin 4 → Nat :=
  let c1_i32_1600 : BitVec 32 := 1#32
  let v3042 : Index := Scalar.indexCast c1_i32_1600
  let c4_i32_1601 : BitVec 32 := 4#32
  let v3043 : Index := Scalar.indexCast c4_i32_1601
  let c0_i32_276 : BitVec 32 := 0#32
  let c1_i32_278 : BitVec 32 := 1#32
  let arg11 : BitVec 32 := Scf.iv c0_i32_276 c1_i32_278 k0_t3
  let v3044 : Index := Scalar.indexCast arg11
  let c432_1602 : Index := 432#32
  ![1, 4, v3044.toNat, 432]
def k0_off697 (k0_t3 : Fin k0_t3_loop.trips) : Fin 4 → Nat :=
  let c1_i32_1606 : BitVec 32 := 1#32
  let v3054 : Index := Scalar.indexCast c1_i32_1606
  let c5_i32_1607 : BitVec 32 := 5#32
  let v3055 : Index := Scalar.indexCast c5_i32_1607
  let c0_i32_276 : BitVec 32 := 0#32
  let c1_i32_278 : BitVec 32 := 1#32
  let arg11 : BitVec 32 := Scf.iv c0_i32_276 c1_i32_278 k0_t3
  let v3056 : Index := Scalar.indexCast arg11
  let c432_1608 : Index := 432#32
  ![1, 5, v3056.toNat, 432]
def k0_off698 (k0_t3 : Fin k0_t3_loop.trips) : Fin 4 → Nat :=
  let c1_i32_1612 : BitVec 32 := 1#32
  let v3066 : Index := Scalar.indexCast c1_i32_1612
  let c6_i32_1613 : BitVec 32 := 6#32
  let v3067 : Index := Scalar.indexCast c6_i32_1613
  let c0_i32_276 : BitVec 32 := 0#32
  let c1_i32_278 : BitVec 32 := 1#32
  let arg11 : BitVec 32 := Scf.iv c0_i32_276 c1_i32_278 k0_t3
  let v3068 : Index := Scalar.indexCast arg11
  let c432_1614 : Index := 432#32
  ![1, 6, v3068.toNat, 432]
def k0_off699 (k0_t3 : Fin k0_t3_loop.trips) : Fin 4 → Nat :=
  let c1_i32_1618 : BitVec 32 := 1#32
  let v3078 : Index := Scalar.indexCast c1_i32_1618
  let c7_i32_1619 : BitVec 32 := 7#32
  let v3079 : Index := Scalar.indexCast c7_i32_1619
  let c0_i32_276 : BitVec 32 := 0#32
  let c1_i32_278 : BitVec 32 := 1#32
  let arg11 : BitVec 32 := Scf.iv c0_i32_276 c1_i32_278 k0_t3
  let v3080 : Index := Scalar.indexCast arg11
  let c432_1620 : Index := 432#32
  ![1, 7, v3080.toNat, 432]
def k0_off700 (k0_t3 : Fin k0_t3_loop.trips) : Fin 2 → Nat :=
  let c0_i32_276 : BitVec 32 := 0#32
  let c1_i32_278 : BitVec 32 := 1#32
  let arg11 : BitVec 32 := Scf.iv c0_i32_276 c1_i32_278 k0_t3
  let v3090 : Index := Scalar.indexCast arg11
  let c448 : Index := 448#32
  ![v3090.toNat, 448]
def k0_off701 (k0_t3 : Fin k0_t3_loop.trips) : Fin 4 → Nat :=
  let c1_i32_1624 : BitVec 32 := 1#32
  let v3093 : Index := Scalar.indexCast c1_i32_1624
  let c0_i32_1625 : BitVec 32 := 0#32
  let v3094 : Index := Scalar.indexCast c0_i32_1625
  let c0_i32_276 : BitVec 32 := 0#32
  let c1_i32_278 : BitVec 32 := 1#32
  let arg11 : BitVec 32 := Scf.iv c0_i32_276 c1_i32_278 k0_t3
  let v3095 : Index := Scalar.indexCast arg11
  let c448_1626 : Index := 448#32
  ![1, 0, v3095.toNat, 448]
def k0_off702 (k0_t3 : Fin k0_t3_loop.trips) : Fin 4 → Nat :=
  let c1_i32_1630 : BitVec 32 := 1#32
  let v3105 : Index := Scalar.indexCast c1_i32_1630
  let c1_i32_1631 : BitVec 32 := 1#32
  let v3106 : Index := Scalar.indexCast c1_i32_1631
  let c0_i32_276 : BitVec 32 := 0#32
  let c1_i32_278 : BitVec 32 := 1#32
  let arg11 : BitVec 32 := Scf.iv c0_i32_276 c1_i32_278 k0_t3
  let v3107 : Index := Scalar.indexCast arg11
  let c448_1632 : Index := 448#32
  ![1, 1, v3107.toNat, 448]
def k0_off703 (k0_t3 : Fin k0_t3_loop.trips) : Fin 4 → Nat :=
  let c1_i32_1636 : BitVec 32 := 1#32
  let v3117 : Index := Scalar.indexCast c1_i32_1636
  let c2_i32_1637 : BitVec 32 := 2#32
  let v3118 : Index := Scalar.indexCast c2_i32_1637
  let c0_i32_276 : BitVec 32 := 0#32
  let c1_i32_278 : BitVec 32 := 1#32
  let arg11 : BitVec 32 := Scf.iv c0_i32_276 c1_i32_278 k0_t3
  let v3119 : Index := Scalar.indexCast arg11
  let c448_1638 : Index := 448#32
  ![1, 2, v3119.toNat, 448]
def k0_off704 (k0_t3 : Fin k0_t3_loop.trips) : Fin 4 → Nat :=
  let c1_i32_1642 : BitVec 32 := 1#32
  let v3129 : Index := Scalar.indexCast c1_i32_1642
  let c3_i32_1643 : BitVec 32 := 3#32
  let v3130 : Index := Scalar.indexCast c3_i32_1643
  let c0_i32_276 : BitVec 32 := 0#32
  let c1_i32_278 : BitVec 32 := 1#32
  let arg11 : BitVec 32 := Scf.iv c0_i32_276 c1_i32_278 k0_t3
  let v3131 : Index := Scalar.indexCast arg11
  let c448_1644 : Index := 448#32
  ![1, 3, v3131.toNat, 448]
def k0_off705 (k0_t3 : Fin k0_t3_loop.trips) : Fin 4 → Nat :=
  let c1_i32_1648 : BitVec 32 := 1#32
  let v3141 : Index := Scalar.indexCast c1_i32_1648
  let c4_i32_1649 : BitVec 32 := 4#32
  let v3142 : Index := Scalar.indexCast c4_i32_1649
  let c0_i32_276 : BitVec 32 := 0#32
  let c1_i32_278 : BitVec 32 := 1#32
  let arg11 : BitVec 32 := Scf.iv c0_i32_276 c1_i32_278 k0_t3
  let v3143 : Index := Scalar.indexCast arg11
  let c448_1650 : Index := 448#32
  ![1, 4, v3143.toNat, 448]
def k0_off706 (k0_t3 : Fin k0_t3_loop.trips) : Fin 4 → Nat :=
  let c1_i32_1654 : BitVec 32 := 1#32
  let v3153 : Index := Scalar.indexCast c1_i32_1654
  let c5_i32_1655 : BitVec 32 := 5#32
  let v3154 : Index := Scalar.indexCast c5_i32_1655
  let c0_i32_276 : BitVec 32 := 0#32
  let c1_i32_278 : BitVec 32 := 1#32
  let arg11 : BitVec 32 := Scf.iv c0_i32_276 c1_i32_278 k0_t3
  let v3155 : Index := Scalar.indexCast arg11
  let c448_1656 : Index := 448#32
  ![1, 5, v3155.toNat, 448]
def k0_off707 (k0_t3 : Fin k0_t3_loop.trips) : Fin 4 → Nat :=
  let c1_i32_1660 : BitVec 32 := 1#32
  let v3165 : Index := Scalar.indexCast c1_i32_1660
  let c6_i32_1661 : BitVec 32 := 6#32
  let v3166 : Index := Scalar.indexCast c6_i32_1661
  let c0_i32_276 : BitVec 32 := 0#32
  let c1_i32_278 : BitVec 32 := 1#32
  let arg11 : BitVec 32 := Scf.iv c0_i32_276 c1_i32_278 k0_t3
  let v3167 : Index := Scalar.indexCast arg11
  let c448_1662 : Index := 448#32
  ![1, 6, v3167.toNat, 448]
def k0_off708 (k0_t3 : Fin k0_t3_loop.trips) : Fin 4 → Nat :=
  let c1_i32_1666 : BitVec 32 := 1#32
  let v3177 : Index := Scalar.indexCast c1_i32_1666
  let c7_i32_1667 : BitVec 32 := 7#32
  let v3178 : Index := Scalar.indexCast c7_i32_1667
  let c0_i32_276 : BitVec 32 := 0#32
  let c1_i32_278 : BitVec 32 := 1#32
  let arg11 : BitVec 32 := Scf.iv c0_i32_276 c1_i32_278 k0_t3
  let v3179 : Index := Scalar.indexCast arg11
  let c448_1668 : Index := 448#32
  ![1, 7, v3179.toNat, 448]
def k0_off709 (k0_t3 : Fin k0_t3_loop.trips) : Fin 2 → Nat :=
  let c0_i32_276 : BitVec 32 := 0#32
  let c1_i32_278 : BitVec 32 := 1#32
  let arg11 : BitVec 32 := Scf.iv c0_i32_276 c1_i32_278 k0_t3
  let v3189 : Index := Scalar.indexCast arg11
  let c464 : Index := 464#32
  ![v3189.toNat, 464]
def k0_off710 (k0_t3 : Fin k0_t3_loop.trips) : Fin 4 → Nat :=
  let c1_i32_1672 : BitVec 32 := 1#32
  let v3192 : Index := Scalar.indexCast c1_i32_1672
  let c0_i32_1673 : BitVec 32 := 0#32
  let v3193 : Index := Scalar.indexCast c0_i32_1673
  let c0_i32_276 : BitVec 32 := 0#32
  let c1_i32_278 : BitVec 32 := 1#32
  let arg11 : BitVec 32 := Scf.iv c0_i32_276 c1_i32_278 k0_t3
  let v3194 : Index := Scalar.indexCast arg11
  let c464_1674 : Index := 464#32
  ![1, 0, v3194.toNat, 464]
def k0_off711 (k0_t3 : Fin k0_t3_loop.trips) : Fin 4 → Nat :=
  let c1_i32_1678 : BitVec 32 := 1#32
  let v3204 : Index := Scalar.indexCast c1_i32_1678
  let c1_i32_1679 : BitVec 32 := 1#32
  let v3205 : Index := Scalar.indexCast c1_i32_1679
  let c0_i32_276 : BitVec 32 := 0#32
  let c1_i32_278 : BitVec 32 := 1#32
  let arg11 : BitVec 32 := Scf.iv c0_i32_276 c1_i32_278 k0_t3
  let v3206 : Index := Scalar.indexCast arg11
  let c464_1680 : Index := 464#32
  ![1, 1, v3206.toNat, 464]
def k0_off712 (k0_t3 : Fin k0_t3_loop.trips) : Fin 4 → Nat :=
  let c1_i32_1684 : BitVec 32 := 1#32
  let v3216 : Index := Scalar.indexCast c1_i32_1684
  let c2_i32_1685 : BitVec 32 := 2#32
  let v3217 : Index := Scalar.indexCast c2_i32_1685
  let c0_i32_276 : BitVec 32 := 0#32
  let c1_i32_278 : BitVec 32 := 1#32
  let arg11 : BitVec 32 := Scf.iv c0_i32_276 c1_i32_278 k0_t3
  let v3218 : Index := Scalar.indexCast arg11
  let c464_1686 : Index := 464#32
  ![1, 2, v3218.toNat, 464]
def k0_off713 (k0_t3 : Fin k0_t3_loop.trips) : Fin 4 → Nat :=
  let c1_i32_1690 : BitVec 32 := 1#32
  let v3228 : Index := Scalar.indexCast c1_i32_1690
  let c3_i32_1691 : BitVec 32 := 3#32
  let v3229 : Index := Scalar.indexCast c3_i32_1691
  let c0_i32_276 : BitVec 32 := 0#32
  let c1_i32_278 : BitVec 32 := 1#32
  let arg11 : BitVec 32 := Scf.iv c0_i32_276 c1_i32_278 k0_t3
  let v3230 : Index := Scalar.indexCast arg11
  let c464_1692 : Index := 464#32
  ![1, 3, v3230.toNat, 464]
def k0_off714 (k0_t3 : Fin k0_t3_loop.trips) : Fin 4 → Nat :=
  let c1_i32_1696 : BitVec 32 := 1#32
  let v3240 : Index := Scalar.indexCast c1_i32_1696
  let c4_i32_1697 : BitVec 32 := 4#32
  let v3241 : Index := Scalar.indexCast c4_i32_1697
  let c0_i32_276 : BitVec 32 := 0#32
  let c1_i32_278 : BitVec 32 := 1#32
  let arg11 : BitVec 32 := Scf.iv c0_i32_276 c1_i32_278 k0_t3
  let v3242 : Index := Scalar.indexCast arg11
  let c464_1698 : Index := 464#32
  ![1, 4, v3242.toNat, 464]
def k0_off715 (k0_t3 : Fin k0_t3_loop.trips) : Fin 4 → Nat :=
  let c1_i32_1702 : BitVec 32 := 1#32
  let v3252 : Index := Scalar.indexCast c1_i32_1702
  let c5_i32_1703 : BitVec 32 := 5#32
  let v3253 : Index := Scalar.indexCast c5_i32_1703
  let c0_i32_276 : BitVec 32 := 0#32
  let c1_i32_278 : BitVec 32 := 1#32
  let arg11 : BitVec 32 := Scf.iv c0_i32_276 c1_i32_278 k0_t3
  let v3254 : Index := Scalar.indexCast arg11
  let c464_1704 : Index := 464#32
  ![1, 5, v3254.toNat, 464]
def k0_off716 (k0_t3 : Fin k0_t3_loop.trips) : Fin 4 → Nat :=
  let c1_i32_1708 : BitVec 32 := 1#32
  let v3264 : Index := Scalar.indexCast c1_i32_1708
  let c6_i32_1709 : BitVec 32 := 6#32
  let v3265 : Index := Scalar.indexCast c6_i32_1709
  let c0_i32_276 : BitVec 32 := 0#32
  let c1_i32_278 : BitVec 32 := 1#32
  let arg11 : BitVec 32 := Scf.iv c0_i32_276 c1_i32_278 k0_t3
  let v3266 : Index := Scalar.indexCast arg11
  let c464_1710 : Index := 464#32
  ![1, 6, v3266.toNat, 464]
def k0_off717 (k0_t3 : Fin k0_t3_loop.trips) : Fin 4 → Nat :=
  let c1_i32_1714 : BitVec 32 := 1#32
  let v3276 : Index := Scalar.indexCast c1_i32_1714
  let c7_i32_1715 : BitVec 32 := 7#32
  let v3277 : Index := Scalar.indexCast c7_i32_1715
  let c0_i32_276 : BitVec 32 := 0#32
  let c1_i32_278 : BitVec 32 := 1#32
  let arg11 : BitVec 32 := Scf.iv c0_i32_276 c1_i32_278 k0_t3
  let v3278 : Index := Scalar.indexCast arg11
  let c464_1716 : Index := 464#32
  ![1, 7, v3278.toNat, 464]
def k0_off718 (k0_t3 : Fin k0_t3_loop.trips) : Fin 2 → Nat :=
  let c0_i32_276 : BitVec 32 := 0#32
  let c1_i32_278 : BitVec 32 := 1#32
  let arg11 : BitVec 32 := Scf.iv c0_i32_276 c1_i32_278 k0_t3
  let v3288 : Index := Scalar.indexCast arg11
  let c480 : Index := 480#32
  ![v3288.toNat, 480]
def k0_off719 (k0_t3 : Fin k0_t3_loop.trips) : Fin 4 → Nat :=
  let c1_i32_1720 : BitVec 32 := 1#32
  let v3291 : Index := Scalar.indexCast c1_i32_1720
  let c0_i32_1721 : BitVec 32 := 0#32
  let v3292 : Index := Scalar.indexCast c0_i32_1721
  let c0_i32_276 : BitVec 32 := 0#32
  let c1_i32_278 : BitVec 32 := 1#32
  let arg11 : BitVec 32 := Scf.iv c0_i32_276 c1_i32_278 k0_t3
  let v3293 : Index := Scalar.indexCast arg11
  let c480_1722 : Index := 480#32
  ![1, 0, v3293.toNat, 480]
def k0_off720 (k0_t3 : Fin k0_t3_loop.trips) : Fin 4 → Nat :=
  let c1_i32_1726 : BitVec 32 := 1#32
  let v3303 : Index := Scalar.indexCast c1_i32_1726
  let c1_i32_1727 : BitVec 32 := 1#32
  let v3304 : Index := Scalar.indexCast c1_i32_1727
  let c0_i32_276 : BitVec 32 := 0#32
  let c1_i32_278 : BitVec 32 := 1#32
  let arg11 : BitVec 32 := Scf.iv c0_i32_276 c1_i32_278 k0_t3
  let v3305 : Index := Scalar.indexCast arg11
  let c480_1728 : Index := 480#32
  ![1, 1, v3305.toNat, 480]
def k0_off721 (k0_t3 : Fin k0_t3_loop.trips) : Fin 4 → Nat :=
  let c1_i32_1732 : BitVec 32 := 1#32
  let v3315 : Index := Scalar.indexCast c1_i32_1732
  let c2_i32_1733 : BitVec 32 := 2#32
  let v3316 : Index := Scalar.indexCast c2_i32_1733
  let c0_i32_276 : BitVec 32 := 0#32
  let c1_i32_278 : BitVec 32 := 1#32
  let arg11 : BitVec 32 := Scf.iv c0_i32_276 c1_i32_278 k0_t3
  let v3317 : Index := Scalar.indexCast arg11
  let c480_1734 : Index := 480#32
  ![1, 2, v3317.toNat, 480]
def k0_off722 (k0_t3 : Fin k0_t3_loop.trips) : Fin 4 → Nat :=
  let c1_i32_1738 : BitVec 32 := 1#32
  let v3327 : Index := Scalar.indexCast c1_i32_1738
  let c3_i32_1739 : BitVec 32 := 3#32
  let v3328 : Index := Scalar.indexCast c3_i32_1739
  let c0_i32_276 : BitVec 32 := 0#32
  let c1_i32_278 : BitVec 32 := 1#32
  let arg11 : BitVec 32 := Scf.iv c0_i32_276 c1_i32_278 k0_t3
  let v3329 : Index := Scalar.indexCast arg11
  let c480_1740 : Index := 480#32
  ![1, 3, v3329.toNat, 480]
def k0_off723 (k0_t3 : Fin k0_t3_loop.trips) : Fin 4 → Nat :=
  let c1_i32_1744 : BitVec 32 := 1#32
  let v3339 : Index := Scalar.indexCast c1_i32_1744
  let c4_i32_1745 : BitVec 32 := 4#32
  let v3340 : Index := Scalar.indexCast c4_i32_1745
  let c0_i32_276 : BitVec 32 := 0#32
  let c1_i32_278 : BitVec 32 := 1#32
  let arg11 : BitVec 32 := Scf.iv c0_i32_276 c1_i32_278 k0_t3
  let v3341 : Index := Scalar.indexCast arg11
  let c480_1746 : Index := 480#32
  ![1, 4, v3341.toNat, 480]
def k0_off724 (k0_t3 : Fin k0_t3_loop.trips) : Fin 4 → Nat :=
  let c1_i32_1750 : BitVec 32 := 1#32
  let v3351 : Index := Scalar.indexCast c1_i32_1750
  let c5_i32_1751 : BitVec 32 := 5#32
  let v3352 : Index := Scalar.indexCast c5_i32_1751
  let c0_i32_276 : BitVec 32 := 0#32
  let c1_i32_278 : BitVec 32 := 1#32
  let arg11 : BitVec 32 := Scf.iv c0_i32_276 c1_i32_278 k0_t3
  let v3353 : Index := Scalar.indexCast arg11
  let c480_1752 : Index := 480#32
  ![1, 5, v3353.toNat, 480]
def k0_off725 (k0_t3 : Fin k0_t3_loop.trips) : Fin 4 → Nat :=
  let c1_i32_1756 : BitVec 32 := 1#32
  let v3363 : Index := Scalar.indexCast c1_i32_1756
  let c6_i32_1757 : BitVec 32 := 6#32
  let v3364 : Index := Scalar.indexCast c6_i32_1757
  let c0_i32_276 : BitVec 32 := 0#32
  let c1_i32_278 : BitVec 32 := 1#32
  let arg11 : BitVec 32 := Scf.iv c0_i32_276 c1_i32_278 k0_t3
  let v3365 : Index := Scalar.indexCast arg11
  let c480_1758 : Index := 480#32
  ![1, 6, v3365.toNat, 480]
def k0_off726 (k0_t3 : Fin k0_t3_loop.trips) : Fin 4 → Nat :=
  let c1_i32_1762 : BitVec 32 := 1#32
  let v3375 : Index := Scalar.indexCast c1_i32_1762
  let c7_i32_1763 : BitVec 32 := 7#32
  let v3376 : Index := Scalar.indexCast c7_i32_1763
  let c0_i32_276 : BitVec 32 := 0#32
  let c1_i32_278 : BitVec 32 := 1#32
  let arg11 : BitVec 32 := Scf.iv c0_i32_276 c1_i32_278 k0_t3
  let v3377 : Index := Scalar.indexCast arg11
  let c480_1764 : Index := 480#32
  ![1, 7, v3377.toNat, 480]
def k0_off727 (k0_t3 : Fin k0_t3_loop.trips) : Fin 2 → Nat :=
  let c0_i32_276 : BitVec 32 := 0#32
  let c1_i32_278 : BitVec 32 := 1#32
  let arg11 : BitVec 32 := Scf.iv c0_i32_276 c1_i32_278 k0_t3
  let v3387 : Index := Scalar.indexCast arg11
  let c496 : Index := 496#32
  ![v3387.toNat, 496]
def k0_off728 (k0_t3 : Fin k0_t3_loop.trips) : Fin 4 → Nat :=
  let c1_i32_1768 : BitVec 32 := 1#32
  let v3390 : Index := Scalar.indexCast c1_i32_1768
  let c0_i32_1769 : BitVec 32 := 0#32
  let v3391 : Index := Scalar.indexCast c0_i32_1769
  let c0_i32_276 : BitVec 32 := 0#32
  let c1_i32_278 : BitVec 32 := 1#32
  let arg11 : BitVec 32 := Scf.iv c0_i32_276 c1_i32_278 k0_t3
  let v3392 : Index := Scalar.indexCast arg11
  let c496_1770 : Index := 496#32
  ![1, 0, v3392.toNat, 496]
def k0_off729 (k0_t3 : Fin k0_t3_loop.trips) : Fin 4 → Nat :=
  let c1_i32_1774 : BitVec 32 := 1#32
  let v3402 : Index := Scalar.indexCast c1_i32_1774
  let c1_i32_1775 : BitVec 32 := 1#32
  let v3403 : Index := Scalar.indexCast c1_i32_1775
  let c0_i32_276 : BitVec 32 := 0#32
  let c1_i32_278 : BitVec 32 := 1#32
  let arg11 : BitVec 32 := Scf.iv c0_i32_276 c1_i32_278 k0_t3
  let v3404 : Index := Scalar.indexCast arg11
  let c496_1776 : Index := 496#32
  ![1, 1, v3404.toNat, 496]
def k0_off730 (k0_t3 : Fin k0_t3_loop.trips) : Fin 4 → Nat :=
  let c1_i32_1780 : BitVec 32 := 1#32
  let v3414 : Index := Scalar.indexCast c1_i32_1780
  let c2_i32_1781 : BitVec 32 := 2#32
  let v3415 : Index := Scalar.indexCast c2_i32_1781
  let c0_i32_276 : BitVec 32 := 0#32
  let c1_i32_278 : BitVec 32 := 1#32
  let arg11 : BitVec 32 := Scf.iv c0_i32_276 c1_i32_278 k0_t3
  let v3416 : Index := Scalar.indexCast arg11
  let c496_1782 : Index := 496#32
  ![1, 2, v3416.toNat, 496]
def k0_off731 (k0_t3 : Fin k0_t3_loop.trips) : Fin 4 → Nat :=
  let c1_i32_1786 : BitVec 32 := 1#32
  let v3426 : Index := Scalar.indexCast c1_i32_1786
  let c3_i32_1787 : BitVec 32 := 3#32
  let v3427 : Index := Scalar.indexCast c3_i32_1787
  let c0_i32_276 : BitVec 32 := 0#32
  let c1_i32_278 : BitVec 32 := 1#32
  let arg11 : BitVec 32 := Scf.iv c0_i32_276 c1_i32_278 k0_t3
  let v3428 : Index := Scalar.indexCast arg11
  let c496_1788 : Index := 496#32
  ![1, 3, v3428.toNat, 496]
def k0_off732 (k0_t3 : Fin k0_t3_loop.trips) : Fin 4 → Nat :=
  let c1_i32_1792 : BitVec 32 := 1#32
  let v3438 : Index := Scalar.indexCast c1_i32_1792
  let c4_i32_1793 : BitVec 32 := 4#32
  let v3439 : Index := Scalar.indexCast c4_i32_1793
  let c0_i32_276 : BitVec 32 := 0#32
  let c1_i32_278 : BitVec 32 := 1#32
  let arg11 : BitVec 32 := Scf.iv c0_i32_276 c1_i32_278 k0_t3
  let v3440 : Index := Scalar.indexCast arg11
  let c496_1794 : Index := 496#32
  ![1, 4, v3440.toNat, 496]
def k0_off733 (k0_t3 : Fin k0_t3_loop.trips) : Fin 4 → Nat :=
  let c1_i32_1798 : BitVec 32 := 1#32
  let v3450 : Index := Scalar.indexCast c1_i32_1798
  let c5_i32_1799 : BitVec 32 := 5#32
  let v3451 : Index := Scalar.indexCast c5_i32_1799
  let c0_i32_276 : BitVec 32 := 0#32
  let c1_i32_278 : BitVec 32 := 1#32
  let arg11 : BitVec 32 := Scf.iv c0_i32_276 c1_i32_278 k0_t3
  let v3452 : Index := Scalar.indexCast arg11
  let c496_1800 : Index := 496#32
  ![1, 5, v3452.toNat, 496]
def k0_off734 (k0_t3 : Fin k0_t3_loop.trips) : Fin 4 → Nat :=
  let c1_i32_1804 : BitVec 32 := 1#32
  let v3462 : Index := Scalar.indexCast c1_i32_1804
  let c6_i32_1805 : BitVec 32 := 6#32
  let v3463 : Index := Scalar.indexCast c6_i32_1805
  let c0_i32_276 : BitVec 32 := 0#32
  let c1_i32_278 : BitVec 32 := 1#32
  let arg11 : BitVec 32 := Scf.iv c0_i32_276 c1_i32_278 k0_t3
  let v3464 : Index := Scalar.indexCast arg11
  let c496_1806 : Index := 496#32
  ![1, 6, v3464.toNat, 496]
def k0_off735 (k0_t3 : Fin k0_t3_loop.trips) : Fin 4 → Nat :=
  let c1_i32_1810 : BitVec 32 := 1#32
  let v3474 : Index := Scalar.indexCast c1_i32_1810
  let c7_i32_1811 : BitVec 32 := 7#32
  let v3475 : Index := Scalar.indexCast c7_i32_1811
  let c0_i32_276 : BitVec 32 := 0#32
  let c1_i32_278 : BitVec 32 := 1#32
  let arg11 : BitVec 32 := Scf.iv c0_i32_276 c1_i32_278 k0_t3
  let v3476 : Index := Scalar.indexCast arg11
  let c496_1812 : Index := 496#32
  ![1, 7, v3476.toNat, 496]
def k0_off736 (k0_t3 : Fin k0_t3_loop.trips) : Fin 2 → Nat :=
  let c0_i32_276 : BitVec 32 := 0#32
  let c1_i32_278 : BitVec 32 := 1#32
  let arg11 : BitVec 32 := Scf.iv c0_i32_276 c1_i32_278 k0_t3
  let v3486 : Index := Scalar.indexCast arg11
  let c512 : Index := 512#32
  ![v3486.toNat, 512]
def k0_off737 (k0_t3 : Fin k0_t3_loop.trips) : Fin 4 → Nat :=
  let c1_i32_1816 : BitVec 32 := 1#32
  let v3489 : Index := Scalar.indexCast c1_i32_1816
  let c0_i32_1817 : BitVec 32 := 0#32
  let v3490 : Index := Scalar.indexCast c0_i32_1817
  let c0_i32_276 : BitVec 32 := 0#32
  let c1_i32_278 : BitVec 32 := 1#32
  let arg11 : BitVec 32 := Scf.iv c0_i32_276 c1_i32_278 k0_t3
  let v3491 : Index := Scalar.indexCast arg11
  let c512_1818 : Index := 512#32
  ![1, 0, v3491.toNat, 512]
def k0_off738 (k0_t3 : Fin k0_t3_loop.trips) : Fin 4 → Nat :=
  let c1_i32_1822 : BitVec 32 := 1#32
  let v3501 : Index := Scalar.indexCast c1_i32_1822
  let c1_i32_1823 : BitVec 32 := 1#32
  let v3502 : Index := Scalar.indexCast c1_i32_1823
  let c0_i32_276 : BitVec 32 := 0#32
  let c1_i32_278 : BitVec 32 := 1#32
  let arg11 : BitVec 32 := Scf.iv c0_i32_276 c1_i32_278 k0_t3
  let v3503 : Index := Scalar.indexCast arg11
  let c512_1824 : Index := 512#32
  ![1, 1, v3503.toNat, 512]
def k0_off739 (k0_t3 : Fin k0_t3_loop.trips) : Fin 4 → Nat :=
  let c1_i32_1828 : BitVec 32 := 1#32
  let v3513 : Index := Scalar.indexCast c1_i32_1828
  let c2_i32_1829 : BitVec 32 := 2#32
  let v3514 : Index := Scalar.indexCast c2_i32_1829
  let c0_i32_276 : BitVec 32 := 0#32
  let c1_i32_278 : BitVec 32 := 1#32
  let arg11 : BitVec 32 := Scf.iv c0_i32_276 c1_i32_278 k0_t3
  let v3515 : Index := Scalar.indexCast arg11
  let c512_1830 : Index := 512#32
  ![1, 2, v3515.toNat, 512]
def k0_off740 (k0_t3 : Fin k0_t3_loop.trips) : Fin 4 → Nat :=
  let c1_i32_1834 : BitVec 32 := 1#32
  let v3525 : Index := Scalar.indexCast c1_i32_1834
  let c3_i32_1835 : BitVec 32 := 3#32
  let v3526 : Index := Scalar.indexCast c3_i32_1835
  let c0_i32_276 : BitVec 32 := 0#32
  let c1_i32_278 : BitVec 32 := 1#32
  let arg11 : BitVec 32 := Scf.iv c0_i32_276 c1_i32_278 k0_t3
  let v3527 : Index := Scalar.indexCast arg11
  let c512_1836 : Index := 512#32
  ![1, 3, v3527.toNat, 512]
def k0_off741 (k0_t3 : Fin k0_t3_loop.trips) : Fin 4 → Nat :=
  let c1_i32_1840 : BitVec 32 := 1#32
  let v3537 : Index := Scalar.indexCast c1_i32_1840
  let c4_i32_1841 : BitVec 32 := 4#32
  let v3538 : Index := Scalar.indexCast c4_i32_1841
  let c0_i32_276 : BitVec 32 := 0#32
  let c1_i32_278 : BitVec 32 := 1#32
  let arg11 : BitVec 32 := Scf.iv c0_i32_276 c1_i32_278 k0_t3
  let v3539 : Index := Scalar.indexCast arg11
  let c512_1842 : Index := 512#32
  ![1, 4, v3539.toNat, 512]
def k0_off742 (k0_t3 : Fin k0_t3_loop.trips) : Fin 4 → Nat :=
  let c1_i32_1846 : BitVec 32 := 1#32
  let v3549 : Index := Scalar.indexCast c1_i32_1846
  let c5_i32_1847 : BitVec 32 := 5#32
  let v3550 : Index := Scalar.indexCast c5_i32_1847
  let c0_i32_276 : BitVec 32 := 0#32
  let c1_i32_278 : BitVec 32 := 1#32
  let arg11 : BitVec 32 := Scf.iv c0_i32_276 c1_i32_278 k0_t3
  let v3551 : Index := Scalar.indexCast arg11
  let c512_1848 : Index := 512#32
  ![1, 5, v3551.toNat, 512]
def k0_off743 (k0_t3 : Fin k0_t3_loop.trips) : Fin 4 → Nat :=
  let c1_i32_1852 : BitVec 32 := 1#32
  let v3561 : Index := Scalar.indexCast c1_i32_1852
  let c6_i32_1853 : BitVec 32 := 6#32
  let v3562 : Index := Scalar.indexCast c6_i32_1853
  let c0_i32_276 : BitVec 32 := 0#32
  let c1_i32_278 : BitVec 32 := 1#32
  let arg11 : BitVec 32 := Scf.iv c0_i32_276 c1_i32_278 k0_t3
  let v3563 : Index := Scalar.indexCast arg11
  let c512_1854 : Index := 512#32
  ![1, 6, v3563.toNat, 512]
def k0_off744 (k0_t3 : Fin k0_t3_loop.trips) : Fin 4 → Nat :=
  let c1_i32_1858 : BitVec 32 := 1#32
  let v3573 : Index := Scalar.indexCast c1_i32_1858
  let c7_i32_1859 : BitVec 32 := 7#32
  let v3574 : Index := Scalar.indexCast c7_i32_1859
  let c0_i32_276 : BitVec 32 := 0#32
  let c1_i32_278 : BitVec 32 := 1#32
  let arg11 : BitVec 32 := Scf.iv c0_i32_276 c1_i32_278 k0_t3
  let v3575 : Index := Scalar.indexCast arg11
  let c512_1860 : Index := 512#32
  ![1, 7, v3575.toNat, 512]
def k0_off745 (k0_t3 : Fin k0_t3_loop.trips) : Fin 2 → Nat :=
  let c0_i32_276 : BitVec 32 := 0#32
  let c1_i32_278 : BitVec 32 := 1#32
  let arg11 : BitVec 32 := Scf.iv c0_i32_276 c1_i32_278 k0_t3
  let v3585 : Index := Scalar.indexCast arg11
  let c528 : Index := 528#32
  ![v3585.toNat, 528]
def k0_off746 (k0_t3 : Fin k0_t3_loop.trips) : Fin 4 → Nat :=
  let c1_i32_1864 : BitVec 32 := 1#32
  let v3588 : Index := Scalar.indexCast c1_i32_1864
  let c0_i32_1865 : BitVec 32 := 0#32
  let v3589 : Index := Scalar.indexCast c0_i32_1865
  let c0_i32_276 : BitVec 32 := 0#32
  let c1_i32_278 : BitVec 32 := 1#32
  let arg11 : BitVec 32 := Scf.iv c0_i32_276 c1_i32_278 k0_t3
  let v3590 : Index := Scalar.indexCast arg11
  let c528_1866 : Index := 528#32
  ![1, 0, v3590.toNat, 528]
def k0_off747 (k0_t3 : Fin k0_t3_loop.trips) : Fin 4 → Nat :=
  let c1_i32_1870 : BitVec 32 := 1#32
  let v3600 : Index := Scalar.indexCast c1_i32_1870
  let c1_i32_1871 : BitVec 32 := 1#32
  let v3601 : Index := Scalar.indexCast c1_i32_1871
  let c0_i32_276 : BitVec 32 := 0#32
  let c1_i32_278 : BitVec 32 := 1#32
  let arg11 : BitVec 32 := Scf.iv c0_i32_276 c1_i32_278 k0_t3
  let v3602 : Index := Scalar.indexCast arg11
  let c528_1872 : Index := 528#32
  ![1, 1, v3602.toNat, 528]
def k0_off748 (k0_t3 : Fin k0_t3_loop.trips) : Fin 4 → Nat :=
  let c1_i32_1876 : BitVec 32 := 1#32
  let v3612 : Index := Scalar.indexCast c1_i32_1876
  let c2_i32_1877 : BitVec 32 := 2#32
  let v3613 : Index := Scalar.indexCast c2_i32_1877
  let c0_i32_276 : BitVec 32 := 0#32
  let c1_i32_278 : BitVec 32 := 1#32
  let arg11 : BitVec 32 := Scf.iv c0_i32_276 c1_i32_278 k0_t3
  let v3614 : Index := Scalar.indexCast arg11
  let c528_1878 : Index := 528#32
  ![1, 2, v3614.toNat, 528]
def k0_off749 (k0_t3 : Fin k0_t3_loop.trips) : Fin 4 → Nat :=
  let c1_i32_1882 : BitVec 32 := 1#32
  let v3624 : Index := Scalar.indexCast c1_i32_1882
  let c3_i32_1883 : BitVec 32 := 3#32
  let v3625 : Index := Scalar.indexCast c3_i32_1883
  let c0_i32_276 : BitVec 32 := 0#32
  let c1_i32_278 : BitVec 32 := 1#32
  let arg11 : BitVec 32 := Scf.iv c0_i32_276 c1_i32_278 k0_t3
  let v3626 : Index := Scalar.indexCast arg11
  let c528_1884 : Index := 528#32
  ![1, 3, v3626.toNat, 528]
def k0_off750 (k0_t3 : Fin k0_t3_loop.trips) : Fin 4 → Nat :=
  let c1_i32_1888 : BitVec 32 := 1#32
  let v3636 : Index := Scalar.indexCast c1_i32_1888
  let c4_i32_1889 : BitVec 32 := 4#32
  let v3637 : Index := Scalar.indexCast c4_i32_1889
  let c0_i32_276 : BitVec 32 := 0#32
  let c1_i32_278 : BitVec 32 := 1#32
  let arg11 : BitVec 32 := Scf.iv c0_i32_276 c1_i32_278 k0_t3
  let v3638 : Index := Scalar.indexCast arg11
  let c528_1890 : Index := 528#32
  ![1, 4, v3638.toNat, 528]
def k0_off751 (k0_t3 : Fin k0_t3_loop.trips) : Fin 4 → Nat :=
  let c1_i32_1894 : BitVec 32 := 1#32
  let v3648 : Index := Scalar.indexCast c1_i32_1894
  let c5_i32_1895 : BitVec 32 := 5#32
  let v3649 : Index := Scalar.indexCast c5_i32_1895
  let c0_i32_276 : BitVec 32 := 0#32
  let c1_i32_278 : BitVec 32 := 1#32
  let arg11 : BitVec 32 := Scf.iv c0_i32_276 c1_i32_278 k0_t3
  let v3650 : Index := Scalar.indexCast arg11
  let c528_1896 : Index := 528#32
  ![1, 5, v3650.toNat, 528]
def k0_off752 (k0_t3 : Fin k0_t3_loop.trips) : Fin 4 → Nat :=
  let c1_i32_1900 : BitVec 32 := 1#32
  let v3660 : Index := Scalar.indexCast c1_i32_1900
  let c6_i32_1901 : BitVec 32 := 6#32
  let v3661 : Index := Scalar.indexCast c6_i32_1901
  let c0_i32_276 : BitVec 32 := 0#32
  let c1_i32_278 : BitVec 32 := 1#32
  let arg11 : BitVec 32 := Scf.iv c0_i32_276 c1_i32_278 k0_t3
  let v3662 : Index := Scalar.indexCast arg11
  let c528_1902 : Index := 528#32
  ![1, 6, v3662.toNat, 528]
def k0_off753 (k0_t3 : Fin k0_t3_loop.trips) : Fin 4 → Nat :=
  let c1_i32_1906 : BitVec 32 := 1#32
  let v3672 : Index := Scalar.indexCast c1_i32_1906
  let c7_i32_1907 : BitVec 32 := 7#32
  let v3673 : Index := Scalar.indexCast c7_i32_1907
  let c0_i32_276 : BitVec 32 := 0#32
  let c1_i32_278 : BitVec 32 := 1#32
  let arg11 : BitVec 32 := Scf.iv c0_i32_276 c1_i32_278 k0_t3
  let v3674 : Index := Scalar.indexCast arg11
  let c528_1908 : Index := 528#32
  ![1, 7, v3674.toNat, 528]
def k0_off754 (k0_t3 : Fin k0_t3_loop.trips) : Fin 2 → Nat :=
  let c0_i32_276 : BitVec 32 := 0#32
  let c1_i32_278 : BitVec 32 := 1#32
  let arg11 : BitVec 32 := Scf.iv c0_i32_276 c1_i32_278 k0_t3
  let v3684 : Index := Scalar.indexCast arg11
  let c544 : Index := 544#32
  ![v3684.toNat, 544]
def k0_off755 (k0_t3 : Fin k0_t3_loop.trips) : Fin 4 → Nat :=
  let c1_i32_1912 : BitVec 32 := 1#32
  let v3687 : Index := Scalar.indexCast c1_i32_1912
  let c0_i32_1913 : BitVec 32 := 0#32
  let v3688 : Index := Scalar.indexCast c0_i32_1913
  let c0_i32_276 : BitVec 32 := 0#32
  let c1_i32_278 : BitVec 32 := 1#32
  let arg11 : BitVec 32 := Scf.iv c0_i32_276 c1_i32_278 k0_t3
  let v3689 : Index := Scalar.indexCast arg11
  let c544_1914 : Index := 544#32
  ![1, 0, v3689.toNat, 544]
def k0_off756 (k0_t3 : Fin k0_t3_loop.trips) : Fin 4 → Nat :=
  let c1_i32_1918 : BitVec 32 := 1#32
  let v3699 : Index := Scalar.indexCast c1_i32_1918
  let c1_i32_1919 : BitVec 32 := 1#32
  let v3700 : Index := Scalar.indexCast c1_i32_1919
  let c0_i32_276 : BitVec 32 := 0#32
  let c1_i32_278 : BitVec 32 := 1#32
  let arg11 : BitVec 32 := Scf.iv c0_i32_276 c1_i32_278 k0_t3
  let v3701 : Index := Scalar.indexCast arg11
  let c544_1920 : Index := 544#32
  ![1, 1, v3701.toNat, 544]
def k0_off757 (k0_t3 : Fin k0_t3_loop.trips) : Fin 4 → Nat :=
  let c1_i32_1924 : BitVec 32 := 1#32
  let v3711 : Index := Scalar.indexCast c1_i32_1924
  let c2_i32_1925 : BitVec 32 := 2#32
  let v3712 : Index := Scalar.indexCast c2_i32_1925
  let c0_i32_276 : BitVec 32 := 0#32
  let c1_i32_278 : BitVec 32 := 1#32
  let arg11 : BitVec 32 := Scf.iv c0_i32_276 c1_i32_278 k0_t3
  let v3713 : Index := Scalar.indexCast arg11
  let c544_1926 : Index := 544#32
  ![1, 2, v3713.toNat, 544]
def k0_off758 (k0_t3 : Fin k0_t3_loop.trips) : Fin 4 → Nat :=
  let c1_i32_1930 : BitVec 32 := 1#32
  let v3723 : Index := Scalar.indexCast c1_i32_1930
  let c3_i32_1931 : BitVec 32 := 3#32
  let v3724 : Index := Scalar.indexCast c3_i32_1931
  let c0_i32_276 : BitVec 32 := 0#32
  let c1_i32_278 : BitVec 32 := 1#32
  let arg11 : BitVec 32 := Scf.iv c0_i32_276 c1_i32_278 k0_t3
  let v3725 : Index := Scalar.indexCast arg11
  let c544_1932 : Index := 544#32
  ![1, 3, v3725.toNat, 544]
def k0_off759 (k0_t3 : Fin k0_t3_loop.trips) : Fin 4 → Nat :=
  let c1_i32_1936 : BitVec 32 := 1#32
  let v3735 : Index := Scalar.indexCast c1_i32_1936
  let c4_i32_1937 : BitVec 32 := 4#32
  let v3736 : Index := Scalar.indexCast c4_i32_1937
  let c0_i32_276 : BitVec 32 := 0#32
  let c1_i32_278 : BitVec 32 := 1#32
  let arg11 : BitVec 32 := Scf.iv c0_i32_276 c1_i32_278 k0_t3
  let v3737 : Index := Scalar.indexCast arg11
  let c544_1938 : Index := 544#32
  ![1, 4, v3737.toNat, 544]
def k0_off760 (k0_t3 : Fin k0_t3_loop.trips) : Fin 4 → Nat :=
  let c1_i32_1942 : BitVec 32 := 1#32
  let v3747 : Index := Scalar.indexCast c1_i32_1942
  let c5_i32_1943 : BitVec 32 := 5#32
  let v3748 : Index := Scalar.indexCast c5_i32_1943
  let c0_i32_276 : BitVec 32 := 0#32
  let c1_i32_278 : BitVec 32 := 1#32
  let arg11 : BitVec 32 := Scf.iv c0_i32_276 c1_i32_278 k0_t3
  let v3749 : Index := Scalar.indexCast arg11
  let c544_1944 : Index := 544#32
  ![1, 5, v3749.toNat, 544]
def k0_off761 (k0_t3 : Fin k0_t3_loop.trips) : Fin 4 → Nat :=
  let c1_i32_1948 : BitVec 32 := 1#32
  let v3759 : Index := Scalar.indexCast c1_i32_1948
  let c6_i32_1949 : BitVec 32 := 6#32
  let v3760 : Index := Scalar.indexCast c6_i32_1949
  let c0_i32_276 : BitVec 32 := 0#32
  let c1_i32_278 : BitVec 32 := 1#32
  let arg11 : BitVec 32 := Scf.iv c0_i32_276 c1_i32_278 k0_t3
  let v3761 : Index := Scalar.indexCast arg11
  let c544_1950 : Index := 544#32
  ![1, 6, v3761.toNat, 544]
def k0_off762 (k0_t3 : Fin k0_t3_loop.trips) : Fin 4 → Nat :=
  let c1_i32_1954 : BitVec 32 := 1#32
  let v3771 : Index := Scalar.indexCast c1_i32_1954
  let c7_i32_1955 : BitVec 32 := 7#32
  let v3772 : Index := Scalar.indexCast c7_i32_1955
  let c0_i32_276 : BitVec 32 := 0#32
  let c1_i32_278 : BitVec 32 := 1#32
  let arg11 : BitVec 32 := Scf.iv c0_i32_276 c1_i32_278 k0_t3
  let v3773 : Index := Scalar.indexCast arg11
  let c544_1956 : Index := 544#32
  ![1, 7, v3773.toNat, 544]
def k0_off763 (k0_t3 : Fin k0_t3_loop.trips) : Fin 2 → Nat :=
  let c0_i32_276 : BitVec 32 := 0#32
  let c1_i32_278 : BitVec 32 := 1#32
  let arg11 : BitVec 32 := Scf.iv c0_i32_276 c1_i32_278 k0_t3
  let v3783 : Index := Scalar.indexCast arg11
  let c560 : Index := 560#32
  ![v3783.toNat, 560]
def k0_off764 (k0_t3 : Fin k0_t3_loop.trips) : Fin 4 → Nat :=
  let c1_i32_1960 : BitVec 32 := 1#32
  let v3786 : Index := Scalar.indexCast c1_i32_1960
  let c0_i32_1961 : BitVec 32 := 0#32
  let v3787 : Index := Scalar.indexCast c0_i32_1961
  let c0_i32_276 : BitVec 32 := 0#32
  let c1_i32_278 : BitVec 32 := 1#32
  let arg11 : BitVec 32 := Scf.iv c0_i32_276 c1_i32_278 k0_t3
  let v3788 : Index := Scalar.indexCast arg11
  let c560_1962 : Index := 560#32
  ![1, 0, v3788.toNat, 560]
def k0_off765 (k0_t3 : Fin k0_t3_loop.trips) : Fin 4 → Nat :=
  let c1_i32_1966 : BitVec 32 := 1#32
  let v3798 : Index := Scalar.indexCast c1_i32_1966
  let c1_i32_1967 : BitVec 32 := 1#32
  let v3799 : Index := Scalar.indexCast c1_i32_1967
  let c0_i32_276 : BitVec 32 := 0#32
  let c1_i32_278 : BitVec 32 := 1#32
  let arg11 : BitVec 32 := Scf.iv c0_i32_276 c1_i32_278 k0_t3
  let v3800 : Index := Scalar.indexCast arg11
  let c560_1968 : Index := 560#32
  ![1, 1, v3800.toNat, 560]
def k0_off766 (k0_t3 : Fin k0_t3_loop.trips) : Fin 4 → Nat :=
  let c1_i32_1972 : BitVec 32 := 1#32
  let v3810 : Index := Scalar.indexCast c1_i32_1972
  let c2_i32_1973 : BitVec 32 := 2#32
  let v3811 : Index := Scalar.indexCast c2_i32_1973
  let c0_i32_276 : BitVec 32 := 0#32
  let c1_i32_278 : BitVec 32 := 1#32
  let arg11 : BitVec 32 := Scf.iv c0_i32_276 c1_i32_278 k0_t3
  let v3812 : Index := Scalar.indexCast arg11
  let c560_1974 : Index := 560#32
  ![1, 2, v3812.toNat, 560]
def k0_off767 (k0_t3 : Fin k0_t3_loop.trips) : Fin 4 → Nat :=
  let c1_i32_1978 : BitVec 32 := 1#32
  let v3822 : Index := Scalar.indexCast c1_i32_1978
  let c3_i32_1979 : BitVec 32 := 3#32
  let v3823 : Index := Scalar.indexCast c3_i32_1979
  let c0_i32_276 : BitVec 32 := 0#32
  let c1_i32_278 : BitVec 32 := 1#32
  let arg11 : BitVec 32 := Scf.iv c0_i32_276 c1_i32_278 k0_t3
  let v3824 : Index := Scalar.indexCast arg11
  let c560_1980 : Index := 560#32
  ![1, 3, v3824.toNat, 560]
def k0_off768 (k0_t3 : Fin k0_t3_loop.trips) : Fin 4 → Nat :=
  let c1_i32_1984 : BitVec 32 := 1#32
  let v3834 : Index := Scalar.indexCast c1_i32_1984
  let c4_i32_1985 : BitVec 32 := 4#32
  let v3835 : Index := Scalar.indexCast c4_i32_1985
  let c0_i32_276 : BitVec 32 := 0#32
  let c1_i32_278 : BitVec 32 := 1#32
  let arg11 : BitVec 32 := Scf.iv c0_i32_276 c1_i32_278 k0_t3
  let v3836 : Index := Scalar.indexCast arg11
  let c560_1986 : Index := 560#32
  ![1, 4, v3836.toNat, 560]
def k0_off769 (k0_t3 : Fin k0_t3_loop.trips) : Fin 4 → Nat :=
  let c1_i32_1990 : BitVec 32 := 1#32
  let v3846 : Index := Scalar.indexCast c1_i32_1990
  let c5_i32_1991 : BitVec 32 := 5#32
  let v3847 : Index := Scalar.indexCast c5_i32_1991
  let c0_i32_276 : BitVec 32 := 0#32
  let c1_i32_278 : BitVec 32 := 1#32
  let arg11 : BitVec 32 := Scf.iv c0_i32_276 c1_i32_278 k0_t3
  let v3848 : Index := Scalar.indexCast arg11
  let c560_1992 : Index := 560#32
  ![1, 5, v3848.toNat, 560]
def k0_off770 (k0_t3 : Fin k0_t3_loop.trips) : Fin 4 → Nat :=
  let c1_i32_1996 : BitVec 32 := 1#32
  let v3858 : Index := Scalar.indexCast c1_i32_1996
  let c6_i32_1997 : BitVec 32 := 6#32
  let v3859 : Index := Scalar.indexCast c6_i32_1997
  let c0_i32_276 : BitVec 32 := 0#32
  let c1_i32_278 : BitVec 32 := 1#32
  let arg11 : BitVec 32 := Scf.iv c0_i32_276 c1_i32_278 k0_t3
  let v3860 : Index := Scalar.indexCast arg11
  let c560_1998 : Index := 560#32
  ![1, 6, v3860.toNat, 560]
def k0_off771 (k0_t3 : Fin k0_t3_loop.trips) : Fin 4 → Nat :=
  let c1_i32_2002 : BitVec 32 := 1#32
  let v3870 : Index := Scalar.indexCast c1_i32_2002
  let c7_i32_2003 : BitVec 32 := 7#32
  let v3871 : Index := Scalar.indexCast c7_i32_2003
  let c0_i32_276 : BitVec 32 := 0#32
  let c1_i32_278 : BitVec 32 := 1#32
  let arg11 : BitVec 32 := Scf.iv c0_i32_276 c1_i32_278 k0_t3
  let v3872 : Index := Scalar.indexCast arg11
  let c560_2004 : Index := 560#32
  ![1, 7, v3872.toNat, 560]
def k0_off772 (k0_t3 : Fin k0_t3_loop.trips) : Fin 2 → Nat :=
  let c0_i32_276 : BitVec 32 := 0#32
  let c1_i32_278 : BitVec 32 := 1#32
  let arg11 : BitVec 32 := Scf.iv c0_i32_276 c1_i32_278 k0_t3
  let v3882 : Index := Scalar.indexCast arg11
  let c576 : Index := 576#32
  ![v3882.toNat, 576]
def k0_off773 (k0_t3 : Fin k0_t3_loop.trips) : Fin 4 → Nat :=
  let c1_i32_2008 : BitVec 32 := 1#32
  let v3885 : Index := Scalar.indexCast c1_i32_2008
  let c0_i32_2009 : BitVec 32 := 0#32
  let v3886 : Index := Scalar.indexCast c0_i32_2009
  let c0_i32_276 : BitVec 32 := 0#32
  let c1_i32_278 : BitVec 32 := 1#32
  let arg11 : BitVec 32 := Scf.iv c0_i32_276 c1_i32_278 k0_t3
  let v3887 : Index := Scalar.indexCast arg11
  let c576_2010 : Index := 576#32
  ![1, 0, v3887.toNat, 576]
def k0_off774 (k0_t3 : Fin k0_t3_loop.trips) : Fin 4 → Nat :=
  let c1_i32_2014 : BitVec 32 := 1#32
  let v3897 : Index := Scalar.indexCast c1_i32_2014
  let c1_i32_2015 : BitVec 32 := 1#32
  let v3898 : Index := Scalar.indexCast c1_i32_2015
  let c0_i32_276 : BitVec 32 := 0#32
  let c1_i32_278 : BitVec 32 := 1#32
  let arg11 : BitVec 32 := Scf.iv c0_i32_276 c1_i32_278 k0_t3
  let v3899 : Index := Scalar.indexCast arg11
  let c576_2016 : Index := 576#32
  ![1, 1, v3899.toNat, 576]
def k0_off775 (k0_t3 : Fin k0_t3_loop.trips) : Fin 4 → Nat :=
  let c1_i32_2020 : BitVec 32 := 1#32
  let v3909 : Index := Scalar.indexCast c1_i32_2020
  let c2_i32_2021 : BitVec 32 := 2#32
  let v3910 : Index := Scalar.indexCast c2_i32_2021
  let c0_i32_276 : BitVec 32 := 0#32
  let c1_i32_278 : BitVec 32 := 1#32
  let arg11 : BitVec 32 := Scf.iv c0_i32_276 c1_i32_278 k0_t3
  let v3911 : Index := Scalar.indexCast arg11
  let c576_2022 : Index := 576#32
  ![1, 2, v3911.toNat, 576]
def k0_off776 (k0_t3 : Fin k0_t3_loop.trips) : Fin 4 → Nat :=
  let c1_i32_2026 : BitVec 32 := 1#32
  let v3921 : Index := Scalar.indexCast c1_i32_2026
  let c3_i32_2027 : BitVec 32 := 3#32
  let v3922 : Index := Scalar.indexCast c3_i32_2027
  let c0_i32_276 : BitVec 32 := 0#32
  let c1_i32_278 : BitVec 32 := 1#32
  let arg11 : BitVec 32 := Scf.iv c0_i32_276 c1_i32_278 k0_t3
  let v3923 : Index := Scalar.indexCast arg11
  let c576_2028 : Index := 576#32
  ![1, 3, v3923.toNat, 576]
def k0_off777 (k0_t3 : Fin k0_t3_loop.trips) : Fin 4 → Nat :=
  let c1_i32_2032 : BitVec 32 := 1#32
  let v3933 : Index := Scalar.indexCast c1_i32_2032
  let c4_i32_2033 : BitVec 32 := 4#32
  let v3934 : Index := Scalar.indexCast c4_i32_2033
  let c0_i32_276 : BitVec 32 := 0#32
  let c1_i32_278 : BitVec 32 := 1#32
  let arg11 : BitVec 32 := Scf.iv c0_i32_276 c1_i32_278 k0_t3
  let v3935 : Index := Scalar.indexCast arg11
  let c576_2034 : Index := 576#32
  ![1, 4, v3935.toNat, 576]
def k0_off778 (k0_t3 : Fin k0_t3_loop.trips) : Fin 4 → Nat :=
  let c1_i32_2038 : BitVec 32 := 1#32
  let v3945 : Index := Scalar.indexCast c1_i32_2038
  let c5_i32_2039 : BitVec 32 := 5#32
  let v3946 : Index := Scalar.indexCast c5_i32_2039
  let c0_i32_276 : BitVec 32 := 0#32
  let c1_i32_278 : BitVec 32 := 1#32
  let arg11 : BitVec 32 := Scf.iv c0_i32_276 c1_i32_278 k0_t3
  let v3947 : Index := Scalar.indexCast arg11
  let c576_2040 : Index := 576#32
  ![1, 5, v3947.toNat, 576]
def k0_off779 (k0_t3 : Fin k0_t3_loop.trips) : Fin 4 → Nat :=
  let c1_i32_2044 : BitVec 32 := 1#32
  let v3957 : Index := Scalar.indexCast c1_i32_2044
  let c6_i32_2045 : BitVec 32 := 6#32
  let v3958 : Index := Scalar.indexCast c6_i32_2045
  let c0_i32_276 : BitVec 32 := 0#32
  let c1_i32_278 : BitVec 32 := 1#32
  let arg11 : BitVec 32 := Scf.iv c0_i32_276 c1_i32_278 k0_t3
  let v3959 : Index := Scalar.indexCast arg11
  let c576_2046 : Index := 576#32
  ![1, 6, v3959.toNat, 576]
def k0_off780 (k0_t3 : Fin k0_t3_loop.trips) : Fin 4 → Nat :=
  let c1_i32_2050 : BitVec 32 := 1#32
  let v3969 : Index := Scalar.indexCast c1_i32_2050
  let c7_i32_2051 : BitVec 32 := 7#32
  let v3970 : Index := Scalar.indexCast c7_i32_2051
  let c0_i32_276 : BitVec 32 := 0#32
  let c1_i32_278 : BitVec 32 := 1#32
  let arg11 : BitVec 32 := Scf.iv c0_i32_276 c1_i32_278 k0_t3
  let v3971 : Index := Scalar.indexCast arg11
  let c576_2052 : Index := 576#32
  ![1, 7, v3971.toNat, 576]
def k0_off781 (k0_t3 : Fin k0_t3_loop.trips) : Fin 2 → Nat :=
  let c0_i32_276 : BitVec 32 := 0#32
  let c1_i32_278 : BitVec 32 := 1#32
  let arg11 : BitVec 32 := Scf.iv c0_i32_276 c1_i32_278 k0_t3
  let v3981 : Index := Scalar.indexCast arg11
  let c592 : Index := 592#32
  ![v3981.toNat, 592]
def k0_off782 (k0_t3 : Fin k0_t3_loop.trips) : Fin 4 → Nat :=
  let c1_i32_2056 : BitVec 32 := 1#32
  let v3984 : Index := Scalar.indexCast c1_i32_2056
  let c0_i32_2057 : BitVec 32 := 0#32
  let v3985 : Index := Scalar.indexCast c0_i32_2057
  let c0_i32_276 : BitVec 32 := 0#32
  let c1_i32_278 : BitVec 32 := 1#32
  let arg11 : BitVec 32 := Scf.iv c0_i32_276 c1_i32_278 k0_t3
  let v3986 : Index := Scalar.indexCast arg11
  let c592_2058 : Index := 592#32
  ![1, 0, v3986.toNat, 592]
def k0_off783 (k0_t3 : Fin k0_t3_loop.trips) : Fin 4 → Nat :=
  let c1_i32_2062 : BitVec 32 := 1#32
  let v3996 : Index := Scalar.indexCast c1_i32_2062
  let c1_i32_2063 : BitVec 32 := 1#32
  let v3997 : Index := Scalar.indexCast c1_i32_2063
  let c0_i32_276 : BitVec 32 := 0#32
  let c1_i32_278 : BitVec 32 := 1#32
  let arg11 : BitVec 32 := Scf.iv c0_i32_276 c1_i32_278 k0_t3
  let v3998 : Index := Scalar.indexCast arg11
  let c592_2064 : Index := 592#32
  ![1, 1, v3998.toNat, 592]
def k0_off784 (k0_t3 : Fin k0_t3_loop.trips) : Fin 4 → Nat :=
  let c1_i32_2068 : BitVec 32 := 1#32
  let v4008 : Index := Scalar.indexCast c1_i32_2068
  let c2_i32_2069 : BitVec 32 := 2#32
  let v4009 : Index := Scalar.indexCast c2_i32_2069
  let c0_i32_276 : BitVec 32 := 0#32
  let c1_i32_278 : BitVec 32 := 1#32
  let arg11 : BitVec 32 := Scf.iv c0_i32_276 c1_i32_278 k0_t3
  let v4010 : Index := Scalar.indexCast arg11
  let c592_2070 : Index := 592#32
  ![1, 2, v4010.toNat, 592]
def k0_off785 (k0_t3 : Fin k0_t3_loop.trips) : Fin 4 → Nat :=
  let c1_i32_2074 : BitVec 32 := 1#32
  let v4020 : Index := Scalar.indexCast c1_i32_2074
  let c3_i32_2075 : BitVec 32 := 3#32
  let v4021 : Index := Scalar.indexCast c3_i32_2075
  let c0_i32_276 : BitVec 32 := 0#32
  let c1_i32_278 : BitVec 32 := 1#32
  let arg11 : BitVec 32 := Scf.iv c0_i32_276 c1_i32_278 k0_t3
  let v4022 : Index := Scalar.indexCast arg11
  let c592_2076 : Index := 592#32
  ![1, 3, v4022.toNat, 592]
def k0_off786 (k0_t3 : Fin k0_t3_loop.trips) : Fin 4 → Nat :=
  let c1_i32_2080 : BitVec 32 := 1#32
  let v4032 : Index := Scalar.indexCast c1_i32_2080
  let c4_i32_2081 : BitVec 32 := 4#32
  let v4033 : Index := Scalar.indexCast c4_i32_2081
  let c0_i32_276 : BitVec 32 := 0#32
  let c1_i32_278 : BitVec 32 := 1#32
  let arg11 : BitVec 32 := Scf.iv c0_i32_276 c1_i32_278 k0_t3
  let v4034 : Index := Scalar.indexCast arg11
  let c592_2082 : Index := 592#32
  ![1, 4, v4034.toNat, 592]
def k0_off787 (k0_t3 : Fin k0_t3_loop.trips) : Fin 4 → Nat :=
  let c1_i32_2086 : BitVec 32 := 1#32
  let v4044 : Index := Scalar.indexCast c1_i32_2086
  let c5_i32_2087 : BitVec 32 := 5#32
  let v4045 : Index := Scalar.indexCast c5_i32_2087
  let c0_i32_276 : BitVec 32 := 0#32
  let c1_i32_278 : BitVec 32 := 1#32
  let arg11 : BitVec 32 := Scf.iv c0_i32_276 c1_i32_278 k0_t3
  let v4046 : Index := Scalar.indexCast arg11
  let c592_2088 : Index := 592#32
  ![1, 5, v4046.toNat, 592]
def k0_off788 (k0_t3 : Fin k0_t3_loop.trips) : Fin 4 → Nat :=
  let c1_i32_2092 : BitVec 32 := 1#32
  let v4056 : Index := Scalar.indexCast c1_i32_2092
  let c6_i32_2093 : BitVec 32 := 6#32
  let v4057 : Index := Scalar.indexCast c6_i32_2093
  let c0_i32_276 : BitVec 32 := 0#32
  let c1_i32_278 : BitVec 32 := 1#32
  let arg11 : BitVec 32 := Scf.iv c0_i32_276 c1_i32_278 k0_t3
  let v4058 : Index := Scalar.indexCast arg11
  let c592_2094 : Index := 592#32
  ![1, 6, v4058.toNat, 592]
def k0_off789 (k0_t3 : Fin k0_t3_loop.trips) : Fin 4 → Nat :=
  let c1_i32_2098 : BitVec 32 := 1#32
  let v4068 : Index := Scalar.indexCast c1_i32_2098
  let c7_i32_2099 : BitVec 32 := 7#32
  let v4069 : Index := Scalar.indexCast c7_i32_2099
  let c0_i32_276 : BitVec 32 := 0#32
  let c1_i32_278 : BitVec 32 := 1#32
  let arg11 : BitVec 32 := Scf.iv c0_i32_276 c1_i32_278 k0_t3
  let v4070 : Index := Scalar.indexCast arg11
  let c592_2100 : Index := 592#32
  ![1, 7, v4070.toNat, 592]
def k0_off790 (k0_t3 : Fin k0_t3_loop.trips) : Fin 2 → Nat :=
  let c0_i32_276 : BitVec 32 := 0#32
  let c1_i32_278 : BitVec 32 := 1#32
  let arg11 : BitVec 32 := Scf.iv c0_i32_276 c1_i32_278 k0_t3
  let v4080 : Index := Scalar.indexCast arg11
  let c608 : Index := 608#32
  ![v4080.toNat, 608]
def k0_off791 (k0_t3 : Fin k0_t3_loop.trips) : Fin 4 → Nat :=
  let c1_i32_2104 : BitVec 32 := 1#32
  let v4083 : Index := Scalar.indexCast c1_i32_2104
  let c0_i32_2105 : BitVec 32 := 0#32
  let v4084 : Index := Scalar.indexCast c0_i32_2105
  let c0_i32_276 : BitVec 32 := 0#32
  let c1_i32_278 : BitVec 32 := 1#32
  let arg11 : BitVec 32 := Scf.iv c0_i32_276 c1_i32_278 k0_t3
  let v4085 : Index := Scalar.indexCast arg11
  let c608_2106 : Index := 608#32
  ![1, 0, v4085.toNat, 608]
def k0_off792 (k0_t3 : Fin k0_t3_loop.trips) : Fin 4 → Nat :=
  let c1_i32_2110 : BitVec 32 := 1#32
  let v4095 : Index := Scalar.indexCast c1_i32_2110
  let c1_i32_2111 : BitVec 32 := 1#32
  let v4096 : Index := Scalar.indexCast c1_i32_2111
  let c0_i32_276 : BitVec 32 := 0#32
  let c1_i32_278 : BitVec 32 := 1#32
  let arg11 : BitVec 32 := Scf.iv c0_i32_276 c1_i32_278 k0_t3
  let v4097 : Index := Scalar.indexCast arg11
  let c608_2112 : Index := 608#32
  ![1, 1, v4097.toNat, 608]
def k0_off793 (k0_t3 : Fin k0_t3_loop.trips) : Fin 4 → Nat :=
  let c1_i32_2116 : BitVec 32 := 1#32
  let v4107 : Index := Scalar.indexCast c1_i32_2116
  let c2_i32_2117 : BitVec 32 := 2#32
  let v4108 : Index := Scalar.indexCast c2_i32_2117
  let c0_i32_276 : BitVec 32 := 0#32
  let c1_i32_278 : BitVec 32 := 1#32
  let arg11 : BitVec 32 := Scf.iv c0_i32_276 c1_i32_278 k0_t3
  let v4109 : Index := Scalar.indexCast arg11
  let c608_2118 : Index := 608#32
  ![1, 2, v4109.toNat, 608]
def k0_off794 (k0_t3 : Fin k0_t3_loop.trips) : Fin 4 → Nat :=
  let c1_i32_2122 : BitVec 32 := 1#32
  let v4119 : Index := Scalar.indexCast c1_i32_2122
  let c3_i32_2123 : BitVec 32 := 3#32
  let v4120 : Index := Scalar.indexCast c3_i32_2123
  let c0_i32_276 : BitVec 32 := 0#32
  let c1_i32_278 : BitVec 32 := 1#32
  let arg11 : BitVec 32 := Scf.iv c0_i32_276 c1_i32_278 k0_t3
  let v4121 : Index := Scalar.indexCast arg11
  let c608_2124 : Index := 608#32
  ![1, 3, v4121.toNat, 608]
def k0_off795 (k0_t3 : Fin k0_t3_loop.trips) : Fin 4 → Nat :=
  let c1_i32_2128 : BitVec 32 := 1#32
  let v4131 : Index := Scalar.indexCast c1_i32_2128
  let c4_i32_2129 : BitVec 32 := 4#32
  let v4132 : Index := Scalar.indexCast c4_i32_2129
  let c0_i32_276 : BitVec 32 := 0#32
  let c1_i32_278 : BitVec 32 := 1#32
  let arg11 : BitVec 32 := Scf.iv c0_i32_276 c1_i32_278 k0_t3
  let v4133 : Index := Scalar.indexCast arg11
  let c608_2130 : Index := 608#32
  ![1, 4, v4133.toNat, 608]
def k0_off796 (k0_t3 : Fin k0_t3_loop.trips) : Fin 4 → Nat :=
  let c1_i32_2134 : BitVec 32 := 1#32
  let v4143 : Index := Scalar.indexCast c1_i32_2134
  let c5_i32_2135 : BitVec 32 := 5#32
  let v4144 : Index := Scalar.indexCast c5_i32_2135
  let c0_i32_276 : BitVec 32 := 0#32
  let c1_i32_278 : BitVec 32 := 1#32
  let arg11 : BitVec 32 := Scf.iv c0_i32_276 c1_i32_278 k0_t3
  let v4145 : Index := Scalar.indexCast arg11
  let c608_2136 : Index := 608#32
  ![1, 5, v4145.toNat, 608]
def k0_off797 (k0_t3 : Fin k0_t3_loop.trips) : Fin 4 → Nat :=
  let c1_i32_2140 : BitVec 32 := 1#32
  let v4155 : Index := Scalar.indexCast c1_i32_2140
  let c6_i32_2141 : BitVec 32 := 6#32
  let v4156 : Index := Scalar.indexCast c6_i32_2141
  let c0_i32_276 : BitVec 32 := 0#32
  let c1_i32_278 : BitVec 32 := 1#32
  let arg11 : BitVec 32 := Scf.iv c0_i32_276 c1_i32_278 k0_t3
  let v4157 : Index := Scalar.indexCast arg11
  let c608_2142 : Index := 608#32
  ![1, 6, v4157.toNat, 608]
def k0_off798 (k0_t3 : Fin k0_t3_loop.trips) : Fin 4 → Nat :=
  let c1_i32_2146 : BitVec 32 := 1#32
  let v4167 : Index := Scalar.indexCast c1_i32_2146
  let c7_i32_2147 : BitVec 32 := 7#32
  let v4168 : Index := Scalar.indexCast c7_i32_2147
  let c0_i32_276 : BitVec 32 := 0#32
  let c1_i32_278 : BitVec 32 := 1#32
  let arg11 : BitVec 32 := Scf.iv c0_i32_276 c1_i32_278 k0_t3
  let v4169 : Index := Scalar.indexCast arg11
  let c608_2148 : Index := 608#32
  ![1, 7, v4169.toNat, 608]
def k0_off799 (k0_t3 : Fin k0_t3_loop.trips) : Fin 2 → Nat :=
  let c0_i32_276 : BitVec 32 := 0#32
  let c1_i32_278 : BitVec 32 := 1#32
  let arg11 : BitVec 32 := Scf.iv c0_i32_276 c1_i32_278 k0_t3
  let v4179 : Index := Scalar.indexCast arg11
  let c624 : Index := 624#32
  ![v4179.toNat, 624]
def k0_off800 (k0_t3 : Fin k0_t3_loop.trips) : Fin 4 → Nat :=
  let c1_i32_2152 : BitVec 32 := 1#32
  let v4182 : Index := Scalar.indexCast c1_i32_2152
  let c0_i32_2153 : BitVec 32 := 0#32
  let v4183 : Index := Scalar.indexCast c0_i32_2153
  let c0_i32_276 : BitVec 32 := 0#32
  let c1_i32_278 : BitVec 32 := 1#32
  let arg11 : BitVec 32 := Scf.iv c0_i32_276 c1_i32_278 k0_t3
  let v4184 : Index := Scalar.indexCast arg11
  let c624_2154 : Index := 624#32
  ![1, 0, v4184.toNat, 624]
def k0_off801 (k0_t3 : Fin k0_t3_loop.trips) : Fin 4 → Nat :=
  let c1_i32_2158 : BitVec 32 := 1#32
  let v4194 : Index := Scalar.indexCast c1_i32_2158
  let c1_i32_2159 : BitVec 32 := 1#32
  let v4195 : Index := Scalar.indexCast c1_i32_2159
  let c0_i32_276 : BitVec 32 := 0#32
  let c1_i32_278 : BitVec 32 := 1#32
  let arg11 : BitVec 32 := Scf.iv c0_i32_276 c1_i32_278 k0_t3
  let v4196 : Index := Scalar.indexCast arg11
  let c624_2160 : Index := 624#32
  ![1, 1, v4196.toNat, 624]
def k0_off802 (k0_t3 : Fin k0_t3_loop.trips) : Fin 4 → Nat :=
  let c1_i32_2164 : BitVec 32 := 1#32
  let v4206 : Index := Scalar.indexCast c1_i32_2164
  let c2_i32_2165 : BitVec 32 := 2#32
  let v4207 : Index := Scalar.indexCast c2_i32_2165
  let c0_i32_276 : BitVec 32 := 0#32
  let c1_i32_278 : BitVec 32 := 1#32
  let arg11 : BitVec 32 := Scf.iv c0_i32_276 c1_i32_278 k0_t3
  let v4208 : Index := Scalar.indexCast arg11
  let c624_2166 : Index := 624#32
  ![1, 2, v4208.toNat, 624]
def k0_off803 (k0_t3 : Fin k0_t3_loop.trips) : Fin 4 → Nat :=
  let c1_i32_2170 : BitVec 32 := 1#32
  let v4218 : Index := Scalar.indexCast c1_i32_2170
  let c3_i32_2171 : BitVec 32 := 3#32
  let v4219 : Index := Scalar.indexCast c3_i32_2171
  let c0_i32_276 : BitVec 32 := 0#32
  let c1_i32_278 : BitVec 32 := 1#32
  let arg11 : BitVec 32 := Scf.iv c0_i32_276 c1_i32_278 k0_t3
  let v4220 : Index := Scalar.indexCast arg11
  let c624_2172 : Index := 624#32
  ![1, 3, v4220.toNat, 624]
def k0_off804 (k0_t3 : Fin k0_t3_loop.trips) : Fin 4 → Nat :=
  let c1_i32_2176 : BitVec 32 := 1#32
  let v4230 : Index := Scalar.indexCast c1_i32_2176
  let c4_i32_2177 : BitVec 32 := 4#32
  let v4231 : Index := Scalar.indexCast c4_i32_2177
  let c0_i32_276 : BitVec 32 := 0#32
  let c1_i32_278 : BitVec 32 := 1#32
  let arg11 : BitVec 32 := Scf.iv c0_i32_276 c1_i32_278 k0_t3
  let v4232 : Index := Scalar.indexCast arg11
  let c624_2178 : Index := 624#32
  ![1, 4, v4232.toNat, 624]
def k0_off805 (k0_t3 : Fin k0_t3_loop.trips) : Fin 4 → Nat :=
  let c1_i32_2182 : BitVec 32 := 1#32
  let v4242 : Index := Scalar.indexCast c1_i32_2182
  let c5_i32_2183 : BitVec 32 := 5#32
  let v4243 : Index := Scalar.indexCast c5_i32_2183
  let c0_i32_276 : BitVec 32 := 0#32
  let c1_i32_278 : BitVec 32 := 1#32
  let arg11 : BitVec 32 := Scf.iv c0_i32_276 c1_i32_278 k0_t3
  let v4244 : Index := Scalar.indexCast arg11
  let c624_2184 : Index := 624#32
  ![1, 5, v4244.toNat, 624]
def k0_off806 (k0_t3 : Fin k0_t3_loop.trips) : Fin 4 → Nat :=
  let c1_i32_2188 : BitVec 32 := 1#32
  let v4254 : Index := Scalar.indexCast c1_i32_2188
  let c6_i32_2189 : BitVec 32 := 6#32
  let v4255 : Index := Scalar.indexCast c6_i32_2189
  let c0_i32_276 : BitVec 32 := 0#32
  let c1_i32_278 : BitVec 32 := 1#32
  let arg11 : BitVec 32 := Scf.iv c0_i32_276 c1_i32_278 k0_t3
  let v4256 : Index := Scalar.indexCast arg11
  let c624_2190 : Index := 624#32
  ![1, 6, v4256.toNat, 624]
def k0_off807 (k0_t3 : Fin k0_t3_loop.trips) : Fin 4 → Nat :=
  let c1_i32_2194 : BitVec 32 := 1#32
  let v4266 : Index := Scalar.indexCast c1_i32_2194
  let c7_i32_2195 : BitVec 32 := 7#32
  let v4267 : Index := Scalar.indexCast c7_i32_2195
  let c0_i32_276 : BitVec 32 := 0#32
  let c1_i32_278 : BitVec 32 := 1#32
  let arg11 : BitVec 32 := Scf.iv c0_i32_276 c1_i32_278 k0_t3
  let v4268 : Index := Scalar.indexCast arg11
  let c624_2196 : Index := 624#32
  ![1, 7, v4268.toNat, 624]
def k0_off808 (k0_t3 : Fin k0_t3_loop.trips) : Fin 2 → Nat :=
  let c0_i32_276 : BitVec 32 := 0#32
  let c1_i32_278 : BitVec 32 := 1#32
  let arg11 : BitVec 32 := Scf.iv c0_i32_276 c1_i32_278 k0_t3
  let v4278 : Index := Scalar.indexCast arg11
  let c640 : Index := 640#32
  ![v4278.toNat, 640]
def k0_off809 (k0_t3 : Fin k0_t3_loop.trips) : Fin 4 → Nat :=
  let c1_i32_2200 : BitVec 32 := 1#32
  let v4281 : Index := Scalar.indexCast c1_i32_2200
  let c0_i32_2201 : BitVec 32 := 0#32
  let v4282 : Index := Scalar.indexCast c0_i32_2201
  let c0_i32_276 : BitVec 32 := 0#32
  let c1_i32_278 : BitVec 32 := 1#32
  let arg11 : BitVec 32 := Scf.iv c0_i32_276 c1_i32_278 k0_t3
  let v4283 : Index := Scalar.indexCast arg11
  let c640_2202 : Index := 640#32
  ![1, 0, v4283.toNat, 640]
def k0_off810 (k0_t3 : Fin k0_t3_loop.trips) : Fin 4 → Nat :=
  let c1_i32_2206 : BitVec 32 := 1#32
  let v4293 : Index := Scalar.indexCast c1_i32_2206
  let c1_i32_2207 : BitVec 32 := 1#32
  let v4294 : Index := Scalar.indexCast c1_i32_2207
  let c0_i32_276 : BitVec 32 := 0#32
  let c1_i32_278 : BitVec 32 := 1#32
  let arg11 : BitVec 32 := Scf.iv c0_i32_276 c1_i32_278 k0_t3
  let v4295 : Index := Scalar.indexCast arg11
  let c640_2208 : Index := 640#32
  ![1, 1, v4295.toNat, 640]
def k0_off811 (k0_t3 : Fin k0_t3_loop.trips) : Fin 4 → Nat :=
  let c1_i32_2212 : BitVec 32 := 1#32
  let v4305 : Index := Scalar.indexCast c1_i32_2212
  let c2_i32_2213 : BitVec 32 := 2#32
  let v4306 : Index := Scalar.indexCast c2_i32_2213
  let c0_i32_276 : BitVec 32 := 0#32
  let c1_i32_278 : BitVec 32 := 1#32
  let arg11 : BitVec 32 := Scf.iv c0_i32_276 c1_i32_278 k0_t3
  let v4307 : Index := Scalar.indexCast arg11
  let c640_2214 : Index := 640#32
  ![1, 2, v4307.toNat, 640]
def k0_off812 (k0_t3 : Fin k0_t3_loop.trips) : Fin 4 → Nat :=
  let c1_i32_2218 : BitVec 32 := 1#32
  let v4317 : Index := Scalar.indexCast c1_i32_2218
  let c3_i32_2219 : BitVec 32 := 3#32
  let v4318 : Index := Scalar.indexCast c3_i32_2219
  let c0_i32_276 : BitVec 32 := 0#32
  let c1_i32_278 : BitVec 32 := 1#32
  let arg11 : BitVec 32 := Scf.iv c0_i32_276 c1_i32_278 k0_t3
  let v4319 : Index := Scalar.indexCast arg11
  let c640_2220 : Index := 640#32
  ![1, 3, v4319.toNat, 640]
def k0_off813 (k0_t3 : Fin k0_t3_loop.trips) : Fin 4 → Nat :=
  let c1_i32_2224 : BitVec 32 := 1#32
  let v4329 : Index := Scalar.indexCast c1_i32_2224
  let c4_i32_2225 : BitVec 32 := 4#32
  let v4330 : Index := Scalar.indexCast c4_i32_2225
  let c0_i32_276 : BitVec 32 := 0#32
  let c1_i32_278 : BitVec 32 := 1#32
  let arg11 : BitVec 32 := Scf.iv c0_i32_276 c1_i32_278 k0_t3
  let v4331 : Index := Scalar.indexCast arg11
  let c640_2226 : Index := 640#32
  ![1, 4, v4331.toNat, 640]
def k0_off814 (k0_t3 : Fin k0_t3_loop.trips) : Fin 4 → Nat :=
  let c1_i32_2230 : BitVec 32 := 1#32
  let v4341 : Index := Scalar.indexCast c1_i32_2230
  let c5_i32_2231 : BitVec 32 := 5#32
  let v4342 : Index := Scalar.indexCast c5_i32_2231
  let c0_i32_276 : BitVec 32 := 0#32
  let c1_i32_278 : BitVec 32 := 1#32
  let arg11 : BitVec 32 := Scf.iv c0_i32_276 c1_i32_278 k0_t3
  let v4343 : Index := Scalar.indexCast arg11
  let c640_2232 : Index := 640#32
  ![1, 5, v4343.toNat, 640]
def k0_off815 (k0_t3 : Fin k0_t3_loop.trips) : Fin 4 → Nat :=
  let c1_i32_2236 : BitVec 32 := 1#32
  let v4353 : Index := Scalar.indexCast c1_i32_2236
  let c6_i32_2237 : BitVec 32 := 6#32
  let v4354 : Index := Scalar.indexCast c6_i32_2237
  let c0_i32_276 : BitVec 32 := 0#32
  let c1_i32_278 : BitVec 32 := 1#32
  let arg11 : BitVec 32 := Scf.iv c0_i32_276 c1_i32_278 k0_t3
  let v4355 : Index := Scalar.indexCast arg11
  let c640_2238 : Index := 640#32
  ![1, 6, v4355.toNat, 640]
def k0_off816 (k0_t3 : Fin k0_t3_loop.trips) : Fin 4 → Nat :=
  let c1_i32_2242 : BitVec 32 := 1#32
  let v4365 : Index := Scalar.indexCast c1_i32_2242
  let c7_i32_2243 : BitVec 32 := 7#32
  let v4366 : Index := Scalar.indexCast c7_i32_2243
  let c0_i32_276 : BitVec 32 := 0#32
  let c1_i32_278 : BitVec 32 := 1#32
  let arg11 : BitVec 32 := Scf.iv c0_i32_276 c1_i32_278 k0_t3
  let v4367 : Index := Scalar.indexCast arg11
  let c640_2244 : Index := 640#32
  ![1, 7, v4367.toNat, 640]
def k0_off817 (k0_t3 : Fin k0_t3_loop.trips) : Fin 2 → Nat :=
  let c0_i32_276 : BitVec 32 := 0#32
  let c1_i32_278 : BitVec 32 := 1#32
  let arg11 : BitVec 32 := Scf.iv c0_i32_276 c1_i32_278 k0_t3
  let v4377 : Index := Scalar.indexCast arg11
  let c656 : Index := 656#32
  ![v4377.toNat, 656]
def k0_off818 (k0_t3 : Fin k0_t3_loop.trips) : Fin 4 → Nat :=
  let c1_i32_2248 : BitVec 32 := 1#32
  let v4380 : Index := Scalar.indexCast c1_i32_2248
  let c0_i32_2249 : BitVec 32 := 0#32
  let v4381 : Index := Scalar.indexCast c0_i32_2249
  let c0_i32_276 : BitVec 32 := 0#32
  let c1_i32_278 : BitVec 32 := 1#32
  let arg11 : BitVec 32 := Scf.iv c0_i32_276 c1_i32_278 k0_t3
  let v4382 : Index := Scalar.indexCast arg11
  let c656_2250 : Index := 656#32
  ![1, 0, v4382.toNat, 656]
def k0_off819 (k0_t3 : Fin k0_t3_loop.trips) : Fin 4 → Nat :=
  let c1_i32_2254 : BitVec 32 := 1#32
  let v4392 : Index := Scalar.indexCast c1_i32_2254
  let c1_i32_2255 : BitVec 32 := 1#32
  let v4393 : Index := Scalar.indexCast c1_i32_2255
  let c0_i32_276 : BitVec 32 := 0#32
  let c1_i32_278 : BitVec 32 := 1#32
  let arg11 : BitVec 32 := Scf.iv c0_i32_276 c1_i32_278 k0_t3
  let v4394 : Index := Scalar.indexCast arg11
  let c656_2256 : Index := 656#32
  ![1, 1, v4394.toNat, 656]
def k0_off820 (k0_t3 : Fin k0_t3_loop.trips) : Fin 4 → Nat :=
  let c1_i32_2260 : BitVec 32 := 1#32
  let v4404 : Index := Scalar.indexCast c1_i32_2260
  let c2_i32_2261 : BitVec 32 := 2#32
  let v4405 : Index := Scalar.indexCast c2_i32_2261
  let c0_i32_276 : BitVec 32 := 0#32
  let c1_i32_278 : BitVec 32 := 1#32
  let arg11 : BitVec 32 := Scf.iv c0_i32_276 c1_i32_278 k0_t3
  let v4406 : Index := Scalar.indexCast arg11
  let c656_2262 : Index := 656#32
  ![1, 2, v4406.toNat, 656]
def k0_off821 (k0_t3 : Fin k0_t3_loop.trips) : Fin 4 → Nat :=
  let c1_i32_2266 : BitVec 32 := 1#32
  let v4416 : Index := Scalar.indexCast c1_i32_2266
  let c3_i32_2267 : BitVec 32 := 3#32
  let v4417 : Index := Scalar.indexCast c3_i32_2267
  let c0_i32_276 : BitVec 32 := 0#32
  let c1_i32_278 : BitVec 32 := 1#32
  let arg11 : BitVec 32 := Scf.iv c0_i32_276 c1_i32_278 k0_t3
  let v4418 : Index := Scalar.indexCast arg11
  let c656_2268 : Index := 656#32
  ![1, 3, v4418.toNat, 656]
def k0_off822 (k0_t3 : Fin k0_t3_loop.trips) : Fin 4 → Nat :=
  let c1_i32_2272 : BitVec 32 := 1#32
  let v4428 : Index := Scalar.indexCast c1_i32_2272
  let c4_i32_2273 : BitVec 32 := 4#32
  let v4429 : Index := Scalar.indexCast c4_i32_2273
  let c0_i32_276 : BitVec 32 := 0#32
  let c1_i32_278 : BitVec 32 := 1#32
  let arg11 : BitVec 32 := Scf.iv c0_i32_276 c1_i32_278 k0_t3
  let v4430 : Index := Scalar.indexCast arg11
  let c656_2274 : Index := 656#32
  ![1, 4, v4430.toNat, 656]
def k0_off823 (k0_t3 : Fin k0_t3_loop.trips) : Fin 4 → Nat :=
  let c1_i32_2278 : BitVec 32 := 1#32
  let v4440 : Index := Scalar.indexCast c1_i32_2278
  let c5_i32_2279 : BitVec 32 := 5#32
  let v4441 : Index := Scalar.indexCast c5_i32_2279
  let c0_i32_276 : BitVec 32 := 0#32
  let c1_i32_278 : BitVec 32 := 1#32
  let arg11 : BitVec 32 := Scf.iv c0_i32_276 c1_i32_278 k0_t3
  let v4442 : Index := Scalar.indexCast arg11
  let c656_2280 : Index := 656#32
  ![1, 5, v4442.toNat, 656]
def k0_off824 (k0_t3 : Fin k0_t3_loop.trips) : Fin 4 → Nat :=
  let c1_i32_2284 : BitVec 32 := 1#32
  let v4452 : Index := Scalar.indexCast c1_i32_2284
  let c6_i32_2285 : BitVec 32 := 6#32
  let v4453 : Index := Scalar.indexCast c6_i32_2285
  let c0_i32_276 : BitVec 32 := 0#32
  let c1_i32_278 : BitVec 32 := 1#32
  let arg11 : BitVec 32 := Scf.iv c0_i32_276 c1_i32_278 k0_t3
  let v4454 : Index := Scalar.indexCast arg11
  let c656_2286 : Index := 656#32
  ![1, 6, v4454.toNat, 656]
def k0_off825 (k0_t3 : Fin k0_t3_loop.trips) : Fin 4 → Nat :=
  let c1_i32_2290 : BitVec 32 := 1#32
  let v4464 : Index := Scalar.indexCast c1_i32_2290
  let c7_i32_2291 : BitVec 32 := 7#32
  let v4465 : Index := Scalar.indexCast c7_i32_2291
  let c0_i32_276 : BitVec 32 := 0#32
  let c1_i32_278 : BitVec 32 := 1#32
  let arg11 : BitVec 32 := Scf.iv c0_i32_276 c1_i32_278 k0_t3
  let v4466 : Index := Scalar.indexCast arg11
  let c656_2292 : Index := 656#32
  ![1, 7, v4466.toNat, 656]
def k0_off826 (k0_t3 : Fin k0_t3_loop.trips) : Fin 2 → Nat :=
  let c0_i32_276 : BitVec 32 := 0#32
  let c1_i32_278 : BitVec 32 := 1#32
  let arg11 : BitVec 32 := Scf.iv c0_i32_276 c1_i32_278 k0_t3
  let v4476 : Index := Scalar.indexCast arg11
  let c672 : Index := 672#32
  ![v4476.toNat, 672]
def k0_off827 (k0_t3 : Fin k0_t3_loop.trips) : Fin 4 → Nat :=
  let c1_i32_2296 : BitVec 32 := 1#32
  let v4479 : Index := Scalar.indexCast c1_i32_2296
  let c0_i32_2297 : BitVec 32 := 0#32
  let v4480 : Index := Scalar.indexCast c0_i32_2297
  let c0_i32_276 : BitVec 32 := 0#32
  let c1_i32_278 : BitVec 32 := 1#32
  let arg11 : BitVec 32 := Scf.iv c0_i32_276 c1_i32_278 k0_t3
  let v4481 : Index := Scalar.indexCast arg11
  let c672_2298 : Index := 672#32
  ![1, 0, v4481.toNat, 672]
def k0_off828 (k0_t3 : Fin k0_t3_loop.trips) : Fin 4 → Nat :=
  let c1_i32_2302 : BitVec 32 := 1#32
  let v4491 : Index := Scalar.indexCast c1_i32_2302
  let c1_i32_2303 : BitVec 32 := 1#32
  let v4492 : Index := Scalar.indexCast c1_i32_2303
  let c0_i32_276 : BitVec 32 := 0#32
  let c1_i32_278 : BitVec 32 := 1#32
  let arg11 : BitVec 32 := Scf.iv c0_i32_276 c1_i32_278 k0_t3
  let v4493 : Index := Scalar.indexCast arg11
  let c672_2304 : Index := 672#32
  ![1, 1, v4493.toNat, 672]
def k0_off829 (k0_t3 : Fin k0_t3_loop.trips) : Fin 4 → Nat :=
  let c1_i32_2308 : BitVec 32 := 1#32
  let v4503 : Index := Scalar.indexCast c1_i32_2308
  let c2_i32_2309 : BitVec 32 := 2#32
  let v4504 : Index := Scalar.indexCast c2_i32_2309
  let c0_i32_276 : BitVec 32 := 0#32
  let c1_i32_278 : BitVec 32 := 1#32
  let arg11 : BitVec 32 := Scf.iv c0_i32_276 c1_i32_278 k0_t3
  let v4505 : Index := Scalar.indexCast arg11
  let c672_2310 : Index := 672#32
  ![1, 2, v4505.toNat, 672]
def k0_off830 (k0_t3 : Fin k0_t3_loop.trips) : Fin 4 → Nat :=
  let c1_i32_2314 : BitVec 32 := 1#32
  let v4515 : Index := Scalar.indexCast c1_i32_2314
  let c3_i32_2315 : BitVec 32 := 3#32
  let v4516 : Index := Scalar.indexCast c3_i32_2315
  let c0_i32_276 : BitVec 32 := 0#32
  let c1_i32_278 : BitVec 32 := 1#32
  let arg11 : BitVec 32 := Scf.iv c0_i32_276 c1_i32_278 k0_t3
  let v4517 : Index := Scalar.indexCast arg11
  let c672_2316 : Index := 672#32
  ![1, 3, v4517.toNat, 672]
def k0_off831 (k0_t3 : Fin k0_t3_loop.trips) : Fin 4 → Nat :=
  let c1_i32_2320 : BitVec 32 := 1#32
  let v4527 : Index := Scalar.indexCast c1_i32_2320
  let c4_i32_2321 : BitVec 32 := 4#32
  let v4528 : Index := Scalar.indexCast c4_i32_2321
  let c0_i32_276 : BitVec 32 := 0#32
  let c1_i32_278 : BitVec 32 := 1#32
  let arg11 : BitVec 32 := Scf.iv c0_i32_276 c1_i32_278 k0_t3
  let v4529 : Index := Scalar.indexCast arg11
  let c672_2322 : Index := 672#32
  ![1, 4, v4529.toNat, 672]
def k0_off832 (k0_t3 : Fin k0_t3_loop.trips) : Fin 4 → Nat :=
  let c1_i32_2326 : BitVec 32 := 1#32
  let v4539 : Index := Scalar.indexCast c1_i32_2326
  let c5_i32_2327 : BitVec 32 := 5#32
  let v4540 : Index := Scalar.indexCast c5_i32_2327
  let c0_i32_276 : BitVec 32 := 0#32
  let c1_i32_278 : BitVec 32 := 1#32
  let arg11 : BitVec 32 := Scf.iv c0_i32_276 c1_i32_278 k0_t3
  let v4541 : Index := Scalar.indexCast arg11
  let c672_2328 : Index := 672#32
  ![1, 5, v4541.toNat, 672]
def k0_off833 (k0_t3 : Fin k0_t3_loop.trips) : Fin 4 → Nat :=
  let c1_i32_2332 : BitVec 32 := 1#32
  let v4551 : Index := Scalar.indexCast c1_i32_2332
  let c6_i32_2333 : BitVec 32 := 6#32
  let v4552 : Index := Scalar.indexCast c6_i32_2333
  let c0_i32_276 : BitVec 32 := 0#32
  let c1_i32_278 : BitVec 32 := 1#32
  let arg11 : BitVec 32 := Scf.iv c0_i32_276 c1_i32_278 k0_t3
  let v4553 : Index := Scalar.indexCast arg11
  let c672_2334 : Index := 672#32
  ![1, 6, v4553.toNat, 672]
def k0_off834 (k0_t3 : Fin k0_t3_loop.trips) : Fin 4 → Nat :=
  let c1_i32_2338 : BitVec 32 := 1#32
  let v4563 : Index := Scalar.indexCast c1_i32_2338
  let c7_i32_2339 : BitVec 32 := 7#32
  let v4564 : Index := Scalar.indexCast c7_i32_2339
  let c0_i32_276 : BitVec 32 := 0#32
  let c1_i32_278 : BitVec 32 := 1#32
  let arg11 : BitVec 32 := Scf.iv c0_i32_276 c1_i32_278 k0_t3
  let v4565 : Index := Scalar.indexCast arg11
  let c672_2340 : Index := 672#32
  ![1, 7, v4565.toNat, 672]
def k0_off835 (k0_t3 : Fin k0_t3_loop.trips) : Fin 2 → Nat :=
  let c0_i32_276 : BitVec 32 := 0#32
  let c1_i32_278 : BitVec 32 := 1#32
  let arg11 : BitVec 32 := Scf.iv c0_i32_276 c1_i32_278 k0_t3
  let v4575 : Index := Scalar.indexCast arg11
  let c688 : Index := 688#32
  ![v4575.toNat, 688]
def k0_off836 (k0_t3 : Fin k0_t3_loop.trips) : Fin 4 → Nat :=
  let c1_i32_2344 : BitVec 32 := 1#32
  let v4578 : Index := Scalar.indexCast c1_i32_2344
  let c0_i32_2345 : BitVec 32 := 0#32
  let v4579 : Index := Scalar.indexCast c0_i32_2345
  let c0_i32_276 : BitVec 32 := 0#32
  let c1_i32_278 : BitVec 32 := 1#32
  let arg11 : BitVec 32 := Scf.iv c0_i32_276 c1_i32_278 k0_t3
  let v4580 : Index := Scalar.indexCast arg11
  let c688_2346 : Index := 688#32
  ![1, 0, v4580.toNat, 688]
def k0_off837 (k0_t3 : Fin k0_t3_loop.trips) : Fin 4 → Nat :=
  let c1_i32_2350 : BitVec 32 := 1#32
  let v4590 : Index := Scalar.indexCast c1_i32_2350
  let c1_i32_2351 : BitVec 32 := 1#32
  let v4591 : Index := Scalar.indexCast c1_i32_2351
  let c0_i32_276 : BitVec 32 := 0#32
  let c1_i32_278 : BitVec 32 := 1#32
  let arg11 : BitVec 32 := Scf.iv c0_i32_276 c1_i32_278 k0_t3
  let v4592 : Index := Scalar.indexCast arg11
  let c688_2352 : Index := 688#32
  ![1, 1, v4592.toNat, 688]
def k0_off838 (k0_t3 : Fin k0_t3_loop.trips) : Fin 4 → Nat :=
  let c1_i32_2356 : BitVec 32 := 1#32
  let v4602 : Index := Scalar.indexCast c1_i32_2356
  let c2_i32_2357 : BitVec 32 := 2#32
  let v4603 : Index := Scalar.indexCast c2_i32_2357
  let c0_i32_276 : BitVec 32 := 0#32
  let c1_i32_278 : BitVec 32 := 1#32
  let arg11 : BitVec 32 := Scf.iv c0_i32_276 c1_i32_278 k0_t3
  let v4604 : Index := Scalar.indexCast arg11
  let c688_2358 : Index := 688#32
  ![1, 2, v4604.toNat, 688]
def k0_off839 (k0_t3 : Fin k0_t3_loop.trips) : Fin 4 → Nat :=
  let c1_i32_2362 : BitVec 32 := 1#32
  let v4614 : Index := Scalar.indexCast c1_i32_2362
  let c3_i32_2363 : BitVec 32 := 3#32
  let v4615 : Index := Scalar.indexCast c3_i32_2363
  let c0_i32_276 : BitVec 32 := 0#32
  let c1_i32_278 : BitVec 32 := 1#32
  let arg11 : BitVec 32 := Scf.iv c0_i32_276 c1_i32_278 k0_t3
  let v4616 : Index := Scalar.indexCast arg11
  let c688_2364 : Index := 688#32
  ![1, 3, v4616.toNat, 688]
def k0_off840 (k0_t3 : Fin k0_t3_loop.trips) : Fin 4 → Nat :=
  let c1_i32_2368 : BitVec 32 := 1#32
  let v4626 : Index := Scalar.indexCast c1_i32_2368
  let c4_i32_2369 : BitVec 32 := 4#32
  let v4627 : Index := Scalar.indexCast c4_i32_2369
  let c0_i32_276 : BitVec 32 := 0#32
  let c1_i32_278 : BitVec 32 := 1#32
  let arg11 : BitVec 32 := Scf.iv c0_i32_276 c1_i32_278 k0_t3
  let v4628 : Index := Scalar.indexCast arg11
  let c688_2370 : Index := 688#32
  ![1, 4, v4628.toNat, 688]
def k0_off841 (k0_t3 : Fin k0_t3_loop.trips) : Fin 4 → Nat :=
  let c1_i32_2374 : BitVec 32 := 1#32
  let v4638 : Index := Scalar.indexCast c1_i32_2374
  let c5_i32_2375 : BitVec 32 := 5#32
  let v4639 : Index := Scalar.indexCast c5_i32_2375
  let c0_i32_276 : BitVec 32 := 0#32
  let c1_i32_278 : BitVec 32 := 1#32
  let arg11 : BitVec 32 := Scf.iv c0_i32_276 c1_i32_278 k0_t3
  let v4640 : Index := Scalar.indexCast arg11
  let c688_2376 : Index := 688#32
  ![1, 5, v4640.toNat, 688]
def k0_off842 (k0_t3 : Fin k0_t3_loop.trips) : Fin 4 → Nat :=
  let c1_i32_2380 : BitVec 32 := 1#32
  let v4650 : Index := Scalar.indexCast c1_i32_2380
  let c6_i32_2381 : BitVec 32 := 6#32
  let v4651 : Index := Scalar.indexCast c6_i32_2381
  let c0_i32_276 : BitVec 32 := 0#32
  let c1_i32_278 : BitVec 32 := 1#32
  let arg11 : BitVec 32 := Scf.iv c0_i32_276 c1_i32_278 k0_t3
  let v4652 : Index := Scalar.indexCast arg11
  let c688_2382 : Index := 688#32
  ![1, 6, v4652.toNat, 688]
def k0_off843 (k0_t3 : Fin k0_t3_loop.trips) : Fin 4 → Nat :=
  let c1_i32_2386 : BitVec 32 := 1#32
  let v4662 : Index := Scalar.indexCast c1_i32_2386
  let c7_i32_2387 : BitVec 32 := 7#32
  let v4663 : Index := Scalar.indexCast c7_i32_2387
  let c0_i32_276 : BitVec 32 := 0#32
  let c1_i32_278 : BitVec 32 := 1#32
  let arg11 : BitVec 32 := Scf.iv c0_i32_276 c1_i32_278 k0_t3
  let v4664 : Index := Scalar.indexCast arg11
  let c688_2388 : Index := 688#32
  ![1, 7, v4664.toNat, 688]
def k0_off844 (k0_t3 : Fin k0_t3_loop.trips) : Fin 2 → Nat :=
  let c0_i32_276 : BitVec 32 := 0#32
  let c1_i32_278 : BitVec 32 := 1#32
  let arg11 : BitVec 32 := Scf.iv c0_i32_276 c1_i32_278 k0_t3
  let v4674 : Index := Scalar.indexCast arg11
  let c704 : Index := 704#32
  ![v4674.toNat, 704]
def k0_off845 (k0_t3 : Fin k0_t3_loop.trips) : Fin 4 → Nat :=
  let c1_i32_2392 : BitVec 32 := 1#32
  let v4677 : Index := Scalar.indexCast c1_i32_2392
  let c0_i32_2393 : BitVec 32 := 0#32
  let v4678 : Index := Scalar.indexCast c0_i32_2393
  let c0_i32_276 : BitVec 32 := 0#32
  let c1_i32_278 : BitVec 32 := 1#32
  let arg11 : BitVec 32 := Scf.iv c0_i32_276 c1_i32_278 k0_t3
  let v4679 : Index := Scalar.indexCast arg11
  let c704_2394 : Index := 704#32
  ![1, 0, v4679.toNat, 704]
def k0_off846 (k0_t3 : Fin k0_t3_loop.trips) : Fin 4 → Nat :=
  let c1_i32_2398 : BitVec 32 := 1#32
  let v4689 : Index := Scalar.indexCast c1_i32_2398
  let c1_i32_2399 : BitVec 32 := 1#32
  let v4690 : Index := Scalar.indexCast c1_i32_2399
  let c0_i32_276 : BitVec 32 := 0#32
  let c1_i32_278 : BitVec 32 := 1#32
  let arg11 : BitVec 32 := Scf.iv c0_i32_276 c1_i32_278 k0_t3
  let v4691 : Index := Scalar.indexCast arg11
  let c704_2400 : Index := 704#32
  ![1, 1, v4691.toNat, 704]
def k0_off847 (k0_t3 : Fin k0_t3_loop.trips) : Fin 4 → Nat :=
  let c1_i32_2404 : BitVec 32 := 1#32
  let v4701 : Index := Scalar.indexCast c1_i32_2404
  let c2_i32_2405 : BitVec 32 := 2#32
  let v4702 : Index := Scalar.indexCast c2_i32_2405
  let c0_i32_276 : BitVec 32 := 0#32
  let c1_i32_278 : BitVec 32 := 1#32
  let arg11 : BitVec 32 := Scf.iv c0_i32_276 c1_i32_278 k0_t3
  let v4703 : Index := Scalar.indexCast arg11
  let c704_2406 : Index := 704#32
  ![1, 2, v4703.toNat, 704]
def k0_off848 (k0_t3 : Fin k0_t3_loop.trips) : Fin 4 → Nat :=
  let c1_i32_2410 : BitVec 32 := 1#32
  let v4713 : Index := Scalar.indexCast c1_i32_2410
  let c3_i32_2411 : BitVec 32 := 3#32
  let v4714 : Index := Scalar.indexCast c3_i32_2411
  let c0_i32_276 : BitVec 32 := 0#32
  let c1_i32_278 : BitVec 32 := 1#32
  let arg11 : BitVec 32 := Scf.iv c0_i32_276 c1_i32_278 k0_t3
  let v4715 : Index := Scalar.indexCast arg11
  let c704_2412 : Index := 704#32
  ![1, 3, v4715.toNat, 704]
def k0_off849 (k0_t3 : Fin k0_t3_loop.trips) : Fin 4 → Nat :=
  let c1_i32_2416 : BitVec 32 := 1#32
  let v4725 : Index := Scalar.indexCast c1_i32_2416
  let c4_i32_2417 : BitVec 32 := 4#32
  let v4726 : Index := Scalar.indexCast c4_i32_2417
  let c0_i32_276 : BitVec 32 := 0#32
  let c1_i32_278 : BitVec 32 := 1#32
  let arg11 : BitVec 32 := Scf.iv c0_i32_276 c1_i32_278 k0_t3
  let v4727 : Index := Scalar.indexCast arg11
  let c704_2418 : Index := 704#32
  ![1, 4, v4727.toNat, 704]
def k0_off850 (k0_t3 : Fin k0_t3_loop.trips) : Fin 4 → Nat :=
  let c1_i32_2422 : BitVec 32 := 1#32
  let v4737 : Index := Scalar.indexCast c1_i32_2422
  let c5_i32_2423 : BitVec 32 := 5#32
  let v4738 : Index := Scalar.indexCast c5_i32_2423
  let c0_i32_276 : BitVec 32 := 0#32
  let c1_i32_278 : BitVec 32 := 1#32
  let arg11 : BitVec 32 := Scf.iv c0_i32_276 c1_i32_278 k0_t3
  let v4739 : Index := Scalar.indexCast arg11
  let c704_2424 : Index := 704#32
  ![1, 5, v4739.toNat, 704]
def k0_off851 (k0_t3 : Fin k0_t3_loop.trips) : Fin 4 → Nat :=
  let c1_i32_2428 : BitVec 32 := 1#32
  let v4749 : Index := Scalar.indexCast c1_i32_2428
  let c6_i32_2429 : BitVec 32 := 6#32
  let v4750 : Index := Scalar.indexCast c6_i32_2429
  let c0_i32_276 : BitVec 32 := 0#32
  let c1_i32_278 : BitVec 32 := 1#32
  let arg11 : BitVec 32 := Scf.iv c0_i32_276 c1_i32_278 k0_t3
  let v4751 : Index := Scalar.indexCast arg11
  let c704_2430 : Index := 704#32
  ![1, 6, v4751.toNat, 704]
def k0_off852 (k0_t3 : Fin k0_t3_loop.trips) : Fin 4 → Nat :=
  let c1_i32_2434 : BitVec 32 := 1#32
  let v4761 : Index := Scalar.indexCast c1_i32_2434
  let c7_i32_2435 : BitVec 32 := 7#32
  let v4762 : Index := Scalar.indexCast c7_i32_2435
  let c0_i32_276 : BitVec 32 := 0#32
  let c1_i32_278 : BitVec 32 := 1#32
  let arg11 : BitVec 32 := Scf.iv c0_i32_276 c1_i32_278 k0_t3
  let v4763 : Index := Scalar.indexCast arg11
  let c704_2436 : Index := 704#32
  ![1, 7, v4763.toNat, 704]
def k0_off853 (k0_t3 : Fin k0_t3_loop.trips) : Fin 2 → Nat :=
  let c0_i32_276 : BitVec 32 := 0#32
  let c1_i32_278 : BitVec 32 := 1#32
  let arg11 : BitVec 32 := Scf.iv c0_i32_276 c1_i32_278 k0_t3
  let v4773 : Index := Scalar.indexCast arg11
  let c720 : Index := 720#32
  ![v4773.toNat, 720]
def k0_off854 (k0_t3 : Fin k0_t3_loop.trips) : Fin 4 → Nat :=
  let c1_i32_2440 : BitVec 32 := 1#32
  let v4776 : Index := Scalar.indexCast c1_i32_2440
  let c0_i32_2441 : BitVec 32 := 0#32
  let v4777 : Index := Scalar.indexCast c0_i32_2441
  let c0_i32_276 : BitVec 32 := 0#32
  let c1_i32_278 : BitVec 32 := 1#32
  let arg11 : BitVec 32 := Scf.iv c0_i32_276 c1_i32_278 k0_t3
  let v4778 : Index := Scalar.indexCast arg11
  let c720_2442 : Index := 720#32
  ![1, 0, v4778.toNat, 720]
def k0_off855 (k0_t3 : Fin k0_t3_loop.trips) : Fin 4 → Nat :=
  let c1_i32_2446 : BitVec 32 := 1#32
  let v4788 : Index := Scalar.indexCast c1_i32_2446
  let c1_i32_2447 : BitVec 32 := 1#32
  let v4789 : Index := Scalar.indexCast c1_i32_2447
  let c0_i32_276 : BitVec 32 := 0#32
  let c1_i32_278 : BitVec 32 := 1#32
  let arg11 : BitVec 32 := Scf.iv c0_i32_276 c1_i32_278 k0_t3
  let v4790 : Index := Scalar.indexCast arg11
  let c720_2448 : Index := 720#32
  ![1, 1, v4790.toNat, 720]
def k0_off856 (k0_t3 : Fin k0_t3_loop.trips) : Fin 4 → Nat :=
  let c1_i32_2452 : BitVec 32 := 1#32
  let v4800 : Index := Scalar.indexCast c1_i32_2452
  let c2_i32_2453 : BitVec 32 := 2#32
  let v4801 : Index := Scalar.indexCast c2_i32_2453
  let c0_i32_276 : BitVec 32 := 0#32
  let c1_i32_278 : BitVec 32 := 1#32
  let arg11 : BitVec 32 := Scf.iv c0_i32_276 c1_i32_278 k0_t3
  let v4802 : Index := Scalar.indexCast arg11
  let c720_2454 : Index := 720#32
  ![1, 2, v4802.toNat, 720]
def k0_off857 (k0_t3 : Fin k0_t3_loop.trips) : Fin 4 → Nat :=
  let c1_i32_2458 : BitVec 32 := 1#32
  let v4812 : Index := Scalar.indexCast c1_i32_2458
  let c3_i32_2459 : BitVec 32 := 3#32
  let v4813 : Index := Scalar.indexCast c3_i32_2459
  let c0_i32_276 : BitVec 32 := 0#32
  let c1_i32_278 : BitVec 32 := 1#32
  let arg11 : BitVec 32 := Scf.iv c0_i32_276 c1_i32_278 k0_t3
  let v4814 : Index := Scalar.indexCast arg11
  let c720_2460 : Index := 720#32
  ![1, 3, v4814.toNat, 720]
def k0_off858 (k0_t3 : Fin k0_t3_loop.trips) : Fin 4 → Nat :=
  let c1_i32_2464 : BitVec 32 := 1#32
  let v4824 : Index := Scalar.indexCast c1_i32_2464
  let c4_i32_2465 : BitVec 32 := 4#32
  let v4825 : Index := Scalar.indexCast c4_i32_2465
  let c0_i32_276 : BitVec 32 := 0#32
  let c1_i32_278 : BitVec 32 := 1#32
  let arg11 : BitVec 32 := Scf.iv c0_i32_276 c1_i32_278 k0_t3
  let v4826 : Index := Scalar.indexCast arg11
  let c720_2466 : Index := 720#32
  ![1, 4, v4826.toNat, 720]
def k0_off859 (k0_t3 : Fin k0_t3_loop.trips) : Fin 4 → Nat :=
  let c1_i32_2470 : BitVec 32 := 1#32
  let v4836 : Index := Scalar.indexCast c1_i32_2470
  let c5_i32_2471 : BitVec 32 := 5#32
  let v4837 : Index := Scalar.indexCast c5_i32_2471
  let c0_i32_276 : BitVec 32 := 0#32
  let c1_i32_278 : BitVec 32 := 1#32
  let arg11 : BitVec 32 := Scf.iv c0_i32_276 c1_i32_278 k0_t3
  let v4838 : Index := Scalar.indexCast arg11
  let c720_2472 : Index := 720#32
  ![1, 5, v4838.toNat, 720]
def k0_off860 (k0_t3 : Fin k0_t3_loop.trips) : Fin 4 → Nat :=
  let c1_i32_2476 : BitVec 32 := 1#32
  let v4848 : Index := Scalar.indexCast c1_i32_2476
  let c6_i32_2477 : BitVec 32 := 6#32
  let v4849 : Index := Scalar.indexCast c6_i32_2477
  let c0_i32_276 : BitVec 32 := 0#32
  let c1_i32_278 : BitVec 32 := 1#32
  let arg11 : BitVec 32 := Scf.iv c0_i32_276 c1_i32_278 k0_t3
  let v4850 : Index := Scalar.indexCast arg11
  let c720_2478 : Index := 720#32
  ![1, 6, v4850.toNat, 720]
def k0_off861 (k0_t3 : Fin k0_t3_loop.trips) : Fin 4 → Nat :=
  let c1_i32_2482 : BitVec 32 := 1#32
  let v4860 : Index := Scalar.indexCast c1_i32_2482
  let c7_i32_2483 : BitVec 32 := 7#32
  let v4861 : Index := Scalar.indexCast c7_i32_2483
  let c0_i32_276 : BitVec 32 := 0#32
  let c1_i32_278 : BitVec 32 := 1#32
  let arg11 : BitVec 32 := Scf.iv c0_i32_276 c1_i32_278 k0_t3
  let v4862 : Index := Scalar.indexCast arg11
  let c720_2484 : Index := 720#32
  ![1, 7, v4862.toNat, 720]
def k0_off862 (k0_t3 : Fin k0_t3_loop.trips) : Fin 2 → Nat :=
  let c0_i32_276 : BitVec 32 := 0#32
  let c1_i32_278 : BitVec 32 := 1#32
  let arg11 : BitVec 32 := Scf.iv c0_i32_276 c1_i32_278 k0_t3
  let v4872 : Index := Scalar.indexCast arg11
  let c736 : Index := 736#32
  ![v4872.toNat, 736]
def k0_off863 (k0_t3 : Fin k0_t3_loop.trips) : Fin 4 → Nat :=
  let c1_i32_2488 : BitVec 32 := 1#32
  let v4875 : Index := Scalar.indexCast c1_i32_2488
  let c0_i32_2489 : BitVec 32 := 0#32
  let v4876 : Index := Scalar.indexCast c0_i32_2489
  let c0_i32_276 : BitVec 32 := 0#32
  let c1_i32_278 : BitVec 32 := 1#32
  let arg11 : BitVec 32 := Scf.iv c0_i32_276 c1_i32_278 k0_t3
  let v4877 : Index := Scalar.indexCast arg11
  let c736_2490 : Index := 736#32
  ![1, 0, v4877.toNat, 736]
def k0_off864 (k0_t3 : Fin k0_t3_loop.trips) : Fin 4 → Nat :=
  let c1_i32_2494 : BitVec 32 := 1#32
  let v4887 : Index := Scalar.indexCast c1_i32_2494
  let c1_i32_2495 : BitVec 32 := 1#32
  let v4888 : Index := Scalar.indexCast c1_i32_2495
  let c0_i32_276 : BitVec 32 := 0#32
  let c1_i32_278 : BitVec 32 := 1#32
  let arg11 : BitVec 32 := Scf.iv c0_i32_276 c1_i32_278 k0_t3
  let v4889 : Index := Scalar.indexCast arg11
  let c736_2496 : Index := 736#32
  ![1, 1, v4889.toNat, 736]
def k0_off865 (k0_t3 : Fin k0_t3_loop.trips) : Fin 4 → Nat :=
  let c1_i32_2500 : BitVec 32 := 1#32
  let v4899 : Index := Scalar.indexCast c1_i32_2500
  let c2_i32_2501 : BitVec 32 := 2#32
  let v4900 : Index := Scalar.indexCast c2_i32_2501
  let c0_i32_276 : BitVec 32 := 0#32
  let c1_i32_278 : BitVec 32 := 1#32
  let arg11 : BitVec 32 := Scf.iv c0_i32_276 c1_i32_278 k0_t3
  let v4901 : Index := Scalar.indexCast arg11
  let c736_2502 : Index := 736#32
  ![1, 2, v4901.toNat, 736]
def k0_off866 (k0_t3 : Fin k0_t3_loop.trips) : Fin 4 → Nat :=
  let c1_i32_2506 : BitVec 32 := 1#32
  let v4911 : Index := Scalar.indexCast c1_i32_2506
  let c3_i32_2507 : BitVec 32 := 3#32
  let v4912 : Index := Scalar.indexCast c3_i32_2507
  let c0_i32_276 : BitVec 32 := 0#32
  let c1_i32_278 : BitVec 32 := 1#32
  let arg11 : BitVec 32 := Scf.iv c0_i32_276 c1_i32_278 k0_t3
  let v4913 : Index := Scalar.indexCast arg11
  let c736_2508 : Index := 736#32
  ![1, 3, v4913.toNat, 736]
def k0_off867 (k0_t3 : Fin k0_t3_loop.trips) : Fin 4 → Nat :=
  let c1_i32_2512 : BitVec 32 := 1#32
  let v4923 : Index := Scalar.indexCast c1_i32_2512
  let c4_i32_2513 : BitVec 32 := 4#32
  let v4924 : Index := Scalar.indexCast c4_i32_2513
  let c0_i32_276 : BitVec 32 := 0#32
  let c1_i32_278 : BitVec 32 := 1#32
  let arg11 : BitVec 32 := Scf.iv c0_i32_276 c1_i32_278 k0_t3
  let v4925 : Index := Scalar.indexCast arg11
  let c736_2514 : Index := 736#32
  ![1, 4, v4925.toNat, 736]
def k0_off868 (k0_t3 : Fin k0_t3_loop.trips) : Fin 4 → Nat :=
  let c1_i32_2518 : BitVec 32 := 1#32
  let v4935 : Index := Scalar.indexCast c1_i32_2518
  let c5_i32_2519 : BitVec 32 := 5#32
  let v4936 : Index := Scalar.indexCast c5_i32_2519
  let c0_i32_276 : BitVec 32 := 0#32
  let c1_i32_278 : BitVec 32 := 1#32
  let arg11 : BitVec 32 := Scf.iv c0_i32_276 c1_i32_278 k0_t3
  let v4937 : Index := Scalar.indexCast arg11
  let c736_2520 : Index := 736#32
  ![1, 5, v4937.toNat, 736]
def k0_off869 (k0_t3 : Fin k0_t3_loop.trips) : Fin 4 → Nat :=
  let c1_i32_2524 : BitVec 32 := 1#32
  let v4947 : Index := Scalar.indexCast c1_i32_2524
  let c6_i32_2525 : BitVec 32 := 6#32
  let v4948 : Index := Scalar.indexCast c6_i32_2525
  let c0_i32_276 : BitVec 32 := 0#32
  let c1_i32_278 : BitVec 32 := 1#32
  let arg11 : BitVec 32 := Scf.iv c0_i32_276 c1_i32_278 k0_t3
  let v4949 : Index := Scalar.indexCast arg11
  let c736_2526 : Index := 736#32
  ![1, 6, v4949.toNat, 736]
def k0_off870 (k0_t3 : Fin k0_t3_loop.trips) : Fin 4 → Nat :=
  let c1_i32_2530 : BitVec 32 := 1#32
  let v4959 : Index := Scalar.indexCast c1_i32_2530
  let c7_i32_2531 : BitVec 32 := 7#32
  let v4960 : Index := Scalar.indexCast c7_i32_2531
  let c0_i32_276 : BitVec 32 := 0#32
  let c1_i32_278 : BitVec 32 := 1#32
  let arg11 : BitVec 32 := Scf.iv c0_i32_276 c1_i32_278 k0_t3
  let v4961 : Index := Scalar.indexCast arg11
  let c736_2532 : Index := 736#32
  ![1, 7, v4961.toNat, 736]
def k0_off871 (k0_t3 : Fin k0_t3_loop.trips) : Fin 2 → Nat :=
  let c0_i32_276 : BitVec 32 := 0#32
  let c1_i32_278 : BitVec 32 := 1#32
  let arg11 : BitVec 32 := Scf.iv c0_i32_276 c1_i32_278 k0_t3
  let v4971 : Index := Scalar.indexCast arg11
  let c752 : Index := 752#32
  ![v4971.toNat, 752]
def k0_off872 (k0_t3 : Fin k0_t3_loop.trips) : Fin 4 → Nat :=
  let c1_i32_2536 : BitVec 32 := 1#32
  let v4974 : Index := Scalar.indexCast c1_i32_2536
  let c0_i32_2537 : BitVec 32 := 0#32
  let v4975 : Index := Scalar.indexCast c0_i32_2537
  let c0_i32_276 : BitVec 32 := 0#32
  let c1_i32_278 : BitVec 32 := 1#32
  let arg11 : BitVec 32 := Scf.iv c0_i32_276 c1_i32_278 k0_t3
  let v4976 : Index := Scalar.indexCast arg11
  let c752_2538 : Index := 752#32
  ![1, 0, v4976.toNat, 752]
def k0_off873 (k0_t3 : Fin k0_t3_loop.trips) : Fin 4 → Nat :=
  let c1_i32_2542 : BitVec 32 := 1#32
  let v4986 : Index := Scalar.indexCast c1_i32_2542
  let c1_i32_2543 : BitVec 32 := 1#32
  let v4987 : Index := Scalar.indexCast c1_i32_2543
  let c0_i32_276 : BitVec 32 := 0#32
  let c1_i32_278 : BitVec 32 := 1#32
  let arg11 : BitVec 32 := Scf.iv c0_i32_276 c1_i32_278 k0_t3
  let v4988 : Index := Scalar.indexCast arg11
  let c752_2544 : Index := 752#32
  ![1, 1, v4988.toNat, 752]
def k0_off874 (k0_t3 : Fin k0_t3_loop.trips) : Fin 4 → Nat :=
  let c1_i32_2548 : BitVec 32 := 1#32
  let v4998 : Index := Scalar.indexCast c1_i32_2548
  let c2_i32_2549 : BitVec 32 := 2#32
  let v4999 : Index := Scalar.indexCast c2_i32_2549
  let c0_i32_276 : BitVec 32 := 0#32
  let c1_i32_278 : BitVec 32 := 1#32
  let arg11 : BitVec 32 := Scf.iv c0_i32_276 c1_i32_278 k0_t3
  let v5000 : Index := Scalar.indexCast arg11
  let c752_2550 : Index := 752#32
  ![1, 2, v5000.toNat, 752]
def k0_off875 (k0_t3 : Fin k0_t3_loop.trips) : Fin 4 → Nat :=
  let c1_i32_2554 : BitVec 32 := 1#32
  let v5010 : Index := Scalar.indexCast c1_i32_2554
  let c3_i32_2555 : BitVec 32 := 3#32
  let v5011 : Index := Scalar.indexCast c3_i32_2555
  let c0_i32_276 : BitVec 32 := 0#32
  let c1_i32_278 : BitVec 32 := 1#32
  let arg11 : BitVec 32 := Scf.iv c0_i32_276 c1_i32_278 k0_t3
  let v5012 : Index := Scalar.indexCast arg11
  let c752_2556 : Index := 752#32
  ![1, 3, v5012.toNat, 752]
def k0_off876 (k0_t3 : Fin k0_t3_loop.trips) : Fin 4 → Nat :=
  let c1_i32_2560 : BitVec 32 := 1#32
  let v5022 : Index := Scalar.indexCast c1_i32_2560
  let c4_i32_2561 : BitVec 32 := 4#32
  let v5023 : Index := Scalar.indexCast c4_i32_2561
  let c0_i32_276 : BitVec 32 := 0#32
  let c1_i32_278 : BitVec 32 := 1#32
  let arg11 : BitVec 32 := Scf.iv c0_i32_276 c1_i32_278 k0_t3
  let v5024 : Index := Scalar.indexCast arg11
  let c752_2562 : Index := 752#32
  ![1, 4, v5024.toNat, 752]
def k0_off877 (k0_t3 : Fin k0_t3_loop.trips) : Fin 4 → Nat :=
  let c1_i32_2566 : BitVec 32 := 1#32
  let v5034 : Index := Scalar.indexCast c1_i32_2566
  let c5_i32_2567 : BitVec 32 := 5#32
  let v5035 : Index := Scalar.indexCast c5_i32_2567
  let c0_i32_276 : BitVec 32 := 0#32
  let c1_i32_278 : BitVec 32 := 1#32
  let arg11 : BitVec 32 := Scf.iv c0_i32_276 c1_i32_278 k0_t3
  let v5036 : Index := Scalar.indexCast arg11
  let c752_2568 : Index := 752#32
  ![1, 5, v5036.toNat, 752]
def k0_off878 (k0_t3 : Fin k0_t3_loop.trips) : Fin 4 → Nat :=
  let c1_i32_2572 : BitVec 32 := 1#32
  let v5046 : Index := Scalar.indexCast c1_i32_2572
  let c6_i32_2573 : BitVec 32 := 6#32
  let v5047 : Index := Scalar.indexCast c6_i32_2573
  let c0_i32_276 : BitVec 32 := 0#32
  let c1_i32_278 : BitVec 32 := 1#32
  let arg11 : BitVec 32 := Scf.iv c0_i32_276 c1_i32_278 k0_t3
  let v5048 : Index := Scalar.indexCast arg11
  let c752_2574 : Index := 752#32
  ![1, 6, v5048.toNat, 752]
def k0_off879 (k0_t3 : Fin k0_t3_loop.trips) : Fin 4 → Nat :=
  let c1_i32_2578 : BitVec 32 := 1#32
  let v5058 : Index := Scalar.indexCast c1_i32_2578
  let c7_i32_2579 : BitVec 32 := 7#32
  let v5059 : Index := Scalar.indexCast c7_i32_2579
  let c0_i32_276 : BitVec 32 := 0#32
  let c1_i32_278 : BitVec 32 := 1#32
  let arg11 : BitVec 32 := Scf.iv c0_i32_276 c1_i32_278 k0_t3
  let v5060 : Index := Scalar.indexCast arg11
  let c752_2580 : Index := 752#32
  ![1, 7, v5060.toNat, 752]
def k0_off880 (k0_t3 : Fin k0_t3_loop.trips) : Fin 4 → Nat :=
  let c1_i32_2586 : BitVec 32 := 1#32
  let c0_i32_2588 : BitVec 32 := 0#32
  let c0_i32_276 : BitVec 32 := 0#32
  let c1_i32_278 : BitVec 32 := 1#32
  let arg11 : BitVec 32 := Scf.iv c0_i32_276 c1_i32_278 k0_t3
  let c0_i32_2589 : BitVec 32 := 0#32
  ![1, 0, arg11.toNat, 0]
def k0_off881 (i : grid0.Coords) (k0_t1 : Fin k0_t1_loop.trips) (k0_t3 : Fin k0_t3_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c72_i32 : BitVec 32 := 72#32
  let v30 : BitVec 32 := Scalar.muli v28 c72_i32
  let c0_i32_23 : BitVec 32 := 0#32
  let c1_i32_24 : BitVec 32 := 1#32
  let arg10 : BitVec 32 := Scf.iv c0_i32_23 c1_i32_24 k0_t1
  let c8_i32_2584 : BitVec 32 := 8#32
  let v5070 : BitVec 32 := Scalar.muli arg10 c8_i32_2584
  let v5071 : BitVec 32 := Scalar.addi v30 v5070
  let c0_i32_276 : BitVec 32 := 0#32
  let c1_i32_278 : BitVec 32 := 1#32
  let arg11 : BitVec 32 := Scf.iv c0_i32_276 c1_i32_278 k0_t3
  let v5072 : BitVec 32 := Scalar.addi v5071 arg11
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c16_i32 : BitVec 32 := 16#32
  let v29 : BitVec 32 := Scalar.muli v18 c16_i32
  let c8_i32_2585 : BitVec 32 := 8#32
  let v5073 : BitVec 32 := Scalar.addi v29 c8_i32_2585
  let c0_i32_2590 : BitVec 32 := 0#32
  ![v5072.toNat, v5073.toNat, 0]
def k0_off882 (i : grid0.Coords) (c0_i32_26 : BitVec 32) (c0_i32_27 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c72_i32 : BitVec 32 := 72#32
  let v30 : BitVec 32 := Scalar.muli v28 c72_i32
  let c64_i32 : BitVec 32 := 64#32
  let v42 : BitVec 32 := Scalar.addi v30 c64_i32
  let v43 : BitVec 32 := Scalar.addi v42 c0_i32_26
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c16_i32 : BitVec 32 := 16#32
  let v29 : BitVec 32 := Scalar.muli v18 c16_i32
  let v44 : BitVec 32 := Scalar.addi v29 c0_i32_27
  let c0_i32_33 : BitVec 32 := 0#32
  ![v43.toNat, v44.toNat, 0]
def k0_cond10 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c0_i32_212 : BitVec 32 := 0#32
  let v250 : BitVec 1 := Scalar.cmpi .eq v28 c0_i32_212
  let v251 : BitVec 32 := Scalar.extui v250
  let c0_i32_213 : BitVec 32 := 0#32
  let v252 : BitVec 1 := Scalar.cmpi .ne v251 c0_i32_213
  v252

def k0_off883 (i : grid0.Coords) (c0_i32_2091 : BitVec 32) : Fin 3 → Nat :=
  let c576_i32 : BitVec 32 := 576#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c16_i32 : BitVec 32 := 16#32
  let v29 : BitVec 32 := Scalar.muli v18 c16_i32
  let v3085 : BitVec 32 := Scalar.addi v29 c0_i32_2091
  let c0_i32_2100_r3 : BitVec 32 := 0#32
  ![576, v3085.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class K0.Facts₀ : Prop where
  hcore0 : grid0.bound 0 ≤ τ.nSC
  hsub0 : grid0.bound 1 ≤ τ.nSub
  k0_off1_inb : ∀ i : grid0.Coords, ∀ a, (k0_off1 i) a + S8x8x768.size a ≤ S64x576x768.size a
  k0_t1_ok : k0_t1_loop.OK
  k0_off2_inb : ∀ (i : grid0.Coords) (k0_t1 : Fin k0_t1_loop.trips), ∀ a, (k0_off2 i k0_t1) a + S8x768.size a ≤ S577x768.size a
  k0_off3_inb : ∀ (i : grid0.Coords) (k0_t1 : Fin k0_t1_loop.trips), ∀ (r : Fin 2), ∀ a, (k0_off3 i k0_t1 (BitVec.ofNat 32 (8 * r.val))) a + S8x8x768.size a ≤ S64x576x768.size a
  k0_off4_inb : ∀ (i : grid0.Coords) (k0_t1 : Fin k0_t1_loop.trips), ∀ (k0_h1 : k0_cond1 k0_t1 = 1#1), ∀ a, (k0_off4 i k0_t1) a + S1x8x768.size a ≤ S577x64x768.size a
  k0_off5_inb : ∀ (i : grid0.Coords) (k0_t1 : Fin k0_t1_loop.trips), ∀ (k0_h2 : k0_cond2 k0_t1 = 1#1), ∀ a, (k0_off5 i k0_t1) a + S1x8x768.size a ≤ S577x64x768.size a
  k0_off6_inb : ∀ (i : grid0.Coords) (k0_t1 : Fin k0_t1_loop.trips), ∀ (k0_h3 : k0_cond3 k0_t1 = 1#1), ∀ a, (k0_off6 i k0_t1) a + S1x8x768.size a ≤ S577x64x768.size a
  k0_off7_inb : ∀ (i : grid0.Coords) (k0_t1 : Fin k0_t1_loop.trips), ∀ (k0_h4 : k0_cond4 k0_t1 = 1#1), ∀ a, (k0_off7 i k0_t1) a + S1x8x768.size a ≤ S577x64x768.size a
  k0_off8_inb : ∀ (i : grid0.Coords) (k0_t1 : Fin k0_t1_loop.trips), ∀ (k0_h5 : k0_cond5 k0_t1 = 1#1), ∀ a, (k0_off8 i k0_t1) a + S1x8x768.size a ≤ S577x64x768.size a
  k0_off9_inb : ∀ (i : grid0.Coords) (k0_t1 : Fin k0_t1_loop.trips), ∀ (k0_h6 : k0_cond6 k0_t1 = 1#1), ∀ a, (k0_off9 i k0_t1) a + S1x8x768.size a ≤ S577x64x768.size a
  k0_off10_inb : ∀ (i : grid0.Coords) (k0_t1 : Fin k0_t1_loop.trips), ∀ (k0_h7 : k0_cond7 k0_t1 = 1#1), ∀ a, (k0_off10 i k0_t1) a + S1x8x768.size a ≤ S577x64x768.size a
  k0_off11_inb : ∀ (i : grid0.Coords) (k0_t1 : Fin k0_t1_loop.trips), ∀ (k0_h8 : k0_cond8 k0_t1 = 1#1), ∀ a, (k0_off11 i k0_t1) a + S1x8x768.size a ≤ S577x64x768.size a
  k0_t2_ok : k0_t2_loop.OK
  k0_off12_inb : ∀ k0_t2 : Fin k0_t2_loop.trips, ∀ a, (k0_off12 k0_t2) a + S1x16.size a ≤ S8x768.size a
  k0_off13_inb : ∀ k0_t2 : Fin k0_t2_loop.trips, ∀ a, (k0_off13 k0_t2) a + S1x1x1x16.size a ≤ S2x8x8x768.size a
  k0_off14_inb : ∀ k0_t2 : Fin k0_t2_loop.trips, ∀ a, (k0_off14 k0_t2) a + S1x1x1x16.size a ≤ S2x8x8x768.size a
  k0_off15_inb : ∀ k0_t2 : Fin k0_t2_loop.trips, ∀ a, (k0_off15 k0_t2) a + S1x1x1x16.size a ≤ S2x8x8x768.size a
  k0_off16_inb : ∀ k0_t2 : Fin k0_t2_loop.trips, ∀ a, (k0_off16 k0_t2) a + S1x1x1x16.size a ≤ S2x8x8x768.size a
  k0_off17_inb : ∀ k0_t2 : Fin k0_t2_loop.trips, ∀ a, (k0_off17 k0_t2) a + S1x1x1x16.size a ≤ S2x8x8x768.size a
  k0_off18_inb : ∀ k0_t2 : Fin k0_t2_loop.trips, ∀ a, (k0_off18 k0_t2) a + S1x1x1x16.size a ≤ S2x8x8x768.size a
  k0_off19_inb : ∀ k0_t2 : Fin k0_t2_loop.trips, ∀ a, (k0_off19 k0_t2) a + S1x1x1x16.size a ≤ S2x8x8x768.size a
  k0_off20_inb : ∀ k0_t2 : Fin k0_t2_loop.trips, ∀ a, (k0_off20 k0_t2) a + S1x1x1x16.size a ≤ S2x8x8x768.size a
  k0_off21_inb : ∀ k0_t2 : Fin k0_t2_loop.trips, ∀ a, (k0_off21 k0_t2) a + S1x16.size a ≤ S8x768.size a
  k0_off22_inb : ∀ k0_t2 : Fin k0_t2_loop.trips, ∀ a, (k0_off22 k0_t2) a + S1x1x1x16.size a ≤ S2x8x8x768.size a
  k0_off23_inb : ∀ k0_t2 : Fin k0_t2_loop.trips, ∀ a, (k0_off23 k0_t2) a + S1x1x1x16.size a ≤ S2x8x8x768.size a
  k0_off24_inb : ∀ k0_t2 : Fin k0_t2_loop.trips, ∀ a, (k0_off24 k0_t2) a + S1x1x1x16.size a ≤ S2x8x8x768.size a
  k0_off25_inb : ∀ k0_t2 : Fin k0_t2_loop.trips, ∀ a, (k0_off25 k0_t2) a + S1x1x1x16.size a ≤ S2x8x8x768.size a
  k0_off26_inb : ∀ k0_t2 : Fin k0_t2_loop.trips, ∀ a, (k0_off26 k0_t2) a + S1x1x1x16.size a ≤ S2x8x8x768.size a
  k0_off27_inb : ∀ k0_t2 : Fin k0_t2_loop.trips, ∀ a, (k0_off27 k0_t2) a + S1x1x1x16.size a ≤ S2x8x8x768.size a
  k0_off28_inb : ∀ k0_t2 : Fin k0_t2_loop.trips, ∀ a, (k0_off28 k0_t2) a + S1x1x1x16.size a ≤ S2x8x8x768.size a
  k0_off29_inb : ∀ k0_t2 : Fin k0_t2_loop.trips, ∀ a, (k0_off29 k0_t2) a + S1x1x1x16.size a ≤ S2x8x8x768.size a
  k0_off30_inb : ∀ k0_t2 : Fin k0_t2_loop.trips, ∀ a, (k0_off30 k0_t2) a + S1x16.size a ≤ S8x768.size a
  k0_off31_inb : ∀ k0_t2 : Fin k0_t2_loop.trips, ∀ a, (k0_off31 k0_t2) a + S1x1x1x16.size a ≤ S2x8x8x768.size a
  k0_off32_inb : ∀ k0_t2 : Fin k0_t2_loop.trips, ∀ a, (k0_off32 k0_t2) a + S1x1x1x16.size a ≤ S2x8x8x768.size a
  k0_off33_inb : ∀ k0_t2 : Fin k0_t2_loop.trips, ∀ a, (k0_off33 k0_t2) a + S1x1x1x16.size a ≤ S2x8x8x768.size a
  k0_off34_inb : ∀ k0_t2 : Fin k0_t2_loop.trips, ∀ a, (k0_off34 k0_t2) a + S1x1x1x16.size a ≤ S2x8x8x768.size a
  k0_off35_inb : ∀ k0_t2 : Fin k0_t2_loop.trips, ∀ a, (k0_off35 k0_t2) a + S1x1x1x16.size a ≤ S2x8x8x768.size a
  k0_off36_inb : ∀ k0_t2 : Fin k0_t2_loop.trips, ∀ a, (k0_off36 k0_t2) a + S1x1x1x16.size a ≤ S2x8x8x768.size a
  k0_off37_inb : ∀ k0_t2 : Fin k0_t2_loop.trips, ∀ a, (k0_off37 k0_t2) a + S1x1x1x16.size a ≤ S2x8x8x768.size a
  k0_off38_inb : ∀ k0_t2 : Fin k0_t2_loop.trips, ∀ a, (k0_off38 k0_t2) a + S1x1x1x16.size a ≤ S2x8x8x768.size a
  k0_off39_inb : ∀ k0_t2 : Fin k0_t2_loop.trips, ∀ a, (k0_off39 k0_t2) a + S1x16.size a ≤ S8x768.size a
  k0_off40_inb : ∀ k0_t2 : Fin k0_t2_loop.trips, ∀ a, (k0_off40 k0_t2) a + S1x1x1x16.size a ≤ S2x8x8x768.size a
  k0_off41_inb : ∀ k0_t2 : Fin k0_t2_loop.trips, ∀ a, (k0_off41 k0_t2) a + S1x1x1x16.size a ≤ S2x8x8x768.size a
  k0_off42_inb : ∀ k0_t2 : Fin k0_t2_loop.trips, ∀ a, (k0_off42 k0_t2) a + S1x1x1x16.size a ≤ S2x8x8x768.size a
  k0_off43_inb : ∀ k0_t2 : Fin k0_t2_loop.trips, ∀ a, (k0_off43 k0_t2) a + S1x1x1x16.size a ≤ S2x8x8x768.size a
  k0_off44_inb : ∀ k0_t2 : Fin k0_t2_loop.trips, ∀ a, (k0_off44 k0_t2) a + S1x1x1x16.size a ≤ S2x8x8x768.size a
  k0_off45_inb : ∀ k0_t2 : Fin k0_t2_loop.trips, ∀ a, (k0_off45 k0_t2) a + S1x1x1x16.size a ≤ S2x8x8x768.size a
  k0_off46_inb : ∀ k0_t2 : Fin k0_t2_loop.trips, ∀ a, (k0_off46 k0_t2) a + S1x1x1x16.size a ≤ S2x8x8x768.size a
  k0_off47_inb : ∀ k0_t2 : Fin k0_t2_loop.trips, ∀ a, (k0_off47 k0_t2) a + S1x1x1x16.size a ≤ S2x8x8x768.size a
  k0_off48_inb : ∀ k0_t2 : Fin k0_t2_loop.trips, ∀ a, (k0_off48 k0_t2) a + S1x16.size a ≤ S8x768.size a
  k0_off49_inb : ∀ k0_t2 : Fin k0_t2_loop.trips, ∀ a, (k0_off49 k0_t2) a + S1x1x1x16.size a ≤ S2x8x8x768.size a
  k0_off50_inb : ∀ k0_t2 : Fin k0_t2_loop.trips, ∀ a, (k0_off50 k0_t2) a + S1x1x1x16.size a ≤ S2x8x8x768.size a
  k0_off51_inb : ∀ k0_t2 : Fin k0_t2_loop.trips, ∀ a, (k0_off51 k0_t2) a + S1x1x1x16.size a ≤ S2x8x8x768.size a
  k0_off52_inb : ∀ k0_t2 : Fin k0_t2_loop.trips, ∀ a, (k0_off52 k0_t2) a + S1x1x1x16.size a ≤ S2x8x8x768.size a
  k0_off53_inb : ∀ k0_t2 : Fin k0_t2_loop.trips, ∀ a, (k0_off53 k0_t2) a + S1x1x1x16.size a ≤ S2x8x8x768.size a
  k0_off54_inb : ∀ k0_t2 : Fin k0_t2_loop.trips, ∀ a, (k0_off54 k0_t2) a + S1x1x1x16.size a ≤ S2x8x8x768.size a
  k0_off55_inb : ∀ k0_t2 : Fin k0_t2_loop.trips, ∀ a, (k0_off55 k0_t2) a + S1x1x1x16.size a ≤ S2x8x8x768.size a
  k0_off56_inb : ∀ k0_t2 : Fin k0_t2_loop.trips, ∀ a, (k0_off56 k0_t2) a + S1x1x1x16.size a ≤ S2x8x8x768.size a
  k0_off57_inb : ∀ k0_t2 : Fin k0_t2_loop.trips, ∀ a, (k0_off57 k0_t2) a + S1x16.size a ≤ S8x768.size a
  k0_off58_inb : ∀ k0_t2 : Fin k0_t2_loop.trips, ∀ a, (k0_off58 k0_t2) a + S1x1x1x16.size a ≤ S2x8x8x768.size a
  k0_off59_inb : ∀ k0_t2 : Fin k0_t2_loop.trips, ∀ a, (k0_off59 k0_t2) a + S1x1x1x16.size a ≤ S2x8x8x768.size a
  k0_off60_inb : ∀ k0_t2 : Fin k0_t2_loop.trips, ∀ a, (k0_off60 k0_t2) a + S1x1x1x16.size a ≤ S2x8x8x768.size a
  k0_off61_inb : ∀ k0_t2 : Fin k0_t2_loop.trips, ∀ a, (k0_off61 k0_t2) a + S1x1x1x16.size a ≤ S2x8x8x768.size a
  k0_off62_inb : ∀ k0_t2 : Fin k0_t2_loop.trips, ∀ a, (k0_off62 k0_t2) a + S1x1x1x16.size a ≤ S2x8x8x768.size a
  k0_off63_inb : ∀ k0_t2 : Fin k0_t2_loop.trips, ∀ a, (k0_off63 k0_t2) a + S1x1x1x16.size a ≤ S2x8x8x768.size a
  k0_off64_inb : ∀ k0_t2 : Fin k0_t2_loop.trips, ∀ a, (k0_off64 k0_t2) a + S1x1x1x16.size a ≤ S2x8x8x768.size a
  k0_off65_inb : ∀ k0_t2 : Fin k0_t2_loop.trips, ∀ a, (k0_off65 k0_t2) a + S1x1x1x16.size a ≤ S2x8x8x768.size a
  k0_off66_inb : ∀ k0_t2 : Fin k0_t2_loop.trips, ∀ a, (k0_off66 k0_t2) a + S1x16.size a ≤ S8x768.size a
  k0_off67_inb : ∀ k0_t2 : Fin k0_t2_loop.trips, ∀ a, (k0_off67 k0_t2) a + S1x1x1x16.size a ≤ S2x8x8x768.size a
  k0_off68_inb : ∀ k0_t2 : Fin k0_t2_loop.trips, ∀ a, (k0_off68 k0_t2) a + S1x1x1x16.size a ≤ S2x8x8x768.size a
  k0_off69_inb : ∀ k0_t2 : Fin k0_t2_loop.trips, ∀ a, (k0_off69 k0_t2) a + S1x1x1x16.size a ≤ S2x8x8x768.size a
  k0_off70_inb : ∀ k0_t2 : Fin k0_t2_loop.trips, ∀ a, (k0_off70 k0_t2) a + S1x1x1x16.size a ≤ S2x8x8x768.size a
  k0_off71_inb : ∀ k0_t2 : Fin k0_t2_loop.trips, ∀ a, (k0_off71 k0_t2) a + S1x1x1x16.size a ≤ S2x8x8x768.size a
  k0_off72_inb : ∀ k0_t2 : Fin k0_t2_loop.trips, ∀ a, (k0_off72 k0_t2) a + S1x1x1x16.size a ≤ S2x8x8x768.size a
  k0_off73_inb : ∀ k0_t2 : Fin k0_t2_loop.trips, ∀ a, (k0_off73 k0_t2) a + S1x1x1x16.size a ≤ S2x8x8x768.size a
  k0_off74_inb : ∀ k0_t2 : Fin k0_t2_loop.trips, ∀ a, (k0_off74 k0_t2) a + S1x1x1x16.size a ≤ S2x8x8x768.size a
  k0_off75_inb : ∀ k0_t2 : Fin k0_t2_loop.trips, ∀ a, (k0_off75 k0_t2) a + S1x16.size a ≤ S8x768.size a
  k0_off76_inb : ∀ k0_t2 : Fin k0_t2_loop.trips, ∀ a, (k0_off76 k0_t2) a + S1x1x1x16.size a ≤ S2x8x8x768.size a
  k0_off77_inb : ∀ k0_t2 : Fin k0_t2_loop.trips, ∀ a, (k0_off77 k0_t2) a + S1x1x1x16.size a ≤ S2x8x8x768.size a
  k0_off78_inb : ∀ k0_t2 : Fin k0_t2_loop.trips, ∀ a, (k0_off78 k0_t2) a + S1x1x1x16.size a ≤ S2x8x8x768.size a
  k0_off79_inb : ∀ k0_t2 : Fin k0_t2_loop.trips, ∀ a, (k0_off79 k0_t2) a + S1x1x1x16.size a ≤ S2x8x8x768.size a
  k0_off80_inb : ∀ k0_t2 : Fin k0_t2_loop.trips, ∀ a, (k0_off80 k0_t2) a + S1x1x1x16.size a ≤ S2x8x8x768.size a
  k0_off81_inb : ∀ k0_t2 : Fin k0_t2_loop.trips, ∀ a, (k0_off81 k0_t2) a + S1x1x1x16.size a ≤ S2x8x8x768.size a
  k0_off82_inb : ∀ k0_t2 : Fin k0_t2_loop.trips, ∀ a, (k0_off82 k0_t2) a + S1x1x1x16.size a ≤ S2x8x8x768.size a
  k0_off83_inb : ∀ k0_t2 : Fin k0_t2_loop.trips, ∀ a, (k0_off83 k0_t2) a + S1x1x1x16.size a ≤ S2x8x8x768.size a
  k0_off84_inb : ∀ k0_t2 : Fin k0_t2_loop.trips, ∀ a, (k0_off84 k0_t2) a + S1x16.size a ≤ S8x768.size a
  k0_off85_inb : ∀ k0_t2 : Fin k0_t2_loop.trips, ∀ a, (k0_off85 k0_t2) a + S1x1x1x16.size a ≤ S2x8x8x768.size a
  k0_off86_inb : ∀ k0_t2 : Fin k0_t2_loop.trips, ∀ a, (k0_off86 k0_t2) a + S1x1x1x16.size a ≤ S2x8x8x768.size a
  k0_off87_inb : ∀ k0_t2 : Fin k0_t2_loop.trips, ∀ a, (k0_off87 k0_t2) a + S1x1x1x16.size a ≤ S2x8x8x768.size a
  k0_off88_inb : ∀ k0_t2 : Fin k0_t2_loop.trips, ∀ a, (k0_off88 k0_t2) a + S1x1x1x16.size a ≤ S2x8x8x768.size a
  k0_off89_inb : ∀ k0_t2 : Fin k0_t2_loop.trips, ∀ a, (k0_off89 k0_t2) a + S1x1x1x16.size a ≤ S2x8x8x768.size a
  k0_off90_inb : ∀ k0_t2 : Fin k0_t2_loop.trips, ∀ a, (k0_off90 k0_t2) a + S1x1x1x16.size a ≤ S2x8x8x768.size a
  k0_off91_inb : ∀ k0_t2 : Fin k0_t2_loop.trips, ∀ a, (k0_off91 k0_t2) a + S1x1x1x16.size a ≤ S2x8x8x768.size a
  k0_off92_inb : ∀ k0_t2 : Fin k0_t2_loop.trips, ∀ a, (k0_off92 k0_t2) a + S1x1x1x16.size a ≤ S2x8x8x768.size a
  k0_off93_inb : ∀ k0_t2 : Fin k0_t2_loop.trips, ∀ a, (k0_off93 k0_t2) a + S1x16.size a ≤ S8x768.size a
  k0_off94_inb : ∀ k0_t2 : Fin k0_t2_loop.trips, ∀ a, (k0_off94 k0_t2) a + S1x1x1x16.size a ≤ S2x8x8x768.size a
  k0_off95_inb : ∀ k0_t2 : Fin k0_t2_loop.trips, ∀ a, (k0_off95 k0_t2) a + S1x1x1x16.size a ≤ S2x8x8x768.size a
  k0_off96_inb : ∀ k0_t2 : Fin k0_t2_loop.trips, ∀ a, (k0_off96 k0_t2) a + S1x1x1x16.size a ≤ S2x8x8x768.size a
  k0_off97_inb : ∀ k0_t2 : Fin k0_t2_loop.trips, ∀ a, (k0_off97 k0_t2) a + S1x1x1x16.size a ≤ S2x8x8x768.size a
  k0_off98_inb : ∀ k0_t2 : Fin k0_t2_loop.trips, ∀ a, (k0_off98 k0_t2) a + S1x1x1x16.size a ≤ S2x8x8x768.size a
  k0_off99_inb : ∀ k0_t2 : Fin k0_t2_loop.trips, ∀ a, (k0_off99 k0_t2) a + S1x1x1x16.size a ≤ S2x8x8x768.size a
  k0_off100_inb : ∀ k0_t2 : Fin k0_t2_loop.trips, ∀ a, (k0_off100 k0_t2) a + S1x1x1x16.size a ≤ S2x8x8x768.size a
  k0_off101_inb : ∀ k0_t2 : Fin k0_t2_loop.trips, ∀ a, (k0_off101 k0_t2) a + S1x1x1x16.size a ≤ S2x8x8x768.size a
  k0_off102_inb : ∀ k0_t2 : Fin k0_t2_loop.trips, ∀ a, (k0_off102 k0_t2) a + S1x16.size a ≤ S8x768.size a
  k0_off103_inb : ∀ k0_t2 : Fin k0_t2_loop.trips, ∀ a, (k0_off103 k0_t2) a + S1x1x1x16.size a ≤ S2x8x8x768.size a
  k0_off104_inb : ∀ k0_t2 : Fin k0_t2_loop.trips, ∀ a, (k0_off104 k0_t2) a + S1x1x1x16.size a ≤ S2x8x8x768.size a
  k0_off105_inb : ∀ k0_t2 : Fin k0_t2_loop.trips, ∀ a, (k0_off105 k0_t2) a + S1x1x1x16.size a ≤ S2x8x8x768.size a
  k0_off106_inb : ∀ k0_t2 : Fin k0_t2_loop.trips, ∀ a, (k0_off106 k0_t2) a + S1x1x1x16.size a ≤ S2x8x8x768.size a
  k0_off107_inb : ∀ k0_t2 : Fin k0_t2_loop.trips, ∀ a, (k0_off107 k0_t2) a + S1x1x1x16.size a ≤ S2x8x8x768.size a
  k0_off108_inb : ∀ k0_t2 : Fin k0_t2_loop.trips, ∀ a, (k0_off108 k0_t2) a + S1x1x1x16.size a ≤ S2x8x8x768.size a
  k0_off109_inb : ∀ k0_t2 : Fin k0_t2_loop.trips, ∀ a, (k0_off109 k0_t2) a + S1x1x1x16.size a ≤ S2x8x8x768.size a
  k0_off110_inb : ∀ k0_t2 : Fin k0_t2_loop.trips, ∀ a, (k0_off110 k0_t2) a + S1x1x1x16.size a ≤ S2x8x8x768.size a
  k0_off111_inb : ∀ k0_t2 : Fin k0_t2_loop.trips, ∀ a, (k0_off111 k0_t2) a + S1x16.size a ≤ S8x768.size a
  k0_off112_inb : ∀ k0_t2 : Fin k0_t2_loop.trips, ∀ a, (k0_off112 k0_t2) a + S1x1x1x16.size a ≤ S2x8x8x768.size a
  k0_off113_inb : ∀ k0_t2 : Fin k0_t2_loop.trips, ∀ a, (k0_off113 k0_t2) a + S1x1x1x16.size a ≤ S2x8x8x768.size a
  k0_off114_inb : ∀ k0_t2 : Fin k0_t2_loop.trips, ∀ a, (k0_off114 k0_t2) a + S1x1x1x16.size a ≤ S2x8x8x768.size a
  k0_off115_inb : ∀ k0_t2 : Fin k0_t2_loop.trips, ∀ a, (k0_off115 k0_t2) a + S1x1x1x16.size a ≤ S2x8x8x768.size a
  k0_off116_inb : ∀ k0_t2 : Fin k0_t2_loop.trips, ∀ a, (k0_off116 k0_t2) a + S1x1x1x16.size a ≤ S2x8x8x768.size a
  k0_off117_inb : ∀ k0_t2 : Fin k0_t2_loop.trips, ∀ a, (k0_off117 k0_t2) a + S1x1x1x16.size a ≤ S2x8x8x768.size a
  k0_off118_inb : ∀ k0_t2 : Fin k0_t2_loop.trips, ∀ a, (k0_off118 k0_t2) a + S1x1x1x16.size a ≤ S2x8x8x768.size a
  k0_off119_inb : ∀ k0_t2 : Fin k0_t2_loop.trips, ∀ a, (k0_off119 k0_t2) a + S1x1x1x16.size a ≤ S2x8x8x768.size a
  k0_off120_inb : ∀ k0_t2 : Fin k0_t2_loop.trips, ∀ a, (k0_off120 k0_t2) a + S1x16.size a ≤ S8x768.size a
  k0_off121_inb : ∀ k0_t2 : Fin k0_t2_loop.trips, ∀ a, (k0_off121 k0_t2) a + S1x1x1x16.size a ≤ S2x8x8x768.size a
  k0_off122_inb : ∀ k0_t2 : Fin k0_t2_loop.trips, ∀ a, (k0_off122 k0_t2) a + S1x1x1x16.size a ≤ S2x8x8x768.size a
  k0_off123_inb : ∀ k0_t2 : Fin k0_t2_loop.trips, ∀ a, (k0_off123 k0_t2) a + S1x1x1x16.size a ≤ S2x8x8x768.size a
  k0_off124_inb : ∀ k0_t2 : Fin k0_t2_loop.trips, ∀ a, (k0_off124 k0_t2) a + S1x1x1x16.size a ≤ S2x8x8x768.size a
  k0_off125_inb : ∀ k0_t2 : Fin k0_t2_loop.trips, ∀ a, (k0_off125 k0_t2) a + S1x1x1x16.size a ≤ S2x8x8x768.size a
  k0_off126_inb : ∀ k0_t2 : Fin k0_t2_loop.trips, ∀ a, (k0_off126 k0_t2) a + S1x1x1x16.size a ≤ S2x8x8x768.size a
  k0_off127_inb : ∀ k0_t2 : Fin k0_t2_loop.trips, ∀ a, (k0_off127 k0_t2) a + S1x1x1x16.size a ≤ S2x8x8x768.size a
  k0_off128_inb : ∀ k0_t2 : Fin k0_t2_loop.trips, ∀ a, (k0_off128 k0_t2) a + S1x1x1x16.size a ≤ S2x8x8x768.size a
  k0_off129_inb : ∀ k0_t2 : Fin k0_t2_loop.trips, ∀ a, (k0_off129 k0_t2) a + S1x16.size a ≤ S8x768.size a
  k0_off130_inb : ∀ k0_t2 : Fin k0_t2_loop.trips, ∀ a, (k0_off130 k0_t2) a + S1x1x1x16.size a ≤ S2x8x8x768.size a
  k0_off131_inb : ∀ k0_t2 : Fin k0_t2_loop.trips, ∀ a, (k0_off131 k0_t2) a + S1x1x1x16.size a ≤ S2x8x8x768.size a
  k0_off132_inb : ∀ k0_t2 : Fin k0_t2_loop.trips, ∀ a, (k0_off132 k0_t2) a + S1x1x1x16.size a ≤ S2x8x8x768.size a
  k0_off133_inb : ∀ k0_t2 : Fin k0_t2_loop.trips, ∀ a, (k0_off133 k0_t2) a + S1x1x1x16.size a ≤ S2x8x8x768.size a
  k0_off134_inb : ∀ k0_t2 : Fin k0_t2_loop.trips, ∀ a, (k0_off134 k0_t2) a + S1x1x1x16.size a ≤ S2x8x8x768.size a
  k0_off135_inb : ∀ k0_t2 : Fin k0_t2_loop.trips, ∀ a, (k0_off135 k0_t2) a + S1x1x1x16.size a ≤ S2x8x8x768.size a
  k0_off136_inb : ∀ k0_t2 : Fin k0_t2_loop.trips, ∀ a, (k0_off136 k0_t2) a + S1x1x1x16.size a ≤ S2x8x8x768.size a
  k0_off137_inb : ∀ k0_t2 : Fin k0_t2_loop.trips, ∀ a, (k0_off137 k0_t2) a + S1x1x1x16.size a ≤ S2x8x8x768.size a
  k0_off138_inb : ∀ k0_t2 : Fin k0_t2_loop.trips, ∀ a, (k0_off138 k0_t2) a + S1x16.size a ≤ S8x768.size a
  k0_off139_inb : ∀ k0_t2 : Fin k0_t2_loop.trips, ∀ a, (k0_off139 k0_t2) a + S1x1x1x16.size a ≤ S2x8x8x768.size a
  k0_off140_inb : ∀ k0_t2 : Fin k0_t2_loop.trips, ∀ a, (k0_off140 k0_t2) a + S1x1x1x16.size a ≤ S2x8x8x768.size a
  k0_off141_inb : ∀ k0_t2 : Fin k0_t2_loop.trips, ∀ a, (k0_off141 k0_t2) a + S1x1x1x16.size a ≤ S2x8x8x768.size a
  k0_off142_inb : ∀ k0_t2 : Fin k0_t2_loop.trips, ∀ a, (k0_off142 k0_t2) a + S1x1x1x16.size a ≤ S2x8x8x768.size a
  k0_off143_inb : ∀ k0_t2 : Fin k0_t2_loop.trips, ∀ a, (k0_off143 k0_t2) a + S1x1x1x16.size a ≤ S2x8x8x768.size a
  k0_off144_inb : ∀ k0_t2 : Fin k0_t2_loop.trips, ∀ a, (k0_off144 k0_t2) a + S1x1x1x16.size a ≤ S2x8x8x768.size a
  k0_off145_inb : ∀ k0_t2 : Fin k0_t2_loop.trips, ∀ a, (k0_off145 k0_t2) a + S1x1x1x16.size a ≤ S2x8x8x768.size a
  k0_off146_inb : ∀ k0_t2 : Fin k0_t2_loop.trips, ∀ a, (k0_off146 k0_t2) a + S1x1x1x16.size a ≤ S2x8x8x768.size a
  k0_off147_inb : ∀ k0_t2 : Fin k0_t2_loop.trips, ∀ a, (k0_off147 k0_t2) a + S1x16.size a ≤ S8x768.size a
  k0_off148_inb : ∀ k0_t2 : Fin k0_t2_loop.trips, ∀ a, (k0_off148 k0_t2) a + S1x1x1x16.size a ≤ S2x8x8x768.size a
  k0_off149_inb : ∀ k0_t2 : Fin k0_t2_loop.trips, ∀ a, (k0_off149 k0_t2) a + S1x1x1x16.size a ≤ S2x8x8x768.size a
  k0_off150_inb : ∀ k0_t2 : Fin k0_t2_loop.trips, ∀ a, (k0_off150 k0_t2) a + S1x1x1x16.size a ≤ S2x8x8x768.size a
  k0_off151_inb : ∀ k0_t2 : Fin k0_t2_loop.trips, ∀ a, (k0_off151 k0_t2) a + S1x1x1x16.size a ≤ S2x8x8x768.size a
  k0_off152_inb : ∀ k0_t2 : Fin k0_t2_loop.trips, ∀ a, (k0_off152 k0_t2) a + S1x1x1x16.size a ≤ S2x8x8x768.size a
  k0_off153_inb : ∀ k0_t2 : Fin k0_t2_loop.trips, ∀ a, (k0_off153 k0_t2) a + S1x1x1x16.size a ≤ S2x8x8x768.size a
  k0_off154_inb : ∀ k0_t2 : Fin k0_t2_loop.trips, ∀ a, (k0_off154 k0_t2) a + S1x1x1x16.size a ≤ S2x8x8x768.size a
  k0_off155_inb : ∀ k0_t2 : Fin k0_t2_loop.trips, ∀ a, (k0_off155 k0_t2) a + S1x1x1x16.size a ≤ S2x8x8x768.size a
  k0_off156_inb : ∀ k0_t2 : Fin k0_t2_loop.trips, ∀ a, (k0_off156 k0_t2) a + S1x16.size a ≤ S8x768.size a
  k0_off157_inb : ∀ k0_t2 : Fin k0_t2_loop.trips, ∀ a, (k0_off157 k0_t2) a + S1x1x1x16.size a ≤ S2x8x8x768.size a
  k0_off158_inb : ∀ k0_t2 : Fin k0_t2_loop.trips, ∀ a, (k0_off158 k0_t2) a + S1x1x1x16.size a ≤ S2x8x8x768.size a
  k0_off159_inb : ∀ k0_t2 : Fin k0_t2_loop.trips, ∀ a, (k0_off159 k0_t2) a + S1x1x1x16.size a ≤ S2x8x8x768.size a
  k0_off160_inb : ∀ k0_t2 : Fin k0_t2_loop.trips, ∀ a, (k0_off160 k0_t2) a + S1x1x1x16.size a ≤ S2x8x8x768.size a
  k0_off161_inb : ∀ k0_t2 : Fin k0_t2_loop.trips, ∀ a, (k0_off161 k0_t2) a + S1x1x1x16.size a ≤ S2x8x8x768.size a
  k0_off162_inb : ∀ k0_t2 : Fin k0_t2_loop.trips, ∀ a, (k0_off162 k0_t2) a + S1x1x1x16.size a ≤ S2x8x8x768.size a
  k0_off163_inb : ∀ k0_t2 : Fin k0_t2_loop.trips, ∀ a, (k0_off163 k0_t2) a + S1x1x1x16.size a ≤ S2x8x8x768.size a
  k0_off164_inb : ∀ k0_t2 : Fin k0_t2_loop.trips, ∀ a, (k0_off164 k0_t2) a + S1x1x1x16.size a ≤ S2x8x8x768.size a
  k0_off165_inb : ∀ k0_t2 : Fin k0_t2_loop.trips, ∀ a, (k0_off165 k0_t2) a + S1x16.size a ≤ S8x768.size a
  k0_off166_inb : ∀ k0_t2 : Fin k0_t2_loop.trips, ∀ a, (k0_off166 k0_t2) a + S1x1x1x16.size a ≤ S2x8x8x768.size a
  k0_off167_inb : ∀ k0_t2 : Fin k0_t2_loop.trips, ∀ a, (k0_off167 k0_t2) a + S1x1x1x16.size a ≤ S2x8x8x768.size a
  k0_off168_inb : ∀ k0_t2 : Fin k0_t2_loop.trips, ∀ a, (k0_off168 k0_t2) a + S1x1x1x16.size a ≤ S2x8x8x768.size a
  k0_off169_inb : ∀ k0_t2 : Fin k0_t2_loop.trips, ∀ a, (k0_off169 k0_t2) a + S1x1x1x16.size a ≤ S2x8x8x768.size a
  k0_off170_inb : ∀ k0_t2 : Fin k0_t2_loop.trips, ∀ a, (k0_off170 k0_t2) a + S1x1x1x16.size a ≤ S2x8x8x768.size a
  k0_off171_inb : ∀ k0_t2 : Fin k0_t2_loop.trips, ∀ a, (k0_off171 k0_t2) a + S1x1x1x16.size a ≤ S2x8x8x768.size a
  k0_off172_inb : ∀ k0_t2 : Fin k0_t2_loop.trips, ∀ a, (k0_off172 k0_t2) a + S1x1x1x16.size a ≤ S2x8x8x768.size a
  k0_off173_inb : ∀ k0_t2 : Fin k0_t2_loop.trips, ∀ a, (k0_off173 k0_t2) a + S1x1x1x16.size a ≤ S2x8x8x768.size a
  k0_off174_inb : ∀ k0_t2 : Fin k0_t2_loop.trips, ∀ a, (k0_off174 k0_t2) a + S1x16.size a ≤ S8x768.size a
  k0_off175_inb : ∀ k0_t2 : Fin k0_t2_loop.trips, ∀ a, (k0_off175 k0_t2) a + S1x1x1x16.size a ≤ S2x8x8x768.size a
  k0_off176_inb : ∀ k0_t2 : Fin k0_t2_loop.trips, ∀ a, (k0_off176 k0_t2) a + S1x1x1x16.size a ≤ S2x8x8x768.size a
  k0_off177_inb : ∀ k0_t2 : Fin k0_t2_loop.trips, ∀ a, (k0_off177 k0_t2) a + S1x1x1x16.size a ≤ S2x8x8x768.size a
  k0_off178_inb : ∀ k0_t2 : Fin k0_t2_loop.trips, ∀ a, (k0_off178 k0_t2) a + S1x1x1x16.size a ≤ S2x8x8x768.size a
  k0_off179_inb : ∀ k0_t2 : Fin k0_t2_loop.trips, ∀ a, (k0_off179 k0_t2) a + S1x1x1x16.size a ≤ S2x8x8x768.size a
  k0_off180_inb : ∀ k0_t2 : Fin k0_t2_loop.trips, ∀ a, (k0_off180 k0_t2) a + S1x1x1x16.size a ≤ S2x8x8x768.size a
  k0_off181_inb : ∀ k0_t2 : Fin k0_t2_loop.trips, ∀ a, (k0_off181 k0_t2) a + S1x1x1x16.size a ≤ S2x8x8x768.size a
  k0_off182_inb : ∀ k0_t2 : Fin k0_t2_loop.trips, ∀ a, (k0_off182 k0_t2) a + S1x1x1x16.size a ≤ S2x8x8x768.size a
  k0_off183_inb : ∀ k0_t2 : Fin k0_t2_loop.trips, ∀ a, (k0_off183 k0_t2) a + S1x16.size a ≤ S8x768.size a
  k0_off184_inb : ∀ k0_t2 : Fin k0_t2_loop.trips, ∀ a, (k0_off184 k0_t2) a + S1x1x1x16.size a ≤ S2x8x8x768.size a
  k0_off185_inb : ∀ k0_t2 : Fin k0_t2_loop.trips, ∀ a, (k0_off185 k0_t2) a + S1x1x1x16.size a ≤ S2x8x8x768.size a
  k0_off186_inb : ∀ k0_t2 : Fin k0_t2_loop.trips, ∀ a, (k0_off186 k0_t2) a + S1x1x1x16.size a ≤ S2x8x8x768.size a
  k0_off187_inb : ∀ k0_t2 : Fin k0_t2_loop.trips, ∀ a, (k0_off187 k0_t2) a + S1x1x1x16.size a ≤ S2x8x8x768.size a
  k0_off188_inb : ∀ k0_t2 : Fin k0_t2_loop.trips, ∀ a, (k0_off188 k0_t2) a + S1x1x1x16.size a ≤ S2x8x8x768.size a
  k0_off189_inb : ∀ k0_t2 : Fin k0_t2_loop.trips, ∀ a, (k0_off189 k0_t2) a + S1x1x1x16.size a ≤ S2x8x8x768.size a
  k0_off190_inb : ∀ k0_t2 : Fin k0_t2_loop.trips, ∀ a, (k0_off190 k0_t2) a + S1x1x1x16.size a ≤ S2x8x8x768.size a
  k0_off191_inb : ∀ k0_t2 : Fin k0_t2_loop.trips, ∀ a, (k0_off191 k0_t2) a + S1x1x1x16.size a ≤ S2x8x8x768.size a
  k0_off192_inb : ∀ k0_t2 : Fin k0_t2_loop.trips, ∀ a, (k0_off192 k0_t2) a + S1x16.size a ≤ S8x768.size a
  k0_off193_inb : ∀ k0_t2 : Fin k0_t2_loop.trips, ∀ a, (k0_off193 k0_t2) a + S1x1x1x16.size a ≤ S2x8x8x768.size a
  k0_off194_inb : ∀ k0_t2 : Fin k0_t2_loop.trips, ∀ a, (k0_off194 k0_t2) a + S1x1x1x16.size a ≤ S2x8x8x768.size a
  k0_off195_inb : ∀ k0_t2 : Fin k0_t2_loop.trips, ∀ a, (k0_off195 k0_t2) a + S1x1x1x16.size a ≤ S2x8x8x768.size a
  k0_off196_inb : ∀ k0_t2 : Fin k0_t2_loop.trips, ∀ a, (k0_off196 k0_t2) a + S1x1x1x16.size a ≤ S2x8x8x768.size a
  k0_off197_inb : ∀ k0_t2 : Fin k0_t2_loop.trips, ∀ a, (k0_off197 k0_t2) a + S1x1x1x16.size a ≤ S2x8x8x768.size a
  k0_off198_inb : ∀ k0_t2 : Fin k0_t2_loop.trips, ∀ a, (k0_off198 k0_t2) a + S1x1x1x16.size a ≤ S2x8x8x768.size a
  k0_off199_inb : ∀ k0_t2 : Fin k0_t2_loop.trips, ∀ a, (k0_off199 k0_t2) a + S1x1x1x16.size a ≤ S2x8x8x768.size a
  k0_off200_inb : ∀ k0_t2 : Fin k0_t2_loop.trips, ∀ a, (k0_off200 k0_t2) a + S1x1x1x16.size a ≤ S2x8x8x768.size a
  k0_off201_inb : ∀ k0_t2 : Fin k0_t2_loop.trips, ∀ a, (k0_off201 k0_t2) a + S1x16.size a ≤ S8x768.size a
  k0_off202_inb : ∀ k0_t2 : Fin k0_t2_loop.trips, ∀ a, (k0_off202 k0_t2) a + S1x1x1x16.size a ≤ S2x8x8x768.size a
  k0_off203_inb : ∀ k0_t2 : Fin k0_t2_loop.trips, ∀ a, (k0_off203 k0_t2) a + S1x1x1x16.size a ≤ S2x8x8x768.size a
  k0_off204_inb : ∀ k0_t2 : Fin k0_t2_loop.trips, ∀ a, (k0_off204 k0_t2) a + S1x1x1x16.size a ≤ S2x8x8x768.size a
  k0_off205_inb : ∀ k0_t2 : Fin k0_t2_loop.trips, ∀ a, (k0_off205 k0_t2) a + S1x1x1x16.size a ≤ S2x8x8x768.size a
  k0_off206_inb : ∀ k0_t2 : Fin k0_t2_loop.trips, ∀ a, (k0_off206 k0_t2) a + S1x1x1x16.size a ≤ S2x8x8x768.size a
  k0_off207_inb : ∀ k0_t2 : Fin k0_t2_loop.trips, ∀ a, (k0_off207 k0_t2) a + S1x1x1x16.size a ≤ S2x8x8x768.size a
  k0_off208_inb : ∀ k0_t2 : Fin k0_t2_loop.trips, ∀ a, (k0_off208 k0_t2) a + S1x1x1x16.size a ≤ S2x8x8x768.size a
  k0_off209_inb : ∀ k0_t2 : Fin k0_t2_loop.trips, ∀ a, (k0_off209 k0_t2) a + S1x1x1x16.size a ≤ S2x8x8x768.size a
  k0_off210_inb : ∀ k0_t2 : Fin k0_t2_loop.trips, ∀ a, (k0_off210 k0_t2) a + S1x16.size a ≤ S8x768.size a
  k0_off211_inb : ∀ k0_t2 : Fin k0_t2_loop.trips, ∀ a, (k0_off211 k0_t2) a + S1x1x1x16.size a ≤ S2x8x8x768.size a
  k0_off212_inb : ∀ k0_t2 : Fin k0_t2_loop.trips, ∀ a, (k0_off212 k0_t2) a + S1x1x1x16.size a ≤ S2x8x8x768.size a
  k0_off213_inb : ∀ k0_t2 : Fin k0_t2_loop.trips, ∀ a, (k0_off213 k0_t2) a + S1x1x1x16.size a ≤ S2x8x8x768.size a
  k0_off214_inb : ∀ k0_t2 : Fin k0_t2_loop.trips, ∀ a, (k0_off214 k0_t2) a + S1x1x1x16.size a ≤ S2x8x8x768.size a
  k0_off215_inb : ∀ k0_t2 : Fin k0_t2_loop.trips, ∀ a, (k0_off215 k0_t2) a + S1x1x1x16.size a ≤ S2x8x8x768.size a
  k0_off216_inb : ∀ k0_t2 : Fin k0_t2_loop.trips, ∀ a, (k0_off216 k0_t2) a + S1x1x1x16.size a ≤ S2x8x8x768.size a
  k0_off217_inb : ∀ k0_t2 : Fin k0_t2_loop.trips, ∀ a, (k0_off217 k0_t2) a + S1x1x1x16.size a ≤ S2x8x8x768.size a
  k0_off218_inb : ∀ k0_t2 : Fin k0_t2_loop.trips, ∀ a, (k0_off218 k0_t2) a + S1x1x1x16.size a ≤ S2x8x8x768.size a
  k0_off219_inb : ∀ k0_t2 : Fin k0_t2_loop.trips, ∀ a, (k0_off219 k0_t2) a + S1x16.size a ≤ S8x768.size a
  k0_off220_inb : ∀ k0_t2 : Fin k0_t2_loop.trips, ∀ a, (k0_off220 k0_t2) a + S1x1x1x16.size a ≤ S2x8x8x768.size a
  k0_off221_inb : ∀ k0_t2 : Fin k0_t2_loop.trips, ∀ a, (k0_off221 k0_t2) a + S1x1x1x16.size a ≤ S2x8x8x768.size a
  k0_off222_inb : ∀ k0_t2 : Fin k0_t2_loop.trips, ∀ a, (k0_off222 k0_t2) a + S1x1x1x16.size a ≤ S2x8x8x768.size a
  k0_off223_inb : ∀ k0_t2 : Fin k0_t2_loop.trips, ∀ a, (k0_off223 k0_t2) a + S1x1x1x16.size a ≤ S2x8x8x768.size a
  k0_off224_inb : ∀ k0_t2 : Fin k0_t2_loop.trips, ∀ a, (k0_off224 k0_t2) a + S1x1x1x16.size a ≤ S2x8x8x768.size a
  k0_off225_inb : ∀ k0_t2 : Fin k0_t2_loop.trips, ∀ a, (k0_off225 k0_t2) a + S1x1x1x16.size a ≤ S2x8x8x768.size a
  k0_off226_inb : ∀ k0_t2 : Fin k0_t2_loop.trips, ∀ a, (k0_off226 k0_t2) a + S1x1x1x16.size a ≤ S2x8x8x768.size a
  k0_off227_inb : ∀ k0_t2 : Fin k0_t2_loop.trips, ∀ a, (k0_off227 k0_t2) a + S1x1x1x16.size a ≤ S2x8x8x768.size a
  k0_off228_inb : ∀ k0_t2 : Fin k0_t2_loop.trips, ∀ a, (k0_off228 k0_t2) a + S1x16.size a ≤ S8x768.size a
  k0_off229_inb : ∀ k0_t2 : Fin k0_t2_loop.trips, ∀ a, (k0_off229 k0_t2) a + S1x1x1x16.size a ≤ S2x8x8x768.size a
  k0_off230_inb : ∀ k0_t2 : Fin k0_t2_loop.trips, ∀ a, (k0_off230 k0_t2) a + S1x1x1x16.size a ≤ S2x8x8x768.size a
  k0_off231_inb : ∀ k0_t2 : Fin k0_t2_loop.trips, ∀ a, (k0_off231 k0_t2) a + S1x1x1x16.size a ≤ S2x8x8x768.size a
  k0_off232_inb : ∀ k0_t2 : Fin k0_t2_loop.trips, ∀ a, (k0_off232 k0_t2) a + S1x1x1x16.size a ≤ S2x8x8x768.size a
  k0_off233_inb : ∀ k0_t2 : Fin k0_t2_loop.trips, ∀ a, (k0_off233 k0_t2) a + S1x1x1x16.size a ≤ S2x8x8x768.size a
  k0_off234_inb : ∀ k0_t2 : Fin k0_t2_loop.trips, ∀ a, (k0_off234 k0_t2) a + S1x1x1x16.size a ≤ S2x8x8x768.size a
  k0_off235_inb : ∀ k0_t2 : Fin k0_t2_loop.trips, ∀ a, (k0_off235 k0_t2) a + S1x1x1x16.size a ≤ S2x8x8x768.size a
  k0_off236_inb : ∀ k0_t2 : Fin k0_t2_loop.trips, ∀ a, (k0_off236 k0_t2) a + S1x1x1x16.size a ≤ S2x8x8x768.size a
  k0_off237_inb : ∀ k0_t2 : Fin k0_t2_loop.trips, ∀ a, (k0_off237 k0_t2) a + S1x16.size a ≤ S8x768.size a
  k0_off238_inb : ∀ k0_t2 : Fin k0_t2_loop.trips, ∀ a, (k0_off238 k0_t2) a + S1x1x1x16.size a ≤ S2x8x8x768.size a
  k0_off239_inb : ∀ k0_t2 : Fin k0_t2_loop.trips, ∀ a, (k0_off239 k0_t2) a + S1x1x1x16.size a ≤ S2x8x8x768.size a
  k0_off240_inb : ∀ k0_t2 : Fin k0_t2_loop.trips, ∀ a, (k0_off240 k0_t2) a + S1x1x1x16.size a ≤ S2x8x8x768.size a
  k0_off241_inb : ∀ k0_t2 : Fin k0_t2_loop.trips, ∀ a, (k0_off241 k0_t2) a + S1x1x1x16.size a ≤ S2x8x8x768.size a
  k0_off242_inb : ∀ k0_t2 : Fin k0_t2_loop.trips, ∀ a, (k0_off242 k0_t2) a + S1x1x1x16.size a ≤ S2x8x8x768.size a
  k0_off243_inb : ∀ k0_t2 : Fin k0_t2_loop.trips, ∀ a, (k0_off243 k0_t2) a + S1x1x1x16.size a ≤ S2x8x8x768.size a
  k0_off244_inb : ∀ k0_t2 : Fin k0_t2_loop.trips, ∀ a, (k0_off244 k0_t2) a + S1x1x1x16.size a ≤ S2x8x8x768.size a
  k0_off245_inb : ∀ k0_t2 : Fin k0_t2_loop.trips, ∀ a, (k0_off245 k0_t2) a + S1x1x1x16.size a ≤ S2x8x8x768.size a
  k0_off246_inb : ∀ k0_t2 : Fin k0_t2_loop.trips, ∀ a, (k0_off246 k0_t2) a + S1x16.size a ≤ S8x768.size a
  k0_off247_inb : ∀ k0_t2 : Fin k0_t2_loop.trips, ∀ a, (k0_off247 k0_t2) a + S1x1x1x16.size a ≤ S2x8x8x768.size a
  k0_off248_inb : ∀ k0_t2 : Fin k0_t2_loop.trips, ∀ a, (k0_off248 k0_t2) a + S1x1x1x16.size a ≤ S2x8x8x768.size a
  k0_off249_inb : ∀ k0_t2 : Fin k0_t2_loop.trips, ∀ a, (k0_off249 k0_t2) a + S1x1x1x16.size a ≤ S2x8x8x768.size a
  k0_off250_inb : ∀ k0_t2 : Fin k0_t2_loop.trips, ∀ a, (k0_off250 k0_t2) a + S1x1x1x16.size a ≤ S2x8x8x768.size a
  k0_off251_inb : ∀ k0_t2 : Fin k0_t2_loop.trips, ∀ a, (k0_off251 k0_t2) a + S1x1x1x16.size a ≤ S2x8x8x768.size a
  k0_off252_inb : ∀ k0_t2 : Fin k0_t2_loop.trips, ∀ a, (k0_off252 k0_t2) a + S1x1x1x16.size a ≤ S2x8x8x768.size a
  k0_off253_inb : ∀ k0_t2 : Fin k0_t2_loop.trips, ∀ a, (k0_off253 k0_t2) a + S1x1x1x16.size a ≤ S2x8x8x768.size a
  k0_off254_inb : ∀ k0_t2 : Fin k0_t2_loop.trips, ∀ a, (k0_off254 k0_t2) a + S1x1x1x16.size a ≤ S2x8x8x768.size a
  k0_off255_inb : ∀ k0_t2 : Fin k0_t2_loop.trips, ∀ a, (k0_off255 k0_t2) a + S1x16.size a ≤ S8x768.size a
  k0_off256_inb : ∀ k0_t2 : Fin k0_t2_loop.trips, ∀ a, (k0_off256 k0_t2) a + S1x1x1x16.size a ≤ S2x8x8x768.size a
  k0_off257_inb : ∀ k0_t2 : Fin k0_t2_loop.trips, ∀ a, (k0_off257 k0_t2) a + S1x1x1x16.size a ≤ S2x8x8x768.size a
  k0_off258_inb : ∀ k0_t2 : Fin k0_t2_loop.trips, ∀ a, (k0_off258 k0_t2) a + S1x1x1x16.size a ≤ S2x8x8x768.size a
  k0_off259_inb : ∀ k0_t2 : Fin k0_t2_loop.trips, ∀ a, (k0_off259 k0_t2) a + S1x1x1x16.size a ≤ S2x8x8x768.size a
  k0_off260_inb : ∀ k0_t2 : Fin k0_t2_loop.trips, ∀ a, (k0_off260 k0_t2) a + S1x1x1x16.size a ≤ S2x8x8x768.size a
  k0_off261_inb : ∀ k0_t2 : Fin k0_t2_loop.trips, ∀ a, (k0_off261 k0_t2) a + S1x1x1x16.size a ≤ S2x8x8x768.size a
  k0_off262_inb : ∀ k0_t2 : Fin k0_t2_loop.trips, ∀ a, (k0_off262 k0_t2) a + S1x1x1x16.size a ≤ S2x8x8x768.size a
  k0_off263_inb : ∀ k0_t2 : Fin k0_t2_loop.trips, ∀ a, (k0_off263 k0_t2) a + S1x1x1x16.size a ≤ S2x8x8x768.size a
  k0_off264_inb : ∀ k0_t2 : Fin k0_t2_loop.trips, ∀ a, (k0_off264 k0_t2) a + S1x16.size a ≤ S8x768.size a
  k0_off265_inb : ∀ k0_t2 : Fin k0_t2_loop.trips, ∀ a, (k0_off265 k0_t2) a + S1x1x1x16.size a ≤ S2x8x8x768.size a
  k0_off266_inb : ∀ k0_t2 : Fin k0_t2_loop.trips, ∀ a, (k0_off266 k0_t2) a + S1x1x1x16.size a ≤ S2x8x8x768.size a
  k0_off267_inb : ∀ k0_t2 : Fin k0_t2_loop.trips, ∀ a, (k0_off267 k0_t2) a + S1x1x1x16.size a ≤ S2x8x8x768.size a
  k0_off268_inb : ∀ k0_t2 : Fin k0_t2_loop.trips, ∀ a, (k0_off268 k0_t2) a + S1x1x1x16.size a ≤ S2x8x8x768.size a
  k0_off269_inb : ∀ k0_t2 : Fin k0_t2_loop.trips, ∀ a, (k0_off269 k0_t2) a + S1x1x1x16.size a ≤ S2x8x8x768.size a
  k0_off270_inb : ∀ k0_t2 : Fin k0_t2_loop.trips, ∀ a, (k0_off270 k0_t2) a + S1x1x1x16.size a ≤ S2x8x8x768.size a
  k0_off271_inb : ∀ k0_t2 : Fin k0_t2_loop.trips, ∀ a, (k0_off271 k0_t2) a + S1x1x1x16.size a ≤ S2x8x8x768.size a
  k0_off272_inb : ∀ k0_t2 : Fin k0_t2_loop.trips, ∀ a, (k0_off272 k0_t2) a + S1x1x1x16.size a ≤ S2x8x8x768.size a
  k0_off273_inb : ∀ k0_t2 : Fin k0_t2_loop.trips, ∀ a, (k0_off273 k0_t2) a + S1x16.size a ≤ S8x768.size a
  k0_off274_inb : ∀ k0_t2 : Fin k0_t2_loop.trips, ∀ a, (k0_off274 k0_t2) a + S1x1x1x16.size a ≤ S2x8x8x768.size a
  k0_off275_inb : ∀ k0_t2 : Fin k0_t2_loop.trips, ∀ a, (k0_off275 k0_t2) a + S1x1x1x16.size a ≤ S2x8x8x768.size a
  k0_off276_inb : ∀ k0_t2 : Fin k0_t2_loop.trips, ∀ a, (k0_off276 k0_t2) a + S1x1x1x16.size a ≤ S2x8x8x768.size a
  k0_off277_inb : ∀ k0_t2 : Fin k0_t2_loop.trips, ∀ a, (k0_off277 k0_t2) a + S1x1x1x16.size a ≤ S2x8x8x768.size a
  k0_off278_inb : ∀ k0_t2 : Fin k0_t2_loop.trips, ∀ a, (k0_off278 k0_t2) a + S1x1x1x16.size a ≤ S2x8x8x768.size a
  k0_off279_inb : ∀ k0_t2 : Fin k0_t2_loop.trips, ∀ a, (k0_off279 k0_t2) a + S1x1x1x16.size a ≤ S2x8x8x768.size a
  k0_off280_inb : ∀ k0_t2 : Fin k0_t2_loop.trips, ∀ a, (k0_off280 k0_t2) a + S1x1x1x16.size a ≤ S2x8x8x768.size a
  k0_off281_inb : ∀ k0_t2 : Fin k0_t2_loop.trips, ∀ a, (k0_off281 k0_t2) a + S1x1x1x16.size a ≤ S2x8x8x768.size a
  k0_off282_inb : ∀ k0_t2 : Fin k0_t2_loop.trips, ∀ a, (k0_off282 k0_t2) a + S1x16.size a ≤ S8x768.size a
  k0_off283_inb : ∀ k0_t2 : Fin k0_t2_loop.trips, ∀ a, (k0_off283 k0_t2) a + S1x1x1x16.size a ≤ S2x8x8x768.size a
  k0_off284_inb : ∀ k0_t2 : Fin k0_t2_loop.trips, ∀ a, (k0_off284 k0_t2) a + S1x1x1x16.size a ≤ S2x8x8x768.size a
  k0_off285_inb : ∀ k0_t2 : Fin k0_t2_loop.trips, ∀ a, (k0_off285 k0_t2) a + S1x1x1x16.size a ≤ S2x8x8x768.size a
  k0_off286_inb : ∀ k0_t2 : Fin k0_t2_loop.trips, ∀ a, (k0_off286 k0_t2) a + S1x1x1x16.size a ≤ S2x8x8x768.size a
  k0_off287_inb : ∀ k0_t2 : Fin k0_t2_loop.trips, ∀ a, (k0_off287 k0_t2) a + S1x1x1x16.size a ≤ S2x8x8x768.size a
  k0_off288_inb : ∀ k0_t2 : Fin k0_t2_loop.trips, ∀ a, (k0_off288 k0_t2) a + S1x1x1x16.size a ≤ S2x8x8x768.size a
  k0_off289_inb : ∀ k0_t2 : Fin k0_t2_loop.trips, ∀ a, (k0_off289 k0_t2) a + S1x1x1x16.size a ≤ S2x8x8x768.size a
  k0_off290_inb : ∀ k0_t2 : Fin k0_t2_loop.trips, ∀ a, (k0_off290 k0_t2) a + S1x1x1x16.size a ≤ S2x8x8x768.size a
  k0_off291_inb : ∀ k0_t2 : Fin k0_t2_loop.trips, ∀ a, (k0_off291 k0_t2) a + S1x16.size a ≤ S8x768.size a
  k0_off292_inb : ∀ k0_t2 : Fin k0_t2_loop.trips, ∀ a, (k0_off292 k0_t2) a + S1x1x1x16.size a ≤ S2x8x8x768.size a
  k0_off293_inb : ∀ k0_t2 : Fin k0_t2_loop.trips, ∀ a, (k0_off293 k0_t2) a + S1x1x1x16.size a ≤ S2x8x8x768.size a
  k0_off294_inb : ∀ k0_t2 : Fin k0_t2_loop.trips, ∀ a, (k0_off294 k0_t2) a + S1x1x1x16.size a ≤ S2x8x8x768.size a
  k0_off295_inb : ∀ k0_t2 : Fin k0_t2_loop.trips, ∀ a, (k0_off295 k0_t2) a + S1x1x1x16.size a ≤ S2x8x8x768.size a
  k0_off296_inb : ∀ k0_t2 : Fin k0_t2_loop.trips, ∀ a, (k0_off296 k0_t2) a + S1x1x1x16.size a ≤ S2x8x8x768.size a
  k0_off297_inb : ∀ k0_t2 : Fin k0_t2_loop.trips, ∀ a, (k0_off297 k0_t2) a + S1x1x1x16.size a ≤ S2x8x8x768.size a
  k0_off298_inb : ∀ k0_t2 : Fin k0_t2_loop.trips, ∀ a, (k0_off298 k0_t2) a + S1x1x1x16.size a ≤ S2x8x8x768.size a
  k0_off299_inb : ∀ k0_t2 : Fin k0_t2_loop.trips, ∀ a, (k0_off299 k0_t2) a + S1x1x1x16.size a ≤ S2x8x8x768.size a
  k0_off300_inb : ∀ k0_t2 : Fin k0_t2_loop.trips, ∀ a, (k0_off300 k0_t2) a + S1x16.size a ≤ S8x768.size a
  k0_off301_inb : ∀ k0_t2 : Fin k0_t2_loop.trips, ∀ a, (k0_off301 k0_t2) a + S1x1x1x16.size a ≤ S2x8x8x768.size a
  k0_off302_inb : ∀ k0_t2 : Fin k0_t2_loop.trips, ∀ a, (k0_off302 k0_t2) a + S1x1x1x16.size a ≤ S2x8x8x768.size a
  k0_off303_inb : ∀ k0_t2 : Fin k0_t2_loop.trips, ∀ a, (k0_off303 k0_t2) a + S1x1x1x16.size a ≤ S2x8x8x768.size a
  k0_off304_inb : ∀ k0_t2 : Fin k0_t2_loop.trips, ∀ a, (k0_off304 k0_t2) a + S1x1x1x16.size a ≤ S2x8x8x768.size a
  k0_off305_inb : ∀ k0_t2 : Fin k0_t2_loop.trips, ∀ a, (k0_off305 k0_t2) a + S1x1x1x16.size a ≤ S2x8x8x768.size a
  k0_off306_inb : ∀ k0_t2 : Fin k0_t2_loop.trips, ∀ a, (k0_off306 k0_t2) a + S1x1x1x16.size a ≤ S2x8x8x768.size a
  k0_off307_inb : ∀ k0_t2 : Fin k0_t2_loop.trips, ∀ a, (k0_off307 k0_t2) a + S1x1x1x16.size a ≤ S2x8x8x768.size a
  k0_off308_inb : ∀ k0_t2 : Fin k0_t2_loop.trips, ∀ a, (k0_off308 k0_t2) a + S1x1x1x16.size a ≤ S2x8x8x768.size a
  k0_off309_inb : ∀ k0_t2 : Fin k0_t2_loop.trips, ∀ a, (k0_off309 k0_t2) a + S1x16.size a ≤ S8x768.size a
  k0_off310_inb : ∀ k0_t2 : Fin k0_t2_loop.trips, ∀ a, (k0_off310 k0_t2) a + S1x1x1x16.size a ≤ S2x8x8x768.size a
  k0_off311_inb : ∀ k0_t2 : Fin k0_t2_loop.trips, ∀ a, (k0_off311 k0_t2) a + S1x1x1x16.size a ≤ S2x8x8x768.size a
  k0_off312_inb : ∀ k0_t2 : Fin k0_t2_loop.trips, ∀ a, (k0_off312 k0_t2) a + S1x1x1x16.size a ≤ S2x8x8x768.size a
  k0_off313_inb : ∀ k0_t2 : Fin k0_t2_loop.trips, ∀ a, (k0_off313 k0_t2) a + S1x1x1x16.size a ≤ S2x8x8x768.size a
  k0_off314_inb : ∀ k0_t2 : Fin k0_t2_loop.trips, ∀ a, (k0_off314 k0_t2) a + S1x1x1x16.size a ≤ S2x8x8x768.size a
  k0_off315_inb : ∀ k0_t2 : Fin k0_t2_loop.trips, ∀ a, (k0_off315 k0_t2) a + S1x1x1x16.size a ≤ S2x8x8x768.size a
  k0_off316_inb : ∀ k0_t2 : Fin k0_t2_loop.trips, ∀ a, (k0_off316 k0_t2) a + S1x1x1x16.size a ≤ S2x8x8x768.size a
  k0_off317_inb : ∀ k0_t2 : Fin k0_t2_loop.trips, ∀ a, (k0_off317 k0_t2) a + S1x1x1x16.size a ≤ S2x8x8x768.size a
  k0_off318_inb : ∀ k0_t2 : Fin k0_t2_loop.trips, ∀ a, (k0_off318 k0_t2) a + S1x16.size a ≤ S8x768.size a
  k0_off319_inb : ∀ k0_t2 : Fin k0_t2_loop.trips, ∀ a, (k0_off319 k0_t2) a + S1x1x1x16.size a ≤ S2x8x8x768.size a
  k0_off320_inb : ∀ k0_t2 : Fin k0_t2_loop.trips, ∀ a, (k0_off320 k0_t2) a + S1x1x1x16.size a ≤ S2x8x8x768.size a
  k0_off321_inb : ∀ k0_t2 : Fin k0_t2_loop.trips, ∀ a, (k0_off321 k0_t2) a + S1x1x1x16.size a ≤ S2x8x8x768.size a
  k0_off322_inb : ∀ k0_t2 : Fin k0_t2_loop.trips, ∀ a, (k0_off322 k0_t2) a + S1x1x1x16.size a ≤ S2x8x8x768.size a
  k0_off323_inb : ∀ k0_t2 : Fin k0_t2_loop.trips, ∀ a, (k0_off323 k0_t2) a + S1x1x1x16.size a ≤ S2x8x8x768.size a
  k0_off324_inb : ∀ k0_t2 : Fin k0_t2_loop.trips, ∀ a, (k0_off324 k0_t2) a + S1x1x1x16.size a ≤ S2x8x8x768.size a
  k0_off325_inb : ∀ k0_t2 : Fin k0_t2_loop.trips, ∀ a, (k0_off325 k0_t2) a + S1x1x1x16.size a ≤ S2x8x8x768.size a
  k0_off326_inb : ∀ k0_t2 : Fin k0_t2_loop.trips, ∀ a, (k0_off326 k0_t2) a + S1x1x1x16.size a ≤ S2x8x8x768.size a
  k0_off327_inb : ∀ k0_t2 : Fin k0_t2_loop.trips, ∀ a, (k0_off327 k0_t2) a + S1x16.size a ≤ S8x768.size a
  k0_off328_inb : ∀ k0_t2 : Fin k0_t2_loop.trips, ∀ a, (k0_off328 k0_t2) a + S1x1x1x16.size a ≤ S2x8x8x768.size a
  k0_off329_inb : ∀ k0_t2 : Fin k0_t2_loop.trips, ∀ a, (k0_off329 k0_t2) a + S1x1x1x16.size a ≤ S2x8x8x768.size a
  k0_off330_inb : ∀ k0_t2 : Fin k0_t2_loop.trips, ∀ a, (k0_off330 k0_t2) a + S1x1x1x16.size a ≤ S2x8x8x768.size a
  k0_off331_inb : ∀ k0_t2 : Fin k0_t2_loop.trips, ∀ a, (k0_off331 k0_t2) a + S1x1x1x16.size a ≤ S2x8x8x768.size a
  k0_off332_inb : ∀ k0_t2 : Fin k0_t2_loop.trips, ∀ a, (k0_off332 k0_t2) a + S1x1x1x16.size a ≤ S2x8x8x768.size a
  k0_off333_inb : ∀ k0_t2 : Fin k0_t2_loop.trips, ∀ a, (k0_off333 k0_t2) a + S1x1x1x16.size a ≤ S2x8x8x768.size a
  k0_off334_inb : ∀ k0_t2 : Fin k0_t2_loop.trips, ∀ a, (k0_off334 k0_t2) a + S1x1x1x16.size a ≤ S2x8x8x768.size a
  k0_off335_inb : ∀ k0_t2 : Fin k0_t2_loop.trips, ∀ a, (k0_off335 k0_t2) a + S1x1x1x16.size a ≤ S2x8x8x768.size a
  k0_off336_inb : ∀ k0_t2 : Fin k0_t2_loop.trips, ∀ a, (k0_off336 k0_t2) a + S1x16.size a ≤ S8x768.size a
  k0_off337_inb : ∀ k0_t2 : Fin k0_t2_loop.trips, ∀ a, (k0_off337 k0_t2) a + S1x1x1x16.size a ≤ S2x8x8x768.size a
  k0_off338_inb : ∀ k0_t2 : Fin k0_t2_loop.trips, ∀ a, (k0_off338 k0_t2) a + S1x1x1x16.size a ≤ S2x8x8x768.size a
  k0_off339_inb : ∀ k0_t2 : Fin k0_t2_loop.trips, ∀ a, (k0_off339 k0_t2) a + S1x1x1x16.size a ≤ S2x8x8x768.size a
  k0_off340_inb : ∀ k0_t2 : Fin k0_t2_loop.trips, ∀ a, (k0_off340 k0_t2) a + S1x1x1x16.size a ≤ S2x8x8x768.size a
  k0_off341_inb : ∀ k0_t2 : Fin k0_t2_loop.trips, ∀ a, (k0_off341 k0_t2) a + S1x1x1x16.size a ≤ S2x8x8x768.size a
  k0_off342_inb : ∀ k0_t2 : Fin k0_t2_loop.trips, ∀ a, (k0_off342 k0_t2) a + S1x1x1x16.size a ≤ S2x8x8x768.size a
  k0_off343_inb : ∀ k0_t2 : Fin k0_t2_loop.trips, ∀ a, (k0_off343 k0_t2) a + S1x1x1x16.size a ≤ S2x8x8x768.size a
  k0_off344_inb : ∀ k0_t2 : Fin k0_t2_loop.trips, ∀ a, (k0_off344 k0_t2) a + S1x1x1x16.size a ≤ S2x8x8x768.size a
  k0_off345_inb : ∀ k0_t2 : Fin k0_t2_loop.trips, ∀ a, (k0_off345 k0_t2) a + S1x16.size a ≤ S8x768.size a
  k0_off346_inb : ∀ k0_t2 : Fin k0_t2_loop.trips, ∀ a, (k0_off346 k0_t2) a + S1x1x1x16.size a ≤ S2x8x8x768.size a
  k0_off347_inb : ∀ k0_t2 : Fin k0_t2_loop.trips, ∀ a, (k0_off347 k0_t2) a + S1x1x1x16.size a ≤ S2x8x8x768.size a
  k0_off348_inb : ∀ k0_t2 : Fin k0_t2_loop.trips, ∀ a, (k0_off348 k0_t2) a + S1x1x1x16.size a ≤ S2x8x8x768.size a
  k0_off349_inb : ∀ k0_t2 : Fin k0_t2_loop.trips, ∀ a, (k0_off349 k0_t2) a + S1x1x1x16.size a ≤ S2x8x8x768.size a
  k0_off350_inb : ∀ k0_t2 : Fin k0_t2_loop.trips, ∀ a, (k0_off350 k0_t2) a + S1x1x1x16.size a ≤ S2x8x8x768.size a
  k0_off351_inb : ∀ k0_t2 : Fin k0_t2_loop.trips, ∀ a, (k0_off351 k0_t2) a + S1x1x1x16.size a ≤ S2x8x8x768.size a
  k0_off352_inb : ∀ k0_t2 : Fin k0_t2_loop.trips, ∀ a, (k0_off352 k0_t2) a + S1x1x1x16.size a ≤ S2x8x8x768.size a
  k0_off353_inb : ∀ k0_t2 : Fin k0_t2_loop.trips, ∀ a, (k0_off353 k0_t2) a + S1x1x1x16.size a ≤ S2x8x8x768.size a
  k0_off354_inb : ∀ k0_t2 : Fin k0_t2_loop.trips, ∀ a, (k0_off354 k0_t2) a + S1x16.size a ≤ S8x768.size a
  k0_off355_inb : ∀ k0_t2 : Fin k0_t2_loop.trips, ∀ a, (k0_off355 k0_t2) a + S1x1x1x16.size a ≤ S2x8x8x768.size a
  k0_off356_inb : ∀ k0_t2 : Fin k0_t2_loop.trips, ∀ a, (k0_off356 k0_t2) a + S1x1x1x16.size a ≤ S2x8x8x768.size a
  k0_off357_inb : ∀ k0_t2 : Fin k0_t2_loop.trips, ∀ a, (k0_off357 k0_t2) a + S1x1x1x16.size a ≤ S2x8x8x768.size a
  k0_off358_inb : ∀ k0_t2 : Fin k0_t2_loop.trips, ∀ a, (k0_off358 k0_t2) a + S1x1x1x16.size a ≤ S2x8x8x768.size a
  k0_off359_inb : ∀ k0_t2 : Fin k0_t2_loop.trips, ∀ a, (k0_off359 k0_t2) a + S1x1x1x16.size a ≤ S2x8x8x768.size a
  k0_off360_inb : ∀ k0_t2 : Fin k0_t2_loop.trips, ∀ a, (k0_off360 k0_t2) a + S1x1x1x16.size a ≤ S2x8x8x768.size a
  k0_off361_inb : ∀ k0_t2 : Fin k0_t2_loop.trips, ∀ a, (k0_off361 k0_t2) a + S1x1x1x16.size a ≤ S2x8x8x768.size a
  k0_off362_inb : ∀ k0_t2 : Fin k0_t2_loop.trips, ∀ a, (k0_off362 k0_t2) a + S1x1x1x16.size a ≤ S2x8x8x768.size a
  k0_off363_inb : ∀ k0_t2 : Fin k0_t2_loop.trips, ∀ a, (k0_off363 k0_t2) a + S1x16.size a ≤ S8x768.size a
  k0_off364_inb : ∀ k0_t2 : Fin k0_t2_loop.trips, ∀ a, (k0_off364 k0_t2) a + S1x1x1x16.size a ≤ S2x8x8x768.size a
  k0_off365_inb : ∀ k0_t2 : Fin k0_t2_loop.trips, ∀ a, (k0_off365 k0_t2) a + S1x1x1x16.size a ≤ S2x8x8x768.size a
  k0_off366_inb : ∀ k0_t2 : Fin k0_t2_loop.trips, ∀ a, (k0_off366 k0_t2) a + S1x1x1x16.size a ≤ S2x8x8x768.size a
  k0_off367_inb : ∀ k0_t2 : Fin k0_t2_loop.trips, ∀ a, (k0_off367 k0_t2) a + S1x1x1x16.size a ≤ S2x8x8x768.size a
  k0_off368_inb : ∀ k0_t2 : Fin k0_t2_loop.trips, ∀ a, (k0_off368 k0_t2) a + S1x1x1x16.size a ≤ S2x8x8x768.size a
  k0_off369_inb : ∀ k0_t2 : Fin k0_t2_loop.trips, ∀ a, (k0_off369 k0_t2) a + S1x1x1x16.size a ≤ S2x8x8x768.size a
  k0_off370_inb : ∀ k0_t2 : Fin k0_t2_loop.trips, ∀ a, (k0_off370 k0_t2) a + S1x1x1x16.size a ≤ S2x8x8x768.size a
  k0_off371_inb : ∀ k0_t2 : Fin k0_t2_loop.trips, ∀ a, (k0_off371 k0_t2) a + S1x1x1x16.size a ≤ S2x8x8x768.size a
  k0_off372_inb : ∀ k0_t2 : Fin k0_t2_loop.trips, ∀ a, (k0_off372 k0_t2) a + S1x16.size a ≤ S8x768.size a
  k0_off373_inb : ∀ k0_t2 : Fin k0_t2_loop.trips, ∀ a, (k0_off373 k0_t2) a + S1x1x1x16.size a ≤ S2x8x8x768.size a
  k0_off374_inb : ∀ k0_t2 : Fin k0_t2_loop.trips, ∀ a, (k0_off374 k0_t2) a + S1x1x1x16.size a ≤ S2x8x8x768.size a
  k0_off375_inb : ∀ k0_t2 : Fin k0_t2_loop.trips, ∀ a, (k0_off375 k0_t2) a + S1x1x1x16.size a ≤ S2x8x8x768.size a
  k0_off376_inb : ∀ k0_t2 : Fin k0_t2_loop.trips, ∀ a, (k0_off376 k0_t2) a + S1x1x1x16.size a ≤ S2x8x8x768.size a
  k0_off377_inb : ∀ k0_t2 : Fin k0_t2_loop.trips, ∀ a, (k0_off377 k0_t2) a + S1x1x1x16.size a ≤ S2x8x8x768.size a
  k0_off378_inb : ∀ k0_t2 : Fin k0_t2_loop.trips, ∀ a, (k0_off378 k0_t2) a + S1x1x1x16.size a ≤ S2x8x8x768.size a
  k0_off379_inb : ∀ k0_t2 : Fin k0_t2_loop.trips, ∀ a, (k0_off379 k0_t2) a + S1x1x1x16.size a ≤ S2x8x8x768.size a
  k0_off380_inb : ∀ k0_t2 : Fin k0_t2_loop.trips, ∀ a, (k0_off380 k0_t2) a + S1x1x1x16.size a ≤ S2x8x8x768.size a
  k0_off381_inb : ∀ k0_t2 : Fin k0_t2_loop.trips, ∀ a, (k0_off381 k0_t2) a + S1x16.size a ≤ S8x768.size a
  k0_off382_inb : ∀ k0_t2 : Fin k0_t2_loop.trips, ∀ a, (k0_off382 k0_t2) a + S1x1x1x16.size a ≤ S2x8x8x768.size a
  k0_off383_inb : ∀ k0_t2 : Fin k0_t2_loop.trips, ∀ a, (k0_off383 k0_t2) a + S1x1x1x16.size a ≤ S2x8x8x768.size a
  k0_off384_inb : ∀ k0_t2 : Fin k0_t2_loop.trips, ∀ a, (k0_off384 k0_t2) a + S1x1x1x16.size a ≤ S2x8x8x768.size a
  k0_off385_inb : ∀ k0_t2 : Fin k0_t2_loop.trips, ∀ a, (k0_off385 k0_t2) a + S1x1x1x16.size a ≤ S2x8x8x768.size a
  k0_off386_inb : ∀ k0_t2 : Fin k0_t2_loop.trips, ∀ a, (k0_off386 k0_t2) a + S1x1x1x16.size a ≤ S2x8x8x768.size a
  k0_off387_inb : ∀ k0_t2 : Fin k0_t2_loop.trips, ∀ a, (k0_off387 k0_t2) a + S1x1x1x16.size a ≤ S2x8x8x768.size a
  k0_off388_inb : ∀ k0_t2 : Fin k0_t2_loop.trips, ∀ a, (k0_off388 k0_t2) a + S1x1x1x16.size a ≤ S2x8x8x768.size a
  k0_off389_inb : ∀ k0_t2 : Fin k0_t2_loop.trips, ∀ a, (k0_off389 k0_t2) a + S1x1x1x16.size a ≤ S2x8x8x768.size a
  k0_off390_inb : ∀ k0_t2 : Fin k0_t2_loop.trips, ∀ a, (k0_off390 k0_t2) a + S1x16.size a ≤ S8x768.size a
  k0_off391_inb : ∀ k0_t2 : Fin k0_t2_loop.trips, ∀ a, (k0_off391 k0_t2) a + S1x1x1x16.size a ≤ S2x8x8x768.size a
  k0_off392_inb : ∀ k0_t2 : Fin k0_t2_loop.trips, ∀ a, (k0_off392 k0_t2) a + S1x1x1x16.size a ≤ S2x8x8x768.size a
  k0_off393_inb : ∀ k0_t2 : Fin k0_t2_loop.trips, ∀ a, (k0_off393 k0_t2) a + S1x1x1x16.size a ≤ S2x8x8x768.size a
  k0_off394_inb : ∀ k0_t2 : Fin k0_t2_loop.trips, ∀ a, (k0_off394 k0_t2) a + S1x1x1x16.size a ≤ S2x8x8x768.size a
  k0_off395_inb : ∀ k0_t2 : Fin k0_t2_loop.trips, ∀ a, (k0_off395 k0_t2) a + S1x1x1x16.size a ≤ S2x8x8x768.size a
  k0_off396_inb : ∀ k0_t2 : Fin k0_t2_loop.trips, ∀ a, (k0_off396 k0_t2) a + S1x1x1x16.size a ≤ S2x8x8x768.size a
  k0_off397_inb : ∀ k0_t2 : Fin k0_t2_loop.trips, ∀ a, (k0_off397 k0_t2) a + S1x1x1x16.size a ≤ S2x8x8x768.size a
  k0_off398_inb : ∀ k0_t2 : Fin k0_t2_loop.trips, ∀ a, (k0_off398 k0_t2) a + S1x1x1x16.size a ≤ S2x8x8x768.size a
  k0_off399_inb : ∀ k0_t2 : Fin k0_t2_loop.trips, ∀ a, (k0_off399 k0_t2) a + S1x16.size a ≤ S8x768.size a
  k0_off400_inb : ∀ k0_t2 : Fin k0_t2_loop.trips, ∀ a, (k0_off400 k0_t2) a + S1x1x1x16.size a ≤ S2x8x8x768.size a
  k0_off401_inb : ∀ k0_t2 : Fin k0_t2_loop.trips, ∀ a, (k0_off401 k0_t2) a + S1x1x1x16.size a ≤ S2x8x8x768.size a
  k0_off402_inb : ∀ k0_t2 : Fin k0_t2_loop.trips, ∀ a, (k0_off402 k0_t2) a + S1x1x1x16.size a ≤ S2x8x8x768.size a
  k0_off403_inb : ∀ k0_t2 : Fin k0_t2_loop.trips, ∀ a, (k0_off403 k0_t2) a + S1x1x1x16.size a ≤ S2x8x8x768.size a
  k0_off404_inb : ∀ k0_t2 : Fin k0_t2_loop.trips, ∀ a, (k0_off404 k0_t2) a + S1x1x1x16.size a ≤ S2x8x8x768.size a
  k0_off405_inb : ∀ k0_t2 : Fin k0_t2_loop.trips, ∀ a, (k0_off405 k0_t2) a + S1x1x1x16.size a ≤ S2x8x8x768.size a
  k0_off406_inb : ∀ k0_t2 : Fin k0_t2_loop.trips, ∀ a, (k0_off406 k0_t2) a + S1x1x1x16.size a ≤ S2x8x8x768.size a
  k0_off407_inb : ∀ k0_t2 : Fin k0_t2_loop.trips, ∀ a, (k0_off407 k0_t2) a + S1x1x1x16.size a ≤ S2x8x8x768.size a
  k0_off408_inb : ∀ k0_t2 : Fin k0_t2_loop.trips, ∀ a, (k0_off408 k0_t2) a + S1x16.size a ≤ S8x768.size a
  k0_off409_inb : ∀ k0_t2 : Fin k0_t2_loop.trips, ∀ a, (k0_off409 k0_t2) a + S1x1x1x16.size a ≤ S2x8x8x768.size a
  k0_off410_inb : ∀ k0_t2 : Fin k0_t2_loop.trips, ∀ a, (k0_off410 k0_t2) a + S1x1x1x16.size a ≤ S2x8x8x768.size a
  k0_off411_inb : ∀ k0_t2 : Fin k0_t2_loop.trips, ∀ a, (k0_off411 k0_t2) a + S1x1x1x16.size a ≤ S2x8x8x768.size a
  k0_off412_inb : ∀ k0_t2 : Fin k0_t2_loop.trips, ∀ a, (k0_off412 k0_t2) a + S1x1x1x16.size a ≤ S2x8x8x768.size a
  k0_off413_inb : ∀ k0_t2 : Fin k0_t2_loop.trips, ∀ a, (k0_off413 k0_t2) a + S1x1x1x16.size a ≤ S2x8x8x768.size a
  k0_off414_inb : ∀ k0_t2 : Fin k0_t2_loop.trips, ∀ a, (k0_off414 k0_t2) a + S1x1x1x16.size a ≤ S2x8x8x768.size a
  k0_off415_inb : ∀ k0_t2 : Fin k0_t2_loop.trips, ∀ a, (k0_off415 k0_t2) a + S1x1x1x16.size a ≤ S2x8x8x768.size a
  k0_off416_inb : ∀ k0_t2 : Fin k0_t2_loop.trips, ∀ a, (k0_off416 k0_t2) a + S1x1x1x16.size a ≤ S2x8x8x768.size a
  k0_off417_inb : ∀ k0_t2 : Fin k0_t2_loop.trips, ∀ a, (k0_off417 k0_t2) a + S1x16.size a ≤ S8x768.size a
  k0_off418_inb : ∀ k0_t2 : Fin k0_t2_loop.trips, ∀ a, (k0_off418 k0_t2) a + S1x1x1x16.size a ≤ S2x8x8x768.size a
  k0_off419_inb : ∀ k0_t2 : Fin k0_t2_loop.trips, ∀ a, (k0_off419 k0_t2) a + S1x1x1x16.size a ≤ S2x8x8x768.size a
  k0_off420_inb : ∀ k0_t2 : Fin k0_t2_loop.trips, ∀ a, (k0_off420 k0_t2) a + S1x1x1x16.size a ≤ S2x8x8x768.size a
  k0_off421_inb : ∀ k0_t2 : Fin k0_t2_loop.trips, ∀ a, (k0_off421 k0_t2) a + S1x1x1x16.size a ≤ S2x8x8x768.size a
  k0_off422_inb : ∀ k0_t2 : Fin k0_t2_loop.trips, ∀ a, (k0_off422 k0_t2) a + S1x1x1x16.size a ≤ S2x8x8x768.size a
  k0_off423_inb : ∀ k0_t2 : Fin k0_t2_loop.trips, ∀ a, (k0_off423 k0_t2) a + S1x1x1x16.size a ≤ S2x8x8x768.size a
  k0_off424_inb : ∀ k0_t2 : Fin k0_t2_loop.trips, ∀ a, (k0_off424 k0_t2) a + S1x1x1x16.size a ≤ S2x8x8x768.size a
  k0_off425_inb : ∀ k0_t2 : Fin k0_t2_loop.trips, ∀ a, (k0_off425 k0_t2) a + S1x1x1x16.size a ≤ S2x8x8x768.size a
  k0_off426_inb : ∀ k0_t2 : Fin k0_t2_loop.trips, ∀ a, (k0_off426 k0_t2) a + S1x16.size a ≤ S8x768.size a
  k0_off427_inb : ∀ k0_t2 : Fin k0_t2_loop.trips, ∀ a, (k0_off427 k0_t2) a + S1x1x1x16.size a ≤ S2x8x8x768.size a
  k0_off428_inb : ∀ k0_t2 : Fin k0_t2_loop.trips, ∀ a, (k0_off428 k0_t2) a + S1x1x1x16.size a ≤ S2x8x8x768.size a
  k0_off429_inb : ∀ k0_t2 : Fin k0_t2_loop.trips, ∀ a, (k0_off429 k0_t2) a + S1x1x1x16.size a ≤ S2x8x8x768.size a
  k0_off430_inb : ∀ k0_t2 : Fin k0_t2_loop.trips, ∀ a, (k0_off430 k0_t2) a + S1x1x1x16.size a ≤ S2x8x8x768.size a
  k0_off431_inb : ∀ k0_t2 : Fin k0_t2_loop.trips, ∀ a, (k0_off431 k0_t2) a + S1x1x1x16.size a ≤ S2x8x8x768.size a
  k0_off432_inb : ∀ k0_t2 : Fin k0_t2_loop.trips, ∀ a, (k0_off432 k0_t2) a + S1x1x1x16.size a ≤ S2x8x8x768.size a
  k0_off433_inb : ∀ k0_t2 : Fin k0_t2_loop.trips, ∀ a, (k0_off433 k0_t2) a + S1x1x1x16.size a ≤ S2x8x8x768.size a
  k0_off434_inb : ∀ k0_t2 : Fin k0_t2_loop.trips, ∀ a, (k0_off434 k0_t2) a + S1x1x1x16.size a ≤ S2x8x8x768.size a
  k0_off435_inb : ∀ k0_t2 : Fin k0_t2_loop.trips, ∀ a, (k0_off435 k0_t2) a + S1x16.size a ≤ S8x768.size a
  k0_off436_inb : ∀ k0_t2 : Fin k0_t2_loop.trips, ∀ a, (k0_off436 k0_t2) a + S1x1x1x16.size a ≤ S2x8x8x768.size a
  k0_off437_inb : ∀ k0_t2 : Fin k0_t2_loop.trips, ∀ a, (k0_off437 k0_t2) a + S1x1x1x16.size a ≤ S2x8x8x768.size a
  k0_off438_inb : ∀ k0_t2 : Fin k0_t2_loop.trips, ∀ a, (k0_off438 k0_t2) a + S1x1x1x16.size a ≤ S2x8x8x768.size a
  k0_off439_inb : ∀ k0_t2 : Fin k0_t2_loop.trips, ∀ a, (k0_off439 k0_t2) a + S1x1x1x16.size a ≤ S2x8x8x768.size a
  k0_off440_inb : ∀ k0_t2 : Fin k0_t2_loop.trips, ∀ a, (k0_off440 k0_t2) a + S1x1x1x16.size a ≤ S2x8x8x768.size a
  k0_off441_inb : ∀ k0_t2 : Fin k0_t2_loop.trips, ∀ a, (k0_off441 k0_t2) a + S1x1x1x16.size a ≤ S2x8x8x768.size a
  k0_off442_inb : ∀ k0_t2 : Fin k0_t2_loop.trips, ∀ a, (k0_off442 k0_t2) a + S1x1x1x16.size a ≤ S2x8x8x768.size a
  k0_off443_inb : ∀ k0_t2 : Fin k0_t2_loop.trips, ∀ a, (k0_off443 k0_t2) a + S1x1x1x16.size a ≤ S2x8x8x768.size a
  k0_off444_inb : ∀ k0_t2 : Fin k0_t2_loop.trips, ∀ a, (k0_off444 k0_t2) a + S1x8x1x768.size a ≤ S2x8x8x768.size a
  k0_off445_inb : ∀ (i : grid0.Coords) (k0_t1 : Fin k0_t1_loop.trips) (k0_t2 : Fin k0_t2_loop.trips), ∀ a, (k0_off445 i k0_t1 k0_t2) a + S1x8x768.size a ≤ S577x64x768.size a
  k0_off446_inb : ∀ (i : grid0.Coords) (k0_t1 : Fin k0_t1_loop.trips), ∀ (k0_h9 : k0_cond9 k0_t1 = 1#1), ∀ (r : Fin 8), ∀ a, (k0_off446 i k0_t1 (BitVec.ofNat 32 r.val)) a + S1x8x768.size a ≤ S577x64x768.size a
  k0_off447_inb : ∀ (i : grid0.Coords) (k0_t1 : Fin k0_t1_loop.trips), ∀ (k0_h9 : k0_cond9 k0_t1 = 1#1), ∀ a, (k0_off447 i k0_t1) a + S8x8x768.size a ≤ S64x576x768.size a
  k0_t3_ok : k0_t3_loop.OK
  k0_off448_inb : ∀ k0_t3 : Fin k0_t3_loop.trips, ∀ a, (k0_off448 k0_t3) a + S1x16.size a ≤ S8x768.size a
  k0_off449_inb : ∀ k0_t3 : Fin k0_t3_loop.trips, ∀ a, (k0_off449 k0_t3) a + S1x1x1x16.size a ≤ S2x8x8x768.size a
  k0_off450_inb : ∀ k0_t3 : Fin k0_t3_loop.trips, ∀ a, (k0_off450 k0_t3) a + S1x1x1x16.size a ≤ S2x8x8x768.size a
  k0_off451_inb : ∀ k0_t3 : Fin k0_t3_loop.trips, ∀ a, (k0_off451 k0_t3) a + S1x1x1x16.size a ≤ S2x8x8x768.size a
  k0_off452_inb : ∀ k0_t3 : Fin k0_t3_loop.trips, ∀ a, (k0_off452 k0_t3) a + S1x1x1x16.size a ≤ S2x8x8x768.size a
  k0_off453_inb : ∀ k0_t3 : Fin k0_t3_loop.trips, ∀ a, (k0_off453 k0_t3) a + S1x1x1x16.size a ≤ S2x8x8x768.size a
  k0_off454_inb : ∀ k0_t3 : Fin k0_t3_loop.trips, ∀ a, (k0_off454 k0_t3) a + S1x1x1x16.size a ≤ S2x8x8x768.size a
  k0_off455_inb : ∀ k0_t3 : Fin k0_t3_loop.trips, ∀ a, (k0_off455 k0_t3) a + S1x1x1x16.size a ≤ S2x8x8x768.size a
  k0_off456_inb : ∀ k0_t3 : Fin k0_t3_loop.trips, ∀ a, (k0_off456 k0_t3) a + S1x1x1x16.size a ≤ S2x8x8x768.size a
  k0_off457_inb : ∀ k0_t3 : Fin k0_t3_loop.trips, ∀ a, (k0_off457 k0_t3) a + S1x16.size a ≤ S8x768.size a
  k0_off458_inb : ∀ k0_t3 : Fin k0_t3_loop.trips, ∀ a, (k0_off458 k0_t3) a + S1x1x1x16.size a ≤ S2x8x8x768.size a
  k0_off459_inb : ∀ k0_t3 : Fin k0_t3_loop.trips, ∀ a, (k0_off459 k0_t3) a + S1x1x1x16.size a ≤ S2x8x8x768.size a
  k0_off460_inb : ∀ k0_t3 : Fin k0_t3_loop.trips, ∀ a, (k0_off460 k0_t3) a + S1x1x1x16.size a ≤ S2x8x8x768.size a
  k0_off461_inb : ∀ k0_t3 : Fin k0_t3_loop.trips, ∀ a, (k0_off461 k0_t3) a + S1x1x1x16.size a ≤ S2x8x8x768.size a
  k0_off462_inb : ∀ k0_t3 : Fin k0_t3_loop.trips, ∀ a, (k0_off462 k0_t3) a + S1x1x1x16.size a ≤ S2x8x8x768.size a
  k0_off463_inb : ∀ k0_t3 : Fin k0_t3_loop.trips, ∀ a, (k0_off463 k0_t3) a + S1x1x1x16.size a ≤ S2x8x8x768.size a
  k0_off464_inb : ∀ k0_t3 : Fin k0_t3_loop.trips, ∀ a, (k0_off464 k0_t3) a + S1x1x1x16.size a ≤ S2x8x8x768.size a
  k0_off465_inb : ∀ k0_t3 : Fin k0_t3_loop.trips, ∀ a, (k0_off465 k0_t3) a + S1x1x1x16.size a ≤ S2x8x8x768.size a
  k0_off466_inb : ∀ k0_t3 : Fin k0_t3_loop.trips, ∀ a, (k0_off466 k0_t3) a + S1x16.size a ≤ S8x768.size a
  k0_off467_inb : ∀ k0_t3 : Fin k0_t3_loop.trips, ∀ a, (k0_off467 k0_t3) a + S1x1x1x16.size a ≤ S2x8x8x768.size a
  k0_off468_inb : ∀ k0_t3 : Fin k0_t3_loop.trips, ∀ a, (k0_off468 k0_t3) a + S1x1x1x16.size a ≤ S2x8x8x768.size a
  k0_off469_inb : ∀ k0_t3 : Fin k0_t3_loop.trips, ∀ a, (k0_off469 k0_t3) a + S1x1x1x16.size a ≤ S2x8x8x768.size a
  k0_off470_inb : ∀ k0_t3 : Fin k0_t3_loop.trips, ∀ a, (k0_off470 k0_t3) a + S1x1x1x16.size a ≤ S2x8x8x768.size a
  k0_off471_inb : ∀ k0_t3 : Fin k0_t3_loop.trips, ∀ a, (k0_off471 k0_t3) a + S1x1x1x16.size a ≤ S2x8x8x768.size a
  k0_off472_inb : ∀ k0_t3 : Fin k0_t3_loop.trips, ∀ a, (k0_off472 k0_t3) a + S1x1x1x16.size a ≤ S2x8x8x768.size a
  k0_off473_inb : ∀ k0_t3 : Fin k0_t3_loop.trips, ∀ a, (k0_off473 k0_t3) a + S1x1x1x16.size a ≤ S2x8x8x768.size a
  k0_off474_inb : ∀ k0_t3 : Fin k0_t3_loop.trips, ∀ a, (k0_off474 k0_t3) a + S1x1x1x16.size a ≤ S2x8x8x768.size a
  k0_off475_inb : ∀ k0_t3 : Fin k0_t3_loop.trips, ∀ a, (k0_off475 k0_t3) a + S1x16.size a ≤ S8x768.size a
  k0_off476_inb : ∀ k0_t3 : Fin k0_t3_loop.trips, ∀ a, (k0_off476 k0_t3) a + S1x1x1x16.size a ≤ S2x8x8x768.size a
  k0_off477_inb : ∀ k0_t3 : Fin k0_t3_loop.trips, ∀ a, (k0_off477 k0_t3) a + S1x1x1x16.size a ≤ S2x8x8x768.size a
  k0_off478_inb : ∀ k0_t3 : Fin k0_t3_loop.trips, ∀ a, (k0_off478 k0_t3) a + S1x1x1x16.size a ≤ S2x8x8x768.size a
  k0_off479_inb : ∀ k0_t3 : Fin k0_t3_loop.trips, ∀ a, (k0_off479 k0_t3) a + S1x1x1x16.size a ≤ S2x8x8x768.size a
  k0_off480_inb : ∀ k0_t3 : Fin k0_t3_loop.trips, ∀ a, (k0_off480 k0_t3) a + S1x1x1x16.size a ≤ S2x8x8x768.size a
  k0_off481_inb : ∀ k0_t3 : Fin k0_t3_loop.trips, ∀ a, (k0_off481 k0_t3) a + S1x1x1x16.size a ≤ S2x8x8x768.size a
  k0_off482_inb : ∀ k0_t3 : Fin k0_t3_loop.trips, ∀ a, (k0_off482 k0_t3) a + S1x1x1x16.size a ≤ S2x8x8x768.size a
  k0_off483_inb : ∀ k0_t3 : Fin k0_t3_loop.trips, ∀ a, (k0_off483 k0_t3) a + S1x1x1x16.size a ≤ S2x8x8x768.size a
  k0_off484_inb : ∀ k0_t3 : Fin k0_t3_loop.trips, ∀ a, (k0_off484 k0_t3) a + S1x16.size a ≤ S8x768.size a
  k0_off485_inb : ∀ k0_t3 : Fin k0_t3_loop.trips, ∀ a, (k0_off485 k0_t3) a + S1x1x1x16.size a ≤ S2x8x8x768.size a
  k0_off486_inb : ∀ k0_t3 : Fin k0_t3_loop.trips, ∀ a, (k0_off486 k0_t3) a + S1x1x1x16.size a ≤ S2x8x8x768.size a
  k0_off487_inb : ∀ k0_t3 : Fin k0_t3_loop.trips, ∀ a, (k0_off487 k0_t3) a + S1x1x1x16.size a ≤ S2x8x8x768.size a
  k0_off488_inb : ∀ k0_t3 : Fin k0_t3_loop.trips, ∀ a, (k0_off488 k0_t3) a + S1x1x1x16.size a ≤ S2x8x8x768.size a
  k0_off489_inb : ∀ k0_t3 : Fin k0_t3_loop.trips, ∀ a, (k0_off489 k0_t3) a + S1x1x1x16.size a ≤ S2x8x8x768.size a
  k0_off490_inb : ∀ k0_t3 : Fin k0_t3_loop.trips, ∀ a, (k0_off490 k0_t3) a + S1x1x1x16.size a ≤ S2x8x8x768.size a
  k0_off491_inb : ∀ k0_t3 : Fin k0_t3_loop.trips, ∀ a, (k0_off491 k0_t3) a + S1x1x1x16.size a ≤ S2x8x8x768.size a
  k0_off492_inb : ∀ k0_t3 : Fin k0_t3_loop.trips, ∀ a, (k0_off492 k0_t3) a + S1x1x1x16.size a ≤ S2x8x8x768.size a
  k0_off493_inb : ∀ k0_t3 : Fin k0_t3_loop.trips, ∀ a, (k0_off493 k0_t3) a + S1x16.size a ≤ S8x768.size a
  k0_off494_inb : ∀ k0_t3 : Fin k0_t3_loop.trips, ∀ a, (k0_off494 k0_t3) a + S1x1x1x16.size a ≤ S2x8x8x768.size a
  k0_off495_inb : ∀ k0_t3 : Fin k0_t3_loop.trips, ∀ a, (k0_off495 k0_t3) a + S1x1x1x16.size a ≤ S2x8x8x768.size a
  k0_off496_inb : ∀ k0_t3 : Fin k0_t3_loop.trips, ∀ a, (k0_off496 k0_t3) a + S1x1x1x16.size a ≤ S2x8x8x768.size a
  k0_off497_inb : ∀ k0_t3 : Fin k0_t3_loop.trips, ∀ a, (k0_off497 k0_t3) a + S1x1x1x16.size a ≤ S2x8x8x768.size a
  k0_off498_inb : ∀ k0_t3 : Fin k0_t3_loop.trips, ∀ a, (k0_off498 k0_t3) a + S1x1x1x16.size a ≤ S2x8x8x768.size a
  k0_off499_inb : ∀ k0_t3 : Fin k0_t3_loop.trips, ∀ a, (k0_off499 k0_t3) a + S1x1x1x16.size a ≤ S2x8x8x768.size a
  k0_off500_inb : ∀ k0_t3 : Fin k0_t3_loop.trips, ∀ a, (k0_off500 k0_t3) a + S1x1x1x16.size a ≤ S2x8x8x768.size a
  k0_off501_inb : ∀ k0_t3 : Fin k0_t3_loop.trips, ∀ a, (k0_off501 k0_t3) a + S1x1x1x16.size a ≤ S2x8x8x768.size a
  k0_off502_inb : ∀ k0_t3 : Fin k0_t3_loop.trips, ∀ a, (k0_off502 k0_t3) a + S1x16.size a ≤ S8x768.size a
  k0_off503_inb : ∀ k0_t3 : Fin k0_t3_loop.trips, ∀ a, (k0_off503 k0_t3) a + S1x1x1x16.size a ≤ S2x8x8x768.size a
  k0_off504_inb : ∀ k0_t3 : Fin k0_t3_loop.trips, ∀ a, (k0_off504 k0_t3) a + S1x1x1x16.size a ≤ S2x8x8x768.size a
  k0_off505_inb : ∀ k0_t3 : Fin k0_t3_loop.trips, ∀ a, (k0_off505 k0_t3) a + S1x1x1x16.size a ≤ S2x8x8x768.size a
  k0_off506_inb : ∀ k0_t3 : Fin k0_t3_loop.trips, ∀ a, (k0_off506 k0_t3) a + S1x1x1x16.size a ≤ S2x8x8x768.size a
  k0_off507_inb : ∀ k0_t3 : Fin k0_t3_loop.trips, ∀ a, (k0_off507 k0_t3) a + S1x1x1x16.size a ≤ S2x8x8x768.size a
  k0_off508_inb : ∀ k0_t3 : Fin k0_t3_loop.trips, ∀ a, (k0_off508 k0_t3) a + S1x1x1x16.size a ≤ S2x8x8x768.size a
  k0_off509_inb : ∀ k0_t3 : Fin k0_t3_loop.trips, ∀ a, (k0_off509 k0_t3) a + S1x1x1x16.size a ≤ S2x8x8x768.size a
  k0_off510_inb : ∀ k0_t3 : Fin k0_t3_loop.trips, ∀ a, (k0_off510 k0_t3) a + S1x1x1x16.size a ≤ S2x8x8x768.size a
  k0_off511_inb : ∀ k0_t3 : Fin k0_t3_loop.trips, ∀ a, (k0_off511 k0_t3) a + S1x16.size a ≤ S8x768.size a
  k0_off512_inb : ∀ k0_t3 : Fin k0_t3_loop.trips, ∀ a, (k0_off512 k0_t3) a + S1x1x1x16.size a ≤ S2x8x8x768.size a
  k0_off513_inb : ∀ k0_t3 : Fin k0_t3_loop.trips, ∀ a, (k0_off513 k0_t3) a + S1x1x1x16.size a ≤ S2x8x8x768.size a
  k0_off514_inb : ∀ k0_t3 : Fin k0_t3_loop.trips, ∀ a, (k0_off514 k0_t3) a + S1x1x1x16.size a ≤ S2x8x8x768.size a
  k0_off515_inb : ∀ k0_t3 : Fin k0_t3_loop.trips, ∀ a, (k0_off515 k0_t3) a + S1x1x1x16.size a ≤ S2x8x8x768.size a
  k0_off516_inb : ∀ k0_t3 : Fin k0_t3_loop.trips, ∀ a, (k0_off516 k0_t3) a + S1x1x1x16.size a ≤ S2x8x8x768.size a
  k0_off517_inb : ∀ k0_t3 : Fin k0_t3_loop.trips, ∀ a, (k0_off517 k0_t3) a + S1x1x1x16.size a ≤ S2x8x8x768.size a
  k0_off518_inb : ∀ k0_t3 : Fin k0_t3_loop.trips, ∀ a, (k0_off518 k0_t3) a + S1x1x1x16.size a ≤ S2x8x8x768.size a
  k0_off519_inb : ∀ k0_t3 : Fin k0_t3_loop.trips, ∀ a, (k0_off519 k0_t3) a + S1x1x1x16.size a ≤ S2x8x8x768.size a
  k0_off520_inb : ∀ k0_t3 : Fin k0_t3_loop.trips, ∀ a, (k0_off520 k0_t3) a + S1x16.size a ≤ S8x768.size a
  k0_off521_inb : ∀ k0_t3 : Fin k0_t3_loop.trips, ∀ a, (k0_off521 k0_t3) a + S1x1x1x16.size a ≤ S2x8x8x768.size a
  k0_off522_inb : ∀ k0_t3 : Fin k0_t3_loop.trips, ∀ a, (k0_off522 k0_t3) a + S1x1x1x16.size a ≤ S2x8x8x768.size a
  k0_off523_inb : ∀ k0_t3 : Fin k0_t3_loop.trips, ∀ a, (k0_off523 k0_t3) a + S1x1x1x16.size a ≤ S2x8x8x768.size a
  k0_off524_inb : ∀ k0_t3 : Fin k0_t3_loop.trips, ∀ a, (k0_off524 k0_t3) a + S1x1x1x16.size a ≤ S2x8x8x768.size a
  k0_off525_inb : ∀ k0_t3 : Fin k0_t3_loop.trips, ∀ a, (k0_off525 k0_t3) a + S1x1x1x16.size a ≤ S2x8x8x768.size a
  k0_off526_inb : ∀ k0_t3 : Fin k0_t3_loop.trips, ∀ a, (k0_off526 k0_t3) a + S1x1x1x16.size a ≤ S2x8x8x768.size a
  k0_off527_inb : ∀ k0_t3 : Fin k0_t3_loop.trips, ∀ a, (k0_off527 k0_t3) a + S1x1x1x16.size a ≤ S2x8x8x768.size a
  k0_off528_inb : ∀ k0_t3 : Fin k0_t3_loop.trips, ∀ a, (k0_off528 k0_t3) a + S1x1x1x16.size a ≤ S2x8x8x768.size a
  k0_off529_inb : ∀ k0_t3 : Fin k0_t3_loop.trips, ∀ a, (k0_off529 k0_t3) a + S1x16.size a ≤ S8x768.size a
  k0_off530_inb : ∀ k0_t3 : Fin k0_t3_loop.trips, ∀ a, (k0_off530 k0_t3) a + S1x1x1x16.size a ≤ S2x8x8x768.size a
  k0_off531_inb : ∀ k0_t3 : Fin k0_t3_loop.trips, ∀ a, (k0_off531 k0_t3) a + S1x1x1x16.size a ≤ S2x8x8x768.size a
  k0_off532_inb : ∀ k0_t3 : Fin k0_t3_loop.trips, ∀ a, (k0_off532 k0_t3) a + S1x1x1x16.size a ≤ S2x8x8x768.size a
  k0_off533_inb : ∀ k0_t3 : Fin k0_t3_loop.trips, ∀ a, (k0_off533 k0_t3) a + S1x1x1x16.size a ≤ S2x8x8x768.size a
  k0_off534_inb : ∀ k0_t3 : Fin k0_t3_loop.trips, ∀ a, (k0_off534 k0_t3) a + S1x1x1x16.size a ≤ S2x8x8x768.size a
  k0_off535_inb : ∀ k0_t3 : Fin k0_t3_loop.trips, ∀ a, (k0_off535 k0_t3) a + S1x1x1x16.size a ≤ S2x8x8x768.size a
  k0_off536_inb : ∀ k0_t3 : Fin k0_t3_loop.trips, ∀ a, (k0_off536 k0_t3) a + S1x1x1x16.size a ≤ S2x8x8x768.size a
  k0_off537_inb : ∀ k0_t3 : Fin k0_t3_loop.trips, ∀ a, (k0_off537 k0_t3) a + S1x1x1x16.size a ≤ S2x8x8x768.size a
  k0_off538_inb : ∀ k0_t3 : Fin k0_t3_loop.trips, ∀ a, (k0_off538 k0_t3) a + S1x16.size a ≤ S8x768.size a
  k0_off539_inb : ∀ k0_t3 : Fin k0_t3_loop.trips, ∀ a, (k0_off539 k0_t3) a + S1x1x1x16.size a ≤ S2x8x8x768.size a
  k0_off540_inb : ∀ k0_t3 : Fin k0_t3_loop.trips, ∀ a, (k0_off540 k0_t3) a + S1x1x1x16.size a ≤ S2x8x8x768.size a
  k0_off541_inb : ∀ k0_t3 : Fin k0_t3_loop.trips, ∀ a, (k0_off541 k0_t3) a + S1x1x1x16.size a ≤ S2x8x8x768.size a
  k0_off542_inb : ∀ k0_t3 : Fin k0_t3_loop.trips, ∀ a, (k0_off542 k0_t3) a + S1x1x1x16.size a ≤ S2x8x8x768.size a
  k0_off543_inb : ∀ k0_t3 : Fin k0_t3_loop.trips, ∀ a, (k0_off543 k0_t3) a + S1x1x1x16.size a ≤ S2x8x8x768.size a
  k0_off544_inb : ∀ k0_t3 : Fin k0_t3_loop.trips, ∀ a, (k0_off544 k0_t3) a + S1x1x1x16.size a ≤ S2x8x8x768.size a
  k0_off545_inb : ∀ k0_t3 : Fin k0_t3_loop.trips, ∀ a, (k0_off545 k0_t3) a + S1x1x1x16.size a ≤ S2x8x8x768.size a
  k0_off546_inb : ∀ k0_t3 : Fin k0_t3_loop.trips, ∀ a, (k0_off546 k0_t3) a + S1x1x1x16.size a ≤ S2x8x8x768.size a
  k0_off547_inb : ∀ k0_t3 : Fin k0_t3_loop.trips, ∀ a, (k0_off547 k0_t3) a + S1x16.size a ≤ S8x768.size a
  k0_off548_inb : ∀ k0_t3 : Fin k0_t3_loop.trips, ∀ a, (k0_off548 k0_t3) a + S1x1x1x16.size a ≤ S2x8x8x768.size a
  k0_off549_inb : ∀ k0_t3 : Fin k0_t3_loop.trips, ∀ a, (k0_off549 k0_t3) a + S1x1x1x16.size a ≤ S2x8x8x768.size a
  k0_off550_inb : ∀ k0_t3 : Fin k0_t3_loop.trips, ∀ a, (k0_off550 k0_t3) a + S1x1x1x16.size a ≤ S2x8x8x768.size a
  k0_off551_inb : ∀ k0_t3 : Fin k0_t3_loop.trips, ∀ a, (k0_off551 k0_t3) a + S1x1x1x16.size a ≤ S2x8x8x768.size a
  k0_off552_inb : ∀ k0_t3 : Fin k0_t3_loop.trips, ∀ a, (k0_off552 k0_t3) a + S1x1x1x16.size a ≤ S2x8x8x768.size a
  k0_off553_inb : ∀ k0_t3 : Fin k0_t3_loop.trips, ∀ a, (k0_off553 k0_t3) a + S1x1x1x16.size a ≤ S2x8x8x768.size a
  k0_off554_inb : ∀ k0_t3 : Fin k0_t3_loop.trips, ∀ a, (k0_off554 k0_t3) a + S1x1x1x16.size a ≤ S2x8x8x768.size a
  k0_off555_inb : ∀ k0_t3 : Fin k0_t3_loop.trips, ∀ a, (k0_off555 k0_t3) a + S1x1x1x16.size a ≤ S2x8x8x768.size a
  k0_off556_inb : ∀ k0_t3 : Fin k0_t3_loop.trips, ∀ a, (k0_off556 k0_t3) a + S1x16.size a ≤ S8x768.size a
  k0_off557_inb : ∀ k0_t3 : Fin k0_t3_loop.trips, ∀ a, (k0_off557 k0_t3) a + S1x1x1x16.size a ≤ S2x8x8x768.size a
  k0_off558_inb : ∀ k0_t3 : Fin k0_t3_loop.trips, ∀ a, (k0_off558 k0_t3) a + S1x1x1x16.size a ≤ S2x8x8x768.size a
  k0_off559_inb : ∀ k0_t3 : Fin k0_t3_loop.trips, ∀ a, (k0_off559 k0_t3) a + S1x1x1x16.size a ≤ S2x8x8x768.size a
  k0_off560_inb : ∀ k0_t3 : Fin k0_t3_loop.trips, ∀ a, (k0_off560 k0_t3) a + S1x1x1x16.size a ≤ S2x8x8x768.size a
  k0_off561_inb : ∀ k0_t3 : Fin k0_t3_loop.trips, ∀ a, (k0_off561 k0_t3) a + S1x1x1x16.size a ≤ S2x8x8x768.size a
  k0_off562_inb : ∀ k0_t3 : Fin k0_t3_loop.trips, ∀ a, (k0_off562 k0_t3) a + S1x1x1x16.size a ≤ S2x8x8x768.size a
  k0_off563_inb : ∀ k0_t3 : Fin k0_t3_loop.trips, ∀ a, (k0_off563 k0_t3) a + S1x1x1x16.size a ≤ S2x8x8x768.size a
  k0_off564_inb : ∀ k0_t3 : Fin k0_t3_loop.trips, ∀ a, (k0_off564 k0_t3) a + S1x1x1x16.size a ≤ S2x8x8x768.size a
  k0_off565_inb : ∀ k0_t3 : Fin k0_t3_loop.trips, ∀ a, (k0_off565 k0_t3) a + S1x16.size a ≤ S8x768.size a
  k0_off566_inb : ∀ k0_t3 : Fin k0_t3_loop.trips, ∀ a, (k0_off566 k0_t3) a + S1x1x1x16.size a ≤ S2x8x8x768.size a
  k0_off567_inb : ∀ k0_t3 : Fin k0_t3_loop.trips, ∀ a, (k0_off567 k0_t3) a + S1x1x1x16.size a ≤ S2x8x8x768.size a
  k0_off568_inb : ∀ k0_t3 : Fin k0_t3_loop.trips, ∀ a, (k0_off568 k0_t3) a + S1x1x1x16.size a ≤ S2x8x8x768.size a
  k0_off569_inb : ∀ k0_t3 : Fin k0_t3_loop.trips, ∀ a, (k0_off569 k0_t3) a + S1x1x1x16.size a ≤ S2x8x8x768.size a
  k0_off570_inb : ∀ k0_t3 : Fin k0_t3_loop.trips, ∀ a, (k0_off570 k0_t3) a + S1x1x1x16.size a ≤ S2x8x8x768.size a
  k0_off571_inb : ∀ k0_t3 : Fin k0_t3_loop.trips, ∀ a, (k0_off571 k0_t3) a + S1x1x1x16.size a ≤ S2x8x8x768.size a
  k0_off572_inb : ∀ k0_t3 : Fin k0_t3_loop.trips, ∀ a, (k0_off572 k0_t3) a + S1x1x1x16.size a ≤ S2x8x8x768.size a
  k0_off573_inb : ∀ k0_t3 : Fin k0_t3_loop.trips, ∀ a, (k0_off573 k0_t3) a + S1x1x1x16.size a ≤ S2x8x8x768.size a
  k0_off574_inb : ∀ k0_t3 : Fin k0_t3_loop.trips, ∀ a, (k0_off574 k0_t3) a + S1x16.size a ≤ S8x768.size a
  k0_off575_inb : ∀ k0_t3 : Fin k0_t3_loop.trips, ∀ a, (k0_off575 k0_t3) a + S1x1x1x16.size a ≤ S2x8x8x768.size a
  k0_off576_inb : ∀ k0_t3 : Fin k0_t3_loop.trips, ∀ a, (k0_off576 k0_t3) a + S1x1x1x16.size a ≤ S2x8x8x768.size a
  k0_off577_inb : ∀ k0_t3 : Fin k0_t3_loop.trips, ∀ a, (k0_off577 k0_t3) a + S1x1x1x16.size a ≤ S2x8x8x768.size a
  k0_off578_inb : ∀ k0_t3 : Fin k0_t3_loop.trips, ∀ a, (k0_off578 k0_t3) a + S1x1x1x16.size a ≤ S2x8x8x768.size a
  k0_off579_inb : ∀ k0_t3 : Fin k0_t3_loop.trips, ∀ a, (k0_off579 k0_t3) a + S1x1x1x16.size a ≤ S2x8x8x768.size a
  k0_off580_inb : ∀ k0_t3 : Fin k0_t3_loop.trips, ∀ a, (k0_off580 k0_t3) a + S1x1x1x16.size a ≤ S2x8x8x768.size a
  k0_off581_inb : ∀ k0_t3 : Fin k0_t3_loop.trips, ∀ a, (k0_off581 k0_t3) a + S1x1x1x16.size a ≤ S2x8x8x768.size a
  k0_off582_inb : ∀ k0_t3 : Fin k0_t3_loop.trips, ∀ a, (k0_off582 k0_t3) a + S1x1x1x16.size a ≤ S2x8x8x768.size a
  k0_off583_inb : ∀ k0_t3 : Fin k0_t3_loop.trips, ∀ a, (k0_off583 k0_t3) a + S1x16.size a ≤ S8x768.size a
  k0_off584_inb : ∀ k0_t3 : Fin k0_t3_loop.trips, ∀ a, (k0_off584 k0_t3) a + S1x1x1x16.size a ≤ S2x8x8x768.size a
  k0_off585_inb : ∀ k0_t3 : Fin k0_t3_loop.trips, ∀ a, (k0_off585 k0_t3) a + S1x1x1x16.size a ≤ S2x8x8x768.size a
  k0_off586_inb : ∀ k0_t3 : Fin k0_t3_loop.trips, ∀ a, (k0_off586 k0_t3) a + S1x1x1x16.size a ≤ S2x8x8x768.size a
  k0_off587_inb : ∀ k0_t3 : Fin k0_t3_loop.trips, ∀ a, (k0_off587 k0_t3) a + S1x1x1x16.size a ≤ S2x8x8x768.size a
  k0_off588_inb : ∀ k0_t3 : Fin k0_t3_loop.trips, ∀ a, (k0_off588 k0_t3) a + S1x1x1x16.size a ≤ S2x8x8x768.size a
  k0_off589_inb : ∀ k0_t3 : Fin k0_t3_loop.trips, ∀ a, (k0_off589 k0_t3) a + S1x1x1x16.size a ≤ S2x8x8x768.size a
  k0_off590_inb : ∀ k0_t3 : Fin k0_t3_loop.trips, ∀ a, (k0_off590 k0_t3) a + S1x1x1x16.size a ≤ S2x8x8x768.size a
  k0_off591_inb : ∀ k0_t3 : Fin k0_t3_loop.trips, ∀ a, (k0_off591 k0_t3) a + S1x1x1x16.size a ≤ S2x8x8x768.size a
  k0_off592_inb : ∀ k0_t3 : Fin k0_t3_loop.trips, ∀ a, (k0_off592 k0_t3) a + S1x16.size a ≤ S8x768.size a
  k0_off593_inb : ∀ k0_t3 : Fin k0_t3_loop.trips, ∀ a, (k0_off593 k0_t3) a + S1x1x1x16.size a ≤ S2x8x8x768.size a
  k0_off594_inb : ∀ k0_t3 : Fin k0_t3_loop.trips, ∀ a, (k0_off594 k0_t3) a + S1x1x1x16.size a ≤ S2x8x8x768.size a
  k0_off595_inb : ∀ k0_t3 : Fin k0_t3_loop.trips, ∀ a, (k0_off595 k0_t3) a + S1x1x1x16.size a ≤ S2x8x8x768.size a
  k0_off596_inb : ∀ k0_t3 : Fin k0_t3_loop.trips, ∀ a, (k0_off596 k0_t3) a + S1x1x1x16.size a ≤ S2x8x8x768.size a
  k0_off597_inb : ∀ k0_t3 : Fin k0_t3_loop.trips, ∀ a, (k0_off597 k0_t3) a + S1x1x1x16.size a ≤ S2x8x8x768.size a
  k0_off598_inb : ∀ k0_t3 : Fin k0_t3_loop.trips, ∀ a, (k0_off598 k0_t3) a + S1x1x1x16.size a ≤ S2x8x8x768.size a
  k0_off599_inb : ∀ k0_t3 : Fin k0_t3_loop.trips, ∀ a, (k0_off599 k0_t3) a + S1x1x1x16.size a ≤ S2x8x8x768.size a
  k0_off600_inb : ∀ k0_t3 : Fin k0_t3_loop.trips, ∀ a, (k0_off600 k0_t3) a + S1x1x1x16.size a ≤ S2x8x8x768.size a
  k0_off601_inb : ∀ k0_t3 : Fin k0_t3_loop.trips, ∀ a, (k0_off601 k0_t3) a + S1x16.size a ≤ S8x768.size a
  k0_off602_inb : ∀ k0_t3 : Fin k0_t3_loop.trips, ∀ a, (k0_off602 k0_t3) a + S1x1x1x16.size a ≤ S2x8x8x768.size a
  k0_off603_inb : ∀ k0_t3 : Fin k0_t3_loop.trips, ∀ a, (k0_off603 k0_t3) a + S1x1x1x16.size a ≤ S2x8x8x768.size a
  k0_off604_inb : ∀ k0_t3 : Fin k0_t3_loop.trips, ∀ a, (k0_off604 k0_t3) a + S1x1x1x16.size a ≤ S2x8x8x768.size a
  k0_off605_inb : ∀ k0_t3 : Fin k0_t3_loop.trips, ∀ a, (k0_off605 k0_t3) a + S1x1x1x16.size a ≤ S2x8x8x768.size a
  k0_off606_inb : ∀ k0_t3 : Fin k0_t3_loop.trips, ∀ a, (k0_off606 k0_t3) a + S1x1x1x16.size a ≤ S2x8x8x768.size a
  k0_off607_inb : ∀ k0_t3 : Fin k0_t3_loop.trips, ∀ a, (k0_off607 k0_t3) a + S1x1x1x16.size a ≤ S2x8x8x768.size a
  k0_off608_inb : ∀ k0_t3 : Fin k0_t3_loop.trips, ∀ a, (k0_off608 k0_t3) a + S1x1x1x16.size a ≤ S2x8x8x768.size a
  k0_off609_inb : ∀ k0_t3 : Fin k0_t3_loop.trips, ∀ a, (k0_off609 k0_t3) a + S1x1x1x16.size a ≤ S2x8x8x768.size a
  k0_off610_inb : ∀ k0_t3 : Fin k0_t3_loop.trips, ∀ a, (k0_off610 k0_t3) a + S1x16.size a ≤ S8x768.size a
  k0_off611_inb : ∀ k0_t3 : Fin k0_t3_loop.trips, ∀ a, (k0_off611 k0_t3) a + S1x1x1x16.size a ≤ S2x8x8x768.size a
  k0_off612_inb : ∀ k0_t3 : Fin k0_t3_loop.trips, ∀ a, (k0_off612 k0_t3) a + S1x1x1x16.size a ≤ S2x8x8x768.size a
  k0_off613_inb : ∀ k0_t3 : Fin k0_t3_loop.trips, ∀ a, (k0_off613 k0_t3) a + S1x1x1x16.size a ≤ S2x8x8x768.size a
  k0_off614_inb : ∀ k0_t3 : Fin k0_t3_loop.trips, ∀ a, (k0_off614 k0_t3) a + S1x1x1x16.size a ≤ S2x8x8x768.size a
  k0_off615_inb : ∀ k0_t3 : Fin k0_t3_loop.trips, ∀ a, (k0_off615 k0_t3) a + S1x1x1x16.size a ≤ S2x8x8x768.size a
  k0_off616_inb : ∀ k0_t3 : Fin k0_t3_loop.trips, ∀ a, (k0_off616 k0_t3) a + S1x1x1x16.size a ≤ S2x8x8x768.size a
  k0_off617_inb : ∀ k0_t3 : Fin k0_t3_loop.trips, ∀ a, (k0_off617 k0_t3) a + S1x1x1x16.size a ≤ S2x8x8x768.size a
  k0_off618_inb : ∀ k0_t3 : Fin k0_t3_loop.trips, ∀ a, (k0_off618 k0_t3) a + S1x1x1x16.size a ≤ S2x8x8x768.size a
  k0_off619_inb : ∀ k0_t3 : Fin k0_t3_loop.trips, ∀ a, (k0_off619 k0_t3) a + S1x16.size a ≤ S8x768.size a
  k0_off620_inb : ∀ k0_t3 : Fin k0_t3_loop.trips, ∀ a, (k0_off620 k0_t3) a + S1x1x1x16.size a ≤ S2x8x8x768.size a
  k0_off621_inb : ∀ k0_t3 : Fin k0_t3_loop.trips, ∀ a, (k0_off621 k0_t3) a + S1x1x1x16.size a ≤ S2x8x8x768.size a
  k0_off622_inb : ∀ k0_t3 : Fin k0_t3_loop.trips, ∀ a, (k0_off622 k0_t3) a + S1x1x1x16.size a ≤ S2x8x8x768.size a
  k0_off623_inb : ∀ k0_t3 : Fin k0_t3_loop.trips, ∀ a, (k0_off623 k0_t3) a + S1x1x1x16.size a ≤ S2x8x8x768.size a
  k0_off624_inb : ∀ k0_t3 : Fin k0_t3_loop.trips, ∀ a, (k0_off624 k0_t3) a + S1x1x1x16.size a ≤ S2x8x8x768.size a
  k0_off625_inb : ∀ k0_t3 : Fin k0_t3_loop.trips, ∀ a, (k0_off625 k0_t3) a + S1x1x1x16.size a ≤ S2x8x8x768.size a
  k0_off626_inb : ∀ k0_t3 : Fin k0_t3_loop.trips, ∀ a, (k0_off626 k0_t3) a + S1x1x1x16.size a ≤ S2x8x8x768.size a
  k0_off627_inb : ∀ k0_t3 : Fin k0_t3_loop.trips, ∀ a, (k0_off627 k0_t3) a + S1x1x1x16.size a ≤ S2x8x8x768.size a
  k0_off628_inb : ∀ k0_t3 : Fin k0_t3_loop.trips, ∀ a, (k0_off628 k0_t3) a + S1x16.size a ≤ S8x768.size a
  k0_off629_inb : ∀ k0_t3 : Fin k0_t3_loop.trips, ∀ a, (k0_off629 k0_t3) a + S1x1x1x16.size a ≤ S2x8x8x768.size a
  k0_off630_inb : ∀ k0_t3 : Fin k0_t3_loop.trips, ∀ a, (k0_off630 k0_t3) a + S1x1x1x16.size a ≤ S2x8x8x768.size a
  k0_off631_inb : ∀ k0_t3 : Fin k0_t3_loop.trips, ∀ a, (k0_off631 k0_t3) a + S1x1x1x16.size a ≤ S2x8x8x768.size a
  k0_off632_inb : ∀ k0_t3 : Fin k0_t3_loop.trips, ∀ a, (k0_off632 k0_t3) a + S1x1x1x16.size a ≤ S2x8x8x768.size a
  k0_off633_inb : ∀ k0_t3 : Fin k0_t3_loop.trips, ∀ a, (k0_off633 k0_t3) a + S1x1x1x16.size a ≤ S2x8x8x768.size a
  k0_off634_inb : ∀ k0_t3 : Fin k0_t3_loop.trips, ∀ a, (k0_off634 k0_t3) a + S1x1x1x16.size a ≤ S2x8x8x768.size a
  k0_off635_inb : ∀ k0_t3 : Fin k0_t3_loop.trips, ∀ a, (k0_off635 k0_t3) a + S1x1x1x16.size a ≤ S2x8x8x768.size a
  k0_off636_inb : ∀ k0_t3 : Fin k0_t3_loop.trips, ∀ a, (k0_off636 k0_t3) a + S1x1x1x16.size a ≤ S2x8x8x768.size a
  k0_off637_inb : ∀ k0_t3 : Fin k0_t3_loop.trips, ∀ a, (k0_off637 k0_t3) a + S1x16.size a ≤ S8x768.size a
  k0_off638_inb : ∀ k0_t3 : Fin k0_t3_loop.trips, ∀ a, (k0_off638 k0_t3) a + S1x1x1x16.size a ≤ S2x8x8x768.size a
  k0_off639_inb : ∀ k0_t3 : Fin k0_t3_loop.trips, ∀ a, (k0_off639 k0_t3) a + S1x1x1x16.size a ≤ S2x8x8x768.size a
  k0_off640_inb : ∀ k0_t3 : Fin k0_t3_loop.trips, ∀ a, (k0_off640 k0_t3) a + S1x1x1x16.size a ≤ S2x8x8x768.size a
  k0_off641_inb : ∀ k0_t3 : Fin k0_t3_loop.trips, ∀ a, (k0_off641 k0_t3) a + S1x1x1x16.size a ≤ S2x8x8x768.size a
  k0_off642_inb : ∀ k0_t3 : Fin k0_t3_loop.trips, ∀ a, (k0_off642 k0_t3) a + S1x1x1x16.size a ≤ S2x8x8x768.size a
  k0_off643_inb : ∀ k0_t3 : Fin k0_t3_loop.trips, ∀ a, (k0_off643 k0_t3) a + S1x1x1x16.size a ≤ S2x8x8x768.size a
  k0_off644_inb : ∀ k0_t3 : Fin k0_t3_loop.trips, ∀ a, (k0_off644 k0_t3) a + S1x1x1x16.size a ≤ S2x8x8x768.size a
  k0_off645_inb : ∀ k0_t3 : Fin k0_t3_loop.trips, ∀ a, (k0_off645 k0_t3) a + S1x1x1x16.size a ≤ S2x8x8x768.size a
  k0_off646_inb : ∀ k0_t3 : Fin k0_t3_loop.trips, ∀ a, (k0_off646 k0_t3) a + S1x16.size a ≤ S8x768.size a
  k0_off647_inb : ∀ k0_t3 : Fin k0_t3_loop.trips, ∀ a, (k0_off647 k0_t3) a + S1x1x1x16.size a ≤ S2x8x8x768.size a
  k0_off648_inb : ∀ k0_t3 : Fin k0_t3_loop.trips, ∀ a, (k0_off648 k0_t3) a + S1x1x1x16.size a ≤ S2x8x8x768.size a
  k0_off649_inb : ∀ k0_t3 : Fin k0_t3_loop.trips, ∀ a, (k0_off649 k0_t3) a + S1x1x1x16.size a ≤ S2x8x8x768.size a
  k0_off650_inb : ∀ k0_t3 : Fin k0_t3_loop.trips, ∀ a, (k0_off650 k0_t3) a + S1x1x1x16.size a ≤ S2x8x8x768.size a
  k0_off651_inb : ∀ k0_t3 : Fin k0_t3_loop.trips, ∀ a, (k0_off651 k0_t3) a + S1x1x1x16.size a ≤ S2x8x8x768.size a
  k0_off652_inb : ∀ k0_t3 : Fin k0_t3_loop.trips, ∀ a, (k0_off652 k0_t3) a + S1x1x1x16.size a ≤ S2x8x8x768.size a
  k0_off653_inb : ∀ k0_t3 : Fin k0_t3_loop.trips, ∀ a, (k0_off653 k0_t3) a + S1x1x1x16.size a ≤ S2x8x8x768.size a
  k0_off654_inb : ∀ k0_t3 : Fin k0_t3_loop.trips, ∀ a, (k0_off654 k0_t3) a + S1x1x1x16.size a ≤ S2x8x8x768.size a
  k0_off655_inb : ∀ k0_t3 : Fin k0_t3_loop.trips, ∀ a, (k0_off655 k0_t3) a + S1x16.size a ≤ S8x768.size a
  k0_off656_inb : ∀ k0_t3 : Fin k0_t3_loop.trips, ∀ a, (k0_off656 k0_t3) a + S1x1x1x16.size a ≤ S2x8x8x768.size a
  k0_off657_inb : ∀ k0_t3 : Fin k0_t3_loop.trips, ∀ a, (k0_off657 k0_t3) a + S1x1x1x16.size a ≤ S2x8x8x768.size a
  k0_off658_inb : ∀ k0_t3 : Fin k0_t3_loop.trips, ∀ a, (k0_off658 k0_t3) a + S1x1x1x16.size a ≤ S2x8x8x768.size a
  k0_off659_inb : ∀ k0_t3 : Fin k0_t3_loop.trips, ∀ a, (k0_off659 k0_t3) a + S1x1x1x16.size a ≤ S2x8x8x768.size a
  k0_off660_inb : ∀ k0_t3 : Fin k0_t3_loop.trips, ∀ a, (k0_off660 k0_t3) a + S1x1x1x16.size a ≤ S2x8x8x768.size a
  k0_off661_inb : ∀ k0_t3 : Fin k0_t3_loop.trips, ∀ a, (k0_off661 k0_t3) a + S1x1x1x16.size a ≤ S2x8x8x768.size a
  k0_off662_inb : ∀ k0_t3 : Fin k0_t3_loop.trips, ∀ a, (k0_off662 k0_t3) a + S1x1x1x16.size a ≤ S2x8x8x768.size a
  k0_off663_inb : ∀ k0_t3 : Fin k0_t3_loop.trips, ∀ a, (k0_off663 k0_t3) a + S1x1x1x16.size a ≤ S2x8x8x768.size a
  k0_off664_inb : ∀ k0_t3 : Fin k0_t3_loop.trips, ∀ a, (k0_off664 k0_t3) a + S1x16.size a ≤ S8x768.size a
  k0_off665_inb : ∀ k0_t3 : Fin k0_t3_loop.trips, ∀ a, (k0_off665 k0_t3) a + S1x1x1x16.size a ≤ S2x8x8x768.size a
  k0_off666_inb : ∀ k0_t3 : Fin k0_t3_loop.trips, ∀ a, (k0_off666 k0_t3) a + S1x1x1x16.size a ≤ S2x8x8x768.size a
  k0_off667_inb : ∀ k0_t3 : Fin k0_t3_loop.trips, ∀ a, (k0_off667 k0_t3) a + S1x1x1x16.size a ≤ S2x8x8x768.size a
  k0_off668_inb : ∀ k0_t3 : Fin k0_t3_loop.trips, ∀ a, (k0_off668 k0_t3) a + S1x1x1x16.size a ≤ S2x8x8x768.size a
  k0_off669_inb : ∀ k0_t3 : Fin k0_t3_loop.trips, ∀ a, (k0_off669 k0_t3) a + S1x1x1x16.size a ≤ S2x8x8x768.size a
  k0_off670_inb : ∀ k0_t3 : Fin k0_t3_loop.trips, ∀ a, (k0_off670 k0_t3) a + S1x1x1x16.size a ≤ S2x8x8x768.size a
  k0_off671_inb : ∀ k0_t3 : Fin k0_t3_loop.trips, ∀ a, (k0_off671 k0_t3) a + S1x1x1x16.size a ≤ S2x8x8x768.size a
  k0_off672_inb : ∀ k0_t3 : Fin k0_t3_loop.trips, ∀ a, (k0_off672 k0_t3) a + S1x1x1x16.size a ≤ S2x8x8x768.size a
  k0_off673_inb : ∀ k0_t3 : Fin k0_t3_loop.trips, ∀ a, (k0_off673 k0_t3) a + S1x16.size a ≤ S8x768.size a
  k0_off674_inb : ∀ k0_t3 : Fin k0_t3_loop.trips, ∀ a, (k0_off674 k0_t3) a + S1x1x1x16.size a ≤ S2x8x8x768.size a
  k0_off675_inb : ∀ k0_t3 : Fin k0_t3_loop.trips, ∀ a, (k0_off675 k0_t3) a + S1x1x1x16.size a ≤ S2x8x8x768.size a
  k0_off676_inb : ∀ k0_t3 : Fin k0_t3_loop.trips, ∀ a, (k0_off676 k0_t3) a + S1x1x1x16.size a ≤ S2x8x8x768.size a
  k0_off677_inb : ∀ k0_t3 : Fin k0_t3_loop.trips, ∀ a, (k0_off677 k0_t3) a + S1x1x1x16.size a ≤ S2x8x8x768.size a
  k0_off678_inb : ∀ k0_t3 : Fin k0_t3_loop.trips, ∀ a, (k0_off678 k0_t3) a + S1x1x1x16.size a ≤ S2x8x8x768.size a
  k0_off679_inb : ∀ k0_t3 : Fin k0_t3_loop.trips, ∀ a, (k0_off679 k0_t3) a + S1x1x1x16.size a ≤ S2x8x8x768.size a
  k0_off680_inb : ∀ k0_t3 : Fin k0_t3_loop.trips, ∀ a, (k0_off680 k0_t3) a + S1x1x1x16.size a ≤ S2x8x8x768.size a
  k0_off681_inb : ∀ k0_t3 : Fin k0_t3_loop.trips, ∀ a, (k0_off681 k0_t3) a + S1x1x1x16.size a ≤ S2x8x8x768.size a
  k0_off682_inb : ∀ k0_t3 : Fin k0_t3_loop.trips, ∀ a, (k0_off682 k0_t3) a + S1x16.size a ≤ S8x768.size a
  k0_off683_inb : ∀ k0_t3 : Fin k0_t3_loop.trips, ∀ a, (k0_off683 k0_t3) a + S1x1x1x16.size a ≤ S2x8x8x768.size a
  k0_off684_inb : ∀ k0_t3 : Fin k0_t3_loop.trips, ∀ a, (k0_off684 k0_t3) a + S1x1x1x16.size a ≤ S2x8x8x768.size a
  k0_off685_inb : ∀ k0_t3 : Fin k0_t3_loop.trips, ∀ a, (k0_off685 k0_t3) a + S1x1x1x16.size a ≤ S2x8x8x768.size a
  k0_off686_inb : ∀ k0_t3 : Fin k0_t3_loop.trips, ∀ a, (k0_off686 k0_t3) a + S1x1x1x16.size a ≤ S2x8x8x768.size a
  k0_off687_inb : ∀ k0_t3 : Fin k0_t3_loop.trips, ∀ a, (k0_off687 k0_t3) a + S1x1x1x16.size a ≤ S2x8x8x768.size a
  k0_off688_inb : ∀ k0_t3 : Fin k0_t3_loop.trips, ∀ a, (k0_off688 k0_t3) a + S1x1x1x16.size a ≤ S2x8x8x768.size a
  k0_off689_inb : ∀ k0_t3 : Fin k0_t3_loop.trips, ∀ a, (k0_off689 k0_t3) a + S1x1x1x16.size a ≤ S2x8x8x768.size a
  k0_off690_inb : ∀ k0_t3 : Fin k0_t3_loop.trips, ∀ a, (k0_off690 k0_t3) a + S1x1x1x16.size a ≤ S2x8x8x768.size a
  k0_off691_inb : ∀ k0_t3 : Fin k0_t3_loop.trips, ∀ a, (k0_off691 k0_t3) a + S1x16.size a ≤ S8x768.size a
  k0_off692_inb : ∀ k0_t3 : Fin k0_t3_loop.trips, ∀ a, (k0_off692 k0_t3) a + S1x1x1x16.size a ≤ S2x8x8x768.size a
  k0_off693_inb : ∀ k0_t3 : Fin k0_t3_loop.trips, ∀ a, (k0_off693 k0_t3) a + S1x1x1x16.size a ≤ S2x8x8x768.size a
  k0_off694_inb : ∀ k0_t3 : Fin k0_t3_loop.trips, ∀ a, (k0_off694 k0_t3) a + S1x1x1x16.size a ≤ S2x8x8x768.size a
  k0_off695_inb : ∀ k0_t3 : Fin k0_t3_loop.trips, ∀ a, (k0_off695 k0_t3) a + S1x1x1x16.size a ≤ S2x8x8x768.size a
  k0_off696_inb : ∀ k0_t3 : Fin k0_t3_loop.trips, ∀ a, (k0_off696 k0_t3) a + S1x1x1x16.size a ≤ S2x8x8x768.size a
  k0_off697_inb : ∀ k0_t3 : Fin k0_t3_loop.trips, ∀ a, (k0_off697 k0_t3) a + S1x1x1x16.size a ≤ S2x8x8x768.size a
  k0_off698_inb : ∀ k0_t3 : Fin k0_t3_loop.trips, ∀ a, (k0_off698 k0_t3) a + S1x1x1x16.size a ≤ S2x8x8x768.size a
  k0_off699_inb : ∀ k0_t3 : Fin k0_t3_loop.trips, ∀ a, (k0_off699 k0_t3) a + S1x1x1x16.size a ≤ S2x8x8x768.size a
  k0_off700_inb : ∀ k0_t3 : Fin k0_t3_loop.trips, ∀ a, (k0_off700 k0_t3) a + S1x16.size a ≤ S8x768.size a
  k0_off701_inb : ∀ k0_t3 : Fin k0_t3_loop.trips, ∀ a, (k0_off701 k0_t3) a + S1x1x1x16.size a ≤ S2x8x8x768.size a
  k0_off702_inb : ∀ k0_t3 : Fin k0_t3_loop.trips, ∀ a, (k0_off702 k0_t3) a + S1x1x1x16.size a ≤ S2x8x8x768.size a
  k0_off703_inb : ∀ k0_t3 : Fin k0_t3_loop.trips, ∀ a, (k0_off703 k0_t3) a + S1x1x1x16.size a ≤ S2x8x8x768.size a
  k0_off704_inb : ∀ k0_t3 : Fin k0_t3_loop.trips, ∀ a, (k0_off704 k0_t3) a + S1x1x1x16.size a ≤ S2x8x8x768.size a
  k0_off705_inb : ∀ k0_t3 : Fin k0_t3_loop.trips, ∀ a, (k0_off705 k0_t3) a + S1x1x1x16.size a ≤ S2x8x8x768.size a
  k0_off706_inb : ∀ k0_t3 : Fin k0_t3_loop.trips, ∀ a, (k0_off706 k0_t3) a + S1x1x1x16.size a ≤ S2x8x8x768.size a
  k0_off707_inb : ∀ k0_t3 : Fin k0_t3_loop.trips, ∀ a, (k0_off707 k0_t3) a + S1x1x1x16.size a ≤ S2x8x8x768.size a
  k0_off708_inb : ∀ k0_t3 : Fin k0_t3_loop.trips, ∀ a, (k0_off708 k0_t3) a + S1x1x1x16.size a ≤ S2x8x8x768.size a
  k0_off709_inb : ∀ k0_t3 : Fin k0_t3_loop.trips, ∀ a, (k0_off709 k0_t3) a + S1x16.size a ≤ S8x768.size a
  k0_off710_inb : ∀ k0_t3 : Fin k0_t3_loop.trips, ∀ a, (k0_off710 k0_t3) a + S1x1x1x16.size a ≤ S2x8x8x768.size a
  k0_off711_inb : ∀ k0_t3 : Fin k0_t3_loop.trips, ∀ a, (k0_off711 k0_t3) a + S1x1x1x16.size a ≤ S2x8x8x768.size a
  k0_off712_inb : ∀ k0_t3 : Fin k0_t3_loop.trips, ∀ a, (k0_off712 k0_t3) a + S1x1x1x16.size a ≤ S2x8x8x768.size a
  k0_off713_inb : ∀ k0_t3 : Fin k0_t3_loop.trips, ∀ a, (k0_off713 k0_t3) a + S1x1x1x16.size a ≤ S2x8x8x768.size a
  k0_off714_inb : ∀ k0_t3 : Fin k0_t3_loop.trips, ∀ a, (k0_off714 k0_t3) a + S1x1x1x16.size a ≤ S2x8x8x768.size a
  k0_off715_inb : ∀ k0_t3 : Fin k0_t3_loop.trips, ∀ a, (k0_off715 k0_t3) a + S1x1x1x16.size a ≤ S2x8x8x768.size a
  k0_off716_inb : ∀ k0_t3 : Fin k0_t3_loop.trips, ∀ a, (k0_off716 k0_t3) a + S1x1x1x16.size a ≤ S2x8x8x768.size a
  k0_off717_inb : ∀ k0_t3 : Fin k0_t3_loop.trips, ∀ a, (k0_off717 k0_t3) a + S1x1x1x16.size a ≤ S2x8x8x768.size a
  k0_off718_inb : ∀ k0_t3 : Fin k0_t3_loop.trips, ∀ a, (k0_off718 k0_t3) a + S1x16.size a ≤ S8x768.size a
  k0_off719_inb : ∀ k0_t3 : Fin k0_t3_loop.trips, ∀ a, (k0_off719 k0_t3) a + S1x1x1x16.size a ≤ S2x8x8x768.size a
  k0_off720_inb : ∀ k0_t3 : Fin k0_t3_loop.trips, ∀ a, (k0_off720 k0_t3) a + S1x1x1x16.size a ≤ S2x8x8x768.size a
  k0_off721_inb : ∀ k0_t3 : Fin k0_t3_loop.trips, ∀ a, (k0_off721 k0_t3) a + S1x1x1x16.size a ≤ S2x8x8x768.size a
  k0_off722_inb : ∀ k0_t3 : Fin k0_t3_loop.trips, ∀ a, (k0_off722 k0_t3) a + S1x1x1x16.size a ≤ S2x8x8x768.size a
  k0_off723_inb : ∀ k0_t3 : Fin k0_t3_loop.trips, ∀ a, (k0_off723 k0_t3) a + S1x1x1x16.size a ≤ S2x8x8x768.size a
  k0_off724_inb : ∀ k0_t3 : Fin k0_t3_loop.trips, ∀ a, (k0_off724 k0_t3) a + S1x1x1x16.size a ≤ S2x8x8x768.size a
  k0_off725_inb : ∀ k0_t3 : Fin k0_t3_loop.trips, ∀ a, (k0_off725 k0_t3) a + S1x1x1x16.size a ≤ S2x8x8x768.size a
  k0_off726_inb : ∀ k0_t3 : Fin k0_t3_loop.trips, ∀ a, (k0_off726 k0_t3) a + S1x1x1x16.size a ≤ S2x8x8x768.size a
  k0_off727_inb : ∀ k0_t3 : Fin k0_t3_loop.trips, ∀ a, (k0_off727 k0_t3) a + S1x16.size a ≤ S8x768.size a
  k0_off728_inb : ∀ k0_t3 : Fin k0_t3_loop.trips, ∀ a, (k0_off728 k0_t3) a + S1x1x1x16.size a ≤ S2x8x8x768.size a
  k0_off729_inb : ∀ k0_t3 : Fin k0_t3_loop.trips, ∀ a, (k0_off729 k0_t3) a + S1x1x1x16.size a ≤ S2x8x8x768.size a
  k0_off730_inb : ∀ k0_t3 : Fin k0_t3_loop.trips, ∀ a, (k0_off730 k0_t3) a + S1x1x1x16.size a ≤ S2x8x8x768.size a
  k0_off731_inb : ∀ k0_t3 : Fin k0_t3_loop.trips, ∀ a, (k0_off731 k0_t3) a + S1x1x1x16.size a ≤ S2x8x8x768.size a
  k0_off732_inb : ∀ k0_t3 : Fin k0_t3_loop.trips, ∀ a, (k0_off732 k0_t3) a + S1x1x1x16.size a ≤ S2x8x8x768.size a
  k0_off733_inb : ∀ k0_t3 : Fin k0_t3_loop.trips, ∀ a, (k0_off733 k0_t3) a + S1x1x1x16.size a ≤ S2x8x8x768.size a
  k0_off734_inb : ∀ k0_t3 : Fin k0_t3_loop.trips, ∀ a, (k0_off734 k0_t3) a + S1x1x1x16.size a ≤ S2x8x8x768.size a
  k0_off735_inb : ∀ k0_t3 : Fin k0_t3_loop.trips, ∀ a, (k0_off735 k0_t3) a + S1x1x1x16.size a ≤ S2x8x8x768.size a
  k0_off736_inb : ∀ k0_t3 : Fin k0_t3_loop.trips, ∀ a, (k0_off736 k0_t3) a + S1x16.size a ≤ S8x768.size a
  k0_off737_inb : ∀ k0_t3 : Fin k0_t3_loop.trips, ∀ a, (k0_off737 k0_t3) a + S1x1x1x16.size a ≤ S2x8x8x768.size a
  k0_off738_inb : ∀ k0_t3 : Fin k0_t3_loop.trips, ∀ a, (k0_off738 k0_t3) a + S1x1x1x16.size a ≤ S2x8x8x768.size a
  k0_off739_inb : ∀ k0_t3 : Fin k0_t3_loop.trips, ∀ a, (k0_off739 k0_t3) a + S1x1x1x16.size a ≤ S2x8x8x768.size a
  k0_off740_inb : ∀ k0_t3 : Fin k0_t3_loop.trips, ∀ a, (k0_off740 k0_t3) a + S1x1x1x16.size a ≤ S2x8x8x768.size a
  k0_off741_inb : ∀ k0_t3 : Fin k0_t3_loop.trips, ∀ a, (k0_off741 k0_t3) a + S1x1x1x16.size a ≤ S2x8x8x768.size a
  k0_off742_inb : ∀ k0_t3 : Fin k0_t3_loop.trips, ∀ a, (k0_off742 k0_t3) a + S1x1x1x16.size a ≤ S2x8x8x768.size a
  k0_off743_inb : ∀ k0_t3 : Fin k0_t3_loop.trips, ∀ a, (k0_off743 k0_t3) a + S1x1x1x16.size a ≤ S2x8x8x768.size a
  k0_off744_inb : ∀ k0_t3 : Fin k0_t3_loop.trips, ∀ a, (k0_off744 k0_t3) a + S1x1x1x16.size a ≤ S2x8x8x768.size a
  k0_off745_inb : ∀ k0_t3 : Fin k0_t3_loop.trips, ∀ a, (k0_off745 k0_t3) a + S1x16.size a ≤ S8x768.size a
  k0_off746_inb : ∀ k0_t3 : Fin k0_t3_loop.trips, ∀ a, (k0_off746 k0_t3) a + S1x1x1x16.size a ≤ S2x8x8x768.size a
  k0_off747_inb : ∀ k0_t3 : Fin k0_t3_loop.trips, ∀ a, (k0_off747 k0_t3) a + S1x1x1x16.size a ≤ S2x8x8x768.size a
  k0_off748_inb : ∀ k0_t3 : Fin k0_t3_loop.trips, ∀ a, (k0_off748 k0_t3) a + S1x1x1x16.size a ≤ S2x8x8x768.size a
  k0_off749_inb : ∀ k0_t3 : Fin k0_t3_loop.trips, ∀ a, (k0_off749 k0_t3) a + S1x1x1x16.size a ≤ S2x8x8x768.size a
  k0_off750_inb : ∀ k0_t3 : Fin k0_t3_loop.trips, ∀ a, (k0_off750 k0_t3) a + S1x1x1x16.size a ≤ S2x8x8x768.size a
  k0_off751_inb : ∀ k0_t3 : Fin k0_t3_loop.trips, ∀ a, (k0_off751 k0_t3) a + S1x1x1x16.size a ≤ S2x8x8x768.size a
  k0_off752_inb : ∀ k0_t3 : Fin k0_t3_loop.trips, ∀ a, (k0_off752 k0_t3) a + S1x1x1x16.size a ≤ S2x8x8x768.size a
  k0_off753_inb : ∀ k0_t3 : Fin k0_t3_loop.trips, ∀ a, (k0_off753 k0_t3) a + S1x1x1x16.size a ≤ S2x8x8x768.size a
  k0_off754_inb : ∀ k0_t3 : Fin k0_t3_loop.trips, ∀ a, (k0_off754 k0_t3) a + S1x16.size a ≤ S8x768.size a
  k0_off755_inb : ∀ k0_t3 : Fin k0_t3_loop.trips, ∀ a, (k0_off755 k0_t3) a + S1x1x1x16.size a ≤ S2x8x8x768.size a
  k0_off756_inb : ∀ k0_t3 : Fin k0_t3_loop.trips, ∀ a, (k0_off756 k0_t3) a + S1x1x1x16.size a ≤ S2x8x8x768.size a
  k0_off757_inb : ∀ k0_t3 : Fin k0_t3_loop.trips, ∀ a, (k0_off757 k0_t3) a + S1x1x1x16.size a ≤ S2x8x8x768.size a
  k0_off758_inb : ∀ k0_t3 : Fin k0_t3_loop.trips, ∀ a, (k0_off758 k0_t3) a + S1x1x1x16.size a ≤ S2x8x8x768.size a
  k0_off759_inb : ∀ k0_t3 : Fin k0_t3_loop.trips, ∀ a, (k0_off759 k0_t3) a + S1x1x1x16.size a ≤ S2x8x8x768.size a
  k0_off760_inb : ∀ k0_t3 : Fin k0_t3_loop.trips, ∀ a, (k0_off760 k0_t3) a + S1x1x1x16.size a ≤ S2x8x8x768.size a
  k0_off761_inb : ∀ k0_t3 : Fin k0_t3_loop.trips, ∀ a, (k0_off761 k0_t3) a + S1x1x1x16.size a ≤ S2x8x8x768.size a
  k0_off762_inb : ∀ k0_t3 : Fin k0_t3_loop.trips, ∀ a, (k0_off762 k0_t3) a + S1x1x1x16.size a ≤ S2x8x8x768.size a
  k0_off763_inb : ∀ k0_t3 : Fin k0_t3_loop.trips, ∀ a, (k0_off763 k0_t3) a + S1x16.size a ≤ S8x768.size a
  k0_off764_inb : ∀ k0_t3 : Fin k0_t3_loop.trips, ∀ a, (k0_off764 k0_t3) a + S1x1x1x16.size a ≤ S2x8x8x768.size a
  k0_off765_inb : ∀ k0_t3 : Fin k0_t3_loop.trips, ∀ a, (k0_off765 k0_t3) a + S1x1x1x16.size a ≤ S2x8x8x768.size a
  k0_off766_inb : ∀ k0_t3 : Fin k0_t3_loop.trips, ∀ a, (k0_off766 k0_t3) a + S1x1x1x16.size a ≤ S2x8x8x768.size a
  k0_off767_inb : ∀ k0_t3 : Fin k0_t3_loop.trips, ∀ a, (k0_off767 k0_t3) a + S1x1x1x16.size a ≤ S2x8x8x768.size a
  k0_off768_inb : ∀ k0_t3 : Fin k0_t3_loop.trips, ∀ a, (k0_off768 k0_t3) a + S1x1x1x16.size a ≤ S2x8x8x768.size a
  k0_off769_inb : ∀ k0_t3 : Fin k0_t3_loop.trips, ∀ a, (k0_off769 k0_t3) a + S1x1x1x16.size a ≤ S2x8x8x768.size a
  k0_off770_inb : ∀ k0_t3 : Fin k0_t3_loop.trips, ∀ a, (k0_off770 k0_t3) a + S1x1x1x16.size a ≤ S2x8x8x768.size a
  k0_off771_inb : ∀ k0_t3 : Fin k0_t3_loop.trips, ∀ a, (k0_off771 k0_t3) a + S1x1x1x16.size a ≤ S2x8x8x768.size a
  k0_off772_inb : ∀ k0_t3 : Fin k0_t3_loop.trips, ∀ a, (k0_off772 k0_t3) a + S1x16.size a ≤ S8x768.size a
  k0_off773_inb : ∀ k0_t3 : Fin k0_t3_loop.trips, ∀ a, (k0_off773 k0_t3) a + S1x1x1x16.size a ≤ S2x8x8x768.size a
  k0_off774_inb : ∀ k0_t3 : Fin k0_t3_loop.trips, ∀ a, (k0_off774 k0_t3) a + S1x1x1x16.size a ≤ S2x8x8x768.size a
  k0_off775_inb : ∀ k0_t3 : Fin k0_t3_loop.trips, ∀ a, (k0_off775 k0_t3) a + S1x1x1x16.size a ≤ S2x8x8x768.size a
  k0_off776_inb : ∀ k0_t3 : Fin k0_t3_loop.trips, ∀ a, (k0_off776 k0_t3) a + S1x1x1x16.size a ≤ S2x8x8x768.size a
  k0_off777_inb : ∀ k0_t3 : Fin k0_t3_loop.trips, ∀ a, (k0_off777 k0_t3) a + S1x1x1x16.size a ≤ S2x8x8x768.size a
  k0_off778_inb : ∀ k0_t3 : Fin k0_t3_loop.trips, ∀ a, (k0_off778 k0_t3) a + S1x1x1x16.size a ≤ S2x8x8x768.size a
  k0_off779_inb : ∀ k0_t3 : Fin k0_t3_loop.trips, ∀ a, (k0_off779 k0_t3) a + S1x1x1x16.size a ≤ S2x8x8x768.size a
  k0_off780_inb : ∀ k0_t3 : Fin k0_t3_loop.trips, ∀ a, (k0_off780 k0_t3) a + S1x1x1x16.size a ≤ S2x8x8x768.size a
  k0_off781_inb : ∀ k0_t3 : Fin k0_t3_loop.trips, ∀ a, (k0_off781 k0_t3) a + S1x16.size a ≤ S8x768.size a
  k0_off782_inb : ∀ k0_t3 : Fin k0_t3_loop.trips, ∀ a, (k0_off782 k0_t3) a + S1x1x1x16.size a ≤ S2x8x8x768.size a
  k0_off783_inb : ∀ k0_t3 : Fin k0_t3_loop.trips, ∀ a, (k0_off783 k0_t3) a + S1x1x1x16.size a ≤ S2x8x8x768.size a
  k0_off784_inb : ∀ k0_t3 : Fin k0_t3_loop.trips, ∀ a, (k0_off784 k0_t3) a + S1x1x1x16.size a ≤ S2x8x8x768.size a
  k0_off785_inb : ∀ k0_t3 : Fin k0_t3_loop.trips, ∀ a, (k0_off785 k0_t3) a + S1x1x1x16.size a ≤ S2x8x8x768.size a
  k0_off786_inb : ∀ k0_t3 : Fin k0_t3_loop.trips, ∀ a, (k0_off786 k0_t3) a + S1x1x1x16.size a ≤ S2x8x8x768.size a
  k0_off787_inb : ∀ k0_t3 : Fin k0_t3_loop.trips, ∀ a, (k0_off787 k0_t3) a + S1x1x1x16.size a ≤ S2x8x8x768.size a
  k0_off788_inb : ∀ k0_t3 : Fin k0_t3_loop.trips, ∀ a, (k0_off788 k0_t3) a + S1x1x1x16.size a ≤ S2x8x8x768.size a
  k0_off789_inb : ∀ k0_t3 : Fin k0_t3_loop.trips, ∀ a, (k0_off789 k0_t3) a + S1x1x1x16.size a ≤ S2x8x8x768.size a
  k0_off790_inb : ∀ k0_t3 : Fin k0_t3_loop.trips, ∀ a, (k0_off790 k0_t3) a + S1x16.size a ≤ S8x768.size a
  k0_off791_inb : ∀ k0_t3 : Fin k0_t3_loop.trips, ∀ a, (k0_off791 k0_t3) a + S1x1x1x16.size a ≤ S2x8x8x768.size a
  k0_off792_inb : ∀ k0_t3 : Fin k0_t3_loop.trips, ∀ a, (k0_off792 k0_t3) a + S1x1x1x16.size a ≤ S2x8x8x768.size a
  k0_off793_inb : ∀ k0_t3 : Fin k0_t3_loop.trips, ∀ a, (k0_off793 k0_t3) a + S1x1x1x16.size a ≤ S2x8x8x768.size a
  k0_off794_inb : ∀ k0_t3 : Fin k0_t3_loop.trips, ∀ a, (k0_off794 k0_t3) a + S1x1x1x16.size a ≤ S2x8x8x768.size a
  k0_off795_inb : ∀ k0_t3 : Fin k0_t3_loop.trips, ∀ a, (k0_off795 k0_t3) a + S1x1x1x16.size a ≤ S2x8x8x768.size a
  k0_off796_inb : ∀ k0_t3 : Fin k0_t3_loop.trips, ∀ a, (k0_off796 k0_t3) a + S1x1x1x16.size a ≤ S2x8x8x768.size a
  k0_off797_inb : ∀ k0_t3 : Fin k0_t3_loop.trips, ∀ a, (k0_off797 k0_t3) a + S1x1x1x16.size a ≤ S2x8x8x768.size a
  k0_off798_inb : ∀ k0_t3 : Fin k0_t3_loop.trips, ∀ a, (k0_off798 k0_t3) a + S1x1x1x16.size a ≤ S2x8x8x768.size a
  k0_off799_inb : ∀ k0_t3 : Fin k0_t3_loop.trips, ∀ a, (k0_off799 k0_t3) a + S1x16.size a ≤ S8x768.size a
  k0_off800_inb : ∀ k0_t3 : Fin k0_t3_loop.trips, ∀ a, (k0_off800 k0_t3) a + S1x1x1x16.size a ≤ S2x8x8x768.size a
  k0_off801_inb : ∀ k0_t3 : Fin k0_t3_loop.trips, ∀ a, (k0_off801 k0_t3) a + S1x1x1x16.size a ≤ S2x8x8x768.size a
  k0_off802_inb : ∀ k0_t3 : Fin k0_t3_loop.trips, ∀ a, (k0_off802 k0_t3) a + S1x1x1x16.size a ≤ S2x8x8x768.size a
  k0_off803_inb : ∀ k0_t3 : Fin k0_t3_loop.trips, ∀ a, (k0_off803 k0_t3) a + S1x1x1x16.size a ≤ S2x8x8x768.size a
  k0_off804_inb : ∀ k0_t3 : Fin k0_t3_loop.trips, ∀ a, (k0_off804 k0_t3) a + S1x1x1x16.size a ≤ S2x8x8x768.size a
  k0_off805_inb : ∀ k0_t3 : Fin k0_t3_loop.trips, ∀ a, (k0_off805 k0_t3) a + S1x1x1x16.size a ≤ S2x8x8x768.size a
  k0_off806_inb : ∀ k0_t3 : Fin k0_t3_loop.trips, ∀ a, (k0_off806 k0_t3) a + S1x1x1x16.size a ≤ S2x8x8x768.size a
  k0_off807_inb : ∀ k0_t3 : Fin k0_t3_loop.trips, ∀ a, (k0_off807 k0_t3) a + S1x1x1x16.size a ≤ S2x8x8x768.size a
  k0_off808_inb : ∀ k0_t3 : Fin k0_t3_loop.trips, ∀ a, (k0_off808 k0_t3) a + S1x16.size a ≤ S8x768.size a
  k0_off809_inb : ∀ k0_t3 : Fin k0_t3_loop.trips, ∀ a, (k0_off809 k0_t3) a + S1x1x1x16.size a ≤ S2x8x8x768.size a
  k0_off810_inb : ∀ k0_t3 : Fin k0_t3_loop.trips, ∀ a, (k0_off810 k0_t3) a + S1x1x1x16.size a ≤ S2x8x8x768.size a
  k0_off811_inb : ∀ k0_t3 : Fin k0_t3_loop.trips, ∀ a, (k0_off811 k0_t3) a + S1x1x1x16.size a ≤ S2x8x8x768.size a
  k0_off812_inb : ∀ k0_t3 : Fin k0_t3_loop.trips, ∀ a, (k0_off812 k0_t3) a + S1x1x1x16.size a ≤ S2x8x8x768.size a
  k0_off813_inb : ∀ k0_t3 : Fin k0_t3_loop.trips, ∀ a, (k0_off813 k0_t3) a + S1x1x1x16.size a ≤ S2x8x8x768.size a
  k0_off814_inb : ∀ k0_t3 : Fin k0_t3_loop.trips, ∀ a, (k0_off814 k0_t3) a + S1x1x1x16.size a ≤ S2x8x8x768.size a
  k0_off815_inb : ∀ k0_t3 : Fin k0_t3_loop.trips, ∀ a, (k0_off815 k0_t3) a + S1x1x1x16.size a ≤ S2x8x8x768.size a
  k0_off816_inb : ∀ k0_t3 : Fin k0_t3_loop.trips, ∀ a, (k0_off816 k0_t3) a + S1x1x1x16.size a ≤ S2x8x8x768.size a
  k0_off817_inb : ∀ k0_t3 : Fin k0_t3_loop.trips, ∀ a, (k0_off817 k0_t3) a + S1x16.size a ≤ S8x768.size a
  k0_off818_inb : ∀ k0_t3 : Fin k0_t3_loop.trips, ∀ a, (k0_off818 k0_t3) a + S1x1x1x16.size a ≤ S2x8x8x768.size a
  k0_off819_inb : ∀ k0_t3 : Fin k0_t3_loop.trips, ∀ a, (k0_off819 k0_t3) a + S1x1x1x16.size a ≤ S2x8x8x768.size a
  k0_off820_inb : ∀ k0_t3 : Fin k0_t3_loop.trips, ∀ a, (k0_off820 k0_t3) a + S1x1x1x16.size a ≤ S2x8x8x768.size a
  k0_off821_inb : ∀ k0_t3 : Fin k0_t3_loop.trips, ∀ a, (k0_off821 k0_t3) a + S1x1x1x16.size a ≤ S2x8x8x768.size a
  k0_off822_inb : ∀ k0_t3 : Fin k0_t3_loop.trips, ∀ a, (k0_off822 k0_t3) a + S1x1x1x16.size a ≤ S2x8x8x768.size a
  k0_off823_inb : ∀ k0_t3 : Fin k0_t3_loop.trips, ∀ a, (k0_off823 k0_t3) a + S1x1x1x16.size a ≤ S2x8x8x768.size a
  k0_off824_inb : ∀ k0_t3 : Fin k0_t3_loop.trips, ∀ a, (k0_off824 k0_t3) a + S1x1x1x16.size a ≤ S2x8x8x768.size a
  k0_off825_inb : ∀ k0_t3 : Fin k0_t3_loop.trips, ∀ a, (k0_off825 k0_t3) a + S1x1x1x16.size a ≤ S2x8x8x768.size a
  k0_off826_inb : ∀ k0_t3 : Fin k0_t3_loop.trips, ∀ a, (k0_off826 k0_t3) a + S1x16.size a ≤ S8x768.size a
  k0_off827_inb : ∀ k0_t3 : Fin k0_t3_loop.trips, ∀ a, (k0_off827 k0_t3) a + S1x1x1x16.size a ≤ S2x8x8x768.size a
  k0_off828_inb : ∀ k0_t3 : Fin k0_t3_loop.trips, ∀ a, (k0_off828 k0_t3) a + S1x1x1x16.size a ≤ S2x8x8x768.size a
  k0_off829_inb : ∀ k0_t3 : Fin k0_t3_loop.trips, ∀ a, (k0_off829 k0_t3) a + S1x1x1x16.size a ≤ S2x8x8x768.size a
  k0_off830_inb : ∀ k0_t3 : Fin k0_t3_loop.trips, ∀ a, (k0_off830 k0_t3) a + S1x1x1x16.size a ≤ S2x8x8x768.size a
  k0_off831_inb : ∀ k0_t3 : Fin k0_t3_loop.trips, ∀ a, (k0_off831 k0_t3) a + S1x1x1x16.size a ≤ S2x8x8x768.size a
  k0_off832_inb : ∀ k0_t3 : Fin k0_t3_loop.trips, ∀ a, (k0_off832 k0_t3) a + S1x1x1x16.size a ≤ S2x8x8x768.size a
  k0_off833_inb : ∀ k0_t3 : Fin k0_t3_loop.trips, ∀ a, (k0_off833 k0_t3) a + S1x1x1x16.size a ≤ S2x8x8x768.size a
  k0_off834_inb : ∀ k0_t3 : Fin k0_t3_loop.trips, ∀ a, (k0_off834 k0_t3) a + S1x1x1x16.size a ≤ S2x8x8x768.size a
  k0_off835_inb : ∀ k0_t3 : Fin k0_t3_loop.trips, ∀ a, (k0_off835 k0_t3) a + S1x16.size a ≤ S8x768.size a
  k0_off836_inb : ∀ k0_t3 : Fin k0_t3_loop.trips, ∀ a, (k0_off836 k0_t3) a + S1x1x1x16.size a ≤ S2x8x8x768.size a
  k0_off837_inb : ∀ k0_t3 : Fin k0_t3_loop.trips, ∀ a, (k0_off837 k0_t3) a + S1x1x1x16.size a ≤ S2x8x8x768.size a
  k0_off838_inb : ∀ k0_t3 : Fin k0_t3_loop.trips, ∀ a, (k0_off838 k0_t3) a + S1x1x1x16.size a ≤ S2x8x8x768.size a
  k0_off839_inb : ∀ k0_t3 : Fin k0_t3_loop.trips, ∀ a, (k0_off839 k0_t3) a + S1x1x1x16.size a ≤ S2x8x8x768.size a
  k0_off840_inb : ∀ k0_t3 : Fin k0_t3_loop.trips, ∀ a, (k0_off840 k0_t3) a + S1x1x1x16.size a ≤ S2x8x8x768.size a
  k0_off841_inb : ∀ k0_t3 : Fin k0_t3_loop.trips, ∀ a, (k0_off841 k0_t3) a + S1x1x1x16.size a ≤ S2x8x8x768.size a
  k0_off842_inb : ∀ k0_t3 : Fin k0_t3_loop.trips, ∀ a, (k0_off842 k0_t3) a + S1x1x1x16.size a ≤ S2x8x8x768.size a
  k0_off843_inb : ∀ k0_t3 : Fin k0_t3_loop.trips, ∀ a, (k0_off843 k0_t3) a + S1x1x1x16.size a ≤ S2x8x8x768.size a
  k0_off844_inb : ∀ k0_t3 : Fin k0_t3_loop.trips, ∀ a, (k0_off844 k0_t3) a + S1x16.size a ≤ S8x768.size a
  k0_off845_inb : ∀ k0_t3 : Fin k0_t3_loop.trips, ∀ a, (k0_off845 k0_t3) a + S1x1x1x16.size a ≤ S2x8x8x768.size a
  k0_off846_inb : ∀ k0_t3 : Fin k0_t3_loop.trips, ∀ a, (k0_off846 k0_t3) a + S1x1x1x16.size a ≤ S2x8x8x768.size a
  k0_off847_inb : ∀ k0_t3 : Fin k0_t3_loop.trips, ∀ a, (k0_off847 k0_t3) a + S1x1x1x16.size a ≤ S2x8x8x768.size a
  k0_off848_inb : ∀ k0_t3 : Fin k0_t3_loop.trips, ∀ a, (k0_off848 k0_t3) a + S1x1x1x16.size a ≤ S2x8x8x768.size a
  k0_off849_inb : ∀ k0_t3 : Fin k0_t3_loop.trips, ∀ a, (k0_off849 k0_t3) a + S1x1x1x16.size a ≤ S2x8x8x768.size a
  k0_off850_inb : ∀ k0_t3 : Fin k0_t3_loop.trips, ∀ a, (k0_off850 k0_t3) a + S1x1x1x16.size a ≤ S2x8x8x768.size a
  k0_off851_inb : ∀ k0_t3 : Fin k0_t3_loop.trips, ∀ a, (k0_off851 k0_t3) a + S1x1x1x16.size a ≤ S2x8x8x768.size a
  k0_off852_inb : ∀ k0_t3 : Fin k0_t3_loop.trips, ∀ a, (k0_off852 k0_t3) a + S1x1x1x16.size a ≤ S2x8x8x768.size a
  k0_off853_inb : ∀ k0_t3 : Fin k0_t3_loop.trips, ∀ a, (k0_off853 k0_t3) a + S1x16.size a ≤ S8x768.size a
  k0_off854_inb : ∀ k0_t3 : Fin k0_t3_loop.trips, ∀ a, (k0_off854 k0_t3) a + S1x1x1x16.size a ≤ S2x8x8x768.size a
  k0_off855_inb : ∀ k0_t3 : Fin k0_t3_loop.trips, ∀ a, (k0_off855 k0_t3) a + S1x1x1x16.size a ≤ S2x8x8x768.size a
  k0_off856_inb : ∀ k0_t3 : Fin k0_t3_loop.trips, ∀ a, (k0_off856 k0_t3) a + S1x1x1x16.size a ≤ S2x8x8x768.size a
  k0_off857_inb : ∀ k0_t3 : Fin k0_t3_loop.trips, ∀ a, (k0_off857 k0_t3) a + S1x1x1x16.size a ≤ S2x8x8x768.size a
  k0_off858_inb : ∀ k0_t3 : Fin k0_t3_loop.trips, ∀ a, (k0_off858 k0_t3) a + S1x1x1x16.size a ≤ S2x8x8x768.size a
  k0_off859_inb : ∀ k0_t3 : Fin k0_t3_loop.trips, ∀ a, (k0_off859 k0_t3) a + S1x1x1x16.size a ≤ S2x8x8x768.size a
  k0_off860_inb : ∀ k0_t3 : Fin k0_t3_loop.trips, ∀ a, (k0_off860 k0_t3) a + S1x1x1x16.size a ≤ S2x8x8x768.size a
  k0_off861_inb : ∀ k0_t3 : Fin k0_t3_loop.trips, ∀ a, (k0_off861 k0_t3) a + S1x1x1x16.size a ≤ S2x8x8x768.size a
  k0_off862_inb : ∀ k0_t3 : Fin k0_t3_loop.trips, ∀ a, (k0_off862 k0_t3) a + S1x16.size a ≤ S8x768.size a
  k0_off863_inb : ∀ k0_t3 : Fin k0_t3_loop.trips, ∀ a, (k0_off863 k0_t3) a + S1x1x1x16.size a ≤ S2x8x8x768.size a
  k0_off864_inb : ∀ k0_t3 : Fin k0_t3_loop.trips, ∀ a, (k0_off864 k0_t3) a + S1x1x1x16.size a ≤ S2x8x8x768.size a
  k0_off865_inb : ∀ k0_t3 : Fin k0_t3_loop.trips, ∀ a, (k0_off865 k0_t3) a + S1x1x1x16.size a ≤ S2x8x8x768.size a
  k0_off866_inb : ∀ k0_t3 : Fin k0_t3_loop.trips, ∀ a, (k0_off866 k0_t3) a + S1x1x1x16.size a ≤ S2x8x8x768.size a
  k0_off867_inb : ∀ k0_t3 : Fin k0_t3_loop.trips, ∀ a, (k0_off867 k0_t3) a + S1x1x1x16.size a ≤ S2x8x8x768.size a
  k0_off868_inb : ∀ k0_t3 : Fin k0_t3_loop.trips, ∀ a, (k0_off868 k0_t3) a + S1x1x1x16.size a ≤ S2x8x8x768.size a
  k0_off869_inb : ∀ k0_t3 : Fin k0_t3_loop.trips, ∀ a, (k0_off869 k0_t3) a + S1x1x1x16.size a ≤ S2x8x8x768.size a
  k0_off870_inb : ∀ k0_t3 : Fin k0_t3_loop.trips, ∀ a, (k0_off870 k0_t3) a + S1x1x1x16.size a ≤ S2x8x8x768.size a
  k0_off871_inb : ∀ k0_t3 : Fin k0_t3_loop.trips, ∀ a, (k0_off871 k0_t3) a + S1x16.size a ≤ S8x768.size a
  k0_off872_inb : ∀ k0_t3 : Fin k0_t3_loop.trips, ∀ a, (k0_off872 k0_t3) a + S1x1x1x16.size a ≤ S2x8x8x768.size a
  k0_off873_inb : ∀ k0_t3 : Fin k0_t3_loop.trips, ∀ a, (k0_off873 k0_t3) a + S1x1x1x16.size a ≤ S2x8x8x768.size a
  k0_off874_inb : ∀ k0_t3 : Fin k0_t3_loop.trips, ∀ a, (k0_off874 k0_t3) a + S1x1x1x16.size a ≤ S2x8x8x768.size a
  k0_off875_inb : ∀ k0_t3 : Fin k0_t3_loop.trips, ∀ a, (k0_off875 k0_t3) a + S1x1x1x16.size a ≤ S2x8x8x768.size a
  k0_off876_inb : ∀ k0_t3 : Fin k0_t3_loop.trips, ∀ a, (k0_off876 k0_t3) a + S1x1x1x16.size a ≤ S2x8x8x768.size a
  k0_off877_inb : ∀ k0_t3 : Fin k0_t3_loop.trips, ∀ a, (k0_off877 k0_t3) a + S1x1x1x16.size a ≤ S2x8x8x768.size a
  k0_off878_inb : ∀ k0_t3 : Fin k0_t3_loop.trips, ∀ a, (k0_off878 k0_t3) a + S1x1x1x16.size a ≤ S2x8x8x768.size a
  k0_off879_inb : ∀ k0_t3 : Fin k0_t3_loop.trips, ∀ a, (k0_off879 k0_t3) a + S1x1x1x16.size a ≤ S2x8x8x768.size a
  k0_off880_inb : ∀ k0_t3 : Fin k0_t3_loop.trips, ∀ a, (k0_off880 k0_t3) a + S1x8x1x768.size a ≤ S2x8x8x768.size a
  k0_off881_inb : ∀ (i : grid0.Coords) (k0_t1 : Fin k0_t1_loop.trips) (k0_t3 : Fin k0_t3_loop.trips), ∀ a, (k0_off881 i k0_t1 k0_t3) a + S1x8x768.size a ≤ S577x64x768.size a
  k0_off882_inb : ∀ i : grid0.Coords, ∀ (r₁ : Fin 8) (r₂ : Fin 2), ∀ a, (k0_off882 i (BitVec.ofNat 32 r₁.val) (BitVec.ofNat 32 (8 * r₂.val))) a + S1x8x768.size a ≤ S577x64x768.size a
  k0_off883_inb : ∀ i : grid0.Coords, ∀ (k0_h10 : k0_cond10 i = 1#1), ∀ (r : Fin 2), ∀ a, (k0_off883 i (BitVec.ofNat 32 (8 * r.val))) a + S1x8x768.size a ≤ S577x64x768.size a

class Shapes1.Facts₀ : Prop where
  inb_S2x8x8x768_S1x8x8x768_0_0_0_0 : ∀ a, (![0, 0, 0, 0] : Fin 4 → Nat) a + S1x8x8x768.size a ≤ S2x8x8x768.size a
  squeezes_S1x8x8x768_S8x8x768 : S1x8x8x768.Squeezes S8x8x768
  inb_S2_S1_0 : ∀ a, (![0] : Fin 1 → Nat) a + S1.size a ≤ S2.size a
  squeezes_S1_S_ : S1.Squeezes S_
  inb_S2x8x8x768_S1x8x1x768_1_0_0_0 : ∀ a, (![1, 0, 0, 0] : Fin 4 → Nat) a + S1x8x1x768.size a ≤ S2x8x8x768.size a
  squeezes_S1x8x1x768_S8x768 : S1x8x1x768.Squeezes S8x768
  squeezes_S1x8x768_S8x768 : S1x8x768.Squeezes S8x768
  inb_S2_S1_1 : ∀ a, (![1] : Fin 1 → Nat) a + S1.size a ≤ S2.size a
  inb_S2x8x8x768_S1x8x1x768_1_0_1_0 : ∀ a, (![1, 0, 1, 0] : Fin 4 → Nat) a + S1x8x1x768.size a ≤ S2x8x8x768.size a
  inb_S2x8x8x768_S1x8x1x768_1_0_2_0 : ∀ a, (![1, 0, 2, 0] : Fin 4 → Nat) a + S1x8x1x768.size a ≤ S2x8x8x768.size a
  inb_S2x8x8x768_S1x8x1x768_1_0_3_0 : ∀ a, (![1, 0, 3, 0] : Fin 4 → Nat) a + S1x8x1x768.size a ≤ S2x8x8x768.size a
  inb_S2x8x8x768_S1x8x1x768_1_0_4_0 : ∀ a, (![1, 0, 4, 0] : Fin 4 → Nat) a + S1x8x1x768.size a ≤ S2x8x8x768.size a
  inb_S2x8x8x768_S1x8x1x768_1_0_5_0 : ∀ a, (![1, 0, 5, 0] : Fin 4 → Nat) a + S1x8x1x768.size a ≤ S2x8x8x768.size a
  inb_S2x8x8x768_S1x8x1x768_1_0_6_0 : ∀ a, (![1, 0, 6, 0] : Fin 4 → Nat) a + S1x8x1x768.size a ≤ S2x8x8x768.size a
  inb_S2x8x8x768_S1x8x1x768_1_0_7_0 : ∀ a, (![1, 0, 7, 0] : Fin 4 → Nat) a + S1x8x1x768.size a ≤ S2x8x8x768.size a
  inb_S2x8x8x768_S1x8x8x768_1_0_0_0 : ∀ a, (![1, 0, 0, 0] : Fin 4 → Nat) a + S1x8x8x768.size a ≤ S2x8x8x768.size a
  h_S1x16 : 0 < S1x16.numel
  shapeCasts_S1x16_S16 : S1x16.ShapeCasts S16
  h_S1x1x1x16 : 0 < S1x1x1x16.numel
  shapeCasts_S1x1x1x16_S16 : S1x1x1x16.ShapeCasts S16
  shapeCasts_S16_S1x1x1x16 : S16.ShapeCasts S1x1x1x16
  inb_S2x8x8x768_S1x8x1x768_0_0_0_0 : ∀ a, (![0, 0, 0, 0] : Fin 4 → Nat) a + S1x8x1x768.size a ≤ S2x8x8x768.size a
  inb_S2x8x8x768_S1x8x1x768_0_0_1_0 : ∀ a, (![0, 0, 1, 0] : Fin 4 → Nat) a + S1x8x1x768.size a ≤ S2x8x8x768.size a
  inb_S2x8x8x768_S1x8x1x768_0_0_2_0 : ∀ a, (![0, 0, 2, 0] : Fin 4 → Nat) a + S1x8x1x768.size a ≤ S2x8x8x768.size a
  inb_S2x8x8x768_S1x8x1x768_0_0_3_0 : ∀ a, (![0, 0, 3, 0] : Fin 4 → Nat) a + S1x8x1x768.size a ≤ S2x8x8x768.size a
  inb_S2x8x8x768_S1x8x1x768_0_0_4_0 : ∀ a, (![0, 0, 4, 0] : Fin 4 → Nat) a + S1x8x1x768.size a ≤ S2x8x8x768.size a
  inb_S2x8x8x768_S1x8x1x768_0_0_5_0 : ∀ a, (![0, 0, 5, 0] : Fin 4 → Nat) a + S1x8x1x768.size a ≤ S2x8x8x768.size a
  inb_S2x8x8x768_S1x8x1x768_0_0_6_0 : ∀ a, (![0, 0, 6, 0] : Fin 4 → Nat) a + S1x8x1x768.size a ≤ S2x8x8x768.size a
  inb_S2x8x8x768_S1x8x1x768_0_0_7_0 : ∀ a, (![0, 0, 7, 0] : Fin 4 → Nat) a + S1x8x1x768.size a ≤ S2x8x8x768.size a
  inb_S2x8x8x768_S1x1x1x768_1_0_0_0 : ∀ a, (![1, 0, 0, 0] : Fin 4 → Nat) a + S1x1x1x768.size a ≤ S2x8x8x768.size a
  squeezes_S1x1x1x768_S1x768 : S1x1x1x768.Squeezes S1x768
  inb_S1x1x768_S1x1x768_0_0_0 : ∀ a, (![0, 0, 0] : Fin 3 → Nat) a + S1x1x768.size a ≤ S1x1x768.size a
  squeezes_S1x1x768_S1x768 : S1x1x768.Squeezes S1x768
  inb_S2x8x8x768_S1x1x1x768_1_0_1_0 : ∀ a, (![1, 0, 1, 0] : Fin 4 → Nat) a + S1x1x1x768.size a ≤ S2x8x8x768.size a
  inb_S577x768_S1x768_576_0 : ∀ a, (![576, 0] : Fin 2 → Nat) a + S1x768.size a ≤ S577x768.size a
  inb_S2x8x8x768_S1x1x1x16_1_0_0_0 : ∀ a, (![1, 0, 0, 0] : Fin 4 → Nat) a + S1x1x1x16.size a ≤ S2x8x8x768.size a
  inb_S2x8x8x768_S1x1x1x16_1_0_1_0 : ∀ a, (![1, 0, 1, 0] : Fin 4 → Nat) a + S1x1x1x16.size a ≤ S2x8x8x768.size a
  inb_S2x8x8x768_S1x1x1x16_0_0_0_0 : ∀ a, (![0, 0, 0, 0] : Fin 4 → Nat) a + S1x1x1x16.size a ≤ S2x8x8x768.size a
  inb_S2x8x8x768_S1x1x1x16_0_0_1_0 : ∀ a, (![0, 0, 1, 0] : Fin 4 → Nat) a + S1x1x1x16.size a ≤ S2x8x8x768.size a
  inb_S2x8x8x768_S1x1x1x16_0_0_2_0 : ∀ a, (![0, 0, 2, 0] : Fin 4 → Nat) a + S1x1x1x16.size a ≤ S2x8x8x768.size a
  inb_S2x8x8x768_S1x1x1x16_0_0_3_0 : ∀ a, (![0, 0, 3, 0] : Fin 4 → Nat) a + S1x1x1x16.size a ≤ S2x8x8x768.size a
  inb_S2x8x8x768_S1x1x1x16_0_0_4_0 : ∀ a, (![0, 0, 4, 0] : Fin 4 → Nat) a + S1x1x1x16.size a ≤ S2x8x8x768.size a
  inb_S2x8x8x768_S1x1x1x16_0_0_5_0 : ∀ a, (![0, 0, 5, 0] : Fin 4 → Nat) a + S1x1x1x16.size a ≤ S2x8x8x768.size a
  inb_S2x8x8x768_S1x1x1x16_0_0_6_0 : ∀ a, (![0, 0, 6, 0] : Fin 4 → Nat) a + S1x1x1x16.size a ≤ S2x8x8x768.size a
  inb_S2x8x8x768_S1x1x1x16_0_0_7_0 : ∀ a, (![0, 0, 7, 0] : Fin 4 → Nat) a + S1x1x1x16.size a ≤ S2x8x8x768.size a
  inb_S2x8x8x768_S1x1x1x16_1_0_0_16 : ∀ a, (![1, 0, 0, 16] : Fin 4 → Nat) a + S1x1x1x16.size a ≤ S2x8x8x768.size a
  inb_S2x8x8x768_S1x1x1x16_1_0_1_16 : ∀ a, (![1, 0, 1, 16] : Fin 4 → Nat) a + S1x1x1x16.size a ≤ S2x8x8x768.size a
  inb_S2x8x8x768_S1x1x1x16_0_0_0_16 : ∀ a, (![0, 0, 0, 16] : Fin 4 → Nat) a + S1x1x1x16.size a ≤ S2x8x8x768.size a
  inb_S2x8x8x768_S1x1x1x16_0_0_1_16 : ∀ a, (![0, 0, 1, 16] : Fin 4 → Nat) a + S1x1x1x16.size a ≤ S2x8x8x768.size a
  inb_S2x8x8x768_S1x1x1x16_0_0_2_16 : ∀ a, (![0, 0, 2, 16] : Fin 4 → Nat) a + S1x1x1x16.size a ≤ S2x8x8x768.size a
  inb_S2x8x8x768_S1x1x1x16_0_0_3_16 : ∀ a, (![0, 0, 3, 16] : Fin 4 → Nat) a + S1x1x1x16.size a ≤ S2x8x8x768.size a
  inb_S2x8x8x768_S1x1x1x16_0_0_4_16 : ∀ a, (![0, 0, 4, 16] : Fin 4 → Nat) a + S1x1x1x16.size a ≤ S2x8x8x768.size a
  inb_S2x8x8x768_S1x1x1x16_0_0_5_16 : ∀ a, (![0, 0, 5, 16] : Fin 4 → Nat) a + S1x1x1x16.size a ≤ S2x8x8x768.size a
  inb_S2x8x8x768_S1x1x1x16_0_0_6_16 : ∀ a, (![0, 0, 6, 16] : Fin 4 → Nat) a + S1x1x1x16.size a ≤ S2x8x8x768.size a
  inb_S2x8x8x768_S1x1x1x16_0_0_7_16 : ∀ a, (![0, 0, 7, 16] : Fin 4 → Nat) a + S1x1x1x16.size a ≤ S2x8x8x768.size a
  inb_S2x8x8x768_S1x1x1x16_1_0_0_32 : ∀ a, (![1, 0, 0, 32] : Fin 4 → Nat) a + S1x1x1x16.size a ≤ S2x8x8x768.size a
  inb_S2x8x8x768_S1x1x1x16_1_0_1_32 : ∀ a, (![1, 0, 1, 32] : Fin 4 → Nat) a + S1x1x1x16.size a ≤ S2x8x8x768.size a
  inb_S2x8x8x768_S1x1x1x16_0_0_0_32 : ∀ a, (![0, 0, 0, 32] : Fin 4 → Nat) a + S1x1x1x16.size a ≤ S2x8x8x768.size a
  inb_S2x8x8x768_S1x1x1x16_0_0_1_32 : ∀ a, (![0, 0, 1, 32] : Fin 4 → Nat) a + S1x1x1x16.size a ≤ S2x8x8x768.size a
  inb_S2x8x8x768_S1x1x1x16_0_0_2_32 : ∀ a, (![0, 0, 2, 32] : Fin 4 → Nat) a + S1x1x1x16.size a ≤ S2x8x8x768.size a
  inb_S2x8x8x768_S1x1x1x16_0_0_3_32 : ∀ a, (![0, 0, 3, 32] : Fin 4 → Nat) a + S1x1x1x16.size a ≤ S2x8x8x768.size a
  inb_S2x8x8x768_S1x1x1x16_0_0_4_32 : ∀ a, (![0, 0, 4, 32] : Fin 4 → Nat) a + S1x1x1x16.size a ≤ S2x8x8x768.size a
  inb_S2x8x8x768_S1x1x1x16_0_0_5_32 : ∀ a, (![0, 0, 5, 32] : Fin 4 → Nat) a + S1x1x1x16.size a ≤ S2x8x8x768.size a
  inb_S2x8x8x768_S1x1x1x16_0_0_6_32 : ∀ a, (![0, 0, 6, 32] : Fin 4 → Nat) a + S1x1x1x16.size a ≤ S2x8x8x768.size a
  inb_S2x8x8x768_S1x1x1x16_0_0_7_32 : ∀ a, (![0, 0, 7, 32] : Fin 4 → Nat) a + S1x1x1x16.size a ≤ S2x8x8x768.size a
  inb_S2x8x8x768_S1x1x1x16_1_0_0_48 : ∀ a, (![1, 0, 0, 48] : Fin 4 → Nat) a + S1x1x1x16.size a ≤ S2x8x8x768.size a
  inb_S2x8x8x768_S1x1x1x16_1_0_1_48 : ∀ a, (![1, 0, 1, 48] : Fin 4 → Nat) a + S1x1x1x16.size a ≤ S2x8x8x768.size a
  inb_S2x8x8x768_S1x1x1x16_0_0_0_48 : ∀ a, (![0, 0, 0, 48] : Fin 4 → Nat) a + S1x1x1x16.size a ≤ S2x8x8x768.size a
  inb_S2x8x8x768_S1x1x1x16_0_0_1_48 : ∀ a, (![0, 0, 1, 48] : Fin 4 → Nat) a + S1x1x1x16.size a ≤ S2x8x8x768.size a
  inb_S2x8x8x768_S1x1x1x16_0_0_2_48 : ∀ a, (![0, 0, 2, 48] : Fin 4 → Nat) a + S1x1x1x16.size a ≤ S2x8x8x768.size a
  inb_S2x8x8x768_S1x1x1x16_0_0_3_48 : ∀ a, (![0, 0, 3, 48] : Fin 4 → Nat) a + S1x1x1x16.size a ≤ S2x8x8x768.size a
  inb_S2x8x8x768_S1x1x1x16_0_0_4_48 : ∀ a, (![0, 0, 4, 48] : Fin 4 → Nat) a + S1x1x1x16.size a ≤ S2x8x8x768.size a
  inb_S2x8x8x768_S1x1x1x16_0_0_5_48 : ∀ a, (![0, 0, 5, 48] : Fin 4 → Nat) a + S1x1x1x16.size a ≤ S2x8x8x768.size a
  inb_S2x8x8x768_S1x1x1x16_0_0_6_48 : ∀ a, (![0, 0, 6, 48] : Fin 4 → Nat) a + S1x1x1x16.size a ≤ S2x8x8x768.size a
  inb_S2x8x8x768_S1x1x1x16_0_0_7_48 : ∀ a, (![0, 0, 7, 48] : Fin 4 → Nat) a + S1x1x1x16.size a ≤ S2x8x8x768.size a
  inb_S2x8x8x768_S1x1x1x16_1_0_0_64 : ∀ a, (![1, 0, 0, 64] : Fin 4 → Nat) a + S1x1x1x16.size a ≤ S2x8x8x768.size a
  inb_S2x8x8x768_S1x1x1x16_1_0_1_64 : ∀ a, (![1, 0, 1, 64] : Fin 4 → Nat) a + S1x1x1x16.size a ≤ S2x8x8x768.size a
  inb_S2x8x8x768_S1x1x1x16_0_0_0_64 : ∀ a, (![0, 0, 0, 64] : Fin 4 → Nat) a + S1x1x1x16.size a ≤ S2x8x8x768.size a
  inb_S2x8x8x768_S1x1x1x16_0_0_1_64 : ∀ a, (![0, 0, 1, 64] : Fin 4 → Nat) a + S1x1x1x16.size a ≤ S2x8x8x768.size a
  inb_S2x8x8x768_S1x1x1x16_0_0_2_64 : ∀ a, (![0, 0, 2, 64] : Fin 4 → Nat) a + S1x1x1x16.size a ≤ S2x8x8x768.size a
  inb_S2x8x8x768_S1x1x1x16_0_0_3_64 : ∀ a, (![0, 0, 3, 64] : Fin 4 → Nat) a + S1x1x1x16.size a ≤ S2x8x8x768.size a
  inb_S2x8x8x768_S1x1x1x16_0_0_4_64 : ∀ a, (![0, 0, 4, 64] : Fin 4 → Nat) a + S1x1x1x16.size a ≤ S2x8x8x768.size a
  inb_S2x8x8x768_S1x1x1x16_0_0_5_64 : ∀ a, (![0, 0, 5, 64] : Fin 4 → Nat) a + S1x1x1x16.size a ≤ S2x8x8x768.size a
  inb_S2x8x8x768_S1x1x1x16_0_0_6_64 : ∀ a, (![0, 0, 6, 64] : Fin 4 → Nat) a + S1x1x1x16.size a ≤ S2x8x8x768.size a
  inb_S2x8x8x768_S1x1x1x16_0_0_7_64 : ∀ a, (![0, 0, 7, 64] : Fin 4 → Nat) a + S1x1x1x16.size a ≤ S2x8x8x768.size a
  inb_S2x8x8x768_S1x1x1x16_1_0_0_80 : ∀ a, (![1, 0, 0, 80] : Fin 4 → Nat) a + S1x1x1x16.size a ≤ S2x8x8x768.size a
  inb_S2x8x8x768_S1x1x1x16_1_0_1_80 : ∀ a, (![1, 0, 1, 80] : Fin 4 → Nat) a + S1x1x1x16.size a ≤ S2x8x8x768.size a
  inb_S2x8x8x768_S1x1x1x16_0_0_0_80 : ∀ a, (![0, 0, 0, 80] : Fin 4 → Nat) a + S1x1x1x16.size a ≤ S2x8x8x768.size a
  inb_S2x8x8x768_S1x1x1x16_0_0_1_80 : ∀ a, (![0, 0, 1, 80] : Fin 4 → Nat) a + S1x1x1x16.size a ≤ S2x8x8x768.size a
  inb_S2x8x8x768_S1x1x1x16_0_0_2_80 : ∀ a, (![0, 0, 2, 80] : Fin 4 → Nat) a + S1x1x1x16.size a ≤ S2x8x8x768.size a
  inb_S2x8x8x768_S1x1x1x16_0_0_3_80 : ∀ a, (![0, 0, 3, 80] : Fin 4 → Nat) a + S1x1x1x16.size a ≤ S2x8x8x768.size a
  inb_S2x8x8x768_S1x1x1x16_0_0_4_80 : ∀ a, (![0, 0, 4, 80] : Fin 4 → Nat) a + S1x1x1x16.size a ≤ S2x8x8x768.size a
  inb_S2x8x8x768_S1x1x1x16_0_0_5_80 : ∀ a, (![0, 0, 5, 80] : Fin 4 → Nat) a + S1x1x1x16.size a ≤ S2x8x8x768.size a
  inb_S2x8x8x768_S1x1x1x16_0_0_6_80 : ∀ a, (![0, 0, 6, 80] : Fin 4 → Nat) a + S1x1x1x16.size a ≤ S2x8x8x768.size a
  inb_S2x8x8x768_S1x1x1x16_0_0_7_80 : ∀ a, (![0, 0, 7, 80] : Fin 4 → Nat) a + S1x1x1x16.size a ≤ S2x8x8x768.size a
  inb_S2x8x8x768_S1x1x1x16_1_0_0_96 : ∀ a, (![1, 0, 0, 96] : Fin 4 → Nat) a + S1x1x1x16.size a ≤ S2x8x8x768.size a
  inb_S2x8x8x768_S1x1x1x16_1_0_1_96 : ∀ a, (![1, 0, 1, 96] : Fin 4 → Nat) a + S1x1x1x16.size a ≤ S2x8x8x768.size a
  inb_S2x8x8x768_S1x1x1x16_0_0_0_96 : ∀ a, (![0, 0, 0, 96] : Fin 4 → Nat) a + S1x1x1x16.size a ≤ S2x8x8x768.size a
  inb_S2x8x8x768_S1x1x1x16_0_0_1_96 : ∀ a, (![0, 0, 1, 96] : Fin 4 → Nat) a + S1x1x1x16.size a ≤ S2x8x8x768.size a
  inb_S2x8x8x768_S1x1x1x16_0_0_2_96 : ∀ a, (![0, 0, 2, 96] : Fin 4 → Nat) a + S1x1x1x16.size a ≤ S2x8x8x768.size a
  inb_S2x8x8x768_S1x1x1x16_0_0_3_96 : ∀ a, (![0, 0, 3, 96] : Fin 4 → Nat) a + S1x1x1x16.size a ≤ S2x8x8x768.size a
  inb_S2x8x8x768_S1x1x1x16_0_0_4_96 : ∀ a, (![0, 0, 4, 96] : Fin 4 → Nat) a + S1x1x1x16.size a ≤ S2x8x8x768.size a
  inb_S2x8x8x768_S1x1x1x16_0_0_5_96 : ∀ a, (![0, 0, 5, 96] : Fin 4 → Nat) a + S1x1x1x16.size a ≤ S2x8x8x768.size a
  inb_S2x8x8x768_S1x1x1x16_0_0_6_96 : ∀ a, (![0, 0, 6, 96] : Fin 4 → Nat) a + S1x1x1x16.size a ≤ S2x8x8x768.size a
  inb_S2x8x8x768_S1x1x1x16_0_0_7_96 : ∀ a, (![0, 0, 7, 96] : Fin 4 → Nat) a + S1x1x1x16.size a ≤ S2x8x8x768.size a
  inb_S2x8x8x768_S1x1x1x16_1_0_0_112 : ∀ a, (![1, 0, 0, 112] : Fin 4 → Nat) a + S1x1x1x16.size a ≤ S2x8x8x768.size a
  inb_S2x8x8x768_S1x1x1x16_1_0_1_112 : ∀ a, (![1, 0, 1, 112] : Fin 4 → Nat) a + S1x1x1x16.size a ≤ S2x8x8x768.size a
  inb_S2x8x8x768_S1x1x1x16_0_0_0_112 : ∀ a, (![0, 0, 0, 112] : Fin 4 → Nat) a + S1x1x1x16.size a ≤ S2x8x8x768.size a
  inb_S2x8x8x768_S1x1x1x16_0_0_1_112 : ∀ a, (![0, 0, 1, 112] : Fin 4 → Nat) a + S1x1x1x16.size a ≤ S2x8x8x768.size a
  inb_S2x8x8x768_S1x1x1x16_0_0_2_112 : ∀ a, (![0, 0, 2, 112] : Fin 4 → Nat) a + S1x1x1x16.size a ≤ S2x8x8x768.size a
  inb_S2x8x8x768_S1x1x1x16_0_0_3_112 : ∀ a, (![0, 0, 3, 112] : Fin 4 → Nat) a + S1x1x1x16.size a ≤ S2x8x8x768.size a
  inb_S2x8x8x768_S1x1x1x16_0_0_4_112 : ∀ a, (![0, 0, 4, 112] : Fin 4 → Nat) a + S1x1x1x16.size a ≤ S2x8x8x768.size a
  inb_S2x8x8x768_S1x1x1x16_0_0_5_112 : ∀ a, (![0, 0, 5, 112] : Fin 4 → Nat) a + S1x1x1x16.size a ≤ S2x8x8x768.size a
  inb_S2x8x8x768_S1x1x1x16_0_0_6_112 : ∀ a, (![0, 0, 6, 112] : Fin 4 → Nat) a + S1x1x1x16.size a ≤ S2x8x8x768.size a
  inb_S2x8x8x768_S1x1x1x16_0_0_7_112 : ∀ a, (![0, 0, 7, 112] : Fin 4 → Nat) a + S1x1x1x16.size a ≤ S2x8x8x768.size a
  inb_S2x8x8x768_S1x1x1x16_1_0_0_128 : ∀ a, (![1, 0, 0, 128] : Fin 4 → Nat) a + S1x1x1x16.size a ≤ S2x8x8x768.size a
  inb_S2x8x8x768_S1x1x1x16_1_0_1_128 : ∀ a, (![1, 0, 1, 128] : Fin 4 → Nat) a + S1x1x1x16.size a ≤ S2x8x8x768.size a
  inb_S2x8x8x768_S1x1x1x16_0_0_0_128 : ∀ a, (![0, 0, 0, 128] : Fin 4 → Nat) a + S1x1x1x16.size a ≤ S2x8x8x768.size a
  inb_S2x8x8x768_S1x1x1x16_0_0_1_128 : ∀ a, (![0, 0, 1, 128] : Fin 4 → Nat) a + S1x1x1x16.size a ≤ S2x8x8x768.size a
  inb_S2x8x8x768_S1x1x1x16_0_0_2_128 : ∀ a, (![0, 0, 2, 128] : Fin 4 → Nat) a + S1x1x1x16.size a ≤ S2x8x8x768.size a
  inb_S2x8x8x768_S1x1x1x16_0_0_3_128 : ∀ a, (![0, 0, 3, 128] : Fin 4 → Nat) a + S1x1x1x16.size a ≤ S2x8x8x768.size a
  inb_S2x8x8x768_S1x1x1x16_0_0_4_128 : ∀ a, (![0, 0, 4, 128] : Fin 4 → Nat) a + S1x1x1x16.size a ≤ S2x8x8x768.size a
  inb_S2x8x8x768_S1x1x1x16_0_0_5_128 : ∀ a, (![0, 0, 5, 128] : Fin 4 → Nat) a + S1x1x1x16.size a ≤ S2x8x8x768.size a
  inb_S2x8x8x768_S1x1x1x16_0_0_6_128 : ∀ a, (![0, 0, 6, 128] : Fin 4 → Nat) a + S1x1x1x16.size a ≤ S2x8x8x768.size a
  inb_S2x8x8x768_S1x1x1x16_0_0_7_128 : ∀ a, (![0, 0, 7, 128] : Fin 4 → Nat) a + S1x1x1x16.size a ≤ S2x8x8x768.size a
  inb_S2x8x8x768_S1x1x1x16_1_0_0_144 : ∀ a, (![1, 0, 0, 144] : Fin 4 → Nat) a + S1x1x1x16.size a ≤ S2x8x8x768.size a
  inb_S2x8x8x768_S1x1x1x16_1_0_1_144 : ∀ a, (![1, 0, 1, 144] : Fin 4 → Nat) a + S1x1x1x16.size a ≤ S2x8x8x768.size a
  inb_S2x8x8x768_S1x1x1x16_0_0_0_144 : ∀ a, (![0, 0, 0, 144] : Fin 4 → Nat) a + S1x1x1x16.size a ≤ S2x8x8x768.size a
  inb_S2x8x8x768_S1x1x1x16_0_0_1_144 : ∀ a, (![0, 0, 1, 144] : Fin 4 → Nat) a + S1x1x1x16.size a ≤ S2x8x8x768.size a
  inb_S2x8x8x768_S1x1x1x16_0_0_2_144 : ∀ a, (![0, 0, 2, 144] : Fin 4 → Nat) a + S1x1x1x16.size a ≤ S2x8x8x768.size a
  inb_S2x8x8x768_S1x1x1x16_0_0_3_144 : ∀ a, (![0, 0, 3, 144] : Fin 4 → Nat) a + S1x1x1x16.size a ≤ S2x8x8x768.size a
  inb_S2x8x8x768_S1x1x1x16_0_0_4_144 : ∀ a, (![0, 0, 4, 144] : Fin 4 → Nat) a + S1x1x1x16.size a ≤ S2x8x8x768.size a
  inb_S2x8x8x768_S1x1x1x16_0_0_5_144 : ∀ a, (![0, 0, 5, 144] : Fin 4 → Nat) a + S1x1x1x16.size a ≤ S2x8x8x768.size a
  inb_S2x8x8x768_S1x1x1x16_0_0_6_144 : ∀ a, (![0, 0, 6, 144] : Fin 4 → Nat) a + S1x1x1x16.size a ≤ S2x8x8x768.size a
  inb_S2x8x8x768_S1x1x1x16_0_0_7_144 : ∀ a, (![0, 0, 7, 144] : Fin 4 → Nat) a + S1x1x1x16.size a ≤ S2x8x8x768.size a
  inb_S2x8x8x768_S1x1x1x16_1_0_0_160 : ∀ a, (![1, 0, 0, 160] : Fin 4 → Nat) a + S1x1x1x16.size a ≤ S2x8x8x768.size a
  inb_S2x8x8x768_S1x1x1x16_1_0_1_160 : ∀ a, (![1, 0, 1, 160] : Fin 4 → Nat) a + S1x1x1x16.size a ≤ S2x8x8x768.size a
  inb_S2x8x8x768_S1x1x1x16_0_0_0_160 : ∀ a, (![0, 0, 0, 160] : Fin 4 → Nat) a + S1x1x1x16.size a ≤ S2x8x8x768.size a
  inb_S2x8x8x768_S1x1x1x16_0_0_1_160 : ∀ a, (![0, 0, 1, 160] : Fin 4 → Nat) a + S1x1x1x16.size a ≤ S2x8x8x768.size a
  inb_S2x8x8x768_S1x1x1x16_0_0_2_160 : ∀ a, (![0, 0, 2, 160] : Fin 4 → Nat) a + S1x1x1x16.size a ≤ S2x8x8x768.size a
  inb_S2x8x8x768_S1x1x1x16_0_0_3_160 : ∀ a, (![0, 0, 3, 160] : Fin 4 → Nat) a + S1x1x1x16.size a ≤ S2x8x8x768.size a
  inb_S2x8x8x768_S1x1x1x16_0_0_4_160 : ∀ a, (![0, 0, 4, 160] : Fin 4 → Nat) a + S1x1x1x16.size a ≤ S2x8x8x768.size a
  inb_S2x8x8x768_S1x1x1x16_0_0_5_160 : ∀ a, (![0, 0, 5, 160] : Fin 4 → Nat) a + S1x1x1x16.size a ≤ S2x8x8x768.size a
  inb_S2x8x8x768_S1x1x1x16_0_0_6_160 : ∀ a, (![0, 0, 6, 160] : Fin 4 → Nat) a + S1x1x1x16.size a ≤ S2x8x8x768.size a
  inb_S2x8x8x768_S1x1x1x16_0_0_7_160 : ∀ a, (![0, 0, 7, 160] : Fin 4 → Nat) a + S1x1x1x16.size a ≤ S2x8x8x768.size a
  inb_S2x8x8x768_S1x1x1x16_1_0_0_176 : ∀ a, (![1, 0, 0, 176] : Fin 4 → Nat) a + S1x1x1x16.size a ≤ S2x8x8x768.size a
  inb_S2x8x8x768_S1x1x1x16_1_0_1_176 : ∀ a, (![1, 0, 1, 176] : Fin 4 → Nat) a + S1x1x1x16.size a ≤ S2x8x8x768.size a
  inb_S2x8x8x768_S1x1x1x16_0_0_0_176 : ∀ a, (![0, 0, 0, 176] : Fin 4 → Nat) a + S1x1x1x16.size a ≤ S2x8x8x768.size a
  inb_S2x8x8x768_S1x1x1x16_0_0_1_176 : ∀ a, (![0, 0, 1, 176] : Fin 4 → Nat) a + S1x1x1x16.size a ≤ S2x8x8x768.size a
  inb_S2x8x8x768_S1x1x1x16_0_0_2_176 : ∀ a, (![0, 0, 2, 176] : Fin 4 → Nat) a + S1x1x1x16.size a ≤ S2x8x8x768.size a
  inb_S2x8x8x768_S1x1x1x16_0_0_3_176 : ∀ a, (![0, 0, 3, 176] : Fin 4 → Nat) a + S1x1x1x16.size a ≤ S2x8x8x768.size a
  inb_S2x8x8x768_S1x1x1x16_0_0_4_176 : ∀ a, (![0, 0, 4, 176] : Fin 4 → Nat) a + S1x1x1x16.size a ≤ S2x8x8x768.size a
  inb_S2x8x8x768_S1x1x1x16_0_0_5_176 : ∀ a, (![0, 0, 5, 176] : Fin 4 → Nat) a + S1x1x1x16.size a ≤ S2x8x8x768.size a
  inb_S2x8x8x768_S1x1x1x16_0_0_6_176 : ∀ a, (![0, 0, 6, 176] : Fin 4 → Nat) a + S1x1x1x16.size a ≤ S2x8x8x768.size a
  inb_S2x8x8x768_S1x1x1x16_0_0_7_176 : ∀ a, (![0, 0, 7, 176] : Fin 4 → Nat) a + S1x1x1x16.size a ≤ S2x8x8x768.size a
  inb_S2x8x8x768_S1x1x1x16_1_0_0_192 : ∀ a, (![1, 0, 0, 192] : Fin 4 → Nat) a + S1x1x1x16.size a ≤ S2x8x8x768.size a
  inb_S2x8x8x768_S1x1x1x16_1_0_1_192 : ∀ a, (![1, 0, 1, 192] : Fin 4 → Nat) a + S1x1x1x16.size a ≤ S2x8x8x768.size a
  inb_S2x8x8x768_S1x1x1x16_0_0_0_192 : ∀ a, (![0, 0, 0, 192] : Fin 4 → Nat) a + S1x1x1x16.size a ≤ S2x8x8x768.size a
  inb_S2x8x8x768_S1x1x1x16_0_0_1_192 : ∀ a, (![0, 0, 1, 192] : Fin 4 → Nat) a + S1x1x1x16.size a ≤ S2x8x8x768.size a
  inb_S2x8x8x768_S1x1x1x16_0_0_2_192 : ∀ a, (![0, 0, 2, 192] : Fin 4 → Nat) a + S1x1x1x16.size a ≤ S2x8x8x768.size a
  inb_S2x8x8x768_S1x1x1x16_0_0_3_192 : ∀ a, (![0, 0, 3, 192] : Fin 4 → Nat) a + S1x1x1x16.size a ≤ S2x8x8x768.size a
  inb_S2x8x8x768_S1x1x1x16_0_0_4_192 : ∀ a, (![0, 0, 4, 192] : Fin 4 → Nat) a + S1x1x1x16.size a ≤ S2x8x8x768.size a
  inb_S2x8x8x768_S1x1x1x16_0_0_5_192 : ∀ a, (![0, 0, 5, 192] : Fin 4 → Nat) a + S1x1x1x16.size a ≤ S2x8x8x768.size a
  inb_S2x8x8x768_S1x1x1x16_0_0_6_192 : ∀ a, (![0, 0, 6, 192] : Fin 4 → Nat) a + S1x1x1x16.size a ≤ S2x8x8x768.size a
  inb_S2x8x8x768_S1x1x1x16_0_0_7_192 : ∀ a, (![0, 0, 7, 192] : Fin 4 → Nat) a + S1x1x1x16.size a ≤ S2x8x8x768.size a
  inb_S2x8x8x768_S1x1x1x16_1_0_0_208 : ∀ a, (![1, 0, 0, 208] : Fin 4 → Nat) a + S1x1x1x16.size a ≤ S2x8x8x768.size a
  inb_S2x8x8x768_S1x1x1x16_1_0_1_208 : ∀ a, (![1, 0, 1, 208] : Fin 4 → Nat) a + S1x1x1x16.size a ≤ S2x8x8x768.size a
  inb_S2x8x8x768_S1x1x1x16_0_0_0_208 : ∀ a, (![0, 0, 0, 208] : Fin 4 → Nat) a + S1x1x1x16.size a ≤ S2x8x8x768.size a
  inb_S2x8x8x768_S1x1x1x16_0_0_1_208 : ∀ a, (![0, 0, 1, 208] : Fin 4 → Nat) a + S1x1x1x16.size a ≤ S2x8x8x768.size a
  inb_S2x8x8x768_S1x1x1x16_0_0_2_208 : ∀ a, (![0, 0, 2, 208] : Fin 4 → Nat) a + S1x1x1x16.size a ≤ S2x8x8x768.size a
  inb_S2x8x8x768_S1x1x1x16_0_0_3_208 : ∀ a, (![0, 0, 3, 208] : Fin 4 → Nat) a + S1x1x1x16.size a ≤ S2x8x8x768.size a
  inb_S2x8x8x768_S1x1x1x16_0_0_4_208 : ∀ a, (![0, 0, 4, 208] : Fin 4 → Nat) a + S1x1x1x16.size a ≤ S2x8x8x768.size a
  inb_S2x8x8x768_S1x1x1x16_0_0_5_208 : ∀ a, (![0, 0, 5, 208] : Fin 4 → Nat) a + S1x1x1x16.size a ≤ S2x8x8x768.size a
  inb_S2x8x8x768_S1x1x1x16_0_0_6_208 : ∀ a, (![0, 0, 6, 208] : Fin 4 → Nat) a + S1x1x1x16.size a ≤ S2x8x8x768.size a
  inb_S2x8x8x768_S1x1x1x16_0_0_7_208 : ∀ a, (![0, 0, 7, 208] : Fin 4 → Nat) a + S1x1x1x16.size a ≤ S2x8x8x768.size a
  inb_S2x8x8x768_S1x1x1x16_1_0_0_224 : ∀ a, (![1, 0, 0, 224] : Fin 4 → Nat) a + S1x1x1x16.size a ≤ S2x8x8x768.size a
  inb_S2x8x8x768_S1x1x1x16_1_0_1_224 : ∀ a, (![1, 0, 1, 224] : Fin 4 → Nat) a + S1x1x1x16.size a ≤ S2x8x8x768.size a
  inb_S2x8x8x768_S1x1x1x16_0_0_0_224 : ∀ a, (![0, 0, 0, 224] : Fin 4 → Nat) a + S1x1x1x16.size a ≤ S2x8x8x768.size a
  inb_S2x8x8x768_S1x1x1x16_0_0_1_224 : ∀ a, (![0, 0, 1, 224] : Fin 4 → Nat) a + S1x1x1x16.size a ≤ S2x8x8x768.size a
  inb_S2x8x8x768_S1x1x1x16_0_0_2_224 : ∀ a, (![0, 0, 2, 224] : Fin 4 → Nat) a + S1x1x1x16.size a ≤ S2x8x8x768.size a
  inb_S2x8x8x768_S1x1x1x16_0_0_3_224 : ∀ a, (![0, 0, 3, 224] : Fin 4 → Nat) a + S1x1x1x16.size a ≤ S2x8x8x768.size a
  inb_S2x8x8x768_S1x1x1x16_0_0_4_224 : ∀ a, (![0, 0, 4, 224] : Fin 4 → Nat) a + S1x1x1x16.size a ≤ S2x8x8x768.size a
  inb_S2x8x8x768_S1x1x1x16_0_0_5_224 : ∀ a, (![0, 0, 5, 224] : Fin 4 → Nat) a + S1x1x1x16.size a ≤ S2x8x8x768.size a
  inb_S2x8x8x768_S1x1x1x16_0_0_6_224 : ∀ a, (![0, 0, 6, 224] : Fin 4 → Nat) a + S1x1x1x16.size a ≤ S2x8x8x768.size a
  inb_S2x8x8x768_S1x1x1x16_0_0_7_224 : ∀ a, (![0, 0, 7, 224] : Fin 4 → Nat) a + S1x1x1x16.size a ≤ S2x8x8x768.size a
  inb_S2x8x8x768_S1x1x1x16_1_0_0_240 : ∀ a, (![1, 0, 0, 240] : Fin 4 → Nat) a + S1x1x1x16.size a ≤ S2x8x8x768.size a
  inb_S2x8x8x768_S1x1x1x16_1_0_1_240 : ∀ a, (![1, 0, 1, 240] : Fin 4 → Nat) a + S1x1x1x16.size a ≤ S2x8x8x768.size a
  inb_S2x8x8x768_S1x1x1x16_0_0_0_240 : ∀ a, (![0, 0, 0, 240] : Fin 4 → Nat) a + S1x1x1x16.size a ≤ S2x8x8x768.size a
  inb_S2x8x8x768_S1x1x1x16_0_0_1_240 : ∀ a, (![0, 0, 1, 240] : Fin 4 → Nat) a + S1x1x1x16.size a ≤ S2x8x8x768.size a
  inb_S2x8x8x768_S1x1x1x16_0_0_2_240 : ∀ a, (![0, 0, 2, 240] : Fin 4 → Nat) a + S1x1x1x16.size a ≤ S2x8x8x768.size a
  inb_S2x8x8x768_S1x1x1x16_0_0_3_240 : ∀ a, (![0, 0, 3, 240] : Fin 4 → Nat) a + S1x1x1x16.size a ≤ S2x8x8x768.size a
  inb_S2x8x8x768_S1x1x1x16_0_0_4_240 : ∀ a, (![0, 0, 4, 240] : Fin 4 → Nat) a + S1x1x1x16.size a ≤ S2x8x8x768.size a
  inb_S2x8x8x768_S1x1x1x16_0_0_5_240 : ∀ a, (![0, 0, 5, 240] : Fin 4 → Nat) a + S1x1x1x16.size a ≤ S2x8x8x768.size a
  inb_S2x8x8x768_S1x1x1x16_0_0_6_240 : ∀ a, (![0, 0, 6, 240] : Fin 4 → Nat) a + S1x1x1x16.size a ≤ S2x8x8x768.size a
  inb_S2x8x8x768_S1x1x1x16_0_0_7_240 : ∀ a, (![0, 0, 7, 240] : Fin 4 → Nat) a + S1x1x1x16.size a ≤ S2x8x8x768.size a
  inb_S2x8x8x768_S1x1x1x16_1_0_0_256 : ∀ a, (![1, 0, 0, 256] : Fin 4 → Nat) a + S1x1x1x16.size a ≤ S2x8x8x768.size a
  inb_S2x8x8x768_S1x1x1x16_1_0_1_256 : ∀ a, (![1, 0, 1, 256] : Fin 4 → Nat) a + S1x1x1x16.size a ≤ S2x8x8x768.size a
  inb_S2x8x8x768_S1x1x1x16_0_0_0_256 : ∀ a, (![0, 0, 0, 256] : Fin 4 → Nat) a + S1x1x1x16.size a ≤ S2x8x8x768.size a
  inb_S2x8x8x768_S1x1x1x16_0_0_1_256 : ∀ a, (![0, 0, 1, 256] : Fin 4 → Nat) a + S1x1x1x16.size a ≤ S2x8x8x768.size a
  inb_S2x8x8x768_S1x1x1x16_0_0_2_256 : ∀ a, (![0, 0, 2, 256] : Fin 4 → Nat) a + S1x1x1x16.size a ≤ S2x8x8x768.size a
  inb_S2x8x8x768_S1x1x1x16_0_0_3_256 : ∀ a, (![0, 0, 3, 256] : Fin 4 → Nat) a + S1x1x1x16.size a ≤ S2x8x8x768.size a
  inb_S2x8x8x768_S1x1x1x16_0_0_4_256 : ∀ a, (![0, 0, 4, 256] : Fin 4 → Nat) a + S1x1x1x16.size a ≤ S2x8x8x768.size a
  inb_S2x8x8x768_S1x1x1x16_0_0_5_256 : ∀ a, (![0, 0, 5, 256] : Fin 4 → Nat) a + S1x1x1x16.size a ≤ S2x8x8x768.size a
  inb_S2x8x8x768_S1x1x1x16_0_0_6_256 : ∀ a, (![0, 0, 6, 256] : Fin 4 → Nat) a + S1x1x1x16.size a ≤ S2x8x8x768.size a
  inb_S2x8x8x768_S1x1x1x16_0_0_7_256 : ∀ a, (![0, 0, 7, 256] : Fin 4 → Nat) a + S1x1x1x16.size a ≤ S2x8x8x768.size a
  inb_S2x8x8x768_S1x1x1x16_1_0_0_272 : ∀ a, (![1, 0, 0, 272] : Fin 4 → Nat) a + S1x1x1x16.size a ≤ S2x8x8x768.size a
  inb_S2x8x8x768_S1x1x1x16_1_0_1_272 : ∀ a, (![1, 0, 1, 272] : Fin 4 → Nat) a + S1x1x1x16.size a ≤ S2x8x8x768.size a
  inb_S2x8x8x768_S1x1x1x16_0_0_0_272 : ∀ a, (![0, 0, 0, 272] : Fin 4 → Nat) a + S1x1x1x16.size a ≤ S2x8x8x768.size a
  inb_S2x8x8x768_S1x1x1x16_0_0_1_272 : ∀ a, (![0, 0, 1, 272] : Fin 4 → Nat) a + S1x1x1x16.size a ≤ S2x8x8x768.size a
  inb_S2x8x8x768_S1x1x1x16_0_0_2_272 : ∀ a, (![0, 0, 2, 272] : Fin 4 → Nat) a + S1x1x1x16.size a ≤ S2x8x8x768.size a
  inb_S2x8x8x768_S1x1x1x16_0_0_3_272 : ∀ a, (![0, 0, 3, 272] : Fin 4 → Nat) a + S1x1x1x16.size a ≤ S2x8x8x768.size a
  inb_S2x8x8x768_S1x1x1x16_0_0_4_272 : ∀ a, (![0, 0, 4, 272] : Fin 4 → Nat) a + S1x1x1x16.size a ≤ S2x8x8x768.size a
  inb_S2x8x8x768_S1x1x1x16_0_0_5_272 : ∀ a, (![0, 0, 5, 272] : Fin 4 → Nat) a + S1x1x1x16.size a ≤ S2x8x8x768.size a
  inb_S2x8x8x768_S1x1x1x16_0_0_6_272 : ∀ a, (![0, 0, 6, 272] : Fin 4 → Nat) a + S1x1x1x16.size a ≤ S2x8x8x768.size a
  inb_S2x8x8x768_S1x1x1x16_0_0_7_272 : ∀ a, (![0, 0, 7, 272] : Fin 4 → Nat) a + S1x1x1x16.size a ≤ S2x8x8x768.size a
  inb_S2x8x8x768_S1x1x1x16_1_0_0_288 : ∀ a, (![1, 0, 0, 288] : Fin 4 → Nat) a + S1x1x1x16.size a ≤ S2x8x8x768.size a
  inb_S2x8x8x768_S1x1x1x16_1_0_1_288 : ∀ a, (![1, 0, 1, 288] : Fin 4 → Nat) a + S1x1x1x16.size a ≤ S2x8x8x768.size a
  inb_S2x8x8x768_S1x1x1x16_0_0_0_288 : ∀ a, (![0, 0, 0, 288] : Fin 4 → Nat) a + S1x1x1x16.size a ≤ S2x8x8x768.size a
  inb_S2x8x8x768_S1x1x1x16_0_0_1_288 : ∀ a, (![0, 0, 1, 288] : Fin 4 → Nat) a + S1x1x1x16.size a ≤ S2x8x8x768.size a
  inb_S2x8x8x768_S1x1x1x16_0_0_2_288 : ∀ a, (![0, 0, 2, 288] : Fin 4 → Nat) a + S1x1x1x16.size a ≤ S2x8x8x768.size a
  inb_S2x8x8x768_S1x1x1x16_0_0_3_288 : ∀ a, (![0, 0, 3, 288] : Fin 4 → Nat) a + S1x1x1x16.size a ≤ S2x8x8x768.size a
  inb_S2x8x8x768_S1x1x1x16_0_0_4_288 : ∀ a, (![0, 0, 4, 288] : Fin 4 → Nat) a + S1x1x1x16.size a ≤ S2x8x8x768.size a
  inb_S2x8x8x768_S1x1x1x16_0_0_5_288 : ∀ a, (![0, 0, 5, 288] : Fin 4 → Nat) a + S1x1x1x16.size a ≤ S2x8x8x768.size a
  inb_S2x8x8x768_S1x1x1x16_0_0_6_288 : ∀ a, (![0, 0, 6, 288] : Fin 4 → Nat) a + S1x1x1x16.size a ≤ S2x8x8x768.size a
  inb_S2x8x8x768_S1x1x1x16_0_0_7_288 : ∀ a, (![0, 0, 7, 288] : Fin 4 → Nat) a + S1x1x1x16.size a ≤ S2x8x8x768.size a
  inb_S2x8x8x768_S1x1x1x16_1_0_0_304 : ∀ a, (![1, 0, 0, 304] : Fin 4 → Nat) a + S1x1x1x16.size a ≤ S2x8x8x768.size a
  inb_S2x8x8x768_S1x1x1x16_1_0_1_304 : ∀ a, (![1, 0, 1, 304] : Fin 4 → Nat) a + S1x1x1x16.size a ≤ S2x8x8x768.size a
  inb_S2x8x8x768_S1x1x1x16_0_0_0_304 : ∀ a, (![0, 0, 0, 304] : Fin 4 → Nat) a + S1x1x1x16.size a ≤ S2x8x8x768.size a
  inb_S2x8x8x768_S1x1x1x16_0_0_1_304 : ∀ a, (![0, 0, 1, 304] : Fin 4 → Nat) a + S1x1x1x16.size a ≤ S2x8x8x768.size a
  inb_S2x8x8x768_S1x1x1x16_0_0_2_304 : ∀ a, (![0, 0, 2, 304] : Fin 4 → Nat) a + S1x1x1x16.size a ≤ S2x8x8x768.size a
  inb_S2x8x8x768_S1x1x1x16_0_0_3_304 : ∀ a, (![0, 0, 3, 304] : Fin 4 → Nat) a + S1x1x1x16.size a ≤ S2x8x8x768.size a
  inb_S2x8x8x768_S1x1x1x16_0_0_4_304 : ∀ a, (![0, 0, 4, 304] : Fin 4 → Nat) a + S1x1x1x16.size a ≤ S2x8x8x768.size a
  inb_S2x8x8x768_S1x1x1x16_0_0_5_304 : ∀ a, (![0, 0, 5, 304] : Fin 4 → Nat) a + S1x1x1x16.size a ≤ S2x8x8x768.size a
  inb_S2x8x8x768_S1x1x1x16_0_0_6_304 : ∀ a, (![0, 0, 6, 304] : Fin 4 → Nat) a + S1x1x1x16.size a ≤ S2x8x8x768.size a
  inb_S2x8x8x768_S1x1x1x16_0_0_7_304 : ∀ a, (![0, 0, 7, 304] : Fin 4 → Nat) a + S1x1x1x16.size a ≤ S2x8x8x768.size a
  inb_S2x8x8x768_S1x1x1x16_1_0_0_320 : ∀ a, (![1, 0, 0, 320] : Fin 4 → Nat) a + S1x1x1x16.size a ≤ S2x8x8x768.size a
  inb_S2x8x8x768_S1x1x1x16_1_0_1_320 : ∀ a, (![1, 0, 1, 320] : Fin 4 → Nat) a + S1x1x1x16.size a ≤ S2x8x8x768.size a
  inb_S2x8x8x768_S1x1x1x16_0_0_0_320 : ∀ a, (![0, 0, 0, 320] : Fin 4 → Nat) a + S1x1x1x16.size a ≤ S2x8x8x768.size a
  inb_S2x8x8x768_S1x1x1x16_0_0_1_320 : ∀ a, (![0, 0, 1, 320] : Fin 4 → Nat) a + S1x1x1x16.size a ≤ S2x8x8x768.size a
  inb_S2x8x8x768_S1x1x1x16_0_0_2_320 : ∀ a, (![0, 0, 2, 320] : Fin 4 → Nat) a + S1x1x1x16.size a ≤ S2x8x8x768.size a
  inb_S2x8x8x768_S1x1x1x16_0_0_3_320 : ∀ a, (![0, 0, 3, 320] : Fin 4 → Nat) a + S1x1x1x16.size a ≤ S2x8x8x768.size a
  inb_S2x8x8x768_S1x1x1x16_0_0_4_320 : ∀ a, (![0, 0, 4, 320] : Fin 4 → Nat) a + S1x1x1x16.size a ≤ S2x8x8x768.size a
  inb_S2x8x8x768_S1x1x1x16_0_0_5_320 : ∀ a, (![0, 0, 5, 320] : Fin 4 → Nat) a + S1x1x1x16.size a ≤ S2x8x8x768.size a
  inb_S2x8x8x768_S1x1x1x16_0_0_6_320 : ∀ a, (![0, 0, 6, 320] : Fin 4 → Nat) a + S1x1x1x16.size a ≤ S2x8x8x768.size a
  inb_S2x8x8x768_S1x1x1x16_0_0_7_320 : ∀ a, (![0, 0, 7, 320] : Fin 4 → Nat) a + S1x1x1x16.size a ≤ S2x8x8x768.size a
  inb_S2x8x8x768_S1x1x1x16_1_0_0_336 : ∀ a, (![1, 0, 0, 336] : Fin 4 → Nat) a + S1x1x1x16.size a ≤ S2x8x8x768.size a
  inb_S2x8x8x768_S1x1x1x16_1_0_1_336 : ∀ a, (![1, 0, 1, 336] : Fin 4 → Nat) a + S1x1x1x16.size a ≤ S2x8x8x768.size a
  inb_S2x8x8x768_S1x1x1x16_0_0_0_336 : ∀ a, (![0, 0, 0, 336] : Fin 4 → Nat) a + S1x1x1x16.size a ≤ S2x8x8x768.size a
  inb_S2x8x8x768_S1x1x1x16_0_0_1_336 : ∀ a, (![0, 0, 1, 336] : Fin 4 → Nat) a + S1x1x1x16.size a ≤ S2x8x8x768.size a
  inb_S2x8x8x768_S1x1x1x16_0_0_2_336 : ∀ a, (![0, 0, 2, 336] : Fin 4 → Nat) a + S1x1x1x16.size a ≤ S2x8x8x768.size a
  inb_S2x8x8x768_S1x1x1x16_0_0_3_336 : ∀ a, (![0, 0, 3, 336] : Fin 4 → Nat) a + S1x1x1x16.size a ≤ S2x8x8x768.size a
  inb_S2x8x8x768_S1x1x1x16_0_0_4_336 : ∀ a, (![0, 0, 4, 336] : Fin 4 → Nat) a + S1x1x1x16.size a ≤ S2x8x8x768.size a
  inb_S2x8x8x768_S1x1x1x16_0_0_5_336 : ∀ a, (![0, 0, 5, 336] : Fin 4 → Nat) a + S1x1x1x16.size a ≤ S2x8x8x768.size a
  inb_S2x8x8x768_S1x1x1x16_0_0_6_336 : ∀ a, (![0, 0, 6, 336] : Fin 4 → Nat) a + S1x1x1x16.size a ≤ S2x8x8x768.size a
  inb_S2x8x8x768_S1x1x1x16_0_0_7_336 : ∀ a, (![0, 0, 7, 336] : Fin 4 → Nat) a + S1x1x1x16.size a ≤ S2x8x8x768.size a
  inb_S2x8x8x768_S1x1x1x16_1_0_0_352 : ∀ a, (![1, 0, 0, 352] : Fin 4 → Nat) a + S1x1x1x16.size a ≤ S2x8x8x768.size a
  inb_S2x8x8x768_S1x1x1x16_1_0_1_352 : ∀ a, (![1, 0, 1, 352] : Fin 4 → Nat) a + S1x1x1x16.size a ≤ S2x8x8x768.size a
  inb_S2x8x8x768_S1x1x1x16_0_0_0_352 : ∀ a, (![0, 0, 0, 352] : Fin 4 → Nat) a + S1x1x1x16.size a ≤ S2x8x8x768.size a
  inb_S2x8x8x768_S1x1x1x16_0_0_1_352 : ∀ a, (![0, 0, 1, 352] : Fin 4 → Nat) a + S1x1x1x16.size a ≤ S2x8x8x768.size a
  inb_S2x8x8x768_S1x1x1x16_0_0_2_352 : ∀ a, (![0, 0, 2, 352] : Fin 4 → Nat) a + S1x1x1x16.size a ≤ S2x8x8x768.size a
  inb_S2x8x8x768_S1x1x1x16_0_0_3_352 : ∀ a, (![0, 0, 3, 352] : Fin 4 → Nat) a + S1x1x1x16.size a ≤ S2x8x8x768.size a
  inb_S2x8x8x768_S1x1x1x16_0_0_4_352 : ∀ a, (![0, 0, 4, 352] : Fin 4 → Nat) a + S1x1x1x16.size a ≤ S2x8x8x768.size a
  inb_S2x8x8x768_S1x1x1x16_0_0_5_352 : ∀ a, (![0, 0, 5, 352] : Fin 4 → Nat) a + S1x1x1x16.size a ≤ S2x8x8x768.size a
  inb_S2x8x8x768_S1x1x1x16_0_0_6_352 : ∀ a, (![0, 0, 6, 352] : Fin 4 → Nat) a + S1x1x1x16.size a ≤ S2x8x8x768.size a
  inb_S2x8x8x768_S1x1x1x16_0_0_7_352 : ∀ a, (![0, 0, 7, 352] : Fin 4 → Nat) a + S1x1x1x16.size a ≤ S2x8x8x768.size a
  inb_S2x8x8x768_S1x1x1x16_1_0_0_368 : ∀ a, (![1, 0, 0, 368] : Fin 4 → Nat) a + S1x1x1x16.size a ≤ S2x8x8x768.size a
  inb_S2x8x8x768_S1x1x1x16_1_0_1_368 : ∀ a, (![1, 0, 1, 368] : Fin 4 → Nat) a + S1x1x1x16.size a ≤ S2x8x8x768.size a
  inb_S2x8x8x768_S1x1x1x16_0_0_0_368 : ∀ a, (![0, 0, 0, 368] : Fin 4 → Nat) a + S1x1x1x16.size a ≤ S2x8x8x768.size a
  inb_S2x8x8x768_S1x1x1x16_0_0_1_368 : ∀ a, (![0, 0, 1, 368] : Fin 4 → Nat) a + S1x1x1x16.size a ≤ S2x8x8x768.size a
  inb_S2x8x8x768_S1x1x1x16_0_0_2_368 : ∀ a, (![0, 0, 2, 368] : Fin 4 → Nat) a + S1x1x1x16.size a ≤ S2x8x8x768.size a
  inb_S2x8x8x768_S1x1x1x16_0_0_3_368 : ∀ a, (![0, 0, 3, 368] : Fin 4 → Nat) a + S1x1x1x16.size a ≤ S2x8x8x768.size a
  inb_S2x8x8x768_S1x1x1x16_0_0_4_368 : ∀ a, (![0, 0, 4, 368] : Fin 4 → Nat) a + S1x1x1x16.size a ≤ S2x8x8x768.size a
  inb_S2x8x8x768_S1x1x1x16_0_0_5_368 : ∀ a, (![0, 0, 5, 368] : Fin 4 → Nat) a + S1x1x1x16.size a ≤ S2x8x8x768.size a
  inb_S2x8x8x768_S1x1x1x16_0_0_6_368 : ∀ a, (![0, 0, 6, 368] : Fin 4 → Nat) a + S1x1x1x16.size a ≤ S2x8x8x768.size a
  inb_S2x8x8x768_S1x1x1x16_0_0_7_368 : ∀ a, (![0, 0, 7, 368] : Fin 4 → Nat) a + S1x1x1x16.size a ≤ S2x8x8x768.size a
  inb_S2x8x8x768_S1x1x1x16_1_0_0_384 : ∀ a, (![1, 0, 0, 384] : Fin 4 → Nat) a + S1x1x1x16.size a ≤ S2x8x8x768.size a
  inb_S2x8x8x768_S1x1x1x16_1_0_1_384 : ∀ a, (![1, 0, 1, 384] : Fin 4 → Nat) a + S1x1x1x16.size a ≤ S2x8x8x768.size a
  inb_S2x8x8x768_S1x1x1x16_0_0_0_384 : ∀ a, (![0, 0, 0, 384] : Fin 4 → Nat) a + S1x1x1x16.size a ≤ S2x8x8x768.size a
  inb_S2x8x8x768_S1x1x1x16_0_0_1_384 : ∀ a, (![0, 0, 1, 384] : Fin 4 → Nat) a + S1x1x1x16.size a ≤ S2x8x8x768.size a
  inb_S2x8x8x768_S1x1x1x16_0_0_2_384 : ∀ a, (![0, 0, 2, 384] : Fin 4 → Nat) a + S1x1x1x16.size a ≤ S2x8x8x768.size a
  inb_S2x8x8x768_S1x1x1x16_0_0_3_384 : ∀ a, (![0, 0, 3, 384] : Fin 4 → Nat) a + S1x1x1x16.size a ≤ S2x8x8x768.size a
  inb_S2x8x8x768_S1x1x1x16_0_0_4_384 : ∀ a, (![0, 0, 4, 384] : Fin 4 → Nat) a + S1x1x1x16.size a ≤ S2x8x8x768.size a
  inb_S2x8x8x768_S1x1x1x16_0_0_5_384 : ∀ a, (![0, 0, 5, 384] : Fin 4 → Nat) a + S1x1x1x16.size a ≤ S2x8x8x768.size a
  inb_S2x8x8x768_S1x1x1x16_0_0_6_384 : ∀ a, (![0, 0, 6, 384] : Fin 4 → Nat) a + S1x1x1x16.size a ≤ S2x8x8x768.size a
  inb_S2x8x8x768_S1x1x1x16_0_0_7_384 : ∀ a, (![0, 0, 7, 384] : Fin 4 → Nat) a + S1x1x1x16.size a ≤ S2x8x8x768.size a
  inb_S2x8x8x768_S1x1x1x16_1_0_0_400 : ∀ a, (![1, 0, 0, 400] : Fin 4 → Nat) a + S1x1x1x16.size a ≤ S2x8x8x768.size a
  inb_S2x8x8x768_S1x1x1x16_1_0_1_400 : ∀ a, (![1, 0, 1, 400] : Fin 4 → Nat) a + S1x1x1x16.size a ≤ S2x8x8x768.size a
  inb_S2x8x8x768_S1x1x1x16_0_0_0_400 : ∀ a, (![0, 0, 0, 400] : Fin 4 → Nat) a + S1x1x1x16.size a ≤ S2x8x8x768.size a
  inb_S2x8x8x768_S1x1x1x16_0_0_1_400 : ∀ a, (![0, 0, 1, 400] : Fin 4 → Nat) a + S1x1x1x16.size a ≤ S2x8x8x768.size a
  inb_S2x8x8x768_S1x1x1x16_0_0_2_400 : ∀ a, (![0, 0, 2, 400] : Fin 4 → Nat) a + S1x1x1x16.size a ≤ S2x8x8x768.size a
  inb_S2x8x8x768_S1x1x1x16_0_0_3_400 : ∀ a, (![0, 0, 3, 400] : Fin 4 → Nat) a + S1x1x1x16.size a ≤ S2x8x8x768.size a
  inb_S2x8x8x768_S1x1x1x16_0_0_4_400 : ∀ a, (![0, 0, 4, 400] : Fin 4 → Nat) a + S1x1x1x16.size a ≤ S2x8x8x768.size a
  inb_S2x8x8x768_S1x1x1x16_0_0_5_400 : ∀ a, (![0, 0, 5, 400] : Fin 4 → Nat) a + S1x1x1x16.size a ≤ S2x8x8x768.size a
  inb_S2x8x8x768_S1x1x1x16_0_0_6_400 : ∀ a, (![0, 0, 6, 400] : Fin 4 → Nat) a + S1x1x1x16.size a ≤ S2x8x8x768.size a
  inb_S2x8x8x768_S1x1x1x16_0_0_7_400 : ∀ a, (![0, 0, 7, 400] : Fin 4 → Nat) a + S1x1x1x16.size a ≤ S2x8x8x768.size a
  inb_S2x8x8x768_S1x1x1x16_1_0_0_416 : ∀ a, (![1, 0, 0, 416] : Fin 4 → Nat) a + S1x1x1x16.size a ≤ S2x8x8x768.size a
  inb_S2x8x8x768_S1x1x1x16_1_0_1_416 : ∀ a, (![1, 0, 1, 416] : Fin 4 → Nat) a + S1x1x1x16.size a ≤ S2x8x8x768.size a
  inb_S2x8x8x768_S1x1x1x16_0_0_0_416 : ∀ a, (![0, 0, 0, 416] : Fin 4 → Nat) a + S1x1x1x16.size a ≤ S2x8x8x768.size a
  inb_S2x8x8x768_S1x1x1x16_0_0_1_416 : ∀ a, (![0, 0, 1, 416] : Fin 4 → Nat) a + S1x1x1x16.size a ≤ S2x8x8x768.size a
  inb_S2x8x8x768_S1x1x1x16_0_0_2_416 : ∀ a, (![0, 0, 2, 416] : Fin 4 → Nat) a + S1x1x1x16.size a ≤ S2x8x8x768.size a
  inb_S2x8x8x768_S1x1x1x16_0_0_3_416 : ∀ a, (![0, 0, 3, 416] : Fin 4 → Nat) a + S1x1x1x16.size a ≤ S2x8x8x768.size a
  inb_S2x8x8x768_S1x1x1x16_0_0_4_416 : ∀ a, (![0, 0, 4, 416] : Fin 4 → Nat) a + S1x1x1x16.size a ≤ S2x8x8x768.size a
  inb_S2x8x8x768_S1x1x1x16_0_0_5_416 : ∀ a, (![0, 0, 5, 416] : Fin 4 → Nat) a + S1x1x1x16.size a ≤ S2x8x8x768.size a
  inb_S2x8x8x768_S1x1x1x16_0_0_6_416 : ∀ a, (![0, 0, 6, 416] : Fin 4 → Nat) a + S1x1x1x16.size a ≤ S2x8x8x768.size a
  inb_S2x8x8x768_S1x1x1x16_0_0_7_416 : ∀ a, (![0, 0, 7, 416] : Fin 4 → Nat) a + S1x1x1x16.size a ≤ S2x8x8x768.size a
  inb_S2x8x8x768_S1x1x1x16_1_0_0_432 : ∀ a, (![1, 0, 0, 432] : Fin 4 → Nat) a + S1x1x1x16.size a ≤ S2x8x8x768.size a
  inb_S2x8x8x768_S1x1x1x16_1_0_1_432 : ∀ a, (![1, 0, 1, 432] : Fin 4 → Nat) a + S1x1x1x16.size a ≤ S2x8x8x768.size a
  inb_S2x8x8x768_S1x1x1x16_0_0_0_432 : ∀ a, (![0, 0, 0, 432] : Fin 4 → Nat) a + S1x1x1x16.size a ≤ S2x8x8x768.size a
  inb_S2x8x8x768_S1x1x1x16_0_0_1_432 : ∀ a, (![0, 0, 1, 432] : Fin 4 → Nat) a + S1x1x1x16.size a ≤ S2x8x8x768.size a
  inb_S2x8x8x768_S1x1x1x16_0_0_2_432 : ∀ a, (![0, 0, 2, 432] : Fin 4 → Nat) a + S1x1x1x16.size a ≤ S2x8x8x768.size a
  inb_S2x8x8x768_S1x1x1x16_0_0_3_432 : ∀ a, (![0, 0, 3, 432] : Fin 4 → Nat) a + S1x1x1x16.size a ≤ S2x8x8x768.size a
  inb_S2x8x8x768_S1x1x1x16_0_0_4_432 : ∀ a, (![0, 0, 4, 432] : Fin 4 → Nat) a + S1x1x1x16.size a ≤ S2x8x8x768.size a
  inb_S2x8x8x768_S1x1x1x16_0_0_5_432 : ∀ a, (![0, 0, 5, 432] : Fin 4 → Nat) a + S1x1x1x16.size a ≤ S2x8x8x768.size a
  inb_S2x8x8x768_S1x1x1x16_0_0_6_432 : ∀ a, (![0, 0, 6, 432] : Fin 4 → Nat) a + S1x1x1x16.size a ≤ S2x8x8x768.size a
  inb_S2x8x8x768_S1x1x1x16_0_0_7_432 : ∀ a, (![0, 0, 7, 432] : Fin 4 → Nat) a + S1x1x1x16.size a ≤ S2x8x8x768.size a
  inb_S2x8x8x768_S1x1x1x16_1_0_0_448 : ∀ a, (![1, 0, 0, 448] : Fin 4 → Nat) a + S1x1x1x16.size a ≤ S2x8x8x768.size a
  inb_S2x8x8x768_S1x1x1x16_1_0_1_448 : ∀ a, (![1, 0, 1, 448] : Fin 4 → Nat) a + S1x1x1x16.size a ≤ S2x8x8x768.size a
  inb_S2x8x8x768_S1x1x1x16_0_0_0_448 : ∀ a, (![0, 0, 0, 448] : Fin 4 → Nat) a + S1x1x1x16.size a ≤ S2x8x8x768.size a
  inb_S2x8x8x768_S1x1x1x16_0_0_1_448 : ∀ a, (![0, 0, 1, 448] : Fin 4 → Nat) a + S1x1x1x16.size a ≤ S2x8x8x768.size a
  inb_S2x8x8x768_S1x1x1x16_0_0_2_448 : ∀ a, (![0, 0, 2, 448] : Fin 4 → Nat) a + S1x1x1x16.size a ≤ S2x8x8x768.size a
  inb_S2x8x8x768_S1x1x1x16_0_0_3_448 : ∀ a, (![0, 0, 3, 448] : Fin 4 → Nat) a + S1x1x1x16.size a ≤ S2x8x8x768.size a
  inb_S2x8x8x768_S1x1x1x16_0_0_4_448 : ∀ a, (![0, 0, 4, 448] : Fin 4 → Nat) a + S1x1x1x16.size a ≤ S2x8x8x768.size a
  inb_S2x8x8x768_S1x1x1x16_0_0_5_448 : ∀ a, (![0, 0, 5, 448] : Fin 4 → Nat) a + S1x1x1x16.size a ≤ S2x8x8x768.size a
  inb_S2x8x8x768_S1x1x1x16_0_0_6_448 : ∀ a, (![0, 0, 6, 448] : Fin 4 → Nat) a + S1x1x1x16.size a ≤ S2x8x8x768.size a
  inb_S2x8x8x768_S1x1x1x16_0_0_7_448 : ∀ a, (![0, 0, 7, 448] : Fin 4 → Nat) a + S1x1x1x16.size a ≤ S2x8x8x768.size a
  inb_S2x8x8x768_S1x1x1x16_1_0_0_464 : ∀ a, (![1, 0, 0, 464] : Fin 4 → Nat) a + S1x1x1x16.size a ≤ S2x8x8x768.size a
  inb_S2x8x8x768_S1x1x1x16_1_0_1_464 : ∀ a, (![1, 0, 1, 464] : Fin 4 → Nat) a + S1x1x1x16.size a ≤ S2x8x8x768.size a
  inb_S2x8x8x768_S1x1x1x16_0_0_0_464 : ∀ a, (![0, 0, 0, 464] : Fin 4 → Nat) a + S1x1x1x16.size a ≤ S2x8x8x768.size a
  inb_S2x8x8x768_S1x1x1x16_0_0_1_464 : ∀ a, (![0, 0, 1, 464] : Fin 4 → Nat) a + S1x1x1x16.size a ≤ S2x8x8x768.size a
  inb_S2x8x8x768_S1x1x1x16_0_0_2_464 : ∀ a, (![0, 0, 2, 464] : Fin 4 → Nat) a + S1x1x1x16.size a ≤ S2x8x8x768.size a
  inb_S2x8x8x768_S1x1x1x16_0_0_3_464 : ∀ a, (![0, 0, 3, 464] : Fin 4 → Nat) a + S1x1x1x16.size a ≤ S2x8x8x768.size a
  inb_S2x8x8x768_S1x1x1x16_0_0_4_464 : ∀ a, (![0, 0, 4, 464] : Fin 4 → Nat) a + S1x1x1x16.size a ≤ S2x8x8x768.size a
  inb_S2x8x8x768_S1x1x1x16_0_0_5_464 : ∀ a, (![0, 0, 5, 464] : Fin 4 → Nat) a + S1x1x1x16.size a ≤ S2x8x8x768.size a
  inb_S2x8x8x768_S1x1x1x16_0_0_6_464 : ∀ a, (![0, 0, 6, 464] : Fin 4 → Nat) a + S1x1x1x16.size a ≤ S2x8x8x768.size a
  inb_S2x8x8x768_S1x1x1x16_0_0_7_464 : ∀ a, (![0, 0, 7, 464] : Fin 4 → Nat) a + S1x1x1x16.size a ≤ S2x8x8x768.size a
  inb_S2x8x8x768_S1x1x1x16_1_0_0_480 : ∀ a, (![1, 0, 0, 480] : Fin 4 → Nat) a + S1x1x1x16.size a ≤ S2x8x8x768.size a
  inb_S2x8x8x768_S1x1x1x16_1_0_1_480 : ∀ a, (![1, 0, 1, 480] : Fin 4 → Nat) a + S1x1x1x16.size a ≤ S2x8x8x768.size a
  inb_S2x8x8x768_S1x1x1x16_0_0_0_480 : ∀ a, (![0, 0, 0, 480] : Fin 4 → Nat) a + S1x1x1x16.size a ≤ S2x8x8x768.size a
  inb_S2x8x8x768_S1x1x1x16_0_0_1_480 : ∀ a, (![0, 0, 1, 480] : Fin 4 → Nat) a + S1x1x1x16.size a ≤ S2x8x8x768.size a
  inb_S2x8x8x768_S1x1x1x16_0_0_2_480 : ∀ a, (![0, 0, 2, 480] : Fin 4 → Nat) a + S1x1x1x16.size a ≤ S2x8x8x768.size a
  inb_S2x8x8x768_S1x1x1x16_0_0_3_480 : ∀ a, (![0, 0, 3, 480] : Fin 4 → Nat) a + S1x1x1x16.size a ≤ S2x8x8x768.size a
  inb_S2x8x8x768_S1x1x1x16_0_0_4_480 : ∀ a, (![0, 0, 4, 480] : Fin 4 → Nat) a + S1x1x1x16.size a ≤ S2x8x8x768.size a
  inb_S2x8x8x768_S1x1x1x16_0_0_5_480 : ∀ a, (![0, 0, 5, 480] : Fin 4 → Nat) a + S1x1x1x16.size a ≤ S2x8x8x768.size a
  inb_S2x8x8x768_S1x1x1x16_0_0_6_480 : ∀ a, (![0, 0, 6, 480] : Fin 4 → Nat) a + S1x1x1x16.size a ≤ S2x8x8x768.size a
  inb_S2x8x8x768_S1x1x1x16_0_0_7_480 : ∀ a, (![0, 0, 7, 480] : Fin 4 → Nat) a + S1x1x1x16.size a ≤ S2x8x8x768.size a
  inb_S2x8x8x768_S1x1x1x16_1_0_0_496 : ∀ a, (![1, 0, 0, 496] : Fin 4 → Nat) a + S1x1x1x16.size a ≤ S2x8x8x768.size a
  inb_S2x8x8x768_S1x1x1x16_1_0_1_496 : ∀ a, (![1, 0, 1, 496] : Fin 4 → Nat) a + S1x1x1x16.size a ≤ S2x8x8x768.size a
  inb_S2x8x8x768_S1x1x1x16_0_0_0_496 : ∀ a, (![0, 0, 0, 496] : Fin 4 → Nat) a + S1x1x1x16.size a ≤ S2x8x8x768.size a
  inb_S2x8x8x768_S1x1x1x16_0_0_1_496 : ∀ a, (![0, 0, 1, 496] : Fin 4 → Nat) a + S1x1x1x16.size a ≤ S2x8x8x768.size a
  inb_S2x8x8x768_S1x1x1x16_0_0_2_496 : ∀ a, (![0, 0, 2, 496] : Fin 4 → Nat) a + S1x1x1x16.size a ≤ S2x8x8x768.size a
  inb_S2x8x8x768_S1x1x1x16_0_0_3_496 : ∀ a, (![0, 0, 3, 496] : Fin 4 → Nat) a + S1x1x1x16.size a ≤ S2x8x8x768.size a
  inb_S2x8x8x768_S1x1x1x16_0_0_4_496 : ∀ a, (![0, 0, 4, 496] : Fin 4 → Nat) a + S1x1x1x16.size a ≤ S2x8x8x768.size a
  inb_S2x8x8x768_S1x1x1x16_0_0_5_496 : ∀ a, (![0, 0, 5, 496] : Fin 4 → Nat) a + S1x1x1x16.size a ≤ S2x8x8x768.size a
  inb_S2x8x8x768_S1x1x1x16_0_0_6_496 : ∀ a, (![0, 0, 6, 496] : Fin 4 → Nat) a + S1x1x1x16.size a ≤ S2x8x8x768.size a
  inb_S2x8x8x768_S1x1x1x16_0_0_7_496 : ∀ a, (![0, 0, 7, 496] : Fin 4 → Nat) a + S1x1x1x16.size a ≤ S2x8x8x768.size a
  inb_S2x8x8x768_S1x1x1x16_1_0_0_512 : ∀ a, (![1, 0, 0, 512] : Fin 4 → Nat) a + S1x1x1x16.size a ≤ S2x8x8x768.size a
  inb_S2x8x8x768_S1x1x1x16_1_0_1_512 : ∀ a, (![1, 0, 1, 512] : Fin 4 → Nat) a + S1x1x1x16.size a ≤ S2x8x8x768.size a
  inb_S2x8x8x768_S1x1x1x16_0_0_0_512 : ∀ a, (![0, 0, 0, 512] : Fin 4 → Nat) a + S1x1x1x16.size a ≤ S2x8x8x768.size a
  inb_S2x8x8x768_S1x1x1x16_0_0_1_512 : ∀ a, (![0, 0, 1, 512] : Fin 4 → Nat) a + S1x1x1x16.size a ≤ S2x8x8x768.size a
  inb_S2x8x8x768_S1x1x1x16_0_0_2_512 : ∀ a, (![0, 0, 2, 512] : Fin 4 → Nat) a + S1x1x1x16.size a ≤ S2x8x8x768.size a
  inb_S2x8x8x768_S1x1x1x16_0_0_3_512 : ∀ a, (![0, 0, 3, 512] : Fin 4 → Nat) a + S1x1x1x16.size a ≤ S2x8x8x768.size a
  inb_S2x8x8x768_S1x1x1x16_0_0_4_512 : ∀ a, (![0, 0, 4, 512] : Fin 4 → Nat) a + S1x1x1x16.size a ≤ S2x8x8x768.size a
  inb_S2x8x8x768_S1x1x1x16_0_0_5_512 : ∀ a, (![0, 0, 5, 512] : Fin 4 → Nat) a + S1x1x1x16.size a ≤ S2x8x8x768.size a
  inb_S2x8x8x768_S1x1x1x16_0_0_6_512 : ∀ a, (![0, 0, 6, 512] : Fin 4 → Nat) a + S1x1x1x16.size a ≤ S2x8x8x768.size a
  inb_S2x8x8x768_S1x1x1x16_0_0_7_512 : ∀ a, (![0, 0, 7, 512] : Fin 4 → Nat) a + S1x1x1x16.size a ≤ S2x8x8x768.size a
  inb_S2x8x8x768_S1x1x1x16_1_0_0_528 : ∀ a, (![1, 0, 0, 528] : Fin 4 → Nat) a + S1x1x1x16.size a ≤ S2x8x8x768.size a
  inb_S2x8x8x768_S1x1x1x16_1_0_1_528 : ∀ a, (![1, 0, 1, 528] : Fin 4 → Nat) a + S1x1x1x16.size a ≤ S2x8x8x768.size a
  inb_S2x8x8x768_S1x1x1x16_0_0_0_528 : ∀ a, (![0, 0, 0, 528] : Fin 4 → Nat) a + S1x1x1x16.size a ≤ S2x8x8x768.size a
  inb_S2x8x8x768_S1x1x1x16_0_0_1_528 : ∀ a, (![0, 0, 1, 528] : Fin 4 → Nat) a + S1x1x1x16.size a ≤ S2x8x8x768.size a
  inb_S2x8x8x768_S1x1x1x16_0_0_2_528 : ∀ a, (![0, 0, 2, 528] : Fin 4 → Nat) a + S1x1x1x16.size a ≤ S2x8x8x768.size a
  inb_S2x8x8x768_S1x1x1x16_0_0_3_528 : ∀ a, (![0, 0, 3, 528] : Fin 4 → Nat) a + S1x1x1x16.size a ≤ S2x8x8x768.size a
  inb_S2x8x8x768_S1x1x1x16_0_0_4_528 : ∀ a, (![0, 0, 4, 528] : Fin 4 → Nat) a + S1x1x1x16.size a ≤ S2x8x8x768.size a
  inb_S2x8x8x768_S1x1x1x16_0_0_5_528 : ∀ a, (![0, 0, 5, 528] : Fin 4 → Nat) a + S1x1x1x16.size a ≤ S2x8x8x768.size a
  inb_S2x8x8x768_S1x1x1x16_0_0_6_528 : ∀ a, (![0, 0, 6, 528] : Fin 4 → Nat) a + S1x1x1x16.size a ≤ S2x8x8x768.size a
  inb_S2x8x8x768_S1x1x1x16_0_0_7_528 : ∀ a, (![0, 0, 7, 528] : Fin 4 → Nat) a + S1x1x1x16.size a ≤ S2x8x8x768.size a
  inb_S2x8x8x768_S1x1x1x16_1_0_0_544 : ∀ a, (![1, 0, 0, 544] : Fin 4 → Nat) a + S1x1x1x16.size a ≤ S2x8x8x768.size a
  inb_S2x8x8x768_S1x1x1x16_1_0_1_544 : ∀ a, (![1, 0, 1, 544] : Fin 4 → Nat) a + S1x1x1x16.size a ≤ S2x8x8x768.size a
  inb_S2x8x8x768_S1x1x1x16_0_0_0_544 : ∀ a, (![0, 0, 0, 544] : Fin 4 → Nat) a + S1x1x1x16.size a ≤ S2x8x8x768.size a
  inb_S2x8x8x768_S1x1x1x16_0_0_1_544 : ∀ a, (![0, 0, 1, 544] : Fin 4 → Nat) a + S1x1x1x16.size a ≤ S2x8x8x768.size a
  inb_S2x8x8x768_S1x1x1x16_0_0_2_544 : ∀ a, (![0, 0, 2, 544] : Fin 4 → Nat) a + S1x1x1x16.size a ≤ S2x8x8x768.size a
  inb_S2x8x8x768_S1x1x1x16_0_0_3_544 : ∀ a, (![0, 0, 3, 544] : Fin 4 → Nat) a + S1x1x1x16.size a ≤ S2x8x8x768.size a
  inb_S2x8x8x768_S1x1x1x16_0_0_4_544 : ∀ a, (![0, 0, 4, 544] : Fin 4 → Nat) a + S1x1x1x16.size a ≤ S2x8x8x768.size a
  inb_S2x8x8x768_S1x1x1x16_0_0_5_544 : ∀ a, (![0, 0, 5, 544] : Fin 4 → Nat) a + S1x1x1x16.size a ≤ S2x8x8x768.size a
  inb_S2x8x8x768_S1x1x1x16_0_0_6_544 : ∀ a, (![0, 0, 6, 544] : Fin 4 → Nat) a + S1x1x1x16.size a ≤ S2x8x8x768.size a
  inb_S2x8x8x768_S1x1x1x16_0_0_7_544 : ∀ a, (![0, 0, 7, 544] : Fin 4 → Nat) a + S1x1x1x16.size a ≤ S2x8x8x768.size a
  inb_S2x8x8x768_S1x1x1x16_1_0_0_560 : ∀ a, (![1, 0, 0, 560] : Fin 4 → Nat) a + S1x1x1x16.size a ≤ S2x8x8x768.size a
  inb_S2x8x8x768_S1x1x1x16_1_0_1_560 : ∀ a, (![1, 0, 1, 560] : Fin 4 → Nat) a + S1x1x1x16.size a ≤ S2x8x8x768.size a
  inb_S2x8x8x768_S1x1x1x16_0_0_0_560 : ∀ a, (![0, 0, 0, 560] : Fin 4 → Nat) a + S1x1x1x16.size a ≤ S2x8x8x768.size a
  inb_S2x8x8x768_S1x1x1x16_0_0_1_560 : ∀ a, (![0, 0, 1, 560] : Fin 4 → Nat) a + S1x1x1x16.size a ≤ S2x8x8x768.size a
  inb_S2x8x8x768_S1x1x1x16_0_0_2_560 : ∀ a, (![0, 0, 2, 560] : Fin 4 → Nat) a + S1x1x1x16.size a ≤ S2x8x8x768.size a
  inb_S2x8x8x768_S1x1x1x16_0_0_3_560 : ∀ a, (![0, 0, 3, 560] : Fin 4 → Nat) a + S1x1x1x16.size a ≤ S2x8x8x768.size a
  inb_S2x8x8x768_S1x1x1x16_0_0_4_560 : ∀ a, (![0, 0, 4, 560] : Fin 4 → Nat) a + S1x1x1x16.size a ≤ S2x8x8x768.size a
  inb_S2x8x8x768_S1x1x1x16_0_0_5_560 : ∀ a, (![0, 0, 5, 560] : Fin 4 → Nat) a + S1x1x1x16.size a ≤ S2x8x8x768.size a
  inb_S2x8x8x768_S1x1x1x16_0_0_6_560 : ∀ a, (![0, 0, 6, 560] : Fin 4 → Nat) a + S1x1x1x16.size a ≤ S2x8x8x768.size a
  inb_S2x8x8x768_S1x1x1x16_0_0_7_560 : ∀ a, (![0, 0, 7, 560] : Fin 4 → Nat) a + S1x1x1x16.size a ≤ S2x8x8x768.size a
  inb_S2x8x8x768_S1x1x1x16_1_0_0_576 : ∀ a, (![1, 0, 0, 576] : Fin 4 → Nat) a + S1x1x1x16.size a ≤ S2x8x8x768.size a
  inb_S2x8x8x768_S1x1x1x16_1_0_1_576 : ∀ a, (![1, 0, 1, 576] : Fin 4 → Nat) a + S1x1x1x16.size a ≤ S2x8x8x768.size a
  inb_S2x8x8x768_S1x1x1x16_0_0_0_576 : ∀ a, (![0, 0, 0, 576] : Fin 4 → Nat) a + S1x1x1x16.size a ≤ S2x8x8x768.size a
  inb_S2x8x8x768_S1x1x1x16_0_0_1_576 : ∀ a, (![0, 0, 1, 576] : Fin 4 → Nat) a + S1x1x1x16.size a ≤ S2x8x8x768.size a
  inb_S2x8x8x768_S1x1x1x16_0_0_2_576 : ∀ a, (![0, 0, 2, 576] : Fin 4 → Nat) a + S1x1x1x16.size a ≤ S2x8x8x768.size a
  inb_S2x8x8x768_S1x1x1x16_0_0_3_576 : ∀ a, (![0, 0, 3, 576] : Fin 4 → Nat) a + S1x1x1x16.size a ≤ S2x8x8x768.size a
  inb_S2x8x8x768_S1x1x1x16_0_0_4_576 : ∀ a, (![0, 0, 4, 576] : Fin 4 → Nat) a + S1x1x1x16.size a ≤ S2x8x8x768.size a
  inb_S2x8x8x768_S1x1x1x16_0_0_5_576 : ∀ a, (![0, 0, 5, 576] : Fin 4 → Nat) a + S1x1x1x16.size a ≤ S2x8x8x768.size a
  inb_S2x8x8x768_S1x1x1x16_0_0_6_576 : ∀ a, (![0, 0, 6, 576] : Fin 4 → Nat) a + S1x1x1x16.size a ≤ S2x8x8x768.size a
  inb_S2x8x8x768_S1x1x1x16_0_0_7_576 : ∀ a, (![0, 0, 7, 576] : Fin 4 → Nat) a + S1x1x1x16.size a ≤ S2x8x8x768.size a
  inb_S2x8x8x768_S1x1x1x16_1_0_0_592 : ∀ a, (![1, 0, 0, 592] : Fin 4 → Nat) a + S1x1x1x16.size a ≤ S2x8x8x768.size a
  inb_S2x8x8x768_S1x1x1x16_1_0_1_592 : ∀ a, (![1, 0, 1, 592] : Fin 4 → Nat) a + S1x1x1x16.size a ≤ S2x8x8x768.size a
  inb_S2x8x8x768_S1x1x1x16_0_0_0_592 : ∀ a, (![0, 0, 0, 592] : Fin 4 → Nat) a + S1x1x1x16.size a ≤ S2x8x8x768.size a
  inb_S2x8x8x768_S1x1x1x16_0_0_1_592 : ∀ a, (![0, 0, 1, 592] : Fin 4 → Nat) a + S1x1x1x16.size a ≤ S2x8x8x768.size a
  inb_S2x8x8x768_S1x1x1x16_0_0_2_592 : ∀ a, (![0, 0, 2, 592] : Fin 4 → Nat) a + S1x1x1x16.size a ≤ S2x8x8x768.size a
  inb_S2x8x8x768_S1x1x1x16_0_0_3_592 : ∀ a, (![0, 0, 3, 592] : Fin 4 → Nat) a + S1x1x1x16.size a ≤ S2x8x8x768.size a
  inb_S2x8x8x768_S1x1x1x16_0_0_4_592 : ∀ a, (![0, 0, 4, 592] : Fin 4 → Nat) a + S1x1x1x16.size a ≤ S2x8x8x768.size a
  inb_S2x8x8x768_S1x1x1x16_0_0_5_592 : ∀ a, (![0, 0, 5, 592] : Fin 4 → Nat) a + S1x1x1x16.size a ≤ S2x8x8x768.size a
  inb_S2x8x8x768_S1x1x1x16_0_0_6_592 : ∀ a, (![0, 0, 6, 592] : Fin 4 → Nat) a + S1x1x1x16.size a ≤ S2x8x8x768.size a
  inb_S2x8x8x768_S1x1x1x16_0_0_7_592 : ∀ a, (![0, 0, 7, 592] : Fin 4 → Nat) a + S1x1x1x16.size a ≤ S2x8x8x768.size a
  inb_S2x8x8x768_S1x1x1x16_1_0_0_608 : ∀ a, (![1, 0, 0, 608] : Fin 4 → Nat) a + S1x1x1x16.size a ≤ S2x8x8x768.size a
  inb_S2x8x8x768_S1x1x1x16_1_0_1_608 : ∀ a, (![1, 0, 1, 608] : Fin 4 → Nat) a + S1x1x1x16.size a ≤ S2x8x8x768.size a
  inb_S2x8x8x768_S1x1x1x16_0_0_0_608 : ∀ a, (![0, 0, 0, 608] : Fin 4 → Nat) a + S1x1x1x16.size a ≤ S2x8x8x768.size a
  inb_S2x8x8x768_S1x1x1x16_0_0_1_608 : ∀ a, (![0, 0, 1, 608] : Fin 4 → Nat) a + S1x1x1x16.size a ≤ S2x8x8x768.size a
  inb_S2x8x8x768_S1x1x1x16_0_0_2_608 : ∀ a, (![0, 0, 2, 608] : Fin 4 → Nat) a + S1x1x1x16.size a ≤ S2x8x8x768.size a
  inb_S2x8x8x768_S1x1x1x16_0_0_3_608 : ∀ a, (![0, 0, 3, 608] : Fin 4 → Nat) a + S1x1x1x16.size a ≤ S2x8x8x768.size a
  inb_S2x8x8x768_S1x1x1x16_0_0_4_608 : ∀ a, (![0, 0, 4, 608] : Fin 4 → Nat) a + S1x1x1x16.size a ≤ S2x8x8x768.size a
  inb_S2x8x8x768_S1x1x1x16_0_0_5_608 : ∀ a, (![0, 0, 5, 608] : Fin 4 → Nat) a + S1x1x1x16.size a ≤ S2x8x8x768.size a
  inb_S2x8x8x768_S1x1x1x16_0_0_6_608 : ∀ a, (![0, 0, 6, 608] : Fin 4 → Nat) a + S1x1x1x16.size a ≤ S2x8x8x768.size a
  inb_S2x8x8x768_S1x1x1x16_0_0_7_608 : ∀ a, (![0, 0, 7, 608] : Fin 4 → Nat) a + S1x1x1x16.size a ≤ S2x8x8x768.size a
  inb_S2x8x8x768_S1x1x1x16_1_0_0_624 : ∀ a, (![1, 0, 0, 624] : Fin 4 → Nat) a + S1x1x1x16.size a ≤ S2x8x8x768.size a
  inb_S2x8x8x768_S1x1x1x16_1_0_1_624 : ∀ a, (![1, 0, 1, 624] : Fin 4 → Nat) a + S1x1x1x16.size a ≤ S2x8x8x768.size a
  inb_S2x8x8x768_S1x1x1x16_0_0_0_624 : ∀ a, (![0, 0, 0, 624] : Fin 4 → Nat) a + S1x1x1x16.size a ≤ S2x8x8x768.size a
  inb_S2x8x8x768_S1x1x1x16_0_0_1_624 : ∀ a, (![0, 0, 1, 624] : Fin 4 → Nat) a + S1x1x1x16.size a ≤ S2x8x8x768.size a
  inb_S2x8x8x768_S1x1x1x16_0_0_2_624 : ∀ a, (![0, 0, 2, 624] : Fin 4 → Nat) a + S1x1x1x16.size a ≤ S2x8x8x768.size a
  inb_S2x8x8x768_S1x1x1x16_0_0_3_624 : ∀ a, (![0, 0, 3, 624] : Fin 4 → Nat) a + S1x1x1x16.size a ≤ S2x8x8x768.size a
  inb_S2x8x8x768_S1x1x1x16_0_0_4_624 : ∀ a, (![0, 0, 4, 624] : Fin 4 → Nat) a + S1x1x1x16.size a ≤ S2x8x8x768.size a
  inb_S2x8x8x768_S1x1x1x16_0_0_5_624 : ∀ a, (![0, 0, 5, 624] : Fin 4 → Nat) a + S1x1x1x16.size a ≤ S2x8x8x768.size a
  inb_S2x8x8x768_S1x1x1x16_0_0_6_624 : ∀ a, (![0, 0, 6, 624] : Fin 4 → Nat) a + S1x1x1x16.size a ≤ S2x8x8x768.size a
  inb_S2x8x8x768_S1x1x1x16_0_0_7_624 : ∀ a, (![0, 0, 7, 624] : Fin 4 → Nat) a + S1x1x1x16.size a ≤ S2x8x8x768.size a
  inb_S2x8x8x768_S1x1x1x16_1_0_0_640 : ∀ a, (![1, 0, 0, 640] : Fin 4 → Nat) a + S1x1x1x16.size a ≤ S2x8x8x768.size a
  inb_S2x8x8x768_S1x1x1x16_1_0_1_640 : ∀ a, (![1, 0, 1, 640] : Fin 4 → Nat) a + S1x1x1x16.size a ≤ S2x8x8x768.size a
  inb_S2x8x8x768_S1x1x1x16_0_0_0_640 : ∀ a, (![0, 0, 0, 640] : Fin 4 → Nat) a + S1x1x1x16.size a ≤ S2x8x8x768.size a
  inb_S2x8x8x768_S1x1x1x16_0_0_1_640 : ∀ a, (![0, 0, 1, 640] : Fin 4 → Nat) a + S1x1x1x16.size a ≤ S2x8x8x768.size a
  inb_S2x8x8x768_S1x1x1x16_0_0_2_640 : ∀ a, (![0, 0, 2, 640] : Fin 4 → Nat) a + S1x1x1x16.size a ≤ S2x8x8x768.size a
  inb_S2x8x8x768_S1x1x1x16_0_0_3_640 : ∀ a, (![0, 0, 3, 640] : Fin 4 → Nat) a + S1x1x1x16.size a ≤ S2x8x8x768.size a
  inb_S2x8x8x768_S1x1x1x16_0_0_4_640 : ∀ a, (![0, 0, 4, 640] : Fin 4 → Nat) a + S1x1x1x16.size a ≤ S2x8x8x768.size a
  inb_S2x8x8x768_S1x1x1x16_0_0_5_640 : ∀ a, (![0, 0, 5, 640] : Fin 4 → Nat) a + S1x1x1x16.size a ≤ S2x8x8x768.size a
  inb_S2x8x8x768_S1x1x1x16_0_0_6_640 : ∀ a, (![0, 0, 6, 640] : Fin 4 → Nat) a + S1x1x1x16.size a ≤ S2x8x8x768.size a
  inb_S2x8x8x768_S1x1x1x16_0_0_7_640 : ∀ a, (![0, 0, 7, 640] : Fin 4 → Nat) a + S1x1x1x16.size a ≤ S2x8x8x768.size a
  inb_S2x8x8x768_S1x1x1x16_1_0_0_656 : ∀ a, (![1, 0, 0, 656] : Fin 4 → Nat) a + S1x1x1x16.size a ≤ S2x8x8x768.size a
  inb_S2x8x8x768_S1x1x1x16_1_0_1_656 : ∀ a, (![1, 0, 1, 656] : Fin 4 → Nat) a + S1x1x1x16.size a ≤ S2x8x8x768.size a
  inb_S2x8x8x768_S1x1x1x16_0_0_0_656 : ∀ a, (![0, 0, 0, 656] : Fin 4 → Nat) a + S1x1x1x16.size a ≤ S2x8x8x768.size a
  inb_S2x8x8x768_S1x1x1x16_0_0_1_656 : ∀ a, (![0, 0, 1, 656] : Fin 4 → Nat) a + S1x1x1x16.size a ≤ S2x8x8x768.size a
  inb_S2x8x8x768_S1x1x1x16_0_0_2_656 : ∀ a, (![0, 0, 2, 656] : Fin 4 → Nat) a + S1x1x1x16.size a ≤ S2x8x8x768.size a
  inb_S2x8x8x768_S1x1x1x16_0_0_3_656 : ∀ a, (![0, 0, 3, 656] : Fin 4 → Nat) a + S1x1x1x16.size a ≤ S2x8x8x768.size a
  inb_S2x8x8x768_S1x1x1x16_0_0_4_656 : ∀ a, (![0, 0, 4, 656] : Fin 4 → Nat) a + S1x1x1x16.size a ≤ S2x8x8x768.size a
  inb_S2x8x8x768_S1x1x1x16_0_0_5_656 : ∀ a, (![0, 0, 5, 656] : Fin 4 → Nat) a + S1x1x1x16.size a ≤ S2x8x8x768.size a
  inb_S2x8x8x768_S1x1x1x16_0_0_6_656 : ∀ a, (![0, 0, 6, 656] : Fin 4 → Nat) a + S1x1x1x16.size a ≤ S2x8x8x768.size a
  inb_S2x8x8x768_S1x1x1x16_0_0_7_656 : ∀ a, (![0, 0, 7, 656] : Fin 4 → Nat) a + S1x1x1x16.size a ≤ S2x8x8x768.size a
  inb_S2x8x8x768_S1x1x1x16_1_0_0_672 : ∀ a, (![1, 0, 0, 672] : Fin 4 → Nat) a + S1x1x1x16.size a ≤ S2x8x8x768.size a
  inb_S2x8x8x768_S1x1x1x16_1_0_1_672 : ∀ a, (![1, 0, 1, 672] : Fin 4 → Nat) a + S1x1x1x16.size a ≤ S2x8x8x768.size a
  inb_S2x8x8x768_S1x1x1x16_0_0_0_672 : ∀ a, (![0, 0, 0, 672] : Fin 4 → Nat) a + S1x1x1x16.size a ≤ S2x8x8x768.size a
  inb_S2x8x8x768_S1x1x1x16_0_0_1_672 : ∀ a, (![0, 0, 1, 672] : Fin 4 → Nat) a + S1x1x1x16.size a ≤ S2x8x8x768.size a
  inb_S2x8x8x768_S1x1x1x16_0_0_2_672 : ∀ a, (![0, 0, 2, 672] : Fin 4 → Nat) a + S1x1x1x16.size a ≤ S2x8x8x768.size a
  inb_S2x8x8x768_S1x1x1x16_0_0_3_672 : ∀ a, (![0, 0, 3, 672] : Fin 4 → Nat) a + S1x1x1x16.size a ≤ S2x8x8x768.size a
  inb_S2x8x8x768_S1x1x1x16_0_0_4_672 : ∀ a, (![0, 0, 4, 672] : Fin 4 → Nat) a + S1x1x1x16.size a ≤ S2x8x8x768.size a
  inb_S2x8x8x768_S1x1x1x16_0_0_5_672 : ∀ a, (![0, 0, 5, 672] : Fin 4 → Nat) a + S1x1x1x16.size a ≤ S2x8x8x768.size a
  inb_S2x8x8x768_S1x1x1x16_0_0_6_672 : ∀ a, (![0, 0, 6, 672] : Fin 4 → Nat) a + S1x1x1x16.size a ≤ S2x8x8x768.size a
  inb_S2x8x8x768_S1x1x1x16_0_0_7_672 : ∀ a, (![0, 0, 7, 672] : Fin 4 → Nat) a + S1x1x1x16.size a ≤ S2x8x8x768.size a
  inb_S2x8x8x768_S1x1x1x16_1_0_0_688 : ∀ a, (![1, 0, 0, 688] : Fin 4 → Nat) a + S1x1x1x16.size a ≤ S2x8x8x768.size a
  inb_S2x8x8x768_S1x1x1x16_1_0_1_688 : ∀ a, (![1, 0, 1, 688] : Fin 4 → Nat) a + S1x1x1x16.size a ≤ S2x8x8x768.size a
  inb_S2x8x8x768_S1x1x1x16_0_0_0_688 : ∀ a, (![0, 0, 0, 688] : Fin 4 → Nat) a + S1x1x1x16.size a ≤ S2x8x8x768.size a
  inb_S2x8x8x768_S1x1x1x16_0_0_1_688 : ∀ a, (![0, 0, 1, 688] : Fin 4 → Nat) a + S1x1x1x16.size a ≤ S2x8x8x768.size a
  inb_S2x8x8x768_S1x1x1x16_0_0_2_688 : ∀ a, (![0, 0, 2, 688] : Fin 4 → Nat) a + S1x1x1x16.size a ≤ S2x8x8x768.size a
  inb_S2x8x8x768_S1x1x1x16_0_0_3_688 : ∀ a, (![0, 0, 3, 688] : Fin 4 → Nat) a + S1x1x1x16.size a ≤ S2x8x8x768.size a
  inb_S2x8x8x768_S1x1x1x16_0_0_4_688 : ∀ a, (![0, 0, 4, 688] : Fin 4 → Nat) a + S1x1x1x16.size a ≤ S2x8x8x768.size a
  inb_S2x8x8x768_S1x1x1x16_0_0_5_688 : ∀ a, (![0, 0, 5, 688] : Fin 4 → Nat) a + S1x1x1x16.size a ≤ S2x8x8x768.size a
  inb_S2x8x8x768_S1x1x1x16_0_0_6_688 : ∀ a, (![0, 0, 6, 688] : Fin 4 → Nat) a + S1x1x1x16.size a ≤ S2x8x8x768.size a
  inb_S2x8x8x768_S1x1x1x16_0_0_7_688 : ∀ a, (![0, 0, 7, 688] : Fin 4 → Nat) a + S1x1x1x16.size a ≤ S2x8x8x768.size a
  inb_S2x8x8x768_S1x1x1x16_1_0_0_704 : ∀ a, (![1, 0, 0, 704] : Fin 4 → Nat) a + S1x1x1x16.size a ≤ S2x8x8x768.size a
  inb_S2x8x8x768_S1x1x1x16_1_0_1_704 : ∀ a, (![1, 0, 1, 704] : Fin 4 → Nat) a + S1x1x1x16.size a ≤ S2x8x8x768.size a
  inb_S2x8x8x768_S1x1x1x16_0_0_0_704 : ∀ a, (![0, 0, 0, 704] : Fin 4 → Nat) a + S1x1x1x16.size a ≤ S2x8x8x768.size a
  inb_S2x8x8x768_S1x1x1x16_0_0_1_704 : ∀ a, (![0, 0, 1, 704] : Fin 4 → Nat) a + S1x1x1x16.size a ≤ S2x8x8x768.size a
  inb_S2x8x8x768_S1x1x1x16_0_0_2_704 : ∀ a, (![0, 0, 2, 704] : Fin 4 → Nat) a + S1x1x1x16.size a ≤ S2x8x8x768.size a
  inb_S2x8x8x768_S1x1x1x16_0_0_3_704 : ∀ a, (![0, 0, 3, 704] : Fin 4 → Nat) a + S1x1x1x16.size a ≤ S2x8x8x768.size a
  inb_S2x8x8x768_S1x1x1x16_0_0_4_704 : ∀ a, (![0, 0, 4, 704] : Fin 4 → Nat) a + S1x1x1x16.size a ≤ S2x8x8x768.size a
  inb_S2x8x8x768_S1x1x1x16_0_0_5_704 : ∀ a, (![0, 0, 5, 704] : Fin 4 → Nat) a + S1x1x1x16.size a ≤ S2x8x8x768.size a
  inb_S2x8x8x768_S1x1x1x16_0_0_6_704 : ∀ a, (![0, 0, 6, 704] : Fin 4 → Nat) a + S1x1x1x16.size a ≤ S2x8x8x768.size a
  inb_S2x8x8x768_S1x1x1x16_0_0_7_704 : ∀ a, (![0, 0, 7, 704] : Fin 4 → Nat) a + S1x1x1x16.size a ≤ S2x8x8x768.size a
  inb_S2x8x8x768_S1x1x1x16_1_0_0_720 : ∀ a, (![1, 0, 0, 720] : Fin 4 → Nat) a + S1x1x1x16.size a ≤ S2x8x8x768.size a
  inb_S2x8x8x768_S1x1x1x16_1_0_1_720 : ∀ a, (![1, 0, 1, 720] : Fin 4 → Nat) a + S1x1x1x16.size a ≤ S2x8x8x768.size a
  inb_S2x8x8x768_S1x1x1x16_0_0_0_720 : ∀ a, (![0, 0, 0, 720] : Fin 4 → Nat) a + S1x1x1x16.size a ≤ S2x8x8x768.size a
  inb_S2x8x8x768_S1x1x1x16_0_0_1_720 : ∀ a, (![0, 0, 1, 720] : Fin 4 → Nat) a + S1x1x1x16.size a ≤ S2x8x8x768.size a
  inb_S2x8x8x768_S1x1x1x16_0_0_2_720 : ∀ a, (![0, 0, 2, 720] : Fin 4 → Nat) a + S1x1x1x16.size a ≤ S2x8x8x768.size a
  inb_S2x8x8x768_S1x1x1x16_0_0_3_720 : ∀ a, (![0, 0, 3, 720] : Fin 4 → Nat) a + S1x1x1x16.size a ≤ S2x8x8x768.size a
  inb_S2x8x8x768_S1x1x1x16_0_0_4_720 : ∀ a, (![0, 0, 4, 720] : Fin 4 → Nat) a + S1x1x1x16.size a ≤ S2x8x8x768.size a
  inb_S2x8x8x768_S1x1x1x16_0_0_5_720 : ∀ a, (![0, 0, 5, 720] : Fin 4 → Nat) a + S1x1x1x16.size a ≤ S2x8x8x768.size a
  inb_S2x8x8x768_S1x1x1x16_0_0_6_720 : ∀ a, (![0, 0, 6, 720] : Fin 4 → Nat) a + S1x1x1x16.size a ≤ S2x8x8x768.size a
  inb_S2x8x8x768_S1x1x1x16_0_0_7_720 : ∀ a, (![0, 0, 7, 720] : Fin 4 → Nat) a + S1x1x1x16.size a ≤ S2x8x8x768.size a
  inb_S2x8x8x768_S1x1x1x16_1_0_0_736 : ∀ a, (![1, 0, 0, 736] : Fin 4 → Nat) a + S1x1x1x16.size a ≤ S2x8x8x768.size a
  inb_S2x8x8x768_S1x1x1x16_1_0_1_736 : ∀ a, (![1, 0, 1, 736] : Fin 4 → Nat) a + S1x1x1x16.size a ≤ S2x8x8x768.size a
  inb_S2x8x8x768_S1x1x1x16_0_0_0_736 : ∀ a, (![0, 0, 0, 736] : Fin 4 → Nat) a + S1x1x1x16.size a ≤ S2x8x8x768.size a
  inb_S2x8x8x768_S1x1x1x16_0_0_1_736 : ∀ a, (![0, 0, 1, 736] : Fin 4 → Nat) a + S1x1x1x16.size a ≤ S2x8x8x768.size a
  inb_S2x8x8x768_S1x1x1x16_0_0_2_736 : ∀ a, (![0, 0, 2, 736] : Fin 4 → Nat) a + S1x1x1x16.size a ≤ S2x8x8x768.size a
  inb_S2x8x8x768_S1x1x1x16_0_0_3_736 : ∀ a, (![0, 0, 3, 736] : Fin 4 → Nat) a + S1x1x1x16.size a ≤ S2x8x8x768.size a
  inb_S2x8x8x768_S1x1x1x16_0_0_4_736 : ∀ a, (![0, 0, 4, 736] : Fin 4 → Nat) a + S1x1x1x16.size a ≤ S2x8x8x768.size a
  inb_S2x8x8x768_S1x1x1x16_0_0_5_736 : ∀ a, (![0, 0, 5, 736] : Fin 4 → Nat) a + S1x1x1x16.size a ≤ S2x8x8x768.size a
  inb_S2x8x8x768_S1x1x1x16_0_0_6_736 : ∀ a, (![0, 0, 6, 736] : Fin 4 → Nat) a + S1x1x1x16.size a ≤ S2x8x8x768.size a
  inb_S2x8x8x768_S1x1x1x16_0_0_7_736 : ∀ a, (![0, 0, 7, 736] : Fin 4 → Nat) a + S1x1x1x16.size a ≤ S2x8x8x768.size a
  inb_S2x8x8x768_S1x1x1x16_1_0_0_752 : ∀ a, (![1, 0, 0, 752] : Fin 4 → Nat) a + S1x1x1x16.size a ≤ S2x8x8x768.size a
  inb_S2x8x8x768_S1x1x1x16_1_0_1_752 : ∀ a, (![1, 0, 1, 752] : Fin 4 → Nat) a + S1x1x1x16.size a ≤ S2x8x8x768.size a
  inb_S2x8x8x768_S1x1x1x16_0_0_0_752 : ∀ a, (![0, 0, 0, 752] : Fin 4 → Nat) a + S1x1x1x16.size a ≤ S2x8x8x768.size a
  inb_S2x8x8x768_S1x1x1x16_0_0_1_752 : ∀ a, (![0, 0, 1, 752] : Fin 4 → Nat) a + S1x1x1x16.size a ≤ S2x8x8x768.size a
  inb_S2x8x8x768_S1x1x1x16_0_0_2_752 : ∀ a, (![0, 0, 2, 752] : Fin 4 → Nat) a + S1x1x1x16.size a ≤ S2x8x8x768.size a
  inb_S2x8x8x768_S1x1x1x16_0_0_3_752 : ∀ a, (![0, 0, 3, 752] : Fin 4 → Nat) a + S1x1x1x16.size a ≤ S2x8x8x768.size a
  inb_S2x8x8x768_S1x1x1x16_0_0_4_752 : ∀ a, (![0, 0, 4, 752] : Fin 4 → Nat) a + S1x1x1x16.size a ≤ S2x8x8x768.size a
  inb_S2x8x8x768_S1x1x1x16_0_0_5_752 : ∀ a, (![0, 0, 5, 752] : Fin 4 → Nat) a + S1x1x1x16.size a ≤ S2x8x8x768.size a
  inb_S2x8x8x768_S1x1x1x16_0_0_6_752 : ∀ a, (![0, 0, 6, 752] : Fin 4 → Nat) a + S1x1x1x16.size a ≤ S2x8x8x768.size a
  inb_S2x8x8x768_S1x1x1x16_0_0_7_752 : ∀ a, (![0, 0, 7, 752] : Fin 4 → Nat) a + S1x1x1x16.size a ≤ S2x8x8x768.size a
  inb_S2x8x8x768_S1x1x8x768_0_0_0_0 : ∀ a, (![0, 0, 0, 0] : Fin 4 → Nat) a + S1x1x8x768.size a ≤ S2x8x8x768.size a
  squeezes_S1x1x8x768_S8x768 : S1x1x8x768.Squeezes S8x768
  transposes_S577x64x768_S64x577x768_1_0_2 : S577x64x768.Transposes [1, 0, 2] S64x577x768
  hcc0_scratch2 : 0 + S2.numel ≤ 9
  hcc0_scratch3 : 2 + S2.numel ≤ 9
  hcc0_scoped0 : 4 + S_.numel ≤ 9
  hcc0_scoped1 : 5 + S_.numel ≤ 9
  hcc0_scoped2 : 6 + S_.numel ≤ 9
  hcc0_scoped3 : 7 + S_.numel ≤ 9
  hcc0_scoped4 : 8 + S_.numel ≤ 9
  hscKind : ∀ q, scKind q ≠ .tc
  hscCore : ∀ q, scNCore q ≤ τ.nSC
  hscSub : ∀ q, scNSub q ≤ τ.nSub

class Facts₀ : Prop where
  k0 : K0.Facts₀
  shapes1 : Shapes1.Facts₀
attribute [instance] Facts₀.k0 Facts₀.shapes1

variable [Facts₀]

abbrev cc0_scratch2 : DmaSems sig S2 := SemArray.consecutive 0 S2 hcc0_scratch2
abbrev cc0_scratch3 : DmaSems sig S2 := SemArray.consecutive 2 S2 hcc0_scratch3
abbrev cc0_scoped0 : DmaSems sig S_ := SemArray.consecutive 4 S_ hcc0_scoped0
abbrev cc0_scoped1 : DmaSems sig S_ := SemArray.consecutive 5 S_ hcc0_scoped1
abbrev cc0_scoped2 : DmaSems sig S_ := SemArray.consecutive 6 S_ hcc0_scoped2
abbrev cc0_scoped3 : DmaSems sig S_ := SemArray.consecutive 7 S_ hcc0_scoped3
abbrev cc0_scoped4 : DmaSems sig S_ := SemArray.consecutive 8 S_ hcc0_scoped4

class Facts : Prop extends Facts₀ where

variable [Facts]
-- ==== ReferenceIdeal.lean ====
abbrev S64x576x768 : Shape := ⟨3, ![64, 576, 768]⟩
abbrev S577x768 : Shape := ⟨2, ![577, 768]⟩
abbrev S1x1x768 : Shape := ⟨3, ![1, 1, 768]⟩
abbrev S1x64x1x768 : Shape := ⟨4, ![1, 64, 1, 768]⟩
abbrev S64x1x768 : Shape := ⟨3, ![64, 1, 768]⟩
abbrev S64x577x768 : Shape := ⟨3, ![64, 577, 768]⟩
abbrev S577 : Shape := ⟨1, ![577]⟩
abbrev S_ : Shape := ⟨0, ![]⟩
abbrev S577x1 : Shape := ⟨2, ![577, 1]⟩
abbrev S1 : Shape := ⟨1, ![1]⟩
abbrev S1x1 : Shape := ⟨2, ![1, 1]⟩
abbrev S1x577x768 : Shape := ⟨3, ![1, 577, 768]⟩

abbrev nBuf : Space → Nat
  | .hbm => 39
  | .vmem => 0
  | .smem => 0
  | _ => 0

abbrev bufTy : (tb : Table) → Fin (tcTables nBuf tb) → BufTy
  | .hbm, ⟨0, _⟩ => ⟨S64x576x768, .f32⟩
  | .hbm, ⟨1, _⟩ => ⟨S577x768, .f32⟩
  | .hbm, ⟨2, _⟩ => ⟨S1x1x768, .f32⟩
  | .hbm, ⟨3, _⟩ => ⟨S1x64x1x768, .f32⟩
  | .hbm, ⟨4, _⟩ => ⟨S64x1x768, .f32⟩
  | .hbm, ⟨5, _⟩ => ⟨S64x577x768, .f32⟩
  | .hbm, ⟨6, _⟩ => ⟨S577, .i32⟩
  | .hbm, ⟨7, _⟩ => ⟨S_, .i32⟩
  | .hbm, ⟨8, _⟩ => ⟨S577, .i32⟩
  | .hbm, ⟨9, _⟩ => ⟨S577, .i32⟩
  | .hbm, ⟨10, _⟩ => ⟨S_, .i32⟩
  | .hbm, ⟨11, _⟩ => ⟨S577, .i32⟩
  | .hbm, ⟨12, _⟩ => ⟨S577, .i32⟩
  | .hbm, ⟨13, _⟩ => ⟨S_, .i32⟩
  | .hbm, ⟨14, _⟩ => ⟨S577, .i32⟩
  | .hbm, ⟨15, _⟩ => ⟨S577, .i1⟩
  | .hbm, ⟨16, _⟩ => ⟨S_, .i32⟩
  | .hbm, ⟨17, _⟩ => ⟨S577, .i32⟩
  | .hbm, ⟨18, _⟩ => ⟨S577, .i32⟩
  | .hbm, ⟨19, _⟩ => ⟨S577, .i32⟩
  | .hbm, ⟨20, _⟩ => ⟨S577x1, .i32⟩
  | .hbm, ⟨21, _⟩ => ⟨S1, .i32⟩
  | .hbm, ⟨22, _⟩ => ⟨S_, .i32⟩
  | .hbm, ⟨23, _⟩ => ⟨S577x1, .i32⟩
  | .hbm, ⟨24, _⟩ => ⟨S577x1, .i1⟩
  | .hbm, ⟨25, _⟩ => ⟨S1x1, .i32⟩
  | .hbm, ⟨26, _⟩ => ⟨S577x1, .i32⟩
  | .hbm, ⟨27, _⟩ => ⟨S577x1, .i1⟩
  | .hbm, ⟨28, _⟩ => ⟨S577x1, .i1⟩
  | .hbm, ⟨29, _⟩ => ⟨S_, .i1⟩
  | .hbm, ⟨30, _⟩ => ⟨S577, .i1⟩
  | .hbm, ⟨31, _⟩ => ⟨S577x768, .f32⟩
  | .hbm, ⟨32, _⟩ => ⟨S577x768, .i1⟩
  | .hbm, ⟨33, _⟩ => ⟨S_, .f32⟩
  | .hbm, ⟨34, _⟩ => ⟨S577x768, .f32⟩
  | .hbm, ⟨35, _⟩ => ⟨S577x768, .f32⟩
  | .hbm, ⟨36, _⟩ => ⟨S1x577x768, .f32⟩
  | .hbm, ⟨37, _⟩ => ⟨S64x577x768, .f32⟩
  | .hbm, ⟨38, _⟩ => ⟨S64x577x768, .f32⟩
  | _, _ => ⟨S64x576x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩

abbrev nD : Nat := 1
abbrev τ : Topo := Topo.v7x

variable {F : FTy → Type} [FloatOps F]

class Facts₀ : Prop where
  bcast_S1x1x768_S1x64x1x768_0_2_3 : S1x1x768.BroadcastsInDim S1x64x1x768 (![0, 2, 3] : Fin 3 → Fin S1x64x1x768.rank)
  shapeCasts_S1x64x1x768_S64x1x768 : S1x64x1x768.ShapeCasts S64x1x768
  concatenates_S64x576x768_S64x1x768_S64x577x768_d1 : Shape.Concatenates [S64x576x768, S64x1x768] S64x577x768 1
  bcast_S_S577 : S_.BroadcastsInDim S577 (![] : Fin 0 → Fin S577.rank)
  bcast_S577_S577x1_0 : S577.BroadcastsInDim S577x1 (![0] : Fin 1 → Fin S577x1.rank)
  bcast_S_S577x1 : S_.BroadcastsInDim S577x1 (![] : Fin 0 → Fin S577x1.rank)
  bcast_S1_S1x1_1 : S1.BroadcastsInDim S1x1 (![1] : Fin 1 → Fin S1x1.rank)
  bcast_S1x1_S577x1_0_1 : S1x1.BroadcastsInDim S577x1 (![0, 1] : Fin 2 → Fin S577x1.rank)
  reducesTo_S577x1_S577_d1 : S577x1.ReducesTo [1] S577
  h_S_ : 0 < S_.numel
  bcast_S577_S577x768_0 : S577.BroadcastsInDim S577x768 (![0] : Fin 1 → Fin S577x768.rank)
  bcast_S_S577x768 : S_.BroadcastsInDim S577x768 (![] : Fin 0 → Fin S577x768.rank)
  bcast_S577x768_S1x577x768_1_2 : S577x768.BroadcastsInDim S1x577x768 (![1, 2] : Fin 2 → Fin S1x577x768.rank)
  bcast_S1x577x768_S64x577x768_0_1_2 : S1x577x768.BroadcastsInDim S64x577x768 (![0, 1, 2] : Fin 3 → Fin S64x577x768.rank)
  gather_S577x768_S577x1_S577x768_1_0_n_n_0_1_1768_wf : GatherDims.WF S577x768 S577x1 S577x768 [1] [0] [] [0] [] 1 ![1, 768]

variable [Facts₀]

def gather_S577x768_S577x1_S577x768_1_0_n_n_0_1_1768 : GatherDims S577x768 S577x1 S577x768 where
  offsetDims := [1]
  collapsedSliceDims := [0]
  operandBatchingDims := []
  startIndicesBatchingDims := []
  startIndexMap := [0]
  indexVectorDim := 1
  sliceSizes := ![1, 768]
  wf := gather_S577x768_S577x1_S577x768_1_0_n_n_0_1_1768_wf

class Facts : Prop extends Facts₀ where

variable [Facts]
-- ==== Proof.Spec.lean ====
/-
  The function both programs compute, stated once over the three argument arrays.

  Write x for the patch embeddings [64, 576, 768], p for the position table [577, 768] and t for the class
  token [1, 1, 768]. The result is the array [64, 577, 768] whose entry (b, l, d) is
    x (b, l, d) + p (l, d)   for a patch row l < 576, and
    t (0, 0, d) + p (576, d) for the one extra row l = 576 (the class token, appended after the patches).
  The kernel builds the same numbers with the batch and row axes exchanged (an array [577, 64, 768], `outT`)
  and exchanges them back at the end; `res` is `outT` read with its first two coordinates swapped.
  Both sums are written with the operands in this order on both sides, so no law of addition is needed
  to compare them, and nothing here depends on the entries being finite.
-/
import Idealize.ShloMosaic.PureOps.Ideal
import Idealize.ShloMosaic.Lib.ValueIdx

noncomputable section

namespace Cert.Spec

open Idealize.ShloMosaic Idealize.ShloMosaic.ValueIdx

abbrev S64x576x768 : Shape := ⟨3, ![64, 576, 768]⟩
abbrev S577x768 : Shape := ⟨2, ![577, 768]⟩
abbrev S1x1x768 : Shape := ⟨3, ![1, 1, 768]⟩
abbrev S577x64x768 : Shape := ⟨3, ![577, 64, 768]⟩
abbrev S64x577x768 : Shape := ⟨3, ![64, 577, 768]⟩

variable {F : FTy → Type} [FloatOps F]

/-- One entry of the row-major-by-position array: position `l`, batch `b`, feature `d`. A patch row adds the
    position's table row to the patch; the last row adds it to the class token. -/
def entry (x : FVec F S64x576x768 .f32) (p : FVec F S577x768 .f32) (t : FVec F S1x1x768 .f32)
    (l : Fin 577) (b : Fin 64) (d : Fin 768) : F .f32 :=
  if h : l.val < 576 then
    FloatOps.addf (x (ix3 (n0 := 64) (n1 := 576) (n2 := 768) b ⟨l.val, h⟩ d)) (p (ix2 (n0 := 577) (n1 := 768) l d))
  else
    FloatOps.addf (t (ix3 (n0 := 1) (n1 := 1) (n2 := 768) 0 0 d)) (p (ix2 (n0 := 577) (n1 := 768) l d))

/-- The array the kernel fills, positions first: entry (l, b, d). -/
def outT (x : FVec F S64x576x768 .f32) (p : FVec F S577x768 .f32) (t : FVec F S1x1x768 .f32) :
    FVec F S577x64x768 .f32 :=
  fun i => entry x p t (i 0) (i 1) (i 2)

/-- The result of both programs, batches first: entry (b, l, d). -/
def res (x : FVec F S64x576x768 .f32) (p : FVec F S577x768 .f32) (t : FVec F S1x1x768 .f32) :
    FVec F S64x577x768 .f32 :=
  fun i => entry x p t (i 1) (i 0) (i 2)

/-- The result is the positions-first array with its first two coordinates exchanged. -/
theorem res_apply (x : FVec F S64x576x768 .f32) (p : FVec F S577x768 .f32) (t : FVec F S1x1x768 .f32)
    (b : Fin 64) (l : Fin 577) (d : Fin 768) :
    res x p t (ix3 b l d) = outT x p t (ix3 l b d) := rfl

/-- A patch row, read with explicit coordinates. -/
theorem entry_patch (x : FVec F S64x576x768 .f32) (p : FVec F S577x768 .f32) (t : FVec F S1x1x768 .f32)
    (l : Fin 577) (b : Fin 64) (d : Fin 768) (h : l.val < 576) :
    entry x p t l b d = FloatOps.addf (x (ix3 b ⟨l.val, h⟩ d)) (p (ix2 l d)) := by
  unfold entry; rw [dif_pos h]

/-- The class-token row, read with explicit coordinates. -/
theorem entry_class (x : FVec F S64x576x768 .f32) (p : FVec F S577x768 .f32) (t : FVec F S1x1x768 .f32)
    (l : Fin 577) (b : Fin 64) (d : Fin 768) (h : ¬ l.val < 576) :
    entry x p t l b d = FloatOps.addf (t (ix3 0 0 d)) (p (ix2 l d)) := by
  unfold entry; rw [dif_neg h]

end Cert.Spec

end
-- ==== Proof.SetupI.lean ====
/-
  What the kernel's thirty-two workers are handed and hand back, stated once.

  The device's two SparseCores run sixteen vector subcores each. Worker number w = 2 * s + c (subcore s of
  SparseCore c) splits as g = w / 8 and j = w % 8: it adds the position rows to the patches of batches
  16 g .. 16 g + 15 at rows 72 j .. 72 j + 71, and, when j = 0, also writes the class-token row 576 for its
  batches. Written positions-first (row, batch, feature), the entries worker w writes are exactly those with
  batch / 16 = w / 8 and either row < 576 with row / 72 = w % 8, or row = 576 with w % 8 = 0: these thirty-two
  sets are pairwise disjoint and together the whole array. The three inputs are only read, so each worker
  holds a read share of each of them, whole.

  A worker's task starts from its read shares and its part of the output at whatever the array held, and
  ends with the same read shares and its part of the output at contents `f` of which a property `R w f` holds.
  Two properties are used: "f is `Spec.outT` of the inputs on the worker's entries" (`Rval`: what the values
  claim needs) and the empty property (`Rtriv`: enough for the programs to run to the end with the inputs
  unchanged). Everything downstream is stated once, for any property that only looks at the worker's own entries.
  A SparseCore's operands are the product of its sixteen workers' (so dealing them out is the identity).
  Workers signal nobody: every copy a worker starts it waits for itself, so beside the launch's own handshakes
  the only ghost state is the counters of local transfers.
-/
import proofs.«204390_g6468220748199_cont_9to1_m_1136_17_alg».proof.KernelIdeal
import proofs.«204390_g6468220748199_cont_9to1_m_1136_17_alg».proof.Proof.Gen.KernelIdeal
import proofs.«204390_g6468220748199_cont_9to1_m_1136_17_alg».proof.Proof.Spec
import Idealize.ShloMosaic.Lib.SparseCore.Launch
import Idealize.ShloMosaic.Lib.StableHlo.Run
import Idealize.ShloMosaic.Lib.Pipeline.Kit
import Idealize.ShloMosaic.Lib.Tactic

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem reads it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the launch's handshakes beside the counters of local transfers -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ) (ρ : Dev nD → PrngReg)

/-- The patches [64, 576, 768], the position table [577, 768], the class token [1, 1, 768], the positions-first
    output [577, 64, 768] and the result [64, 577, 768], as the TensorCore names them. -/
abbrev xLoc (d : Dev nD) : Loc nD τ sig := (SparseCore.T d).loc main_arg0
abbrev pLoc (d : Dev nD) : Loc nD τ sig := (SparseCore.T d).loc main_arg1
abbrev tLoc (d : Dev nD) : Loc nD τ sig := (SparseCore.T d).loc main_arg2
abbrev oLoc (d : Dev nD) : Loc nD τ sig := (SparseCore.T d).loc main_v0
abbrev rLoc (d : Dev nD) : Loc nD τ sig := (SparseCore.T d).loc main_v1

variable [FloatOps F]

/-- The same arrays and the two scratch buffers as a vector subcore's kernel is passed them. -/
abbrev xV : Memref sig .scVector .hbm S64x576x768 .f32 := Memref.whole main_arg0_scv
abbrev pV : Memref sig .scVector .hbm S577x768 .f32 := Memref.whole main_arg1_scv
abbrev tV : Memref sig .scVector .hbm S1x1x768 .f32 := Memref.whole main_arg2_scv
abbrev oV : Memref sig .scVector .hbm S577x64x768 .f32 := Memref.whole main_v0_scv
abbrev posV : Memref sig .scVector .vmem S8x768 .f32 := Memref.whole cc0_scratch0
abbrev slotV : Memref sig .scVector .vmem S2x8x8x768 .f32 := Memref.whole cc0_scratch1

/-- The positions-first array the kernel must leave: `Spec.outT` of the three inputs as the launch found them. -/
def outT (d : Dev nD) : Buf (Elt F) (oLoc d) :=
  Cert.Spec.outT (F := F) (m (xLoc d)) (m (pLoc d)) (m (tLoc d))

/-! ## The workers -/

/-- Worker number of subcore `s` of SparseCore `c`. -/
def widN (c s : ℕ) : ℕ := s * 2 + c

/-- The entries of the positions-first array that worker `w` writes: its sixteen batches, at its seventy-two
    rows, and at the class-token row when it is the first worker of its batch group. -/
def tileSet (w : ℕ) : Finset S577x64x768.Idx :=
  Finset.univ.filter fun i =>
    (i 1).val / 16 = w / 8 ∧ (((i 0).val < 576 ∧ (i 0).val / 72 = w % 8) ∨ ((i 0).val = 576 ∧ w % 8 = 0))

theorem mem_tileSet (w : ℕ) (i : S577x64x768.Idx) :
    i ∈ tileSet w ↔ (i 1).val / 16 = w / 8 ∧ (((i 0).val < 576 ∧ (i 0).val / 72 = w % 8) ∨ ((i 0).val = 576 ∧ w % 8 = 0)) := by
  unfold tileSet; rw [Finset.mem_filter]; exact ⟨fun h => h.2, fun h => ⟨Finset.mem_univ _, h⟩⟩

/-- A worker's read shares of the three inputs, whole, at their launch contents. -/
def tileIn (d : Dev nD) (w : ℕ) : sProp 𝕄 :=
  iprop((xLoc d ↦{Transfers.shareTokN fullShare w} m (xLoc d)) ∗ (pLoc d ↦{Transfers.shareTokN fullShare w} m (pLoc d))
    ∗ (tLoc d ↦{Transfers.shareTokN fullShare w} m (tLoc d)))

/-- A worker's part of the output array, at contents `f`. -/
def tileOut (d : Dev nD) (w : ℕ) (f : Buf (Elt F) (oLoc d)) : sProp 𝕄 := oLoc d ↦[tileSet w]{fullShare} f

/-- A property of the output array's contents that worker `w` must establish, on device `d`. -/
abbrev OutProp : Type := (d : Dev nD) → ℕ → Buf (Elt F) (oLoc d) → Prop

/-- It only looks at the worker's own entries. -/
def OutProp.Local (R : OutProp (F := F)) : Prop :=
  ∀ (d : Dev nD) (w : ℕ) (f g : Buf (Elt F) (oLoc d)), (∀ i ∈ tileSet w, f i = g i) → R d w f → R d w g

/-- The values claim's property: on the worker's entries the contents are `Spec.outT` of the inputs. -/
def Rval : OutProp (F := F) := fun d w f => ∀ i ∈ tileSet w, f i = outT m d i
/-- The empty property. -/
def Rtriv : OutProp (F := F) := fun _ _ _ => True

theorem Rval_local : (Rval m).Local := fun _ _ _ _ h hf i hi => (h i hi).symm.trans (hf i hi)
theorem Rtriv_local : (Rtriv (F := F)).Local := fun _ _ _ _ _ _ => trivial

/-- What a task starts from, and what it ends with. -/
def goRes (d : Dev nD) (c s : ℕ) : sProp 𝕄 := iprop(tileIn m d (widN c s) ∗ tileOut d (widN c s) (m (oLoc d)))
def tdRes (R : OutProp (F := F)) (d : Dev nD) (c s : ℕ) : sProp 𝕄 :=
  iprop(tileIn m d (widN c s) ∗ ∃ f, ⌜R d (widN c s) f⌝ ∗ tileOut d (widN c s) f)

instance tileIn_storable (d : Dev nD) (w : ℕ) : BI.Storable (upEmb : UEmb _ 𝕄) (tileIn m d w) := by
  unfold tileIn; infer_instance
instance tileOut_storable (d : Dev nD) (w : ℕ) (f : Buf (Elt F) (oLoc d)) : BI.Storable (upEmb : UEmb _ 𝕄) (tileOut d w f) := by
  unfold tileOut; infer_instance
instance goRes_storable (d : Dev nD) (c s : ℕ) : BI.Storable (upEmb : UEmb _ 𝕄) (goRes m d c s) := by
  unfold goRes; infer_instance
instance tdRes_storable (R : OutProp (F := F)) (d : Dev nD) (c s : ℕ) : BI.Storable (upEmb : UEmb _ 𝕄) (tdRes m R d c s) := by
  unfold tdRes; infer_instance

/-- The one call: a SparseCore is handed, and hands back, the product of its sixteen workers' resources. -/
def P (R : OutProp (F := F)) : (K (F := F)).Pay (nD := nD) (Val := Elt F) (Name := ℕ) (U := UU) where
  st := fun q d c => bigSep Finset.univ fun s : Fin ((K (F := F)).nSub q) => goRes m d c.val s.val
  dn := fun q d c => bigSep Finset.univ fun s : Fin ((K (F := F)).nSub q) => tdRes m R d c.val s.val
  go := fun _ d c s => goRes m d c.val s.val
  td := fun _ d c s => tdRes m R d c.val s.val
  x := fun _ _ => iprop(emp)

instance P_storable (R : OutProp (F := F)) : (P (F := F) m R).IsStorable where
  st _ d c := by unfold P; infer_instance
  dn _ d c := by unfold P; infer_instance
  go _ d c s := by unfold P; infer_instance
  td _ d c s := by unfold P; infer_instance

/-! ## One worker's task, as the launch asks for it -/

/-- Grid coordinates of a tile. -/
def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0

/-- The body of one worker, at any tile `L` of the grid: from its read shares, its part of the output at the launch
    contents, its scratch storage and its semaphores at zero, the kernel function runs to the end, faults nowhere,
    leaves its part of the output at contents of which `R` holds, and returns everything else as it found it. -/
def TileBody (R : OutProp (F := F)) : Prop :=
  ∀ (d : Dev nD) (L : grid0.Coords) (O : CellTallies nD τ sig (HIx 1)) (W : Waits sig (HIx 1)), (∀ g, O g none = 0) →
    iprop(levAts (K (F := F)).L (K (F := F)).lev ∗ emp ∗ goRes m d (L 0).val (L 1).val
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_kernel L xV (Memref.isWhole_whole _) pV (Memref.isWhole_whole _) tV (Memref.isWhole_whole _) oV (Memref.isWhole_whole _)
            posV (Memref.isWhole_whole _) slotV (Memref.isWhole_whole _) cc0_scratch2 cc0_scratch3 cc0_scoped0 cc0_scoped1 cc0_scoped2 cc0_scoped3 cc0_scoped4)
          fun _ => iprop(tdRes m R d (L 0).val (L 1).val ∗ scopedBufs (V d (cV L) (jV L)) ∗ scopedSems0 (V d (cV L) (jV L))
            ∗ ∃ W', ⌜∀ p ∈ W', p ∈ W ∨ p.2 = none⌝ ∗ owes (V d (cV L) (jV L)) O W')

end Cert.KernelIdeal.Hand

end
-- ==== Proof.LaunchA.lean ====
/-
  The one call's three obligations towards the launch: one worker's task, how a SparseCore's operands are dealt to
  its sixteen workers, and the ghost state the run starts from.

  A worker's task is the kernel function at the worker's grid coordinates; its proof is taken as a hypothesis here
  (stated once, at a symbolic tile). A worker signals nobody and owes nothing of its own, so what it owes at its
  exit is exactly what it owed at its entry. A SparseCore is handed the product of its workers' resources and hands
  the product of their results back: dealing them out and gathering them is the identity. The ghost state is the
  handshakes' rounds beside the counters of local transfers; the launch keeps the rounds and needs no counter.
-/
import proofs.«204390_g6468220748199_cont_9to1_m_1136_17_alg».proof.Proof.SetupI

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## One worker's task -/

/-- The body table's row for a vector subcore: the kernel function at the subcore's grid coordinates, on the whole
    arrays and the subcore's own scratch storage and semaphores. -/
theorem defs₀_vector (c : Fin τ.nSC) (s : Fin τ.nSub) :
    defs₀ (F := F) (.scVector c s) 0 ()
      = SparseCore.onTile hcore0 hsub0 (fun c s => cc0__sc_kernel (coordsV c s)
          xV (Memref.isWhole_whole _) pV (Memref.isWhole_whole _) tV (Memref.isWhole_whole _) oV (Memref.isWhole_whole _)
          posV (Memref.isWhole_whole _) slotV (Memref.isWhole_whole _) cc0_scratch2 cc0_scratch3 cc0_scoped0 cc0_scoped1 cc0_scoped2 cc0_scoped3 cc0_scoped4) ⟨⟩ c s := rfl

omit [FloatOps F] in
/-- Waits recorded at no call's index are in particular recorded at no index or the call's. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The task of vector subcore `i` of SparseCore `c`: the worker's body at the tile's coordinates. -/
theorem tileObl (R : OutProp (F := F)) (hbody : TileBody (F := F) m R) :
    (K (F := F)).TileObl (D (F := F)) 𝒱 (P m R) v₀ 0 := by
  intro d c i O W hO _ _
  -- a worker owes nothing for a protocol of its own
  simp only [show (P m R).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hbody d (coordsV ⟨_, hc.1⟩ ⟨_, hc.2⟩) O W hO).trans (wp_mono frame _ _ fun _ => obl_post)

/-! ## Dealing a SparseCore's operands to its workers -/

/-- A SparseCore's operands are the product of its workers' and its results the product of theirs. -/
theorem vecSplit (R : OutProp (F := F)) : (K (F := F)).VecSplit' (P m R) 0 := by
  intro d c
  show (bigSep Finset.univ fun s : Fin ((K (F := F)).nSub 0) => goRes m d c.val s.val) ⊢ |={Set.univ}=> iprop(
      (bigSep Finset.univ fun s : Fin ((K (F := F)).nSub 0) => goRes m d c.val s.val)
      ∗ ((bigSep Finset.univ fun s : Fin ((K (F := F)).nSub 0) => tdRes m R d c.val s.val)
          -∗ bigSep Finset.univ fun s : Fin ((K (F := F)).nSub 0) => tdRes m R d c.val s.val))
  iintro H; imodintro
  isplitl [H]; · iexact H
  iintro H; iexact H

/-! ## The ghost state at the launch -/

/-- The handshakes' rounds at their start, and no counter. -/
def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

/-- The launch keeps the rounds; the counters are dropped; no worker's proof consumes anything of the launch's. -/
theorem hu₀ (R : OutProp (F := F)) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m R).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.KernelIdeal.Hand

end
-- ==== Proof.SplitI.lean ====
/-
  How the output array and the read shares of the inputs are divided among the thirty-two workers, and put back.

  An entry (row, batch, feature) of the positions-first array belongs to exactly one worker: the one numbered
  8 * (batch / 16) + row / 72 for a patch row (row < 576), and 8 * (batch / 16) for the class-token row 576. So the
  thirty-two parts are pairwise disjoint and together the whole array: holding the array whole is holding the
  thirty-two parts, at the same contents. After the call each worker hands its part back at contents of its own
  choosing; the parts join into the whole array at ONE function that agrees with each worker's on that worker's part,
  and a property that only looks at a worker's own entries carries over to the joined function.
  Worker w is subcore w / 2 of SparseCore w % 2, which numbers the workers by the pairs (SparseCore, subcore).
  Each input is read by all: its full share splits into a remainder, which the TensorCore keeps across the call, and
  thirty-two read shares, one per worker.
-/
import proofs.«204390_g6468220748199_cont_9to1_m_1136_17_alg».proof.Proof.SetupI

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)
variable [FloatOps F]

/-! ## Every entry has exactly one worker -/

theorem idx_lt0 (i : S577x64x768.Idx) : (i 0).val < 577 := (i 0).isLt
theorem idx_lt1 (i : S577x64x768.Idx) : (i 1).val < 64 := (i 1).isLt

/-- An entry's worker is determined by its batch group and its row block. -/
theorem tile_unique (w w' : ℕ) (i : S577x64x768.Idx) (h : i ∈ tileSet w) (h' : i ∈ tileSet w') : w = w' := by
  rw [mem_tileSet] at h h'
  omega

/-- Every entry has a worker among the thirty-two. -/
theorem exists_tile (i : S577x64x768.Idx) : ∃ w, w < 32 ∧ i ∈ tileSet w := by
  have h0 := idx_lt0 i
  have h1 := idx_lt1 i
  by_cases h : (i 0).val < 576
  · refine ⟨8 * ((i 1).val / 16) + (i 0).val / 72, by omega, ?_⟩
    rw [mem_tileSet]; omega
  · refine ⟨8 * ((i 1).val / 16), by omega, ?_⟩
    rw [mem_tileSet]; omega

theorem tiles_disjoint : ∀ w ∈ (Finset.univ : Finset (Fin 32)), ∀ w' ∈ (Finset.univ : Finset (Fin 32)), w ≠ w' →
    Disjoint (tileSet w.val) (tileSet w'.val) := by
  intro w _ w' _ hne
  rw [Finset.disjoint_left]
  intro i hi hi'
  exact hne (Fin.ext (tile_unique _ _ i hi hi'))

theorem tiles_cover : (Finset.univ : Finset (Fin 32)).biUnion (fun w => tileSet w.val) = Finset.univ := by
  refine Finset.eq_univ_of_forall fun i => ?_
  obtain ⟨w, hw, hi⟩ := exists_tile i
  exact Finset.mem_biUnion.mpr ⟨⟨w, hw⟩, Finset.mem_univ _, hi⟩

/-! ## Workers as pairs (SparseCore, subcore) -/

/-- Worker 2 s + c is subcore s of SparseCore c. -/
def widE : Fin 2 × Fin 16 ≃ Fin 32 where
  toFun p := ⟨p.2.val * 2 + p.1.val, by have := p.1.isLt; have := p.2.isLt; omega⟩
  invFun w := (⟨w.val % 2, Nat.mod_lt _ (by decide)⟩, ⟨w.val / 2, by have := w.isLt; omega⟩)
  left_inv p := by
    have h1 := p.1.isLt; have h2 := p.2.isLt
    refine Prod.ext (Fin.ext ?_) (Fin.ext ?_)
    · show (p.2.val * 2 + p.1.val) % 2 = p.1.val; omega
    · show (p.2.val * 2 + p.1.val) / 2 = p.2.val; omega
  right_inv w := by
    refine Fin.ext ?_
    show w.val / 2 * 2 + w.val % 2 = w.val; omega

theorem widE_val (c : Fin 2) (s : Fin 16) : (widE (c, s)).val = widN c.val s.val := rfl

/-- A product over the thirty-two workers is the product over the SparseCores of the products over their subcores. -/
theorem bigSep_workers (Φ : ℕ → sProp 𝕄) :
    (bigSep (Finset.univ : Finset (Fin 32)) fun w => Φ w.val)
      = bigSep (Finset.univ : Finset (Fin 2)) fun c => bigSep (Finset.univ : Finset (Fin 16)) fun s => Φ (widN c.val s.val) := by
  rw [bigSep_univ_equiv widE (fun w : Fin 32 => Φ w.val), bigSep_univ_prod]
  rfl

/-! ## The output array among the workers -/

/-- The array whole, at any contents, is the thirty-two parts at those contents. -/
theorem out_tiles (d : Dev nD) (f : Buf (Elt F) (oLoc d)) :
    (oLoc d ↦{fullShare} f : sProp 𝕄) = bigSep (Finset.univ : Finset (Fin 32)) fun w => tileOut d w.val f := by
  unfold tileOut
  rw [← pointsTo_biUnion Finset.univ (ℓ := oLoc d) (fun w : Fin 32 => tileSet w.val) tiles_disjoint, tiles_cover]; try rfl

/-- The thirty-two parts, each at contents of its worker's choosing of which the worker's property holds, are the array
    whole at one function of which every worker's property holds. -/
theorem out_join [∀ e, Nonempty (Elt F e)] (R : OutProp (F := F)) (hR : R.Local) (d : Dev nD) :
    (bigSep (Finset.univ : Finset (Fin 32)) fun w => iprop(∃ f, ⌜R d w.val f⌝ ∗ tileOut d w.val f))
      ⊢ (iprop(∃ g, ⌜∀ w, w < 32 → R d w g⌝ ∗ oLoc d ↦{fullShare} g) : sProp 𝕄) := by
  refine (bigSep_exists_pi Finset.univ (fun (w : Fin 32) (f : Buf (Elt F) (oLoc d)) => iprop(⌜R d w.val f⌝ ∗ tileOut d w.val f))).trans ?_
  iintro ⟨%fs, H⟩
  ihave H' := (bigSep_pure_sep Finset.univ (fun w : Fin 32 => R d w.val (fs w)) (fun w : Fin 32 => tileOut d w.val (fs w))) $$ H
  icases H' with ⟨%hfs, H⟩
  have hj : (bigSep (Finset.univ : Finset (Fin 32)) fun w => tileOut d w.val (fs w))
      ⊢ (iprop(∃ g, ⌜∀ w ∈ (Finset.univ : Finset (Fin 32)), ∀ i ∈ tileSet w.val, g i = fs w i⌝
          ∗ oLoc d ↦[(Finset.univ : Finset (Fin 32)).biUnion fun w => tileSet w.val]{fullShare} g) : sProp 𝕄) := by
    unfold tileOut
    exact pointsTo_biUnion_join (ℓ := oLoc d) (q := fullShare) Finset.univ (fun w : Fin 32 => tileSet w.val) fs (fs 0) tiles_disjoint
  ihave H'' := hj $$ H
  icases H'' with ⟨%g, %hg, Hg⟩
  rw [tiles_cover]
  iexists g
  isplitr
  · ipureintro
    intro w hw
    exact hR d w (fs ⟨w, hw⟩) g (fun i hi => (hg ⟨w, hw⟩ (Finset.mem_univ _) i hi).symm) (hfs ⟨w, hw⟩ (Finset.mem_univ _))
  · iexact Hg

/-! ## The inputs' read shares -/

/-- An input whole is a remainder and thirty-two read shares, -/
theorem read_split (ℓ : Loc nD τ sig) (f : Buf (Elt F) ℓ) :
    (ℓ ↦{fullShare} f : sProp 𝕄)
      ⊢ iprop((ℓ ↦{Transfers.shareDrop fullShare 32} f) ∗ bigSep (Finset.univ : Finset (Fin 32)) fun w => ℓ ↦{Transfers.shareTokN fullShare w.val} f) :=
  Transfers.pointsTo_toks_split fullShare 32

/-- which put it back. -/
theorem read_join (ℓ : Loc nD τ sig) (f : Buf (Elt F) ℓ) :
    iprop((ℓ ↦{Transfers.shareDrop fullShare 32} f) ∗ bigSep (Finset.univ : Finset (Fin 32)) fun w => ℓ ↦{Transfers.shareTokN fullShare w.val} f)
      ⊢ (ℓ ↦{fullShare} f : sProp 𝕄) :=
  Transfers.pointsTo_toks_join fullShare 32

/-! ## What the call takes and gives back, over the thirty-two workers -/

/-- The workers' read shares of the three inputs. -/
def readToks (d : Dev nD) : sProp 𝕄 :=
  iprop((bigSep (Finset.univ : Finset (Fin 32)) fun w => xLoc d ↦{Transfers.shareTokN fullShare w.val} m (xLoc d))
    ∗ (bigSep (Finset.univ : Finset (Fin 32)) fun w => pLoc d ↦{Transfers.shareTokN fullShare w.val} m (pLoc d))
    ∗ (bigSep (Finset.univ : Finset (Fin 32)) fun w => tLoc d ↦{Transfers.shareTokN fullShare w.val} m (tLoc d)))

theorem tileIn_all (d : Dev nD) :
    (bigSep (Finset.univ : Finset (Fin 32)) fun w => tileIn m d w.val) = readToks m d := by
  unfold tileIn readToks
  rw [bigSep_sep', bigSep_sep']

/-- What the two SparseCores are handed: the read shares and the output array whole. -/
theorem st_all (d : Dev nD) :
    (bigSep (Finset.univ : Finset (Fin 2)) fun c => bigSep (Finset.univ : Finset (Fin 16)) fun s => goRes m d c.val s.val)
      = iprop(readToks m d ∗ oLoc d ↦{fullShare} m (oLoc d)) := by
  refine (bigSep_workers (fun w => iprop(tileIn m d w ∗ tileOut d w (m (oLoc d))))).symm.trans ?_
  rw [bigSep_sep', tileIn_all, ← out_tiles]

/-- What they hand back: the read shares and the output array whole at one function of which every worker's property holds. -/
theorem dn_all [∀ e, Nonempty (Elt F e)] (R : OutProp (F := F)) (hR : R.Local) (d : Dev nD) :
    (bigSep (Finset.univ : Finset (Fin 2)) fun c => bigSep (Finset.univ : Finset (Fin 16)) fun s => tdRes m R d c.val s.val)
      ⊢ iprop(readToks m d ∗ ∃ g, ⌜∀ w, w < 32 → R d w g⌝ ∗ oLoc d ↦{fullShare} g) := by
  have e : (bigSep (Finset.univ : Finset (Fin 2)) fun c => bigSep (Finset.univ : Finset (Fin 16)) fun s => tdRes m R d c.val s.val)
      = iprop(readToks m d ∗ bigSep (Finset.univ : Finset (Fin 32)) fun w => iprop(∃ f, ⌜R d w.val f⌝ ∗ tileOut d w.val f)) := by
    refine (bigSep_workers (fun w => iprop(tileIn m d w ∗ ∃ f, ⌜R d w f⌝ ∗ tileOut d w f))).symm.trans ?_
    rw [bigSep_sep', tileIn_all]
  rw [e]
  iintro ⟨Hr, Ho⟩
  isplitl [Hr]; · iexact Hr
  iapply (out_join R hR d); iexact Ho

end Cert.KernelIdeal.Hand

end
-- ==== Proof.LaunchI.lean ====
/-
  The run of the whole program.

  On the TensorCore the program is one call of the SparseCore kernel and one exchange of the first two coordinates
  of what the kernel wrote. Before the call the TensorCore holds its five arrays whole: the three inputs, the
  positions-first array and the result. It splits each input into a remainder, which it keeps, and thirty-two read
  shares, and hands the shares and the positions-first array (as its thirty-two parts) to the two SparseCores. It gets
  the same shares back, and the parts at contents of the workers' choosing, which join into the array whole at one
  function of which every worker's property holds; the shares and the remainders join into the inputs whole, at their
  launch contents. The exchange of coordinates then reads that array and writes the result.
  At the end the inputs are whole at their launch contents and the result is the joined array with its first two
  coordinates exchanged: the final memory is read off these.
-/
import proofs.«204390_g6468220748199_cont_9to1_m_1136_17_alg».proof.Proof.LaunchA
import proofs.«204390_g6468220748199_cont_9to1_m_1136_17_alg».proof.Proof.SplitI

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Idealize.ShloMosaic.StableHlo (held held_split held_sdiff_result wp_hlo_within)
open Idealize.ShloMosaic.Tactic

variable (m : (ℓ : Loc nD τ sig) → Buf (Elt F) ℓ) (ρ : Dev nD → PrngReg)
variable [FloatOps F]

/-! ## The TensorCore's arrays -/

abbrev o' : DevRef τ sig := Proc.devRef .tc (main_v0 : Ref sig .tc)
abbrev r' : DevRef τ sig := Proc.devRef .tc (main_v1 : Ref sig .tc)

/-- The exchange of the first two coordinates, as the program states it. -/
abbrev opT : HloOp τ sig (Elt F) :=
  StableHlo.unary main_v0 main_v1 ((transpose S64x577x768 [1, 0, 2] · transposes_S577x64x768_S64x577x768_1_0_2) : (⟨S577x64x768, .f32⟩ : BufTy).Contents (Elt F) → (⟨S64x577x768, .f32⟩ : BufTy).Contents (Elt F))

/-- The two arrays it touches. -/
abbrev S2 : Finset (DevRef τ sig) := {o', r'}

theorem held_S2 (d : Dev nD) (W : Valuation τ sig (Elt F)) :
    (held (T d) S2 W : sProp 𝕄) = iprop((oLoc d ↦{fullShare} W o') ∗ rLoc d ↦{fullShare} W r') := by
  unfold held S2
  rw [SparseCore.bigSep_insert' (by decide), bigSep_singleton]

/-- The TensorCore's unscoped arrays are the three inputs, the positions-first array and the result. -/
theorem unscopedBufs_eq (d : Dev nD) (W : (b : Ref sig .tc) → Buf (Elt F) ((d.tc : Thread nD τ).loc b)) :
    (unscopedBufs d W : sProp 𝕄) = iprop((xLoc d ↦{fullShare} W main_arg0) ∗ (pLoc d ↦{fullShare} W main_arg1) ∗ (tLoc d ↦{fullShare} W main_arg2)
      ∗ (oLoc d ↦{fullShare} W main_v0) ∗ rLoc d ↦{fullShare} W main_v1) := by
  unfold unscopedBufs
  rw [show (Finset.univ.filter fun b : Ref sig .tc => ¬ b.isScoped) = {main_arg0, main_arg1, main_arg2, main_v0, main_v1} by decide,
    SparseCore.bigSep_insert' (by decide), SparseCore.bigSep_insert' (by decide), SparseCore.bigSep_insert' (by decide),
    SparseCore.bigSep_insert' (by decide), bigSep_singleton]

/-- The launch valuation, and the one after the call: the positions-first array at what the workers left. -/
def V0 (d : Dev nD) : Valuation τ sig (Elt F) := fun b => m (d, b)
def V1 (d : Dev nD) (g : Buf (Elt F) (oLoc d)) : Valuation τ sig (Elt F) := Function.update (V0 m d) o' g

theorem V1_o (d : Dev nD) (g : Buf (Elt F) (oLoc d)) : V1 m d g o' = g := Function.update_self _ _ _
theorem V1_r (d : Dev nD) (g : Buf (Elt F) (oLoc d)) : V1 m d g r' = m (rLoc d) := Function.update_of_ne (show r' ≠ o' by decide) _ _

theorem hT : (opT (F := F)).bufs ⊆ S2 := show ({o', r'} : Finset (DevRef τ sig)) ⊆ S2 from Finset.Subset.refl _

/-- After the exchange: the positions-first array as it was, the result at that array with its coordinates exchanged. -/
theorem held_res (d : Dev nD) (g : Buf (Elt F) (oLoc d)) :
    (held (T d) S2 ((opT (F := F)).result (V1 m d g)) : sProp 𝕄)
      = iprop((oLoc d ↦{fullShare} g)
          ∗ rLoc d ↦{fullShare} transpose (s := S577x64x768) S64x577x768 [1, 0, 2] g transposes_S577x64x768_S64x577x768_1_0_2) := by
  rw [held_S2, StableHlo.unary_result, StableHlo.unary_result_ne (h := show (main_v0 : Ref sig .tc) ≠ main_v1 by decide), V1_o]

/-! ## What the call takes and gives back -/

theorem st0_eq (R : OutProp (F := F)) (d : Dev nD) :
    (bigSep Finset.univ fun c : Fin ((K (F := F)).nCore 0) => (P m R).st 0 d c) = iprop(readToks m d ∗ oLoc d ↦{fullShare} m (oLoc d)) := by
  show (bigSep (Finset.univ : Finset (Fin 2)) fun c => bigSep (Finset.univ : Finset (Fin 16)) fun s => goRes m d c.val s.val) = _
  exact st_all m d

theorem dn0_ent [∀ e, Nonempty (Elt F e)] (R : OutProp (F := F)) (hR : R.Local) (d : Dev nD) :
    (bigSep Finset.univ fun c : Fin ((K (F := F)).nCore 0) => (P m R).dn 0 d c)
      ⊢ iprop(readToks m d ∗ ∃ g, ⌜∀ w, w < 32 → R d w g⌝ ∗ oLoc d ↦{fullShare} g) := by
  show (bigSep (Finset.univ : Finset (Fin 2)) fun c => bigSep (Finset.univ : Finset (Fin 16)) fun s => tdRes m R d c.val s.val) ⊢ _
  exact dn_all m R hR d

/-! ## @main on the TensorCore -/

/-- What @main leaves: the inputs whole at their launch contents, and the result at the positions-first array, as the
    workers left it, with its first two coordinates exchanged. -/
def FIN (R : OutProp (F := F)) (d : Dev nD) : sProp 𝕄 :=
  iprop((xLoc d ↦{fullShare} m (xLoc d)) ∗ (pLoc d ↦{fullShare} m (pLoc d)) ∗ (tLoc d ↦{fullShare} m (tLoc d))
    ∗ ∃ g : Buf (Elt F) (oLoc d), ⌜∀ w, w < 32 → R d w g⌝
      ∗ rLoc d ↦{fullShare} transpose (s := S577x64x768) S64x577x768 [1, 0, 2] g transposes_S577x64x768_S64x577x768_1_0_2)

theorem hmain [∀ e, Nonempty (Elt F e)] (R : OutProp (F := F)) (hR : R.Local) (κ : GSem nD τ sig → ℕ) (d : Dev nD) :
    iprop((K (F := F)).ctx EH (P m R) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m R d) := by
  unfold SparseCore.Cfg.tcRes
  rw [unscopedBufs_eq]
  simp only [main, wp_bind, wp_pure]
  iintro ⟨#Hctx, Hst, ⟨Hb, ⟨Hx, Hp, Ht, Ho, Hr⟩, -, -⟩, -⟩
  -- each input: a remainder kept here, thirty-two read shares for the workers
  ihave Hx' := (read_split (F := F) (xLoc d) (m (xLoc d))) $$ Hx
  icases Hx' with ⟨Hxd, Hxt⟩
  ihave Hp' := (read_split (F := F) (pLoc d) (m (pLoc d))) $$ Hp
  icases Hp' with ⟨Hpd, Hpt⟩
  ihave Ht' := (read_split (F := F) (tLoc d) (m (tLoc d))) $$ Ht
  icases Ht' with ⟨Htd, Htt⟩
  -- the call: the shares and the positions-first array to the two SparseCores and back
  iapply ((K (F := F)).wp_run (D (F := F)) 𝒱 (EH := EH) (P := P m R) κ d 0) $$ [Hst Hxt Hpt Htt Ho Hxd Hpd Htd Hb Hr]
  isplitr; · iexact Hctx
  isplitl [Hst]; · iexact Hst
  isplitl [Hxt Hpt Htt Ho]
  · rw [st0_eq]; unfold readToks
    isplitl [Hxt Hpt Htt]
    · isplitl [Hxt]; · iexact Hxt
      isplitl [Hpt]; · iexact Hpt
      iexact Htt
    · iexact Ho
  iintro ⟨Hst, Hdn⟩
  ihave Hdn' := (dn0_ent m R hR d) $$ Hdn
  unfold readToks
  icases Hdn' with ⟨⟨Hxt, Hpt, Htt⟩, %g, %hg, Ho⟩
  ihave Hx := (read_join (F := F) (xLoc d) (m (xLoc d))) $$ [Hxd Hxt]
  · isplitl [Hxd]; · iexact Hxd
    iexact Hxt
  ihave Hp := (read_join (F := F) (pLoc d) (m (pLoc d))) $$ [Hpd Hpt]
  · isplitl [Hpd]; · iexact Hpd
    iexact Hpt
  ihave Ht := (read_join (F := F) (tLoc d) (m (tLoc d))) $$ [Htd Htt]
  · isplitl [Htd]; · iexact Htd
    iexact Htt
  -- the exchange of coordinates, over the positions-first array and the result
  iapply (wp_hlo_within 𝒱 (SparseCore.T d) none Set.univ (op := opT) (S := S2) hT (V := V1 m d g)) $$ [Hb Ho Hr]
  · isplitl [Hb]; · iexact Hb
    rw [held_S2, V1_o, V1_r]
    isplitl [Ho]; · iexact Ho
    iexact Hr
  iintro ⟨Hb, Hheld⟩
  ihave Hh := (Entails.of_eq (held_res (F := F) m d g)) $$ Hheld
  icases Hh with ⟨-, Hr⟩
  rw [wp_ret]; imodintro; imodintro
  isplitl [Hst]; · iexact Hst
  unfold FIN
  isplitl [Hx]; · iexact Hx
  isplitl [Hp]; · iexact Hp
  isplitl [Ht]; · iexact Ht
  iexists g
  isplitr; · ipureintro; exact hg
  iexact Hr

/-! ## The final memory -/

def fq (R : OutProp (F := F)) (d : Dev nD) (s' : Phys nD τ sig (Elt F)) : Prop :=
  (∃ g : Buf (Elt F) (oLoc d), (∀ w, w < 32 → R d w g)
      ∧ s'.mem.mem (rLoc d) = transpose (s := S577x64x768) S64x577x768 [1, 0, 2] g transposes_S577x64x768_S64x577x768_1_0_2)
    ∧ s'.mem.mem (xLoc d) = m (xLoc d) ∧ s'.mem.mem (pLoc d) = m (pLoc d) ∧ s'.mem.mem (tLoc d) = m (tLoc d)

theorem hfin (R : OutProp (F := F)) (d : Dev nD) (s' : Phys nD τ sig (Elt F)) : iprop(FIN m R d ∗ SI s') ⊢ (⌜fq m R d s'⌝ : sProp 𝕄) := by
  unfold FIN
  iintro ⟨⟨Hx, Hp, Ht, %g, %hg, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := pLoc d) (I := Finset.univ) (q := fullShare) (f := m (pLoc d)))) $$ [HSI Hp]
  · isplitl [HSI] <;> iassumption
  icases H with ⟨%h2, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h3, HSI, -⟩
  ihave H := (SI_pointsTo_agree (st := s') (ℓ := rLoc d) (I := Finset.univ) (q := fullShare)
    (f := transpose (s := S577x64x768) S64x577x768 [1, 0, 2] g transposes_S577x64x768_S64x577x768_1_0_2)) $$ [HSI Hr]
  · isplitl [HSI] <;> iassumption
  icases H with %h4
  ipureintro
  exact ⟨⟨g, hg, funext fun i => h4 i (Finset.mem_univ i)⟩, funext fun i => h1 i (Finset.mem_univ i), funext fun i => h2 i (Finset.mem_univ i),
    funext fun i => h3 i (Finset.mem_univ i)⟩

/-! ## The program's run -/

/-- Every run ends with the inputs unchanged and the result a positions-first array, of which every worker's property
    holds, with its first two coordinates exchanged. -/
def QC (R : OutProp (F := F)) : PUnit × MemSt nD τ sig (Elt F) → Prop := fun r => ∀ c : Dev nD,
  (∃ g : Buf (Elt F) (oLoc c), (∀ w, w < 32 → R c w g)
      ∧ r.2.mem (rLoc c) = transpose (s := S577x64x768) S64x577x768 [1, 0, 2] g transposes_S577x64x768_S64x577x768_1_0_2)
    ∧ r.2.mem (xLoc c) = m (xLoc c) ∧ r.2.mem (pLoc c) = m (pLoc c) ∧ r.2.mem (tLoc c) = m (tLoc c)

theorem run_main [∀ e, Nonempty (Elt F e)] (R : OutProp (F := F)) (hR : R.Local) (hbody : TileBody (F := F) m R) :
    θ_run (Cert.KernelIdeal.defs (F := F)) (Cert.KernelIdeal.threads (F := F)) ⟨m, fun _ => 0, ρ⟩ (QC m R) :=
  SparseCore.Cfg.θ_run_sc (K := K (F := F)) (D := D (F := F)) (𝒱 := 𝒱) (EH := EH) (P := P m R) facts v₀
    (fun q hq => match q with | 0 => nomatch hq)
    (fun q _ => match q with | 0 => tileObl m R hbody)
    (fun q _ => match q with | 0 => SparseCore.Cfg.VecSplit.of_plain (vecSplit m R))
    m ρ main (fun _ => iprop(emp)) (FIN m R) (u₀ (F := F)) (sep_elim_left.trans (hu₀ m R)) (hmain m ρ R hR) (fq m R) (hfin m R) (QC m R) (fun _ h => h)

end Cert.KernelIdeal.Hand

end
-- ==== Proof.ValueT.lean ====
/-
  The result read off the positions-first array.

  The last operation of the program exchanges the first two coordinates of the positions-first array [577, 64, 768]:
  entry (b, l, d) of the result is entry (l, b, d) of that array. If every worker left on its own entries the
  numbers the specification prescribes, the array is the specification's positions-first array everywhere, because
  every entry is some worker's; and that array with its first two coordinates exchanged is the specification's result,
  by the two definitions.
-/
import proofs.«204390_g6468220748199_cont_9to1_m_1136_17_alg».proof.Proof.SplitI
import Idealize.ShloMosaic.Lib.Pipeline.Value

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)
variable [FloatOps F]

/-- An array that agrees with the specification's on every worker's entries is the specification's. -/
theorem eq_outT_of_Rval (c : Dev nD) (g : Buf (Elt F) (oLoc c)) (h : ∀ w, w < 32 → Rval m c w g) : g = outT m c :=
  funext fun i => by
    obtain ⟨w, hw, hi⟩ := exists_tile i
    exact h w hw i hi

/-- The specification's positions-first array with its first two coordinates exchanged is its result. -/
theorem transpose_outT (c : Dev nD) :
    transpose (s := S577x64x768) S64x577x768 [1, 0, 2] (outT m c) transposes_S577x64x768_S64x577x768_1_0_2
      = Cert.Spec.res (F := F) (m (xLoc c)) (m (pLoc c)) (m (tLoc c)) := by
  funext j
  rw [transpose_apply [1, 0, 2] (outT m c) transposes_S577x64x768_S64x577x768_1_0_2 j (ValueIdx.ix3 (j 1) (j 0) (j 2))
    (fun b => by match b with | ⟨0, _⟩ => rfl | ⟨1, _⟩ => rfl | ⟨2, _⟩ => rfl)]
  rfl

/-- What the program returns when every worker has written the specification's numbers. -/
theorem res_of_Rval (c : Dev nD) (g : Buf (Elt F) (oLoc c)) (h : ∀ w, w < 32 → Rval m c w g) :
    transpose (s := S577x64x768) S64x577x768 [1, 0, 2] g transposes_S577x64x768_S64x577x768_1_0_2
      = Cert.Spec.res (F := F) (m (xLoc c)) (m (pLoc c)) (m (tLoc c)) := by
  rw [eq_outT_of_Rval m c g h]
  exact transpose_outT m c

end Cert.KernelIdeal.Hand

end
-- ==== Proof.SetupW.lean ====
/-
  What the kernel's thirty-two workers are handed and hand back, stated once.

  The device's two SparseCores run sixteen vector subcores each. Worker number w = 2 * s + c (subcore s of
  SparseCore c) splits as g = w / 8 and j = w % 8: it adds the position rows to the patches of batches
  16 g .. 16 g + 15 at rows 72 j .. 72 j + 71, and, when j = 0, also writes the class-token row 576 for its
  batches. Written positions-first (row, batch, feature), the entries worker w writes are exactly those with
  batch / 16 = w / 8 and either row < 576 with row / 72 = w % 8, or row = 576 with w % 8 = 0: these thirty-two
  sets are pairwise disjoint and together the whole array. The three inputs are only read, so each worker
  holds a read share of each of them, whole.

  A worker's task starts from its read shares and its part of the output at whatever the array held, and
  ends with the same read shares and its part of the output at contents `f` of which a property `R w f` holds.
  Two properties are used: "f is `Spec.outT` of the inputs on the worker's entries" (`Rval`: what the values
  claim needs) and the empty property (`Rtriv`: enough for the programs to run to the end with the inputs
  unchanged). Everything downstream is stated once, for any property that only looks at the worker's own entries.
  A SparseCore's operands are the product of its sixteen workers' (so dealing them out is the identity).
  Workers signal nobody: every copy a worker starts it waits for itself, so beside the launch's own handshakes
  the only ghost state is the counters of local transfers.
-/
import proofs.«204390_g6468220748199_cont_9to1_m_1136_17_alg».proof.Kernel
import proofs.«204390_g6468220748199_cont_9to1_m_1136_17_alg».proof.Proof.Gen.Kernel
import proofs.«204390_g6468220748199_cont_9to1_m_1136_17_alg».proof.Proof.Spec
import Idealize.ShloMosaic.Lib.SparseCore.Launch
import Idealize.ShloMosaic.Lib.StableHlo.Run
import Idealize.ShloMosaic.Lib.Pipeline.Kit
import Idealize.ShloMosaic.Lib.Tactic

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem reads it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the launch's handshakes beside the counters of local transfers -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ) (ρ : Dev nD → PrngReg)

/-- The patches [64, 576, 768], the position table [577, 768], the class token [1, 1, 768], the positions-first
    output [577, 64, 768] and the result [64, 577, 768], as the TensorCore names them. -/
abbrev xLoc (d : Dev nD) : Loc nD τ sig := (SparseCore.T d).loc main_arg0
abbrev pLoc (d : Dev nD) : Loc nD τ sig := (SparseCore.T d).loc main_arg1
abbrev tLoc (d : Dev nD) : Loc nD τ sig := (SparseCore.T d).loc main_arg2
abbrev oLoc (d : Dev nD) : Loc nD τ sig := (SparseCore.T d).loc main_v0
abbrev rLoc (d : Dev nD) : Loc nD τ sig := (SparseCore.T d).loc main_v1

variable [FloatOps F]

/-- The same arrays and the two scratch buffers as a vector subcore's kernel is passed them. -/
abbrev xV : Memref sig .scVector .hbm S64x576x768 .f32 := Memref.whole main_arg0_scv
abbrev pV : Memref sig .scVector .hbm S577x768 .f32 := Memref.whole main_arg1_scv
abbrev tV : Memref sig .scVector .hbm S1x1x768 .f32 := Memref.whole main_arg2_scv
abbrev oV : Memref sig .scVector .hbm S577x64x768 .f32 := Memref.whole main_v0_scv
abbrev posV : Memref sig .scVector .vmem S8x768 .f32 := Memref.whole cc0_scratch0
abbrev slotV : Memref sig .scVector .vmem S2x8x8x768 .f32 := Memref.whole cc0_scratch1

/-- The positions-first array the kernel must leave: `Spec.outT` of the three inputs as the launch found them. -/
def outT (d : Dev nD) : Buf (Elt F) (oLoc d) :=
  Cert.Spec.outT (F := F) (m (xLoc d)) (m (pLoc d)) (m (tLoc d))

/-! ## The workers -/

/-- Worker number of subcore `s` of SparseCore `c`. -/
def widN (c s : ℕ) : ℕ := s * 2 + c

/-- The entries of the positions-first array that worker `w` writes: its sixteen batches, at its seventy-two
    rows, and at the class-token row when it is the first worker of its batch group. -/
def tileSet (w : ℕ) : Finset S577x64x768.Idx :=
  Finset.univ.filter fun i =>
    (i 1).val / 16 = w / 8 ∧ (((i 0).val < 576 ∧ (i 0).val / 72 = w % 8) ∨ ((i 0).val = 576 ∧ w % 8 = 0))

theorem mem_tileSet (w : ℕ) (i : S577x64x768.Idx) :
    i ∈ tileSet w ↔ (i 1).val / 16 = w / 8 ∧ (((i 0).val < 576 ∧ (i 0).val / 72 = w % 8) ∨ ((i 0).val = 576 ∧ w % 8 = 0)) := by
  unfold tileSet; rw [Finset.mem_filter]; exact ⟨fun h => h.2, fun h => ⟨Finset.mem_univ _, h⟩⟩

/-- A worker's read shares of the three inputs, whole, at their launch contents. -/
def tileIn (d : Dev nD) (w : ℕ) : sProp 𝕄 :=
  iprop((xLoc d ↦{Transfers.shareTokN fullShare w} m (xLoc d)) ∗ (pLoc d ↦{Transfers.shareTokN fullShare w} m (pLoc d))
    ∗ (tLoc d ↦{Transfers.shareTokN fullShare w} m (tLoc d)))

/-- A worker's part of the output array, at contents `f`. -/
def tileOut (d : Dev nD) (w : ℕ) (f : Buf (Elt F) (oLoc d)) : sProp 𝕄 := oLoc d ↦[tileSet w]{fullShare} f

/-- A property of the output array's contents that worker `w` must establish, on device `d`. -/
abbrev OutProp : Type := (d : Dev nD) → ℕ → Buf (Elt F) (oLoc d) → Prop

/-- It only looks at the worker's own entries. -/
def OutProp.Local (R : OutProp (F := F)) : Prop :=
  ∀ (d : Dev nD) (w : ℕ) (f g : Buf (Elt F) (oLoc d)), (∀ i ∈ tileSet w, f i = g i) → R d w f → R d w g

/-- The values claim's property: on the worker's entries the contents are `Spec.outT` of the inputs. -/
def Rval : OutProp (F := F) := fun d w f => ∀ i ∈ tileSet w, f i = outT m d i
/-- The empty property. -/
def Rtriv : OutProp (F := F) := fun _ _ _ => True

theorem Rval_local : (Rval m).Local := fun _ _ _ _ h hf i hi => (h i hi).symm.trans (hf i hi)
theorem Rtriv_local : (Rtriv (F := F)).Local := fun _ _ _ _ _ _ => trivial

/-- What a task starts from, and what it ends with. -/
def goRes (d : Dev nD) (c s : ℕ) : sProp 𝕄 := iprop(tileIn m d (widN c s) ∗ tileOut d (widN c s) (m (oLoc d)))
def tdRes (R : OutProp (F := F)) (d : Dev nD) (c s : ℕ) : sProp 𝕄 :=
  iprop(tileIn m d (widN c s) ∗ ∃ f, ⌜R d (widN c s) f⌝ ∗ tileOut d (widN c s) f)

instance tileIn_storable (d : Dev nD) (w : ℕ) : BI.Storable (upEmb : UEmb _ 𝕄) (tileIn m d w) := by
  unfold tileIn; infer_instance
instance tileOut_storable (d : Dev nD) (w : ℕ) (f : Buf (Elt F) (oLoc d)) : BI.Storable (upEmb : UEmb _ 𝕄) (tileOut d w f) := by
  unfold tileOut; infer_instance
instance goRes_storable (d : Dev nD) (c s : ℕ) : BI.Storable (upEmb : UEmb _ 𝕄) (goRes m d c s) := by
  unfold goRes; infer_instance
instance tdRes_storable (R : OutProp (F := F)) (d : Dev nD) (c s : ℕ) : BI.Storable (upEmb : UEmb _ 𝕄) (tdRes m R d c s) := by
  unfold tdRes; infer_instance

/-- The one call: a SparseCore is handed, and hands back, the product of its sixteen workers' resources. -/
def P (R : OutProp (F := F)) : (K (F := F)).Pay (nD := nD) (Val := Elt F) (Name := ℕ) (U := UU) where
  st := fun q d c => bigSep Finset.univ fun s : Fin ((K (F := F)).nSub q) => goRes m d c.val s.val
  dn := fun q d c => bigSep Finset.univ fun s : Fin ((K (F := F)).nSub q) => tdRes m R d c.val s.val
  go := fun _ d c s => goRes m d c.val s.val
  td := fun _ d c s => tdRes m R d c.val s.val
  x := fun _ _ => iprop(emp)

instance P_storable (R : OutProp (F := F)) : (P (F := F) m R).IsStorable where
  st _ d c := by unfold P; infer_instance
  dn _ d c := by unfold P; infer_instance
  go _ d c s := by unfold P; infer_instance
  td _ d c s := by unfold P; infer_instance

/-! ## One worker's task, as the launch asks for it -/

/-- Grid coordinates of a tile. -/
def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0

/-- The body of one worker, at any tile `L` of the grid: from its read shares, its part of the output at the launch
    contents, its scratch storage and its semaphores at zero, the kernel function runs to the end, faults nowhere,
    leaves its part of the output at contents of which `R` holds, and returns everything else as it found it. -/
def TileBody (R : OutProp (F := F)) : Prop :=
  ∀ (d : Dev nD) (L : grid0.Coords) (O : CellTallies nD τ sig (HIx 1)) (W : Waits sig (HIx 1)), (∀ g, O g none = 0) →
    iprop(levAts (K (F := F)).L (K (F := F)).lev ∗ emp ∗ goRes m d (L 0).val (L 1).val
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_kernel L xV (Memref.isWhole_whole _) pV (Memref.isWhole_whole _) tV (Memref.isWhole_whole _) oV (Memref.isWhole_whole _)
            posV (Memref.isWhole_whole _) slotV (Memref.isWhole_whole _) cc0_scratch2 cc0_scratch3 cc0_scoped0 cc0_scoped1 cc0_scoped2 cc0_scoped3 cc0_scoped4)
          fun _ => iprop(tdRes m R d (L 0).val (L 1).val ∗ scopedBufs (V d (cV L) (jV L)) ∗ scopedSems0 (V d (cV L) (jV L))
            ∗ ∃ W', ⌜∀ p ∈ W', p ∈ W ∨ p.2 = none⌝ ∗ owes (V d (cV L) (jV L)) O W')

end Cert.Kernel.Hand

end
-- ==== Proof.LaunchAW.lean ====
/-
  The one call's three obligations towards the launch: one worker's task, how a SparseCore's operands are dealt to
  its sixteen workers, and the ghost state the run starts from.

  A worker's task is the kernel function at the worker's grid coordinates; its proof is taken as a hypothesis here
  (stated once, at a symbolic tile). A worker signals nobody and owes nothing of its own, so what it owes at its
  exit is exactly what it owed at its entry. A SparseCore is handed the product of its workers' resources and hands
  the product of their results back: dealing them out and gathering them is the identity. The ghost state is the
  handshakes' rounds beside the counters of local transfers; the launch keeps the rounds and needs no counter.
-/
import proofs.«204390_g6468220748199_cont_9to1_m_1136_17_alg».proof.Proof.SetupW

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## One worker's task -/

/-- The body table's row for a vector subcore: the kernel function at the subcore's grid coordinates, on the whole
    arrays and the subcore's own scratch storage and semaphores. -/
theorem defs₀_vector (c : Fin τ.nSC) (s : Fin τ.nSub) :
    defs₀ (F := F) (.scVector c s) 0 ()
      = SparseCore.onTile hcore0 hsub0 (fun c s => cc0__sc_kernel (coordsV c s)
          xV (Memref.isWhole_whole _) pV (Memref.isWhole_whole _) tV (Memref.isWhole_whole _) oV (Memref.isWhole_whole _)
          posV (Memref.isWhole_whole _) slotV (Memref.isWhole_whole _) cc0_scratch2 cc0_scratch3 cc0_scoped0 cc0_scoped1 cc0_scoped2 cc0_scoped3 cc0_scoped4) ⟨⟩ c s := rfl

omit [FloatOps F] in
/-- Waits recorded at no call's index are in particular recorded at no index or the call's. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The task of vector subcore `i` of SparseCore `c`: the worker's body at the tile's coordinates. -/
theorem tileObl (R : OutProp (F := F)) (hbody : TileBody (F := F) m R) :
    (K (F := F)).TileObl (D (F := F)) 𝒱 (P m R) v₀ 0 := by
  intro d c i O W hO _ _
  -- a worker owes nothing for a protocol of its own
  simp only [show (P m R).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hbody d (coordsV ⟨_, hc.1⟩ ⟨_, hc.2⟩) O W hO).trans (wp_mono frame _ _ fun _ => obl_post)

/-! ## Dealing a SparseCore's operands to its workers -/

/-- A SparseCore's operands are the product of its workers' and its results the product of theirs. -/
theorem vecSplit (R : OutProp (F := F)) : (K (F := F)).VecSplit' (P m R) 0 := by
  intro d c
  show (bigSep Finset.univ fun s : Fin ((K (F := F)).nSub 0) => goRes m d c.val s.val) ⊢ |={Set.univ}=> iprop(
      (bigSep Finset.univ fun s : Fin ((K (F := F)).nSub 0) => goRes m d c.val s.val)
      ∗ ((bigSep Finset.univ fun s : Fin ((K (F := F)).nSub 0) => tdRes m R d c.val s.val)
          -∗ bigSep Finset.univ fun s : Fin ((K (F := F)).nSub 0) => tdRes m R d c.val s.val))
  iintro H; imodintro
  isplitl [H]; · iexact H
  iintro H; iexact H

/-! ## The ghost state at the launch -/

/-- The handshakes' rounds at their start, and no counter. -/
def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

/-- The launch keeps the rounds; the counters are dropped; no worker's proof consumes anything of the launch's. -/
theorem hu₀ (R : OutProp (F := F)) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m R).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Kernel.Hand

end
-- ==== Proof.SplitW.lean ====
/-
  How the output array and the read shares of the inputs are divided among the thirty-two workers, and put back.

  An entry (row, batch, feature) of the positions-first array belongs to exactly one worker: the one numbered
  8 * (batch / 16) + row / 72 for a patch row (row < 576), and 8 * (batch / 16) for the class-token row 576. So the
  thirty-two parts are pairwise disjoint and together the whole array: holding the array whole is holding the
  thirty-two parts, at the same contents. After the call each worker hands its part back at contents of its own
  choosing; the parts join into the whole array at ONE function that agrees with each worker's on that worker's part,
  and a property that only looks at a worker's own entries carries over to the joined function.
  Worker w is subcore w / 2 of SparseCore w % 2, which numbers the workers by the pairs (SparseCore, subcore).
  Each input is read by all: its full share splits into a remainder, which the TensorCore keeps across the call, and
  thirty-two read shares, one per worker.
-/
import proofs.«204390_g6468220748199_cont_9to1_m_1136_17_alg».proof.Proof.SetupW

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)
variable [FloatOps F]

/-! ## Every entry has exactly one worker -/

theorem idx_lt0 (i : S577x64x768.Idx) : (i 0).val < 577 := (i 0).isLt
theorem idx_lt1 (i : S577x64x768.Idx) : (i 1).val < 64 := (i 1).isLt

/-- An entry's worker is determined by its batch group and its row block. -/
theorem tile_unique (w w' : ℕ) (i : S577x64x768.Idx) (h : i ∈ tileSet w) (h' : i ∈ tileSet w') : w = w' := by
  rw [mem_tileSet] at h h'
  omega

/-- Every entry has a worker among the thirty-two. -/
theorem exists_tile (i : S577x64x768.Idx) : ∃ w, w < 32 ∧ i ∈ tileSet w := by
  have h0 := idx_lt0 i
  have h1 := idx_lt1 i
  by_cases h : (i 0).val < 576
  · refine ⟨8 * ((i 1).val / 16) + (i 0).val / 72, by omega, ?_⟩
    rw [mem_tileSet]; omega
  · refine ⟨8 * ((i 1).val / 16), by omega, ?_⟩
    rw [mem_tileSet]; omega

theorem tiles_disjoint : ∀ w ∈ (Finset.univ : Finset (Fin 32)), ∀ w' ∈ (Finset.univ : Finset (Fin 32)), w ≠ w' →
    Disjoint (tileSet w.val) (tileSet w'.val) := by
  intro w _ w' _ hne
  rw [Finset.disjoint_left]
  intro i hi hi'
  exact hne (Fin.ext (tile_unique _ _ i hi hi'))

theorem tiles_cover : (Finset.univ : Finset (Fin 32)).biUnion (fun w => tileSet w.val) = Finset.univ := by
  refine Finset.eq_univ_of_forall fun i => ?_
  obtain ⟨w, hw, hi⟩ := exists_tile i
  exact Finset.mem_biUnion.mpr ⟨⟨w, hw⟩, Finset.mem_univ _, hi⟩

/-! ## Workers as pairs (SparseCore, subcore) -/

/-- Worker 2 s + c is subcore s of SparseCore c. -/
def widE : Fin 2 × Fin 16 ≃ Fin 32 where
  toFun p := ⟨p.2.val * 2 + p.1.val, by have := p.1.isLt; have := p.2.isLt; omega⟩
  invFun w := (⟨w.val % 2, Nat.mod_lt _ (by decide)⟩, ⟨w.val / 2, by have := w.isLt; omega⟩)
  left_inv p := by
    have h1 := p.1.isLt; have h2 := p.2.isLt
    refine Prod.ext (Fin.ext ?_) (Fin.ext ?_)
    · show (p.2.val * 2 + p.1.val) % 2 = p.1.val; omega
    · show (p.2.val * 2 + p.1.val) / 2 = p.2.val; omega
  right_inv w := by
    refine Fin.ext ?_
    show w.val / 2 * 2 + w.val % 2 = w.val; omega

theorem widE_val (c : Fin 2) (s : Fin 16) : (widE (c, s)).val = widN c.val s.val := rfl

/-- A product over the thirty-two workers is the product over the SparseCores of the products over their subcores. -/
theorem bigSep_workers (Φ : ℕ → sProp 𝕄) :
    (bigSep (Finset.univ : Finset (Fin 32)) fun w => Φ w.val)
      = bigSep (Finset.univ : Finset (Fin 2)) fun c => bigSep (Finset.univ : Finset (Fin 16)) fun s => Φ (widN c.val s.val) := by
  rw [bigSep_univ_equiv widE (fun w : Fin 32 => Φ w.val), bigSep_univ_prod]
  rfl

/-! ## The output array among the workers -/

/-- The array whole, at any contents, is the thirty-two parts at those contents. -/
theorem out_tiles (d : Dev nD) (f : Buf (Elt F) (oLoc d)) :
    (oLoc d ↦{fullShare} f : sProp 𝕄) = bigSep (Finset.univ : Finset (Fin 32)) fun w => tileOut d w.val f := by
  unfold tileOut
  rw [← pointsTo_biUnion Finset.univ (ℓ := oLoc d) (fun w : Fin 32 => tileSet w.val) tiles_disjoint, tiles_cover]; try rfl

/-- The thirty-two parts, each at contents of its worker's choosing of which the worker's property holds, are the array
    whole at one function of which every worker's property holds. -/
theorem out_join [∀ e, Nonempty (Elt F e)] (R : OutProp (F := F)) (hR : R.Local) (d : Dev nD) :
    (bigSep (Finset.univ : Finset (Fin 32)) fun w => iprop(∃ f, ⌜R d w.val f⌝ ∗ tileOut d w.val f))
      ⊢ (iprop(∃ g, ⌜∀ w, w < 32 → R d w g⌝ ∗ oLoc d ↦{fullShare} g) : sProp 𝕄) := by
  refine (bigSep_exists_pi Finset.univ (fun (w : Fin 32) (f : Buf (Elt F) (oLoc d)) => iprop(⌜R d w.val f⌝ ∗ tileOut d w.val f))).trans ?_
  iintro ⟨%fs, H⟩
  ihave H' := (bigSep_pure_sep Finset.univ (fun w : Fin 32 => R d w.val (fs w)) (fun w : Fin 32 => tileOut d w.val (fs w))) $$ H
  icases H' with ⟨%hfs, H⟩
  have hj : (bigSep (Finset.univ : Finset (Fin 32)) fun w => tileOut d w.val (fs w))
      ⊢ (iprop(∃ g, ⌜∀ w ∈ (Finset.univ : Finset (Fin 32)), ∀ i ∈ tileSet w.val, g i = fs w i⌝
          ∗ oLoc d ↦[(Finset.univ : Finset (Fin 32)).biUnion fun w => tileSet w.val]{fullShare} g) : sProp 𝕄) := by
    unfold tileOut
    exact pointsTo_biUnion_join (ℓ := oLoc d) (q := fullShare) Finset.univ (fun w : Fin 32 => tileSet w.val) fs (fs 0) tiles_disjoint
  ihave H'' := hj $$ H
  icases H'' with ⟨%g, %hg, Hg⟩
  rw [tiles_cover]
  iexists g
  isplitr
  · ipureintro
    intro w hw
    exact hR d w (fs ⟨w, hw⟩) g (fun i hi => (hg ⟨w, hw⟩ (Finset.mem_univ _) i hi).symm) (hfs ⟨w, hw⟩ (Finset.mem_univ _))
  · iexact Hg

/-! ## The inputs' read shares -/

/-- An input whole is a remainder and thirty-two read shares, -/
theorem read_split (ℓ : Loc nD τ sig) (f : Buf (Elt F) ℓ) :
    (ℓ ↦{fullShare} f : sProp 𝕄)
      ⊢ iprop((ℓ ↦{Transfers.shareDrop fullShare 32} f) ∗ bigSep (Finset.univ : Finset (Fin 32)) fun w => ℓ ↦{Transfers.shareTokN fullShare w.val} f) :=
  Transfers.pointsTo_toks_split fullShare 32

/-- which put it back. -/
theorem read_join (ℓ : Loc nD τ sig) (f : Buf (Elt F) ℓ) :
    iprop((ℓ ↦{Transfers.shareDrop fullShare 32} f) ∗ bigSep (Finset.univ : Finset (Fin 32)) fun w => ℓ ↦{Transfers.shareTokN fullShare w.val} f)
      ⊢ (ℓ ↦{fullShare} f : sProp 𝕄) :=
  Transfers.pointsTo_toks_join fullShare 32

/-! ## What the call takes and gives back, over the thirty-two workers -/

/-- The workers' read shares of the three inputs. -/
def readToks (d : Dev nD) : sProp 𝕄 :=
  iprop((bigSep (Finset.univ : Finset (Fin 32)) fun w => xLoc d ↦{Transfers.shareTokN fullShare w.val} m (xLoc d))
    ∗ (bigSep (Finset.univ : Finset (Fin 32)) fun w => pLoc d ↦{Transfers.shareTokN fullShare w.val} m (pLoc d))
    ∗ (bigSep (Finset.univ : Finset (Fin 32)) fun w => tLoc d ↦{Transfers.shareTokN fullShare w.val} m (tLoc d)))

theorem tileIn_all (d : Dev nD) :
    (bigSep (Finset.univ : Finset (Fin 32)) fun w => tileIn m d w.val) = readToks m d := by
  unfold tileIn readToks
  rw [bigSep_sep', bigSep_sep']

/-- What the two SparseCores are handed: the read shares and the output array whole. -/
theorem st_all (d : Dev nD) :
    (bigSep (Finset.univ : Finset (Fin 2)) fun c => bigSep (Finset.univ : Finset (Fin 16)) fun s => goRes m d c.val s.val)
      = iprop(readToks m d ∗ oLoc d ↦{fullShare} m (oLoc d)) := by
  refine (bigSep_workers (fun w => iprop(tileIn m d w ∗ tileOut d w (m (oLoc d))))).symm.trans ?_
  rw [bigSep_sep', tileIn_all, ← out_tiles]

/-- What they hand back: the read shares and the output array whole at one function of which every worker's property holds. -/
theorem dn_all [∀ e, Nonempty (Elt F e)] (R : OutProp (F := F)) (hR : R.Local) (d : Dev nD) :
    (bigSep (Finset.univ : Finset (Fin 2)) fun c => bigSep (Finset.univ : Finset (Fin 16)) fun s => tdRes m R d c.val s.val)
      ⊢ iprop(readToks m d ∗ ∃ g, ⌜∀ w, w < 32 → R d w g⌝ ∗ oLoc d ↦{fullShare} g) := by
  have e : (bigSep (Finset.univ : Finset (Fin 2)) fun c => bigSep (Finset.univ : Finset (Fin 16)) fun s => tdRes m R d c.val s.val)
      = iprop(readToks m d ∗ bigSep (Finset.univ : Finset (Fin 32)) fun w => iprop(∃ f, ⌜R d w.val f⌝ ∗ tileOut d w.val f)) := by
    refine (bigSep_workers (fun w => iprop(tileIn m d w ∗ ∃ f, ⌜R d w f⌝ ∗ tileOut d w f))).symm.trans ?_
    rw [bigSep_sep', tileIn_all]
  rw [e]
  iintro ⟨Hr, Ho⟩
  isplitl [Hr]; · iexact Hr
  iapply (out_join R hR d); iexact Ho

end Cert.Kernel.Hand

end
-- ==== Proof.LaunchW.lean ====
/-
  The run of the whole program.

  On the TensorCore the program is one call of the SparseCore kernel and one exchange of the first two coordinates
  of what the kernel wrote. Before the call the TensorCore holds its five arrays whole: the three inputs, the
  positions-first array and the result. It splits each input into a remainder, which it keeps, and thirty-two read
  shares, and hands the shares and the positions-first array (as its thirty-two parts) to the two SparseCores. It gets
  the same shares back, and the parts at contents of the workers' choosing, which join into the array whole at one
  function of which every worker's property holds; the shares and the remainders join into the inputs whole, at their
  launch contents. The exchange of coordinates then reads that array and writes the result.
  At the end the inputs are whole at their launch contents and the result is the joined array with its first two
  coordinates exchanged: the final memory is read off these.
-/
import proofs.«204390_g6468220748199_cont_9to1_m_1136_17_alg».proof.Proof.LaunchAW
import proofs.«204390_g6468220748199_cont_9to1_m_1136_17_alg».proof.Proof.SplitW

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Idealize.ShloMosaic.StableHlo (held held_split held_sdiff_result wp_hlo_within)
open Idealize.ShloMosaic.Tactic

variable (m : (ℓ : Loc nD τ sig) → Buf (Elt F) ℓ) (ρ : Dev nD → PrngReg)
variable [FloatOps F]

/-! ## The TensorCore's arrays -/

abbrev o' : DevRef τ sig := Proc.devRef .tc (main_v0 : Ref sig .tc)
abbrev r' : DevRef τ sig := Proc.devRef .tc (main_v1 : Ref sig .tc)

/-- The exchange of the first two coordinates, as the program states it. -/
abbrev opT : HloOp τ sig (Elt F) :=
  StableHlo.unary main_v0 main_v1 ((transpose S64x577x768 [1, 0, 2] · transposes_S577x64x768_S64x577x768_1_0_2) : (⟨S577x64x768, .f32⟩ : BufTy).Contents (Elt F) → (⟨S64x577x768, .f32⟩ : BufTy).Contents (Elt F))

/-- The two arrays it touches. -/
abbrev S2 : Finset (DevRef τ sig) := {o', r'}

theorem held_S2 (d : Dev nD) (W : Valuation τ sig (Elt F)) :
    (held (T d) S2 W : sProp 𝕄) = iprop((oLoc d ↦{fullShare} W o') ∗ rLoc d ↦{fullShare} W r') := by
  unfold held S2
  rw [SparseCore.bigSep_insert' (by decide), bigSep_singleton]

/-- The TensorCore's unscoped arrays are the three inputs, the positions-first array and the result. -/
theorem unscopedBufs_eq (d : Dev nD) (W : (b : Ref sig .tc) → Buf (Elt F) ((d.tc : Thread nD τ).loc b)) :
    (unscopedBufs d W : sProp 𝕄) = iprop((xLoc d ↦{fullShare} W main_arg0) ∗ (pLoc d ↦{fullShare} W main_arg1) ∗ (tLoc d ↦{fullShare} W main_arg2)
      ∗ (oLoc d ↦{fullShare} W main_v0) ∗ rLoc d ↦{fullShare} W main_v1) := by
  unfold unscopedBufs
  rw [show (Finset.univ.filter fun b : Ref sig .tc => ¬ b.isScoped) = {main_arg0, main_arg1, main_arg2, main_v0, main_v1} by decide,
    SparseCore.bigSep_insert' (by decide), SparseCore.bigSep_insert' (by decide), SparseCore.bigSep_insert' (by decide),
    SparseCore.bigSep_insert' (by decide), bigSep_singleton]

/-- The launch valuation, and the one after the call: the positions-first array at what the workers left. -/
def V0 (d : Dev nD) : Valuation τ sig (Elt F) := fun b => m (d, b)
def V1 (d : Dev nD) (g : Buf (Elt F) (oLoc d)) : Valuation τ sig (Elt F) := Function.update (V0 m d) o' g

theorem V1_o (d : Dev nD) (g : Buf (Elt F) (oLoc d)) : V1 m d g o' = g := Function.update_self _ _ _
theorem V1_r (d : Dev nD) (g : Buf (Elt F) (oLoc d)) : V1 m d g r' = m (rLoc d) := Function.update_of_ne (show r' ≠ o' by decide) _ _

theorem hT : (opT (F := F)).bufs ⊆ S2 := show ({o', r'} : Finset (DevRef τ sig)) ⊆ S2 from Finset.Subset.refl _

/-- After the exchange: the positions-first array as it was, the result at that array with its coordinates exchanged. -/
theorem held_res (d : Dev nD) (g : Buf (Elt F) (oLoc d)) :
    (held (T d) S2 ((opT (F := F)).result (V1 m d g)) : sProp 𝕄)
      = iprop((oLoc d ↦{fullShare} g)
          ∗ rLoc d ↦{fullShare} transpose (s := S577x64x768) S64x577x768 [1, 0, 2] g transposes_S577x64x768_S64x577x768_1_0_2) := by
  rw [held_S2, StableHlo.unary_result, StableHlo.unary_result_ne (h := show (main_v0 : Ref sig .tc) ≠ main_v1 by decide), V1_o]

/-! ## What the call takes and gives back -/

theorem st0_eq (R : OutProp (F := F)) (d : Dev nD) :
    (bigSep Finset.univ fun c : Fin ((K (F := F)).nCore 0) => (P m R).st 0 d c) = iprop(readToks m d ∗ oLoc d ↦{fullShare} m (oLoc d)) := by
  show (bigSep (Finset.univ : Finset (Fin 2)) fun c => bigSep (Finset.univ : Finset (Fin 16)) fun s => goRes m d c.val s.val) = _
  exact st_all m d

theorem dn0_ent [∀ e, Nonempty (Elt F e)] (R : OutProp (F := F)) (hR : R.Local) (d : Dev nD) :
    (bigSep Finset.univ fun c : Fin ((K (F := F)).nCore 0) => (P m R).dn 0 d c)
      ⊢ iprop(readToks m d ∗ ∃ g, ⌜∀ w, w < 32 → R d w g⌝ ∗ oLoc d ↦{fullShare} g) := by
  show (bigSep (Finset.univ : Finset (Fin 2)) fun c => bigSep (Finset.univ : Finset (Fin 16)) fun s => tdRes m R d c.val s.val) ⊢ _
  exact dn_all m R hR d

/-! ## @main on the TensorCore -/

/-- What @main leaves: the inputs whole at their launch contents, and the result at the positions-first array, as the
    workers left it, with its first two coordinates exchanged. -/
def FIN (R : OutProp (F := F)) (d : Dev nD) : sProp 𝕄 :=
  iprop((xLoc d ↦{fullShare} m (xLoc d)) ∗ (pLoc d ↦{fullShare} m (pLoc d)) ∗ (tLoc d ↦{fullShare} m (tLoc d))
    ∗ ∃ g : Buf (Elt F) (oLoc d), ⌜∀ w, w < 32 → R d w g⌝
      ∗ rLoc d ↦{fullShare} transpose (s := S577x64x768) S64x577x768 [1, 0, 2] g transposes_S577x64x768_S64x577x768_1_0_2)

theorem hmain [∀ e, Nonempty (Elt F e)] (R : OutProp (F := F)) (hR : R.Local) (κ : GSem nD τ sig → ℕ) (d : Dev nD) :
    iprop((K (F := F)).ctx EH (P m R) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m R d) := by
  unfold SparseCore.Cfg.tcRes
  rw [unscopedBufs_eq]
  simp only [main, wp_bind, wp_pure]
  iintro ⟨#Hctx, Hst, ⟨Hb, ⟨Hx, Hp, Ht, Ho, Hr⟩, -, -⟩, -⟩
  -- each input: a remainder kept here, thirty-two read shares for the workers
  ihave Hx' := (read_split (F := F) (xLoc d) (m (xLoc d))) $$ Hx
  icases Hx' with ⟨Hxd, Hxt⟩
  ihave Hp' := (read_split (F := F) (pLoc d) (m (pLoc d))) $$ Hp
  icases Hp' with ⟨Hpd, Hpt⟩
  ihave Ht' := (read_split (F := F) (tLoc d) (m (tLoc d))) $$ Ht
  icases Ht' with ⟨Htd, Htt⟩
  -- the call: the shares and the positions-first array to the two SparseCores and back
  iapply ((K (F := F)).wp_run (D (F := F)) 𝒱 (EH := EH) (P := P m R) κ d 0) $$ [Hst Hxt Hpt Htt Ho Hxd Hpd Htd Hb Hr]
  isplitr; · iexact Hctx
  isplitl [Hst]; · iexact Hst
  isplitl [Hxt Hpt Htt Ho]
  · rw [st0_eq]; unfold readToks
    isplitl [Hxt Hpt Htt]
    · isplitl [Hxt]; · iexact Hxt
      isplitl [Hpt]; · iexact Hpt
      iexact Htt
    · iexact Ho
  iintro ⟨Hst, Hdn⟩
  ihave Hdn' := (dn0_ent m R hR d) $$ Hdn
  unfold readToks
  icases Hdn' with ⟨⟨Hxt, Hpt, Htt⟩, %g, %hg, Ho⟩
  ihave Hx := (read_join (F := F) (xLoc d) (m (xLoc d))) $$ [Hxd Hxt]
  · isplitl [Hxd]; · iexact Hxd
    iexact Hxt
  ihave Hp := (read_join (F := F) (pLoc d) (m (pLoc d))) $$ [Hpd Hpt]
  · isplitl [Hpd]; · iexact Hpd
    iexact Hpt
  ihave Ht := (read_join (F := F) (tLoc d) (m (tLoc d))) $$ [Htd Htt]
  · isplitl [Htd]; · iexact Htd
    iexact Htt
  -- the exchange of coordinates, over the positions-first array and the result
  iapply (wp_hlo_within 𝒱 (SparseCore.T d) none Set.univ (op := opT) (S := S2) hT (V := V1 m d g)) $$ [Hb Ho Hr]
  · isplitl [Hb]; · iexact Hb
    rw [held_S2, V1_o, V1_r]
    isplitl [Ho]; · iexact Ho
    iexact Hr
  iintro ⟨Hb, Hheld⟩
  ihave Hh := (Entails.of_eq (held_res (F := F) m d g)) $$ Hheld
  icases Hh with ⟨-, Hr⟩
  rw [wp_ret]; imodintro; imodintro
  isplitl [Hst]; · iexact Hst
  unfold FIN
  isplitl [Hx]; · iexact Hx
  isplitl [Hp]; · iexact Hp
  isplitl [Ht]; · iexact Ht
  iexists g
  isplitr; · ipureintro; exact hg
  iexact Hr

/-! ## The final memory -/

def fq (R : OutProp (F := F)) (d : Dev nD) (s' : Phys nD τ sig (Elt F)) : Prop :=
  (∃ g : Buf (Elt F) (oLoc d), (∀ w, w < 32 → R d w g)
      ∧ s'.mem.mem (rLoc d) = transpose (s := S577x64x768) S64x577x768 [1, 0, 2] g transposes_S577x64x768_S64x577x768_1_0_2)
    ∧ s'.mem.mem (xLoc d) = m (xLoc d) ∧ s'.mem.mem (pLoc d) = m (pLoc d) ∧ s'.mem.mem (tLoc d) = m (tLoc d)

theorem hfin (R : OutProp (F := F)) (d : Dev nD) (s' : Phys nD τ sig (Elt F)) : iprop(FIN m R d ∗ SI s') ⊢ (⌜fq m R d s'⌝ : sProp 𝕄) := by
  unfold FIN
  iintro ⟨⟨Hx, Hp, Ht, %g, %hg, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := pLoc d) (I := Finset.univ) (q := fullShare) (f := m (pLoc d)))) $$ [HSI Hp]
  · isplitl [HSI] <;> iassumption
  icases H with ⟨%h2, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h3, HSI, -⟩
  ihave H := (SI_pointsTo_agree (st := s') (ℓ := rLoc d) (I := Finset.univ) (q := fullShare)
    (f := transpose (s := S577x64x768) S64x577x768 [1, 0, 2] g transposes_S577x64x768_S64x577x768_1_0_2)) $$ [HSI Hr]
  · isplitl [HSI] <;> iassumption
  icases H with %h4
  ipureintro
  exact ⟨⟨g, hg, funext fun i => h4 i (Finset.mem_univ i)⟩, funext fun i => h1 i (Finset.mem_univ i), funext fun i => h2 i (Finset.mem_univ i),
    funext fun i => h3 i (Finset.mem_univ i)⟩

/-! ## The program's run -/

/-- Every run ends with the inputs unchanged and the result a positions-first array, of which every worker's property
    holds, with its first two coordinates exchanged. -/
def QC (R : OutProp (F := F)) : PUnit × MemSt nD τ sig (Elt F) → Prop := fun r => ∀ c : Dev nD,
  (∃ g : Buf (Elt F) (oLoc c), (∀ w, w < 32 → R c w g)
      ∧ r.2.mem (rLoc c) = transpose (s := S577x64x768) S64x577x768 [1, 0, 2] g transposes_S577x64x768_S64x577x768_1_0_2)
    ∧ r.2.mem (xLoc c) = m (xLoc c) ∧ r.2.mem (pLoc c) = m (pLoc c) ∧ r.2.mem (tLoc c) = m (tLoc c)

theorem run_main [∀ e, Nonempty (Elt F e)] (R : OutProp (F := F)) (hR : R.Local) (hbody : TileBody (F := F) m R) :
    θ_run (Cert.Kernel.defs (F := F)) (Cert.Kernel.threads (F := F)) ⟨m, fun _ => 0, ρ⟩ (QC m R) :=
  SparseCore.Cfg.θ_run_sc (K := K (F := F)) (D := D (F := F)) (𝒱 := 𝒱) (EH := EH) (P := P m R) facts v₀
    (fun q hq => match q with | 0 => nomatch hq)
    (fun q _ => match q with | 0 => tileObl m R hbody)
    (fun q _ => match q with | 0 => SparseCore.Cfg.VecSplit.of_plain (vecSplit m R))
    m ρ main (fun _ => iprop(emp)) (FIN m R) (u₀ (F := F)) (sep_elim_left.trans (hu₀ m R)) (hmain m ρ R hR) (fq m R) (hfin m R) (QC m R) (fun _ h => h)

end Cert.Kernel.Hand

end
-- ==== Proof.RefRun.lean ====
/-
  The reference program's @main as one straight line of its host operations, the two outlined functions
  (the table lookup and the select it calls) written out at their call sites over the buffers of that call,
  and the run of that line: every weakly fair execution terminates with each buffer at the fold of the
  operations' results over the launch contents.
-/
import proofs.«204390_g6468220748199_cont_9to1_m_1136_17_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls unfolded: ten of its own (the class token broadcast over the batch
    and appended after the patch rows; the positions 0 … 576 as an iota times one plus zero), the lookup's
    twenty-three (negative positions wrapped by the table's height, through the inner select; the in-range
    mask; the gather of table rows; the select against the fill value), then the table broadcast over the
    batch and the sum. -/
abbrev ops : List (HloOp τ sig (Elt F)) :=
  [ unary main_arg2 main_v0 (broadcastInDim S1x64x1x768 ![0, 2, 3] bcast_S1x1x768_S1x64x1x768_0_2_3 : (⟨S1x1x768, .f32⟩ : BufTy).Contents (Elt F) → (⟨S1x64x1x768, .f32⟩ : BufTy).Contents (Elt F)),
    reshape main_v0 main_v1 rfl shapeCasts_S1x64x1x768_S64x1x768,
    binary main_arg0 main_v1 main_v2 ((fun a b => concatenate S64x577x768 1 [⟨S64x576x768, a⟩, ⟨S64x1x768, b⟩] concatenates_S64x576x768_S64x1x768_S64x577x768_d1) : (⟨S64x576x768, .f32⟩ : BufTy).Contents (Elt F) → (⟨S64x1x768, .f32⟩ : BufTy).Contents (Elt F) → (⟨S64x577x768, .f32⟩ : BufTy).Contents (Elt F)),
    nullary main_v3 (iotaInDim S577 32 0),
    nullary main_c (constantI S_ 32 1#32),
    unary main_c main_v4 (broadcastInDim S577 ![] bcast_S_S577 : (⟨S_, .i32⟩ : BufTy).Contents (Elt F) → (⟨S577, .i32⟩ : BufTy).Contents (Elt F)),
    binary main_v4 main_v3 main_v5 (muli : (⟨S577, .i32⟩ : BufTy).Contents (Elt F) → (⟨S577, .i32⟩ : BufTy).Contents (Elt F) → (⟨S577, .i32⟩ : BufTy).Contents (Elt F)),
    nullary main_c_0 (constantI S_ 32 0#32),
    unary main_c_0 main_v6 (broadcastInDim S577 ![] bcast_S_S577 : (⟨S_, .i32⟩ : BufTy).Contents (Elt F) → (⟨S577, .i32⟩ : BufTy).Contents (Elt F)),
    binary main_v6 main_v5 main_v7 (addi : (⟨S577, .i32⟩ : BufTy).Contents (Elt F) → (⟨S577, .i32⟩ : BufTy).Contents (Elt F) → (⟨S577, .i32⟩ : BufTy).Contents (Elt F)),
    TRef.nullary main_call0.c (constantI S_ 32 0#32),
    TRef.unary main_call0.c main_call0.v0 (broadcastInDim S577 ![] bcast_S_S577),
    TRef.binary (.of main_v7) main_call0.v0 main_call0.v1 (cmpi .slt),
    TRef.nullary main_call0.c_0 (constantI S_ 32 577#32),
    TRef.unary main_call0.c_0 main_call0.v2 (broadcastInDim S577 ![] bcast_S_S577),
    TRef.binary (.of main_v7) main_call0.v2 main_call0.v3 addi,
    TRef.ternary main_call0.v1 main_call0.v3 (.of main_v7) main_call0.call0.v0 select,
    TRef.unary main_call0.call0.v0 main_call0.v5 (broadcastInDim S577x1 ![0] bcast_S577_S577x1_0),
    TRef.nullary main_call0.c_1 (constantI S1 32 576#32),
    TRef.nullary main_call0.c_2 (constantI S_ 32 0#32),
    TRef.unary main_call0.c_2 main_call0.v6 (broadcastInDim S577x1 ![] bcast_S_S577x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S577x1 ![0, 1] bcast_S1x1_S577x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S577x1_S577_d1 h_S_),
    TRef.binary (.of main_arg1) main_call0.v5 main_call0.v13 (fun x i => Host.gather gather_S577x768_S577x1_S577x768_1_0_n_n_0_1_1768 x i),
    TRef.unary main_call0.v12 main_call0.v14 (broadcastInDim S577x768 ![0] bcast_S577_S577x768_0),
    TRef.nullary main_call0.cst (constant S_ .f32 0x7FC00000#32),
    TRef.unary main_call0.cst main_call0.v15 (broadcastInDim S577x768 ![] bcast_S_S577x768),
    TRef.ternary main_call0.v14 main_call0.v13 main_call0.v15 main_call0.v16 select,
    unary main_v8 main_v9 (broadcastInDim S1x577x768 ![1, 2] bcast_S577x768_S1x577x768_1_2 : (⟨S577x768, .f32⟩ : BufTy).Contents (Elt F) → (⟨S1x577x768, .f32⟩ : BufTy).Contents (Elt F)),
    unary main_v9 main_v10 (broadcastInDim S64x577x768 ![0, 1, 2] bcast_S1x577x768_S64x577x768_0_1_2 : (⟨S1x577x768, .f32⟩ : BufTy).Contents (Elt F) → (⟨S64x577x768, .f32⟩ : BufTy).Contents (Elt F)),
    binary main_v2 main_v10 main_v11 (addf : (⟨S64x577x768, .f32⟩ : BufTy).Contents (Elt F) → (⟨S64x577x768, .f32⟩ : BufTy).Contents (Elt F) → (⟨S64x577x768, .f32⟩ : BufTy).Contents (Elt F)) ]

-- the program's thirty-six operations, in sequence
set_option maxRecDepth 1024 in
/-- @main is that straight line: the two functions' definitions unfolded at their calls, both sides are one
    chain of steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., binary_bufs_sub .., nullary_bufs_sub .., nullary_bufs_sub .., unary_bufs_sub ..,
    binary_bufs_sub .., nullary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    unary_bufs_sub .., unary_bufs_sub .., binary_bufs_sub ..⟩

/-- At the compiled mesh, for any float values, from any memory with zero counters: every weakly fair execution
    of @main terminates, and every final state has each buffer at the operations' fold over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefValue.lean ====
/-
  The reference side: what the reference program's result buffer holds after its run, as the function both
  programs compute (Spec.lean's `res`) of the three arguments.

  The run (RefRun.lean) leaves each buffer at the fold of the operations' results. At the result buffer that
  fold is one composed term, `out`: the patch rows with the class-token row appended, plus the position table
  looked up at the positions 0 … 576 and broadcast over the batch. Read at an index (b, l, d): the positions are
  0 + 1 · l = l as 32-bit words, none negative, so the wrap by the table's height leaves them; each is between 0
  and 576, so the in-range mask is 1 on every row and the fill value is never selected; the gather, which clamps
  a start index into the table, reads row l itself. The concatenation reads the patch x (b, l, d) below row 576
  and the class token t (0, 0, d) at row 576. The sum is written with the operands in the order `res` has them.
-/
import proofs.«204390_g6468220748199_cont_9to1_m_1136_17_alg».proof.Proof.RefRun
import proofs.«204390_g6468220748199_cont_9to1_m_1136_17_alg».proof.Proof.Spec
import Idealize.ShloMosaic.Lib.Pipeline.Value
import Idealize.ShloMosaic.Lib.ReduceAll
import Idealize.ShloMosaic.Lib.ValueIdx

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

variable {F : FTy → Type} [FloatOps F]

/-! ## The composed term -/

/-- The positions 0 … 576: zero plus one times the row number. -/
def pos : IVec S577 32 :=
  addi (broadcastInDim S577 ![] bcast_S_S577 (constantI S_ 32 0#32))
    (muli (broadcastInDim S577 ![] bcast_S_S577 (constantI S_ 32 1#32)) (iotaInDim S577 32 0))

/-- The positions with a negative one wrapped by the table's height. -/
def wrapped : IVec S577 32 :=
  select (cmpi .slt pos (broadcastInDim S577 ![] bcast_S_S577 (constantI S_ 32 0#32)))
    (addi pos (broadcastInDim S577 ![] bcast_S_S577 (constantI S_ 32 577#32))) pos

/-- The start indices of the gather: one per row. -/
def idx : IVec S577x1 32 := broadcastInDim S577x1 ![0] bcast_S577_S577x1_0 wrapped

/-- The mask of rows whose start index is inside the table. -/
def inRange : IVec S577 1 :=
  Host.reduce IntOp.andi
    (andi (cmpi .sge idx (broadcastInDim S577x1 ![] bcast_S_S577x1 (constantI S_ 32 0#32)))
      (cmpi .sle idx (broadcastInDim S577x1 ![0, 1] bcast_S1x1_S577x1_0_1
        (broadcastInDim S1x1 ![1] bcast_S1_S1x1_1 (constantI S1 32 576#32)))))
    (constantI S_ 1 1#1) reducesTo_S577x1_S577_d1 h_S_

/-- The table's rows gathered at the positions, the fill value where a position is outside the table. -/
def taken (p : FVec F S577x768 .f32) : FVec F S577x768 .f32 :=
  select (broadcastInDim S577x768 ![0] bcast_S577_S577x768_0 inRange)
    (Host.gather gather_S577x768_S577x1_S577x768_1_0_n_n_0_1_1768 p idx)
    (broadcastInDim S577x768 ![] bcast_S_S577x768 (constant S_ .f32 0x7FC00000#32))

/-- The class token broadcast over the batch, as one extra row per batch. -/
def tokenRows (t : FVec F S1x1x768 .f32) : FVec F S64x1x768 .f32 :=
  shapeCast S64x1x768 (broadcastInDim S1x64x1x768 ![0, 2, 3] bcast_S1x1x768_S1x64x1x768_0_2_3 t) shapeCasts_S1x64x1x768_S64x1x768

/-- The patch rows with the class-token row appended. -/
def cat (x : FVec F S64x576x768 .f32) (t : FVec F S1x1x768 .f32) : FVec F S64x577x768 .f32 :=
  concatenate S64x577x768 1 [⟨S64x576x768, x⟩, ⟨S64x1x768, tokenRows t⟩] concatenates_S64x576x768_S64x1x768_S64x577x768_d1

/-- The reference's result as one term of the three arguments. -/
def out (x : FVec F S64x576x768 .f32) (p : FVec F S577x768 .f32) (t : FVec F S1x1x768 .f32) : FVec F S64x577x768 .f32 :=
  addf (cat x t)
    (broadcastInDim S64x577x768 ![0, 1, 2] bcast_S1x577x768_S64x577x768_0_1_2
      (broadcastInDim S1x577x768 ![1, 2] bcast_S577x768_S1x577x768_1_2 (taken p)))

/-! ## The fold at the result buffer is that term -/

attribute [local irreducible] Host.reduce Host.gather concatenate broadcastInDim shapeCast iotaInDim in
set_option maxRecDepth 8192 in
/-- After the thirty-six operations have run in order, the result buffer holds the composition of their functions
    applied to the three arguments: each operation leaves at its own buffer its function's value of its operands'
    contents, and at every other buffer what was there. -/
theorem out_eq (V : Valuation τ sig (Elt F)) :
    after RefRun.ops V (main_v11 : DevRef τ sig)
      = out (V (main_arg0 : DevRef τ sig)) (V (main_arg1 : DevRef τ sig)) (V (main_arg2 : DevRef τ sig)) := by
  after_results_simp
  rfl

/-- No operation writes an argument's buffer. -/
theorem arg0_eq (V : Valuation τ sig (Elt F)) :
    after RefRun.ops V (main_arg0 : DevRef τ sig) = V (main_arg0 : DevRef τ sig) := by
  after_results_simp

theorem arg1_eq (V : Valuation τ sig (Elt F)) :
    after RefRun.ops V (main_arg1 : DevRef τ sig) = V (main_arg1 : DevRef τ sig) := by
  after_results_simp

theorem arg2_eq (V : Valuation τ sig (Elt F)) :
    after RefRun.ops V (main_arg2 : DevRef τ sig) = V (main_arg2 : DevRef τ sig) := by
  after_results_simp

/-! ## Words at a row number -/

/-- A row number below the table's height, as a 32-bit word, reads back signed as itself. -/
theorem toInt_row {l : Nat} (h : l < 577) : (BitVec.ofNat 32 l).toInt = (l : Int) := by
  have hn : (BitVec.ofNat 32 l).toNat = l := by
    rw [BitVec.toNat_ofNat]; exact Nat.mod_eq_of_lt (Nat.lt_of_lt_of_le h (by norm_num))
  rw [BitVec.toInt_eq_toNat_of_lt (by rw [hn]; omega), hn]

theorem toInt_zero32 : (0#32 : BitVec 32).toInt = 0 := by decide
theorem toInt_576 : (576#32 : BitVec 32).toInt = 576 := by decide

/-- The position of row `l` is `l`: zero plus one times `l`. -/
theorem pos_apply (l : Fin 577) : pos (ix1 l) = BitVec.ofNat 32 l.val := by
  show IntOp.addi 0#32 (IntOp.muli 1#32 (BitVec.ofNat 32 l.val)) = _
  simp only [IntOp.addi, IntOp.muli, BitVec.zero_add, BitVec.one_mul]

/-- It is not negative, so the wrap leaves it. -/
theorem wrapped_apply (l : Fin 577) : wrapped (ix1 l) = BitVec.ofNat 32 l.val := by
  show Scalar.select (IntOp.cmpi .slt (pos (ix1 l)) 0#32) (IntOp.addi (pos (ix1 l)) 577#32) (pos (ix1 l)) = _
  rw [pos_apply]
  have h0 : IntOp.cmpi .slt (BitVec.ofNat 32 l.val) 0#32 = 0#1 := by
    apply eq_zero_of_ne_one
    rw [IntOp.cmpi_slt, toInt_row l.isLt, toInt_zero32]
    omega
  rw [h0, select_zero]

/-- The start index of row `l` is `l`. -/
theorem idx_apply (l : Fin 577) (z : Fin 1) : idx (ix2 l z) = BitVec.ofNat 32 l.val := by
  unfold idx
  rw [broadcastInDim_apply ![0] bcast_S577_S577x1_0 wrapped (ix2 l z) (ix1 l)
    (fun a => by match a with | ⟨0, _⟩ => rfl)]
  exact wrapped_apply l

/-! ## The mask: every row is inside the table -/

/-- A left fold by `and` from 1 over words that are all 1 is 1. -/
theorem foldl_andi_ones {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_ones f l (fun n hn => h n (List.mem_cons_of_mem _ hn))

theorem inRange_apply (j : S577.Idx) : inRange j = 1#1 := by
  unfold inRange
  rw [Host.reduce_eq_foldl]
  refine foldl_andi_ones _ _ ?_
  intro i _
  obtain ⟨a, z, rfl⟩ : ∃ a z, i = ix2 a z := ⟨i 0, i 1, eq_ix2 i⟩
  show IntOp.andi (IntOp.cmpi .sge (idx (ix2 a z)) 0#32) (IntOp.cmpi .sle (idx (ix2 a z)) 576#32) = 1#1
  rw [idx_apply, IntOp.andi_eq_one, IntOp.cmpi_sge, IntOp.cmpi_sle, toInt_row a.isLt, toInt_zero32, toInt_576]
  have := a.isLt
  constructor <;> omega

/-! ## The gather of table rows, read at an index -/

/-- Result element (l, d) of the row gather is the table at the row the start index of `l` names, read signed
    and clamped into the table, and column `d`. -/
theorem gather_row {α : Type} (p : S577x768.Idx → α) (i : IVec S577x1 32) (l : Fin 577) (d : Fin 768) :
    Host.gather gather_S577x768_S577x1_S577x768_1_0_n_n_0_1_1768 p i (ix2 l d)
      = p (ix2 (n0 := 577) (n1 := 768) ⟨min (i (ix2 l 0)).toInt.toNat 576, by omega⟩ d) := by
  unfold Host.gather
  congr 1
  funext a
  refine Fin.ext ?_
  match a with
  | ⟨0, _⟩ =>
    show gather_S577x768_S577x1_S577x768_1_0_n_n_0_1_1768.start (ix2 l d) i 0
        + gather_S577x768_S577x1_S577x768_1_0_n_n_0_1_1768.batchCoord (ix2 l d) 0
        + gather_S577x768_S577x1_S577x768_1_0_n_n_0_1_1768.offCoord (ix2 l d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S577x768_S577x1_S577x768_1_0_n_n_0_1_1768.startIndexMap from List.mem_singleton.mpr rfl)]
    have hsi : gather_S577x768_S577x1_S577x768_1_0_n_n_0_1_1768.siIdx (ix2 l d)
        ⟨List.idxOf (0 : Fin 2) gather_S577x768_S577x1_S577x768_1_0_n_n_0_1_1768.startIndexMap,
          List.idxOf_lt_length_iff.2 (List.mem_singleton.mpr rfl)⟩ = ix2 l 0 := by
      funext b; refine Fin.ext ?_
      match b with
      | ⟨0, _⟩ => rfl
      | ⟨1, _⟩ => rfl
    rw [hsi]
    rfl
  | ⟨1, _⟩ =>
    show gather_S577x768_S577x1_S577x768_1_0_n_n_0_1_1768.start (ix2 l d) i 1
        + gather_S577x768_S577x1_S577x768_1_0_n_n_0_1_1768.batchCoord (ix2 l d) 1
        + gather_S577x768_S577x1_S577x768_1_0_n_n_0_1_1768.offCoord (ix2 l d) 1 = d.val
    rw [GatherDims.batchCoord_eq_zero _ _ _ List.not_mem_nil]
    unfold GatherDims.start
    rw [dif_neg (show (1 : Fin 2) ∉ gather_S577x768_S577x1_S577x768_1_0_n_n_0_1_1768.startIndexMap from by decide)]
    simp only [Nat.add_zero, Nat.zero_add]
    unfold GatherDims.offCoord
    rw [dif_pos (show (1 : Fin 2) ∈ gather_S577x768_S577x1_S577x768_1_0_n_n_0_1_1768.sKept from by decide)]
    rfl

/-- Every position is inside the table, so the lookup returns the table's own rows. -/
theorem taken_apply (p : FVec F S577x768 .f32) (l : Fin 577) (d : Fin 768) : taken p (ix2 l d) = p (ix2 l d) := by
  show Scalar.select (broadcastInDim S577x768 ![0] bcast_S577_S577x768_0 inRange (ix2 l d))
      (Host.gather gather_S577x768_S577x1_S577x768_1_0_n_n_0_1_1768 p idx (ix2 l d)) _ = _
  rw [broadcastInDim_apply ![0] bcast_S577_S577x768_0 inRange (ix2 l d) (ix1 l) (fun a => by match a with | ⟨0, _⟩ => rfl),
    inRange_apply, select_one, gather_row]
  congr 1
  have hl := l.isLt
  have e : (idx (ix2 l 0)).toInt.toNat = l.val := by rw [idx_apply, toInt_row hl]; rfl
  funext a
  match a with
  | ⟨0, _⟩ => exact Fin.ext (by show min _ 576 = l.val; rw [e]; omega)
  | ⟨1, _⟩ => rfl

/-! ## The two broadcasts of the table over the batch -/

theorem bcast_apply (y : FVec F S577x768 .f32) (b : Fin 64) (l : Fin 577) (d : Fin 768) :
    broadcastInDim S64x577x768 ![0, 1, 2] bcast_S1x577x768_S64x577x768_0_1_2
      (broadcastInDim S1x577x768 ![1, 2] bcast_S577x768_S1x577x768_1_2 y) (ix3 b l d) = y (ix2 l d) := by
  rw [broadcastInDim_apply ![0, 1, 2] bcast_S1x577x768_S64x577x768_0_1_2 _ (ix3 b l d) (ix3 (0 : Fin 1) l d)
      (fun a => by match a with | ⟨0, _⟩ => rfl | ⟨1, _⟩ => rfl | ⟨2, _⟩ => rfl),
    broadcastInDim_apply ![1, 2] bcast_S577x768_S1x577x768_1_2 y (ix3 (0 : Fin 1) l d) (ix2 l d)
      (fun a => by match a with | ⟨0, _⟩ => rfl | ⟨1, _⟩ => rfl)]

/-! ## The concatenation -/

/-- The class-token row of batch `b` is the class token. -/
theorem tokenRows_apply (t : FVec F S1x1x768 .f32) (b : Fin 64) (d : Fin 768) :
    tokenRows t (ix3 b (0 : Fin 1) d) = t (ix3 0 0 d) := by
  unfold tokenRows
  rw [shapeCast_apply _ shapeCasts_S1x64x1x768_S64x1x768 (ix3 b (0 : Fin 1) d) (ix4 (0 : Fin 1) b (0 : Fin 1) d)
      (by rw [Shape.rowMajor_val_four, Shape.rowMajor_val_three]; simp),
    broadcastInDim_apply ![0, 2, 3] bcast_S1x1x768_S1x64x1x768_0_2_3 t (ix4 (0 : Fin 1) b (0 : Fin 1) d) (ix3 0 0 d)
      (fun a => by match a with | ⟨0, _⟩ => rfl | ⟨1, _⟩ => rfl | ⟨2, _⟩ => rfl)]

/-- A patch row of the concatenation is the patch. -/
theorem cat_patch (x : FVec F S64x576x768 .f32) (t : FVec F S1x1x768 .f32) (b : Fin 64) (l : Fin 577) (d : Fin 768)
    (h : l.val < 576) : cat x t (ix3 b l d) = x (ix3 b ⟨l.val, h⟩ d) := by
  unfold cat
  exact concatenate_pair_apply_left 1 x (tokenRows t) concatenates_S64x576x768_S64x1x768_S64x577x768_d1 (ix3 b l d) rfl
    (ix3 b ⟨l.val, h⟩ d) (fun a => by match a with | ⟨0, _⟩ => rfl | ⟨1, _⟩ => rfl | ⟨2, _⟩ => rfl)

/-- The last row of the concatenation is the class token. -/
theorem cat_class (x : FVec F S64x576x768 .f32) (t : FVec F S1x1x768 .f32) (b : Fin 64) (l : Fin 577) (d : Fin 768)
    (h : ¬ l.val < 576) : cat x t (ix3 b l d) = t (ix3 0 0 d) := by
  unfold cat
  have hl := l.isLt
  rw [concatenate_pair_apply_right 1 x (tokenRows t) concatenates_S64x576x768_S64x1x768_S64x577x768_d1 (ix3 b l d) rfl rfl
    (ix3 b (0 : Fin 1) d)
    (fun a ha => by
      match a with
      | ⟨0, _⟩ => rfl
      | ⟨1, _⟩ => exact absurd rfl ha
      | ⟨2, _⟩ => rfl)
    (by show 0 + 576 = l.val; omega)]
  exact tokenRows_apply t b d

/-! ## The composed term is the function both programs compute -/

theorem out_eq_res (x : FVec F S64x576x768 .f32) (p : FVec F S577x768 .f32) (t : FVec F S1x1x768 .f32) :
    out x p t = Cert.Spec.res x p t := by
  funext i
  obtain ⟨b, l, d, rfl⟩ : ∃ b l d, i = ix3 b l d := ⟨i 0, i 1, i 2, eq_ix3 i⟩
  show FloatOps.addf (cat x t (ix3 b l d))
      (broadcastInDim S64x577x768 ![0, 1, 2] bcast_S1x577x768_S64x577x768_0_1_2
        (broadcastInDim S1x577x768 ![1, 2] bcast_S577x768_S1x577x768_1_2 (taken p)) (ix3 b l d))
    = Cert.Spec.entry x p t l b d
  rw [bcast_apply, taken_apply]
  by_cases h : l.val < 576
  · rw [cat_patch x t b l d h, Cert.Spec.entry_patch x p t l b d h]
  · rw [cat_class x t b l d h, Cert.Spec.entry_class x p t l b d h]

/-! ## The run -/

/-- On every device, from any memory with zero counters: every weakly fair execution of the reference's @main
    terminates with the result buffer at the function both programs compute of the arguments' launch contents,
    and the arguments unchanged. -/
theorem run (m : (l : Loc nD τ sig) → Buf (Elt Ideal) l) (ρ : Dev nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev nD,
        r.2.mem ((c.tc : Thread nD τ).loc main_v11) = Cert.Spec.res (F := Ideal) (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) :=
  (θ_run _ _ _).mono (fun _ h c =>
      ⟨(h c main_v11).trans ((out_eq _).trans (out_eq_res _ _ _)),
        (h c main_arg0).trans (arg0_eq _), (h c main_arg1).trans (arg1_eq _), (h c main_arg2).trans (arg2_eq _)⟩)
    (RefRun.run_main m ρ)

end Cert.ReferenceIdeal.RefValue

end
-- ==== Proof.Assemble.lean ====
/-
  The certificate's claims from the two statements about one worker's body.

  Everything but a worker's body is proved for any property of the output array that only looks at the worker's
  own entries: the launch hands each of the thirty-two workers its read shares and its part of the output, collects
  them back, and the last operation exchanges the first two coordinates. With the empty property the kernel's run,
  at words and at extended reals, ends with the three arguments unchanged: the two frame claims. With the property
  "the worker's entries are the specification's" the run at extended reals ends with the result at the
  specification's result of the arguments; the reference's run ends there too, from arguments that agree: the
  algebraic claim, with that array as the common value. The reference's frame is its run with the value dropped, and
  the ideal pass rewrote nothing, so what it preserves is the trivial statement.
-/
import proofs.«204390_g6468220748199_cont_9to1_m_1136_17_alg».proof.Defs
import proofs.«204390_g6468220748199_cont_9to1_m_1136_17_alg».proof.Proof.LaunchI
import proofs.«204390_g6468220748199_cont_9to1_m_1136_17_alg».proof.Proof.ValueT
import proofs.«204390_g6468220748199_cont_9to1_m_1136_17_alg».proof.Proof.LaunchW
import proofs.«204390_g6468220748199_cont_9to1_m_1136_17_alg».proof.Proof.RefValue
import proofs.«204390_g6468220748199_cont_9to1_m_1136_17_alg».proof.Proof.Gen.Kernel
import proofs.«204390_g6468220748199_cont_9to1_m_1136_17_alg».proof.Proof.Gen.KernelIdeal
import proofs.«204390_g6468220748199_cont_9to1_m_1136_17_alg».proof.Proof.Gen.ReferenceIdeal
import proofs.«204390_g6468220748199_cont_9to1_m_1136_17_alg».proof.Proof.Gen.Pre_finite_inputs
import Idealize.ShloMosaic.Adequacy
import Idealize.ShloMosaic.Init

noncomputable section

namespace Cert.Proof.Assemble

open Idealize.ShloMosaic Idealize.SL.Sem

/-- A launch memory of the kernel read at extended reals. -/
abbrev MemI : Type := (ℓ : Loc Cert.KernelIdeal.nD Cert.KernelIdeal.τ Cert.KernelIdeal.sig) → Buf (Elt Ideal) ℓ

/-- The kernel at words: it runs and leaves its arguments unchanged. -/
theorem frame_w (hW : ∀ m, Cert.Kernel.Hand.TileBody (F := Bits) m Cert.Kernel.Hand.Rtriv) :
    Cert.frame_Kernel (hKernel := Cert.Kernel.Gen.facts) (hPre_finite_inputs := Cert.Pre_finite_inputs.Gen.facts) :=
  fun m g _ => (θ_run _ _ _).mono (fun _ h c => (h c).2)
    (Cert.Kernel.Hand.run_main (F := Bits) m g Cert.Kernel.Hand.Rtriv Cert.Kernel.Hand.Rtriv_local (hW m))

/-- The kernel at extended reals, for any property of the output's contents the body establishes: it runs and leaves
    its arguments unchanged. -/
theorem frame_i (R : MemI → Cert.KernelIdeal.Hand.OutProp (F := Ideal)) (hR : ∀ m, (R m).Local)
    (hI : ∀ m : MemI, Cert.KernelIdeal.Hand.TileBody (F := Ideal) m (R m)) :
    Cert.frame_KernelIdeal (hKernelIdeal := Cert.KernelIdeal.Gen.facts) (hPre_finite_inputs := Cert.Pre_finite_inputs.Gen.facts) :=
  fun m g _ => (θ_run _ _ _).mono (fun _ h c => (h c).2)
    (Cert.KernelIdeal.Hand.run_main (F := Ideal) m g (R m) (hR m) (hI m))

/-- The reference: it runs and leaves its arguments unchanged. -/
theorem frame_r :
    Cert.frame_ReferenceIdeal (hReferenceIdeal := Cert.ReferenceIdeal.Gen.facts) (hPre_finite_inputs := Cert.Pre_finite_inputs.Gen.facts) :=
  fun m g _ => (θ_run _ _ _).mono (fun _ h c => (h c).2) (Cert.ReferenceIdeal.RefValue.run m g)

/-- The ideal pass rewrote nothing. -/
theorem preserves : Cert.preserves_Kernel_KernelIdeal := trivial

/-- At extended reals, from arguments that agree, both programs end with the result at the specification's result of
    the arguments. -/
theorem algebraic (hV : ∀ m, Cert.KernelIdeal.Hand.TileBody (F := Ideal) m (Cert.KernelIdeal.Hand.Rval m)) :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m g m' g' _ hagree
  refine ⟨fun c => Cert.Spec.res (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run _ _ _).mono (fun r h c => ?_)
      (Cert.KernelIdeal.Hand.run_main (F := Ideal) m g (Cert.KernelIdeal.Hand.Rval m) (Cert.KernelIdeal.Hand.Rval_local m) (hV m))
    obtain ⟨⟨gg, hg, hr⟩, h0, h1, h2⟩ := h c
    exact ⟨hr.trans (Cert.KernelIdeal.Hand.res_of_Rval m c gg hg), h0, h1, h2⟩
  · refine (θ_run _ _ _).mono (fun r h c => ⟨(h c).1.trans ?_, (h c).2⟩) (Cert.ReferenceIdeal.RefValue.run m' g')
    rw [(hagree c).1, (hagree c).2.1, (hagree c).2.2]

/-- The two frame claims of the kernel, the reference's, and what the ideal pass preserves, from the bodies at the
    empty property. -/
theorem frames_of_bodies (hW : ∀ m, Cert.Kernel.Hand.TileBody (F := Bits) m Cert.Kernel.Hand.Rtriv)
    (hI : ∀ m, Cert.KernelIdeal.Hand.TileBody (F := Ideal) m Cert.KernelIdeal.Hand.Rtriv) :
    Cert.frame_Kernel (hKernel := Cert.Kernel.Gen.facts) (hPre_finite_inputs := Cert.Pre_finite_inputs.Gen.facts)
    ∧ Cert.frame_KernelIdeal (hKernelIdeal := Cert.KernelIdeal.Gen.facts) (hPre_finite_inputs := Cert.Pre_finite_inputs.Gen.facts)
    ∧ Cert.frame_ReferenceIdeal (hReferenceIdeal := Cert.ReferenceIdeal.Gen.facts) (hPre_finite_inputs := Cert.Pre_finite_inputs.Gen.facts)
    ∧ Cert.preserves_Kernel_KernelIdeal :=
  ⟨frame_w hW, frame_i (fun _ => Cert.KernelIdeal.Hand.Rtriv) (fun _ => Cert.KernelIdeal.Hand.Rtriv_local) hI, frame_r, preserves⟩

/-- Everything the certificate claims, from the body at words with the empty property and the body at extended reals
    with the specification's values. -/
theorem claim_of_bodies (hW : ∀ m, Cert.Kernel.Hand.TileBody (F := Bits) m Cert.Kernel.Hand.Rtriv)
    (hV : ∀ m, Cert.KernelIdeal.Hand.TileBody (F := Ideal) m (Cert.KernelIdeal.Hand.Rval m)) : Cert.Claim :=
  ⟨Cert.Kernel.Gen.facts, Cert.KernelIdeal.Gen.facts, Cert.ReferenceIdeal.Gen.facts, Cert.Pre_finite_inputs.Gen.facts,
    frame_w hW, frame_i (fun m => Cert.KernelIdeal.Hand.Rval m) (fun m => Cert.KernelIdeal.Hand.Rval_local m) hV, frame_r, preserves,
    algebraic hV⟩

end Cert.Proof.Assemble

end
-- ==== Proof.BodyOpenW.lean ====
/-
  How one worker's storage is laid out for the run of its body.

  A vector subcore owns two scratch buffers — the eight position rows of the current chunk and two staging slots of
  eight batch rows by eight positions — and nine transfer semaphores: two for the incoming blocks (one per slot), two
  for the outgoing rows (one per slot), and one for each of the five copies that are started and awaited on the spot.
  The subcore addresses the four arrays in device memory through whole-array references of its own; they name the same
  locations as the TensorCore's.
-/
import proofs.«204390_g6468220748199_cont_9to1_m_1136_17_alg».proof.Proof.SetupW

noncomputable section

namespace Cert.Kernel.Hand

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (d : Dev nD) (L : grid0.Coords)

/-- The worker's thread. -/
abbrev thr : Thread nD τ := V d (cV L) (jV L)

/-! ## The arrays in device memory, as the subcore addresses them -/

theorem pts_x (q : PosShare TreeShare) (f : Buf (Elt F) (xLoc d)) :
    ((xV : Memref sig .scVector .hbm S64x576x768 .f32).view.loc (thr d L) ↦{q} f : sProp 𝕄) = xLoc d ↦{q} f := by
  simp only [Memref.view_whole, View.set_whole]
theorem pts_p (q : PosShare TreeShare) (f : Buf (Elt F) (pLoc d)) :
    ((pV : Memref sig .scVector .hbm S577x768 .f32).view.loc (thr d L) ↦{q} f : sProp 𝕄) = pLoc d ↦{q} f := by
  simp only [Memref.view_whole, View.set_whole]
theorem pts_t (q : PosShare TreeShare) (f : Buf (Elt F) (tLoc d)) :
    ((tV : Memref sig .scVector .hbm S1x1x768 .f32).view.loc (thr d L) ↦{q} f : sProp 𝕄) = tLoc d ↦{q} f := by
  simp only [Memref.view_whole, View.set_whole]
theorem pts_o (s : Finset S577x64x768.Idx) (f : Buf (Elt F) (oLoc d)) :
    ((oV : Memref sig .scVector .hbm S577x64x768 .f32).view.loc (thr d L) ↦[s]{fullShare} f : sProp 𝕄) = oLoc d ↦[s]{fullShare} f := by
  simp only [Memref.view_whole, View.set_whole]

/-! ## The nine transfer semaphores -/

/-- The k-th transfer semaphore of the worker. -/
abbrev cell (k : Fin 9) : GSem nD τ sig := (thr d L, SemLoc.dma k)

/-- On a vector subcore no regular semaphore is the worker's own, and all nine transfer semaphores are. -/
theorem reg_not_scoped : ∀ s : Sem sig, (SemLoc.reg s : SemLoc sig).isScoped .scVector = false := by decide
theorem dma_scoped : ∀ k : Fin 9, (SemLoc.dma k : SemLoc sig).isScoped .scVector = true := by decide

theorem cell_injective : Function.Injective fun k : Fin 9 => cell d L k :=
  fun _ _ e => SemLoc.dma.inj (Prod.mk.inj e).2

theorem ownCells_thr : ownCells (sig := sig) (thr d L) = Finset.univ.map ⟨fun k : Fin 9 => cell d L k, cell_injective d L⟩ := by
  ext g
  rw [mem_ownCells, Finset.mem_map]
  obtain ⟨t, sm⟩ := g
  constructor
  · rintro ⟨h1, hs⟩
    have h1' : t = thr d L := h1
    subst h1'
    cases sm with
    | reg s =>
      exfalso
      have hs' : (SemLoc.reg s : SemLoc sig).isScoped .scVector = true := hs
      rw [reg_not_scoped s] at hs'
      exact Bool.false_ne_true hs'
    | dma k => exact ⟨k, Finset.mem_univ _, rfl⟩
  · rintro ⟨k, -, e⟩
    have e1 : thr d L = t := (Prod.mk.inj e).1
    have e2 : SemLoc.dma k = sm := (Prod.mk.inj e).2
    subst e1; subst e2
    exact ⟨rfl, dma_scoped k⟩

/-- The worker's semaphores at zero, one by one. -/
theorem ownSems0_thr :
    (ownSems0 (thr d L) : sProp 𝕄) = bigSep Finset.univ fun k : Fin 9 => semVal (cell d L k) 0 := by
  unfold SparseCore.Cfg.ownSems0
  rw [ownCells_thr, bigSep_map]
  rfl

/-- A product over the nine semaphores, factor by factor. -/
theorem bigSep_fin9 (Φ : Fin 9 → sProp 𝕄) :
    bigSep Finset.univ Φ = iprop(Φ 0 ∗ Φ 1 ∗ Φ 2 ∗ Φ 3 ∗ Φ 4 ∗ Φ 5 ∗ Φ 6 ∗ Φ 7 ∗ Φ 8) := by
  rw [show (Finset.univ : Finset (Fin 9)) = {0, 1, 2, 3, 4, 5, 6, 7, 8} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-! ## The two scratch buffers -/

/-- The position rows and the staging slots are among the worker's own buffers: they, at some contents, and the rest. -/
theorem ownBufs_thr :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The scratch buffers as the kernel's whole-buffer references address them. -/
theorem pts_pos (f : Buf (Elt F) ((thr d L).loc cc0_scratch0)) :
    ((posV : Memref sig .scVector .vmem S8x768 .f32).view.loc (thr d L) ↦{fullShare} f : sProp 𝕄) = (thr d L).loc cc0_scratch0 ↦{fullShare} f := rfl
theorem pts_slot (f : Buf (Elt F) ((thr d L).loc cc0_scratch1)) :
    ((slotV : Memref sig .scVector .vmem S2x8x8x768 .f32).view.loc (thr d L) ↦{fullShare} f : sProp 𝕄) = (thr d L).loc cc0_scratch1 ↦{fullShare} f := rfl

end Cert.Kernel.Hand

end
-- ==== Proof.SlotGeomW.lean ====
/-
  The geometry of the staging buffer.

  A vector subcore's staging buffer is an array [2, 8, 8, 768]: two slots, each eight batch rows by eight position
  rows by the features. An incoming block lands in a whole slot (the window with first coordinate pb); an outgoing
  row copy reads, for position row r of slot pb, the eight batch rows at that position (the window with first
  coordinate pb and third coordinate r). As sets of elements of the buffer: the two slots are disjoint and together
  the buffer; the eight row windows of a slot are pairwise disjoint and together the slot. So the buffer held whole
  is the two slots held each through its own window, a slot is its eight rows held each through its own window,
  and pieces that come back at different contents join to the whole at some contents agreeing with each piece on
  that piece.
-/
import proofs.«204390_g6468220748199_cont_9to1_m_1136_17_alg».proof.Proof.BodyOpenW

noncomputable section

namespace Cert.Kernel.Hand

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The windows -/

/-- A slot is inside the buffer. -/
theorem slot_inb (pb : Nat) (hpb : pb < 2) :
    ∀ a, (![pb, 0, 0, 0] : Fin 4 → Nat) a + S1x8x8x768.size a ≤ S2x8x8x768.size a := by
  intro a
  match a with
  | ⟨0, _⟩ => show pb + 1 ≤ 2; omega
  | ⟨1, _⟩ => show 0 + 8 ≤ 8; omega
  | ⟨2, _⟩ => show 0 + 8 ≤ 8; omega
  | ⟨3, _⟩ => show 0 + 768 ≤ 768; omega

/-- A position row of a slot is inside the buffer. -/
theorem row_inb (pb : Nat) (hpb : pb < 2) (r : Fin 8) :
    ∀ a, (![pb, 0, r.val, 0] : Fin 4 → Nat) a + S1x8x1x768.size a ≤ S2x8x8x768.size a := by
  intro a
  have hr := r.isLt
  match a with
  | ⟨0, _⟩ => show pb + 1 ≤ 2; omega
  | ⟨1, _⟩ => show 0 + 8 ≤ 8; omega
  | ⟨2, _⟩ => show r.val + 1 ≤ 8; omega
  | ⟨3, _⟩ => show 0 + 768 ≤ 768; omega

/-- Slot `pb`, as the program slices it: the block [1, 8, 8, 768] at [pb, 0, 0, 0], its unit axis dropped. -/
abbrev slotWin (pb : Nat) (hpb : pb < 2 := by decide) : Memref sig .scVector .vmem S8x8x768 .f32 :=
  (slotV.slice (Rect.unit (s := S2x8x8x768) ![pb, 0, 0, 0] S1x8x8x768.size (slot_inb pb hpb)) (fun _ => rfl)).squeeze S8x8x768 squeezes_S1x8x8x768_S8x8x768

/-- Position row `r` of slot `pb`, as the program slices it: the block [1, 8, 1, 768] at [pb, 0, r, 0], its unit axes
    dropped. -/
abbrev rowWin (pb : Nat) (r : Fin 8) (hpb : pb < 2 := by decide) : Memref sig .scVector .vmem S8x768 .f32 :=
  (slotV.slice (Rect.unit (s := S2x8x8x768) ![pb, 0, r.val, 0] S1x8x1x768.size (row_inb pb hpb r)) (fun _ => rfl)).squeeze S8x768 squeezes_S1x8x1x768_S8x768

/-- At literal coordinates these are the printed terms. -/
example : slotWin 0 = (slotV.slice (Rect.unit (s := S2x8x8x768) ![0, 0, 0, 0] S1x8x8x768.size inb_S2x8x8x768_S1x8x8x768_0_0_0_0) (fun _ => rfl)).squeeze S8x8x768 squeezes_S1x8x8x768_S8x8x768 := rfl
example : slotWin 1 = (slotV.slice (Rect.unit (s := S2x8x8x768) ![1, 0, 0, 0] S1x8x8x768.size inb_S2x8x8x768_S1x8x8x768_1_0_0_0) (fun _ => rfl)).squeeze S8x8x768 squeezes_S1x8x8x768_S8x8x768 := rfl
example : rowWin 1 7 = (slotV.slice (Rect.unit (s := S2x8x8x768) ![1, 0, 7, 0] S1x8x1x768.size inb_S2x8x8x768_S1x8x1x768_1_0_7_0) (fun _ => rfl)).squeeze S8x768 squeezes_S1x8x1x768_S8x768 := rfl

/-- A row window sliced at offsets given in closed form is `rowWin`. -/
theorem rowWin_of_off (pb : Nat) (hpb : pb < 2) (r : Fin 8) (o : Fin 4 → Nat)
    (ho : ∀ a, o a + S1x8x1x768.size a ≤ S2x8x8x768.size a) (e : o = ![pb, 0, r.val, 0]) :
    (slotV.slice (Rect.unit (s := S2x8x8x768) o S1x8x1x768.size ho) (fun _ => rfl)).squeeze S8x768 squeezes_S1x8x1x768_S8x768
      = rowWin pb r hpb := by
  subst e; rfl

/-- The same for a slot. -/
theorem slotWin_of_off (pb : Nat) (hpb : pb < 2) (o : Fin 4 → Nat)
    (ho : ∀ a, o a + S1x8x8x768.size a ≤ S2x8x8x768.size a) (e : o = ![pb, 0, 0, 0]) :
    (slotV.slice (Rect.unit (s := S2x8x8x768) o S1x8x8x768.size ho) (fun _ => rfl)).squeeze S8x8x768 squeezes_S1x8x8x768_S8x8x768
      = slotWin pb hpb := by
  subst e; rfl

example (t2 : Fin k0_t2_loop.trips) :
    (slotV.slice (Rect.unit (s := S2x8x8x768) (k0_off444 t2) S1x8x1x768.size (k0_off444_inb t2)) (fun _ => rfl)).squeeze S8x768 squeezes_S1x8x1x768_S8x768
      = rowWin 0 ⟨t2.val, Nat.lt_of_lt_of_le t2.isLt k0_t2_abs.2.1⟩ :=
  rowWin_of_off 0 Nat.zero_lt_two _ _ _ (k0_off444_eq t2)

/-! ## The windows' element sets, in closed form -/

theorem set_slotWin (pb : Nat) (hpb : pb < 2) :
    (slotWin pb hpb).view.set = (Rect.unit (s := S2x8x8x768) ![pb, 0, 0, 0] S1x8x8x768.size (slot_inb pb hpb)).set := by
  show (((View.whole (cc0_scratch1 : Ref sig .scVector)).slice _).reshape S8x8x768 _).set = _
  rw [View.set_reshape, View.set_slice_whole]

theorem set_rowWin (pb : Nat) (hpb : pb < 2) (r : Fin 8) :
    (rowWin pb r hpb).view.set = (Rect.unit (s := S2x8x8x768) ![pb, 0, r.val, 0] S1x8x1x768.size (row_inb pb hpb r)).set := by
  show (((View.whole (cc0_scratch1 : Ref sig .scVector)).slice _).reshape S8x768 _).set = _
  rw [View.set_reshape, View.set_slice_whole]

/-- An element of the buffer is in slot `pb` exactly when its first coordinate is `pb`. -/
theorem mem_slotWin_set (pb : Nat) (hpb : pb < 2) (i : S2x8x8x768.Idx) :
    i ∈ (slotWin pb hpb).view.set ↔ (i 0).val = pb := by
  rw [set_slotWin, Rect.mem_set_unit]
  have h1 : (i 1).val < 8 := (i 1).isLt
  have h2 : (i 2).val < 8 := (i 2).isLt
  have h3 : (i 3).val < 768 := (i 3).isLt
  constructor
  · intro h
    have h0 := h 0
    have e : (![pb, 0, 0, 0] : Fin 4 → Nat) 0 = pb := rfl
    have e' : S1x8x8x768.size 0 = 1 := rfl
    rw [e, e'] at h0
    omega
  · intro h a
    match a with
    | ⟨0, _⟩ => show pb ≤ (i 0).val ∧ (i 0).val < pb + 1; omega
    | ⟨1, _⟩ => show 0 ≤ (i 1).val ∧ (i 1).val < 0 + 8; omega
    | ⟨2, _⟩ => show 0 ≤ (i 2).val ∧ (i 2).val < 0 + 8; omega
    | ⟨3, _⟩ => show 0 ≤ (i 3).val ∧ (i 3).val < 0 + 768; omega

/-- An element of the buffer is in position row `r` of slot `pb` exactly when its first coordinate is `pb` and its
    third is `r`. -/
theorem mem_rowWin_set (pb : Nat) (hpb : pb < 2) (r : Fin 8) (i : S2x8x8x768.Idx) :
    i ∈ (rowWin pb r hpb).view.set ↔ (i 0).val = pb ∧ (i 2).val = r.val := by
  rw [set_rowWin, Rect.mem_set_unit]
  have h1 : (i 1).val < 8 := (i 1).isLt
  have h3 : (i 3).val < 768 := (i 3).isLt
  constructor
  · intro h
    have h0 := h 0
    have h2 := h 2
    have e0 : (![pb, 0, r.val, 0] : Fin 4 → Nat) 0 = pb := rfl
    have e2 : (![pb, 0, r.val, 0] : Fin 4 → Nat) 2 = r.val := rfl
    have e0' : S1x8x1x768.size 0 = 1 := rfl
    have e2' : S1x8x1x768.size 2 = 1 := rfl
    rw [e0, e0'] at h0
    rw [e2, e2'] at h2
    omega
  · intro h a
    match a with
    | ⟨0, _⟩ => show pb ≤ (i 0).val ∧ (i 0).val < pb + 1; omega
    | ⟨1, _⟩ => show 0 ≤ (i 1).val ∧ (i 1).val < 0 + 8; omega
    | ⟨2, _⟩ => show r.val ≤ (i 2).val ∧ (i 2).val < r.val + 1; omega
    | ⟨3, _⟩ => show 0 ≤ (i 3).val ∧ (i 3).val < 0 + 768; omega

/-- The two slots are disjoint and together the buffer. -/
theorem slots_disjoint :
    Disjoint ((slotWin 0 Nat.zero_lt_two).view.set : Finset S2x8x8x768.Idx) ((slotWin 1 Nat.one_lt_two).view.set : Finset S2x8x8x768.Idx) := by
  rw [Finset.disjoint_left]
  intro i h0 h1
  rw [mem_slotWin_set] at h0 h1
  omega

theorem slots_cover :
    ((slotWin 0 Nat.zero_lt_two).view.set : Finset S2x8x8x768.Idx) ∪ ((slotWin 1 Nat.one_lt_two).view.set : Finset S2x8x8x768.Idx) = Finset.univ := by
  refine Finset.ext fun (i : S2x8x8x768.Idx) => ?_
  have h : (i 0).val < 2 := (i 0).isLt
  rw [Finset.mem_union, mem_slotWin_set, mem_slotWin_set]
  simp only [Finset.mem_univ, iff_true]
  omega

/-- The eight position rows of a slot are pairwise disjoint and together the slot. -/
theorem slotRows_disjoint (pb : Nat) (hpb : pb < 2) :
    ∀ r ∈ (Finset.univ : Finset (Fin 8)), ∀ r' ∈ (Finset.univ : Finset (Fin 8)), r ≠ r' →
      Disjoint ((rowWin pb r hpb).view.set : Finset S2x8x8x768.Idx) ((rowWin pb r' hpb).view.set : Finset S2x8x8x768.Idx) := by
  intro r _ r' _ hne
  rw [Finset.disjoint_left]
  intro i h h'
  rw [mem_rowWin_set] at h h'
  exact hne (Fin.ext (h.2.symm.trans h'.2))

theorem slotRows_cover (pb : Nat) (hpb : pb < 2) :
    (Finset.univ : Finset (Fin 8)).biUnion (fun r => ((rowWin pb r hpb).view.set : Finset S2x8x8x768.Idx))
      = ((slotWin pb hpb).view.set : Finset S2x8x8x768.Idx) := by
  refine Finset.ext fun (i : S2x8x8x768.Idx) => ?_
  rw [Finset.mem_biUnion, mem_slotWin_set]
  constructor
  · rintro ⟨r, -, h⟩
    exact ((mem_rowWin_set pb hpb r i).mp h).1
  · intro h
    exact ⟨⟨(i 2).val, (i 2).isLt⟩, Finset.mem_univ _, (mem_rowWin_set pb hpb _ i).mpr ⟨h, rfl⟩⟩

/-! ## The buffer held whole is its windows held each through its own memref -/

variable (d : Dev nD) (L : grid0.Coords)

/-- A window's buffer is the staging buffer. -/
theorem loc_slotWin (pb : Nat) (hpb : pb < 2) : (slotWin pb hpb).view.loc (thr d L) = (thr d L).loc cc0_scratch1 := rfl
theorem loc_rowWin (pb : Nat) (hpb : pb < 2) (r : Fin 8) : (rowWin pb r hpb).view.loc (thr d L) = (thr d L).loc cc0_scratch1 := rfl

/-- A product over eight rows, factor by factor. -/
theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The whole buffer is the two slots. -/
theorem slotV_slots (f : Buf (Elt F) ((thr d L).loc cc0_scratch1)) :
    ((slotV : Memref sig .scVector .vmem S2x8x8x768 .f32).view.loc (thr d L) ↦{fullShare} f : sProp 𝕄)
      = iprop(((slotWin 0 Nat.zero_lt_two).view.loc (thr d L) ↦[(slotWin 0 Nat.zero_lt_two).view.set]{fullShare} f)
          ∗ ((slotWin 1 Nat.one_lt_two).view.loc (thr d L) ↦[(slotWin 1 Nat.one_lt_two).view.set]{fullShare} f)) := by
  have e : ((thr d L).loc cc0_scratch1 ↦[Finset.univ]{fullShare} f : sProp 𝕄)
      = (thr d L).loc cc0_scratch1 ↦[((slotWin 0 Nat.zero_lt_two).view.set : Finset S2x8x8x768.Idx) ∪ ((slotWin 1 Nat.one_lt_two).view.set : Finset S2x8x8x768.Idx)]{fullShare} f := by
    rw [slots_cover]
  have h := pointsTo_union (nD := nD) (τ := τ) (sig := sig) (Ix := HIx 1) (Val := Elt F) (Name := ℕ) (U := UU) (Lvl := ℕ)
    (ℓ := (thr d L).loc cc0_scratch1) (I := ((slotWin 0 Nat.zero_lt_two).view.set : Finset S2x8x8x768.Idx))
    (J := ((slotWin 1 Nat.one_lt_two).view.set : Finset S2x8x8x768.Idx)) (q := fullShare) (f := f) slots_disjoint
  exact e.trans (BI.equiv_iff.mp ⟨h.1, h.2⟩)

/-- A slot is its eight position rows. -/
theorem slot_rows (pb : Nat) (hpb : pb < 2) (f : Buf (Elt F) ((thr d L).loc cc0_scratch1)) :
    ((slotWin pb hpb).view.loc (thr d L) ↦[(slotWin pb hpb).view.set]{fullShare} f : sProp 𝕄)
      = bigSep Finset.univ fun r : Fin 8 => (rowWin pb r hpb).view.loc (thr d L) ↦[(rowWin pb r hpb).view.set]{fullShare} f := by
  have e : ((thr d L).loc cc0_scratch1 ↦[((slotWin pb hpb).view.set : Finset S2x8x8x768.Idx)]{fullShare} f : sProp 𝕄)
      = (thr d L).loc cc0_scratch1 ↦[(Finset.univ : Finset (Fin 8)).biUnion (fun r => ((rowWin pb r hpb).view.set : Finset S2x8x8x768.Idx))]{fullShare} f := by
    rw [slotRows_cover]
  exact e.trans (pointsTo_biUnion Finset.univ (ℓ := (thr d L).loc cc0_scratch1)
    (fun r : Fin 8 => ((rowWin pb r hpb).view.set : Finset S2x8x8x768.Idx)) (slotRows_disjoint pb hpb))

/-- The same with the eight rows written out. -/
theorem slot_rows8 (pb : Nat) (hpb : pb < 2) (f : Buf (Elt F) ((thr d L).loc cc0_scratch1)) :
    ((slotWin pb hpb).view.loc (thr d L) ↦[(slotWin pb hpb).view.set]{fullShare} f : sProp 𝕄)
      = iprop(((rowWin pb 0 hpb).view.loc (thr d L) ↦[(rowWin pb 0 hpb).view.set]{fullShare} f)
          ∗ ((rowWin pb 1 hpb).view.loc (thr d L) ↦[(rowWin pb 1 hpb).view.set]{fullShare} f)
          ∗ ((rowWin pb 2 hpb).view.loc (thr d L) ↦[(rowWin pb 2 hpb).view.set]{fullShare} f)
          ∗ ((rowWin pb 3 hpb).view.loc (thr d L) ↦[(rowWin pb 3 hpb).view.set]{fullShare} f)
          ∗ ((rowWin pb 4 hpb).view.loc (thr d L) ↦[(rowWin pb 4 hpb).view.set]{fullShare} f)
          ∗ ((rowWin pb 5 hpb).view.loc (thr d L) ↦[(rowWin pb 5 hpb).view.set]{fullShare} f)
          ∗ ((rowWin pb 6 hpb).view.loc (thr d L) ↦[(rowWin pb 6 hpb).view.set]{fullShare} f)
          ∗ ((rowWin pb 7 hpb).view.loc (thr d L) ↦[(rowWin pb 7 hpb).view.set]{fullShare} f)) := by
  rw [slot_rows d L pb hpb f, bigSep_fin8]

/-! ## Joins: pieces that come back at different contents -/

/-- A position row of a slot is inside the slot. -/
theorem rowWin_sub_slotWin (pb : Nat) (hpb : pb < 2) (r : Fin 8) (i : S2x8x8x768.Idx)
    (h : i ∈ ((rowWin pb r hpb).view.set : Finset S2x8x8x768.Idx)) :
    i ∈ ((slotWin pb hpb).view.set : Finset S2x8x8x768.Idx) :=
  (mem_slotWin_set pb hpb i).mpr ((mem_rowWin_set pb hpb r i).mp h).1

/-- Eight rows of a slot, each at contents of its own, are the slot at some contents that agree with each row's on
    that row. -/
theorem slot_rows_join (pb : Nat) (hpb : pb < 2) (fs : Fin 8 → Buf (Elt F) ((thr d L).loc cc0_scratch1)) :
    (bigSep Finset.univ fun r : Fin 8 => (rowWin pb r hpb).view.loc (thr d L) ↦[(rowWin pb r hpb).view.set]{fullShare} fs r)
      ⊢ (iprop(∃ g : Buf (Elt F) ((thr d L).loc cc0_scratch1),
            ⌜∀ r : Fin 8, ∀ i ∈ ((rowWin pb r hpb).view.set : Finset S2x8x8x768.Idx), g i = fs r i⌝
            ∗ (slotWin pb hpb).view.loc (thr d L) ↦[(slotWin pb hpb).view.set]{fullShare} g) : sProp 𝕄) := by
  have h := pointsTo_biUnion_join (nD := nD) (τ := τ) (sig := sig) (Ix := HIx 1) (Val := Elt F) (Name := ℕ) (U := UU) (Lvl := ℕ)
    (ℓ := (thr d L).loc cc0_scratch1) (q := fullShare) (Finset.univ : Finset (Fin 8))
    (fun r : Fin 8 => ((rowWin pb r hpb).view.set : Finset S2x8x8x768.Idx)) fs (fs 0) (slotRows_disjoint pb hpb)
  rw [slotRows_cover] at h
  refine h.trans ?_
  iintro ⟨%g, %hg, H⟩
  iexists g
  isplitr
  · ipureintro
    exact fun r => hg r (Finset.mem_univ r)
  · iexact H

/-- The same from the eight rows written out. -/
theorem slot_rows8_join (pb : Nat) (hpb : pb < 2) (fs : Fin 8 → Buf (Elt F) ((thr d L).loc cc0_scratch1)) :
    iprop(((rowWin pb 0 hpb).view.loc (thr d L) ↦[(rowWin pb 0 hpb).view.set]{fullShare} fs 0)
          ∗ ((rowWin pb 1 hpb).view.loc (thr d L) ↦[(rowWin pb 1 hpb).view.set]{fullShare} fs 1)
          ∗ ((rowWin pb 2 hpb).view.loc (thr d L) ↦[(rowWin pb 2 hpb).view.set]{fullShare} fs 2)
          ∗ ((rowWin pb 3 hpb).view.loc (thr d L) ↦[(rowWin pb 3 hpb).view.set]{fullShare} fs 3)
          ∗ ((rowWin pb 4 hpb).view.loc (thr d L) ↦[(rowWin pb 4 hpb).view.set]{fullShare} fs 4)
          ∗ ((rowWin pb 5 hpb).view.loc (thr d L) ↦[(rowWin pb 5 hpb).view.set]{fullShare} fs 5)
          ∗ ((rowWin pb 6 hpb).view.loc (thr d L) ↦[(rowWin pb 6 hpb).view.set]{fullShare} fs 6)
          ∗ ((rowWin pb 7 hpb).view.loc (thr d L) ↦[(rowWin pb 7 hpb).view.set]{fullShare} fs 7))
      ⊢ (iprop(∃ g : Buf (Elt F) ((thr d L).loc cc0_scratch1),
            ⌜∀ r : Fin 8, ∀ i ∈ ((rowWin pb r hpb).view.set : Finset S2x8x8x768.Idx), g i = fs r i⌝
            ∗ (slotWin pb hpb).view.loc (thr d L) ↦[(slotWin pb hpb).view.set]{fullShare} g) : sProp 𝕄) := by
  have e := bigSep_fin8 (F := F) fun r : Fin 8 => ((rowWin pb r hpb).view.loc (thr d L) ↦[(rowWin pb r hpb).view.set]{fullShare} fs r : sProp 𝕄)
  have h := slot_rows_join d L pb hpb fs
  rw [e] at h
  exact h

/-- The two slots, each at contents of its own, are the whole buffer at some contents that agree with each slot's on
    that slot. -/
theorem slots_join (f0 f1 : Buf (Elt F) ((thr d L).loc cc0_scratch1)) :
    iprop(((slotWin 0 Nat.zero_lt_two).view.loc (thr d L) ↦[(slotWin 0 Nat.zero_lt_two).view.set]{fullShare} f0)
          ∗ ((slotWin 1 Nat.one_lt_two).view.loc (thr d L) ↦[(slotWin 1 Nat.one_lt_two).view.set]{fullShare} f1))
      ⊢ (iprop(∃ g : Buf (Elt F) ((thr d L).loc cc0_scratch1),
            ⌜(∀ i ∈ ((slotWin 0 Nat.zero_lt_two).view.set : Finset S2x8x8x768.Idx), g i = f0 i)
              ∧ (∀ i ∈ ((slotWin 1 Nat.one_lt_two).view.set : Finset S2x8x8x768.Idx), g i = f1 i)⌝
            ∗ (slotV : Memref sig .scVector .vmem S2x8x8x768 .f32).view.loc (thr d L) ↦{fullShare} g) : sProp 𝕄) := by
  classical
  have h := pointsTo_join (nD := nD) (τ := τ) (sig := sig) (Ix := HIx 1) (Val := Elt F) (Name := ℕ) (U := UU) (Lvl := ℕ)
    (ℓ := (thr d L).loc cc0_scratch1) (I := ((slotWin 0 Nat.zero_lt_two).view.set : Finset S2x8x8x768.Idx))
    (J := ((slotWin 1 Nat.one_lt_two).view.set : Finset S2x8x8x768.Idx)) (q := fullShare) (f := f0) (g := f1) slots_disjoint
  rw [slots_cover] at h
  refine h.trans ?_
  iintro H
  iexists (((slotWin 1 Nat.one_lt_two).view.set : Finset S2x8x8x768.Idx).piecewise f1 f0)
  isplitr
  · ipureintro
    exact ⟨fun i hi => Finset.piecewise_eq_of_notMem _ _ _ (Finset.disjoint_left.mp slots_disjoint hi),
      fun i hi => Finset.piecewise_eq_of_mem _ _ _ hi⟩
  · iexact H

/-- Sixteen rows, each at contents of its own, are the whole buffer at some contents that agree with each row's on
    that row. -/
theorem rows_join (fs0 fs1 : Fin 8 → Buf (Elt F) ((thr d L).loc cc0_scratch1)) :
    iprop((bigSep Finset.univ fun r : Fin 8 =>
            (rowWin 0 r Nat.zero_lt_two).view.loc (thr d L) ↦[(rowWin 0 r Nat.zero_lt_two).view.set]{fullShare} fs0 r)
          ∗ (bigSep Finset.univ fun r : Fin 8 =>
            (rowWin 1 r Nat.one_lt_two).view.loc (thr d L) ↦[(rowWin 1 r Nat.one_lt_two).view.set]{fullShare} fs1 r))
      ⊢ (iprop(∃ g : Buf (Elt F) ((thr d L).loc cc0_scratch1),
            ⌜∀ r : Fin 8, (∀ i ∈ ((rowWin 0 r Nat.zero_lt_two).view.set : Finset S2x8x8x768.Idx), g i = fs0 r i)
              ∧ (∀ i ∈ ((rowWin 1 r Nat.one_lt_two).view.set : Finset S2x8x8x768.Idx), g i = fs1 r i)⌝
            ∗ (slotV : Memref sig .scVector .vmem S2x8x8x768 .f32).view.loc (thr d L) ↦{fullShare} g) : sProp 𝕄) := by
  iintro ⟨H0, H1⟩
  ihave H0 := (slot_rows_join d L 0 Nat.zero_lt_two fs0) $$ H0
  ihave H1 := (slot_rows_join d L 1 Nat.one_lt_two fs1) $$ H1
  icases H0 with ⟨%g0, %h0, H0⟩
  icases H1 with ⟨%g1, %h1, H1⟩
  ihave H := (slots_join d L g0 g1) $$ [H0 H1]
  · isplitl [H0]
    · iexact H0
    · iexact H1
  icases H with ⟨%g, %hg, H⟩
  iexists g
  isplitr
  · ipureintro
    exact fun r => ⟨fun i hi => (hg.1 i (rowWin_sub_slotWin 0 Nat.zero_lt_two r i hi)).trans (h0 r i hi),
      fun i hi => (hg.2 i (rowWin_sub_slotWin 1 Nat.one_lt_two r i hi)).trans (h1 r i hi)⟩
  · iexact H

/-- Eight rows of a slot with the eight contents given one by one: the slot is held at some contents. -/
theorem slot_rows8_join' (pb : Nat) (hpb : pb < 2) (f0 f1 f2 f3 f4 f5 f6 f7 : Buf (Elt F) ((thr d L).loc cc0_scratch1)) :
    iprop(((rowWin pb 0 hpb).view.loc (thr d L) ↦[(rowWin pb 0 hpb).view.set]{fullShare} f0)
          ∗ ((rowWin pb 1 hpb).view.loc (thr d L) ↦[(rowWin pb 1 hpb).view.set]{fullShare} f1)
          ∗ ((rowWin pb 2 hpb).view.loc (thr d L) ↦[(rowWin pb 2 hpb).view.set]{fullShare} f2)
          ∗ ((rowWin pb 3 hpb).view.loc (thr d L) ↦[(rowWin pb 3 hpb).view.set]{fullShare} f3)
          ∗ ((rowWin pb 4 hpb).view.loc (thr d L) ↦[(rowWin pb 4 hpb).view.set]{fullShare} f4)
          ∗ ((rowWin pb 5 hpb).view.loc (thr d L) ↦[(rowWin pb 5 hpb).view.set]{fullShare} f5)
          ∗ ((rowWin pb 6 hpb).view.loc (thr d L) ↦[(rowWin pb 6 hpb).view.set]{fullShare} f6)
          ∗ ((rowWin pb 7 hpb).view.loc (thr d L) ↦[(rowWin pb 7 hpb).view.set]{fullShare} f7))
      ⊢ (iprop(∃ g : Buf (Elt F) ((thr d L).loc cc0_scratch1),
            (slotWin pb hpb).view.loc (thr d L) ↦[(slotWin pb hpb).view.set]{fullShare} g) : sProp 𝕄) := by
  have h := slot_rows8_join d L pb hpb (fun r : Fin 8 => match r with
      | ⟨0, _⟩ => f0
      | ⟨1, _⟩ => f1
      | ⟨2, _⟩ => f2
      | ⟨3, _⟩ => f3
      | ⟨4, _⟩ => f4
      | ⟨5, _⟩ => f5
      | ⟨6, _⟩ => f6
      | ⟨7, _⟩ => f7)
  refine h.trans ?_
  iintro ⟨%g, -, H⟩
  iexists g
  iexact H

/-- Sixteen rows with the sixteen contents given one by one: the whole buffer is held at some contents. -/
theorem rows16_join' (f0 f1 f2 f3 f4 f5 f6 f7 g0 g1 g2 g3 g4 g5 g6 g7 : Buf (Elt F) ((thr d L).loc cc0_scratch1)) :
    iprop((((rowWin 0 0 Nat.zero_lt_two).view.loc (thr d L) ↦[(rowWin 0 0 Nat.zero_lt_two).view.set]{fullShare} f0)
            ∗ ((rowWin 0 1 Nat.zero_lt_two).view.loc (thr d L) ↦[(rowWin 0 1 Nat.zero_lt_two).view.set]{fullShare} f1)
            ∗ ((rowWin 0 2 Nat.zero_lt_two).view.loc (thr d L) ↦[(rowWin 0 2 Nat.zero_lt_two).view.set]{fullShare} f2)
            ∗ ((rowWin 0 3 Nat.zero_lt_two).view.loc (thr d L) ↦[(rowWin 0 3 Nat.zero_lt_two).view.set]{fullShare} f3)
            ∗ ((rowWin 0 4 Nat.zero_lt_two).view.loc (thr d L) ↦[(rowWin 0 4 Nat.zero_lt_two).view.set]{fullShare} f4)
            ∗ ((rowWin 0 5 Nat.zero_lt_two).view.loc (thr d L) ↦[(rowWin 0 5 Nat.zero_lt_two).view.set]{fullShare} f5)
            ∗ ((rowWin 0 6 Nat.zero_lt_two).view.loc (thr d L) ↦[(rowWin 0 6 Nat.zero_lt_two).view.set]{fullShare} f6)
            ∗ ((rowWin 0 7 Nat.zero_lt_two).view.loc (thr d L) ↦[(rowWin 0 7 Nat.zero_lt_two).view.set]{fullShare} f7))
          ∗ (((rowWin 1 0 Nat.one_lt_two).view.loc (thr d L) ↦[(rowWin 1 0 Nat.one_lt_two).view.set]{fullShare} g0)
            ∗ ((rowWin 1 1 Nat.one_lt_two).view.loc (thr d L) ↦[(rowWin 1 1 Nat.one_lt_two).view.set]{fullShare} g1)
            ∗ ((rowWin 1 2 Nat.one_lt_two).view.loc (thr d L) ↦[(rowWin 1 2 Nat.one_lt_two).view.set]{fullShare} g2)
            ∗ ((rowWin 1 3 Nat.one_lt_two).view.loc (thr d L) ↦[(rowWin 1 3 Nat.one_lt_two).view.set]{fullShare} g3)
            ∗ ((rowWin 1 4 Nat.one_lt_two).view.loc (thr d L) ↦[(rowWin 1 4 Nat.one_lt_two).view.set]{fullShare} g4)
            ∗ ((rowWin 1 5 Nat.one_lt_two).view.loc (thr d L) ↦[(rowWin 1 5 Nat.one_lt_two).view.set]{fullShare} g5)
            ∗ ((rowWin 1 6 Nat.one_lt_two).view.loc (thr d L) ↦[(rowWin 1 6 Nat.one_lt_two).view.set]{fullShare} g6)
            ∗ ((rowWin 1 7 Nat.one_lt_two).view.loc (thr d L) ↦[(rowWin 1 7 Nat.one_lt_two).view.set]{fullShare} g7)))
      ⊢ (iprop(∃ h : Buf (Elt F) ((thr d L).loc cc0_scratch1),
            (slotV : Memref sig .scVector .vmem S2x8x8x768 .f32).view.loc (thr d L) ↦{fullShare} h) : sProp 𝕄) := by
  iintro ⟨H0, H1⟩
  ihave H0 := (slot_rows8_join' d L 0 Nat.zero_lt_two f0 f1 f2 f3 f4 f5 f6 f7) $$ H0
  ihave H1 := (slot_rows8_join' d L 1 Nat.one_lt_two g0 g1 g2 g3 g4 g5 g6 g7) $$ H1
  icases H0 with ⟨%a, H0⟩
  icases H1 with ⟨%b, H1⟩
  ihave H := (slots_join d L a b) $$ [H0 H1]
  · isplitl [H0]
    · iexact H0
    · iexact H1
  icases H with ⟨%h, -, H⟩
  iexists h
  iexact H

end Cert.Kernel.Hand

end
-- ==== Proof.OffsetsW.lean ====
import proofs.«204390_g6468220748199_cont_9to1_m_1136_17_alg».proof.Proof.Gen.Kernel

/-!
# Closed forms of the offsets that depend on the tile

The kernel runs on 32 vector subcores. The subcore at grid coordinates `i` has worker number
`wid i = 2 * s + c` (`c = i 0` the core, `s = i 1` the subcore); it belongs to group
`g = wid / 8` and has index `j = wid % 8` in its group, and it works on the 16 batch rows from
`16 * g` and the 72 sequence rows from `72 * j`. Every slice the kernel takes has offsets
computed from these by 32-bit operations; this module reads each such chain of operations back as
the natural-number expression it computes.
-/

namespace Cert.Kernel.Hand

open Cert.Kernel Cert.Kernel.Gen Idealize.ShloMosaic

/-! ## Three chains every offset of this kernel shares

Each offset the kernel computes is built from the same three pieces of 32-bit arithmetic: the
worker number of the tile, the floor-division idiom (quotient corrected by one when the signs
differ and the remainder is not zero) and the floor-remainder idiom (remainder corrected by the
divisor when its sign differs from the divisor's). For a nonnegative dividend neither correction
fires, so the idioms read as the natural-number quotient and remainder by 8. -/

/-- The floor-division idiom by 8, as the kernel spells it, of a word `v`. -/
def fdiv8 (v : BitVec 32) : BitVec 32 :=
  Scalar.select
    (Scalar.andi
      (Scalar.cmpi .ne
        (Scalar.subi (Scalar.extui (Scalar.cmpi .sgt v 0#32)) (Scalar.extui (Scalar.cmpi .slt v 0#32)))
        (Scalar.subi (Scalar.extui (Scalar.cmpi .sgt 8#32 0#32)) (Scalar.extui (Scalar.cmpi .slt 8#32 0#32))))
      (Scalar.cmpi .ne (Scalar.remsi v 8#32) 0#32))
    (Scalar.subi (Scalar.divsi v 8#32) 1#32)
    (Scalar.divsi v 8#32)

/-- The divisor of the floor-remainder idiom: 8, guarded against zero. -/
def m8 : BitVec 32 := Scalar.select (Scalar.cmpi .eq 8#32 0#32) 1#32 8#32

/-- The floor-remainder idiom by 8, as the kernel spells it, of a word `v`. -/
def fmod8 (v : BitVec 32) : BitVec 32 :=
  Scalar.select
    (Scalar.andi
      (Scalar.xori (Scalar.cmpi .slt (Scalar.remsi v m8) 0#32) (Scalar.cmpi .slt m8 0#32))
      (Scalar.cmpi .ne (Scalar.remsi v m8) 0#32))
    (Scalar.addi (Scalar.remsi v m8) m8)
    (Scalar.remsi v m8)

theorem m8_isInt : Affine.IsInt m8 8 := by
  have h8 : Affine.IsInt 8#32 8 := Affine.ofNat _ (by omega)
  have h0 : Affine.IsInt 0#32 0 := Affine.ofNat _ (by omega)
  have h1 : Affine.IsInt 1#32 1 := Affine.ofNat _ (by omega)
  exact Affine.select_fails (Affine.eq_fails h8 h0 (by omega)) h1 h8 (by omega)

/-- Of a nonnegative word the floor-division idiom is the quotient by 8: the sign of the dividend
    is 0 or 1, the sign of the divisor is 1; when they differ the dividend is 0 and so is its
    remainder, and the correction does not fire either way. -/
theorem fdiv8_isInt {v : BitVec 32} {w : Int} (hv : Affine.IsInt v w) (hw : 0 ≤ w ∧ w < 2 ^ 31) :
    Affine.IsInt (fdiv8 v) (w / 8) := by
  have h0 : Affine.IsInt 0#32 0 := Affine.ofNat _ (by omega)
  have h1 : Affine.IsInt 1#32 1 := Affine.ofNat _ (by omega)
  have h8 : Affine.IsInt 8#32 8 := Affine.ofNat _ (by omega)
  -- the sign of the divisor: 1 - 0
  have s8 : Affine.IsInt _ 1 :=
    Affine.subi (Affine.extui_holds (Affine.sgt_holds h8 h0 (by omega)) rfl)
      (Affine.extui_fails (Affine.slt_fails h8 h0 (by omega)) rfl) (by omega)
  have hq : Affine.IsInt (Scalar.divsi v 8#32) (w / 8) := Affine.divsi hv h8 (by omega)
  have hq1 : Affine.IsInt (Scalar.subi (Scalar.divsi v 8#32) 1#32) (w / 8 - 1) := Affine.subi hq h1 (by omega)
  have hr : Affine.IsInt (Scalar.remsi v 8#32) (w % 8) := Affine.remsi hv h8 (by omega)
  have hneg : Affine.IsInt (Scalar.extui (Scalar.cmpi .slt v 0#32)) 0 :=
    Affine.extui_fails (Affine.slt_fails hv h0 (by omega)) rfl
  rcases (show w ≤ 0 ∨ 1 ≤ w by omega) with hs | hs
  · -- the dividend is 0: the signs differ, but the remainder is 0
    have sv : Affine.IsInt _ 0 :=
      Affine.subi (Affine.extui_fails (Affine.sgt_fails hv h0 (by omega)) rfl) hneg (by omega)
    have hd : Affine.Holds _ := Affine.ne_holds sv s8 (by omega)
    have hz : Affine.Fails _ := Affine.ne_fails hr h0 (by omega)
    exact Affine.select_fails (Affine.andi_fails_right (Affine.tH hd) hz) hq1 hq rfl
  · -- the dividend is positive: the signs agree
    have sv : Affine.IsInt _ 1 :=
      Affine.subi (Affine.extui_holds (Affine.sgt_holds hv h0 (by omega)) rfl) hneg (by omega)
    have hd : Affine.Fails _ := Affine.ne_fails sv s8 (by omega)
    exact Affine.select_fails (Affine.andi_fails_left hd (Affine.cmpi_term .ne hr h0)) hq1 hq rfl

/-- Of a nonnegative word the floor-remainder idiom is the remainder by 8: the remainder and the
    divisor are both nonnegative, so the correction does not fire. -/
theorem fmod8_isInt {v : BitVec 32} {w : Int} (hv : Affine.IsInt v w) (hw : 0 ≤ w ∧ w < 2 ^ 31) :
    Affine.IsInt (fmod8 v) (w % 8) := by
  have h0 : Affine.IsInt 0#32 0 := Affine.ofNat _ (by omega)
  have hm := m8_isInt
  have hr : Affine.IsInt (Scalar.remsi v m8) (w % 8) := Affine.remsi hv hm (by omega)
  have hx : Affine.Fails _ :=
    Affine.xori_ff (Affine.slt_fails hr h0 (by omega)) (Affine.slt_fails hm h0 (by omega))
  have hc : Affine.IsInt (Scalar.addi (Scalar.remsi v m8) m8) (w % 8 + 8) := Affine.addi hr hm (by omega)
  exact Affine.select_fails (Affine.andi_fails_left hx (Affine.cmpi_term .ne hr h0)) hc hr rfl

/-- The induction variable of a loop from 0 by 1, at trip `t`. -/
theorem iv01_isInt (t : Nat) (ht : t < 2 ^ 31) : Affine.IsInt (Scf.iv 0#32 1#32 t) (t : Int) := by
  have h0 : Affine.IsInt 0#32 0 := Affine.ofNat _ (by omega)
  have h1 : Affine.IsInt 1#32 1 := Affine.ofNat _ (by omega)
  exact Affine.iv h0 h1 t (by omega)

/-! ## The worker number -/

/-- The worker number of the tile at grid coordinates `i`. -/
def wid (i : grid0.Coords) : ℕ := 2 * (i 1).val + (i 0).val

theorem wid_lt (i : grid0.Coords) : wid i < 32 := by
  have r1 : (i 1).val < 16 := (i 1).isLt
  have r0 : (i 0).val < 2 := (i 0).isLt
  unfold wid; omega

/-- The worker number as the kernel computes it: subcore times 2 plus core. -/
def widW (i : grid0.Coords) : BitVec 32 :=
  Scalar.addi (Scalar.muli (BitVec.ofNat 32 (i 1).val) 2#32) (BitVec.ofNat 32 (i 0).val)

theorem widW_isInt (i : grid0.Coords) : Affine.IsInt (widW i) (wid i : Int) := by
  have r1 : (i 1).val < 16 := (i 1).isLt
  have r0 : (i 0).val < 2 := (i 0).isLt
  have a1 : Affine.IsInt (BitVec.ofNat 32 (i 1).val) ((i 1).val : Int) := Affine.ofNat _ (by omega)
  have c2 : Affine.IsInt 2#32 2 := Affine.ofNat _ (by omega)
  have a0 : Affine.IsInt (BitVec.ofNat 32 (i 0).val) ((i 0).val : Int) := Affine.ofNat _ (by omega)
  have v0 : Affine.IsInt _ (2 * ((i 1).val : Int)) := Affine.muli a1 c2 (by omega)
  exact Affine.addi v0 a0 (by unfold wid; omega)

/-! ## The group's first batch row, the tile's first sequence row, the chunk's first row -/

/-- `16 * g`: the first batch row of the tile's group. -/
def b0W (i : grid0.Coords) : BitVec 32 := Scalar.muli (fdiv8 (widW i)) 16#32

theorem b0W_isInt (i : grid0.Coords) : Affine.IsInt (b0W i) (16 * ((wid i : Int) / 8)) := by
  have hlt := wid_lt i
  have hg := fdiv8_isInt (widW_isInt i) (by omega)
  have c16 : Affine.IsInt 16#32 16 := Affine.ofNat _ (by omega)
  exact Affine.muli hg c16 (by omega)

/-- `72 * j`: the first sequence row of the tile. -/
def rbaseW (i : grid0.Coords) : BitVec 32 := Scalar.muli (fmod8 (widW i)) 72#32

theorem rbaseW_isInt (i : grid0.Coords) : Affine.IsInt (rbaseW i) (72 * ((wid i : Int) % 8)) := by
  have hlt := wid_lt i
  have hj := fmod8_isInt (widW_isInt i) (by omega)
  have c72 : Affine.IsInt 72#32 72 := Affine.ofNat _ (by omega)
  exact Affine.muli hj c72 (by omega)

theorem t1_lt (t1 : Fin k0_t1_loop.trips) : t1.val < 9 := Nat.lt_of_lt_of_le t1.isLt k0_t1_abs.2.1
theorem t2_lt (t2 : Fin k0_t2_loop.trips) : t2.val < 8 := Nat.lt_of_lt_of_le t2.isLt k0_t2_abs.2.1
theorem t3_lt (t3 : Fin k0_t3_loop.trips) : t3.val < 8 := Nat.lt_of_lt_of_le t3.isLt k0_t3_abs.2.1

/-- `72 * j + 8 * t`: the first sequence row of the tile's chunk `t`. -/
def rowW (i : grid0.Coords) (t : Nat) : BitVec 32 :=
  Scalar.addi (rbaseW i) (Scalar.muli (Scf.iv 0#32 1#32 t) 8#32)

theorem rowW_isInt (i : grid0.Coords) (t : Nat) (ht : t < 10) :
    Affine.IsInt (rowW i t) (72 * ((wid i : Int) % 8) + 8 * (t : Int)) := by
  have hlt := wid_lt i
  have c8 : Affine.IsInt 8#32 8 := Affine.ofNat _ (by omega)
  have h8t : Affine.IsInt _ (8 * (t : Int)) := Affine.muli (iv01_isInt t (by omega)) c8 (by omega)
  exact Affine.addi (rbaseW_isInt i) h8t (by omega)

/-- An output row slice: sequence row `72 * j + 8 * t + a`, batch rows from `16 * g + c`. -/
theorem outRow_eq (i : grid0.Coords) (t : Nat) (ht : t < 10) {a c : BitVec 32} {na nc : Nat}
    (ha : Affine.IsInt a (na : Int)) (hc : Affine.IsInt c (nc : Int)) (hna : na < 1000) (hnc : nc < 1000) :
    (![(Scalar.addi (rowW i t) a).toNat, (Scalar.addi (b0W i) c).toNat, 0] : Fin 3 → Nat) =
      ![72 * (wid i % 8) + 8 * t + na, 16 * (wid i / 8) + nc, 0] := by
  have hlt := wid_lt i
  have h1 : Affine.IsInt _ (72 * ((wid i : Int) % 8) + 8 * (t : Int) + (na : Int)) :=
    Affine.addi (rowW_isInt i t ht) ha (by omega)
  have h2 : Affine.IsInt _ (16 * ((wid i : Int) / 8) + (nc : Int)) := Affine.addi (b0W_isInt i) hc (by omega)
  exact Affine.vec_cons h1 (by omega) <| Affine.vec_cons h2 (by omega) rfl

/-- An input block slice: batch rows from `16 * g + c`, sequence rows from `r`. -/
theorem inBlk_eq (i : grid0.Coords) {c r : BitVec 32} {nc nr : Nat}
    (hc : Affine.IsInt c (nc : Int)) (hr : Affine.IsInt r (nr : Int)) (hnc : nc < 1000) :
    (![(Scalar.addi (b0W i) c).toNat, r.toNat, 0] : Fin 3 → Nat) = ![16 * (wid i / 8) + nc, nr, 0] := by
  have hlt := wid_lt i
  have h1 : Affine.IsInt _ (16 * ((wid i : Int) / 8) + (nc : Int)) := Affine.addi (b0W_isInt i) hc (by omega)
  exact Affine.vec_cons h1 (by omega) <| Affine.vec_cons hr (by omega) rfl

theorem lit_isInt (n : Nat) (h : n < 2 ^ 31) : Affine.IsInt (BitVec.ofNat 32 n) (n : Int) := Affine.ofNat _ (by omega)

/-! ## The offsets -/

/-- The first input block: batch rows from `16 * g`, sequence rows from `72 * j`. -/
theorem k0_off1_eq (i : grid0.Coords) : k0_off1 i = ![16 * (wid i / 8), 72 * (wid i % 8), 0] := by
  have hlt := wid_lt i
  have hr : Affine.IsInt (Scalar.addi (rbaseW i) 0#32) ((72 * (wid i % 8) : Nat) : Int) :=
    Affine.addi (rbaseW_isInt i) (lit_isInt 0 (by omega)) (by omega)
  exact inBlk_eq i (lit_isInt 0 (by omega)) hr (by omega)

/-- The chunk's rows of the position table. -/
theorem k0_off2_eq (i : grid0.Coords) (t1 : Fin k0_t1_loop.trips) :
    k0_off2 i t1 = ![72 * (wid i % 8) + 8 * t1.val, 0] := by
  have hlt := wid_lt i
  have ht := t1_lt t1
  exact Affine.vec_cons (rowW_isInt i t1.val (by omega)) (by omega) rfl

/-- An input block of chunk `t1`: batch rows from `16 * g + 8 * r`. -/
theorem k0_off3_eq (i : grid0.Coords) (t1 : Fin k0_t1_loop.trips) (r : Fin 2) :
    k0_off3 i t1 (BitVec.ofNat 32 (8 * r.val)) =
      ![16 * (wid i / 8) + 8 * r.val, 72 * (wid i % 8) + 8 * t1.val, 0] := by
  have hlt := wid_lt i
  have ht := t1_lt t1
  have hr := r.isLt
  have hrow : Affine.IsInt (rowW i t1.val) ((72 * (wid i % 8) + 8 * t1.val : Nat) : Int) :=
    Affine.relit (rowW_isInt i t1.val (by omega)) (by omega)
  exact inBlk_eq i (lit_isInt (8 * r.val) (by omega)) hrow (by omega)

/-- The output row `t2` of chunk `t1`, first half of the group's batch rows. -/
theorem k0_off445_eq (i : grid0.Coords) (t1 : Fin k0_t1_loop.trips) (t2 : Fin k0_t2_loop.trips) :
    k0_off445 i t1 t2 = ![72 * (wid i % 8) + 8 * t1.val + t2.val, 16 * (wid i / 8), 0] := by
  have ht := t1_lt t1
  have ht2 := t2_lt t2
  exact outRow_eq i t1.val (by omega) (iv01_isInt t2.val (by omega)) (lit_isInt 0 (by omega)) (by omega) (by omega)

/-- The output row `t3` of chunk `t1`, second half of the group's batch rows. -/
theorem k0_off881_eq (i : grid0.Coords) (t1 : Fin k0_t1_loop.trips) (t3 : Fin k0_t3_loop.trips) :
    k0_off881 i t1 t3 = ![72 * (wid i % 8) + 8 * t1.val + t3.val, 16 * (wid i / 8) + 8, 0] := by
  have ht := t1_lt t1
  have ht3 := t3_lt t3
  exact outRow_eq i t1.val (by omega) (iv01_isInt t3.val (by omega)) (lit_isInt 8 (by omega)) (by omega) (by omega)

/-- The class-token row of the output, batch rows from `16 * g + 8 * r`. -/
theorem k0_off883_eq (i : grid0.Coords) (r : Fin 2) :
    k0_off883 i (BitVec.ofNat 32 (8 * r.val)) = ![576, 16 * (wid i / 8) + 8 * r.val, 0] := by
  have hlt := wid_lt i
  have hr := r.isLt
  have h1 : Affine.IsInt (Scalar.addi (b0W i) (BitVec.ofNat 32 (8 * r.val))) (16 * ((wid i : Int) / 8) + 8 * (r.val : Int)) :=
    Affine.addi (b0W_isInt i) (lit_isInt (8 * r.val) (by omega)) (by omega)
  exact congrArg (Matrix.vecCons 576) (Affine.vec_cons h1 (by omega) rfl)

/-- The class-token branch runs on the first tile of each group. -/
theorem k0_cond10_iff (i : grid0.Coords) : k0_cond10 i = 1#1 ↔ wid i % 8 = 0 := by
  have hlt := wid_lt i
  have hj := fmod8_isInt (widW_isInt i) (by omega)
  have h0 : Affine.IsInt 0#32 0 := Affine.ofNat _ (by omega)
  by_cases hz : wid i % 8 = 0
  · have he : Affine.Holds _ := Affine.eq_holds hj h0 (by omega)
    have hx : Affine.IsInt _ 1 := Affine.extui_holds he rfl
    have hc : Affine.Holds (k0_cond10 i) := Affine.ne_holds hx h0 (by omega)
    exact ⟨fun _ => hz, fun _ => hc⟩
  · have he : Affine.Fails _ := Affine.eq_fails hj h0 (by omega)
    have hx : Affine.IsInt _ 0 := Affine.extui_fails he rfl
    have hc : Affine.Fails (k0_cond10 i) := Affine.ne_fails hx h0 (by omega)
    exact ⟨fun h => absurd h hc, fun h => absurd h hz⟩

/-! ## The waits on the output rows, and the next chunk's first input block -/

/-- The output row 0 of chunk `t1`, first half of the group's batch rows. -/
theorem k0_off4_eq (i : grid0.Coords) (t1 : Fin k0_t1_loop.trips) :
    k0_off4 i t1 = ![72 * (wid i % 8) + 8 * t1.val + 0, 16 * (wid i / 8), 0] := by
  have ht := t1_lt t1
  exact outRow_eq i t1.val (by omega) (lit_isInt 0 (by omega)) (lit_isInt 0 (by omega)) (by omega) (by omega)

/-- The output row 1 of chunk `t1`, first half of the group's batch rows. -/
theorem k0_off5_eq (i : grid0.Coords) (t1 : Fin k0_t1_loop.trips) :
    k0_off5 i t1 = ![72 * (wid i % 8) + 8 * t1.val + 1, 16 * (wid i / 8), 0] := by
  have ht := t1_lt t1
  exact outRow_eq i t1.val (by omega) (lit_isInt 1 (by omega)) (lit_isInt 0 (by omega)) (by omega) (by omega)

/-- The output row 2 of chunk `t1`, first half of the group's batch rows. -/
theorem k0_off6_eq (i : grid0.Coords) (t1 : Fin k0_t1_loop.trips) :
    k0_off6 i t1 = ![72 * (wid i % 8) + 8 * t1.val + 2, 16 * (wid i / 8), 0] := by
  have ht := t1_lt t1
  exact outRow_eq i t1.val (by omega) (lit_isInt 2 (by omega)) (lit_isInt 0 (by omega)) (by omega) (by omega)

/-- The output row 3 of chunk `t1`, first half of the group's batch rows. -/
theorem k0_off7_eq (i : grid0.Coords) (t1 : Fin k0_t1_loop.trips) :
    k0_off7 i t1 = ![72 * (wid i % 8) + 8 * t1.val + 3, 16 * (wid i / 8), 0] := by
  have ht := t1_lt t1
  exact outRow_eq i t1.val (by omega) (lit_isInt 3 (by omega)) (lit_isInt 0 (by omega)) (by omega) (by omega)

/-- The output row 4 of chunk `t1`, first half of the group's batch rows. -/
theorem k0_off8_eq (i : grid0.Coords) (t1 : Fin k0_t1_loop.trips) :
    k0_off8 i t1 = ![72 * (wid i % 8) + 8 * t1.val + 4, 16 * (wid i / 8), 0] := by
  have ht := t1_lt t1
  exact outRow_eq i t1.val (by omega) (lit_isInt 4 (by omega)) (lit_isInt 0 (by omega)) (by omega) (by omega)

/-- The output row 5 of chunk `t1`, first half of the group's batch rows. -/
theorem k0_off9_eq (i : grid0.Coords) (t1 : Fin k0_t1_loop.trips) :
    k0_off9 i t1 = ![72 * (wid i % 8) + 8 * t1.val + 5, 16 * (wid i / 8), 0] := by
  have ht := t1_lt t1
  exact outRow_eq i t1.val (by omega) (lit_isInt 5 (by omega)) (lit_isInt 0 (by omega)) (by omega) (by omega)

/-- The output row 6 of chunk `t1`, first half of the group's batch rows. -/
theorem k0_off10_eq (i : grid0.Coords) (t1 : Fin k0_t1_loop.trips) :
    k0_off10 i t1 = ![72 * (wid i % 8) + 8 * t1.val + 6, 16 * (wid i / 8), 0] := by
  have ht := t1_lt t1
  exact outRow_eq i t1.val (by omega) (lit_isInt 6 (by omega)) (lit_isInt 0 (by omega)) (by omega) (by omega)

/-- The output row 7 of chunk `t1`, first half of the group's batch rows. -/
theorem k0_off11_eq (i : grid0.Coords) (t1 : Fin k0_t1_loop.trips) :
    k0_off11 i t1 = ![72 * (wid i % 8) + 8 * t1.val + 7, 16 * (wid i / 8), 0] := by
  have ht := t1_lt t1
  exact outRow_eq i t1.val (by omega) (lit_isInt 7 (by omega)) (lit_isInt 0 (by omega)) (by omega) (by omega)

/-- The output row `r` of chunk `t1`, second half of the group's batch rows. -/
theorem k0_off446_eq (i : grid0.Coords) (t1 : Fin k0_t1_loop.trips) (r : Fin 8) :
    k0_off446 i t1 (BitVec.ofNat 32 r.val) = ![72 * (wid i % 8) + 8 * t1.val + r.val, 16 * (wid i / 8) + 8, 0] := by
  have ht := t1_lt t1
  have hr := r.isLt
  exact outRow_eq i t1.val (by omega) (lit_isInt r.val (by omega)) (lit_isInt 8 (by omega)) (by omega) (by omega)

/-- The first input block of chunk `t1 + 1`. -/
theorem k0_off447_eq (i : grid0.Coords) (t1 : Fin k0_t1_loop.trips) :
    k0_off447 i t1 = ![16 * (wid i / 8), 72 * (wid i % 8) + 8 * (t1.val + 1), 0] := by
  have hlt := wid_lt i
  have ht := t1_lt t1
  have c8 : Affine.IsInt 8#32 8 := Affine.ofNat _ (by omega)
  have h1 : Affine.IsInt _ ((t1.val : Int) + 1) :=
    Affine.addi (iv01_isInt t1.val (by omega)) (lit_isInt 1 (by omega)) (by omega)
  have h8 : Affine.IsInt _ (8 * ((t1.val : Int) + 1)) := Affine.muli h1 c8 (by omega)
  have hr : Affine.IsInt _ ((72 * (wid i % 8) + 8 * (t1.val + 1) : Nat) : Int) :=
    Affine.addi (rbaseW_isInt i) h8 (by omega)
  exact inBlk_eq i (lit_isInt 0 (by omega)) hr (by omega)

/-- The output row `r₁` of the last chunk, batch rows from `16 * g + 8 * r₂`. -/
theorem k0_off882_eq (i : grid0.Coords) (r₁ : Fin 8) (r₂ : Fin 2) :
    k0_off882 i (BitVec.ofNat 32 r₁.val) (BitVec.ofNat 32 (8 * r₂.val)) =
      ![72 * (wid i % 8) + 64 + r₁.val, 16 * (wid i / 8) + 8 * r₂.val, 0] := by
  have hlt := wid_lt i
  have hr1 := r₁.isLt
  have hr2 := r₂.isLt
  have h64 : Affine.IsInt _ (72 * ((wid i : Int) % 8) + 64) :=
    Affine.addi (rbaseW_isInt i) (lit_isInt 64 (by omega)) (by omega)
  have h1 : Affine.IsInt _ (72 * ((wid i : Int) % 8) + 64 + (r₁.val : Int)) :=
    Affine.addi h64 (lit_isInt r₁.val (by omega)) (by omega)
  have h2 : Affine.IsInt _ (16 * ((wid i : Int) / 8) + 8 * (r₂.val : Int)) :=
    Affine.addi (b0W_isInt i) (lit_isInt (8 * r₂.val) (by omega)) (by omega)
  exact Affine.vec_cons h1 (by omega) <| Affine.vec_cons h2 (by omega) rfl

end Cert.Kernel.Hand
-- ==== Proof.TileCoverW.lean ====
/-
  One worker's part of the output array, cut into the pieces its copies write.

  Worker w = wid L of group g = w / 8 and index j = w % 8 writes, for each of its nine chunks t1 and each of the
  eight rows t of a chunk, the sequence row 72 j + 8 t1 + t of the positions-first output for the batch rows
  16 g .. 16 g + 7 (one copy) and for the batch rows 16 g + 8 .. 16 g + 15 (another copy): 144 copies of eight batch
  rows by 768 features each. When j = 0 it also writes the class-token row 576 for its sixteen batch rows, in two
  copies of eight. These pieces are pairwise disjoint and together they are exactly the entries the worker owns, so
  the worker's part of the output splits into one points-to per piece, each through the piece's own reference, and
  the pieces join back into the part whatever contents each came back with.
-/
import proofs.«204390_g6468220748199_cont_9to1_m_1136_17_alg».proof.Proof.SetupW
import proofs.«204390_g6468220748199_cont_9to1_m_1136_17_alg».proof.Proof.BodyOpenW
import proofs.«204390_g6468220748199_cont_9to1_m_1136_17_alg».proof.Proof.OffsetsW
import Idealize.ShloMosaic.Rules.PointsTo

noncomputable section

namespace Cert.Kernel.Hand

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The destinations of the worker's copies, as the program slices them -/

/-- Row `t2` of chunk `t1`, the first eight batch rows of the group. -/
abbrev outRow0 (L : grid0.Coords) (t1 : Fin k0_t1_loop.trips) (t2 : Fin k0_t2_loop.trips) :
    Memref sig .scVector .hbm S8x768 .f32 :=
  (oV.slice (Rect.unit (s := S577x64x768) (k0_off445 L t1 t2) S1x8x768.size (k0_off445_inb L t1 t2)) (fun _ => rfl)).squeeze
    S8x768 squeezes_S1x8x768_S8x768

/-- Row `t3` of chunk `t1`, the last eight batch rows of the group. -/
abbrev outRow1 (L : grid0.Coords) (t1 : Fin k0_t1_loop.trips) (t3 : Fin k0_t3_loop.trips) :
    Memref sig .scVector .hbm S8x768 .f32 :=
  (oV.slice (Rect.unit (s := S577x64x768) (k0_off881 L t1 t3) S1x8x768.size (k0_off881_inb L t1 t3)) (fun _ => rfl)).squeeze
    S8x768 squeezes_S1x8x768_S8x768

/-- The class-token row, batch rows `16 g + 8 r .. 16 g + 8 r + 7`; only the first worker of a group has it. -/
abbrev clsRow (L : grid0.Coords) (h : k0_cond10 L = 1#1) (r : Fin 2) : Memref sig .scVector .hbm S8x768 .f32 :=
  (oV.slice (Rect.unit (s := S577x64x768) (k0_off883 L (BitVec.ofNat 32 (8 * r.val))) S1x8x768.size (k0_off883_inb L h r))
    (fun _ => rfl)).squeeze S8x768 squeezes_S1x8x768_S8x768

theorem clsRow_zero (L : grid0.Coords) (h : k0_cond10 L = 1#1) :
    clsRow L h 0 = (oV.slice (Rect.unit (s := S577x64x768) (k0_off883 L 0#32) S1x8x768.size (k0_off883_inb L h 0))
      (fun _ => rfl)).squeeze S8x768 squeezes_S1x8x768_S8x768 := rfl

theorem clsRow_one (L : grid0.Coords) (h : k0_cond10 L = 1#1) :
    clsRow L h 1 = (oV.slice (Rect.unit (s := S577x64x768) (k0_off883 L 8#32) S1x8x768.size (k0_off883_inb L h 1))
      (fun _ => rfl)).squeeze S8x768 squeezes_S1x8x768_S8x768 := rfl

/-! ## The worker number and the trip counts -/

theorem widN_eq_wid (L : grid0.Coords) : widN (L 0).val (L 1).val = wid L := by
  unfold widN wid; omega

theorem trips1 : k0_t1_loop.trips = 9 := by decide
theorem trips2 : k0_t2_loop.trips = 8 := by decide
theorem trips3 : k0_t3_loop.trips = 8 := by decide

/-! ## A piece: one sequence row, eight batch rows, every feature -/

/-- The entries at sequence row `r` and batch rows `b .. b + 7`. -/
def slab (r b : ℕ) : Finset S577x64x768.Idx :=
  Finset.univ.filter fun i => (i 0).val = r ∧ b ≤ (i 1).val ∧ (i 1).val < b + 8

theorem mem_slab (r b : ℕ) (i : S577x64x768.Idx) :
    i ∈ slab r b ↔ (i 0).val = r ∧ b ≤ (i 1).val ∧ (i 1).val < b + 8 := by
  unfold slab; rw [Finset.mem_filter]; exact ⟨fun h => h.2, fun h => ⟨Finset.mem_univ _, h⟩⟩

/-- A rectangle of one sequence row by eight batch rows by all features, from offsets `(r, b, 0)`, is a slab. -/
theorem mem_unit_slab {off : Fin S577x64x768.rank → Nat} {inb : ∀ a, off a + S1x8x768.size a ≤ S577x64x768.size a}
    {r b : ℕ} (ho : off = ![r, b, 0]) (i : S577x64x768.Idx) :
    i ∈ (Rect.unit (s := S577x64x768) off S1x8x768.size inb).set ↔ i ∈ slab r b := by
  subst ho
  rw [Rect.mem_set_unit, mem_slab]
  constructor
  · intro h
    have h0 : r ≤ (i 0).val ∧ (i 0).val < r + 1 := h 0
    have h1 : b ≤ (i 1).val ∧ (i 1).val < b + 8 := h 1
    omega
  · intro h a
    have h2 : (i 2).val < 768 := (i 2).isLt
    match a with
    | 0 => show r ≤ (i 0).val ∧ (i 0).val < r + 1; omega
    | 1 => show b ≤ (i 1).val ∧ (i 1).val < b + 8; omega
    | 2 => show 0 ≤ (i 2).val ∧ (i 2).val < 0 + 768; omega

/-! ## The element sets of the three families -/

theorem set_outRow0 (L : grid0.Coords) (t1 : Fin k0_t1_loop.trips) (t2 : Fin k0_t2_loop.trips) :
    (outRow0 L t1 t2).view.set = slab (72 * (wid L % 8) + 8 * t1.val + t2.val) (16 * (wid L / 8)) := by
  ext i
  show i ∈ (((View.whole (main_v0_scv : Ref sig .scVector)).slice
      (Rect.unit (s := S577x64x768) (k0_off445 L t1 t2) S1x8x768.size (k0_off445_inb L t1 t2))).reshape S8x768
        squeezes_S1x8x768_S8x768.numel_eq).set ↔ _
  rw [View.set_reshape, View.set_slice_whole]
  exact mem_unit_slab (k0_off445_eq L t1 t2) i

theorem set_outRow1 (L : grid0.Coords) (t1 : Fin k0_t1_loop.trips) (t3 : Fin k0_t3_loop.trips) :
    (outRow1 L t1 t3).view.set = slab (72 * (wid L % 8) + 8 * t1.val + t3.val) (16 * (wid L / 8) + 8) := by
  ext i
  show i ∈ (((View.whole (main_v0_scv : Ref sig .scVector)).slice
      (Rect.unit (s := S577x64x768) (k0_off881 L t1 t3) S1x8x768.size (k0_off881_inb L t1 t3))).reshape S8x768
        squeezes_S1x8x768_S8x768.numel_eq).set ↔ _
  rw [View.set_reshape, View.set_slice_whole]
  exact mem_unit_slab (k0_off881_eq L t1 t3) i

theorem set_clsRow (L : grid0.Coords) (h : k0_cond10 L = 1#1) (r : Fin 2) :
    (clsRow L h r).view.set = slab 576 (16 * (wid L / 8) + 8 * r.val) := by
  ext i
  show i ∈ (((View.whole (main_v0_scv : Ref sig .scVector)).slice
      (Rect.unit (s := S577x64x768) (k0_off883 L (BitVec.ofNat 32 (8 * r.val))) S1x8x768.size (k0_off883_inb L h r))).reshape S8x768
        squeezes_S1x8x768_S8x768.numel_eq).set ↔ _
  rw [View.set_reshape, View.set_slice_whole]
  exact mem_unit_slab (k0_off883_eq L r) i

/-- The entries a row copy of the first half writes. -/
theorem mem_outRow0 (L : grid0.Coords) (t1 : Fin k0_t1_loop.trips) (t2 : Fin k0_t2_loop.trips) (i : S577x64x768.Idx) :
    i ∈ (outRow0 L t1 t2).view.set ↔ (i 0).val = 72 * (wid L % 8) + 8 * t1.val + t2.val
      ∧ 16 * (wid L / 8) ≤ (i 1).val ∧ (i 1).val < 16 * (wid L / 8) + 8 := by
  rw [set_outRow0, mem_slab]

/-- The entries a row copy of the second half writes. -/
theorem mem_outRow1 (L : grid0.Coords) (t1 : Fin k0_t1_loop.trips) (t3 : Fin k0_t3_loop.trips) (i : S577x64x768.Idx) :
    i ∈ (outRow1 L t1 t3).view.set ↔ (i 0).val = 72 * (wid L % 8) + 8 * t1.val + t3.val
      ∧ 16 * (wid L / 8) + 8 ≤ (i 1).val ∧ (i 1).val < 16 * (wid L / 8) + 8 + 8 := by
  rw [set_outRow1, mem_slab]

/-- The entries a class-row copy writes. -/
theorem mem_clsRow (L : grid0.Coords) (h : k0_cond10 L = 1#1) (r : Fin 2) (i : S577x64x768.Idx) :
    i ∈ (clsRow L h r).view.set ↔ (i 0).val = 576
      ∧ 16 * (wid L / 8) + 8 * r.val ≤ (i 1).val ∧ (i 1).val < 16 * (wid L / 8) + 8 * r.val + 8 := by
  rw [set_clsRow, mem_slab]

/-! ## The pieces are pairwise disjoint and cover the worker's part -/

theorem slab_disjoint {r b r' b' : ℕ} (h : r ≠ r' ∨ b + 8 ≤ b' ∨ b' + 8 ≤ b) : Disjoint (slab r b) (slab r' b') := by
  rw [Finset.disjoint_left]
  intro i hi hi'
  rw [mem_slab] at hi hi'
  omega

/-- The row copies: a chunk and a row of it, for the first or for the last eight batch rows. -/
abbrev RowPiece : Type :=
  (Fin k0_t1_loop.trips × Fin k0_t2_loop.trips) ⊕ (Fin k0_t1_loop.trips × Fin k0_t3_loop.trips)

/-- All the copies of the first worker of a group: its row copies and the two class-row copies. -/
abbrev Piece : Type := RowPiece ⊕ Fin 2

/-- The entries a row copy writes. -/
def rowK (L : grid0.Coords) : RowPiece → Finset S577x64x768.Idx
  | .inl p => (outRow0 L p.1 p.2).view.set
  | .inr p => (outRow1 L p.1 p.2).view.set

/-- The entries a copy writes. -/
def pieceK (L : grid0.Coords) (h : k0_cond10 L = 1#1) : Piece → Finset S577x64x768.Idx
  | .inl p => rowK L p
  | .inr r => (clsRow L h r).view.set

/-- A row copy writes a slab of a sequence row below the class-token row. -/
theorem rowK_slab (L : grid0.Coords) (p : RowPiece) : ∃ r b, rowK L p = slab r b ∧ r < 576 := by
  have hw := wid_lt L
  rcases p with ⟨t1, t2⟩ | ⟨t1, t3⟩
  · have h1 := t1_lt t1
    have h2 := t2_lt t2
    exact ⟨_, _, set_outRow0 L t1 t2, by omega⟩
  · have h1 := t1_lt t1
    have h3 := t3_lt t3
    exact ⟨_, _, set_outRow1 L t1 t3, by omega⟩

theorem rows_disjoint (L : grid0.Coords) :
    ∀ p ∈ (Finset.univ : Finset RowPiece), ∀ p' ∈ (Finset.univ : Finset RowPiece), p ≠ p' → Disjoint (rowK L p) (rowK L p') := by
  intro p _ p' _ hne
  rcases p with ⟨t1, t2⟩ | ⟨t1, t3⟩ <;> rcases p' with ⟨u1, u2⟩ | ⟨u1, u3⟩
  · -- two rows of the first half: different chunk or different row of the chunk
    show Disjoint (outRow0 L t1 t2).view.set (outRow0 L u1 u2).view.set
    rw [set_outRow0, set_outRow0]
    have hd : ¬(t1.val = u1.val ∧ t2.val = u2.val) := fun ⟨e1, e2⟩ => hne (by rw [Fin.ext e1, Fin.ext e2])
    have h2 := t2_lt t2
    have h2' := t2_lt u2
    exact slab_disjoint (by omega)
  · -- first half against second half: the batch rows differ
    show Disjoint (outRow0 L t1 t2).view.set (outRow1 L u1 u3).view.set
    rw [set_outRow0, set_outRow1]
    exact slab_disjoint (by omega)
  · show Disjoint (outRow1 L t1 t3).view.set (outRow0 L u1 u2).view.set
    rw [set_outRow1, set_outRow0]
    exact slab_disjoint (by omega)
  · show Disjoint (outRow1 L t1 t3).view.set (outRow1 L u1 u3).view.set
    rw [set_outRow1, set_outRow1]
    have hd : ¬(t1.val = u1.val ∧ t3.val = u3.val) := fun ⟨e1, e2⟩ => hne (by rw [Fin.ext e1, Fin.ext e2])
    have h3 := t3_lt t3
    have h3' := t3_lt u3
    exact slab_disjoint (by omega)

theorem pieces_disjoint (L : grid0.Coords) (h : k0_cond10 L = 1#1) :
    ∀ p ∈ (Finset.univ : Finset Piece), ∀ p' ∈ (Finset.univ : Finset Piece), p ≠ p' → Disjoint (pieceK L h p) (pieceK L h p') := by
  intro p _ p' _ hne
  rcases p with p | r <;> rcases p' with p' | r'
  · exact rows_disjoint L p (Finset.mem_univ _) p' (Finset.mem_univ _) fun e => hne (by rw [e])
  · -- a row below 576 against the class-token row
    obtain ⟨x, b, e, hx⟩ := rowK_slab L p
    show Disjoint (rowK L p) (clsRow L h r').view.set
    rw [e, set_clsRow]
    exact slab_disjoint (by omega)
  · obtain ⟨x, b, e, hx⟩ := rowK_slab L p'
    show Disjoint (clsRow L h r).view.set (rowK L p')
    rw [e, set_clsRow]
    exact slab_disjoint (by omega)
  · -- the two class-row copies: different batch rows
    show Disjoint (clsRow L h r).view.set (clsRow L h r').view.set
    rw [set_clsRow, set_clsRow]
    have hd : r.val ≠ r'.val := fun e => hne (by rw [Fin.ext e])
    exact slab_disjoint (by omega)

/-- The row copies together: the worker's sixteen batch rows at its seventy-two sequence rows. -/
theorem mem_rows_iff (L : grid0.Coords) (i : S577x64x768.Idx) :
    (∃ p, i ∈ rowK L p) ↔ (i 1).val / 16 = wid L / 8 ∧ (i 0).val < 576 ∧ (i 0).val / 72 = wid L % 8 := by
  have hw := wid_lt L
  constructor
  · rintro ⟨⟨t1, t2⟩ | ⟨t1, t3⟩, hp⟩
    · have hp' := (mem_outRow0 L t1 t2 i).mp hp
      have h1 := t1_lt t1
      have h2 := t2_lt t2
      omega
    · have hp' := (mem_outRow1 L t1 t3 i).mp hp
      have h1 := t1_lt t1
      have h3 := t3_lt t3
      omega
  · intro hi
    -- the row's place in the worker's seventy-two: chunk o / 8, row o % 8 of the chunk
    have ho1 : ((i 0).val - 72 * (wid L % 8)) / 8 < k0_t1_loop.trips := by rw [trips1]; omega
    by_cases hb : (i 1).val < 16 * (wid L / 8) + 8
    · have ho2 : ((i 0).val - 72 * (wid L % 8)) % 8 < k0_t2_loop.trips := by rw [trips2]; omega
      refine ⟨.inl (⟨_, ho1⟩, ⟨_, ho2⟩), (mem_outRow0 L _ _ i).mpr ?_⟩
      dsimp only
      omega
    · have ho3 : ((i 0).val - 72 * (wid L % 8)) % 8 < k0_t3_loop.trips := by rw [trips3]; omega
      refine ⟨.inr (⟨_, ho1⟩, ⟨_, ho3⟩), (mem_outRow1 L _ _ i).mpr ?_⟩
      dsimp only
      omega

/-- The class-row copies together: the worker's sixteen batch rows at the class-token row. -/
theorem mem_cls_iff (L : grid0.Coords) (h : k0_cond10 L = 1#1) (i : S577x64x768.Idx) :
    (∃ r, i ∈ (clsRow L h r).view.set) ↔ (i 0).val = 576 ∧ (i 1).val / 16 = wid L / 8 := by
  constructor
  · rintro ⟨r, hr⟩
    have hr' := (mem_clsRow L h r i).mp hr
    have h2 := r.isLt
    omega
  · intro hi
    by_cases hb : (i 1).val < 16 * (wid L / 8) + 8
    · refine ⟨⟨0, by omega⟩, (mem_clsRow L h _ i).mpr ?_⟩
      dsimp only
      omega
    · refine ⟨⟨1, by omega⟩, (mem_clsRow L h _ i).mpr ?_⟩
      dsimp only
      omega

/-- A worker that is not the first of its group: its row copies write exactly its part. -/
theorem rows_cover (L : grid0.Coords) (hn : ¬k0_cond10 L = 1#1) :
    (Finset.univ : Finset RowPiece).biUnion (rowK L) = tileSet (wid L) := by
  have hj : wid L % 8 ≠ 0 := fun e => hn ((k0_cond10_iff L).mpr e)
  ext i
  rw [Finset.mem_biUnion, mem_tileSet]
  have e : (∃ p ∈ (Finset.univ : Finset RowPiece), i ∈ rowK L p) ↔ ∃ p, i ∈ rowK L p :=
    ⟨fun ⟨p, _, hp⟩ => ⟨p, hp⟩, fun ⟨p, hp⟩ => ⟨p, Finset.mem_univ _, hp⟩⟩
  rw [e, mem_rows_iff]
  omega

/-- The first worker of a group: its row copies and its class-row copies write exactly its part. -/
theorem pieces_cover (L : grid0.Coords) (h : k0_cond10 L = 1#1) :
    (Finset.univ : Finset Piece).biUnion (pieceK L h) = tileSet (wid L) := by
  have hj : wid L % 8 = 0 := (k0_cond10_iff L).mp h
  ext i
  rw [Finset.mem_biUnion, mem_tileSet]
  have e : (∃ p ∈ (Finset.univ : Finset Piece), i ∈ pieceK L h p)
      ↔ (∃ p, i ∈ rowK L p) ∨ ∃ r, i ∈ (clsRow L h r).view.set :=
    ⟨fun ⟨p, _, hp⟩ => by
        rcases p with p | r
        · exact .inl ⟨p, hp⟩
        · exact .inr ⟨r, hp⟩,
      fun hp => by
        rcases hp with ⟨p, hp⟩ | ⟨r, hr⟩
        · exact ⟨.inl p, Finset.mem_univ _, hp⟩
        · exact ⟨.inr r, Finset.mem_univ _, hr⟩⟩
  rw [e, mem_rows_iff, mem_cls_iff]
  omega

/-! ## The worker's part of the output, piece by piece -/

theorem sep_assoc_eq (P Q R : sProp 𝕄) : (iprop((P ∗ Q) ∗ R) : sProp 𝕄) = iprop(P ∗ Q ∗ R) :=
  BI.equiv_iff.mp ⟨(sep_assoc (PROP := sProp 𝕄)).1, (sep_assoc (PROP := sProp 𝕄)).2⟩

/-- A product over all the copies, regrouped by family. -/
theorem bigSep_pieces (Φ : Piece → sProp 𝕄) :
    bigSep Finset.univ Φ =
      iprop((bigSep Finset.univ fun p : Fin k0_t1_loop.trips × Fin k0_t2_loop.trips => Φ (.inl (.inl p)))
        ∗ (bigSep Finset.univ fun p : Fin k0_t1_loop.trips × Fin k0_t3_loop.trips => Φ (.inl (.inr p)))
        ∗ (bigSep Finset.univ fun r : Fin 2 => Φ (.inr r))) := by
  rw [bigSep_univ_sum, bigSep_univ_sum]
  exact sep_assoc_eq _ _ _

/-- A product over the row copies, regrouped by half. -/
theorem bigSep_rowPieces (Φ : RowPiece → sProp 𝕄) :
    bigSep Finset.univ Φ =
      iprop((bigSep Finset.univ fun p : Fin k0_t1_loop.trips × Fin k0_t2_loop.trips => Φ (.inl p))
        ∗ (bigSep Finset.univ fun p : Fin k0_t1_loop.trips × Fin k0_t3_loop.trips => Φ (.inr p))) := bigSep_univ_sum Φ

variable (d : Dev nD) (L : grid0.Coords)

/-- A piece held through its own reference is that piece of the output array. -/
theorem pts_outRow0 (p : Fin k0_t1_loop.trips × Fin k0_t2_loop.trips) (f : Buf (Elt F) (oLoc d)) :
    ((outRow0 L p.1 p.2).view.loc (thr d L) ↦[(outRow0 L p.1 p.2).view.set]{fullShare} f : sProp 𝕄)
      = oLoc d ↦[rowK L (.inl p)]{fullShare} f := rfl
theorem pts_outRow1 (p : Fin k0_t1_loop.trips × Fin k0_t3_loop.trips) (f : Buf (Elt F) (oLoc d)) :
    ((outRow1 L p.1 p.2).view.loc (thr d L) ↦[(outRow1 L p.1 p.2).view.set]{fullShare} f : sProp 𝕄)
      = oLoc d ↦[rowK L (.inr p)]{fullShare} f := rfl
theorem pts_clsRow (h : k0_cond10 L = 1#1) (r : Fin 2) (f : Buf (Elt F) (oLoc d)) :
    ((clsRow L h r).view.loc (thr d L) ↦[(clsRow L h r).view.set]{fullShare} f : sProp 𝕄)
      = oLoc d ↦[pieceK L h (.inr r)]{fullShare} f := rfl

/-- The first worker of a group: its part of the output at contents `f` is its 144 row pieces and its two class-row
    pieces, each held through its own reference at `f`. The products run over pairs (chunk, row of the chunk). -/
theorem tileOut_split_cls (h : k0_cond10 L = 1#1) (f : Buf (Elt F) (oLoc d)) :
    (oLoc d ↦[tileSet (wid L)]{fullShare} f : sProp 𝕄) =
      iprop((bigSep Finset.univ fun p : Fin k0_t1_loop.trips × Fin k0_t2_loop.trips =>
          (outRow0 L p.1 p.2).view.loc (thr d L) ↦[(outRow0 L p.1 p.2).view.set]{fullShare} f)
        ∗ (bigSep Finset.univ fun p : Fin k0_t1_loop.trips × Fin k0_t3_loop.trips =>
          (outRow1 L p.1 p.2).view.loc (thr d L) ↦[(outRow1 L p.1 p.2).view.set]{fullShare} f)
        ∗ (bigSep Finset.univ fun r : Fin 2 =>
          (clsRow L h r).view.loc (thr d L) ↦[(clsRow L h r).view.set]{fullShare} f)) := by
  rw [← pieces_cover L h, pointsTo_biUnion Finset.univ (ℓ := oLoc d) (pieceK L h) (pieces_disjoint L h), bigSep_pieces]
  exact congrArg₂ _ (bigSep_congr fun _ _ => rfl) (congrArg₂ _ (bigSep_congr fun _ _ => rfl) (bigSep_congr fun _ _ => rfl))

/-- Any other worker: its part of the output at contents `f` is its 144 row pieces. -/
theorem tileOut_split_rows (hn : ¬k0_cond10 L = 1#1) (f : Buf (Elt F) (oLoc d)) :
    (oLoc d ↦[tileSet (wid L)]{fullShare} f : sProp 𝕄) =
      iprop((bigSep Finset.univ fun p : Fin k0_t1_loop.trips × Fin k0_t2_loop.trips =>
          (outRow0 L p.1 p.2).view.loc (thr d L) ↦[(outRow0 L p.1 p.2).view.set]{fullShare} f)
        ∗ (bigSep Finset.univ fun p : Fin k0_t1_loop.trips × Fin k0_t3_loop.trips =>
          (outRow1 L p.1 p.2).view.loc (thr d L) ↦[(outRow1 L p.1 p.2).view.set]{fullShare} f)) := by
  rw [← rows_cover L hn, pointsTo_biUnion Finset.univ (ℓ := oLoc d) (rowK L) (rows_disjoint L), bigSep_rowPieces]
  exact congrArg₂ _ (bigSep_congr fun _ _ => rfl) (bigSep_congr fun _ _ => rfl)

/-- The first worker of a group: its pieces, each come back at contents of its own, are its part of the output at
    one contents that agrees with each piece's on that piece. -/
theorem tileOut_join_cls (h : k0_cond10 L = 1#1) (fs0 : Fin k0_t1_loop.trips × Fin k0_t2_loop.trips → Buf (Elt F) (oLoc d))
    (fs1 : Fin k0_t1_loop.trips × Fin k0_t3_loop.trips → Buf (Elt F) (oLoc d)) (fs2 : Fin 2 → Buf (Elt F) (oLoc d)) :
    (iprop((bigSep Finset.univ fun p : Fin k0_t1_loop.trips × Fin k0_t2_loop.trips =>
          (outRow0 L p.1 p.2).view.loc (thr d L) ↦[(outRow0 L p.1 p.2).view.set]{fullShare} (fs0 p))
        ∗ (bigSep Finset.univ fun p : Fin k0_t1_loop.trips × Fin k0_t3_loop.trips =>
          (outRow1 L p.1 p.2).view.loc (thr d L) ↦[(outRow1 L p.1 p.2).view.set]{fullShare} (fs1 p))
        ∗ (bigSep Finset.univ fun r : Fin 2 =>
          (clsRow L h r).view.loc (thr d L) ↦[(clsRow L h r).view.set]{fullShare} (fs2 r))) : sProp 𝕄)
      ⊢ iprop(∃ g : Buf (Elt F) (oLoc d),
          ⌜(∀ p : Fin k0_t1_loop.trips × Fin k0_t2_loop.trips, ∀ i : S577x64x768.Idx, i ∈ (outRow0 L p.1 p.2).view.set → g i = fs0 p i)
            ∧ (∀ p : Fin k0_t1_loop.trips × Fin k0_t3_loop.trips, ∀ i : S577x64x768.Idx, i ∈ (outRow1 L p.1 p.2).view.set → g i = fs1 p i)
            ∧ (∀ r : Fin 2, ∀ i : S577x64x768.Idx, i ∈ (clsRow L h r).view.set → g i = fs2 r i)⌝
          ∗ oLoc d ↦[tileSet (wid L)]{fullShare} g) := by
  have e : (bigSep Finset.univ fun t : Piece =>
        (oLoc d ↦[pieceK L h t]{fullShare} (Sum.elim (Sum.elim fs0 fs1) fs2 t) : sProp 𝕄)) =
      iprop((bigSep Finset.univ fun p : Fin k0_t1_loop.trips × Fin k0_t2_loop.trips =>
          (outRow0 L p.1 p.2).view.loc (thr d L) ↦[(outRow0 L p.1 p.2).view.set]{fullShare} (fs0 p))
        ∗ (bigSep Finset.univ fun p : Fin k0_t1_loop.trips × Fin k0_t3_loop.trips =>
          (outRow1 L p.1 p.2).view.loc (thr d L) ↦[(outRow1 L p.1 p.2).view.set]{fullShare} (fs1 p))
        ∗ (bigSep Finset.univ fun r : Fin 2 =>
          (clsRow L h r).view.loc (thr d L) ↦[(clsRow L h r).view.set]{fullShare} (fs2 r))) := by
    rw [bigSep_pieces]
    exact congrArg₂ _ (bigSep_congr fun _ _ => rfl) (congrArg₂ _ (bigSep_congr fun _ _ => rfl) (bigSep_congr fun _ _ => rfl))
  refine (Entails.of_eq e.symm).trans ?_
  refine (pointsTo_biUnion_join (ℓ := oLoc d) (q := fullShare) Finset.univ (pieceK L h) (Sum.elim (Sum.elim fs0 fs1) fs2) (fs2 0)
    (pieces_disjoint L h)).trans ?_
  rw [pieces_cover L h]
  iintro ⟨%g, %hg, Hg⟩
  iexists g
  isplitr
  · ipureintro
    exact ⟨fun p i hi => hg (.inl (.inl p)) (Finset.mem_univ _) i hi,
      fun p i hi => hg (.inl (.inr p)) (Finset.mem_univ _) i hi,
      fun r i hi => hg (.inr r) (Finset.mem_univ _) i hi⟩
  · iexact Hg

/-- Any other worker: the same with its row pieces only. (`f₀` is any contents; it matters only off the worker's part.) -/
theorem tileOut_join_rows (hn : ¬k0_cond10 L = 1#1) (fs0 : Fin k0_t1_loop.trips × Fin k0_t2_loop.trips → Buf (Elt F) (oLoc d))
    (fs1 : Fin k0_t1_loop.trips × Fin k0_t3_loop.trips → Buf (Elt F) (oLoc d)) (f₀ : Buf (Elt F) (oLoc d)) :
    (iprop((bigSep Finset.univ fun p : Fin k0_t1_loop.trips × Fin k0_t2_loop.trips =>
          (outRow0 L p.1 p.2).view.loc (thr d L) ↦[(outRow0 L p.1 p.2).view.set]{fullShare} (fs0 p))
        ∗ (bigSep Finset.univ fun p : Fin k0_t1_loop.trips × Fin k0_t3_loop.trips =>
          (outRow1 L p.1 p.2).view.loc (thr d L) ↦[(outRow1 L p.1 p.2).view.set]{fullShare} (fs1 p))) : sProp 𝕄)
      ⊢ iprop(∃ g : Buf (Elt F) (oLoc d),
          ⌜(∀ p : Fin k0_t1_loop.trips × Fin k0_t2_loop.trips, ∀ i : S577x64x768.Idx, i ∈ (outRow0 L p.1 p.2).view.set → g i = fs0 p i)
            ∧ (∀ p : Fin k0_t1_loop.trips × Fin k0_t3_loop.trips, ∀ i : S577x64x768.Idx, i ∈ (outRow1 L p.1 p.2).view.set → g i = fs1 p i)⌝
          ∗ oLoc d ↦[tileSet (wid L)]{fullShare} g) := by
  have e : (bigSep Finset.univ fun t : RowPiece =>
        (oLoc d ↦[rowK L t]{fullShare} (Sum.elim fs0 fs1 t) : sProp 𝕄)) =
      iprop((bigSep Finset.univ fun p : Fin k0_t1_loop.trips × Fin k0_t2_loop.trips =>
          (outRow0 L p.1 p.2).view.loc (thr d L) ↦[(outRow0 L p.1 p.2).view.set]{fullShare} (fs0 p))
        ∗ (bigSep Finset.univ fun p : Fin k0_t1_loop.trips × Fin k0_t3_loop.trips =>
          (outRow1 L p.1 p.2).view.loc (thr d L) ↦[(outRow1 L p.1 p.2).view.set]{fullShare} (fs1 p))) := by
    rw [bigSep_rowPieces]
    exact congrArg₂ _ (bigSep_congr fun _ _ => rfl) (bigSep_congr fun _ _ => rfl)
  refine (Entails.of_eq e.symm).trans ?_
  refine (pointsTo_biUnion_join (ℓ := oLoc d) (q := fullShare) Finset.univ (rowK L) (Sum.elim fs0 fs1) f₀ (rows_disjoint L)).trans ?_
  rw [rows_cover L hn]
  iintro ⟨%g, %hg, Hg⟩
  iexists g
  isplitr
  · ipureintro
    exact ⟨fun p i hi => hg (.inl p) (Finset.mem_univ _) i hi, fun p i hi => hg (.inr p) (Finset.mem_univ _) i hi⟩
  · iexact Hg

end Cert.Kernel.Hand

end
-- ==== Proof.RowSpecW.lean ====
/-
  One trip of a row loop, as a statement.

  A row trip works on position row r of one staging slot: for each of the eight batch rows and each of the 48 lane
  groups it adds the chunk's position row r to the slot's entry, and then starts the copy of the slot's row r (eight
  batch rows by 768 features) to row (72 j + 8 chunk + r) of the positions-first output, for the worker's eight
  batches of that half. Afterwards the slot's row r holds, entry by entry, what it held before plus the position
  row's entry (`rowSum`); the copy's delivery is recorded on the slot's outgoing semaphore as: the output row
  overwritten with the slot's row, and the slot's row back. The position rows are only read.
-/
import proofs.«204390_g6468220748199_cont_9to1_m_1136_17_alg».proof.Proof.SlotGeomW
import proofs.«204390_g6468220748199_cont_9to1_m_1136_17_alg».proof.Proof.TileCoverW
import proofs.«204390_g6468220748199_cont_9to1_m_1136_17_alg».proof.Proof.Gen.Kernel.Skeleton
import Idealize.ShloMosaic.Lib.Batch

noncomputable section

namespace Cert.Kernel.Hand

open Cert.Kernel Cert.Kernel.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (L : grid0.Coords)

/-- A chunk, a row of the first loop, a row of the second loop, by number. -/
def t1of (k : Fin 9) : Fin k0_t1_loop.trips := ⟨k.val, by rw [trips1]; exact k.isLt⟩
def t2of (j : Fin 8) : Fin k0_t2_loop.trips := ⟨j.val, by rw [trips2]; exact j.isLt⟩
def t3of (j : Fin 8) : Fin k0_t3_loop.trips := ⟨j.val, by rw [trips3]; exact j.isLt⟩

/-- The credit of one row copy: eight batch rows of 768 features of 32 bits. -/
abbrev Nrow : ℕ := 196608

/-- Position row `r` of slot `pb` after its trip: each entry of that row plus the position row's entry of the same
    feature; everything else as before. -/
def rowSum (pb : ℕ) (r : Fin 8) (f : Buf (Elt F) ((thr d L).loc cc0_scratch1)) (g : Buf (Elt F) ((thr d L).loc cc0_scratch0)) :
    Buf (Elt F) ((thr d L).loc cc0_scratch1) :=
  fun i => if (i 0).val = pb ∧ (i 2).val = r.val then
      FloatOps.addf (f i) (g (ix2 (n0 := 8) (n1 := 768) ⟨(i 2).val, (i 2).isLt⟩ ⟨(i 3).val, (i 3).isLt⟩))
    else f i

/-- What the copy of slot 0's row `t2` delivers when it has landed: the output row overwritten with the slot's row,
    and the slot's row back, at contents `fs`. -/
abbrev deliv0 (t1 : Fin k0_t1_loop.trips) (t2 : Fin k0_t2_loop.trips) (fo : Buf (Elt F) (oLoc d))
    (fs : Buf (Elt F) ((thr d L).loc cc0_scratch1)) : sProp 𝕄 :=
  iprop(((outRow0 L t1 t2).view.loc (thr d L) ↦[(outRow0 L t1 t2).view.set]{fullShare}
        (outRow0 L t1 t2).view.write (Elt F) fo
          (ReadAs.same.apply ((rowWin 0 ⟨t2.val, t2_lt t2⟩ Nat.zero_lt_two).view.read (Elt F) fs)) Finset.univ)
    ∗ ((rowWin 0 ⟨t2.val, t2_lt t2⟩ Nat.zero_lt_two).view.loc (thr d L) ↦[(rowWin 0 ⟨t2.val, t2_lt t2⟩ Nat.zero_lt_two).view.set]{fullShare} fs))

/-- The same for slot 1's row `t3`. -/
abbrev deliv1 (t1 : Fin k0_t1_loop.trips) (t3 : Fin k0_t3_loop.trips) (fo : Buf (Elt F) (oLoc d))
    (fs : Buf (Elt F) ((thr d L).loc cc0_scratch1)) : sProp 𝕄 :=
  iprop(((outRow1 L t1 t3).view.loc (thr d L) ↦[(outRow1 L t1 t3).view.set]{fullShare}
        (outRow1 L t1 t3).view.write (Elt F) fo
          (ReadAs.same.apply ((rowWin 1 ⟨t3.val, t3_lt t3⟩ Nat.one_lt_two).view.read (Elt F) fs)) Finset.univ)
    ∗ ((rowWin 1 ⟨t3.val, t3_lt t3⟩ Nat.one_lt_two).view.loc (thr d L) ↦[(rowWin 1 ⟨t3.val, t3_lt t3⟩ Nat.one_lt_two).view.set]{fullShare} fs))

/-- One trip of the first row loop (slot 0, first batch half), with the slot's row named afterwards. -/
def RowTrip0 : Prop :=
  ∀ (t1 : Fin k0_t1_loop.trips) (t2 : Fin k0_t2_loop.trips) (v29 v30 a10 v276 c0 : BitVec 32)
    (O : CellTallies nD τ sig (HIx 1)) (W : Waits sig (HIx 1))
    (f : Buf (Elt F) ((thr d L).loc cc0_scratch1)) (g : Buf (Elt F) ((thr d L).loc cc0_scratch0)) (fo : Buf (Elt F) (oLoc d))
    (Ds : List (sProp 𝕄)) (u : ℕ), Ds.length < 8 → u ≤ Ds.length * Nrow →
    iprop(□ Transfers.MayWaits (thr d L) (none : HIx 1) O
        ∗ ((rowWin 0 ⟨t2.val, t2_lt t2⟩ Nat.zero_lt_two).view.loc (thr d L) ↦[(rowWin 0 ⟨t2.val, t2_lt t2⟩ Nat.zero_lt_two).view.set]{fullShare} f)
        ∗ ((posV : Memref sig .scVector .vmem S8x768 .f32).view.loc (thr d L) ↦{fullShare} g)
        ∗ ((outRow0 L t1 t2).view.loc (thr d L) ↦[(outRow0 L t1 t2).view.set]{fullShare} fo)
        ∗ Transfers.Batched (countersEmb (U := UU)) (thr d L) (SemLoc.dma (sig := sig) (2 : Fin 9)) (default : HIx 1) Nrow 8 Ds u
        ∗ owes (thr d L) O W)
      ⊢ wp frame (wpE (defs₀ (F := F)) 𝒱₀ (thr d L) none) Set.univ
          (k0_t2_body L xV (Memref.isWhole_whole _) pV (Memref.isWhole_whole _) tV (Memref.isWhole_whole _) oV (Memref.isWhole_whole _)
            posV (Memref.isWhole_whole _) slotV (Memref.isWhole_whole _) cc0_scratch2 cc0_scratch3 cc0_scoped0 cc0_scoped1 cc0_scoped2 cc0_scoped3 cc0_scoped4
            v29 v30 t1 a10 v276 c0 t2 ())
          fun _ => iprop(((posV : Memref sig .scVector .vmem S8x768 .f32).view.loc (thr d L) ↦{fullShare} g)
            ∗ Transfers.Batched (countersEmb (U := UU)) (thr d L) (SemLoc.dma (sig := sig) (2 : Fin 9)) (default : HIx 1) Nrow 8
                (Ds ++ [deliv0 d L t1 t2 fo (rowSum d L 0 ⟨t2.val, t2_lt t2⟩ f g)]) u
            ∗ owes (thr d L) O W)

/-- One trip of the second row loop (slot 1, second batch half). -/
def RowTrip1 : Prop :=
  ∀ (t1 : Fin k0_t1_loop.trips) (t3 : Fin k0_t3_loop.trips) (v29 v30 a10 : BitVec 32)
    (O : CellTallies nD τ sig (HIx 1)) (W : Waits sig (HIx 1))
    (f : Buf (Elt F) ((thr d L).loc cc0_scratch1)) (g : Buf (Elt F) ((thr d L).loc cc0_scratch0)) (fo : Buf (Elt F) (oLoc d))
    (Ds : List (sProp 𝕄)) (u : ℕ), Ds.length < 8 → u ≤ Ds.length * Nrow →
    iprop(□ Transfers.MayWaits (thr d L) (none : HIx 1) O
        ∗ ((rowWin 1 ⟨t3.val, t3_lt t3⟩ Nat.one_lt_two).view.loc (thr d L) ↦[(rowWin 1 ⟨t3.val, t3_lt t3⟩ Nat.one_lt_two).view.set]{fullShare} f)
        ∗ ((posV : Memref sig .scVector .vmem S8x768 .f32).view.loc (thr d L) ↦{fullShare} g)
        ∗ ((outRow1 L t1 t3).view.loc (thr d L) ↦[(outRow1 L t1 t3).view.set]{fullShare} fo)
        ∗ Transfers.Batched (countersEmb (U := UU)) (thr d L) (SemLoc.dma (sig := sig) (3 : Fin 9)) (default : HIx 1) Nrow 8 Ds u
        ∗ owes (thr d L) O W)
      ⊢ wp frame (wpE (defs₀ (F := F)) 𝒱₀ (thr d L) none) Set.univ
          (k0_t3_body L xV (Memref.isWhole_whole _) pV (Memref.isWhole_whole _) tV (Memref.isWhole_whole _) oV (Memref.isWhole_whole _)
            posV (Memref.isWhole_whole _) slotV (Memref.isWhole_whole _) cc0_scratch2 cc0_scratch3 cc0_scoped0 cc0_scoped1 cc0_scoped2 cc0_scoped3 cc0_scoped4
            v29 v30 t1 a10 t3 ())
          fun _ => iprop(((posV : Memref sig .scVector .vmem S8x768 .f32).view.loc (thr d L) ↦{fullShare} g)
            ∗ Transfers.Batched (countersEmb (U := UU)) (thr d L) (SemLoc.dma (sig := sig) (3 : Fin 9)) (default : HIx 1) Nrow 8
                (Ds ++ [deliv1 d L t1 t3 fo (rowSum d L 1 ⟨t3.val, t3_lt t3⟩ f g)]) u
            ∗ owes (thr d L) O W)

/-- One trip of the first row loop, without naming what the slot's row holds afterwards: enough for the program to run on. -/
def RowTrip0F : Prop :=
  ∀ (t1 : Fin k0_t1_loop.trips) (t2 : Fin k0_t2_loop.trips) (v29 v30 a10 v276 c0 : BitVec 32)
    (O : CellTallies nD τ sig (HIx 1)) (W : Waits sig (HIx 1))
    (f : Buf (Elt F) ((thr d L).loc cc0_scratch1)) (g : Buf (Elt F) ((thr d L).loc cc0_scratch0)) (fo : Buf (Elt F) (oLoc d))
    (Ds : List (sProp 𝕄)) (u : ℕ), Ds.length < 8 → u ≤ Ds.length * Nrow →
    iprop(□ Transfers.MayWaits (thr d L) (none : HIx 1) O
        ∗ ((rowWin 0 ⟨t2.val, t2_lt t2⟩ Nat.zero_lt_two).view.loc (thr d L) ↦[(rowWin 0 ⟨t2.val, t2_lt t2⟩ Nat.zero_lt_two).view.set]{fullShare} f)
        ∗ ((posV : Memref sig .scVector .vmem S8x768 .f32).view.loc (thr d L) ↦{fullShare} g)
        ∗ ((outRow0 L t1 t2).view.loc (thr d L) ↦[(outRow0 L t1 t2).view.set]{fullShare} fo)
        ∗ Transfers.Batched (countersEmb (U := UU)) (thr d L) (SemLoc.dma (sig := sig) (2 : Fin 9)) (default : HIx 1) Nrow 8 Ds u
        ∗ owes (thr d L) O W)
      ⊢ wp frame (wpE (defs₀ (F := F)) 𝒱₀ (thr d L) none) Set.univ
          (k0_t2_body L xV (Memref.isWhole_whole _) pV (Memref.isWhole_whole _) tV (Memref.isWhole_whole _) oV (Memref.isWhole_whole _)
            posV (Memref.isWhole_whole _) slotV (Memref.isWhole_whole _) cc0_scratch2 cc0_scratch3 cc0_scoped0 cc0_scoped1 cc0_scoped2 cc0_scoped3 cc0_scoped4
            v29 v30 t1 a10 v276 c0 t2 ())
          fun _ => iprop(∃ fs : Buf (Elt F) ((thr d L).loc cc0_scratch1),
            ((posV : Memref sig .scVector .vmem S8x768 .f32).view.loc (thr d L) ↦{fullShare} g)
            ∗ Transfers.Batched (countersEmb (U := UU)) (thr d L) (SemLoc.dma (sig := sig) (2 : Fin 9)) (default : HIx 1) Nrow 8
                (Ds ++ [deliv0 d L t1 t2 fo fs]) u
            ∗ owes (thr d L) O W)

/-- Naming the row gives the unnamed form. -/
theorem RowTrip0.toF (h : RowTrip0 (F := F) d L) : RowTrip0F (F := F) d L := by
  intro t1 t2 v29 v30 a10 v276 c0 O W f g fo Ds u hj hu
  refine (h t1 t2 v29 v30 a10 v276 c0 O W f g fo Ds u hj hu).trans (wp_mono frame _ _ fun _ => ?_)
  iintro H
  iexists (rowSum d L 0 ⟨t2.val, t2_lt t2⟩ f g)
  iexact H

/-- One trip of the second row loop, without naming what the slot's row holds afterwards: enough for the program to run on. -/
def RowTrip1F : Prop :=
  ∀ (t1 : Fin k0_t1_loop.trips) (t3 : Fin k0_t3_loop.trips) (v29 v30 a10 : BitVec 32)
    (O : CellTallies nD τ sig (HIx 1)) (W : Waits sig (HIx 1))
    (f : Buf (Elt F) ((thr d L).loc cc0_scratch1)) (g : Buf (Elt F) ((thr d L).loc cc0_scratch0)) (fo : Buf (Elt F) (oLoc d))
    (Ds : List (sProp 𝕄)) (u : ℕ), Ds.length < 8 → u ≤ Ds.length * Nrow →
    iprop(□ Transfers.MayWaits (thr d L) (none : HIx 1) O
        ∗ ((rowWin 1 ⟨t3.val, t3_lt t3⟩ Nat.one_lt_two).view.loc (thr d L) ↦[(rowWin 1 ⟨t3.val, t3_lt t3⟩ Nat.one_lt_two).view.set]{fullShare} f)
        ∗ ((posV : Memref sig .scVector .vmem S8x768 .f32).view.loc (thr d L) ↦{fullShare} g)
        ∗ ((outRow1 L t1 t3).view.loc (thr d L) ↦[(outRow1 L t1 t3).view.set]{fullShare} fo)
        ∗ Transfers.Batched (countersEmb (U := UU)) (thr d L) (SemLoc.dma (sig := sig) (3 : Fin 9)) (default : HIx 1) Nrow 8 Ds u
        ∗ owes (thr d L) O W)
      ⊢ wp frame (wpE (defs₀ (F := F)) 𝒱₀ (thr d L) none) Set.univ
          (k0_t3_body L xV (Memref.isWhole_whole _) pV (Memref.isWhole_whole _) tV (Memref.isWhole_whole _) oV (Memref.isWhole_whole _)
            posV (Memref.isWhole_whole _) slotV (Memref.isWhole_whole _) cc0_scratch2 cc0_scratch3 cc0_scoped0 cc0_scoped1 cc0_scoped2 cc0_scoped3 cc0_scoped4
            v29 v30 t1 a10 t3 ())
          fun _ => iprop(∃ fs : Buf (Elt F) ((thr d L).loc cc0_scratch1),
            ((posV : Memref sig .scVector .vmem S8x768 .f32).view.loc (thr d L) ↦{fullShare} g)
            ∗ Transfers.Batched (countersEmb (U := UU)) (thr d L) (SemLoc.dma (sig := sig) (3 : Fin 9)) (default : HIx 1) Nrow 8
                (Ds ++ [deliv1 d L t1 t3 fo fs]) u
            ∗ owes (thr d L) O W)

/-- Naming the row gives the unnamed form. -/
theorem RowTrip1.toF (h : RowTrip1 (F := F) d L) : RowTrip1F (F := F) d L := by
  intro t1 t3 v29 v30 a10 O W f g fo Ds u hj hu
  refine (h t1 t3 v29 v30 a10 O W f g fo Ds u hj hu).trans (wp_mono frame _ _ fun _ => ?_)
  iintro H
  iexists (rowSum d L 1 ⟨t3.val, t3_lt t3⟩ f g)
  iexact H

end Cert.Kernel.Hand

end
-- ==== Proof.RowLoopW.lean ====
/-
  A whole row loop, from one trip's statement: eight trips in a row, each adding the position row to one row of the
  slot and starting that row's copy; the eight copies are a batch on the slot's outgoing semaphore.
-/
import proofs.«204390_g6468220748199_cont_9to1_m_1136_17_alg».proof.Proof.RowSpecW
import Idealize.ShloMosaic.Lib.Tactic

noncomputable section

namespace Cert.Kernel.Hand

open Cert.Kernel Cert.Kernel.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [∀ e, Nonempty (Elt F e)]

local notation "𝕄" => MT nD τ sig (HIx 1) (Elt F) ℕ UU ℕ

variable (d : Dev nD) (L : grid0.Coords)

/-- The whole row loop over slot 0: from the slot's eight position rows (all at the landed block `f`), the chunk's position
    rows `g`, the eight output rows of this chunk and half (all at `fo`) and the slot's outgoing semaphore at zero, the loop
    runs its eight trips and leaves the position rows and, on the semaphore, the eight copies' deliveries in order, each
    with the slot's row at whatever its trip left there. -/
theorem row_loop0 (h : RowTrip0F (F := F) d L) (t1 : Fin k0_t1_loop.trips) (v29 v30 a10 v276 c0 : BitVec 32)
    (O : CellTallies nD τ sig (HIx 1)) (W : Waits sig (HIx 1))
    (f : Buf (Elt F) ((thr d L).loc cc0_scratch1)) (g : Buf (Elt F) ((thr d L).loc cc0_scratch0)) (fo : Buf (Elt F) (oLoc d)) :
    iprop(□ Transfers.MayWaits (thr d L) (none : HIx 1) O ∗ semVal (cell d L 2) 0
        ∗ (((rowWin 0 0 Nat.zero_lt_two).view.loc (thr d L) ↦[(rowWin 0 0 Nat.zero_lt_two).view.set]{fullShare} f) ∗ ((rowWin 0 1 Nat.zero_lt_two).view.loc (thr d L) ↦[(rowWin 0 1 Nat.zero_lt_two).view.set]{fullShare} f) ∗ ((rowWin 0 2 Nat.zero_lt_two).view.loc (thr d L) ↦[(rowWin 0 2 Nat.zero_lt_two).view.set]{fullShare} f) ∗ ((rowWin 0 3 Nat.zero_lt_two).view.loc (thr d L) ↦[(rowWin 0 3 Nat.zero_lt_two).view.set]{fullShare} f) ∗ ((rowWin 0 4 Nat.zero_lt_two).view.loc (thr d L) ↦[(rowWin 0 4 Nat.zero_lt_two).view.set]{fullShare} f) ∗ ((rowWin 0 5 Nat.zero_lt_two).view.loc (thr d L) ↦[(rowWin 0 5 Nat.zero_lt_two).view.set]{fullShare} f) ∗ ((rowWin 0 6 Nat.zero_lt_two).view.loc (thr d L) ↦[(rowWin 0 6 Nat.zero_lt_two).view.set]{fullShare} f) ∗ ((rowWin 0 7 Nat.zero_lt_two).view.loc (thr d L) ↦[(rowWin 0 7 Nat.zero_lt_two).view.set]{fullShare} f))
        ∗ ((posV : Memref sig .scVector .vmem S8x768 .f32).view.loc (thr d L) ↦{fullShare} g)
        ∗ (((outRow0 L t1 (t2of 0)).view.loc (thr d L) ↦[(outRow0 L t1 (t2of 0)).view.set]{fullShare} fo) ∗ ((outRow0 L t1 (t2of 1)).view.loc (thr d L) ↦[(outRow0 L t1 (t2of 1)).view.set]{fullShare} fo) ∗ ((outRow0 L t1 (t2of 2)).view.loc (thr d L) ↦[(outRow0 L t1 (t2of 2)).view.set]{fullShare} fo) ∗ ((outRow0 L t1 (t2of 3)).view.loc (thr d L) ↦[(outRow0 L t1 (t2of 3)).view.set]{fullShare} fo) ∗ ((outRow0 L t1 (t2of 4)).view.loc (thr d L) ↦[(outRow0 L t1 (t2of 4)).view.set]{fullShare} fo) ∗ ((outRow0 L t1 (t2of 5)).view.loc (thr d L) ↦[(outRow0 L t1 (t2of 5)).view.set]{fullShare} fo) ∗ ((outRow0 L t1 (t2of 6)).view.loc (thr d L) ↦[(outRow0 L t1 (t2of 6)).view.set]{fullShare} fo) ∗ ((outRow0 L t1 (t2of 7)).view.loc (thr d L) ↦[(outRow0 L t1 (t2of 7)).view.set]{fullShare} fo))
        ∗ owes (thr d L) O W)
      ⊢ wp frame (wpE (defs₀ (F := F)) 𝒱₀ (thr d L) none) Set.univ
          (k0_t2_loop.for k0_t2_ok PUnit.unit
            (k0_t2_body L xV (Memref.isWhole_whole _) pV (Memref.isWhole_whole _) tV (Memref.isWhole_whole _) oV (Memref.isWhole_whole _)
              posV (Memref.isWhole_whole _) slotV (Memref.isWhole_whole _) cc0_scratch2 cc0_scratch3 cc0_scoped0 cc0_scoped1 cc0_scoped2 cc0_scoped3 cc0_scoped4
              v29 v30 t1 a10 v276 c0))
          fun _ => iprop(∃ fs0 fs1 fs2 fs3 fs4 fs5 fs6 fs7 : Buf (Elt F) ((thr d L).loc cc0_scratch1),
            ((posV : Memref sig .scVector .vmem S8x768 .f32).view.loc (thr d L) ↦{fullShare} g)
            ∗ Transfers.Batched (countersEmb (U := UU)) (thr d L) (SemLoc.dma (sig := sig) (2 : Fin 9)) (default : HIx 1) Nrow 8
                [deliv0 d L t1 (t2of 0) fo fs0,
                 deliv0 d L t1 (t2of 1) fo fs1,
                 deliv0 d L t1 (t2of 2) fo fs2,
                 deliv0 d L t1 (t2of 3) fo fs3,
                 deliv0 d L t1 (t2of 4) fo fs4,
                 deliv0 d L t1 (t2of 5) fo fs5,
                 deliv0 d L t1 (t2of 6) fo fs6,
                 deliv0 d L t1 (t2of 7) fo fs7] 0
            ∗ owes (thr d L) O W) := by
  iintro ⟨#Hmw, Hsem, ⟨Hr0, Hr1, Hr2, Hr3, Hr4, Hr5, Hr6, Hr7⟩, Hpos, ⟨Ho0, Ho1, Ho2, Ho3, Ho4, Ho5, Ho6, Ho7⟩, HO⟩
  -- the eight copies share the slot's outgoing semaphore: a batch of eight, none issued yet
  imod (Transfers.batched_alloc (countersEmb (U := UU)) (thr d L) (default : HIx 1) Nrow 8 (sm := SemLoc.dma (sig := sig) (2 : Fin 9)) (E := Set.univ)) $$ Hsem with HB
  sl_unroll
  -- row 0
  rw [wp_bind]
  iapply (wp_wand_r frame _ Set.univ)
  isplitl [Hr0 Hpos Ho0 HB HO]
  · iapply (h t1 (t2of 0) v29 v30 a10 v276 c0 O _ f g fo [] 0 (by simp) (Nat.zero_le _)) $$ [Hr0 Hpos Ho0 HB HO]
    isplitr; · iexact Hmw
    isplitl [Hr0]; · iexact Hr0
    isplitl [Hpos]; · iexact Hpos
    isplitl [Ho0]; · iexact Ho0
    isplitl [HB]; · iexact HB
    iexact HO
  iintro %_ ⟨%fs0, Hpos, HB, HO⟩
  -- row 1
  rw [wp_bind]
  iapply (wp_wand_r frame _ Set.univ)
  isplitl [Hr1 Hpos Ho1 HB HO]
  · iapply (h t1 (t2of 1) v29 v30 a10 v276 c0 O _ f g fo [deliv0 d L t1 (t2of 0) fo fs0] 0 (by simp) (Nat.zero_le _)) $$ [Hr1 Hpos Ho1 HB HO]
    isplitr; · iexact Hmw
    isplitl [Hr1]; · iexact Hr1
    isplitl [Hpos]; · iexact Hpos
    isplitl [Ho1]; · iexact Ho1
    isplitl [HB]; · iexact HB
    iexact HO
  iintro %_ ⟨%fs1, Hpos, HB, HO⟩
  -- row 2
  rw [wp_bind]
  iapply (wp_wand_r frame _ Set.univ)
  isplitl [Hr2 Hpos Ho2 HB HO]
  · iapply (h t1 (t2of 2) v29 v30 a10 v276 c0 O _ f g fo [deliv0 d L t1 (t2of 0) fo fs0, deliv0 d L t1 (t2of 1) fo fs1] 0 (by simp) (Nat.zero_le _)) $$ [Hr2 Hpos Ho2 HB HO]
    isplitr; · iexact Hmw
    isplitl [Hr2]; · iexact Hr2
    isplitl [Hpos]; · iexact Hpos
    isplitl [Ho2]; · iexact Ho2
    isplitl [HB]; · iexact HB
    iexact HO
  iintro %_ ⟨%fs2, Hpos, HB, HO⟩
  -- row 3
  rw [wp_bind]
  iapply (wp_wand_r frame _ Set.univ)
  isplitl [Hr3 Hpos Ho3 HB HO]
  · iapply (h t1 (t2of 3) v29 v30 a10 v276 c0 O _ f g fo [deliv0 d L t1 (t2of 0) fo fs0, deliv0 d L t1 (t2of 1) fo fs1, deliv0 d L t1 (t2of 2) fo fs2] 0 (by simp) (Nat.zero_le _)) $$ [Hr3 Hpos Ho3 HB HO]
    isplitr; · iexact Hmw
    isplitl [Hr3]; · iexact Hr3
    isplitl [Hpos]; · iexact Hpos
    isplitl [Ho3]; · iexact Ho3
    isplitl [HB]; · iexact HB
    iexact HO
  iintro %_ ⟨%fs3, Hpos, HB, HO⟩
  -- row 4
  rw [wp_bind]
  iapply (wp_wand_r frame _ Set.univ)
  isplitl [Hr4 Hpos Ho4 HB HO]
  · iapply (h t1 (t2of 4) v29 v30 a10 v276 c0 O _ f g fo [deliv0 d L t1 (t2of 0) fo fs0, deliv0 d L t1 (t2of 1) fo fs1, deliv0 d L t1 (t2of 2) fo fs2, deliv0 d L t1 (t2of 3) fo fs3] 0 (by simp) (Nat.zero_le _)) $$ [Hr4 Hpos Ho4 HB HO]
    isplitr; · iexact Hmw
    isplitl [Hr4]; · iexact Hr4
    isplitl [Hpos]; · iexact Hpos
    isplitl [Ho4]; · iexact Ho4
    isplitl [HB]; · iexact HB
    iexact HO
  iintro %_ ⟨%fs4, Hpos, HB, HO⟩
  -- row 5
  rw [wp_bind]
  iapply (wp_wand_r frame _ Set.univ)
  isplitl [Hr5 Hpos Ho5 HB HO]
  · iapply (h t1 (t2of 5) v29 v30 a10 v276 c0 O _ f g fo [deliv0 d L t1 (t2of 0) fo fs0, deliv0 d L t1 (t2of 1) fo fs1, deliv0 d L t1 (t2of 2) fo fs2, deliv0 d L t1 (t2of 3) fo fs3, deliv0 d L t1 (t2of 4) fo fs4] 0 (by simp) (Nat.zero_le _)) $$ [Hr5 Hpos Ho5 HB HO]
    isplitr; · iexact Hmw
    isplitl [Hr5]; · iexact Hr5
    isplitl [Hpos]; · iexact Hpos
    isplitl [Ho5]; · iexact Ho5
    isplitl [HB]; · iexact HB
    iexact HO
  iintro %_ ⟨%fs5, Hpos, HB, HO⟩
  -- row 6
  rw [wp_bind]
  iapply (wp_wand_r frame _ Set.univ)
  isplitl [Hr6 Hpos Ho6 HB HO]
  · iapply (h t1 (t2of 6) v29 v30 a10 v276 c0 O _ f g fo [deliv0 d L t1 (t2of 0) fo fs0, deliv0 d L t1 (t2of 1) fo fs1, deliv0 d L t1 (t2of 2) fo fs2, deliv0 d L t1 (t2of 3) fo fs3, deliv0 d L t1 (t2of 4) fo fs4, deliv0 d L t1 (t2of 5) fo fs5] 0 (by simp) (Nat.zero_le _)) $$ [Hr6 Hpos Ho6 HB HO]
    isplitr; · iexact Hmw
    isplitl [Hr6]; · iexact Hr6
    isplitl [Hpos]; · iexact Hpos
    isplitl [Ho6]; · iexact Ho6
    isplitl [HB]; · iexact HB
    iexact HO
  iintro %_ ⟨%fs6, Hpos, HB, HO⟩
  -- row 7
  rw [wp_bind]
  iapply (wp_wand_r frame _ Set.univ)
  isplitl [Hr7 Hpos Ho7 HB HO]
  · iapply (h t1 (t2of 7) v29 v30 a10 v276 c0 O _ f g fo [deliv0 d L t1 (t2of 0) fo fs0, deliv0 d L t1 (t2of 1) fo fs1, deliv0 d L t1 (t2of 2) fo fs2, deliv0 d L t1 (t2of 3) fo fs3, deliv0 d L t1 (t2of 4) fo fs4, deliv0 d L t1 (t2of 5) fo fs5, deliv0 d L t1 (t2of 6) fo fs6] 0 (by simp) (Nat.zero_le _)) $$ [Hr7 Hpos Ho7 HB HO]
    isplitr; · iexact Hmw
    isplitl [Hr7]; · iexact Hr7
    isplitl [Hpos]; · iexact Hpos
    isplitl [Ho7]; · iexact Ho7
    isplitl [HB]; · iexact HB
    iexact HO
  iintro %_ ⟨%fs7, Hpos, HB, HO⟩
  rw [wp_ret]; imodintro
  iexists fs0, fs1, fs2, fs3, fs4, fs5, fs6, fs7
  isplitl [Hpos]; · iexact Hpos
  isplitl [HB]; · iexact HB
  iexact HO

/-- The whole row loop over slot 1: from the slot's eight position rows (all at the landed block `f`), the chunk's position
    rows `g`, the eight output rows of this chunk and half (all at `fo`) and the slot's outgoing semaphore at zero, the loop
    runs its eight trips and leaves the position rows and, on the semaphore, the eight copies' deliveries in order, each
    with the slot's row at whatever its trip left there. -/
theorem row_loop1 (h : RowTrip1F (F := F) d L) (t1 : Fin k0_t1_loop.trips) (v29 v30 a10 : BitVec 32)
    (O : CellTallies nD τ sig (HIx 1)) (W : Waits sig (HIx 1))
    (f : Buf (Elt F) ((thr d L).loc cc0_scratch1)) (g : Buf (Elt F) ((thr d L).loc cc0_scratch0)) (fo : Buf (Elt F) (oLoc d)) :
    iprop(□ Transfers.MayWaits (thr d L) (none : HIx 1) O ∗ semVal (cell d L 3) 0
        ∗ (((rowWin 1 0 Nat.one_lt_two).view.loc (thr d L) ↦[(rowWin 1 0 Nat.one_lt_two).view.set]{fullShare} f) ∗ ((rowWin 1 1 Nat.one_lt_two).view.loc (thr d L) ↦[(rowWin 1 1 Nat.one_lt_two).view.set]{fullShare} f) ∗ ((rowWin 1 2 Nat.one_lt_two).view.loc (thr d L) ↦[(rowWin 1 2 Nat.one_lt_two).view.set]{fullShare} f) ∗ ((rowWin 1 3 Nat.one_lt_two).view.loc (thr d L) ↦[(rowWin 1 3 Nat.one_lt_two).view.set]{fullShare} f) ∗ ((rowWin 1 4 Nat.one_lt_two).view.loc (thr d L) ↦[(rowWin 1 4 Nat.one_lt_two).view.set]{fullShare} f) ∗ ((rowWin 1 5 Nat.one_lt_two).view.loc (thr d L) ↦[(rowWin 1 5 Nat.one_lt_two).view.set]{fullShare} f) ∗ ((rowWin 1 6 Nat.one_lt_two).view.loc (thr d L) ↦[(rowWin 1 6 Nat.one_lt_two).view.set]{fullShare} f) ∗ ((rowWin 1 7 Nat.one_lt_two).view.loc (thr d L) ↦[(rowWin 1 7 Nat.one_lt_two).view.set]{fullShare} f))
        ∗ ((posV : Memref sig .scVector .vmem S8x768 .f32).view.loc (thr d L) ↦{fullShare} g)
        ∗ (((outRow1 L t1 (t3of 0)).view.loc (thr d L) ↦[(outRow1 L t1 (t3of 0)).view.set]{fullShare} fo) ∗ ((outRow1 L t1 (t3of 1)).view.loc (thr d L) ↦[(outRow1 L t1 (t3of 1)).view.set]{fullShare} fo) ∗ ((outRow1 L t1 (t3of 2)).view.loc (thr d L) ↦[(outRow1 L t1 (t3of 2)).view.set]{fullShare} fo) ∗ ((outRow1 L t1 (t3of 3)).view.loc (thr d L) ↦[(outRow1 L t1 (t3of 3)).view.set]{fullShare} fo) ∗ ((outRow1 L t1 (t3of 4)).view.loc (thr d L) ↦[(outRow1 L t1 (t3of 4)).view.set]{fullShare} fo) ∗ ((outRow1 L t1 (t3of 5)).view.loc (thr d L) ↦[(outRow1 L t1 (t3of 5)).view.set]{fullShare} fo) ∗ ((outRow1 L t1 (t3of 6)).view.loc (thr d L) ↦[(outRow1 L t1 (t3of 6)).view.set]{fullShare} fo) ∗ ((outRow1 L t1 (t3of 7)).view.loc (thr d L) ↦[(outRow1 L t1 (t3of 7)).view.set]{fullShare} fo))
        ∗ owes (thr d L) O W)
      ⊢ wp frame (wpE (defs₀ (F := F)) 𝒱₀ (thr d L) none) Set.univ
          (k0_t3_loop.for k0_t3_ok PUnit.unit
            (k0_t3_body L xV (Memref.isWhole_whole _) pV (Memref.isWhole_whole _) tV (Memref.isWhole_whole _) oV (Memref.isWhole_whole _)
              posV (Memref.isWhole_whole _) slotV (Memref.isWhole_whole _) cc0_scratch2 cc0_scratch3 cc0_scoped0 cc0_scoped1 cc0_scoped2 cc0_scoped3 cc0_scoped4
              v29 v30 t1 a10))
          fun _ => iprop(∃ fs0 fs1 fs2 fs3 fs4 fs5 fs6 fs7 : Buf (Elt F) ((thr d L).loc cc0_scratch1),
            ((posV : Memref sig .scVector .vmem S8x768 .f32).view.loc (thr d L) ↦{fullShare} g)
            ∗ Transfers.Batched (countersEmb (U := UU)) (thr d L) (SemLoc.dma (sig := sig) (3 : Fin 9)) (default : HIx 1) Nrow 8
                [deliv1 d L t1 (t3of 0) fo fs0,
                 deliv1 d L t1 (t3of 1) fo fs1,
                 deliv1 d L t1 (t3of 2) fo fs2,
                 deliv1 d L t1 (t3of 3) fo fs3,
                 deliv1 d L t1 (t3of 4) fo fs4,
                 deliv1 d L t1 (t3of 5) fo fs5,
                 deliv1 d L t1 (t3of 6) fo fs6,
                 deliv1 d L t1 (t3of 7) fo fs7] 0
            ∗ owes (thr d L) O W) := by
  iintro ⟨#Hmw, Hsem, ⟨Hr0, Hr1, Hr2, Hr3, Hr4, Hr5, Hr6, Hr7⟩, Hpos, ⟨Ho0, Ho1, Ho2, Ho3, Ho4, Ho5, Ho6, Ho7⟩, HO⟩
  -- the eight copies share the slot's outgoing semaphore: a batch of eight, none issued yet
  imod (Transfers.batched_alloc (countersEmb (U := UU)) (thr d L) (default : HIx 1) Nrow 8 (sm := SemLoc.dma (sig := sig) (3 : Fin 9)) (E := Set.univ)) $$ Hsem with HB
  sl_unroll
  -- row 0
  rw [wp_bind]
  iapply (wp_wand_r frame _ Set.univ)
  isplitl [Hr0 Hpos Ho0 HB HO]
  · iapply (h t1 (t3of 0) v29 v30 a10 O _ f g fo [] 0 (by simp) (Nat.zero_le _)) $$ [Hr0 Hpos Ho0 HB HO]
    isplitr; · iexact Hmw
    isplitl [Hr0]; · iexact Hr0
    isplitl [Hpos]; · iexact Hpos
    isplitl [Ho0]; · iexact Ho0
    isplitl [HB]; · iexact HB
    iexact HO
  iintro %_ ⟨%fs0, Hpos, HB, HO⟩
  -- row 1
  rw [wp_bind]
  iapply (wp_wand_r frame _ Set.univ)
  isplitl [Hr1 Hpos Ho1 HB HO]
  · iapply (h t1 (t3of 1) v29 v30 a10 O _ f g fo [deliv1 d L t1 (t3of 0) fo fs0] 0 (by simp) (Nat.zero_le _)) $$ [Hr1 Hpos Ho1 HB HO]
    isplitr; · iexact Hmw
    isplitl [Hr1]; · iexact Hr1
    isplitl [Hpos]; · iexact Hpos
    isplitl [Ho1]; · iexact Ho1
    isplitl [HB]; · iexact HB
    iexact HO
  iintro %_ ⟨%fs1, Hpos, HB, HO⟩
  -- row 2
  rw [wp_bind]
  iapply (wp_wand_r frame _ Set.univ)
  isplitl [Hr2 Hpos Ho2 HB HO]
  · iapply (h t1 (t3of 2) v29 v30 a10 O _ f g fo [deliv1 d L t1 (t3of 0) fo fs0, deliv1 d L t1 (t3of 1) fo fs1] 0 (by simp) (Nat.zero_le _)) $$ [Hr2 Hpos Ho2 HB HO]
    isplitr; · iexact Hmw
    isplitl [Hr2]; · iexact Hr2
    isplitl [Hpos]; · iexact Hpos
    isplitl [Ho2]; · iexact Ho2
    isplitl [HB]; · iexact HB
    iexact HO
  iintro %_ ⟨%fs2, Hpos, HB, HO⟩
  -- row 3
  rw [wp_bind]
  iapply (wp_wand_r frame _ Set.univ)
  isplitl [Hr3 Hpos Ho3 HB HO]
  · iapply (h t1 (t3of 3) v29 v30 a10 O _ f g fo [deliv1 d L t1 (t3of 0) fo fs0, deliv1 d L t1 (t3of 1) fo fs1, deliv1 d L t1 (t3of 2) fo fs2] 0 (by simp) (Nat.zero_le _)) $$ [Hr3 Hpos Ho3 HB HO]
    isplitr; · iexact Hmw
    isplitl [Hr3]; · iexact Hr3
    isplitl [Hpos]; · iexact Hpos
    isplitl [Ho3]; · iexact Ho3
    isplitl [HB]; · iexact HB
    iexact HO
  iintro %_ ⟨%fs3, Hpos, HB, HO⟩
  -- row 4
  rw [wp_bind]
  iapply (wp_wand_r frame _ Set.univ)
  isplitl [Hr4 Hpos Ho4 HB HO]
  · iapply (h t1 (t3of 4) v29 v30 a10 O _ f g fo [deliv1 d L t1 (t3of 0) fo fs0, deliv1 d L t1 (t3of 1) fo fs1, deliv1 d L t1 (t3of 2) fo fs2, deliv1 d L t1 (t3of 3) fo fs3] 0 (by simp) (Nat.zero_le _)) $$ [Hr4 Hpos Ho4 HB HO]
    isplitr; · iexact Hmw
    isplitl [Hr4]; · iexact Hr4
    isplitl [Hpos]; · iexact Hpos
    isplitl [Ho4]; · iexact Ho4
    isplitl [HB]; · iexact HB
    iexact HO
  iintro %_ ⟨%fs4, Hpos, HB, HO⟩
  -- row 5
  rw [wp_bind]
  iapply (wp_wand_r frame _ Set.univ)
  isplitl [Hr5 Hpos Ho5 HB HO]
  · iapply (h t1 (t3of 5) v29 v30 a10 O _ f g fo [deliv1 d L t1 (t3of 0) fo fs0, deliv1 d L t1 (t3of 1) fo fs1, deliv1 d L t1 (t3of 2) fo fs2, deliv1 d L t1 (t3of 3) fo fs3, deliv1 d L t1 (t3of 4) fo fs4] 0 (by simp) (Nat.zero_le _)) $$ [Hr5 Hpos Ho5 HB HO]
    isplitr; · iexact Hmw
    isplitl [Hr5]; · iexact Hr5
    isplitl [Hpos]; · iexact Hpos
    isplitl [Ho5]; · iexact Ho5
    isplitl [HB]; · iexact HB
    iexact HO
  iintro %_ ⟨%fs5, Hpos, HB, HO⟩
  -- row 6
  rw [wp_bind]
  iapply (wp_wand_r frame _ Set.univ)
  isplitl [Hr6 Hpos Ho6 HB HO]
  · iapply (h t1 (t3of 6) v29 v30 a10 O _ f g fo [deliv1 d L t1 (t3of 0) fo fs0, deliv1 d L t1 (t3of 1) fo fs1, deliv1 d L t1 (t3of 2) fo fs2, deliv1 d L t1 (t3of 3) fo fs3, deliv1 d L t1 (t3of 4) fo fs4, deliv1 d L t1 (t3of 5) fo fs5] 0 (by simp) (Nat.zero_le _)) $$ [Hr6 Hpos Ho6 HB HO]
    isplitr; · iexact Hmw
    isplitl [Hr6]; · iexact Hr6
    isplitl [Hpos]; · iexact Hpos
    isplitl [Ho6]; · iexact Ho6
    isplitl [HB]; · iexact HB
    iexact HO
  iintro %_ ⟨%fs6, Hpos, HB, HO⟩
  -- row 7
  rw [wp_bind]
  iapply (wp_wand_r frame _ Set.univ)
  isplitl [Hr7 Hpos Ho7 HB HO]
  · iapply (h t1 (t3of 7) v29 v30 a10 O _ f g fo [deliv1 d L t1 (t3of 0) fo fs0, deliv1 d L t1 (t3of 1) fo fs1, deliv1 d L t1 (t3of 2) fo fs2, deliv1 d L t1 (t3of 3) fo fs3, deliv1 d L t1 (t3of 4) fo fs4, deliv1 d L t1 (t3of 5) fo fs5, deliv1 d L t1 (t3of 6) fo fs6] 0 (by simp) (Nat.zero_le _)) $$ [Hr7 Hpos Ho7 HB HO]
    isplitr; · iexact Hmw
    isplitl [Hr7]; · iexact Hr7
    isplitl [Hpos]; · iexact Hpos
    isplitl [Ho7]; · iexact Ho7
    isplitl [HB]; · iexact HB
    iexact HO
  iintro %_ ⟨%fs7, Hpos, HB, HO⟩
  rw [wp_ret]; imodintro
  iexists fs0, fs1, fs2, fs3, fs4, fs5, fs6, fs7
  isplitl [Hpos]; · iexact Hpos
  isplitl [HB]; · iexact HB
  iexact HO

end Cert.Kernel.Hand

end
-- ==== Proof.BodyUtilW.lean ====
/-
  Small facts the worker's body uses between the stretches of its run.

  A product of resources over a finite set gives up one factor and takes it back; and a set of recorded waits grown
  by waits at the index "none" still consists of the old waits and waits at that index.
-/
import proofs.«204390_g6468220748199_cont_9to1_m_1136_17_alg».proof.Proof.BodyOpenW

noncomputable section

namespace Cert.Kernel.Hand

open Cert.Kernel Cert.Kernel.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- One factor out of a product. -/
theorem bigSep_take {I : Type} [DecidableEq I] {s : Finset I} {a : I} (h : a ∈ s) (Φ : I → sProp 𝕄) :
    bigSep s Φ ⊢ iprop(Φ a ∗ bigSep (s.erase a) Φ) :=
  Entails.of_eq (SparseCore.bigSep_erase' h)

/-- One factor into a product. -/
theorem bigSep_put {I : Type} [DecidableEq I] {s : Finset I} {a : I} (h : a ∉ s) (Φ : I → sProp 𝕄) :
    iprop(Φ a ∗ bigSep s Φ) ⊢ bigSep (insert a s) Φ :=
  Entails.of_eq (SparseCore.bigSep_insert' h).symm

/-- Eight resources, each at some contents: the contents forgotten. -/
theorem ex8 {α : Type} (Φ0 Φ1 Φ2 Φ3 Φ4 Φ5 Φ6 Φ7 : α → sProp 𝕄) (f0 f1 f2 f3 f4 f5 f6 f7 : α) :
    iprop(Φ0 f0 ∗ Φ1 f1 ∗ Φ2 f2 ∗ Φ3 f3 ∗ Φ4 f4 ∗ Φ5 f5 ∗ Φ6 f6 ∗ Φ7 f7)
      ⊢ iprop((∃ f, Φ0 f) ∗ (∃ f, Φ1 f) ∗ (∃ f, Φ2 f) ∗ (∃ f, Φ3 f) ∗ (∃ f, Φ4 f) ∗ (∃ f, Φ5 f) ∗ (∃ f, Φ6 f) ∗ (∃ f, Φ7 f)) := by
  iintro ⟨H0, H1, H2, H3, H4, H5, H6, H7⟩
  isplitl [H0]; · iexists f0; iexact H0
  isplitl [H1]; · iexists f1; iexact H1
  isplitl [H2]; · iexists f2; iexact H2
  isplitl [H3]; · iexists f3; iexact H3
  isplitl [H4]; · iexists f4; iexact H4
  isplitl [H5]; · iexists f5; iexact H5
  isplitl [H6]; · iexists f6; iexact H6
  iexists f7; iexact H7

/-- The waits a worker records are all at the index "none": adding one keeps "old, or at none". -/
theorem waits_insert {W W' : Waits sig (HIx 1)} (sm : SemLoc sig)
    (h : ∀ p ∈ W', p ∈ W ∨ p.2 = none) : ∀ p ∈ insert (sm, (default : HIx 1)) W', p ∈ W ∨ p.2 = none := by
  intro p hp
  rcases Finset.mem_insert.mp hp with rfl | hp
  · exact .inr rfl
  · exact h p hp

theorem waits_refl (W : Waits sig (HIx 1)) : ∀ p ∈ W, p ∈ W ∨ p.2 = none := fun _ hp => .inl hp

end Cert.Kernel.Hand

end
-- ==== Proof.TileRemW.lean ====
/-
  One worker's part of the output array: the row pieces first, what remains after.

  Every worker writes its 144 row pieces; only the first worker of a group writes anything else (the class-token
  row). So a worker's part of the output splits, for every worker alike, into the row pieces and a remainder; the
  remainder is the two class-row pieces for the first worker of a group and nothing for the others. The nine chunks
  of row copies can then be followed once, before the two kinds of worker are told apart.
-/
import proofs.«204390_g6468220748199_cont_9to1_m_1136_17_alg».proof.Proof.TileCoverW

noncomputable section

namespace Cert.Kernel.Hand

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The row pieces together, and what remains of the worker's part -/

/-- The entries the worker's row copies write. -/
abbrev rowsU (L : grid0.Coords) : Finset S577x64x768.Idx := (Finset.univ : Finset RowPiece).biUnion (rowK L)

theorem mem_rowsU (L : grid0.Coords) (i : S577x64x768.Idx) :
    i ∈ rowsU L ↔ (i 1).val / 16 = wid L / 8 ∧ (i 0).val < 576 ∧ (i 0).val / 72 = wid L % 8 := by
  rw [Finset.mem_biUnion]
  have e : (∃ p ∈ (Finset.univ : Finset RowPiece), i ∈ rowK L p) ↔ ∃ p, i ∈ rowK L p :=
    ⟨fun ⟨p, _, hp⟩ => ⟨p, hp⟩, fun ⟨p, hp⟩ => ⟨p, Finset.mem_univ _, hp⟩⟩
  rw [e, mem_rows_iff]

theorem rowsU_sub (L : grid0.Coords) : rowsU L ⊆ tileSet (wid L) := by
  intro i hi
  rw [mem_rowsU] at hi
  rw [mem_tileSet]
  exact ⟨hi.1, .inl hi.2⟩

/-- A worker that is not the first of its group writes nothing but its rows. -/
theorem rem_empty (L : grid0.Coords) (hn : ¬k0_cond10 L = 1#1) : tileSet (wid L) \ rowsU L = ∅ := by
  rw [show rowsU L = tileSet (wid L) from rows_cover L hn, Finset.sdiff_self]

/-- The first worker of a group: what remains is the two class-row pieces. -/
theorem rem_eq_cls (L : grid0.Coords) (h : k0_cond10 L = 1#1) :
    tileSet (wid L) \ rowsU L = (Finset.univ : Finset (Fin 2)).biUnion fun r => ((clsRow L h r).view.set : Finset S577x64x768.Idx) := by
  have hj : wid L % 8 = 0 := (k0_cond10_iff L).mp h
  ext i
  rw [Finset.mem_sdiff, mem_tileSet, mem_rowsU, Finset.mem_biUnion]
  have e : (∃ r ∈ (Finset.univ : Finset (Fin 2)), i ∈ ((clsRow L h r).view.set : Finset S577x64x768.Idx))
      ↔ ∃ r, i ∈ (clsRow L h r).view.set :=
    ⟨fun ⟨r, _, hr⟩ => ⟨r, hr⟩, fun ⟨r, hr⟩ => ⟨r, Finset.mem_univ _, hr⟩⟩
  rw [e, mem_cls_iff]
  omega

theorem cls_disjoint (L : grid0.Coords) (h : k0_cond10 L = 1#1) :
    ∀ r ∈ (Finset.univ : Finset (Fin 2)), ∀ r' ∈ (Finset.univ : Finset (Fin 2)), r ≠ r' →
      Disjoint ((clsRow L h r).view.set : Finset S577x64x768.Idx) ((clsRow L h r').view.set : Finset S577x64x768.Idx) :=
  fun r _ r' _ hne => pieces_disjoint L h (.inr r) (Finset.mem_univ _) (.inr r') (Finset.mem_univ _)
    fun e => hne (Sum.inr.inj e)

variable (d : Dev nD) (L : grid0.Coords)

/-- The row pieces, each through its own reference, are the rows' entries of the output. -/
theorem rowsU_pieces (fs0 : Fin k0_t1_loop.trips × Fin k0_t2_loop.trips → Buf (Elt F) (oLoc d)) (fs1 : Fin k0_t1_loop.trips × Fin k0_t3_loop.trips → Buf (Elt F) (oLoc d)) :
    (bigSep Finset.univ fun t : RowPiece => (oLoc d ↦[rowK L t]{fullShare} (Sum.elim fs0 fs1 t) : sProp 𝕄)) =
      iprop((bigSep Finset.univ fun p : Fin k0_t1_loop.trips × Fin k0_t2_loop.trips =>
          (outRow0 L p.1 p.2).view.loc (thr d L) ↦[(outRow0 L p.1 p.2).view.set]{fullShare} (fs0 p))
        ∗ (bigSep Finset.univ fun p : Fin k0_t1_loop.trips × Fin k0_t3_loop.trips =>
          (outRow1 L p.1 p.2).view.loc (thr d L) ↦[(outRow1 L p.1 p.2).view.set]{fullShare} (fs1 p))) := by
  rw [bigSep_rowPieces]
  exact congrArg₂ _ (bigSep_congr fun _ _ => rfl) (bigSep_congr fun _ _ => rfl)

/-- Every worker: its part of the output at contents `f` is its 144 row pieces, each through its own reference,
    and the remainder. -/
theorem tileOut_rows_rem (f : Buf (Elt F) (oLoc d)) :
    (oLoc d ↦[tileSet (wid L)]{fullShare} f : sProp 𝕄) =
      iprop((bigSep Finset.univ fun p : Fin k0_t1_loop.trips × Fin k0_t2_loop.trips =>
          (outRow0 L p.1 p.2).view.loc (thr d L) ↦[(outRow0 L p.1 p.2).view.set]{fullShare} f)
        ∗ (bigSep Finset.univ fun p : Fin k0_t1_loop.trips × Fin k0_t3_loop.trips =>
          (outRow1 L p.1 p.2).view.loc (thr d L) ↦[(outRow1 L p.1 p.2).view.set]{fullShare} f)
        ∗ oLoc d ↦[tileSet (wid L) \ rowsU L]{fullShare} f) := by
  have h := pointsTo_split_subset (nD := nD) (τ := τ) (sig := sig) (Ix := HIx 1) (Val := Elt F) (Name := ℕ) (U := UU) (Lvl := ℕ)
    (ℓ := oLoc d) (I := rowsU L) (S := tileSet (wid L)) (q := fullShare) (f := f) (rowsU_sub L)
  have e2 : (oLoc d ↦[rowsU L]{fullShare} f : sProp 𝕄) =
      iprop((bigSep Finset.univ fun p : Fin k0_t1_loop.trips × Fin k0_t2_loop.trips =>
          (outRow0 L p.1 p.2).view.loc (thr d L) ↦[(outRow0 L p.1 p.2).view.set]{fullShare} f)
        ∗ (bigSep Finset.univ fun p : Fin k0_t1_loop.trips × Fin k0_t3_loop.trips =>
          (outRow1 L p.1 p.2).view.loc (thr d L) ↦[(outRow1 L p.1 p.2).view.set]{fullShare} f)) := by
    rw [pointsTo_biUnion Finset.univ (ℓ := oLoc d) (rowK L) (rows_disjoint L), bigSep_rowPieces]
    exact congrArg₂ _ (bigSep_congr fun _ _ => rfl) (bigSep_congr fun _ _ => rfl)
  rw [BI.equiv_iff.mp ⟨h.1, h.2⟩, e2]
  exact sep_assoc_eq _ _ _

/-- The first worker of a group: the remainder is its two class-row pieces, each through its own reference. -/
theorem rem_cls (h : k0_cond10 L = 1#1) (f : Buf (Elt F) (oLoc d)) :
    (oLoc d ↦[tileSet (wid L) \ rowsU L]{fullShare} f : sProp 𝕄) =
      (bigSep Finset.univ fun r : Fin 2 =>
          (clsRow L h r).view.loc (thr d L) ↦[(clsRow L h r).view.set]{fullShare} f) := by
  rw [rem_eq_cls L h, pointsTo_biUnion Finset.univ (ℓ := oLoc d)
    (fun r : Fin 2 => ((clsRow L h r).view.set : Finset S577x64x768.Idx)) (cls_disjoint L h)]

/-- The same with the two pieces written out, in the spellings the program prints. -/
theorem rem_cls2 (h : k0_cond10 L = 1#1) (f : Buf (Elt F) (oLoc d)) :
    (oLoc d ↦[tileSet (wid L) \ rowsU L]{fullShare} f : sProp 𝕄) =
      iprop((((oV.slice (Rect.unit (s := S577x64x768) (k0_off883 L 0#32) S1x8x768.size (k0_off883_inb L h 0)) (fun _ => rfl)).squeeze S8x768 squeezes_S1x8x768_S8x768).view.loc (thr d L) ↦[((oV.slice (Rect.unit (s := S577x64x768) (k0_off883 L 0#32) S1x8x768.size (k0_off883_inb L h 0)) (fun _ => rfl)).squeeze S8x768 squeezes_S1x8x768_S8x768).view.set]{fullShare} f)
        ∗ (((oV.slice (Rect.unit (s := S577x64x768) (k0_off883 L 8#32) S1x8x768.size (k0_off883_inb L h 1)) (fun _ => rfl)).squeeze S8x768 squeezes_S1x8x768_S8x768).view.loc (thr d L) ↦[((oV.slice (Rect.unit (s := S577x64x768) (k0_off883 L 8#32) S1x8x768.size (k0_off883_inb L h 1)) (fun _ => rfl)).squeeze S8x768 squeezes_S1x8x768_S8x768).view.set]{fullShare} f)) := by
  rw [rem_cls d L h f, bigSep_fin_two]
  rfl

/-- Every worker: its row pieces, each come back at contents of its own, and the remainder at contents `f2`, are
    its part of the output at one contents that agrees with each piece's on that piece and with `f2` on the remainder. -/
theorem tileOut_rows_rem_join (fs0 : Fin k0_t1_loop.trips × Fin k0_t2_loop.trips → Buf (Elt F) (oLoc d)) (fs1 : Fin k0_t1_loop.trips × Fin k0_t3_loop.trips → Buf (Elt F) (oLoc d))
    (f2 : Buf (Elt F) (oLoc d)) :
    (iprop((bigSep Finset.univ fun p : Fin k0_t1_loop.trips × Fin k0_t2_loop.trips =>
          (outRow0 L p.1 p.2).view.loc (thr d L) ↦[(outRow0 L p.1 p.2).view.set]{fullShare} (fs0 p))
        ∗ (bigSep Finset.univ fun p : Fin k0_t1_loop.trips × Fin k0_t3_loop.trips =>
          (outRow1 L p.1 p.2).view.loc (thr d L) ↦[(outRow1 L p.1 p.2).view.set]{fullShare} (fs1 p))
        ∗ oLoc d ↦[tileSet (wid L) \ rowsU L]{fullShare} f2) : sProp 𝕄)
      ⊢ iprop(∃ g : Buf (Elt F) (oLoc d),
          ⌜(∀ p : Fin k0_t1_loop.trips × Fin k0_t2_loop.trips, ∀ i : S577x64x768.Idx, i ∈ (outRow0 L p.1 p.2).view.set → g i = fs0 p i)
            ∧ (∀ p : Fin k0_t1_loop.trips × Fin k0_t3_loop.trips, ∀ i : S577x64x768.Idx, i ∈ (outRow1 L p.1 p.2).view.set → g i = fs1 p i)
            ∧ (∀ i : S577x64x768.Idx, i ∈ tileSet (wid L) \ rowsU L → g i = f2 i)⌝
          ∗ oLoc d ↦[tileSet (wid L)]{fullShare} g) := by
  classical
  iintro ⟨HA, HB, HR⟩
  ihave HAB := (Entails.of_eq (rowsU_pieces (F := F) d L fs0 fs1).symm) $$ [HA HB]
  · isplitl [HA]
    · iexact HA
    · iexact HB
  ihave H := (pointsTo_biUnion_join (ℓ := oLoc d) (q := fullShare) Finset.univ (rowK L) (Sum.elim fs0 fs1) f2
    (rows_disjoint L)) $$ HAB
  icases H with ⟨%g0, %hg0, Hg0⟩
  ihave HJ := (pointsTo_join_subset (nD := nD) (τ := τ) (sig := sig) (Ix := HIx 1) (Val := Elt F) (Name := ℕ) (U := UU) (Lvl := ℕ)
    (ℓ := oLoc d) (I := rowsU L) (S := tileSet (wid L)) (q := fullShare) (f := f2) (g := g0) (rowsU_sub L)) $$ [Hg0 HR]
  · isplitl [Hg0]
    · iexact Hg0
    · iexact HR
  iexists _
  isplitr
  swap
  · iexact HJ
  · ipureintro
    refine ⟨fun p i hi => ?_, fun p i hi => ?_, fun i hi => ?_⟩
    · have hm : i ∈ rowsU L := Finset.mem_biUnion.mpr ⟨.inl p, Finset.mem_univ _, hi⟩
      rw [Finset.piecewise_eq_of_mem _ _ _ hm]
      exact hg0 (.inl p) (Finset.mem_univ _) i hi
    · have hm : i ∈ rowsU L := Finset.mem_biUnion.mpr ⟨.inr p, Finset.mem_univ _, hi⟩
      rw [Finset.piecewise_eq_of_mem _ _ _ hm]
      exact hg0 (.inr p) (Finset.mem_univ _) i hi
    · rw [Finset.piecewise_eq_of_notMem _ _ _ (Finset.mem_sdiff.mp hi).2]

/-- Every worker: its row pieces, each at contents of its own that nobody names, and the remainder, are its part of
    the output at some contents. -/
theorem tileOut_join_ex [∀ e, Nonempty (Elt F e)] (f2 : Buf (Elt F) (oLoc d)) :
    (iprop((bigSep Finset.univ fun p : Fin k0_t1_loop.trips × Fin k0_t2_loop.trips => iprop(∃ f : Buf (Elt F) (oLoc d),
          (outRow0 L p.1 p.2).view.loc (thr d L) ↦[(outRow0 L p.1 p.2).view.set]{fullShare} f))
        ∗ (bigSep Finset.univ fun p : Fin k0_t1_loop.trips × Fin k0_t3_loop.trips => iprop(∃ f : Buf (Elt F) (oLoc d),
          (outRow1 L p.1 p.2).view.loc (thr d L) ↦[(outRow1 L p.1 p.2).view.set]{fullShare} f))
        ∗ oLoc d ↦[tileSet (wid L) \ rowsU L]{fullShare} f2) : sProp 𝕄)
      ⊢ iprop(∃ g : Buf (Elt F) (oLoc d), oLoc d ↦[tileSet (wid L)]{fullShare} g) := by
  iintro ⟨HA, HB, HR⟩
  ihave HA' := (bigSep_exists_pi Finset.univ (fun (p : Fin k0_t1_loop.trips × Fin k0_t2_loop.trips) (f : Buf (Elt F) (oLoc d)) =>
    ((outRow0 L p.1 p.2).view.loc (thr d L) ↦[(outRow0 L p.1 p.2).view.set]{fullShare} f : sProp 𝕄))) $$ HA
  ihave HB' := (bigSep_exists_pi Finset.univ (fun (p : Fin k0_t1_loop.trips × Fin k0_t3_loop.trips) (f : Buf (Elt F) (oLoc d)) =>
    ((outRow1 L p.1 p.2).view.loc (thr d L) ↦[(outRow1 L p.1 p.2).view.set]{fullShare} f : sProp 𝕄))) $$ HB
  icases HA' with ⟨%fs0, HA'⟩
  icases HB' with ⟨%fs1, HB'⟩
  ihave H := (tileOut_rows_rem_join (F := F) d L fs0 fs1 f2) $$ [HA' HB' HR]
  · isplitl [HA']
    · iexact HA'
    isplitl [HB']
    · iexact HB'
    · iexact HR
  icases H with ⟨%g, -, Hg⟩
  iexists g
  iexact Hg

/-- The same with the remainder, too, at contents nobody names. -/
theorem tileOut_join_ex' [∀ e, Nonempty (Elt F e)] :
    (iprop((bigSep Finset.univ fun p : Fin k0_t1_loop.trips × Fin k0_t2_loop.trips => iprop(∃ f : Buf (Elt F) (oLoc d),
          (outRow0 L p.1 p.2).view.loc (thr d L) ↦[(outRow0 L p.1 p.2).view.set]{fullShare} f))
        ∗ (bigSep Finset.univ fun p : Fin k0_t1_loop.trips × Fin k0_t3_loop.trips => iprop(∃ f : Buf (Elt F) (oLoc d),
          (outRow1 L p.1 p.2).view.loc (thr d L) ↦[(outRow1 L p.1 p.2).view.set]{fullShare} f))
        ∗ ∃ f2 : Buf (Elt F) (oLoc d), oLoc d ↦[tileSet (wid L) \ rowsU L]{fullShare} f2) : sProp 𝕄)
      ⊢ iprop(∃ g : Buf (Elt F) (oLoc d), oLoc d ↦[tileSet (wid L)]{fullShare} g) := by
  iintro ⟨HA, HB, %f2, HR⟩
  iapply (tileOut_join_ex (F := F) d L f2)
  isplitl [HA]
  · iexact HA
  isplitl [HB]
  · iexact HB
  · iexact HR

/-- The first worker of a group: its two class-row pieces, each come back at contents of its own, are the remainder
    at some contents. -/
theorem rem_cls2_join (h : k0_cond10 L = 1#1) (f0 f1 : Buf (Elt F) (oLoc d)) :
    (iprop((((oV.slice (Rect.unit (s := S577x64x768) (k0_off883 L 0#32) S1x8x768.size (k0_off883_inb L h 0)) (fun _ => rfl)).squeeze S8x768 squeezes_S1x8x768_S8x768).view.loc (thr d L) ↦[((oV.slice (Rect.unit (s := S577x64x768) (k0_off883 L 0#32) S1x8x768.size (k0_off883_inb L h 0)) (fun _ => rfl)).squeeze S8x768 squeezes_S1x8x768_S8x768).view.set]{fullShare} f0)
        ∗ (((oV.slice (Rect.unit (s := S577x64x768) (k0_off883 L 8#32) S1x8x768.size (k0_off883_inb L h 1)) (fun _ => rfl)).squeeze S8x768 squeezes_S1x8x768_S8x768).view.loc (thr d L) ↦[((oV.slice (Rect.unit (s := S577x64x768) (k0_off883 L 8#32) S1x8x768.size (k0_off883_inb L h 1)) (fun _ => rfl)).squeeze S8x768 squeezes_S1x8x768_S8x768).view.set]{fullShare} f1)) : sProp 𝕄)
      ⊢ iprop(∃ f2 : Buf (Elt F) (oLoc d), oLoc d ↦[tileSet (wid L) \ rowsU L]{fullShare} f2) := by
  classical
  have hd : Disjoint ((clsRow L h 0).view.set : Finset S577x64x768.Idx) ((clsRow L h 1).view.set : Finset S577x64x768.Idx) :=
    cls_disjoint L h 0 (Finset.mem_univ _) 1 (Finset.mem_univ _) (by decide)
  have hj := pointsTo_join (nD := nD) (τ := τ) (sig := sig) (Ix := HIx 1) (Val := Elt F) (Name := ℕ) (U := UU) (Lvl := ℕ)
    (ℓ := oLoc d) (I := ((clsRow L h 0).view.set : Finset S577x64x768.Idx))
    (J := ((clsRow L h 1).view.set : Finset S577x64x768.Idx)) (q := fullShare) (f := f0) (g := f1) hd
  have hu : tileSet (wid L) \ rowsU L
      = ((clsRow L h 0).view.set : Finset S577x64x768.Idx) ∪ ((clsRow L h 1).view.set : Finset S577x64x768.Idx) := by
    rw [rem_eq_cls L h]
    ext i
    simp only [Finset.mem_biUnion, Finset.mem_univ, true_and, Finset.mem_union, Fin.exists_fin_two]
  rw [hu]
  refine hj.trans ?_
  iintro H
  iexists _
  iexact H

end Cert.Kernel.Hand

end
-- ==== Proof.TileCover72W.lean ====
/-
  The products over a worker's row copies, written out.

  A worker runs nine chunks of eight rows, and copies each row out twice (the first and the last eight batch rows
  of its group): the two products of TileCoverI over pairs (chunk, row of the chunk) have 72 factors each. Here
  each is written as nine groups of eight, a group per chunk, so that every factor can be named on its own. The
  pairs are written through the constructors `t1of`, `t2of`, `t3of` of the loops' trip types (and, in the lemmas named
  `_lit`, as literals `⟨k, _⟩` of those types).
-/
import proofs.«204390_g6468220748199_cont_9to1_m_1136_17_alg».proof.Proof.TileCoverW
import proofs.«204390_g6468220748199_cont_9to1_m_1136_17_alg».proof.Proof.RowSpecW
import Idealize.ShloMosaic.Lib.SparseCore.Cells

noncomputable section

namespace Cert.Kernel.Hand

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- A product over the trips of `k0_t1_loop`, factor by factor. -/
theorem bigSep_trips1_lit (Ψ : Fin k0_t1_loop.trips → sProp 𝕄) :
    bigSep Finset.univ Ψ = iprop(Ψ ⟨0, by decide⟩ ∗ Ψ ⟨1, by decide⟩ ∗ Ψ ⟨2, by decide⟩ ∗ Ψ ⟨3, by decide⟩ ∗ Ψ ⟨4, by decide⟩ ∗ Ψ ⟨5, by decide⟩ ∗ Ψ ⟨6, by decide⟩ ∗ Ψ ⟨7, by decide⟩ ∗ Ψ ⟨8, by decide⟩) := by
  rw [show (Finset.univ : Finset (Fin k0_t1_loop.trips)) = {⟨0, by decide⟩, ⟨1, by decide⟩, ⟨2, by decide⟩, ⟨3, by decide⟩, ⟨4, by decide⟩, ⟨5, by decide⟩, ⟨6, by decide⟩, ⟨7, by decide⟩, ⟨8, by decide⟩} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- A product over the trips of `k0_t2_loop`, factor by factor. -/
theorem bigSep_trips2_lit (Ψ : Fin k0_t2_loop.trips → sProp 𝕄) :
    bigSep Finset.univ Ψ = iprop(Ψ ⟨0, by decide⟩ ∗ Ψ ⟨1, by decide⟩ ∗ Ψ ⟨2, by decide⟩ ∗ Ψ ⟨3, by decide⟩ ∗ Ψ ⟨4, by decide⟩ ∗ Ψ ⟨5, by decide⟩ ∗ Ψ ⟨6, by decide⟩ ∗ Ψ ⟨7, by decide⟩) := by
  rw [show (Finset.univ : Finset (Fin k0_t2_loop.trips)) = {⟨0, by decide⟩, ⟨1, by decide⟩, ⟨2, by decide⟩, ⟨3, by decide⟩, ⟨4, by decide⟩, ⟨5, by decide⟩, ⟨6, by decide⟩, ⟨7, by decide⟩} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- A product over the trips of `k0_t3_loop`, factor by factor. -/
theorem bigSep_trips3_lit (Ψ : Fin k0_t3_loop.trips → sProp 𝕄) :
    bigSep Finset.univ Ψ = iprop(Ψ ⟨0, by decide⟩ ∗ Ψ ⟨1, by decide⟩ ∗ Ψ ⟨2, by decide⟩ ∗ Ψ ⟨3, by decide⟩ ∗ Ψ ⟨4, by decide⟩ ∗ Ψ ⟨5, by decide⟩ ∗ Ψ ⟨6, by decide⟩ ∗ Ψ ⟨7, by decide⟩) := by
  rw [show (Finset.univ : Finset (Fin k0_t3_loop.trips)) = {⟨0, by decide⟩, ⟨1, by decide⟩, ⟨2, by decide⟩, ⟨3, by decide⟩, ⟨4, by decide⟩, ⟨5, by decide⟩, ⟨6, by decide⟩, ⟨7, by decide⟩} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- The same with the trips spelt `t1of k`. -/
theorem bigSep_trips1 (Ψ : Fin k0_t1_loop.trips → sProp 𝕄) :
    bigSep Finset.univ Ψ = iprop(Ψ (t1of 0) ∗ Ψ (t1of 1) ∗ Ψ (t1of 2) ∗ Ψ (t1of 3) ∗ Ψ (t1of 4) ∗ Ψ (t1of 5) ∗ Ψ (t1of 6) ∗ Ψ (t1of 7) ∗ Ψ (t1of 8)) := bigSep_trips1_lit Ψ

/-- The same with the trips spelt `t2of k`. -/
theorem bigSep_trips2 (Ψ : Fin k0_t2_loop.trips → sProp 𝕄) :
    bigSep Finset.univ Ψ = iprop(Ψ (t2of 0) ∗ Ψ (t2of 1) ∗ Ψ (t2of 2) ∗ Ψ (t2of 3) ∗ Ψ (t2of 4) ∗ Ψ (t2of 5) ∗ Ψ (t2of 6) ∗ Ψ (t2of 7)) := bigSep_trips2_lit Ψ

/-- The same with the trips spelt `t3of k`. -/
theorem bigSep_trips3 (Ψ : Fin k0_t3_loop.trips → sProp 𝕄) :
    bigSep Finset.univ Ψ = iprop(Ψ (t3of 0) ∗ Ψ (t3of 1) ∗ Ψ (t3of 2) ∗ Ψ (t3of 3) ∗ Ψ (t3of 4) ∗ Ψ (t3of 5) ∗ Ψ (t3of 6) ∗ Ψ (t3of 7)) := bigSep_trips3_lit Ψ

/-- The row copies of the first half: nine chunks of eight rows. -/
theorem rows0_expand (Φ : Fin k0_t1_loop.trips × Fin k0_t2_loop.trips → sProp 𝕄) :
    bigSep Finset.univ Φ = iprop(
      (Φ (t1of 0, t2of 0) ∗ Φ (t1of 0, t2of 1) ∗ Φ (t1of 0, t2of 2) ∗ Φ (t1of 0, t2of 3) ∗ Φ (t1of 0, t2of 4) ∗ Φ (t1of 0, t2of 5) ∗ Φ (t1of 0, t2of 6) ∗ Φ (t1of 0, t2of 7)) ∗
      (Φ (t1of 1, t2of 0) ∗ Φ (t1of 1, t2of 1) ∗ Φ (t1of 1, t2of 2) ∗ Φ (t1of 1, t2of 3) ∗ Φ (t1of 1, t2of 4) ∗ Φ (t1of 1, t2of 5) ∗ Φ (t1of 1, t2of 6) ∗ Φ (t1of 1, t2of 7)) ∗
      (Φ (t1of 2, t2of 0) ∗ Φ (t1of 2, t2of 1) ∗ Φ (t1of 2, t2of 2) ∗ Φ (t1of 2, t2of 3) ∗ Φ (t1of 2, t2of 4) ∗ Φ (t1of 2, t2of 5) ∗ Φ (t1of 2, t2of 6) ∗ Φ (t1of 2, t2of 7)) ∗
      (Φ (t1of 3, t2of 0) ∗ Φ (t1of 3, t2of 1) ∗ Φ (t1of 3, t2of 2) ∗ Φ (t1of 3, t2of 3) ∗ Φ (t1of 3, t2of 4) ∗ Φ (t1of 3, t2of 5) ∗ Φ (t1of 3, t2of 6) ∗ Φ (t1of 3, t2of 7)) ∗
      (Φ (t1of 4, t2of 0) ∗ Φ (t1of 4, t2of 1) ∗ Φ (t1of 4, t2of 2) ∗ Φ (t1of 4, t2of 3) ∗ Φ (t1of 4, t2of 4) ∗ Φ (t1of 4, t2of 5) ∗ Φ (t1of 4, t2of 6) ∗ Φ (t1of 4, t2of 7)) ∗
      (Φ (t1of 5, t2of 0) ∗ Φ (t1of 5, t2of 1) ∗ Φ (t1of 5, t2of 2) ∗ Φ (t1of 5, t2of 3) ∗ Φ (t1of 5, t2of 4) ∗ Φ (t1of 5, t2of 5) ∗ Φ (t1of 5, t2of 6) ∗ Φ (t1of 5, t2of 7)) ∗
      (Φ (t1of 6, t2of 0) ∗ Φ (t1of 6, t2of 1) ∗ Φ (t1of 6, t2of 2) ∗ Φ (t1of 6, t2of 3) ∗ Φ (t1of 6, t2of 4) ∗ Φ (t1of 6, t2of 5) ∗ Φ (t1of 6, t2of 6) ∗ Φ (t1of 6, t2of 7)) ∗
      (Φ (t1of 7, t2of 0) ∗ Φ (t1of 7, t2of 1) ∗ Φ (t1of 7, t2of 2) ∗ Φ (t1of 7, t2of 3) ∗ Φ (t1of 7, t2of 4) ∗ Φ (t1of 7, t2of 5) ∗ Φ (t1of 7, t2of 6) ∗ Φ (t1of 7, t2of 7)) ∗
      (Φ (t1of 8, t2of 0) ∗ Φ (t1of 8, t2of 1) ∗ Φ (t1of 8, t2of 2) ∗ Φ (t1of 8, t2of 3) ∗ Φ (t1of 8, t2of 4) ∗ Φ (t1of 8, t2of 5) ∗ Φ (t1of 8, t2of 6) ∗ Φ (t1of 8, t2of 7))) := by
  rw [bigSep_univ_prod, bigSep_trips1, bigSep_trips2, bigSep_trips2, bigSep_trips2, bigSep_trips2, bigSep_trips2, bigSep_trips2, bigSep_trips2, bigSep_trips2, bigSep_trips2]

/-- The row copies of the second half: nine chunks of eight rows. -/
theorem rows1_expand (Φ : Fin k0_t1_loop.trips × Fin k0_t3_loop.trips → sProp 𝕄) :
    bigSep Finset.univ Φ = iprop(
      (Φ (t1of 0, t3of 0) ∗ Φ (t1of 0, t3of 1) ∗ Φ (t1of 0, t3of 2) ∗ Φ (t1of 0, t3of 3) ∗ Φ (t1of 0, t3of 4) ∗ Φ (t1of 0, t3of 5) ∗ Φ (t1of 0, t3of 6) ∗ Φ (t1of 0, t3of 7)) ∗
      (Φ (t1of 1, t3of 0) ∗ Φ (t1of 1, t3of 1) ∗ Φ (t1of 1, t3of 2) ∗ Φ (t1of 1, t3of 3) ∗ Φ (t1of 1, t3of 4) ∗ Φ (t1of 1, t3of 5) ∗ Φ (t1of 1, t3of 6) ∗ Φ (t1of 1, t3of 7)) ∗
      (Φ (t1of 2, t3of 0) ∗ Φ (t1of 2, t3of 1) ∗ Φ (t1of 2, t3of 2) ∗ Φ (t1of 2, t3of 3) ∗ Φ (t1of 2, t3of 4) ∗ Φ (t1of 2, t3of 5) ∗ Φ (t1of 2, t3of 6) ∗ Φ (t1of 2, t3of 7)) ∗
      (Φ (t1of 3, t3of 0) ∗ Φ (t1of 3, t3of 1) ∗ Φ (t1of 3, t3of 2) ∗ Φ (t1of 3, t3of 3) ∗ Φ (t1of 3, t3of 4) ∗ Φ (t1of 3, t3of 5) ∗ Φ (t1of 3, t3of 6) ∗ Φ (t1of 3, t3of 7)) ∗
      (Φ (t1of 4, t3of 0) ∗ Φ (t1of 4, t3of 1) ∗ Φ (t1of 4, t3of 2) ∗ Φ (t1of 4, t3of 3) ∗ Φ (t1of 4, t3of 4) ∗ Φ (t1of 4, t3of 5) ∗ Φ (t1of 4, t3of 6) ∗ Φ (t1of 4, t3of 7)) ∗
      (Φ (t1of 5, t3of 0) ∗ Φ (t1of 5, t3of 1) ∗ Φ (t1of 5, t3of 2) ∗ Φ (t1of 5, t3of 3) ∗ Φ (t1of 5, t3of 4) ∗ Φ (t1of 5, t3of 5) ∗ Φ (t1of 5, t3of 6) ∗ Φ (t1of 5, t3of 7)) ∗
      (Φ (t1of 6, t3of 0) ∗ Φ (t1of 6, t3of 1) ∗ Φ (t1of 6, t3of 2) ∗ Φ (t1of 6, t3of 3) ∗ Φ (t1of 6, t3of 4) ∗ Φ (t1of 6, t3of 5) ∗ Φ (t1of 6, t3of 6) ∗ Φ (t1of 6, t3of 7)) ∗
      (Φ (t1of 7, t3of 0) ∗ Φ (t1of 7, t3of 1) ∗ Φ (t1of 7, t3of 2) ∗ Φ (t1of 7, t3of 3) ∗ Φ (t1of 7, t3of 4) ∗ Φ (t1of 7, t3of 5) ∗ Φ (t1of 7, t3of 6) ∗ Φ (t1of 7, t3of 7)) ∗
      (Φ (t1of 8, t3of 0) ∗ Φ (t1of 8, t3of 1) ∗ Φ (t1of 8, t3of 2) ∗ Φ (t1of 8, t3of 3) ∗ Φ (t1of 8, t3of 4) ∗ Φ (t1of 8, t3of 5) ∗ Φ (t1of 8, t3of 6) ∗ Φ (t1of 8, t3of 7))) := by
  rw [bigSep_univ_prod, bigSep_trips1, bigSep_trips3, bigSep_trips3, bigSep_trips3, bigSep_trips3, bigSep_trips3, bigSep_trips3, bigSep_trips3, bigSep_trips3, bigSep_trips3]

/-- The row copies of the first half, the pairs as literals. -/
theorem rows0_expand_lit (Φ : Fin k0_t1_loop.trips × Fin k0_t2_loop.trips → sProp 𝕄) :
    bigSep Finset.univ Φ = iprop(
      (Φ (⟨0, by decide⟩, ⟨0, by decide⟩) ∗ Φ (⟨0, by decide⟩, ⟨1, by decide⟩) ∗ Φ (⟨0, by decide⟩, ⟨2, by decide⟩) ∗ Φ (⟨0, by decide⟩, ⟨3, by decide⟩) ∗ Φ (⟨0, by decide⟩, ⟨4, by decide⟩) ∗ Φ (⟨0, by decide⟩, ⟨5, by decide⟩) ∗ Φ (⟨0, by decide⟩, ⟨6, by decide⟩) ∗ Φ (⟨0, by decide⟩, ⟨7, by decide⟩)) ∗
      (Φ (⟨1, by decide⟩, ⟨0, by decide⟩) ∗ Φ (⟨1, by decide⟩, ⟨1, by decide⟩) ∗ Φ (⟨1, by decide⟩, ⟨2, by decide⟩) ∗ Φ (⟨1, by decide⟩, ⟨3, by decide⟩) ∗ Φ (⟨1, by decide⟩, ⟨4, by decide⟩) ∗ Φ (⟨1, by decide⟩, ⟨5, by decide⟩) ∗ Φ (⟨1, by decide⟩, ⟨6, by decide⟩) ∗ Φ (⟨1, by decide⟩, ⟨7, by decide⟩)) ∗
      (Φ (⟨2, by decide⟩, ⟨0, by decide⟩) ∗ Φ (⟨2, by decide⟩, ⟨1, by decide⟩) ∗ Φ (⟨2, by decide⟩, ⟨2, by decide⟩) ∗ Φ (⟨2, by decide⟩, ⟨3, by decide⟩) ∗ Φ (⟨2, by decide⟩, ⟨4, by decide⟩) ∗ Φ (⟨2, by decide⟩, ⟨5, by decide⟩) ∗ Φ (⟨2, by decide⟩, ⟨6, by decide⟩) ∗ Φ (⟨2, by decide⟩, ⟨7, by decide⟩)) ∗
      (Φ (⟨3, by decide⟩, ⟨0, by decide⟩) ∗ Φ (⟨3, by decide⟩, ⟨1, by decide⟩) ∗ Φ (⟨3, by decide⟩, ⟨2, by decide⟩) ∗ Φ (⟨3, by decide⟩, ⟨3, by decide⟩) ∗ Φ (⟨3, by decide⟩, ⟨4, by decide⟩) ∗ Φ (⟨3, by decide⟩, ⟨5, by decide⟩) ∗ Φ (⟨3, by decide⟩, ⟨6, by decide⟩) ∗ Φ (⟨3, by decide⟩, ⟨7, by decide⟩)) ∗
      (Φ (⟨4, by decide⟩, ⟨0, by decide⟩) ∗ Φ (⟨4, by decide⟩, ⟨1, by decide⟩) ∗ Φ (⟨4, by decide⟩, ⟨2, by decide⟩) ∗ Φ (⟨4, by decide⟩, ⟨3, by decide⟩) ∗ Φ (⟨4, by decide⟩, ⟨4, by decide⟩) ∗ Φ (⟨4, by decide⟩, ⟨5, by decide⟩) ∗ Φ (⟨4, by decide⟩, ⟨6, by decide⟩) ∗ Φ (⟨4, by decide⟩, ⟨7, by decide⟩)) ∗
      (Φ (⟨5, by decide⟩, ⟨0, by decide⟩) ∗ Φ (⟨5, by decide⟩, ⟨1, by decide⟩) ∗ Φ (⟨5, by decide⟩, ⟨2, by decide⟩) ∗ Φ (⟨5, by decide⟩, ⟨3, by decide⟩) ∗ Φ (⟨5, by decide⟩, ⟨4, by decide⟩) ∗ Φ (⟨5, by decide⟩, ⟨5, by decide⟩) ∗ Φ (⟨5, by decide⟩, ⟨6, by decide⟩) ∗ Φ (⟨5, by decide⟩, ⟨7, by decide⟩)) ∗
      (Φ (⟨6, by decide⟩, ⟨0, by decide⟩) ∗ Φ (⟨6, by decide⟩, ⟨1, by decide⟩) ∗ Φ (⟨6, by decide⟩, ⟨2, by decide⟩) ∗ Φ (⟨6, by decide⟩, ⟨3, by decide⟩) ∗ Φ (⟨6, by decide⟩, ⟨4, by decide⟩) ∗ Φ (⟨6, by decide⟩, ⟨5, by decide⟩) ∗ Φ (⟨6, by decide⟩, ⟨6, by decide⟩) ∗ Φ (⟨6, by decide⟩, ⟨7, by decide⟩)) ∗
      (Φ (⟨7, by decide⟩, ⟨0, by decide⟩) ∗ Φ (⟨7, by decide⟩, ⟨1, by decide⟩) ∗ Φ (⟨7, by decide⟩, ⟨2, by decide⟩) ∗ Φ (⟨7, by decide⟩, ⟨3, by decide⟩) ∗ Φ (⟨7, by decide⟩, ⟨4, by decide⟩) ∗ Φ (⟨7, by decide⟩, ⟨5, by decide⟩) ∗ Φ (⟨7, by decide⟩, ⟨6, by decide⟩) ∗ Φ (⟨7, by decide⟩, ⟨7, by decide⟩)) ∗
      (Φ (⟨8, by decide⟩, ⟨0, by decide⟩) ∗ Φ (⟨8, by decide⟩, ⟨1, by decide⟩) ∗ Φ (⟨8, by decide⟩, ⟨2, by decide⟩) ∗ Φ (⟨8, by decide⟩, ⟨3, by decide⟩) ∗ Φ (⟨8, by decide⟩, ⟨4, by decide⟩) ∗ Φ (⟨8, by decide⟩, ⟨5, by decide⟩) ∗ Φ (⟨8, by decide⟩, ⟨6, by decide⟩) ∗ Φ (⟨8, by decide⟩, ⟨7, by decide⟩))) := by
  rw [bigSep_univ_prod, bigSep_trips1_lit, bigSep_trips2_lit, bigSep_trips2_lit, bigSep_trips2_lit, bigSep_trips2_lit, bigSep_trips2_lit, bigSep_trips2_lit, bigSep_trips2_lit, bigSep_trips2_lit, bigSep_trips2_lit]

/-- The row copies of the second half, the pairs as literals. -/
theorem rows1_expand_lit (Φ : Fin k0_t1_loop.trips × Fin k0_t3_loop.trips → sProp 𝕄) :
    bigSep Finset.univ Φ = iprop(
      (Φ (⟨0, by decide⟩, ⟨0, by decide⟩) ∗ Φ (⟨0, by decide⟩, ⟨1, by decide⟩) ∗ Φ (⟨0, by decide⟩, ⟨2, by decide⟩) ∗ Φ (⟨0, by decide⟩, ⟨3, by decide⟩) ∗ Φ (⟨0, by decide⟩, ⟨4, by decide⟩) ∗ Φ (⟨0, by decide⟩, ⟨5, by decide⟩) ∗ Φ (⟨0, by decide⟩, ⟨6, by decide⟩) ∗ Φ (⟨0, by decide⟩, ⟨7, by decide⟩)) ∗
      (Φ (⟨1, by decide⟩, ⟨0, by decide⟩) ∗ Φ (⟨1, by decide⟩, ⟨1, by decide⟩) ∗ Φ (⟨1, by decide⟩, ⟨2, by decide⟩) ∗ Φ (⟨1, by decide⟩, ⟨3, by decide⟩) ∗ Φ (⟨1, by decide⟩, ⟨4, by decide⟩) ∗ Φ (⟨1, by decide⟩, ⟨5, by decide⟩) ∗ Φ (⟨1, by decide⟩, ⟨6, by decide⟩) ∗ Φ (⟨1, by decide⟩, ⟨7, by decide⟩)) ∗
      (Φ (⟨2, by decide⟩, ⟨0, by decide⟩) ∗ Φ (⟨2, by decide⟩, ⟨1, by decide⟩) ∗ Φ (⟨2, by decide⟩, ⟨2, by decide⟩) ∗ Φ (⟨2, by decide⟩, ⟨3, by decide⟩) ∗ Φ (⟨2, by decide⟩, ⟨4, by decide⟩) ∗ Φ (⟨2, by decide⟩, ⟨5, by decide⟩) ∗ Φ (⟨2, by decide⟩, ⟨6, by decide⟩) ∗ Φ (⟨2, by decide⟩, ⟨7, by decide⟩)) ∗
      (Φ (⟨3, by decide⟩, ⟨0, by decide⟩) ∗ Φ (⟨3, by decide⟩, ⟨1, by decide⟩) ∗ Φ (⟨3, by decide⟩, ⟨2, by decide⟩) ∗ Φ (⟨3, by decide⟩, ⟨3, by decide⟩) ∗ Φ (⟨3, by decide⟩, ⟨4, by decide⟩) ∗ Φ (⟨3, by decide⟩, ⟨5, by decide⟩) ∗ Φ (⟨3, by decide⟩, ⟨6, by decide⟩) ∗ Φ (⟨3, by decide⟩, ⟨7, by decide⟩)) ∗
      (Φ (⟨4, by decide⟩, ⟨0, by decide⟩) ∗ Φ (⟨4, by decide⟩, ⟨1, by decide⟩) ∗ Φ (⟨4, by decide⟩, ⟨2, by decide⟩) ∗ Φ (⟨4, by decide⟩, ⟨3, by decide⟩) ∗ Φ (⟨4, by decide⟩, ⟨4, by decide⟩) ∗ Φ (⟨4, by decide⟩, ⟨5, by decide⟩) ∗ Φ (⟨4, by decide⟩, ⟨6, by decide⟩) ∗ Φ (⟨4, by decide⟩, ⟨7, by decide⟩)) ∗
      (Φ (⟨5, by decide⟩, ⟨0, by decide⟩) ∗ Φ (⟨5, by decide⟩, ⟨1, by decide⟩) ∗ Φ (⟨5, by decide⟩, ⟨2, by decide⟩) ∗ Φ (⟨5, by decide⟩, ⟨3, by decide⟩) ∗ Φ (⟨5, by decide⟩, ⟨4, by decide⟩) ∗ Φ (⟨5, by decide⟩, ⟨5, by decide⟩) ∗ Φ (⟨5, by decide⟩, ⟨6, by decide⟩) ∗ Φ (⟨5, by decide⟩, ⟨7, by decide⟩)) ∗
      (Φ (⟨6, by decide⟩, ⟨0, by decide⟩) ∗ Φ (⟨6, by decide⟩, ⟨1, by decide⟩) ∗ Φ (⟨6, by decide⟩, ⟨2, by decide⟩) ∗ Φ (⟨6, by decide⟩, ⟨3, by decide⟩) ∗ Φ (⟨6, by decide⟩, ⟨4, by decide⟩) ∗ Φ (⟨6, by decide⟩, ⟨5, by decide⟩) ∗ Φ (⟨6, by decide⟩, ⟨6, by decide⟩) ∗ Φ (⟨6, by decide⟩, ⟨7, by decide⟩)) ∗
      (Φ (⟨7, by decide⟩, ⟨0, by decide⟩) ∗ Φ (⟨7, by decide⟩, ⟨1, by decide⟩) ∗ Φ (⟨7, by decide⟩, ⟨2, by decide⟩) ∗ Φ (⟨7, by decide⟩, ⟨3, by decide⟩) ∗ Φ (⟨7, by decide⟩, ⟨4, by decide⟩) ∗ Φ (⟨7, by decide⟩, ⟨5, by decide⟩) ∗ Φ (⟨7, by decide⟩, ⟨6, by decide⟩) ∗ Φ (⟨7, by decide⟩, ⟨7, by decide⟩)) ∗
      (Φ (⟨8, by decide⟩, ⟨0, by decide⟩) ∗ Φ (⟨8, by decide⟩, ⟨1, by decide⟩) ∗ Φ (⟨8, by decide⟩, ⟨2, by decide⟩) ∗ Φ (⟨8, by decide⟩, ⟨3, by decide⟩) ∗ Φ (⟨8, by decide⟩, ⟨4, by decide⟩) ∗ Φ (⟨8, by decide⟩, ⟨5, by decide⟩) ∗ Φ (⟨8, by decide⟩, ⟨6, by decide⟩) ∗ Φ (⟨8, by decide⟩, ⟨7, by decide⟩))) := by
  rw [bigSep_univ_prod, bigSep_trips1_lit, bigSep_trips3_lit, bigSep_trips3_lit, bigSep_trips3_lit, bigSep_trips3_lit, bigSep_trips3_lit, bigSep_trips3_lit, bigSep_trips3_lit, bigSep_trips3_lit, bigSep_trips3_lit]

end Cert.Kernel.Hand

end
-- ==== Proof.BodyMainW.lean ====
/-
  One worker's body, run to the end.

  The worker (tile L of the grid, worker number w = 2 s + c) starts from read shares of the three inputs, its part of the
  positions-first output array, its two scratch buffers and its nine transfer semaphores at zero. The body's protocol
  involves no other worker: every copy it starts it waits for itself.

  * Before the loop it starts the copy of the first block of patches (eight batch rows by eight position rows) into
    staging slot 0.
  * Each of the nine chunks of eight position rows then goes: the chunk's eight rows of the position table are copied
    into the position scratch and awaited; slot 0's block is awaited; from the second chunk on, the eight row copies
    that left slot 1 during the previous chunk are awaited (eight waits in a row on slot 1's outgoing semaphore, the
    last of which knows all eight have landed), so slot 1 may be refilled: the second half's block is started into it;
    the first row loop adds the position rows to slot 0 row by row and starts each finished row's copy to the output;
    slot 1's block is awaited; except in the last chunk the eight copies out of slot 0 are awaited and the next chunk's
    first block is started into slot 0; the second row loop does for slot 1 what the first did for slot 0.
  * After the ninth chunk the last sixteen row copies are awaited. The first worker of each batch group (w % 8 = 0) then
    builds the class-token row — the class token plus the last position row, the same in every batch row — in slot 0
    and copies it to row 576 of the output for its sixteen batches, eight at a time.

  A slot's eight position rows are held apart while its row copies are in flight (each copy borrows exactly its row) and
  together while a block lands in it; the 144 output rows the worker copies to are held one by one, each lent to its copy
  and taken back when its batch of eight has landed. Nothing reads or writes a copy's source or destination between the
  copy's start and the wait that knows it has landed, so every wait returns what was lent, and at the end the worker
  holds its inputs' shares, its part of the output, its scratch buffers and its semaphores at zero again. What the
  output rows then hold is not named here (a row loop's trip is taken in the form that leaves the row unnamed).
-/
import proofs.«204390_g6468220748199_cont_9to1_m_1136_17_alg».proof.Proof.RowLoopW
import proofs.«204390_g6468220748199_cont_9to1_m_1136_17_alg».proof.Proof.BodyUtilW
import proofs.«204390_g6468220748199_cont_9to1_m_1136_17_alg».proof.Proof.TileRemW
import proofs.«204390_g6468220748199_cont_9to1_m_1136_17_alg».proof.Proof.TileCover72W

noncomputable section

namespace Cert.Kernel.Hand

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [∀ e, Nonempty (Elt F e)]
variable (m : (ℓ : Loc nD τ sig) → Buf (Elt F) ℓ)

local notation "𝕄" => MT nD τ sig (HIx 1) (Elt F) ℕ UU ℕ

set_option maxHeartbeats 400000000 in
/-- The body of any worker runs to the end and returns what it was handed, its part of the output at some contents. -/
theorem tile_body (hF : (K (F := F)).Facts) (h0 : ∀ d L, RowTrip0F (F := F) d L) (h1 : ∀ d L, RowTrip1F (F := F) d L) :
    TileBody (F := F) m Rtriv := by
  intro d L O W hO
  simp only [cc0__sc_kernel_eq_skeleton]; unfold cc0__sc_kernel_skel
  rw [(K (F := F)).scopedBufs_V hF d (cV L) (jV L), SparseCore.Cfg.scopedSems0_V (Val := Elt F) d (cV L) (jV L)]
  unfold goRes tdRes tileIn tileOut
  rw [show (ownBufs (V d (cV L) (jV L)) : sProp 𝕄) = ownBufs (thr d L) from rfl, ownBufs_thr,
    show (ownSems0 (V d (cV L) (jV L)) : sProp 𝕄) = ownSems0 (thr d L) from rfl, ownSems0_thr, bigSep_fin9, widN_eq_wid]
  iintro ⟨#Hlv, -, ⟨⟨Hx, Hp, Ht⟩, Ho⟩, ⟨⟨%fpos, Hpos⟩, ⟨%fslot, Hslot⟩, Hbufs⟩, ⟨Hs0, Hs1, Hs2, Hs3, Hs4, Hs5, Hs6, Hs7, Hs8⟩, HO⟩
  ihave Hmw := ((K (F := F)).mayWaits_none (thr := thr d L) hO) $$ Hlv
  ihave Hx' := (Entails.of_eq (pts_x (F := F) d L _ _).symm) $$ Hx
  ihave Hp' := (Entails.of_eq (pts_p (F := F) d L _ _).symm) $$ Hp
  ihave Ht' := (Entails.of_eq (pts_t (F := F) d L _ _).symm) $$ Ht
  ihave Hpos' := (Entails.of_eq (pts_pos (F := F) d L _).symm) $$ Hpos
  ihave Hslot' := (Entails.of_eq (pts_slot (F := F) d L _).symm) $$ Hslot
  -- the staging buffer as its two slots
  ihave Hsl := (Entails.of_eq (slotV_slots (F := F) d L fslot)) $$ Hslot'
  icases Hsl with ⟨Hslot0, Hslot1⟩
  -- the worker's part of the output: the 144 rows it copies to, one by one, and the rest (the class-token rows, if it has them)
  ihave Ho' := (Entails.of_eq (tileOut_rows_rem (F := F) d L (m (oLoc d)))) $$ Ho
  icases Ho' with ⟨HA, HB, Hrem⟩
  ihave HA' := (Entails.of_eq (rows0_expand (F := F) _)) $$ HA
  icases HA' with ⟨⟨A00, A01, A02, A03, A04, A05, A06, A07⟩, ⟨A10, A11, A12, A13, A14, A15, A16, A17⟩, ⟨A20, A21, A22, A23, A24, A25, A26, A27⟩, ⟨A30, A31, A32, A33, A34, A35, A36, A37⟩, ⟨A40, A41, A42, A43, A44, A45, A46, A47⟩, ⟨A50, A51, A52, A53, A54, A55, A56, A57⟩, ⟨A60, A61, A62, A63, A64, A65, A66, A67⟩, ⟨A70, A71, A72, A73, A74, A75, A76, A77⟩, ⟨A80, A81, A82, A83, A84, A85, A86, A87⟩⟩
  ihave HB' := (Entails.of_eq (rows1_expand (F := F) _)) $$ HB
  icases HB' with ⟨⟨B00, B01, B02, B03, B04, B05, B06, B07⟩, ⟨B10, B11, B12, B13, B14, B15, B16, B17⟩, ⟨B20, B21, B22, B23, B24, B25, B26, B27⟩, ⟨B30, B31, B32, B33, B34, B35, B36, B37⟩, ⟨B40, B41, B42, B43, B44, B45, B46, B47⟩, ⟨B50, B51, B52, B53, B54, B55, B56, B57⟩, ⟨B60, B61, B62, B63, B64, B65, B66, B67⟩, ⟨B70, B71, B72, B73, B74, B75, B76, B77⟩, ⟨B80, B81, B82, B83, B84, B85, B86, B87⟩⟩
  -- the first block is started; then the nine chunks
  sl_exec_parts
  sl_unroll
  -- chunk 0
  sl_exec_parts
  ihave Hrows := (Entails.of_eq (slot_rows8 (F := F) d L 0 Nat.zero_lt_two _)) $$ Hslot0
  icases Hrows with ⟨Hr0, Hr1, Hr2, Hr3, Hr4, Hr5, Hr6, Hr7⟩
  rw [wp_bind]
  iapply (wp_wand_r frame _ Set.univ)
  isplitl [Hs2 Hr0 Hr1 Hr2 Hr3 Hr4 Hr5 Hr6 Hr7 Hpos' A00 A01 A02 A03 A04 A05 A06 A07 HO]
  · iapply (row_loop0 (F := F) d L (h0 d L) (t1of 0) _ _ _ _ _ O _ _ _ _) $$ [Hs2 Hr0 Hr1 Hr2 Hr3 Hr4 Hr5 Hr6 Hr7 Hpos' A00 A01 A02 A03 A04 A05 A06 A07 HO]
    isplitr; · iexact Hmw
    isplitl [Hs2]; · iexact Hs2
    isplitl [Hr0 Hr1 Hr2 Hr3 Hr4 Hr5 Hr6 Hr7]
    · isplitl [Hr0]; · iexact Hr0
      isplitl [Hr1]; · iexact Hr1
      isplitl [Hr2]; · iexact Hr2
      isplitl [Hr3]; · iexact Hr3
      isplitl [Hr4]; · iexact Hr4
      isplitl [Hr5]; · iexact Hr5
      isplitl [Hr6]; · iexact Hr6
      iexact Hr7
    isplitl [Hpos']; · iexact Hpos'
    isplitl [A00 A01 A02 A03 A04 A05 A06 A07]
    · isplitl [A00]; · iexact A00
      isplitl [A01]; · iexact A01
      isplitl [A02]; · iexact A02
      isplitl [A03]; · iexact A03
      isplitl [A04]; · iexact A04
      isplitl [A05]; · iexact A05
      isplitl [A06]; · iexact A06
      iexact A07
    iexact HO
  iintro %_ ⟨%fa0_0, %fa0_1, %fa0_2, %fa0_3, %fa0_4, %fa0_5, %fa0_6, %fa0_7, Hpos', Hs2, HO⟩
  sl_exec_parts
  -- the eight copies have landed: slot 0's rows together again for the next block; the eight output rows are done
  ihave Hj := (slot_rows8_join' (F := F) d L 0 Nat.zero_lt_two _ _ _ _ _ _ _ _) $$ [Hs2_src0 Hs2_src1 Hs2_src2 Hs2_src3 Hs2_src4 Hs2_src5 Hs2_src6 Hs2_src7]
  · isplitl [Hs2_src0]; · iexact Hs2_src0
    isplitl [Hs2_src1]; · iexact Hs2_src1
    isplitl [Hs2_src2]; · iexact Hs2_src2
    isplitl [Hs2_src3]; · iexact Hs2_src3
    isplitl [Hs2_src4]; · iexact Hs2_src4
    isplitl [Hs2_src5]; · iexact Hs2_src5
    isplitl [Hs2_src6]; · iexact Hs2_src6
    iexact Hs2_src7
  icases Hj with ⟨%gs0_0, Hslot0⟩
  ihave Done0_0 := (ex8 (F := F) (fun f => (outRow0 L (t1of 0) (t2of 0)).view.loc (thr d L) ↦[(outRow0 L (t1of 0) (t2of 0)).view.set]{fullShare} f)
      (fun f => (outRow0 L (t1of 0) (t2of 1)).view.loc (thr d L) ↦[(outRow0 L (t1of 0) (t2of 1)).view.set]{fullShare} f)
      (fun f => (outRow0 L (t1of 0) (t2of 2)).view.loc (thr d L) ↦[(outRow0 L (t1of 0) (t2of 2)).view.set]{fullShare} f)
      (fun f => (outRow0 L (t1of 0) (t2of 3)).view.loc (thr d L) ↦[(outRow0 L (t1of 0) (t2of 3)).view.set]{fullShare} f)
      (fun f => (outRow0 L (t1of 0) (t2of 4)).view.loc (thr d L) ↦[(outRow0 L (t1of 0) (t2of 4)).view.set]{fullShare} f)
      (fun f => (outRow0 L (t1of 0) (t2of 5)).view.loc (thr d L) ↦[(outRow0 L (t1of 0) (t2of 5)).view.set]{fullShare} f)
      (fun f => (outRow0 L (t1of 0) (t2of 6)).view.loc (thr d L) ↦[(outRow0 L (t1of 0) (t2of 6)).view.set]{fullShare} f)
      (fun f => (outRow0 L (t1of 0) (t2of 7)).view.loc (thr d L) ↦[(outRow0 L (t1of 0) (t2of 7)).view.set]{fullShare} f) _ _ _ _ _ _ _ _) $$ [Hs2_dst0 Hs2_dst1 Hs2_dst2 Hs2_dst3 Hs2_dst4 Hs2_dst5 Hs2_dst6 Hs2_dst7]
  · isplitl [Hs2_dst0]; · iexact Hs2_dst0
    isplitl [Hs2_dst1]; · iexact Hs2_dst1
    isplitl [Hs2_dst2]; · iexact Hs2_dst2
    isplitl [Hs2_dst3]; · iexact Hs2_dst3
    isplitl [Hs2_dst4]; · iexact Hs2_dst4
    isplitl [Hs2_dst5]; · iexact Hs2_dst5
    isplitl [Hs2_dst6]; · iexact Hs2_dst6
    iexact Hs2_dst7
  sl_exec_parts
  ihave Hrows := (Entails.of_eq (slot_rows8 (F := F) d L 1 Nat.one_lt_two _)) $$ Hslot1
  icases Hrows with ⟨Hq0, Hq1, Hq2, Hq3, Hq4, Hq5, Hq6, Hq7⟩
  rw [wp_bind]
  iapply (wp_wand_r frame _ Set.univ)
  isplitl [Hs3 Hq0 Hq1 Hq2 Hq3 Hq4 Hq5 Hq6 Hq7 Hpos' B00 B01 B02 B03 B04 B05 B06 B07 HO]
  · iapply (row_loop1 (F := F) d L (h1 d L) (t1of 0) _ _ _ O _ _ _ _) $$ [Hs3 Hq0 Hq1 Hq2 Hq3 Hq4 Hq5 Hq6 Hq7 Hpos' B00 B01 B02 B03 B04 B05 B06 B07 HO]
    isplitr; · iexact Hmw
    isplitl [Hs3]; · iexact Hs3
    isplitl [Hq0 Hq1 Hq2 Hq3 Hq4 Hq5 Hq6 Hq7]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    isplitl [Hpos']; · iexact Hpos'
    isplitl [B00 B01 B02 B03 B04 B05 B06 B07]
    · isplitl [B00]; · iexact B00
      isplitl [B01]; · iexact B01
      isplitl [B02]; · iexact B02
      isplitl [B03]; · iexact B03
      isplitl [B04]; · iexact B04
      isplitl [B05]; · iexact B05
      isplitl [B06]; · iexact B06
      iexact B07
    iexact HO
  iintro %_ ⟨%fb0_0, %fb0_1, %fb0_2, %fb0_3, %fb0_4, %fb0_5, %fb0_6, %fb0_7, Hpos', Hs3, HO⟩
  -- chunk 1
  sl_exec_parts
  -- the eight copies have landed: slot 1's rows together again for the next block; the eight output rows are done
  ihave Hj := (slot_rows8_join' (F := F) d L 1 Nat.one_lt_two _ _ _ _ _ _ _ _) $$ [Hs3_src0 Hs3_src1 Hs3_src2 Hs3_src3 Hs3_src4 Hs3_src5 Hs3_src6 Hs3_src7]
  · isplitl [Hs3_src0]; · iexact Hs3_src0
    isplitl [Hs3_src1]; · iexact Hs3_src1
    isplitl [Hs3_src2]; · iexact Hs3_src2
    isplitl [Hs3_src3]; · iexact Hs3_src3
    isplitl [Hs3_src4]; · iexact Hs3_src4
    isplitl [Hs3_src5]; · iexact Hs3_src5
    isplitl [Hs3_src6]; · iexact Hs3_src6
    iexact Hs3_src7
  icases Hj with ⟨%gs1_1, Hslot1⟩
  ihave Done1_0 := (ex8 (F := F) (fun f => (outRow1 L (t1of 0) (t3of 0)).view.loc (thr d L) ↦[(outRow1 L (t1of 0) (t3of 0)).view.set]{fullShare} f)
      (fun f => (outRow1 L (t1of 0) (t3of 1)).view.loc (thr d L) ↦[(outRow1 L (t1of 0) (t3of 1)).view.set]{fullShare} f)
      (fun f => (outRow1 L (t1of 0) (t3of 2)).view.loc (thr d L) ↦[(outRow1 L (t1of 0) (t3of 2)).view.set]{fullShare} f)
      (fun f => (outRow1 L (t1of 0) (t3of 3)).view.loc (thr d L) ↦[(outRow1 L (t1of 0) (t3of 3)).view.set]{fullShare} f)
      (fun f => (outRow1 L (t1of 0) (t3of 4)).view.loc (thr d L) ↦[(outRow1 L (t1of 0) (t3of 4)).view.set]{fullShare} f)
      (fun f => (outRow1 L (t1of 0) (t3of 5)).view.loc (thr d L) ↦[(outRow1 L (t1of 0) (t3of 5)).view.set]{fullShare} f)
      (fun f => (outRow1 L (t1of 0) (t3of 6)).view.loc (thr d L) ↦[(outRow1 L (t1of 0) (t3of 6)).view.set]{fullShare} f)
      (fun f => (outRow1 L (t1of 0) (t3of 7)).view.loc (thr d L) ↦[(outRow1 L (t1of 0) (t3of 7)).view.set]{fullShare} f) _ _ _ _ _ _ _ _) $$ [Hs3_dst0 Hs3_dst1 Hs3_dst2 Hs3_dst3 Hs3_dst4 Hs3_dst5 Hs3_dst6 Hs3_dst7]
  · isplitl [Hs3_dst0]; · iexact Hs3_dst0
    isplitl [Hs3_dst1]; · iexact Hs3_dst1
    isplitl [Hs3_dst2]; · iexact Hs3_dst2
    isplitl [Hs3_dst3]; · iexact Hs3_dst3
    isplitl [Hs3_dst4]; · iexact Hs3_dst4
    isplitl [Hs3_dst5]; · iexact Hs3_dst5
    isplitl [Hs3_dst6]; · iexact Hs3_dst6
    iexact Hs3_dst7
  sl_exec_parts
  ihave Hrows := (Entails.of_eq (slot_rows8 (F := F) d L 0 Nat.zero_lt_two _)) $$ Hslot0
  icases Hrows with ⟨Hr0, Hr1, Hr2, Hr3, Hr4, Hr5, Hr6, Hr7⟩
  rw [wp_bind]
  iapply (wp_wand_r frame _ Set.univ)
  isplitl [Hs2 Hr0 Hr1 Hr2 Hr3 Hr4 Hr5 Hr6 Hr7 Hpos' A10 A11 A12 A13 A14 A15 A16 A17 HO]
  · iapply (row_loop0 (F := F) d L (h0 d L) (t1of 1) _ _ _ _ _ O _ _ _ _) $$ [Hs2 Hr0 Hr1 Hr2 Hr3 Hr4 Hr5 Hr6 Hr7 Hpos' A10 A11 A12 A13 A14 A15 A16 A17 HO]
    isplitr; · iexact Hmw
    isplitl [Hs2]; · iexact Hs2
    isplitl [Hr0 Hr1 Hr2 Hr3 Hr4 Hr5 Hr6 Hr7]
    · isplitl [Hr0]; · iexact Hr0
      isplitl [Hr1]; · iexact Hr1
      isplitl [Hr2]; · iexact Hr2
      isplitl [Hr3]; · iexact Hr3
      isplitl [Hr4]; · iexact Hr4
      isplitl [Hr5]; · iexact Hr5
      isplitl [Hr6]; · iexact Hr6
      iexact Hr7
    isplitl [Hpos']; · iexact Hpos'
    isplitl [A10 A11 A12 A13 A14 A15 A16 A17]
    · isplitl [A10]; · iexact A10
      isplitl [A11]; · iexact A11
      isplitl [A12]; · iexact A12
      isplitl [A13]; · iexact A13
      isplitl [A14]; · iexact A14
      isplitl [A15]; · iexact A15
      isplitl [A16]; · iexact A16
      iexact A17
    iexact HO
  iintro %_ ⟨%fa1_0, %fa1_1, %fa1_2, %fa1_3, %fa1_4, %fa1_5, %fa1_6, %fa1_7, Hpos', Hs2, HO⟩
  sl_exec_parts
  -- the eight copies have landed: slot 0's rows together again for the next block; the eight output rows are done
  ihave Hj := (slot_rows8_join' (F := F) d L 0 Nat.zero_lt_two _ _ _ _ _ _ _ _) $$ [Hs2_src0 Hs2_src1 Hs2_src2 Hs2_src3 Hs2_src4 Hs2_src5 Hs2_src6 Hs2_src7]
  · isplitl [Hs2_src0]; · iexact Hs2_src0
    isplitl [Hs2_src1]; · iexact Hs2_src1
    isplitl [Hs2_src2]; · iexact Hs2_src2
    isplitl [Hs2_src3]; · iexact Hs2_src3
    isplitl [Hs2_src4]; · iexact Hs2_src4
    isplitl [Hs2_src5]; · iexact Hs2_src5
    isplitl [Hs2_src6]; · iexact Hs2_src6
    iexact Hs2_src7
  icases Hj with ⟨%gs0_1, Hslot0⟩
  ihave Done0_1 := (ex8 (F := F) (fun f => (outRow0 L (t1of 1) (t2of 0)).view.loc (thr d L) ↦[(outRow0 L (t1of 1) (t2of 0)).view.set]{fullShare} f)
      (fun f => (outRow0 L (t1of 1) (t2of 1)).view.loc (thr d L) ↦[(outRow0 L (t1of 1) (t2of 1)).view.set]{fullShare} f)
      (fun f => (outRow0 L (t1of 1) (t2of 2)).view.loc (thr d L) ↦[(outRow0 L (t1of 1) (t2of 2)).view.set]{fullShare} f)
      (fun f => (outRow0 L (t1of 1) (t2of 3)).view.loc (thr d L) ↦[(outRow0 L (t1of 1) (t2of 3)).view.set]{fullShare} f)
      (fun f => (outRow0 L (t1of 1) (t2of 4)).view.loc (thr d L) ↦[(outRow0 L (t1of 1) (t2of 4)).view.set]{fullShare} f)
      (fun f => (outRow0 L (t1of 1) (t2of 5)).view.loc (thr d L) ↦[(outRow0 L (t1of 1) (t2of 5)).view.set]{fullShare} f)
      (fun f => (outRow0 L (t1of 1) (t2of 6)).view.loc (thr d L) ↦[(outRow0 L (t1of 1) (t2of 6)).view.set]{fullShare} f)
      (fun f => (outRow0 L (t1of 1) (t2of 7)).view.loc (thr d L) ↦[(outRow0 L (t1of 1) (t2of 7)).view.set]{fullShare} f) _ _ _ _ _ _ _ _) $$ [Hs2_dst0 Hs2_dst1 Hs2_dst2 Hs2_dst3 Hs2_dst4 Hs2_dst5 Hs2_dst6 Hs2_dst7]
  · isplitl [Hs2_dst0]; · iexact Hs2_dst0
    isplitl [Hs2_dst1]; · iexact Hs2_dst1
    isplitl [Hs2_dst2]; · iexact Hs2_dst2
    isplitl [Hs2_dst3]; · iexact Hs2_dst3
    isplitl [Hs2_dst4]; · iexact Hs2_dst4
    isplitl [Hs2_dst5]; · iexact Hs2_dst5
    isplitl [Hs2_dst6]; · iexact Hs2_dst6
    iexact Hs2_dst7
  sl_exec_parts
  ihave Hrows := (Entails.of_eq (slot_rows8 (F := F) d L 1 Nat.one_lt_two _)) $$ Hslot1
  icases Hrows with ⟨Hq0, Hq1, Hq2, Hq3, Hq4, Hq5, Hq6, Hq7⟩
  rw [wp_bind]
  iapply (wp_wand_r frame _ Set.univ)
  isplitl [Hs3 Hq0 Hq1 Hq2 Hq3 Hq4 Hq5 Hq6 Hq7 Hpos' B10 B11 B12 B13 B14 B15 B16 B17 HO]
  · iapply (row_loop1 (F := F) d L (h1 d L) (t1of 1) _ _ _ O _ _ _ _) $$ [Hs3 Hq0 Hq1 Hq2 Hq3 Hq4 Hq5 Hq6 Hq7 Hpos' B10 B11 B12 B13 B14 B15 B16 B17 HO]
    isplitr; · iexact Hmw
    isplitl [Hs3]; · iexact Hs3
    isplitl [Hq0 Hq1 Hq2 Hq3 Hq4 Hq5 Hq6 Hq7]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    isplitl [Hpos']; · iexact Hpos'
    isplitl [B10 B11 B12 B13 B14 B15 B16 B17]
    · isplitl [B10]; · iexact B10
      isplitl [B11]; · iexact B11
      isplitl [B12]; · iexact B12
      isplitl [B13]; · iexact B13
      isplitl [B14]; · iexact B14
      isplitl [B15]; · iexact B15
      isplitl [B16]; · iexact B16
      iexact B17
    iexact HO
  iintro %_ ⟨%fb1_0, %fb1_1, %fb1_2, %fb1_3, %fb1_4, %fb1_5, %fb1_6, %fb1_7, Hpos', Hs3, HO⟩
  -- chunk 2
  sl_exec_parts
  -- the eight copies have landed: slot 1's rows together again for the next block; the eight output rows are done
  ihave Hj := (slot_rows8_join' (F := F) d L 1 Nat.one_lt_two _ _ _ _ _ _ _ _) $$ [Hs3_src0 Hs3_src1 Hs3_src2 Hs3_src3 Hs3_src4 Hs3_src5 Hs3_src6 Hs3_src7]
  · isplitl [Hs3_src0]; · iexact Hs3_src0
    isplitl [Hs3_src1]; · iexact Hs3_src1
    isplitl [Hs3_src2]; · iexact Hs3_src2
    isplitl [Hs3_src3]; · iexact Hs3_src3
    isplitl [Hs3_src4]; · iexact Hs3_src4
    isplitl [Hs3_src5]; · iexact Hs3_src5
    isplitl [Hs3_src6]; · iexact Hs3_src6
    iexact Hs3_src7
  icases Hj with ⟨%gs1_2, Hslot1⟩
  ihave Done1_1 := (ex8 (F := F) (fun f => (outRow1 L (t1of 1) (t3of 0)).view.loc (thr d L) ↦[(outRow1 L (t1of 1) (t3of 0)).view.set]{fullShare} f)
      (fun f => (outRow1 L (t1of 1) (t3of 1)).view.loc (thr d L) ↦[(outRow1 L (t1of 1) (t3of 1)).view.set]{fullShare} f)
      (fun f => (outRow1 L (t1of 1) (t3of 2)).view.loc (thr d L) ↦[(outRow1 L (t1of 1) (t3of 2)).view.set]{fullShare} f)
      (fun f => (outRow1 L (t1of 1) (t3of 3)).view.loc (thr d L) ↦[(outRow1 L (t1of 1) (t3of 3)).view.set]{fullShare} f)
      (fun f => (outRow1 L (t1of 1) (t3of 4)).view.loc (thr d L) ↦[(outRow1 L (t1of 1) (t3of 4)).view.set]{fullShare} f)
      (fun f => (outRow1 L (t1of 1) (t3of 5)).view.loc (thr d L) ↦[(outRow1 L (t1of 1) (t3of 5)).view.set]{fullShare} f)
      (fun f => (outRow1 L (t1of 1) (t3of 6)).view.loc (thr d L) ↦[(outRow1 L (t1of 1) (t3of 6)).view.set]{fullShare} f)
      (fun f => (outRow1 L (t1of 1) (t3of 7)).view.loc (thr d L) ↦[(outRow1 L (t1of 1) (t3of 7)).view.set]{fullShare} f) _ _ _ _ _ _ _ _) $$ [Hs3_dst0 Hs3_dst1 Hs3_dst2 Hs3_dst3 Hs3_dst4 Hs3_dst5 Hs3_dst6 Hs3_dst7]
  · isplitl [Hs3_dst0]; · iexact Hs3_dst0
    isplitl [Hs3_dst1]; · iexact Hs3_dst1
    isplitl [Hs3_dst2]; · iexact Hs3_dst2
    isplitl [Hs3_dst3]; · iexact Hs3_dst3
    isplitl [Hs3_dst4]; · iexact Hs3_dst4
    isplitl [Hs3_dst5]; · iexact Hs3_dst5
    isplitl [Hs3_dst6]; · iexact Hs3_dst6
    iexact Hs3_dst7
  sl_exec_parts
  ihave Hrows := (Entails.of_eq (slot_rows8 (F := F) d L 0 Nat.zero_lt_two _)) $$ Hslot0
  icases Hrows with ⟨Hr0, Hr1, Hr2, Hr3, Hr4, Hr5, Hr6, Hr7⟩
  rw [wp_bind]
  iapply (wp_wand_r frame _ Set.univ)
  isplitl [Hs2 Hr0 Hr1 Hr2 Hr3 Hr4 Hr5 Hr6 Hr7 Hpos' A20 A21 A22 A23 A24 A25 A26 A27 HO]
  · iapply (row_loop0 (F := F) d L (h0 d L) (t1of 2) _ _ _ _ _ O _ _ _ _) $$ [Hs2 Hr0 Hr1 Hr2 Hr3 Hr4 Hr5 Hr6 Hr7 Hpos' A20 A21 A22 A23 A24 A25 A26 A27 HO]
    isplitr; · iexact Hmw
    isplitl [Hs2]; · iexact Hs2
    isplitl [Hr0 Hr1 Hr2 Hr3 Hr4 Hr5 Hr6 Hr7]
    · isplitl [Hr0]; · iexact Hr0
      isplitl [Hr1]; · iexact Hr1
      isplitl [Hr2]; · iexact Hr2
      isplitl [Hr3]; · iexact Hr3
      isplitl [Hr4]; · iexact Hr4
      isplitl [Hr5]; · iexact Hr5
      isplitl [Hr6]; · iexact Hr6
      iexact Hr7
    isplitl [Hpos']; · iexact Hpos'
    isplitl [A20 A21 A22 A23 A24 A25 A26 A27]
    · isplitl [A20]; · iexact A20
      isplitl [A21]; · iexact A21
      isplitl [A22]; · iexact A22
      isplitl [A23]; · iexact A23
      isplitl [A24]; · iexact A24
      isplitl [A25]; · iexact A25
      isplitl [A26]; · iexact A26
      iexact A27
    iexact HO
  iintro %_ ⟨%fa2_0, %fa2_1, %fa2_2, %fa2_3, %fa2_4, %fa2_5, %fa2_6, %fa2_7, Hpos', Hs2, HO⟩
  sl_exec_parts
  -- the eight copies have landed: slot 0's rows together again for the next block; the eight output rows are done
  ihave Hj := (slot_rows8_join' (F := F) d L 0 Nat.zero_lt_two _ _ _ _ _ _ _ _) $$ [Hs2_src0 Hs2_src1 Hs2_src2 Hs2_src3 Hs2_src4 Hs2_src5 Hs2_src6 Hs2_src7]
  · isplitl [Hs2_src0]; · iexact Hs2_src0
    isplitl [Hs2_src1]; · iexact Hs2_src1
    isplitl [Hs2_src2]; · iexact Hs2_src2
    isplitl [Hs2_src3]; · iexact Hs2_src3
    isplitl [Hs2_src4]; · iexact Hs2_src4
    isplitl [Hs2_src5]; · iexact Hs2_src5
    isplitl [Hs2_src6]; · iexact Hs2_src6
    iexact Hs2_src7
  icases Hj with ⟨%gs0_2, Hslot0⟩
  ihave Done0_2 := (ex8 (F := F) (fun f => (outRow0 L (t1of 2) (t2of 0)).view.loc (thr d L) ↦[(outRow0 L (t1of 2) (t2of 0)).view.set]{fullShare} f)
      (fun f => (outRow0 L (t1of 2) (t2of 1)).view.loc (thr d L) ↦[(outRow0 L (t1of 2) (t2of 1)).view.set]{fullShare} f)
      (fun f => (outRow0 L (t1of 2) (t2of 2)).view.loc (thr d L) ↦[(outRow0 L (t1of 2) (t2of 2)).view.set]{fullShare} f)
      (fun f => (outRow0 L (t1of 2) (t2of 3)).view.loc (thr d L) ↦[(outRow0 L (t1of 2) (t2of 3)).view.set]{fullShare} f)
      (fun f => (outRow0 L (t1of 2) (t2of 4)).view.loc (thr d L) ↦[(outRow0 L (t1of 2) (t2of 4)).view.set]{fullShare} f)
      (fun f => (outRow0 L (t1of 2) (t2of 5)).view.loc (thr d L) ↦[(outRow0 L (t1of 2) (t2of 5)).view.set]{fullShare} f)
      (fun f => (outRow0 L (t1of 2) (t2of 6)).view.loc (thr d L) ↦[(outRow0 L (t1of 2) (t2of 6)).view.set]{fullShare} f)
      (fun f => (outRow0 L (t1of 2) (t2of 7)).view.loc (thr d L) ↦[(outRow0 L (t1of 2) (t2of 7)).view.set]{fullShare} f) _ _ _ _ _ _ _ _) $$ [Hs2_dst0 Hs2_dst1 Hs2_dst2 Hs2_dst3 Hs2_dst4 Hs2_dst5 Hs2_dst6 Hs2_dst7]
  · isplitl [Hs2_dst0]; · iexact Hs2_dst0
    isplitl [Hs2_dst1]; · iexact Hs2_dst1
    isplitl [Hs2_dst2]; · iexact Hs2_dst2
    isplitl [Hs2_dst3]; · iexact Hs2_dst3
    isplitl [Hs2_dst4]; · iexact Hs2_dst4
    isplitl [Hs2_dst5]; · iexact Hs2_dst5
    isplitl [Hs2_dst6]; · iexact Hs2_dst6
    iexact Hs2_dst7
  sl_exec_parts
  ihave Hrows := (Entails.of_eq (slot_rows8 (F := F) d L 1 Nat.one_lt_two _)) $$ Hslot1
  icases Hrows with ⟨Hq0, Hq1, Hq2, Hq3, Hq4, Hq5, Hq6, Hq7⟩
  rw [wp_bind]
  iapply (wp_wand_r frame _ Set.univ)
  isplitl [Hs3 Hq0 Hq1 Hq2 Hq3 Hq4 Hq5 Hq6 Hq7 Hpos' B20 B21 B22 B23 B24 B25 B26 B27 HO]
  · iapply (row_loop1 (F := F) d L (h1 d L) (t1of 2) _ _ _ O _ _ _ _) $$ [Hs3 Hq0 Hq1 Hq2 Hq3 Hq4 Hq5 Hq6 Hq7 Hpos' B20 B21 B22 B23 B24 B25 B26 B27 HO]
    isplitr; · iexact Hmw
    isplitl [Hs3]; · iexact Hs3
    isplitl [Hq0 Hq1 Hq2 Hq3 Hq4 Hq5 Hq6 Hq7]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    isplitl [Hpos']; · iexact Hpos'
    isplitl [B20 B21 B22 B23 B24 B25 B26 B27]
    · isplitl [B20]; · iexact B20
      isplitl [B21]; · iexact B21
      isplitl [B22]; · iexact B22
      isplitl [B23]; · iexact B23
      isplitl [B24]; · iexact B24
      isplitl [B25]; · iexact B25
      isplitl [B26]; · iexact B26
      iexact B27
    iexact HO
  iintro %_ ⟨%fb2_0, %fb2_1, %fb2_2, %fb2_3, %fb2_4, %fb2_5, %fb2_6, %fb2_7, Hpos', Hs3, HO⟩
  -- chunk 3
  sl_exec_parts
  -- the eight copies have landed: slot 1's rows together again for the next block; the eight output rows are done
  ihave Hj := (slot_rows8_join' (F := F) d L 1 Nat.one_lt_two _ _ _ _ _ _ _ _) $$ [Hs3_src0 Hs3_src1 Hs3_src2 Hs3_src3 Hs3_src4 Hs3_src5 Hs3_src6 Hs3_src7]
  · isplitl [Hs3_src0]; · iexact Hs3_src0
    isplitl [Hs3_src1]; · iexact Hs3_src1
    isplitl [Hs3_src2]; · iexact Hs3_src2
    isplitl [Hs3_src3]; · iexact Hs3_src3
    isplitl [Hs3_src4]; · iexact Hs3_src4
    isplitl [Hs3_src5]; · iexact Hs3_src5
    isplitl [Hs3_src6]; · iexact Hs3_src6
    iexact Hs3_src7
  icases Hj with ⟨%gs1_3, Hslot1⟩
  ihave Done1_2 := (ex8 (F := F) (fun f => (outRow1 L (t1of 2) (t3of 0)).view.loc (thr d L) ↦[(outRow1 L (t1of 2) (t3of 0)).view.set]{fullShare} f)
      (fun f => (outRow1 L (t1of 2) (t3of 1)).view.loc (thr d L) ↦[(outRow1 L (t1of 2) (t3of 1)).view.set]{fullShare} f)
      (fun f => (outRow1 L (t1of 2) (t3of 2)).view.loc (thr d L) ↦[(outRow1 L (t1of 2) (t3of 2)).view.set]{fullShare} f)
      (fun f => (outRow1 L (t1of 2) (t3of 3)).view.loc (thr d L) ↦[(outRow1 L (t1of 2) (t3of 3)).view.set]{fullShare} f)
      (fun f => (outRow1 L (t1of 2) (t3of 4)).view.loc (thr d L) ↦[(outRow1 L (t1of 2) (t3of 4)).view.set]{fullShare} f)
      (fun f => (outRow1 L (t1of 2) (t3of 5)).view.loc (thr d L) ↦[(outRow1 L (t1of 2) (t3of 5)).view.set]{fullShare} f)
      (fun f => (outRow1 L (t1of 2) (t3of 6)).view.loc (thr d L) ↦[(outRow1 L (t1of 2) (t3of 6)).view.set]{fullShare} f)
      (fun f => (outRow1 L (t1of 2) (t3of 7)).view.loc (thr d L) ↦[(outRow1 L (t1of 2) (t3of 7)).view.set]{fullShare} f) _ _ _ _ _ _ _ _) $$ [Hs3_dst0 Hs3_dst1 Hs3_dst2 Hs3_dst3 Hs3_dst4 Hs3_dst5 Hs3_dst6 Hs3_dst7]
  · isplitl [Hs3_dst0]; · iexact Hs3_dst0
    isplitl [Hs3_dst1]; · iexact Hs3_dst1
    isplitl [Hs3_dst2]; · iexact Hs3_dst2
    isplitl [Hs3_dst3]; · iexact Hs3_dst3
    isplitl [Hs3_dst4]; · iexact Hs3_dst4
    isplitl [Hs3_dst5]; · iexact Hs3_dst5
    isplitl [Hs3_dst6]; · iexact Hs3_dst6
    iexact Hs3_dst7
  sl_exec_parts
  ihave Hrows := (Entails.of_eq (slot_rows8 (F := F) d L 0 Nat.zero_lt_two _)) $$ Hslot0
  icases Hrows with ⟨Hr0, Hr1, Hr2, Hr3, Hr4, Hr5, Hr6, Hr7⟩
  rw [wp_bind]
  iapply (wp_wand_r frame _ Set.univ)
  isplitl [Hs2 Hr0 Hr1 Hr2 Hr3 Hr4 Hr5 Hr6 Hr7 Hpos' A30 A31 A32 A33 A34 A35 A36 A37 HO]
  · iapply (row_loop0 (F := F) d L (h0 d L) (t1of 3) _ _ _ _ _ O _ _ _ _) $$ [Hs2 Hr0 Hr1 Hr2 Hr3 Hr4 Hr5 Hr6 Hr7 Hpos' A30 A31 A32 A33 A34 A35 A36 A37 HO]
    isplitr; · iexact Hmw
    isplitl [Hs2]; · iexact Hs2
    isplitl [Hr0 Hr1 Hr2 Hr3 Hr4 Hr5 Hr6 Hr7]
    · isplitl [Hr0]; · iexact Hr0
      isplitl [Hr1]; · iexact Hr1
      isplitl [Hr2]; · iexact Hr2
      isplitl [Hr3]; · iexact Hr3
      isplitl [Hr4]; · iexact Hr4
      isplitl [Hr5]; · iexact Hr5
      isplitl [Hr6]; · iexact Hr6
      iexact Hr7
    isplitl [Hpos']; · iexact Hpos'
    isplitl [A30 A31 A32 A33 A34 A35 A36 A37]
    · isplitl [A30]; · iexact A30
      isplitl [A31]; · iexact A31
      isplitl [A32]; · iexact A32
      isplitl [A33]; · iexact A33
      isplitl [A34]; · iexact A34
      isplitl [A35]; · iexact A35
      isplitl [A36]; · iexact A36
      iexact A37
    iexact HO
  iintro %_ ⟨%fa3_0, %fa3_1, %fa3_2, %fa3_3, %fa3_4, %fa3_5, %fa3_6, %fa3_7, Hpos', Hs2, HO⟩
  sl_exec_parts
  -- the eight copies have landed: slot 0's rows together again for the next block; the eight output rows are done
  ihave Hj := (slot_rows8_join' (F := F) d L 0 Nat.zero_lt_two _ _ _ _ _ _ _ _) $$ [Hs2_src0 Hs2_src1 Hs2_src2 Hs2_src3 Hs2_src4 Hs2_src5 Hs2_src6 Hs2_src7]
  · isplitl [Hs2_src0]; · iexact Hs2_src0
    isplitl [Hs2_src1]; · iexact Hs2_src1
    isplitl [Hs2_src2]; · iexact Hs2_src2
    isplitl [Hs2_src3]; · iexact Hs2_src3
    isplitl [Hs2_src4]; · iexact Hs2_src4
    isplitl [Hs2_src5]; · iexact Hs2_src5
    isplitl [Hs2_src6]; · iexact Hs2_src6
    iexact Hs2_src7
  icases Hj with ⟨%gs0_3, Hslot0⟩
  ihave Done0_3 := (ex8 (F := F) (fun f => (outRow0 L (t1of 3) (t2of 0)).view.loc (thr d L) ↦[(outRow0 L (t1of 3) (t2of 0)).view.set]{fullShare} f)
      (fun f => (outRow0 L (t1of 3) (t2of 1)).view.loc (thr d L) ↦[(outRow0 L (t1of 3) (t2of 1)).view.set]{fullShare} f)
      (fun f => (outRow0 L (t1of 3) (t2of 2)).view.loc (thr d L) ↦[(outRow0 L (t1of 3) (t2of 2)).view.set]{fullShare} f)
      (fun f => (outRow0 L (t1of 3) (t2of 3)).view.loc (thr d L) ↦[(outRow0 L (t1of 3) (t2of 3)).view.set]{fullShare} f)
      (fun f => (outRow0 L (t1of 3) (t2of 4)).view.loc (thr d L) ↦[(outRow0 L (t1of 3) (t2of 4)).view.set]{fullShare} f)
      (fun f => (outRow0 L (t1of 3) (t2of 5)).view.loc (thr d L) ↦[(outRow0 L (t1of 3) (t2of 5)).view.set]{fullShare} f)
      (fun f => (outRow0 L (t1of 3) (t2of 6)).view.loc (thr d L) ↦[(outRow0 L (t1of 3) (t2of 6)).view.set]{fullShare} f)
      (fun f => (outRow0 L (t1of 3) (t2of 7)).view.loc (thr d L) ↦[(outRow0 L (t1of 3) (t2of 7)).view.set]{fullShare} f) _ _ _ _ _ _ _ _) $$ [Hs2_dst0 Hs2_dst1 Hs2_dst2 Hs2_dst3 Hs2_dst4 Hs2_dst5 Hs2_dst6 Hs2_dst7]
  · isplitl [Hs2_dst0]; · iexact Hs2_dst0
    isplitl [Hs2_dst1]; · iexact Hs2_dst1
    isplitl [Hs2_dst2]; · iexact Hs2_dst2
    isplitl [Hs2_dst3]; · iexact Hs2_dst3
    isplitl [Hs2_dst4]; · iexact Hs2_dst4
    isplitl [Hs2_dst5]; · iexact Hs2_dst5
    isplitl [Hs2_dst6]; · iexact Hs2_dst6
    iexact Hs2_dst7
  sl_exec_parts
  ihave Hrows := (Entails.of_eq (slot_rows8 (F := F) d L 1 Nat.one_lt_two _)) $$ Hslot1
  icases Hrows with ⟨Hq0, Hq1, Hq2, Hq3, Hq4, Hq5, Hq6, Hq7⟩
  rw [wp_bind]
  iapply (wp_wand_r frame _ Set.univ)
  isplitl [Hs3 Hq0 Hq1 Hq2 Hq3 Hq4 Hq5 Hq6 Hq7 Hpos' B30 B31 B32 B33 B34 B35 B36 B37 HO]
  · iapply (row_loop1 (F := F) d L (h1 d L) (t1of 3) _ _ _ O _ _ _ _) $$ [Hs3 Hq0 Hq1 Hq2 Hq3 Hq4 Hq5 Hq6 Hq7 Hpos' B30 B31 B32 B33 B34 B35 B36 B37 HO]
    isplitr; · iexact Hmw
    isplitl [Hs3]; · iexact Hs3
    isplitl [Hq0 Hq1 Hq2 Hq3 Hq4 Hq5 Hq6 Hq7]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    isplitl [Hpos']; · iexact Hpos'
    isplitl [B30 B31 B32 B33 B34 B35 B36 B37]
    · isplitl [B30]; · iexact B30
      isplitl [B31]; · iexact B31
      isplitl [B32]; · iexact B32
      isplitl [B33]; · iexact B33
      isplitl [B34]; · iexact B34
      isplitl [B35]; · iexact B35
      isplitl [B36]; · iexact B36
      iexact B37
    iexact HO
  iintro %_ ⟨%fb3_0, %fb3_1, %fb3_2, %fb3_3, %fb3_4, %fb3_5, %fb3_6, %fb3_7, Hpos', Hs3, HO⟩
  -- chunk 4
  sl_exec_parts
  -- the eight copies have landed: slot 1's rows together again for the next block; the eight output rows are done
  ihave Hj := (slot_rows8_join' (F := F) d L 1 Nat.one_lt_two _ _ _ _ _ _ _ _) $$ [Hs3_src0 Hs3_src1 Hs3_src2 Hs3_src3 Hs3_src4 Hs3_src5 Hs3_src6 Hs3_src7]
  · isplitl [Hs3_src0]; · iexact Hs3_src0
    isplitl [Hs3_src1]; · iexact Hs3_src1
    isplitl [Hs3_src2]; · iexact Hs3_src2
    isplitl [Hs3_src3]; · iexact Hs3_src3
    isplitl [Hs3_src4]; · iexact Hs3_src4
    isplitl [Hs3_src5]; · iexact Hs3_src5
    isplitl [Hs3_src6]; · iexact Hs3_src6
    iexact Hs3_src7
  icases Hj with ⟨%gs1_4, Hslot1⟩
  ihave Done1_3 := (ex8 (F := F) (fun f => (outRow1 L (t1of 3) (t3of 0)).view.loc (thr d L) ↦[(outRow1 L (t1of 3) (t3of 0)).view.set]{fullShare} f)
      (fun f => (outRow1 L (t1of 3) (t3of 1)).view.loc (thr d L) ↦[(outRow1 L (t1of 3) (t3of 1)).view.set]{fullShare} f)
      (fun f => (outRow1 L (t1of 3) (t3of 2)).view.loc (thr d L) ↦[(outRow1 L (t1of 3) (t3of 2)).view.set]{fullShare} f)
      (fun f => (outRow1 L (t1of 3) (t3of 3)).view.loc (thr d L) ↦[(outRow1 L (t1of 3) (t3of 3)).view.set]{fullShare} f)
      (fun f => (outRow1 L (t1of 3) (t3of 4)).view.loc (thr d L) ↦[(outRow1 L (t1of 3) (t3of 4)).view.set]{fullShare} f)
      (fun f => (outRow1 L (t1of 3) (t3of 5)).view.loc (thr d L) ↦[(outRow1 L (t1of 3) (t3of 5)).view.set]{fullShare} f)
      (fun f => (outRow1 L (t1of 3) (t3of 6)).view.loc (thr d L) ↦[(outRow1 L (t1of 3) (t3of 6)).view.set]{fullShare} f)
      (fun f => (outRow1 L (t1of 3) (t3of 7)).view.loc (thr d L) ↦[(outRow1 L (t1of 3) (t3of 7)).view.set]{fullShare} f) _ _ _ _ _ _ _ _) $$ [Hs3_dst0 Hs3_dst1 Hs3_dst2 Hs3_dst3 Hs3_dst4 Hs3_dst5 Hs3_dst6 Hs3_dst7]
  · isplitl [Hs3_dst0]; · iexact Hs3_dst0
    isplitl [Hs3_dst1]; · iexact Hs3_dst1
    isplitl [Hs3_dst2]; · iexact Hs3_dst2
    isplitl [Hs3_dst3]; · iexact Hs3_dst3
    isplitl [Hs3_dst4]; · iexact Hs3_dst4
    isplitl [Hs3_dst5]; · iexact Hs3_dst5
    isplitl [Hs3_dst6]; · iexact Hs3_dst6
    iexact Hs3_dst7
  sl_exec_parts
  ihave Hrows := (Entails.of_eq (slot_rows8 (F := F) d L 0 Nat.zero_lt_two _)) $$ Hslot0
  icases Hrows with ⟨Hr0, Hr1, Hr2, Hr3, Hr4, Hr5, Hr6, Hr7⟩
  rw [wp_bind]
  iapply (wp_wand_r frame _ Set.univ)
  isplitl [Hs2 Hr0 Hr1 Hr2 Hr3 Hr4 Hr5 Hr6 Hr7 Hpos' A40 A41 A42 A43 A44 A45 A46 A47 HO]
  · iapply (row_loop0 (F := F) d L (h0 d L) (t1of 4) _ _ _ _ _ O _ _ _ _) $$ [Hs2 Hr0 Hr1 Hr2 Hr3 Hr4 Hr5 Hr6 Hr7 Hpos' A40 A41 A42 A43 A44 A45 A46 A47 HO]
    isplitr; · iexact Hmw
    isplitl [Hs2]; · iexact Hs2
    isplitl [Hr0 Hr1 Hr2 Hr3 Hr4 Hr5 Hr6 Hr7]
    · isplitl [Hr0]; · iexact Hr0
      isplitl [Hr1]; · iexact Hr1
      isplitl [Hr2]; · iexact Hr2
      isplitl [Hr3]; · iexact Hr3
      isplitl [Hr4]; · iexact Hr4
      isplitl [Hr5]; · iexact Hr5
      isplitl [Hr6]; · iexact Hr6
      iexact Hr7
    isplitl [Hpos']; · iexact Hpos'
    isplitl [A40 A41 A42 A43 A44 A45 A46 A47]
    · isplitl [A40]; · iexact A40
      isplitl [A41]; · iexact A41
      isplitl [A42]; · iexact A42
      isplitl [A43]; · iexact A43
      isplitl [A44]; · iexact A44
      isplitl [A45]; · iexact A45
      isplitl [A46]; · iexact A46
      iexact A47
    iexact HO
  iintro %_ ⟨%fa4_0, %fa4_1, %fa4_2, %fa4_3, %fa4_4, %fa4_5, %fa4_6, %fa4_7, Hpos', Hs2, HO⟩
  sl_exec_parts
  -- the eight copies have landed: slot 0's rows together again for the next block; the eight output rows are done
  ihave Hj := (slot_rows8_join' (F := F) d L 0 Nat.zero_lt_two _ _ _ _ _ _ _ _) $$ [Hs2_src0 Hs2_src1 Hs2_src2 Hs2_src3 Hs2_src4 Hs2_src5 Hs2_src6 Hs2_src7]
  · isplitl [Hs2_src0]; · iexact Hs2_src0
    isplitl [Hs2_src1]; · iexact Hs2_src1
    isplitl [Hs2_src2]; · iexact Hs2_src2
    isplitl [Hs2_src3]; · iexact Hs2_src3
    isplitl [Hs2_src4]; · iexact Hs2_src4
    isplitl [Hs2_src5]; · iexact Hs2_src5
    isplitl [Hs2_src6]; · iexact Hs2_src6
    iexact Hs2_src7
  icases Hj with ⟨%gs0_4, Hslot0⟩
  ihave Done0_4 := (ex8 (F := F) (fun f => (outRow0 L (t1of 4) (t2of 0)).view.loc (thr d L) ↦[(outRow0 L (t1of 4) (t2of 0)).view.set]{fullShare} f)
      (fun f => (outRow0 L (t1of 4) (t2of 1)).view.loc (thr d L) ↦[(outRow0 L (t1of 4) (t2of 1)).view.set]{fullShare} f)
      (fun f => (outRow0 L (t1of 4) (t2of 2)).view.loc (thr d L) ↦[(outRow0 L (t1of 4) (t2of 2)).view.set]{fullShare} f)
      (fun f => (outRow0 L (t1of 4) (t2of 3)).view.loc (thr d L) ↦[(outRow0 L (t1of 4) (t2of 3)).view.set]{fullShare} f)
      (fun f => (outRow0 L (t1of 4) (t2of 4)).view.loc (thr d L) ↦[(outRow0 L (t1of 4) (t2of 4)).view.set]{fullShare} f)
      (fun f => (outRow0 L (t1of 4) (t2of 5)).view.loc (thr d L) ↦[(outRow0 L (t1of 4) (t2of 5)).view.set]{fullShare} f)
      (fun f => (outRow0 L (t1of 4) (t2of 6)).view.loc (thr d L) ↦[(outRow0 L (t1of 4) (t2of 6)).view.set]{fullShare} f)
      (fun f => (outRow0 L (t1of 4) (t2of 7)).view.loc (thr d L) ↦[(outRow0 L (t1of 4) (t2of 7)).view.set]{fullShare} f) _ _ _ _ _ _ _ _) $$ [Hs2_dst0 Hs2_dst1 Hs2_dst2 Hs2_dst3 Hs2_dst4 Hs2_dst5 Hs2_dst6 Hs2_dst7]
  · isplitl [Hs2_dst0]; · iexact Hs2_dst0
    isplitl [Hs2_dst1]; · iexact Hs2_dst1
    isplitl [Hs2_dst2]; · iexact Hs2_dst2
    isplitl [Hs2_dst3]; · iexact Hs2_dst3
    isplitl [Hs2_dst4]; · iexact Hs2_dst4
    isplitl [Hs2_dst5]; · iexact Hs2_dst5
    isplitl [Hs2_dst6]; · iexact Hs2_dst6
    iexact Hs2_dst7
  sl_exec_parts
  ihave Hrows := (Entails.of_eq (slot_rows8 (F := F) d L 1 Nat.one_lt_two _)) $$ Hslot1
  icases Hrows with ⟨Hq0, Hq1, Hq2, Hq3, Hq4, Hq5, Hq6, Hq7⟩
  rw [wp_bind]
  iapply (wp_wand_r frame _ Set.univ)
  isplitl [Hs3 Hq0 Hq1 Hq2 Hq3 Hq4 Hq5 Hq6 Hq7 Hpos' B40 B41 B42 B43 B44 B45 B46 B47 HO]
  · iapply (row_loop1 (F := F) d L (h1 d L) (t1of 4) _ _ _ O _ _ _ _) $$ [Hs3 Hq0 Hq1 Hq2 Hq3 Hq4 Hq5 Hq6 Hq7 Hpos' B40 B41 B42 B43 B44 B45 B46 B47 HO]
    isplitr; · iexact Hmw
    isplitl [Hs3]; · iexact Hs3
    isplitl [Hq0 Hq1 Hq2 Hq3 Hq4 Hq5 Hq6 Hq7]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    isplitl [Hpos']; · iexact Hpos'
    isplitl [B40 B41 B42 B43 B44 B45 B46 B47]
    · isplitl [B40]; · iexact B40
      isplitl [B41]; · iexact B41
      isplitl [B42]; · iexact B42
      isplitl [B43]; · iexact B43
      isplitl [B44]; · iexact B44
      isplitl [B45]; · iexact B45
      isplitl [B46]; · iexact B46
      iexact B47
    iexact HO
  iintro %_ ⟨%fb4_0, %fb4_1, %fb4_2, %fb4_3, %fb4_4, %fb4_5, %fb4_6, %fb4_7, Hpos', Hs3, HO⟩
  -- chunk 5
  sl_exec_parts
  -- the eight copies have landed: slot 1's rows together again for the next block; the eight output rows are done
  ihave Hj := (slot_rows8_join' (F := F) d L 1 Nat.one_lt_two _ _ _ _ _ _ _ _) $$ [Hs3_src0 Hs3_src1 Hs3_src2 Hs3_src3 Hs3_src4 Hs3_src5 Hs3_src6 Hs3_src7]
  · isplitl [Hs3_src0]; · iexact Hs3_src0
    isplitl [Hs3_src1]; · iexact Hs3_src1
    isplitl [Hs3_src2]; · iexact Hs3_src2
    isplitl [Hs3_src3]; · iexact Hs3_src3
    isplitl [Hs3_src4]; · iexact Hs3_src4
    isplitl [Hs3_src5]; · iexact Hs3_src5
    isplitl [Hs3_src6]; · iexact Hs3_src6
    iexact Hs3_src7
  icases Hj with ⟨%gs1_5, Hslot1⟩
  ihave Done1_4 := (ex8 (F := F) (fun f => (outRow1 L (t1of 4) (t3of 0)).view.loc (thr d L) ↦[(outRow1 L (t1of 4) (t3of 0)).view.set]{fullShare} f)
      (fun f => (outRow1 L (t1of 4) (t3of 1)).view.loc (thr d L) ↦[(outRow1 L (t1of 4) (t3of 1)).view.set]{fullShare} f)
      (fun f => (outRow1 L (t1of 4) (t3of 2)).view.loc (thr d L) ↦[(outRow1 L (t1of 4) (t3of 2)).view.set]{fullShare} f)
      (fun f => (outRow1 L (t1of 4) (t3of 3)).view.loc (thr d L) ↦[(outRow1 L (t1of 4) (t3of 3)).view.set]{fullShare} f)
      (fun f => (outRow1 L (t1of 4) (t3of 4)).view.loc (thr d L) ↦[(outRow1 L (t1of 4) (t3of 4)).view.set]{fullShare} f)
      (fun f => (outRow1 L (t1of 4) (t3of 5)).view.loc (thr d L) ↦[(outRow1 L (t1of 4) (t3of 5)).view.set]{fullShare} f)
      (fun f => (outRow1 L (t1of 4) (t3of 6)).view.loc (thr d L) ↦[(outRow1 L (t1of 4) (t3of 6)).view.set]{fullShare} f)
      (fun f => (outRow1 L (t1of 4) (t3of 7)).view.loc (thr d L) ↦[(outRow1 L (t1of 4) (t3of 7)).view.set]{fullShare} f) _ _ _ _ _ _ _ _) $$ [Hs3_dst0 Hs3_dst1 Hs3_dst2 Hs3_dst3 Hs3_dst4 Hs3_dst5 Hs3_dst6 Hs3_dst7]
  · isplitl [Hs3_dst0]; · iexact Hs3_dst0
    isplitl [Hs3_dst1]; · iexact Hs3_dst1
    isplitl [Hs3_dst2]; · iexact Hs3_dst2
    isplitl [Hs3_dst3]; · iexact Hs3_dst3
    isplitl [Hs3_dst4]; · iexact Hs3_dst4
    isplitl [Hs3_dst5]; · iexact Hs3_dst5
    isplitl [Hs3_dst6]; · iexact Hs3_dst6
    iexact Hs3_dst7
  sl_exec_parts
  ihave Hrows := (Entails.of_eq (slot_rows8 (F := F) d L 0 Nat.zero_lt_two _)) $$ Hslot0
  icases Hrows with ⟨Hr0, Hr1, Hr2, Hr3, Hr4, Hr5, Hr6, Hr7⟩
  rw [wp_bind]
  iapply (wp_wand_r frame _ Set.univ)
  isplitl [Hs2 Hr0 Hr1 Hr2 Hr3 Hr4 Hr5 Hr6 Hr7 Hpos' A50 A51 A52 A53 A54 A55 A56 A57 HO]
  · iapply (row_loop0 (F := F) d L (h0 d L) (t1of 5) _ _ _ _ _ O _ _ _ _) $$ [Hs2 Hr0 Hr1 Hr2 Hr3 Hr4 Hr5 Hr6 Hr7 Hpos' A50 A51 A52 A53 A54 A55 A56 A57 HO]
    isplitr; · iexact Hmw
    isplitl [Hs2]; · iexact Hs2
    isplitl [Hr0 Hr1 Hr2 Hr3 Hr4 Hr5 Hr6 Hr7]
    · isplitl [Hr0]; · iexact Hr0
      isplitl [Hr1]; · iexact Hr1
      isplitl [Hr2]; · iexact Hr2
      isplitl [Hr3]; · iexact Hr3
      isplitl [Hr4]; · iexact Hr4
      isplitl [Hr5]; · iexact Hr5
      isplitl [Hr6]; · iexact Hr6
      iexact Hr7
    isplitl [Hpos']; · iexact Hpos'
    isplitl [A50 A51 A52 A53 A54 A55 A56 A57]
    · isplitl [A50]; · iexact A50
      isplitl [A51]; · iexact A51
      isplitl [A52]; · iexact A52
      isplitl [A53]; · iexact A53
      isplitl [A54]; · iexact A54
      isplitl [A55]; · iexact A55
      isplitl [A56]; · iexact A56
      iexact A57
    iexact HO
  iintro %_ ⟨%fa5_0, %fa5_1, %fa5_2, %fa5_3, %fa5_4, %fa5_5, %fa5_6, %fa5_7, Hpos', Hs2, HO⟩
  sl_exec_parts
  -- the eight copies have landed: slot 0's rows together again for the next block; the eight output rows are done
  ihave Hj := (slot_rows8_join' (F := F) d L 0 Nat.zero_lt_two _ _ _ _ _ _ _ _) $$ [Hs2_src0 Hs2_src1 Hs2_src2 Hs2_src3 Hs2_src4 Hs2_src5 Hs2_src6 Hs2_src7]
  · isplitl [Hs2_src0]; · iexact Hs2_src0
    isplitl [Hs2_src1]; · iexact Hs2_src1
    isplitl [Hs2_src2]; · iexact Hs2_src2
    isplitl [Hs2_src3]; · iexact Hs2_src3
    isplitl [Hs2_src4]; · iexact Hs2_src4
    isplitl [Hs2_src5]; · iexact Hs2_src5
    isplitl [Hs2_src6]; · iexact Hs2_src6
    iexact Hs2_src7
  icases Hj with ⟨%gs0_5, Hslot0⟩
  ihave Done0_5 := (ex8 (F := F) (fun f => (outRow0 L (t1of 5) (t2of 0)).view.loc (thr d L) ↦[(outRow0 L (t1of 5) (t2of 0)).view.set]{fullShare} f)
      (fun f => (outRow0 L (t1of 5) (t2of 1)).view.loc (thr d L) ↦[(outRow0 L (t1of 5) (t2of 1)).view.set]{fullShare} f)
      (fun f => (outRow0 L (t1of 5) (t2of 2)).view.loc (thr d L) ↦[(outRow0 L (t1of 5) (t2of 2)).view.set]{fullShare} f)
      (fun f => (outRow0 L (t1of 5) (t2of 3)).view.loc (thr d L) ↦[(outRow0 L (t1of 5) (t2of 3)).view.set]{fullShare} f)
      (fun f => (outRow0 L (t1of 5) (t2of 4)).view.loc (thr d L) ↦[(outRow0 L (t1of 5) (t2of 4)).view.set]{fullShare} f)
      (fun f => (outRow0 L (t1of 5) (t2of 5)).view.loc (thr d L) ↦[(outRow0 L (t1of 5) (t2of 5)).view.set]{fullShare} f)
      (fun f => (outRow0 L (t1of 5) (t2of 6)).view.loc (thr d L) ↦[(outRow0 L (t1of 5) (t2of 6)).view.set]{fullShare} f)
      (fun f => (outRow0 L (t1of 5) (t2of 7)).view.loc (thr d L) ↦[(outRow0 L (t1of 5) (t2of 7)).view.set]{fullShare} f) _ _ _ _ _ _ _ _) $$ [Hs2_dst0 Hs2_dst1 Hs2_dst2 Hs2_dst3 Hs2_dst4 Hs2_dst5 Hs2_dst6 Hs2_dst7]
  · isplitl [Hs2_dst0]; · iexact Hs2_dst0
    isplitl [Hs2_dst1]; · iexact Hs2_dst1
    isplitl [Hs2_dst2]; · iexact Hs2_dst2
    isplitl [Hs2_dst3]; · iexact Hs2_dst3
    isplitl [Hs2_dst4]; · iexact Hs2_dst4
    isplitl [Hs2_dst5]; · iexact Hs2_dst5
    isplitl [Hs2_dst6]; · iexact Hs2_dst6
    iexact Hs2_dst7
  sl_exec_parts
  ihave Hrows := (Entails.of_eq (slot_rows8 (F := F) d L 1 Nat.one_lt_two _)) $$ Hslot1
  icases Hrows with ⟨Hq0, Hq1, Hq2, Hq3, Hq4, Hq5, Hq6, Hq7⟩
  rw [wp_bind]
  iapply (wp_wand_r frame _ Set.univ)
  isplitl [Hs3 Hq0 Hq1 Hq2 Hq3 Hq4 Hq5 Hq6 Hq7 Hpos' B50 B51 B52 B53 B54 B55 B56 B57 HO]
  · iapply (row_loop1 (F := F) d L (h1 d L) (t1of 5) _ _ _ O _ _ _ _) $$ [Hs3 Hq0 Hq1 Hq2 Hq3 Hq4 Hq5 Hq6 Hq7 Hpos' B50 B51 B52 B53 B54 B55 B56 B57 HO]
    isplitr; · iexact Hmw
    isplitl [Hs3]; · iexact Hs3
    isplitl [Hq0 Hq1 Hq2 Hq3 Hq4 Hq5 Hq6 Hq7]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    isplitl [Hpos']; · iexact Hpos'
    isplitl [B50 B51 B52 B53 B54 B55 B56 B57]
    · isplitl [B50]; · iexact B50
      isplitl [B51]; · iexact B51
      isplitl [B52]; · iexact B52
      isplitl [B53]; · iexact B53
      isplitl [B54]; · iexact B54
      isplitl [B55]; · iexact B55
      isplitl [B56]; · iexact B56
      iexact B57
    iexact HO
  iintro %_ ⟨%fb5_0, %fb5_1, %fb5_2, %fb5_3, %fb5_4, %fb5_5, %fb5_6, %fb5_7, Hpos', Hs3, HO⟩
  -- chunk 6
  sl_exec_parts
  -- the eight copies have landed: slot 1's rows together again for the next block; the eight output rows are done
  ihave Hj := (slot_rows8_join' (F := F) d L 1 Nat.one_lt_two _ _ _ _ _ _ _ _) $$ [Hs3_src0 Hs3_src1 Hs3_src2 Hs3_src3 Hs3_src4 Hs3_src5 Hs3_src6 Hs3_src7]
  · isplitl [Hs3_src0]; · iexact Hs3_src0
    isplitl [Hs3_src1]; · iexact Hs3_src1
    isplitl [Hs3_src2]; · iexact Hs3_src2
    isplitl [Hs3_src3]; · iexact Hs3_src3
    isplitl [Hs3_src4]; · iexact Hs3_src4
    isplitl [Hs3_src5]; · iexact Hs3_src5
    isplitl [Hs3_src6]; · iexact Hs3_src6
    iexact Hs3_src7
  icases Hj with ⟨%gs1_6, Hslot1⟩
  ihave Done1_5 := (ex8 (F := F) (fun f => (outRow1 L (t1of 5) (t3of 0)).view.loc (thr d L) ↦[(outRow1 L (t1of 5) (t3of 0)).view.set]{fullShare} f)
      (fun f => (outRow1 L (t1of 5) (t3of 1)).view.loc (thr d L) ↦[(outRow1 L (t1of 5) (t3of 1)).view.set]{fullShare} f)
      (fun f => (outRow1 L (t1of 5) (t3of 2)).view.loc (thr d L) ↦[(outRow1 L (t1of 5) (t3of 2)).view.set]{fullShare} f)
      (fun f => (outRow1 L (t1of 5) (t3of 3)).view.loc (thr d L) ↦[(outRow1 L (t1of 5) (t3of 3)).view.set]{fullShare} f)
      (fun f => (outRow1 L (t1of 5) (t3of 4)).view.loc (thr d L) ↦[(outRow1 L (t1of 5) (t3of 4)).view.set]{fullShare} f)
      (fun f => (outRow1 L (t1of 5) (t3of 5)).view.loc (thr d L) ↦[(outRow1 L (t1of 5) (t3of 5)).view.set]{fullShare} f)
      (fun f => (outRow1 L (t1of 5) (t3of 6)).view.loc (thr d L) ↦[(outRow1 L (t1of 5) (t3of 6)).view.set]{fullShare} f)
      (fun f => (outRow1 L (t1of 5) (t3of 7)).view.loc (thr d L) ↦[(outRow1 L (t1of 5) (t3of 7)).view.set]{fullShare} f) _ _ _ _ _ _ _ _) $$ [Hs3_dst0 Hs3_dst1 Hs3_dst2 Hs3_dst3 Hs3_dst4 Hs3_dst5 Hs3_dst6 Hs3_dst7]
  · isplitl [Hs3_dst0]; · iexact Hs3_dst0
    isplitl [Hs3_dst1]; · iexact Hs3_dst1
    isplitl [Hs3_dst2]; · iexact Hs3_dst2
    isplitl [Hs3_dst3]; · iexact Hs3_dst3
    isplitl [Hs3_dst4]; · iexact Hs3_dst4
    isplitl [Hs3_dst5]; · iexact Hs3_dst5
    isplitl [Hs3_dst6]; · iexact Hs3_dst6
    iexact Hs3_dst7
  sl_exec_parts
  ihave Hrows := (Entails.of_eq (slot_rows8 (F := F) d L 0 Nat.zero_lt_two _)) $$ Hslot0
  icases Hrows with ⟨Hr0, Hr1, Hr2, Hr3, Hr4, Hr5, Hr6, Hr7⟩
  rw [wp_bind]
  iapply (wp_wand_r frame _ Set.univ)
  isplitl [Hs2 Hr0 Hr1 Hr2 Hr3 Hr4 Hr5 Hr6 Hr7 Hpos' A60 A61 A62 A63 A64 A65 A66 A67 HO]
  · iapply (row_loop0 (F := F) d L (h0 d L) (t1of 6) _ _ _ _ _ O _ _ _ _) $$ [Hs2 Hr0 Hr1 Hr2 Hr3 Hr4 Hr5 Hr6 Hr7 Hpos' A60 A61 A62 A63 A64 A65 A66 A67 HO]
    isplitr; · iexact Hmw
    isplitl [Hs2]; · iexact Hs2
    isplitl [Hr0 Hr1 Hr2 Hr3 Hr4 Hr5 Hr6 Hr7]
    · isplitl [Hr0]; · iexact Hr0
      isplitl [Hr1]; · iexact Hr1
      isplitl [Hr2]; · iexact Hr2
      isplitl [Hr3]; · iexact Hr3
      isplitl [Hr4]; · iexact Hr4
      isplitl [Hr5]; · iexact Hr5
      isplitl [Hr6]; · iexact Hr6
      iexact Hr7
    isplitl [Hpos']; · iexact Hpos'
    isplitl [A60 A61 A62 A63 A64 A65 A66 A67]
    · isplitl [A60]; · iexact A60
      isplitl [A61]; · iexact A61
      isplitl [A62]; · iexact A62
      isplitl [A63]; · iexact A63
      isplitl [A64]; · iexact A64
      isplitl [A65]; · iexact A65
      isplitl [A66]; · iexact A66
      iexact A67
    iexact HO
  iintro %_ ⟨%fa6_0, %fa6_1, %fa6_2, %fa6_3, %fa6_4, %fa6_5, %fa6_6, %fa6_7, Hpos', Hs2, HO⟩
  sl_exec_parts
  -- the eight copies have landed: slot 0's rows together again for the next block; the eight output rows are done
  ihave Hj := (slot_rows8_join' (F := F) d L 0 Nat.zero_lt_two _ _ _ _ _ _ _ _) $$ [Hs2_src0 Hs2_src1 Hs2_src2 Hs2_src3 Hs2_src4 Hs2_src5 Hs2_src6 Hs2_src7]
  · isplitl [Hs2_src0]; · iexact Hs2_src0
    isplitl [Hs2_src1]; · iexact Hs2_src1
    isplitl [Hs2_src2]; · iexact Hs2_src2
    isplitl [Hs2_src3]; · iexact Hs2_src3
    isplitl [Hs2_src4]; · iexact Hs2_src4
    isplitl [Hs2_src5]; · iexact Hs2_src5
    isplitl [Hs2_src6]; · iexact Hs2_src6
    iexact Hs2_src7
  icases Hj with ⟨%gs0_6, Hslot0⟩
  ihave Done0_6 := (ex8 (F := F) (fun f => (outRow0 L (t1of 6) (t2of 0)).view.loc (thr d L) ↦[(outRow0 L (t1of 6) (t2of 0)).view.set]{fullShare} f)
      (fun f => (outRow0 L (t1of 6) (t2of 1)).view.loc (thr d L) ↦[(outRow0 L (t1of 6) (t2of 1)).view.set]{fullShare} f)
      (fun f => (outRow0 L (t1of 6) (t2of 2)).view.loc (thr d L) ↦[(outRow0 L (t1of 6) (t2of 2)).view.set]{fullShare} f)
      (fun f => (outRow0 L (t1of 6) (t2of 3)).view.loc (thr d L) ↦[(outRow0 L (t1of 6) (t2of 3)).view.set]{fullShare} f)
      (fun f => (outRow0 L (t1of 6) (t2of 4)).view.loc (thr d L) ↦[(outRow0 L (t1of 6) (t2of 4)).view.set]{fullShare} f)
      (fun f => (outRow0 L (t1of 6) (t2of 5)).view.loc (thr d L) ↦[(outRow0 L (t1of 6) (t2of 5)).view.set]{fullShare} f)
      (fun f => (outRow0 L (t1of 6) (t2of 6)).view.loc (thr d L) ↦[(outRow0 L (t1of 6) (t2of 6)).view.set]{fullShare} f)
      (fun f => (outRow0 L (t1of 6) (t2of 7)).view.loc (thr d L) ↦[(outRow0 L (t1of 6) (t2of 7)).view.set]{fullShare} f) _ _ _ _ _ _ _ _) $$ [Hs2_dst0 Hs2_dst1 Hs2_dst2 Hs2_dst3 Hs2_dst4 Hs2_dst5 Hs2_dst6 Hs2_dst7]
  · isplitl [Hs2_dst0]; · iexact Hs2_dst0
    isplitl [Hs2_dst1]; · iexact Hs2_dst1
    isplitl [Hs2_dst2]; · iexact Hs2_dst2
    isplitl [Hs2_dst3]; · iexact Hs2_dst3
    isplitl [Hs2_dst4]; · iexact Hs2_dst4
    isplitl [Hs2_dst5]; · iexact Hs2_dst5
    isplitl [Hs2_dst6]; · iexact Hs2_dst6
    iexact Hs2_dst7
  sl_exec_parts
  ihave Hrows := (Entails.of_eq (slot_rows8 (F := F) d L 1 Nat.one_lt_two _)) $$ Hslot1
  icases Hrows with ⟨Hq0, Hq1, Hq2, Hq3, Hq4, Hq5, Hq6, Hq7⟩
  rw [wp_bind]
  iapply (wp_wand_r frame _ Set.univ)
  isplitl [Hs3 Hq0 Hq1 Hq2 Hq3 Hq4 Hq5 Hq6 Hq7 Hpos' B60 B61 B62 B63 B64 B65 B66 B67 HO]
  · iapply (row_loop1 (F := F) d L (h1 d L) (t1of 6) _ _ _ O _ _ _ _) $$ [Hs3 Hq0 Hq1 Hq2 Hq3 Hq4 Hq5 Hq6 Hq7 Hpos' B60 B61 B62 B63 B64 B65 B66 B67 HO]
    isplitr; · iexact Hmw
    isplitl [Hs3]; · iexact Hs3
    isplitl [Hq0 Hq1 Hq2 Hq3 Hq4 Hq5 Hq6 Hq7]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    isplitl [Hpos']; · iexact Hpos'
    isplitl [B60 B61 B62 B63 B64 B65 B66 B67]
    · isplitl [B60]; · iexact B60
      isplitl [B61]; · iexact B61
      isplitl [B62]; · iexact B62
      isplitl [B63]; · iexact B63
      isplitl [B64]; · iexact B64
      isplitl [B65]; · iexact B65
      isplitl [B66]; · iexact B66
      iexact B67
    iexact HO
  iintro %_ ⟨%fb6_0, %fb6_1, %fb6_2, %fb6_3, %fb6_4, %fb6_5, %fb6_6, %fb6_7, Hpos', Hs3, HO⟩
  -- chunk 7
  sl_exec_parts
  -- the eight copies have landed: slot 1's rows together again for the next block; the eight output rows are done
  ihave Hj := (slot_rows8_join' (F := F) d L 1 Nat.one_lt_two _ _ _ _ _ _ _ _) $$ [Hs3_src0 Hs3_src1 Hs3_src2 Hs3_src3 Hs3_src4 Hs3_src5 Hs3_src6 Hs3_src7]
  · isplitl [Hs3_src0]; · iexact Hs3_src0
    isplitl [Hs3_src1]; · iexact Hs3_src1
    isplitl [Hs3_src2]; · iexact Hs3_src2
    isplitl [Hs3_src3]; · iexact Hs3_src3
    isplitl [Hs3_src4]; · iexact Hs3_src4
    isplitl [Hs3_src5]; · iexact Hs3_src5
    isplitl [Hs3_src6]; · iexact Hs3_src6
    iexact Hs3_src7
  icases Hj with ⟨%gs1_7, Hslot1⟩
  ihave Done1_6 := (ex8 (F := F) (fun f => (outRow1 L (t1of 6) (t3of 0)).view.loc (thr d L) ↦[(outRow1 L (t1of 6) (t3of 0)).view.set]{fullShare} f)
      (fun f => (outRow1 L (t1of 6) (t3of 1)).view.loc (thr d L) ↦[(outRow1 L (t1of 6) (t3of 1)).view.set]{fullShare} f)
      (fun f => (outRow1 L (t1of 6) (t3of 2)).view.loc (thr d L) ↦[(outRow1 L (t1of 6) (t3of 2)).view.set]{fullShare} f)
      (fun f => (outRow1 L (t1of 6) (t3of 3)).view.loc (thr d L) ↦[(outRow1 L (t1of 6) (t3of 3)).view.set]{fullShare} f)
      (fun f => (outRow1 L (t1of 6) (t3of 4)).view.loc (thr d L) ↦[(outRow1 L (t1of 6) (t3of 4)).view.set]{fullShare} f)
      (fun f => (outRow1 L (t1of 6) (t3of 5)).view.loc (thr d L) ↦[(outRow1 L (t1of 6) (t3of 5)).view.set]{fullShare} f)
      (fun f => (outRow1 L (t1of 6) (t3of 6)).view.loc (thr d L) ↦[(outRow1 L (t1of 6) (t3of 6)).view.set]{fullShare} f)
      (fun f => (outRow1 L (t1of 6) (t3of 7)).view.loc (thr d L) ↦[(outRow1 L (t1of 6) (t3of 7)).view.set]{fullShare} f) _ _ _ _ _ _ _ _) $$ [Hs3_dst0 Hs3_dst1 Hs3_dst2 Hs3_dst3 Hs3_dst4 Hs3_dst5 Hs3_dst6 Hs3_dst7]
  · isplitl [Hs3_dst0]; · iexact Hs3_dst0
    isplitl [Hs3_dst1]; · iexact Hs3_dst1
    isplitl [Hs3_dst2]; · iexact Hs3_dst2
    isplitl [Hs3_dst3]; · iexact Hs3_dst3
    isplitl [Hs3_dst4]; · iexact Hs3_dst4
    isplitl [Hs3_dst5]; · iexact Hs3_dst5
    isplitl [Hs3_dst6]; · iexact Hs3_dst6
    iexact Hs3_dst7
  sl_exec_parts
  ihave Hrows := (Entails.of_eq (slot_rows8 (F := F) d L 0 Nat.zero_lt_two _)) $$ Hslot0
  icases Hrows with ⟨Hr0, Hr1, Hr2, Hr3, Hr4, Hr5, Hr6, Hr7⟩
  rw [wp_bind]
  iapply (wp_wand_r frame _ Set.univ)
  isplitl [Hs2 Hr0 Hr1 Hr2 Hr3 Hr4 Hr5 Hr6 Hr7 Hpos' A70 A71 A72 A73 A74 A75 A76 A77 HO]
  · iapply (row_loop0 (F := F) d L (h0 d L) (t1of 7) _ _ _ _ _ O _ _ _ _) $$ [Hs2 Hr0 Hr1 Hr2 Hr3 Hr4 Hr5 Hr6 Hr7 Hpos' A70 A71 A72 A73 A74 A75 A76 A77 HO]
    isplitr; · iexact Hmw
    isplitl [Hs2]; · iexact Hs2
    isplitl [Hr0 Hr1 Hr2 Hr3 Hr4 Hr5 Hr6 Hr7]
    · isplitl [Hr0]; · iexact Hr0
      isplitl [Hr1]; · iexact Hr1
      isplitl [Hr2]; · iexact Hr2
      isplitl [Hr3]; · iexact Hr3
      isplitl [Hr4]; · iexact Hr4
      isplitl [Hr5]; · iexact Hr5
      isplitl [Hr6]; · iexact Hr6
      iexact Hr7
    isplitl [Hpos']; · iexact Hpos'
    isplitl [A70 A71 A72 A73 A74 A75 A76 A77]
    · isplitl [A70]; · iexact A70
      isplitl [A71]; · iexact A71
      isplitl [A72]; · iexact A72
      isplitl [A73]; · iexact A73
      isplitl [A74]; · iexact A74
      isplitl [A75]; · iexact A75
      isplitl [A76]; · iexact A76
      iexact A77
    iexact HO
  iintro %_ ⟨%fa7_0, %fa7_1, %fa7_2, %fa7_3, %fa7_4, %fa7_5, %fa7_6, %fa7_7, Hpos', Hs2, HO⟩
  sl_exec_parts
  -- the eight copies have landed: slot 0's rows together again for the next block; the eight output rows are done
  ihave Hj := (slot_rows8_join' (F := F) d L 0 Nat.zero_lt_two _ _ _ _ _ _ _ _) $$ [Hs2_src0 Hs2_src1 Hs2_src2 Hs2_src3 Hs2_src4 Hs2_src5 Hs2_src6 Hs2_src7]
  · isplitl [Hs2_src0]; · iexact Hs2_src0
    isplitl [Hs2_src1]; · iexact Hs2_src1
    isplitl [Hs2_src2]; · iexact Hs2_src2
    isplitl [Hs2_src3]; · iexact Hs2_src3
    isplitl [Hs2_src4]; · iexact Hs2_src4
    isplitl [Hs2_src5]; · iexact Hs2_src5
    isplitl [Hs2_src6]; · iexact Hs2_src6
    iexact Hs2_src7
  icases Hj with ⟨%gs0_7, Hslot0⟩
  ihave Done0_7 := (ex8 (F := F) (fun f => (outRow0 L (t1of 7) (t2of 0)).view.loc (thr d L) ↦[(outRow0 L (t1of 7) (t2of 0)).view.set]{fullShare} f)
      (fun f => (outRow0 L (t1of 7) (t2of 1)).view.loc (thr d L) ↦[(outRow0 L (t1of 7) (t2of 1)).view.set]{fullShare} f)
      (fun f => (outRow0 L (t1of 7) (t2of 2)).view.loc (thr d L) ↦[(outRow0 L (t1of 7) (t2of 2)).view.set]{fullShare} f)
      (fun f => (outRow0 L (t1of 7) (t2of 3)).view.loc (thr d L) ↦[(outRow0 L (t1of 7) (t2of 3)).view.set]{fullShare} f)
      (fun f => (outRow0 L (t1of 7) (t2of 4)).view.loc (thr d L) ↦[(outRow0 L (t1of 7) (t2of 4)).view.set]{fullShare} f)
      (fun f => (outRow0 L (t1of 7) (t2of 5)).view.loc (thr d L) ↦[(outRow0 L (t1of 7) (t2of 5)).view.set]{fullShare} f)
      (fun f => (outRow0 L (t1of 7) (t2of 6)).view.loc (thr d L) ↦[(outRow0 L (t1of 7) (t2of 6)).view.set]{fullShare} f)
      (fun f => (outRow0 L (t1of 7) (t2of 7)).view.loc (thr d L) ↦[(outRow0 L (t1of 7) (t2of 7)).view.set]{fullShare} f) _ _ _ _ _ _ _ _) $$ [Hs2_dst0 Hs2_dst1 Hs2_dst2 Hs2_dst3 Hs2_dst4 Hs2_dst5 Hs2_dst6 Hs2_dst7]
  · isplitl [Hs2_dst0]; · iexact Hs2_dst0
    isplitl [Hs2_dst1]; · iexact Hs2_dst1
    isplitl [Hs2_dst2]; · iexact Hs2_dst2
    isplitl [Hs2_dst3]; · iexact Hs2_dst3
    isplitl [Hs2_dst4]; · iexact Hs2_dst4
    isplitl [Hs2_dst5]; · iexact Hs2_dst5
    isplitl [Hs2_dst6]; · iexact Hs2_dst6
    iexact Hs2_dst7
  sl_exec_parts
  ihave Hrows := (Entails.of_eq (slot_rows8 (F := F) d L 1 Nat.one_lt_two _)) $$ Hslot1
  icases Hrows with ⟨Hq0, Hq1, Hq2, Hq3, Hq4, Hq5, Hq6, Hq7⟩
  rw [wp_bind]
  iapply (wp_wand_r frame _ Set.univ)
  isplitl [Hs3 Hq0 Hq1 Hq2 Hq3 Hq4 Hq5 Hq6 Hq7 Hpos' B70 B71 B72 B73 B74 B75 B76 B77 HO]
  · iapply (row_loop1 (F := F) d L (h1 d L) (t1of 7) _ _ _ O _ _ _ _) $$ [Hs3 Hq0 Hq1 Hq2 Hq3 Hq4 Hq5 Hq6 Hq7 Hpos' B70 B71 B72 B73 B74 B75 B76 B77 HO]
    isplitr; · iexact Hmw
    isplitl [Hs3]; · iexact Hs3
    isplitl [Hq0 Hq1 Hq2 Hq3 Hq4 Hq5 Hq6 Hq7]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    isplitl [Hpos']; · iexact Hpos'
    isplitl [B70 B71 B72 B73 B74 B75 B76 B77]
    · isplitl [B70]; · iexact B70
      isplitl [B71]; · iexact B71
      isplitl [B72]; · iexact B72
      isplitl [B73]; · iexact B73
      isplitl [B74]; · iexact B74
      isplitl [B75]; · iexact B75
      isplitl [B76]; · iexact B76
      iexact B77
    iexact HO
  iintro %_ ⟨%fb7_0, %fb7_1, %fb7_2, %fb7_3, %fb7_4, %fb7_5, %fb7_6, %fb7_7, Hpos', Hs3, HO⟩
  -- chunk 8
  sl_exec_parts
  -- the eight copies have landed: slot 1's rows together again for the next block; the eight output rows are done
  ihave Hj := (slot_rows8_join' (F := F) d L 1 Nat.one_lt_two _ _ _ _ _ _ _ _) $$ [Hs3_src0 Hs3_src1 Hs3_src2 Hs3_src3 Hs3_src4 Hs3_src5 Hs3_src6 Hs3_src7]
  · isplitl [Hs3_src0]; · iexact Hs3_src0
    isplitl [Hs3_src1]; · iexact Hs3_src1
    isplitl [Hs3_src2]; · iexact Hs3_src2
    isplitl [Hs3_src3]; · iexact Hs3_src3
    isplitl [Hs3_src4]; · iexact Hs3_src4
    isplitl [Hs3_src5]; · iexact Hs3_src5
    isplitl [Hs3_src6]; · iexact Hs3_src6
    iexact Hs3_src7
  icases Hj with ⟨%gs1_8, Hslot1⟩
  ihave Done1_7 := (ex8 (F := F) (fun f => (outRow1 L (t1of 7) (t3of 0)).view.loc (thr d L) ↦[(outRow1 L (t1of 7) (t3of 0)).view.set]{fullShare} f)
      (fun f => (outRow1 L (t1of 7) (t3of 1)).view.loc (thr d L) ↦[(outRow1 L (t1of 7) (t3of 1)).view.set]{fullShare} f)
      (fun f => (outRow1 L (t1of 7) (t3of 2)).view.loc (thr d L) ↦[(outRow1 L (t1of 7) (t3of 2)).view.set]{fullShare} f)
      (fun f => (outRow1 L (t1of 7) (t3of 3)).view.loc (thr d L) ↦[(outRow1 L (t1of 7) (t3of 3)).view.set]{fullShare} f)
      (fun f => (outRow1 L (t1of 7) (t3of 4)).view.loc (thr d L) ↦[(outRow1 L (t1of 7) (t3of 4)).view.set]{fullShare} f)
      (fun f => (outRow1 L (t1of 7) (t3of 5)).view.loc (thr d L) ↦[(outRow1 L (t1of 7) (t3of 5)).view.set]{fullShare} f)
      (fun f => (outRow1 L (t1of 7) (t3of 6)).view.loc (thr d L) ↦[(outRow1 L (t1of 7) (t3of 6)).view.set]{fullShare} f)
      (fun f => (outRow1 L (t1of 7) (t3of 7)).view.loc (thr d L) ↦[(outRow1 L (t1of 7) (t3of 7)).view.set]{fullShare} f) _ _ _ _ _ _ _ _) $$ [Hs3_dst0 Hs3_dst1 Hs3_dst2 Hs3_dst3 Hs3_dst4 Hs3_dst5 Hs3_dst6 Hs3_dst7]
  · isplitl [Hs3_dst0]; · iexact Hs3_dst0
    isplitl [Hs3_dst1]; · iexact Hs3_dst1
    isplitl [Hs3_dst2]; · iexact Hs3_dst2
    isplitl [Hs3_dst3]; · iexact Hs3_dst3
    isplitl [Hs3_dst4]; · iexact Hs3_dst4
    isplitl [Hs3_dst5]; · iexact Hs3_dst5
    isplitl [Hs3_dst6]; · iexact Hs3_dst6
    iexact Hs3_dst7
  sl_exec_parts
  ihave Hrows := (Entails.of_eq (slot_rows8 (F := F) d L 0 Nat.zero_lt_two _)) $$ Hslot0
  icases Hrows with ⟨Hr0, Hr1, Hr2, Hr3, Hr4, Hr5, Hr6, Hr7⟩
  rw [wp_bind]
  iapply (wp_wand_r frame _ Set.univ)
  isplitl [Hs2 Hr0 Hr1 Hr2 Hr3 Hr4 Hr5 Hr6 Hr7 Hpos' A80 A81 A82 A83 A84 A85 A86 A87 HO]
  · iapply (row_loop0 (F := F) d L (h0 d L) (t1of 8) _ _ _ _ _ O _ _ _ _) $$ [Hs2 Hr0 Hr1 Hr2 Hr3 Hr4 Hr5 Hr6 Hr7 Hpos' A80 A81 A82 A83 A84 A85 A86 A87 HO]
    isplitr; · iexact Hmw
    isplitl [Hs2]; · iexact Hs2
    isplitl [Hr0 Hr1 Hr2 Hr3 Hr4 Hr5 Hr6 Hr7]
    · isplitl [Hr0]; · iexact Hr0
      isplitl [Hr1]; · iexact Hr1
      isplitl [Hr2]; · iexact Hr2
      isplitl [Hr3]; · iexact Hr3
      isplitl [Hr4]; · iexact Hr4
      isplitl [Hr5]; · iexact Hr5
      isplitl [Hr6]; · iexact Hr6
      iexact Hr7
    isplitl [Hpos']; · iexact Hpos'
    isplitl [A80 A81 A82 A83 A84 A85 A86 A87]
    · isplitl [A80]; · iexact A80
      isplitl [A81]; · iexact A81
      isplitl [A82]; · iexact A82
      isplitl [A83]; · iexact A83
      isplitl [A84]; · iexact A84
      isplitl [A85]; · iexact A85
      isplitl [A86]; · iexact A86
      iexact A87
    iexact HO
  iintro %_ ⟨%fa8_0, %fa8_1, %fa8_2, %fa8_3, %fa8_4, %fa8_5, %fa8_6, %fa8_7, Hpos', Hs2, HO⟩
  sl_exec_parts
  ihave Hrows := (Entails.of_eq (slot_rows8 (F := F) d L 1 Nat.one_lt_two _)) $$ Hslot1
  icases Hrows with ⟨Hq0, Hq1, Hq2, Hq3, Hq4, Hq5, Hq6, Hq7⟩
  rw [wp_bind]
  iapply (wp_wand_r frame _ Set.univ)
  isplitl [Hs3 Hq0 Hq1 Hq2 Hq3 Hq4 Hq5 Hq6 Hq7 Hpos' B80 B81 B82 B83 B84 B85 B86 B87 HO]
  · iapply (row_loop1 (F := F) d L (h1 d L) (t1of 8) _ _ _ O _ _ _ _) $$ [Hs3 Hq0 Hq1 Hq2 Hq3 Hq4 Hq5 Hq6 Hq7 Hpos' B80 B81 B82 B83 B84 B85 B86 B87 HO]
    isplitr; · iexact Hmw
    isplitl [Hs3]; · iexact Hs3
    isplitl [Hq0 Hq1 Hq2 Hq3 Hq4 Hq5 Hq6 Hq7]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    isplitl [Hpos']; · iexact Hpos'
    isplitl [B80 B81 B82 B83 B84 B85 B86 B87]
    · isplitl [B80]; · iexact B80
      isplitl [B81]; · iexact B81
      isplitl [B82]; · iexact B82
      isplitl [B83]; · iexact B83
      isplitl [B84]; · iexact B84
      isplitl [B85]; · iexact B85
      isplitl [B86]; · iexact B86
      iexact B87
    iexact HO
  iintro %_ ⟨%fb8_0, %fb8_1, %fb8_2, %fb8_3, %fb8_4, %fb8_5, %fb8_6, %fb8_7, Hpos', Hs3, HO⟩
  -- after the ninth chunk: the last two batches of row copies are waited for; the first worker of a batch group then
  -- also writes the class-token row
  by_cases k0_h10 : k0_cond10 L = 1#1
  · ihave Hc := (Entails.of_eq (rem_cls2 (F := F) d L k0_h10 _)) $$ Hrem
    icases Hc with ⟨C0, C1⟩
    sl_exec_parts
    ihave Done0_8 := (ex8 (F := F) (fun f => (outRow0 L (t1of 8) (t2of 0)).view.loc (thr d L) ↦[(outRow0 L (t1of 8) (t2of 0)).view.set]{fullShare} f)
        (fun f => (outRow0 L (t1of 8) (t2of 1)).view.loc (thr d L) ↦[(outRow0 L (t1of 8) (t2of 1)).view.set]{fullShare} f)
        (fun f => (outRow0 L (t1of 8) (t2of 2)).view.loc (thr d L) ↦[(outRow0 L (t1of 8) (t2of 2)).view.set]{fullShare} f)
        (fun f => (outRow0 L (t1of 8) (t2of 3)).view.loc (thr d L) ↦[(outRow0 L (t1of 8) (t2of 3)).view.set]{fullShare} f)
        (fun f => (outRow0 L (t1of 8) (t2of 4)).view.loc (thr d L) ↦[(outRow0 L (t1of 8) (t2of 4)).view.set]{fullShare} f)
        (fun f => (outRow0 L (t1of 8) (t2of 5)).view.loc (thr d L) ↦[(outRow0 L (t1of 8) (t2of 5)).view.set]{fullShare} f)
        (fun f => (outRow0 L (t1of 8) (t2of 6)).view.loc (thr d L) ↦[(outRow0 L (t1of 8) (t2of 6)).view.set]{fullShare} f)
        (fun f => (outRow0 L (t1of 8) (t2of 7)).view.loc (thr d L) ↦[(outRow0 L (t1of 8) (t2of 7)).view.set]{fullShare} f) _ _ _ _ _ _ _ _) $$ [Hs2_dst0 Hs2_dst1 Hs2_dst2 Hs2_dst3 Hs2_dst4 Hs2_dst5 Hs2_dst6 Hs2_dst7]
    · isplitl [Hs2_dst0]; · iexact Hs2_dst0
      isplitl [Hs2_dst1]; · iexact Hs2_dst1
      isplitl [Hs2_dst2]; · iexact Hs2_dst2
      isplitl [Hs2_dst3]; · iexact Hs2_dst3
      isplitl [Hs2_dst4]; · iexact Hs2_dst4
      isplitl [Hs2_dst5]; · iexact Hs2_dst5
      isplitl [Hs2_dst6]; · iexact Hs2_dst6
      iexact Hs2_dst7
    ihave Done1_8 := (ex8 (F := F) (fun f => (outRow1 L (t1of 8) (t3of 0)).view.loc (thr d L) ↦[(outRow1 L (t1of 8) (t3of 0)).view.set]{fullShare} f)
        (fun f => (outRow1 L (t1of 8) (t3of 1)).view.loc (thr d L) ↦[(outRow1 L (t1of 8) (t3of 1)).view.set]{fullShare} f)
        (fun f => (outRow1 L (t1of 8) (t3of 2)).view.loc (thr d L) ↦[(outRow1 L (t1of 8) (t3of 2)).view.set]{fullShare} f)
        (fun f => (outRow1 L (t1of 8) (t3of 3)).view.loc (thr d L) ↦[(outRow1 L (t1of 8) (t3of 3)).view.set]{fullShare} f)
        (fun f => (outRow1 L (t1of 8) (t3of 4)).view.loc (thr d L) ↦[(outRow1 L (t1of 8) (t3of 4)).view.set]{fullShare} f)
        (fun f => (outRow1 L (t1of 8) (t3of 5)).view.loc (thr d L) ↦[(outRow1 L (t1of 8) (t3of 5)).view.set]{fullShare} f)
        (fun f => (outRow1 L (t1of 8) (t3of 6)).view.loc (thr d L) ↦[(outRow1 L (t1of 8) (t3of 6)).view.set]{fullShare} f)
        (fun f => (outRow1 L (t1of 8) (t3of 7)).view.loc (thr d L) ↦[(outRow1 L (t1of 8) (t3of 7)).view.set]{fullShare} f) _ _ _ _ _ _ _ _) $$ [Hs3_dst0 Hs3_dst1 Hs3_dst2 Hs3_dst3 Hs3_dst4 Hs3_dst5 Hs3_dst6 Hs3_dst7]
    · isplitl [Hs3_dst0]; · iexact Hs3_dst0
      isplitl [Hs3_dst1]; · iexact Hs3_dst1
      isplitl [Hs3_dst2]; · iexact Hs3_dst2
      isplitl [Hs3_dst3]; · iexact Hs3_dst3
      isplitl [Hs3_dst4]; · iexact Hs3_dst4
      isplitl [Hs3_dst5]; · iexact Hs3_dst5
      isplitl [Hs3_dst6]; · iexact Hs3_dst6
      iexact Hs3_dst7
    -- every row copy has landed: the staging buffer whole again
    ihave Hall := (rows16_join' (F := F) d L _ _ _ _ _ _ _ _ _ _ _ _ _ _ _ _) $$ [Hs2_src0 Hs2_src1 Hs2_src2 Hs2_src3 Hs2_src4 Hs2_src5 Hs2_src6 Hs2_src7 Hs3_src0 Hs3_src1 Hs3_src2 Hs3_src3 Hs3_src4 Hs3_src5 Hs3_src6 Hs3_src7]
    · isplitl [Hs2_src0 Hs2_src1 Hs2_src2 Hs2_src3 Hs2_src4 Hs2_src5 Hs2_src6 Hs2_src7]
      · isplitl [Hs2_src0]; · iexact Hs2_src0
        isplitl [Hs2_src1]; · iexact Hs2_src1
        isplitl [Hs2_src2]; · iexact Hs2_src2
        isplitl [Hs2_src3]; · iexact Hs2_src3
        isplitl [Hs2_src4]; · iexact Hs2_src4
        isplitl [Hs2_src5]; · iexact Hs2_src5
        isplitl [Hs2_src6]; · iexact Hs2_src6
        iexact Hs2_src7
      isplitl [Hs3_src0]; · iexact Hs3_src0
      isplitl [Hs3_src1]; · iexact Hs3_src1
      isplitl [Hs3_src2]; · iexact Hs3_src2
      isplitl [Hs3_src3]; · iexact Hs3_src3
      isplitl [Hs3_src4]; · iexact Hs3_src4
      isplitl [Hs3_src5]; · iexact Hs3_src5
      isplitl [Hs3_src6]; · iexact Hs3_src6
      iexact Hs3_src7
    icases Hall with ⟨%gall, Hslot'⟩
    sl_exec_parts
    sl_step
    -- the worker's part of the output, whole again: the nine times two groups of eight rows, and the rest
    ihave HA' := (Entails.of_eq (rows0_expand (F := F) (fun p : Fin k0_t1_loop.trips × Fin k0_t2_loop.trips => iprop(∃ f : Buf (Elt F) (oLoc d), (outRow0 L p.1 p.2).view.loc (thr d L) ↦[(outRow0 L p.1 p.2).view.set]{fullShare} f))).symm) $$ [Done0_0 Done0_1 Done0_2 Done0_3 Done0_4 Done0_5 Done0_6 Done0_7 Done0_8]
    · isplitl [Done0_0]; · iexact Done0_0
      isplitl [Done0_1]; · iexact Done0_1
      isplitl [Done0_2]; · iexact Done0_2
      isplitl [Done0_3]; · iexact Done0_3
      isplitl [Done0_4]; · iexact Done0_4
      isplitl [Done0_5]; · iexact Done0_5
      isplitl [Done0_6]; · iexact Done0_6
      isplitl [Done0_7]; · iexact Done0_7
      iexact Done0_8
    ihave HB' := (Entails.of_eq (rows1_expand (F := F) (fun p : Fin k0_t1_loop.trips × Fin k0_t3_loop.trips => iprop(∃ f : Buf (Elt F) (oLoc d), (outRow1 L p.1 p.2).view.loc (thr d L) ↦[(outRow1 L p.1 p.2).view.set]{fullShare} f))).symm) $$ [Done1_0 Done1_1 Done1_2 Done1_3 Done1_4 Done1_5 Done1_6 Done1_7 Done1_8]
    · isplitl [Done1_0]; · iexact Done1_0
      isplitl [Done1_1]; · iexact Done1_1
      isplitl [Done1_2]; · iexact Done1_2
      isplitl [Done1_3]; · iexact Done1_3
      isplitl [Done1_4]; · iexact Done1_4
      isplitl [Done1_5]; · iexact Done1_5
      isplitl [Done1_6]; · iexact Done1_6
      isplitl [Done1_7]; · iexact Done1_7
      iexact Done1_8
    ihave Hrem := (rem_cls2_join (F := F) d L k0_h10 _ _) $$ [C0 C1]
    · isplitl [C0]; · iexact C0
      iexact C1
    ihave Hg := (tileOut_join_ex' (F := F) d L) $$ [HA' HB' Hrem]
    · isplitl [HA']; · iexact HA'
      isplitl [HB']; · iexact HB'
      iexact Hrem
    icases Hg with ⟨%gout, Hout⟩
    isplitl [Hx' Hp' Ht' Hout]
    · isplitl [Hx' Hp' Ht']
      · isplitl [Hx']; · iapply (Entails.of_eq (pts_x (F := F) d L _ _)); iexact Hx'
        isplitl [Hp']; · iapply (Entails.of_eq (pts_p (F := F) d L _ _)); iexact Hp'
        iapply (Entails.of_eq (pts_t (F := F) d L _ _)); iexact Ht'
      · iexists gout; isplitr; · ipureintro; exact trivial
        iexact Hout
    isplitl [Hpos' Hslot' Hbufs]
    · isplitl [Hpos']; · iexists _; iapply (Entails.of_eq (pts_pos (F := F) d L _)); iexact Hpos'
      isplitl [Hslot']; · iexists _; iapply (Entails.of_eq (pts_slot (F := F) d L _)); iexact Hslot'
      iexact Hbufs
    isplitl [Hs0 Hs1 Hs2 Hs3 Hs4 Hs5 Hs6 Hs7 Hs8]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      iexact Hs8
    iexists _; isplitr; swap
    · iexact HO
    · ipureintro; repeat (first | exact waits_refl W | apply waits_insert)
  · sl_exec_parts
    sl_step
    ihave Done0_8 := (ex8 (F := F) (fun f => (outRow0 L (t1of 8) (t2of 0)).view.loc (thr d L) ↦[(outRow0 L (t1of 8) (t2of 0)).view.set]{fullShare} f)
        (fun f => (outRow0 L (t1of 8) (t2of 1)).view.loc (thr d L) ↦[(outRow0 L (t1of 8) (t2of 1)).view.set]{fullShare} f)
        (fun f => (outRow0 L (t1of 8) (t2of 2)).view.loc (thr d L) ↦[(outRow0 L (t1of 8) (t2of 2)).view.set]{fullShare} f)
        (fun f => (outRow0 L (t1of 8) (t2of 3)).view.loc (thr d L) ↦[(outRow0 L (t1of 8) (t2of 3)).view.set]{fullShare} f)
        (fun f => (outRow0 L (t1of 8) (t2of 4)).view.loc (thr d L) ↦[(outRow0 L (t1of 8) (t2of 4)).view.set]{fullShare} f)
        (fun f => (outRow0 L (t1of 8) (t2of 5)).view.loc (thr d L) ↦[(outRow0 L (t1of 8) (t2of 5)).view.set]{fullShare} f)
        (fun f => (outRow0 L (t1of 8) (t2of 6)).view.loc (thr d L) ↦[(outRow0 L (t1of 8) (t2of 6)).view.set]{fullShare} f)
        (fun f => (outRow0 L (t1of 8) (t2of 7)).view.loc (thr d L) ↦[(outRow0 L (t1of 8) (t2of 7)).view.set]{fullShare} f) _ _ _ _ _ _ _ _) $$ [Hs2_dst0 Hs2_dst1 Hs2_dst2 Hs2_dst3 Hs2_dst4 Hs2_dst5 Hs2_dst6 Hs2_dst7]
    · isplitl [Hs2_dst0]; · iexact Hs2_dst0
      isplitl [Hs2_dst1]; · iexact Hs2_dst1
      isplitl [Hs2_dst2]; · iexact Hs2_dst2
      isplitl [Hs2_dst3]; · iexact Hs2_dst3
      isplitl [Hs2_dst4]; · iexact Hs2_dst4
      isplitl [Hs2_dst5]; · iexact Hs2_dst5
      isplitl [Hs2_dst6]; · iexact Hs2_dst6
      iexact Hs2_dst7
    ihave Done1_8 := (ex8 (F := F) (fun f => (outRow1 L (t1of 8) (t3of 0)).view.loc (thr d L) ↦[(outRow1 L (t1of 8) (t3of 0)).view.set]{fullShare} f)
        (fun f => (outRow1 L (t1of 8) (t3of 1)).view.loc (thr d L) ↦[(outRow1 L (t1of 8) (t3of 1)).view.set]{fullShare} f)
        (fun f => (outRow1 L (t1of 8) (t3of 2)).view.loc (thr d L) ↦[(outRow1 L (t1of 8) (t3of 2)).view.set]{fullShare} f)
        (fun f => (outRow1 L (t1of 8) (t3of 3)).view.loc (thr d L) ↦[(outRow1 L (t1of 8) (t3of 3)).view.set]{fullShare} f)
        (fun f => (outRow1 L (t1of 8) (t3of 4)).view.loc (thr d L) ↦[(outRow1 L (t1of 8) (t3of 4)).view.set]{fullShare} f)
        (fun f => (outRow1 L (t1of 8) (t3of 5)).view.loc (thr d L) ↦[(outRow1 L (t1of 8) (t3of 5)).view.set]{fullShare} f)
        (fun f => (outRow1 L (t1of 8) (t3of 6)).view.loc (thr d L) ↦[(outRow1 L (t1of 8) (t3of 6)).view.set]{fullShare} f)
        (fun f => (outRow1 L (t1of 8) (t3of 7)).view.loc (thr d L) ↦[(outRow1 L (t1of 8) (t3of 7)).view.set]{fullShare} f) _ _ _ _ _ _ _ _) $$ [Hs3_dst0 Hs3_dst1 Hs3_dst2 Hs3_dst3 Hs3_dst4 Hs3_dst5 Hs3_dst6 Hs3_dst7]
    · isplitl [Hs3_dst0]; · iexact Hs3_dst0
      isplitl [Hs3_dst1]; · iexact Hs3_dst1
      isplitl [Hs3_dst2]; · iexact Hs3_dst2
      isplitl [Hs3_dst3]; · iexact Hs3_dst3
      isplitl [Hs3_dst4]; · iexact Hs3_dst4
      isplitl [Hs3_dst5]; · iexact Hs3_dst5
      isplitl [Hs3_dst6]; · iexact Hs3_dst6
      iexact Hs3_dst7
    -- every row copy has landed: the staging buffer whole again
    ihave Hall := (rows16_join' (F := F) d L _ _ _ _ _ _ _ _ _ _ _ _ _ _ _ _) $$ [Hs2_src0 Hs2_src1 Hs2_src2 Hs2_src3 Hs2_src4 Hs2_src5 Hs2_src6 Hs2_src7 Hs3_src0 Hs3_src1 Hs3_src2 Hs3_src3 Hs3_src4 Hs3_src5 Hs3_src6 Hs3_src7]
    · isplitl [Hs2_src0 Hs2_src1 Hs2_src2 Hs2_src3 Hs2_src4 Hs2_src5 Hs2_src6 Hs2_src7]
      · isplitl [Hs2_src0]; · iexact Hs2_src0
        isplitl [Hs2_src1]; · iexact Hs2_src1
        isplitl [Hs2_src2]; · iexact Hs2_src2
        isplitl [Hs2_src3]; · iexact Hs2_src3
        isplitl [Hs2_src4]; · iexact Hs2_src4
        isplitl [Hs2_src5]; · iexact Hs2_src5
        isplitl [Hs2_src6]; · iexact Hs2_src6
        iexact Hs2_src7
      isplitl [Hs3_src0]; · iexact Hs3_src0
      isplitl [Hs3_src1]; · iexact Hs3_src1
      isplitl [Hs3_src2]; · iexact Hs3_src2
      isplitl [Hs3_src3]; · iexact Hs3_src3
      isplitl [Hs3_src4]; · iexact Hs3_src4
      isplitl [Hs3_src5]; · iexact Hs3_src5
      isplitl [Hs3_src6]; · iexact Hs3_src6
      iexact Hs3_src7
    icases Hall with ⟨%gall, Hslot'⟩
    -- the worker's part of the output, whole again: the nine times two groups of eight rows, and the rest
    ihave HA' := (Entails.of_eq (rows0_expand (F := F) (fun p : Fin k0_t1_loop.trips × Fin k0_t2_loop.trips => iprop(∃ f : Buf (Elt F) (oLoc d), (outRow0 L p.1 p.2).view.loc (thr d L) ↦[(outRow0 L p.1 p.2).view.set]{fullShare} f))).symm) $$ [Done0_0 Done0_1 Done0_2 Done0_3 Done0_4 Done0_5 Done0_6 Done0_7 Done0_8]
    · isplitl [Done0_0]; · iexact Done0_0
      isplitl [Done0_1]; · iexact Done0_1
      isplitl [Done0_2]; · iexact Done0_2
      isplitl [Done0_3]; · iexact Done0_3
      isplitl [Done0_4]; · iexact Done0_4
      isplitl [Done0_5]; · iexact Done0_5
      isplitl [Done0_6]; · iexact Done0_6
      isplitl [Done0_7]; · iexact Done0_7
      iexact Done0_8
    ihave HB' := (Entails.of_eq (rows1_expand (F := F) (fun p : Fin k0_t1_loop.trips × Fin k0_t3_loop.trips => iprop(∃ f : Buf (Elt F) (oLoc d), (outRow1 L p.1 p.2).view.loc (thr d L) ↦[(outRow1 L p.1 p.2).view.set]{fullShare} f))).symm) $$ [Done1_0 Done1_1 Done1_2 Done1_3 Done1_4 Done1_5 Done1_6 Done1_7 Done1_8]
    · isplitl [Done1_0]; · iexact Done1_0
      isplitl [Done1_1]; · iexact Done1_1
      isplitl [Done1_2]; · iexact Done1_2
      isplitl [Done1_3]; · iexact Done1_3
      isplitl [Done1_4]; · iexact Done1_4
      isplitl [Done1_5]; · iexact Done1_5
      isplitl [Done1_6]; · iexact Done1_6
      isplitl [Done1_7]; · iexact Done1_7
      iexact Done1_8
    ihave Hg := (tileOut_join_ex (F := F) d L _) $$ [HA' HB' Hrem]
    · isplitl [HA']; · iexact HA'
      isplitl [HB']; · iexact HB'
      iexact Hrem
    icases Hg with ⟨%gout, Hout⟩
    isplitl [Hx' Hp' Ht' Hout]
    · isplitl [Hx' Hp' Ht']
      · isplitl [Hx']; · iapply (Entails.of_eq (pts_x (F := F) d L _ _)); iexact Hx'
        isplitl [Hp']; · iapply (Entails.of_eq (pts_p (F := F) d L _ _)); iexact Hp'
        iapply (Entails.of_eq (pts_t (F := F) d L _ _)); iexact Ht'
      · iexists gout; isplitr; · ipureintro; exact trivial
        iexact Hout
    isplitl [Hpos' Hslot' Hbufs]
    · isplitl [Hpos']; · iexists _; iapply (Entails.of_eq (pts_pos (F := F) d L _)); iexact Hpos'
      isplitl [Hslot']; · iexists _; iapply (Entails.of_eq (pts_slot (F := F) d L _)); iexact Hslot'
      iexact Hbufs
    isplitl [Hs0 Hs1 Hs2 Hs3 Hs4 Hs5 Hs6 Hs7 Hs8]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      iexact Hs8
    iexists _; isplitr; swap
    · iexact HO
    · ipureintro; repeat (first | exact waits_refl W | apply waits_insert)

end Cert.Kernel.Hand

end
-- ==== Proof.RowTripW.lean ====
/-
  One trip of the first row loop runs, and records its row copy.

  The trip's 816 memory operations touch two things only: position row r of staging slot 0, which the trip holds by
  exactly its own entries, and the chunk's position rows, held whole and only read. Every load and store of the slot
  goes through the whole staging buffer at a box [1, 1, 1, 16] inside that row; so the trip needs nothing else of the
  buffer. After the stores the row holds some contents (not named here); the trip then starts ONE copy, of the row to
  the eight batch rows of the output it belongs to, on the slot's outgoing semaphore, and the copy's delivery (the
  output rows overwritten with the row, and the row back) is recorded as the next of the semaphore's batch of eight.
  Nothing is waited for in a trip, so what the worker owes and the waits it has recorded are unchanged.
-/
import proofs.«204390_g6468220748199_cont_9to1_m_1136_17_alg».proof.Proof.RowSpecW
import proofs.«204390_g6468220748199_cont_9to1_m_1136_17_alg».proof.Proof.OffsetsW
import proofs.«204390_g6468220748199_cont_9to1_m_1136_17_alg».proof.Proof.Gen.Kernel.Skeleton

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Tactic

variable {F : FTy → Type} [FloatOps F] [∀ e, Nonempty (Elt F e)]

local notation "𝕄" => MT nD τ sig (HIx 1) (Elt F) ℕ UU ℕ

variable (d : Dev nD) (L : grid0.Coords)

/-- Position row of slot 0 sliced at any offsets, as the program slices it. -/
abbrev rowAt (o : Fin 4 → Nat) (ho : ∀ a, o a + S1x8x1x768.size a ≤ S2x8x8x768.size a) : Memref sig .scVector .vmem S8x768 .f32 :=
  (slotV.slice (Rect.unit (s := S2x8x8x768) o S1x8x1x768.size ho) (fun _ => rfl)).squeeze S8x768 squeezes_S1x8x1x768_S8x768

/-- The row held through the program's slice is the row held through the named window, when the offsets are the window's. -/
theorem pts_rowAt (t2 : Fin k0_t2_loop.trips) (o : Fin 4 → Nat) (ho : ∀ a, o a + S1x8x1x768.size a ≤ S2x8x8x768.size a)
    (e : o = ![0, 0, t2.val, 0]) (C : Buf (Elt F) ((thr d L).loc cc0_scratch1)) :
    ((rowWin 0 ⟨t2.val, t2_lt t2⟩ Nat.zero_lt_two).view.loc (thr d L) ↦[(rowWin 0 ⟨t2.val, t2_lt t2⟩ Nat.zero_lt_two).view.set]{fullShare} C : sProp 𝕄)
      = ((rowAt o ho).view.loc (thr d L) ↦[(rowAt o ho).view.set]{fullShare} C) := by
  subst e; rfl

/-- The delivery recorded through the program's slice is the named delivery. -/
theorem deliv_rowAt (t1 : Fin k0_t1_loop.trips) (t2 : Fin k0_t2_loop.trips) (o : Fin 4 → Nat)
    (ho : ∀ a, o a + S1x8x1x768.size a ≤ S2x8x8x768.size a) (e : o = ![0, 0, t2.val, 0])
    (fo : Buf (Elt F) (oLoc d)) (C : Buf (Elt F) ((thr d L).loc cc0_scratch1)) :
    (iprop(((outRow0 L t1 t2).view.loc (thr d L) ↦[(outRow0 L t1 t2).view.set]{fullShare}
          (outRow0 L t1 t2).view.write (Elt F) fo (ReadAs.same.apply ((rowAt o ho).view.read (Elt F) C)) Finset.univ)
        ∗ ((rowAt o ho).view.loc (thr d L) ↦[(rowAt o ho).view.set]{fullShare} C)) : sProp 𝕄)
      = deliv0 d L t1 t2 fo C := by
  subst e; rfl

theorem row_trip0F : RowTrip0F (F := F) d L := by
  intro t1 t2 v29 v30 a10 v276 c0 O W f g fo Ds u hj hu
  generalize hP : (iprop(□ Transfers.MayWaits (thr d L) (none : HIx 1) O
        ∗ ((rowWin 0 ⟨t2.val, t2_lt t2⟩ Nat.zero_lt_two).view.loc (thr d L) ↦[(rowWin 0 ⟨t2.val, t2_lt t2⟩ Nat.zero_lt_two).view.set]{fullShare} f)
        ∗ ((posV : Memref sig .scVector .vmem S8x768 .f32).view.loc (thr d L) ↦{fullShare} g)
        ∗ ((outRow0 L t1 t2).view.loc (thr d L) ↦[(outRow0 L t1 t2).view.set]{fullShare} fo)
        ∗ Transfers.Batched (countersEmb (U := UU)) (thr d L) (SemLoc.dma (sig := sig) (2 : Fin 9)) (default : HIx 1) Nrow 8 Ds u
        ∗ owes (thr d L) O W) : sProp 𝕄) = P
  unfold k0_t2_body
  subst hP
  iintro ⟨#Hmw, Hrow, Hpos, Hout, HB, HO⟩
  -- the row number as the boxes' closed forms spell it
  have hv : ((⟨t2.val, t2_lt t2⟩ : Fin 8)).val = t2.val := rfl
  sl_exec_parts
  -- the row copy: its source is the row, spelt by the program through the trip's offsets
  ihave Hrow' := (Entails.of_eq (pts_rowAt (F := F) d L t2 (k0_off444 t2) (k0_off444_inb t2) (k0_off444_eq t2) _)) $$ Hrow
  iapply (Transfers.wp_dmaBatched (countersEmb (U := UU)) 𝒱₀ (thr d L) none (default : HIx 1) Nrow rfl (Finset.Subset.refl _) hj hu) $$ [Hrow' Hout HB]
  · isplitl [Hrow']; · iexact Hrow'
    isplitl [Hout]; · iexact Hout
    iexact HB
  iintro HB
  rw [deliv_rowAt (F := F) d L t1 t2 (k0_off444 t2) (k0_off444_inb t2) (k0_off444_eq t2) fo]
  sl_step
  iexists _
  isplitl [Hpos]; · iexact Hpos
  isplitl [HB]; · iexact HB
  iexact HO

end Cert.Kernel.Hand

end
-- ==== Proof.RowTrip1W.lean ====
/-
  One trip of the second row loop runs, and records its row copy.

  The trip's 816 memory operations touch two things only: position row r of staging slot 1, which the trip holds by
  exactly its own entries, and the chunk's position rows, held whole and only read. Every load and store of the slot
  goes through the whole staging buffer at a box [1, 1, 1, 16] inside that row; so the trip needs nothing else of the
  buffer. After the stores the row holds some contents; the trip then starts ONE copy, of the row to the eight batch
  rows of the output it belongs to (the second half of the worker's batches), on the slot's outgoing semaphore, and
  the copy's delivery (the output rows overwritten with the row, and the row back) is recorded as the next of the
  semaphore's batch of eight. Nothing is waited for in a trip, so what the worker owes and the waits it has recorded
  are unchanged.
-/
import proofs.«204390_g6468220748199_cont_9to1_m_1136_17_alg».proof.Proof.RowSpecW
import proofs.«204390_g6468220748199_cont_9to1_m_1136_17_alg».proof.Proof.OffsetsW
import proofs.«204390_g6468220748199_cont_9to1_m_1136_17_alg».proof.Proof.Gen.Kernel.Skeleton

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Tactic

variable {F : FTy → Type} [FloatOps F] [∀ e, Nonempty (Elt F e)]

local notation "𝕄" => MT nD τ sig (HIx 1) (Elt F) ℕ UU ℕ

variable (d : Dev nD) (L : grid0.Coords)

/-- A position row of the staging buffer sliced at any offsets, as the program slices it. -/
abbrev rowAt1 (o : Fin 4 → Nat) (ho : ∀ a, o a + S1x8x1x768.size a ≤ S2x8x8x768.size a) : Memref sig .scVector .vmem S8x768 .f32 :=
  (slotV.slice (Rect.unit (s := S2x8x8x768) o S1x8x1x768.size ho) (fun _ => rfl)).squeeze S8x768 squeezes_S1x8x1x768_S8x768

/-- The row held through the program's slice is the row held through the named window of slot 1, when the offsets are
    the window's. -/
theorem pts_rowAt1 (t3 : Fin k0_t3_loop.trips) (o : Fin 4 → Nat) (ho : ∀ a, o a + S1x8x1x768.size a ≤ S2x8x8x768.size a)
    (e : o = ![1, 0, t3.val, 0]) (C : Buf (Elt F) ((thr d L).loc cc0_scratch1)) :
    ((rowWin 1 ⟨t3.val, t3_lt t3⟩ Nat.one_lt_two).view.loc (thr d L) ↦[(rowWin 1 ⟨t3.val, t3_lt t3⟩ Nat.one_lt_two).view.set]{fullShare} C : sProp 𝕄)
      = ((rowAt1 o ho).view.loc (thr d L) ↦[(rowAt1 o ho).view.set]{fullShare} C) := by
  subst e; rfl

/-- The delivery recorded through the program's slice is the named delivery. -/
theorem deliv_rowAt1 (t1 : Fin k0_t1_loop.trips) (t3 : Fin k0_t3_loop.trips) (o : Fin 4 → Nat)
    (ho : ∀ a, o a + S1x8x1x768.size a ≤ S2x8x8x768.size a) (e : o = ![1, 0, t3.val, 0])
    (fo : Buf (Elt F) (oLoc d)) (C : Buf (Elt F) ((thr d L).loc cc0_scratch1)) :
    (iprop(((outRow1 L t1 t3).view.loc (thr d L) ↦[(outRow1 L t1 t3).view.set]{fullShare}
          (outRow1 L t1 t3).view.write (Elt F) fo (ReadAs.same.apply ((rowAt1 o ho).view.read (Elt F) C)) Finset.univ)
        ∗ ((rowAt1 o ho).view.loc (thr d L) ↦[(rowAt1 o ho).view.set]{fullShare} C)) : sProp 𝕄)
      = deliv1 d L t1 t3 fo C := by
  subst e; rfl

theorem row_trip1F : RowTrip1F (F := F) d L := by
  intro t1 t3 v29 v30 a10 O W f g fo Ds u hj hu
  generalize hP : (iprop(□ Transfers.MayWaits (thr d L) (none : HIx 1) O
        ∗ ((rowWin 1 ⟨t3.val, t3_lt t3⟩ Nat.one_lt_two).view.loc (thr d L) ↦[(rowWin 1 ⟨t3.val, t3_lt t3⟩ Nat.one_lt_two).view.set]{fullShare} f)
        ∗ ((posV : Memref sig .scVector .vmem S8x768 .f32).view.loc (thr d L) ↦{fullShare} g)
        ∗ ((outRow1 L t1 t3).view.loc (thr d L) ↦[(outRow1 L t1 t3).view.set]{fullShare} fo)
        ∗ Transfers.Batched (countersEmb (U := UU)) (thr d L) (SemLoc.dma (sig := sig) (3 : Fin 9)) (default : HIx 1) Nrow 8 Ds u
        ∗ owes (thr d L) O W) : sProp 𝕄) = P
  unfold k0_t3_body
  subst hP
  iintro ⟨#Hmw, Hrow, Hpos, Hout, HB, HO⟩
  -- the row number as the boxes' closed forms spell it
  have hv : ((⟨t3.val, t3_lt t3⟩ : Fin 8)).val = t3.val := rfl
  sl_exec_parts
  -- the row copy: its source is the row, spelt by the program through the trip's offsets
  ihave Hrow' := (Entails.of_eq (pts_rowAt1 (F := F) d L t3 (k0_off880 t3) (k0_off880_inb t3) (k0_off880_eq t3) _)) $$ Hrow
  iapply (Transfers.wp_dmaBatched (countersEmb (U := UU)) 𝒱₀ (thr d L) none (default : HIx 1) Nrow rfl (Finset.Subset.refl _) hj hu) $$ [Hrow' Hout HB]
  · isplitl [Hrow']; · iexact Hrow'
    isplitl [Hout]; · iexact Hout
    iexact HB
  iintro HB
  rw [deliv_rowAt1 (F := F) d L t1 t3 (k0_off880 t3) (k0_off880_inb t3) (k0_off880_eq t3) fo]
  sl_step
  iexists _
  isplitl [Hpos]; · iexact Hpos
  isplitl [HB]; · iexact HB
  iexact HO

end Cert.Kernel.Hand

end
-- ==== Proof.BodyOpenI.lean ====
/-
  How one worker's storage is laid out for the run of its body.

  A vector subcore owns two scratch buffers — the eight position rows of the current chunk and two staging slots of
  eight batch rows by eight positions — and nine transfer semaphores: two for the incoming blocks (one per slot), two
  for the outgoing rows (one per slot), and one for each of the five copies that are started and awaited on the spot.
  The subcore addresses the four arrays in device memory through whole-array references of its own; they name the same
  locations as the TensorCore's.
-/
import proofs.«204390_g6468220748199_cont_9to1_m_1136_17_alg».proof.Proof.SetupI

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (d : Dev nD) (L : grid0.Coords)

/-- The worker's thread. -/
abbrev thr : Thread nD τ := V d (cV L) (jV L)

/-! ## The arrays in device memory, as the subcore addresses them -/

theorem pts_x (q : PosShare TreeShare) (f : Buf (Elt F) (xLoc d)) :
    ((xV : Memref sig .scVector .hbm S64x576x768 .f32).view.loc (thr d L) ↦{q} f : sProp 𝕄) = xLoc d ↦{q} f := by
  simp only [Memref.view_whole, View.set_whole]
theorem pts_p (q : PosShare TreeShare) (f : Buf (Elt F) (pLoc d)) :
    ((pV : Memref sig .scVector .hbm S577x768 .f32).view.loc (thr d L) ↦{q} f : sProp 𝕄) = pLoc d ↦{q} f := by
  simp only [Memref.view_whole, View.set_whole]
theorem pts_t (q : PosShare TreeShare) (f : Buf (Elt F) (tLoc d)) :
    ((tV : Memref sig .scVector .hbm S1x1x768 .f32).view.loc (thr d L) ↦{q} f : sProp 𝕄) = tLoc d ↦{q} f := by
  simp only [Memref.view_whole, View.set_whole]
theorem pts_o (s : Finset S577x64x768.Idx) (f : Buf (Elt F) (oLoc d)) :
    ((oV : Memref sig .scVector .hbm S577x64x768 .f32).view.loc (thr d L) ↦[s]{fullShare} f : sProp 𝕄) = oLoc d ↦[s]{fullShare} f := by
  simp only [Memref.view_whole, View.set_whole]

/-! ## The nine transfer semaphores -/

/-- The k-th transfer semaphore of the worker. -/
abbrev cell (k : Fin 9) : GSem nD τ sig := (thr d L, SemLoc.dma k)

/-- On a vector subcore no regular semaphore is the worker's own, and all nine transfer semaphores are. -/
theorem reg_not_scoped : ∀ s : Sem sig, (SemLoc.reg s : SemLoc sig).isScoped .scVector = false := by decide
theorem dma_scoped : ∀ k : Fin 9, (SemLoc.dma k : SemLoc sig).isScoped .scVector = true := by decide

theorem cell_injective : Function.Injective fun k : Fin 9 => cell d L k :=
  fun _ _ e => SemLoc.dma.inj (Prod.mk.inj e).2

theorem ownCells_thr : ownCells (sig := sig) (thr d L) = Finset.univ.map ⟨fun k : Fin 9 => cell d L k, cell_injective d L⟩ := by
  ext g
  rw [mem_ownCells, Finset.mem_map]
  obtain ⟨t, sm⟩ := g
  constructor
  · rintro ⟨h1, hs⟩
    have h1' : t = thr d L := h1
    subst h1'
    cases sm with
    | reg s =>
      exfalso
      have hs' : (SemLoc.reg s : SemLoc sig).isScoped .scVector = true := hs
      rw [reg_not_scoped s] at hs'
      exact Bool.false_ne_true hs'
    | dma k => exact ⟨k, Finset.mem_univ _, rfl⟩
  · rintro ⟨k, -, e⟩
    have e1 : thr d L = t := (Prod.mk.inj e).1
    have e2 : SemLoc.dma k = sm := (Prod.mk.inj e).2
    subst e1; subst e2
    exact ⟨rfl, dma_scoped k⟩

/-- The worker's semaphores at zero, one by one. -/
theorem ownSems0_thr :
    (ownSems0 (thr d L) : sProp 𝕄) = bigSep Finset.univ fun k : Fin 9 => semVal (cell d L k) 0 := by
  unfold SparseCore.Cfg.ownSems0
  rw [ownCells_thr, bigSep_map]
  rfl

/-- A product over the nine semaphores, factor by factor. -/
theorem bigSep_fin9 (Φ : Fin 9 → sProp 𝕄) :
    bigSep Finset.univ Φ = iprop(Φ 0 ∗ Φ 1 ∗ Φ 2 ∗ Φ 3 ∗ Φ 4 ∗ Φ 5 ∗ Φ 6 ∗ Φ 7 ∗ Φ 8) := by
  rw [show (Finset.univ : Finset (Fin 9)) = {0, 1, 2, 3, 4, 5, 6, 7, 8} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-! ## The two scratch buffers -/

/-- The position rows and the staging slots are among the worker's own buffers: they, at some contents, and the rest. -/
theorem ownBufs_thr :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The scratch buffers as the kernel's whole-buffer references address them. -/
theorem pts_pos (f : Buf (Elt F) ((thr d L).loc cc0_scratch0)) :
    ((posV : Memref sig .scVector .vmem S8x768 .f32).view.loc (thr d L) ↦{fullShare} f : sProp 𝕄) = (thr d L).loc cc0_scratch0 ↦{fullShare} f := rfl
theorem pts_slot (f : Buf (Elt F) ((thr d L).loc cc0_scratch1)) :
    ((slotV : Memref sig .scVector .vmem S2x8x8x768 .f32).view.loc (thr d L) ↦{fullShare} f : sProp 𝕄) = (thr d L).loc cc0_scratch1 ↦{fullShare} f := rfl

end Cert.KernelIdeal.Hand

end
-- ==== Proof.SlotGeomI.lean ====
/-
  The geometry of the staging buffer.

  A vector subcore's staging buffer is an array [2, 8, 8, 768]: two slots, each eight batch rows by eight position
  rows by the features. An incoming block lands in a whole slot (the window with first coordinate pb); an outgoing
  row copy reads, for position row r of slot pb, the eight batch rows at that position (the window with first
  coordinate pb and third coordinate r). As sets of elements of the buffer: the two slots are disjoint and together
  the buffer; the eight row windows of a slot are pairwise disjoint and together the slot. So the buffer held whole
  is the two slots held each through its own window, a slot is its eight rows held each through its own window,
  and pieces that come back at different contents join to the whole at some contents agreeing with each piece on
  that piece.
-/
import proofs.«204390_g6468220748199_cont_9to1_m_1136_17_alg».proof.Proof.BodyOpenI

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The windows -/

/-- A slot is inside the buffer. -/
theorem slot_inb (pb : Nat) (hpb : pb < 2) :
    ∀ a, (![pb, 0, 0, 0] : Fin 4 → Nat) a + S1x8x8x768.size a ≤ S2x8x8x768.size a := by
  intro a
  match a with
  | ⟨0, _⟩ => show pb + 1 ≤ 2; omega
  | ⟨1, _⟩ => show 0 + 8 ≤ 8; omega
  | ⟨2, _⟩ => show 0 + 8 ≤ 8; omega
  | ⟨3, _⟩ => show 0 + 768 ≤ 768; omega

/-- A position row of a slot is inside the buffer. -/
theorem row_inb (pb : Nat) (hpb : pb < 2) (r : Fin 8) :
    ∀ a, (![pb, 0, r.val, 0] : Fin 4 → Nat) a + S1x8x1x768.size a ≤ S2x8x8x768.size a := by
  intro a
  have hr := r.isLt
  match a with
  | ⟨0, _⟩ => show pb + 1 ≤ 2; omega
  | ⟨1, _⟩ => show 0 + 8 ≤ 8; omega
  | ⟨2, _⟩ => show r.val + 1 ≤ 8; omega
  | ⟨3, _⟩ => show 0 + 768 ≤ 768; omega

/-- Slot `pb`, as the program slices it: the block [1, 8, 8, 768] at [pb, 0, 0, 0], its unit axis dropped. -/
abbrev slotWin (pb : Nat) (hpb : pb < 2 := by decide) : Memref sig .scVector .vmem S8x8x768 .f32 :=
  (slotV.slice (Rect.unit (s := S2x8x8x768) ![pb, 0, 0, 0] S1x8x8x768.size (slot_inb pb hpb)) (fun _ => rfl)).squeeze S8x8x768 squeezes_S1x8x8x768_S8x8x768

/-- Position row `r` of slot `pb`, as the program slices it: the block [1, 8, 1, 768] at [pb, 0, r, 0], its unit axes
    dropped. -/
abbrev rowWin (pb : Nat) (r : Fin 8) (hpb : pb < 2 := by decide) : Memref sig .scVector .vmem S8x768 .f32 :=
  (slotV.slice (Rect.unit (s := S2x8x8x768) ![pb, 0, r.val, 0] S1x8x1x768.size (row_inb pb hpb r)) (fun _ => rfl)).squeeze S8x768 squeezes_S1x8x1x768_S8x768

/-- At literal coordinates these are the printed terms. -/
example : slotWin 0 = (slotV.slice (Rect.unit (s := S2x8x8x768) ![0, 0, 0, 0] S1x8x8x768.size inb_S2x8x8x768_S1x8x8x768_0_0_0_0) (fun _ => rfl)).squeeze S8x8x768 squeezes_S1x8x8x768_S8x8x768 := rfl
example : slotWin 1 = (slotV.slice (Rect.unit (s := S2x8x8x768) ![1, 0, 0, 0] S1x8x8x768.size inb_S2x8x8x768_S1x8x8x768_1_0_0_0) (fun _ => rfl)).squeeze S8x8x768 squeezes_S1x8x8x768_S8x8x768 := rfl
example : rowWin 1 7 = (slotV.slice (Rect.unit (s := S2x8x8x768) ![1, 0, 7, 0] S1x8x1x768.size inb_S2x8x8x768_S1x8x1x768_1_0_7_0) (fun _ => rfl)).squeeze S8x768 squeezes_S1x8x1x768_S8x768 := rfl

/-- A row window sliced at offsets given in closed form is `rowWin`. -/
theorem rowWin_of_off (pb : Nat) (hpb : pb < 2) (r : Fin 8) (o : Fin 4 → Nat)
    (ho : ∀ a, o a + S1x8x1x768.size a ≤ S2x8x8x768.size a) (e : o = ![pb, 0, r.val, 0]) :
    (slotV.slice (Rect.unit (s := S2x8x8x768) o S1x8x1x768.size ho) (fun _ => rfl)).squeeze S8x768 squeezes_S1x8x1x768_S8x768
      = rowWin pb r hpb := by
  subst e; rfl

/-- The same for a slot. -/
theorem slotWin_of_off (pb : Nat) (hpb : pb < 2) (o : Fin 4 → Nat)
    (ho : ∀ a, o a + S1x8x8x768.size a ≤ S2x8x8x768.size a) (e : o = ![pb, 0, 0, 0]) :
    (slotV.slice (Rect.unit (s := S2x8x8x768) o S1x8x8x768.size ho) (fun _ => rfl)).squeeze S8x8x768 squeezes_S1x8x8x768_S8x8x768
      = slotWin pb hpb := by
  subst e; rfl

example (t2 : Fin k0_t2_loop.trips) :
    (slotV.slice (Rect.unit (s := S2x8x8x768) (k0_off444 t2) S1x8x1x768.size (k0_off444_inb t2)) (fun _ => rfl)).squeeze S8x768 squeezes_S1x8x1x768_S8x768
      = rowWin 0 ⟨t2.val, Nat.lt_of_lt_of_le t2.isLt k0_t2_abs.2.1⟩ :=
  rowWin_of_off 0 Nat.zero_lt_two _ _ _ (k0_off444_eq t2)

/-! ## The windows' element sets, in closed form -/

theorem set_slotWin (pb : Nat) (hpb : pb < 2) :
    (slotWin pb hpb).view.set = (Rect.unit (s := S2x8x8x768) ![pb, 0, 0, 0] S1x8x8x768.size (slot_inb pb hpb)).set := by
  show (((View.whole (cc0_scratch1 : Ref sig .scVector)).slice _).reshape S8x8x768 _).set = _
  rw [View.set_reshape, View.set_slice_whole]

theorem set_rowWin (pb : Nat) (hpb : pb < 2) (r : Fin 8) :
    (rowWin pb r hpb).view.set = (Rect.unit (s := S2x8x8x768) ![pb, 0, r.val, 0] S1x8x1x768.size (row_inb pb hpb r)).set := by
  show (((View.whole (cc0_scratch1 : Ref sig .scVector)).slice _).reshape S8x768 _).set = _
  rw [View.set_reshape, View.set_slice_whole]

/-- An element of the buffer is in slot `pb` exactly when its first coordinate is `pb`. -/
theorem mem_slotWin_set (pb : Nat) (hpb : pb < 2) (i : S2x8x8x768.Idx) :
    i ∈ (slotWin pb hpb).view.set ↔ (i 0).val = pb := by
  rw [set_slotWin, Rect.mem_set_unit]
  have h1 : (i 1).val < 8 := (i 1).isLt
  have h2 : (i 2).val < 8 := (i 2).isLt
  have h3 : (i 3).val < 768 := (i 3).isLt
  constructor
  · intro h
    have h0 := h 0
    have e : (![pb, 0, 0, 0] : Fin 4 → Nat) 0 = pb := rfl
    have e' : S1x8x8x768.size 0 = 1 := rfl
    rw [e, e'] at h0
    omega
  · intro h a
    match a with
    | ⟨0, _⟩ => show pb ≤ (i 0).val ∧ (i 0).val < pb + 1; omega
    | ⟨1, _⟩ => show 0 ≤ (i 1).val ∧ (i 1).val < 0 + 8; omega
    | ⟨2, _⟩ => show 0 ≤ (i 2).val ∧ (i 2).val < 0 + 8; omega
    | ⟨3, _⟩ => show 0 ≤ (i 3).val ∧ (i 3).val < 0 + 768; omega

/-- An element of the buffer is in position row `r` of slot `pb` exactly when its first coordinate is `pb` and its
    third is `r`. -/
theorem mem_rowWin_set (pb : Nat) (hpb : pb < 2) (r : Fin 8) (i : S2x8x8x768.Idx) :
    i ∈ (rowWin pb r hpb).view.set ↔ (i 0).val = pb ∧ (i 2).val = r.val := by
  rw [set_rowWin, Rect.mem_set_unit]
  have h1 : (i 1).val < 8 := (i 1).isLt
  have h3 : (i 3).val < 768 := (i 3).isLt
  constructor
  · intro h
    have h0 := h 0
    have h2 := h 2
    have e0 : (![pb, 0, r.val, 0] : Fin 4 → Nat) 0 = pb := rfl
    have e2 : (![pb, 0, r.val, 0] : Fin 4 → Nat) 2 = r.val := rfl
    have e0' : S1x8x1x768.size 0 = 1 := rfl
    have e2' : S1x8x1x768.size 2 = 1 := rfl
    rw [e0, e0'] at h0
    rw [e2, e2'] at h2
    omega
  · intro h a
    match a with
    | ⟨0, _⟩ => show pb ≤ (i 0).val ∧ (i 0).val < pb + 1; omega
    | ⟨1, _⟩ => show 0 ≤ (i 1).val ∧ (i 1).val < 0 + 8; omega
    | ⟨2, _⟩ => show r.val ≤ (i 2).val ∧ (i 2).val < r.val + 1; omega
    | ⟨3, _⟩ => show 0 ≤ (i 3).val ∧ (i 3).val < 0 + 768; omega

/-- The two slots are disjoint and together the buffer. -/
theorem slots_disjoint :
    Disjoint ((slotWin 0 Nat.zero_lt_two).view.set : Finset S2x8x8x768.Idx) ((slotWin 1 Nat.one_lt_two).view.set : Finset S2x8x8x768.Idx) := by
  rw [Finset.disjoint_left]
  intro i h0 h1
  rw [mem_slotWin_set] at h0 h1
  omega

theorem slots_cover :
    ((slotWin 0 Nat.zero_lt_two).view.set : Finset S2x8x8x768.Idx) ∪ ((slotWin 1 Nat.one_lt_two).view.set : Finset S2x8x8x768.Idx) = Finset.univ := by
  refine Finset.ext fun (i : S2x8x8x768.Idx) => ?_
  have h : (i 0).val < 2 := (i 0).isLt
  rw [Finset.mem_union, mem_slotWin_set, mem_slotWin_set]
  simp only [Finset.mem_univ, iff_true]
  omega

/-- The eight position rows of a slot are pairwise disjoint and together the slot. -/
theorem slotRows_disjoint (pb : Nat) (hpb : pb < 2) :
    ∀ r ∈ (Finset.univ : Finset (Fin 8)), ∀ r' ∈ (Finset.univ : Finset (Fin 8)), r ≠ r' →
      Disjoint ((rowWin pb r hpb).view.set : Finset S2x8x8x768.Idx) ((rowWin pb r' hpb).view.set : Finset S2x8x8x768.Idx) := by
  intro r _ r' _ hne
  rw [Finset.disjoint_left]
  intro i h h'
  rw [mem_rowWin_set] at h h'
  exact hne (Fin.ext (h.2.symm.trans h'.2))

theorem slotRows_cover (pb : Nat) (hpb : pb < 2) :
    (Finset.univ : Finset (Fin 8)).biUnion (fun r => ((rowWin pb r hpb).view.set : Finset S2x8x8x768.Idx))
      = ((slotWin pb hpb).view.set : Finset S2x8x8x768.Idx) := by
  refine Finset.ext fun (i : S2x8x8x768.Idx) => ?_
  rw [Finset.mem_biUnion, mem_slotWin_set]
  constructor
  · rintro ⟨r, -, h⟩
    exact ((mem_rowWin_set pb hpb r i).mp h).1
  · intro h
    exact ⟨⟨(i 2).val, (i 2).isLt⟩, Finset.mem_univ _, (mem_rowWin_set pb hpb _ i).mpr ⟨h, rfl⟩⟩

/-! ## The buffer held whole is its windows held each through its own memref -/

variable (d : Dev nD) (L : grid0.Coords)

/-- A window's buffer is the staging buffer. -/
theorem loc_slotWin (pb : Nat) (hpb : pb < 2) : (slotWin pb hpb).view.loc (thr d L) = (thr d L).loc cc0_scratch1 := rfl
theorem loc_rowWin (pb : Nat) (hpb : pb < 2) (r : Fin 8) : (rowWin pb r hpb).view.loc (thr d L) = (thr d L).loc cc0_scratch1 := rfl

/-- A product over eight rows, factor by factor. -/
theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The whole buffer is the two slots. -/
theorem slotV_slots (f : Buf (Elt F) ((thr d L).loc cc0_scratch1)) :
    ((slotV : Memref sig .scVector .vmem S2x8x8x768 .f32).view.loc (thr d L) ↦{fullShare} f : sProp 𝕄)
      = iprop(((slotWin 0 Nat.zero_lt_two).view.loc (thr d L) ↦[(slotWin 0 Nat.zero_lt_two).view.set]{fullShare} f)
          ∗ ((slotWin 1 Nat.one_lt_two).view.loc (thr d L) ↦[(slotWin 1 Nat.one_lt_two).view.set]{fullShare} f)) := by
  have e : ((thr d L).loc cc0_scratch1 ↦[Finset.univ]{fullShare} f : sProp 𝕄)
      = (thr d L).loc cc0_scratch1 ↦[((slotWin 0 Nat.zero_lt_two).view.set : Finset S2x8x8x768.Idx) ∪ ((slotWin 1 Nat.one_lt_two).view.set : Finset S2x8x8x768.Idx)]{fullShare} f := by
    rw [slots_cover]
  have h := pointsTo_union (nD := nD) (τ := τ) (sig := sig) (Ix := HIx 1) (Val := Elt F) (Name := ℕ) (U := UU) (Lvl := ℕ)
    (ℓ := (thr d L).loc cc0_scratch1) (I := ((slotWin 0 Nat.zero_lt_two).view.set : Finset S2x8x8x768.Idx))
    (J := ((slotWin 1 Nat.one_lt_two).view.set : Finset S2x8x8x768.Idx)) (q := fullShare) (f := f) slots_disjoint
  exact e.trans (BI.equiv_iff.mp ⟨h.1, h.2⟩)

/-- A slot is its eight position rows. -/
theorem slot_rows (pb : Nat) (hpb : pb < 2) (f : Buf (Elt F) ((thr d L).loc cc0_scratch1)) :
    ((slotWin pb hpb).view.loc (thr d L) ↦[(slotWin pb hpb).view.set]{fullShare} f : sProp 𝕄)
      = bigSep Finset.univ fun r : Fin 8 => (rowWin pb r hpb).view.loc (thr d L) ↦[(rowWin pb r hpb).view.set]{fullShare} f := by
  have e : ((thr d L).loc cc0_scratch1 ↦[((slotWin pb hpb).view.set : Finset S2x8x8x768.Idx)]{fullShare} f : sProp 𝕄)
      = (thr d L).loc cc0_scratch1 ↦[(Finset.univ : Finset (Fin 8)).biUnion (fun r => ((rowWin pb r hpb).view.set : Finset S2x8x8x768.Idx))]{fullShare} f := by
    rw [slotRows_cover]
  exact e.trans (pointsTo_biUnion Finset.univ (ℓ := (thr d L).loc cc0_scratch1)
    (fun r : Fin 8 => ((rowWin pb r hpb).view.set : Finset S2x8x8x768.Idx)) (slotRows_disjoint pb hpb))

/-- The same with the eight rows written out. -/
theorem slot_rows8 (pb : Nat) (hpb : pb < 2) (f : Buf (Elt F) ((thr d L).loc cc0_scratch1)) :
    ((slotWin pb hpb).view.loc (thr d L) ↦[(slotWin pb hpb).view.set]{fullShare} f : sProp 𝕄)
      = iprop(((rowWin pb 0 hpb).view.loc (thr d L) ↦[(rowWin pb 0 hpb).view.set]{fullShare} f)
          ∗ ((rowWin pb 1 hpb).view.loc (thr d L) ↦[(rowWin pb 1 hpb).view.set]{fullShare} f)
          ∗ ((rowWin pb 2 hpb).view.loc (thr d L) ↦[(rowWin pb 2 hpb).view.set]{fullShare} f)
          ∗ ((rowWin pb 3 hpb).view.loc (thr d L) ↦[(rowWin pb 3 hpb).view.set]{fullShare} f)
          ∗ ((rowWin pb 4 hpb).view.loc (thr d L) ↦[(rowWin pb 4 hpb).view.set]{fullShare} f)
          ∗ ((rowWin pb 5 hpb).view.loc (thr d L) ↦[(rowWin pb 5 hpb).view.set]{fullShare} f)
          ∗ ((rowWin pb 6 hpb).view.loc (thr d L) ↦[(rowWin pb 6 hpb).view.set]{fullShare} f)
          ∗ ((rowWin pb 7 hpb).view.loc (thr d L) ↦[(rowWin pb 7 hpb).view.set]{fullShare} f)) := by
  rw [slot_rows d L pb hpb f, bigSep_fin8]

/-! ## Joins: pieces that come back at different contents -/

/-- A position row of a slot is inside the slot. -/
theorem rowWin_sub_slotWin (pb : Nat) (hpb : pb < 2) (r : Fin 8) (i : S2x8x8x768.Idx)
    (h : i ∈ ((rowWin pb r hpb).view.set : Finset S2x8x8x768.Idx)) :
    i ∈ ((slotWin pb hpb).view.set : Finset S2x8x8x768.Idx) :=
  (mem_slotWin_set pb hpb i).mpr ((mem_rowWin_set pb hpb r i).mp h).1

/-- Eight rows of a slot, each at contents of its own, are the slot at some contents that agree with each row's on
    that row. -/
theorem slot_rows_join (pb : Nat) (hpb : pb < 2) (fs : Fin 8 → Buf (Elt F) ((thr d L).loc cc0_scratch1)) :
    (bigSep Finset.univ fun r : Fin 8 => (rowWin pb r hpb).view.loc (thr d L) ↦[(rowWin pb r hpb).view.set]{fullShare} fs r)
      ⊢ (iprop(∃ g : Buf (Elt F) ((thr d L).loc cc0_scratch1),
            ⌜∀ r : Fin 8, ∀ i ∈ ((rowWin pb r hpb).view.set : Finset S2x8x8x768.Idx), g i = fs r i⌝
            ∗ (slotWin pb hpb).view.loc (thr d L) ↦[(slotWin pb hpb).view.set]{fullShare} g) : sProp 𝕄) := by
  have h := pointsTo_biUnion_join (nD := nD) (τ := τ) (sig := sig) (Ix := HIx 1) (Val := Elt F) (Name := ℕ) (U := UU) (Lvl := ℕ)
    (ℓ := (thr d L).loc cc0_scratch1) (q := fullShare) (Finset.univ : Finset (Fin 8))
    (fun r : Fin 8 => ((rowWin pb r hpb).view.set : Finset S2x8x8x768.Idx)) fs (fs 0) (slotRows_disjoint pb hpb)
  rw [slotRows_cover] at h
  refine h.trans ?_
  iintro ⟨%g, %hg, H⟩
  iexists g
  isplitr
  · ipureintro
    exact fun r => hg r (Finset.mem_univ r)
  · iexact H

/-- The same from the eight rows written out. -/
theorem slot_rows8_join (pb : Nat) (hpb : pb < 2) (fs : Fin 8 → Buf (Elt F) ((thr d L).loc cc0_scratch1)) :
    iprop(((rowWin pb 0 hpb).view.loc (thr d L) ↦[(rowWin pb 0 hpb).view.set]{fullShare} fs 0)
          ∗ ((rowWin pb 1 hpb).view.loc (thr d L) ↦[(rowWin pb 1 hpb).view.set]{fullShare} fs 1)
          ∗ ((rowWin pb 2 hpb).view.loc (thr d L) ↦[(rowWin pb 2 hpb).view.set]{fullShare} fs 2)
          ∗ ((rowWin pb 3 hpb).view.loc (thr d L) ↦[(rowWin pb 3 hpb).view.set]{fullShare} fs 3)
          ∗ ((rowWin pb 4 hpb).view.loc (thr d L) ↦[(rowWin pb 4 hpb).view.set]{fullShare} fs 4)
          ∗ ((rowWin pb 5 hpb).view.loc (thr d L) ↦[(rowWin pb 5 hpb).view.set]{fullShare} fs 5)
          ∗ ((rowWin pb 6 hpb).view.loc (thr d L) ↦[(rowWin pb 6 hpb).view.set]{fullShare} fs 6)
          ∗ ((rowWin pb 7 hpb).view.loc (thr d L) ↦[(rowWin pb 7 hpb).view.set]{fullShare} fs 7))
      ⊢ (iprop(∃ g : Buf (Elt F) ((thr d L).loc cc0_scratch1),
            ⌜∀ r : Fin 8, ∀ i ∈ ((rowWin pb r hpb).view.set : Finset S2x8x8x768.Idx), g i = fs r i⌝
            ∗ (slotWin pb hpb).view.loc (thr d L) ↦[(slotWin pb hpb).view.set]{fullShare} g) : sProp 𝕄) := by
  have e := bigSep_fin8 (F := F) fun r : Fin 8 => ((rowWin pb r hpb).view.loc (thr d L) ↦[(rowWin pb r hpb).view.set]{fullShare} fs r : sProp 𝕄)
  have h := slot_rows_join d L pb hpb fs
  rw [e] at h
  exact h

/-- The two slots, each at contents of its own, are the whole buffer at some contents that agree with each slot's on
    that slot. -/
theorem slots_join (f0 f1 : Buf (Elt F) ((thr d L).loc cc0_scratch1)) :
    iprop(((slotWin 0 Nat.zero_lt_two).view.loc (thr d L) ↦[(slotWin 0 Nat.zero_lt_two).view.set]{fullShare} f0)
          ∗ ((slotWin 1 Nat.one_lt_two).view.loc (thr d L) ↦[(slotWin 1 Nat.one_lt_two).view.set]{fullShare} f1))
      ⊢ (iprop(∃ g : Buf (Elt F) ((thr d L).loc cc0_scratch1),
            ⌜(∀ i ∈ ((slotWin 0 Nat.zero_lt_two).view.set : Finset S2x8x8x768.Idx), g i = f0 i)
              ∧ (∀ i ∈ ((slotWin 1 Nat.one_lt_two).view.set : Finset S2x8x8x768.Idx), g i = f1 i)⌝
            ∗ (slotV : Memref sig .scVector .vmem S2x8x8x768 .f32).view.loc (thr d L) ↦{fullShare} g) : sProp 𝕄) := by
  classical
  have h := pointsTo_join (nD := nD) (τ := τ) (sig := sig) (Ix := HIx 1) (Val := Elt F) (Name := ℕ) (U := UU) (Lvl := ℕ)
    (ℓ := (thr d L).loc cc0_scratch1) (I := ((slotWin 0 Nat.zero_lt_two).view.set : Finset S2x8x8x768.Idx))
    (J := ((slotWin 1 Nat.one_lt_two).view.set : Finset S2x8x8x768.Idx)) (q := fullShare) (f := f0) (g := f1) slots_disjoint
  rw [slots_cover] at h
  refine h.trans ?_
  iintro H
  iexists (((slotWin 1 Nat.one_lt_two).view.set : Finset S2x8x8x768.Idx).piecewise f1 f0)
  isplitr
  · ipureintro
    exact ⟨fun i hi => Finset.piecewise_eq_of_notMem _ _ _ (Finset.disjoint_left.mp slots_disjoint hi),
      fun i hi => Finset.piecewise_eq_of_mem _ _ _ hi⟩
  · iexact H

/-- Sixteen rows, each at contents of its own, are the whole buffer at some contents that agree with each row's on
    that row. -/
theorem rows_join (fs0 fs1 : Fin 8 → Buf (Elt F) ((thr d L).loc cc0_scratch1)) :
    iprop((bigSep Finset.univ fun r : Fin 8 =>
            (rowWin 0 r Nat.zero_lt_two).view.loc (thr d L) ↦[(rowWin 0 r Nat.zero_lt_two).view.set]{fullShare} fs0 r)
          ∗ (bigSep Finset.univ fun r : Fin 8 =>
            (rowWin 1 r Nat.one_lt_two).view.loc (thr d L) ↦[(rowWin 1 r Nat.one_lt_two).view.set]{fullShare} fs1 r))
      ⊢ (iprop(∃ g : Buf (Elt F) ((thr d L).loc cc0_scratch1),
            ⌜∀ r : Fin 8, (∀ i ∈ ((rowWin 0 r Nat.zero_lt_two).view.set : Finset S2x8x8x768.Idx), g i = fs0 r i)
              ∧ (∀ i ∈ ((rowWin 1 r Nat.one_lt_two).view.set : Finset S2x8x8x768.Idx), g i = fs1 r i)⌝
            ∗ (slotV : Memref sig .scVector .vmem S2x8x8x768 .f32).view.loc (thr d L) ↦{fullShare} g) : sProp 𝕄) := by
  iintro ⟨H0, H1⟩
  ihave H0 := (slot_rows_join d L 0 Nat.zero_lt_two fs0) $$ H0
  ihave H1 := (slot_rows_join d L 1 Nat.one_lt_two fs1) $$ H1
  icases H0 with ⟨%g0, %h0, H0⟩
  icases H1 with ⟨%g1, %h1, H1⟩
  ihave H := (slots_join d L g0 g1) $$ [H0 H1]
  · isplitl [H0]
    · iexact H0
    · iexact H1
  icases H with ⟨%g, %hg, H⟩
  iexists g
  isplitr
  · ipureintro
    exact fun r => ⟨fun i hi => (hg.1 i (rowWin_sub_slotWin 0 Nat.zero_lt_two r i hi)).trans (h0 r i hi),
      fun i hi => (hg.2 i (rowWin_sub_slotWin 1 Nat.one_lt_two r i hi)).trans (h1 r i hi)⟩
  · iexact H

/-- Eight rows of a slot with the eight contents given one by one: the slot is held at some contents. -/
theorem slot_rows8_join' (pb : Nat) (hpb : pb < 2) (f0 f1 f2 f3 f4 f5 f6 f7 : Buf (Elt F) ((thr d L).loc cc0_scratch1)) :
    iprop(((rowWin pb 0 hpb).view.loc (thr d L) ↦[(rowWin pb 0 hpb).view.set]{fullShare} f0)
          ∗ ((rowWin pb 1 hpb).view.loc (thr d L) ↦[(rowWin pb 1 hpb).view.set]{fullShare} f1)
          ∗ ((rowWin pb 2 hpb).view.loc (thr d L) ↦[(rowWin pb 2 hpb).view.set]{fullShare} f2)
          ∗ ((rowWin pb 3 hpb).view.loc (thr d L) ↦[(rowWin pb 3 hpb).view.set]{fullShare} f3)
          ∗ ((rowWin pb 4 hpb).view.loc (thr d L) ↦[(rowWin pb 4 hpb).view.set]{fullShare} f4)
          ∗ ((rowWin pb 5 hpb).view.loc (thr d L) ↦[(rowWin pb 5 hpb).view.set]{fullShare} f5)
          ∗ ((rowWin pb 6 hpb).view.loc (thr d L) ↦[(rowWin pb 6 hpb).view.set]{fullShare} f6)
          ∗ ((rowWin pb 7 hpb).view.loc (thr d L) ↦[(rowWin pb 7 hpb).view.set]{fullShare} f7))
      ⊢ (iprop(∃ g : Buf (Elt F) ((thr d L).loc cc0_scratch1),
            (slotWin pb hpb).view.loc (thr d L) ↦[(slotWin pb hpb).view.set]{fullShare} g) : sProp 𝕄) := by
  have h := slot_rows8_join d L pb hpb (fun r : Fin 8 => match r with
      | ⟨0, _⟩ => f0
      | ⟨1, _⟩ => f1
      | ⟨2, _⟩ => f2
      | ⟨3, _⟩ => f3
      | ⟨4, _⟩ => f4
      | ⟨5, _⟩ => f5
      | ⟨6, _⟩ => f6
      | ⟨7, _⟩ => f7)
  refine h.trans ?_
  iintro ⟨%g, -, H⟩
  iexists g
  iexact H

/-- Sixteen rows with the sixteen contents given one by one: the whole buffer is held at some contents. -/
theorem rows16_join' (f0 f1 f2 f3 f4 f5 f6 f7 g0 g1 g2 g3 g4 g5 g6 g7 : Buf (Elt F) ((thr d L).loc cc0_scratch1)) :
    iprop((((rowWin 0 0 Nat.zero_lt_two).view.loc (thr d L) ↦[(rowWin 0 0 Nat.zero_lt_two).view.set]{fullShare} f0)
            ∗ ((rowWin 0 1 Nat.zero_lt_two).view.loc (thr d L) ↦[(rowWin 0 1 Nat.zero_lt_two).view.set]{fullShare} f1)
            ∗ ((rowWin 0 2 Nat.zero_lt_two).view.loc (thr d L) ↦[(rowWin 0 2 Nat.zero_lt_two).view.set]{fullShare} f2)
            ∗ ((rowWin 0 3 Nat.zero_lt_two).view.loc (thr d L) ↦[(rowWin 0 3 Nat.zero_lt_two).view.set]{fullShare} f3)
            ∗ ((rowWin 0 4 Nat.zero_lt_two).view.loc (thr d L) ↦[(rowWin 0 4 Nat.zero_lt_two).view.set]{fullShare} f4)
            ∗ ((rowWin 0 5 Nat.zero_lt_two).view.loc (thr d L) ↦[(rowWin 0 5 Nat.zero_lt_two).view.set]{fullShare} f5)
            ∗ ((rowWin 0 6 Nat.zero_lt_two).view.loc (thr d L) ↦[(rowWin 0 6 Nat.zero_lt_two).view.set]{fullShare} f6)
            ∗ ((rowWin 0 7 Nat.zero_lt_two).view.loc (thr d L) ↦[(rowWin 0 7 Nat.zero_lt_two).view.set]{fullShare} f7))
          ∗ (((rowWin 1 0 Nat.one_lt_two).view.loc (thr d L) ↦[(rowWin 1 0 Nat.one_lt_two).view.set]{fullShare} g0)
            ∗ ((rowWin 1 1 Nat.one_lt_two).view.loc (thr d L) ↦[(rowWin 1 1 Nat.one_lt_two).view.set]{fullShare} g1)
            ∗ ((rowWin 1 2 Nat.one_lt_two).view.loc (thr d L) ↦[(rowWin 1 2 Nat.one_lt_two).view.set]{fullShare} g2)
            ∗ ((rowWin 1 3 Nat.one_lt_two).view.loc (thr d L) ↦[(rowWin 1 3 Nat.one_lt_two).view.set]{fullShare} g3)
            ∗ ((rowWin 1 4 Nat.one_lt_two).view.loc (thr d L) ↦[(rowWin 1 4 Nat.one_lt_two).view.set]{fullShare} g4)
            ∗ ((rowWin 1 5 Nat.one_lt_two).view.loc (thr d L) ↦[(rowWin 1 5 Nat.one_lt_two).view.set]{fullShare} g5)
            ∗ ((rowWin 1 6 Nat.one_lt_two).view.loc (thr d L) ↦[(rowWin 1 6 Nat.one_lt_two).view.set]{fullShare} g6)
            ∗ ((rowWin 1 7 Nat.one_lt_two).view.loc (thr d L) ↦[(rowWin 1 7 Nat.one_lt_two).view.set]{fullShare} g7)))
      ⊢ (iprop(∃ h : Buf (Elt F) ((thr d L).loc cc0_scratch1),
            (slotV : Memref sig .scVector .vmem S2x8x8x768 .f32).view.loc (thr d L) ↦{fullShare} h) : sProp 𝕄) := by
  iintro ⟨H0, H1⟩
  ihave H0 := (slot_rows8_join' d L 0 Nat.zero_lt_two f0 f1 f2 f3 f4 f5 f6 f7) $$ H0
  ihave H1 := (slot_rows8_join' d L 1 Nat.one_lt_two g0 g1 g2 g3 g4 g5 g6 g7) $$ H1
  icases H0 with ⟨%a, H0⟩
  icases H1 with ⟨%b, H1⟩
  ihave H := (slots_join d L a b) $$ [H0 H1]
  · isplitl [H0]
    · iexact H0
    · iexact H1
  icases H with ⟨%h, -, H⟩
  iexists h
  iexact H

end Cert.KernelIdeal.Hand

end
-- ==== Proof.OffsetsI.lean ====
import proofs.«204390_g6468220748199_cont_9to1_m_1136_17_alg».proof.Proof.Gen.KernelIdeal

/-!
# Closed forms of the offsets that depend on the tile

The kernel runs on 32 vector subcores. The subcore at grid coordinates `i` has worker number
`wid i = 2 * s + c` (`c = i 0` the core, `s = i 1` the subcore); it belongs to group
`g = wid / 8` and has index `j = wid % 8` in its group, and it works on the 16 batch rows from
`16 * g` and the 72 sequence rows from `72 * j`. Every slice the kernel takes has offsets
computed from these by 32-bit operations; this module reads each such chain of operations back as
the natural-number expression it computes.
-/

namespace Cert.KernelIdeal.Hand

open Cert.KernelIdeal Cert.KernelIdeal.Gen Idealize.ShloMosaic

/-! ## Three chains every offset of this kernel shares

Each offset the kernel computes is built from the same three pieces of 32-bit arithmetic: the
worker number of the tile, the floor-division idiom (quotient corrected by one when the signs
differ and the remainder is not zero) and the floor-remainder idiom (remainder corrected by the
divisor when its sign differs from the divisor's). For a nonnegative dividend neither correction
fires, so the idioms read as the natural-number quotient and remainder by 8. -/

/-- The floor-division idiom by 8, as the kernel spells it, of a word `v`. -/
def fdiv8 (v : BitVec 32) : BitVec 32 :=
  Scalar.select
    (Scalar.andi
      (Scalar.cmpi .ne
        (Scalar.subi (Scalar.extui (Scalar.cmpi .sgt v 0#32)) (Scalar.extui (Scalar.cmpi .slt v 0#32)))
        (Scalar.subi (Scalar.extui (Scalar.cmpi .sgt 8#32 0#32)) (Scalar.extui (Scalar.cmpi .slt 8#32 0#32))))
      (Scalar.cmpi .ne (Scalar.remsi v 8#32) 0#32))
    (Scalar.subi (Scalar.divsi v 8#32) 1#32)
    (Scalar.divsi v 8#32)

/-- The divisor of the floor-remainder idiom: 8, guarded against zero. -/
def m8 : BitVec 32 := Scalar.select (Scalar.cmpi .eq 8#32 0#32) 1#32 8#32

/-- The floor-remainder idiom by 8, as the kernel spells it, of a word `v`. -/
def fmod8 (v : BitVec 32) : BitVec 32 :=
  Scalar.select
    (Scalar.andi
      (Scalar.xori (Scalar.cmpi .slt (Scalar.remsi v m8) 0#32) (Scalar.cmpi .slt m8 0#32))
      (Scalar.cmpi .ne (Scalar.remsi v m8) 0#32))
    (Scalar.addi (Scalar.remsi v m8) m8)
    (Scalar.remsi v m8)

theorem m8_isInt : Affine.IsInt m8 8 := by
  have h8 : Affine.IsInt 8#32 8 := Affine.ofNat _ (by omega)
  have h0 : Affine.IsInt 0#32 0 := Affine.ofNat _ (by omega)
  have h1 : Affine.IsInt 1#32 1 := Affine.ofNat _ (by omega)
  exact Affine.select_fails (Affine.eq_fails h8 h0 (by omega)) h1 h8 (by omega)

/-- Of a nonnegative word the floor-division idiom is the quotient by 8: the sign of the dividend
    is 0 or 1, the sign of the divisor is 1; when they differ the dividend is 0 and so is its
    remainder, and the correction does not fire either way. -/
theorem fdiv8_isInt {v : BitVec 32} {w : Int} (hv : Affine.IsInt v w) (hw : 0 ≤ w ∧ w < 2 ^ 31) :
    Affine.IsInt (fdiv8 v) (w / 8) := by
  have h0 : Affine.IsInt 0#32 0 := Affine.ofNat _ (by omega)
  have h1 : Affine.IsInt 1#32 1 := Affine.ofNat _ (by omega)
  have h8 : Affine.IsInt 8#32 8 := Affine.ofNat _ (by omega)
  -- the sign of the divisor: 1 - 0
  have s8 : Affine.IsInt _ 1 :=
    Affine.subi (Affine.extui_holds (Affine.sgt_holds h8 h0 (by omega)) rfl)
      (Affine.extui_fails (Affine.slt_fails h8 h0 (by omega)) rfl) (by omega)
  have hq : Affine.IsInt (Scalar.divsi v 8#32) (w / 8) := Affine.divsi hv h8 (by omega)
  have hq1 : Affine.IsInt (Scalar.subi (Scalar.divsi v 8#32) 1#32) (w / 8 - 1) := Affine.subi hq h1 (by omega)
  have hr : Affine.IsInt (Scalar.remsi v 8#32) (w % 8) := Affine.remsi hv h8 (by omega)
  have hneg : Affine.IsInt (Scalar.extui (Scalar.cmpi .slt v 0#32)) 0 :=
    Affine.extui_fails (Affine.slt_fails hv h0 (by omega)) rfl
  rcases (show w ≤ 0 ∨ 1 ≤ w by omega) with hs | hs
  · -- the dividend is 0: the signs differ, but the remainder is 0
    have sv : Affine.IsInt _ 0 :=
      Affine.subi (Affine.extui_fails (Affine.sgt_fails hv h0 (by omega)) rfl) hneg (by omega)
    have hd : Affine.Holds _ := Affine.ne_holds sv s8 (by omega)
    have hz : Affine.Fails _ := Affine.ne_fails hr h0 (by omega)
    exact Affine.select_fails (Affine.andi_fails_right (Affine.tH hd) hz) hq1 hq rfl
  · -- the dividend is positive: the signs agree
    have sv : Affine.IsInt _ 1 :=
      Affine.subi (Affine.extui_holds (Affine.sgt_holds hv h0 (by omega)) rfl) hneg (by omega)
    have hd : Affine.Fails _ := Affine.ne_fails sv s8 (by omega)
    exact Affine.select_fails (Affine.andi_fails_left hd (Affine.cmpi_term .ne hr h0)) hq1 hq rfl

/-- Of a nonnegative word the floor-remainder idiom is the remainder by 8: the remainder and the
    divisor are both nonnegative, so the correction does not fire. -/
theorem fmod8_isInt {v : BitVec 32} {w : Int} (hv : Affine.IsInt v w) (hw : 0 ≤ w ∧ w < 2 ^ 31) :
    Affine.IsInt (fmod8 v) (w % 8) := by
  have h0 : Affine.IsInt 0#32 0 := Affine.ofNat _ (by omega)
  have hm := m8_isInt
  have hr : Affine.IsInt (Scalar.remsi v m8) (w % 8) := Affine.remsi hv hm (by omega)
  have hx : Affine.Fails _ :=
    Affine.xori_ff (Affine.slt_fails hr h0 (by omega)) (Affine.slt_fails hm h0 (by omega))
  have hc : Affine.IsInt (Scalar.addi (Scalar.remsi v m8) m8) (w % 8 + 8) := Affine.addi hr hm (by omega)
  exact Affine.select_fails (Affine.andi_fails_left hx (Affine.cmpi_term .ne hr h0)) hc hr rfl

/-- The induction variable of a loop from 0 by 1, at trip `t`. -/
theorem iv01_isInt (t : Nat) (ht : t < 2 ^ 31) : Affine.IsInt (Scf.iv 0#32 1#32 t) (t : Int) := by
  have h0 : Affine.IsInt 0#32 0 := Affine.ofNat _ (by omega)
  have h1 : Affine.IsInt 1#32 1 := Affine.ofNat _ (by omega)
  exact Affine.iv h0 h1 t (by omega)

/-! ## The worker number -/

/-- The worker number of the tile at grid coordinates `i`. -/
def wid (i : grid0.Coords) : ℕ := 2 * (i 1).val + (i 0).val

theorem wid_lt (i : grid0.Coords) : wid i < 32 := by
  have r1 : (i 1).val < 16 := (i 1).isLt
  have r0 : (i 0).val < 2 := (i 0).isLt
  unfold wid; omega

/-- The worker number as the kernel computes it: subcore times 2 plus core. -/
def widW (i : grid0.Coords) : BitVec 32 :=
  Scalar.addi (Scalar.muli (BitVec.ofNat 32 (i 1).val) 2#32) (BitVec.ofNat 32 (i 0).val)

theorem widW_isInt (i : grid0.Coords) : Affine.IsInt (widW i) (wid i : Int) := by
  have r1 : (i 1).val < 16 := (i 1).isLt
  have r0 : (i 0).val < 2 := (i 0).isLt
  have a1 : Affine.IsInt (BitVec.ofNat 32 (i 1).val) ((i 1).val : Int) := Affine.ofNat _ (by omega)
  have c2 : Affine.IsInt 2#32 2 := Affine.ofNat _ (by omega)
  have a0 : Affine.IsInt (BitVec.ofNat 32 (i 0).val) ((i 0).val : Int) := Affine.ofNat _ (by omega)
  have v0 : Affine.IsInt _ (2 * ((i 1).val : Int)) := Affine.muli a1 c2 (by omega)
  exact Affine.addi v0 a0 (by unfold wid; omega)

/-! ## The group's first batch row, the tile's first sequence row, the chunk's first row -/

/-- `16 * g`: the first batch row of the tile's group. -/
def b0W (i : grid0.Coords) : BitVec 32 := Scalar.muli (fdiv8 (widW i)) 16#32

theorem b0W_isInt (i : grid0.Coords) : Affine.IsInt (b0W i) (16 * ((wid i : Int) / 8)) := by
  have hlt := wid_lt i
  have hg := fdiv8_isInt (widW_isInt i) (by omega)
  have c16 : Affine.IsInt 16#32 16 := Affine.ofNat _ (by omega)
  exact Affine.muli hg c16 (by omega)

/-- `72 * j`: the first sequence row of the tile. -/
def rbaseW (i : grid0.Coords) : BitVec 32 := Scalar.muli (fmod8 (widW i)) 72#32

theorem rbaseW_isInt (i : grid0.Coords) : Affine.IsInt (rbaseW i) (72 * ((wid i : Int) % 8)) := by
  have hlt := wid_lt i
  have hj := fmod8_isInt (widW_isInt i) (by omega)
  have c72 : Affine.IsInt 72#32 72 := Affine.ofNat _ (by omega)
  exact Affine.muli hj c72 (by omega)

theorem t1_lt (t1 : Fin k0_t1_loop.trips) : t1.val < 9 := Nat.lt_of_lt_of_le t1.isLt k0_t1_abs.2.1
theorem t2_lt (t2 : Fin k0_t2_loop.trips) : t2.val < 8 := Nat.lt_of_lt_of_le t2.isLt k0_t2_abs.2.1
theorem t3_lt (t3 : Fin k0_t3_loop.trips) : t3.val < 8 := Nat.lt_of_lt_of_le t3.isLt k0_t3_abs.2.1

/-- `72 * j + 8 * t`: the first sequence row of the tile's chunk `t`. -/
def rowW (i : grid0.Coords) (t : Nat) : BitVec 32 :=
  Scalar.addi (rbaseW i) (Scalar.muli (Scf.iv 0#32 1#32 t) 8#32)

theorem rowW_isInt (i : grid0.Coords) (t : Nat) (ht : t < 10) :
    Affine.IsInt (rowW i t) (72 * ((wid i : Int) % 8) + 8 * (t : Int)) := by
  have hlt := wid_lt i
  have c8 : Affine.IsInt 8#32 8 := Affine.ofNat _ (by omega)
  have h8t : Affine.IsInt _ (8 * (t : Int)) := Affine.muli (iv01_isInt t (by omega)) c8 (by omega)
  exact Affine.addi (rbaseW_isInt i) h8t (by omega)

/-- An output row slice: sequence row `72 * j + 8 * t + a`, batch rows from `16 * g + c`. -/
theorem outRow_eq (i : grid0.Coords) (t : Nat) (ht : t < 10) {a c : BitVec 32} {na nc : Nat}
    (ha : Affine.IsInt a (na : Int)) (hc : Affine.IsInt c (nc : Int)) (hna : na < 1000) (hnc : nc < 1000) :
    (![(Scalar.addi (rowW i t) a).toNat, (Scalar.addi (b0W i) c).toNat, 0] : Fin 3 → Nat) =
      ![72 * (wid i % 8) + 8 * t + na, 16 * (wid i / 8) + nc, 0] := by
  have hlt := wid_lt i
  have h1 : Affine.IsInt _ (72 * ((wid i : Int) % 8) + 8 * (t : Int) + (na : Int)) :=
    Affine.addi (rowW_isInt i t ht) ha (by omega)
  have h2 : Affine.IsInt _ (16 * ((wid i : Int) / 8) + (nc : Int)) := Affine.addi (b0W_isInt i) hc (by omega)
  exact Affine.vec_cons h1 (by omega) <| Affine.vec_cons h2 (by omega) rfl

/-- An input block slice: batch rows from `16 * g + c`, sequence rows from `r`. -/
theorem inBlk_eq (i : grid0.Coords) {c r : BitVec 32} {nc nr : Nat}
    (hc : Affine.IsInt c (nc : Int)) (hr : Affine.IsInt r (nr : Int)) (hnc : nc < 1000) :
    (![(Scalar.addi (b0W i) c).toNat, r.toNat, 0] : Fin 3 → Nat) = ![16 * (wid i / 8) + nc, nr, 0] := by
  have hlt := wid_lt i
  have h1 : Affine.IsInt _ (16 * ((wid i : Int) / 8) + (nc : Int)) := Affine.addi (b0W_isInt i) hc (by omega)
  exact Affine.vec_cons h1 (by omega) <| Affine.vec_cons hr (by omega) rfl

theorem lit_isInt (n : Nat) (h : n < 2 ^ 31) : Affine.IsInt (BitVec.ofNat 32 n) (n : Int) := Affine.ofNat _ (by omega)

/-! ## The offsets -/

/-- The first input block: batch rows from `16 * g`, sequence rows from `72 * j`. -/
theorem k0_off1_eq (i : grid0.Coords) : k0_off1 i = ![16 * (wid i / 8), 72 * (wid i % 8), 0] := by
  have hlt := wid_lt i
  have hr : Affine.IsInt (Scalar.addi (rbaseW i) 0#32) ((72 * (wid i % 8) : Nat) : Int) :=
    Affine.addi (rbaseW_isInt i) (lit_isInt 0 (by omega)) (by omega)
  exact inBlk_eq i (lit_isInt 0 (by omega)) hr (by omega)

/-- The chunk's rows of the position table. -/
theorem k0_off2_eq (i : grid0.Coords) (t1 : Fin k0_t1_loop.trips) :
    k0_off2 i t1 = ![72 * (wid i % 8) + 8 * t1.val, 0] := by
  have hlt := wid_lt i
  have ht := t1_lt t1
  exact Affine.vec_cons (rowW_isInt i t1.val (by omega)) (by omega) rfl

/-- An input block of chunk `t1`: batch rows from `16 * g + 8 * r`. -/
theorem k0_off3_eq (i : grid0.Coords) (t1 : Fin k0_t1_loop.trips) (r : Fin 2) :
    k0_off3 i t1 (BitVec.ofNat 32 (8 * r.val)) =
      ![16 * (wid i / 8) + 8 * r.val, 72 * (wid i % 8) + 8 * t1.val, 0] := by
  have hlt := wid_lt i
  have ht := t1_lt t1
  have hr := r.isLt
  have hrow : Affine.IsInt (rowW i t1.val) ((72 * (wid i % 8) + 8 * t1.val : Nat) : Int) :=
    Affine.relit (rowW_isInt i t1.val (by omega)) (by omega)
  exact inBlk_eq i (lit_isInt (8 * r.val) (by omega)) hrow (by omega)

/-- The output row `t2` of chunk `t1`, first half of the group's batch rows. -/
theorem k0_off445_eq (i : grid0.Coords) (t1 : Fin k0_t1_loop.trips) (t2 : Fin k0_t2_loop.trips) :
    k0_off445 i t1 t2 = ![72 * (wid i % 8) + 8 * t1.val + t2.val, 16 * (wid i / 8), 0] := by
  have ht := t1_lt t1
  have ht2 := t2_lt t2
  exact outRow_eq i t1.val (by omega) (iv01_isInt t2.val (by omega)) (lit_isInt 0 (by omega)) (by omega) (by omega)

/-- The output row `t3` of chunk `t1`, second half of the group's batch rows. -/
theorem k0_off881_eq (i : grid0.Coords) (t1 : Fin k0_t1_loop.trips) (t3 : Fin k0_t3_loop.trips) :
    k0_off881 i t1 t3 = ![72 * (wid i % 8) + 8 * t1.val + t3.val, 16 * (wid i / 8) + 8, 0] := by
  have ht := t1_lt t1
  have ht3 := t3_lt t3
  exact outRow_eq i t1.val (by omega) (iv01_isInt t3.val (by omega)) (lit_isInt 8 (by omega)) (by omega) (by omega)

/-- The class-token row of the output, batch rows from `16 * g + 8 * r`. -/
theorem k0_off883_eq (i : grid0.Coords) (r : Fin 2) :
    k0_off883 i (BitVec.ofNat 32 (8 * r.val)) = ![576, 16 * (wid i / 8) + 8 * r.val, 0] := by
  have hlt := wid_lt i
  have hr := r.isLt
  have h1 : Affine.IsInt (Scalar.addi (b0W i) (BitVec.ofNat 32 (8 * r.val))) (16 * ((wid i : Int) / 8) + 8 * (r.val : Int)) :=
    Affine.addi (b0W_isInt i) (lit_isInt (8 * r.val) (by omega)) (by omega)
  exact congrArg (Matrix.vecCons 576) (Affine.vec_cons h1 (by omega) rfl)

/-- The class-token branch runs on the first tile of each group. -/
theorem k0_cond10_iff (i : grid0.Coords) : k0_cond10 i = 1#1 ↔ wid i % 8 = 0 := by
  have hlt := wid_lt i
  have hj := fmod8_isInt (widW_isInt i) (by omega)
  have h0 : Affine.IsInt 0#32 0 := Affine.ofNat _ (by omega)
  by_cases hz : wid i % 8 = 0
  · have he : Affine.Holds _ := Affine.eq_holds hj h0 (by omega)
    have hx : Affine.IsInt _ 1 := Affine.extui_holds he rfl
    have hc : Affine.Holds (k0_cond10 i) := Affine.ne_holds hx h0 (by omega)
    exact ⟨fun _ => hz, fun _ => hc⟩
  · have he : Affine.Fails _ := Affine.eq_fails hj h0 (by omega)
    have hx : Affine.IsInt _ 0 := Affine.extui_fails he rfl
    have hc : Affine.Fails (k0_cond10 i) := Affine.ne_fails hx h0 (by omega)
    exact ⟨fun h => absurd h hc, fun h => absurd h hz⟩

/-! ## The waits on the output rows, and the next chunk's first input block -/

/-- The output row 0 of chunk `t1`, first half of the group's batch rows. -/
theorem k0_off4_eq (i : grid0.Coords) (t1 : Fin k0_t1_loop.trips) :
    k0_off4 i t1 = ![72 * (wid i % 8) + 8 * t1.val + 0, 16 * (wid i / 8), 0] := by
  have ht := t1_lt t1
  exact outRow_eq i t1.val (by omega) (lit_isInt 0 (by omega)) (lit_isInt 0 (by omega)) (by omega) (by omega)

/-- The output row 1 of chunk `t1`, first half of the group's batch rows. -/
theorem k0_off5_eq (i : grid0.Coords) (t1 : Fin k0_t1_loop.trips) :
    k0_off5 i t1 = ![72 * (wid i % 8) + 8 * t1.val + 1, 16 * (wid i / 8), 0] := by
  have ht := t1_lt t1
  exact outRow_eq i t1.val (by omega) (lit_isInt 1 (by omega)) (lit_isInt 0 (by omega)) (by omega) (by omega)

/-- The output row 2 of chunk `t1`, first half of the group's batch rows. -/
theorem k0_off6_eq (i : grid0.Coords) (t1 : Fin k0_t1_loop.trips) :
    k0_off6 i t1 = ![72 * (wid i % 8) + 8 * t1.val + 2, 16 * (wid i / 8), 0] := by
  have ht := t1_lt t1
  exact outRow_eq i t1.val (by omega) (lit_isInt 2 (by omega)) (lit_isInt 0 (by omega)) (by omega) (by omega)

/-- The output row 3 of chunk `t1`, first half of the group's batch rows. -/
theorem k0_off7_eq (i : grid0.Coords) (t1 : Fin k0_t1_loop.trips) :
    k0_off7 i t1 = ![72 * (wid i % 8) + 8 * t1.val + 3, 16 * (wid i / 8), 0] := by
  have ht := t1_lt t1
  exact outRow_eq i t1.val (by omega) (lit_isInt 3 (by omega)) (lit_isInt 0 (by omega)) (by omega) (by omega)

/-- The output row 4 of chunk `t1`, first half of the group's batch rows. -/
theorem k0_off8_eq (i : grid0.Coords) (t1 : Fin k0_t1_loop.trips) :
    k0_off8 i t1 = ![72 * (wid i % 8) + 8 * t1.val + 4, 16 * (wid i / 8), 0] := by
  have ht := t1_lt t1
  exact outRow_eq i t1.val (by omega) (lit_isInt 4 (by omega)) (lit_isInt 0 (by omega)) (by omega) (by omega)

/-- The output row 5 of chunk `t1`, first half of the group's batch rows. -/
theorem k0_off9_eq (i : grid0.Coords) (t1 : Fin k0_t1_loop.trips) :
    k0_off9 i t1 = ![72 * (wid i % 8) + 8 * t1.val + 5, 16 * (wid i / 8), 0] := by
  have ht := t1_lt t1
  exact outRow_eq i t1.val (by omega) (lit_isInt 5 (by omega)) (lit_isInt 0 (by omega)) (by omega) (by omega)

/-- The output row 6 of chunk `t1`, first half of the group's batch rows. -/
theorem k0_off10_eq (i : grid0.Coords) (t1 : Fin k0_t1_loop.trips) :
    k0_off10 i t1 = ![72 * (wid i % 8) + 8 * t1.val + 6, 16 * (wid i / 8), 0] := by
  have ht := t1_lt t1
  exact outRow_eq i t1.val (by omega) (lit_isInt 6 (by omega)) (lit_isInt 0 (by omega)) (by omega) (by omega)

/-- The output row 7 of chunk `t1`, first half of the group's batch rows. -/
theorem k0_off11_eq (i : grid0.Coords) (t1 : Fin k0_t1_loop.trips) :
    k0_off11 i t1 = ![72 * (wid i % 8) + 8 * t1.val + 7, 16 * (wid i / 8), 0] := by
  have ht := t1_lt t1
  exact outRow_eq i t1.val (by omega) (lit_isInt 7 (by omega)) (lit_isInt 0 (by omega)) (by omega) (by omega)

/-- The output row `r` of chunk `t1`, second half of the group's batch rows. -/
theorem k0_off446_eq (i : grid0.Coords) (t1 : Fin k0_t1_loop.trips) (r : Fin 8) :
    k0_off446 i t1 (BitVec.ofNat 32 r.val) = ![72 * (wid i % 8) + 8 * t1.val + r.val, 16 * (wid i / 8) + 8, 0] := by
  have ht := t1_lt t1
  have hr := r.isLt
  exact outRow_eq i t1.val (by omega) (lit_isInt r.val (by omega)) (lit_isInt 8 (by omega)) (by omega) (by omega)

/-- The first input block of chunk `t1 + 1`. -/
theorem k0_off447_eq (i : grid0.Coords) (t1 : Fin k0_t1_loop.trips) :
    k0_off447 i t1 = ![16 * (wid i / 8), 72 * (wid i % 8) + 8 * (t1.val + 1), 0] := by
  have hlt := wid_lt i
  have ht := t1_lt t1
  have c8 : Affine.IsInt 8#32 8 := Affine.ofNat _ (by omega)
  have h1 : Affine.IsInt _ ((t1.val : Int) + 1) :=
    Affine.addi (iv01_isInt t1.val (by omega)) (lit_isInt 1 (by omega)) (by omega)
  have h8 : Affine.IsInt _ (8 * ((t1.val : Int) + 1)) := Affine.muli h1 c8 (by omega)
  have hr : Affine.IsInt _ ((72 * (wid i % 8) + 8 * (t1.val + 1) : Nat) : Int) :=
    Affine.addi (rbaseW_isInt i) h8 (by omega)
  exact inBlk_eq i (lit_isInt 0 (by omega)) hr (by omega)

/-- The output row `r₁` of the last chunk, batch rows from `16 * g + 8 * r₂`. -/
theorem k0_off882_eq (i : grid0.Coords) (r₁ : Fin 8) (r₂ : Fin 2) :
    k0_off882 i (BitVec.ofNat 32 r₁.val) (BitVec.ofNat 32 (8 * r₂.val)) =
      ![72 * (wid i % 8) + 64 + r₁.val, 16 * (wid i / 8) + 8 * r₂.val, 0] := by
  have hlt := wid_lt i
  have hr1 := r₁.isLt
  have hr2 := r₂.isLt
  have h64 : Affine.IsInt _ (72 * ((wid i : Int) % 8) + 64) :=
    Affine.addi (rbaseW_isInt i) (lit_isInt 64 (by omega)) (by omega)
  have h1 : Affine.IsInt _ (72 * ((wid i : Int) % 8) + 64 + (r₁.val : Int)) :=
    Affine.addi h64 (lit_isInt r₁.val (by omega)) (by omega)
  have h2 : Affine.IsInt _ (16 * ((wid i : Int) / 8) + 8 * (r₂.val : Int)) :=
    Affine.addi (b0W_isInt i) (lit_isInt (8 * r₂.val) (by omega)) (by omega)
  exact Affine.vec_cons h1 (by omega) <| Affine.vec_cons h2 (by omega) rfl

end Cert.KernelIdeal.Hand
-- ==== Proof.TileCoverI.lean ====
/-
  One worker's part of the output array, cut into the pieces its copies write.

  Worker w = wid L of group g = w / 8 and index j = w % 8 writes, for each of its nine chunks t1 and each of the
  eight rows t of a chunk, the sequence row 72 j + 8 t1 + t of the positions-first output for the batch rows
  16 g .. 16 g + 7 (one copy) and for the batch rows 16 g + 8 .. 16 g + 15 (another copy): 144 copies of eight batch
  rows by 768 features each. When j = 0 it also writes the class-token row 576 for its sixteen batch rows, in two
  copies of eight. These pieces are pairwise disjoint and together they are exactly the entries the worker owns, so
  the worker's part of the output splits into one points-to per piece, each through the piece's own reference, and
  the pieces join back into the part whatever contents each came back with.
-/
import proofs.«204390_g6468220748199_cont_9to1_m_1136_17_alg».proof.Proof.SetupI
import proofs.«204390_g6468220748199_cont_9to1_m_1136_17_alg».proof.Proof.BodyOpenI
import proofs.«204390_g6468220748199_cont_9to1_m_1136_17_alg».proof.Proof.OffsetsI
import Idealize.ShloMosaic.Rules.PointsTo

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The destinations of the worker's copies, as the program slices them -/

/-- Row `t2` of chunk `t1`, the first eight batch rows of the group. -/
abbrev outRow0 (L : grid0.Coords) (t1 : Fin k0_t1_loop.trips) (t2 : Fin k0_t2_loop.trips) :
    Memref sig .scVector .hbm S8x768 .f32 :=
  (oV.slice (Rect.unit (s := S577x64x768) (k0_off445 L t1 t2) S1x8x768.size (k0_off445_inb L t1 t2)) (fun _ => rfl)).squeeze
    S8x768 squeezes_S1x8x768_S8x768

/-- Row `t3` of chunk `t1`, the last eight batch rows of the group. -/
abbrev outRow1 (L : grid0.Coords) (t1 : Fin k0_t1_loop.trips) (t3 : Fin k0_t3_loop.trips) :
    Memref sig .scVector .hbm S8x768 .f32 :=
  (oV.slice (Rect.unit (s := S577x64x768) (k0_off881 L t1 t3) S1x8x768.size (k0_off881_inb L t1 t3)) (fun _ => rfl)).squeeze
    S8x768 squeezes_S1x8x768_S8x768

/-- The class-token row, batch rows `16 g + 8 r .. 16 g + 8 r + 7`; only the first worker of a group has it. -/
abbrev clsRow (L : grid0.Coords) (h : k0_cond10 L = 1#1) (r : Fin 2) : Memref sig .scVector .hbm S8x768 .f32 :=
  (oV.slice (Rect.unit (s := S577x64x768) (k0_off883 L (BitVec.ofNat 32 (8 * r.val))) S1x8x768.size (k0_off883_inb L h r))
    (fun _ => rfl)).squeeze S8x768 squeezes_S1x8x768_S8x768

theorem clsRow_zero (L : grid0.Coords) (h : k0_cond10 L = 1#1) :
    clsRow L h 0 = (oV.slice (Rect.unit (s := S577x64x768) (k0_off883 L 0#32) S1x8x768.size (k0_off883_inb L h 0))
      (fun _ => rfl)).squeeze S8x768 squeezes_S1x8x768_S8x768 := rfl

theorem clsRow_one (L : grid0.Coords) (h : k0_cond10 L = 1#1) :
    clsRow L h 1 = (oV.slice (Rect.unit (s := S577x64x768) (k0_off883 L 8#32) S1x8x768.size (k0_off883_inb L h 1))
      (fun _ => rfl)).squeeze S8x768 squeezes_S1x8x768_S8x768 := rfl

/-! ## The worker number and the trip counts -/

theorem widN_eq_wid (L : grid0.Coords) : widN (L 0).val (L 1).val = wid L := by
  unfold widN wid; omega

theorem trips1 : k0_t1_loop.trips = 9 := by decide
theorem trips2 : k0_t2_loop.trips = 8 := by decide
theorem trips3 : k0_t3_loop.trips = 8 := by decide

/-! ## A piece: one sequence row, eight batch rows, every feature -/

/-- The entries at sequence row `r` and batch rows `b .. b + 7`. -/
def slab (r b : ℕ) : Finset S577x64x768.Idx :=
  Finset.univ.filter fun i => (i 0).val = r ∧ b ≤ (i 1).val ∧ (i 1).val < b + 8

theorem mem_slab (r b : ℕ) (i : S577x64x768.Idx) :
    i ∈ slab r b ↔ (i 0).val = r ∧ b ≤ (i 1).val ∧ (i 1).val < b + 8 := by
  unfold slab; rw [Finset.mem_filter]; exact ⟨fun h => h.2, fun h => ⟨Finset.mem_univ _, h⟩⟩

/-- A rectangle of one sequence row by eight batch rows by all features, from offsets `(r, b, 0)`, is a slab. -/
theorem mem_unit_slab {off : Fin S577x64x768.rank → Nat} {inb : ∀ a, off a + S1x8x768.size a ≤ S577x64x768.size a}
    {r b : ℕ} (ho : off = ![r, b, 0]) (i : S577x64x768.Idx) :
    i ∈ (Rect.unit (s := S577x64x768) off S1x8x768.size inb).set ↔ i ∈ slab r b := by
  subst ho
  rw [Rect.mem_set_unit, mem_slab]
  constructor
  · intro h
    have h0 : r ≤ (i 0).val ∧ (i 0).val < r + 1 := h 0
    have h1 : b ≤ (i 1).val ∧ (i 1).val < b + 8 := h 1
    omega
  · intro h a
    have h2 : (i 2).val < 768 := (i 2).isLt
    match a with
    | 0 => show r ≤ (i 0).val ∧ (i 0).val < r + 1; omega
    | 1 => show b ≤ (i 1).val ∧ (i 1).val < b + 8; omega
    | 2 => show 0 ≤ (i 2).val ∧ (i 2).val < 0 + 768; omega

/-! ## The element sets of the three families -/

theorem set_outRow0 (L : grid0.Coords) (t1 : Fin k0_t1_loop.trips) (t2 : Fin k0_t2_loop.trips) :
    (outRow0 L t1 t2).view.set = slab (72 * (wid L % 8) + 8 * t1.val + t2.val) (16 * (wid L / 8)) := by
  ext i
  show i ∈ (((View.whole (main_v0_scv : Ref sig .scVector)).slice
      (Rect.unit (s := S577x64x768) (k0_off445 L t1 t2) S1x8x768.size (k0_off445_inb L t1 t2))).reshape S8x768
        squeezes_S1x8x768_S8x768.numel_eq).set ↔ _
  rw [View.set_reshape, View.set_slice_whole]
  exact mem_unit_slab (k0_off445_eq L t1 t2) i

theorem set_outRow1 (L : grid0.Coords) (t1 : Fin k0_t1_loop.trips) (t3 : Fin k0_t3_loop.trips) :
    (outRow1 L t1 t3).view.set = slab (72 * (wid L % 8) + 8 * t1.val + t3.val) (16 * (wid L / 8) + 8) := by
  ext i
  show i ∈ (((View.whole (main_v0_scv : Ref sig .scVector)).slice
      (Rect.unit (s := S577x64x768) (k0_off881 L t1 t3) S1x8x768.size (k0_off881_inb L t1 t3))).reshape S8x768
        squeezes_S1x8x768_S8x768.numel_eq).set ↔ _
  rw [View.set_reshape, View.set_slice_whole]
  exact mem_unit_slab (k0_off881_eq L t1 t3) i

theorem set_clsRow (L : grid0.Coords) (h : k0_cond10 L = 1#1) (r : Fin 2) :
    (clsRow L h r).view.set = slab 576 (16 * (wid L / 8) + 8 * r.val) := by
  ext i
  show i ∈ (((View.whole (main_v0_scv : Ref sig .scVector)).slice
      (Rect.unit (s := S577x64x768) (k0_off883 L (BitVec.ofNat 32 (8 * r.val))) S1x8x768.size (k0_off883_inb L h r))).reshape S8x768
        squeezes_S1x8x768_S8x768.numel_eq).set ↔ _
  rw [View.set_reshape, View.set_slice_whole]
  exact mem_unit_slab (k0_off883_eq L r) i

/-- The entries a row copy of the first half writes. -/
theorem mem_outRow0 (L : grid0.Coords) (t1 : Fin k0_t1_loop.trips) (t2 : Fin k0_t2_loop.trips) (i : S577x64x768.Idx) :
    i ∈ (outRow0 L t1 t2).view.set ↔ (i 0).val = 72 * (wid L % 8) + 8 * t1.val + t2.val
      ∧ 16 * (wid L / 8) ≤ (i 1).val ∧ (i 1).val < 16 * (wid L / 8) + 8 := by
  rw [set_outRow0, mem_slab]

/-- The entries a row copy of the second half writes. -/
theorem mem_outRow1 (L : grid0.Coords) (t1 : Fin k0_t1_loop.trips) (t3 : Fin k0_t3_loop.trips) (i : S577x64x768.Idx) :
    i ∈ (outRow1 L t1 t3).view.set ↔ (i 0).val = 72 * (wid L % 8) + 8 * t1.val + t3.val
      ∧ 16 * (wid L / 8) + 8 ≤ (i 1).val ∧ (i 1).val < 16 * (wid L / 8) + 8 + 8 := by
  rw [set_outRow1, mem_slab]

/-- The entries a class-row copy writes. -/
theorem mem_clsRow (L : grid0.Coords) (h : k0_cond10 L = 1#1) (r : Fin 2) (i : S577x64x768.Idx) :
    i ∈ (clsRow L h r).view.set ↔ (i 0).val = 576
      ∧ 16 * (wid L / 8) + 8 * r.val ≤ (i 1).val ∧ (i 1).val < 16 * (wid L / 8) + 8 * r.val + 8 := by
  rw [set_clsRow, mem_slab]

/-! ## The pieces are pairwise disjoint and cover the worker's part -/

theorem slab_disjoint {r b r' b' : ℕ} (h : r ≠ r' ∨ b + 8 ≤ b' ∨ b' + 8 ≤ b) : Disjoint (slab r b) (slab r' b') := by
  rw [Finset.disjoint_left]
  intro i hi hi'
  rw [mem_slab] at hi hi'
  omega

/-- The row copies: a chunk and a row of it, for the first or for the last eight batch rows. -/
abbrev RowPiece : Type :=
  (Fin k0_t1_loop.trips × Fin k0_t2_loop.trips) ⊕ (Fin k0_t1_loop.trips × Fin k0_t3_loop.trips)

/-- All the copies of the first worker of a group: its row copies and the two class-row copies. -/
abbrev Piece : Type := RowPiece ⊕ Fin 2

/-- The entries a row copy writes. -/
def rowK (L : grid0.Coords) : RowPiece → Finset S577x64x768.Idx
  | .inl p => (outRow0 L p.1 p.2).view.set
  | .inr p => (outRow1 L p.1 p.2).view.set

/-- The entries a copy writes. -/
def pieceK (L : grid0.Coords) (h : k0_cond10 L = 1#1) : Piece → Finset S577x64x768.Idx
  | .inl p => rowK L p
  | .inr r => (clsRow L h r).view.set

/-- A row copy writes a slab of a sequence row below the class-token row. -/
theorem rowK_slab (L : grid0.Coords) (p : RowPiece) : ∃ r b, rowK L p = slab r b ∧ r < 576 := by
  have hw := wid_lt L
  rcases p with ⟨t1, t2⟩ | ⟨t1, t3⟩
  · have h1 := t1_lt t1
    have h2 := t2_lt t2
    exact ⟨_, _, set_outRow0 L t1 t2, by omega⟩
  · have h1 := t1_lt t1
    have h3 := t3_lt t3
    exact ⟨_, _, set_outRow1 L t1 t3, by omega⟩

theorem rows_disjoint (L : grid0.Coords) :
    ∀ p ∈ (Finset.univ : Finset RowPiece), ∀ p' ∈ (Finset.univ : Finset RowPiece), p ≠ p' → Disjoint (rowK L p) (rowK L p') := by
  intro p _ p' _ hne
  rcases p with ⟨t1, t2⟩ | ⟨t1, t3⟩ <;> rcases p' with ⟨u1, u2⟩ | ⟨u1, u3⟩
  · -- two rows of the first half: different chunk or different row of the chunk
    show Disjoint (outRow0 L t1 t2).view.set (outRow0 L u1 u2).view.set
    rw [set_outRow0, set_outRow0]
    have hd : ¬(t1.val = u1.val ∧ t2.val = u2.val) := fun ⟨e1, e2⟩ => hne (by rw [Fin.ext e1, Fin.ext e2])
    have h2 := t2_lt t2
    have h2' := t2_lt u2
    exact slab_disjoint (by omega)
  · -- first half against second half: the batch rows differ
    show Disjoint (outRow0 L t1 t2).view.set (outRow1 L u1 u3).view.set
    rw [set_outRow0, set_outRow1]
    exact slab_disjoint (by omega)
  · show Disjoint (outRow1 L t1 t3).view.set (outRow0 L u1 u2).view.set
    rw [set_outRow1, set_outRow0]
    exact slab_disjoint (by omega)
  · show Disjoint (outRow1 L t1 t3).view.set (outRow1 L u1 u3).view.set
    rw [set_outRow1, set_outRow1]
    have hd : ¬(t1.val = u1.val ∧ t3.val = u3.val) := fun ⟨e1, e2⟩ => hne (by rw [Fin.ext e1, Fin.ext e2])
    have h3 := t3_lt t3
    have h3' := t3_lt u3
    exact slab_disjoint (by omega)

theorem pieces_disjoint (L : grid0.Coords) (h : k0_cond10 L = 1#1) :
    ∀ p ∈ (Finset.univ : Finset Piece), ∀ p' ∈ (Finset.univ : Finset Piece), p ≠ p' → Disjoint (pieceK L h p) (pieceK L h p') := by
  intro p _ p' _ hne
  rcases p with p | r <;> rcases p' with p' | r'
  · exact rows_disjoint L p (Finset.mem_univ _) p' (Finset.mem_univ _) fun e => hne (by rw [e])
  · -- a row below 576 against the class-token row
    obtain ⟨x, b, e, hx⟩ := rowK_slab L p
    show Disjoint (rowK L p) (clsRow L h r').view.set
    rw [e, set_clsRow]
    exact slab_disjoint (by omega)
  · obtain ⟨x, b, e, hx⟩ := rowK_slab L p'
    show Disjoint (clsRow L h r).view.set (rowK L p')
    rw [e, set_clsRow]
    exact slab_disjoint (by omega)
  · -- the two class-row copies: different batch rows
    show Disjoint (clsRow L h r).view.set (clsRow L h r').view.set
    rw [set_clsRow, set_clsRow]
    have hd : r.val ≠ r'.val := fun e => hne (by rw [Fin.ext e])
    exact slab_disjoint (by omega)

/-- The row copies together: the worker's sixteen batch rows at its seventy-two sequence rows. -/
theorem mem_rows_iff (L : grid0.Coords) (i : S577x64x768.Idx) :
    (∃ p, i ∈ rowK L p) ↔ (i 1).val / 16 = wid L / 8 ∧ (i 0).val < 576 ∧ (i 0).val / 72 = wid L % 8 := by
  have hw := wid_lt L
  constructor
  · rintro ⟨⟨t1, t2⟩ | ⟨t1, t3⟩, hp⟩
    · have hp' := (mem_outRow0 L t1 t2 i).mp hp
      have h1 := t1_lt t1
      have h2 := t2_lt t2
      omega
    · have hp' := (mem_outRow1 L t1 t3 i).mp hp
      have h1 := t1_lt t1
      have h3 := t3_lt t3
      omega
  · intro hi
    -- the row's place in the worker's seventy-two: chunk o / 8, row o % 8 of the chunk
    have ho1 : ((i 0).val - 72 * (wid L % 8)) / 8 < k0_t1_loop.trips := by rw [trips1]; omega
    by_cases hb : (i 1).val < 16 * (wid L / 8) + 8
    · have ho2 : ((i 0).val - 72 * (wid L % 8)) % 8 < k0_t2_loop.trips := by rw [trips2]; omega
      refine ⟨.inl (⟨_, ho1⟩, ⟨_, ho2⟩), (mem_outRow0 L _ _ i).mpr ?_⟩
      dsimp only
      omega
    · have ho3 : ((i 0).val - 72 * (wid L % 8)) % 8 < k0_t3_loop.trips := by rw [trips3]; omega
      refine ⟨.inr (⟨_, ho1⟩, ⟨_, ho3⟩), (mem_outRow1 L _ _ i).mpr ?_⟩
      dsimp only
      omega

/-- The class-row copies together: the worker's sixteen batch rows at the class-token row. -/
theorem mem_cls_iff (L : grid0.Coords) (h : k0_cond10 L = 1#1) (i : S577x64x768.Idx) :
    (∃ r, i ∈ (clsRow L h r).view.set) ↔ (i 0).val = 576 ∧ (i 1).val / 16 = wid L / 8 := by
  constructor
  · rintro ⟨r, hr⟩
    have hr' := (mem_clsRow L h r i).mp hr
    have h2 := r.isLt
    omega
  · intro hi
    by_cases hb : (i 1).val < 16 * (wid L / 8) + 8
    · refine ⟨⟨0, by omega⟩, (mem_clsRow L h _ i).mpr ?_⟩
      dsimp only
      omega
    · refine ⟨⟨1, by omega⟩, (mem_clsRow L h _ i).mpr ?_⟩
      dsimp only
      omega

/-- A worker that is not the first of its group: its row copies write exactly its part. -/
theorem rows_cover (L : grid0.Coords) (hn : ¬k0_cond10 L = 1#1) :
    (Finset.univ : Finset RowPiece).biUnion (rowK L) = tileSet (wid L) := by
  have hj : wid L % 8 ≠ 0 := fun e => hn ((k0_cond10_iff L).mpr e)
  ext i
  rw [Finset.mem_biUnion, mem_tileSet]
  have e : (∃ p ∈ (Finset.univ : Finset RowPiece), i ∈ rowK L p) ↔ ∃ p, i ∈ rowK L p :=
    ⟨fun ⟨p, _, hp⟩ => ⟨p, hp⟩, fun ⟨p, hp⟩ => ⟨p, Finset.mem_univ _, hp⟩⟩
  rw [e, mem_rows_iff]
  omega

/-- The first worker of a group: its row copies and its class-row copies write exactly its part. -/
theorem pieces_cover (L : grid0.Coords) (h : k0_cond10 L = 1#1) :
    (Finset.univ : Finset Piece).biUnion (pieceK L h) = tileSet (wid L) := by
  have hj : wid L % 8 = 0 := (k0_cond10_iff L).mp h
  ext i
  rw [Finset.mem_biUnion, mem_tileSet]
  have e : (∃ p ∈ (Finset.univ : Finset Piece), i ∈ pieceK L h p)
      ↔ (∃ p, i ∈ rowK L p) ∨ ∃ r, i ∈ (clsRow L h r).view.set :=
    ⟨fun ⟨p, _, hp⟩ => by
        rcases p with p | r
        · exact .inl ⟨p, hp⟩
        · exact .inr ⟨r, hp⟩,
      fun hp => by
        rcases hp with ⟨p, hp⟩ | ⟨r, hr⟩
        · exact ⟨.inl p, Finset.mem_univ _, hp⟩
        · exact ⟨.inr r, Finset.mem_univ _, hr⟩⟩
  rw [e, mem_rows_iff, mem_cls_iff]
  omega

/-! ## The worker's part of the output, piece by piece -/

theorem sep_assoc_eq (P Q R : sProp 𝕄) : (iprop((P ∗ Q) ∗ R) : sProp 𝕄) = iprop(P ∗ Q ∗ R) :=
  BI.equiv_iff.mp ⟨(sep_assoc (PROP := sProp 𝕄)).1, (sep_assoc (PROP := sProp 𝕄)).2⟩

/-- A product over all the copies, regrouped by family. -/
theorem bigSep_pieces (Φ : Piece → sProp 𝕄) :
    bigSep Finset.univ Φ =
      iprop((bigSep Finset.univ fun p : Fin k0_t1_loop.trips × Fin k0_t2_loop.trips => Φ (.inl (.inl p)))
        ∗ (bigSep Finset.univ fun p : Fin k0_t1_loop.trips × Fin k0_t3_loop.trips => Φ (.inl (.inr p)))
        ∗ (bigSep Finset.univ fun r : Fin 2 => Φ (.inr r))) := by
  rw [bigSep_univ_sum, bigSep_univ_sum]
  exact sep_assoc_eq _ _ _

/-- A product over the row copies, regrouped by half. -/
theorem bigSep_rowPieces (Φ : RowPiece → sProp 𝕄) :
    bigSep Finset.univ Φ =
      iprop((bigSep Finset.univ fun p : Fin k0_t1_loop.trips × Fin k0_t2_loop.trips => Φ (.inl p))
        ∗ (bigSep Finset.univ fun p : Fin k0_t1_loop.trips × Fin k0_t3_loop.trips => Φ (.inr p))) := bigSep_univ_sum Φ

variable (d : Dev nD) (L : grid0.Coords)

/-- A piece held through its own reference is that piece of the output array. -/
theorem pts_outRow0 (p : Fin k0_t1_loop.trips × Fin k0_t2_loop.trips) (f : Buf (Elt F) (oLoc d)) :
    ((outRow0 L p.1 p.2).view.loc (thr d L) ↦[(outRow0 L p.1 p.2).view.set]{fullShare} f : sProp 𝕄)
      = oLoc d ↦[rowK L (.inl p)]{fullShare} f := rfl
theorem pts_outRow1 (p : Fin k0_t1_loop.trips × Fin k0_t3_loop.trips) (f : Buf (Elt F) (oLoc d)) :
    ((outRow1 L p.1 p.2).view.loc (thr d L) ↦[(outRow1 L p.1 p.2).view.set]{fullShare} f : sProp 𝕄)
      = oLoc d ↦[rowK L (.inr p)]{fullShare} f := rfl
theorem pts_clsRow (h : k0_cond10 L = 1#1) (r : Fin 2) (f : Buf (Elt F) (oLoc d)) :
    ((clsRow L h r).view.loc (thr d L) ↦[(clsRow L h r).view.set]{fullShare} f : sProp 𝕄)
      = oLoc d ↦[pieceK L h (.inr r)]{fullShare} f := rfl

/-- The first worker of a group: its part of the output at contents `f` is its 144 row pieces and its two class-row
    pieces, each held through its own reference at `f`. The products run over pairs (chunk, row of the chunk). -/
theorem tileOut_split_cls (h : k0_cond10 L = 1#1) (f : Buf (Elt F) (oLoc d)) :
    (oLoc d ↦[tileSet (wid L)]{fullShare} f : sProp 𝕄) =
      iprop((bigSep Finset.univ fun p : Fin k0_t1_loop.trips × Fin k0_t2_loop.trips =>
          (outRow0 L p.1 p.2).view.loc (thr d L) ↦[(outRow0 L p.1 p.2).view.set]{fullShare} f)
        ∗ (bigSep Finset.univ fun p : Fin k0_t1_loop.trips × Fin k0_t3_loop.trips =>
          (outRow1 L p.1 p.2).view.loc (thr d L) ↦[(outRow1 L p.1 p.2).view.set]{fullShare} f)
        ∗ (bigSep Finset.univ fun r : Fin 2 =>
          (clsRow L h r).view.loc (thr d L) ↦[(clsRow L h r).view.set]{fullShare} f)) := by
  rw [← pieces_cover L h, pointsTo_biUnion Finset.univ (ℓ := oLoc d) (pieceK L h) (pieces_disjoint L h), bigSep_pieces]
  exact congrArg₂ _ (bigSep_congr fun _ _ => rfl) (congrArg₂ _ (bigSep_congr fun _ _ => rfl) (bigSep_congr fun _ _ => rfl))

/-- Any other worker: its part of the output at contents `f` is its 144 row pieces. -/
theorem tileOut_split_rows (hn : ¬k0_cond10 L = 1#1) (f : Buf (Elt F) (oLoc d)) :
    (oLoc d ↦[tileSet (wid L)]{fullShare} f : sProp 𝕄) =
      iprop((bigSep Finset.univ fun p : Fin k0_t1_loop.trips × Fin k0_t2_loop.trips =>
          (outRow0 L p.1 p.2).view.loc (thr d L) ↦[(outRow0 L p.1 p.2).view.set]{fullShare} f)
        ∗ (bigSep Finset.univ fun p : Fin k0_t1_loop.trips × Fin k0_t3_loop.trips =>
          (outRow1 L p.1 p.2).view.loc (thr d L) ↦[(outRow1 L p.1 p.2).view.set]{fullShare} f)) := by
  rw [← rows_cover L hn, pointsTo_biUnion Finset.univ (ℓ := oLoc d) (rowK L) (rows_disjoint L), bigSep_rowPieces]
  exact congrArg₂ _ (bigSep_congr fun _ _ => rfl) (bigSep_congr fun _ _ => rfl)

/-- The first worker of a group: its pieces, each come back at contents of its own, are its part of the output at
    one contents that agrees with each piece's on that piece. -/
theorem tileOut_join_cls (h : k0_cond10 L = 1#1) (fs0 : Fin k0_t1_loop.trips × Fin k0_t2_loop.trips → Buf (Elt F) (oLoc d))
    (fs1 : Fin k0_t1_loop.trips × Fin k0_t3_loop.trips → Buf (Elt F) (oLoc d)) (fs2 : Fin 2 → Buf (Elt F) (oLoc d)) :
    (iprop((bigSep Finset.univ fun p : Fin k0_t1_loop.trips × Fin k0_t2_loop.trips =>
          (outRow0 L p.1 p.2).view.loc (thr d L) ↦[(outRow0 L p.1 p.2).view.set]{fullShare} (fs0 p))
        ∗ (bigSep Finset.univ fun p : Fin k0_t1_loop.trips × Fin k0_t3_loop.trips =>
          (outRow1 L p.1 p.2).view.loc (thr d L) ↦[(outRow1 L p.1 p.2).view.set]{fullShare} (fs1 p))
        ∗ (bigSep Finset.univ fun r : Fin 2 =>
          (clsRow L h r).view.loc (thr d L) ↦[(clsRow L h r).view.set]{fullShare} (fs2 r))) : sProp 𝕄)
      ⊢ iprop(∃ g : Buf (Elt F) (oLoc d),
          ⌜(∀ p : Fin k0_t1_loop.trips × Fin k0_t2_loop.trips, ∀ i : S577x64x768.Idx, i ∈ (outRow0 L p.1 p.2).view.set → g i = fs0 p i)
            ∧ (∀ p : Fin k0_t1_loop.trips × Fin k0_t3_loop.trips, ∀ i : S577x64x768.Idx, i ∈ (outRow1 L p.1 p.2).view.set → g i = fs1 p i)
            ∧ (∀ r : Fin 2, ∀ i : S577x64x768.Idx, i ∈ (clsRow L h r).view.set → g i = fs2 r i)⌝
          ∗ oLoc d ↦[tileSet (wid L)]{fullShare} g) := by
  have e : (bigSep Finset.univ fun t : Piece =>
        (oLoc d ↦[pieceK L h t]{fullShare} (Sum.elim (Sum.elim fs0 fs1) fs2 t) : sProp 𝕄)) =
      iprop((bigSep Finset.univ fun p : Fin k0_t1_loop.trips × Fin k0_t2_loop.trips =>
          (outRow0 L p.1 p.2).view.loc (thr d L) ↦[(outRow0 L p.1 p.2).view.set]{fullShare} (fs0 p))
        ∗ (bigSep Finset.univ fun p : Fin k0_t1_loop.trips × Fin k0_t3_loop.trips =>
          (outRow1 L p.1 p.2).view.loc (thr d L) ↦[(outRow1 L p.1 p.2).view.set]{fullShare} (fs1 p))
        ∗ (bigSep Finset.univ fun r : Fin 2 =>
          (clsRow L h r).view.loc (thr d L) ↦[(clsRow L h r).view.set]{fullShare} (fs2 r))) := by
    rw [bigSep_pieces]
    exact congrArg₂ _ (bigSep_congr fun _ _ => rfl) (congrArg₂ _ (bigSep_congr fun _ _ => rfl) (bigSep_congr fun _ _ => rfl))
  refine (Entails.of_eq e.symm).trans ?_
  refine (pointsTo_biUnion_join (ℓ := oLoc d) (q := fullShare) Finset.univ (pieceK L h) (Sum.elim (Sum.elim fs0 fs1) fs2) (fs2 0)
    (pieces_disjoint L h)).trans ?_
  rw [pieces_cover L h]
  iintro ⟨%g, %hg, Hg⟩
  iexists g
  isplitr
  · ipureintro
    exact ⟨fun p i hi => hg (.inl (.inl p)) (Finset.mem_univ _) i hi,
      fun p i hi => hg (.inl (.inr p)) (Finset.mem_univ _) i hi,
      fun r i hi => hg (.inr r) (Finset.mem_univ _) i hi⟩
  · iexact Hg

/-- Any other worker: the same with its row pieces only. (`f₀` is any contents; it matters only off the worker's part.) -/
theorem tileOut_join_rows (hn : ¬k0_cond10 L = 1#1) (fs0 : Fin k0_t1_loop.trips × Fin k0_t2_loop.trips → Buf (Elt F) (oLoc d))
    (fs1 : Fin k0_t1_loop.trips × Fin k0_t3_loop.trips → Buf (Elt F) (oLoc d)) (f₀ : Buf (Elt F) (oLoc d)) :
    (iprop((bigSep Finset.univ fun p : Fin k0_t1_loop.trips × Fin k0_t2_loop.trips =>
          (outRow0 L p.1 p.2).view.loc (thr d L) ↦[(outRow0 L p.1 p.2).view.set]{fullShare} (fs0 p))
        ∗ (bigSep Finset.univ fun p : Fin k0_t1_loop.trips × Fin k0_t3_loop.trips =>
          (outRow1 L p.1 p.2).view.loc (thr d L) ↦[(outRow1 L p.1 p.2).view.set]{fullShare} (fs1 p))) : sProp 𝕄)
      ⊢ iprop(∃ g : Buf (Elt F) (oLoc d),
          ⌜(∀ p : Fin k0_t1_loop.trips × Fin k0_t2_loop.trips, ∀ i : S577x64x768.Idx, i ∈ (outRow0 L p.1 p.2).view.set → g i = fs0 p i)
            ∧ (∀ p : Fin k0_t1_loop.trips × Fin k0_t3_loop.trips, ∀ i : S577x64x768.Idx, i ∈ (outRow1 L p.1 p.2).view.set → g i = fs1 p i)⌝
          ∗ oLoc d ↦[tileSet (wid L)]{fullShare} g) := by
  have e : (bigSep Finset.univ fun t : RowPiece =>
        (oLoc d ↦[rowK L t]{fullShare} (Sum.elim fs0 fs1 t) : sProp 𝕄)) =
      iprop((bigSep Finset.univ fun p : Fin k0_t1_loop.trips × Fin k0_t2_loop.trips =>
          (outRow0 L p.1 p.2).view.loc (thr d L) ↦[(outRow0 L p.1 p.2).view.set]{fullShare} (fs0 p))
        ∗ (bigSep Finset.univ fun p : Fin k0_t1_loop.trips × Fin k0_t3_loop.trips =>
          (outRow1 L p.1 p.2).view.loc (thr d L) ↦[(outRow1 L p.1 p.2).view.set]{fullShare} (fs1 p))) := by
    rw [bigSep_rowPieces]
    exact congrArg₂ _ (bigSep_congr fun _ _ => rfl) (bigSep_congr fun _ _ => rfl)
  refine (Entails.of_eq e.symm).trans ?_
  refine (pointsTo_biUnion_join (ℓ := oLoc d) (q := fullShare) Finset.univ (rowK L) (Sum.elim fs0 fs1) f₀ (rows_disjoint L)).trans ?_
  rw [rows_cover L hn]
  iintro ⟨%g, %hg, Hg⟩
  iexists g
  isplitr
  · ipureintro
    exact ⟨fun p i hi => hg (.inl p) (Finset.mem_univ _) i hi, fun p i hi => hg (.inr p) (Finset.mem_univ _) i hi⟩
  · iexact Hg

end Cert.KernelIdeal.Hand

end
-- ==== Proof.RowSpecI.lean ====
/-
  One trip of a row loop, as a statement.

  A row trip works on position row r of one staging slot: for each of the eight batch rows and each of the 48 lane
  groups it adds the chunk's position row r to the slot's entry, and then starts the copy of the slot's row r (eight
  batch rows by 768 features) to row (72 j + 8 chunk + r) of the positions-first output, for the worker's eight
  batches of that half. Afterwards the slot's row r holds, entry by entry, what it held before plus the position
  row's entry (`rowSum`); the copy's delivery is recorded on the slot's outgoing semaphore as: the output row
  overwritten with the slot's row, and the slot's row back. The position rows are only read.
-/
import proofs.«204390_g6468220748199_cont_9to1_m_1136_17_alg».proof.Proof.SlotGeomI
import proofs.«204390_g6468220748199_cont_9to1_m_1136_17_alg».proof.Proof.TileCoverI
import proofs.«204390_g6468220748199_cont_9to1_m_1136_17_alg».proof.Proof.Gen.KernelIdeal.Skeleton
import Idealize.ShloMosaic.Lib.Batch

noncomputable section

namespace Cert.KernelIdeal.Hand

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (L : grid0.Coords)

/-- A chunk, a row of the first loop, a row of the second loop, by number. -/
def t1of (k : Fin 9) : Fin k0_t1_loop.trips := ⟨k.val, by rw [trips1]; exact k.isLt⟩
def t2of (j : Fin 8) : Fin k0_t2_loop.trips := ⟨j.val, by rw [trips2]; exact j.isLt⟩
def t3of (j : Fin 8) : Fin k0_t3_loop.trips := ⟨j.val, by rw [trips3]; exact j.isLt⟩

/-- The credit of one row copy: eight batch rows of 768 features of 32 bits. -/
abbrev Nrow : ℕ := 196608

/-- Position row `r` of slot `pb` after its trip: each entry of that row plus the position row's entry of the same
    feature; everything else as before. -/
def rowSum (pb : ℕ) (r : Fin 8) (f : Buf (Elt F) ((thr d L).loc cc0_scratch1)) (g : Buf (Elt F) ((thr d L).loc cc0_scratch0)) :
    Buf (Elt F) ((thr d L).loc cc0_scratch1) :=
  fun i => if (i 0).val = pb ∧ (i 2).val = r.val then
      FloatOps.addf (f i) (g (ix2 (n0 := 8) (n1 := 768) ⟨(i 2).val, (i 2).isLt⟩ ⟨(i 3).val, (i 3).isLt⟩))
    else f i

/-- What the copy of slot 0's row `t2` delivers when it has landed: the output row overwritten with the slot's row,
    and the slot's row back, at contents `fs`. -/
abbrev deliv0 (t1 : Fin k0_t1_loop.trips) (t2 : Fin k0_t2_loop.trips) (fo : Buf (Elt F) (oLoc d))
    (fs : Buf (Elt F) ((thr d L).loc cc0_scratch1)) : sProp 𝕄 :=
  iprop(((outRow0 L t1 t2).view.loc (thr d L) ↦[(outRow0 L t1 t2).view.set]{fullShare}
        (outRow0 L t1 t2).view.write (Elt F) fo
          (ReadAs.same.apply ((rowWin 0 ⟨t2.val, t2_lt t2⟩ Nat.zero_lt_two).view.read (Elt F) fs)) Finset.univ)
    ∗ ((rowWin 0 ⟨t2.val, t2_lt t2⟩ Nat.zero_lt_two).view.loc (thr d L) ↦[(rowWin 0 ⟨t2.val, t2_lt t2⟩ Nat.zero_lt_two).view.set]{fullShare} fs))

/-- The same for slot 1's row `t3`. -/
abbrev deliv1 (t1 : Fin k0_t1_loop.trips) (t3 : Fin k0_t3_loop.trips) (fo : Buf (Elt F) (oLoc d))
    (fs : Buf (Elt F) ((thr d L).loc cc0_scratch1)) : sProp 𝕄 :=
  iprop(((outRow1 L t1 t3).view.loc (thr d L) ↦[(outRow1 L t1 t3).view.set]{fullShare}
        (outRow1 L t1 t3).view.write (Elt F) fo
          (ReadAs.same.apply ((rowWin 1 ⟨t3.val, t3_lt t3⟩ Nat.one_lt_two).view.read (Elt F) fs)) Finset.univ)
    ∗ ((rowWin 1 ⟨t3.val, t3_lt t3⟩ Nat.one_lt_two).view.loc (thr d L) ↦[(rowWin 1 ⟨t3.val, t3_lt t3⟩ Nat.one_lt_two).view.set]{fullShare} fs))

/-- One trip of the first row loop (slot 0, first batch half), with the slot's row named afterwards. -/
def RowTrip0 : Prop :=
  ∀ (t1 : Fin k0_t1_loop.trips) (t2 : Fin k0_t2_loop.trips) (v29 v30 a10 v276 c0 : BitVec 32)
    (O : CellTallies nD τ sig (HIx 1)) (W : Waits sig (HIx 1))
    (f : Buf (Elt F) ((thr d L).loc cc0_scratch1)) (g : Buf (Elt F) ((thr d L).loc cc0_scratch0)) (fo : Buf (Elt F) (oLoc d))
    (Ds : List (sProp 𝕄)) (u : ℕ), Ds.length < 8 → u ≤ Ds.length * Nrow →
    iprop(□ Transfers.MayWaits (thr d L) (none : HIx 1) O
        ∗ ((rowWin 0 ⟨t2.val, t2_lt t2⟩ Nat.zero_lt_two).view.loc (thr d L) ↦[(rowWin 0 ⟨t2.val, t2_lt t2⟩ Nat.zero_lt_two).view.set]{fullShare} f)
        ∗ ((posV : Memref sig .scVector .vmem S8x768 .f32).view.loc (thr d L) ↦{fullShare} g)
        ∗ ((outRow0 L t1 t2).view.loc (thr d L) ↦[(outRow0 L t1 t2).view.set]{fullShare} fo)
        ∗ Transfers.Batched (countersEmb (U := UU)) (thr d L) (SemLoc.dma (sig := sig) (2 : Fin 9)) (default : HIx 1) Nrow 8 Ds u
        ∗ owes (thr d L) O W)
      ⊢ wp frame (wpE (defs₀ (F := F)) 𝒱₀ (thr d L) none) Set.univ
          (k0_t2_body L xV (Memref.isWhole_whole _) pV (Memref.isWhole_whole _) tV (Memref.isWhole_whole _) oV (Memref.isWhole_whole _)
            posV (Memref.isWhole_whole _) slotV (Memref.isWhole_whole _) cc0_scratch2 cc0_scratch3 cc0_scoped0 cc0_scoped1 cc0_scoped2 cc0_scoped3 cc0_scoped4
            v29 v30 t1 a10 v276 c0 t2 ())
          fun _ => iprop(((posV : Memref sig .scVector .vmem S8x768 .f32).view.loc (thr d L) ↦{fullShare} g)
            ∗ Transfers.Batched (countersEmb (U := UU)) (thr d L) (SemLoc.dma (sig := sig) (2 : Fin 9)) (default : HIx 1) Nrow 8
                (Ds ++ [deliv0 d L t1 t2 fo (rowSum d L 0 ⟨t2.val, t2_lt t2⟩ f g)]) u
            ∗ owes (thr d L) O W)

/-- One trip of the second row loop (slot 1, second batch half). -/
def RowTrip1 : Prop :=
  ∀ (t1 : Fin k0_t1_loop.trips) (t3 : Fin k0_t3_loop.trips) (v29 v30 a10 : BitVec 32)
    (O : CellTallies nD τ sig (HIx 1)) (W : Waits sig (HIx 1))
    (f : Buf (Elt F) ((thr d L).loc cc0_scratch1)) (g : Buf (Elt F) ((thr d L).loc cc0_scratch0)) (fo : Buf (Elt F) (oLoc d))
    (Ds : List (sProp 𝕄)) (u : ℕ), Ds.length < 8 → u ≤ Ds.length * Nrow →
    iprop(□ Transfers.MayWaits (thr d L) (none : HIx 1) O
        ∗ ((rowWin 1 ⟨t3.val, t3_lt t3⟩ Nat.one_lt_two).view.loc (thr d L) ↦[(rowWin 1 ⟨t3.val, t3_lt t3⟩ Nat.one_lt_two).view.set]{fullShare} f)
        ∗ ((posV : Memref sig .scVector .vmem S8x768 .f32).view.loc (thr d L) ↦{fullShare} g)
        ∗ ((outRow1 L t1 t3).view.loc (thr d L) ↦[(outRow1 L t1 t3).view.set]{fullShare} fo)
        ∗ Transfers.Batched (countersEmb (U := UU)) (thr d L) (SemLoc.dma (sig := sig) (3 : Fin 9)) (default : HIx 1) Nrow 8 Ds u
        ∗ owes (thr d L) O W)
      ⊢ wp frame (wpE (defs₀ (F := F)) 𝒱₀ (thr d L) none) Set.univ
          (k0_t3_body L xV (Memref.isWhole_whole _) pV (Memref.isWhole_whole _) tV (Memref.isWhole_whole _) oV (Memref.isWhole_whole _)
            posV (Memref.isWhole_whole _) slotV (Memref.isWhole_whole _) cc0_scratch2 cc0_scratch3 cc0_scoped0 cc0_scoped1 cc0_scoped2 cc0_scoped3 cc0_scoped4
            v29 v30 t1 a10 t3 ())
          fun _ => iprop(((posV : Memref sig .scVector .vmem S8x768 .f32).view.loc (thr d L) ↦{fullShare} g)
            ∗ Transfers.Batched (countersEmb (U := UU)) (thr d L) (SemLoc.dma (sig := sig) (3 : Fin 9)) (default : HIx 1) Nrow 8
                (Ds ++ [deliv1 d L t1 t3 fo (rowSum d L 1 ⟨t3.val, t3_lt t3⟩ f g)]) u
            ∗ owes (thr d L) O W)

/-- One trip of the first row loop, without naming what the slot's row holds afterwards: enough for the program to run on. -/
def RowTrip0F : Prop :=
  ∀ (t1 : Fin k0_t1_loop.trips) (t2 : Fin k0_t2_loop.trips) (v29 v30 a10 v276 c0 : BitVec 32)
    (O : CellTallies nD τ sig (HIx 1)) (W : Waits sig (HIx 1))
    (f : Buf (Elt F) ((thr d L).loc cc0_scratch1)) (g : Buf (Elt F) ((thr d L).loc cc0_scratch0)) (fo : Buf (Elt F) (oLoc d))
    (Ds : List (sProp 𝕄)) (u : ℕ), Ds.length < 8 → u ≤ Ds.length * Nrow →
    iprop(□ Transfers.MayWaits (thr d L) (none : HIx 1) O
        ∗ ((rowWin 0 ⟨t2.val, t2_lt t2⟩ Nat.zero_lt_two).view.loc (thr d L) ↦[(rowWin 0 ⟨t2.val, t2_lt t2⟩ Nat.zero_lt_two).view.set]{fullShare} f)
        ∗ ((posV : Memref sig .scVector .vmem S8x768 .f32).view.loc (thr d L) ↦{fullShare} g)
        ∗ ((outRow0 L t1 t2).view.loc (thr d L) ↦[(outRow0 L t1 t2).view.set]{fullShare} fo)
        ∗ Transfers.Batched (countersEmb (U := UU)) (thr d L) (SemLoc.dma (sig := sig) (2 : Fin 9)) (default : HIx 1) Nrow 8 Ds u
        ∗ owes (thr d L) O W)
      ⊢ wp frame (wpE (defs₀ (F := F)) 𝒱₀ (thr d L) none) Set.univ
          (k0_t2_body L xV (Memref.isWhole_whole _) pV (Memref.isWhole_whole _) tV (Memref.isWhole_whole _) oV (Memref.isWhole_whole _)
            posV (Memref.isWhole_whole _) slotV (Memref.isWhole_whole _) cc0_scratch2 cc0_scratch3 cc0_scoped0 cc0_scoped1 cc0_scoped2 cc0_scoped3 cc0_scoped4
            v29 v30 t1 a10 v276 c0 t2 ())
          fun _ => iprop(∃ fs : Buf (Elt F) ((thr d L).loc cc0_scratch1),
            ((posV : Memref sig .scVector .vmem S8x768 .f32).view.loc (thr d L) ↦{fullShare} g)
            ∗ Transfers.Batched (countersEmb (U := UU)) (thr d L) (SemLoc.dma (sig := sig) (2 : Fin 9)) (default : HIx 1) Nrow 8
                (Ds ++ [deliv0 d L t1 t2 fo fs]) u
            ∗ owes (thr d L) O W)

/-- Naming the row gives the unnamed form. -/
theorem RowTrip0.toF (h : RowTrip0 (F := F) d L) : RowTrip0F (F := F) d L := by
  intro t1 t2 v29 v30 a10 v276 c0 O W f g fo Ds u hj hu
  refine (h t1 t2 v29 v30 a10 v276 c0 O W f g fo Ds u hj hu).trans (wp_mono frame _ _ fun _ => ?_)
  iintro H
  iexists (rowSum d L 0 ⟨t2.val, t2_lt t2⟩ f g)
  iexact H

/-- One trip of the second row loop, without naming what the slot's row holds afterwards: enough for the program to run on. -/
def RowTrip1F : Prop :=
  ∀ (t1 : Fin k0_t1_loop.trips) (t3 : Fin k0_t3_loop.trips) (v29 v30 a10 : BitVec 32)
    (O : CellTallies nD τ sig (HIx 1)) (W : Waits sig (HIx 1))
    (f : Buf (Elt F) ((thr d L).loc cc0_scratch1)) (g : Buf (Elt F) ((thr d L).loc cc0_scratch0)) (fo : Buf (Elt F) (oLoc d))
    (Ds : List (sProp 𝕄)) (u : ℕ), Ds.length < 8 → u ≤ Ds.length * Nrow →
    iprop(□ Transfers.MayWaits (thr d L) (none : HIx 1) O
        ∗ ((rowWin 1 ⟨t3.val, t3_lt t3⟩ Nat.one_lt_two).view.loc (thr d L) ↦[(rowWin 1 ⟨t3.val, t3_lt t3⟩ Nat.one_lt_two).view.set]{fullShare} f)
        ∗ ((posV : Memref sig .scVector .vmem S8x768 .f32).view.loc (thr d L) ↦{fullShare} g)
        ∗ ((outRow1 L t1 t3).view.loc (thr d L) ↦[(outRow1 L t1 t3).view.set]{fullShare} fo)
        ∗ Transfers.Batched (countersEmb (U := UU)) (thr d L) (SemLoc.dma (sig := sig) (3 : Fin 9)) (default : HIx 1) Nrow 8 Ds u
        ∗ owes (thr d L) O W)
      ⊢ wp frame (wpE (defs₀ (F := F)) 𝒱₀ (thr d L) none) Set.univ
          (k0_t3_body L xV (Memref.isWhole_whole _) pV (Memref.isWhole_whole _) tV (Memref.isWhole_whole _) oV (Memref.isWhole_whole _)
            posV (Memref.isWhole_whole _) slotV (Memref.isWhole_whole _) cc0_scratch2 cc0_scratch3 cc0_scoped0 cc0_scoped1 cc0_scoped2 cc0_scoped3 cc0_scoped4
            v29 v30 t1 a10 t3 ())
          fun _ => iprop(∃ fs : Buf (Elt F) ((thr d L).loc cc0_scratch1),
            ((posV : Memref sig .scVector .vmem S8x768 .f32).view.loc (thr d L) ↦{fullShare} g)
            ∗ Transfers.Batched (countersEmb (U := UU)) (thr d L) (SemLoc.dma (sig := sig) (3 : Fin 9)) (default : HIx 1) Nrow 8
                (Ds ++ [deliv1 d L t1 t3 fo fs]) u
            ∗ owes (thr d L) O W)

/-- Naming the row gives the unnamed form. -/
theorem RowTrip1.toF (h : RowTrip1 (F := F) d L) : RowTrip1F (F := F) d L := by
  intro t1 t3 v29 v30 a10 O W f g fo Ds u hj hu
  refine (h t1 t3 v29 v30 a10 O W f g fo Ds u hj hu).trans (wp_mono frame _ _ fun _ => ?_)
  iintro H
  iexists (rowSum d L 1 ⟨t3.val, t3_lt t3⟩ f g)
  iexact H

end Cert.KernelIdeal.Hand

end
-- ==== Proof.RowLoopVI.lean ====
/-
  A whole row loop with its rows named, from one trip's statement with the row named: eight trips in a row, each adding the position row to one row of the
  slot and starting that row's copy; the eight copies are a batch on the slot's outgoing semaphore.
-/
import proofs.«204390_g6468220748199_cont_9to1_m_1136_17_alg».proof.Proof.RowSpecI
import Idealize.ShloMosaic.Lib.Tactic

noncomputable section

namespace Cert.KernelIdeal.Hand

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [∀ e, Nonempty (Elt F e)]

local notation "𝕄" => MT nD τ sig (HIx 1) (Elt F) ℕ UU ℕ

variable (d : Dev nD) (L : grid0.Coords)

/-- The whole row loop over slot 0, with the rows named: each copy delivers the slot's row at the landed block plus
    the position row. -/
theorem row_loop0V (h : RowTrip0 (F := F) d L) (t1 : Fin k0_t1_loop.trips) (v29 v30 a10 v276 c0 : BitVec 32)
    (O : CellTallies nD τ sig (HIx 1)) (W : Waits sig (HIx 1))
    (f : Buf (Elt F) ((thr d L).loc cc0_scratch1)) (g : Buf (Elt F) ((thr d L).loc cc0_scratch0)) (fo : Buf (Elt F) (oLoc d)) :
    iprop(□ Transfers.MayWaits (thr d L) (none : HIx 1) O ∗ semVal (cell d L 2) 0
        ∗ (((rowWin 0 0 Nat.zero_lt_two).view.loc (thr d L) ↦[(rowWin 0 0 Nat.zero_lt_two).view.set]{fullShare} f) ∗ ((rowWin 0 1 Nat.zero_lt_two).view.loc (thr d L) ↦[(rowWin 0 1 Nat.zero_lt_two).view.set]{fullShare} f) ∗ ((rowWin 0 2 Nat.zero_lt_two).view.loc (thr d L) ↦[(rowWin 0 2 Nat.zero_lt_two).view.set]{fullShare} f) ∗ ((rowWin 0 3 Nat.zero_lt_two).view.loc (thr d L) ↦[(rowWin 0 3 Nat.zero_lt_two).view.set]{fullShare} f) ∗ ((rowWin 0 4 Nat.zero_lt_two).view.loc (thr d L) ↦[(rowWin 0 4 Nat.zero_lt_two).view.set]{fullShare} f) ∗ ((rowWin 0 5 Nat.zero_lt_two).view.loc (thr d L) ↦[(rowWin 0 5 Nat.zero_lt_two).view.set]{fullShare} f) ∗ ((rowWin 0 6 Nat.zero_lt_two).view.loc (thr d L) ↦[(rowWin 0 6 Nat.zero_lt_two).view.set]{fullShare} f) ∗ ((rowWin 0 7 Nat.zero_lt_two).view.loc (thr d L) ↦[(rowWin 0 7 Nat.zero_lt_two).view.set]{fullShare} f))
        ∗ ((posV : Memref sig .scVector .vmem S8x768 .f32).view.loc (thr d L) ↦{fullShare} g)
        ∗ (((outRow0 L t1 (t2of 0)).view.loc (thr d L) ↦[(outRow0 L t1 (t2of 0)).view.set]{fullShare} fo) ∗ ((outRow0 L t1 (t2of 1)).view.loc (thr d L) ↦[(outRow0 L t1 (t2of 1)).view.set]{fullShare} fo) ∗ ((outRow0 L t1 (t2of 2)).view.loc (thr d L) ↦[(outRow0 L t1 (t2of 2)).view.set]{fullShare} fo) ∗ ((outRow0 L t1 (t2of 3)).view.loc (thr d L) ↦[(outRow0 L t1 (t2of 3)).view.set]{fullShare} fo) ∗ ((outRow0 L t1 (t2of 4)).view.loc (thr d L) ↦[(outRow0 L t1 (t2of 4)).view.set]{fullShare} fo) ∗ ((outRow0 L t1 (t2of 5)).view.loc (thr d L) ↦[(outRow0 L t1 (t2of 5)).view.set]{fullShare} fo) ∗ ((outRow0 L t1 (t2of 6)).view.loc (thr d L) ↦[(outRow0 L t1 (t2of 6)).view.set]{fullShare} fo) ∗ ((outRow0 L t1 (t2of 7)).view.loc (thr d L) ↦[(outRow0 L t1 (t2of 7)).view.set]{fullShare} fo))
        ∗ owes (thr d L) O W)
      ⊢ wp frame (wpE (defs₀ (F := F)) 𝒱₀ (thr d L) none) Set.univ
          (k0_t2_loop.for k0_t2_ok PUnit.unit
            (k0_t2_body L xV (Memref.isWhole_whole _) pV (Memref.isWhole_whole _) tV (Memref.isWhole_whole _) oV (Memref.isWhole_whole _)
              posV (Memref.isWhole_whole _) slotV (Memref.isWhole_whole _) cc0_scratch2 cc0_scratch3 cc0_scoped0 cc0_scoped1 cc0_scoped2 cc0_scoped3 cc0_scoped4
              v29 v30 t1 a10 v276 c0))
          fun _ => iprop(((posV : Memref sig .scVector .vmem S8x768 .f32).view.loc (thr d L) ↦{fullShare} g)
            ∗ Transfers.Batched (countersEmb (U := UU)) (thr d L) (SemLoc.dma (sig := sig) (2 : Fin 9)) (default : HIx 1) Nrow 8
                [deliv0 d L t1 (t2of 0) fo (rowSum d L 0 0 f g),
                 deliv0 d L t1 (t2of 1) fo (rowSum d L 0 1 f g),
                 deliv0 d L t1 (t2of 2) fo (rowSum d L 0 2 f g),
                 deliv0 d L t1 (t2of 3) fo (rowSum d L 0 3 f g),
                 deliv0 d L t1 (t2of 4) fo (rowSum d L 0 4 f g),
                 deliv0 d L t1 (t2of 5) fo (rowSum d L 0 5 f g),
                 deliv0 d L t1 (t2of 6) fo (rowSum d L 0 6 f g),
                 deliv0 d L t1 (t2of 7) fo (rowSum d L 0 7 f g)] 0
            ∗ owes (thr d L) O W) := by
  iintro ⟨#Hmw, Hsem, ⟨Hr0, Hr1, Hr2, Hr3, Hr4, Hr5, Hr6, Hr7⟩, Hpos, ⟨Ho0, Ho1, Ho2, Ho3, Ho4, Ho5, Ho6, Ho7⟩, HO⟩
  imod (Transfers.batched_alloc (countersEmb (U := UU)) (thr d L) (default : HIx 1) Nrow 8 (sm := SemLoc.dma (sig := sig) (2 : Fin 9)) (E := Set.univ)) $$ Hsem with HB
  sl_unroll
  -- row 0
  rw [wp_bind]
  iapply (wp_wand_r frame _ Set.univ)
  isplitl [Hr0 Hpos Ho0 HB HO]
  · iapply (h t1 (t2of 0) v29 v30 a10 v276 c0 O _ f g fo [] 0 (by simp) (Nat.zero_le _)) $$ [Hr0 Hpos Ho0 HB HO]
    isplitr; · iexact Hmw
    isplitl [Hr0]; · iexact Hr0
    isplitl [Hpos]; · iexact Hpos
    isplitl [Ho0]; · iexact Ho0
    isplitl [HB]; · iexact HB
    iexact HO
  iintro %_ ⟨Hpos, HB, HO⟩
  -- row 1
  rw [wp_bind]
  iapply (wp_wand_r frame _ Set.univ)
  isplitl [Hr1 Hpos Ho1 HB HO]
  · iapply (h t1 (t2of 1) v29 v30 a10 v276 c0 O _ f g fo [deliv0 d L t1 (t2of 0) fo (rowSum d L 0 0 f g)] 0 (by simp) (Nat.zero_le _)) $$ [Hr1 Hpos Ho1 HB HO]
    isplitr; · iexact Hmw
    isplitl [Hr1]; · iexact Hr1
    isplitl [Hpos]; · iexact Hpos
    isplitl [Ho1]; · iexact Ho1
    isplitl [HB]; · iexact HB
    iexact HO
  iintro %_ ⟨Hpos, HB, HO⟩
  -- row 2
  rw [wp_bind]
  iapply (wp_wand_r frame _ Set.univ)
  isplitl [Hr2 Hpos Ho2 HB HO]
  · iapply (h t1 (t2of 2) v29 v30 a10 v276 c0 O _ f g fo [deliv0 d L t1 (t2of 0) fo (rowSum d L 0 0 f g), deliv0 d L t1 (t2of 1) fo (rowSum d L 0 1 f g)] 0 (by simp) (Nat.zero_le _)) $$ [Hr2 Hpos Ho2 HB HO]
    isplitr; · iexact Hmw
    isplitl [Hr2]; · iexact Hr2
    isplitl [Hpos]; · iexact Hpos
    isplitl [Ho2]; · iexact Ho2
    isplitl [HB]; · iexact HB
    iexact HO
  iintro %_ ⟨Hpos, HB, HO⟩
  -- row 3
  rw [wp_bind]
  iapply (wp_wand_r frame _ Set.univ)
  isplitl [Hr3 Hpos Ho3 HB HO]
  · iapply (h t1 (t2of 3) v29 v30 a10 v276 c0 O _ f g fo [deliv0 d L t1 (t2of 0) fo (rowSum d L 0 0 f g), deliv0 d L t1 (t2of 1) fo (rowSum d L 0 1 f g), deliv0 d L t1 (t2of 2) fo (rowSum d L 0 2 f g)] 0 (by simp) (Nat.zero_le _)) $$ [Hr3 Hpos Ho3 HB HO]
    isplitr; · iexact Hmw
    isplitl [Hr3]; · iexact Hr3
    isplitl [Hpos]; · iexact Hpos
    isplitl [Ho3]; · iexact Ho3
    isplitl [HB]; · iexact HB
    iexact HO
  iintro %_ ⟨Hpos, HB, HO⟩
  -- row 4
  rw [wp_bind]
  iapply (wp_wand_r frame _ Set.univ)
  isplitl [Hr4 Hpos Ho4 HB HO]
  · iapply (h t1 (t2of 4) v29 v30 a10 v276 c0 O _ f g fo [deliv0 d L t1 (t2of 0) fo (rowSum d L 0 0 f g), deliv0 d L t1 (t2of 1) fo (rowSum d L 0 1 f g), deliv0 d L t1 (t2of 2) fo (rowSum d L 0 2 f g), deliv0 d L t1 (t2of 3) fo (rowSum d L 0 3 f g)] 0 (by simp) (Nat.zero_le _)) $$ [Hr4 Hpos Ho4 HB HO]
    isplitr; · iexact Hmw
    isplitl [Hr4]; · iexact Hr4
    isplitl [Hpos]; · iexact Hpos
    isplitl [Ho4]; · iexact Ho4
    isplitl [HB]; · iexact HB
    iexact HO
  iintro %_ ⟨Hpos, HB, HO⟩
  -- row 5
  rw [wp_bind]
  iapply (wp_wand_r frame _ Set.univ)
  isplitl [Hr5 Hpos Ho5 HB HO]
  · iapply (h t1 (t2of 5) v29 v30 a10 v276 c0 O _ f g fo [deliv0 d L t1 (t2of 0) fo (rowSum d L 0 0 f g), deliv0 d L t1 (t2of 1) fo (rowSum d L 0 1 f g), deliv0 d L t1 (t2of 2) fo (rowSum d L 0 2 f g), deliv0 d L t1 (t2of 3) fo (rowSum d L 0 3 f g), deliv0 d L t1 (t2of 4) fo (rowSum d L 0 4 f g)] 0 (by simp) (Nat.zero_le _)) $$ [Hr5 Hpos Ho5 HB HO]
    isplitr; · iexact Hmw
    isplitl [Hr5]; · iexact Hr5
    isplitl [Hpos]; · iexact Hpos
    isplitl [Ho5]; · iexact Ho5
    isplitl [HB]; · iexact HB
    iexact HO
  iintro %_ ⟨Hpos, HB, HO⟩
  -- row 6
  rw [wp_bind]
  iapply (wp_wand_r frame _ Set.univ)
  isplitl [Hr6 Hpos Ho6 HB HO]
  · iapply (h t1 (t2of 6) v29 v30 a10 v276 c0 O _ f g fo [deliv0 d L t1 (t2of 0) fo (rowSum d L 0 0 f g), deliv0 d L t1 (t2of 1) fo (rowSum d L 0 1 f g), deliv0 d L t1 (t2of 2) fo (rowSum d L 0 2 f g), deliv0 d L t1 (t2of 3) fo (rowSum d L 0 3 f g), deliv0 d L t1 (t2of 4) fo (rowSum d L 0 4 f g), deliv0 d L t1 (t2of 5) fo (rowSum d L 0 5 f g)] 0 (by simp) (Nat.zero_le _)) $$ [Hr6 Hpos Ho6 HB HO]
    isplitr; · iexact Hmw
    isplitl [Hr6]; · iexact Hr6
    isplitl [Hpos]; · iexact Hpos
    isplitl [Ho6]; · iexact Ho6
    isplitl [HB]; · iexact HB
    iexact HO
  iintro %_ ⟨Hpos, HB, HO⟩
  -- row 7
  rw [wp_bind]
  iapply (wp_wand_r frame _ Set.univ)
  isplitl [Hr7 Hpos Ho7 HB HO]
  · iapply (h t1 (t2of 7) v29 v30 a10 v276 c0 O _ f g fo [deliv0 d L t1 (t2of 0) fo (rowSum d L 0 0 f g), deliv0 d L t1 (t2of 1) fo (rowSum d L 0 1 f g), deliv0 d L t1 (t2of 2) fo (rowSum d L 0 2 f g), deliv0 d L t1 (t2of 3) fo (rowSum d L 0 3 f g), deliv0 d L t1 (t2of 4) fo (rowSum d L 0 4 f g), deliv0 d L t1 (t2of 5) fo (rowSum d L 0 5 f g), deliv0 d L t1 (t2of 6) fo (rowSum d L 0 6 f g)] 0 (by simp) (Nat.zero_le _)) $$ [Hr7 Hpos Ho7 HB HO]
    isplitr; · iexact Hmw
    isplitl [Hr7]; · iexact Hr7
    isplitl [Hpos]; · iexact Hpos
    isplitl [Ho7]; · iexact Ho7
    isplitl [HB]; · iexact HB
    iexact HO
  iintro %_ ⟨Hpos, HB, HO⟩
  rw [wp_ret]; imodintro
  isplitl [Hpos]; · iexact Hpos
  isplitl [HB]; · iexact HB
  iexact HO

/-- The whole row loop over slot 1, with the rows named: each copy delivers the slot's row at the landed block plus
    the position row. -/
theorem row_loop1V (h : RowTrip1 (F := F) d L) (t1 : Fin k0_t1_loop.trips) (v29 v30 a10 : BitVec 32)
    (O : CellTallies nD τ sig (HIx 1)) (W : Waits sig (HIx 1))
    (f : Buf (Elt F) ((thr d L).loc cc0_scratch1)) (g : Buf (Elt F) ((thr d L).loc cc0_scratch0)) (fo : Buf (Elt F) (oLoc d)) :
    iprop(□ Transfers.MayWaits (thr d L) (none : HIx 1) O ∗ semVal (cell d L 3) 0
        ∗ (((rowWin 1 0 Nat.one_lt_two).view.loc (thr d L) ↦[(rowWin 1 0 Nat.one_lt_two).view.set]{fullShare} f) ∗ ((rowWin 1 1 Nat.one_lt_two).view.loc (thr d L) ↦[(rowWin 1 1 Nat.one_lt_two).view.set]{fullShare} f) ∗ ((rowWin 1 2 Nat.one_lt_two).view.loc (thr d L) ↦[(rowWin 1 2 Nat.one_lt_two).view.set]{fullShare} f) ∗ ((rowWin 1 3 Nat.one_lt_two).view.loc (thr d L) ↦[(rowWin 1 3 Nat.one_lt_two).view.set]{fullShare} f) ∗ ((rowWin 1 4 Nat.one_lt_two).view.loc (thr d L) ↦[(rowWin 1 4 Nat.one_lt_two).view.set]{fullShare} f) ∗ ((rowWin 1 5 Nat.one_lt_two).view.loc (thr d L) ↦[(rowWin 1 5 Nat.one_lt_two).view.set]{fullShare} f) ∗ ((rowWin 1 6 Nat.one_lt_two).view.loc (thr d L) ↦[(rowWin 1 6 Nat.one_lt_two).view.set]{fullShare} f) ∗ ((rowWin 1 7 Nat.one_lt_two).view.loc (thr d L) ↦[(rowWin 1 7 Nat.one_lt_two).view.set]{fullShare} f))
        ∗ ((posV : Memref sig .scVector .vmem S8x768 .f32).view.loc (thr d L) ↦{fullShare} g)
        ∗ (((outRow1 L t1 (t3of 0)).view.loc (thr d L) ↦[(outRow1 L t1 (t3of 0)).view.set]{fullShare} fo) ∗ ((outRow1 L t1 (t3of 1)).view.loc (thr d L) ↦[(outRow1 L t1 (t3of 1)).view.set]{fullShare} fo) ∗ ((outRow1 L t1 (t3of 2)).view.loc (thr d L) ↦[(outRow1 L t1 (t3of 2)).view.set]{fullShare} fo) ∗ ((outRow1 L t1 (t3of 3)).view.loc (thr d L) ↦[(outRow1 L t1 (t3of 3)).view.set]{fullShare} fo) ∗ ((outRow1 L t1 (t3of 4)).view.loc (thr d L) ↦[(outRow1 L t1 (t3of 4)).view.set]{fullShare} fo) ∗ ((outRow1 L t1 (t3of 5)).view.loc (thr d L) ↦[(outRow1 L t1 (t3of 5)).view.set]{fullShare} fo) ∗ ((outRow1 L t1 (t3of 6)).view.loc (thr d L) ↦[(outRow1 L t1 (t3of 6)).view.set]{fullShare} fo) ∗ ((outRow1 L t1 (t3of 7)).view.loc (thr d L) ↦[(outRow1 L t1 (t3of 7)).view.set]{fullShare} fo))
        ∗ owes (thr d L) O W)
      ⊢ wp frame (wpE (defs₀ (F := F)) 𝒱₀ (thr d L) none) Set.univ
          (k0_t3_loop.for k0_t3_ok PUnit.unit
            (k0_t3_body L xV (Memref.isWhole_whole _) pV (Memref.isWhole_whole _) tV (Memref.isWhole_whole _) oV (Memref.isWhole_whole _)
              posV (Memref.isWhole_whole _) slotV (Memref.isWhole_whole _) cc0_scratch2 cc0_scratch3 cc0_scoped0 cc0_scoped1 cc0_scoped2 cc0_scoped3 cc0_scoped4
              v29 v30 t1 a10))
          fun _ => iprop(((posV : Memref sig .scVector .vmem S8x768 .f32).view.loc (thr d L) ↦{fullShare} g)
            ∗ Transfers.Batched (countersEmb (U := UU)) (thr d L) (SemLoc.dma (sig := sig) (3 : Fin 9)) (default : HIx 1) Nrow 8
                [deliv1 d L t1 (t3of 0) fo (rowSum d L 1 0 f g),
                 deliv1 d L t1 (t3of 1) fo (rowSum d L 1 1 f g),
                 deliv1 d L t1 (t3of 2) fo (rowSum d L 1 2 f g),
                 deliv1 d L t1 (t3of 3) fo (rowSum d L 1 3 f g),
                 deliv1 d L t1 (t3of 4) fo (rowSum d L 1 4 f g),
                 deliv1 d L t1 (t3of 5) fo (rowSum d L 1 5 f g),
                 deliv1 d L t1 (t3of 6) fo (rowSum d L 1 6 f g),
                 deliv1 d L t1 (t3of 7) fo (rowSum d L 1 7 f g)] 0
            ∗ owes (thr d L) O W) := by
  iintro ⟨#Hmw, Hsem, ⟨Hr0, Hr1, Hr2, Hr3, Hr4, Hr5, Hr6, Hr7⟩, Hpos, ⟨Ho0, Ho1, Ho2, Ho3, Ho4, Ho5, Ho6, Ho7⟩, HO⟩
  imod (Transfers.batched_alloc (countersEmb (U := UU)) (thr d L) (default : HIx 1) Nrow 8 (sm := SemLoc.dma (sig := sig) (3 : Fin 9)) (E := Set.univ)) $$ Hsem with HB
  sl_unroll
  -- row 0
  rw [wp_bind]
  iapply (wp_wand_r frame _ Set.univ)
  isplitl [Hr0 Hpos Ho0 HB HO]
  · iapply (h t1 (t3of 0) v29 v30 a10 O _ f g fo [] 0 (by simp) (Nat.zero_le _)) $$ [Hr0 Hpos Ho0 HB HO]
    isplitr; · iexact Hmw
    isplitl [Hr0]; · iexact Hr0
    isplitl [Hpos]; · iexact Hpos
    isplitl [Ho0]; · iexact Ho0
    isplitl [HB]; · iexact HB
    iexact HO
  iintro %_ ⟨Hpos, HB, HO⟩
  -- row 1
  rw [wp_bind]
  iapply (wp_wand_r frame _ Set.univ)
  isplitl [Hr1 Hpos Ho1 HB HO]
  · iapply (h t1 (t3of 1) v29 v30 a10 O _ f g fo [deliv1 d L t1 (t3of 0) fo (rowSum d L 1 0 f g)] 0 (by simp) (Nat.zero_le _)) $$ [Hr1 Hpos Ho1 HB HO]
    isplitr; · iexact Hmw
    isplitl [Hr1]; · iexact Hr1
    isplitl [Hpos]; · iexact Hpos
    isplitl [Ho1]; · iexact Ho1
    isplitl [HB]; · iexact HB
    iexact HO
  iintro %_ ⟨Hpos, HB, HO⟩
  -- row 2
  rw [wp_bind]
  iapply (wp_wand_r frame _ Set.univ)
  isplitl [Hr2 Hpos Ho2 HB HO]
  · iapply (h t1 (t3of 2) v29 v30 a10 O _ f g fo [deliv1 d L t1 (t3of 0) fo (rowSum d L 1 0 f g), deliv1 d L t1 (t3of 1) fo (rowSum d L 1 1 f g)] 0 (by simp) (Nat.zero_le _)) $$ [Hr2 Hpos Ho2 HB HO]
    isplitr; · iexact Hmw
    isplitl [Hr2]; · iexact Hr2
    isplitl [Hpos]; · iexact Hpos
    isplitl [Ho2]; · iexact Ho2
    isplitl [HB]; · iexact HB
    iexact HO
  iintro %_ ⟨Hpos, HB, HO⟩
  -- row 3
  rw [wp_bind]
  iapply (wp_wand_r frame _ Set.univ)
  isplitl [Hr3 Hpos Ho3 HB HO]
  · iapply (h t1 (t3of 3) v29 v30 a10 O _ f g fo [deliv1 d L t1 (t3of 0) fo (rowSum d L 1 0 f g), deliv1 d L t1 (t3of 1) fo (rowSum d L 1 1 f g), deliv1 d L t1 (t3of 2) fo (rowSum d L 1 2 f g)] 0 (by simp) (Nat.zero_le _)) $$ [Hr3 Hpos Ho3 HB HO]
    isplitr; · iexact Hmw
    isplitl [Hr3]; · iexact Hr3
    isplitl [Hpos]; · iexact Hpos
    isplitl [Ho3]; · iexact Ho3
    isplitl [HB]; · iexact HB
    iexact HO
  iintro %_ ⟨Hpos, HB, HO⟩
  -- row 4
  rw [wp_bind]
  iapply (wp_wand_r frame _ Set.univ)
  isplitl [Hr4 Hpos Ho4 HB HO]
  · iapply (h t1 (t3of 4) v29 v30 a10 O _ f g fo [deliv1 d L t1 (t3of 0) fo (rowSum d L 1 0 f g), deliv1 d L t1 (t3of 1) fo (rowSum d L 1 1 f g), deliv1 d L t1 (t3of 2) fo (rowSum d L 1 2 f g), deliv1 d L t1 (t3of 3) fo (rowSum d L 1 3 f g)] 0 (by simp) (Nat.zero_le _)) $$ [Hr4 Hpos Ho4 HB HO]
    isplitr; · iexact Hmw
    isplitl [Hr4]; · iexact Hr4
    isplitl [Hpos]; · iexact Hpos
    isplitl [Ho4]; · iexact Ho4
    isplitl [HB]; · iexact HB
    iexact HO
  iintro %_ ⟨Hpos, HB, HO⟩
  -- row 5
  rw [wp_bind]
  iapply (wp_wand_r frame _ Set.univ)
  isplitl [Hr5 Hpos Ho5 HB HO]
  · iapply (h t1 (t3of 5) v29 v30 a10 O _ f g fo [deliv1 d L t1 (t3of 0) fo (rowSum d L 1 0 f g), deliv1 d L t1 (t3of 1) fo (rowSum d L 1 1 f g), deliv1 d L t1 (t3of 2) fo (rowSum d L 1 2 f g), deliv1 d L t1 (t3of 3) fo (rowSum d L 1 3 f g), deliv1 d L t1 (t3of 4) fo (rowSum d L 1 4 f g)] 0 (by simp) (Nat.zero_le _)) $$ [Hr5 Hpos Ho5 HB HO]
    isplitr; · iexact Hmw
    isplitl [Hr5]; · iexact Hr5
    isplitl [Hpos]; · iexact Hpos
    isplitl [Ho5]; · iexact Ho5
    isplitl [HB]; · iexact HB
    iexact HO
  iintro %_ ⟨Hpos, HB, HO⟩
  -- row 6
  rw [wp_bind]
  iapply (wp_wand_r frame _ Set.univ)
  isplitl [Hr6 Hpos Ho6 HB HO]
  · iapply (h t1 (t3of 6) v29 v30 a10 O _ f g fo [deliv1 d L t1 (t3of 0) fo (rowSum d L 1 0 f g), deliv1 d L t1 (t3of 1) fo (rowSum d L 1 1 f g), deliv1 d L t1 (t3of 2) fo (rowSum d L 1 2 f g), deliv1 d L t1 (t3of 3) fo (rowSum d L 1 3 f g), deliv1 d L t1 (t3of 4) fo (rowSum d L 1 4 f g), deliv1 d L t1 (t3of 5) fo (rowSum d L 1 5 f g)] 0 (by simp) (Nat.zero_le _)) $$ [Hr6 Hpos Ho6 HB HO]
    isplitr; · iexact Hmw
    isplitl [Hr6]; · iexact Hr6
    isplitl [Hpos]; · iexact Hpos
    isplitl [Ho6]; · iexact Ho6
    isplitl [HB]; · iexact HB
    iexact HO
  iintro %_ ⟨Hpos, HB, HO⟩
  -- row 7
  rw [wp_bind]
  iapply (wp_wand_r frame _ Set.univ)
  isplitl [Hr7 Hpos Ho7 HB HO]
  · iapply (h t1 (t3of 7) v29 v30 a10 O _ f g fo [deliv1 d L t1 (t3of 0) fo (rowSum d L 1 0 f g), deliv1 d L t1 (t3of 1) fo (rowSum d L 1 1 f g), deliv1 d L t1 (t3of 2) fo (rowSum d L 1 2 f g), deliv1 d L t1 (t3of 3) fo (rowSum d L 1 3 f g), deliv1 d L t1 (t3of 4) fo (rowSum d L 1 4 f g), deliv1 d L t1 (t3of 5) fo (rowSum d L 1 5 f g), deliv1 d L t1 (t3of 6) fo (rowSum d L 1 6 f g)] 0 (by simp) (Nat.zero_le _)) $$ [Hr7 Hpos Ho7 HB HO]
    isplitr; · iexact Hmw
    isplitl [Hr7]; · iexact Hr7
    isplitl [Hpos]; · iexact Hpos
    isplitl [Ho7]; · iexact Ho7
    isplitl [HB]; · iexact HB
    iexact HO
  iintro %_ ⟨Hpos, HB, HO⟩
  rw [wp_ret]; imodintro
  isplitl [Hpos]; · iexact Hpos
  isplitl [HB]; · iexact HB
  iexact HO

end Cert.KernelIdeal.Hand

end
-- ==== Proof.BodyUtilI.lean ====
/-
  Small facts the worker's body uses between the stretches of its run.

  A product of resources over a finite set gives up one factor and takes it back; and a set of recorded waits grown
  by waits at the index "none" still consists of the old waits and waits at that index.
-/
import proofs.«204390_g6468220748199_cont_9to1_m_1136_17_alg».proof.Proof.BodyOpenI

noncomputable section

namespace Cert.KernelIdeal.Hand

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- One factor out of a product. -/
theorem bigSep_take {I : Type} [DecidableEq I] {s : Finset I} {a : I} (h : a ∈ s) (Φ : I → sProp 𝕄) :
    bigSep s Φ ⊢ iprop(Φ a ∗ bigSep (s.erase a) Φ) :=
  Entails.of_eq (SparseCore.bigSep_erase' h)

/-- One factor into a product. -/
theorem bigSep_put {I : Type} [DecidableEq I] {s : Finset I} {a : I} (h : a ∉ s) (Φ : I → sProp 𝕄) :
    iprop(Φ a ∗ bigSep s Φ) ⊢ bigSep (insert a s) Φ :=
  Entails.of_eq (SparseCore.bigSep_insert' h).symm

/-- Eight resources, each at some contents: the contents forgotten. -/
theorem ex8 {α : Type} (Φ0 Φ1 Φ2 Φ3 Φ4 Φ5 Φ6 Φ7 : α → sProp 𝕄) (f0 f1 f2 f3 f4 f5 f6 f7 : α) :
    iprop(Φ0 f0 ∗ Φ1 f1 ∗ Φ2 f2 ∗ Φ3 f3 ∗ Φ4 f4 ∗ Φ5 f5 ∗ Φ6 f6 ∗ Φ7 f7)
      ⊢ iprop((∃ f, Φ0 f) ∗ (∃ f, Φ1 f) ∗ (∃ f, Φ2 f) ∗ (∃ f, Φ3 f) ∗ (∃ f, Φ4 f) ∗ (∃ f, Φ5 f) ∗ (∃ f, Φ6 f) ∗ (∃ f, Φ7 f)) := by
  iintro ⟨H0, H1, H2, H3, H4, H5, H6, H7⟩
  isplitl [H0]; · iexists f0; iexact H0
  isplitl [H1]; · iexists f1; iexact H1
  isplitl [H2]; · iexists f2; iexact H2
  isplitl [H3]; · iexists f3; iexact H3
  isplitl [H4]; · iexists f4; iexact H4
  isplitl [H5]; · iexists f5; iexact H5
  isplitl [H6]; · iexists f6; iexact H6
  iexists f7; iexact H7

/-- The waits a worker records are all at the index "none": adding one keeps "old, or at none". -/
theorem waits_insert {W W' : Waits sig (HIx 1)} (sm : SemLoc sig)
    (h : ∀ p ∈ W', p ∈ W ∨ p.2 = none) : ∀ p ∈ insert (sm, (default : HIx 1)) W', p ∈ W ∨ p.2 = none := by
  intro p hp
  rcases Finset.mem_insert.mp hp with rfl | hp
  · exact .inr rfl
  · exact h p hp

theorem waits_refl (W : Waits sig (HIx 1)) : ∀ p ∈ W, p ∈ W ∨ p.2 = none := fun _ hp => .inl hp

end Cert.KernelIdeal.Hand

end
-- ==== Proof.BodyUtilVI.lean ====
/-
  Eight resources held as one.
-/
import proofs.«204390_g6468220748199_cont_9to1_m_1136_17_alg».proof.Proof.BodyUtilI

noncomputable section

namespace Cert.KernelIdeal.Hand

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

theorem pack8 (P0 P1 P2 P3 P4 P5 P6 P7 : sProp 𝕄) :
    iprop(P0 ∗ P1 ∗ P2 ∗ P3 ∗ P4 ∗ P5 ∗ P6 ∗ P7) ⊢ iprop(P0 ∗ P1 ∗ P2 ∗ P3 ∗ P4 ∗ P5 ∗ P6 ∗ P7) := .rfl

/-- "Old waits, or waits at the index none" composes. -/
theorem waits_trans {W W0 W1 : Waits sig (HIx 1)} (h1 : ∀ p ∈ W1, p ∈ W0 ∨ p.2 = none) (h0 : ∀ p ∈ W0, p ∈ W ∨ p.2 = none) :
    ∀ p ∈ W1, p ∈ W ∨ p.2 = none := fun p hp => (h1 p hp).elim (h0 p) .inr

/-- Contents that agree on the elements held may be exchanged. -/
theorem congr_of {ℓ : Loc nD τ sig} {I : Finset (Idx ℓ)} {q : PosShare TreeShare} {f g : Buf (Elt F) ℓ}
    (h : ∀ i ∈ I, f i = g i) : (ℓ ↦[I]{q} f : sProp 𝕄) ⊢ ℓ ↦[I]{q} g :=
  Entails.of_eq (pointsTo_congr h)

end Cert.KernelIdeal.Hand

end
-- ==== Proof.ValueBlocksI.lean ====
/-
  What a landed copy reads as, element by element.

  Every copy of the kernel moves a rectangle of one array onto a rectangle of another, both named by slices whose
  offsets are the closed forms of the worker's chains. Written at explicit coordinates: a block of the patches lands in
  a staging slot with entry (k, r, col) of the slot holding the patch of batch row 16 g + 8 bh + k at sequence row
  72 j + 8 t1 + r; the chunk's position rows land with row r holding table row 72 j + 8 t1 + r; an output row copy
  puts entry (k, col) of a slot's position row at output entry (72 j + 8 t1 + t, 16 g (+ 8) + k, col). Put together
  with the sum the row loop forms in the slot, a landed output row holds, on its own entries, the entries of the
  positions-first result; and the class-token row likewise.
-/
import proofs.«204390_g6468220748199_cont_9to1_m_1136_17_alg».proof.Proof.SetupI
import proofs.«204390_g6468220748199_cont_9to1_m_1136_17_alg».proof.Proof.BodyOpenI
import proofs.«204390_g6468220748199_cont_9to1_m_1136_17_alg».proof.Proof.OffsetsI
import proofs.«204390_g6468220748199_cont_9to1_m_1136_17_alg».proof.Proof.SlotGeomI
import proofs.«204390_g6468220748199_cont_9to1_m_1136_17_alg».proof.Proof.TileCoverI
import proofs.«204390_g6468220748199_cont_9to1_m_1136_17_alg».proof.Proof.Spec
import Idealize.ShloMosaic.Lib.Writes
import Idealize.ShloMosaic.Lib.ValueLayout
import Idealize.ShloMosaic.Lib.ValueIdx

noncomputable section

namespace Cert.KernelIdeal.Hand

open Cert.KernelIdeal Cert.KernelIdeal.Gen
open Idealize.ShloMosaic Idealize.ShloMosaic.ValueIdx
open Idealize.ShloMosaic.SparseCore (S V T)

variable {F : FTy → Type} [FloatOps F]

/-! ## The rows a worker touches are rows of the arrays -/

theorem seq_lt (L : grid0.Coords) (t1 : Fin k0_t1_loop.trips) (r : Fin 8) :
    72 * (wid L % 8) + 8 * t1.val + r.val < 576 := by
  have := wid_lt L; have := t1_lt t1; have := r.isLt; omega

theorem seq_lt577 (L : grid0.Coords) (t1 : Fin k0_t1_loop.trips) (r : Fin 8) :
    72 * (wid L % 8) + 8 * t1.val + r.val < 577 := Nat.lt_succ_of_lt (seq_lt L t1 r)

theorem bat_lt (L : grid0.Coords) (bh : Fin 2) (k : Fin 8) : 16 * (wid L / 8) + 8 * bh.val + k.val < 64 := by
  have := wid_lt L; have := bh.isLt; have := k.isLt; omega

/-! ## Where a window's entries sit in its array -/

/-- An index `(x, y)` matched with shape `[1, a, 1, b]` is `(0, x, 0, y)`. -/
theorem reshapeEquiv_ix2_1a1b {a b : ℕ} (h : (⟨2, ![a, b]⟩ : Shape).numel = (⟨4, ![1, a, 1, b]⟩ : Shape).numel)
    (x : Fin a) (y : Fin b) :
    Shape.reshapeEquiv h (ix2 x y) = ix4 (⟨0, Nat.one_pos⟩ : Fin 1) x (⟨0, Nat.one_pos⟩ : Fin 1) y :=
  Shape.reshapeEquiv_eq_of_rowMajor h (by
    rw [Shape.rowMajor_val_four, Shape.rowMajor_val_two]
    show (((0 * a + x.val) * 1 + 0) * b + y.val) = x.val * b + y.val
    simp only [Nat.zero_mul, Nat.zero_add, Nat.mul_one, Nat.add_zero])

/-- Entry `(k, r, col)` of slot `pb` is entry `(pb, k, r, col)` of the staging buffer. -/
theorem emb_slotWin (pb : Nat) (hpb : pb < 2) (k r : Fin 8) (col : Fin 768) :
    (slotWin pb hpb).view.emb (ix3 k r col) = (ix4 (⟨pb, hpb⟩ : Fin 2) k r col : S2x8x8x768.Idx) := by
  show (Rect.unit (s := S2x8x8x768) ![pb, 0, 0, 0] S1x8x8x768.size (slot_inb pb hpb)).emb
    (Shape.reshapeEquiv squeezes_S1x8x8x768_S8x8x768.numel_eq (ix3 k r col)) = _
  rw [reshapeEquiv_ix3_1abc]
  funext a
  apply Fin.ext
  match a with
  | ⟨0, _⟩ => show pb + 1 * 0 = pb; omega
  | ⟨1, _⟩ => show 0 + 1 * k.val = k.val; omega
  | ⟨2, _⟩ => show 0 + 1 * r.val = r.val; omega
  | ⟨3, _⟩ => show 0 + 1 * col.val = col.val; omega

/-- Entry `(k, col)` of position row `r` of slot `pb` is entry `(pb, k, r, col)` of the staging buffer. -/
theorem emb_rowWin (pb : Nat) (hpb : pb < 2) (r : Fin 8) (k : Fin 8) (col : Fin 768) :
    (rowWin pb r hpb).view.emb (ix2 k col) = (ix4 (⟨pb, hpb⟩ : Fin 2) k r col : S2x8x8x768.Idx) := by
  show (Rect.unit (s := S2x8x8x768) ![pb, 0, r.val, 0] S1x8x1x768.size (row_inb pb hpb r)).emb
    (Shape.reshapeEquiv squeezes_S1x8x1x768_S8x768.numel_eq (ix2 k col)) = _
  rw [reshapeEquiv_ix2_1a1b]
  funext a
  apply Fin.ext
  match a with
  | ⟨0, _⟩ => show pb + 1 * 0 = pb; omega
  | ⟨1, _⟩ => show 0 + 1 * k.val = k.val; omega
  | ⟨2, _⟩ => show r.val + 1 * 0 = r.val; omega
  | ⟨3, _⟩ => show 0 + 1 * col.val = col.val; omega

/-- A block of the patches sliced at offsets `(o0, o1, 0)`: entry `(k, r, col)` is patch entry `(o0 + k, o1 + r, col)`. -/
theorem emb_xBlock {off : Fin S64x576x768.rank → Nat} {inb : ∀ a, off a + S8x8x768.size a ≤ S64x576x768.size a}
    {o0 o1 : ℕ} (ho : off = ![o0, o1, 0]) (k r : Fin 8) (col : Fin 768) (h0 : o0 + k.val < 64) (h1 : o1 + r.val < 576) :
    (xV.slice (Rect.unit (s := S64x576x768) off S8x8x768.size inb) (fun _ => rfl)).view.emb (ix3 k r col)
      = (ix3 (⟨o0 + k.val, h0⟩ : Fin 64) (⟨o1 + r.val, h1⟩ : Fin 576) col : S64x576x768.Idx) := by
  subst ho
  funext a
  apply Fin.ext
  match a with
  | ⟨0, _⟩ => show o0 + 1 * k.val = o0 + k.val; omega
  | ⟨1, _⟩ => show o1 + 1 * r.val = o1 + r.val; omega
  | ⟨2, _⟩ => show 0 + 1 * col.val = col.val; omega

/-- Eight rows of the position table sliced at offsets `(o0, 0)`: entry `(r, col)` is table entry `(o0 + r, col)`. -/
theorem emb_pRows {off : Fin S577x768.rank → Nat} {inb : ∀ a, off a + S8x768.size a ≤ S577x768.size a}
    {o0 : ℕ} (ho : off = ![o0, 0]) (r : Fin 8) (col : Fin 768) (h0 : o0 + r.val < 577) :
    (pV.slice (Rect.unit (s := S577x768) off S8x768.size inb) (fun _ => rfl)).view.emb (ix2 r col)
      = (ix2 (⟨o0 + r.val, h0⟩ : Fin 577) col : S577x768.Idx) := by
  subst ho
  funext a
  apply Fin.ext
  match a with
  | ⟨0, _⟩ => show o0 + 1 * r.val = o0 + r.val; omega
  | ⟨1, _⟩ => show 0 + 1 * col.val = col.val; omega

/-- A piece of the output sliced at offsets `(o0, o1, 0)` with its unit axis dropped: entry `(k, col)` is output
    entry `(o0, o1 + k, col)`. -/
theorem emb_oPiece {off : Fin S577x64x768.rank → Nat} {inb : ∀ a, off a + S1x8x768.size a ≤ S577x64x768.size a}
    {o0 o1 : ℕ} (ho : off = ![o0, o1, 0]) (k : Fin 8) (col : Fin 768) (h0 : o0 < 577) (h1 : o1 + k.val < 64) :
    ((oV.slice (Rect.unit (s := S577x64x768) off S1x8x768.size inb) (fun _ => rfl)).squeeze S8x768
        squeezes_S1x8x768_S8x768).view.emb (ix2 k col)
      = (ix3 (⟨o0, h0⟩ : Fin 577) (⟨o1 + k.val, h1⟩ : Fin 64) col : S577x64x768.Idx) := by
  subst ho
  show (Rect.unit (s := S577x64x768) ![o0, o1, 0] S1x8x768.size inb).emb
    (Shape.reshapeEquiv squeezes_S1x8x768_S8x768.numel_eq (ix2 k col)) = _
  rw [reshapeEquiv_ix2_1ab]
  funext a
  apply Fin.ext
  match a with
  | ⟨0, _⟩ => show o0 + 1 * 0 = o0; omega
  | ⟨1, _⟩ => show o1 + 1 * k.val = o1 + k.val; omega
  | ⟨2, _⟩ => show 0 + 1 * col.val = col.val; omega

/-! ## Coordinates rewritten -/

theorem ix2_congr {n0 n1 : ℕ} {a a' : Fin n0} {b b' : Fin n1} (ha : a.val = a'.val) (hb : b.val = b'.val) :
    ix2 a b = ix2 a' b' := by rw [Fin.ext ha, Fin.ext hb]

theorem ix3_congr {n0 n1 n2 : ℕ} {a a' : Fin n0} {b b' : Fin n1} {c c' : Fin n2} (ha : a.val = a'.val)
    (hb : b.val = b'.val) (hc : c.val = c'.val) : ix3 a b c = ix3 a' b' c' := by
  rw [Fin.ext ha, Fin.ext hb, Fin.ext hc]

/-- The whole rectangle of a shape puts every index where it is. -/
theorem whole_emb (s : Shape) (x : s.Idx) : (Rect.whole s).emb x = x := by
  funext a
  apply Fin.ext
  show 0 + 1 * (x a).val = (x a).val
  omega

/-! ## Landings, with the payload a variable -/

/-- A block landed in slot `pb`: entry `(pb, k, r, col)` of the staging buffer holds entry `(k, r, col)` of the payload,
    whatever the buffer held. -/
theorem slot_lands (pb : Nat) (hpb : pb < 2) (f0 : (slotWin pb hpb).view.ty.Contents (Elt F))
    (w : S8x8x768.Idx → Elt F .f32) (k r : Fin 8) (col : Fin 768) :
    (slotWin pb hpb).view.writes (Elt F) f0 [⟨Rect.whole S8x8x768, w⟩] (ix4 (⟨pb, hpb⟩ : Fin 2) k r col)
      = w (ix3 k r col) := by
  have h := View.read_writes_cons_emb (slotWin pb hpb).view f0 (Rect.whole S8x8x768) w [] (ix3 k r col)
  rw [View.read_apply, whole_emb, emb_slotWin] at h
  exact (cast_eq _ _).symm.trans h

/-- The position rows landed in their buffer, held whole: it holds the payload. -/
theorem pos_lands (f0 : (posV : Memref sig .scVector .vmem S8x768 .f32).view.ty.Contents (Elt F))
    (w : S8x768.Idx → Elt F .f32) (r : Fin 8) (col : Fin 768) :
    View.write (Elt F) (posV : Memref sig .scVector .vmem S8x768 .f32).view f0 w Finset.univ (ix2 r col) = w (ix2 r col) := by
  show (View.whole (cc0_scratch0 : Ref sig .scVector)).write (Elt F) f0 w Finset.univ (ix2 r col) = _
  rw [View.write_whole_univ]

/-- An output piece landed: output entry `(o0, o1 + k, col)` holds entry `(k, col)` of the payload. -/
theorem oPiece_lands {off : Fin S577x64x768.rank → Nat} {inb : ∀ a, off a + S1x8x768.size a ≤ S577x64x768.size a}
    {o0 o1 : ℕ} (ho : off = ![o0, o1, 0])
    (fo : ((oV.slice (Rect.unit (s := S577x64x768) off S1x8x768.size inb) (fun _ => rfl)).squeeze S8x768
      squeezes_S1x8x768_S8x768).view.ty.Contents (Elt F))
    (w : S8x768.Idx → Elt F .f32) (k : Fin 8) (col : Fin 768) (h0 : o0 < 577) (h1 : o1 + k.val < 64) :
    ((oV.slice (Rect.unit (s := S577x64x768) off S1x8x768.size inb) (fun _ => rfl)).squeeze S8x768
        squeezes_S1x8x768_S8x768).view.write (Elt F) fo w Finset.univ
        (ix3 (⟨o0, h0⟩ : Fin 577) (⟨o1 + k.val, h1⟩ : Fin 64) col)
      = w (ix2 k col) := by
  rw [← emb_oPiece ho k col h0 h1]
  first
    | exact View.write_emb_of_mem fo w (Finset.mem_univ _)
    | exact (View.write_emb_of_mem fo w (Finset.mem_univ _)).trans (cast_eq _ _)

/-- Off its own entries a landed piece changes nothing. -/
theorem write_off_piece {s : Shape} (mr : Memref sig .scVector .hbm s .f32) (fo : mr.view.ty.Contents (Elt F))
    (w : s.Idx → Elt F .f32) (i : mr.view.ty.Idx) (hi : i ∉ mr.view.set) :
    mr.view.write (Elt F) fo w Finset.univ i = fo i :=
  View.write_of_not_mem fo w Finset.univ hi

/-! ## Sources read at coordinates -/

/-- A block of the patches, read: entry `(k, r, col)` is the patch at `(o0 + k, o1 + r, col)`. -/
theorem xBlock_read {off : Fin S64x576x768.rank → Nat} {inb : ∀ a, off a + S8x8x768.size a ≤ S64x576x768.size a}
    {o0 o1 : ℕ} (ho : off = ![o0, o1, 0])
    (fsrc : (xV.slice (Rect.unit (s := S64x576x768) off S8x8x768.size inb) (fun _ => rfl)).view.ty.Contents (Elt F))
    (k r : Fin 8) (col : Fin 768) (h0 : o0 + k.val < 64) (h1 : o1 + r.val < 576) :
    ReadAs.same.apply ((xV.slice (Rect.unit (s := S64x576x768) off S8x8x768.size inb) (fun _ => rfl)).view.read (Elt F) fsrc)
        (ix3 k r col)
      = fsrc (ix3 (⟨o0 + k.val, h0⟩ : Fin 64) (⟨o1 + r.val, h1⟩ : Fin 576) col) := by
  show (xV.slice (Rect.unit (s := S64x576x768) off S8x8x768.size inb) (fun _ => rfl)).view.read (Elt F) fsrc (ix3 k r col) = _
  rw [View.read_apply, emb_xBlock ho k r col h0 h1]
  first
    | rfl
    | exact cast_eq _ _

/-- Eight rows of the position table, read: entry `(r, col)` is table entry `(o0 + r, col)`. -/
theorem pRows_read {off : Fin S577x768.rank → Nat} {inb : ∀ a, off a + S8x768.size a ≤ S577x768.size a}
    {o0 : ℕ} (ho : off = ![o0, 0])
    (fsrc : (pV.slice (Rect.unit (s := S577x768) off S8x768.size inb) (fun _ => rfl)).view.ty.Contents (Elt F))
    (r : Fin 8) (col : Fin 768) (h0 : o0 + r.val < 577) :
    ReadAs.same.apply ((pV.slice (Rect.unit (s := S577x768) off S8x768.size inb) (fun _ => rfl)).view.read (Elt F) fsrc)
        (ix2 r col)
      = fsrc (ix2 (⟨o0 + r.val, h0⟩ : Fin 577) col) := by
  show (pV.slice (Rect.unit (s := S577x768) off S8x768.size inb) (fun _ => rfl)).view.read (Elt F) fsrc (ix2 r col) = _
  rw [View.read_apply, emb_pRows ho r col h0]
  first
    | rfl
    | exact cast_eq _ _

/-- A position row of a slot, read: entry `(k, col)` is staging entry `(pb, k, r, col)`. -/
theorem rowWin_read (pb : Nat) (hpb : pb < 2) (r : Fin 8) (fs : (rowWin pb r hpb).view.ty.Contents (Elt F))
    (k : Fin 8) (col : Fin 768) :
    ReadAs.same.apply ((rowWin pb r hpb).view.read (Elt F) fs) (ix2 k col) = fs (ix4 (⟨pb, hpb⟩ : Fin 2) k r col) := by
  show (rowWin pb r hpb).view.read (Elt F) fs (ix2 k col) = _
  rw [View.read_apply, emb_rowWin]
  first
    | rfl
    | exact cast_eq _ _

/-! ## 1. A block of the patches landing in a slot, one statement per spelling of the source -/

theorem bat0_lt (L : grid0.Coords) (k : Fin 8) : 16 * (wid L / 8) + k.val < 64 := by
  have := wid_lt L; have := k.isLt; omega
theorem seq0_lt (L : grid0.Coords) (r : Fin 8) : 72 * (wid L % 8) + r.val < 576 := by
  have := wid_lt L; have := r.isLt; omega

/-- Where the next chunk's first block is fetched, the next chunk exists. -/
theorem seq_next_lt (L : grid0.Coords) (t1 : Fin k0_t1_loop.trips) (h9 : k0_cond9 t1 = 1#1) (r : Fin 8) :
    72 * (wid L % 8) + 8 * (t1.val + 1) + r.val < 576 := by
  have h := k0_off447_inb L t1 h9 1
  rw [k0_off447_eq] at h
  have h' : 72 * (wid L % 8) + 8 * (t1.val + 1) + 8 ≤ 576 := h
  have := r.isLt
  omega

/-- The first block of the first chunk. -/
theorem firstBlock_lands (L : grid0.Coords) (pb : Nat) (hpb : pb < 2) (f0 : (slotWin pb hpb).view.ty.Contents (Elt F))
    (fsrc : (xV.slice (Rect.unit (s := S64x576x768) (k0_off1 L) S8x8x768.size (k0_off1_inb L)) (fun _ => rfl)).view.ty.Contents (Elt F)) (k r : Fin 8) (col : Fin 768) :
    (slotWin pb hpb).view.writes (Elt F) f0 [⟨Rect.whole S8x8x768, ReadAs.same.apply ((xV.slice (Rect.unit (s := S64x576x768) (k0_off1 L) S8x8x768.size (k0_off1_inb L)) (fun _ => rfl)).view.read (Elt F) fsrc)⟩] (ix4 (⟨pb, hpb⟩ : Fin 2) k r col)
      = fsrc (ix3 (⟨16 * (wid L / 8) + k.val, bat0_lt L k⟩ : Fin 64) (⟨72 * (wid L % 8) + r.val, seq0_lt L r⟩ : Fin 576) col) := by
  rw [slot_lands]
  exact xBlock_read (k0_off1_eq L) fsrc k r col _ _

/-- Block `bh` of chunk `t1`. -/
theorem block_lands (L : grid0.Coords) (t1 : Fin k0_t1_loop.trips) (bh : Fin 2) (pb : Nat) (hpb : pb < 2)
    (f0 : (slotWin pb hpb).view.ty.Contents (Elt F))
    (fsrc : (xV.slice (Rect.unit (s := S64x576x768) (k0_off3 L t1 (BitVec.ofNat 32 (8 * bh.val))) S8x8x768.size (k0_off3_inb L t1 bh)) (fun _ => rfl)).view.ty.Contents (Elt F))
    (k r : Fin 8) (col : Fin 768) :
    (slotWin pb hpb).view.writes (Elt F) f0 [⟨Rect.whole S8x8x768, ReadAs.same.apply ((xV.slice (Rect.unit (s := S64x576x768) (k0_off3 L t1 (BitVec.ofNat 32 (8 * bh.val))) S8x8x768.size (k0_off3_inb L t1 bh)) (fun _ => rfl)).view.read (Elt F) fsrc)⟩] (ix4 (⟨pb, hpb⟩ : Fin 2) k r col)
      = fsrc (ix3 (⟨16 * (wid L / 8) + 8 * bh.val + k.val, bat_lt L bh k⟩ : Fin 64)
          (⟨72 * (wid L % 8) + 8 * t1.val + r.val, seq_lt L t1 r⟩ : Fin 576) col) := by
  rw [slot_lands]
  exact xBlock_read (k0_off3_eq L t1 bh) fsrc k r col _ _

/-- The same in the two printed spellings of the block's word. -/
theorem block0_lands (L : grid0.Coords) (t1 : Fin k0_t1_loop.trips) (pb : Nat) (hpb : pb < 2)
    (f0 : (slotWin pb hpb).view.ty.Contents (Elt F))
    (fsrc : (xV.slice (Rect.unit (s := S64x576x768) (k0_off3 L t1 0#32) S8x8x768.size (k0_off3_inb L t1 0)) (fun _ => rfl)).view.ty.Contents (Elt F)) (k r : Fin 8) (col : Fin 768) :
    (slotWin pb hpb).view.writes (Elt F) f0 [⟨Rect.whole S8x8x768, ReadAs.same.apply ((xV.slice (Rect.unit (s := S64x576x768) (k0_off3 L t1 0#32) S8x8x768.size (k0_off3_inb L t1 0)) (fun _ => rfl)).view.read (Elt F) fsrc)⟩] (ix4 (⟨pb, hpb⟩ : Fin 2) k r col)
      = fsrc (ix3 (⟨16 * (wid L / 8) + 8 * (0 : Fin 2).val + k.val, bat_lt L 0 k⟩ : Fin 64)
          (⟨72 * (wid L % 8) + 8 * t1.val + r.val, seq_lt L t1 r⟩ : Fin 576) col) :=
  block_lands L t1 0 pb hpb f0 fsrc k r col

theorem block1_lands (L : grid0.Coords) (t1 : Fin k0_t1_loop.trips) (pb : Nat) (hpb : pb < 2)
    (f0 : (slotWin pb hpb).view.ty.Contents (Elt F))
    (fsrc : (xV.slice (Rect.unit (s := S64x576x768) (k0_off3 L t1 8#32) S8x8x768.size (k0_off3_inb L t1 1)) (fun _ => rfl)).view.ty.Contents (Elt F)) (k r : Fin 8) (col : Fin 768) :
    (slotWin pb hpb).view.writes (Elt F) f0 [⟨Rect.whole S8x8x768, ReadAs.same.apply ((xV.slice (Rect.unit (s := S64x576x768) (k0_off3 L t1 8#32) S8x8x768.size (k0_off3_inb L t1 1)) (fun _ => rfl)).view.read (Elt F) fsrc)⟩] (ix4 (⟨pb, hpb⟩ : Fin 2) k r col)
      = fsrc (ix3 (⟨16 * (wid L / 8) + 8 * (1 : Fin 2).val + k.val, bat_lt L 1 k⟩ : Fin 64)
          (⟨72 * (wid L % 8) + 8 * t1.val + r.val, seq_lt L t1 r⟩ : Fin 576) col) :=
  block_lands L t1 1 pb hpb f0 fsrc k r col

/-- The first block of chunk `t1 + 1`, fetched ahead. -/
theorem nextBlock_lands (L : grid0.Coords) (t1 : Fin k0_t1_loop.trips) (h9 : k0_cond9 t1 = 1#1) (pb : Nat) (hpb : pb < 2)
    (f0 : (slotWin pb hpb).view.ty.Contents (Elt F))
    (fsrc : (xV.slice (Rect.unit (s := S64x576x768) (k0_off447 L t1) S8x8x768.size (k0_off447_inb L t1 h9)) (fun _ => rfl)).view.ty.Contents (Elt F)) (k r : Fin 8) (col : Fin 768) :
    (slotWin pb hpb).view.writes (Elt F) f0 [⟨Rect.whole S8x8x768, ReadAs.same.apply ((xV.slice (Rect.unit (s := S64x576x768) (k0_off447 L t1) S8x8x768.size (k0_off447_inb L t1 h9)) (fun _ => rfl)).view.read (Elt F) fsrc)⟩] (ix4 (⟨pb, hpb⟩ : Fin 2) k r col)
      = fsrc (ix3 (⟨16 * (wid L / 8) + k.val, bat0_lt L k⟩ : Fin 64)
          (⟨72 * (wid L % 8) + 8 * (t1.val + 1) + r.val, seq_next_lt L t1 h9 r⟩ : Fin 576) col) := by
  rw [slot_lands]
  exact xBlock_read (k0_off447_eq L t1) fsrc k r col _ _

/-! ## 2. The chunk's position rows landing -/

theorem posRows_land (L : grid0.Coords) (t1 : Fin k0_t1_loop.trips)
    (f0 : (posV : Memref sig .scVector .vmem S8x768 .f32).view.ty.Contents (Elt F))
    (fsrc : (pV.slice (Rect.unit (s := S577x768) (k0_off2 L t1) S8x768.size (k0_off2_inb L t1)) (fun _ => rfl)).view.ty.Contents (Elt F)) (r : Fin 8) (col : Fin 768) :
    View.write (Elt F) (posV : Memref sig .scVector .vmem S8x768 .f32).view f0
        (ReadAs.same.apply ((pV.slice (Rect.unit (s := S577x768) (k0_off2 L t1) S8x768.size (k0_off2_inb L t1)) (fun _ => rfl)).view.read (Elt F) fsrc)) Finset.univ (ix2 r col)
      = fsrc (ix2 (⟨72 * (wid L % 8) + 8 * t1.val + r.val, seq_lt577 L t1 r⟩ : Fin 577) col) := by
  rw [pos_lands]
  exact pRows_read (k0_off2_eq L t1) fsrc r col _

/-! ## 3. An output row landing -/

/-- A trip of a row loop as a row of a slot. -/
abbrev r2 (t2 : Fin k0_t2_loop.trips) : Fin 8 := ⟨t2.val, t2_lt t2⟩
abbrev r3 (t3 : Fin k0_t3_loop.trips) : Fin 8 := ⟨t3.val, t3_lt t3⟩

theorem bat8_lt (L : grid0.Coords) (k : Fin 8) : 16 * (wid L / 8) + 8 + k.val < 64 := by
  have := wid_lt L; have := k.isLt; omega

theorem outRow0_lands (L : grid0.Coords) (t1 : Fin k0_t1_loop.trips) (t2 : Fin k0_t2_loop.trips)
    (fo : (outRow0 L t1 t2).view.ty.Contents (Elt F))
    (fs : (rowWin 0 (r2 t2) Nat.zero_lt_two).view.ty.Contents (Elt F)) (k : Fin 8) (col : Fin 768) :
    (outRow0 L t1 t2).view.write (Elt F) fo
        (ReadAs.same.apply ((rowWin 0 (r2 t2) Nat.zero_lt_two).view.read (Elt F) fs)) Finset.univ
        (ix3 (⟨72 * (wid L % 8) + 8 * t1.val + t2.val, seq_lt577 L t1 (r2 t2)⟩ : Fin 577)
          (⟨16 * (wid L / 8) + k.val, bat0_lt L k⟩ : Fin 64) col)
      = fs (ix4 (⟨0, Nat.zero_lt_two⟩ : Fin 2) k (r2 t2) col) :=
  (oPiece_lands (k0_off445_eq L t1 t2) fo _ k col _ _).trans (rowWin_read 0 Nat.zero_lt_two (r2 t2) fs k col)

theorem outRow1_lands (L : grid0.Coords) (t1 : Fin k0_t1_loop.trips) (t3 : Fin k0_t3_loop.trips)
    (fo : (outRow1 L t1 t3).view.ty.Contents (Elt F))
    (fs : (rowWin 1 (r3 t3) Nat.one_lt_two).view.ty.Contents (Elt F)) (k : Fin 8) (col : Fin 768) :
    (outRow1 L t1 t3).view.write (Elt F) fo
        (ReadAs.same.apply ((rowWin 1 (r3 t3) Nat.one_lt_two).view.read (Elt F) fs)) Finset.univ
        (ix3 (⟨72 * (wid L % 8) + 8 * t1.val + t3.val, seq_lt577 L t1 (r3 t3)⟩ : Fin 577)
          (⟨16 * (wid L / 8) + 8 + k.val, bat8_lt L k⟩ : Fin 64) col)
      = fs (ix4 (⟨1, Nat.one_lt_two⟩ : Fin 2) k (r3 t3) col) :=
  (oPiece_lands (k0_off881_eq L t1 t3) fo _ k col _ _).trans (rowWin_read 1 Nat.one_lt_two (r3 t3) fs k col)

/-- Off the piece the landed row leaves the output as it was. -/
theorem outRow0_off (L : grid0.Coords) (t1 : Fin k0_t1_loop.trips) (t2 : Fin k0_t2_loop.trips)
    (fo : (outRow0 L t1 t2).view.ty.Contents (Elt F)) (w : S8x768.Idx → Elt F .f32) (i : S577x64x768.Idx)
    (hi : i ∉ (outRow0 L t1 t2).view.set) : (outRow0 L t1 t2).view.write (Elt F) fo w Finset.univ i = fo i :=
  View.write_of_not_mem fo w Finset.univ hi
theorem outRow1_off (L : grid0.Coords) (t1 : Fin k0_t1_loop.trips) (t3 : Fin k0_t3_loop.trips)
    (fo : (outRow1 L t1 t3).view.ty.Contents (Elt F)) (w : S8x768.Idx → Elt F .f32) (i : S577x64x768.Idx)
    (hi : i ∉ (outRow1 L t1 t3).view.set) : (outRow1 L t1 t3).view.write (Elt F) fo w Finset.univ i = fo i :=
  View.write_of_not_mem fo w Finset.univ hi

/-! ## 4. The sum the row loop forms, and a landed output row against the specification -/

section Value

variable (m : (ℓ : Loc nD τ sig) → Buf (Elt F) ℓ) (d : Dev nD) (L : grid0.Coords)

/-- Slot `pb` after the row loop has added, on position row `r`, the position's table row to each of the eight
    batch rows: on that row of that slot the staging buffer holds the sum, elsewhere what it held. -/
def rowSum' (pb : ℕ) (r : Fin 8) (f : Buf (Elt F) ((thr d L).loc cc0_scratch1))
    (g : Buf (Elt F) ((thr d L).loc cc0_scratch0)) : Buf (Elt F) ((thr d L).loc cc0_scratch1) :=
  fun (i : S2x8x8x768.Idx) =>
    if (i 0).val = pb ∧ (i 2).val = r.val then
      FloatOps.addf (f i) (g (ix2 (⟨(i 2).val, (i 2).isLt⟩ : Fin 8) (i 3)))
    else f i

theorem rowSum'_apply (pb : ℕ) (hpb : pb < 2) (r k : Fin 8) (col : Fin 768)
    (f : Buf (Elt F) ((thr d L).loc cc0_scratch1)) (g : Buf (Elt F) ((thr d L).loc cc0_scratch0)) :
    rowSum' d L pb r f g (ix4 (⟨pb, hpb⟩ : Fin 2) k r col)
      = FloatOps.addf (f (ix4 (⟨pb, hpb⟩ : Fin 2) k r col)) (g (ix2 r col)) := by
  unfold rowSum'
  exact if_pos ⟨rfl, rfl⟩

/-- The entries of an output piece sliced at offsets `(o0, o1, 0)`. -/
theorem mem_oPiece_set {off : Fin S577x64x768.rank → Nat} {inb : ∀ a, off a + S1x8x768.size a ≤ S577x64x768.size a}
    {o0 o1 : ℕ} (ho : off = ![o0, o1, 0]) (i : S577x64x768.Idx) :
    i ∈ ((oV.slice (Rect.unit (s := S577x64x768) off S1x8x768.size inb) (fun _ => rfl)).squeeze S8x768 squeezes_S1x8x768_S8x768).view.set ↔ i ∈ slab o0 o1 := by
  show i ∈ (((View.whole (main_v0_scv : Ref sig .scVector)).slice
      (Rect.unit (s := S577x64x768) off S1x8x768.size inb)).reshape S8x768 squeezes_S1x8x768_S8x768.numel_eq).set ↔ _
  rw [View.set_reshape, View.set_slice_whole]
  exact mem_unit_slab ho i

/-- A landed output row at explicit coordinates: if slot `pb` held block `bh` of chunk `t1` of the patches and the
    position buffer the chunk's table rows, then after the row loop's sum on row `t` the row copy leaves, at output
    entry `(72 j + 8 t1 + t, 16 g + 8 bh + k, col)`, the entry of the positions-first result. -/
theorem piece_value_at {off : Fin S577x64x768.rank → Nat} {inb : ∀ a, off a + S1x8x768.size a ≤ S577x64x768.size a}
    {o1 : ℕ} (t1 : Fin k0_t1_loop.trips) (t : Fin 8) (bh : Fin 2) (pb : ℕ) (hpb : pb < 2)
    (ho : off = ![72 * (wid L % 8) + 8 * t1.val + t.val, o1, 0]) (ho1 : o1 = 16 * (wid L / 8) + 8 * bh.val)
    (fo : Buf (Elt F) (oLoc d)) (f : Buf (Elt F) ((thr d L).loc cc0_scratch1))
    (g : Buf (Elt F) ((thr d L).loc cc0_scratch0))
    (hf : ∀ (k r : Fin 8) (col : Fin 768), f (ix4 (⟨pb, hpb⟩ : Fin 2) k r col)
      = m (xLoc d) (ix3 (⟨16 * (wid L / 8) + 8 * bh.val + k.val, bat_lt L bh k⟩ : Fin 64)
          (⟨72 * (wid L % 8) + 8 * t1.val + r.val, seq_lt L t1 r⟩ : Fin 576) col))
    (hg : ∀ (r : Fin 8) (col : Fin 768), g (ix2 r col)
      = m (pLoc d) (ix2 (⟨72 * (wid L % 8) + 8 * t1.val + r.val, seq_lt577 L t1 r⟩ : Fin 577) col))
    (k : Fin 8) (col : Fin 768) (h1 : o1 + k.val < 64) :
    ((oV.slice (Rect.unit (s := S577x64x768) off S1x8x768.size inb) (fun _ => rfl)).squeeze S8x768 squeezes_S1x8x768_S8x768).view.write (Elt F) fo
        (ReadAs.same.apply ((rowWin pb t hpb).view.read (Elt F) (rowSum' d L pb t f g))) Finset.univ
        (ix3 (⟨72 * (wid L % 8) + 8 * t1.val + t.val, seq_lt577 L t1 t⟩ : Fin 577) (⟨o1 + k.val, h1⟩ : Fin 64) col)
      = outT m d (ix3 (⟨72 * (wid L % 8) + 8 * t1.val + t.val, seq_lt577 L t1 t⟩ : Fin 577) (⟨o1 + k.val, h1⟩ : Fin 64) col) := by
  refine (oPiece_lands (F := F) (inb := inb) ho fo _ k col _ h1).trans ?_
  refine (rowWin_read pb hpb t _ k col).trans ?_
  refine (rowSum'_apply d L pb hpb t k col f g).trans ?_
  rw [hf, hg]
  show _ = Cert.Spec.entry (m (xLoc d)) (m (pLoc d)) (m (tLoc d))
    (⟨72 * (wid L % 8) + 8 * t1.val + t.val, seq_lt577 L t1 t⟩ : Fin 577) (⟨o1 + k.val, h1⟩ : Fin 64) col
  rw [Cert.Spec.entry_patch _ _ _ _ _ _ (seq_lt L t1 t)]
  subst ho1
  rfl

/-- The same on the piece's own entries, whichever they are. -/
theorem piece_value {off : Fin S577x64x768.rank → Nat} {inb : ∀ a, off a + S1x8x768.size a ≤ S577x64x768.size a}
    {o1 : ℕ} (t1 : Fin k0_t1_loop.trips) (t : Fin 8) (bh : Fin 2) (pb : ℕ) (hpb : pb < 2)
    (ho : off = ![72 * (wid L % 8) + 8 * t1.val + t.val, o1, 0]) (ho1 : o1 = 16 * (wid L / 8) + 8 * bh.val)
    (fo : Buf (Elt F) (oLoc d)) (f : Buf (Elt F) ((thr d L).loc cc0_scratch1))
    (g : Buf (Elt F) ((thr d L).loc cc0_scratch0))
    (hf : ∀ (k r : Fin 8) (col : Fin 768), f (ix4 (⟨pb, hpb⟩ : Fin 2) k r col)
      = m (xLoc d) (ix3 (⟨16 * (wid L / 8) + 8 * bh.val + k.val, bat_lt L bh k⟩ : Fin 64)
          (⟨72 * (wid L % 8) + 8 * t1.val + r.val, seq_lt L t1 r⟩ : Fin 576) col))
    (hg : ∀ (r : Fin 8) (col : Fin 768), g (ix2 r col)
      = m (pLoc d) (ix2 (⟨72 * (wid L % 8) + 8 * t1.val + r.val, seq_lt577 L t1 r⟩ : Fin 577) col))
    (i : S577x64x768.Idx) (hi : i ∈ ((oV.slice (Rect.unit (s := S577x64x768) off S1x8x768.size inb) (fun _ => rfl)).squeeze S8x768 squeezes_S1x8x768_S8x768).view.set) :
    ((oV.slice (Rect.unit (s := S577x64x768) off S1x8x768.size inb) (fun _ => rfl)).squeeze S8x768 squeezes_S1x8x768_S8x768).view.write (Elt F) fo
        (ReadAs.same.apply ((rowWin pb t hpb).view.read (Elt F) (rowSum' d L pb t f g))) Finset.univ i
      = outT m d i := by
  obtain ⟨h0, hlo, hhi⟩ := (mem_slab _ _ i).mp ((mem_oPiece_set ho i).mp hi)
  obtain ⟨kk, hkk⟩ : ∃ kk : Fin 8, (i 1).val = o1 + kk.val :=
    ⟨⟨(i 1).val - o1, by omega⟩, by show (i 1).val = o1 + ((i 1).val - o1); omega⟩
  have h64 : (i 1).val < 64 := (i 1).isLt
  have hb' : o1 + kk.val < 64 := by omega
  have ei : i = ix3 (⟨72 * (wid L % 8) + 8 * t1.val + t.val, seq_lt577 L t1 t⟩ : Fin 577) (⟨o1 + kk.val, hb'⟩ : Fin 64) (i 2) :=
    (eq_ix3 i).trans (ix3_congr h0 hkk rfl)
  have key := piece_value_at (inb := inb) m d L t1 t bh pb hpb ho ho1 fo f g hf hg kk (i 2) hb'
  rw [ei]
  exact key

/-- A landed row of the first half agrees with the specification on its piece. -/
theorem outRow0_value (t1 : Fin k0_t1_loop.trips) (t2 : Fin k0_t2_loop.trips) (fo : Buf (Elt F) (oLoc d))
    (f : Buf (Elt F) ((thr d L).loc cc0_scratch1)) (g : Buf (Elt F) ((thr d L).loc cc0_scratch0))
    (hf : ∀ (k r : Fin 8) (col : Fin 768), f (ix4 (⟨0, Nat.zero_lt_two⟩ : Fin 2) k r col)
      = m (xLoc d) (ix3 (⟨16 * (wid L / 8) + 8 * (0 : Fin 2).val + k.val, bat_lt L 0 k⟩ : Fin 64)
          (⟨72 * (wid L % 8) + 8 * t1.val + r.val, seq_lt L t1 r⟩ : Fin 576) col))
    (hg : ∀ (r : Fin 8) (col : Fin 768), g (ix2 r col)
      = m (pLoc d) (ix2 (⟨72 * (wid L % 8) + 8 * t1.val + r.val, seq_lt577 L t1 r⟩ : Fin 577) col)) :
    ∀ i : S577x64x768.Idx, i ∈ (outRow0 L t1 t2).view.set →
      (outRow0 L t1 t2).view.write (Elt F) fo
          (ReadAs.same.apply ((rowWin 0 (r2 t2) Nat.zero_lt_two).view.read (Elt F)
            (rowSum' d L 0 (r2 t2) f g))) Finset.univ i
        = outT m d i :=
  fun i hi => piece_value m d L t1 (r2 t2) 0 0 Nat.zero_lt_two (k0_off445_eq L t1 t2)
    (by show 16 * (wid L / 8) = 16 * (wid L / 8) + 8 * 0; omega) fo f g hf hg i hi

/-- A landed row of the second half agrees with the specification on its piece. -/
theorem outRow1_value (t1 : Fin k0_t1_loop.trips) (t3 : Fin k0_t3_loop.trips) (fo : Buf (Elt F) (oLoc d))
    (f : Buf (Elt F) ((thr d L).loc cc0_scratch1)) (g : Buf (Elt F) ((thr d L).loc cc0_scratch0))
    (hf : ∀ (k r : Fin 8) (col : Fin 768), f (ix4 (⟨1, Nat.one_lt_two⟩ : Fin 2) k r col)
      = m (xLoc d) (ix3 (⟨16 * (wid L / 8) + 8 * (1 : Fin 2).val + k.val, bat_lt L 1 k⟩ : Fin 64)
          (⟨72 * (wid L % 8) + 8 * t1.val + r.val, seq_lt L t1 r⟩ : Fin 576) col))
    (hg : ∀ (r : Fin 8) (col : Fin 768), g (ix2 r col)
      = m (pLoc d) (ix2 (⟨72 * (wid L % 8) + 8 * t1.val + r.val, seq_lt577 L t1 r⟩ : Fin 577) col)) :
    ∀ i : S577x64x768.Idx, i ∈ (outRow1 L t1 t3).view.set →
      (outRow1 L t1 t3).view.write (Elt F) fo
          (ReadAs.same.apply ((rowWin 1 (r3 t3) Nat.one_lt_two).view.read (Elt F)
            (rowSum' d L 1 (r3 t3) f g))) Finset.univ i
        = outT m d i :=
  fun i hi => piece_value m d L t1 (r3 t3) 1 1 Nat.one_lt_two (k0_off881_eq L t1 t3)
    (by show 16 * (wid L / 8) + 8 = 16 * (wid L / 8) + 8 * 1; omega) fo f g hf hg i hi

/-! ## 5. The class-token row -/

/-- Entry `(k, col)` of the window the class rows are copied from is staging entry `(0, 0, k, col)`. -/
theorem emb_clsSrc (k : Fin 8) (col : Fin 768) :
    ((slotV.slice (Rect.unit (s := S2x8x8x768) ![0, 0, 0, 0] S1x1x8x768.size inb_S2x8x8x768_S1x1x8x768_0_0_0_0) (fun _ => rfl)).squeeze S8x768 squeezes_S1x1x8x768_S8x768).view.emb (ix2 k col)
      = (ix4 (⟨0, Nat.zero_lt_two⟩ : Fin 2) (⟨0, by omega⟩ : Fin 8) k col : S2x8x8x768.Idx) := by
  show (Rect.unit (s := S2x8x8x768) ![0, 0, 0, 0] S1x1x8x768.size inb_S2x8x8x768_S1x1x8x768_0_0_0_0).emb
    (Shape.reshapeEquiv squeezes_S1x1x8x768_S8x768.numel_eq (ix2 k col)) = _
  rw [reshapeEquiv_ix2_11ab]
  funext a
  apply Fin.ext
  match a with
  | ⟨0, _⟩ => show 0 + 1 * 0 = 0; omega
  | ⟨1, _⟩ => show 0 + 1 * 0 = 0; omega
  | ⟨2, _⟩ => show 0 + 1 * k.val = k.val; omega
  | ⟨3, _⟩ => show 0 + 1 * col.val = col.val; omega

theorem clsSrc_read (fs : ((slotV.slice (Rect.unit (s := S2x8x8x768) ![0, 0, 0, 0] S1x1x8x768.size inb_S2x8x8x768_S1x1x8x768_0_0_0_0) (fun _ => rfl)).squeeze S8x768 squeezes_S1x1x8x768_S8x768).view.ty.Contents (Elt F)) (k : Fin 8) (col : Fin 768) :
    ReadAs.same.apply (((slotV.slice (Rect.unit (s := S2x8x8x768) ![0, 0, 0, 0] S1x1x8x768.size inb_S2x8x8x768_S1x1x8x768_0_0_0_0) (fun _ => rfl)).squeeze S8x768 squeezes_S1x1x8x768_S8x768).view.read (Elt F) fs) (ix2 k col)
      = fs (ix4 (⟨0, Nat.zero_lt_two⟩ : Fin 2) (⟨0, by omega⟩ : Fin 8) k col) := by
  show ((slotV.slice (Rect.unit (s := S2x8x8x768) ![0, 0, 0, 0] S1x1x8x768.size inb_S2x8x8x768_S1x1x8x768_0_0_0_0) (fun _ => rfl)).squeeze S8x768 squeezes_S1x1x8x768_S8x768).view.read (Elt F) fs (ix2 k col) = _
  rw [View.read_apply, emb_clsSrc]
  first
    | rfl
    | exact cast_eq _ _

theorem cls_bat_lt (L : grid0.Coords) (r : Fin 2) (k : Fin 8) : 16 * (wid L / 8) + 8 * r.val + k.val < 64 := bat_lt L r k

/-- A landed class row agrees with the specification on its piece: if the eight rows it is copied from each hold
    the class token plus the last row of the position table. -/
theorem clsRow_value (hc : k0_cond10 L = 1#1) (r : Fin 2) (fo : Buf (Elt F) (oLoc d))
    (fs : Buf (Elt F) ((thr d L).loc cc0_scratch1))
    (hfs : ∀ (k : Fin 8) (col : Fin 768), fs (ix4 (⟨0, Nat.zero_lt_two⟩ : Fin 2) (⟨0, by omega⟩ : Fin 8) k col)
      = FloatOps.addf (m (tLoc d) (ix3 (0 : Fin 1) (0 : Fin 1) col))
          (m (pLoc d) (ix2 (⟨576, Nat.lt_succ_self 576⟩ : Fin 577) col))) :
    ∀ i : S577x64x768.Idx, i ∈ (clsRow L hc r).view.set →
      (clsRow L hc r).view.write (Elt F) fo (ReadAs.same.apply (((slotV.slice (Rect.unit (s := S2x8x8x768) ![0, 0, 0, 0] S1x1x8x768.size inb_S2x8x8x768_S1x1x8x768_0_0_0_0) (fun _ => rfl)).squeeze S8x768 squeezes_S1x1x8x768_S8x768).view.read (Elt F) fs)) Finset.univ i
        = outT m d i := by
  intro i hi
  obtain ⟨h0, hlo, hhi⟩ := (mem_clsRow L hc r i).mp hi
  obtain ⟨kk, hkk⟩ : ∃ kk : Fin 8, (i 1).val = 16 * (wid L / 8) + 8 * r.val + kk.val :=
    ⟨⟨(i 1).val - (16 * (wid L / 8) + 8 * r.val), by omega⟩,
      by show (i 1).val = 16 * (wid L / 8) + 8 * r.val + ((i 1).val - (16 * (wid L / 8) + 8 * r.val)); omega⟩
  have ei : i = ix3 (⟨576, Nat.lt_succ_self 576⟩ : Fin 577)
      (⟨16 * (wid L / 8) + 8 * r.val + kk.val, cls_bat_lt L r kk⟩ : Fin 64) (i 2) :=
    (eq_ix3 i).trans (ix3_congr h0 hkk rfl)
  rw [ei]
  refine (oPiece_lands (F := F) (inb := k0_off883_inb L hc r) (k0_off883_eq L r) fo _ kk (i 2) (Nat.lt_succ_self 576)
    (cls_bat_lt L r kk)).trans ?_
  refine (clsSrc_read _ kk (i 2)).trans ?_
  refine (hfs kk (i 2)).trans ?_
  exact (Cert.Spec.entry_class (m (xLoc d)) (m (pLoc d)) (m (tLoc d)) (⟨576, Nat.lt_succ_self 576⟩ : Fin 577)
    (⟨16 * (wid L / 8) + 8 * r.val + kk.val, cls_bat_lt L r kk⟩ : Fin 64) (i 2) (by show ¬(576 < 576); omega)).symm

end Value

end Cert.KernelIdeal.Hand

end
-- ==== Proof.BlockAtI.lean ====
/-
  What a staging slot holds once the block of chunk T has landed in it, chunk by chunk.

  Slot 0 receives, for chunk 0, the first block (fetched before the loop) and, for chunk T + 1, the block fetched
  ahead during chunk T; slot 1 receives the second half's block of chunk T during chunk T. In every case entry
  (k, r, col) of the slot holds the patch of batch row 16 g + 8 bh + k (bh = 0 for slot 0, 1 for slot 1) at sequence
  row 72 j + 8 T + r. The statements below are these facts with the chunk number a numeral and the right-hand side
  in one fixed shape.
-/
import proofs.«204390_g6468220748199_cont_9to1_m_1136_17_alg».proof.Proof.ValueBlocksI
import proofs.«204390_g6468220748199_cont_9to1_m_1136_17_alg».proof.Proof.RowSpecI

noncomputable section

namespace Cert.KernelIdeal.Hand

open Cert.KernelIdeal Cert.KernelIdeal.Gen
open Idealize.ShloMosaic Idealize.ShloMosaic.ValueIdx
open Idealize.ShloMosaic.SparseCore (S V T)

variable {F : FTy → Type} [FloatOps F]

/-! ## During chunk T < 8 the next chunk's first block is fetched -/

theorem cond9_at_0 : k0_cond9 (t1of 0) = 1#1 := by decide
theorem cond9_at_1 : k0_cond9 (t1of 1) = 1#1 := by decide
theorem cond9_at_2 : k0_cond9 (t1of 2) = 1#1 := by decide
theorem cond9_at_3 : k0_cond9 (t1of 3) = 1#1 := by decide
theorem cond9_at_4 : k0_cond9 (t1of 4) = 1#1 := by decide
theorem cond9_at_5 : k0_cond9 (t1of 5) = 1#1 := by decide
theorem cond9_at_6 : k0_cond9 (t1of 6) = 1#1 := by decide
theorem cond9_at_7 : k0_cond9 (t1of 7) = 1#1 := by decide

/-! ## Slot 0 -/

/-- Chunk 0: the first block. -/
theorem slot0_at_0 (L : grid0.Coords) (f0 : (slotWin 0 Nat.zero_lt_two).view.ty.Contents (Elt F))
    (fsrc : (xV.slice (Rect.unit (s := S64x576x768) (k0_off1 L) S8x8x768.size (k0_off1_inb L)) (fun _ => rfl)).view.ty.Contents (Elt F)) (k r : Fin 8) (col : Fin 768) :
    (slotWin 0 Nat.zero_lt_two).view.writes (Elt F) f0 [⟨Rect.whole S8x8x768, ReadAs.same.apply ((xV.slice (Rect.unit (s := S64x576x768) (k0_off1 L) S8x8x768.size (k0_off1_inb L)) (fun _ => rfl)).view.read (Elt F) fsrc)⟩]
        (ix4 (⟨0, Nat.zero_lt_two⟩ : Fin 2) k r col)
      = fsrc (ix3 (⟨16 * (wid L / 8) + 8 * (0 : Fin 2).val + k.val, bat_lt L 0 k⟩ : Fin 64)
          (⟨72 * (wid L % 8) + 8 * (t1of 0).val + r.val, seq_lt L (t1of 0) r⟩ : Fin 576) col) :=
  (firstBlock_lands L 0 Nat.zero_lt_two f0 fsrc k r col).trans (congrArg fsrc (ix3_congr
    (by show 16 * (wid L / 8) + k.val = 16 * (wid L / 8) + 8 * 0 + k.val; omega)
    (by show 72 * (wid L % 8) + r.val = 72 * (wid L % 8) + 8 * 0 + r.val; omega) rfl))

/-- Chunk 1: the block fetched ahead during chunk 0. -/
theorem slot0_at_1 (L : grid0.Coords) (f0 : (slotWin 0 Nat.zero_lt_two).view.ty.Contents (Elt F))
    (fsrc : (xV.slice (Rect.unit (s := S64x576x768) (k0_off447 L (t1of 0)) S8x8x768.size (k0_off447_inb L (t1of 0) cond9_at_0)) (fun _ => rfl)).view.ty.Contents (Elt F)) (k r : Fin 8) (col : Fin 768) :
    (slotWin 0 Nat.zero_lt_two).view.writes (Elt F) f0 [⟨Rect.whole S8x8x768, ReadAs.same.apply ((xV.slice (Rect.unit (s := S64x576x768) (k0_off447 L (t1of 0)) S8x8x768.size (k0_off447_inb L (t1of 0) cond9_at_0)) (fun _ => rfl)).view.read (Elt F) fsrc)⟩]
        (ix4 (⟨0, Nat.zero_lt_two⟩ : Fin 2) k r col)
      = fsrc (ix3 (⟨16 * (wid L / 8) + 8 * (0 : Fin 2).val + k.val, bat_lt L 0 k⟩ : Fin 64)
          (⟨72 * (wid L % 8) + 8 * (t1of 1).val + r.val, seq_lt L (t1of 1) r⟩ : Fin 576) col) :=
  (nextBlock_lands L (t1of 0) cond9_at_0 0 Nat.zero_lt_two f0 fsrc k r col).trans (congrArg fsrc (ix3_congr
    (by show 16 * (wid L / 8) + k.val = 16 * (wid L / 8) + 8 * 0 + k.val; omega)
    (by show 72 * (wid L % 8) + 8 * (0 + 1) + r.val = 72 * (wid L % 8) + 8 * 1 + r.val; omega) rfl))

/-- Chunk 2: the block fetched ahead during chunk 1. -/
theorem slot0_at_2 (L : grid0.Coords) (f0 : (slotWin 0 Nat.zero_lt_two).view.ty.Contents (Elt F))
    (fsrc : (xV.slice (Rect.unit (s := S64x576x768) (k0_off447 L (t1of 1)) S8x8x768.size (k0_off447_inb L (t1of 1) cond9_at_1)) (fun _ => rfl)).view.ty.Contents (Elt F)) (k r : Fin 8) (col : Fin 768) :
    (slotWin 0 Nat.zero_lt_two).view.writes (Elt F) f0 [⟨Rect.whole S8x8x768, ReadAs.same.apply ((xV.slice (Rect.unit (s := S64x576x768) (k0_off447 L (t1of 1)) S8x8x768.size (k0_off447_inb L (t1of 1) cond9_at_1)) (fun _ => rfl)).view.read (Elt F) fsrc)⟩]
        (ix4 (⟨0, Nat.zero_lt_two⟩ : Fin 2) k r col)
      = fsrc (ix3 (⟨16 * (wid L / 8) + 8 * (0 : Fin 2).val + k.val, bat_lt L 0 k⟩ : Fin 64)
          (⟨72 * (wid L % 8) + 8 * (t1of 2).val + r.val, seq_lt L (t1of 2) r⟩ : Fin 576) col) :=
  (nextBlock_lands L (t1of 1) cond9_at_1 0 Nat.zero_lt_two f0 fsrc k r col).trans (congrArg fsrc (ix3_congr
    (by show 16 * (wid L / 8) + k.val = 16 * (wid L / 8) + 8 * 0 + k.val; omega)
    (by show 72 * (wid L % 8) + 8 * (1 + 1) + r.val = 72 * (wid L % 8) + 8 * 2 + r.val; omega) rfl))

/-- Chunk 3: the block fetched ahead during chunk 2. -/
theorem slot0_at_3 (L : grid0.Coords) (f0 : (slotWin 0 Nat.zero_lt_two).view.ty.Contents (Elt F))
    (fsrc : (xV.slice (Rect.unit (s := S64x576x768) (k0_off447 L (t1of 2)) S8x8x768.size (k0_off447_inb L (t1of 2) cond9_at_2)) (fun _ => rfl)).view.ty.Contents (Elt F)) (k r : Fin 8) (col : Fin 768) :
    (slotWin 0 Nat.zero_lt_two).view.writes (Elt F) f0 [⟨Rect.whole S8x8x768, ReadAs.same.apply ((xV.slice (Rect.unit (s := S64x576x768) (k0_off447 L (t1of 2)) S8x8x768.size (k0_off447_inb L (t1of 2) cond9_at_2)) (fun _ => rfl)).view.read (Elt F) fsrc)⟩]
        (ix4 (⟨0, Nat.zero_lt_two⟩ : Fin 2) k r col)
      = fsrc (ix3 (⟨16 * (wid L / 8) + 8 * (0 : Fin 2).val + k.val, bat_lt L 0 k⟩ : Fin 64)
          (⟨72 * (wid L % 8) + 8 * (t1of 3).val + r.val, seq_lt L (t1of 3) r⟩ : Fin 576) col) :=
  (nextBlock_lands L (t1of 2) cond9_at_2 0 Nat.zero_lt_two f0 fsrc k r col).trans (congrArg fsrc (ix3_congr
    (by show 16 * (wid L / 8) + k.val = 16 * (wid L / 8) + 8 * 0 + k.val; omega)
    (by show 72 * (wid L % 8) + 8 * (2 + 1) + r.val = 72 * (wid L % 8) + 8 * 3 + r.val; omega) rfl))

/-- Chunk 4: the block fetched ahead during chunk 3. -/
theorem slot0_at_4 (L : grid0.Coords) (f0 : (slotWin 0 Nat.zero_lt_two).view.ty.Contents (Elt F))
    (fsrc : (xV.slice (Rect.unit (s := S64x576x768) (k0_off447 L (t1of 3)) S8x8x768.size (k0_off447_inb L (t1of 3) cond9_at_3)) (fun _ => rfl)).view.ty.Contents (Elt F)) (k r : Fin 8) (col : Fin 768) :
    (slotWin 0 Nat.zero_lt_two).view.writes (Elt F) f0 [⟨Rect.whole S8x8x768, ReadAs.same.apply ((xV.slice (Rect.unit (s := S64x576x768) (k0_off447 L (t1of 3)) S8x8x768.size (k0_off447_inb L (t1of 3) cond9_at_3)) (fun _ => rfl)).view.read (Elt F) fsrc)⟩]
        (ix4 (⟨0, Nat.zero_lt_two⟩ : Fin 2) k r col)
      = fsrc (ix3 (⟨16 * (wid L / 8) + 8 * (0 : Fin 2).val + k.val, bat_lt L 0 k⟩ : Fin 64)
          (⟨72 * (wid L % 8) + 8 * (t1of 4).val + r.val, seq_lt L (t1of 4) r⟩ : Fin 576) col) :=
  (nextBlock_lands L (t1of 3) cond9_at_3 0 Nat.zero_lt_two f0 fsrc k r col).trans (congrArg fsrc (ix3_congr
    (by show 16 * (wid L / 8) + k.val = 16 * (wid L / 8) + 8 * 0 + k.val; omega)
    (by show 72 * (wid L % 8) + 8 * (3 + 1) + r.val = 72 * (wid L % 8) + 8 * 4 + r.val; omega) rfl))

/-- Chunk 5: the block fetched ahead during chunk 4. -/
theorem slot0_at_5 (L : grid0.Coords) (f0 : (slotWin 0 Nat.zero_lt_two).view.ty.Contents (Elt F))
    (fsrc : (xV.slice (Rect.unit (s := S64x576x768) (k0_off447 L (t1of 4)) S8x8x768.size (k0_off447_inb L (t1of 4) cond9_at_4)) (fun _ => rfl)).view.ty.Contents (Elt F)) (k r : Fin 8) (col : Fin 768) :
    (slotWin 0 Nat.zero_lt_two).view.writes (Elt F) f0 [⟨Rect.whole S8x8x768, ReadAs.same.apply ((xV.slice (Rect.unit (s := S64x576x768) (k0_off447 L (t1of 4)) S8x8x768.size (k0_off447_inb L (t1of 4) cond9_at_4)) (fun _ => rfl)).view.read (Elt F) fsrc)⟩]
        (ix4 (⟨0, Nat.zero_lt_two⟩ : Fin 2) k r col)
      = fsrc (ix3 (⟨16 * (wid L / 8) + 8 * (0 : Fin 2).val + k.val, bat_lt L 0 k⟩ : Fin 64)
          (⟨72 * (wid L % 8) + 8 * (t1of 5).val + r.val, seq_lt L (t1of 5) r⟩ : Fin 576) col) :=
  (nextBlock_lands L (t1of 4) cond9_at_4 0 Nat.zero_lt_two f0 fsrc k r col).trans (congrArg fsrc (ix3_congr
    (by show 16 * (wid L / 8) + k.val = 16 * (wid L / 8) + 8 * 0 + k.val; omega)
    (by show 72 * (wid L % 8) + 8 * (4 + 1) + r.val = 72 * (wid L % 8) + 8 * 5 + r.val; omega) rfl))

/-- Chunk 6: the block fetched ahead during chunk 5. -/
theorem slot0_at_6 (L : grid0.Coords) (f0 : (slotWin 0 Nat.zero_lt_two).view.ty.Contents (Elt F))
    (fsrc : (xV.slice (Rect.unit (s := S64x576x768) (k0_off447 L (t1of 5)) S8x8x768.size (k0_off447_inb L (t1of 5) cond9_at_5)) (fun _ => rfl)).view.ty.Contents (Elt F)) (k r : Fin 8) (col : Fin 768) :
    (slotWin 0 Nat.zero_lt_two).view.writes (Elt F) f0 [⟨Rect.whole S8x8x768, ReadAs.same.apply ((xV.slice (Rect.unit (s := S64x576x768) (k0_off447 L (t1of 5)) S8x8x768.size (k0_off447_inb L (t1of 5) cond9_at_5)) (fun _ => rfl)).view.read (Elt F) fsrc)⟩]
        (ix4 (⟨0, Nat.zero_lt_two⟩ : Fin 2) k r col)
      = fsrc (ix3 (⟨16 * (wid L / 8) + 8 * (0 : Fin 2).val + k.val, bat_lt L 0 k⟩ : Fin 64)
          (⟨72 * (wid L % 8) + 8 * (t1of 6).val + r.val, seq_lt L (t1of 6) r⟩ : Fin 576) col) :=
  (nextBlock_lands L (t1of 5) cond9_at_5 0 Nat.zero_lt_two f0 fsrc k r col).trans (congrArg fsrc (ix3_congr
    (by show 16 * (wid L / 8) + k.val = 16 * (wid L / 8) + 8 * 0 + k.val; omega)
    (by show 72 * (wid L % 8) + 8 * (5 + 1) + r.val = 72 * (wid L % 8) + 8 * 6 + r.val; omega) rfl))

/-- Chunk 7: the block fetched ahead during chunk 6. -/
theorem slot0_at_7 (L : grid0.Coords) (f0 : (slotWin 0 Nat.zero_lt_two).view.ty.Contents (Elt F))
    (fsrc : (xV.slice (Rect.unit (s := S64x576x768) (k0_off447 L (t1of 6)) S8x8x768.size (k0_off447_inb L (t1of 6) cond9_at_6)) (fun _ => rfl)).view.ty.Contents (Elt F)) (k r : Fin 8) (col : Fin 768) :
    (slotWin 0 Nat.zero_lt_two).view.writes (Elt F) f0 [⟨Rect.whole S8x8x768, ReadAs.same.apply ((xV.slice (Rect.unit (s := S64x576x768) (k0_off447 L (t1of 6)) S8x8x768.size (k0_off447_inb L (t1of 6) cond9_at_6)) (fun _ => rfl)).view.read (Elt F) fsrc)⟩]
        (ix4 (⟨0, Nat.zero_lt_two⟩ : Fin 2) k r col)
      = fsrc (ix3 (⟨16 * (wid L / 8) + 8 * (0 : Fin 2).val + k.val, bat_lt L 0 k⟩ : Fin 64)
          (⟨72 * (wid L % 8) + 8 * (t1of 7).val + r.val, seq_lt L (t1of 7) r⟩ : Fin 576) col) :=
  (nextBlock_lands L (t1of 6) cond9_at_6 0 Nat.zero_lt_two f0 fsrc k r col).trans (congrArg fsrc (ix3_congr
    (by show 16 * (wid L / 8) + k.val = 16 * (wid L / 8) + 8 * 0 + k.val; omega)
    (by show 72 * (wid L % 8) + 8 * (6 + 1) + r.val = 72 * (wid L % 8) + 8 * 7 + r.val; omega) rfl))

/-- Chunk 8: the block fetched ahead during chunk 7. -/
theorem slot0_at_8 (L : grid0.Coords) (f0 : (slotWin 0 Nat.zero_lt_two).view.ty.Contents (Elt F))
    (fsrc : (xV.slice (Rect.unit (s := S64x576x768) (k0_off447 L (t1of 7)) S8x8x768.size (k0_off447_inb L (t1of 7) cond9_at_7)) (fun _ => rfl)).view.ty.Contents (Elt F)) (k r : Fin 8) (col : Fin 768) :
    (slotWin 0 Nat.zero_lt_two).view.writes (Elt F) f0 [⟨Rect.whole S8x8x768, ReadAs.same.apply ((xV.slice (Rect.unit (s := S64x576x768) (k0_off447 L (t1of 7)) S8x8x768.size (k0_off447_inb L (t1of 7) cond9_at_7)) (fun _ => rfl)).view.read (Elt F) fsrc)⟩]
        (ix4 (⟨0, Nat.zero_lt_two⟩ : Fin 2) k r col)
      = fsrc (ix3 (⟨16 * (wid L / 8) + 8 * (0 : Fin 2).val + k.val, bat_lt L 0 k⟩ : Fin 64)
          (⟨72 * (wid L % 8) + 8 * (t1of 8).val + r.val, seq_lt L (t1of 8) r⟩ : Fin 576) col) :=
  (nextBlock_lands L (t1of 7) cond9_at_7 0 Nat.zero_lt_two f0 fsrc k r col).trans (congrArg fsrc (ix3_congr
    (by show 16 * (wid L / 8) + k.val = 16 * (wid L / 8) + 8 * 0 + k.val; omega)
    (by show 72 * (wid L % 8) + 8 * (7 + 1) + r.val = 72 * (wid L % 8) + 8 * 8 + r.val; omega) rfl))

/-! ## Slot 1 -/

/-- Chunk 0: the second half's block. -/
theorem slot1_at_0 (L : grid0.Coords) (f0 : (slotWin 1 Nat.one_lt_two).view.ty.Contents (Elt F))
    (fsrc : (xV.slice (Rect.unit (s := S64x576x768) (k0_off3 L (t1of 0) 8#32) S8x8x768.size (k0_off3_inb L (t1of 0) 1)) (fun _ => rfl)).view.ty.Contents (Elt F)) (k r : Fin 8) (col : Fin 768) :
    (slotWin 1 Nat.one_lt_two).view.writes (Elt F) f0 [⟨Rect.whole S8x8x768, ReadAs.same.apply ((xV.slice (Rect.unit (s := S64x576x768) (k0_off3 L (t1of 0) 8#32) S8x8x768.size (k0_off3_inb L (t1of 0) 1)) (fun _ => rfl)).view.read (Elt F) fsrc)⟩]
        (ix4 (⟨1, Nat.one_lt_two⟩ : Fin 2) k r col)
      = fsrc (ix3 (⟨16 * (wid L / 8) + 8 * (1 : Fin 2).val + k.val, bat_lt L 1 k⟩ : Fin 64)
          (⟨72 * (wid L % 8) + 8 * (t1of 0).val + r.val, seq_lt L (t1of 0) r⟩ : Fin 576) col) :=
  block1_lands L (t1of 0) 1 Nat.one_lt_two f0 fsrc k r col

/-- Chunk 1: the second half's block. -/
theorem slot1_at_1 (L : grid0.Coords) (f0 : (slotWin 1 Nat.one_lt_two).view.ty.Contents (Elt F))
    (fsrc : (xV.slice (Rect.unit (s := S64x576x768) (k0_off3 L (t1of 1) 8#32) S8x8x768.size (k0_off3_inb L (t1of 1) 1)) (fun _ => rfl)).view.ty.Contents (Elt F)) (k r : Fin 8) (col : Fin 768) :
    (slotWin 1 Nat.one_lt_two).view.writes (Elt F) f0 [⟨Rect.whole S8x8x768, ReadAs.same.apply ((xV.slice (Rect.unit (s := S64x576x768) (k0_off3 L (t1of 1) 8#32) S8x8x768.size (k0_off3_inb L (t1of 1) 1)) (fun _ => rfl)).view.read (Elt F) fsrc)⟩]
        (ix4 (⟨1, Nat.one_lt_two⟩ : Fin 2) k r col)
      = fsrc (ix3 (⟨16 * (wid L / 8) + 8 * (1 : Fin 2).val + k.val, bat_lt L 1 k⟩ : Fin 64)
          (⟨72 * (wid L % 8) + 8 * (t1of 1).val + r.val, seq_lt L (t1of 1) r⟩ : Fin 576) col) :=
  block1_lands L (t1of 1) 1 Nat.one_lt_two f0 fsrc k r col

/-- Chunk 2: the second half's block. -/
theorem slot1_at_2 (L : grid0.Coords) (f0 : (slotWin 1 Nat.one_lt_two).view.ty.Contents (Elt F))
    (fsrc : (xV.slice (Rect.unit (s := S64x576x768) (k0_off3 L (t1of 2) 8#32) S8x8x768.size (k0_off3_inb L (t1of 2) 1)) (fun _ => rfl)).view.ty.Contents (Elt F)) (k r : Fin 8) (col : Fin 768) :
    (slotWin 1 Nat.one_lt_two).view.writes (Elt F) f0 [⟨Rect.whole S8x8x768, ReadAs.same.apply ((xV.slice (Rect.unit (s := S64x576x768) (k0_off3 L (t1of 2) 8#32) S8x8x768.size (k0_off3_inb L (t1of 2) 1)) (fun _ => rfl)).view.read (Elt F) fsrc)⟩]
        (ix4 (⟨1, Nat.one_lt_two⟩ : Fin 2) k r col)
      = fsrc (ix3 (⟨16 * (wid L / 8) + 8 * (1 : Fin 2).val + k.val, bat_lt L 1 k⟩ : Fin 64)
          (⟨72 * (wid L % 8) + 8 * (t1of 2).val + r.val, seq_lt L (t1of 2) r⟩ : Fin 576) col) :=
  block1_lands L (t1of 2) 1 Nat.one_lt_two f0 fsrc k r col

/-- Chunk 3: the second half's block. -/
theorem slot1_at_3 (L : grid0.Coords) (f0 : (slotWin 1 Nat.one_lt_two).view.ty.Contents (Elt F))
    (fsrc : (xV.slice (Rect.unit (s := S64x576x768) (k0_off3 L (t1of 3) 8#32) S8x8x768.size (k0_off3_inb L (t1of 3) 1)) (fun _ => rfl)).view.ty.Contents (Elt F)) (k r : Fin 8) (col : Fin 768) :
    (slotWin 1 Nat.one_lt_two).view.writes (Elt F) f0 [⟨Rect.whole S8x8x768, ReadAs.same.apply ((xV.slice (Rect.unit (s := S64x576x768) (k0_off3 L (t1of 3) 8#32) S8x8x768.size (k0_off3_inb L (t1of 3) 1)) (fun _ => rfl)).view.read (Elt F) fsrc)⟩]
        (ix4 (⟨1, Nat.one_lt_two⟩ : Fin 2) k r col)
      = fsrc (ix3 (⟨16 * (wid L / 8) + 8 * (1 : Fin 2).val + k.val, bat_lt L 1 k⟩ : Fin 64)
          (⟨72 * (wid L % 8) + 8 * (t1of 3).val + r.val, seq_lt L (t1of 3) r⟩ : Fin 576) col) :=
  block1_lands L (t1of 3) 1 Nat.one_lt_two f0 fsrc k r col

/-- Chunk 4: the second half's block. -/
theorem slot1_at_4 (L : grid0.Coords) (f0 : (slotWin 1 Nat.one_lt_two).view.ty.Contents (Elt F))
    (fsrc : (xV.slice (Rect.unit (s := S64x576x768) (k0_off3 L (t1of 4) 8#32) S8x8x768.size (k0_off3_inb L (t1of 4) 1)) (fun _ => rfl)).view.ty.Contents (Elt F)) (k r : Fin 8) (col : Fin 768) :
    (slotWin 1 Nat.one_lt_two).view.writes (Elt F) f0 [⟨Rect.whole S8x8x768, ReadAs.same.apply ((xV.slice (Rect.unit (s := S64x576x768) (k0_off3 L (t1of 4) 8#32) S8x8x768.size (k0_off3_inb L (t1of 4) 1)) (fun _ => rfl)).view.read (Elt F) fsrc)⟩]
        (ix4 (⟨1, Nat.one_lt_two⟩ : Fin 2) k r col)
      = fsrc (ix3 (⟨16 * (wid L / 8) + 8 * (1 : Fin 2).val + k.val, bat_lt L 1 k⟩ : Fin 64)
          (⟨72 * (wid L % 8) + 8 * (t1of 4).val + r.val, seq_lt L (t1of 4) r⟩ : Fin 576) col) :=
  block1_lands L (t1of 4) 1 Nat.one_lt_two f0 fsrc k r col

/-- Chunk 5: the second half's block. -/
theorem slot1_at_5 (L : grid0.Coords) (f0 : (slotWin 1 Nat.one_lt_two).view.ty.Contents (Elt F))
    (fsrc : (xV.slice (Rect.unit (s := S64x576x768) (k0_off3 L (t1of 5) 8#32) S8x8x768.size (k0_off3_inb L (t1of 5) 1)) (fun _ => rfl)).view.ty.Contents (Elt F)) (k r : Fin 8) (col : Fin 768) :
    (slotWin 1 Nat.one_lt_two).view.writes (Elt F) f0 [⟨Rect.whole S8x8x768, ReadAs.same.apply ((xV.slice (Rect.unit (s := S64x576x768) (k0_off3 L (t1of 5) 8#32) S8x8x768.size (k0_off3_inb L (t1of 5) 1)) (fun _ => rfl)).view.read (Elt F) fsrc)⟩]
        (ix4 (⟨1, Nat.one_lt_two⟩ : Fin 2) k r col)
      = fsrc (ix3 (⟨16 * (wid L / 8) + 8 * (1 : Fin 2).val + k.val, bat_lt L 1 k⟩ : Fin 64)
          (⟨72 * (wid L % 8) + 8 * (t1of 5).val + r.val, seq_lt L (t1of 5) r⟩ : Fin 576) col) :=
  block1_lands L (t1of 5) 1 Nat.one_lt_two f0 fsrc k r col

/-- Chunk 6: the second half's block. -/
theorem slot1_at_6 (L : grid0.Coords) (f0 : (slotWin 1 Nat.one_lt_two).view.ty.Contents (Elt F))
    (fsrc : (xV.slice (Rect.unit (s := S64x576x768) (k0_off3 L (t1of 6) 8#32) S8x8x768.size (k0_off3_inb L (t1of 6) 1)) (fun _ => rfl)).view.ty.Contents (Elt F)) (k r : Fin 8) (col : Fin 768) :
    (slotWin 1 Nat.one_lt_two).view.writes (Elt F) f0 [⟨Rect.whole S8x8x768, ReadAs.same.apply ((xV.slice (Rect.unit (s := S64x576x768) (k0_off3 L (t1of 6) 8#32) S8x8x768.size (k0_off3_inb L (t1of 6) 1)) (fun _ => rfl)).view.read (Elt F) fsrc)⟩]
        (ix4 (⟨1, Nat.one_lt_two⟩ : Fin 2) k r col)
      = fsrc (ix3 (⟨16 * (wid L / 8) + 8 * (1 : Fin 2).val + k.val, bat_lt L 1 k⟩ : Fin 64)
          (⟨72 * (wid L % 8) + 8 * (t1of 6).val + r.val, seq_lt L (t1of 6) r⟩ : Fin 576) col) :=
  block1_lands L (t1of 6) 1 Nat.one_lt_two f0 fsrc k r col

/-- Chunk 7: the second half's block. -/
theorem slot1_at_7 (L : grid0.Coords) (f0 : (slotWin 1 Nat.one_lt_two).view.ty.Contents (Elt F))
    (fsrc : (xV.slice (Rect.unit (s := S64x576x768) (k0_off3 L (t1of 7) 8#32) S8x8x768.size (k0_off3_inb L (t1of 7) 1)) (fun _ => rfl)).view.ty.Contents (Elt F)) (k r : Fin 8) (col : Fin 768) :
    (slotWin 1 Nat.one_lt_two).view.writes (Elt F) f0 [⟨Rect.whole S8x8x768, ReadAs.same.apply ((xV.slice (Rect.unit (s := S64x576x768) (k0_off3 L (t1of 7) 8#32) S8x8x768.size (k0_off3_inb L (t1of 7) 1)) (fun _ => rfl)).view.read (Elt F) fsrc)⟩]
        (ix4 (⟨1, Nat.one_lt_two⟩ : Fin 2) k r col)
      = fsrc (ix3 (⟨16 * (wid L / 8) + 8 * (1 : Fin 2).val + k.val, bat_lt L 1 k⟩ : Fin 64)
          (⟨72 * (wid L % 8) + 8 * (t1of 7).val + r.val, seq_lt L (t1of 7) r⟩ : Fin 576) col) :=
  block1_lands L (t1of 7) 1 Nat.one_lt_two f0 fsrc k r col

/-- Chunk 8: the second half's block. -/
theorem slot1_at_8 (L : grid0.Coords) (f0 : (slotWin 1 Nat.one_lt_two).view.ty.Contents (Elt F))
    (fsrc : (xV.slice (Rect.unit (s := S64x576x768) (k0_off3 L (t1of 8) 8#32) S8x8x768.size (k0_off3_inb L (t1of 8) 1)) (fun _ => rfl)).view.ty.Contents (Elt F)) (k r : Fin 8) (col : Fin 768) :
    (slotWin 1 Nat.one_lt_two).view.writes (Elt F) f0 [⟨Rect.whole S8x8x768, ReadAs.same.apply ((xV.slice (Rect.unit (s := S64x576x768) (k0_off3 L (t1of 8) 8#32) S8x8x768.size (k0_off3_inb L (t1of 8) 1)) (fun _ => rfl)).view.read (Elt F) fsrc)⟩]
        (ix4 (⟨1, Nat.one_lt_two⟩ : Fin 2) k r col)
      = fsrc (ix3 (⟨16 * (wid L / 8) + 8 * (1 : Fin 2).val + k.val, bat_lt L 1 k⟩ : Fin 64)
          (⟨72 * (wid L % 8) + 8 * (t1of 8).val + r.val, seq_lt L (t1of 8) r⟩ : Fin 576) col) :=
  block1_lands L (t1of 8) 1 Nat.one_lt_two f0 fsrc k r col

/-! ## The shapes meet the row values' hypotheses -/

section Meets

variable (m : (ℓ : Loc nD τ sig) → Buf (Elt F) ℓ) (d : Dev nD) (L : grid0.Coords)

example (t2 : Fin k0_t2_loop.trips) (fo : Buf (Elt F) (oLoc d)) (f0 : Buf (Elt F) ((thr d L).loc cc0_scratch1))
    (g : Buf (Elt F) ((thr d L).loc cc0_scratch0))
    (hg : ∀ (r : Fin 8) (col : Fin 768), g (ix2 r col)
      = m (pLoc d) (ix2 (⟨72 * (wid L % 8) + 8 * (t1of 0).val + r.val, seq_lt577 L (t1of 0) r⟩ : Fin 577) col)) :
    ∀ i : S577x64x768.Idx, i ∈ (outRow0 L (t1of 0) t2).view.set →
      (outRow0 L (t1of 0) t2).view.write (Elt F) fo
          (ReadAs.same.apply ((rowWin 0 (r2 t2) Nat.zero_lt_two).view.read (Elt F)
            (rowSum' d L 0 (r2 t2)
              ((slotWin 0 Nat.zero_lt_two).view.writes (Elt F) f0
                [⟨Rect.whole S8x8x768, ReadAs.same.apply ((xV.slice (Rect.unit (s := S64x576x768) (k0_off1 L) S8x8x768.size (k0_off1_inb L)) (fun _ => rfl)).view.read (Elt F) (m (xLoc d)))⟩]) g))) Finset.univ i
        = outT m d i :=
  outRow0_value m d L (t1of 0) t2 fo _ g (fun k r col => slot0_at_0 (F := F) L f0 (m (xLoc d)) k r col) hg

example (t2 : Fin k0_t2_loop.trips) (fo : Buf (Elt F) (oLoc d)) (f0 : Buf (Elt F) ((thr d L).loc cc0_scratch1))
    (g : Buf (Elt F) ((thr d L).loc cc0_scratch0))
    (hg : ∀ (r : Fin 8) (col : Fin 768), g (ix2 r col)
      = m (pLoc d) (ix2 (⟨72 * (wid L % 8) + 8 * (t1of 3).val + r.val, seq_lt577 L (t1of 3) r⟩ : Fin 577) col)) :
    ∀ i : S577x64x768.Idx, i ∈ (outRow0 L (t1of 3) t2).view.set →
      (outRow0 L (t1of 3) t2).view.write (Elt F) fo
          (ReadAs.same.apply ((rowWin 0 (r2 t2) Nat.zero_lt_two).view.read (Elt F)
            (rowSum' d L 0 (r2 t2)
              ((slotWin 0 Nat.zero_lt_two).view.writes (Elt F) f0
                [⟨Rect.whole S8x8x768, ReadAs.same.apply ((xV.slice (Rect.unit (s := S64x576x768) (k0_off447 L (t1of 2)) S8x8x768.size (k0_off447_inb L (t1of 2) cond9_at_2)) (fun _ => rfl)).view.read (Elt F) (m (xLoc d)))⟩]) g))) Finset.univ i
        = outT m d i :=
  outRow0_value m d L (t1of 3) t2 fo _ g (fun k r col => slot0_at_3 (F := F) L f0 (m (xLoc d)) k r col) hg

example (t2 : Fin k0_t2_loop.trips) (fo : Buf (Elt F) (oLoc d)) (f0 : Buf (Elt F) ((thr d L).loc cc0_scratch1))
    (g : Buf (Elt F) ((thr d L).loc cc0_scratch0))
    (hg : ∀ (r : Fin 8) (col : Fin 768), g (ix2 r col)
      = m (pLoc d) (ix2 (⟨72 * (wid L % 8) + 8 * (t1of 8).val + r.val, seq_lt577 L (t1of 8) r⟩ : Fin 577) col)) :
    ∀ i : S577x64x768.Idx, i ∈ (outRow0 L (t1of 8) t2).view.set →
      (outRow0 L (t1of 8) t2).view.write (Elt F) fo
          (ReadAs.same.apply ((rowWin 0 (r2 t2) Nat.zero_lt_two).view.read (Elt F)
            (rowSum' d L 0 (r2 t2)
              ((slotWin 0 Nat.zero_lt_two).view.writes (Elt F) f0
                [⟨Rect.whole S8x8x768, ReadAs.same.apply ((xV.slice (Rect.unit (s := S64x576x768) (k0_off447 L (t1of 7)) S8x8x768.size (k0_off447_inb L (t1of 7) cond9_at_7)) (fun _ => rfl)).view.read (Elt F) (m (xLoc d)))⟩]) g))) Finset.univ i
        = outT m d i :=
  outRow0_value m d L (t1of 8) t2 fo _ g (fun k r col => slot0_at_8 (F := F) L f0 (m (xLoc d)) k r col) hg

example (t3 : Fin k0_t3_loop.trips) (fo : Buf (Elt F) (oLoc d)) (f0 : Buf (Elt F) ((thr d L).loc cc0_scratch1))
    (g : Buf (Elt F) ((thr d L).loc cc0_scratch0))
    (hg : ∀ (r : Fin 8) (col : Fin 768), g (ix2 r col)
      = m (pLoc d) (ix2 (⟨72 * (wid L % 8) + 8 * (t1of 0).val + r.val, seq_lt577 L (t1of 0) r⟩ : Fin 577) col)) :
    ∀ i : S577x64x768.Idx, i ∈ (outRow1 L (t1of 0) t3).view.set →
      (outRow1 L (t1of 0) t3).view.write (Elt F) fo
          (ReadAs.same.apply ((rowWin 1 (r3 t3) Nat.one_lt_two).view.read (Elt F)
            (rowSum' d L 1 (r3 t3)
              ((slotWin 1 Nat.one_lt_two).view.writes (Elt F) f0
                [⟨Rect.whole S8x8x768, ReadAs.same.apply ((xV.slice (Rect.unit (s := S64x576x768) (k0_off3 L (t1of 0) 8#32) S8x8x768.size (k0_off3_inb L (t1of 0) 1)) (fun _ => rfl)).view.read (Elt F) (m (xLoc d)))⟩]) g))) Finset.univ i
        = outT m d i :=
  outRow1_value m d L (t1of 0) t3 fo _ g (fun k r col => slot1_at_0 (F := F) L f0 (m (xLoc d)) k r col) hg

example (t3 : Fin k0_t3_loop.trips) (fo : Buf (Elt F) (oLoc d)) (f0 : Buf (Elt F) ((thr d L).loc cc0_scratch1))
    (g : Buf (Elt F) ((thr d L).loc cc0_scratch0))
    (hg : ∀ (r : Fin 8) (col : Fin 768), g (ix2 r col)
      = m (pLoc d) (ix2 (⟨72 * (wid L % 8) + 8 * (t1of 5).val + r.val, seq_lt577 L (t1of 5) r⟩ : Fin 577) col)) :
    ∀ i : S577x64x768.Idx, i ∈ (outRow1 L (t1of 5) t3).view.set →
      (outRow1 L (t1of 5) t3).view.write (Elt F) fo
          (ReadAs.same.apply ((rowWin 1 (r3 t3) Nat.one_lt_two).view.read (Elt F)
            (rowSum' d L 1 (r3 t3)
              ((slotWin 1 Nat.one_lt_two).view.writes (Elt F) f0
                [⟨Rect.whole S8x8x768, ReadAs.same.apply ((xV.slice (Rect.unit (s := S64x576x768) (k0_off3 L (t1of 5) 8#32) S8x8x768.size (k0_off3_inb L (t1of 5) 1)) (fun _ => rfl)).view.read (Elt F) (m (xLoc d)))⟩]) g))) Finset.univ i
        = outT m d i :=
  outRow1_value m d L (t1of 5) t3 fo _ g (fun k r col => slot1_at_5 (F := F) L f0 (m (xLoc d)) k r col) hg

end Meets

end Cert.KernelIdeal.Hand

end
-- ==== Proof.ClsValueI.lean ====
/-
  The class-token rows, as a function of the staging buffer.

  The first worker of a group builds the class-token row in rows 0 .. 7 of entry [0, 0] of the staging buffer: for
  each of the 48 lane groups it forms once the sum of the class token's sixteen features and the last position row's,
  and stores it into the eight rows. Box number n is row n % 8 of lane group n / 8; after the first n boxes the
  buffer is the buffer it started from with the sum in place on exactly those boxes (`Scls … n`), and after all 384
  every entry (0, 0, k, col) holds the token's feature plus the position row's.
-/
import proofs.«204390_g6468220748199_cont_9to1_m_1136_17_alg».proof.Proof.SlotGeomI
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.ValueIdx
open Idealize.ShloMosaic.SparseCore (S V T)

variable {F : FTy → Type} [FloatOps F]

variable (d : Dev nD) (L : grid0.Coords)

/-- The staging buffer after the first `n` boxes of entry [0, 0] have been given the sum of `T` and `P`. -/
def Scls (h : Buf (Elt F) ((thr d L).loc cc0_scratch1)) (T P : Fin 768 → F .f32) (n : ℕ) :
    Buf (Elt F) ((thr d L).loc cc0_scratch1) :=
  fun i => if (i 0).val = 0 ∧ (i 1).val = 0 ∧ 8 * ((i 3).val / 16) + (i 2).val < n then
      FloatOps.addf (T ⟨(i 3).val, (i 3).isLt⟩) (P ⟨(i 3).val, (i 3).isLt⟩)
    else h i

theorem Scls_zero (h : Buf (Elt F) ((thr d L).loc cc0_scratch1)) (T P : Fin 768 → F .f32) : Scls d L h T P 0 = h := by
  funext i
  unfold Scls
  rw [if_neg fun hc => Nat.not_lt_zero _ hc.2.2]

/-- After all 384 boxes, entry `(0, 0, k, col)` holds the sum. -/
theorem Scls_full_apply (h : Buf (Elt F) ((thr d L).loc cc0_scratch1)) (T P : Fin 768 → F .f32) (k : Fin 8) (col : Fin 768) :
    Scls d L h T P 384 (ix4 (⟨0, Nat.zero_lt_two⟩ : Fin 2) (⟨0, by omega⟩ : Fin 8) k col) = FloatOps.addf (T col) (P col) := by
  have hk := k.isLt
  have hc := col.isLt
  unfold Scls
  exact if_pos ⟨rfl, rfl, by show 8 * (col.val / 16) + k.val < 384; omega⟩

/-- Off entry [0, 0] nothing changes. -/
theorem Scls_off (h : Buf (Elt F) ((thr d L).loc cc0_scratch1)) (T P : Fin 768 → F .f32) (n : ℕ) (i : S2x8x8x768.Idx)
    (hi : ¬((i 0).val = 0 ∧ (i 1).val = 0)) : Scls d L h T P n i = h i := by
  unfold Scls
  exact if_neg fun hc => hi ⟨hc.1, hc.2.1⟩

/-- The entries of box `n`. -/
theorem mem_boxC {offA : Fin 4 → Nat} (inbA : ∀ a, offA a + S1x1x1x16.size a ≤ S2x8x8x768.size a)
    {n : ℕ} (hA : offA = ![0, 0, n % 8, 16 * (n / 8)]) (i : S2x8x8x768.Idx) :
    i ∈ ((slotV : Memref sig .scVector .vmem S2x8x8x768 .f32).access (Rect.unit (s := S2x8x8x768) offA S1x1x1x16.size inbA)).set
      ↔ (i 0).val = 0 ∧ (i 1).val = 0 ∧ (i 2).val = n % 8 ∧ 16 * (n / 8) ≤ (i 3).val ∧ (i 3).val < 16 * (n / 8) + 16 := by
  subst hA
  show i ∈ ((View.whole (cc0_scratch1 : Ref sig .scVector)).slice
    (Rect.unit (s := S2x8x8x768) ![0, 0, n % 8, 16 * (n / 8)] S1x1x1x16.size inbA)).set ↔ _
  rw [View.set_slice_whole, Rect.mem_set_unit]
  constructor
  · intro h
    have h0 : 0 ≤ (i 0).val ∧ (i 0).val < 0 + 1 := h 0
    have h1 : 0 ≤ (i 1).val ∧ (i 1).val < 0 + 1 := h 1
    have h2 : n % 8 ≤ (i 2).val ∧ (i 2).val < n % 8 + 1 := h 2
    have h3 : 16 * (n / 8) ≤ (i 3).val ∧ (i 3).val < 16 * (n / 8) + 16 := h 3
    omega
  · intro h a
    match a with
    | ⟨0, _⟩ => show 0 ≤ (i 0).val ∧ (i 0).val < 0 + 1; omega
    | ⟨1, _⟩ => show 0 ≤ (i 1).val ∧ (i 1).val < 0 + 1; omega
    | ⟨2, _⟩ => show n % 8 ≤ (i 2).val ∧ (i 2).val < n % 8 + 1; omega
    | ⟨3, _⟩ => show 16 * (n / 8) ≤ (i 3).val ∧ (i 3).val < 16 * (n / 8) + 16; omega

/-- One box, with the payload a variable: if the payload at each entry of box `n` is the sum of `T` and `P` at the
    entry's feature, writing it turns the buffer after `n` boxes into the buffer after `n + 1`. -/
theorem Scls_write (h : Buf (Elt F) ((thr d L).loc cc0_scratch1)) (T P : Fin 768 → F .f32) (n : ℕ)
    {offA : Fin 4 → Nat} (inbA : ∀ a, offA a + S1x1x1x16.size a ≤ S2x8x8x768.size a)
    (hA : offA = ![0, 0, n % 8, 16 * (n / 8)]) (w : S1x1x1x16.Idx → Elt F .f32)
    (hw : ∀ x : S1x1x1x16.Idx,
      w x = FloatOps.addf (T ⟨((((slotV : Memref sig .scVector .vmem S2x8x8x768 .f32).access (Rect.unit (s := S2x8x8x768) offA S1x1x1x16.size inbA)).emb x) 3).val, ((((slotV : Memref sig .scVector .vmem S2x8x8x768 .f32).access (Rect.unit (s := S2x8x8x768) offA S1x1x1x16.size inbA)).emb x) 3).isLt⟩)
        (P ⟨((((slotV : Memref sig .scVector .vmem S2x8x8x768 .f32).access (Rect.unit (s := S2x8x8x768) offA S1x1x1x16.size inbA)).emb x) 3).val, ((((slotV : Memref sig .scVector .vmem S2x8x8x768 .f32).access (Rect.unit (s := S2x8x8x768) offA S1x1x1x16.size inbA)).emb x) 3).isLt⟩)) :
    View.write (Elt F) ((slotV : Memref sig .scVector .vmem S2x8x8x768 .f32).access (Rect.unit (s := S2x8x8x768) offA S1x1x1x16.size inbA)) (Scls d L h T P n) w Finset.univ = Scls d L h T P (n + 1) := by
  funext i
  have h2 : (i 2).val < 8 := (i 2).isLt
  by_cases hi : i ∈ ((slotV : Memref sig .scVector .vmem S2x8x8x768 .f32).access (Rect.unit (s := S2x8x8x768) offA S1x1x1x16.size inbA)).set
  · obtain ⟨x, -, hx⟩ := Finset.mem_map.mp hi
    obtain ⟨e0, e1, e2, e3l, e3h⟩ := (mem_boxC inbA hA i).mp hi
    have hwv : View.write (Elt F) ((slotV : Memref sig .scVector .vmem S2x8x8x768 .f32).access (Rect.unit (s := S2x8x8x768) offA S1x1x1x16.size inbA)) (Scls d L h T P n) w Finset.univ i = w x := by
      rw [← hx]
      exact (View.write_emb_of_mem (v := ((slotV : Memref sig .scVector .vmem S2x8x8x768 .f32).access (Rect.unit (s := S2x8x8x768) offA S1x1x1x16.size inbA))) (Scls d L h T P n) w (Finset.mem_univ x)).trans (cast_eq _ _)
    have hn2 : (i 0).val = 0 ∧ (i 1).val = 0 ∧ 8 * ((i 3).val / 16) + (i 2).val < n + 1 := by omega
    rw [hwv, hw x, hx]
    unfold Scls
    rw [if_pos hn2]
  · have hi' : i ∉ ((slotV : Memref sig .scVector .vmem S2x8x8x768 .f32).access (Rect.unit (s := S2x8x8x768) offA S1x1x1x16.size inbA)).setOn Finset.univ := hi
    rw [View.write_of_not_mem (v := ((slotV : Memref sig .scVector .vmem S2x8x8x768 .f32).access (Rect.unit (s := S2x8x8x768) offA S1x1x1x16.size inbA))) (Scls d L h T P n) w Finset.univ hi']
    have hb := (mem_boxC inbA hA i).not.mp hi
    unfold Scls
    by_cases hc : (i 0).val = 0 ∧ (i 1).val = 0 ∧ 8 * ((i 3).val / 16) + (i 2).val < n
    · have hc' : (i 0).val = 0 ∧ (i 1).val = 0 ∧ 8 * ((i 3).val / 16) + (i 2).val < n + 1 := ⟨hc.1, hc.2.1, by omega⟩
      rw [if_pos hc, if_pos hc']
    · have hc' : ¬((i 0).val = 0 ∧ (i 1).val = 0 ∧ 8 * ((i 3).val / 16) + (i 2).val < n + 1) := by omega
      rw [if_neg hc, if_neg hc']

/-- One box, in the spelling of the program's run: the sum of the token's sixteen features and the last position
    row's, both read from entry [1, 0] of the buffer (at whatever stage `n'` of the stores: those rows never change),
    stored into box `n`. `T` and `P` are what entry [1, 0, 0] and entry [1, 0, 1] hold. -/
theorem Scls_step (h : Buf (Elt F) ((thr d L).loc cc0_scratch1)) (T P : Fin 768 → F .f32) (n n' : ℕ)
    {offA offT offP : Fin 4 → Nat} (inbA : ∀ a, offA a + S1x1x1x16.size a ≤ S2x8x8x768.size a)
    (inbT : ∀ a, offT a + S1x1x1x16.size a ≤ S2x8x8x768.size a) (inbP : ∀ a, offP a + S1x1x1x16.size a ≤ S2x8x8x768.size a)
    (hA : offA = ![0, 0, n % 8, 16 * (n / 8)]) (hT : offT = ![1, 0, 0, 16 * (n / 8)]) (hP : offP = ![1, 0, 1, 16 * (n / 8)])
    (hTv : ∀ c : Fin 768, T c = h (ix4 (⟨1, Nat.one_lt_two⟩ : Fin 2) (⟨0, by omega⟩ : Fin 8) (⟨0, by omega⟩ : Fin 8) c))
    (hPv : ∀ c : Fin 768, P c = h (ix4 (⟨1, Nat.one_lt_two⟩ : Fin 2) (⟨0, by omega⟩ : Fin 8) (⟨1, by omega⟩ : Fin 8) c)) :
    View.write (Elt F) ((slotV : Memref sig .scVector .vmem S2x8x8x768 .f32).access (Rect.unit (s := S2x8x8x768) offA S1x1x1x16.size inbA)) (Scls d L h T P n)
        (shapeCast S1x1x1x16
          (addf
            (shapeCast S16 (View.readAt (Elt F) (slotV : Memref sig .scVector .vmem S2x8x8x768 .f32).view (Rect.unit (s := S2x8x8x768) offT S1x1x1x16.size inbT).toLoadRect (Scls d L h T P n')) shapeCasts_S1x1x1x16_S16)
            (shapeCast S16 (View.readAt (Elt F) (slotV : Memref sig .scVector .vmem S2x8x8x768 .f32).view (Rect.unit (s := S2x8x8x768) offP S1x1x1x16.size inbP).toLoadRect (Scls d L h T P n')) shapeCasts_S1x1x1x16_S16))
          shapeCasts_S16_S1x1x1x16) Finset.univ
      = Scls d L h T P (n + 1) := by
  refine Scls_write d L h T P n inbA hA _ fun x => ?_
  have x0 : (x 0).val < 1 := (x 0).isLt
  have x1 : (x 1).val < 1 := (x 1).isLt
  have x2 : (x 2).val < 1 := (x 2).isLt
  rw [shapeCast_apply _ shapeCasts_S16_S1x1x1x16 x (ix1 (x 3)) (by
    rw [Shape.rowMajor_val_one, Shape.rowMajor_val_four]
    show (x 3).val = (((x 0).val * 1 + (x 1).val) * 1 + (x 2).val) * 16 + (x 3).val
    omega)]
  show FloatOps.addf
      (shapeCast S16 (View.readAt (Elt F) (slotV : Memref sig .scVector .vmem S2x8x8x768 .f32).view (Rect.unit (s := S2x8x8x768) offT S1x1x1x16.size inbT).toLoadRect (Scls d L h T P n')) shapeCasts_S1x1x1x16_S16 (ix1 (x 3)))
      (shapeCast S16 (View.readAt (Elt F) (slotV : Memref sig .scVector .vmem S2x8x8x768 .f32).view (Rect.unit (s := S2x8x8x768) offP S1x1x1x16.size inbP).toLoadRect (Scls d L h T P n')) shapeCasts_S1x1x1x16_S16 (ix1 (x 3))) = _
  have hrm : (S1x1x1x16.rowMajor x).val = (S16.rowMajor (ix1 (x 3))).val := by
    rw [Shape.rowMajor_val_one, Shape.rowMajor_val_four]
    show (((x 0).val * 1 + (x 1).val) * 1 + (x 2).val) * 16 + (x 3).val = (x 3).val
    omega
  rw [shapeCast_apply _ shapeCasts_S1x1x1x16_S16 (ix1 (x 3)) x hrm, shapeCast_apply _ shapeCasts_S1x1x1x16_S16 (ix1 (x 3)) x hrm]

  have hTr : View.readAt (Elt F) (slotV : Memref sig .scVector .vmem S2x8x8x768 .f32).view (Rect.unit (s := S2x8x8x768) offT S1x1x1x16.size inbT).toLoadRect (Scls d L h T P n') x
      = T ⟨((((slotV : Memref sig .scVector .vmem S2x8x8x768 .f32).access (Rect.unit (s := S2x8x8x768) offA S1x1x1x16.size inbA)).emb x) 3).val, ((((slotV : Memref sig .scVector .vmem S2x8x8x768 .f32).access (Rect.unit (s := S2x8x8x768) offA S1x1x1x16.size inbA)).emb x) 3).isLt⟩ := by
    have e1 : View.readAt (Elt F) (slotV : Memref sig .scVector .vmem S2x8x8x768 .f32).view (Rect.unit (s := S2x8x8x768) offT S1x1x1x16.size inbT).toLoadRect (Scls d L h T P n') x
        = Scls d L h T P n' (((slotV : Memref sig .scVector .vmem S2x8x8x768 .f32).access (Rect.unit (s := S2x8x8x768) offT S1x1x1x16.size inbT)).emb x) := by
      first
        | rfl
        | exact cast_eq _ _
    have c0 : ((((slotV : Memref sig .scVector .vmem S2x8x8x768 .f32).access (Rect.unit (s := S2x8x8x768) offT S1x1x1x16.size inbT)).emb x) 0).val = 1 + 1 * (x 0).val := by subst hT; rfl
    rw [e1, Scls_off d L h T P n' _ (by omega), hTv]
    refine congrArg h (funext fun a => Fin.ext ?_)
    subst hA hT
    match a with
    | ⟨0, _⟩ => show 1 + 1 * (x 0).val = 1; omega
    | ⟨1, _⟩ => show 0 + 1 * (x 1).val = 0; omega
    | ⟨2, _⟩ => show 0 + 1 * (x 2).val = 0; omega
    | ⟨3, _⟩ => show 16 * (n / 8) + 1 * (x 3).val = 16 * (n / 8) + 1 * (x 3).val; rfl

  have hPr : View.readAt (Elt F) (slotV : Memref sig .scVector .vmem S2x8x8x768 .f32).view (Rect.unit (s := S2x8x8x768) offP S1x1x1x16.size inbP).toLoadRect (Scls d L h T P n') x
      = P ⟨((((slotV : Memref sig .scVector .vmem S2x8x8x768 .f32).access (Rect.unit (s := S2x8x8x768) offA S1x1x1x16.size inbA)).emb x) 3).val, ((((slotV : Memref sig .scVector .vmem S2x8x8x768 .f32).access (Rect.unit (s := S2x8x8x768) offA S1x1x1x16.size inbA)).emb x) 3).isLt⟩ := by
    have e1 : View.readAt (Elt F) (slotV : Memref sig .scVector .vmem S2x8x8x768 .f32).view (Rect.unit (s := S2x8x8x768) offP S1x1x1x16.size inbP).toLoadRect (Scls d L h T P n') x
        = Scls d L h T P n' (((slotV : Memref sig .scVector .vmem S2x8x8x768 .f32).access (Rect.unit (s := S2x8x8x768) offP S1x1x1x16.size inbP)).emb x) := by
      first
        | rfl
        | exact cast_eq _ _
    have c0 : ((((slotV : Memref sig .scVector .vmem S2x8x8x768 .f32).access (Rect.unit (s := S2x8x8x768) offP S1x1x1x16.size inbP)).emb x) 0).val = 1 + 1 * (x 0).val := by subst hP; rfl
    rw [e1, Scls_off d L h T P n' _ (by omega), hPv]
    refine congrArg h (funext fun a => Fin.ext ?_)
    subst hA hP
    match a with
    | ⟨0, _⟩ => show 1 + 1 * (x 0).val = 1; omega
    | ⟨1, _⟩ => show 0 + 1 * (x 1).val = 0; omega
    | ⟨2, _⟩ => show 1 + 1 * (x 2).val = 1; omega
    | ⟨3, _⟩ => show 16 * (n / 8) + 1 * (x 3).val = 16 * (n / 8) + 1 * (x 3).val; rfl
  rw [hTr, hPr]

/-- The same with the contents written over and the contents read named apart. -/
theorem Scls_step' (h : Buf (Elt F) ((thr d L).loc cc0_scratch1)) (T P : Fin 768 → F .f32) (n n' : ℕ)
    {offA offT offP : Fin 4 → Nat} (inbA : ∀ a, offA a + S1x1x1x16.size a ≤ S2x8x8x768.size a)
    (inbT : ∀ a, offT a + S1x1x1x16.size a ≤ S2x8x8x768.size a) (inbP : ∀ a, offP a + S1x1x1x16.size a ≤ S2x8x8x768.size a)
    (hA : offA = ![0, 0, n % 8, 16 * (n / 8)]) (hT : offT = ![1, 0, 0, 16 * (n / 8)]) (hP : offP = ![1, 0, 1, 16 * (n / 8)])
    (hTv : ∀ c : Fin 768, T c = h (ix4 (⟨1, Nat.one_lt_two⟩ : Fin 2) (⟨0, by omega⟩ : Fin 8) (⟨0, by omega⟩ : Fin 8) c))
    (hPv : ∀ c : Fin 768, P c = h (ix4 (⟨1, Nat.one_lt_two⟩ : Fin 2) (⟨0, by omega⟩ : Fin 8) (⟨1, by omega⟩ : Fin 8) c))
    (prev rd : Buf (Elt F) ((thr d L).loc cc0_scratch1)) (hprev : prev = Scls d L h T P n) (hrd : rd = Scls d L h T P n') :
    View.write (Elt F) ((slotV : Memref sig .scVector .vmem S2x8x8x768 .f32).access (Rect.unit (s := S2x8x8x768) offA S1x1x1x16.size inbA)) prev
        (shapeCast S1x1x1x16
          (addf
            (shapeCast S16 (View.readAt (Elt F) (slotV : Memref sig .scVector .vmem S2x8x8x768 .f32).view (Rect.unit (s := S2x8x8x768) offT S1x1x1x16.size inbT).toLoadRect rd) shapeCasts_S1x1x1x16_S16)
            (shapeCast S16 (View.readAt (Elt F) (slotV : Memref sig .scVector .vmem S2x8x8x768 .f32).view (Rect.unit (s := S2x8x8x768) offP S1x1x1x16.size inbP).toLoadRect rd) shapeCasts_S1x1x1x16_S16))
          shapeCasts_S16_S1x1x1x16) Finset.univ
      = Scls d L h T P (n + 1) := by
  subst hprev hrd
  exact Scls_step d L h T P n n' inbA inbT inbP hA hT hP hTv hPv

end Cert.KernelIdeal.Hand

end
-- ==== Proof.ClsLandI.lean ====
/-
  The two small copies of the class-token branch, element by element.

  Before the first worker of a group forms the class-token row, it copies the class token's 768 features into entry
  [1, 0, 0] of the staging buffer and the last row (row 576) of the position table into entry [1, 0, 1]. Written at
  explicit coordinates: after the two copies, whichever way their landing is recorded, staging entry (1, 0, 0, col)
  holds the token's feature col and staging entry (1, 0, 1, col) holds table entry (576, col); nothing else changes.
-/
import proofs.«204390_g6468220748199_cont_9to1_m_1136_17_alg».proof.Proof.ValueBlocksI

noncomputable section

namespace Cert.KernelIdeal.Hand

open Cert.KernelIdeal Cert.KernelIdeal.Gen
open Idealize.ShloMosaic Idealize.ShloMosaic.ValueIdx
open Idealize.ShloMosaic.SparseCore (S V T)

variable {F : FTy → Type} [FloatOps F]

/-! ## Where the windows' entries sit -/

/-- Entry `(a, col)` of the window [1, 1, 1, 768] at `(o0, o1, o2, 0)` of the staging buffer, its unit axes dropped,
    is staging entry `(o0, o1, o2, col)`. -/
theorem emb_slotRow1 {off : Fin S2x8x8x768.rank → Nat} {inb : ∀ a, off a + S1x1x1x768.size a ≤ S2x8x8x768.size a}
    {o0 o1 o2 : ℕ} (ho : off = ![o0, o1, o2, 0]) (a : Fin 1) (col : Fin 768) (h0 : o0 < 2) (h1 : o1 < 8) (h2 : o2 < 8) :
    ((slotV.slice (Rect.unit (s := S2x8x8x768) off S1x1x1x768.size inb) (fun _ => rfl)).squeeze S1x768 squeezes_S1x1x1x768_S1x768).view.emb (ix2 a col) = (ix4 (⟨o0, h0⟩ : Fin 2) (⟨o1, h1⟩ : Fin 8) (⟨o2, h2⟩ : Fin 8) col : S2x8x8x768.Idx) := by
  subst ho
  show (Rect.unit (s := S2x8x8x768) ![o0, o1, o2, 0] S1x1x1x768.size inb).emb
    (Shape.reshapeEquiv squeezes_S1x1x1x768_S1x768.numel_eq (ix2 a col)) = _
  rw [reshapeEquiv_ix2_11ab]
  have ha : a.val < 1 := a.isLt
  funext ax
  apply Fin.ext
  match ax with
  | ⟨0, _⟩ => show o0 + 1 * 0 = o0; omega
  | ⟨1, _⟩ => show o1 + 1 * 0 = o1; omega
  | ⟨2, _⟩ => show o2 + 1 * a.val = o2; omega
  | ⟨3, _⟩ => show 0 + 1 * col.val = col.val; omega

/-- Entry `(a, col)` of the class token's window is the token's feature `col`. -/
theorem emb_tokSrc (a : Fin 1) (col : Fin 768) :
    ((tV.slice (Rect.unit (s := S1x1x768) ![0, 0, 0] S1x1x768.size inb_S1x1x768_S1x1x768_0_0_0) (fun _ => rfl)).squeeze S1x768 squeezes_S1x1x768_S1x768).view.emb (ix2 a col) = (ix3 (0 : Fin 1) (0 : Fin 1) col : S1x1x768.Idx) := by
  show (Rect.unit (s := S1x1x768) ![0, 0, 0] S1x1x768.size inb_S1x1x768_S1x1x768_0_0_0).emb
    (Shape.reshapeEquiv squeezes_S1x1x768_S1x768.numel_eq (ix2 a col)) = _
  rw [reshapeEquiv_ix2_1ab]
  have ha : a.val < 1 := a.isLt
  funext ax
  apply Fin.ext
  match ax with
  | ⟨0, _⟩ => show 0 + 1 * 0 = 0; omega
  | ⟨1, _⟩ => show 0 + 1 * a.val = 0; omega
  | ⟨2, _⟩ => show 0 + 1 * col.val = col.val; omega

/-- Entry `(a, col)` of the last position row's window is table entry `(576, col)`. -/
theorem emb_posLast (a : Fin 1) (col : Fin 768) :
    (pV.slice (Rect.unit (s := S577x768) ![576, 0] S1x768.size inb_S577x768_S1x768_576_0) (fun _ => rfl)).view.emb (ix2 a col) = (ix2 (⟨576, Nat.lt_succ_self 576⟩ : Fin 577) col : S577x768.Idx) := by
  have ha : a.val < 1 := a.isLt
  funext ax
  apply Fin.ext
  match ax with
  | ⟨0, _⟩ => show 576 + 1 * a.val = 576; omega
  | ⟨1, _⟩ => show 0 + 1 * col.val = col.val; omega

/-! ## The sources read -/

theorem tokSrc_read (ft : ((tV.slice (Rect.unit (s := S1x1x768) ![0, 0, 0] S1x1x768.size inb_S1x1x768_S1x1x768_0_0_0) (fun _ => rfl)).squeeze S1x768 squeezes_S1x1x768_S1x768).view.ty.Contents (Elt F)) (a : Fin 1) (col : Fin 768) :
    ReadAs.same.apply (((tV.slice (Rect.unit (s := S1x1x768) ![0, 0, 0] S1x1x768.size inb_S1x1x768_S1x1x768_0_0_0) (fun _ => rfl)).squeeze S1x768 squeezes_S1x1x768_S1x768).view.read (Elt F) ft) (ix2 a col) = ft (ix3 (0 : Fin 1) (0 : Fin 1) col) := by
  show ((tV.slice (Rect.unit (s := S1x1x768) ![0, 0, 0] S1x1x768.size inb_S1x1x768_S1x1x768_0_0_0) (fun _ => rfl)).squeeze S1x768 squeezes_S1x1x768_S1x768).view.read (Elt F) ft (ix2 a col) = _
  rw [View.read_apply, emb_tokSrc]
  first
    | rfl
    | exact cast_eq _ _

theorem posLast_read (fp : (pV.slice (Rect.unit (s := S577x768) ![576, 0] S1x768.size inb_S577x768_S1x768_576_0) (fun _ => rfl)).view.ty.Contents (Elt F)) (a : Fin 1) (col : Fin 768) :
    ReadAs.same.apply ((pV.slice (Rect.unit (s := S577x768) ![576, 0] S1x768.size inb_S577x768_S1x768_576_0) (fun _ => rfl)).view.read (Elt F) fp) (ix2 a col) = fp (ix2 (⟨576, Nat.lt_succ_self 576⟩ : Fin 577) col) := by
  show (pV.slice (Rect.unit (s := S577x768) ![576, 0] S1x768.size inb_S577x768_S1x768_576_0) (fun _ => rfl)).view.read (Elt F) fp (ix2 a col) = _
  rw [View.read_apply, emb_posLast]
  first
    | rfl
    | exact cast_eq _ _

/-! ## A row landing in its window of the staging buffer, in either record of the landing -/

/-- Recorded as one write through the window. -/
theorem slotRow1_lands_write {off : Fin S2x8x8x768.rank → Nat} {inb : ∀ a, off a + S1x1x1x768.size a ≤ S2x8x8x768.size a}
    {o0 o1 o2 : ℕ} (ho : off = ![o0, o1, o2, 0]) (h : ((slotV.slice (Rect.unit (s := S2x8x8x768) off S1x1x1x768.size inb) (fun _ => rfl)).squeeze S1x768 squeezes_S1x1x1x768_S1x768).view.ty.Contents (Elt F)) (w : S1x768.Idx → Elt F .f32)
    (a : Fin 1) (col : Fin 768) (h0 : o0 < 2) (h1 : o1 < 8) (h2 : o2 < 8) :
    ((slotV.slice (Rect.unit (s := S2x8x8x768) off S1x1x1x768.size inb) (fun _ => rfl)).squeeze S1x768 squeezes_S1x1x1x768_S1x768).view.write (Elt F) h w Finset.univ (ix4 (⟨o0, h0⟩ : Fin 2) (⟨o1, h1⟩ : Fin 8) (⟨o2, h2⟩ : Fin 8) col)
      = w (ix2 a col) := by
  rw [← emb_slotRow1 ho a col h0 h1 h2]
  exact (View.write_emb_of_mem (v := ((slotV.slice (Rect.unit (s := S2x8x8x768) off S1x1x1x768.size inb) (fun _ => rfl)).squeeze S1x768 squeezes_S1x1x1x768_S1x768).view) h w (Finset.mem_univ _)).trans (cast_eq _ _)

/-- Recorded as a list of one write of the whole window. -/
theorem slotRow1_lands_writes {off : Fin S2x8x8x768.rank → Nat} {inb : ∀ a, off a + S1x1x1x768.size a ≤ S2x8x8x768.size a}
    {o0 o1 o2 : ℕ} (ho : off = ![o0, o1, o2, 0]) (h : ((slotV.slice (Rect.unit (s := S2x8x8x768) off S1x1x1x768.size inb) (fun _ => rfl)).squeeze S1x768 squeezes_S1x1x1x768_S1x768).view.ty.Contents (Elt F)) (w : S1x768.Idx → Elt F .f32)
    (a : Fin 1) (col : Fin 768) (h0 : o0 < 2) (h1 : o1 < 8) (h2 : o2 < 8) :
    ((slotV.slice (Rect.unit (s := S2x8x8x768) off S1x1x1x768.size inb) (fun _ => rfl)).squeeze S1x768 squeezes_S1x1x1x768_S1x768).view.writes (Elt F) h [⟨Rect.whole S1x768, w⟩] (ix4 (⟨o0, h0⟩ : Fin 2) (⟨o1, h1⟩ : Fin 8) (⟨o2, h2⟩ : Fin 8) col)
      = w (ix2 a col) :=
  slotRow1_lands_write ho h w a col h0 h1 h2 |> fun e => by
    have hw : ((slotV.slice (Rect.unit (s := S2x8x8x768) off S1x1x1x768.size inb) (fun _ => rfl)).squeeze S1x768 squeezes_S1x1x1x768_S1x768).view.writes (Elt F) h [⟨Rect.whole S1x768, w⟩]
        = (((slotV.slice (Rect.unit (s := S2x8x8x768) off S1x1x1x768.size inb) (fun _ => rfl)).squeeze S1x768 squeezes_S1x1x1x768_S1x768).view.slice (Rect.whole S1x768)).write (Elt F) h w Finset.univ := rfl
    rw [hw, ← emb_slotRow1 ho a col h0 h1 h2]
    have he : (((slotV.slice (Rect.unit (s := S2x8x8x768) off S1x1x1x768.size inb) (fun _ => rfl)).squeeze S1x768 squeezes_S1x1x1x768_S1x768).view.slice (Rect.whole S1x768)).emb (ix2 a col) = ((slotV.slice (Rect.unit (s := S2x8x8x768) off S1x1x1x768.size inb) (fun _ => rfl)).squeeze S1x768 squeezes_S1x1x1x768_S1x768).view.emb (ix2 a col) := by
      show ((slotV.slice (Rect.unit (s := S2x8x8x768) off S1x1x1x768.size inb) (fun _ => rfl)).squeeze S1x768 squeezes_S1x1x1x768_S1x768).view.emb ((Rect.whole S1x768).emb (ix2 a col)) = _
      rw [whole_emb]
    rw [← he]
    exact (View.write_emb_of_mem (v := ((slotV.slice (Rect.unit (s := S2x8x8x768) off S1x1x1x768.size inb) (fun _ => rfl)).squeeze S1x768 squeezes_S1x1x1x768_S1x768).view.slice (Rect.whole S1x768)) h w (Finset.mem_univ _)).trans (cast_eq _ _)

/-- The entries of the window. -/
theorem mem_slotRow1 {off : Fin S2x8x8x768.rank → Nat} {inb : ∀ a, off a + S1x1x1x768.size a ≤ S2x8x8x768.size a}
    {o0 o1 o2 : ℕ} (ho : off = ![o0, o1, o2, 0]) (i : S2x8x8x768.Idx) :
    i ∈ ((slotV.slice (Rect.unit (s := S2x8x8x768) off S1x1x1x768.size inb) (fun _ => rfl)).squeeze S1x768 squeezes_S1x1x1x768_S1x768).view.set ↔ (i 0).val = o0 ∧ (i 1).val = o1 ∧ (i 2).val = o2 := by
  subst ho
  show i ∈ (((View.whole (cc0_scratch1 : Ref sig .scVector)).slice
      (Rect.unit (s := S2x8x8x768) ![o0, o1, o2, 0] S1x1x1x768.size inb)).reshape S1x768 squeezes_S1x1x1x768_S1x768.numel_eq).set ↔ _
  rw [View.set_reshape, View.set_slice_whole, Rect.mem_set_unit]
  have h3 : (i 3).val < 768 := (i 3).isLt
  constructor
  · intro h
    have e0 : o0 ≤ (i 0).val ∧ (i 0).val < o0 + 1 := h 0
    have e1 : o1 ≤ (i 1).val ∧ (i 1).val < o1 + 1 := h 1
    have e2 : o2 ≤ (i 2).val ∧ (i 2).val < o2 + 1 := h 2
    omega
  · intro h a
    match a with
    | ⟨0, _⟩ => show o0 ≤ (i 0).val ∧ (i 0).val < o0 + 1; omega
    | ⟨1, _⟩ => show o1 ≤ (i 1).val ∧ (i 1).val < o1 + 1; omega
    | ⟨2, _⟩ => show o2 ≤ (i 2).val ∧ (i 2).val < o2 + 1; omega
    | ⟨3, _⟩ => show 0 ≤ (i 3).val ∧ (i 3).val < 0 + 768; omega

/-- Off the window a landed row changes nothing (one write). -/
theorem slotRow1_off_write {off : Fin S2x8x8x768.rank → Nat} {inb : ∀ a, off a + S1x1x1x768.size a ≤ S2x8x8x768.size a}
    {o0 o1 o2 : ℕ} (ho : off = ![o0, o1, o2, 0]) (h : ((slotV.slice (Rect.unit (s := S2x8x8x768) off S1x1x1x768.size inb) (fun _ => rfl)).squeeze S1x768 squeezes_S1x1x1x768_S1x768).view.ty.Contents (Elt F)) (w : S1x768.Idx → Elt F .f32)
    (i : S2x8x8x768.Idx) (hi : ¬((i 0).val = o0 ∧ (i 1).val = o1 ∧ (i 2).val = o2)) :
    ((slotV.slice (Rect.unit (s := S2x8x8x768) off S1x1x1x768.size inb) (fun _ => rfl)).squeeze S1x768 squeezes_S1x1x1x768_S1x768).view.write (Elt F) h w Finset.univ i = h i :=
  View.write_of_not_mem (v := ((slotV.slice (Rect.unit (s := S2x8x8x768) off S1x1x1x768.size inb) (fun _ => rfl)).squeeze S1x768 squeezes_S1x1x1x768_S1x768).view) h w Finset.univ (fun hm => hi ((mem_slotRow1 (inb := inb) ho i).mp hm))

/-- Off the window a landed row changes nothing (a list of one write). -/
theorem slotRow1_off_writes {off : Fin S2x8x8x768.rank → Nat} {inb : ∀ a, off a + S1x1x1x768.size a ≤ S2x8x8x768.size a}
    {o0 o1 o2 : ℕ} (ho : off = ![o0, o1, o2, 0]) (h : ((slotV.slice (Rect.unit (s := S2x8x8x768) off S1x1x1x768.size inb) (fun _ => rfl)).squeeze S1x768 squeezes_S1x1x1x768_S1x768).view.ty.Contents (Elt F)) (w : S1x768.Idx → Elt F .f32)
    (i : S2x8x8x768.Idx) (hi : ¬((i 0).val = o0 ∧ (i 1).val = o1 ∧ (i 2).val = o2)) :
    ((slotV.slice (Rect.unit (s := S2x8x8x768) off S1x1x1x768.size inb) (fun _ => rfl)).squeeze S1x768 squeezes_S1x1x1x768_S1x768).view.writes (Elt F) h [⟨Rect.whole S1x768, w⟩] i = h i := by
  refine View.writes_apply_of_forall_ne ((slotV.slice (Rect.unit (s := S2x8x8x768) off S1x1x1x768.size inb) (fun _ => rfl)).squeeze S1x768 squeezes_S1x1x1x768_S1x768).view h _ fun y hy => hi ?_
  have hm : i ∈ ((slotV.slice (Rect.unit (s := S2x8x8x768) off S1x1x1x768.size inb) (fun _ => rfl)).squeeze S1x768 squeezes_S1x1x1x768_S1x768).view.set := by
    rw [← hy]
    exact ((slotV.slice (Rect.unit (s := S2x8x8x768) off S1x1x1x768.size inb) (fun _ => rfl)).squeeze S1x768 squeezes_S1x1x1x768_S1x768).view.emb_mem_set y
  exact (mem_slotRow1 (inb := inb) ho i).mp hm

/-! ## After both copies -/

section Both

variable (h : (slotV : Memref sig .scVector .vmem S2x8x8x768 .f32).view.ty.Contents (Elt F))
  (ft : (tV : Memref sig .scVector .hbm S1x1x768 .f32).view.ty.Contents (Elt F))
  (fp : (pV : Memref sig .scVector .hbm S577x768 .f32).view.ty.Contents (Elt F))

/-- Both landings recorded as single writes: the token's row. -/
theorem cls_both_tok_write (col : Fin 768) :
    (((slotV.slice (Rect.unit (s := S2x8x8x768) ![1, 0, 1, 0] S1x1x1x768.size inb_S2x8x8x768_S1x1x1x768_1_0_1_0) (fun _ => rfl)).squeeze S1x768 squeezes_S1x1x1x768_S1x768).view.write (Elt F) (((slotV.slice (Rect.unit (s := S2x8x8x768) ![1, 0, 0, 0] S1x1x1x768.size inb_S2x8x8x768_S1x1x1x768_1_0_0_0) (fun _ => rfl)).squeeze S1x768 squeezes_S1x1x1x768_S1x768).view.write (Elt F) h (ReadAs.same.apply (((tV.slice (Rect.unit (s := S1x1x768) ![0, 0, 0] S1x1x768.size inb_S1x1x768_S1x1x768_0_0_0) (fun _ => rfl)).squeeze S1x768 squeezes_S1x1x768_S1x768).view.read (Elt F) ft)) Finset.univ) (ReadAs.same.apply ((pV.slice (Rect.unit (s := S577x768) ![576, 0] S1x768.size inb_S577x768_S1x768_576_0) (fun _ => rfl)).view.read (Elt F) fp)) Finset.univ) (ix4 (⟨1, Nat.one_lt_two⟩ : Fin 2) (⟨0, by omega⟩ : Fin 8) (⟨0, by omega⟩ : Fin 8) col)
      = ft (ix3 (0 : Fin 1) (0 : Fin 1) col) := by
  rw [slotRow1_off_write (o0 := 1) (o1 := 0) (o2 := 1) rfl _ _ _ (by show ¬((1 : ℕ) = 1 ∧ (0 : ℕ) = 0 ∧ (0 : ℕ) = 1); omega)]
  rw [slotRow1_lands_write (o0 := 1) (o1 := 0) (o2 := 0) rfl _ _ (0 : Fin 1) col Nat.one_lt_two (by omega) (by omega)]
  exact tokSrc_read ft 0 col

/-- Both landings recorded as single writes: the last position row. -/
theorem cls_both_pos_write (col : Fin 768) :
    (((slotV.slice (Rect.unit (s := S2x8x8x768) ![1, 0, 1, 0] S1x1x1x768.size inb_S2x8x8x768_S1x1x1x768_1_0_1_0) (fun _ => rfl)).squeeze S1x768 squeezes_S1x1x1x768_S1x768).view.write (Elt F) (((slotV.slice (Rect.unit (s := S2x8x8x768) ![1, 0, 0, 0] S1x1x1x768.size inb_S2x8x8x768_S1x1x1x768_1_0_0_0) (fun _ => rfl)).squeeze S1x768 squeezes_S1x1x1x768_S1x768).view.write (Elt F) h (ReadAs.same.apply (((tV.slice (Rect.unit (s := S1x1x768) ![0, 0, 0] S1x1x768.size inb_S1x1x768_S1x1x768_0_0_0) (fun _ => rfl)).squeeze S1x768 squeezes_S1x1x768_S1x768).view.read (Elt F) ft)) Finset.univ) (ReadAs.same.apply ((pV.slice (Rect.unit (s := S577x768) ![576, 0] S1x768.size inb_S577x768_S1x768_576_0) (fun _ => rfl)).view.read (Elt F) fp)) Finset.univ) (ix4 (⟨1, Nat.one_lt_two⟩ : Fin 2) (⟨0, by omega⟩ : Fin 8) (⟨1, by omega⟩ : Fin 8) col)
      = fp (ix2 (⟨576, Nat.lt_succ_self 576⟩ : Fin 577) col) := by
  rw [slotRow1_lands_write (o0 := 1) (o1 := 0) (o2 := 1) rfl _ _ (0 : Fin 1) col Nat.one_lt_two (by omega) (by omega)]
  exact posLast_read fp 0 col

/-- Both landings recorded as single writes: every other entry is as it was. -/
theorem cls_both_off_write (i : S2x8x8x768.Idx) (hi : ¬((i 0).val = 1 ∧ (i 1).val = 0 ∧ ((i 2).val = 0 ∨ (i 2).val = 1))) :
    (((slotV.slice (Rect.unit (s := S2x8x8x768) ![1, 0, 1, 0] S1x1x1x768.size inb_S2x8x8x768_S1x1x1x768_1_0_1_0) (fun _ => rfl)).squeeze S1x768 squeezes_S1x1x1x768_S1x768).view.write (Elt F) (((slotV.slice (Rect.unit (s := S2x8x8x768) ![1, 0, 0, 0] S1x1x1x768.size inb_S2x8x8x768_S1x1x1x768_1_0_0_0) (fun _ => rfl)).squeeze S1x768 squeezes_S1x1x1x768_S1x768).view.write (Elt F) h (ReadAs.same.apply (((tV.slice (Rect.unit (s := S1x1x768) ![0, 0, 0] S1x1x768.size inb_S1x1x768_S1x1x768_0_0_0) (fun _ => rfl)).squeeze S1x768 squeezes_S1x1x768_S1x768).view.read (Elt F) ft)) Finset.univ) (ReadAs.same.apply ((pV.slice (Rect.unit (s := S577x768) ![576, 0] S1x768.size inb_S577x768_S1x768_576_0) (fun _ => rfl)).view.read (Elt F) fp)) Finset.univ) i = h i := by
  rw [slotRow1_off_write (o0 := 1) (o1 := 0) (o2 := 1) rfl _ _ i (by omega),
    slotRow1_off_write (o0 := 1) (o1 := 0) (o2 := 0) rfl _ _ i (by omega)]

/-- Both landings recorded as lists of one write: the token's row. -/
theorem cls_both_tok_writes (col : Fin 768) :
    (((slotV.slice (Rect.unit (s := S2x8x8x768) ![1, 0, 1, 0] S1x1x1x768.size inb_S2x8x8x768_S1x1x1x768_1_0_1_0) (fun _ => rfl)).squeeze S1x768 squeezes_S1x1x1x768_S1x768).view.writes (Elt F) (((slotV.slice (Rect.unit (s := S2x8x8x768) ![1, 0, 0, 0] S1x1x1x768.size inb_S2x8x8x768_S1x1x1x768_1_0_0_0) (fun _ => rfl)).squeeze S1x768 squeezes_S1x1x1x768_S1x768).view.writes (Elt F) h [⟨Rect.whole S1x768, (ReadAs.same.apply (((tV.slice (Rect.unit (s := S1x1x768) ![0, 0, 0] S1x1x768.size inb_S1x1x768_S1x1x768_0_0_0) (fun _ => rfl)).squeeze S1x768 squeezes_S1x1x768_S1x768).view.read (Elt F) ft))⟩]) [⟨Rect.whole S1x768, (ReadAs.same.apply ((pV.slice (Rect.unit (s := S577x768) ![576, 0] S1x768.size inb_S577x768_S1x768_576_0) (fun _ => rfl)).view.read (Elt F) fp))⟩]) (ix4 (⟨1, Nat.one_lt_two⟩ : Fin 2) (⟨0, by omega⟩ : Fin 8) (⟨0, by omega⟩ : Fin 8) col)
      = ft (ix3 (0 : Fin 1) (0 : Fin 1) col) := by
  rw [slotRow1_off_writes (o0 := 1) (o1 := 0) (o2 := 1) rfl _ _ _ (by show ¬((1 : ℕ) = 1 ∧ (0 : ℕ) = 0 ∧ (0 : ℕ) = 1); omega)]
  rw [slotRow1_lands_writes (o0 := 1) (o1 := 0) (o2 := 0) rfl _ _ (0 : Fin 1) col Nat.one_lt_two (by omega) (by omega)]
  exact tokSrc_read ft 0 col

/-- Both landings recorded as lists of one write: the last position row. -/
theorem cls_both_pos_writes (col : Fin 768) :
    (((slotV.slice (Rect.unit (s := S2x8x8x768) ![1, 0, 1, 0] S1x1x1x768.size inb_S2x8x8x768_S1x1x1x768_1_0_1_0) (fun _ => rfl)).squeeze S1x768 squeezes_S1x1x1x768_S1x768).view.writes (Elt F) (((slotV.slice (Rect.unit (s := S2x8x8x768) ![1, 0, 0, 0] S1x1x1x768.size inb_S2x8x8x768_S1x1x1x768_1_0_0_0) (fun _ => rfl)).squeeze S1x768 squeezes_S1x1x1x768_S1x768).view.writes (Elt F) h [⟨Rect.whole S1x768, (ReadAs.same.apply (((tV.slice (Rect.unit (s := S1x1x768) ![0, 0, 0] S1x1x768.size inb_S1x1x768_S1x1x768_0_0_0) (fun _ => rfl)).squeeze S1x768 squeezes_S1x1x768_S1x768).view.read (Elt F) ft))⟩]) [⟨Rect.whole S1x768, (ReadAs.same.apply ((pV.slice (Rect.unit (s := S577x768) ![576, 0] S1x768.size inb_S577x768_S1x768_576_0) (fun _ => rfl)).view.read (Elt F) fp))⟩]) (ix4 (⟨1, Nat.one_lt_two⟩ : Fin 2) (⟨0, by omega⟩ : Fin 8) (⟨1, by omega⟩ : Fin 8) col)
      = fp (ix2 (⟨576, Nat.lt_succ_self 576⟩ : Fin 577) col) := by
  rw [slotRow1_lands_writes (o0 := 1) (o1 := 0) (o2 := 1) rfl _ _ (0 : Fin 1) col Nat.one_lt_two (by omega) (by omega)]
  exact posLast_read fp 0 col

/-- Both landings recorded as lists of one write: every other entry is as it was. -/
theorem cls_both_off_writes (i : S2x8x8x768.Idx) (hi : ¬((i 0).val = 1 ∧ (i 1).val = 0 ∧ ((i 2).val = 0 ∨ (i 2).val = 1))) :
    (((slotV.slice (Rect.unit (s := S2x8x8x768) ![1, 0, 1, 0] S1x1x1x768.size inb_S2x8x8x768_S1x1x1x768_1_0_1_0) (fun _ => rfl)).squeeze S1x768 squeezes_S1x1x1x768_S1x768).view.writes (Elt F) (((slotV.slice (Rect.unit (s := S2x8x8x768) ![1, 0, 0, 0] S1x1x1x768.size inb_S2x8x8x768_S1x1x1x768_1_0_0_0) (fun _ => rfl)).squeeze S1x768 squeezes_S1x1x1x768_S1x768).view.writes (Elt F) h [⟨Rect.whole S1x768, (ReadAs.same.apply (((tV.slice (Rect.unit (s := S1x1x768) ![0, 0, 0] S1x1x768.size inb_S1x1x768_S1x1x768_0_0_0) (fun _ => rfl)).squeeze S1x768 squeezes_S1x1x768_S1x768).view.read (Elt F) ft))⟩]) [⟨Rect.whole S1x768, (ReadAs.same.apply ((pV.slice (Rect.unit (s := S577x768) ![576, 0] S1x768.size inb_S577x768_S1x768_576_0) (fun _ => rfl)).view.read (Elt F) fp))⟩]) i = h i := by
  rw [slotRow1_off_writes (o0 := 1) (o1 := 0) (o2 := 1) rfl _ _ i (by omega),
    slotRow1_off_writes (o0 := 1) (o1 := 0) (o2 := 0) rfl _ _ i (by omega)]

end Both

end Cert.KernelIdeal.Hand

end
-- ==== Proof.ClsDefsI.lean ====
/-
  The class-token tail, as statements.

  The tail writes the class-token row of the output: entry (576, b, col) = token (0, 0, col) + position (576, col).
  It copies the token row and the last position row into rows (1, 0, 0, .) and (1, 0, 1, .) of the staging buffer, then
  stores their sum, lane group by lane group, into rows (0, 0, k, .), k = 0 .. 7, and copies those rows out. It is
  printed in two parts; each is stated here as a triple over the whole staging buffer, parametrised by what is known
  of the buffer between the parts (`Mid`) and after them (`Fin`). After n stores the buffer holds the sums on the first
  n boxes (box n is row n % 8 of lane group n / 8) over the buffer the two copies left; the first part does 264 stores.
-/
import proofs.«204390_g6468220748199_cont_9to1_m_1136_17_alg».proof.Proof.TileCoverI
import proofs.«204390_g6468220748199_cont_9to1_m_1136_17_alg».proof.Proof.OffsetsI
import proofs.«204390_g6468220748199_cont_9to1_m_1136_17_alg».proof.Proof.ClsValueI
import proofs.«204390_g6468220748199_cont_9to1_m_1136_17_alg».proof.Proof.ClsLandI

noncomputable section

namespace Cert.KernelIdeal.Hand

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Tactic

variable {F : FTy → Type} [FloatOps F] [∀ e, Nonempty (Elt F e)]

local notation "𝕄" => MT nD τ sig (HIx 1) (Elt F) ℕ UU ℕ

variable (m : (ℓ : Loc nD τ sig) → Buf (Elt F) ℓ)
variable (d : Dev nD) (L : grid0.Coords)

/-- The first part of the class-token tail: the class token and the last position row are copied into rows 0 and 1 of
    slot 1's first batch row (each copy started and waited for), and the sums of their lane groups start being stored
    into slot 0's first batch rows. It needs the staging buffer whole, the read shares of the two inputs, and the two
    semaphores of its copies at zero; it gives them back, the buffer at contents of which `Mid` holds. -/
def ClsTailA (Mid : Buf (Elt F) ((thr d L).loc cc0_scratch1) → Prop) : Prop :=
  ∀ (O : CellTallies nD τ sig (HIx 1)) (W : Waits sig (HIx 1)) (h : Buf (Elt F) ((thr d L).loc cc0_scratch1)),
    (iprop(□ Transfers.MayWaits (thr d L) (none : HIx 1) O
        ∗ ((slotV : Memref sig .scVector .vmem S2x8x8x768 .f32).view.loc (thr d L) ↦{fullShare} h)
        ∗ ((tV : Memref sig .scVector .hbm S1x1x768 .f32).view.loc (thr d L) ↦{Transfers.shareTokN fullShare (wid L)} m (tLoc d))
        ∗ ((pV : Memref sig .scVector .hbm S577x768 .f32).view.loc (thr d L) ↦{Transfers.shareTokN fullShare (wid L)} m (pLoc d))
        ∗ semVal (cell d L 5) 0 ∗ semVal (cell d L 6) 0
        ∗ owes (thr d L) O W) : sProp 𝕄)
      ⊢ wp frame (wpE (defs₀ (F := F)) 𝒱₀ (thr d L) none) Set.univ
          (k0_part348 L xV (Memref.isWhole_whole _) pV (Memref.isWhole_whole _) tV (Memref.isWhole_whole _) oV (Memref.isWhole_whole _) posV (Memref.isWhole_whole _) slotV (Memref.isWhole_whole _) cc0_scratch2 cc0_scratch3 cc0_scoped0 cc0_scoped1 cc0_scoped2 cc0_scoped3 cc0_scoped4)
          fun _ => iprop(∃ h1 : Buf (Elt F) ((thr d L).loc cc0_scratch1), ⌜Mid h1⌝
            ∗ ((slotV : Memref sig .scVector .vmem S2x8x8x768 .f32).view.loc (thr d L) ↦{fullShare} h1)
            ∗ ((tV : Memref sig .scVector .hbm S1x1x768 .f32).view.loc (thr d L) ↦{Transfers.shareTokN fullShare (wid L)} m (tLoc d))
            ∗ ((pV : Memref sig .scVector .hbm S577x768 .f32).view.loc (thr d L) ↦{Transfers.shareTokN fullShare (wid L)} m (pLoc d))
            ∗ semVal (cell d L 5) 0 ∗ semVal (cell d L 6) 0
            ∗ ∃ W', ⌜∀ p ∈ W', p ∈ W ∨ p.2 = none⌝ ∗ owes (thr d L) O W')

/-- The second part: the remaining sums are stored, and slot 0's first batch rows are copied to the first class row of
    the output (started and waited for). From a buffer of which `Mid` holds it ends at a buffer and a class row of which
    `Fin` holds. -/
def ClsTailB (Mid : Buf (Elt F) ((thr d L).loc cc0_scratch1) → Prop) (Fin : Buf (Elt F) ((thr d L).loc cc0_scratch1) → Buf (Elt F) (oLoc d) → Prop) : Prop :=
  ∀ (h10 : k0_cond10 L = 1#1) (v29 : BitVec 32) (O : CellTallies nD τ sig (HIx 1)) (W : Waits sig (HIx 1))
    (h1 : Buf (Elt F) ((thr d L).loc cc0_scratch1)) (fo : Buf (Elt F) (oLoc d)), Mid h1 →
    (iprop(□ Transfers.MayWaits (thr d L) (none : HIx 1) O
        ∗ ((slotV : Memref sig .scVector .vmem S2x8x8x768 .f32).view.loc (thr d L) ↦{fullShare} h1)
        ∗ ((clsRow L h10 0).view.loc (thr d L) ↦[(clsRow L h10 0).view.set]{fullShare} fo)
        ∗ semVal (cell d L 7) 0
        ∗ owes (thr d L) O W) : sProp 𝕄)
      ⊢ wp frame (wpE (defs₀ (F := F)) 𝒱₀ (thr d L) none) Set.univ
          (k0_part349 L xV (Memref.isWhole_whole _) pV (Memref.isWhole_whole _) tV (Memref.isWhole_whole _) oV (Memref.isWhole_whole _) posV (Memref.isWhole_whole _) slotV (Memref.isWhole_whole _) cc0_scratch2 cc0_scratch3 cc0_scoped0 cc0_scoped1 cc0_scoped2 cc0_scoped3 cc0_scoped4 v29 h10)
          fun _ => iprop(∃ (h' : Buf (Elt F) ((thr d L).loc cc0_scratch1)) (fo' : Buf (Elt F) (oLoc d)), ⌜Fin h' fo'⌝
            ∗ ((slotV : Memref sig .scVector .vmem S2x8x8x768 .f32).view.loc (thr d L) ↦{fullShare} h')
            ∗ ((clsRow L h10 0).view.loc (thr d L) ↦[(clsRow L h10 0).view.set]{fullShare} fo')
            ∗ semVal (cell d L 7) 0
            ∗ ∃ W', ⌜∀ p ∈ W', p ∈ W ∨ p.2 = none⌝ ∗ owes (thr d L) O W')

/-- The token row and the last position row, read off a staging buffer that holds them at rows (1, 0, 0) and (1, 0, 1). -/
abbrev Tof (hb : Buf (Elt F) ((thr d L).loc cc0_scratch1)) : Fin 768 → F .f32 :=
  fun c => hb (ix4 (⟨1, Nat.one_lt_two⟩ : Fin 2) (⟨0, by omega⟩ : Fin 8) (⟨0, by omega⟩ : Fin 8) c)
abbrev Pof (hb : Buf (Elt F) ((thr d L).loc cc0_scratch1)) : Fin 768 → F .f32 :=
  fun c => hb (ix4 (⟨1, Nat.one_lt_two⟩ : Fin 2) (⟨0, by omega⟩ : Fin 8) (⟨1, by omega⟩ : Fin 8) c)

/-- The staging buffer after the two small copies have landed in it. -/
abbrev landed (h : Buf (Elt F) ((thr d L).loc cc0_scratch1)) : Buf (Elt F) ((thr d L).loc cc0_scratch1) :=
  ((slotV.slice (Rect.unit (s := S2x8x8x768) ![1, 0, 1, 0] S1x1x1x768.size inb_S2x8x8x768_S1x1x1x768_1_0_1_0) (fun _ => rfl)).squeeze S1x768 squeezes_S1x1x1x768_S1x768).view.write (Elt F)
    (((slotV.slice (Rect.unit (s := S2x8x8x768) ![1, 0, 0, 0] S1x1x1x768.size inb_S2x8x8x768_S1x1x1x768_1_0_0_0) (fun _ => rfl)).squeeze S1x768 squeezes_S1x1x1x768_S1x768).view.write (Elt F) h
      (ReadAs.same.apply (((tV.slice (Rect.unit (s := S1x1x768) ![0, 0, 0] S1x1x768.size inb_S1x1x768_S1x1x768_0_0_0) (fun _ => rfl)).squeeze S1x768 squeezes_S1x1x768_S1x768).view.read (Elt F) (m (tLoc d)))) Finset.univ)
    (ReadAs.same.apply ((pV.slice (Rect.unit (s := S577x768) ![576, 0] S1x768.size inb_S577x768_S1x768_576_0) (fun _ => rfl)).view.read (Elt F) (m (pLoc d)))) Finset.univ

/-- What is known of the staging buffer between the two parts: the sums on the first 264 boxes over a buffer that holds
    the token row and the last position row where the loads read them. -/
def ClsMid (h1 : Buf (Elt F) ((thr d L).loc cc0_scratch1)) : Prop :=
  ∃ hb : Buf (Elt F) ((thr d L).loc cc0_scratch1), h1 = Scls d L hb (Tof d L hb) (Pof d L hb) 264
    ∧ (∀ c : Fin 768, Tof d L hb c = m (tLoc d) (ix3 (0 : Fin 1) (0 : Fin 1) c))
    ∧ (∀ c : Fin 768, Pof d L hb c = m (pLoc d) (ix2 (⟨576, Nat.lt_succ_self 576⟩ : Fin 577) c))

/-- What is known at the end of the second part: slot 0's first batch rows hold the class row's sums, and the first class
    row of the output holds the specification's entries. -/
def ClsFin (h' : Buf (Elt F) ((thr d L).loc cc0_scratch1)) (fo' : Buf (Elt F) (oLoc d)) : Prop :=
  (∀ (k : Fin 8) (col : Fin 768), h' (ix4 (⟨0, Nat.zero_lt_two⟩ : Fin 2) (⟨0, by omega⟩ : Fin 8) k col)
      = FloatOps.addf (m (tLoc d) (ix3 (0 : Fin 1) (0 : Fin 1) col)) (m (pLoc d) (ix2 (⟨576, Nat.lt_succ_self 576⟩ : Fin 577) col)))
    ∧ (∀ (h10 : k0_cond10 L = 1#1) (i : S577x64x768.Idx), i ∈ (clsRow L h10 0).view.set → fo' i = outT m d i)

end Cert.KernelIdeal.Hand

end
-- ==== Proof.ClsTailBI.lean ====
/-
  The second part of the class-token tail, with its values.

  When this part starts, slot 0's first batch rows hold the class row's sums on the first 264 boxes [1, 1, 1, 16]
  (lane groups 0 … 32 complete), over a staging buffer that holds the class token at row (1, 0, 0) and the last row of
  the position table at row (1, 0, 1). The part stores the remaining 120 boxes, box n (n = 264 … 383) being batch row
  n % 8 of lane group n / 8; every store writes the sum of the two rows' sixteen entries of its lane group, read off the
  buffer as the part found it (those rows are never written). So afterwards the first batch rows hold, entry by entry,
  the class token plus the last position row. The part then copies those eight rows to the first class row of the
  output it belongs to and waits for the copy; what lands is the specification's class row on that piece.
-/
import proofs.«204390_g6468220748199_cont_9to1_m_1136_17_alg».proof.Proof.ClsDefsI
import proofs.«204390_g6468220748199_cont_9to1_m_1136_17_alg».proof.Proof.ValueBlocksI
import proofs.«204390_g6468220748199_cont_9to1_m_1136_17_alg».proof.Proof.OffsetsI
import proofs.«204390_g6468220748199_cont_9to1_m_1136_17_alg».proof.Proof.Gen.KernelIdeal.Skeleton

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Tactic
open Idealize.ShloMosaic.ValueIdx

variable {F : FTy → Type} [FloatOps F] [∀ e, Nonempty (Elt F e)]

local notation "𝕄" => MT nD τ sig (HIx 1) (Elt F) ℕ UU ℕ

variable (m : (ℓ : Loc nD τ sig) → Buf (Elt F) ℓ)
variable (d : Dev nD) (L : grid0.Coords)

theorem cast_cancel {α β : Type} (h : α = β) {a b : α} (e : cast h a = cast h b) : a = b := by
  subst h; exact e

/-- On the view's own elements, one listed write at the whole rectangle is the write. -/
theorem writes_whole_apply {sp : Space} {s : Shape} {e : EltTy} (v : View sig .scVector sp s e) (f : v.ty.Contents (Elt F))
    (w : s.Idx → Elt F e) (i : v.ty.Idx) (hi : i ∈ v.set) :
    v.writes (Elt F) f [⟨Rect.whole s, w⟩] i = v.write (Elt F) f w Finset.univ i := by
  obtain ⟨x, -, rfl⟩ := Finset.mem_map.mp hi
  have h1 := View.read_writes_cons_emb v f (Rect.whole s) w [] x
  rw [View.read_apply, whole_emb] at h1
  have h2 := View.read_write_of_mem (v := v) f w (Finset.mem_univ x)
  rw [View.read_apply] at h2
  exact cast_cancel _ (h1.trans h2.symm)

/-- One more listed store over a buffer `h1` that is already `Scls … 264`: box n, its payload the sum of the two rows'
    entries read off `h1`. -/
theorem cls_consB (hb h1 : Buf (Elt F) ((thr d L).loc cc0_scratch1)) (T P : Fin 768 → F .f32)
    (hrd : h1 = Scls d L hb T P 264)
    (hTv : ∀ c : Fin 768, T c = hb (ix4 (⟨1, Nat.one_lt_two⟩ : Fin 2) (⟨0, by omega⟩ : Fin 8) (⟨0, by omega⟩ : Fin 8) c))
    (hPv : ∀ c : Fin 768, P c = hb (ix4 (⟨1, Nat.one_lt_two⟩ : Fin 2) (⟨0, by omega⟩ : Fin 8) (⟨1, by omega⟩ : Fin 8) c))
    (n : ℕ) {offA offT offP : Fin 4 → Nat}
    (inbA : ∀ a, offA a + S1x1x1x16.size a ≤ S2x8x8x768.size a) (inbT : ∀ a, offT a + S1x1x1x16.size a ≤ S2x8x8x768.size a)
    (inbP : ∀ a, offP a + S1x1x1x16.size a ≤ S2x8x8x768.size a)
    (hA : offA = ![0, 0, n % 8, 16 * (n / 8)]) (hT : offT = ![1, 0, 0, 16 * (n / 8)]) (hP : offP = ![1, 0, 1, 16 * (n / 8)])
    (Lp : List (View.Piece (Elt F) S2x8x8x768 .f32))
    (hL : (slotV : Memref sig .scVector .vmem S2x8x8x768 .f32).view.writes (Elt F) h1 Lp = Scls d L hb T P n) :
    (slotV : Memref sig .scVector .vmem S2x8x8x768 .f32).view.writes (Elt F) h1
        (⟨Rect.unit (s := S2x8x8x768) offA S1x1x1x16.size inbA,
          shapeCast S1x1x1x16
            (addf (shapeCast S16 (View.readAt (Elt F) (slotV : Memref sig .scVector .vmem S2x8x8x768 .f32).view (Rect.unit (s := S2x8x8x768) offT S1x1x1x16.size inbT).toLoadRect h1) shapeCasts_S1x1x1x16_S16)
              (shapeCast S16 (View.readAt (Elt F) (slotV : Memref sig .scVector .vmem S2x8x8x768 .f32).view (Rect.unit (s := S2x8x8x768) offP S1x1x1x16.size inbP).toLoadRect h1) shapeCasts_S1x1x1x16_S16))
            shapeCasts_S16_S1x1x1x16⟩ :: Lp)
      = Scls d L hb T P (n + 1) := by
  rw [View.writes_cons]
  exact Scls_step' (F := F) d L hb T P n 264 inbA inbT inbP hA hT hP hTv hPv _ h1 hL hrd

open Lean Elab Tactic in
set_option hygiene false in
/-- Stores 383, 382, …, 264 of the class row, last first: the list of the part's 120 writes over a buffer that is
    `Scls … 264` is `Scls … 384`, one step of the invariant per write; the offsets are literals. -/
elab "cls_chainB" : tactic => do
  for j in [0:120] do
    let nLit := Syntax.mkNumLit (toString (383 - j))
    evalTactic (← `(tactic| refine cls_consB (F := F) d L hb h1 T P hrd hTv hPv $nLit _ _ _ rfl rfl rfl _ ?_))
  evalTactic (← `(tactic| exact hrd))

set_option maxRecDepth 8192 in
set_option maxHeartbeats 4000000 in
/-- The part from a buffer that is `Scls … 264`: it leaves the buffer at `Scls … 384`, and the first class row at the
    copy of slot 0's first batch rows out of that buffer. -/
theorem cls_tail_b (T P : Fin 768 → F .f32) (h10 : k0_cond10 L = 1#1) (v29 : BitVec 32) (O : CellTallies nD τ sig (HIx 1)) (W : Waits sig (HIx 1))
    (hb h1 : Buf (Elt F) ((thr d L).loc cc0_scratch1)) (fo : Buf (Elt F) (oLoc d))
    (hrd : h1 = Scls d L hb T P 264)
    (hTv : ∀ c : Fin 768, T c = hb (ix4 (⟨1, Nat.one_lt_two⟩ : Fin 2) (⟨0, by omega⟩ : Fin 8) (⟨0, by omega⟩ : Fin 8) c))
    (hPv : ∀ c : Fin 768, P c = hb (ix4 (⟨1, Nat.one_lt_two⟩ : Fin 2) (⟨0, by omega⟩ : Fin 8) (⟨1, by omega⟩ : Fin 8) c)) :
    (iprop(□ Transfers.MayWaits (thr d L) (none : HIx 1) O
        ∗ ((slotV : Memref sig .scVector .vmem S2x8x8x768 .f32).view.loc (thr d L) ↦{fullShare} h1)
        ∗ ((clsRow L h10 0).view.loc (thr d L) ↦[(clsRow L h10 0).view.set]{fullShare} fo)
        ∗ semVal (cell d L 7) 0
        ∗ owes (thr d L) O W) : sProp 𝕄)
      ⊢ wp frame (wpE (defs₀ (F := F)) 𝒱₀ (thr d L) none) Set.univ
          (k0_part349 L xV (Memref.isWhole_whole _) pV (Memref.isWhole_whole _) tV (Memref.isWhole_whole _) oV (Memref.isWhole_whole _) posV (Memref.isWhole_whole _) slotV (Memref.isWhole_whole _) cc0_scratch2 cc0_scratch3 cc0_scoped0 cc0_scoped1 cc0_scoped2 cc0_scoped3 cc0_scoped4 v29 h10)
          fun _ => iprop(((slotV : Memref sig .scVector .vmem S2x8x8x768 .f32).view.loc (thr d L) ↦{fullShare} Scls d L hb T P 384)
            ∗ ((clsRow L h10 0).view.loc (thr d L) ↦[(clsRow L h10 0).view.set]{fullShare}
                (clsRow L h10 0).view.writes (Elt F) fo
                  [⟨Rect.whole S8x768, ReadAs.same.apply (View.read (Elt F) ((slotV.slice (Rect.unit (s := S2x8x8x768) ![0, 0, 0, 0] S1x1x8x768.size inb_S2x8x8x768_S1x1x8x768_0_0_0_0) (fun _ => rfl)).squeeze S8x768 squeezes_S1x1x8x768_S8x768).view (Scls d L hb T P 384))⟩])
            ∗ semVal (cell d L 7) 0
            ∗ ∃ W', ⌜∀ p ∈ W', p ∈ W ∨ p.2 = none⌝ ∗ owes (thr d L) O W') := by
  generalize hP : (iprop(□ Transfers.MayWaits (thr d L) (none : HIx 1) O
        ∗ ((slotV : Memref sig .scVector .vmem S2x8x8x768 .f32).view.loc (thr d L) ↦{fullShare} h1)
        ∗ ((clsRow L h10 0).view.loc (thr d L) ↦[(clsRow L h10 0).view.set]{fullShare} fo)
        ∗ semVal (cell d L 7) 0
        ∗ owes (thr d L) O W) : sProp 𝕄) = Pm
  rw [k0_part349_eq_skeleton]; unfold k0_part349_skel
  subst hP
  iintro ⟨#Hmw, Hslot, Hout, Hs7, HO⟩
  sl_exec_parts
  -- the buffer after the part's 120 stores, last store first
  have e : (slotV : Memref sig .scVector .vmem S2x8x8x768 .f32).view.writes (Elt F) h1 (cls_tail_b.sl.Hslot_120 d L h1) = Scls d L hb T P 384 := by
    cls_chainB
  -- what the copy delivers is read off that buffer
  have e2 : cls_tail_b.sl.dma270 d L h1 = ReadAs.same.apply (View.read (Elt F) ((slotV.slice (Rect.unit (s := S2x8x8x768) ![0, 0, 0, 0] S1x1x8x768.size inb_S2x8x8x768_S1x1x8x768_0_0_0_0) (fun _ => rfl)).squeeze S8x768 squeezes_S1x1x8x768_S8x768).view (Scls d L hb T P 384)) := by
    show ReadAs.same.apply (View.read (Elt F) ((slotV.slice (Rect.unit (s := S2x8x8x768) ![0, 0, 0, 0] S1x1x8x768.size inb_S2x8x8x768_S1x1x8x768_0_0_0_0) (fun _ => rfl)).squeeze S8x768 squeezes_S1x1x8x768_S8x768).view ((slotV : Memref sig .scVector .vmem S2x8x8x768 .f32).view.writes (Elt F) h1 (cls_tail_b.sl.Hslot_120 d L h1))) = _
    rw [e]
  rw [e, e2]
  sl_step
  isplitl [Hslot]; · iexact Hslot
  isplitl [Hout]; · iexact Hout
  isplitl [Hs7]; · iexact Hs7
  iexists (insert (SemLoc.dma (sig := sig) (7 : Fin 9), (default : HIx 1)) W)
  isplitr
  · ipureintro
    intro p hp
    rcases Finset.mem_insert.mp hp with rfl | hp
    · exact .inr rfl
    · exact .inl hp
  · iexact HO

/-- The second part of the class-token tail, as the body uses it. -/
theorem cls_tailB : ClsTailB (F := F) d L (ClsMid m d L) (ClsFin m d L) := by
  intro h10 v29 O W h1 fo hMid
  obtain ⟨hb, hrd, hT, hP⟩ := hMid
  have hsum : ∀ (k : Fin 8) (col : Fin 768),
      Scls d L hb (Tof d L hb) (Pof d L hb) 384 (ix4 (⟨0, Nat.zero_lt_two⟩ : Fin 2) (⟨0, by omega⟩ : Fin 8) k col)
        = FloatOps.addf (m (tLoc d) (ix3 (0 : Fin 1) (0 : Fin 1) col)) (m (pLoc d) (ix2 (⟨576, Nat.lt_succ_self 576⟩ : Fin 577) col)) := by
    intro k col
    rw [Scls_full_apply, hT col, hP col]
  refine (cls_tail_b (F := F) d L (Tof d L hb) (Pof d L hb) h10 v29 O W hb h1 fo hrd (fun _ => rfl) (fun _ => rfl)).trans
    (wp_mono frame _ _ fun _ => ?_)
  iintro ⟨Hslot, Hout, Hs7, HW⟩
  iexists (Scls d L hb (Tof d L hb) (Pof d L hb) 384),
    ((clsRow L h10 0).view.writes (Elt F) fo
      [⟨Rect.whole S8x768, ReadAs.same.apply (View.read (Elt F) ((slotV.slice (Rect.unit (s := S2x8x8x768) ![0, 0, 0, 0] S1x1x8x768.size inb_S2x8x8x768_S1x1x8x768_0_0_0_0) (fun _ => rfl)).squeeze S8x768 squeezes_S1x1x8x768_S8x768).view (Scls d L hb (Tof d L hb) (Pof d L hb) 384))⟩])
  isplitr
  · ipureintro
    refine ⟨hsum, fun h10' i hi => ?_⟩
    rw [writes_whole_apply (F := F) (clsRow L h10 0).view fo _ i hi]
    exact clsRow_value (F := F) m d L h10' 0 fo _ hsum i hi
  isplitl [Hslot]; · iexact Hslot
  isplitl [Hout]; · iexact Hout
  isplitl [Hs7]; · iexact Hs7
  iexact HW

end Cert.KernelIdeal.Hand

end
-- ==== Proof.TileRemI.lean ====
/-
  One worker's part of the output array: the row pieces first, what remains after.

  Every worker writes its 144 row pieces; only the first worker of a group writes anything else (the class-token
  row). So a worker's part of the output splits, for every worker alike, into the row pieces and a remainder; the
  remainder is the two class-row pieces for the first worker of a group and nothing for the others. The nine chunks
  of row copies can then be followed once, before the two kinds of worker are told apart.
-/
import proofs.«204390_g6468220748199_cont_9to1_m_1136_17_alg».proof.Proof.TileCoverI

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The row pieces together, and what remains of the worker's part -/

/-- The entries the worker's row copies write. -/
abbrev rowsU (L : grid0.Coords) : Finset S577x64x768.Idx := (Finset.univ : Finset RowPiece).biUnion (rowK L)

theorem mem_rowsU (L : grid0.Coords) (i : S577x64x768.Idx) :
    i ∈ rowsU L ↔ (i 1).val / 16 = wid L / 8 ∧ (i 0).val < 576 ∧ (i 0).val / 72 = wid L % 8 := by
  rw [Finset.mem_biUnion]
  have e : (∃ p ∈ (Finset.univ : Finset RowPiece), i ∈ rowK L p) ↔ ∃ p, i ∈ rowK L p :=
    ⟨fun ⟨p, _, hp⟩ => ⟨p, hp⟩, fun ⟨p, hp⟩ => ⟨p, Finset.mem_univ _, hp⟩⟩
  rw [e, mem_rows_iff]

theorem rowsU_sub (L : grid0.Coords) : rowsU L ⊆ tileSet (wid L) := by
  intro i hi
  rw [mem_rowsU] at hi
  rw [mem_tileSet]
  exact ⟨hi.1, .inl hi.2⟩

/-- A worker that is not the first of its group writes nothing but its rows. -/
theorem rem_empty (L : grid0.Coords) (hn : ¬k0_cond10 L = 1#1) : tileSet (wid L) \ rowsU L = ∅ := by
  rw [show rowsU L = tileSet (wid L) from rows_cover L hn, Finset.sdiff_self]

/-- The first worker of a group: what remains is the two class-row pieces. -/
theorem rem_eq_cls (L : grid0.Coords) (h : k0_cond10 L = 1#1) :
    tileSet (wid L) \ rowsU L = (Finset.univ : Finset (Fin 2)).biUnion fun r => ((clsRow L h r).view.set : Finset S577x64x768.Idx) := by
  have hj : wid L % 8 = 0 := (k0_cond10_iff L).mp h
  ext i
  rw [Finset.mem_sdiff, mem_tileSet, mem_rowsU, Finset.mem_biUnion]
  have e : (∃ r ∈ (Finset.univ : Finset (Fin 2)), i ∈ ((clsRow L h r).view.set : Finset S577x64x768.Idx))
      ↔ ∃ r, i ∈ (clsRow L h r).view.set :=
    ⟨fun ⟨r, _, hr⟩ => ⟨r, hr⟩, fun ⟨r, hr⟩ => ⟨r, Finset.mem_univ _, hr⟩⟩
  rw [e, mem_cls_iff]
  omega

theorem cls_disjoint (L : grid0.Coords) (h : k0_cond10 L = 1#1) :
    ∀ r ∈ (Finset.univ : Finset (Fin 2)), ∀ r' ∈ (Finset.univ : Finset (Fin 2)), r ≠ r' →
      Disjoint ((clsRow L h r).view.set : Finset S577x64x768.Idx) ((clsRow L h r').view.set : Finset S577x64x768.Idx) :=
  fun r _ r' _ hne => pieces_disjoint L h (.inr r) (Finset.mem_univ _) (.inr r') (Finset.mem_univ _)
    fun e => hne (Sum.inr.inj e)

variable (d : Dev nD) (L : grid0.Coords)

/-- The row pieces, each through its own reference, are the rows' entries of the output. -/
theorem rowsU_pieces (fs0 : Fin k0_t1_loop.trips × Fin k0_t2_loop.trips → Buf (Elt F) (oLoc d)) (fs1 : Fin k0_t1_loop.trips × Fin k0_t3_loop.trips → Buf (Elt F) (oLoc d)) :
    (bigSep Finset.univ fun t : RowPiece => (oLoc d ↦[rowK L t]{fullShare} (Sum.elim fs0 fs1 t) : sProp 𝕄)) =
      iprop((bigSep Finset.univ fun p : Fin k0_t1_loop.trips × Fin k0_t2_loop.trips =>
          (outRow0 L p.1 p.2).view.loc (thr d L) ↦[(outRow0 L p.1 p.2).view.set]{fullShare} (fs0 p))
        ∗ (bigSep Finset.univ fun p : Fin k0_t1_loop.trips × Fin k0_t3_loop.trips =>
          (outRow1 L p.1 p.2).view.loc (thr d L) ↦[(outRow1 L p.1 p.2).view.set]{fullShare} (fs1 p))) := by
  rw [bigSep_rowPieces]
  exact congrArg₂ _ (bigSep_congr fun _ _ => rfl) (bigSep_congr fun _ _ => rfl)

/-- Every worker: its part of the output at contents `f` is its 144 row pieces, each through its own reference,
    and the remainder. -/
theorem tileOut_rows_rem (f : Buf (Elt F) (oLoc d)) :
    (oLoc d ↦[tileSet (wid L)]{fullShare} f : sProp 𝕄) =
      iprop((bigSep Finset.univ fun p : Fin k0_t1_loop.trips × Fin k0_t2_loop.trips =>
          (outRow0 L p.1 p.2).view.loc (thr d L) ↦[(outRow0 L p.1 p.2).view.set]{fullShare} f)
        ∗ (bigSep Finset.univ fun p : Fin k0_t1_loop.trips × Fin k0_t3_loop.trips =>
          (outRow1 L p.1 p.2).view.loc (thr d L) ↦[(outRow1 L p.1 p.2).view.set]{fullShare} f)
        ∗ oLoc d ↦[tileSet (wid L) \ rowsU L]{fullShare} f) := by
  have h := pointsTo_split_subset (nD := nD) (τ := τ) (sig := sig) (Ix := HIx 1) (Val := Elt F) (Name := ℕ) (U := UU) (Lvl := ℕ)
    (ℓ := oLoc d) (I := rowsU L) (S := tileSet (wid L)) (q := fullShare) (f := f) (rowsU_sub L)
  have e2 : (oLoc d ↦[rowsU L]{fullShare} f : sProp 𝕄) =
      iprop((bigSep Finset.univ fun p : Fin k0_t1_loop.trips × Fin k0_t2_loop.trips =>
          (outRow0 L p.1 p.2).view.loc (thr d L) ↦[(outRow0 L p.1 p.2).view.set]{fullShare} f)
        ∗ (bigSep Finset.univ fun p : Fin k0_t1_loop.trips × Fin k0_t3_loop.trips =>
          (outRow1 L p.1 p.2).view.loc (thr d L) ↦[(outRow1 L p.1 p.2).view.set]{fullShare} f)) := by
    rw [pointsTo_biUnion Finset.univ (ℓ := oLoc d) (rowK L) (rows_disjoint L), bigSep_rowPieces]
    exact congrArg₂ _ (bigSep_congr fun _ _ => rfl) (bigSep_congr fun _ _ => rfl)
  rw [BI.equiv_iff.mp ⟨h.1, h.2⟩, e2]
  exact sep_assoc_eq _ _ _

/-- The first worker of a group: the remainder is its two class-row pieces, each through its own reference. -/
theorem rem_cls (h : k0_cond10 L = 1#1) (f : Buf (Elt F) (oLoc d)) :
    (oLoc d ↦[tileSet (wid L) \ rowsU L]{fullShare} f : sProp 𝕄) =
      (bigSep Finset.univ fun r : Fin 2 =>
          (clsRow L h r).view.loc (thr d L) ↦[(clsRow L h r).view.set]{fullShare} f) := by
  rw [rem_eq_cls L h, pointsTo_biUnion Finset.univ (ℓ := oLoc d)
    (fun r : Fin 2 => ((clsRow L h r).view.set : Finset S577x64x768.Idx)) (cls_disjoint L h)]

/-- The same with the two pieces written out, in the spellings the program prints. -/
theorem rem_cls2 (h : k0_cond10 L = 1#1) (f : Buf (Elt F) (oLoc d)) :
    (oLoc d ↦[tileSet (wid L) \ rowsU L]{fullShare} f : sProp 𝕄) =
      iprop((((oV.slice (Rect.unit (s := S577x64x768) (k0_off883 L 0#32) S1x8x768.size (k0_off883_inb L h 0)) (fun _ => rfl)).squeeze S8x768 squeezes_S1x8x768_S8x768).view.loc (thr d L) ↦[((oV.slice (Rect.unit (s := S577x64x768) (k0_off883 L 0#32) S1x8x768.size (k0_off883_inb L h 0)) (fun _ => rfl)).squeeze S8x768 squeezes_S1x8x768_S8x768).view.set]{fullShare} f)
        ∗ (((oV.slice (Rect.unit (s := S577x64x768) (k0_off883 L 8#32) S1x8x768.size (k0_off883_inb L h 1)) (fun _ => rfl)).squeeze S8x768 squeezes_S1x8x768_S8x768).view.loc (thr d L) ↦[((oV.slice (Rect.unit (s := S577x64x768) (k0_off883 L 8#32) S1x8x768.size (k0_off883_inb L h 1)) (fun _ => rfl)).squeeze S8x768 squeezes_S1x8x768_S8x768).view.set]{fullShare} f)) := by
  rw [rem_cls d L h f, bigSep_fin_two]
  rfl

/-- Every worker: its row pieces, each come back at contents of its own, and the remainder at contents `f2`, are
    its part of the output at one contents that agrees with each piece's on that piece and with `f2` on the remainder. -/
theorem tileOut_rows_rem_join (fs0 : Fin k0_t1_loop.trips × Fin k0_t2_loop.trips → Buf (Elt F) (oLoc d)) (fs1 : Fin k0_t1_loop.trips × Fin k0_t3_loop.trips → Buf (Elt F) (oLoc d))
    (f2 : Buf (Elt F) (oLoc d)) :
    (iprop((bigSep Finset.univ fun p : Fin k0_t1_loop.trips × Fin k0_t2_loop.trips =>
          (outRow0 L p.1 p.2).view.loc (thr d L) ↦[(outRow0 L p.1 p.2).view.set]{fullShare} (fs0 p))
        ∗ (bigSep Finset.univ fun p : Fin k0_t1_loop.trips × Fin k0_t3_loop.trips =>
          (outRow1 L p.1 p.2).view.loc (thr d L) ↦[(outRow1 L p.1 p.2).view.set]{fullShare} (fs1 p))
        ∗ oLoc d ↦[tileSet (wid L) \ rowsU L]{fullShare} f2) : sProp 𝕄)
      ⊢ iprop(∃ g : Buf (Elt F) (oLoc d),
          ⌜(∀ p : Fin k0_t1_loop.trips × Fin k0_t2_loop.trips, ∀ i : S577x64x768.Idx, i ∈ (outRow0 L p.1 p.2).view.set → g i = fs0 p i)
            ∧ (∀ p : Fin k0_t1_loop.trips × Fin k0_t3_loop.trips, ∀ i : S577x64x768.Idx, i ∈ (outRow1 L p.1 p.2).view.set → g i = fs1 p i)
            ∧ (∀ i : S577x64x768.Idx, i ∈ tileSet (wid L) \ rowsU L → g i = f2 i)⌝
          ∗ oLoc d ↦[tileSet (wid L)]{fullShare} g) := by
  classical
  iintro ⟨HA, HB, HR⟩
  ihave HAB := (Entails.of_eq (rowsU_pieces (F := F) d L fs0 fs1).symm) $$ [HA HB]
  · isplitl [HA]
    · iexact HA
    · iexact HB
  ihave H := (pointsTo_biUnion_join (ℓ := oLoc d) (q := fullShare) Finset.univ (rowK L) (Sum.elim fs0 fs1) f2
    (rows_disjoint L)) $$ HAB
  icases H with ⟨%g0, %hg0, Hg0⟩
  ihave HJ := (pointsTo_join_subset (nD := nD) (τ := τ) (sig := sig) (Ix := HIx 1) (Val := Elt F) (Name := ℕ) (U := UU) (Lvl := ℕ)
    (ℓ := oLoc d) (I := rowsU L) (S := tileSet (wid L)) (q := fullShare) (f := f2) (g := g0) (rowsU_sub L)) $$ [Hg0 HR]
  · isplitl [Hg0]
    · iexact Hg0
    · iexact HR
  iexists _
  isplitr
  swap
  · iexact HJ
  · ipureintro
    refine ⟨fun p i hi => ?_, fun p i hi => ?_, fun i hi => ?_⟩
    · have hm : i ∈ rowsU L := Finset.mem_biUnion.mpr ⟨.inl p, Finset.mem_univ _, hi⟩
      rw [Finset.piecewise_eq_of_mem _ _ _ hm]
      exact hg0 (.inl p) (Finset.mem_univ _) i hi
    · have hm : i ∈ rowsU L := Finset.mem_biUnion.mpr ⟨.inr p, Finset.mem_univ _, hi⟩
      rw [Finset.piecewise_eq_of_mem _ _ _ hm]
      exact hg0 (.inr p) (Finset.mem_univ _) i hi
    · rw [Finset.piecewise_eq_of_notMem _ _ _ (Finset.mem_sdiff.mp hi).2]

/-- Every worker: its row pieces, each at contents of its own that nobody names, and the remainder, are its part of
    the output at some contents. -/
theorem tileOut_join_ex [∀ e, Nonempty (Elt F e)] (f2 : Buf (Elt F) (oLoc d)) :
    (iprop((bigSep Finset.univ fun p : Fin k0_t1_loop.trips × Fin k0_t2_loop.trips => iprop(∃ f : Buf (Elt F) (oLoc d),
          (outRow0 L p.1 p.2).view.loc (thr d L) ↦[(outRow0 L p.1 p.2).view.set]{fullShare} f))
        ∗ (bigSep Finset.univ fun p : Fin k0_t1_loop.trips × Fin k0_t3_loop.trips => iprop(∃ f : Buf (Elt F) (oLoc d),
          (outRow1 L p.1 p.2).view.loc (thr d L) ↦[(outRow1 L p.1 p.2).view.set]{fullShare} f))
        ∗ oLoc d ↦[tileSet (wid L) \ rowsU L]{fullShare} f2) : sProp 𝕄)
      ⊢ iprop(∃ g : Buf (Elt F) (oLoc d), oLoc d ↦[tileSet (wid L)]{fullShare} g) := by
  iintro ⟨HA, HB, HR⟩
  ihave HA' := (bigSep_exists_pi Finset.univ (fun (p : Fin k0_t1_loop.trips × Fin k0_t2_loop.trips) (f : Buf (Elt F) (oLoc d)) =>
    ((outRow0 L p.1 p.2).view.loc (thr d L) ↦[(outRow0 L p.1 p.2).view.set]{fullShare} f : sProp 𝕄))) $$ HA
  ihave HB' := (bigSep_exists_pi Finset.univ (fun (p : Fin k0_t1_loop.trips × Fin k0_t3_loop.trips) (f : Buf (Elt F) (oLoc d)) =>
    ((outRow1 L p.1 p.2).view.loc (thr d L) ↦[(outRow1 L p.1 p.2).view.set]{fullShare} f : sProp 𝕄))) $$ HB
  icases HA' with ⟨%fs0, HA'⟩
  icases HB' with ⟨%fs1, HB'⟩
  ihave H := (tileOut_rows_rem_join (F := F) d L fs0 fs1 f2) $$ [HA' HB' HR]
  · isplitl [HA']
    · iexact HA'
    isplitl [HB']
    · iexact HB'
    · iexact HR
  icases H with ⟨%g, -, Hg⟩
  iexists g
  iexact Hg

/-- The same with the remainder, too, at contents nobody names. -/
theorem tileOut_join_ex' [∀ e, Nonempty (Elt F e)] :
    (iprop((bigSep Finset.univ fun p : Fin k0_t1_loop.trips × Fin k0_t2_loop.trips => iprop(∃ f : Buf (Elt F) (oLoc d),
          (outRow0 L p.1 p.2).view.loc (thr d L) ↦[(outRow0 L p.1 p.2).view.set]{fullShare} f))
        ∗ (bigSep Finset.univ fun p : Fin k0_t1_loop.trips × Fin k0_t3_loop.trips => iprop(∃ f : Buf (Elt F) (oLoc d),
          (outRow1 L p.1 p.2).view.loc (thr d L) ↦[(outRow1 L p.1 p.2).view.set]{fullShare} f))
        ∗ ∃ f2 : Buf (Elt F) (oLoc d), oLoc d ↦[tileSet (wid L) \ rowsU L]{fullShare} f2) : sProp 𝕄)
      ⊢ iprop(∃ g : Buf (Elt F) (oLoc d), oLoc d ↦[tileSet (wid L)]{fullShare} g) := by
  iintro ⟨HA, HB, %f2, HR⟩
  iapply (tileOut_join_ex (F := F) d L f2)
  isplitl [HA]
  · iexact HA
  isplitl [HB]
  · iexact HB
  · iexact HR

/-- The first worker of a group: its two class-row pieces, each come back at contents of its own, are the remainder
    at some contents. -/
theorem rem_cls2_join (h : k0_cond10 L = 1#1) (f0 f1 : Buf (Elt F) (oLoc d)) :
    (iprop((((oV.slice (Rect.unit (s := S577x64x768) (k0_off883 L 0#32) S1x8x768.size (k0_off883_inb L h 0)) (fun _ => rfl)).squeeze S8x768 squeezes_S1x8x768_S8x768).view.loc (thr d L) ↦[((oV.slice (Rect.unit (s := S577x64x768) (k0_off883 L 0#32) S1x8x768.size (k0_off883_inb L h 0)) (fun _ => rfl)).squeeze S8x768 squeezes_S1x8x768_S8x768).view.set]{fullShare} f0)
        ∗ (((oV.slice (Rect.unit (s := S577x64x768) (k0_off883 L 8#32) S1x8x768.size (k0_off883_inb L h 1)) (fun _ => rfl)).squeeze S8x768 squeezes_S1x8x768_S8x768).view.loc (thr d L) ↦[((oV.slice (Rect.unit (s := S577x64x768) (k0_off883 L 8#32) S1x8x768.size (k0_off883_inb L h 1)) (fun _ => rfl)).squeeze S8x768 squeezes_S1x8x768_S8x768).view.set]{fullShare} f1)) : sProp 𝕄)
      ⊢ iprop(∃ f2 : Buf (Elt F) (oLoc d), oLoc d ↦[tileSet (wid L) \ rowsU L]{fullShare} f2) := by
  classical
  have hd : Disjoint ((clsRow L h 0).view.set : Finset S577x64x768.Idx) ((clsRow L h 1).view.set : Finset S577x64x768.Idx) :=
    cls_disjoint L h 0 (Finset.mem_univ _) 1 (Finset.mem_univ _) (by decide)
  have hj := pointsTo_join (nD := nD) (τ := τ) (sig := sig) (Ix := HIx 1) (Val := Elt F) (Name := ℕ) (U := UU) (Lvl := ℕ)
    (ℓ := oLoc d) (I := ((clsRow L h 0).view.set : Finset S577x64x768.Idx))
    (J := ((clsRow L h 1).view.set : Finset S577x64x768.Idx)) (q := fullShare) (f := f0) (g := f1) hd
  have hu : tileSet (wid L) \ rowsU L
      = ((clsRow L h 0).view.set : Finset S577x64x768.Idx) ∪ ((clsRow L h 1).view.set : Finset S577x64x768.Idx) := by
    rw [rem_eq_cls L h]
    ext i
    simp only [Finset.mem_biUnion, Finset.mem_univ, true_and, Finset.mem_union, Fin.exists_fin_two]
  rw [hu]
  refine hj.trans ?_
  iintro H
  iexists _
  iexact H

end Cert.KernelIdeal.Hand

end
-- ==== Proof.TileCover72I.lean ====
/-
  The products over a worker's row copies, written out.

  A worker runs nine chunks of eight rows, and copies each row out twice (the first and the last eight batch rows
  of its group): the two products of TileCoverI over pairs (chunk, row of the chunk) have 72 factors each. Here
  each is written as nine groups of eight, a group per chunk, so that every factor can be named on its own. The
  pairs are written through the constructors `t1of`, `t2of`, `t3of` of the loops' trip types (and, in the lemmas named
  `_lit`, as literals `⟨k, _⟩` of those types).
-/
import proofs.«204390_g6468220748199_cont_9to1_m_1136_17_alg».proof.Proof.TileCoverI
import proofs.«204390_g6468220748199_cont_9to1_m_1136_17_alg».proof.Proof.RowSpecI
import Idealize.ShloMosaic.Lib.SparseCore.Cells

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- A product over the trips of `k0_t1_loop`, factor by factor. -/
theorem bigSep_trips1_lit (Ψ : Fin k0_t1_loop.trips → sProp 𝕄) :
    bigSep Finset.univ Ψ = iprop(Ψ ⟨0, by decide⟩ ∗ Ψ ⟨1, by decide⟩ ∗ Ψ ⟨2, by decide⟩ ∗ Ψ ⟨3, by decide⟩ ∗ Ψ ⟨4, by decide⟩ ∗ Ψ ⟨5, by decide⟩ ∗ Ψ ⟨6, by decide⟩ ∗ Ψ ⟨7, by decide⟩ ∗ Ψ ⟨8, by decide⟩) := by
  rw [show (Finset.univ : Finset (Fin k0_t1_loop.trips)) = {⟨0, by decide⟩, ⟨1, by decide⟩, ⟨2, by decide⟩, ⟨3, by decide⟩, ⟨4, by decide⟩, ⟨5, by decide⟩, ⟨6, by decide⟩, ⟨7, by decide⟩, ⟨8, by decide⟩} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- A product over the trips of `k0_t2_loop`, factor by factor. -/
theorem bigSep_trips2_lit (Ψ : Fin k0_t2_loop.trips → sProp 𝕄) :
    bigSep Finset.univ Ψ = iprop(Ψ ⟨0, by decide⟩ ∗ Ψ ⟨1, by decide⟩ ∗ Ψ ⟨2, by decide⟩ ∗ Ψ ⟨3, by decide⟩ ∗ Ψ ⟨4, by decide⟩ ∗ Ψ ⟨5, by decide⟩ ∗ Ψ ⟨6, by decide⟩ ∗ Ψ ⟨7, by decide⟩) := by
  rw [show (Finset.univ : Finset (Fin k0_t2_loop.trips)) = {⟨0, by decide⟩, ⟨1, by decide⟩, ⟨2, by decide⟩, ⟨3, by decide⟩, ⟨4, by decide⟩, ⟨5, by decide⟩, ⟨6, by decide⟩, ⟨7, by decide⟩} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- A product over the trips of `k0_t3_loop`, factor by factor. -/
theorem bigSep_trips3_lit (Ψ : Fin k0_t3_loop.trips → sProp 𝕄) :
    bigSep Finset.univ Ψ = iprop(Ψ ⟨0, by decide⟩ ∗ Ψ ⟨1, by decide⟩ ∗ Ψ ⟨2, by decide⟩ ∗ Ψ ⟨3, by decide⟩ ∗ Ψ ⟨4, by decide⟩ ∗ Ψ ⟨5, by decide⟩ ∗ Ψ ⟨6, by decide⟩ ∗ Ψ ⟨7, by decide⟩) := by
  rw [show (Finset.univ : Finset (Fin k0_t3_loop.trips)) = {⟨0, by decide⟩, ⟨1, by decide⟩, ⟨2, by decide⟩, ⟨3, by decide⟩, ⟨4, by decide⟩, ⟨5, by decide⟩, ⟨6, by decide⟩, ⟨7, by decide⟩} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- The same with the trips spelt `t1of k`. -/
theorem bigSep_trips1 (Ψ : Fin k0_t1_loop.trips → sProp 𝕄) :
    bigSep Finset.univ Ψ = iprop(Ψ (t1of 0) ∗ Ψ (t1of 1) ∗ Ψ (t1of 2) ∗ Ψ (t1of 3) ∗ Ψ (t1of 4) ∗ Ψ (t1of 5) ∗ Ψ (t1of 6) ∗ Ψ (t1of 7) ∗ Ψ (t1of 8)) := bigSep_trips1_lit Ψ

/-- The same with the trips spelt `t2of k`. -/
theorem bigSep_trips2 (Ψ : Fin k0_t2_loop.trips → sProp 𝕄) :
    bigSep Finset.univ Ψ = iprop(Ψ (t2of 0) ∗ Ψ (t2of 1) ∗ Ψ (t2of 2) ∗ Ψ (t2of 3) ∗ Ψ (t2of 4) ∗ Ψ (t2of 5) ∗ Ψ (t2of 6) ∗ Ψ (t2of 7)) := bigSep_trips2_lit Ψ

/-- The same with the trips spelt `t3of k`. -/
theorem bigSep_trips3 (Ψ : Fin k0_t3_loop.trips → sProp 𝕄) :
    bigSep Finset.univ Ψ = iprop(Ψ (t3of 0) ∗ Ψ (t3of 1) ∗ Ψ (t3of 2) ∗ Ψ (t3of 3) ∗ Ψ (t3of 4) ∗ Ψ (t3of 5) ∗ Ψ (t3of 6) ∗ Ψ (t3of 7)) := bigSep_trips3_lit Ψ

/-- The row copies of the first half: nine chunks of eight rows. -/
theorem rows0_expand (Φ : Fin k0_t1_loop.trips × Fin k0_t2_loop.trips → sProp 𝕄) :
    bigSep Finset.univ Φ = iprop(
      (Φ (t1of 0, t2of 0) ∗ Φ (t1of 0, t2of 1) ∗ Φ (t1of 0, t2of 2) ∗ Φ (t1of 0, t2of 3) ∗ Φ (t1of 0, t2of 4) ∗ Φ (t1of 0, t2of 5) ∗ Φ (t1of 0, t2of 6) ∗ Φ (t1of 0, t2of 7)) ∗
      (Φ (t1of 1, t2of 0) ∗ Φ (t1of 1, t2of 1) ∗ Φ (t1of 1, t2of 2) ∗ Φ (t1of 1, t2of 3) ∗ Φ (t1of 1, t2of 4) ∗ Φ (t1of 1, t2of 5) ∗ Φ (t1of 1, t2of 6) ∗ Φ (t1of 1, t2of 7)) ∗
      (Φ (t1of 2, t2of 0) ∗ Φ (t1of 2, t2of 1) ∗ Φ (t1of 2, t2of 2) ∗ Φ (t1of 2, t2of 3) ∗ Φ (t1of 2, t2of 4) ∗ Φ (t1of 2, t2of 5) ∗ Φ (t1of 2, t2of 6) ∗ Φ (t1of 2, t2of 7)) ∗
      (Φ (t1of 3, t2of 0) ∗ Φ (t1of 3, t2of 1) ∗ Φ (t1of 3, t2of 2) ∗ Φ (t1of 3, t2of 3) ∗ Φ (t1of 3, t2of 4) ∗ Φ (t1of 3, t2of 5) ∗ Φ (t1of 3, t2of 6) ∗ Φ (t1of 3, t2of 7)) ∗
      (Φ (t1of 4, t2of 0) ∗ Φ (t1of 4, t2of 1) ∗ Φ (t1of 4, t2of 2) ∗ Φ (t1of 4, t2of 3) ∗ Φ (t1of 4, t2of 4) ∗ Φ (t1of 4, t2of 5) ∗ Φ (t1of 4, t2of 6) ∗ Φ (t1of 4, t2of 7)) ∗
      (Φ (t1of 5, t2of 0) ∗ Φ (t1of 5, t2of 1) ∗ Φ (t1of 5, t2of 2) ∗ Φ (t1of 5, t2of 3) ∗ Φ (t1of 5, t2of 4) ∗ Φ (t1of 5, t2of 5) ∗ Φ (t1of 5, t2of 6) ∗ Φ (t1of 5, t2of 7)) ∗
      (Φ (t1of 6, t2of 0) ∗ Φ (t1of 6, t2of 1) ∗ Φ (t1of 6, t2of 2) ∗ Φ (t1of 6, t2of 3) ∗ Φ (t1of 6, t2of 4) ∗ Φ (t1of 6, t2of 5) ∗ Φ (t1of 6, t2of 6) ∗ Φ (t1of 6, t2of 7)) ∗
      (Φ (t1of 7, t2of 0) ∗ Φ (t1of 7, t2of 1) ∗ Φ (t1of 7, t2of 2) ∗ Φ (t1of 7, t2of 3) ∗ Φ (t1of 7, t2of 4) ∗ Φ (t1of 7, t2of 5) ∗ Φ (t1of 7, t2of 6) ∗ Φ (t1of 7, t2of 7)) ∗
      (Φ (t1of 8, t2of 0) ∗ Φ (t1of 8, t2of 1) ∗ Φ (t1of 8, t2of 2) ∗ Φ (t1of 8, t2of 3) ∗ Φ (t1of 8, t2of 4) ∗ Φ (t1of 8, t2of 5) ∗ Φ (t1of 8, t2of 6) ∗ Φ (t1of 8, t2of 7))) := by
  rw [bigSep_univ_prod, bigSep_trips1, bigSep_trips2, bigSep_trips2, bigSep_trips2, bigSep_trips2, bigSep_trips2, bigSep_trips2, bigSep_trips2, bigSep_trips2, bigSep_trips2]

/-- The row copies of the second half: nine chunks of eight rows. -/
theorem rows1_expand (Φ : Fin k0_t1_loop.trips × Fin k0_t3_loop.trips → sProp 𝕄) :
    bigSep Finset.univ Φ = iprop(
      (Φ (t1of 0, t3of 0) ∗ Φ (t1of 0, t3of 1) ∗ Φ (t1of 0, t3of 2) ∗ Φ (t1of 0, t3of 3) ∗ Φ (t1of 0, t3of 4) ∗ Φ (t1of 0, t3of 5) ∗ Φ (t1of 0, t3of 6) ∗ Φ (t1of 0, t3of 7)) ∗
      (Φ (t1of 1, t3of 0) ∗ Φ (t1of 1, t3of 1) ∗ Φ (t1of 1, t3of 2) ∗ Φ (t1of 1, t3of 3) ∗ Φ (t1of 1, t3of 4) ∗ Φ (t1of 1, t3of 5) ∗ Φ (t1of 1, t3of 6) ∗ Φ (t1of 1, t3of 7)) ∗
      (Φ (t1of 2, t3of 0) ∗ Φ (t1of 2, t3of 1) ∗ Φ (t1of 2, t3of 2) ∗ Φ (t1of 2, t3of 3) ∗ Φ (t1of 2, t3of 4) ∗ Φ (t1of 2, t3of 5) ∗ Φ (t1of 2, t3of 6) ∗ Φ (t1of 2, t3of 7)) ∗
      (Φ (t1of 3, t3of 0) ∗ Φ (t1of 3, t3of 1) ∗ Φ (t1of 3, t3of 2) ∗ Φ (t1of 3, t3of 3) ∗ Φ (t1of 3, t3of 4) ∗ Φ (t1of 3, t3of 5) ∗ Φ (t1of 3, t3of 6) ∗ Φ (t1of 3, t3of 7)) ∗
      (Φ (t1of 4, t3of 0) ∗ Φ (t1of 4, t3of 1) ∗ Φ (t1of 4, t3of 2) ∗ Φ (t1of 4, t3of 3) ∗ Φ (t1of 4, t3of 4) ∗ Φ (t1of 4, t3of 5) ∗ Φ (t1of 4, t3of 6) ∗ Φ (t1of 4, t3of 7)) ∗
      (Φ (t1of 5, t3of 0) ∗ Φ (t1of 5, t3of 1) ∗ Φ (t1of 5, t3of 2) ∗ Φ (t1of 5, t3of 3) ∗ Φ (t1of 5, t3of 4) ∗ Φ (t1of 5, t3of 5) ∗ Φ (t1of 5, t3of 6) ∗ Φ (t1of 5, t3of 7)) ∗
      (Φ (t1of 6, t3of 0) ∗ Φ (t1of 6, t3of 1) ∗ Φ (t1of 6, t3of 2) ∗ Φ (t1of 6, t3of 3) ∗ Φ (t1of 6, t3of 4) ∗ Φ (t1of 6, t3of 5) ∗ Φ (t1of 6, t3of 6) ∗ Φ (t1of 6, t3of 7)) ∗
      (Φ (t1of 7, t3of 0) ∗ Φ (t1of 7, t3of 1) ∗ Φ (t1of 7, t3of 2) ∗ Φ (t1of 7, t3of 3) ∗ Φ (t1of 7, t3of 4) ∗ Φ (t1of 7, t3of 5) ∗ Φ (t1of 7, t3of 6) ∗ Φ (t1of 7, t3of 7)) ∗
      (Φ (t1of 8, t3of 0) ∗ Φ (t1of 8, t3of 1) ∗ Φ (t1of 8, t3of 2) ∗ Φ (t1of 8, t3of 3) ∗ Φ (t1of 8, t3of 4) ∗ Φ (t1of 8, t3of 5) ∗ Φ (t1of 8, t3of 6) ∗ Φ (t1of 8, t3of 7))) := by
  rw [bigSep_univ_prod, bigSep_trips1, bigSep_trips3, bigSep_trips3, bigSep_trips3, bigSep_trips3, bigSep_trips3, bigSep_trips3, bigSep_trips3, bigSep_trips3, bigSep_trips3]

/-- The row copies of the first half, the pairs as literals. -/
theorem rows0_expand_lit (Φ : Fin k0_t1_loop.trips × Fin k0_t2_loop.trips → sProp 𝕄) :
    bigSep Finset.univ Φ = iprop(
      (Φ (⟨0, by decide⟩, ⟨0, by decide⟩) ∗ Φ (⟨0, by decide⟩, ⟨1, by decide⟩) ∗ Φ (⟨0, by decide⟩, ⟨2, by decide⟩) ∗ Φ (⟨0, by decide⟩, ⟨3, by decide⟩) ∗ Φ (⟨0, by decide⟩, ⟨4, by decide⟩) ∗ Φ (⟨0, by decide⟩, ⟨5, by decide⟩) ∗ Φ (⟨0, by decide⟩, ⟨6, by decide⟩) ∗ Φ (⟨0, by decide⟩, ⟨7, by decide⟩)) ∗
      (Φ (⟨1, by decide⟩, ⟨0, by decide⟩) ∗ Φ (⟨1, by decide⟩, ⟨1, by decide⟩) ∗ Φ (⟨1, by decide⟩, ⟨2, by decide⟩) ∗ Φ (⟨1, by decide⟩, ⟨3, by decide⟩) ∗ Φ (⟨1, by decide⟩, ⟨4, by decide⟩) ∗ Φ (⟨1, by decide⟩, ⟨5, by decide⟩) ∗ Φ (⟨1, by decide⟩, ⟨6, by decide⟩) ∗ Φ (⟨1, by decide⟩, ⟨7, by decide⟩)) ∗
      (Φ (⟨2, by decide⟩, ⟨0, by decide⟩) ∗ Φ (⟨2, by decide⟩, ⟨1, by decide⟩) ∗ Φ (⟨2, by decide⟩, ⟨2, by decide⟩) ∗ Φ (⟨2, by decide⟩, ⟨3, by decide⟩) ∗ Φ (⟨2, by decide⟩, ⟨4, by decide⟩) ∗ Φ (⟨2, by decide⟩, ⟨5, by decide⟩) ∗ Φ (⟨2, by decide⟩, ⟨6, by decide⟩) ∗ Φ (⟨2, by decide⟩, ⟨7, by decide⟩)) ∗
      (Φ (⟨3, by decide⟩, ⟨0, by decide⟩) ∗ Φ (⟨3, by decide⟩, ⟨1, by decide⟩) ∗ Φ (⟨3, by decide⟩, ⟨2, by decide⟩) ∗ Φ (⟨3, by decide⟩, ⟨3, by decide⟩) ∗ Φ (⟨3, by decide⟩, ⟨4, by decide⟩) ∗ Φ (⟨3, by decide⟩, ⟨5, by decide⟩) ∗ Φ (⟨3, by decide⟩, ⟨6, by decide⟩) ∗ Φ (⟨3, by decide⟩, ⟨7, by decide⟩)) ∗
      (Φ (⟨4, by decide⟩, ⟨0, by decide⟩) ∗ Φ (⟨4, by decide⟩, ⟨1, by decide⟩) ∗ Φ (⟨4, by decide⟩, ⟨2, by decide⟩) ∗ Φ (⟨4, by decide⟩, ⟨3, by decide⟩) ∗ Φ (⟨4, by decide⟩, ⟨4, by decide⟩) ∗ Φ (⟨4, by decide⟩, ⟨5, by decide⟩) ∗ Φ (⟨4, by decide⟩, ⟨6, by decide⟩) ∗ Φ (⟨4, by decide⟩, ⟨7, by decide⟩)) ∗
      (Φ (⟨5, by decide⟩, ⟨0, by decide⟩) ∗ Φ (⟨5, by decide⟩, ⟨1, by decide⟩) ∗ Φ (⟨5, by decide⟩, ⟨2, by decide⟩) ∗ Φ (⟨5, by decide⟩, ⟨3, by decide⟩) ∗ Φ (⟨5, by decide⟩, ⟨4, by decide⟩) ∗ Φ (⟨5, by decide⟩, ⟨5, by decide⟩) ∗ Φ (⟨5, by decide⟩, ⟨6, by decide⟩) ∗ Φ (⟨5, by decide⟩, ⟨7, by decide⟩)) ∗
      (Φ (⟨6, by decide⟩, ⟨0, by decide⟩) ∗ Φ (⟨6, by decide⟩, ⟨1, by decide⟩) ∗ Φ (⟨6, by decide⟩, ⟨2, by decide⟩) ∗ Φ (⟨6, by decide⟩, ⟨3, by decide⟩) ∗ Φ (⟨6, by decide⟩, ⟨4, by decide⟩) ∗ Φ (⟨6, by decide⟩, ⟨5, by decide⟩) ∗ Φ (⟨6, by decide⟩, ⟨6, by decide⟩) ∗ Φ (⟨6, by decide⟩, ⟨7, by decide⟩)) ∗
      (Φ (⟨7, by decide⟩, ⟨0, by decide⟩) ∗ Φ (⟨7, by decide⟩, ⟨1, by decide⟩) ∗ Φ (⟨7, by decide⟩, ⟨2, by decide⟩) ∗ Φ (⟨7, by decide⟩, ⟨3, by decide⟩) ∗ Φ (⟨7, by decide⟩, ⟨4, by decide⟩) ∗ Φ (⟨7, by decide⟩, ⟨5, by decide⟩) ∗ Φ (⟨7, by decide⟩, ⟨6, by decide⟩) ∗ Φ (⟨7, by decide⟩, ⟨7, by decide⟩)) ∗
      (Φ (⟨8, by decide⟩, ⟨0, by decide⟩) ∗ Φ (⟨8, by decide⟩, ⟨1, by decide⟩) ∗ Φ (⟨8, by decide⟩, ⟨2, by decide⟩) ∗ Φ (⟨8, by decide⟩, ⟨3, by decide⟩) ∗ Φ (⟨8, by decide⟩, ⟨4, by decide⟩) ∗ Φ (⟨8, by decide⟩, ⟨5, by decide⟩) ∗ Φ (⟨8, by decide⟩, ⟨6, by decide⟩) ∗ Φ (⟨8, by decide⟩, ⟨7, by decide⟩))) := by
  rw [bigSep_univ_prod, bigSep_trips1_lit, bigSep_trips2_lit, bigSep_trips2_lit, bigSep_trips2_lit, bigSep_trips2_lit, bigSep_trips2_lit, bigSep_trips2_lit, bigSep_trips2_lit, bigSep_trips2_lit, bigSep_trips2_lit]

/-- The row copies of the second half, the pairs as literals. -/
theorem rows1_expand_lit (Φ : Fin k0_t1_loop.trips × Fin k0_t3_loop.trips → sProp 𝕄) :
    bigSep Finset.univ Φ = iprop(
      (Φ (⟨0, by decide⟩, ⟨0, by decide⟩) ∗ Φ (⟨0, by decide⟩, ⟨1, by decide⟩) ∗ Φ (⟨0, by decide⟩, ⟨2, by decide⟩) ∗ Φ (⟨0, by decide⟩, ⟨3, by decide⟩) ∗ Φ (⟨0, by decide⟩, ⟨4, by decide⟩) ∗ Φ (⟨0, by decide⟩, ⟨5, by decide⟩) ∗ Φ (⟨0, by decide⟩, ⟨6, by decide⟩) ∗ Φ (⟨0, by decide⟩, ⟨7, by decide⟩)) ∗
      (Φ (⟨1, by decide⟩, ⟨0, by decide⟩) ∗ Φ (⟨1, by decide⟩, ⟨1, by decide⟩) ∗ Φ (⟨1, by decide⟩, ⟨2, by decide⟩) ∗ Φ (⟨1, by decide⟩, ⟨3, by decide⟩) ∗ Φ (⟨1, by decide⟩, ⟨4, by decide⟩) ∗ Φ (⟨1, by decide⟩, ⟨5, by decide⟩) ∗ Φ (⟨1, by decide⟩, ⟨6, by decide⟩) ∗ Φ (⟨1, by decide⟩, ⟨7, by decide⟩)) ∗
      (Φ (⟨2, by decide⟩, ⟨0, by decide⟩) ∗ Φ (⟨2, by decide⟩, ⟨1, by decide⟩) ∗ Φ (⟨2, by decide⟩, ⟨2, by decide⟩) ∗ Φ (⟨2, by decide⟩, ⟨3, by decide⟩) ∗ Φ (⟨2, by decide⟩, ⟨4, by decide⟩) ∗ Φ (⟨2, by decide⟩, ⟨5, by decide⟩) ∗ Φ (⟨2, by decide⟩, ⟨6, by decide⟩) ∗ Φ (⟨2, by decide⟩, ⟨7, by decide⟩)) ∗
      (Φ (⟨3, by decide⟩, ⟨0, by decide⟩) ∗ Φ (⟨3, by decide⟩, ⟨1, by decide⟩) ∗ Φ (⟨3, by decide⟩, ⟨2, by decide⟩) ∗ Φ (⟨3, by decide⟩, ⟨3, by decide⟩) ∗ Φ (⟨3, by decide⟩, ⟨4, by decide⟩) ∗ Φ (⟨3, by decide⟩, ⟨5, by decide⟩) ∗ Φ (⟨3, by decide⟩, ⟨6, by decide⟩) ∗ Φ (⟨3, by decide⟩, ⟨7, by decide⟩)) ∗
      (Φ (⟨4, by decide⟩, ⟨0, by decide⟩) ∗ Φ (⟨4, by decide⟩, ⟨1, by decide⟩) ∗ Φ (⟨4, by decide⟩, ⟨2, by decide⟩) ∗ Φ (⟨4, by decide⟩, ⟨3, by decide⟩) ∗ Φ (⟨4, by decide⟩, ⟨4, by decide⟩) ∗ Φ (⟨4, by decide⟩, ⟨5, by decide⟩) ∗ Φ (⟨4, by decide⟩, ⟨6, by decide⟩) ∗ Φ (⟨4, by decide⟩, ⟨7, by decide⟩)) ∗
      (Φ (⟨5, by decide⟩, ⟨0, by decide⟩) ∗ Φ (⟨5, by decide⟩, ⟨1, by decide⟩) ∗ Φ (⟨5, by decide⟩, ⟨2, by decide⟩) ∗ Φ (⟨5, by decide⟩, ⟨3, by decide⟩) ∗ Φ (⟨5, by decide⟩, ⟨4, by decide⟩) ∗ Φ (⟨5, by decide⟩, ⟨5, by decide⟩) ∗ Φ (⟨5, by decide⟩, ⟨6, by decide⟩) ∗ Φ (⟨5, by decide⟩, ⟨7, by decide⟩)) ∗
      (Φ (⟨6, by decide⟩, ⟨0, by decide⟩) ∗ Φ (⟨6, by decide⟩, ⟨1, by decide⟩) ∗ Φ (⟨6, by decide⟩, ⟨2, by decide⟩) ∗ Φ (⟨6, by decide⟩, ⟨3, by decide⟩) ∗ Φ (⟨6, by decide⟩, ⟨4, by decide⟩) ∗ Φ (⟨6, by decide⟩, ⟨5, by decide⟩) ∗ Φ (⟨6, by decide⟩, ⟨6, by decide⟩) ∗ Φ (⟨6, by decide⟩, ⟨7, by decide⟩)) ∗
      (Φ (⟨7, by decide⟩, ⟨0, by decide⟩) ∗ Φ (⟨7, by decide⟩, ⟨1, by decide⟩) ∗ Φ (⟨7, by decide⟩, ⟨2, by decide⟩) ∗ Φ (⟨7, by decide⟩, ⟨3, by decide⟩) ∗ Φ (⟨7, by decide⟩, ⟨4, by decide⟩) ∗ Φ (⟨7, by decide⟩, ⟨5, by decide⟩) ∗ Φ (⟨7, by decide⟩, ⟨6, by decide⟩) ∗ Φ (⟨7, by decide⟩, ⟨7, by decide⟩)) ∗
      (Φ (⟨8, by decide⟩, ⟨0, by decide⟩) ∗ Φ (⟨8, by decide⟩, ⟨1, by decide⟩) ∗ Φ (⟨8, by decide⟩, ⟨2, by decide⟩) ∗ Φ (⟨8, by decide⟩, ⟨3, by decide⟩) ∗ Φ (⟨8, by decide⟩, ⟨4, by decide⟩) ∗ Φ (⟨8, by decide⟩, ⟨5, by decide⟩) ∗ Φ (⟨8, by decide⟩, ⟨6, by decide⟩) ∗ Φ (⟨8, by decide⟩, ⟨7, by decide⟩))) := by
  rw [bigSep_univ_prod, bigSep_trips1_lit, bigSep_trips3_lit, bigSep_trips3_lit, bigSep_trips3_lit, bigSep_trips3_lit, bigSep_trips3_lit, bigSep_trips3_lit, bigSep_trips3_lit, bigSep_trips3_lit, bigSep_trips3_lit]

end Cert.KernelIdeal.Hand

end
-- ==== Proof.BodyMainVI.lean ====
/-
  One worker's body run to the end, with its part of the output named: the same run as Proof/BodyMainI.lean, the row
  loops taken in the form that names each slot row after its trip (the landed block plus the position row), so that
  every output row, when its copy has landed, holds the patches plus the position row, which is `Spec.outT` there; the
  class-token rows, for the first worker of a batch group, hold the class token plus the last position row. The
  worker's part of the output is then `Spec.outT` of the inputs on all of its entries.
-/
import proofs.«204390_g6468220748199_cont_9to1_m_1136_17_alg».proof.Proof.RowLoopVI
import proofs.«204390_g6468220748199_cont_9to1_m_1136_17_alg».proof.Proof.BodyUtilVI
import proofs.«204390_g6468220748199_cont_9to1_m_1136_17_alg».proof.Proof.ValueBlocksI
import proofs.«204390_g6468220748199_cont_9to1_m_1136_17_alg».proof.Proof.BlockAtI
import proofs.«204390_g6468220748199_cont_9to1_m_1136_17_alg».proof.Proof.ClsDefsI
import proofs.«204390_g6468220748199_cont_9to1_m_1136_17_alg».proof.Proof.ClsTailBI
import proofs.«204390_g6468220748199_cont_9to1_m_1136_17_alg».proof.Proof.BodyUtilI
import proofs.«204390_g6468220748199_cont_9to1_m_1136_17_alg».proof.Proof.TileRemI
import proofs.«204390_g6468220748199_cont_9to1_m_1136_17_alg».proof.Proof.TileCover72I

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [∀ e, Nonempty (Elt F e)]
variable (m : (ℓ : Loc nD τ sig) → Buf (Elt F) ℓ)

local notation "𝕄" => MT nD τ sig (HIx 1) (Elt F) ℕ UU ℕ

set_option maxHeartbeats 800000000 in
/-- The body of any worker leaves its part of the output at `Spec.outT` of the inputs. -/
theorem tile_bodyV (hF : (K (F := F)).Facts) (h0 : ∀ d L, RowTrip0 (F := F) d L) (h1 : ∀ d L, RowTrip1 (F := F) d L)
    (hA : ∀ d L, ClsTailA (F := F) m d L (ClsMid m d L)) (hB : ∀ d L, ClsTailB (F := F) d L (ClsMid m d L) (ClsFin m d L)) :
    TileBody (F := F) m (Rval m) := by
  intro d L O W hO
  simp only [cc0__sc_kernel_eq_skeleton]; unfold cc0__sc_kernel_skel
  rw [(K (F := F)).scopedBufs_V hF d (cV L) (jV L), SparseCore.Cfg.scopedSems0_V (Val := Elt F) d (cV L) (jV L)]
  unfold goRes tdRes tileIn tileOut
  rw [show (ownBufs (V d (cV L) (jV L)) : sProp 𝕄) = ownBufs (thr d L) from rfl, ownBufs_thr,
    show (ownSems0 (V d (cV L) (jV L)) : sProp 𝕄) = ownSems0 (thr d L) from rfl, ownSems0_thr, bigSep_fin9, widN_eq_wid]
  iintro ⟨#Hlv, -, ⟨⟨Hx, Hp, Ht⟩, Ho⟩, ⟨⟨%fpos, Hpos⟩, ⟨%fslot, Hslot⟩, Hbufs⟩, ⟨Hs0, Hs1, Hs2, Hs3, Hs4, Hs5, Hs6, Hs7, Hs8⟩, HO⟩
  ihave Hmw := ((K (F := F)).mayWaits_none (thr := thr d L) hO) $$ Hlv
  ihave Hx' := (Entails.of_eq (pts_x (F := F) d L _ _).symm) $$ Hx
  ihave Hp' := (Entails.of_eq (pts_p (F := F) d L _ _).symm) $$ Hp
  ihave Ht' := (Entails.of_eq (pts_t (F := F) d L _ _).symm) $$ Ht
  ihave Hpos' := (Entails.of_eq (pts_pos (F := F) d L _).symm) $$ Hpos
  ihave Hslot' := (Entails.of_eq (pts_slot (F := F) d L _).symm) $$ Hslot
  -- the staging buffer as its two slots
  ihave Hsl := (Entails.of_eq (slotV_slots (F := F) d L fslot)) $$ Hslot'
  icases Hsl with ⟨Hslot0, Hslot1⟩
  -- the worker's part of the output: the 144 rows it copies to, one by one, and the rest (the class-token rows, if it has them)
  ihave Ho' := (Entails.of_eq (tileOut_rows_rem (F := F) d L (m (oLoc d)))) $$ Ho
  icases Ho' with ⟨HA, HB, Hrem⟩
  ihave HA' := (Entails.of_eq (rows0_expand (F := F) _)) $$ HA
  icases HA' with ⟨⟨A00, A01, A02, A03, A04, A05, A06, A07⟩, ⟨A10, A11, A12, A13, A14, A15, A16, A17⟩, ⟨A20, A21, A22, A23, A24, A25, A26, A27⟩, ⟨A30, A31, A32, A33, A34, A35, A36, A37⟩, ⟨A40, A41, A42, A43, A44, A45, A46, A47⟩, ⟨A50, A51, A52, A53, A54, A55, A56, A57⟩, ⟨A60, A61, A62, A63, A64, A65, A66, A67⟩, ⟨A70, A71, A72, A73, A74, A75, A76, A77⟩, ⟨A80, A81, A82, A83, A84, A85, A86, A87⟩⟩
  ihave HB' := (Entails.of_eq (rows1_expand (F := F) _)) $$ HB
  icases HB' with ⟨⟨B00, B01, B02, B03, B04, B05, B06, B07⟩, ⟨B10, B11, B12, B13, B14, B15, B16, B17⟩, ⟨B20, B21, B22, B23, B24, B25, B26, B27⟩, ⟨B30, B31, B32, B33, B34, B35, B36, B37⟩, ⟨B40, B41, B42, B43, B44, B45, B46, B47⟩, ⟨B50, B51, B52, B53, B54, B55, B56, B57⟩, ⟨B60, B61, B62, B63, B64, B65, B66, B67⟩, ⟨B70, B71, B72, B73, B74, B75, B76, B77⟩, ⟨B80, B81, B82, B83, B84, B85, B86, B87⟩⟩
  -- the first block is started; then the nine chunks
  sl_exec_parts
  sl_unroll
  -- chunk 0
  sl_exec_parts
  ihave Hrows := (Entails.of_eq (slot_rows8 (F := F) d L 0 Nat.zero_lt_two _)) $$ Hslot0
  icases Hrows with ⟨Hr0, Hr1, Hr2, Hr3, Hr4, Hr5, Hr6, Hr7⟩
  rw [wp_bind]
  iapply (wp_wand_r frame _ Set.univ)
  isplitl [Hs2 Hr0 Hr1 Hr2 Hr3 Hr4 Hr5 Hr6 Hr7 Hpos' A00 A01 A02 A03 A04 A05 A06 A07 HO]
  · iapply (row_loop0V (F := F) d L (h0 d L) (t1of 0) _ _ _ _ _ O _ _ _ _) $$ [Hs2 Hr0 Hr1 Hr2 Hr3 Hr4 Hr5 Hr6 Hr7 Hpos' A00 A01 A02 A03 A04 A05 A06 A07 HO]
    isplitr; · iexact Hmw
    isplitl [Hs2]; · iexact Hs2
    isplitl [Hr0 Hr1 Hr2 Hr3 Hr4 Hr5 Hr6 Hr7]
    · isplitl [Hr0]; · iexact Hr0
      isplitl [Hr1]; · iexact Hr1
      isplitl [Hr2]; · iexact Hr2
      isplitl [Hr3]; · iexact Hr3
      isplitl [Hr4]; · iexact Hr4
      isplitl [Hr5]; · iexact Hr5
      isplitl [Hr6]; · iexact Hr6
      iexact Hr7
    isplitl [Hpos']; · iexact Hpos'
    isplitl [A00 A01 A02 A03 A04 A05 A06 A07]
    · isplitl [A00]; · iexact A00
      isplitl [A01]; · iexact A01
      isplitl [A02]; · iexact A02
      isplitl [A03]; · iexact A03
      isplitl [A04]; · iexact A04
      isplitl [A05]; · iexact A05
      isplitl [A06]; · iexact A06
      iexact A07
    iexact HO
  iintro %_ ⟨Hpos', Hs2, HO⟩
  sl_exec_parts
  -- the eight copies have landed: slot 0's rows together again; the eight output rows hold the sums
  ihave Hj := (slot_rows8_join' (F := F) d L 0 Nat.zero_lt_two _ _ _ _ _ _ _ _) $$ [Hs2_src0 Hs2_src1 Hs2_src2 Hs2_src3 Hs2_src4 Hs2_src5 Hs2_src6 Hs2_src7]
  · isplitl [Hs2_src0]; · iexact Hs2_src0
    isplitl [Hs2_src1]; · iexact Hs2_src1
    isplitl [Hs2_src2]; · iexact Hs2_src2
    isplitl [Hs2_src3]; · iexact Hs2_src3
    isplitl [Hs2_src4]; · iexact Hs2_src4
    isplitl [Hs2_src5]; · iexact Hs2_src5
    isplitl [Hs2_src6]; · iexact Hs2_src6
    iexact Hs2_src7
  icases Hj with ⟨%gs0_0, Hslot0⟩
  ihave V0_0_0 := (congr_of (F := F) (ℓ := oLoc d) (I := (outRow0 L (t1of 0) (t2of 0)).view.set) (q := fullShare) (g := outT m d) ?hv) $$ Hs2_dst0
  case hv => exact outRow0_value (F := F) m d L (t1of 0) (t2of 0) (m (oLoc d)) _ _ (fun k r col => slot0_at_0 (F := F) L _ (m (xLoc d)) k r col) (fun r col => posRows_land (F := F) L (t1of 0) _ (m (pLoc d)) r col)
  ihave V0_0_1 := (congr_of (F := F) (ℓ := oLoc d) (I := (outRow0 L (t1of 0) (t2of 1)).view.set) (q := fullShare) (g := outT m d) ?hv) $$ Hs2_dst1
  case hv => exact outRow0_value (F := F) m d L (t1of 0) (t2of 1) (m (oLoc d)) _ _ (fun k r col => slot0_at_0 (F := F) L _ (m (xLoc d)) k r col) (fun r col => posRows_land (F := F) L (t1of 0) _ (m (pLoc d)) r col)
  ihave V0_0_2 := (congr_of (F := F) (ℓ := oLoc d) (I := (outRow0 L (t1of 0) (t2of 2)).view.set) (q := fullShare) (g := outT m d) ?hv) $$ Hs2_dst2
  case hv => exact outRow0_value (F := F) m d L (t1of 0) (t2of 2) (m (oLoc d)) _ _ (fun k r col => slot0_at_0 (F := F) L _ (m (xLoc d)) k r col) (fun r col => posRows_land (F := F) L (t1of 0) _ (m (pLoc d)) r col)
  ihave V0_0_3 := (congr_of (F := F) (ℓ := oLoc d) (I := (outRow0 L (t1of 0) (t2of 3)).view.set) (q := fullShare) (g := outT m d) ?hv) $$ Hs2_dst3
  case hv => exact outRow0_value (F := F) m d L (t1of 0) (t2of 3) (m (oLoc d)) _ _ (fun k r col => slot0_at_0 (F := F) L _ (m (xLoc d)) k r col) (fun r col => posRows_land (F := F) L (t1of 0) _ (m (pLoc d)) r col)
  ihave V0_0_4 := (congr_of (F := F) (ℓ := oLoc d) (I := (outRow0 L (t1of 0) (t2of 4)).view.set) (q := fullShare) (g := outT m d) ?hv) $$ Hs2_dst4
  case hv => exact outRow0_value (F := F) m d L (t1of 0) (t2of 4) (m (oLoc d)) _ _ (fun k r col => slot0_at_0 (F := F) L _ (m (xLoc d)) k r col) (fun r col => posRows_land (F := F) L (t1of 0) _ (m (pLoc d)) r col)
  ihave V0_0_5 := (congr_of (F := F) (ℓ := oLoc d) (I := (outRow0 L (t1of 0) (t2of 5)).view.set) (q := fullShare) (g := outT m d) ?hv) $$ Hs2_dst5
  case hv => exact outRow0_value (F := F) m d L (t1of 0) (t2of 5) (m (oLoc d)) _ _ (fun k r col => slot0_at_0 (F := F) L _ (m (xLoc d)) k r col) (fun r col => posRows_land (F := F) L (t1of 0) _ (m (pLoc d)) r col)
  ihave V0_0_6 := (congr_of (F := F) (ℓ := oLoc d) (I := (outRow0 L (t1of 0) (t2of 6)).view.set) (q := fullShare) (g := outT m d) ?hv) $$ Hs2_dst6
  case hv => exact outRow0_value (F := F) m d L (t1of 0) (t2of 6) (m (oLoc d)) _ _ (fun k r col => slot0_at_0 (F := F) L _ (m (xLoc d)) k r col) (fun r col => posRows_land (F := F) L (t1of 0) _ (m (pLoc d)) r col)
  ihave V0_0_7 := (congr_of (F := F) (ℓ := oLoc d) (I := (outRow0 L (t1of 0) (t2of 7)).view.set) (q := fullShare) (g := outT m d) ?hv) $$ Hs2_dst7
  case hv => exact outRow0_value (F := F) m d L (t1of 0) (t2of 7) (m (oLoc d)) _ _ (fun k r col => slot0_at_0 (F := F) L _ (m (xLoc d)) k r col) (fun r col => posRows_land (F := F) L (t1of 0) _ (m (pLoc d)) r col)
  ihave Done0_0 := (pack8 (F := F) _ _ _ _ _ _ _ _) $$ [V0_0_0 V0_0_1 V0_0_2 V0_0_3 V0_0_4 V0_0_5 V0_0_6 V0_0_7]
  · isplitl [V0_0_0]; · iexact V0_0_0
    isplitl [V0_0_1]; · iexact V0_0_1
    isplitl [V0_0_2]; · iexact V0_0_2
    isplitl [V0_0_3]; · iexact V0_0_3
    isplitl [V0_0_4]; · iexact V0_0_4
    isplitl [V0_0_5]; · iexact V0_0_5
    isplitl [V0_0_6]; · iexact V0_0_6
    iexact V0_0_7
  sl_exec_parts
  ihave Hrows := (Entails.of_eq (slot_rows8 (F := F) d L 1 Nat.one_lt_two _)) $$ Hslot1
  icases Hrows with ⟨Hq0, Hq1, Hq2, Hq3, Hq4, Hq5, Hq6, Hq7⟩
  rw [wp_bind]
  iapply (wp_wand_r frame _ Set.univ)
  isplitl [Hs3 Hq0 Hq1 Hq2 Hq3 Hq4 Hq5 Hq6 Hq7 Hpos' B00 B01 B02 B03 B04 B05 B06 B07 HO]
  · iapply (row_loop1V (F := F) d L (h1 d L) (t1of 0) _ _ _ O _ _ _ _) $$ [Hs3 Hq0 Hq1 Hq2 Hq3 Hq4 Hq5 Hq6 Hq7 Hpos' B00 B01 B02 B03 B04 B05 B06 B07 HO]
    isplitr; · iexact Hmw
    isplitl [Hs3]; · iexact Hs3
    isplitl [Hq0 Hq1 Hq2 Hq3 Hq4 Hq5 Hq6 Hq7]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    isplitl [Hpos']; · iexact Hpos'
    isplitl [B00 B01 B02 B03 B04 B05 B06 B07]
    · isplitl [B00]; · iexact B00
      isplitl [B01]; · iexact B01
      isplitl [B02]; · iexact B02
      isplitl [B03]; · iexact B03
      isplitl [B04]; · iexact B04
      isplitl [B05]; · iexact B05
      isplitl [B06]; · iexact B06
      iexact B07
    iexact HO
  iintro %_ ⟨Hpos', Hs3, HO⟩
  -- chunk 1
  sl_exec_parts
  -- the eight copies have landed: slot 1's rows together again; the eight output rows hold the sums
  ihave Hj := (slot_rows8_join' (F := F) d L 1 Nat.one_lt_two _ _ _ _ _ _ _ _) $$ [Hs3_src0 Hs3_src1 Hs3_src2 Hs3_src3 Hs3_src4 Hs3_src5 Hs3_src6 Hs3_src7]
  · isplitl [Hs3_src0]; · iexact Hs3_src0
    isplitl [Hs3_src1]; · iexact Hs3_src1
    isplitl [Hs3_src2]; · iexact Hs3_src2
    isplitl [Hs3_src3]; · iexact Hs3_src3
    isplitl [Hs3_src4]; · iexact Hs3_src4
    isplitl [Hs3_src5]; · iexact Hs3_src5
    isplitl [Hs3_src6]; · iexact Hs3_src6
    iexact Hs3_src7
  icases Hj with ⟨%gs1_1, Hslot1⟩
  ihave V1_0_0 := (congr_of (F := F) (ℓ := oLoc d) (I := (outRow1 L (t1of 0) (t3of 0)).view.set) (q := fullShare) (g := outT m d) ?hv) $$ Hs3_dst0
  case hv => exact outRow1_value (F := F) m d L (t1of 0) (t3of 0) (m (oLoc d)) _ _ (fun k r col => slot1_at_0 (F := F) L _ (m (xLoc d)) k r col) (fun r col => posRows_land (F := F) L (t1of 0) _ (m (pLoc d)) r col)
  ihave V1_0_1 := (congr_of (F := F) (ℓ := oLoc d) (I := (outRow1 L (t1of 0) (t3of 1)).view.set) (q := fullShare) (g := outT m d) ?hv) $$ Hs3_dst1
  case hv => exact outRow1_value (F := F) m d L (t1of 0) (t3of 1) (m (oLoc d)) _ _ (fun k r col => slot1_at_0 (F := F) L _ (m (xLoc d)) k r col) (fun r col => posRows_land (F := F) L (t1of 0) _ (m (pLoc d)) r col)
  ihave V1_0_2 := (congr_of (F := F) (ℓ := oLoc d) (I := (outRow1 L (t1of 0) (t3of 2)).view.set) (q := fullShare) (g := outT m d) ?hv) $$ Hs3_dst2
  case hv => exact outRow1_value (F := F) m d L (t1of 0) (t3of 2) (m (oLoc d)) _ _ (fun k r col => slot1_at_0 (F := F) L _ (m (xLoc d)) k r col) (fun r col => posRows_land (F := F) L (t1of 0) _ (m (pLoc d)) r col)
  ihave V1_0_3 := (congr_of (F := F) (ℓ := oLoc d) (I := (outRow1 L (t1of 0) (t3of 3)).view.set) (q := fullShare) (g := outT m d) ?hv) $$ Hs3_dst3
  case hv => exact outRow1_value (F := F) m d L (t1of 0) (t3of 3) (m (oLoc d)) _ _ (fun k r col => slot1_at_0 (F := F) L _ (m (xLoc d)) k r col) (fun r col => posRows_land (F := F) L (t1of 0) _ (m (pLoc d)) r col)
  ihave V1_0_4 := (congr_of (F := F) (ℓ := oLoc d) (I := (outRow1 L (t1of 0) (t3of 4)).view.set) (q := fullShare) (g := outT m d) ?hv) $$ Hs3_dst4
  case hv => exact outRow1_value (F := F) m d L (t1of 0) (t3of 4) (m (oLoc d)) _ _ (fun k r col => slot1_at_0 (F := F) L _ (m (xLoc d)) k r col) (fun r col => posRows_land (F := F) L (t1of 0) _ (m (pLoc d)) r col)
  ihave V1_0_5 := (congr_of (F := F) (ℓ := oLoc d) (I := (outRow1 L (t1of 0) (t3of 5)).view.set) (q := fullShare) (g := outT m d) ?hv) $$ Hs3_dst5
  case hv => exact outRow1_value (F := F) m d L (t1of 0) (t3of 5) (m (oLoc d)) _ _ (fun k r col => slot1_at_0 (F := F) L _ (m (xLoc d)) k r col) (fun r col => posRows_land (F := F) L (t1of 0) _ (m (pLoc d)) r col)
  ihave V1_0_6 := (congr_of (F := F) (ℓ := oLoc d) (I := (outRow1 L (t1of 0) (t3of 6)).view.set) (q := fullShare) (g := outT m d) ?hv) $$ Hs3_dst6
  case hv => exact outRow1_value (F := F) m d L (t1of 0) (t3of 6) (m (oLoc d)) _ _ (fun k r col => slot1_at_0 (F := F) L _ (m (xLoc d)) k r col) (fun r col => posRows_land (F := F) L (t1of 0) _ (m (pLoc d)) r col)
  ihave V1_0_7 := (congr_of (F := F) (ℓ := oLoc d) (I := (outRow1 L (t1of 0) (t3of 7)).view.set) (q := fullShare) (g := outT m d) ?hv) $$ Hs3_dst7
  case hv => exact outRow1_value (F := F) m d L (t1of 0) (t3of 7) (m (oLoc d)) _ _ (fun k r col => slot1_at_0 (F := F) L _ (m (xLoc d)) k r col) (fun r col => posRows_land (F := F) L (t1of 0) _ (m (pLoc d)) r col)
  ihave Done1_0 := (pack8 (F := F) _ _ _ _ _ _ _ _) $$ [V1_0_0 V1_0_1 V1_0_2 V1_0_3 V1_0_4 V1_0_5 V1_0_6 V1_0_7]
  · isplitl [V1_0_0]; · iexact V1_0_0
    isplitl [V1_0_1]; · iexact V1_0_1
    isplitl [V1_0_2]; · iexact V1_0_2
    isplitl [V1_0_3]; · iexact V1_0_3
    isplitl [V1_0_4]; · iexact V1_0_4
    isplitl [V1_0_5]; · iexact V1_0_5
    isplitl [V1_0_6]; · iexact V1_0_6
    iexact V1_0_7
  sl_exec_parts
  ihave Hrows := (Entails.of_eq (slot_rows8 (F := F) d L 0 Nat.zero_lt_two _)) $$ Hslot0
  icases Hrows with ⟨Hr0, Hr1, Hr2, Hr3, Hr4, Hr5, Hr6, Hr7⟩
  rw [wp_bind]
  iapply (wp_wand_r frame _ Set.univ)
  isplitl [Hs2 Hr0 Hr1 Hr2 Hr3 Hr4 Hr5 Hr6 Hr7 Hpos' A10 A11 A12 A13 A14 A15 A16 A17 HO]
  · iapply (row_loop0V (F := F) d L (h0 d L) (t1of 1) _ _ _ _ _ O _ _ _ _) $$ [Hs2 Hr0 Hr1 Hr2 Hr3 Hr4 Hr5 Hr6 Hr7 Hpos' A10 A11 A12 A13 A14 A15 A16 A17 HO]
    isplitr; · iexact Hmw
    isplitl [Hs2]; · iexact Hs2
    isplitl [Hr0 Hr1 Hr2 Hr3 Hr4 Hr5 Hr6 Hr7]
    · isplitl [Hr0]; · iexact Hr0
      isplitl [Hr1]; · iexact Hr1
      isplitl [Hr2]; · iexact Hr2
      isplitl [Hr3]; · iexact Hr3
      isplitl [Hr4]; · iexact Hr4
      isplitl [Hr5]; · iexact Hr5
      isplitl [Hr6]; · iexact Hr6
      iexact Hr7
    isplitl [Hpos']; · iexact Hpos'
    isplitl [A10 A11 A12 A13 A14 A15 A16 A17]
    · isplitl [A10]; · iexact A10
      isplitl [A11]; · iexact A11
      isplitl [A12]; · iexact A12
      isplitl [A13]; · iexact A13
      isplitl [A14]; · iexact A14
      isplitl [A15]; · iexact A15
      isplitl [A16]; · iexact A16
      iexact A17
    iexact HO
  iintro %_ ⟨Hpos', Hs2, HO⟩
  sl_exec_parts
  -- the eight copies have landed: slot 0's rows together again; the eight output rows hold the sums
  ihave Hj := (slot_rows8_join' (F := F) d L 0 Nat.zero_lt_two _ _ _ _ _ _ _ _) $$ [Hs2_src0 Hs2_src1 Hs2_src2 Hs2_src3 Hs2_src4 Hs2_src5 Hs2_src6 Hs2_src7]
  · isplitl [Hs2_src0]; · iexact Hs2_src0
    isplitl [Hs2_src1]; · iexact Hs2_src1
    isplitl [Hs2_src2]; · iexact Hs2_src2
    isplitl [Hs2_src3]; · iexact Hs2_src3
    isplitl [Hs2_src4]; · iexact Hs2_src4
    isplitl [Hs2_src5]; · iexact Hs2_src5
    isplitl [Hs2_src6]; · iexact Hs2_src6
    iexact Hs2_src7
  icases Hj with ⟨%gs0_1, Hslot0⟩
  ihave V0_1_0 := (congr_of (F := F) (ℓ := oLoc d) (I := (outRow0 L (t1of 1) (t2of 0)).view.set) (q := fullShare) (g := outT m d) ?hv) $$ Hs2_dst0
  case hv => exact outRow0_value (F := F) m d L (t1of 1) (t2of 0) (m (oLoc d)) _ _ (fun k r col => slot0_at_1 (F := F) L _ (m (xLoc d)) k r col) (fun r col => posRows_land (F := F) L (t1of 1) _ (m (pLoc d)) r col)
  ihave V0_1_1 := (congr_of (F := F) (ℓ := oLoc d) (I := (outRow0 L (t1of 1) (t2of 1)).view.set) (q := fullShare) (g := outT m d) ?hv) $$ Hs2_dst1
  case hv => exact outRow0_value (F := F) m d L (t1of 1) (t2of 1) (m (oLoc d)) _ _ (fun k r col => slot0_at_1 (F := F) L _ (m (xLoc d)) k r col) (fun r col => posRows_land (F := F) L (t1of 1) _ (m (pLoc d)) r col)
  ihave V0_1_2 := (congr_of (F := F) (ℓ := oLoc d) (I := (outRow0 L (t1of 1) (t2of 2)).view.set) (q := fullShare) (g := outT m d) ?hv) $$ Hs2_dst2
  case hv => exact outRow0_value (F := F) m d L (t1of 1) (t2of 2) (m (oLoc d)) _ _ (fun k r col => slot0_at_1 (F := F) L _ (m (xLoc d)) k r col) (fun r col => posRows_land (F := F) L (t1of 1) _ (m (pLoc d)) r col)
  ihave V0_1_3 := (congr_of (F := F) (ℓ := oLoc d) (I := (outRow0 L (t1of 1) (t2of 3)).view.set) (q := fullShare) (g := outT m d) ?hv) $$ Hs2_dst3
  case hv => exact outRow0_value (F := F) m d L (t1of 1) (t2of 3) (m (oLoc d)) _ _ (fun k r col => slot0_at_1 (F := F) L _ (m (xLoc d)) k r col) (fun r col => posRows_land (F := F) L (t1of 1) _ (m (pLoc d)) r col)
  ihave V0_1_4 := (congr_of (F := F) (ℓ := oLoc d) (I := (outRow0 L (t1of 1) (t2of 4)).view.set) (q := fullShare) (g := outT m d) ?hv) $$ Hs2_dst4
  case hv => exact outRow0_value (F := F) m d L (t1of 1) (t2of 4) (m (oLoc d)) _ _ (fun k r col => slot0_at_1 (F := F) L _ (m (xLoc d)) k r col) (fun r col => posRows_land (F := F) L (t1of 1) _ (m (pLoc d)) r col)
  ihave V0_1_5 := (congr_of (F := F) (ℓ := oLoc d) (I := (outRow0 L (t1of 1) (t2of 5)).view.set) (q := fullShare) (g := outT m d) ?hv) $$ Hs2_dst5
  case hv => exact outRow0_value (F := F) m d L (t1of 1) (t2of 5) (m (oLoc d)) _ _ (fun k r col => slot0_at_1 (F := F) L _ (m (xLoc d)) k r col) (fun r col => posRows_land (F := F) L (t1of 1) _ (m (pLoc d)) r col)
  ihave V0_1_6 := (congr_of (F := F) (ℓ := oLoc d) (I := (outRow0 L (t1of 1) (t2of 6)).view.set) (q := fullShare) (g := outT m d) ?hv) $$ Hs2_dst6
  case hv => exact outRow0_value (F := F) m d L (t1of 1) (t2of 6) (m (oLoc d)) _ _ (fun k r col => slot0_at_1 (F := F) L _ (m (xLoc d)) k r col) (fun r col => posRows_land (F := F) L (t1of 1) _ (m (pLoc d)) r col)
  ihave V0_1_7 := (congr_of (F := F) (ℓ := oLoc d) (I := (outRow0 L (t1of 1) (t2of 7)).view.set) (q := fullShare) (g := outT m d) ?hv) $$ Hs2_dst7
  case hv => exact outRow0_value (F := F) m d L (t1of 1) (t2of 7) (m (oLoc d)) _ _ (fun k r col => slot0_at_1 (F := F) L _ (m (xLoc d)) k r col) (fun r col => posRows_land (F := F) L (t1of 1) _ (m (pLoc d)) r col)
  ihave Done0_1 := (pack8 (F := F) _ _ _ _ _ _ _ _) $$ [V0_1_0 V0_1_1 V0_1_2 V0_1_3 V0_1_4 V0_1_5 V0_1_6 V0_1_7]
  · isplitl [V0_1_0]; · iexact V0_1_0
    isplitl [V0_1_1]; · iexact V0_1_1
    isplitl [V0_1_2]; · iexact V0_1_2
    isplitl [V0_1_3]; · iexact V0_1_3
    isplitl [V0_1_4]; · iexact V0_1_4
    isplitl [V0_1_5]; · iexact V0_1_5
    isplitl [V0_1_6]; · iexact V0_1_6
    iexact V0_1_7
  sl_exec_parts
  ihave Hrows := (Entails.of_eq (slot_rows8 (F := F) d L 1 Nat.one_lt_two _)) $$ Hslot1
  icases Hrows with ⟨Hq0, Hq1, Hq2, Hq3, Hq4, Hq5, Hq6, Hq7⟩
  rw [wp_bind]
  iapply (wp_wand_r frame _ Set.univ)
  isplitl [Hs3 Hq0 Hq1 Hq2 Hq3 Hq4 Hq5 Hq6 Hq7 Hpos' B10 B11 B12 B13 B14 B15 B16 B17 HO]
  · iapply (row_loop1V (F := F) d L (h1 d L) (t1of 1) _ _ _ O _ _ _ _) $$ [Hs3 Hq0 Hq1 Hq2 Hq3 Hq4 Hq5 Hq6 Hq7 Hpos' B10 B11 B12 B13 B14 B15 B16 B17 HO]
    isplitr; · iexact Hmw
    isplitl [Hs3]; · iexact Hs3
    isplitl [Hq0 Hq1 Hq2 Hq3 Hq4 Hq5 Hq6 Hq7]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    isplitl [Hpos']; · iexact Hpos'
    isplitl [B10 B11 B12 B13 B14 B15 B16 B17]
    · isplitl [B10]; · iexact B10
      isplitl [B11]; · iexact B11
      isplitl [B12]; · iexact B12
      isplitl [B13]; · iexact B13
      isplitl [B14]; · iexact B14
      isplitl [B15]; · iexact B15
      isplitl [B16]; · iexact B16
      iexact B17
    iexact HO
  iintro %_ ⟨Hpos', Hs3, HO⟩
  -- chunk 2
  sl_exec_parts
  -- the eight copies have landed: slot 1's rows together again; the eight output rows hold the sums
  ihave Hj := (slot_rows8_join' (F := F) d L 1 Nat.one_lt_two _ _ _ _ _ _ _ _) $$ [Hs3_src0 Hs3_src1 Hs3_src2 Hs3_src3 Hs3_src4 Hs3_src5 Hs3_src6 Hs3_src7]
  · isplitl [Hs3_src0]; · iexact Hs3_src0
    isplitl [Hs3_src1]; · iexact Hs3_src1
    isplitl [Hs3_src2]; · iexact Hs3_src2
    isplitl [Hs3_src3]; · iexact Hs3_src3
    isplitl [Hs3_src4]; · iexact Hs3_src4
    isplitl [Hs3_src5]; · iexact Hs3_src5
    isplitl [Hs3_src6]; · iexact Hs3_src6
    iexact Hs3_src7
  icases Hj with ⟨%gs1_2, Hslot1⟩
  ihave V1_1_0 := (congr_of (F := F) (ℓ := oLoc d) (I := (outRow1 L (t1of 1) (t3of 0)).view.set) (q := fullShare) (g := outT m d) ?hv) $$ Hs3_dst0
  case hv => exact outRow1_value (F := F) m d L (t1of 1) (t3of 0) (m (oLoc d)) _ _ (fun k r col => slot1_at_1 (F := F) L _ (m (xLoc d)) k r col) (fun r col => posRows_land (F := F) L (t1of 1) _ (m (pLoc d)) r col)
  ihave V1_1_1 := (congr_of (F := F) (ℓ := oLoc d) (I := (outRow1 L (t1of 1) (t3of 1)).view.set) (q := fullShare) (g := outT m d) ?hv) $$ Hs3_dst1
  case hv => exact outRow1_value (F := F) m d L (t1of 1) (t3of 1) (m (oLoc d)) _ _ (fun k r col => slot1_at_1 (F := F) L _ (m (xLoc d)) k r col) (fun r col => posRows_land (F := F) L (t1of 1) _ (m (pLoc d)) r col)
  ihave V1_1_2 := (congr_of (F := F) (ℓ := oLoc d) (I := (outRow1 L (t1of 1) (t3of 2)).view.set) (q := fullShare) (g := outT m d) ?hv) $$ Hs3_dst2
  case hv => exact outRow1_value (F := F) m d L (t1of 1) (t3of 2) (m (oLoc d)) _ _ (fun k r col => slot1_at_1 (F := F) L _ (m (xLoc d)) k r col) (fun r col => posRows_land (F := F) L (t1of 1) _ (m (pLoc d)) r col)
  ihave V1_1_3 := (congr_of (F := F) (ℓ := oLoc d) (I := (outRow1 L (t1of 1) (t3of 3)).view.set) (q := fullShare) (g := outT m d) ?hv) $$ Hs3_dst3
  case hv => exact outRow1_value (F := F) m d L (t1of 1) (t3of 3) (m (oLoc d)) _ _ (fun k r col => slot1_at_1 (F := F) L _ (m (xLoc d)) k r col) (fun r col => posRows_land (F := F) L (t1of 1) _ (m (pLoc d)) r col)
  ihave V1_1_4 := (congr_of (F := F) (ℓ := oLoc d) (I := (outRow1 L (t1of 1) (t3of 4)).view.set) (q := fullShare) (g := outT m d) ?hv) $$ Hs3_dst4
  case hv => exact outRow1_value (F := F) m d L (t1of 1) (t3of 4) (m (oLoc d)) _ _ (fun k r col => slot1_at_1 (F := F) L _ (m (xLoc d)) k r col) (fun r col => posRows_land (F := F) L (t1of 1) _ (m (pLoc d)) r col)
  ihave V1_1_5 := (congr_of (F := F) (ℓ := oLoc d) (I := (outRow1 L (t1of 1) (t3of 5)).view.set) (q := fullShare) (g := outT m d) ?hv) $$ Hs3_dst5
  case hv => exact outRow1_value (F := F) m d L (t1of 1) (t3of 5) (m (oLoc d)) _ _ (fun k r col => slot1_at_1 (F := F) L _ (m (xLoc d)) k r col) (fun r col => posRows_land (F := F) L (t1of 1) _ (m (pLoc d)) r col)
  ihave V1_1_6 := (congr_of (F := F) (ℓ := oLoc d) (I := (outRow1 L (t1of 1) (t3of 6)).view.set) (q := fullShare) (g := outT m d) ?hv) $$ Hs3_dst6
  case hv => exact outRow1_value (F := F) m d L (t1of 1) (t3of 6) (m (oLoc d)) _ _ (fun k r col => slot1_at_1 (F := F) L _ (m (xLoc d)) k r col) (fun r col => posRows_land (F := F) L (t1of 1) _ (m (pLoc d)) r col)
  ihave V1_1_7 := (congr_of (F := F) (ℓ := oLoc d) (I := (outRow1 L (t1of 1) (t3of 7)).view.set) (q := fullShare) (g := outT m d) ?hv) $$ Hs3_dst7
  case hv => exact outRow1_value (F := F) m d L (t1of 1) (t3of 7) (m (oLoc d)) _ _ (fun k r col => slot1_at_1 (F := F) L _ (m (xLoc d)) k r col) (fun r col => posRows_land (F := F) L (t1of 1) _ (m (pLoc d)) r col)
  ihave Done1_1 := (pack8 (F := F) _ _ _ _ _ _ _ _) $$ [V1_1_0 V1_1_1 V1_1_2 V1_1_3 V1_1_4 V1_1_5 V1_1_6 V1_1_7]
  · isplitl [V1_1_0]; · iexact V1_1_0
    isplitl [V1_1_1]; · iexact V1_1_1
    isplitl [V1_1_2]; · iexact V1_1_2
    isplitl [V1_1_3]; · iexact V1_1_3
    isplitl [V1_1_4]; · iexact V1_1_4
    isplitl [V1_1_5]; · iexact V1_1_5
    isplitl [V1_1_6]; · iexact V1_1_6
    iexact V1_1_7
  sl_exec_parts
  ihave Hrows := (Entails.of_eq (slot_rows8 (F := F) d L 0 Nat.zero_lt_two _)) $$ Hslot0
  icases Hrows with ⟨Hr0, Hr1, Hr2, Hr3, Hr4, Hr5, Hr6, Hr7⟩
  rw [wp_bind]
  iapply (wp_wand_r frame _ Set.univ)
  isplitl [Hs2 Hr0 Hr1 Hr2 Hr3 Hr4 Hr5 Hr6 Hr7 Hpos' A20 A21 A22 A23 A24 A25 A26 A27 HO]
  · iapply (row_loop0V (F := F) d L (h0 d L) (t1of 2) _ _ _ _ _ O _ _ _ _) $$ [Hs2 Hr0 Hr1 Hr2 Hr3 Hr4 Hr5 Hr6 Hr7 Hpos' A20 A21 A22 A23 A24 A25 A26 A27 HO]
    isplitr; · iexact Hmw
    isplitl [Hs2]; · iexact Hs2
    isplitl [Hr0 Hr1 Hr2 Hr3 Hr4 Hr5 Hr6 Hr7]
    · isplitl [Hr0]; · iexact Hr0
      isplitl [Hr1]; · iexact Hr1
      isplitl [Hr2]; · iexact Hr2
      isplitl [Hr3]; · iexact Hr3
      isplitl [Hr4]; · iexact Hr4
      isplitl [Hr5]; · iexact Hr5
      isplitl [Hr6]; · iexact Hr6
      iexact Hr7
    isplitl [Hpos']; · iexact Hpos'
    isplitl [A20 A21 A22 A23 A24 A25 A26 A27]
    · isplitl [A20]; · iexact A20
      isplitl [A21]; · iexact A21
      isplitl [A22]; · iexact A22
      isplitl [A23]; · iexact A23
      isplitl [A24]; · iexact A24
      isplitl [A25]; · iexact A25
      isplitl [A26]; · iexact A26
      iexact A27
    iexact HO
  iintro %_ ⟨Hpos', Hs2, HO⟩
  sl_exec_parts
  -- the eight copies have landed: slot 0's rows together again; the eight output rows hold the sums
  ihave Hj := (slot_rows8_join' (F := F) d L 0 Nat.zero_lt_two _ _ _ _ _ _ _ _) $$ [Hs2_src0 Hs2_src1 Hs2_src2 Hs2_src3 Hs2_src4 Hs2_src5 Hs2_src6 Hs2_src7]
  · isplitl [Hs2_src0]; · iexact Hs2_src0
    isplitl [Hs2_src1]; · iexact Hs2_src1
    isplitl [Hs2_src2]; · iexact Hs2_src2
    isplitl [Hs2_src3]; · iexact Hs2_src3
    isplitl [Hs2_src4]; · iexact Hs2_src4
    isplitl [Hs2_src5]; · iexact Hs2_src5
    isplitl [Hs2_src6]; · iexact Hs2_src6
    iexact Hs2_src7
  icases Hj with ⟨%gs0_2, Hslot0⟩
  ihave V0_2_0 := (congr_of (F := F) (ℓ := oLoc d) (I := (outRow0 L (t1of 2) (t2of 0)).view.set) (q := fullShare) (g := outT m d) ?hv) $$ Hs2_dst0
  case hv => exact outRow0_value (F := F) m d L (t1of 2) (t2of 0) (m (oLoc d)) _ _ (fun k r col => slot0_at_2 (F := F) L _ (m (xLoc d)) k r col) (fun r col => posRows_land (F := F) L (t1of 2) _ (m (pLoc d)) r col)
  ihave V0_2_1 := (congr_of (F := F) (ℓ := oLoc d) (I := (outRow0 L (t1of 2) (t2of 1)).view.set) (q := fullShare) (g := outT m d) ?hv) $$ Hs2_dst1
  case hv => exact outRow0_value (F := F) m d L (t1of 2) (t2of 1) (m (oLoc d)) _ _ (fun k r col => slot0_at_2 (F := F) L _ (m (xLoc d)) k r col) (fun r col => posRows_land (F := F) L (t1of 2) _ (m (pLoc d)) r col)
  ihave V0_2_2 := (congr_of (F := F) (ℓ := oLoc d) (I := (outRow0 L (t1of 2) (t2of 2)).view.set) (q := fullShare) (g := outT m d) ?hv) $$ Hs2_dst2
  case hv => exact outRow0_value (F := F) m d L (t1of 2) (t2of 2) (m (oLoc d)) _ _ (fun k r col => slot0_at_2 (F := F) L _ (m (xLoc d)) k r col) (fun r col => posRows_land (F := F) L (t1of 2) _ (m (pLoc d)) r col)
  ihave V0_2_3 := (congr_of (F := F) (ℓ := oLoc d) (I := (outRow0 L (t1of 2) (t2of 3)).view.set) (q := fullShare) (g := outT m d) ?hv) $$ Hs2_dst3
  case hv => exact outRow0_value (F := F) m d L (t1of 2) (t2of 3) (m (oLoc d)) _ _ (fun k r col => slot0_at_2 (F := F) L _ (m (xLoc d)) k r col) (fun r col => posRows_land (F := F) L (t1of 2) _ (m (pLoc d)) r col)
  ihave V0_2_4 := (congr_of (F := F) (ℓ := oLoc d) (I := (outRow0 L (t1of 2) (t2of 4)).view.set) (q := fullShare) (g := outT m d) ?hv) $$ Hs2_dst4
  case hv => exact outRow0_value (F := F) m d L (t1of 2) (t2of 4) (m (oLoc d)) _ _ (fun k r col => slot0_at_2 (F := F) L _ (m (xLoc d)) k r col) (fun r col => posRows_land (F := F) L (t1of 2) _ (m (pLoc d)) r col)
  ihave V0_2_5 := (congr_of (F := F) (ℓ := oLoc d) (I := (outRow0 L (t1of 2) (t2of 5)).view.set) (q := fullShare) (g := outT m d) ?hv) $$ Hs2_dst5
  case hv => exact outRow0_value (F := F) m d L (t1of 2) (t2of 5) (m (oLoc d)) _ _ (fun k r col => slot0_at_2 (F := F) L _ (m (xLoc d)) k r col) (fun r col => posRows_land (F := F) L (t1of 2) _ (m (pLoc d)) r col)
  ihave V0_2_6 := (congr_of (F := F) (ℓ := oLoc d) (I := (outRow0 L (t1of 2) (t2of 6)).view.set) (q := fullShare) (g := outT m d) ?hv) $$ Hs2_dst6
  case hv => exact outRow0_value (F := F) m d L (t1of 2) (t2of 6) (m (oLoc d)) _ _ (fun k r col => slot0_at_2 (F := F) L _ (m (xLoc d)) k r col) (fun r col => posRows_land (F := F) L (t1of 2) _ (m (pLoc d)) r col)
  ihave V0_2_7 := (congr_of (F := F) (ℓ := oLoc d) (I := (outRow0 L (t1of 2) (t2of 7)).view.set) (q := fullShare) (g := outT m d) ?hv) $$ Hs2_dst7
  case hv => exact outRow0_value (F := F) m d L (t1of 2) (t2of 7) (m (oLoc d)) _ _ (fun k r col => slot0_at_2 (F := F) L _ (m (xLoc d)) k r col) (fun r col => posRows_land (F := F) L (t1of 2) _ (m (pLoc d)) r col)
  ihave Done0_2 := (pack8 (F := F) _ _ _ _ _ _ _ _) $$ [V0_2_0 V0_2_1 V0_2_2 V0_2_3 V0_2_4 V0_2_5 V0_2_6 V0_2_7]
  · isplitl [V0_2_0]; · iexact V0_2_0
    isplitl [V0_2_1]; · iexact V0_2_1
    isplitl [V0_2_2]; · iexact V0_2_2
    isplitl [V0_2_3]; · iexact V0_2_3
    isplitl [V0_2_4]; · iexact V0_2_4
    isplitl [V0_2_5]; · iexact V0_2_5
    isplitl [V0_2_6]; · iexact V0_2_6
    iexact V0_2_7
  sl_exec_parts
  ihave Hrows := (Entails.of_eq (slot_rows8 (F := F) d L 1 Nat.one_lt_two _)) $$ Hslot1
  icases Hrows with ⟨Hq0, Hq1, Hq2, Hq3, Hq4, Hq5, Hq6, Hq7⟩
  rw [wp_bind]
  iapply (wp_wand_r frame _ Set.univ)
  isplitl [Hs3 Hq0 Hq1 Hq2 Hq3 Hq4 Hq5 Hq6 Hq7 Hpos' B20 B21 B22 B23 B24 B25 B26 B27 HO]
  · iapply (row_loop1V (F := F) d L (h1 d L) (t1of 2) _ _ _ O _ _ _ _) $$ [Hs3 Hq0 Hq1 Hq2 Hq3 Hq4 Hq5 Hq6 Hq7 Hpos' B20 B21 B22 B23 B24 B25 B26 B27 HO]
    isplitr; · iexact Hmw
    isplitl [Hs3]; · iexact Hs3
    isplitl [Hq0 Hq1 Hq2 Hq3 Hq4 Hq5 Hq6 Hq7]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    isplitl [Hpos']; · iexact Hpos'
    isplitl [B20 B21 B22 B23 B24 B25 B26 B27]
    · isplitl [B20]; · iexact B20
      isplitl [B21]; · iexact B21
      isplitl [B22]; · iexact B22
      isplitl [B23]; · iexact B23
      isplitl [B24]; · iexact B24
      isplitl [B25]; · iexact B25
      isplitl [B26]; · iexact B26
      iexact B27
    iexact HO
  iintro %_ ⟨Hpos', Hs3, HO⟩
  -- chunk 3
  sl_exec_parts
  -- the eight copies have landed: slot 1's rows together again; the eight output rows hold the sums
  ihave Hj := (slot_rows8_join' (F := F) d L 1 Nat.one_lt_two _ _ _ _ _ _ _ _) $$ [Hs3_src0 Hs3_src1 Hs3_src2 Hs3_src3 Hs3_src4 Hs3_src5 Hs3_src6 Hs3_src7]
  · isplitl [Hs3_src0]; · iexact Hs3_src0
    isplitl [Hs3_src1]; · iexact Hs3_src1
    isplitl [Hs3_src2]; · iexact Hs3_src2
    isplitl [Hs3_src3]; · iexact Hs3_src3
    isplitl [Hs3_src4]; · iexact Hs3_src4
    isplitl [Hs3_src5]; · iexact Hs3_src5
    isplitl [Hs3_src6]; · iexact Hs3_src6
    iexact Hs3_src7
  icases Hj with ⟨%gs1_3, Hslot1⟩
  ihave V1_2_0 := (congr_of (F := F) (ℓ := oLoc d) (I := (outRow1 L (t1of 2) (t3of 0)).view.set) (q := fullShare) (g := outT m d) ?hv) $$ Hs3_dst0
  case hv => exact outRow1_value (F := F) m d L (t1of 2) (t3of 0) (m (oLoc d)) _ _ (fun k r col => slot1_at_2 (F := F) L _ (m (xLoc d)) k r col) (fun r col => posRows_land (F := F) L (t1of 2) _ (m (pLoc d)) r col)
  ihave V1_2_1 := (congr_of (F := F) (ℓ := oLoc d) (I := (outRow1 L (t1of 2) (t3of 1)).view.set) (q := fullShare) (g := outT m d) ?hv) $$ Hs3_dst1
  case hv => exact outRow1_value (F := F) m d L (t1of 2) (t3of 1) (m (oLoc d)) _ _ (fun k r col => slot1_at_2 (F := F) L _ (m (xLoc d)) k r col) (fun r col => posRows_land (F := F) L (t1of 2) _ (m (pLoc d)) r col)
  ihave V1_2_2 := (congr_of (F := F) (ℓ := oLoc d) (I := (outRow1 L (t1of 2) (t3of 2)).view.set) (q := fullShare) (g := outT m d) ?hv) $$ Hs3_dst2
  case hv => exact outRow1_value (F := F) m d L (t1of 2) (t3of 2) (m (oLoc d)) _ _ (fun k r col => slot1_at_2 (F := F) L _ (m (xLoc d)) k r col) (fun r col => posRows_land (F := F) L (t1of 2) _ (m (pLoc d)) r col)
  ihave V1_2_3 := (congr_of (F := F) (ℓ := oLoc d) (I := (outRow1 L (t1of 2) (t3of 3)).view.set) (q := fullShare) (g := outT m d) ?hv) $$ Hs3_dst3
  case hv => exact outRow1_value (F := F) m d L (t1of 2) (t3of 3) (m (oLoc d)) _ _ (fun k r col => slot1_at_2 (F := F) L _ (m (xLoc d)) k r col) (fun r col => posRows_land (F := F) L (t1of 2) _ (m (pLoc d)) r col)
  ihave V1_2_4 := (congr_of (F := F) (ℓ := oLoc d) (I := (outRow1 L (t1of 2) (t3of 4)).view.set) (q := fullShare) (g := outT m d) ?hv) $$ Hs3_dst4
  case hv => exact outRow1_value (F := F) m d L (t1of 2) (t3of 4) (m (oLoc d)) _ _ (fun k r col => slot1_at_2 (F := F) L _ (m (xLoc d)) k r col) (fun r col => posRows_land (F := F) L (t1of 2) _ (m (pLoc d)) r col)
  ihave V1_2_5 := (congr_of (F := F) (ℓ := oLoc d) (I := (outRow1 L (t1of 2) (t3of 5)).view.set) (q := fullShare) (g := outT m d) ?hv) $$ Hs3_dst5
  case hv => exact outRow1_value (F := F) m d L (t1of 2) (t3of 5) (m (oLoc d)) _ _ (fun k r col => slot1_at_2 (F := F) L _ (m (xLoc d)) k r col) (fun r col => posRows_land (F := F) L (t1of 2) _ (m (pLoc d)) r col)
  ihave V1_2_6 := (congr_of (F := F) (ℓ := oLoc d) (I := (outRow1 L (t1of 2) (t3of 6)).view.set) (q := fullShare) (g := outT m d) ?hv) $$ Hs3_dst6
  case hv => exact outRow1_value (F := F) m d L (t1of 2) (t3of 6) (m (oLoc d)) _ _ (fun k r col => slot1_at_2 (F := F) L _ (m (xLoc d)) k r col) (fun r col => posRows_land (F := F) L (t1of 2) _ (m (pLoc d)) r col)
  ihave V1_2_7 := (congr_of (F := F) (ℓ := oLoc d) (I := (outRow1 L (t1of 2) (t3of 7)).view.set) (q := fullShare) (g := outT m d) ?hv) $$ Hs3_dst7
  case hv => exact outRow1_value (F := F) m d L (t1of 2) (t3of 7) (m (oLoc d)) _ _ (fun k r col => slot1_at_2 (F := F) L _ (m (xLoc d)) k r col) (fun r col => posRows_land (F := F) L (t1of 2) _ (m (pLoc d)) r col)
  ihave Done1_2 := (pack8 (F := F) _ _ _ _ _ _ _ _) $$ [V1_2_0 V1_2_1 V1_2_2 V1_2_3 V1_2_4 V1_2_5 V1_2_6 V1_2_7]
  · isplitl [V1_2_0]; · iexact V1_2_0
    isplitl [V1_2_1]; · iexact V1_2_1
    isplitl [V1_2_2]; · iexact V1_2_2
    isplitl [V1_2_3]; · iexact V1_2_3
    isplitl [V1_2_4]; · iexact V1_2_4
    isplitl [V1_2_5]; · iexact V1_2_5
    isplitl [V1_2_6]; · iexact V1_2_6
    iexact V1_2_7
  sl_exec_parts
  ihave Hrows := (Entails.of_eq (slot_rows8 (F := F) d L 0 Nat.zero_lt_two _)) $$ Hslot0
  icases Hrows with ⟨Hr0, Hr1, Hr2, Hr3, Hr4, Hr5, Hr6, Hr7⟩
  rw [wp_bind]
  iapply (wp_wand_r frame _ Set.univ)
  isplitl [Hs2 Hr0 Hr1 Hr2 Hr3 Hr4 Hr5 Hr6 Hr7 Hpos' A30 A31 A32 A33 A34 A35 A36 A37 HO]
  · iapply (row_loop0V (F := F) d L (h0 d L) (t1of 3) _ _ _ _ _ O _ _ _ _) $$ [Hs2 Hr0 Hr1 Hr2 Hr3 Hr4 Hr5 Hr6 Hr7 Hpos' A30 A31 A32 A33 A34 A35 A36 A37 HO]
    isplitr; · iexact Hmw
    isplitl [Hs2]; · iexact Hs2
    isplitl [Hr0 Hr1 Hr2 Hr3 Hr4 Hr5 Hr6 Hr7]
    · isplitl [Hr0]; · iexact Hr0
      isplitl [Hr1]; · iexact Hr1
      isplitl [Hr2]; · iexact Hr2
      isplitl [Hr3]; · iexact Hr3
      isplitl [Hr4]; · iexact Hr4
      isplitl [Hr5]; · iexact Hr5
      isplitl [Hr6]; · iexact Hr6
      iexact Hr7
    isplitl [Hpos']; · iexact Hpos'
    isplitl [A30 A31 A32 A33 A34 A35 A36 A37]
    · isplitl [A30]; · iexact A30
      isplitl [A31]; · iexact A31
      isplitl [A32]; · iexact A32
      isplitl [A33]; · iexact A33
      isplitl [A34]; · iexact A34
      isplitl [A35]; · iexact A35
      isplitl [A36]; · iexact A36
      iexact A37
    iexact HO
  iintro %_ ⟨Hpos', Hs2, HO⟩
  sl_exec_parts
  -- the eight copies have landed: slot 0's rows together again; the eight output rows hold the sums
  ihave Hj := (slot_rows8_join' (F := F) d L 0 Nat.zero_lt_two _ _ _ _ _ _ _ _) $$ [Hs2_src0 Hs2_src1 Hs2_src2 Hs2_src3 Hs2_src4 Hs2_src5 Hs2_src6 Hs2_src7]
  · isplitl [Hs2_src0]; · iexact Hs2_src0
    isplitl [Hs2_src1]; · iexact Hs2_src1
    isplitl [Hs2_src2]; · iexact Hs2_src2
    isplitl [Hs2_src3]; · iexact Hs2_src3
    isplitl [Hs2_src4]; · iexact Hs2_src4
    isplitl [Hs2_src5]; · iexact Hs2_src5
    isplitl [Hs2_src6]; · iexact Hs2_src6
    iexact Hs2_src7
  icases Hj with ⟨%gs0_3, Hslot0⟩
  ihave V0_3_0 := (congr_of (F := F) (ℓ := oLoc d) (I := (outRow0 L (t1of 3) (t2of 0)).view.set) (q := fullShare) (g := outT m d) ?hv) $$ Hs2_dst0
  case hv => exact outRow0_value (F := F) m d L (t1of 3) (t2of 0) (m (oLoc d)) _ _ (fun k r col => slot0_at_3 (F := F) L _ (m (xLoc d)) k r col) (fun r col => posRows_land (F := F) L (t1of 3) _ (m (pLoc d)) r col)
  ihave V0_3_1 := (congr_of (F := F) (ℓ := oLoc d) (I := (outRow0 L (t1of 3) (t2of 1)).view.set) (q := fullShare) (g := outT m d) ?hv) $$ Hs2_dst1
  case hv => exact outRow0_value (F := F) m d L (t1of 3) (t2of 1) (m (oLoc d)) _ _ (fun k r col => slot0_at_3 (F := F) L _ (m (xLoc d)) k r col) (fun r col => posRows_land (F := F) L (t1of 3) _ (m (pLoc d)) r col)
  ihave V0_3_2 := (congr_of (F := F) (ℓ := oLoc d) (I := (outRow0 L (t1of 3) (t2of 2)).view.set) (q := fullShare) (g := outT m d) ?hv) $$ Hs2_dst2
  case hv => exact outRow0_value (F := F) m d L (t1of 3) (t2of 2) (m (oLoc d)) _ _ (fun k r col => slot0_at_3 (F := F) L _ (m (xLoc d)) k r col) (fun r col => posRows_land (F := F) L (t1of 3) _ (m (pLoc d)) r col)
  ihave V0_3_3 := (congr_of (F := F) (ℓ := oLoc d) (I := (outRow0 L (t1of 3) (t2of 3)).view.set) (q := fullShare) (g := outT m d) ?hv) $$ Hs2_dst3
  case hv => exact outRow0_value (F := F) m d L (t1of 3) (t2of 3) (m (oLoc d)) _ _ (fun k r col => slot0_at_3 (F := F) L _ (m (xLoc d)) k r col) (fun r col => posRows_land (F := F) L (t1of 3) _ (m (pLoc d)) r col)
  ihave V0_3_4 := (congr_of (F := F) (ℓ := oLoc d) (I := (outRow0 L (t1of 3) (t2of 4)).view.set) (q := fullShare) (g := outT m d) ?hv) $$ Hs2_dst4
  case hv => exact outRow0_value (F := F) m d L (t1of 3) (t2of 4) (m (oLoc d)) _ _ (fun k r col => slot0_at_3 (F := F) L _ (m (xLoc d)) k r col) (fun r col => posRows_land (F := F) L (t1of 3) _ (m (pLoc d)) r col)
  ihave V0_3_5 := (congr_of (F := F) (ℓ := oLoc d) (I := (outRow0 L (t1of 3) (t2of 5)).view.set) (q := fullShare) (g := outT m d) ?hv) $$ Hs2_dst5
  case hv => exact outRow0_value (F := F) m d L (t1of 3) (t2of 5) (m (oLoc d)) _ _ (fun k r col => slot0_at_3 (F := F) L _ (m (xLoc d)) k r col) (fun r col => posRows_land (F := F) L (t1of 3) _ (m (pLoc d)) r col)
  ihave V0_3_6 := (congr_of (F := F) (ℓ := oLoc d) (I := (outRow0 L (t1of 3) (t2of 6)).view.set) (q := fullShare) (g := outT m d) ?hv) $$ Hs2_dst6
  case hv => exact outRow0_value (F := F) m d L (t1of 3) (t2of 6) (m (oLoc d)) _ _ (fun k r col => slot0_at_3 (F := F) L _ (m (xLoc d)) k r col) (fun r col => posRows_land (F := F) L (t1of 3) _ (m (pLoc d)) r col)
  ihave V0_3_7 := (congr_of (F := F) (ℓ := oLoc d) (I := (outRow0 L (t1of 3) (t2of 7)).view.set) (q := fullShare) (g := outT m d) ?hv) $$ Hs2_dst7
  case hv => exact outRow0_value (F := F) m d L (t1of 3) (t2of 7) (m (oLoc d)) _ _ (fun k r col => slot0_at_3 (F := F) L _ (m (xLoc d)) k r col) (fun r col => posRows_land (F := F) L (t1of 3) _ (m (pLoc d)) r col)
  ihave Done0_3 := (pack8 (F := F) _ _ _ _ _ _ _ _) $$ [V0_3_0 V0_3_1 V0_3_2 V0_3_3 V0_3_4 V0_3_5 V0_3_6 V0_3_7]
  · isplitl [V0_3_0]; · iexact V0_3_0
    isplitl [V0_3_1]; · iexact V0_3_1
    isplitl [V0_3_2]; · iexact V0_3_2
    isplitl [V0_3_3]; · iexact V0_3_3
    isplitl [V0_3_4]; · iexact V0_3_4
    isplitl [V0_3_5]; · iexact V0_3_5
    isplitl [V0_3_6]; · iexact V0_3_6
    iexact V0_3_7
  sl_exec_parts
  ihave Hrows := (Entails.of_eq (slot_rows8 (F := F) d L 1 Nat.one_lt_two _)) $$ Hslot1
  icases Hrows with ⟨Hq0, Hq1, Hq2, Hq3, Hq4, Hq5, Hq6, Hq7⟩
  rw [wp_bind]
  iapply (wp_wand_r frame _ Set.univ)
  isplitl [Hs3 Hq0 Hq1 Hq2 Hq3 Hq4 Hq5 Hq6 Hq7 Hpos' B30 B31 B32 B33 B34 B35 B36 B37 HO]
  · iapply (row_loop1V (F := F) d L (h1 d L) (t1of 3) _ _ _ O _ _ _ _) $$ [Hs3 Hq0 Hq1 Hq2 Hq3 Hq4 Hq5 Hq6 Hq7 Hpos' B30 B31 B32 B33 B34 B35 B36 B37 HO]
    isplitr; · iexact Hmw
    isplitl [Hs3]; · iexact Hs3
    isplitl [Hq0 Hq1 Hq2 Hq3 Hq4 Hq5 Hq6 Hq7]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    isplitl [Hpos']; · iexact Hpos'
    isplitl [B30 B31 B32 B33 B34 B35 B36 B37]
    · isplitl [B30]; · iexact B30
      isplitl [B31]; · iexact B31
      isplitl [B32]; · iexact B32
      isplitl [B33]; · iexact B33
      isplitl [B34]; · iexact B34
      isplitl [B35]; · iexact B35
      isplitl [B36]; · iexact B36
      iexact B37
    iexact HO
  iintro %_ ⟨Hpos', Hs3, HO⟩
  -- chunk 4
  sl_exec_parts
  -- the eight copies have landed: slot 1's rows together again; the eight output rows hold the sums
  ihave Hj := (slot_rows8_join' (F := F) d L 1 Nat.one_lt_two _ _ _ _ _ _ _ _) $$ [Hs3_src0 Hs3_src1 Hs3_src2 Hs3_src3 Hs3_src4 Hs3_src5 Hs3_src6 Hs3_src7]
  · isplitl [Hs3_src0]; · iexact Hs3_src0
    isplitl [Hs3_src1]; · iexact Hs3_src1
    isplitl [Hs3_src2]; · iexact Hs3_src2
    isplitl [Hs3_src3]; · iexact Hs3_src3
    isplitl [Hs3_src4]; · iexact Hs3_src4
    isplitl [Hs3_src5]; · iexact Hs3_src5
    isplitl [Hs3_src6]; · iexact Hs3_src6
    iexact Hs3_src7
  icases Hj with ⟨%gs1_4, Hslot1⟩
  ihave V1_3_0 := (congr_of (F := F) (ℓ := oLoc d) (I := (outRow1 L (t1of 3) (t3of 0)).view.set) (q := fullShare) (g := outT m d) ?hv) $$ Hs3_dst0
  case hv => exact outRow1_value (F := F) m d L (t1of 3) (t3of 0) (m (oLoc d)) _ _ (fun k r col => slot1_at_3 (F := F) L _ (m (xLoc d)) k r col) (fun r col => posRows_land (F := F) L (t1of 3) _ (m (pLoc d)) r col)
  ihave V1_3_1 := (congr_of (F := F) (ℓ := oLoc d) (I := (outRow1 L (t1of 3) (t3of 1)).view.set) (q := fullShare) (g := outT m d) ?hv) $$ Hs3_dst1
  case hv => exact outRow1_value (F := F) m d L (t1of 3) (t3of 1) (m (oLoc d)) _ _ (fun k r col => slot1_at_3 (F := F) L _ (m (xLoc d)) k r col) (fun r col => posRows_land (F := F) L (t1of 3) _ (m (pLoc d)) r col)
  ihave V1_3_2 := (congr_of (F := F) (ℓ := oLoc d) (I := (outRow1 L (t1of 3) (t3of 2)).view.set) (q := fullShare) (g := outT m d) ?hv) $$ Hs3_dst2
  case hv => exact outRow1_value (F := F) m d L (t1of 3) (t3of 2) (m (oLoc d)) _ _ (fun k r col => slot1_at_3 (F := F) L _ (m (xLoc d)) k r col) (fun r col => posRows_land (F := F) L (t1of 3) _ (m (pLoc d)) r col)
  ihave V1_3_3 := (congr_of (F := F) (ℓ := oLoc d) (I := (outRow1 L (t1of 3) (t3of 3)).view.set) (q := fullShare) (g := outT m d) ?hv) $$ Hs3_dst3
  case hv => exact outRow1_value (F := F) m d L (t1of 3) (t3of 3) (m (oLoc d)) _ _ (fun k r col => slot1_at_3 (F := F) L _ (m (xLoc d)) k r col) (fun r col => posRows_land (F := F) L (t1of 3) _ (m (pLoc d)) r col)
  ihave V1_3_4 := (congr_of (F := F) (ℓ := oLoc d) (I := (outRow1 L (t1of 3) (t3of 4)).view.set) (q := fullShare) (g := outT m d) ?hv) $$ Hs3_dst4
  case hv => exact outRow1_value (F := F) m d L (t1of 3) (t3of 4) (m (oLoc d)) _ _ (fun k r col => slot1_at_3 (F := F) L _ (m (xLoc d)) k r col) (fun r col => posRows_land (F := F) L (t1of 3) _ (m (pLoc d)) r col)
  ihave V1_3_5 := (congr_of (F := F) (ℓ := oLoc d) (I := (outRow1 L (t1of 3) (t3of 5)).view.set) (q := fullShare) (g := outT m d) ?hv) $$ Hs3_dst5
  case hv => exact outRow1_value (F := F) m d L (t1of 3) (t3of 5) (m (oLoc d)) _ _ (fun k r col => slot1_at_3 (F := F) L _ (m (xLoc d)) k r col) (fun r col => posRows_land (F := F) L (t1of 3) _ (m (pLoc d)) r col)
  ihave V1_3_6 := (congr_of (F := F) (ℓ := oLoc d) (I := (outRow1 L (t1of 3) (t3of 6)).view.set) (q := fullShare) (g := outT m d) ?hv) $$ Hs3_dst6
  case hv => exact outRow1_value (F := F) m d L (t1of 3) (t3of 6) (m (oLoc d)) _ _ (fun k r col => slot1_at_3 (F := F) L _ (m (xLoc d)) k r col) (fun r col => posRows_land (F := F) L (t1of 3) _ (m (pLoc d)) r col)
  ihave V1_3_7 := (congr_of (F := F) (ℓ := oLoc d) (I := (outRow1 L (t1of 3) (t3of 7)).view.set) (q := fullShare) (g := outT m d) ?hv) $$ Hs3_dst7
  case hv => exact outRow1_value (F := F) m d L (t1of 3) (t3of 7) (m (oLoc d)) _ _ (fun k r col => slot1_at_3 (F := F) L _ (m (xLoc d)) k r col) (fun r col => posRows_land (F := F) L (t1of 3) _ (m (pLoc d)) r col)
  ihave Done1_3 := (pack8 (F := F) _ _ _ _ _ _ _ _) $$ [V1_3_0 V1_3_1 V1_3_2 V1_3_3 V1_3_4 V1_3_5 V1_3_6 V1_3_7]
  · isplitl [V1_3_0]; · iexact V1_3_0
    isplitl [V1_3_1]; · iexact V1_3_1
    isplitl [V1_3_2]; · iexact V1_3_2
    isplitl [V1_3_3]; · iexact V1_3_3
    isplitl [V1_3_4]; · iexact V1_3_4
    isplitl [V1_3_5]; · iexact V1_3_5
    isplitl [V1_3_6]; · iexact V1_3_6
    iexact V1_3_7
  sl_exec_parts
  ihave Hrows := (Entails.of_eq (slot_rows8 (F := F) d L 0 Nat.zero_lt_two _)) $$ Hslot0
  icases Hrows with ⟨Hr0, Hr1, Hr2, Hr3, Hr4, Hr5, Hr6, Hr7⟩
  rw [wp_bind]
  iapply (wp_wand_r frame _ Set.univ)
  isplitl [Hs2 Hr0 Hr1 Hr2 Hr3 Hr4 Hr5 Hr6 Hr7 Hpos' A40 A41 A42 A43 A44 A45 A46 A47 HO]
  · iapply (row_loop0V (F := F) d L (h0 d L) (t1of 4) _ _ _ _ _ O _ _ _ _) $$ [Hs2 Hr0 Hr1 Hr2 Hr3 Hr4 Hr5 Hr6 Hr7 Hpos' A40 A41 A42 A43 A44 A45 A46 A47 HO]
    isplitr; · iexact Hmw
    isplitl [Hs2]; · iexact Hs2
    isplitl [Hr0 Hr1 Hr2 Hr3 Hr4 Hr5 Hr6 Hr7]
    · isplitl [Hr0]; · iexact Hr0
      isplitl [Hr1]; · iexact Hr1
      isplitl [Hr2]; · iexact Hr2
      isplitl [Hr3]; · iexact Hr3
      isplitl [Hr4]; · iexact Hr4
      isplitl [Hr5]; · iexact Hr5
      isplitl [Hr6]; · iexact Hr6
      iexact Hr7
    isplitl [Hpos']; · iexact Hpos'
    isplitl [A40 A41 A42 A43 A44 A45 A46 A47]
    · isplitl [A40]; · iexact A40
      isplitl [A41]; · iexact A41
      isplitl [A42]; · iexact A42
      isplitl [A43]; · iexact A43
      isplitl [A44]; · iexact A44
      isplitl [A45]; · iexact A45
      isplitl [A46]; · iexact A46
      iexact A47
    iexact HO
  iintro %_ ⟨Hpos', Hs2, HO⟩
  sl_exec_parts
  -- the eight copies have landed: slot 0's rows together again; the eight output rows hold the sums
  ihave Hj := (slot_rows8_join' (F := F) d L 0 Nat.zero_lt_two _ _ _ _ _ _ _ _) $$ [Hs2_src0 Hs2_src1 Hs2_src2 Hs2_src3 Hs2_src4 Hs2_src5 Hs2_src6 Hs2_src7]
  · isplitl [Hs2_src0]; · iexact Hs2_src0
    isplitl [Hs2_src1]; · iexact Hs2_src1
    isplitl [Hs2_src2]; · iexact Hs2_src2
    isplitl [Hs2_src3]; · iexact Hs2_src3
    isplitl [Hs2_src4]; · iexact Hs2_src4
    isplitl [Hs2_src5]; · iexact Hs2_src5
    isplitl [Hs2_src6]; · iexact Hs2_src6
    iexact Hs2_src7
  icases Hj with ⟨%gs0_4, Hslot0⟩
  ihave V0_4_0 := (congr_of (F := F) (ℓ := oLoc d) (I := (outRow0 L (t1of 4) (t2of 0)).view.set) (q := fullShare) (g := outT m d) ?hv) $$ Hs2_dst0
  case hv => exact outRow0_value (F := F) m d L (t1of 4) (t2of 0) (m (oLoc d)) _ _ (fun k r col => slot0_at_4 (F := F) L _ (m (xLoc d)) k r col) (fun r col => posRows_land (F := F) L (t1of 4) _ (m (pLoc d)) r col)
  ihave V0_4_1 := (congr_of (F := F) (ℓ := oLoc d) (I := (outRow0 L (t1of 4) (t2of 1)).view.set) (q := fullShare) (g := outT m d) ?hv) $$ Hs2_dst1
  case hv => exact outRow0_value (F := F) m d L (t1of 4) (t2of 1) (m (oLoc d)) _ _ (fun k r col => slot0_at_4 (F := F) L _ (m (xLoc d)) k r col) (fun r col => posRows_land (F := F) L (t1of 4) _ (m (pLoc d)) r col)
  ihave V0_4_2 := (congr_of (F := F) (ℓ := oLoc d) (I := (outRow0 L (t1of 4) (t2of 2)).view.set) (q := fullShare) (g := outT m d) ?hv) $$ Hs2_dst2
  case hv => exact outRow0_value (F := F) m d L (t1of 4) (t2of 2) (m (oLoc d)) _ _ (fun k r col => slot0_at_4 (F := F) L _ (m (xLoc d)) k r col) (fun r col => posRows_land (F := F) L (t1of 4) _ (m (pLoc d)) r col)
  ihave V0_4_3 := (congr_of (F := F) (ℓ := oLoc d) (I := (outRow0 L (t1of 4) (t2of 3)).view.set) (q := fullShare) (g := outT m d) ?hv) $$ Hs2_dst3
  case hv => exact outRow0_value (F := F) m d L (t1of 4) (t2of 3) (m (oLoc d)) _ _ (fun k r col => slot0_at_4 (F := F) L _ (m (xLoc d)) k r col) (fun r col => posRows_land (F := F) L (t1of 4) _ (m (pLoc d)) r col)
  ihave V0_4_4 := (congr_of (F := F) (ℓ := oLoc d) (I := (outRow0 L (t1of 4) (t2of 4)).view.set) (q := fullShare) (g := outT m d) ?hv) $$ Hs2_dst4
  case hv => exact outRow0_value (F := F) m d L (t1of 4) (t2of 4) (m (oLoc d)) _ _ (fun k r col => slot0_at_4 (F := F) L _ (m (xLoc d)) k r col) (fun r col => posRows_land (F := F) L (t1of 4) _ (m (pLoc d)) r col)
  ihave V0_4_5 := (congr_of (F := F) (ℓ := oLoc d) (I := (outRow0 L (t1of 4) (t2of 5)).view.set) (q := fullShare) (g := outT m d) ?hv) $$ Hs2_dst5
  case hv => exact outRow0_value (F := F) m d L (t1of 4) (t2of 5) (m (oLoc d)) _ _ (fun k r col => slot0_at_4 (F := F) L _ (m (xLoc d)) k r col) (fun r col => posRows_land (F := F) L (t1of 4) _ (m (pLoc d)) r col)
  ihave V0_4_6 := (congr_of (F := F) (ℓ := oLoc d) (I := (outRow0 L (t1of 4) (t2of 6)).view.set) (q := fullShare) (g := outT m d) ?hv) $$ Hs2_dst6
  case hv => exact outRow0_value (F := F) m d L (t1of 4) (t2of 6) (m (oLoc d)) _ _ (fun k r col => slot0_at_4 (F := F) L _ (m (xLoc d)) k r col) (fun r col => posRows_land (F := F) L (t1of 4) _ (m (pLoc d)) r col)
  ihave V0_4_7 := (congr_of (F := F) (ℓ := oLoc d) (I := (outRow0 L (t1of 4) (t2of 7)).view.set) (q := fullShare) (g := outT m d) ?hv) $$ Hs2_dst7
  case hv => exact outRow0_value (F := F) m d L (t1of 4) (t2of 7) (m (oLoc d)) _ _ (fun k r col => slot0_at_4 (F := F) L _ (m (xLoc d)) k r col) (fun r col => posRows_land (F := F) L (t1of 4) _ (m (pLoc d)) r col)
  ihave Done0_4 := (pack8 (F := F) _ _ _ _ _ _ _ _) $$ [V0_4_0 V0_4_1 V0_4_2 V0_4_3 V0_4_4 V0_4_5 V0_4_6 V0_4_7]
  · isplitl [V0_4_0]; · iexact V0_4_0
    isplitl [V0_4_1]; · iexact V0_4_1
    isplitl [V0_4_2]; · iexact V0_4_2
    isplitl [V0_4_3]; · iexact V0_4_3
    isplitl [V0_4_4]; · iexact V0_4_4
    isplitl [V0_4_5]; · iexact V0_4_5
    isplitl [V0_4_6]; · iexact V0_4_6
    iexact V0_4_7
  sl_exec_parts
  ihave Hrows := (Entails.of_eq (slot_rows8 (F := F) d L 1 Nat.one_lt_two _)) $$ Hslot1
  icases Hrows with ⟨Hq0, Hq1, Hq2, Hq3, Hq4, Hq5, Hq6, Hq7⟩
  rw [wp_bind]
  iapply (wp_wand_r frame _ Set.univ)
  isplitl [Hs3 Hq0 Hq1 Hq2 Hq3 Hq4 Hq5 Hq6 Hq7 Hpos' B40 B41 B42 B43 B44 B45 B46 B47 HO]
  · iapply (row_loop1V (F := F) d L (h1 d L) (t1of 4) _ _ _ O _ _ _ _) $$ [Hs3 Hq0 Hq1 Hq2 Hq3 Hq4 Hq5 Hq6 Hq7 Hpos' B40 B41 B42 B43 B44 B45 B46 B47 HO]
    isplitr; · iexact Hmw
    isplitl [Hs3]; · iexact Hs3
    isplitl [Hq0 Hq1 Hq2 Hq3 Hq4 Hq5 Hq6 Hq7]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    isplitl [Hpos']; · iexact Hpos'
    isplitl [B40 B41 B42 B43 B44 B45 B46 B47]
    · isplitl [B40]; · iexact B40
      isplitl [B41]; · iexact B41
      isplitl [B42]; · iexact B42
      isplitl [B43]; · iexact B43
      isplitl [B44]; · iexact B44
      isplitl [B45]; · iexact B45
      isplitl [B46]; · iexact B46
      iexact B47
    iexact HO
  iintro %_ ⟨Hpos', Hs3, HO⟩
  -- chunk 5
  sl_exec_parts
  -- the eight copies have landed: slot 1's rows together again; the eight output rows hold the sums
  ihave Hj := (slot_rows8_join' (F := F) d L 1 Nat.one_lt_two _ _ _ _ _ _ _ _) $$ [Hs3_src0 Hs3_src1 Hs3_src2 Hs3_src3 Hs3_src4 Hs3_src5 Hs3_src6 Hs3_src7]
  · isplitl [Hs3_src0]; · iexact Hs3_src0
    isplitl [Hs3_src1]; · iexact Hs3_src1
    isplitl [Hs3_src2]; · iexact Hs3_src2
    isplitl [Hs3_src3]; · iexact Hs3_src3
    isplitl [Hs3_src4]; · iexact Hs3_src4
    isplitl [Hs3_src5]; · iexact Hs3_src5
    isplitl [Hs3_src6]; · iexact Hs3_src6
    iexact Hs3_src7
  icases Hj with ⟨%gs1_5, Hslot1⟩
  ihave V1_4_0 := (congr_of (F := F) (ℓ := oLoc d) (I := (outRow1 L (t1of 4) (t3of 0)).view.set) (q := fullShare) (g := outT m d) ?hv) $$ Hs3_dst0
  case hv => exact outRow1_value (F := F) m d L (t1of 4) (t3of 0) (m (oLoc d)) _ _ (fun k r col => slot1_at_4 (F := F) L _ (m (xLoc d)) k r col) (fun r col => posRows_land (F := F) L (t1of 4) _ (m (pLoc d)) r col)
  ihave V1_4_1 := (congr_of (F := F) (ℓ := oLoc d) (I := (outRow1 L (t1of 4) (t3of 1)).view.set) (q := fullShare) (g := outT m d) ?hv) $$ Hs3_dst1
  case hv => exact outRow1_value (F := F) m d L (t1of 4) (t3of 1) (m (oLoc d)) _ _ (fun k r col => slot1_at_4 (F := F) L _ (m (xLoc d)) k r col) (fun r col => posRows_land (F := F) L (t1of 4) _ (m (pLoc d)) r col)
  ihave V1_4_2 := (congr_of (F := F) (ℓ := oLoc d) (I := (outRow1 L (t1of 4) (t3of 2)).view.set) (q := fullShare) (g := outT m d) ?hv) $$ Hs3_dst2
  case hv => exact outRow1_value (F := F) m d L (t1of 4) (t3of 2) (m (oLoc d)) _ _ (fun k r col => slot1_at_4 (F := F) L _ (m (xLoc d)) k r col) (fun r col => posRows_land (F := F) L (t1of 4) _ (m (pLoc d)) r col)
  ihave V1_4_3 := (congr_of (F := F) (ℓ := oLoc d) (I := (outRow1 L (t1of 4) (t3of 3)).view.set) (q := fullShare) (g := outT m d) ?hv) $$ Hs3_dst3
  case hv => exact outRow1_value (F := F) m d L (t1of 4) (t3of 3) (m (oLoc d)) _ _ (fun k r col => slot1_at_4 (F := F) L _ (m (xLoc d)) k r col) (fun r col => posRows_land (F := F) L (t1of 4) _ (m (pLoc d)) r col)
  ihave V1_4_4 := (congr_of (F := F) (ℓ := oLoc d) (I := (outRow1 L (t1of 4) (t3of 4)).view.set) (q := fullShare) (g := outT m d) ?hv) $$ Hs3_dst4
  case hv => exact outRow1_value (F := F) m d L (t1of 4) (t3of 4) (m (oLoc d)) _ _ (fun k r col => slot1_at_4 (F := F) L _ (m (xLoc d)) k r col) (fun r col => posRows_land (F := F) L (t1of 4) _ (m (pLoc d)) r col)
  ihave V1_4_5 := (congr_of (F := F) (ℓ := oLoc d) (I := (outRow1 L (t1of 4) (t3of 5)).view.set) (q := fullShare) (g := outT m d) ?hv) $$ Hs3_dst5
  case hv => exact outRow1_value (F := F) m d L (t1of 4) (t3of 5) (m (oLoc d)) _ _ (fun k r col => slot1_at_4 (F := F) L _ (m (xLoc d)) k r col) (fun r col => posRows_land (F := F) L (t1of 4) _ (m (pLoc d)) r col)
  ihave V1_4_6 := (congr_of (F := F) (ℓ := oLoc d) (I := (outRow1 L (t1of 4) (t3of 6)).view.set) (q := fullShare) (g := outT m d) ?hv) $$ Hs3_dst6
  case hv => exact outRow1_value (F := F) m d L (t1of 4) (t3of 6) (m (oLoc d)) _ _ (fun k r col => slot1_at_4 (F := F) L _ (m (xLoc d)) k r col) (fun r col => posRows_land (F := F) L (t1of 4) _ (m (pLoc d)) r col)
  ihave V1_4_7 := (congr_of (F := F) (ℓ := oLoc d) (I := (outRow1 L (t1of 4) (t3of 7)).view.set) (q := fullShare) (g := outT m d) ?hv) $$ Hs3_dst7
  case hv => exact outRow1_value (F := F) m d L (t1of 4) (t3of 7) (m (oLoc d)) _ _ (fun k r col => slot1_at_4 (F := F) L _ (m (xLoc d)) k r col) (fun r col => posRows_land (F := F) L (t1of 4) _ (m (pLoc d)) r col)
  ihave Done1_4 := (pack8 (F := F) _ _ _ _ _ _ _ _) $$ [V1_4_0 V1_4_1 V1_4_2 V1_4_3 V1_4_4 V1_4_5 V1_4_6 V1_4_7]
  · isplitl [V1_4_0]; · iexact V1_4_0
    isplitl [V1_4_1]; · iexact V1_4_1
    isplitl [V1_4_2]; · iexact V1_4_2
    isplitl [V1_4_3]; · iexact V1_4_3
    isplitl [V1_4_4]; · iexact V1_4_4
    isplitl [V1_4_5]; · iexact V1_4_5
    isplitl [V1_4_6]; · iexact V1_4_6
    iexact V1_4_7
  sl_exec_parts
  ihave Hrows := (Entails.of_eq (slot_rows8 (F := F) d L 0 Nat.zero_lt_two _)) $$ Hslot0
  icases Hrows with ⟨Hr0, Hr1, Hr2, Hr3, Hr4, Hr5, Hr6, Hr7⟩
  rw [wp_bind]
  iapply (wp_wand_r frame _ Set.univ)
  isplitl [Hs2 Hr0 Hr1 Hr2 Hr3 Hr4 Hr5 Hr6 Hr7 Hpos' A50 A51 A52 A53 A54 A55 A56 A57 HO]
  · iapply (row_loop0V (F := F) d L (h0 d L) (t1of 5) _ _ _ _ _ O _ _ _ _) $$ [Hs2 Hr0 Hr1 Hr2 Hr3 Hr4 Hr5 Hr6 Hr7 Hpos' A50 A51 A52 A53 A54 A55 A56 A57 HO]
    isplitr; · iexact Hmw
    isplitl [Hs2]; · iexact Hs2
    isplitl [Hr0 Hr1 Hr2 Hr3 Hr4 Hr5 Hr6 Hr7]
    · isplitl [Hr0]; · iexact Hr0
      isplitl [Hr1]; · iexact Hr1
      isplitl [Hr2]; · iexact Hr2
      isplitl [Hr3]; · iexact Hr3
      isplitl [Hr4]; · iexact Hr4
      isplitl [Hr5]; · iexact Hr5
      isplitl [Hr6]; · iexact Hr6
      iexact Hr7
    isplitl [Hpos']; · iexact Hpos'
    isplitl [A50 A51 A52 A53 A54 A55 A56 A57]
    · isplitl [A50]; · iexact A50
      isplitl [A51]; · iexact A51
      isplitl [A52]; · iexact A52
      isplitl [A53]; · iexact A53
      isplitl [A54]; · iexact A54
      isplitl [A55]; · iexact A55
      isplitl [A56]; · iexact A56
      iexact A57
    iexact HO
  iintro %_ ⟨Hpos', Hs2, HO⟩
  sl_exec_parts
  -- the eight copies have landed: slot 0's rows together again; the eight output rows hold the sums
  ihave Hj := (slot_rows8_join' (F := F) d L 0 Nat.zero_lt_two _ _ _ _ _ _ _ _) $$ [Hs2_src0 Hs2_src1 Hs2_src2 Hs2_src3 Hs2_src4 Hs2_src5 Hs2_src6 Hs2_src7]
  · isplitl [Hs2_src0]; · iexact Hs2_src0
    isplitl [Hs2_src1]; · iexact Hs2_src1
    isplitl [Hs2_src2]; · iexact Hs2_src2
    isplitl [Hs2_src3]; · iexact Hs2_src3
    isplitl [Hs2_src4]; · iexact Hs2_src4
    isplitl [Hs2_src5]; · iexact Hs2_src5
    isplitl [Hs2_src6]; · iexact Hs2_src6
    iexact Hs2_src7
  icases Hj with ⟨%gs0_5, Hslot0⟩
  ihave V0_5_0 := (congr_of (F := F) (ℓ := oLoc d) (I := (outRow0 L (t1of 5) (t2of 0)).view.set) (q := fullShare) (g := outT m d) ?hv) $$ Hs2_dst0
  case hv => exact outRow0_value (F := F) m d L (t1of 5) (t2of 0) (m (oLoc d)) _ _ (fun k r col => slot0_at_5 (F := F) L _ (m (xLoc d)) k r col) (fun r col => posRows_land (F := F) L (t1of 5) _ (m (pLoc d)) r col)
  ihave V0_5_1 := (congr_of (F := F) (ℓ := oLoc d) (I := (outRow0 L (t1of 5) (t2of 1)).view.set) (q := fullShare) (g := outT m d) ?hv) $$ Hs2_dst1
  case hv => exact outRow0_value (F := F) m d L (t1of 5) (t2of 1) (m (oLoc d)) _ _ (fun k r col => slot0_at_5 (F := F) L _ (m (xLoc d)) k r col) (fun r col => posRows_land (F := F) L (t1of 5) _ (m (pLoc d)) r col)
  ihave V0_5_2 := (congr_of (F := F) (ℓ := oLoc d) (I := (outRow0 L (t1of 5) (t2of 2)).view.set) (q := fullShare) (g := outT m d) ?hv) $$ Hs2_dst2
  case hv => exact outRow0_value (F := F) m d L (t1of 5) (t2of 2) (m (oLoc d)) _ _ (fun k r col => slot0_at_5 (F := F) L _ (m (xLoc d)) k r col) (fun r col => posRows_land (F := F) L (t1of 5) _ (m (pLoc d)) r col)
  ihave V0_5_3 := (congr_of (F := F) (ℓ := oLoc d) (I := (outRow0 L (t1of 5) (t2of 3)).view.set) (q := fullShare) (g := outT m d) ?hv) $$ Hs2_dst3
  case hv => exact outRow0_value (F := F) m d L (t1of 5) (t2of 3) (m (oLoc d)) _ _ (fun k r col => slot0_at_5 (F := F) L _ (m (xLoc d)) k r col) (fun r col => posRows_land (F := F) L (t1of 5) _ (m (pLoc d)) r col)
  ihave V0_5_4 := (congr_of (F := F) (ℓ := oLoc d) (I := (outRow0 L (t1of 5) (t2of 4)).view.set) (q := fullShare) (g := outT m d) ?hv) $$ Hs2_dst4
  case hv => exact outRow0_value (F := F) m d L (t1of 5) (t2of 4) (m (oLoc d)) _ _ (fun k r col => slot0_at_5 (F := F) L _ (m (xLoc d)) k r col) (fun r col => posRows_land (F := F) L (t1of 5) _ (m (pLoc d)) r col)
  ihave V0_5_5 := (congr_of (F := F) (ℓ := oLoc d) (I := (outRow0 L (t1of 5) (t2of 5)).view.set) (q := fullShare) (g := outT m d) ?hv) $$ Hs2_dst5
  case hv => exact outRow0_value (F := F) m d L (t1of 5) (t2of 5) (m (oLoc d)) _ _ (fun k r col => slot0_at_5 (F := F) L _ (m (xLoc d)) k r col) (fun r col => posRows_land (F := F) L (t1of 5) _ (m (pLoc d)) r col)
  ihave V0_5_6 := (congr_of (F := F) (ℓ := oLoc d) (I := (outRow0 L (t1of 5) (t2of 6)).view.set) (q := fullShare) (g := outT m d) ?hv) $$ Hs2_dst6
  case hv => exact outRow0_value (F := F) m d L (t1of 5) (t2of 6) (m (oLoc d)) _ _ (fun k r col => slot0_at_5 (F := F) L _ (m (xLoc d)) k r col) (fun r col => posRows_land (F := F) L (t1of 5) _ (m (pLoc d)) r col)
  ihave V0_5_7 := (congr_of (F := F) (ℓ := oLoc d) (I := (outRow0 L (t1of 5) (t2of 7)).view.set) (q := fullShare) (g := outT m d) ?hv) $$ Hs2_dst7
  case hv => exact outRow0_value (F := F) m d L (t1of 5) (t2of 7) (m (oLoc d)) _ _ (fun k r col => slot0_at_5 (F := F) L _ (m (xLoc d)) k r col) (fun r col => posRows_land (F := F) L (t1of 5) _ (m (pLoc d)) r col)
  ihave Done0_5 := (pack8 (F := F) _ _ _ _ _ _ _ _) $$ [V0_5_0 V0_5_1 V0_5_2 V0_5_3 V0_5_4 V0_5_5 V0_5_6 V0_5_7]
  · isplitl [V0_5_0]; · iexact V0_5_0
    isplitl [V0_5_1]; · iexact V0_5_1
    isplitl [V0_5_2]; · iexact V0_5_2
    isplitl [V0_5_3]; · iexact V0_5_3
    isplitl [V0_5_4]; · iexact V0_5_4
    isplitl [V0_5_5]; · iexact V0_5_5
    isplitl [V0_5_6]; · iexact V0_5_6
    iexact V0_5_7
  sl_exec_parts
  ihave Hrows := (Entails.of_eq (slot_rows8 (F := F) d L 1 Nat.one_lt_two _)) $$ Hslot1
  icases Hrows with ⟨Hq0, Hq1, Hq2, Hq3, Hq4, Hq5, Hq6, Hq7⟩
  rw [wp_bind]
  iapply (wp_wand_r frame _ Set.univ)
  isplitl [Hs3 Hq0 Hq1 Hq2 Hq3 Hq4 Hq5 Hq6 Hq7 Hpos' B50 B51 B52 B53 B54 B55 B56 B57 HO]
  · iapply (row_loop1V (F := F) d L (h1 d L) (t1of 5) _ _ _ O _ _ _ _) $$ [Hs3 Hq0 Hq1 Hq2 Hq3 Hq4 Hq5 Hq6 Hq7 Hpos' B50 B51 B52 B53 B54 B55 B56 B57 HO]
    isplitr; · iexact Hmw
    isplitl [Hs3]; · iexact Hs3
    isplitl [Hq0 Hq1 Hq2 Hq3 Hq4 Hq5 Hq6 Hq7]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    isplitl [Hpos']; · iexact Hpos'
    isplitl [B50 B51 B52 B53 B54 B55 B56 B57]
    · isplitl [B50]; · iexact B50
      isplitl [B51]; · iexact B51
      isplitl [B52]; · iexact B52
      isplitl [B53]; · iexact B53
      isplitl [B54]; · iexact B54
      isplitl [B55]; · iexact B55
      isplitl [B56]; · iexact B56
      iexact B57
    iexact HO
  iintro %_ ⟨Hpos', Hs3, HO⟩
  -- chunk 6
  sl_exec_parts
  -- the eight copies have landed: slot 1's rows together again; the eight output rows hold the sums
  ihave Hj := (slot_rows8_join' (F := F) d L 1 Nat.one_lt_two _ _ _ _ _ _ _ _) $$ [Hs3_src0 Hs3_src1 Hs3_src2 Hs3_src3 Hs3_src4 Hs3_src5 Hs3_src6 Hs3_src7]
  · isplitl [Hs3_src0]; · iexact Hs3_src0
    isplitl [Hs3_src1]; · iexact Hs3_src1
    isplitl [Hs3_src2]; · iexact Hs3_src2
    isplitl [Hs3_src3]; · iexact Hs3_src3
    isplitl [Hs3_src4]; · iexact Hs3_src4
    isplitl [Hs3_src5]; · iexact Hs3_src5
    isplitl [Hs3_src6]; · iexact Hs3_src6
    iexact Hs3_src7
  icases Hj with ⟨%gs1_6, Hslot1⟩
  ihave V1_5_0 := (congr_of (F := F) (ℓ := oLoc d) (I := (outRow1 L (t1of 5) (t3of 0)).view.set) (q := fullShare) (g := outT m d) ?hv) $$ Hs3_dst0
  case hv => exact outRow1_value (F := F) m d L (t1of 5) (t3of 0) (m (oLoc d)) _ _ (fun k r col => slot1_at_5 (F := F) L _ (m (xLoc d)) k r col) (fun r col => posRows_land (F := F) L (t1of 5) _ (m (pLoc d)) r col)
  ihave V1_5_1 := (congr_of (F := F) (ℓ := oLoc d) (I := (outRow1 L (t1of 5) (t3of 1)).view.set) (q := fullShare) (g := outT m d) ?hv) $$ Hs3_dst1
  case hv => exact outRow1_value (F := F) m d L (t1of 5) (t3of 1) (m (oLoc d)) _ _ (fun k r col => slot1_at_5 (F := F) L _ (m (xLoc d)) k r col) (fun r col => posRows_land (F := F) L (t1of 5) _ (m (pLoc d)) r col)
  ihave V1_5_2 := (congr_of (F := F) (ℓ := oLoc d) (I := (outRow1 L (t1of 5) (t3of 2)).view.set) (q := fullShare) (g := outT m d) ?hv) $$ Hs3_dst2
  case hv => exact outRow1_value (F := F) m d L (t1of 5) (t3of 2) (m (oLoc d)) _ _ (fun k r col => slot1_at_5 (F := F) L _ (m (xLoc d)) k r col) (fun r col => posRows_land (F := F) L (t1of 5) _ (m (pLoc d)) r col)
  ihave V1_5_3 := (congr_of (F := F) (ℓ := oLoc d) (I := (outRow1 L (t1of 5) (t3of 3)).view.set) (q := fullShare) (g := outT m d) ?hv) $$ Hs3_dst3
  case hv => exact outRow1_value (F := F) m d L (t1of 5) (t3of 3) (m (oLoc d)) _ _ (fun k r col => slot1_at_5 (F := F) L _ (m (xLoc d)) k r col) (fun r col => posRows_land (F := F) L (t1of 5) _ (m (pLoc d)) r col)
  ihave V1_5_4 := (congr_of (F := F) (ℓ := oLoc d) (I := (outRow1 L (t1of 5) (t3of 4)).view.set) (q := fullShare) (g := outT m d) ?hv) $$ Hs3_dst4
  case hv => exact outRow1_value (F := F) m d L (t1of 5) (t3of 4) (m (oLoc d)) _ _ (fun k r col => slot1_at_5 (F := F) L _ (m (xLoc d)) k r col) (fun r col => posRows_land (F := F) L (t1of 5) _ (m (pLoc d)) r col)
  ihave V1_5_5 := (congr_of (F := F) (ℓ := oLoc d) (I := (outRow1 L (t1of 5) (t3of 5)).view.set) (q := fullShare) (g := outT m d) ?hv) $$ Hs3_dst5
  case hv => exact outRow1_value (F := F) m d L (t1of 5) (t3of 5) (m (oLoc d)) _ _ (fun k r col => slot1_at_5 (F := F) L _ (m (xLoc d)) k r col) (fun r col => posRows_land (F := F) L (t1of 5) _ (m (pLoc d)) r col)
  ihave V1_5_6 := (congr_of (F := F) (ℓ := oLoc d) (I := (outRow1 L (t1of 5) (t3of 6)).view.set) (q := fullShare) (g := outT m d) ?hv) $$ Hs3_dst6
  case hv => exact outRow1_value (F := F) m d L (t1of 5) (t3of 6) (m (oLoc d)) _ _ (fun k r col => slot1_at_5 (F := F) L _ (m (xLoc d)) k r col) (fun r col => posRows_land (F := F) L (t1of 5) _ (m (pLoc d)) r col)
  ihave V1_5_7 := (congr_of (F := F) (ℓ := oLoc d) (I := (outRow1 L (t1of 5) (t3of 7)).view.set) (q := fullShare) (g := outT m d) ?hv) $$ Hs3_dst7
  case hv => exact outRow1_value (F := F) m d L (t1of 5) (t3of 7) (m (oLoc d)) _ _ (fun k r col => slot1_at_5 (F := F) L _ (m (xLoc d)) k r col) (fun r col => posRows_land (F := F) L (t1of 5) _ (m (pLoc d)) r col)
  ihave Done1_5 := (pack8 (F := F) _ _ _ _ _ _ _ _) $$ [V1_5_0 V1_5_1 V1_5_2 V1_5_3 V1_5_4 V1_5_5 V1_5_6 V1_5_7]
  · isplitl [V1_5_0]; · iexact V1_5_0
    isplitl [V1_5_1]; · iexact V1_5_1
    isplitl [V1_5_2]; · iexact V1_5_2
    isplitl [V1_5_3]; · iexact V1_5_3
    isplitl [V1_5_4]; · iexact V1_5_4
    isplitl [V1_5_5]; · iexact V1_5_5
    isplitl [V1_5_6]; · iexact V1_5_6
    iexact V1_5_7
  sl_exec_parts
  ihave Hrows := (Entails.of_eq (slot_rows8 (F := F) d L 0 Nat.zero_lt_two _)) $$ Hslot0
  icases Hrows with ⟨Hr0, Hr1, Hr2, Hr3, Hr4, Hr5, Hr6, Hr7⟩
  rw [wp_bind]
  iapply (wp_wand_r frame _ Set.univ)
  isplitl [Hs2 Hr0 Hr1 Hr2 Hr3 Hr4 Hr5 Hr6 Hr7 Hpos' A60 A61 A62 A63 A64 A65 A66 A67 HO]
  · iapply (row_loop0V (F := F) d L (h0 d L) (t1of 6) _ _ _ _ _ O _ _ _ _) $$ [Hs2 Hr0 Hr1 Hr2 Hr3 Hr4 Hr5 Hr6 Hr7 Hpos' A60 A61 A62 A63 A64 A65 A66 A67 HO]
    isplitr; · iexact Hmw
    isplitl [Hs2]; · iexact Hs2
    isplitl [Hr0 Hr1 Hr2 Hr3 Hr4 Hr5 Hr6 Hr7]
    · isplitl [Hr0]; · iexact Hr0
      isplitl [Hr1]; · iexact Hr1
      isplitl [Hr2]; · iexact Hr2
      isplitl [Hr3]; · iexact Hr3
      isplitl [Hr4]; · iexact Hr4
      isplitl [Hr5]; · iexact Hr5
      isplitl [Hr6]; · iexact Hr6
      iexact Hr7
    isplitl [Hpos']; · iexact Hpos'
    isplitl [A60 A61 A62 A63 A64 A65 A66 A67]
    · isplitl [A60]; · iexact A60
      isplitl [A61]; · iexact A61
      isplitl [A62]; · iexact A62
      isplitl [A63]; · iexact A63
      isplitl [A64]; · iexact A64
      isplitl [A65]; · iexact A65
      isplitl [A66]; · iexact A66
      iexact A67
    iexact HO
  iintro %_ ⟨Hpos', Hs2, HO⟩
  sl_exec_parts
  -- the eight copies have landed: slot 0's rows together again; the eight output rows hold the sums
  ihave Hj := (slot_rows8_join' (F := F) d L 0 Nat.zero_lt_two _ _ _ _ _ _ _ _) $$ [Hs2_src0 Hs2_src1 Hs2_src2 Hs2_src3 Hs2_src4 Hs2_src5 Hs2_src6 Hs2_src7]
  · isplitl [Hs2_src0]; · iexact Hs2_src0
    isplitl [Hs2_src1]; · iexact Hs2_src1
    isplitl [Hs2_src2]; · iexact Hs2_src2
    isplitl [Hs2_src3]; · iexact Hs2_src3
    isplitl [Hs2_src4]; · iexact Hs2_src4
    isplitl [Hs2_src5]; · iexact Hs2_src5
    isplitl [Hs2_src6]; · iexact Hs2_src6
    iexact Hs2_src7
  icases Hj with ⟨%gs0_6, Hslot0⟩
  ihave V0_6_0 := (congr_of (F := F) (ℓ := oLoc d) (I := (outRow0 L (t1of 6) (t2of 0)).view.set) (q := fullShare) (g := outT m d) ?hv) $$ Hs2_dst0
  case hv => exact outRow0_value (F := F) m d L (t1of 6) (t2of 0) (m (oLoc d)) _ _ (fun k r col => slot0_at_6 (F := F) L _ (m (xLoc d)) k r col) (fun r col => posRows_land (F := F) L (t1of 6) _ (m (pLoc d)) r col)
  ihave V0_6_1 := (congr_of (F := F) (ℓ := oLoc d) (I := (outRow0 L (t1of 6) (t2of 1)).view.set) (q := fullShare) (g := outT m d) ?hv) $$ Hs2_dst1
  case hv => exact outRow0_value (F := F) m d L (t1of 6) (t2of 1) (m (oLoc d)) _ _ (fun k r col => slot0_at_6 (F := F) L _ (m (xLoc d)) k r col) (fun r col => posRows_land (F := F) L (t1of 6) _ (m (pLoc d)) r col)
  ihave V0_6_2 := (congr_of (F := F) (ℓ := oLoc d) (I := (outRow0 L (t1of 6) (t2of 2)).view.set) (q := fullShare) (g := outT m d) ?hv) $$ Hs2_dst2
  case hv => exact outRow0_value (F := F) m d L (t1of 6) (t2of 2) (m (oLoc d)) _ _ (fun k r col => slot0_at_6 (F := F) L _ (m (xLoc d)) k r col) (fun r col => posRows_land (F := F) L (t1of 6) _ (m (pLoc d)) r col)
  ihave V0_6_3 := (congr_of (F := F) (ℓ := oLoc d) (I := (outRow0 L (t1of 6) (t2of 3)).view.set) (q := fullShare) (g := outT m d) ?hv) $$ Hs2_dst3
  case hv => exact outRow0_value (F := F) m d L (t1of 6) (t2of 3) (m (oLoc d)) _ _ (fun k r col => slot0_at_6 (F := F) L _ (m (xLoc d)) k r col) (fun r col => posRows_land (F := F) L (t1of 6) _ (m (pLoc d)) r col)
  ihave V0_6_4 := (congr_of (F := F) (ℓ := oLoc d) (I := (outRow0 L (t1of 6) (t2of 4)).view.set) (q := fullShare) (g := outT m d) ?hv) $$ Hs2_dst4
  case hv => exact outRow0_value (F := F) m d L (t1of 6) (t2of 4) (m (oLoc d)) _ _ (fun k r col => slot0_at_6 (F := F) L _ (m (xLoc d)) k r col) (fun r col => posRows_land (F := F) L (t1of 6) _ (m (pLoc d)) r col)
  ihave V0_6_5 := (congr_of (F := F) (ℓ := oLoc d) (I := (outRow0 L (t1of 6) (t2of 5)).view.set) (q := fullShare) (g := outT m d) ?hv) $$ Hs2_dst5
  case hv => exact outRow0_value (F := F) m d L (t1of 6) (t2of 5) (m (oLoc d)) _ _ (fun k r col => slot0_at_6 (F := F) L _ (m (xLoc d)) k r col) (fun r col => posRows_land (F := F) L (t1of 6) _ (m (pLoc d)) r col)
  ihave V0_6_6 := (congr_of (F := F) (ℓ := oLoc d) (I := (outRow0 L (t1of 6) (t2of 6)).view.set) (q := fullShare) (g := outT m d) ?hv) $$ Hs2_dst6
  case hv => exact outRow0_value (F := F) m d L (t1of 6) (t2of 6) (m (oLoc d)) _ _ (fun k r col => slot0_at_6 (F := F) L _ (m (xLoc d)) k r col) (fun r col => posRows_land (F := F) L (t1of 6) _ (m (pLoc d)) r col)
  ihave V0_6_7 := (congr_of (F := F) (ℓ := oLoc d) (I := (outRow0 L (t1of 6) (t2of 7)).view.set) (q := fullShare) (g := outT m d) ?hv) $$ Hs2_dst7
  case hv => exact outRow0_value (F := F) m d L (t1of 6) (t2of 7) (m (oLoc d)) _ _ (fun k r col => slot0_at_6 (F := F) L _ (m (xLoc d)) k r col) (fun r col => posRows_land (F := F) L (t1of 6) _ (m (pLoc d)) r col)
  ihave Done0_6 := (pack8 (F := F) _ _ _ _ _ _ _ _) $$ [V0_6_0 V0_6_1 V0_6_2 V0_6_3 V0_6_4 V0_6_5 V0_6_6 V0_6_7]
  · isplitl [V0_6_0]; · iexact V0_6_0
    isplitl [V0_6_1]; · iexact V0_6_1
    isplitl [V0_6_2]; · iexact V0_6_2
    isplitl [V0_6_3]; · iexact V0_6_3
    isplitl [V0_6_4]; · iexact V0_6_4
    isplitl [V0_6_5]; · iexact V0_6_5
    isplitl [V0_6_6]; · iexact V0_6_6
    iexact V0_6_7
  sl_exec_parts
  ihave Hrows := (Entails.of_eq (slot_rows8 (F := F) d L 1 Nat.one_lt_two _)) $$ Hslot1
  icases Hrows with ⟨Hq0, Hq1, Hq2, Hq3, Hq4, Hq5, Hq6, Hq7⟩
  rw [wp_bind]
  iapply (wp_wand_r frame _ Set.univ)
  isplitl [Hs3 Hq0 Hq1 Hq2 Hq3 Hq4 Hq5 Hq6 Hq7 Hpos' B60 B61 B62 B63 B64 B65 B66 B67 HO]
  · iapply (row_loop1V (F := F) d L (h1 d L) (t1of 6) _ _ _ O _ _ _ _) $$ [Hs3 Hq0 Hq1 Hq2 Hq3 Hq4 Hq5 Hq6 Hq7 Hpos' B60 B61 B62 B63 B64 B65 B66 B67 HO]
    isplitr; · iexact Hmw
    isplitl [Hs3]; · iexact Hs3
    isplitl [Hq0 Hq1 Hq2 Hq3 Hq4 Hq5 Hq6 Hq7]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    isplitl [Hpos']; · iexact Hpos'
    isplitl [B60 B61 B62 B63 B64 B65 B66 B67]
    · isplitl [B60]; · iexact B60
      isplitl [B61]; · iexact B61
      isplitl [B62]; · iexact B62
      isplitl [B63]; · iexact B63
      isplitl [B64]; · iexact B64
      isplitl [B65]; · iexact B65
      isplitl [B66]; · iexact B66
      iexact B67
    iexact HO
  iintro %_ ⟨Hpos', Hs3, HO⟩
  -- chunk 7
  sl_exec_parts
  -- the eight copies have landed: slot 1's rows together again; the eight output rows hold the sums
  ihave Hj := (slot_rows8_join' (F := F) d L 1 Nat.one_lt_two _ _ _ _ _ _ _ _) $$ [Hs3_src0 Hs3_src1 Hs3_src2 Hs3_src3 Hs3_src4 Hs3_src5 Hs3_src6 Hs3_src7]
  · isplitl [Hs3_src0]; · iexact Hs3_src0
    isplitl [Hs3_src1]; · iexact Hs3_src1
    isplitl [Hs3_src2]; · iexact Hs3_src2
    isplitl [Hs3_src3]; · iexact Hs3_src3
    isplitl [Hs3_src4]; · iexact Hs3_src4
    isplitl [Hs3_src5]; · iexact Hs3_src5
    isplitl [Hs3_src6]; · iexact Hs3_src6
    iexact Hs3_src7
  icases Hj with ⟨%gs1_7, Hslot1⟩
  ihave V1_6_0 := (congr_of (F := F) (ℓ := oLoc d) (I := (outRow1 L (t1of 6) (t3of 0)).view.set) (q := fullShare) (g := outT m d) ?hv) $$ Hs3_dst0
  case hv => exact outRow1_value (F := F) m d L (t1of 6) (t3of 0) (m (oLoc d)) _ _ (fun k r col => slot1_at_6 (F := F) L _ (m (xLoc d)) k r col) (fun r col => posRows_land (F := F) L (t1of 6) _ (m (pLoc d)) r col)
  ihave V1_6_1 := (congr_of (F := F) (ℓ := oLoc d) (I := (outRow1 L (t1of 6) (t3of 1)).view.set) (q := fullShare) (g := outT m d) ?hv) $$ Hs3_dst1
  case hv => exact outRow1_value (F := F) m d L (t1of 6) (t3of 1) (m (oLoc d)) _ _ (fun k r col => slot1_at_6 (F := F) L _ (m (xLoc d)) k r col) (fun r col => posRows_land (F := F) L (t1of 6) _ (m (pLoc d)) r col)
  ihave V1_6_2 := (congr_of (F := F) (ℓ := oLoc d) (I := (outRow1 L (t1of 6) (t3of 2)).view.set) (q := fullShare) (g := outT m d) ?hv) $$ Hs3_dst2
  case hv => exact outRow1_value (F := F) m d L (t1of 6) (t3of 2) (m (oLoc d)) _ _ (fun k r col => slot1_at_6 (F := F) L _ (m (xLoc d)) k r col) (fun r col => posRows_land (F := F) L (t1of 6) _ (m (pLoc d)) r col)
  ihave V1_6_3 := (congr_of (F := F) (ℓ := oLoc d) (I := (outRow1 L (t1of 6) (t3of 3)).view.set) (q := fullShare) (g := outT m d) ?hv) $$ Hs3_dst3
  case hv => exact outRow1_value (F := F) m d L (t1of 6) (t3of 3) (m (oLoc d)) _ _ (fun k r col => slot1_at_6 (F := F) L _ (m (xLoc d)) k r col) (fun r col => posRows_land (F := F) L (t1of 6) _ (m (pLoc d)) r col)
  ihave V1_6_4 := (congr_of (F := F) (ℓ := oLoc d) (I := (outRow1 L (t1of 6) (t3of 4)).view.set) (q := fullShare) (g := outT m d) ?hv) $$ Hs3_dst4
  case hv => exact outRow1_value (F := F) m d L (t1of 6) (t3of 4) (m (oLoc d)) _ _ (fun k r col => slot1_at_6 (F := F) L _ (m (xLoc d)) k r col) (fun r col => posRows_land (F := F) L (t1of 6) _ (m (pLoc d)) r col)
  ihave V1_6_5 := (congr_of (F := F) (ℓ := oLoc d) (I := (outRow1 L (t1of 6) (t3of 5)).view.set) (q := fullShare) (g := outT m d) ?hv) $$ Hs3_dst5
  case hv => exact outRow1_value (F := F) m d L (t1of 6) (t3of 5) (m (oLoc d)) _ _ (fun k r col => slot1_at_6 (F := F) L _ (m (xLoc d)) k r col) (fun r col => posRows_land (F := F) L (t1of 6) _ (m (pLoc d)) r col)
  ihave V1_6_6 := (congr_of (F := F) (ℓ := oLoc d) (I := (outRow1 L (t1of 6) (t3of 6)).view.set) (q := fullShare) (g := outT m d) ?hv) $$ Hs3_dst6
  case hv => exact outRow1_value (F := F) m d L (t1of 6) (t3of 6) (m (oLoc d)) _ _ (fun k r col => slot1_at_6 (F := F) L _ (m (xLoc d)) k r col) (fun r col => posRows_land (F := F) L (t1of 6) _ (m (pLoc d)) r col)
  ihave V1_6_7 := (congr_of (F := F) (ℓ := oLoc d) (I := (outRow1 L (t1of 6) (t3of 7)).view.set) (q := fullShare) (g := outT m d) ?hv) $$ Hs3_dst7
  case hv => exact outRow1_value (F := F) m d L (t1of 6) (t3of 7) (m (oLoc d)) _ _ (fun k r col => slot1_at_6 (F := F) L _ (m (xLoc d)) k r col) (fun r col => posRows_land (F := F) L (t1of 6) _ (m (pLoc d)) r col)
  ihave Done1_6 := (pack8 (F := F) _ _ _ _ _ _ _ _) $$ [V1_6_0 V1_6_1 V1_6_2 V1_6_3 V1_6_4 V1_6_5 V1_6_6 V1_6_7]
  · isplitl [V1_6_0]; · iexact V1_6_0
    isplitl [V1_6_1]; · iexact V1_6_1
    isplitl [V1_6_2]; · iexact V1_6_2
    isplitl [V1_6_3]; · iexact V1_6_3
    isplitl [V1_6_4]; · iexact V1_6_4
    isplitl [V1_6_5]; · iexact V1_6_5
    isplitl [V1_6_6]; · iexact V1_6_6
    iexact V1_6_7
  sl_exec_parts
  ihave Hrows := (Entails.of_eq (slot_rows8 (F := F) d L 0 Nat.zero_lt_two _)) $$ Hslot0
  icases Hrows with ⟨Hr0, Hr1, Hr2, Hr3, Hr4, Hr5, Hr6, Hr7⟩
  rw [wp_bind]
  iapply (wp_wand_r frame _ Set.univ)
  isplitl [Hs2 Hr0 Hr1 Hr2 Hr3 Hr4 Hr5 Hr6 Hr7 Hpos' A70 A71 A72 A73 A74 A75 A76 A77 HO]
  · iapply (row_loop0V (F := F) d L (h0 d L) (t1of 7) _ _ _ _ _ O _ _ _ _) $$ [Hs2 Hr0 Hr1 Hr2 Hr3 Hr4 Hr5 Hr6 Hr7 Hpos' A70 A71 A72 A73 A74 A75 A76 A77 HO]
    isplitr; · iexact Hmw
    isplitl [Hs2]; · iexact Hs2
    isplitl [Hr0 Hr1 Hr2 Hr3 Hr4 Hr5 Hr6 Hr7]
    · isplitl [Hr0]; · iexact Hr0
      isplitl [Hr1]; · iexact Hr1
      isplitl [Hr2]; · iexact Hr2
      isplitl [Hr3]; · iexact Hr3
      isplitl [Hr4]; · iexact Hr4
      isplitl [Hr5]; · iexact Hr5
      isplitl [Hr6]; · iexact Hr6
      iexact Hr7
    isplitl [Hpos']; · iexact Hpos'
    isplitl [A70 A71 A72 A73 A74 A75 A76 A77]
    · isplitl [A70]; · iexact A70
      isplitl [A71]; · iexact A71
      isplitl [A72]; · iexact A72
      isplitl [A73]; · iexact A73
      isplitl [A74]; · iexact A74
      isplitl [A75]; · iexact A75
      isplitl [A76]; · iexact A76
      iexact A77
    iexact HO
  iintro %_ ⟨Hpos', Hs2, HO⟩
  sl_exec_parts
  -- the eight copies have landed: slot 0's rows together again; the eight output rows hold the sums
  ihave Hj := (slot_rows8_join' (F := F) d L 0 Nat.zero_lt_two _ _ _ _ _ _ _ _) $$ [Hs2_src0 Hs2_src1 Hs2_src2 Hs2_src3 Hs2_src4 Hs2_src5 Hs2_src6 Hs2_src7]
  · isplitl [Hs2_src0]; · iexact Hs2_src0
    isplitl [Hs2_src1]; · iexact Hs2_src1
    isplitl [Hs2_src2]; · iexact Hs2_src2
    isplitl [Hs2_src3]; · iexact Hs2_src3
    isplitl [Hs2_src4]; · iexact Hs2_src4
    isplitl [Hs2_src5]; · iexact Hs2_src5
    isplitl [Hs2_src6]; · iexact Hs2_src6
    iexact Hs2_src7
  icases Hj with ⟨%gs0_7, Hslot0⟩
  ihave V0_7_0 := (congr_of (F := F) (ℓ := oLoc d) (I := (outRow0 L (t1of 7) (t2of 0)).view.set) (q := fullShare) (g := outT m d) ?hv) $$ Hs2_dst0
  case hv => exact outRow0_value (F := F) m d L (t1of 7) (t2of 0) (m (oLoc d)) _ _ (fun k r col => slot0_at_7 (F := F) L _ (m (xLoc d)) k r col) (fun r col => posRows_land (F := F) L (t1of 7) _ (m (pLoc d)) r col)
  ihave V0_7_1 := (congr_of (F := F) (ℓ := oLoc d) (I := (outRow0 L (t1of 7) (t2of 1)).view.set) (q := fullShare) (g := outT m d) ?hv) $$ Hs2_dst1
  case hv => exact outRow0_value (F := F) m d L (t1of 7) (t2of 1) (m (oLoc d)) _ _ (fun k r col => slot0_at_7 (F := F) L _ (m (xLoc d)) k r col) (fun r col => posRows_land (F := F) L (t1of 7) _ (m (pLoc d)) r col)
  ihave V0_7_2 := (congr_of (F := F) (ℓ := oLoc d) (I := (outRow0 L (t1of 7) (t2of 2)).view.set) (q := fullShare) (g := outT m d) ?hv) $$ Hs2_dst2
  case hv => exact outRow0_value (F := F) m d L (t1of 7) (t2of 2) (m (oLoc d)) _ _ (fun k r col => slot0_at_7 (F := F) L _ (m (xLoc d)) k r col) (fun r col => posRows_land (F := F) L (t1of 7) _ (m (pLoc d)) r col)
  ihave V0_7_3 := (congr_of (F := F) (ℓ := oLoc d) (I := (outRow0 L (t1of 7) (t2of 3)).view.set) (q := fullShare) (g := outT m d) ?hv) $$ Hs2_dst3
  case hv => exact outRow0_value (F := F) m d L (t1of 7) (t2of 3) (m (oLoc d)) _ _ (fun k r col => slot0_at_7 (F := F) L _ (m (xLoc d)) k r col) (fun r col => posRows_land (F := F) L (t1of 7) _ (m (pLoc d)) r col)
  ihave V0_7_4 := (congr_of (F := F) (ℓ := oLoc d) (I := (outRow0 L (t1of 7) (t2of 4)).view.set) (q := fullShare) (g := outT m d) ?hv) $$ Hs2_dst4
  case hv => exact outRow0_value (F := F) m d L (t1of 7) (t2of 4) (m (oLoc d)) _ _ (fun k r col => slot0_at_7 (F := F) L _ (m (xLoc d)) k r col) (fun r col => posRows_land (F := F) L (t1of 7) _ (m (pLoc d)) r col)
  ihave V0_7_5 := (congr_of (F := F) (ℓ := oLoc d) (I := (outRow0 L (t1of 7) (t2of 5)).view.set) (q := fullShare) (g := outT m d) ?hv) $$ Hs2_dst5
  case hv => exact outRow0_value (F := F) m d L (t1of 7) (t2of 5) (m (oLoc d)) _ _ (fun k r col => slot0_at_7 (F := F) L _ (m (xLoc d)) k r col) (fun r col => posRows_land (F := F) L (t1of 7) _ (m (pLoc d)) r col)
  ihave V0_7_6 := (congr_of (F := F) (ℓ := oLoc d) (I := (outRow0 L (t1of 7) (t2of 6)).view.set) (q := fullShare) (g := outT m d) ?hv) $$ Hs2_dst6
  case hv => exact outRow0_value (F := F) m d L (t1of 7) (t2of 6) (m (oLoc d)) _ _ (fun k r col => slot0_at_7 (F := F) L _ (m (xLoc d)) k r col) (fun r col => posRows_land (F := F) L (t1of 7) _ (m (pLoc d)) r col)
  ihave V0_7_7 := (congr_of (F := F) (ℓ := oLoc d) (I := (outRow0 L (t1of 7) (t2of 7)).view.set) (q := fullShare) (g := outT m d) ?hv) $$ Hs2_dst7
  case hv => exact outRow0_value (F := F) m d L (t1of 7) (t2of 7) (m (oLoc d)) _ _ (fun k r col => slot0_at_7 (F := F) L _ (m (xLoc d)) k r col) (fun r col => posRows_land (F := F) L (t1of 7) _ (m (pLoc d)) r col)
  ihave Done0_7 := (pack8 (F := F) _ _ _ _ _ _ _ _) $$ [V0_7_0 V0_7_1 V0_7_2 V0_7_3 V0_7_4 V0_7_5 V0_7_6 V0_7_7]
  · isplitl [V0_7_0]; · iexact V0_7_0
    isplitl [V0_7_1]; · iexact V0_7_1
    isplitl [V0_7_2]; · iexact V0_7_2
    isplitl [V0_7_3]; · iexact V0_7_3
    isplitl [V0_7_4]; · iexact V0_7_4
    isplitl [V0_7_5]; · iexact V0_7_5
    isplitl [V0_7_6]; · iexact V0_7_6
    iexact V0_7_7
  sl_exec_parts
  ihave Hrows := (Entails.of_eq (slot_rows8 (F := F) d L 1 Nat.one_lt_two _)) $$ Hslot1
  icases Hrows with ⟨Hq0, Hq1, Hq2, Hq3, Hq4, Hq5, Hq6, Hq7⟩
  rw [wp_bind]
  iapply (wp_wand_r frame _ Set.univ)
  isplitl [Hs3 Hq0 Hq1 Hq2 Hq3 Hq4 Hq5 Hq6 Hq7 Hpos' B70 B71 B72 B73 B74 B75 B76 B77 HO]
  · iapply (row_loop1V (F := F) d L (h1 d L) (t1of 7) _ _ _ O _ _ _ _) $$ [Hs3 Hq0 Hq1 Hq2 Hq3 Hq4 Hq5 Hq6 Hq7 Hpos' B70 B71 B72 B73 B74 B75 B76 B77 HO]
    isplitr; · iexact Hmw
    isplitl [Hs3]; · iexact Hs3
    isplitl [Hq0 Hq1 Hq2 Hq3 Hq4 Hq5 Hq6 Hq7]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    isplitl [Hpos']; · iexact Hpos'
    isplitl [B70 B71 B72 B73 B74 B75 B76 B77]
    · isplitl [B70]; · iexact B70
      isplitl [B71]; · iexact B71
      isplitl [B72]; · iexact B72
      isplitl [B73]; · iexact B73
      isplitl [B74]; · iexact B74
      isplitl [B75]; · iexact B75
      isplitl [B76]; · iexact B76
      iexact B77
    iexact HO
  iintro %_ ⟨Hpos', Hs3, HO⟩
  -- chunk 8
  sl_exec_parts
  -- the eight copies have landed: slot 1's rows together again; the eight output rows hold the sums
  ihave Hj := (slot_rows8_join' (F := F) d L 1 Nat.one_lt_two _ _ _ _ _ _ _ _) $$ [Hs3_src0 Hs3_src1 Hs3_src2 Hs3_src3 Hs3_src4 Hs3_src5 Hs3_src6 Hs3_src7]
  · isplitl [Hs3_src0]; · iexact Hs3_src0
    isplitl [Hs3_src1]; · iexact Hs3_src1
    isplitl [Hs3_src2]; · iexact Hs3_src2
    isplitl [Hs3_src3]; · iexact Hs3_src3
    isplitl [Hs3_src4]; · iexact Hs3_src4
    isplitl [Hs3_src5]; · iexact Hs3_src5
    isplitl [Hs3_src6]; · iexact Hs3_src6
    iexact Hs3_src7
  icases Hj with ⟨%gs1_8, Hslot1⟩
  ihave V1_7_0 := (congr_of (F := F) (ℓ := oLoc d) (I := (outRow1 L (t1of 7) (t3of 0)).view.set) (q := fullShare) (g := outT m d) ?hv) $$ Hs3_dst0
  case hv => exact outRow1_value (F := F) m d L (t1of 7) (t3of 0) (m (oLoc d)) _ _ (fun k r col => slot1_at_7 (F := F) L _ (m (xLoc d)) k r col) (fun r col => posRows_land (F := F) L (t1of 7) _ (m (pLoc d)) r col)
  ihave V1_7_1 := (congr_of (F := F) (ℓ := oLoc d) (I := (outRow1 L (t1of 7) (t3of 1)).view.set) (q := fullShare) (g := outT m d) ?hv) $$ Hs3_dst1
  case hv => exact outRow1_value (F := F) m d L (t1of 7) (t3of 1) (m (oLoc d)) _ _ (fun k r col => slot1_at_7 (F := F) L _ (m (xLoc d)) k r col) (fun r col => posRows_land (F := F) L (t1of 7) _ (m (pLoc d)) r col)
  ihave V1_7_2 := (congr_of (F := F) (ℓ := oLoc d) (I := (outRow1 L (t1of 7) (t3of 2)).view.set) (q := fullShare) (g := outT m d) ?hv) $$ Hs3_dst2
  case hv => exact outRow1_value (F := F) m d L (t1of 7) (t3of 2) (m (oLoc d)) _ _ (fun k r col => slot1_at_7 (F := F) L _ (m (xLoc d)) k r col) (fun r col => posRows_land (F := F) L (t1of 7) _ (m (pLoc d)) r col)
  ihave V1_7_3 := (congr_of (F := F) (ℓ := oLoc d) (I := (outRow1 L (t1of 7) (t3of 3)).view.set) (q := fullShare) (g := outT m d) ?hv) $$ Hs3_dst3
  case hv => exact outRow1_value (F := F) m d L (t1of 7) (t3of 3) (m (oLoc d)) _ _ (fun k r col => slot1_at_7 (F := F) L _ (m (xLoc d)) k r col) (fun r col => posRows_land (F := F) L (t1of 7) _ (m (pLoc d)) r col)
  ihave V1_7_4 := (congr_of (F := F) (ℓ := oLoc d) (I := (outRow1 L (t1of 7) (t3of 4)).view.set) (q := fullShare) (g := outT m d) ?hv) $$ Hs3_dst4
  case hv => exact outRow1_value (F := F) m d L (t1of 7) (t3of 4) (m (oLoc d)) _ _ (fun k r col => slot1_at_7 (F := F) L _ (m (xLoc d)) k r col) (fun r col => posRows_land (F := F) L (t1of 7) _ (m (pLoc d)) r col)
  ihave V1_7_5 := (congr_of (F := F) (ℓ := oLoc d) (I := (outRow1 L (t1of 7) (t3of 5)).view.set) (q := fullShare) (g := outT m d) ?hv) $$ Hs3_dst5
  case hv => exact outRow1_value (F := F) m d L (t1of 7) (t3of 5) (m (oLoc d)) _ _ (fun k r col => slot1_at_7 (F := F) L _ (m (xLoc d)) k r col) (fun r col => posRows_land (F := F) L (t1of 7) _ (m (pLoc d)) r col)
  ihave V1_7_6 := (congr_of (F := F) (ℓ := oLoc d) (I := (outRow1 L (t1of 7) (t3of 6)).view.set) (q := fullShare) (g := outT m d) ?hv) $$ Hs3_dst6
  case hv => exact outRow1_value (F := F) m d L (t1of 7) (t3of 6) (m (oLoc d)) _ _ (fun k r col => slot1_at_7 (F := F) L _ (m (xLoc d)) k r col) (fun r col => posRows_land (F := F) L (t1of 7) _ (m (pLoc d)) r col)
  ihave V1_7_7 := (congr_of (F := F) (ℓ := oLoc d) (I := (outRow1 L (t1of 7) (t3of 7)).view.set) (q := fullShare) (g := outT m d) ?hv) $$ Hs3_dst7
  case hv => exact outRow1_value (F := F) m d L (t1of 7) (t3of 7) (m (oLoc d)) _ _ (fun k r col => slot1_at_7 (F := F) L _ (m (xLoc d)) k r col) (fun r col => posRows_land (F := F) L (t1of 7) _ (m (pLoc d)) r col)
  ihave Done1_7 := (pack8 (F := F) _ _ _ _ _ _ _ _) $$ [V1_7_0 V1_7_1 V1_7_2 V1_7_3 V1_7_4 V1_7_5 V1_7_6 V1_7_7]
  · isplitl [V1_7_0]; · iexact V1_7_0
    isplitl [V1_7_1]; · iexact V1_7_1
    isplitl [V1_7_2]; · iexact V1_7_2
    isplitl [V1_7_3]; · iexact V1_7_3
    isplitl [V1_7_4]; · iexact V1_7_4
    isplitl [V1_7_5]; · iexact V1_7_5
    isplitl [V1_7_6]; · iexact V1_7_6
    iexact V1_7_7
  sl_exec_parts
  ihave Hrows := (Entails.of_eq (slot_rows8 (F := F) d L 0 Nat.zero_lt_two _)) $$ Hslot0
  icases Hrows with ⟨Hr0, Hr1, Hr2, Hr3, Hr4, Hr5, Hr6, Hr7⟩
  rw [wp_bind]
  iapply (wp_wand_r frame _ Set.univ)
  isplitl [Hs2 Hr0 Hr1 Hr2 Hr3 Hr4 Hr5 Hr6 Hr7 Hpos' A80 A81 A82 A83 A84 A85 A86 A87 HO]
  · iapply (row_loop0V (F := F) d L (h0 d L) (t1of 8) _ _ _ _ _ O _ _ _ _) $$ [Hs2 Hr0 Hr1 Hr2 Hr3 Hr4 Hr5 Hr6 Hr7 Hpos' A80 A81 A82 A83 A84 A85 A86 A87 HO]
    isplitr; · iexact Hmw
    isplitl [Hs2]; · iexact Hs2
    isplitl [Hr0 Hr1 Hr2 Hr3 Hr4 Hr5 Hr6 Hr7]
    · isplitl [Hr0]; · iexact Hr0
      isplitl [Hr1]; · iexact Hr1
      isplitl [Hr2]; · iexact Hr2
      isplitl [Hr3]; · iexact Hr3
      isplitl [Hr4]; · iexact Hr4
      isplitl [Hr5]; · iexact Hr5
      isplitl [Hr6]; · iexact Hr6
      iexact Hr7
    isplitl [Hpos']; · iexact Hpos'
    isplitl [A80 A81 A82 A83 A84 A85 A86 A87]
    · isplitl [A80]; · iexact A80
      isplitl [A81]; · iexact A81
      isplitl [A82]; · iexact A82
      isplitl [A83]; · iexact A83
      isplitl [A84]; · iexact A84
      isplitl [A85]; · iexact A85
      isplitl [A86]; · iexact A86
      iexact A87
    iexact HO
  iintro %_ ⟨Hpos', Hs2, HO⟩
  sl_exec_parts
  ihave Hrows := (Entails.of_eq (slot_rows8 (F := F) d L 1 Nat.one_lt_two _)) $$ Hslot1
  icases Hrows with ⟨Hq0, Hq1, Hq2, Hq3, Hq4, Hq5, Hq6, Hq7⟩
  rw [wp_bind]
  iapply (wp_wand_r frame _ Set.univ)
  isplitl [Hs3 Hq0 Hq1 Hq2 Hq3 Hq4 Hq5 Hq6 Hq7 Hpos' B80 B81 B82 B83 B84 B85 B86 B87 HO]
  · iapply (row_loop1V (F := F) d L (h1 d L) (t1of 8) _ _ _ O _ _ _ _) $$ [Hs3 Hq0 Hq1 Hq2 Hq3 Hq4 Hq5 Hq6 Hq7 Hpos' B80 B81 B82 B83 B84 B85 B86 B87 HO]
    isplitr; · iexact Hmw
    isplitl [Hs3]; · iexact Hs3
    isplitl [Hq0 Hq1 Hq2 Hq3 Hq4 Hq5 Hq6 Hq7]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    isplitl [Hpos']; · iexact Hpos'
    isplitl [B80 B81 B82 B83 B84 B85 B86 B87]
    · isplitl [B80]; · iexact B80
      isplitl [B81]; · iexact B81
      isplitl [B82]; · iexact B82
      isplitl [B83]; · iexact B83
      isplitl [B84]; · iexact B84
      isplitl [B85]; · iexact B85
      isplitl [B86]; · iexact B86
      iexact B87
    iexact HO
  iintro %_ ⟨Hpos', Hs3, HO⟩
  -- after the ninth chunk: the last two batches of row copies are waited for (the run is stopped in front of the
  -- class-token branch), their output rows hold the sums, and the staging buffer is whole again
  set_option sl_exec.stopBefore "k0_cond10" in sl_exec_parts
  ihave V0_8_0 := (congr_of (F := F) (ℓ := oLoc d) (I := (outRow0 L (t1of 8) (t2of 0)).view.set) (q := fullShare) (g := outT m d) ?hv) $$ Hs2_dst0
  case hv => exact outRow0_value (F := F) m d L (t1of 8) (t2of 0) (m (oLoc d)) _ _ (fun k r col => slot0_at_8 (F := F) L _ (m (xLoc d)) k r col) (fun r col => posRows_land (F := F) L (t1of 8) _ (m (pLoc d)) r col)
  ihave V0_8_1 := (congr_of (F := F) (ℓ := oLoc d) (I := (outRow0 L (t1of 8) (t2of 1)).view.set) (q := fullShare) (g := outT m d) ?hv) $$ Hs2_dst1
  case hv => exact outRow0_value (F := F) m d L (t1of 8) (t2of 1) (m (oLoc d)) _ _ (fun k r col => slot0_at_8 (F := F) L _ (m (xLoc d)) k r col) (fun r col => posRows_land (F := F) L (t1of 8) _ (m (pLoc d)) r col)
  ihave V0_8_2 := (congr_of (F := F) (ℓ := oLoc d) (I := (outRow0 L (t1of 8) (t2of 2)).view.set) (q := fullShare) (g := outT m d) ?hv) $$ Hs2_dst2
  case hv => exact outRow0_value (F := F) m d L (t1of 8) (t2of 2) (m (oLoc d)) _ _ (fun k r col => slot0_at_8 (F := F) L _ (m (xLoc d)) k r col) (fun r col => posRows_land (F := F) L (t1of 8) _ (m (pLoc d)) r col)
  ihave V0_8_3 := (congr_of (F := F) (ℓ := oLoc d) (I := (outRow0 L (t1of 8) (t2of 3)).view.set) (q := fullShare) (g := outT m d) ?hv) $$ Hs2_dst3
  case hv => exact outRow0_value (F := F) m d L (t1of 8) (t2of 3) (m (oLoc d)) _ _ (fun k r col => slot0_at_8 (F := F) L _ (m (xLoc d)) k r col) (fun r col => posRows_land (F := F) L (t1of 8) _ (m (pLoc d)) r col)
  ihave V0_8_4 := (congr_of (F := F) (ℓ := oLoc d) (I := (outRow0 L (t1of 8) (t2of 4)).view.set) (q := fullShare) (g := outT m d) ?hv) $$ Hs2_dst4
  case hv => exact outRow0_value (F := F) m d L (t1of 8) (t2of 4) (m (oLoc d)) _ _ (fun k r col => slot0_at_8 (F := F) L _ (m (xLoc d)) k r col) (fun r col => posRows_land (F := F) L (t1of 8) _ (m (pLoc d)) r col)
  ihave V0_8_5 := (congr_of (F := F) (ℓ := oLoc d) (I := (outRow0 L (t1of 8) (t2of 5)).view.set) (q := fullShare) (g := outT m d) ?hv) $$ Hs2_dst5
  case hv => exact outRow0_value (F := F) m d L (t1of 8) (t2of 5) (m (oLoc d)) _ _ (fun k r col => slot0_at_8 (F := F) L _ (m (xLoc d)) k r col) (fun r col => posRows_land (F := F) L (t1of 8) _ (m (pLoc d)) r col)
  ihave V0_8_6 := (congr_of (F := F) (ℓ := oLoc d) (I := (outRow0 L (t1of 8) (t2of 6)).view.set) (q := fullShare) (g := outT m d) ?hv) $$ Hs2_dst6
  case hv => exact outRow0_value (F := F) m d L (t1of 8) (t2of 6) (m (oLoc d)) _ _ (fun k r col => slot0_at_8 (F := F) L _ (m (xLoc d)) k r col) (fun r col => posRows_land (F := F) L (t1of 8) _ (m (pLoc d)) r col)
  ihave V0_8_7 := (congr_of (F := F) (ℓ := oLoc d) (I := (outRow0 L (t1of 8) (t2of 7)).view.set) (q := fullShare) (g := outT m d) ?hv) $$ Hs2_dst7
  case hv => exact outRow0_value (F := F) m d L (t1of 8) (t2of 7) (m (oLoc d)) _ _ (fun k r col => slot0_at_8 (F := F) L _ (m (xLoc d)) k r col) (fun r col => posRows_land (F := F) L (t1of 8) _ (m (pLoc d)) r col)
  ihave Done0_8 := (pack8 (F := F) _ _ _ _ _ _ _ _) $$ [V0_8_0 V0_8_1 V0_8_2 V0_8_3 V0_8_4 V0_8_5 V0_8_6 V0_8_7]
  · isplitl [V0_8_0]; · iexact V0_8_0
    isplitl [V0_8_1]; · iexact V0_8_1
    isplitl [V0_8_2]; · iexact V0_8_2
    isplitl [V0_8_3]; · iexact V0_8_3
    isplitl [V0_8_4]; · iexact V0_8_4
    isplitl [V0_8_5]; · iexact V0_8_5
    isplitl [V0_8_6]; · iexact V0_8_6
    iexact V0_8_7
  ihave V1_8_0 := (congr_of (F := F) (ℓ := oLoc d) (I := (outRow1 L (t1of 8) (t3of 0)).view.set) (q := fullShare) (g := outT m d) ?hv) $$ Hs3_dst0
  case hv => exact outRow1_value (F := F) m d L (t1of 8) (t3of 0) (m (oLoc d)) _ _ (fun k r col => slot1_at_8 (F := F) L _ (m (xLoc d)) k r col) (fun r col => posRows_land (F := F) L (t1of 8) _ (m (pLoc d)) r col)
  ihave V1_8_1 := (congr_of (F := F) (ℓ := oLoc d) (I := (outRow1 L (t1of 8) (t3of 1)).view.set) (q := fullShare) (g := outT m d) ?hv) $$ Hs3_dst1
  case hv => exact outRow1_value (F := F) m d L (t1of 8) (t3of 1) (m (oLoc d)) _ _ (fun k r col => slot1_at_8 (F := F) L _ (m (xLoc d)) k r col) (fun r col => posRows_land (F := F) L (t1of 8) _ (m (pLoc d)) r col)
  ihave V1_8_2 := (congr_of (F := F) (ℓ := oLoc d) (I := (outRow1 L (t1of 8) (t3of 2)).view.set) (q := fullShare) (g := outT m d) ?hv) $$ Hs3_dst2
  case hv => exact outRow1_value (F := F) m d L (t1of 8) (t3of 2) (m (oLoc d)) _ _ (fun k r col => slot1_at_8 (F := F) L _ (m (xLoc d)) k r col) (fun r col => posRows_land (F := F) L (t1of 8) _ (m (pLoc d)) r col)
  ihave V1_8_3 := (congr_of (F := F) (ℓ := oLoc d) (I := (outRow1 L (t1of 8) (t3of 3)).view.set) (q := fullShare) (g := outT m d) ?hv) $$ Hs3_dst3
  case hv => exact outRow1_value (F := F) m d L (t1of 8) (t3of 3) (m (oLoc d)) _ _ (fun k r col => slot1_at_8 (F := F) L _ (m (xLoc d)) k r col) (fun r col => posRows_land (F := F) L (t1of 8) _ (m (pLoc d)) r col)
  ihave V1_8_4 := (congr_of (F := F) (ℓ := oLoc d) (I := (outRow1 L (t1of 8) (t3of 4)).view.set) (q := fullShare) (g := outT m d) ?hv) $$ Hs3_dst4
  case hv => exact outRow1_value (F := F) m d L (t1of 8) (t3of 4) (m (oLoc d)) _ _ (fun k r col => slot1_at_8 (F := F) L _ (m (xLoc d)) k r col) (fun r col => posRows_land (F := F) L (t1of 8) _ (m (pLoc d)) r col)
  ihave V1_8_5 := (congr_of (F := F) (ℓ := oLoc d) (I := (outRow1 L (t1of 8) (t3of 5)).view.set) (q := fullShare) (g := outT m d) ?hv) $$ Hs3_dst5
  case hv => exact outRow1_value (F := F) m d L (t1of 8) (t3of 5) (m (oLoc d)) _ _ (fun k r col => slot1_at_8 (F := F) L _ (m (xLoc d)) k r col) (fun r col => posRows_land (F := F) L (t1of 8) _ (m (pLoc d)) r col)
  ihave V1_8_6 := (congr_of (F := F) (ℓ := oLoc d) (I := (outRow1 L (t1of 8) (t3of 6)).view.set) (q := fullShare) (g := outT m d) ?hv) $$ Hs3_dst6
  case hv => exact outRow1_value (F := F) m d L (t1of 8) (t3of 6) (m (oLoc d)) _ _ (fun k r col => slot1_at_8 (F := F) L _ (m (xLoc d)) k r col) (fun r col => posRows_land (F := F) L (t1of 8) _ (m (pLoc d)) r col)
  ihave V1_8_7 := (congr_of (F := F) (ℓ := oLoc d) (I := (outRow1 L (t1of 8) (t3of 7)).view.set) (q := fullShare) (g := outT m d) ?hv) $$ Hs3_dst7
  case hv => exact outRow1_value (F := F) m d L (t1of 8) (t3of 7) (m (oLoc d)) _ _ (fun k r col => slot1_at_8 (F := F) L _ (m (xLoc d)) k r col) (fun r col => posRows_land (F := F) L (t1of 8) _ (m (pLoc d)) r col)
  ihave Done1_8 := (pack8 (F := F) _ _ _ _ _ _ _ _) $$ [V1_8_0 V1_8_1 V1_8_2 V1_8_3 V1_8_4 V1_8_5 V1_8_6 V1_8_7]
  · isplitl [V1_8_0]; · iexact V1_8_0
    isplitl [V1_8_1]; · iexact V1_8_1
    isplitl [V1_8_2]; · iexact V1_8_2
    isplitl [V1_8_3]; · iexact V1_8_3
    isplitl [V1_8_4]; · iexact V1_8_4
    isplitl [V1_8_5]; · iexact V1_8_5
    isplitl [V1_8_6]; · iexact V1_8_6
    iexact V1_8_7
  -- every row copy has landed: the staging buffer whole again
  ihave Hall := (rows16_join' (F := F) d L _ _ _ _ _ _ _ _ _ _ _ _ _ _ _ _) $$ [Hs2_src0 Hs2_src1 Hs2_src2 Hs2_src3 Hs2_src4 Hs2_src5 Hs2_src6 Hs2_src7 Hs3_src0 Hs3_src1 Hs3_src2 Hs3_src3 Hs3_src4 Hs3_src5 Hs3_src6 Hs3_src7]
  · isplitl [Hs2_src0 Hs2_src1 Hs2_src2 Hs2_src3 Hs2_src4 Hs2_src5 Hs2_src6 Hs2_src7]
    · isplitl [Hs2_src0]; · iexact Hs2_src0
      isplitl [Hs2_src1]; · iexact Hs2_src1
      isplitl [Hs2_src2]; · iexact Hs2_src2
      isplitl [Hs2_src3]; · iexact Hs2_src3
      isplitl [Hs2_src4]; · iexact Hs2_src4
      isplitl [Hs2_src5]; · iexact Hs2_src5
      isplitl [Hs2_src6]; · iexact Hs2_src6
      iexact Hs2_src7
    isplitl [Hs3_src0]; · iexact Hs3_src0
    isplitl [Hs3_src1]; · iexact Hs3_src1
    isplitl [Hs3_src2]; · iexact Hs3_src2
    isplitl [Hs3_src3]; · iexact Hs3_src3
    isplitl [Hs3_src4]; · iexact Hs3_src4
    isplitl [Hs3_src5]; · iexact Hs3_src5
    isplitl [Hs3_src6]; · iexact Hs3_src6
    iexact Hs3_src7
  icases Hall with ⟨%gall, Hslot'⟩
  by_cases k0_h10 : k0_cond10 L = 1#1
  · -- the first worker of a batch group also writes the class-token row: the class token plus the last position row
    ihave Hc := (Entails.of_eq (rem_cls2 (F := F) d L k0_h10 _)) $$ Hrem
    icases Hc with ⟨C0, C1⟩
    simp (config := { proj := false }) only [dif_pos k0_h10]
    rw [wp_bind]
    iapply (wp_wand_r frame _ Set.univ)
    isplitl [Hslot' Ht' Hp' Hs5 Hs6 HO]
    · iapply (hA d L O _ _) $$ [Hslot' Ht' Hp' Hs5 Hs6 HO]
      isplitr; · iexact Hmw
      isplitl [Hslot']; · iexact Hslot'
      isplitl [Ht']; · iexact Ht'
      isplitl [Hp']; · iexact Hp'
      isplitl [Hs5]; · iexact Hs5
      isplitl [Hs6]; · iexact Hs6
      iexact HO
    iintro %_ ⟨%h1, %hMid, Hslot', Ht', Hp', Hs5, Hs6, %W1, %hW1, HO⟩
    rw [wp_bind]
    iapply (wp_wand_r frame _ Set.univ)
    isplitl [Hslot' C0 Hs7 HO]
    · iapply (hB d L k0_h10 _ O _ h1 _ hMid) $$ [Hslot' C0 Hs7 HO]
      isplitr; · iexact Hmw
      isplitl [Hslot']; · iexact Hslot'
      isplitl [C0]; · iexact C0
      isplitl [Hs7]; · iexact Hs7
      iexact HO
    iintro %_ ⟨%h2, %fo2, %hFin, Hslot', C0, Hs7, %W2, %hW2, HO⟩
    sl_exec_parts
    sl_step
    ihave C0' := (congr_of (F := F) (ℓ := oLoc d) (I := (clsRow L k0_h10 0).view.set) (q := fullShare) (g := outT m d) (hFin.2 k0_h10)) $$ C0
    ihave C1' := (congr_of (F := F) (ℓ := oLoc d) (I := (clsRow L k0_h10 1).view.set) (q := fullShare) (g := outT m d) ?hv) $$ C1
    case hv => exact fun i hi => (writes_whole_apply (F := F) (clsRow L k0_h10 1).view (m (oLoc d)) _ i hi).trans (clsRow_value (F := F) m d L k0_h10 1 (m (oLoc d)) h2 hFin.1 i hi)
    ihave Hrem' := (Entails.of_eq (rem_cls2 (F := F) d L k0_h10 (outT m d)).symm) $$ [C0' C1']
    · isplitl [C0']; · iexact C0'
      iexact C1'
    -- the worker's part of the output, whole again, every entry the sum it should be
    ihave HA' := (Entails.of_eq (rows0_expand (F := F) (fun p : Fin k0_t1_loop.trips × Fin k0_t2_loop.trips => (outRow0 L p.1 p.2).view.loc (thr d L) ↦[(outRow0 L p.1 p.2).view.set]{fullShare} outT m d)).symm) $$ [Done0_0 Done0_1 Done0_2 Done0_3 Done0_4 Done0_5 Done0_6 Done0_7 Done0_8]
    · isplitl [Done0_0]; · iexact Done0_0
      isplitl [Done0_1]; · iexact Done0_1
      isplitl [Done0_2]; · iexact Done0_2
      isplitl [Done0_3]; · iexact Done0_3
      isplitl [Done0_4]; · iexact Done0_4
      isplitl [Done0_5]; · iexact Done0_5
      isplitl [Done0_6]; · iexact Done0_6
      isplitl [Done0_7]; · iexact Done0_7
      iexact Done0_8
    ihave HB' := (Entails.of_eq (rows1_expand (F := F) (fun p : Fin k0_t1_loop.trips × Fin k0_t3_loop.trips => (outRow1 L p.1 p.2).view.loc (thr d L) ↦[(outRow1 L p.1 p.2).view.set]{fullShare} outT m d)).symm) $$ [Done1_0 Done1_1 Done1_2 Done1_3 Done1_4 Done1_5 Done1_6 Done1_7 Done1_8]
    · isplitl [Done1_0]; · iexact Done1_0
      isplitl [Done1_1]; · iexact Done1_1
      isplitl [Done1_2]; · iexact Done1_2
      isplitl [Done1_3]; · iexact Done1_3
      isplitl [Done1_4]; · iexact Done1_4
      isplitl [Done1_5]; · iexact Done1_5
      isplitl [Done1_6]; · iexact Done1_6
      isplitl [Done1_7]; · iexact Done1_7
      iexact Done1_8
    ihave Hout := (Entails.of_eq (tileOut_rows_rem (F := F) d L (outT m d)).symm) $$ [HA' HB' Hrem']
    · isplitl [HA']; · iexact HA'
      isplitl [HB']; · iexact HB'
      iexact Hrem'
    isplitl [Hx' Hp' Ht' Hout]
    · isplitl [Hx' Hp' Ht']
      · isplitl [Hx']; · iapply (Entails.of_eq (pts_x (F := F) d L _ _)); iexact Hx'
        isplitl [Hp']; · iapply (Entails.of_eq (pts_p (F := F) d L _ _)); iexact Hp'
        iapply (Entails.of_eq (pts_t (F := F) d L _ _)); iexact Ht'
      · iexists (outT m d); isplitr; · ipureintro; intro i _; rfl
        iexact Hout
    isplitl [Hpos' Hslot' Hbufs]
    · isplitl [Hpos']; · iexists _; iapply (Entails.of_eq (pts_pos (F := F) d L _)); iexact Hpos'
      isplitl [Hslot']; · iexists _; iapply (Entails.of_eq (pts_slot (F := F) d L _)); iexact Hslot'
      iexact Hbufs
    isplitl [Hs0 Hs1 Hs2 Hs3 Hs4 Hs5 Hs6 Hs7 Hs8]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      iexact Hs8
    iexists _; isplitr; swap
    · iexact HO
    · ipureintro; repeat (first | exact waits_refl W | apply waits_insert | refine waits_trans hW2 ?_ | refine waits_trans hW1 ?_)
  · sl_exec_parts
    sl_step
    -- the worker's part of the output, whole again, every entry the sum it should be
    ihave HA' := (Entails.of_eq (rows0_expand (F := F) (fun p : Fin k0_t1_loop.trips × Fin k0_t2_loop.trips => (outRow0 L p.1 p.2).view.loc (thr d L) ↦[(outRow0 L p.1 p.2).view.set]{fullShare} outT m d)).symm) $$ [Done0_0 Done0_1 Done0_2 Done0_3 Done0_4 Done0_5 Done0_6 Done0_7 Done0_8]
    · isplitl [Done0_0]; · iexact Done0_0
      isplitl [Done0_1]; · iexact Done0_1
      isplitl [Done0_2]; · iexact Done0_2
      isplitl [Done0_3]; · iexact Done0_3
      isplitl [Done0_4]; · iexact Done0_4
      isplitl [Done0_5]; · iexact Done0_5
      isplitl [Done0_6]; · iexact Done0_6
      isplitl [Done0_7]; · iexact Done0_7
      iexact Done0_8
    ihave HB' := (Entails.of_eq (rows1_expand (F := F) (fun p : Fin k0_t1_loop.trips × Fin k0_t3_loop.trips => (outRow1 L p.1 p.2).view.loc (thr d L) ↦[(outRow1 L p.1 p.2).view.set]{fullShare} outT m d)).symm) $$ [Done1_0 Done1_1 Done1_2 Done1_3 Done1_4 Done1_5 Done1_6 Done1_7 Done1_8]
    · isplitl [Done1_0]; · iexact Done1_0
      isplitl [Done1_1]; · iexact Done1_1
      isplitl [Done1_2]; · iexact Done1_2
      isplitl [Done1_3]; · iexact Done1_3
      isplitl [Done1_4]; · iexact Done1_4
      isplitl [Done1_5]; · iexact Done1_5
      isplitl [Done1_6]; · iexact Done1_6
      isplitl [Done1_7]; · iexact Done1_7
      iexact Done1_8
    ihave Hrem' := (Entails.of_eq (pointsTo_congr (ℓ := oLoc d) (I := tileSet (wid L) \ rowsU L) (q := fullShare) (f := m (oLoc d)) (g := outT m d) (fun i hi => by rw [rem_empty L k0_h10] at hi; exact absurd hi (Finset.notMem_empty i)))) $$ Hrem
    ihave Hout := (Entails.of_eq (tileOut_rows_rem (F := F) d L (outT m d)).symm) $$ [HA' HB' Hrem']
    · isplitl [HA']; · iexact HA'
      isplitl [HB']; · iexact HB'
      iexact Hrem'
    isplitl [Hx' Hp' Ht' Hout]
    · isplitl [Hx' Hp' Ht']
      · isplitl [Hx']; · iapply (Entails.of_eq (pts_x (F := F) d L _ _)); iexact Hx'
        isplitl [Hp']; · iapply (Entails.of_eq (pts_p (F := F) d L _ _)); iexact Hp'
        iapply (Entails.of_eq (pts_t (F := F) d L _ _)); iexact Ht'
      · iexists (outT m d); isplitr; · ipureintro; intro i _; rfl
        iexact Hout
    isplitl [Hpos' Hslot' Hbufs]
    · isplitl [Hpos']; · iexists _; iapply (Entails.of_eq (pts_pos (F := F) d L _)); iexact Hpos'
      isplitl [Hslot']; · iexists _; iapply (Entails.of_eq (pts_slot (F := F) d L _)); iexact Hslot'
      iexact Hbufs
    isplitl [Hs0 Hs1 Hs2 Hs3 Hs4 Hs5 Hs6 Hs7 Hs8]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      iexact Hs8
    iexists _; isplitr; swap
    · iexact HO
    · ipureintro; repeat (first | exact waits_refl W | apply waits_insert)

end Cert.KernelIdeal.Hand

end
-- ==== Proof.RowTripI.lean ====
/-
  One trip of the first row loop runs, and records its row copy.

  The trip's 816 memory operations touch two things only: position row r of staging slot 0, which the trip holds by
  exactly its own entries, and the chunk's position rows, held whole and only read. Every load and store of the slot
  goes through the whole staging buffer at a box [1, 1, 1, 16] inside that row; so the trip needs nothing else of the
  buffer. After the stores the row holds some contents (not named here); the trip then starts ONE copy, of the row to
  the eight batch rows of the output it belongs to, on the slot's outgoing semaphore, and the copy's delivery (the
  output rows overwritten with the row, and the row back) is recorded as the next of the semaphore's batch of eight.
  Nothing is waited for in a trip, so what the worker owes and the waits it has recorded are unchanged.
-/
import proofs.«204390_g6468220748199_cont_9to1_m_1136_17_alg».proof.Proof.RowSpecI
import proofs.«204390_g6468220748199_cont_9to1_m_1136_17_alg».proof.Proof.OffsetsI
import proofs.«204390_g6468220748199_cont_9to1_m_1136_17_alg».proof.Proof.Gen.KernelIdeal.Skeleton

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Tactic

variable {F : FTy → Type} [FloatOps F] [∀ e, Nonempty (Elt F e)]

local notation "𝕄" => MT nD τ sig (HIx 1) (Elt F) ℕ UU ℕ

variable (d : Dev nD) (L : grid0.Coords)

/-- Position row of slot 0 sliced at any offsets, as the program slices it. -/
abbrev rowAt (o : Fin 4 → Nat) (ho : ∀ a, o a + S1x8x1x768.size a ≤ S2x8x8x768.size a) : Memref sig .scVector .vmem S8x768 .f32 :=
  (slotV.slice (Rect.unit (s := S2x8x8x768) o S1x8x1x768.size ho) (fun _ => rfl)).squeeze S8x768 squeezes_S1x8x1x768_S8x768

/-- The row held through the program's slice is the row held through the named window, when the offsets are the window's. -/
theorem pts_rowAt (t2 : Fin k0_t2_loop.trips) (o : Fin 4 → Nat) (ho : ∀ a, o a + S1x8x1x768.size a ≤ S2x8x8x768.size a)
    (e : o = ![0, 0, t2.val, 0]) (C : Buf (Elt F) ((thr d L).loc cc0_scratch1)) :
    ((rowWin 0 ⟨t2.val, t2_lt t2⟩ Nat.zero_lt_two).view.loc (thr d L) ↦[(rowWin 0 ⟨t2.val, t2_lt t2⟩ Nat.zero_lt_two).view.set]{fullShare} C : sProp 𝕄)
      = ((rowAt o ho).view.loc (thr d L) ↦[(rowAt o ho).view.set]{fullShare} C) := by
  subst e; rfl

/-- The delivery recorded through the program's slice is the named delivery. -/
theorem deliv_rowAt (t1 : Fin k0_t1_loop.trips) (t2 : Fin k0_t2_loop.trips) (o : Fin 4 → Nat)
    (ho : ∀ a, o a + S1x8x1x768.size a ≤ S2x8x8x768.size a) (e : o = ![0, 0, t2.val, 0])
    (fo : Buf (Elt F) (oLoc d)) (C : Buf (Elt F) ((thr d L).loc cc0_scratch1)) :
    (iprop(((outRow0 L t1 t2).view.loc (thr d L) ↦[(outRow0 L t1 t2).view.set]{fullShare}
          (outRow0 L t1 t2).view.write (Elt F) fo (ReadAs.same.apply ((rowAt o ho).view.read (Elt F) C)) Finset.univ)
        ∗ ((rowAt o ho).view.loc (thr d L) ↦[(rowAt o ho).view.set]{fullShare} C)) : sProp 𝕄)
      = deliv0 d L t1 t2 fo C := by
  subst e; rfl

theorem row_trip0F : RowTrip0F (F := F) d L := by
  intro t1 t2 v29 v30 a10 v276 c0 O W f g fo Ds u hj hu
  generalize hP : (iprop(□ Transfers.MayWaits (thr d L) (none : HIx 1) O
        ∗ ((rowWin 0 ⟨t2.val, t2_lt t2⟩ Nat.zero_lt_two).view.loc (thr d L) ↦[(rowWin 0 ⟨t2.val, t2_lt t2⟩ Nat.zero_lt_two).view.set]{fullShare} f)
        ∗ ((posV : Memref sig .scVector .vmem S8x768 .f32).view.loc (thr d L) ↦{fullShare} g)
        ∗ ((outRow0 L t1 t2).view.loc (thr d L) ↦[(outRow0 L t1 t2).view.set]{fullShare} fo)
        ∗ Transfers.Batched (countersEmb (U := UU)) (thr d L) (SemLoc.dma (sig := sig) (2 : Fin 9)) (default : HIx 1) Nrow 8 Ds u
        ∗ owes (thr d L) O W) : sProp 𝕄) = P
  unfold k0_t2_body
  subst hP
  iintro ⟨#Hmw, Hrow, Hpos, Hout, HB, HO⟩
  -- the row number as the boxes' closed forms spell it
  have hv : ((⟨t2.val, t2_lt t2⟩ : Fin 8)).val = t2.val := rfl
  sl_exec_parts
  -- the row copy: its source is the row, spelt by the program through the trip's offsets
  ihave Hrow' := (Entails.of_eq (pts_rowAt (F := F) d L t2 (k0_off444 t2) (k0_off444_inb t2) (k0_off444_eq t2) _)) $$ Hrow
  iapply (Transfers.wp_dmaBatched (countersEmb (U := UU)) 𝒱₀ (thr d L) none (default : HIx 1) Nrow rfl (Finset.Subset.refl _) hj hu) $$ [Hrow' Hout HB]
  · isplitl [Hrow']; · iexact Hrow'
    isplitl [Hout]; · iexact Hout
    iexact HB
  iintro HB
  rw [deliv_rowAt (F := F) d L t1 t2 (k0_off444 t2) (k0_off444_inb t2) (k0_off444_eq t2) fo]
  sl_step
  iexists _
  isplitl [Hpos]; · iexact Hpos
  isplitl [HB]; · iexact HB
  iexact HO

end Cert.KernelIdeal.Hand

end
-- ==== Proof.RowValueI.lean ====
/-
  The row loop's trip, as a function of the staging buffer.

  One trip of a row loop visits the 384 boxes of sixteen features of position row r of slot pb, lane group by lane
  group (48 of them) and, within a lane group, batch row by batch row (8): box number n is batch row n % 8 of lane
  group n / 8. At each box it reads the box, adds the position row's sixteen features, and writes the box back.
  After the first n boxes the staging buffer is the buffer it started from with the sum in place on exactly those n
  boxes; this is written `Srow … n`. No box is visited twice, so the step from n to n + 1 reads the buffer it
  started from on box n, and after all 384 the whole row holds the sum.
-/
import proofs.«204390_g6468220748199_cont_9to1_m_1136_17_alg».proof.Proof.SlotGeomI
import proofs.«204390_g6468220748199_cont_9to1_m_1136_17_alg».proof.Proof.RowSpecI
import Idealize.ShloMosaic.Lib.Pipeline.Value
import Idealize.ShloMosaic.Lib.ValueLayout
import Idealize.ShloMosaic.Lib.ValueIdx

noncomputable section

namespace Cert.KernelIdeal.Hand

open Cert.KernelIdeal Cert.KernelIdeal.Gen
open Idealize.ShloMosaic Idealize.ShloMosaic.ValueIdx
open Idealize.ShloMosaic.SparseCore (S V T)

variable {F : FTy → Type} [FloatOps F]

variable (d : Dev nD) (L : grid0.Coords)

/-- The staging buffer after the first `n` boxes of position row `r` of slot `pb` have had the position row added. -/
def Srow (pb : ℕ) (r : Fin 8) (f : Buf (Elt F) ((thr d L).loc cc0_scratch1)) (g : Buf (Elt F) ((thr d L).loc cc0_scratch0))
    (n : ℕ) : Buf (Elt F) ((thr d L).loc cc0_scratch1) :=
  fun i => if (i 0).val = pb ∧ (i 2).val = r.val ∧ 8 * ((i 3).val / 16) + (i 1).val < n then
      FloatOps.addf (f i) (g (ix2 (n0 := 8) (n1 := 768) ⟨(i 2).val, (i 2).isLt⟩ ⟨(i 3).val, (i 3).isLt⟩))
    else f i

/-- Before any box, the buffer as it was. -/
theorem Srow_zero (pb : ℕ) (r : Fin 8) (f : Buf (Elt F) ((thr d L).loc cc0_scratch1))
    (g : Buf (Elt F) ((thr d L).loc cc0_scratch0)) : Srow d L pb r f g 0 = f := by
  funext i
  unfold Srow
  rw [if_neg fun h => Nat.not_lt_zero _ h.2.2]

/-- After all 384 boxes, the row holds the sum. -/
theorem Srow_full (pb : ℕ) (r : Fin 8) (f : Buf (Elt F) ((thr d L).loc cc0_scratch1))
    (g : Buf (Elt F) ((thr d L).loc cc0_scratch0)) : Srow d L pb r f g 384 = rowSum d L pb r f g := by
  funext i
  unfold Srow rowSum
  have h1 : (i 1).val < 8 := (i 1).isLt
  have h3 : (i 3).val < 768 := (i 3).isLt
  have hc : 8 * ((i 3).val / 16) + (i 1).val < 384 := by omega
  by_cases hab : (i 0).val = pb ∧ (i 2).val = r.val
  · rw [if_pos ⟨hab.1, hab.2, hc⟩, if_pos hab]
  · rw [if_neg fun h => hab ⟨h.1, h.2.1⟩, if_neg hab]

/-- The entries of box `n`. -/
theorem mem_box {offA : Fin 4 → Nat} (inbA : ∀ a, offA a + S1x1x1x16.size a ≤ S2x8x8x768.size a)
    {pb n rv : ℕ} (hA : offA = ![pb, n % 8, rv, 16 * (n / 8)]) (i : S2x8x8x768.Idx) :
    i ∈ ((slotV : Memref sig .scVector .vmem S2x8x8x768 .f32).access (Rect.unit (s := S2x8x8x768) offA S1x1x1x16.size inbA)).set
      ↔ (i 0).val = pb ∧ (i 1).val = n % 8 ∧ (i 2).val = rv ∧ 16 * (n / 8) ≤ (i 3).val ∧ (i 3).val < 16 * (n / 8) + 16 := by
  subst hA
  show i ∈ ((View.whole (cc0_scratch1 : Ref sig .scVector)).slice
    (Rect.unit (s := S2x8x8x768) ![pb, n % 8, rv, 16 * (n / 8)] S1x1x1x16.size inbA)).set ↔ _
  rw [View.set_slice_whole, Rect.mem_set_unit]
  constructor
  · intro h
    have h0 : pb ≤ (i 0).val ∧ (i 0).val < pb + 1 := h 0
    have h1 : n % 8 ≤ (i 1).val ∧ (i 1).val < n % 8 + 1 := h 1
    have h2 : rv ≤ (i 2).val ∧ (i 2).val < rv + 1 := h 2
    have h3 : 16 * (n / 8) ≤ (i 3).val ∧ (i 3).val < 16 * (n / 8) + 16 := h 3
    omega
  · intro h a
    match a with
    | ⟨0, _⟩ => show pb ≤ (i 0).val ∧ (i 0).val < pb + 1; omega
    | ⟨1, _⟩ => show n % 8 ≤ (i 1).val ∧ (i 1).val < n % 8 + 1; omega
    | ⟨2, _⟩ => show rv ≤ (i 2).val ∧ (i 2).val < rv + 1; omega
    | ⟨3, _⟩ => show 16 * (n / 8) ≤ (i 3).val ∧ (i 3).val < 16 * (n / 8) + 16; omega

/-- One box, with the payload a variable: if the payload at each entry of box `n` is the buffer's entry there plus
    the position row's feature, writing it turns the buffer after `n` boxes into the buffer after `n + 1`. -/
theorem Srow_write (pb : ℕ) (r : Fin 8) (f : Buf (Elt F) ((thr d L).loc cc0_scratch1))
    (g : Buf (Elt F) ((thr d L).loc cc0_scratch0)) (n : ℕ)
    {offA : Fin 4 → Nat} (inbA : ∀ a, offA a + S1x1x1x16.size a ≤ S2x8x8x768.size a)
    (hA : offA = ![pb, n % 8, r.val, 16 * (n / 8)]) (w : S1x1x1x16.Idx → Elt F .f32)
    (hw : ∀ x : S1x1x1x16.Idx,
      w x = FloatOps.addf
        (Srow d L pb r f g n (((slotV : Memref sig .scVector .vmem S2x8x8x768 .f32).access (Rect.unit (s := S2x8x8x768) offA S1x1x1x16.size inbA)).emb x))
        (g (ix2 (n0 := 8) (n1 := 768)
          ⟨((((slotV : Memref sig .scVector .vmem S2x8x8x768 .f32).access (Rect.unit (s := S2x8x8x768) offA S1x1x1x16.size inbA)).emb x) 2).val,
            ((((slotV : Memref sig .scVector .vmem S2x8x8x768 .f32).access (Rect.unit (s := S2x8x8x768) offA S1x1x1x16.size inbA)).emb x) 2).isLt⟩
          ⟨((((slotV : Memref sig .scVector .vmem S2x8x8x768 .f32).access (Rect.unit (s := S2x8x8x768) offA S1x1x1x16.size inbA)).emb x) 3).val,
            ((((slotV : Memref sig .scVector .vmem S2x8x8x768 .f32).access (Rect.unit (s := S2x8x8x768) offA S1x1x1x16.size inbA)).emb x) 3).isLt⟩))) :
    View.write (Elt F) ((slotV : Memref sig .scVector .vmem S2x8x8x768 .f32).access (Rect.unit (s := S2x8x8x768) offA S1x1x1x16.size inbA)) (Srow d L pb r f g n) w Finset.univ
      = Srow d L pb r f g (n + 1) := by
  funext i
  have h1 : (i 1).val < 8 := (i 1).isLt
  by_cases hi : i ∈ ((slotV : Memref sig .scVector .vmem S2x8x8x768 .f32).access (Rect.unit (s := S2x8x8x768) offA S1x1x1x16.size inbA)).set
  · -- an entry of the box: it takes the payload, which is the sum
    obtain ⟨x, -, hx⟩ := Finset.mem_map.mp hi
    obtain ⟨e0, e1, e2, e3l, e3h⟩ := (mem_box inbA hA i).mp hi
    have hwv : View.write (Elt F) ((slotV : Memref sig .scVector .vmem S2x8x8x768 .f32).access (Rect.unit (s := S2x8x8x768) offA S1x1x1x16.size inbA)) (Srow d L pb r f g n) w Finset.univ i = w x := by
      rw [← hx]
      exact (View.write_emb_of_mem (v := ((slotV : Memref sig .scVector .vmem S2x8x8x768 .f32).access (Rect.unit (s := S2x8x8x768) offA S1x1x1x16.size inbA))) (Srow d L pb r f g n) w (Finset.mem_univ x)).trans (cast_eq _ _)
    have hn1 : ¬((i 0).val = pb ∧ (i 2).val = r.val ∧ 8 * ((i 3).val / 16) + (i 1).val < n) := by omega
    have hn2 : (i 0).val = pb ∧ (i 2).val = r.val ∧ 8 * ((i 3).val / 16) + (i 1).val < n + 1 := by omega
    rw [hwv, hw x, hx]
    unfold Srow
    rw [if_neg hn1, if_pos hn2]
  · -- any other entry keeps what it held, and is not among the first n + 1 boxes unless among the first n
    have hi' : i ∉ ((slotV : Memref sig .scVector .vmem S2x8x8x768 .f32).access (Rect.unit (s := S2x8x8x768) offA S1x1x1x16.size inbA)).setOn Finset.univ := hi
    rw [View.write_of_not_mem (v := ((slotV : Memref sig .scVector .vmem S2x8x8x768 .f32).access (Rect.unit (s := S2x8x8x768) offA S1x1x1x16.size inbA))) (Srow d L pb r f g n) w Finset.univ hi']
    have hb := (mem_box inbA hA i).not.mp hi
    unfold Srow
    by_cases hc : (i 0).val = pb ∧ (i 2).val = r.val ∧ 8 * ((i 3).val / 16) + (i 1).val < n
    · have hc' : (i 0).val = pb ∧ (i 2).val = r.val ∧ 8 * ((i 3).val / 16) + (i 1).val < n + 1 := ⟨hc.1, hc.2.1, by omega⟩
      rw [if_pos hc, if_pos hc']
    · have hc' : ¬((i 0).val = pb ∧ (i 2).val = r.val ∧ 8 * ((i 3).val / 16) + (i 1).val < n + 1) := by omega
      rw [if_neg hc, if_neg hc']

/-- One box, in the spelling of the program's run: the box read, the position row's sixteen features read, the
    sum written back. -/
theorem Srow_step (pb : ℕ) (r : Fin 8) (f : Buf (Elt F) ((thr d L).loc cc0_scratch1))
    (g : Buf (Elt F) ((thr d L).loc cc0_scratch0)) (n : ℕ)
    {offA : Fin 4 → Nat} {offB : Fin 2 → Nat} (inbA : ∀ a, offA a + S1x1x1x16.size a ≤ S2x8x8x768.size a)
    (inbB : ∀ a, offB a + S1x16.size a ≤ S8x768.size a)
    (hA : offA = ![pb, n % 8, r.val, 16 * (n / 8)]) (hB : offB = ![r.val, 16 * (n / 8)]) :
    View.write (Elt F) ((slotV : Memref sig .scVector .vmem S2x8x8x768 .f32).access (Rect.unit (s := S2x8x8x768) offA S1x1x1x16.size inbA)) (Srow d L pb r f g n)
        (shapeCast S1x1x1x16
          (addf
            (shapeCast S16
              (View.readAt (Elt F) (slotV : Memref sig .scVector .vmem S2x8x8x768 .f32).view (Rect.unit (s := S2x8x8x768) offA S1x1x1x16.size inbA).toLoadRect
                (Srow d L pb r f g n)) shapeCasts_S1x1x1x16_S16)
            (shapeCast S16
              (View.readAt (Elt F) (posV : Memref sig .scVector .vmem S8x768 .f32).view (Rect.unit (s := S8x768) offB S1x16.size inbB).toLoadRect g)
              shapeCasts_S1x16_S16))
          shapeCasts_S16_S1x1x1x16) Finset.univ
      = Srow d L pb r f g (n + 1) := by
  refine Srow_write d L pb r f g n inbA hA _ fun x => ?_
  have x0 : (x 0).val < 1 := (x 0).isLt
  have x1 : (x 1).val < 1 := (x 1).isLt
  have x2 : (x 2).val < 1 := (x 2).isLt
  -- the payload at x: lane (x 3) of the sum
  rw [shapeCast_apply _ shapeCasts_S16_S1x1x1x16 x (ix1 (x 3)) (by
    rw [Shape.rowMajor_val_one, Shape.rowMajor_val_four]
    show (x 3).val = (((x 0).val * 1 + (x 1).val) * 1 + (x 2).val) * 16 + (x 3).val
    omega)]
  show FloatOps.addf
      (shapeCast S16 (View.readAt (Elt F) (slotV : Memref sig .scVector .vmem S2x8x8x768 .f32).view (Rect.unit (s := S2x8x8x768) offA S1x1x1x16.size inbA).toLoadRect
        (Srow d L pb r f g n)) shapeCasts_S1x1x1x16_S16 (ix1 (x 3)))
      (shapeCast S16 (View.readAt (Elt F) (posV : Memref sig .scVector .vmem S8x768 .f32).view (Rect.unit (s := S8x768) offB S1x16.size inbB).toLoadRect g)
        shapeCasts_S1x16_S16 (ix1 (x 3))) = _
  rw [shapeCast_apply _ shapeCasts_S1x1x1x16_S16 (ix1 (x 3)) x (by
      rw [Shape.rowMajor_val_one, Shape.rowMajor_val_four]
      show (((x 0).val * 1 + (x 1).val) * 1 + (x 2).val) * 16 + (x 3).val = (x 3).val
      omega),
    shapeCast_apply _ shapeCasts_S1x16_S16 (ix1 (x 3)) (ix2 (⟨0, Nat.one_pos⟩ : Fin 1) (x 3)) (by
      rw [Shape.rowMajor_val_one, Shape.rowMajor_val_two]
      show 0 * 16 + (x 3).val = (x 3).val
      omega)]
  -- the two reads, at their elements
  have hs : View.readAt (Elt F) (slotV : Memref sig .scVector .vmem S2x8x8x768 .f32).view (Rect.unit (s := S2x8x8x768) offA S1x1x1x16.size inbA).toLoadRect
      (Srow d L pb r f g n) x
        = Srow d L pb r f g n (((slotV : Memref sig .scVector .vmem S2x8x8x768 .f32).access (Rect.unit (s := S2x8x8x768) offA S1x1x1x16.size inbA)).emb x) := by
    first
      | rfl
      | exact cast_eq _ _
  have hp : View.readAt (Elt F) (posV : Memref sig .scVector .vmem S8x768 .f32).view (Rect.unit (s := S8x768) offB S1x16.size inbB).toLoadRect g
      (ix2 (⟨0, Nat.one_pos⟩ : Fin 1) (x 3))
        = g (ix2 (n0 := 8) (n1 := 768)
          ⟨((((slotV : Memref sig .scVector .vmem S2x8x8x768 .f32).access (Rect.unit (s := S2x8x8x768) offA S1x1x1x16.size inbA)).emb x) 2).val,
            ((((slotV : Memref sig .scVector .vmem S2x8x8x768 .f32).access (Rect.unit (s := S2x8x8x768) offA S1x1x1x16.size inbA)).emb x) 2).isLt⟩
          ⟨((((slotV : Memref sig .scVector .vmem S2x8x8x768 .f32).access (Rect.unit (s := S2x8x8x768) offA S1x1x1x16.size inbA)).emb x) 3).val,
            ((((slotV : Memref sig .scVector .vmem S2x8x8x768 .f32).access (Rect.unit (s := S2x8x8x768) offA S1x1x1x16.size inbA)).emb x) 3).isLt⟩) := by
    subst hA hB
    have e : (View.whole (cc0_scratch0 : Ref sig .scVector)).emb
        ((Rect.unit (s := S8x768) ![r.val, 16 * (n / 8)] S1x16.size inbB).toLoadRect.idx (ix2 (⟨0, Nat.one_pos⟩ : Fin 1) (x 3)))
        = ix2 (n0 := 8) (n1 := 768)
          ⟨((((slotV : Memref sig .scVector .vmem S2x8x8x768 .f32).access (Rect.unit (s := S2x8x8x768) ![pb, n % 8, r.val, 16 * (n / 8)] S1x1x1x16.size inbA)).emb x) 2).val, ((((slotV : Memref sig .scVector .vmem S2x8x8x768 .f32).access (Rect.unit (s := S2x8x8x768) ![pb, n % 8, r.val, 16 * (n / 8)] S1x1x1x16.size inbA)).emb x) 2).isLt⟩
          ⟨((((slotV : Memref sig .scVector .vmem S2x8x8x768 .f32).access (Rect.unit (s := S2x8x8x768) ![pb, n % 8, r.val, 16 * (n / 8)] S1x1x1x16.size inbA)).emb x) 3).val, ((((slotV : Memref sig .scVector .vmem S2x8x8x768 .f32).access (Rect.unit (s := S2x8x8x768) ![pb, n % 8, r.val, 16 * (n / 8)] S1x1x1x16.size inbA)).emb x) 3).isLt⟩ := by
      funext a
      apply Fin.ext
      match a with
      | ⟨0, _⟩ => show r.val + 1 * 0 = r.val + 1 * (x 2).val; omega
      | ⟨1, _⟩ => show 16 * (n / 8) + 1 * (x 3).val = 16 * (n / 8) + 1 * (x 3).val; rfl
    show (View.whole (cc0_scratch0 : Ref sig .scVector)).read (Elt F) g _ = _
    rw [View.read_apply, e]
    first
      | rfl
      | exact cast_eq _ _
  rw [hs, hp]

end Cert.KernelIdeal.Hand

end
-- ==== Proof.RowTripVI.lean ====
/-
  One trip of the first row loop, with the row named afterwards.

  The trip stores 384 times into position row r of staging slot 0: for each of the 48 lane groups c, in order, and
  each of the 8 batch rows k, in order, it reads the 16 entries (k, 16 c .. 16 c + 15) of the row, adds the position
  row's entries of the same features, and stores the sums back. Store number N = 8 c + k + 1 therefore touches a box
  that no earlier store touched, and what it reads there is still what the row held before the trip. So after N
  stores the row holds the sums on the first N boxes and the old contents elsewhere; after all 384 it holds, entry
  by entry, the old entry plus the position row's entry. That is the row the trip's copy then reads and delivers.
-/
import proofs.«204390_g6468220748199_cont_9to1_m_1136_17_alg».proof.Proof.RowTripI
import proofs.«204390_g6468220748199_cont_9to1_m_1136_17_alg».proof.Proof.RowValueI

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Tactic

variable {F : FTy → Type} [FloatOps F] [∀ e, Nonempty (Elt F e)]

local notation "𝕄" => MT nD τ sig (HIx 1) (Elt F) ℕ UU ℕ

variable (d : Dev nD) (L : grid0.Coords)

set_option maxHeartbeats 4000000 in
theorem row_trip0 : RowTrip0 (F := F) d L := by
  intro t1 t2 v29 v30 a10 v276 c0 O W f g fo Ds u hj hu
  generalize hP : (iprop(□ Transfers.MayWaits (thr d L) (none : HIx 1) O
        ∗ ((rowWin 0 ⟨t2.val, t2_lt t2⟩ Nat.zero_lt_two).view.loc (thr d L) ↦[(rowWin 0 ⟨t2.val, t2_lt t2⟩ Nat.zero_lt_two).view.set]{fullShare} f)
        ∗ ((posV : Memref sig .scVector .vmem S8x768 .f32).view.loc (thr d L) ↦{fullShare} g)
        ∗ ((outRow0 L t1 t2).view.loc (thr d L) ↦[(outRow0 L t1 t2).view.set]{fullShare} fo)
        ∗ Transfers.Batched (countersEmb (U := UU)) (thr d L) (SemLoc.dma (sig := sig) (2 : Fin 9)) (default : HIx 1) Nrow 8 Ds u
        ∗ owes (thr d L) O W) : sProp 𝕄) = P
  unfold k0_t2_body
  subst hP
  iintro ⟨#Hmw, Hrow, Hpos, Hout, HB, HO⟩
  -- the row number as the boxes' closed forms spell it
  have hv : ((⟨t2.val, t2_lt t2⟩ : Fin 8)).val = t2.val := rfl
  sl_exec_parts
  -- the row after its 384 stores, store by store: store N adds the position entry on batch row (N - 1) % 8 of lane
  -- group (N - 1) / 8, which no earlier store touched
  have e1 : row_trip0.sl.Hrow_w1 d L t2 f g = Srow d L 0 ⟨t2.val, t2_lt t2⟩ f g 1 := by
    unfold row_trip0.sl.Hrow_w1
    have h := Srow_step (F := F) d L 0 ⟨t2.val, t2_lt t2⟩ f g 0 (k0_off13_inb t2) (k0_off12_inb t2) (k0_off13_eq t2) (k0_off12_eq t2)
    rw [Srow_zero] at h
    exact h
  have e2 : row_trip0.sl.Hrow_w2 d L t2 f g = Srow d L 0 ⟨t2.val, t2_lt t2⟩ f g 2 := by
    unfold row_trip0.sl.Hrow_w2
    rw [e1]
    exact Srow_step (F := F) d L 0 ⟨t2.val, t2_lt t2⟩ f g 1 (k0_off14_inb t2) (k0_off12_inb t2) (k0_off14_eq t2) (k0_off12_eq t2)
  have e3 : row_trip0.sl.Hrow_w3 d L t2 f g = Srow d L 0 ⟨t2.val, t2_lt t2⟩ f g 3 := by
    unfold row_trip0.sl.Hrow_w3 row_trip0.sl.r_1
    rw [e2]
    exact Srow_step (F := F) d L 0 ⟨t2.val, t2_lt t2⟩ f g 2 (k0_off15_inb t2) (k0_off12_inb t2) (k0_off15_eq t2) (k0_off12_eq t2)
  have e4 : row_trip0.sl.Hrow_w4 d L t2 f g = Srow d L 0 ⟨t2.val, t2_lt t2⟩ f g 4 := by
    unfold row_trip0.sl.Hrow_w4
    rw [e3]
    exact Srow_step (F := F) d L 0 ⟨t2.val, t2_lt t2⟩ f g 3 (k0_off16_inb t2) (k0_off12_inb t2) (k0_off16_eq t2) (k0_off12_eq t2)
  have e5 : row_trip0.sl.Hrow_w5 d L t2 f g = Srow d L 0 ⟨t2.val, t2_lt t2⟩ f g 5 := by
    unfold row_trip0.sl.Hrow_w5
    rw [e4]
    exact Srow_step (F := F) d L 0 ⟨t2.val, t2_lt t2⟩ f g 4 (k0_off17_inb t2) (k0_off12_inb t2) (k0_off17_eq t2) (k0_off12_eq t2)
  have e6 : row_trip0.sl.Hrow_w6 d L t2 f g = Srow d L 0 ⟨t2.val, t2_lt t2⟩ f g 6 := by
    unfold row_trip0.sl.Hrow_w6
    rw [e5]
    exact Srow_step (F := F) d L 0 ⟨t2.val, t2_lt t2⟩ f g 5 (k0_off18_inb t2) (k0_off12_inb t2) (k0_off18_eq t2) (k0_off12_eq t2)
  have e7 : row_trip0.sl.Hrow_w7 d L t2 f g = Srow d L 0 ⟨t2.val, t2_lt t2⟩ f g 7 := by
    unfold row_trip0.sl.Hrow_w7
    rw [e6]
    exact Srow_step (F := F) d L 0 ⟨t2.val, t2_lt t2⟩ f g 6 (k0_off19_inb t2) (k0_off12_inb t2) (k0_off19_eq t2) (k0_off12_eq t2)
  have e8 : row_trip0.sl.Hrow_w8 d L t2 f g = Srow d L 0 ⟨t2.val, t2_lt t2⟩ f g 8 := by
    unfold row_trip0.sl.Hrow_w8
    rw [e7]
    exact Srow_step (F := F) d L 0 ⟨t2.val, t2_lt t2⟩ f g 7 (k0_off20_inb t2) (k0_off12_inb t2) (k0_off20_eq t2) (k0_off12_eq t2)
  have e9 : row_trip0.sl.Hrow_w9 d L t2 f g = Srow d L 0 ⟨t2.val, t2_lt t2⟩ f g 9 := by
    unfold row_trip0.sl.Hrow_w9
    rw [e8]
    exact Srow_step (F := F) d L 0 ⟨t2.val, t2_lt t2⟩ f g 8 (k0_off22_inb t2) (k0_off21_inb t2) (k0_off22_eq t2) (k0_off21_eq t2)
  have e10 : row_trip0.sl.Hrow_w10 d L t2 f g = Srow d L 0 ⟨t2.val, t2_lt t2⟩ f g 10 := by
    unfold row_trip0.sl.Hrow_w10
    rw [e9]
    exact Srow_step (F := F) d L 0 ⟨t2.val, t2_lt t2⟩ f g 9 (k0_off23_inb t2) (k0_off21_inb t2) (k0_off23_eq t2) (k0_off21_eq t2)
  have e11 : row_trip0.sl.Hrow_w11 d L t2 f g = Srow d L 0 ⟨t2.val, t2_lt t2⟩ f g 11 := by
    unfold row_trip0.sl.Hrow_w11
    rw [e10]
    exact Srow_step (F := F) d L 0 ⟨t2.val, t2_lt t2⟩ f g 10 (k0_off24_inb t2) (k0_off21_inb t2) (k0_off24_eq t2) (k0_off21_eq t2)
  have e12 : row_trip0.sl.Hrow_w12 d L t2 f g = Srow d L 0 ⟨t2.val, t2_lt t2⟩ f g 12 := by
    unfold row_trip0.sl.Hrow_w12
    rw [e11]
    exact Srow_step (F := F) d L 0 ⟨t2.val, t2_lt t2⟩ f g 11 (k0_off25_inb t2) (k0_off21_inb t2) (k0_off25_eq t2) (k0_off21_eq t2)
  have e13 : row_trip0.sl.Hrow_w13 d L t2 f g = Srow d L 0 ⟨t2.val, t2_lt t2⟩ f g 13 := by
    unfold row_trip0.sl.Hrow_w13
    rw [e12]
    exact Srow_step (F := F) d L 0 ⟨t2.val, t2_lt t2⟩ f g 12 (k0_off26_inb t2) (k0_off21_inb t2) (k0_off26_eq t2) (k0_off21_eq t2)
  have e14 : row_trip0.sl.Hrow_w14 d L t2 f g = Srow d L 0 ⟨t2.val, t2_lt t2⟩ f g 14 := by
    unfold row_trip0.sl.Hrow_w14
    rw [e13]
    exact Srow_step (F := F) d L 0 ⟨t2.val, t2_lt t2⟩ f g 13 (k0_off27_inb t2) (k0_off21_inb t2) (k0_off27_eq t2) (k0_off21_eq t2)
  have e15 : row_trip0.sl.Hrow_w15 d L t2 f g = Srow d L 0 ⟨t2.val, t2_lt t2⟩ f g 15 := by
    unfold row_trip0.sl.Hrow_w15
    rw [e14]
    exact Srow_step (F := F) d L 0 ⟨t2.val, t2_lt t2⟩ f g 14 (k0_off28_inb t2) (k0_off21_inb t2) (k0_off28_eq t2) (k0_off21_eq t2)
  have e16 : row_trip0.sl.Hrow_w16 d L t2 f g = Srow d L 0 ⟨t2.val, t2_lt t2⟩ f g 16 := by
    unfold row_trip0.sl.Hrow_w16
    rw [e15]
    exact Srow_step (F := F) d L 0 ⟨t2.val, t2_lt t2⟩ f g 15 (k0_off29_inb t2) (k0_off21_inb t2) (k0_off29_eq t2) (k0_off21_eq t2)
  have e17 : row_trip0.sl.Hrow_w17 d L t2 f g = Srow d L 0 ⟨t2.val, t2_lt t2⟩ f g 17 := by
    unfold row_trip0.sl.Hrow_w17
    rw [e16]
    exact Srow_step (F := F) d L 0 ⟨t2.val, t2_lt t2⟩ f g 16 (k0_off31_inb t2) (k0_off30_inb t2) (k0_off31_eq t2) (k0_off30_eq t2)
  have e18 : row_trip0.sl.Hrow_w18 d L t2 f g = Srow d L 0 ⟨t2.val, t2_lt t2⟩ f g 18 := by
    unfold row_trip0.sl.Hrow_w18
    rw [e17]
    exact Srow_step (F := F) d L 0 ⟨t2.val, t2_lt t2⟩ f g 17 (k0_off32_inb t2) (k0_off30_inb t2) (k0_off32_eq t2) (k0_off30_eq t2)
  have e19 : row_trip0.sl.Hrow_w19 d L t2 f g = Srow d L 0 ⟨t2.val, t2_lt t2⟩ f g 19 := by
    unfold row_trip0.sl.Hrow_w19
    rw [e18]
    exact Srow_step (F := F) d L 0 ⟨t2.val, t2_lt t2⟩ f g 18 (k0_off33_inb t2) (k0_off30_inb t2) (k0_off33_eq t2) (k0_off30_eq t2)
  have e20 : row_trip0.sl.Hrow_w20 d L t2 f g = Srow d L 0 ⟨t2.val, t2_lt t2⟩ f g 20 := by
    unfold row_trip0.sl.Hrow_w20
    rw [e19]
    exact Srow_step (F := F) d L 0 ⟨t2.val, t2_lt t2⟩ f g 19 (k0_off34_inb t2) (k0_off30_inb t2) (k0_off34_eq t2) (k0_off30_eq t2)
  have e21 : row_trip0.sl.Hrow_w21 d L t2 f g = Srow d L 0 ⟨t2.val, t2_lt t2⟩ f g 21 := by
    unfold row_trip0.sl.Hrow_w21
    rw [e20]
    exact Srow_step (F := F) d L 0 ⟨t2.val, t2_lt t2⟩ f g 20 (k0_off35_inb t2) (k0_off30_inb t2) (k0_off35_eq t2) (k0_off30_eq t2)
  have e22 : row_trip0.sl.Hrow_w22 d L t2 f g = Srow d L 0 ⟨t2.val, t2_lt t2⟩ f g 22 := by
    unfold row_trip0.sl.Hrow_w22 row_trip0.sl.r_4
    rw [e21]
    exact Srow_step (F := F) d L 0 ⟨t2.val, t2_lt t2⟩ f g 21 (k0_off36_inb t2) (k0_off30_inb t2) (k0_off36_eq t2) (k0_off30_eq t2)
  have e23 : row_trip0.sl.Hrow_w23 d L t2 f g = Srow d L 0 ⟨t2.val, t2_lt t2⟩ f g 23 := by
    unfold row_trip0.sl.Hrow_w23
    rw [e22]
    exact Srow_step (F := F) d L 0 ⟨t2.val, t2_lt t2⟩ f g 22 (k0_off37_inb t2) (k0_off30_inb t2) (k0_off37_eq t2) (k0_off30_eq t2)
  have e24 : row_trip0.sl.Hrow_w24 d L t2 f g = Srow d L 0 ⟨t2.val, t2_lt t2⟩ f g 24 := by
    unfold row_trip0.sl.Hrow_w24
    rw [e23]
    exact Srow_step (F := F) d L 0 ⟨t2.val, t2_lt t2⟩ f g 23 (k0_off38_inb t2) (k0_off30_inb t2) (k0_off38_eq t2) (k0_off30_eq t2)
  have e25 : row_trip0.sl.Hrow_w25 d L t2 f g = Srow d L 0 ⟨t2.val, t2_lt t2⟩ f g 25 := by
    unfold row_trip0.sl.Hrow_w25 row_trip0.sl.r_6
    rw [e24]
    exact Srow_step (F := F) d L 0 ⟨t2.val, t2_lt t2⟩ f g 24 (k0_off40_inb t2) (k0_off39_inb t2) (k0_off40_eq t2) (k0_off39_eq t2)
  have e26 : row_trip0.sl.Hrow_w26 d L t2 f g = Srow d L 0 ⟨t2.val, t2_lt t2⟩ f g 26 := by
    unfold row_trip0.sl.Hrow_w26
    rw [e25]
    exact Srow_step (F := F) d L 0 ⟨t2.val, t2_lt t2⟩ f g 25 (k0_off41_inb t2) (k0_off39_inb t2) (k0_off41_eq t2) (k0_off39_eq t2)
  have e27 : row_trip0.sl.Hrow_w27 d L t2 f g = Srow d L 0 ⟨t2.val, t2_lt t2⟩ f g 27 := by
    unfold row_trip0.sl.Hrow_w27
    rw [e26]
    exact Srow_step (F := F) d L 0 ⟨t2.val, t2_lt t2⟩ f g 26 (k0_off42_inb t2) (k0_off39_inb t2) (k0_off42_eq t2) (k0_off39_eq t2)
  have e28 : row_trip0.sl.Hrow_w28 d L t2 f g = Srow d L 0 ⟨t2.val, t2_lt t2⟩ f g 28 := by
    unfold row_trip0.sl.Hrow_w28 row_trip0.sl.r_7
    rw [e27]
    exact Srow_step (F := F) d L 0 ⟨t2.val, t2_lt t2⟩ f g 27 (k0_off43_inb t2) (k0_off39_inb t2) (k0_off43_eq t2) (k0_off39_eq t2)
  have e29 : row_trip0.sl.Hrow_w29 d L t2 f g = Srow d L 0 ⟨t2.val, t2_lt t2⟩ f g 29 := by
    unfold row_trip0.sl.Hrow_w29
    rw [e28]
    exact Srow_step (F := F) d L 0 ⟨t2.val, t2_lt t2⟩ f g 28 (k0_off44_inb t2) (k0_off39_inb t2) (k0_off44_eq t2) (k0_off39_eq t2)
  have e30 : row_trip0.sl.Hrow_w30 d L t2 f g = Srow d L 0 ⟨t2.val, t2_lt t2⟩ f g 30 := by
    unfold row_trip0.sl.Hrow_w30
    rw [e29]
    exact Srow_step (F := F) d L 0 ⟨t2.val, t2_lt t2⟩ f g 29 (k0_off45_inb t2) (k0_off39_inb t2) (k0_off45_eq t2) (k0_off39_eq t2)
  have e31 : row_trip0.sl.Hrow_w31 d L t2 f g = Srow d L 0 ⟨t2.val, t2_lt t2⟩ f g 31 := by
    unfold row_trip0.sl.Hrow_w31 row_trip0.sl.r_8
    rw [e30]
    exact Srow_step (F := F) d L 0 ⟨t2.val, t2_lt t2⟩ f g 30 (k0_off46_inb t2) (k0_off39_inb t2) (k0_off46_eq t2) (k0_off39_eq t2)
  have e32 : row_trip0.sl.Hrow_w32 d L t2 f g = Srow d L 0 ⟨t2.val, t2_lt t2⟩ f g 32 := by
    unfold row_trip0.sl.Hrow_w32
    rw [e31]
    exact Srow_step (F := F) d L 0 ⟨t2.val, t2_lt t2⟩ f g 31 (k0_off47_inb t2) (k0_off39_inb t2) (k0_off47_eq t2) (k0_off39_eq t2)
  have e33 : row_trip0.sl.Hrow_w33 d L t2 f g = Srow d L 0 ⟨t2.val, t2_lt t2⟩ f g 33 := by
    unfold row_trip0.sl.Hrow_w33
    rw [e32]
    exact Srow_step (F := F) d L 0 ⟨t2.val, t2_lt t2⟩ f g 32 (k0_off49_inb t2) (k0_off48_inb t2) (k0_off49_eq t2) (k0_off48_eq t2)
  have e34 : row_trip0.sl.Hrow_w34 d L t2 f g = Srow d L 0 ⟨t2.val, t2_lt t2⟩ f g 34 := by
    unfold row_trip0.sl.Hrow_w34 row_trip0.sl.r_10
    rw [e33]
    exact Srow_step (F := F) d L 0 ⟨t2.val, t2_lt t2⟩ f g 33 (k0_off50_inb t2) (k0_off48_inb t2) (k0_off50_eq t2) (k0_off48_eq t2)
  have e35 : row_trip0.sl.Hrow_w35 d L t2 f g = Srow d L 0 ⟨t2.val, t2_lt t2⟩ f g 35 := by
    unfold row_trip0.sl.Hrow_w35
    rw [e34]
    exact Srow_step (F := F) d L 0 ⟨t2.val, t2_lt t2⟩ f g 34 (k0_off51_inb t2) (k0_off48_inb t2) (k0_off51_eq t2) (k0_off48_eq t2)
  have e36 : row_trip0.sl.Hrow_w36 d L t2 f g = Srow d L 0 ⟨t2.val, t2_lt t2⟩ f g 36 := by
    unfold row_trip0.sl.Hrow_w36
    rw [e35]
    exact Srow_step (F := F) d L 0 ⟨t2.val, t2_lt t2⟩ f g 35 (k0_off52_inb t2) (k0_off48_inb t2) (k0_off52_eq t2) (k0_off48_eq t2)
  have e37 : row_trip0.sl.Hrow_w37 d L t2 f g = Srow d L 0 ⟨t2.val, t2_lt t2⟩ f g 37 := by
    unfold row_trip0.sl.Hrow_w37 row_trip0.sl.r_11
    rw [e36]
    exact Srow_step (F := F) d L 0 ⟨t2.val, t2_lt t2⟩ f g 36 (k0_off53_inb t2) (k0_off48_inb t2) (k0_off53_eq t2) (k0_off48_eq t2)
  have e38 : row_trip0.sl.Hrow_w38 d L t2 f g = Srow d L 0 ⟨t2.val, t2_lt t2⟩ f g 38 := by
    unfold row_trip0.sl.Hrow_w38
    rw [e37]
    exact Srow_step (F := F) d L 0 ⟨t2.val, t2_lt t2⟩ f g 37 (k0_off54_inb t2) (k0_off48_inb t2) (k0_off54_eq t2) (k0_off48_eq t2)
  have e39 : row_trip0.sl.Hrow_w39 d L t2 f g = Srow d L 0 ⟨t2.val, t2_lt t2⟩ f g 39 := by
    unfold row_trip0.sl.Hrow_w39
    rw [e38]
    exact Srow_step (F := F) d L 0 ⟨t2.val, t2_lt t2⟩ f g 38 (k0_off55_inb t2) (k0_off48_inb t2) (k0_off55_eq t2) (k0_off48_eq t2)
  have e40 : row_trip0.sl.Hrow_w40 d L t2 f g = Srow d L 0 ⟨t2.val, t2_lt t2⟩ f g 40 := by
    unfold row_trip0.sl.Hrow_w40 row_trip0.sl.r_12
    rw [e39]
    exact Srow_step (F := F) d L 0 ⟨t2.val, t2_lt t2⟩ f g 39 (k0_off56_inb t2) (k0_off48_inb t2) (k0_off56_eq t2) (k0_off48_eq t2)
  have e41 : row_trip0.sl.Hrow_w41 d L t2 f g = Srow d L 0 ⟨t2.val, t2_lt t2⟩ f g 41 := by
    unfold row_trip0.sl.Hrow_w41
    rw [e40]
    exact Srow_step (F := F) d L 0 ⟨t2.val, t2_lt t2⟩ f g 40 (k0_off58_inb t2) (k0_off57_inb t2) (k0_off58_eq t2) (k0_off57_eq t2)
  have e42 : row_trip0.sl.Hrow_w42 d L t2 f g = Srow d L 0 ⟨t2.val, t2_lt t2⟩ f g 42 := by
    unfold row_trip0.sl.Hrow_w42
    rw [e41]
    exact Srow_step (F := F) d L 0 ⟨t2.val, t2_lt t2⟩ f g 41 (k0_off59_inb t2) (k0_off57_inb t2) (k0_off59_eq t2) (k0_off57_eq t2)
  have e43 : row_trip0.sl.Hrow_w43 d L t2 f g = Srow d L 0 ⟨t2.val, t2_lt t2⟩ f g 43 := by
    unfold row_trip0.sl.Hrow_w43 row_trip0.sl.r_14
    rw [e42]
    exact Srow_step (F := F) d L 0 ⟨t2.val, t2_lt t2⟩ f g 42 (k0_off60_inb t2) (k0_off57_inb t2) (k0_off60_eq t2) (k0_off57_eq t2)
  have e44 : row_trip0.sl.Hrow_w44 d L t2 f g = Srow d L 0 ⟨t2.val, t2_lt t2⟩ f g 44 := by
    unfold row_trip0.sl.Hrow_w44
    rw [e43]
    exact Srow_step (F := F) d L 0 ⟨t2.val, t2_lt t2⟩ f g 43 (k0_off61_inb t2) (k0_off57_inb t2) (k0_off61_eq t2) (k0_off57_eq t2)
  have e45 : row_trip0.sl.Hrow_w45 d L t2 f g = Srow d L 0 ⟨t2.val, t2_lt t2⟩ f g 45 := by
    unfold row_trip0.sl.Hrow_w45
    rw [e44]
    exact Srow_step (F := F) d L 0 ⟨t2.val, t2_lt t2⟩ f g 44 (k0_off62_inb t2) (k0_off57_inb t2) (k0_off62_eq t2) (k0_off57_eq t2)
  have e46 : row_trip0.sl.Hrow_w46 d L t2 f g = Srow d L 0 ⟨t2.val, t2_lt t2⟩ f g 46 := by
    unfold row_trip0.sl.Hrow_w46
    rw [e45]
    exact Srow_step (F := F) d L 0 ⟨t2.val, t2_lt t2⟩ f g 45 (k0_off63_inb t2) (k0_off57_inb t2) (k0_off63_eq t2) (k0_off57_eq t2)
  have e47 : row_trip0.sl.Hrow_w47 d L t2 f g = Srow d L 0 ⟨t2.val, t2_lt t2⟩ f g 47 := by
    unfold row_trip0.sl.Hrow_w47
    rw [e46]
    exact Srow_step (F := F) d L 0 ⟨t2.val, t2_lt t2⟩ f g 46 (k0_off64_inb t2) (k0_off57_inb t2) (k0_off64_eq t2) (k0_off57_eq t2)
  have e48 : row_trip0.sl.Hrow_w48 d L t2 f g = Srow d L 0 ⟨t2.val, t2_lt t2⟩ f g 48 := by
    unfold row_trip0.sl.Hrow_w48
    rw [e47]
    exact Srow_step (F := F) d L 0 ⟨t2.val, t2_lt t2⟩ f g 47 (k0_off65_inb t2) (k0_off57_inb t2) (k0_off65_eq t2) (k0_off57_eq t2)
  have e49 : row_trip0.sl.Hrow_w49 d L t2 f g = Srow d L 0 ⟨t2.val, t2_lt t2⟩ f g 49 := by
    unfold row_trip0.sl.Hrow_w49
    rw [e48]
    exact Srow_step (F := F) d L 0 ⟨t2.val, t2_lt t2⟩ f g 48 (k0_off67_inb t2) (k0_off66_inb t2) (k0_off67_eq t2) (k0_off66_eq t2)
  have e50 : row_trip0.sl.Hrow_w50 d L t2 f g = Srow d L 0 ⟨t2.val, t2_lt t2⟩ f g 50 := by
    unfold row_trip0.sl.Hrow_w50
    rw [e49]
    exact Srow_step (F := F) d L 0 ⟨t2.val, t2_lt t2⟩ f g 49 (k0_off68_inb t2) (k0_off66_inb t2) (k0_off68_eq t2) (k0_off66_eq t2)
  have e51 : row_trip0.sl.Hrow_w51 d L t2 f g = Srow d L 0 ⟨t2.val, t2_lt t2⟩ f g 51 := by
    unfold row_trip0.sl.Hrow_w51
    rw [e50]
    exact Srow_step (F := F) d L 0 ⟨t2.val, t2_lt t2⟩ f g 50 (k0_off69_inb t2) (k0_off66_inb t2) (k0_off69_eq t2) (k0_off66_eq t2)
  have e52 : row_trip0.sl.Hrow_w52 d L t2 f g = Srow d L 0 ⟨t2.val, t2_lt t2⟩ f g 52 := by
    unfold row_trip0.sl.Hrow_w52
    rw [e51]
    exact Srow_step (F := F) d L 0 ⟨t2.val, t2_lt t2⟩ f g 51 (k0_off70_inb t2) (k0_off66_inb t2) (k0_off70_eq t2) (k0_off66_eq t2)
  have e53 : row_trip0.sl.Hrow_w53 d L t2 f g = Srow d L 0 ⟨t2.val, t2_lt t2⟩ f g 53 := by
    unfold row_trip0.sl.Hrow_w53
    rw [e52]
    exact Srow_step (F := F) d L 0 ⟨t2.val, t2_lt t2⟩ f g 52 (k0_off71_inb t2) (k0_off66_inb t2) (k0_off71_eq t2) (k0_off66_eq t2)
  have e54 : row_trip0.sl.Hrow_w54 d L t2 f g = Srow d L 0 ⟨t2.val, t2_lt t2⟩ f g 54 := by
    unfold row_trip0.sl.Hrow_w54
    rw [e53]
    exact Srow_step (F := F) d L 0 ⟨t2.val, t2_lt t2⟩ f g 53 (k0_off72_inb t2) (k0_off66_inb t2) (k0_off72_eq t2) (k0_off66_eq t2)
  have e55 : row_trip0.sl.Hrow_w55 d L t2 f g = Srow d L 0 ⟨t2.val, t2_lt t2⟩ f g 55 := by
    unfold row_trip0.sl.Hrow_w55
    rw [e54]
    exact Srow_step (F := F) d L 0 ⟨t2.val, t2_lt t2⟩ f g 54 (k0_off73_inb t2) (k0_off66_inb t2) (k0_off73_eq t2) (k0_off66_eq t2)
  have e56 : row_trip0.sl.Hrow_w56 d L t2 f g = Srow d L 0 ⟨t2.val, t2_lt t2⟩ f g 56 := by
    unfold row_trip0.sl.Hrow_w56
    rw [e55]
    exact Srow_step (F := F) d L 0 ⟨t2.val, t2_lt t2⟩ f g 55 (k0_off74_inb t2) (k0_off66_inb t2) (k0_off74_eq t2) (k0_off66_eq t2)
  have e57 : row_trip0.sl.Hrow_w57 d L t2 f g = Srow d L 0 ⟨t2.val, t2_lt t2⟩ f g 57 := by
    unfold row_trip0.sl.Hrow_w57
    rw [e56]
    exact Srow_step (F := F) d L 0 ⟨t2.val, t2_lt t2⟩ f g 56 (k0_off76_inb t2) (k0_off75_inb t2) (k0_off76_eq t2) (k0_off75_eq t2)
  have e58 : row_trip0.sl.Hrow_w58 d L t2 f g = Srow d L 0 ⟨t2.val, t2_lt t2⟩ f g 58 := by
    unfold row_trip0.sl.Hrow_w58
    rw [e57]
    exact Srow_step (F := F) d L 0 ⟨t2.val, t2_lt t2⟩ f g 57 (k0_off77_inb t2) (k0_off75_inb t2) (k0_off77_eq t2) (k0_off75_eq t2)
  have e59 : row_trip0.sl.Hrow_w59 d L t2 f g = Srow d L 0 ⟨t2.val, t2_lt t2⟩ f g 59 := by
    unfold row_trip0.sl.Hrow_w59
    rw [e58]
    exact Srow_step (F := F) d L 0 ⟨t2.val, t2_lt t2⟩ f g 58 (k0_off78_inb t2) (k0_off75_inb t2) (k0_off78_eq t2) (k0_off75_eq t2)
  have e60 : row_trip0.sl.Hrow_w60 d L t2 f g = Srow d L 0 ⟨t2.val, t2_lt t2⟩ f g 60 := by
    unfold row_trip0.sl.Hrow_w60
    rw [e59]
    exact Srow_step (F := F) d L 0 ⟨t2.val, t2_lt t2⟩ f g 59 (k0_off79_inb t2) (k0_off75_inb t2) (k0_off79_eq t2) (k0_off75_eq t2)
  have e61 : row_trip0.sl.Hrow_w61 d L t2 f g = Srow d L 0 ⟨t2.val, t2_lt t2⟩ f g 61 := by
    unfold row_trip0.sl.Hrow_w61
    rw [e60]
    exact Srow_step (F := F) d L 0 ⟨t2.val, t2_lt t2⟩ f g 60 (k0_off80_inb t2) (k0_off75_inb t2) (k0_off80_eq t2) (k0_off75_eq t2)
  have e62 : row_trip0.sl.Hrow_w62 d L t2 f g = Srow d L 0 ⟨t2.val, t2_lt t2⟩ f g 62 := by
    unfold row_trip0.sl.Hrow_w62 row_trip0.sl.r_17
    rw [e61]
    exact Srow_step (F := F) d L 0 ⟨t2.val, t2_lt t2⟩ f g 61 (k0_off81_inb t2) (k0_off75_inb t2) (k0_off81_eq t2) (k0_off75_eq t2)
  have e63 : row_trip0.sl.Hrow_w63 d L t2 f g = Srow d L 0 ⟨t2.val, t2_lt t2⟩ f g 63 := by
    unfold row_trip0.sl.Hrow_w63
    rw [e62]
    exact Srow_step (F := F) d L 0 ⟨t2.val, t2_lt t2⟩ f g 62 (k0_off82_inb t2) (k0_off75_inb t2) (k0_off82_eq t2) (k0_off75_eq t2)
  have e64 : row_trip0.sl.Hrow_w64 d L t2 f g = Srow d L 0 ⟨t2.val, t2_lt t2⟩ f g 64 := by
    unfold row_trip0.sl.Hrow_w64
    rw [e63]
    exact Srow_step (F := F) d L 0 ⟨t2.val, t2_lt t2⟩ f g 63 (k0_off83_inb t2) (k0_off75_inb t2) (k0_off83_eq t2) (k0_off75_eq t2)
  have e65 : row_trip0.sl.Hrow_w65 d L t2 f g = Srow d L 0 ⟨t2.val, t2_lt t2⟩ f g 65 := by
    unfold row_trip0.sl.Hrow_w65 row_trip0.sl.r_19
    rw [e64]
    exact Srow_step (F := F) d L 0 ⟨t2.val, t2_lt t2⟩ f g 64 (k0_off85_inb t2) (k0_off84_inb t2) (k0_off85_eq t2) (k0_off84_eq t2)
  have e66 : row_trip0.sl.Hrow_w66 d L t2 f g = Srow d L 0 ⟨t2.val, t2_lt t2⟩ f g 66 := by
    unfold row_trip0.sl.Hrow_w66
    rw [e65]
    exact Srow_step (F := F) d L 0 ⟨t2.val, t2_lt t2⟩ f g 65 (k0_off86_inb t2) (k0_off84_inb t2) (k0_off86_eq t2) (k0_off84_eq t2)
  have e67 : row_trip0.sl.Hrow_w67 d L t2 f g = Srow d L 0 ⟨t2.val, t2_lt t2⟩ f g 67 := by
    unfold row_trip0.sl.Hrow_w67
    rw [e66]
    exact Srow_step (F := F) d L 0 ⟨t2.val, t2_lt t2⟩ f g 66 (k0_off87_inb t2) (k0_off84_inb t2) (k0_off87_eq t2) (k0_off84_eq t2)
  have e68 : row_trip0.sl.Hrow_w68 d L t2 f g = Srow d L 0 ⟨t2.val, t2_lt t2⟩ f g 68 := by
    unfold row_trip0.sl.Hrow_w68 row_trip0.sl.r_20
    rw [e67]
    exact Srow_step (F := F) d L 0 ⟨t2.val, t2_lt t2⟩ f g 67 (k0_off88_inb t2) (k0_off84_inb t2) (k0_off88_eq t2) (k0_off84_eq t2)
  have e69 : row_trip0.sl.Hrow_w69 d L t2 f g = Srow d L 0 ⟨t2.val, t2_lt t2⟩ f g 69 := by
    unfold row_trip0.sl.Hrow_w69
    rw [e68]
    exact Srow_step (F := F) d L 0 ⟨t2.val, t2_lt t2⟩ f g 68 (k0_off89_inb t2) (k0_off84_inb t2) (k0_off89_eq t2) (k0_off84_eq t2)
  have e70 : row_trip0.sl.Hrow_w70 d L t2 f g = Srow d L 0 ⟨t2.val, t2_lt t2⟩ f g 70 := by
    unfold row_trip0.sl.Hrow_w70
    rw [e69]
    exact Srow_step (F := F) d L 0 ⟨t2.val, t2_lt t2⟩ f g 69 (k0_off90_inb t2) (k0_off84_inb t2) (k0_off90_eq t2) (k0_off84_eq t2)
  have e71 : row_trip0.sl.Hrow_w71 d L t2 f g = Srow d L 0 ⟨t2.val, t2_lt t2⟩ f g 71 := by
    unfold row_trip0.sl.Hrow_w71 row_trip0.sl.r_21
    rw [e70]
    exact Srow_step (F := F) d L 0 ⟨t2.val, t2_lt t2⟩ f g 70 (k0_off91_inb t2) (k0_off84_inb t2) (k0_off91_eq t2) (k0_off84_eq t2)
  have e72 : row_trip0.sl.Hrow_w72 d L t2 f g = Srow d L 0 ⟨t2.val, t2_lt t2⟩ f g 72 := by
    unfold row_trip0.sl.Hrow_w72
    rw [e71]
    exact Srow_step (F := F) d L 0 ⟨t2.val, t2_lt t2⟩ f g 71 (k0_off92_inb t2) (k0_off84_inb t2) (k0_off92_eq t2) (k0_off84_eq t2)
  have e73 : row_trip0.sl.Hrow_w73 d L t2 f g = Srow d L 0 ⟨t2.val, t2_lt t2⟩ f g 73 := by
    unfold row_trip0.sl.Hrow_w73
    rw [e72]
    exact Srow_step (F := F) d L 0 ⟨t2.val, t2_lt t2⟩ f g 72 (k0_off94_inb t2) (k0_off93_inb t2) (k0_off94_eq t2) (k0_off93_eq t2)
  have e74 : row_trip0.sl.Hrow_w74 d L t2 f g = Srow d L 0 ⟨t2.val, t2_lt t2⟩ f g 74 := by
    unfold row_trip0.sl.Hrow_w74 row_trip0.sl.r_23
    rw [e73]
    exact Srow_step (F := F) d L 0 ⟨t2.val, t2_lt t2⟩ f g 73 (k0_off95_inb t2) (k0_off93_inb t2) (k0_off95_eq t2) (k0_off93_eq t2)
  have e75 : row_trip0.sl.Hrow_w75 d L t2 f g = Srow d L 0 ⟨t2.val, t2_lt t2⟩ f g 75 := by
    unfold row_trip0.sl.Hrow_w75
    rw [e74]
    exact Srow_step (F := F) d L 0 ⟨t2.val, t2_lt t2⟩ f g 74 (k0_off96_inb t2) (k0_off93_inb t2) (k0_off96_eq t2) (k0_off93_eq t2)
  have e76 : row_trip0.sl.Hrow_w76 d L t2 f g = Srow d L 0 ⟨t2.val, t2_lt t2⟩ f g 76 := by
    unfold row_trip0.sl.Hrow_w76
    rw [e75]
    exact Srow_step (F := F) d L 0 ⟨t2.val, t2_lt t2⟩ f g 75 (k0_off97_inb t2) (k0_off93_inb t2) (k0_off97_eq t2) (k0_off93_eq t2)
  have e77 : row_trip0.sl.Hrow_w77 d L t2 f g = Srow d L 0 ⟨t2.val, t2_lt t2⟩ f g 77 := by
    unfold row_trip0.sl.Hrow_w77 row_trip0.sl.r_24
    rw [e76]
    exact Srow_step (F := F) d L 0 ⟨t2.val, t2_lt t2⟩ f g 76 (k0_off98_inb t2) (k0_off93_inb t2) (k0_off98_eq t2) (k0_off93_eq t2)
  have e78 : row_trip0.sl.Hrow_w78 d L t2 f g = Srow d L 0 ⟨t2.val, t2_lt t2⟩ f g 78 := by
    unfold row_trip0.sl.Hrow_w78
    rw [e77]
    exact Srow_step (F := F) d L 0 ⟨t2.val, t2_lt t2⟩ f g 77 (k0_off99_inb t2) (k0_off93_inb t2) (k0_off99_eq t2) (k0_off93_eq t2)
  have e79 : row_trip0.sl.Hrow_w79 d L t2 f g = Srow d L 0 ⟨t2.val, t2_lt t2⟩ f g 79 := by
    unfold row_trip0.sl.Hrow_w79
    rw [e78]
    exact Srow_step (F := F) d L 0 ⟨t2.val, t2_lt t2⟩ f g 78 (k0_off100_inb t2) (k0_off93_inb t2) (k0_off100_eq t2) (k0_off93_eq t2)
  have e80 : row_trip0.sl.Hrow_w80 d L t2 f g = Srow d L 0 ⟨t2.val, t2_lt t2⟩ f g 80 := by
    unfold row_trip0.sl.Hrow_w80 row_trip0.sl.r_25
    rw [e79]
    exact Srow_step (F := F) d L 0 ⟨t2.val, t2_lt t2⟩ f g 79 (k0_off101_inb t2) (k0_off93_inb t2) (k0_off101_eq t2) (k0_off93_eq t2)
  have e81 : row_trip0.sl.Hrow_w81 d L t2 f g = Srow d L 0 ⟨t2.val, t2_lt t2⟩ f g 81 := by
    unfold row_trip0.sl.Hrow_w81
    rw [e80]
    exact Srow_step (F := F) d L 0 ⟨t2.val, t2_lt t2⟩ f g 80 (k0_off103_inb t2) (k0_off102_inb t2) (k0_off103_eq t2) (k0_off102_eq t2)
  have e82 : row_trip0.sl.Hrow_w82 d L t2 f g = Srow d L 0 ⟨t2.val, t2_lt t2⟩ f g 82 := by
    unfold row_trip0.sl.Hrow_w82
    rw [e81]
    exact Srow_step (F := F) d L 0 ⟨t2.val, t2_lt t2⟩ f g 81 (k0_off104_inb t2) (k0_off102_inb t2) (k0_off104_eq t2) (k0_off102_eq t2)
  have e83 : row_trip0.sl.Hrow_w83 d L t2 f g = Srow d L 0 ⟨t2.val, t2_lt t2⟩ f g 83 := by
    unfold row_trip0.sl.Hrow_w83 row_trip0.sl.r_27
    rw [e82]
    exact Srow_step (F := F) d L 0 ⟨t2.val, t2_lt t2⟩ f g 82 (k0_off105_inb t2) (k0_off102_inb t2) (k0_off105_eq t2) (k0_off102_eq t2)
  have e84 : row_trip0.sl.Hrow_w84 d L t2 f g = Srow d L 0 ⟨t2.val, t2_lt t2⟩ f g 84 := by
    unfold row_trip0.sl.Hrow_w84
    rw [e83]
    exact Srow_step (F := F) d L 0 ⟨t2.val, t2_lt t2⟩ f g 83 (k0_off106_inb t2) (k0_off102_inb t2) (k0_off106_eq t2) (k0_off102_eq t2)
  have e85 : row_trip0.sl.Hrow_w85 d L t2 f g = Srow d L 0 ⟨t2.val, t2_lt t2⟩ f g 85 := by
    unfold row_trip0.sl.Hrow_w85
    rw [e84]
    exact Srow_step (F := F) d L 0 ⟨t2.val, t2_lt t2⟩ f g 84 (k0_off107_inb t2) (k0_off102_inb t2) (k0_off107_eq t2) (k0_off102_eq t2)
  have e86 : row_trip0.sl.Hrow_w86 d L t2 f g = Srow d L 0 ⟨t2.val, t2_lt t2⟩ f g 86 := by
    unfold row_trip0.sl.Hrow_w86
    rw [e85]
    exact Srow_step (F := F) d L 0 ⟨t2.val, t2_lt t2⟩ f g 85 (k0_off108_inb t2) (k0_off102_inb t2) (k0_off108_eq t2) (k0_off102_eq t2)
  have e87 : row_trip0.sl.Hrow_w87 d L t2 f g = Srow d L 0 ⟨t2.val, t2_lt t2⟩ f g 87 := by
    unfold row_trip0.sl.Hrow_w87
    rw [e86]
    exact Srow_step (F := F) d L 0 ⟨t2.val, t2_lt t2⟩ f g 86 (k0_off109_inb t2) (k0_off102_inb t2) (k0_off109_eq t2) (k0_off102_eq t2)
  have e88 : row_trip0.sl.Hrow_w88 d L t2 f g = Srow d L 0 ⟨t2.val, t2_lt t2⟩ f g 88 := by
    unfold row_trip0.sl.Hrow_w88
    rw [e87]
    exact Srow_step (F := F) d L 0 ⟨t2.val, t2_lt t2⟩ f g 87 (k0_off110_inb t2) (k0_off102_inb t2) (k0_off110_eq t2) (k0_off102_eq t2)
  have e89 : row_trip0.sl.Hrow_w89 d L t2 f g = Srow d L 0 ⟨t2.val, t2_lt t2⟩ f g 89 := by
    unfold row_trip0.sl.Hrow_w89
    rw [e88]
    exact Srow_step (F := F) d L 0 ⟨t2.val, t2_lt t2⟩ f g 88 (k0_off112_inb t2) (k0_off111_inb t2) (k0_off112_eq t2) (k0_off111_eq t2)
  have e90 : row_trip0.sl.Hrow_w90 d L t2 f g = Srow d L 0 ⟨t2.val, t2_lt t2⟩ f g 90 := by
    unfold row_trip0.sl.Hrow_w90
    rw [e89]
    exact Srow_step (F := F) d L 0 ⟨t2.val, t2_lt t2⟩ f g 89 (k0_off113_inb t2) (k0_off111_inb t2) (k0_off113_eq t2) (k0_off111_eq t2)
  have e91 : row_trip0.sl.Hrow_w91 d L t2 f g = Srow d L 0 ⟨t2.val, t2_lt t2⟩ f g 91 := by
    unfold row_trip0.sl.Hrow_w91
    rw [e90]
    exact Srow_step (F := F) d L 0 ⟨t2.val, t2_lt t2⟩ f g 90 (k0_off114_inb t2) (k0_off111_inb t2) (k0_off114_eq t2) (k0_off111_eq t2)
  have e92 : row_trip0.sl.Hrow_w92 d L t2 f g = Srow d L 0 ⟨t2.val, t2_lt t2⟩ f g 92 := by
    unfold row_trip0.sl.Hrow_w92
    rw [e91]
    exact Srow_step (F := F) d L 0 ⟨t2.val, t2_lt t2⟩ f g 91 (k0_off115_inb t2) (k0_off111_inb t2) (k0_off115_eq t2) (k0_off111_eq t2)
  have e93 : row_trip0.sl.Hrow_w93 d L t2 f g = Srow d L 0 ⟨t2.val, t2_lt t2⟩ f g 93 := by
    unfold row_trip0.sl.Hrow_w93
    rw [e92]
    exact Srow_step (F := F) d L 0 ⟨t2.val, t2_lt t2⟩ f g 92 (k0_off116_inb t2) (k0_off111_inb t2) (k0_off116_eq t2) (k0_off111_eq t2)
  have e94 : row_trip0.sl.Hrow_w94 d L t2 f g = Srow d L 0 ⟨t2.val, t2_lt t2⟩ f g 94 := by
    unfold row_trip0.sl.Hrow_w94
    rw [e93]
    exact Srow_step (F := F) d L 0 ⟨t2.val, t2_lt t2⟩ f g 93 (k0_off117_inb t2) (k0_off111_inb t2) (k0_off117_eq t2) (k0_off111_eq t2)
  have e95 : row_trip0.sl.Hrow_w95 d L t2 f g = Srow d L 0 ⟨t2.val, t2_lt t2⟩ f g 95 := by
    unfold row_trip0.sl.Hrow_w95
    rw [e94]
    exact Srow_step (F := F) d L 0 ⟨t2.val, t2_lt t2⟩ f g 94 (k0_off118_inb t2) (k0_off111_inb t2) (k0_off118_eq t2) (k0_off111_eq t2)
  have e96 : row_trip0.sl.Hrow_w96 d L t2 f g = Srow d L 0 ⟨t2.val, t2_lt t2⟩ f g 96 := by
    unfold row_trip0.sl.Hrow_w96
    rw [e95]
    exact Srow_step (F := F) d L 0 ⟨t2.val, t2_lt t2⟩ f g 95 (k0_off119_inb t2) (k0_off111_inb t2) (k0_off119_eq t2) (k0_off111_eq t2)
  have e97 : row_trip0.sl.Hrow_w97 d L t2 f g = Srow d L 0 ⟨t2.val, t2_lt t2⟩ f g 97 := by
    unfold row_trip0.sl.Hrow_w97
    rw [e96]
    exact Srow_step (F := F) d L 0 ⟨t2.val, t2_lt t2⟩ f g 96 (k0_off121_inb t2) (k0_off120_inb t2) (k0_off121_eq t2) (k0_off120_eq t2)
  have e98 : row_trip0.sl.Hrow_w98 d L t2 f g = Srow d L 0 ⟨t2.val, t2_lt t2⟩ f g 98 := by
    unfold row_trip0.sl.Hrow_w98
    rw [e97]
    exact Srow_step (F := F) d L 0 ⟨t2.val, t2_lt t2⟩ f g 97 (k0_off122_inb t2) (k0_off120_inb t2) (k0_off122_eq t2) (k0_off120_eq t2)
  have e99 : row_trip0.sl.Hrow_w99 d L t2 f g = Srow d L 0 ⟨t2.val, t2_lt t2⟩ f g 99 := by
    unfold row_trip0.sl.Hrow_w99
    rw [e98]
    exact Srow_step (F := F) d L 0 ⟨t2.val, t2_lt t2⟩ f g 98 (k0_off123_inb t2) (k0_off120_inb t2) (k0_off123_eq t2) (k0_off120_eq t2)
  have e100 : row_trip0.sl.Hrow_w100 d L t2 f g = Srow d L 0 ⟨t2.val, t2_lt t2⟩ f g 100 := by
    unfold row_trip0.sl.Hrow_w100
    rw [e99]
    exact Srow_step (F := F) d L 0 ⟨t2.val, t2_lt t2⟩ f g 99 (k0_off124_inb t2) (k0_off120_inb t2) (k0_off124_eq t2) (k0_off120_eq t2)
  have e101 : row_trip0.sl.Hrow_w101 d L t2 f g = Srow d L 0 ⟨t2.val, t2_lt t2⟩ f g 101 := by
    unfold row_trip0.sl.Hrow_w101
    rw [e100]
    exact Srow_step (F := F) d L 0 ⟨t2.val, t2_lt t2⟩ f g 100 (k0_off125_inb t2) (k0_off120_inb t2) (k0_off125_eq t2) (k0_off120_eq t2)
  have e102 : row_trip0.sl.Hrow_w102 d L t2 f g = Srow d L 0 ⟨t2.val, t2_lt t2⟩ f g 102 := by
    unfold row_trip0.sl.Hrow_w102 row_trip0.sl.r_30
    rw [e101]
    exact Srow_step (F := F) d L 0 ⟨t2.val, t2_lt t2⟩ f g 101 (k0_off126_inb t2) (k0_off120_inb t2) (k0_off126_eq t2) (k0_off120_eq t2)
  have e103 : row_trip0.sl.Hrow_w103 d L t2 f g = Srow d L 0 ⟨t2.val, t2_lt t2⟩ f g 103 := by
    unfold row_trip0.sl.Hrow_w103
    rw [e102]
    exact Srow_step (F := F) d L 0 ⟨t2.val, t2_lt t2⟩ f g 102 (k0_off127_inb t2) (k0_off120_inb t2) (k0_off127_eq t2) (k0_off120_eq t2)
  have e104 : row_trip0.sl.Hrow_w104 d L t2 f g = Srow d L 0 ⟨t2.val, t2_lt t2⟩ f g 104 := by
    unfold row_trip0.sl.Hrow_w104
    rw [e103]
    exact Srow_step (F := F) d L 0 ⟨t2.val, t2_lt t2⟩ f g 103 (k0_off128_inb t2) (k0_off120_inb t2) (k0_off128_eq t2) (k0_off120_eq t2)
  have e105 : row_trip0.sl.Hrow_w105 d L t2 f g = Srow d L 0 ⟨t2.val, t2_lt t2⟩ f g 105 := by
    unfold row_trip0.sl.Hrow_w105 row_trip0.sl.r_32
    rw [e104]
    exact Srow_step (F := F) d L 0 ⟨t2.val, t2_lt t2⟩ f g 104 (k0_off130_inb t2) (k0_off129_inb t2) (k0_off130_eq t2) (k0_off129_eq t2)
  have e106 : row_trip0.sl.Hrow_w106 d L t2 f g = Srow d L 0 ⟨t2.val, t2_lt t2⟩ f g 106 := by
    unfold row_trip0.sl.Hrow_w106
    rw [e105]
    exact Srow_step (F := F) d L 0 ⟨t2.val, t2_lt t2⟩ f g 105 (k0_off131_inb t2) (k0_off129_inb t2) (k0_off131_eq t2) (k0_off129_eq t2)
  have e107 : row_trip0.sl.Hrow_w107 d L t2 f g = Srow d L 0 ⟨t2.val, t2_lt t2⟩ f g 107 := by
    unfold row_trip0.sl.Hrow_w107
    rw [e106]
    exact Srow_step (F := F) d L 0 ⟨t2.val, t2_lt t2⟩ f g 106 (k0_off132_inb t2) (k0_off129_inb t2) (k0_off132_eq t2) (k0_off129_eq t2)
  have e108 : row_trip0.sl.Hrow_w108 d L t2 f g = Srow d L 0 ⟨t2.val, t2_lt t2⟩ f g 108 := by
    unfold row_trip0.sl.Hrow_w108 row_trip0.sl.r_33
    rw [e107]
    exact Srow_step (F := F) d L 0 ⟨t2.val, t2_lt t2⟩ f g 107 (k0_off133_inb t2) (k0_off129_inb t2) (k0_off133_eq t2) (k0_off129_eq t2)
  have e109 : row_trip0.sl.Hrow_w109 d L t2 f g = Srow d L 0 ⟨t2.val, t2_lt t2⟩ f g 109 := by
    unfold row_trip0.sl.Hrow_w109
    rw [e108]
    exact Srow_step (F := F) d L 0 ⟨t2.val, t2_lt t2⟩ f g 108 (k0_off134_inb t2) (k0_off129_inb t2) (k0_off134_eq t2) (k0_off129_eq t2)
  have e110 : row_trip0.sl.Hrow_w110 d L t2 f g = Srow d L 0 ⟨t2.val, t2_lt t2⟩ f g 110 := by
    unfold row_trip0.sl.Hrow_w110
    rw [e109]
    exact Srow_step (F := F) d L 0 ⟨t2.val, t2_lt t2⟩ f g 109 (k0_off135_inb t2) (k0_off129_inb t2) (k0_off135_eq t2) (k0_off129_eq t2)
  have e111 : row_trip0.sl.Hrow_w111 d L t2 f g = Srow d L 0 ⟨t2.val, t2_lt t2⟩ f g 111 := by
    unfold row_trip0.sl.Hrow_w111 row_trip0.sl.r_34
    rw [e110]
    exact Srow_step (F := F) d L 0 ⟨t2.val, t2_lt t2⟩ f g 110 (k0_off136_inb t2) (k0_off129_inb t2) (k0_off136_eq t2) (k0_off129_eq t2)
  have e112 : row_trip0.sl.Hrow_w112 d L t2 f g = Srow d L 0 ⟨t2.val, t2_lt t2⟩ f g 112 := by
    unfold row_trip0.sl.Hrow_w112
    rw [e111]
    exact Srow_step (F := F) d L 0 ⟨t2.val, t2_lt t2⟩ f g 111 (k0_off137_inb t2) (k0_off129_inb t2) (k0_off137_eq t2) (k0_off129_eq t2)
  have e113 : row_trip0.sl.Hrow_w113 d L t2 f g = Srow d L 0 ⟨t2.val, t2_lt t2⟩ f g 113 := by
    unfold row_trip0.sl.Hrow_w113
    rw [e112]
    exact Srow_step (F := F) d L 0 ⟨t2.val, t2_lt t2⟩ f g 112 (k0_off139_inb t2) (k0_off138_inb t2) (k0_off139_eq t2) (k0_off138_eq t2)
  have e114 : row_trip0.sl.Hrow_w114 d L t2 f g = Srow d L 0 ⟨t2.val, t2_lt t2⟩ f g 114 := by
    unfold row_trip0.sl.Hrow_w114 row_trip0.sl.r_36
    rw [e113]
    exact Srow_step (F := F) d L 0 ⟨t2.val, t2_lt t2⟩ f g 113 (k0_off140_inb t2) (k0_off138_inb t2) (k0_off140_eq t2) (k0_off138_eq t2)
  have e115 : row_trip0.sl.Hrow_w115 d L t2 f g = Srow d L 0 ⟨t2.val, t2_lt t2⟩ f g 115 := by
    unfold row_trip0.sl.Hrow_w115
    rw [e114]
    exact Srow_step (F := F) d L 0 ⟨t2.val, t2_lt t2⟩ f g 114 (k0_off141_inb t2) (k0_off138_inb t2) (k0_off141_eq t2) (k0_off138_eq t2)
  have e116 : row_trip0.sl.Hrow_w116 d L t2 f g = Srow d L 0 ⟨t2.val, t2_lt t2⟩ f g 116 := by
    unfold row_trip0.sl.Hrow_w116
    rw [e115]
    exact Srow_step (F := F) d L 0 ⟨t2.val, t2_lt t2⟩ f g 115 (k0_off142_inb t2) (k0_off138_inb t2) (k0_off142_eq t2) (k0_off138_eq t2)
  have e117 : row_trip0.sl.Hrow_w117 d L t2 f g = Srow d L 0 ⟨t2.val, t2_lt t2⟩ f g 117 := by
    unfold row_trip0.sl.Hrow_w117 row_trip0.sl.r_37
    rw [e116]
    exact Srow_step (F := F) d L 0 ⟨t2.val, t2_lt t2⟩ f g 116 (k0_off143_inb t2) (k0_off138_inb t2) (k0_off143_eq t2) (k0_off138_eq t2)
  have e118 : row_trip0.sl.Hrow_w118 d L t2 f g = Srow d L 0 ⟨t2.val, t2_lt t2⟩ f g 118 := by
    unfold row_trip0.sl.Hrow_w118
    rw [e117]
    exact Srow_step (F := F) d L 0 ⟨t2.val, t2_lt t2⟩ f g 117 (k0_off144_inb t2) (k0_off138_inb t2) (k0_off144_eq t2) (k0_off138_eq t2)
  have e119 : row_trip0.sl.Hrow_w119 d L t2 f g = Srow d L 0 ⟨t2.val, t2_lt t2⟩ f g 119 := by
    unfold row_trip0.sl.Hrow_w119
    rw [e118]
    exact Srow_step (F := F) d L 0 ⟨t2.val, t2_lt t2⟩ f g 118 (k0_off145_inb t2) (k0_off138_inb t2) (k0_off145_eq t2) (k0_off138_eq t2)
  have e120 : row_trip0.sl.Hrow_w120 d L t2 f g = Srow d L 0 ⟨t2.val, t2_lt t2⟩ f g 120 := by
    unfold row_trip0.sl.Hrow_w120 row_trip0.sl.r_38
    rw [e119]
    exact Srow_step (F := F) d L 0 ⟨t2.val, t2_lt t2⟩ f g 119 (k0_off146_inb t2) (k0_off138_inb t2) (k0_off146_eq t2) (k0_off138_eq t2)
  have e121 : row_trip0.sl.Hrow_w121 d L t2 f g = Srow d L 0 ⟨t2.val, t2_lt t2⟩ f g 121 := by
    unfold row_trip0.sl.Hrow_w121
    rw [e120]
    exact Srow_step (F := F) d L 0 ⟨t2.val, t2_lt t2⟩ f g 120 (k0_off148_inb t2) (k0_off147_inb t2) (k0_off148_eq t2) (k0_off147_eq t2)
  have e122 : row_trip0.sl.Hrow_w122 d L t2 f g = Srow d L 0 ⟨t2.val, t2_lt t2⟩ f g 122 := by
    unfold row_trip0.sl.Hrow_w122
    rw [e121]
    exact Srow_step (F := F) d L 0 ⟨t2.val, t2_lt t2⟩ f g 121 (k0_off149_inb t2) (k0_off147_inb t2) (k0_off149_eq t2) (k0_off147_eq t2)
  have e123 : row_trip0.sl.Hrow_w123 d L t2 f g = Srow d L 0 ⟨t2.val, t2_lt t2⟩ f g 123 := by
    unfold row_trip0.sl.Hrow_w123 row_trip0.sl.r_40
    rw [e122]
    exact Srow_step (F := F) d L 0 ⟨t2.val, t2_lt t2⟩ f g 122 (k0_off150_inb t2) (k0_off147_inb t2) (k0_off150_eq t2) (k0_off147_eq t2)
  have e124 : row_trip0.sl.Hrow_w124 d L t2 f g = Srow d L 0 ⟨t2.val, t2_lt t2⟩ f g 124 := by
    unfold row_trip0.sl.Hrow_w124
    rw [e123]
    exact Srow_step (F := F) d L 0 ⟨t2.val, t2_lt t2⟩ f g 123 (k0_off151_inb t2) (k0_off147_inb t2) (k0_off151_eq t2) (k0_off147_eq t2)
  have e125 : row_trip0.sl.Hrow_w125 d L t2 f g = Srow d L 0 ⟨t2.val, t2_lt t2⟩ f g 125 := by
    unfold row_trip0.sl.Hrow_w125
    rw [e124]
    exact Srow_step (F := F) d L 0 ⟨t2.val, t2_lt t2⟩ f g 124 (k0_off152_inb t2) (k0_off147_inb t2) (k0_off152_eq t2) (k0_off147_eq t2)
  have e126 : row_trip0.sl.Hrow_w126 d L t2 f g = Srow d L 0 ⟨t2.val, t2_lt t2⟩ f g 126 := by
    unfold row_trip0.sl.Hrow_w126
    rw [e125]
    exact Srow_step (F := F) d L 0 ⟨t2.val, t2_lt t2⟩ f g 125 (k0_off153_inb t2) (k0_off147_inb t2) (k0_off153_eq t2) (k0_off147_eq t2)
  have e127 : row_trip0.sl.Hrow_w127 d L t2 f g = Srow d L 0 ⟨t2.val, t2_lt t2⟩ f g 127 := by
    unfold row_trip0.sl.Hrow_w127
    rw [e126]
    exact Srow_step (F := F) d L 0 ⟨t2.val, t2_lt t2⟩ f g 126 (k0_off154_inb t2) (k0_off147_inb t2) (k0_off154_eq t2) (k0_off147_eq t2)
  have e128 : row_trip0.sl.Hrow_w128 d L t2 f g = Srow d L 0 ⟨t2.val, t2_lt t2⟩ f g 128 := by
    unfold row_trip0.sl.Hrow_w128
    rw [e127]
    exact Srow_step (F := F) d L 0 ⟨t2.val, t2_lt t2⟩ f g 127 (k0_off155_inb t2) (k0_off147_inb t2) (k0_off155_eq t2) (k0_off147_eq t2)
  have e129 : row_trip0.sl.Hrow_w129 d L t2 f g = Srow d L 0 ⟨t2.val, t2_lt t2⟩ f g 129 := by
    unfold row_trip0.sl.Hrow_w129
    rw [e128]
    exact Srow_step (F := F) d L 0 ⟨t2.val, t2_lt t2⟩ f g 128 (k0_off157_inb t2) (k0_off156_inb t2) (k0_off157_eq t2) (k0_off156_eq t2)
  have e130 : row_trip0.sl.Hrow_w130 d L t2 f g = Srow d L 0 ⟨t2.val, t2_lt t2⟩ f g 130 := by
    unfold row_trip0.sl.Hrow_w130
    rw [e129]
    exact Srow_step (F := F) d L 0 ⟨t2.val, t2_lt t2⟩ f g 129 (k0_off158_inb t2) (k0_off156_inb t2) (k0_off158_eq t2) (k0_off156_eq t2)
  have e131 : row_trip0.sl.Hrow_w131 d L t2 f g = Srow d L 0 ⟨t2.val, t2_lt t2⟩ f g 131 := by
    unfold row_trip0.sl.Hrow_w131
    rw [e130]
    exact Srow_step (F := F) d L 0 ⟨t2.val, t2_lt t2⟩ f g 130 (k0_off159_inb t2) (k0_off156_inb t2) (k0_off159_eq t2) (k0_off156_eq t2)
  have e132 : row_trip0.sl.Hrow_w132 d L t2 f g = Srow d L 0 ⟨t2.val, t2_lt t2⟩ f g 132 := by
    unfold row_trip0.sl.Hrow_w132
    rw [e131]
    exact Srow_step (F := F) d L 0 ⟨t2.val, t2_lt t2⟩ f g 131 (k0_off160_inb t2) (k0_off156_inb t2) (k0_off160_eq t2) (k0_off156_eq t2)
  have e133 : row_trip0.sl.Hrow_w133 d L t2 f g = Srow d L 0 ⟨t2.val, t2_lt t2⟩ f g 133 := by
    unfold row_trip0.sl.Hrow_w133
    rw [e132]
    exact Srow_step (F := F) d L 0 ⟨t2.val, t2_lt t2⟩ f g 132 (k0_off161_inb t2) (k0_off156_inb t2) (k0_off161_eq t2) (k0_off156_eq t2)
  have e134 : row_trip0.sl.Hrow_w134 d L t2 f g = Srow d L 0 ⟨t2.val, t2_lt t2⟩ f g 134 := by
    unfold row_trip0.sl.Hrow_w134
    rw [e133]
    exact Srow_step (F := F) d L 0 ⟨t2.val, t2_lt t2⟩ f g 133 (k0_off162_inb t2) (k0_off156_inb t2) (k0_off162_eq t2) (k0_off156_eq t2)
  have e135 : row_trip0.sl.Hrow_w135 d L t2 f g = Srow d L 0 ⟨t2.val, t2_lt t2⟩ f g 135 := by
    unfold row_trip0.sl.Hrow_w135
    rw [e134]
    exact Srow_step (F := F) d L 0 ⟨t2.val, t2_lt t2⟩ f g 134 (k0_off163_inb t2) (k0_off156_inb t2) (k0_off163_eq t2) (k0_off156_eq t2)
  have e136 : row_trip0.sl.Hrow_w136 d L t2 f g = Srow d L 0 ⟨t2.val, t2_lt t2⟩ f g 136 := by
    unfold row_trip0.sl.Hrow_w136
    rw [e135]
    exact Srow_step (F := F) d L 0 ⟨t2.val, t2_lt t2⟩ f g 135 (k0_off164_inb t2) (k0_off156_inb t2) (k0_off164_eq t2) (k0_off156_eq t2)
  have e137 : row_trip0.sl.Hrow_w137 d L t2 f g = Srow d L 0 ⟨t2.val, t2_lt t2⟩ f g 137 := by
    unfold row_trip0.sl.Hrow_w137
    rw [e136]
    exact Srow_step (F := F) d L 0 ⟨t2.val, t2_lt t2⟩ f g 136 (k0_off166_inb t2) (k0_off165_inb t2) (k0_off166_eq t2) (k0_off165_eq t2)
  have e138 : row_trip0.sl.Hrow_w138 d L t2 f g = Srow d L 0 ⟨t2.val, t2_lt t2⟩ f g 138 := by
    unfold row_trip0.sl.Hrow_w138
    rw [e137]
    exact Srow_step (F := F) d L 0 ⟨t2.val, t2_lt t2⟩ f g 137 (k0_off167_inb t2) (k0_off165_inb t2) (k0_off167_eq t2) (k0_off165_eq t2)
  have e139 : row_trip0.sl.Hrow_w139 d L t2 f g = Srow d L 0 ⟨t2.val, t2_lt t2⟩ f g 139 := by
    unfold row_trip0.sl.Hrow_w139
    rw [e138]
    exact Srow_step (F := F) d L 0 ⟨t2.val, t2_lt t2⟩ f g 138 (k0_off168_inb t2) (k0_off165_inb t2) (k0_off168_eq t2) (k0_off165_eq t2)
  have e140 : row_trip0.sl.Hrow_w140 d L t2 f g = Srow d L 0 ⟨t2.val, t2_lt t2⟩ f g 140 := by
    unfold row_trip0.sl.Hrow_w140
    rw [e139]
    exact Srow_step (F := F) d L 0 ⟨t2.val, t2_lt t2⟩ f g 139 (k0_off169_inb t2) (k0_off165_inb t2) (k0_off169_eq t2) (k0_off165_eq t2)
  have e141 : row_trip0.sl.Hrow_w141 d L t2 f g = Srow d L 0 ⟨t2.val, t2_lt t2⟩ f g 141 := by
    unfold row_trip0.sl.Hrow_w141
    rw [e140]
    exact Srow_step (F := F) d L 0 ⟨t2.val, t2_lt t2⟩ f g 140 (k0_off170_inb t2) (k0_off165_inb t2) (k0_off170_eq t2) (k0_off165_eq t2)
  have e142 : row_trip0.sl.Hrow_w142 d L t2 f g = Srow d L 0 ⟨t2.val, t2_lt t2⟩ f g 142 := by
    unfold row_trip0.sl.Hrow_w142 row_trip0.sl.r_43
    rw [e141]
    exact Srow_step (F := F) d L 0 ⟨t2.val, t2_lt t2⟩ f g 141 (k0_off171_inb t2) (k0_off165_inb t2) (k0_off171_eq t2) (k0_off165_eq t2)
  have e143 : row_trip0.sl.Hrow_w143 d L t2 f g = Srow d L 0 ⟨t2.val, t2_lt t2⟩ f g 143 := by
    unfold row_trip0.sl.Hrow_w143
    rw [e142]
    exact Srow_step (F := F) d L 0 ⟨t2.val, t2_lt t2⟩ f g 142 (k0_off172_inb t2) (k0_off165_inb t2) (k0_off172_eq t2) (k0_off165_eq t2)
  have e144 : row_trip0.sl.Hrow_w144 d L t2 f g = Srow d L 0 ⟨t2.val, t2_lt t2⟩ f g 144 := by
    unfold row_trip0.sl.Hrow_w144
    rw [e143]
    exact Srow_step (F := F) d L 0 ⟨t2.val, t2_lt t2⟩ f g 143 (k0_off173_inb t2) (k0_off165_inb t2) (k0_off173_eq t2) (k0_off165_eq t2)
  have e145 : row_trip0.sl.Hrow_w145 d L t2 f g = Srow d L 0 ⟨t2.val, t2_lt t2⟩ f g 145 := by
    unfold row_trip0.sl.Hrow_w145 row_trip0.sl.r_45
    rw [e144]
    exact Srow_step (F := F) d L 0 ⟨t2.val, t2_lt t2⟩ f g 144 (k0_off175_inb t2) (k0_off174_inb t2) (k0_off175_eq t2) (k0_off174_eq t2)
  have e146 : row_trip0.sl.Hrow_w146 d L t2 f g = Srow d L 0 ⟨t2.val, t2_lt t2⟩ f g 146 := by
    unfold row_trip0.sl.Hrow_w146
    rw [e145]
    exact Srow_step (F := F) d L 0 ⟨t2.val, t2_lt t2⟩ f g 145 (k0_off176_inb t2) (k0_off174_inb t2) (k0_off176_eq t2) (k0_off174_eq t2)
  have e147 : row_trip0.sl.Hrow_w147 d L t2 f g = Srow d L 0 ⟨t2.val, t2_lt t2⟩ f g 147 := by
    unfold row_trip0.sl.Hrow_w147
    rw [e146]
    exact Srow_step (F := F) d L 0 ⟨t2.val, t2_lt t2⟩ f g 146 (k0_off177_inb t2) (k0_off174_inb t2) (k0_off177_eq t2) (k0_off174_eq t2)
  have e148 : row_trip0.sl.Hrow_w148 d L t2 f g = Srow d L 0 ⟨t2.val, t2_lt t2⟩ f g 148 := by
    unfold row_trip0.sl.Hrow_w148 row_trip0.sl.r_46
    rw [e147]
    exact Srow_step (F := F) d L 0 ⟨t2.val, t2_lt t2⟩ f g 147 (k0_off178_inb t2) (k0_off174_inb t2) (k0_off178_eq t2) (k0_off174_eq t2)
  have e149 : row_trip0.sl.Hrow_w149 d L t2 f g = Srow d L 0 ⟨t2.val, t2_lt t2⟩ f g 149 := by
    unfold row_trip0.sl.Hrow_w149
    rw [e148]
    exact Srow_step (F := F) d L 0 ⟨t2.val, t2_lt t2⟩ f g 148 (k0_off179_inb t2) (k0_off174_inb t2) (k0_off179_eq t2) (k0_off174_eq t2)
  have e150 : row_trip0.sl.Hrow_w150 d L t2 f g = Srow d L 0 ⟨t2.val, t2_lt t2⟩ f g 150 := by
    unfold row_trip0.sl.Hrow_w150
    rw [e149]
    exact Srow_step (F := F) d L 0 ⟨t2.val, t2_lt t2⟩ f g 149 (k0_off180_inb t2) (k0_off174_inb t2) (k0_off180_eq t2) (k0_off174_eq t2)
  have e151 : row_trip0.sl.Hrow_w151 d L t2 f g = Srow d L 0 ⟨t2.val, t2_lt t2⟩ f g 151 := by
    unfold row_trip0.sl.Hrow_w151 row_trip0.sl.r_47
    rw [e150]
    exact Srow_step (F := F) d L 0 ⟨t2.val, t2_lt t2⟩ f g 150 (k0_off181_inb t2) (k0_off174_inb t2) (k0_off181_eq t2) (k0_off174_eq t2)
  have e152 : row_trip0.sl.Hrow_w152 d L t2 f g = Srow d L 0 ⟨t2.val, t2_lt t2⟩ f g 152 := by
    unfold row_trip0.sl.Hrow_w152
    rw [e151]
    exact Srow_step (F := F) d L 0 ⟨t2.val, t2_lt t2⟩ f g 151 (k0_off182_inb t2) (k0_off174_inb t2) (k0_off182_eq t2) (k0_off174_eq t2)
  have e153 : row_trip0.sl.Hrow_w153 d L t2 f g = Srow d L 0 ⟨t2.val, t2_lt t2⟩ f g 153 := by
    unfold row_trip0.sl.Hrow_w153
    rw [e152]
    exact Srow_step (F := F) d L 0 ⟨t2.val, t2_lt t2⟩ f g 152 (k0_off184_inb t2) (k0_off183_inb t2) (k0_off184_eq t2) (k0_off183_eq t2)
  have e154 : row_trip0.sl.Hrow_w154 d L t2 f g = Srow d L 0 ⟨t2.val, t2_lt t2⟩ f g 154 := by
    unfold row_trip0.sl.Hrow_w154 row_trip0.sl.r_49
    rw [e153]
    exact Srow_step (F := F) d L 0 ⟨t2.val, t2_lt t2⟩ f g 153 (k0_off185_inb t2) (k0_off183_inb t2) (k0_off185_eq t2) (k0_off183_eq t2)
  have e155 : row_trip0.sl.Hrow_w155 d L t2 f g = Srow d L 0 ⟨t2.val, t2_lt t2⟩ f g 155 := by
    unfold row_trip0.sl.Hrow_w155
    rw [e154]
    exact Srow_step (F := F) d L 0 ⟨t2.val, t2_lt t2⟩ f g 154 (k0_off186_inb t2) (k0_off183_inb t2) (k0_off186_eq t2) (k0_off183_eq t2)
  have e156 : row_trip0.sl.Hrow_w156 d L t2 f g = Srow d L 0 ⟨t2.val, t2_lt t2⟩ f g 156 := by
    unfold row_trip0.sl.Hrow_w156
    rw [e155]
    exact Srow_step (F := F) d L 0 ⟨t2.val, t2_lt t2⟩ f g 155 (k0_off187_inb t2) (k0_off183_inb t2) (k0_off187_eq t2) (k0_off183_eq t2)
  have e157 : row_trip0.sl.Hrow_w157 d L t2 f g = Srow d L 0 ⟨t2.val, t2_lt t2⟩ f g 157 := by
    unfold row_trip0.sl.Hrow_w157 row_trip0.sl.r_50
    rw [e156]
    exact Srow_step (F := F) d L 0 ⟨t2.val, t2_lt t2⟩ f g 156 (k0_off188_inb t2) (k0_off183_inb t2) (k0_off188_eq t2) (k0_off183_eq t2)
  have e158 : row_trip0.sl.Hrow_w158 d L t2 f g = Srow d L 0 ⟨t2.val, t2_lt t2⟩ f g 158 := by
    unfold row_trip0.sl.Hrow_w158
    rw [e157]
    exact Srow_step (F := F) d L 0 ⟨t2.val, t2_lt t2⟩ f g 157 (k0_off189_inb t2) (k0_off183_inb t2) (k0_off189_eq t2) (k0_off183_eq t2)
  have e159 : row_trip0.sl.Hrow_w159 d L t2 f g = Srow d L 0 ⟨t2.val, t2_lt t2⟩ f g 159 := by
    unfold row_trip0.sl.Hrow_w159
    rw [e158]
    exact Srow_step (F := F) d L 0 ⟨t2.val, t2_lt t2⟩ f g 158 (k0_off190_inb t2) (k0_off183_inb t2) (k0_off190_eq t2) (k0_off183_eq t2)
  have e160 : row_trip0.sl.Hrow_w160 d L t2 f g = Srow d L 0 ⟨t2.val, t2_lt t2⟩ f g 160 := by
    unfold row_trip0.sl.Hrow_w160 row_trip0.sl.r_51
    rw [e159]
    exact Srow_step (F := F) d L 0 ⟨t2.val, t2_lt t2⟩ f g 159 (k0_off191_inb t2) (k0_off183_inb t2) (k0_off191_eq t2) (k0_off183_eq t2)
  have e161 : row_trip0.sl.Hrow_w161 d L t2 f g = Srow d L 0 ⟨t2.val, t2_lt t2⟩ f g 161 := by
    unfold row_trip0.sl.Hrow_w161
    rw [e160]
    exact Srow_step (F := F) d L 0 ⟨t2.val, t2_lt t2⟩ f g 160 (k0_off193_inb t2) (k0_off192_inb t2) (k0_off193_eq t2) (k0_off192_eq t2)
  have e162 : row_trip0.sl.Hrow_w162 d L t2 f g = Srow d L 0 ⟨t2.val, t2_lt t2⟩ f g 162 := by
    unfold row_trip0.sl.Hrow_w162
    rw [e161]
    exact Srow_step (F := F) d L 0 ⟨t2.val, t2_lt t2⟩ f g 161 (k0_off194_inb t2) (k0_off192_inb t2) (k0_off194_eq t2) (k0_off192_eq t2)
  have e163 : row_trip0.sl.Hrow_w163 d L t2 f g = Srow d L 0 ⟨t2.val, t2_lt t2⟩ f g 163 := by
    unfold row_trip0.sl.Hrow_w163 row_trip0.sl.r_53
    rw [e162]
    exact Srow_step (F := F) d L 0 ⟨t2.val, t2_lt t2⟩ f g 162 (k0_off195_inb t2) (k0_off192_inb t2) (k0_off195_eq t2) (k0_off192_eq t2)
  have e164 : row_trip0.sl.Hrow_w164 d L t2 f g = Srow d L 0 ⟨t2.val, t2_lt t2⟩ f g 164 := by
    unfold row_trip0.sl.Hrow_w164
    rw [e163]
    exact Srow_step (F := F) d L 0 ⟨t2.val, t2_lt t2⟩ f g 163 (k0_off196_inb t2) (k0_off192_inb t2) (k0_off196_eq t2) (k0_off192_eq t2)
  have e165 : row_trip0.sl.Hrow_w165 d L t2 f g = Srow d L 0 ⟨t2.val, t2_lt t2⟩ f g 165 := by
    unfold row_trip0.sl.Hrow_w165
    rw [e164]
    exact Srow_step (F := F) d L 0 ⟨t2.val, t2_lt t2⟩ f g 164 (k0_off197_inb t2) (k0_off192_inb t2) (k0_off197_eq t2) (k0_off192_eq t2)
  have e166 : row_trip0.sl.Hrow_w166 d L t2 f g = Srow d L 0 ⟨t2.val, t2_lt t2⟩ f g 166 := by
    unfold row_trip0.sl.Hrow_w166
    rw [e165]
    exact Srow_step (F := F) d L 0 ⟨t2.val, t2_lt t2⟩ f g 165 (k0_off198_inb t2) (k0_off192_inb t2) (k0_off198_eq t2) (k0_off192_eq t2)
  have e167 : row_trip0.sl.Hrow_w167 d L t2 f g = Srow d L 0 ⟨t2.val, t2_lt t2⟩ f g 167 := by
    unfold row_trip0.sl.Hrow_w167
    rw [e166]
    exact Srow_step (F := F) d L 0 ⟨t2.val, t2_lt t2⟩ f g 166 (k0_off199_inb t2) (k0_off192_inb t2) (k0_off199_eq t2) (k0_off192_eq t2)
  have e168 : row_trip0.sl.Hrow_w168 d L t2 f g = Srow d L 0 ⟨t2.val, t2_lt t2⟩ f g 168 := by
    unfold row_trip0.sl.Hrow_w168
    rw [e167]
    exact Srow_step (F := F) d L 0 ⟨t2.val, t2_lt t2⟩ f g 167 (k0_off200_inb t2) (k0_off192_inb t2) (k0_off200_eq t2) (k0_off192_eq t2)
  have e169 : row_trip0.sl.Hrow_w169 d L t2 f g = Srow d L 0 ⟨t2.val, t2_lt t2⟩ f g 169 := by
    unfold row_trip0.sl.Hrow_w169
    rw [e168]
    exact Srow_step (F := F) d L 0 ⟨t2.val, t2_lt t2⟩ f g 168 (k0_off202_inb t2) (k0_off201_inb t2) (k0_off202_eq t2) (k0_off201_eq t2)
  have e170 : row_trip0.sl.Hrow_w170 d L t2 f g = Srow d L 0 ⟨t2.val, t2_lt t2⟩ f g 170 := by
    unfold row_trip0.sl.Hrow_w170
    rw [e169]
    exact Srow_step (F := F) d L 0 ⟨t2.val, t2_lt t2⟩ f g 169 (k0_off203_inb t2) (k0_off201_inb t2) (k0_off203_eq t2) (k0_off201_eq t2)
  have e171 : row_trip0.sl.Hrow_w171 d L t2 f g = Srow d L 0 ⟨t2.val, t2_lt t2⟩ f g 171 := by
    unfold row_trip0.sl.Hrow_w171
    rw [e170]
    exact Srow_step (F := F) d L 0 ⟨t2.val, t2_lt t2⟩ f g 170 (k0_off204_inb t2) (k0_off201_inb t2) (k0_off204_eq t2) (k0_off201_eq t2)
  have e172 : row_trip0.sl.Hrow_w172 d L t2 f g = Srow d L 0 ⟨t2.val, t2_lt t2⟩ f g 172 := by
    unfold row_trip0.sl.Hrow_w172
    rw [e171]
    exact Srow_step (F := F) d L 0 ⟨t2.val, t2_lt t2⟩ f g 171 (k0_off205_inb t2) (k0_off201_inb t2) (k0_off205_eq t2) (k0_off201_eq t2)
  have e173 : row_trip0.sl.Hrow_w173 d L t2 f g = Srow d L 0 ⟨t2.val, t2_lt t2⟩ f g 173 := by
    unfold row_trip0.sl.Hrow_w173
    rw [e172]
    exact Srow_step (F := F) d L 0 ⟨t2.val, t2_lt t2⟩ f g 172 (k0_off206_inb t2) (k0_off201_inb t2) (k0_off206_eq t2) (k0_off201_eq t2)
  have e174 : row_trip0.sl.Hrow_w174 d L t2 f g = Srow d L 0 ⟨t2.val, t2_lt t2⟩ f g 174 := by
    unfold row_trip0.sl.Hrow_w174
    rw [e173]
    exact Srow_step (F := F) d L 0 ⟨t2.val, t2_lt t2⟩ f g 173 (k0_off207_inb t2) (k0_off201_inb t2) (k0_off207_eq t2) (k0_off201_eq t2)
  have e175 : row_trip0.sl.Hrow_w175 d L t2 f g = Srow d L 0 ⟨t2.val, t2_lt t2⟩ f g 175 := by
    unfold row_trip0.sl.Hrow_w175
    rw [e174]
    exact Srow_step (F := F) d L 0 ⟨t2.val, t2_lt t2⟩ f g 174 (k0_off208_inb t2) (k0_off201_inb t2) (k0_off208_eq t2) (k0_off201_eq t2)
  have e176 : row_trip0.sl.Hrow_w176 d L t2 f g = Srow d L 0 ⟨t2.val, t2_lt t2⟩ f g 176 := by
    unfold row_trip0.sl.Hrow_w176
    rw [e175]
    exact Srow_step (F := F) d L 0 ⟨t2.val, t2_lt t2⟩ f g 175 (k0_off209_inb t2) (k0_off201_inb t2) (k0_off209_eq t2) (k0_off201_eq t2)
  have e177 : row_trip0.sl.Hrow_w177 d L t2 f g = Srow d L 0 ⟨t2.val, t2_lt t2⟩ f g 177 := by
    unfold row_trip0.sl.Hrow_w177
    rw [e176]
    exact Srow_step (F := F) d L 0 ⟨t2.val, t2_lt t2⟩ f g 176 (k0_off211_inb t2) (k0_off210_inb t2) (k0_off211_eq t2) (k0_off210_eq t2)
  have e178 : row_trip0.sl.Hrow_w178 d L t2 f g = Srow d L 0 ⟨t2.val, t2_lt t2⟩ f g 178 := by
    unfold row_trip0.sl.Hrow_w178
    rw [e177]
    exact Srow_step (F := F) d L 0 ⟨t2.val, t2_lt t2⟩ f g 177 (k0_off212_inb t2) (k0_off210_inb t2) (k0_off212_eq t2) (k0_off210_eq t2)
  have e179 : row_trip0.sl.Hrow_w179 d L t2 f g = Srow d L 0 ⟨t2.val, t2_lt t2⟩ f g 179 := by
    unfold row_trip0.sl.Hrow_w179
    rw [e178]
    exact Srow_step (F := F) d L 0 ⟨t2.val, t2_lt t2⟩ f g 178 (k0_off213_inb t2) (k0_off210_inb t2) (k0_off213_eq t2) (k0_off210_eq t2)
  have e180 : row_trip0.sl.Hrow_w180 d L t2 f g = Srow d L 0 ⟨t2.val, t2_lt t2⟩ f g 180 := by
    unfold row_trip0.sl.Hrow_w180
    rw [e179]
    exact Srow_step (F := F) d L 0 ⟨t2.val, t2_lt t2⟩ f g 179 (k0_off214_inb t2) (k0_off210_inb t2) (k0_off214_eq t2) (k0_off210_eq t2)
  have e181 : row_trip0.sl.Hrow_w181 d L t2 f g = Srow d L 0 ⟨t2.val, t2_lt t2⟩ f g 181 := by
    unfold row_trip0.sl.Hrow_w181
    rw [e180]
    exact Srow_step (F := F) d L 0 ⟨t2.val, t2_lt t2⟩ f g 180 (k0_off215_inb t2) (k0_off210_inb t2) (k0_off215_eq t2) (k0_off210_eq t2)
  have e182 : row_trip0.sl.Hrow_w182 d L t2 f g = Srow d L 0 ⟨t2.val, t2_lt t2⟩ f g 182 := by
    unfold row_trip0.sl.Hrow_w182 row_trip0.sl.r_56
    rw [e181]
    exact Srow_step (F := F) d L 0 ⟨t2.val, t2_lt t2⟩ f g 181 (k0_off216_inb t2) (k0_off210_inb t2) (k0_off216_eq t2) (k0_off210_eq t2)
  have e183 : row_trip0.sl.Hrow_w183 d L t2 f g = Srow d L 0 ⟨t2.val, t2_lt t2⟩ f g 183 := by
    unfold row_trip0.sl.Hrow_w183
    rw [e182]
    exact Srow_step (F := F) d L 0 ⟨t2.val, t2_lt t2⟩ f g 182 (k0_off217_inb t2) (k0_off210_inb t2) (k0_off217_eq t2) (k0_off210_eq t2)
  have e184 : row_trip0.sl.Hrow_w184 d L t2 f g = Srow d L 0 ⟨t2.val, t2_lt t2⟩ f g 184 := by
    unfold row_trip0.sl.Hrow_w184
    rw [e183]
    exact Srow_step (F := F) d L 0 ⟨t2.val, t2_lt t2⟩ f g 183 (k0_off218_inb t2) (k0_off210_inb t2) (k0_off218_eq t2) (k0_off210_eq t2)
  have e185 : row_trip0.sl.Hrow_w185 d L t2 f g = Srow d L 0 ⟨t2.val, t2_lt t2⟩ f g 185 := by
    unfold row_trip0.sl.Hrow_w185 row_trip0.sl.r_58
    rw [e184]
    exact Srow_step (F := F) d L 0 ⟨t2.val, t2_lt t2⟩ f g 184 (k0_off220_inb t2) (k0_off219_inb t2) (k0_off220_eq t2) (k0_off219_eq t2)
  have e186 : row_trip0.sl.Hrow_w186 d L t2 f g = Srow d L 0 ⟨t2.val, t2_lt t2⟩ f g 186 := by
    unfold row_trip0.sl.Hrow_w186
    rw [e185]
    exact Srow_step (F := F) d L 0 ⟨t2.val, t2_lt t2⟩ f g 185 (k0_off221_inb t2) (k0_off219_inb t2) (k0_off221_eq t2) (k0_off219_eq t2)
  have e187 : row_trip0.sl.Hrow_w187 d L t2 f g = Srow d L 0 ⟨t2.val, t2_lt t2⟩ f g 187 := by
    unfold row_trip0.sl.Hrow_w187
    rw [e186]
    exact Srow_step (F := F) d L 0 ⟨t2.val, t2_lt t2⟩ f g 186 (k0_off222_inb t2) (k0_off219_inb t2) (k0_off222_eq t2) (k0_off219_eq t2)
  have e188 : row_trip0.sl.Hrow_w188 d L t2 f g = Srow d L 0 ⟨t2.val, t2_lt t2⟩ f g 188 := by
    unfold row_trip0.sl.Hrow_w188 row_trip0.sl.r_59
    rw [e187]
    exact Srow_step (F := F) d L 0 ⟨t2.val, t2_lt t2⟩ f g 187 (k0_off223_inb t2) (k0_off219_inb t2) (k0_off223_eq t2) (k0_off219_eq t2)
  have e189 : row_trip0.sl.Hrow_w189 d L t2 f g = Srow d L 0 ⟨t2.val, t2_lt t2⟩ f g 189 := by
    unfold row_trip0.sl.Hrow_w189
    rw [e188]
    exact Srow_step (F := F) d L 0 ⟨t2.val, t2_lt t2⟩ f g 188 (k0_off224_inb t2) (k0_off219_inb t2) (k0_off224_eq t2) (k0_off219_eq t2)
  have e190 : row_trip0.sl.Hrow_w190 d L t2 f g = Srow d L 0 ⟨t2.val, t2_lt t2⟩ f g 190 := by
    unfold row_trip0.sl.Hrow_w190
    rw [e189]
    exact Srow_step (F := F) d L 0 ⟨t2.val, t2_lt t2⟩ f g 189 (k0_off225_inb t2) (k0_off219_inb t2) (k0_off225_eq t2) (k0_off219_eq t2)
  have e191 : row_trip0.sl.Hrow_w191 d L t2 f g = Srow d L 0 ⟨t2.val, t2_lt t2⟩ f g 191 := by
    unfold row_trip0.sl.Hrow_w191 row_trip0.sl.r_60
    rw [e190]
    exact Srow_step (F := F) d L 0 ⟨t2.val, t2_lt t2⟩ f g 190 (k0_off226_inb t2) (k0_off219_inb t2) (k0_off226_eq t2) (k0_off219_eq t2)
  have e192 : row_trip0.sl.Hrow_w192 d L t2 f g = Srow d L 0 ⟨t2.val, t2_lt t2⟩ f g 192 := by
    unfold row_trip0.sl.Hrow_w192
    rw [e191]
    exact Srow_step (F := F) d L 0 ⟨t2.val, t2_lt t2⟩ f g 191 (k0_off227_inb t2) (k0_off219_inb t2) (k0_off227_eq t2) (k0_off219_eq t2)
  have e193 : row_trip0.sl.Hrow_w193 d L t2 f g = Srow d L 0 ⟨t2.val, t2_lt t2⟩ f g 193 := by
    unfold row_trip0.sl.Hrow_w193
    rw [e192]
    exact Srow_step (F := F) d L 0 ⟨t2.val, t2_lt t2⟩ f g 192 (k0_off229_inb t2) (k0_off228_inb t2) (k0_off229_eq t2) (k0_off228_eq t2)
  have e194 : row_trip0.sl.Hrow_w194 d L t2 f g = Srow d L 0 ⟨t2.val, t2_lt t2⟩ f g 194 := by
    unfold row_trip0.sl.Hrow_w194 row_trip0.sl.r_62
    rw [e193]
    exact Srow_step (F := F) d L 0 ⟨t2.val, t2_lt t2⟩ f g 193 (k0_off230_inb t2) (k0_off228_inb t2) (k0_off230_eq t2) (k0_off228_eq t2)
  have e195 : row_trip0.sl.Hrow_w195 d L t2 f g = Srow d L 0 ⟨t2.val, t2_lt t2⟩ f g 195 := by
    unfold row_trip0.sl.Hrow_w195
    rw [e194]
    exact Srow_step (F := F) d L 0 ⟨t2.val, t2_lt t2⟩ f g 194 (k0_off231_inb t2) (k0_off228_inb t2) (k0_off231_eq t2) (k0_off228_eq t2)
  have e196 : row_trip0.sl.Hrow_w196 d L t2 f g = Srow d L 0 ⟨t2.val, t2_lt t2⟩ f g 196 := by
    unfold row_trip0.sl.Hrow_w196
    rw [e195]
    exact Srow_step (F := F) d L 0 ⟨t2.val, t2_lt t2⟩ f g 195 (k0_off232_inb t2) (k0_off228_inb t2) (k0_off232_eq t2) (k0_off228_eq t2)
  have e197 : row_trip0.sl.Hrow_w197 d L t2 f g = Srow d L 0 ⟨t2.val, t2_lt t2⟩ f g 197 := by
    unfold row_trip0.sl.Hrow_w197 row_trip0.sl.r_63
    rw [e196]
    exact Srow_step (F := F) d L 0 ⟨t2.val, t2_lt t2⟩ f g 196 (k0_off233_inb t2) (k0_off228_inb t2) (k0_off233_eq t2) (k0_off228_eq t2)
  have e198 : row_trip0.sl.Hrow_w198 d L t2 f g = Srow d L 0 ⟨t2.val, t2_lt t2⟩ f g 198 := by
    unfold row_trip0.sl.Hrow_w198
    rw [e197]
    exact Srow_step (F := F) d L 0 ⟨t2.val, t2_lt t2⟩ f g 197 (k0_off234_inb t2) (k0_off228_inb t2) (k0_off234_eq t2) (k0_off228_eq t2)
  have e199 : row_trip0.sl.Hrow_w199 d L t2 f g = Srow d L 0 ⟨t2.val, t2_lt t2⟩ f g 199 := by
    unfold row_trip0.sl.Hrow_w199
    rw [e198]
    exact Srow_step (F := F) d L 0 ⟨t2.val, t2_lt t2⟩ f g 198 (k0_off235_inb t2) (k0_off228_inb t2) (k0_off235_eq t2) (k0_off228_eq t2)
  have e200 : row_trip0.sl.Hrow_w200 d L t2 f g = Srow d L 0 ⟨t2.val, t2_lt t2⟩ f g 200 := by
    unfold row_trip0.sl.Hrow_w200 row_trip0.sl.r_64
    rw [e199]
    exact Srow_step (F := F) d L 0 ⟨t2.val, t2_lt t2⟩ f g 199 (k0_off236_inb t2) (k0_off228_inb t2) (k0_off236_eq t2) (k0_off228_eq t2)
  have e201 : row_trip0.sl.Hrow_w201 d L t2 f g = Srow d L 0 ⟨t2.val, t2_lt t2⟩ f g 201 := by
    unfold row_trip0.sl.Hrow_w201
    rw [e200]
    exact Srow_step (F := F) d L 0 ⟨t2.val, t2_lt t2⟩ f g 200 (k0_off238_inb t2) (k0_off237_inb t2) (k0_off238_eq t2) (k0_off237_eq t2)
  have e202 : row_trip0.sl.Hrow_w202 d L t2 f g = Srow d L 0 ⟨t2.val, t2_lt t2⟩ f g 202 := by
    unfold row_trip0.sl.Hrow_w202
    rw [e201]
    exact Srow_step (F := F) d L 0 ⟨t2.val, t2_lt t2⟩ f g 201 (k0_off239_inb t2) (k0_off237_inb t2) (k0_off239_eq t2) (k0_off237_eq t2)
  have e203 : row_trip0.sl.Hrow_w203 d L t2 f g = Srow d L 0 ⟨t2.val, t2_lt t2⟩ f g 203 := by
    unfold row_trip0.sl.Hrow_w203 row_trip0.sl.r_66
    rw [e202]
    exact Srow_step (F := F) d L 0 ⟨t2.val, t2_lt t2⟩ f g 202 (k0_off240_inb t2) (k0_off237_inb t2) (k0_off240_eq t2) (k0_off237_eq t2)
  have e204 : row_trip0.sl.Hrow_w204 d L t2 f g = Srow d L 0 ⟨t2.val, t2_lt t2⟩ f g 204 := by
    unfold row_trip0.sl.Hrow_w204
    rw [e203]
    exact Srow_step (F := F) d L 0 ⟨t2.val, t2_lt t2⟩ f g 203 (k0_off241_inb t2) (k0_off237_inb t2) (k0_off241_eq t2) (k0_off237_eq t2)
  have e205 : row_trip0.sl.Hrow_w205 d L t2 f g = Srow d L 0 ⟨t2.val, t2_lt t2⟩ f g 205 := by
    unfold row_trip0.sl.Hrow_w205
    rw [e204]
    exact Srow_step (F := F) d L 0 ⟨t2.val, t2_lt t2⟩ f g 204 (k0_off242_inb t2) (k0_off237_inb t2) (k0_off242_eq t2) (k0_off237_eq t2)
  have e206 : row_trip0.sl.Hrow_w206 d L t2 f g = Srow d L 0 ⟨t2.val, t2_lt t2⟩ f g 206 := by
    unfold row_trip0.sl.Hrow_w206
    rw [e205]
    exact Srow_step (F := F) d L 0 ⟨t2.val, t2_lt t2⟩ f g 205 (k0_off243_inb t2) (k0_off237_inb t2) (k0_off243_eq t2) (k0_off237_eq t2)
  have e207 : row_trip0.sl.Hrow_w207 d L t2 f g = Srow d L 0 ⟨t2.val, t2_lt t2⟩ f g 207 := by
    unfold row_trip0.sl.Hrow_w207
    rw [e206]
    exact Srow_step (F := F) d L 0 ⟨t2.val, t2_lt t2⟩ f g 206 (k0_off244_inb t2) (k0_off237_inb t2) (k0_off244_eq t2) (k0_off237_eq t2)
  have e208 : row_trip0.sl.Hrow_w208 d L t2 f g = Srow d L 0 ⟨t2.val, t2_lt t2⟩ f g 208 := by
    unfold row_trip0.sl.Hrow_w208
    rw [e207]
    exact Srow_step (F := F) d L 0 ⟨t2.val, t2_lt t2⟩ f g 207 (k0_off245_inb t2) (k0_off237_inb t2) (k0_off245_eq t2) (k0_off237_eq t2)
  have e209 : row_trip0.sl.Hrow_w209 d L t2 f g = Srow d L 0 ⟨t2.val, t2_lt t2⟩ f g 209 := by
    unfold row_trip0.sl.Hrow_w209
    rw [e208]
    exact Srow_step (F := F) d L 0 ⟨t2.val, t2_lt t2⟩ f g 208 (k0_off247_inb t2) (k0_off246_inb t2) (k0_off247_eq t2) (k0_off246_eq t2)
  have e210 : row_trip0.sl.Hrow_w210 d L t2 f g = Srow d L 0 ⟨t2.val, t2_lt t2⟩ f g 210 := by
    unfold row_trip0.sl.Hrow_w210
    rw [e209]
    exact Srow_step (F := F) d L 0 ⟨t2.val, t2_lt t2⟩ f g 209 (k0_off248_inb t2) (k0_off246_inb t2) (k0_off248_eq t2) (k0_off246_eq t2)
  have e211 : row_trip0.sl.Hrow_w211 d L t2 f g = Srow d L 0 ⟨t2.val, t2_lt t2⟩ f g 211 := by
    unfold row_trip0.sl.Hrow_w211
    rw [e210]
    exact Srow_step (F := F) d L 0 ⟨t2.val, t2_lt t2⟩ f g 210 (k0_off249_inb t2) (k0_off246_inb t2) (k0_off249_eq t2) (k0_off246_eq t2)
  have e212 : row_trip0.sl.Hrow_w212 d L t2 f g = Srow d L 0 ⟨t2.val, t2_lt t2⟩ f g 212 := by
    unfold row_trip0.sl.Hrow_w212
    rw [e211]
    exact Srow_step (F := F) d L 0 ⟨t2.val, t2_lt t2⟩ f g 211 (k0_off250_inb t2) (k0_off246_inb t2) (k0_off250_eq t2) (k0_off246_eq t2)
  have e213 : row_trip0.sl.Hrow_w213 d L t2 f g = Srow d L 0 ⟨t2.val, t2_lt t2⟩ f g 213 := by
    unfold row_trip0.sl.Hrow_w213
    rw [e212]
    exact Srow_step (F := F) d L 0 ⟨t2.val, t2_lt t2⟩ f g 212 (k0_off251_inb t2) (k0_off246_inb t2) (k0_off251_eq t2) (k0_off246_eq t2)
  have e214 : row_trip0.sl.Hrow_w214 d L t2 f g = Srow d L 0 ⟨t2.val, t2_lt t2⟩ f g 214 := by
    unfold row_trip0.sl.Hrow_w214
    rw [e213]
    exact Srow_step (F := F) d L 0 ⟨t2.val, t2_lt t2⟩ f g 213 (k0_off252_inb t2) (k0_off246_inb t2) (k0_off252_eq t2) (k0_off246_eq t2)
  have e215 : row_trip0.sl.Hrow_w215 d L t2 f g = Srow d L 0 ⟨t2.val, t2_lt t2⟩ f g 215 := by
    unfold row_trip0.sl.Hrow_w215
    rw [e214]
    exact Srow_step (F := F) d L 0 ⟨t2.val, t2_lt t2⟩ f g 214 (k0_off253_inb t2) (k0_off246_inb t2) (k0_off253_eq t2) (k0_off246_eq t2)
  have e216 : row_trip0.sl.Hrow_w216 d L t2 f g = Srow d L 0 ⟨t2.val, t2_lt t2⟩ f g 216 := by
    unfold row_trip0.sl.Hrow_w216
    rw [e215]
    exact Srow_step (F := F) d L 0 ⟨t2.val, t2_lt t2⟩ f g 215 (k0_off254_inb t2) (k0_off246_inb t2) (k0_off254_eq t2) (k0_off246_eq t2)
  have e217 : row_trip0.sl.Hrow_w217 d L t2 f g = Srow d L 0 ⟨t2.val, t2_lt t2⟩ f g 217 := by
    unfold row_trip0.sl.Hrow_w217
    rw [e216]
    exact Srow_step (F := F) d L 0 ⟨t2.val, t2_lt t2⟩ f g 216 (k0_off256_inb t2) (k0_off255_inb t2) (k0_off256_eq t2) (k0_off255_eq t2)
  have e218 : row_trip0.sl.Hrow_w218 d L t2 f g = Srow d L 0 ⟨t2.val, t2_lt t2⟩ f g 218 := by
    unfold row_trip0.sl.Hrow_w218
    rw [e217]
    exact Srow_step (F := F) d L 0 ⟨t2.val, t2_lt t2⟩ f g 217 (k0_off257_inb t2) (k0_off255_inb t2) (k0_off257_eq t2) (k0_off255_eq t2)
  have e219 : row_trip0.sl.Hrow_w219 d L t2 f g = Srow d L 0 ⟨t2.val, t2_lt t2⟩ f g 219 := by
    unfold row_trip0.sl.Hrow_w219
    rw [e218]
    exact Srow_step (F := F) d L 0 ⟨t2.val, t2_lt t2⟩ f g 218 (k0_off258_inb t2) (k0_off255_inb t2) (k0_off258_eq t2) (k0_off255_eq t2)
  have e220 : row_trip0.sl.Hrow_w220 d L t2 f g = Srow d L 0 ⟨t2.val, t2_lt t2⟩ f g 220 := by
    unfold row_trip0.sl.Hrow_w220
    rw [e219]
    exact Srow_step (F := F) d L 0 ⟨t2.val, t2_lt t2⟩ f g 219 (k0_off259_inb t2) (k0_off255_inb t2) (k0_off259_eq t2) (k0_off255_eq t2)
  have e221 : row_trip0.sl.Hrow_w221 d L t2 f g = Srow d L 0 ⟨t2.val, t2_lt t2⟩ f g 221 := by
    unfold row_trip0.sl.Hrow_w221
    rw [e220]
    exact Srow_step (F := F) d L 0 ⟨t2.val, t2_lt t2⟩ f g 220 (k0_off260_inb t2) (k0_off255_inb t2) (k0_off260_eq t2) (k0_off255_eq t2)
  have e222 : row_trip0.sl.Hrow_w222 d L t2 f g = Srow d L 0 ⟨t2.val, t2_lt t2⟩ f g 222 := by
    unfold row_trip0.sl.Hrow_w222 row_trip0.sl.r_69
    rw [e221]
    exact Srow_step (F := F) d L 0 ⟨t2.val, t2_lt t2⟩ f g 221 (k0_off261_inb t2) (k0_off255_inb t2) (k0_off261_eq t2) (k0_off255_eq t2)
  have e223 : row_trip0.sl.Hrow_w223 d L t2 f g = Srow d L 0 ⟨t2.val, t2_lt t2⟩ f g 223 := by
    unfold row_trip0.sl.Hrow_w223
    rw [e222]
    exact Srow_step (F := F) d L 0 ⟨t2.val, t2_lt t2⟩ f g 222 (k0_off262_inb t2) (k0_off255_inb t2) (k0_off262_eq t2) (k0_off255_eq t2)
  have e224 : row_trip0.sl.Hrow_w224 d L t2 f g = Srow d L 0 ⟨t2.val, t2_lt t2⟩ f g 224 := by
    unfold row_trip0.sl.Hrow_w224
    rw [e223]
    exact Srow_step (F := F) d L 0 ⟨t2.val, t2_lt t2⟩ f g 223 (k0_off263_inb t2) (k0_off255_inb t2) (k0_off263_eq t2) (k0_off255_eq t2)
  have e225 : row_trip0.sl.Hrow_w225 d L t2 f g = Srow d L 0 ⟨t2.val, t2_lt t2⟩ f g 225 := by
    unfold row_trip0.sl.Hrow_w225 row_trip0.sl.r_71
    rw [e224]
    exact Srow_step (F := F) d L 0 ⟨t2.val, t2_lt t2⟩ f g 224 (k0_off265_inb t2) (k0_off264_inb t2) (k0_off265_eq t2) (k0_off264_eq t2)
  have e226 : row_trip0.sl.Hrow_w226 d L t2 f g = Srow d L 0 ⟨t2.val, t2_lt t2⟩ f g 226 := by
    unfold row_trip0.sl.Hrow_w226
    rw [e225]
    exact Srow_step (F := F) d L 0 ⟨t2.val, t2_lt t2⟩ f g 225 (k0_off266_inb t2) (k0_off264_inb t2) (k0_off266_eq t2) (k0_off264_eq t2)
  have e227 : row_trip0.sl.Hrow_w227 d L t2 f g = Srow d L 0 ⟨t2.val, t2_lt t2⟩ f g 227 := by
    unfold row_trip0.sl.Hrow_w227
    rw [e226]
    exact Srow_step (F := F) d L 0 ⟨t2.val, t2_lt t2⟩ f g 226 (k0_off267_inb t2) (k0_off264_inb t2) (k0_off267_eq t2) (k0_off264_eq t2)
  have e228 : row_trip0.sl.Hrow_w228 d L t2 f g = Srow d L 0 ⟨t2.val, t2_lt t2⟩ f g 228 := by
    unfold row_trip0.sl.Hrow_w228 row_trip0.sl.r_72
    rw [e227]
    exact Srow_step (F := F) d L 0 ⟨t2.val, t2_lt t2⟩ f g 227 (k0_off268_inb t2) (k0_off264_inb t2) (k0_off268_eq t2) (k0_off264_eq t2)
  have e229 : row_trip0.sl.Hrow_w229 d L t2 f g = Srow d L 0 ⟨t2.val, t2_lt t2⟩ f g 229 := by
    unfold row_trip0.sl.Hrow_w229
    rw [e228]
    exact Srow_step (F := F) d L 0 ⟨t2.val, t2_lt t2⟩ f g 228 (k0_off269_inb t2) (k0_off264_inb t2) (k0_off269_eq t2) (k0_off264_eq t2)
  have e230 : row_trip0.sl.Hrow_w230 d L t2 f g = Srow d L 0 ⟨t2.val, t2_lt t2⟩ f g 230 := by
    unfold row_trip0.sl.Hrow_w230
    rw [e229]
    exact Srow_step (F := F) d L 0 ⟨t2.val, t2_lt t2⟩ f g 229 (k0_off270_inb t2) (k0_off264_inb t2) (k0_off270_eq t2) (k0_off264_eq t2)
  have e231 : row_trip0.sl.Hrow_w231 d L t2 f g = Srow d L 0 ⟨t2.val, t2_lt t2⟩ f g 231 := by
    unfold row_trip0.sl.Hrow_w231 row_trip0.sl.r_73
    rw [e230]
    exact Srow_step (F := F) d L 0 ⟨t2.val, t2_lt t2⟩ f g 230 (k0_off271_inb t2) (k0_off264_inb t2) (k0_off271_eq t2) (k0_off264_eq t2)
  have e232 : row_trip0.sl.Hrow_w232 d L t2 f g = Srow d L 0 ⟨t2.val, t2_lt t2⟩ f g 232 := by
    unfold row_trip0.sl.Hrow_w232
    rw [e231]
    exact Srow_step (F := F) d L 0 ⟨t2.val, t2_lt t2⟩ f g 231 (k0_off272_inb t2) (k0_off264_inb t2) (k0_off272_eq t2) (k0_off264_eq t2)
  have e233 : row_trip0.sl.Hrow_w233 d L t2 f g = Srow d L 0 ⟨t2.val, t2_lt t2⟩ f g 233 := by
    unfold row_trip0.sl.Hrow_w233
    rw [e232]
    exact Srow_step (F := F) d L 0 ⟨t2.val, t2_lt t2⟩ f g 232 (k0_off274_inb t2) (k0_off273_inb t2) (k0_off274_eq t2) (k0_off273_eq t2)
  have e234 : row_trip0.sl.Hrow_w234 d L t2 f g = Srow d L 0 ⟨t2.val, t2_lt t2⟩ f g 234 := by
    unfold row_trip0.sl.Hrow_w234 row_trip0.sl.r_75
    rw [e233]
    exact Srow_step (F := F) d L 0 ⟨t2.val, t2_lt t2⟩ f g 233 (k0_off275_inb t2) (k0_off273_inb t2) (k0_off275_eq t2) (k0_off273_eq t2)
  have e235 : row_trip0.sl.Hrow_w235 d L t2 f g = Srow d L 0 ⟨t2.val, t2_lt t2⟩ f g 235 := by
    unfold row_trip0.sl.Hrow_w235
    rw [e234]
    exact Srow_step (F := F) d L 0 ⟨t2.val, t2_lt t2⟩ f g 234 (k0_off276_inb t2) (k0_off273_inb t2) (k0_off276_eq t2) (k0_off273_eq t2)
  have e236 : row_trip0.sl.Hrow_w236 d L t2 f g = Srow d L 0 ⟨t2.val, t2_lt t2⟩ f g 236 := by
    unfold row_trip0.sl.Hrow_w236
    rw [e235]
    exact Srow_step (F := F) d L 0 ⟨t2.val, t2_lt t2⟩ f g 235 (k0_off277_inb t2) (k0_off273_inb t2) (k0_off277_eq t2) (k0_off273_eq t2)
  have e237 : row_trip0.sl.Hrow_w237 d L t2 f g = Srow d L 0 ⟨t2.val, t2_lt t2⟩ f g 237 := by
    unfold row_trip0.sl.Hrow_w237 row_trip0.sl.r_76
    rw [e236]
    exact Srow_step (F := F) d L 0 ⟨t2.val, t2_lt t2⟩ f g 236 (k0_off278_inb t2) (k0_off273_inb t2) (k0_off278_eq t2) (k0_off273_eq t2)
  have e238 : row_trip0.sl.Hrow_w238 d L t2 f g = Srow d L 0 ⟨t2.val, t2_lt t2⟩ f g 238 := by
    unfold row_trip0.sl.Hrow_w238
    rw [e237]
    exact Srow_step (F := F) d L 0 ⟨t2.val, t2_lt t2⟩ f g 237 (k0_off279_inb t2) (k0_off273_inb t2) (k0_off279_eq t2) (k0_off273_eq t2)
  have e239 : row_trip0.sl.Hrow_w239 d L t2 f g = Srow d L 0 ⟨t2.val, t2_lt t2⟩ f g 239 := by
    unfold row_trip0.sl.Hrow_w239
    rw [e238]
    exact Srow_step (F := F) d L 0 ⟨t2.val, t2_lt t2⟩ f g 238 (k0_off280_inb t2) (k0_off273_inb t2) (k0_off280_eq t2) (k0_off273_eq t2)
  have e240 : row_trip0.sl.Hrow_w240 d L t2 f g = Srow d L 0 ⟨t2.val, t2_lt t2⟩ f g 240 := by
    unfold row_trip0.sl.Hrow_w240 row_trip0.sl.r_77
    rw [e239]
    exact Srow_step (F := F) d L 0 ⟨t2.val, t2_lt t2⟩ f g 239 (k0_off281_inb t2) (k0_off273_inb t2) (k0_off281_eq t2) (k0_off273_eq t2)
  have e241 : row_trip0.sl.Hrow_w241 d L t2 f g = Srow d L 0 ⟨t2.val, t2_lt t2⟩ f g 241 := by
    unfold row_trip0.sl.Hrow_w241
    rw [e240]
    exact Srow_step (F := F) d L 0 ⟨t2.val, t2_lt t2⟩ f g 240 (k0_off283_inb t2) (k0_off282_inb t2) (k0_off283_eq t2) (k0_off282_eq t2)
  have e242 : row_trip0.sl.Hrow_w242 d L t2 f g = Srow d L 0 ⟨t2.val, t2_lt t2⟩ f g 242 := by
    unfold row_trip0.sl.Hrow_w242
    rw [e241]
    exact Srow_step (F := F) d L 0 ⟨t2.val, t2_lt t2⟩ f g 241 (k0_off284_inb t2) (k0_off282_inb t2) (k0_off284_eq t2) (k0_off282_eq t2)
  have e243 : row_trip0.sl.Hrow_w243 d L t2 f g = Srow d L 0 ⟨t2.val, t2_lt t2⟩ f g 243 := by
    unfold row_trip0.sl.Hrow_w243 row_trip0.sl.r_79
    rw [e242]
    exact Srow_step (F := F) d L 0 ⟨t2.val, t2_lt t2⟩ f g 242 (k0_off285_inb t2) (k0_off282_inb t2) (k0_off285_eq t2) (k0_off282_eq t2)
  have e244 : row_trip0.sl.Hrow_w244 d L t2 f g = Srow d L 0 ⟨t2.val, t2_lt t2⟩ f g 244 := by
    unfold row_trip0.sl.Hrow_w244
    rw [e243]
    exact Srow_step (F := F) d L 0 ⟨t2.val, t2_lt t2⟩ f g 243 (k0_off286_inb t2) (k0_off282_inb t2) (k0_off286_eq t2) (k0_off282_eq t2)
  have e245 : row_trip0.sl.Hrow_w245 d L t2 f g = Srow d L 0 ⟨t2.val, t2_lt t2⟩ f g 245 := by
    unfold row_trip0.sl.Hrow_w245
    rw [e244]
    exact Srow_step (F := F) d L 0 ⟨t2.val, t2_lt t2⟩ f g 244 (k0_off287_inb t2) (k0_off282_inb t2) (k0_off287_eq t2) (k0_off282_eq t2)
  have e246 : row_trip0.sl.Hrow_w246 d L t2 f g = Srow d L 0 ⟨t2.val, t2_lt t2⟩ f g 246 := by
    unfold row_trip0.sl.Hrow_w246
    rw [e245]
    exact Srow_step (F := F) d L 0 ⟨t2.val, t2_lt t2⟩ f g 245 (k0_off288_inb t2) (k0_off282_inb t2) (k0_off288_eq t2) (k0_off282_eq t2)
  have e247 : row_trip0.sl.Hrow_w247 d L t2 f g = Srow d L 0 ⟨t2.val, t2_lt t2⟩ f g 247 := by
    unfold row_trip0.sl.Hrow_w247
    rw [e246]
    exact Srow_step (F := F) d L 0 ⟨t2.val, t2_lt t2⟩ f g 246 (k0_off289_inb t2) (k0_off282_inb t2) (k0_off289_eq t2) (k0_off282_eq t2)
  have e248 : row_trip0.sl.Hrow_w248 d L t2 f g = Srow d L 0 ⟨t2.val, t2_lt t2⟩ f g 248 := by
    unfold row_trip0.sl.Hrow_w248
    rw [e247]
    exact Srow_step (F := F) d L 0 ⟨t2.val, t2_lt t2⟩ f g 247 (k0_off290_inb t2) (k0_off282_inb t2) (k0_off290_eq t2) (k0_off282_eq t2)
  have e249 : row_trip0.sl.Hrow_w249 d L t2 f g = Srow d L 0 ⟨t2.val, t2_lt t2⟩ f g 249 := by
    unfold row_trip0.sl.Hrow_w249
    rw [e248]
    exact Srow_step (F := F) d L 0 ⟨t2.val, t2_lt t2⟩ f g 248 (k0_off292_inb t2) (k0_off291_inb t2) (k0_off292_eq t2) (k0_off291_eq t2)
  have e250 : row_trip0.sl.Hrow_w250 d L t2 f g = Srow d L 0 ⟨t2.val, t2_lt t2⟩ f g 250 := by
    unfold row_trip0.sl.Hrow_w250
    rw [e249]
    exact Srow_step (F := F) d L 0 ⟨t2.val, t2_lt t2⟩ f g 249 (k0_off293_inb t2) (k0_off291_inb t2) (k0_off293_eq t2) (k0_off291_eq t2)
  have e251 : row_trip0.sl.Hrow_w251 d L t2 f g = Srow d L 0 ⟨t2.val, t2_lt t2⟩ f g 251 := by
    unfold row_trip0.sl.Hrow_w251
    rw [e250]
    exact Srow_step (F := F) d L 0 ⟨t2.val, t2_lt t2⟩ f g 250 (k0_off294_inb t2) (k0_off291_inb t2) (k0_off294_eq t2) (k0_off291_eq t2)
  have e252 : row_trip0.sl.Hrow_w252 d L t2 f g = Srow d L 0 ⟨t2.val, t2_lt t2⟩ f g 252 := by
    unfold row_trip0.sl.Hrow_w252
    rw [e251]
    exact Srow_step (F := F) d L 0 ⟨t2.val, t2_lt t2⟩ f g 251 (k0_off295_inb t2) (k0_off291_inb t2) (k0_off295_eq t2) (k0_off291_eq t2)
  have e253 : row_trip0.sl.Hrow_w253 d L t2 f g = Srow d L 0 ⟨t2.val, t2_lt t2⟩ f g 253 := by
    unfold row_trip0.sl.Hrow_w253
    rw [e252]
    exact Srow_step (F := F) d L 0 ⟨t2.val, t2_lt t2⟩ f g 252 (k0_off296_inb t2) (k0_off291_inb t2) (k0_off296_eq t2) (k0_off291_eq t2)
  have e254 : row_trip0.sl.Hrow_w254 d L t2 f g = Srow d L 0 ⟨t2.val, t2_lt t2⟩ f g 254 := by
    unfold row_trip0.sl.Hrow_w254
    rw [e253]
    exact Srow_step (F := F) d L 0 ⟨t2.val, t2_lt t2⟩ f g 253 (k0_off297_inb t2) (k0_off291_inb t2) (k0_off297_eq t2) (k0_off291_eq t2)
  have e255 : row_trip0.sl.Hrow_w255 d L t2 f g = Srow d L 0 ⟨t2.val, t2_lt t2⟩ f g 255 := by
    unfold row_trip0.sl.Hrow_w255
    rw [e254]
    exact Srow_step (F := F) d L 0 ⟨t2.val, t2_lt t2⟩ f g 254 (k0_off298_inb t2) (k0_off291_inb t2) (k0_off298_eq t2) (k0_off291_eq t2)
  have e256 : row_trip0.sl.Hrow_w256 d L t2 f g = Srow d L 0 ⟨t2.val, t2_lt t2⟩ f g 256 := by
    unfold row_trip0.sl.Hrow_w256
    rw [e255]
    exact Srow_step (F := F) d L 0 ⟨t2.val, t2_lt t2⟩ f g 255 (k0_off299_inb t2) (k0_off291_inb t2) (k0_off299_eq t2) (k0_off291_eq t2)
  have e257 : row_trip0.sl.Hrow_w257 d L t2 f g = Srow d L 0 ⟨t2.val, t2_lt t2⟩ f g 257 := by
    unfold row_trip0.sl.Hrow_w257
    rw [e256]
    exact Srow_step (F := F) d L 0 ⟨t2.val, t2_lt t2⟩ f g 256 (k0_off301_inb t2) (k0_off300_inb t2) (k0_off301_eq t2) (k0_off300_eq t2)
  have e258 : row_trip0.sl.Hrow_w258 d L t2 f g = Srow d L 0 ⟨t2.val, t2_lt t2⟩ f g 258 := by
    unfold row_trip0.sl.Hrow_w258
    rw [e257]
    exact Srow_step (F := F) d L 0 ⟨t2.val, t2_lt t2⟩ f g 257 (k0_off302_inb t2) (k0_off300_inb t2) (k0_off302_eq t2) (k0_off300_eq t2)
  have e259 : row_trip0.sl.Hrow_w259 d L t2 f g = Srow d L 0 ⟨t2.val, t2_lt t2⟩ f g 259 := by
    unfold row_trip0.sl.Hrow_w259
    rw [e258]
    exact Srow_step (F := F) d L 0 ⟨t2.val, t2_lt t2⟩ f g 258 (k0_off303_inb t2) (k0_off300_inb t2) (k0_off303_eq t2) (k0_off300_eq t2)
  have e260 : row_trip0.sl.Hrow_w260 d L t2 f g = Srow d L 0 ⟨t2.val, t2_lt t2⟩ f g 260 := by
    unfold row_trip0.sl.Hrow_w260
    rw [e259]
    exact Srow_step (F := F) d L 0 ⟨t2.val, t2_lt t2⟩ f g 259 (k0_off304_inb t2) (k0_off300_inb t2) (k0_off304_eq t2) (k0_off300_eq t2)
  have e261 : row_trip0.sl.Hrow_w261 d L t2 f g = Srow d L 0 ⟨t2.val, t2_lt t2⟩ f g 261 := by
    unfold row_trip0.sl.Hrow_w261
    rw [e260]
    exact Srow_step (F := F) d L 0 ⟨t2.val, t2_lt t2⟩ f g 260 (k0_off305_inb t2) (k0_off300_inb t2) (k0_off305_eq t2) (k0_off300_eq t2)
  have e262 : row_trip0.sl.Hrow_w262 d L t2 f g = Srow d L 0 ⟨t2.val, t2_lt t2⟩ f g 262 := by
    unfold row_trip0.sl.Hrow_w262 row_trip0.sl.r_82
    rw [e261]
    exact Srow_step (F := F) d L 0 ⟨t2.val, t2_lt t2⟩ f g 261 (k0_off306_inb t2) (k0_off300_inb t2) (k0_off306_eq t2) (k0_off300_eq t2)
  have e263 : row_trip0.sl.Hrow_w263 d L t2 f g = Srow d L 0 ⟨t2.val, t2_lt t2⟩ f g 263 := by
    unfold row_trip0.sl.Hrow_w263
    rw [e262]
    exact Srow_step (F := F) d L 0 ⟨t2.val, t2_lt t2⟩ f g 262 (k0_off307_inb t2) (k0_off300_inb t2) (k0_off307_eq t2) (k0_off300_eq t2)
  have e264 : row_trip0.sl.Hrow_w264 d L t2 f g = Srow d L 0 ⟨t2.val, t2_lt t2⟩ f g 264 := by
    unfold row_trip0.sl.Hrow_w264
    rw [e263]
    exact Srow_step (F := F) d L 0 ⟨t2.val, t2_lt t2⟩ f g 263 (k0_off308_inb t2) (k0_off300_inb t2) (k0_off308_eq t2) (k0_off300_eq t2)
  have e265 : row_trip0.sl.Hrow_w265 d L t2 f g = Srow d L 0 ⟨t2.val, t2_lt t2⟩ f g 265 := by
    unfold row_trip0.sl.Hrow_w265 row_trip0.sl.r_84
    rw [e264]
    exact Srow_step (F := F) d L 0 ⟨t2.val, t2_lt t2⟩ f g 264 (k0_off310_inb t2) (k0_off309_inb t2) (k0_off310_eq t2) (k0_off309_eq t2)
  have e266 : row_trip0.sl.Hrow_w266 d L t2 f g = Srow d L 0 ⟨t2.val, t2_lt t2⟩ f g 266 := by
    unfold row_trip0.sl.Hrow_w266
    rw [e265]
    exact Srow_step (F := F) d L 0 ⟨t2.val, t2_lt t2⟩ f g 265 (k0_off311_inb t2) (k0_off309_inb t2) (k0_off311_eq t2) (k0_off309_eq t2)
  have e267 : row_trip0.sl.Hrow_w267 d L t2 f g = Srow d L 0 ⟨t2.val, t2_lt t2⟩ f g 267 := by
    unfold row_trip0.sl.Hrow_w267
    rw [e266]
    exact Srow_step (F := F) d L 0 ⟨t2.val, t2_lt t2⟩ f g 266 (k0_off312_inb t2) (k0_off309_inb t2) (k0_off312_eq t2) (k0_off309_eq t2)
  have e268 : row_trip0.sl.Hrow_w268 d L t2 f g = Srow d L 0 ⟨t2.val, t2_lt t2⟩ f g 268 := by
    unfold row_trip0.sl.Hrow_w268 row_trip0.sl.r_85
    rw [e267]
    exact Srow_step (F := F) d L 0 ⟨t2.val, t2_lt t2⟩ f g 267 (k0_off313_inb t2) (k0_off309_inb t2) (k0_off313_eq t2) (k0_off309_eq t2)
  have e269 : row_trip0.sl.Hrow_w269 d L t2 f g = Srow d L 0 ⟨t2.val, t2_lt t2⟩ f g 269 := by
    unfold row_trip0.sl.Hrow_w269
    rw [e268]
    exact Srow_step (F := F) d L 0 ⟨t2.val, t2_lt t2⟩ f g 268 (k0_off314_inb t2) (k0_off309_inb t2) (k0_off314_eq t2) (k0_off309_eq t2)
  have e270 : row_trip0.sl.Hrow_w270 d L t2 f g = Srow d L 0 ⟨t2.val, t2_lt t2⟩ f g 270 := by
    unfold row_trip0.sl.Hrow_w270
    rw [e269]
    exact Srow_step (F := F) d L 0 ⟨t2.val, t2_lt t2⟩ f g 269 (k0_off315_inb t2) (k0_off309_inb t2) (k0_off315_eq t2) (k0_off309_eq t2)
  have e271 : row_trip0.sl.Hrow_w271 d L t2 f g = Srow d L 0 ⟨t2.val, t2_lt t2⟩ f g 271 := by
    unfold row_trip0.sl.Hrow_w271 row_trip0.sl.r_86
    rw [e270]
    exact Srow_step (F := F) d L 0 ⟨t2.val, t2_lt t2⟩ f g 270 (k0_off316_inb t2) (k0_off309_inb t2) (k0_off316_eq t2) (k0_off309_eq t2)
  have e272 : row_trip0.sl.Hrow_w272 d L t2 f g = Srow d L 0 ⟨t2.val, t2_lt t2⟩ f g 272 := by
    unfold row_trip0.sl.Hrow_w272
    rw [e271]
    exact Srow_step (F := F) d L 0 ⟨t2.val, t2_lt t2⟩ f g 271 (k0_off317_inb t2) (k0_off309_inb t2) (k0_off317_eq t2) (k0_off309_eq t2)
  have e273 : row_trip0.sl.Hrow_w273 d L t2 f g = Srow d L 0 ⟨t2.val, t2_lt t2⟩ f g 273 := by
    unfold row_trip0.sl.Hrow_w273
    rw [e272]
    exact Srow_step (F := F) d L 0 ⟨t2.val, t2_lt t2⟩ f g 272 (k0_off319_inb t2) (k0_off318_inb t2) (k0_off319_eq t2) (k0_off318_eq t2)
  have e274 : row_trip0.sl.Hrow_w274 d L t2 f g = Srow d L 0 ⟨t2.val, t2_lt t2⟩ f g 274 := by
    unfold row_trip0.sl.Hrow_w274 row_trip0.sl.r_88
    rw [e273]
    exact Srow_step (F := F) d L 0 ⟨t2.val, t2_lt t2⟩ f g 273 (k0_off320_inb t2) (k0_off318_inb t2) (k0_off320_eq t2) (k0_off318_eq t2)
  have e275 : row_trip0.sl.Hrow_w275 d L t2 f g = Srow d L 0 ⟨t2.val, t2_lt t2⟩ f g 275 := by
    unfold row_trip0.sl.Hrow_w275
    rw [e274]
    exact Srow_step (F := F) d L 0 ⟨t2.val, t2_lt t2⟩ f g 274 (k0_off321_inb t2) (k0_off318_inb t2) (k0_off321_eq t2) (k0_off318_eq t2)
  have e276 : row_trip0.sl.Hrow_w276 d L t2 f g = Srow d L 0 ⟨t2.val, t2_lt t2⟩ f g 276 := by
    unfold row_trip0.sl.Hrow_w276
    rw [e275]
    exact Srow_step (F := F) d L 0 ⟨t2.val, t2_lt t2⟩ f g 275 (k0_off322_inb t2) (k0_off318_inb t2) (k0_off322_eq t2) (k0_off318_eq t2)
  have e277 : row_trip0.sl.Hrow_w277 d L t2 f g = Srow d L 0 ⟨t2.val, t2_lt t2⟩ f g 277 := by
    unfold row_trip0.sl.Hrow_w277 row_trip0.sl.r_89
    rw [e276]
    exact Srow_step (F := F) d L 0 ⟨t2.val, t2_lt t2⟩ f g 276 (k0_off323_inb t2) (k0_off318_inb t2) (k0_off323_eq t2) (k0_off318_eq t2)
  have e278 : row_trip0.sl.Hrow_w278 d L t2 f g = Srow d L 0 ⟨t2.val, t2_lt t2⟩ f g 278 := by
    unfold row_trip0.sl.Hrow_w278
    rw [e277]
    exact Srow_step (F := F) d L 0 ⟨t2.val, t2_lt t2⟩ f g 277 (k0_off324_inb t2) (k0_off318_inb t2) (k0_off324_eq t2) (k0_off318_eq t2)
  have e279 : row_trip0.sl.Hrow_w279 d L t2 f g = Srow d L 0 ⟨t2.val, t2_lt t2⟩ f g 279 := by
    unfold row_trip0.sl.Hrow_w279
    rw [e278]
    exact Srow_step (F := F) d L 0 ⟨t2.val, t2_lt t2⟩ f g 278 (k0_off325_inb t2) (k0_off318_inb t2) (k0_off325_eq t2) (k0_off318_eq t2)
  have e280 : row_trip0.sl.Hrow_w280 d L t2 f g = Srow d L 0 ⟨t2.val, t2_lt t2⟩ f g 280 := by
    unfold row_trip0.sl.Hrow_w280 row_trip0.sl.r_90
    rw [e279]
    exact Srow_step (F := F) d L 0 ⟨t2.val, t2_lt t2⟩ f g 279 (k0_off326_inb t2) (k0_off318_inb t2) (k0_off326_eq t2) (k0_off318_eq t2)
  have e281 : row_trip0.sl.Hrow_w281 d L t2 f g = Srow d L 0 ⟨t2.val, t2_lt t2⟩ f g 281 := by
    unfold row_trip0.sl.Hrow_w281
    rw [e280]
    exact Srow_step (F := F) d L 0 ⟨t2.val, t2_lt t2⟩ f g 280 (k0_off328_inb t2) (k0_off327_inb t2) (k0_off328_eq t2) (k0_off327_eq t2)
  have e282 : row_trip0.sl.Hrow_w282 d L t2 f g = Srow d L 0 ⟨t2.val, t2_lt t2⟩ f g 282 := by
    unfold row_trip0.sl.Hrow_w282
    rw [e281]
    exact Srow_step (F := F) d L 0 ⟨t2.val, t2_lt t2⟩ f g 281 (k0_off329_inb t2) (k0_off327_inb t2) (k0_off329_eq t2) (k0_off327_eq t2)
  have e283 : row_trip0.sl.Hrow_w283 d L t2 f g = Srow d L 0 ⟨t2.val, t2_lt t2⟩ f g 283 := by
    unfold row_trip0.sl.Hrow_w283 row_trip0.sl.r_92
    rw [e282]
    exact Srow_step (F := F) d L 0 ⟨t2.val, t2_lt t2⟩ f g 282 (k0_off330_inb t2) (k0_off327_inb t2) (k0_off330_eq t2) (k0_off327_eq t2)
  have e284 : row_trip0.sl.Hrow_w284 d L t2 f g = Srow d L 0 ⟨t2.val, t2_lt t2⟩ f g 284 := by
    unfold row_trip0.sl.Hrow_w284
    rw [e283]
    exact Srow_step (F := F) d L 0 ⟨t2.val, t2_lt t2⟩ f g 283 (k0_off331_inb t2) (k0_off327_inb t2) (k0_off331_eq t2) (k0_off327_eq t2)
  have e285 : row_trip0.sl.Hrow_w285 d L t2 f g = Srow d L 0 ⟨t2.val, t2_lt t2⟩ f g 285 := by
    unfold row_trip0.sl.Hrow_w285
    rw [e284]
    exact Srow_step (F := F) d L 0 ⟨t2.val, t2_lt t2⟩ f g 284 (k0_off332_inb t2) (k0_off327_inb t2) (k0_off332_eq t2) (k0_off327_eq t2)
  have e286 : row_trip0.sl.Hrow_w286 d L t2 f g = Srow d L 0 ⟨t2.val, t2_lt t2⟩ f g 286 := by
    unfold row_trip0.sl.Hrow_w286
    rw [e285]
    exact Srow_step (F := F) d L 0 ⟨t2.val, t2_lt t2⟩ f g 285 (k0_off333_inb t2) (k0_off327_inb t2) (k0_off333_eq t2) (k0_off327_eq t2)
  have e287 : row_trip0.sl.Hrow_w287 d L t2 f g = Srow d L 0 ⟨t2.val, t2_lt t2⟩ f g 287 := by
    unfold row_trip0.sl.Hrow_w287
    rw [e286]
    exact Srow_step (F := F) d L 0 ⟨t2.val, t2_lt t2⟩ f g 286 (k0_off334_inb t2) (k0_off327_inb t2) (k0_off334_eq t2) (k0_off327_eq t2)
  have e288 : row_trip0.sl.Hrow_w288 d L t2 f g = Srow d L 0 ⟨t2.val, t2_lt t2⟩ f g 288 := by
    unfold row_trip0.sl.Hrow_w288
    rw [e287]
    exact Srow_step (F := F) d L 0 ⟨t2.val, t2_lt t2⟩ f g 287 (k0_off335_inb t2) (k0_off327_inb t2) (k0_off335_eq t2) (k0_off327_eq t2)
  have e289 : row_trip0.sl.Hrow_w289 d L t2 f g = Srow d L 0 ⟨t2.val, t2_lt t2⟩ f g 289 := by
    unfold row_trip0.sl.Hrow_w289
    rw [e288]
    exact Srow_step (F := F) d L 0 ⟨t2.val, t2_lt t2⟩ f g 288 (k0_off337_inb t2) (k0_off336_inb t2) (k0_off337_eq t2) (k0_off336_eq t2)
  have e290 : row_trip0.sl.Hrow_w290 d L t2 f g = Srow d L 0 ⟨t2.val, t2_lt t2⟩ f g 290 := by
    unfold row_trip0.sl.Hrow_w290
    rw [e289]
    exact Srow_step (F := F) d L 0 ⟨t2.val, t2_lt t2⟩ f g 289 (k0_off338_inb t2) (k0_off336_inb t2) (k0_off338_eq t2) (k0_off336_eq t2)
  have e291 : row_trip0.sl.Hrow_w291 d L t2 f g = Srow d L 0 ⟨t2.val, t2_lt t2⟩ f g 291 := by
    unfold row_trip0.sl.Hrow_w291
    rw [e290]
    exact Srow_step (F := F) d L 0 ⟨t2.val, t2_lt t2⟩ f g 290 (k0_off339_inb t2) (k0_off336_inb t2) (k0_off339_eq t2) (k0_off336_eq t2)
  have e292 : row_trip0.sl.Hrow_w292 d L t2 f g = Srow d L 0 ⟨t2.val, t2_lt t2⟩ f g 292 := by
    unfold row_trip0.sl.Hrow_w292
    rw [e291]
    exact Srow_step (F := F) d L 0 ⟨t2.val, t2_lt t2⟩ f g 291 (k0_off340_inb t2) (k0_off336_inb t2) (k0_off340_eq t2) (k0_off336_eq t2)
  have e293 : row_trip0.sl.Hrow_w293 d L t2 f g = Srow d L 0 ⟨t2.val, t2_lt t2⟩ f g 293 := by
    unfold row_trip0.sl.Hrow_w293
    rw [e292]
    exact Srow_step (F := F) d L 0 ⟨t2.val, t2_lt t2⟩ f g 292 (k0_off341_inb t2) (k0_off336_inb t2) (k0_off341_eq t2) (k0_off336_eq t2)
  have e294 : row_trip0.sl.Hrow_w294 d L t2 f g = Srow d L 0 ⟨t2.val, t2_lt t2⟩ f g 294 := by
    unfold row_trip0.sl.Hrow_w294
    rw [e293]
    exact Srow_step (F := F) d L 0 ⟨t2.val, t2_lt t2⟩ f g 293 (k0_off342_inb t2) (k0_off336_inb t2) (k0_off342_eq t2) (k0_off336_eq t2)
  have e295 : row_trip0.sl.Hrow_w295 d L t2 f g = Srow d L 0 ⟨t2.val, t2_lt t2⟩ f g 295 := by
    unfold row_trip0.sl.Hrow_w295
    rw [e294]
    exact Srow_step (F := F) d L 0 ⟨t2.val, t2_lt t2⟩ f g 294 (k0_off343_inb t2) (k0_off336_inb t2) (k0_off343_eq t2) (k0_off336_eq t2)
  have e296 : row_trip0.sl.Hrow_w296 d L t2 f g = Srow d L 0 ⟨t2.val, t2_lt t2⟩ f g 296 := by
    unfold row_trip0.sl.Hrow_w296
    rw [e295]
    exact Srow_step (F := F) d L 0 ⟨t2.val, t2_lt t2⟩ f g 295 (k0_off344_inb t2) (k0_off336_inb t2) (k0_off344_eq t2) (k0_off336_eq t2)
  have e297 : row_trip0.sl.Hrow_w297 d L t2 f g = Srow d L 0 ⟨t2.val, t2_lt t2⟩ f g 297 := by
    unfold row_trip0.sl.Hrow_w297
    rw [e296]
    exact Srow_step (F := F) d L 0 ⟨t2.val, t2_lt t2⟩ f g 296 (k0_off346_inb t2) (k0_off345_inb t2) (k0_off346_eq t2) (k0_off345_eq t2)
  have e298 : row_trip0.sl.Hrow_w298 d L t2 f g = Srow d L 0 ⟨t2.val, t2_lt t2⟩ f g 298 := by
    unfold row_trip0.sl.Hrow_w298
    rw [e297]
    exact Srow_step (F := F) d L 0 ⟨t2.val, t2_lt t2⟩ f g 297 (k0_off347_inb t2) (k0_off345_inb t2) (k0_off347_eq t2) (k0_off345_eq t2)
  have e299 : row_trip0.sl.Hrow_w299 d L t2 f g = Srow d L 0 ⟨t2.val, t2_lt t2⟩ f g 299 := by
    unfold row_trip0.sl.Hrow_w299
    rw [e298]
    exact Srow_step (F := F) d L 0 ⟨t2.val, t2_lt t2⟩ f g 298 (k0_off348_inb t2) (k0_off345_inb t2) (k0_off348_eq t2) (k0_off345_eq t2)
  have e300 : row_trip0.sl.Hrow_w300 d L t2 f g = Srow d L 0 ⟨t2.val, t2_lt t2⟩ f g 300 := by
    unfold row_trip0.sl.Hrow_w300
    rw [e299]
    exact Srow_step (F := F) d L 0 ⟨t2.val, t2_lt t2⟩ f g 299 (k0_off349_inb t2) (k0_off345_inb t2) (k0_off349_eq t2) (k0_off345_eq t2)
  have e301 : row_trip0.sl.Hrow_w301 d L t2 f g = Srow d L 0 ⟨t2.val, t2_lt t2⟩ f g 301 := by
    unfold row_trip0.sl.Hrow_w301
    rw [e300]
    exact Srow_step (F := F) d L 0 ⟨t2.val, t2_lt t2⟩ f g 300 (k0_off350_inb t2) (k0_off345_inb t2) (k0_off350_eq t2) (k0_off345_eq t2)
  have e302 : row_trip0.sl.Hrow_w302 d L t2 f g = Srow d L 0 ⟨t2.val, t2_lt t2⟩ f g 302 := by
    unfold row_trip0.sl.Hrow_w302 row_trip0.sl.r_95
    rw [e301]
    exact Srow_step (F := F) d L 0 ⟨t2.val, t2_lt t2⟩ f g 301 (k0_off351_inb t2) (k0_off345_inb t2) (k0_off351_eq t2) (k0_off345_eq t2)
  have e303 : row_trip0.sl.Hrow_w303 d L t2 f g = Srow d L 0 ⟨t2.val, t2_lt t2⟩ f g 303 := by
    unfold row_trip0.sl.Hrow_w303
    rw [e302]
    exact Srow_step (F := F) d L 0 ⟨t2.val, t2_lt t2⟩ f g 302 (k0_off352_inb t2) (k0_off345_inb t2) (k0_off352_eq t2) (k0_off345_eq t2)
  have e304 : row_trip0.sl.Hrow_w304 d L t2 f g = Srow d L 0 ⟨t2.val, t2_lt t2⟩ f g 304 := by
    unfold row_trip0.sl.Hrow_w304
    rw [e303]
    exact Srow_step (F := F) d L 0 ⟨t2.val, t2_lt t2⟩ f g 303 (k0_off353_inb t2) (k0_off345_inb t2) (k0_off353_eq t2) (k0_off345_eq t2)
  have e305 : row_trip0.sl.Hrow_w305 d L t2 f g = Srow d L 0 ⟨t2.val, t2_lt t2⟩ f g 305 := by
    unfold row_trip0.sl.Hrow_w305 row_trip0.sl.r_97
    rw [e304]
    exact Srow_step (F := F) d L 0 ⟨t2.val, t2_lt t2⟩ f g 304 (k0_off355_inb t2) (k0_off354_inb t2) (k0_off355_eq t2) (k0_off354_eq t2)
  have e306 : row_trip0.sl.Hrow_w306 d L t2 f g = Srow d L 0 ⟨t2.val, t2_lt t2⟩ f g 306 := by
    unfold row_trip0.sl.Hrow_w306
    rw [e305]
    exact Srow_step (F := F) d L 0 ⟨t2.val, t2_lt t2⟩ f g 305 (k0_off356_inb t2) (k0_off354_inb t2) (k0_off356_eq t2) (k0_off354_eq t2)
  have e307 : row_trip0.sl.Hrow_w307 d L t2 f g = Srow d L 0 ⟨t2.val, t2_lt t2⟩ f g 307 := by
    unfold row_trip0.sl.Hrow_w307
    rw [e306]
    exact Srow_step (F := F) d L 0 ⟨t2.val, t2_lt t2⟩ f g 306 (k0_off357_inb t2) (k0_off354_inb t2) (k0_off357_eq t2) (k0_off354_eq t2)
  have e308 : row_trip0.sl.Hrow_w308 d L t2 f g = Srow d L 0 ⟨t2.val, t2_lt t2⟩ f g 308 := by
    unfold row_trip0.sl.Hrow_w308 row_trip0.sl.r_98
    rw [e307]
    exact Srow_step (F := F) d L 0 ⟨t2.val, t2_lt t2⟩ f g 307 (k0_off358_inb t2) (k0_off354_inb t2) (k0_off358_eq t2) (k0_off354_eq t2)
  have e309 : row_trip0.sl.Hrow_w309 d L t2 f g = Srow d L 0 ⟨t2.val, t2_lt t2⟩ f g 309 := by
    unfold row_trip0.sl.Hrow_w309
    rw [e308]
    exact Srow_step (F := F) d L 0 ⟨t2.val, t2_lt t2⟩ f g 308 (k0_off359_inb t2) (k0_off354_inb t2) (k0_off359_eq t2) (k0_off354_eq t2)
  have e310 : row_trip0.sl.Hrow_w310 d L t2 f g = Srow d L 0 ⟨t2.val, t2_lt t2⟩ f g 310 := by
    unfold row_trip0.sl.Hrow_w310
    rw [e309]
    exact Srow_step (F := F) d L 0 ⟨t2.val, t2_lt t2⟩ f g 309 (k0_off360_inb t2) (k0_off354_inb t2) (k0_off360_eq t2) (k0_off354_eq t2)
  have e311 : row_trip0.sl.Hrow_w311 d L t2 f g = Srow d L 0 ⟨t2.val, t2_lt t2⟩ f g 311 := by
    unfold row_trip0.sl.Hrow_w311 row_trip0.sl.r_99
    rw [e310]
    exact Srow_step (F := F) d L 0 ⟨t2.val, t2_lt t2⟩ f g 310 (k0_off361_inb t2) (k0_off354_inb t2) (k0_off361_eq t2) (k0_off354_eq t2)
  have e312 : row_trip0.sl.Hrow_w312 d L t2 f g = Srow d L 0 ⟨t2.val, t2_lt t2⟩ f g 312 := by
    unfold row_trip0.sl.Hrow_w312
    rw [e311]
    exact Srow_step (F := F) d L 0 ⟨t2.val, t2_lt t2⟩ f g 311 (k0_off362_inb t2) (k0_off354_inb t2) (k0_off362_eq t2) (k0_off354_eq t2)
  have e313 : row_trip0.sl.Hrow_w313 d L t2 f g = Srow d L 0 ⟨t2.val, t2_lt t2⟩ f g 313 := by
    unfold row_trip0.sl.Hrow_w313
    rw [e312]
    exact Srow_step (F := F) d L 0 ⟨t2.val, t2_lt t2⟩ f g 312 (k0_off364_inb t2) (k0_off363_inb t2) (k0_off364_eq t2) (k0_off363_eq t2)
  have e314 : row_trip0.sl.Hrow_w314 d L t2 f g = Srow d L 0 ⟨t2.val, t2_lt t2⟩ f g 314 := by
    unfold row_trip0.sl.Hrow_w314 row_trip0.sl.r_101
    rw [e313]
    exact Srow_step (F := F) d L 0 ⟨t2.val, t2_lt t2⟩ f g 313 (k0_off365_inb t2) (k0_off363_inb t2) (k0_off365_eq t2) (k0_off363_eq t2)
  have e315 : row_trip0.sl.Hrow_w315 d L t2 f g = Srow d L 0 ⟨t2.val, t2_lt t2⟩ f g 315 := by
    unfold row_trip0.sl.Hrow_w315
    rw [e314]
    exact Srow_step (F := F) d L 0 ⟨t2.val, t2_lt t2⟩ f g 314 (k0_off366_inb t2) (k0_off363_inb t2) (k0_off366_eq t2) (k0_off363_eq t2)
  have e316 : row_trip0.sl.Hrow_w316 d L t2 f g = Srow d L 0 ⟨t2.val, t2_lt t2⟩ f g 316 := by
    unfold row_trip0.sl.Hrow_w316
    rw [e315]
    exact Srow_step (F := F) d L 0 ⟨t2.val, t2_lt t2⟩ f g 315 (k0_off367_inb t2) (k0_off363_inb t2) (k0_off367_eq t2) (k0_off363_eq t2)
  have e317 : row_trip0.sl.Hrow_w317 d L t2 f g = Srow d L 0 ⟨t2.val, t2_lt t2⟩ f g 317 := by
    unfold row_trip0.sl.Hrow_w317 row_trip0.sl.r_102
    rw [e316]
    exact Srow_step (F := F) d L 0 ⟨t2.val, t2_lt t2⟩ f g 316 (k0_off368_inb t2) (k0_off363_inb t2) (k0_off368_eq t2) (k0_off363_eq t2)
  have e318 : row_trip0.sl.Hrow_w318 d L t2 f g = Srow d L 0 ⟨t2.val, t2_lt t2⟩ f g 318 := by
    unfold row_trip0.sl.Hrow_w318
    rw [e317]
    exact Srow_step (F := F) d L 0 ⟨t2.val, t2_lt t2⟩ f g 317 (k0_off369_inb t2) (k0_off363_inb t2) (k0_off369_eq t2) (k0_off363_eq t2)
  have e319 : row_trip0.sl.Hrow_w319 d L t2 f g = Srow d L 0 ⟨t2.val, t2_lt t2⟩ f g 319 := by
    unfold row_trip0.sl.Hrow_w319
    rw [e318]
    exact Srow_step (F := F) d L 0 ⟨t2.val, t2_lt t2⟩ f g 318 (k0_off370_inb t2) (k0_off363_inb t2) (k0_off370_eq t2) (k0_off363_eq t2)
  have e320 : row_trip0.sl.Hrow_w320 d L t2 f g = Srow d L 0 ⟨t2.val, t2_lt t2⟩ f g 320 := by
    unfold row_trip0.sl.Hrow_w320 row_trip0.sl.r_103
    rw [e319]
    exact Srow_step (F := F) d L 0 ⟨t2.val, t2_lt t2⟩ f g 319 (k0_off371_inb t2) (k0_off363_inb t2) (k0_off371_eq t2) (k0_off363_eq t2)
  have e321 : row_trip0.sl.Hrow_w321 d L t2 f g = Srow d L 0 ⟨t2.val, t2_lt t2⟩ f g 321 := by
    unfold row_trip0.sl.Hrow_w321
    rw [e320]
    exact Srow_step (F := F) d L 0 ⟨t2.val, t2_lt t2⟩ f g 320 (k0_off373_inb t2) (k0_off372_inb t2) (k0_off373_eq t2) (k0_off372_eq t2)
  have e322 : row_trip0.sl.Hrow_w322 d L t2 f g = Srow d L 0 ⟨t2.val, t2_lt t2⟩ f g 322 := by
    unfold row_trip0.sl.Hrow_w322
    rw [e321]
    exact Srow_step (F := F) d L 0 ⟨t2.val, t2_lt t2⟩ f g 321 (k0_off374_inb t2) (k0_off372_inb t2) (k0_off374_eq t2) (k0_off372_eq t2)
  have e323 : row_trip0.sl.Hrow_w323 d L t2 f g = Srow d L 0 ⟨t2.val, t2_lt t2⟩ f g 323 := by
    unfold row_trip0.sl.Hrow_w323 row_trip0.sl.r_105
    rw [e322]
    exact Srow_step (F := F) d L 0 ⟨t2.val, t2_lt t2⟩ f g 322 (k0_off375_inb t2) (k0_off372_inb t2) (k0_off375_eq t2) (k0_off372_eq t2)
  have e324 : row_trip0.sl.Hrow_w324 d L t2 f g = Srow d L 0 ⟨t2.val, t2_lt t2⟩ f g 324 := by
    unfold row_trip0.sl.Hrow_w324
    rw [e323]
    exact Srow_step (F := F) d L 0 ⟨t2.val, t2_lt t2⟩ f g 323 (k0_off376_inb t2) (k0_off372_inb t2) (k0_off376_eq t2) (k0_off372_eq t2)
  have e325 : row_trip0.sl.Hrow_w325 d L t2 f g = Srow d L 0 ⟨t2.val, t2_lt t2⟩ f g 325 := by
    unfold row_trip0.sl.Hrow_w325
    rw [e324]
    exact Srow_step (F := F) d L 0 ⟨t2.val, t2_lt t2⟩ f g 324 (k0_off377_inb t2) (k0_off372_inb t2) (k0_off377_eq t2) (k0_off372_eq t2)
  have e326 : row_trip0.sl.Hrow_w326 d L t2 f g = Srow d L 0 ⟨t2.val, t2_lt t2⟩ f g 326 := by
    unfold row_trip0.sl.Hrow_w326
    rw [e325]
    exact Srow_step (F := F) d L 0 ⟨t2.val, t2_lt t2⟩ f g 325 (k0_off378_inb t2) (k0_off372_inb t2) (k0_off378_eq t2) (k0_off372_eq t2)
  have e327 : row_trip0.sl.Hrow_w327 d L t2 f g = Srow d L 0 ⟨t2.val, t2_lt t2⟩ f g 327 := by
    unfold row_trip0.sl.Hrow_w327
    rw [e326]
    exact Srow_step (F := F) d L 0 ⟨t2.val, t2_lt t2⟩ f g 326 (k0_off379_inb t2) (k0_off372_inb t2) (k0_off379_eq t2) (k0_off372_eq t2)
  have e328 : row_trip0.sl.Hrow_w328 d L t2 f g = Srow d L 0 ⟨t2.val, t2_lt t2⟩ f g 328 := by
    unfold row_trip0.sl.Hrow_w328
    rw [e327]
    exact Srow_step (F := F) d L 0 ⟨t2.val, t2_lt t2⟩ f g 327 (k0_off380_inb t2) (k0_off372_inb t2) (k0_off380_eq t2) (k0_off372_eq t2)
  have e329 : row_trip0.sl.Hrow_w329 d L t2 f g = Srow d L 0 ⟨t2.val, t2_lt t2⟩ f g 329 := by
    unfold row_trip0.sl.Hrow_w329
    rw [e328]
    exact Srow_step (F := F) d L 0 ⟨t2.val, t2_lt t2⟩ f g 328 (k0_off382_inb t2) (k0_off381_inb t2) (k0_off382_eq t2) (k0_off381_eq t2)
  have e330 : row_trip0.sl.Hrow_w330 d L t2 f g = Srow d L 0 ⟨t2.val, t2_lt t2⟩ f g 330 := by
    unfold row_trip0.sl.Hrow_w330
    rw [e329]
    exact Srow_step (F := F) d L 0 ⟨t2.val, t2_lt t2⟩ f g 329 (k0_off383_inb t2) (k0_off381_inb t2) (k0_off383_eq t2) (k0_off381_eq t2)
  have e331 : row_trip0.sl.Hrow_w331 d L t2 f g = Srow d L 0 ⟨t2.val, t2_lt t2⟩ f g 331 := by
    unfold row_trip0.sl.Hrow_w331
    rw [e330]
    exact Srow_step (F := F) d L 0 ⟨t2.val, t2_lt t2⟩ f g 330 (k0_off384_inb t2) (k0_off381_inb t2) (k0_off384_eq t2) (k0_off381_eq t2)
  have e332 : row_trip0.sl.Hrow_w332 d L t2 f g = Srow d L 0 ⟨t2.val, t2_lt t2⟩ f g 332 := by
    unfold row_trip0.sl.Hrow_w332
    rw [e331]
    exact Srow_step (F := F) d L 0 ⟨t2.val, t2_lt t2⟩ f g 331 (k0_off385_inb t2) (k0_off381_inb t2) (k0_off385_eq t2) (k0_off381_eq t2)
  have e333 : row_trip0.sl.Hrow_w333 d L t2 f g = Srow d L 0 ⟨t2.val, t2_lt t2⟩ f g 333 := by
    unfold row_trip0.sl.Hrow_w333
    rw [e332]
    exact Srow_step (F := F) d L 0 ⟨t2.val, t2_lt t2⟩ f g 332 (k0_off386_inb t2) (k0_off381_inb t2) (k0_off386_eq t2) (k0_off381_eq t2)
  have e334 : row_trip0.sl.Hrow_w334 d L t2 f g = Srow d L 0 ⟨t2.val, t2_lt t2⟩ f g 334 := by
    unfold row_trip0.sl.Hrow_w334
    rw [e333]
    exact Srow_step (F := F) d L 0 ⟨t2.val, t2_lt t2⟩ f g 333 (k0_off387_inb t2) (k0_off381_inb t2) (k0_off387_eq t2) (k0_off381_eq t2)
  have e335 : row_trip0.sl.Hrow_w335 d L t2 f g = Srow d L 0 ⟨t2.val, t2_lt t2⟩ f g 335 := by
    unfold row_trip0.sl.Hrow_w335
    rw [e334]
    exact Srow_step (F := F) d L 0 ⟨t2.val, t2_lt t2⟩ f g 334 (k0_off388_inb t2) (k0_off381_inb t2) (k0_off388_eq t2) (k0_off381_eq t2)
  have e336 : row_trip0.sl.Hrow_w336 d L t2 f g = Srow d L 0 ⟨t2.val, t2_lt t2⟩ f g 336 := by
    unfold row_trip0.sl.Hrow_w336
    rw [e335]
    exact Srow_step (F := F) d L 0 ⟨t2.val, t2_lt t2⟩ f g 335 (k0_off389_inb t2) (k0_off381_inb t2) (k0_off389_eq t2) (k0_off381_eq t2)
  have e337 : row_trip0.sl.Hrow_w337 d L t2 f g = Srow d L 0 ⟨t2.val, t2_lt t2⟩ f g 337 := by
    unfold row_trip0.sl.Hrow_w337
    rw [e336]
    exact Srow_step (F := F) d L 0 ⟨t2.val, t2_lt t2⟩ f g 336 (k0_off391_inb t2) (k0_off390_inb t2) (k0_off391_eq t2) (k0_off390_eq t2)
  have e338 : row_trip0.sl.Hrow_w338 d L t2 f g = Srow d L 0 ⟨t2.val, t2_lt t2⟩ f g 338 := by
    unfold row_trip0.sl.Hrow_w338
    rw [e337]
    exact Srow_step (F := F) d L 0 ⟨t2.val, t2_lt t2⟩ f g 337 (k0_off392_inb t2) (k0_off390_inb t2) (k0_off392_eq t2) (k0_off390_eq t2)
  have e339 : row_trip0.sl.Hrow_w339 d L t2 f g = Srow d L 0 ⟨t2.val, t2_lt t2⟩ f g 339 := by
    unfold row_trip0.sl.Hrow_w339
    rw [e338]
    exact Srow_step (F := F) d L 0 ⟨t2.val, t2_lt t2⟩ f g 338 (k0_off393_inb t2) (k0_off390_inb t2) (k0_off393_eq t2) (k0_off390_eq t2)
  have e340 : row_trip0.sl.Hrow_w340 d L t2 f g = Srow d L 0 ⟨t2.val, t2_lt t2⟩ f g 340 := by
    unfold row_trip0.sl.Hrow_w340
    rw [e339]
    exact Srow_step (F := F) d L 0 ⟨t2.val, t2_lt t2⟩ f g 339 (k0_off394_inb t2) (k0_off390_inb t2) (k0_off394_eq t2) (k0_off390_eq t2)
  have e341 : row_trip0.sl.Hrow_w341 d L t2 f g = Srow d L 0 ⟨t2.val, t2_lt t2⟩ f g 341 := by
    unfold row_trip0.sl.Hrow_w341
    rw [e340]
    exact Srow_step (F := F) d L 0 ⟨t2.val, t2_lt t2⟩ f g 340 (k0_off395_inb t2) (k0_off390_inb t2) (k0_off395_eq t2) (k0_off390_eq t2)
  have e342 : row_trip0.sl.Hrow_w342 d L t2 f g = Srow d L 0 ⟨t2.val, t2_lt t2⟩ f g 342 := by
    unfold row_trip0.sl.Hrow_w342 row_trip0.sl.r_108
    rw [e341]
    exact Srow_step (F := F) d L 0 ⟨t2.val, t2_lt t2⟩ f g 341 (k0_off396_inb t2) (k0_off390_inb t2) (k0_off396_eq t2) (k0_off390_eq t2)
  have e343 : row_trip0.sl.Hrow_w343 d L t2 f g = Srow d L 0 ⟨t2.val, t2_lt t2⟩ f g 343 := by
    unfold row_trip0.sl.Hrow_w343
    rw [e342]
    exact Srow_step (F := F) d L 0 ⟨t2.val, t2_lt t2⟩ f g 342 (k0_off397_inb t2) (k0_off390_inb t2) (k0_off397_eq t2) (k0_off390_eq t2)
  have e344 : row_trip0.sl.Hrow_w344 d L t2 f g = Srow d L 0 ⟨t2.val, t2_lt t2⟩ f g 344 := by
    unfold row_trip0.sl.Hrow_w344
    rw [e343]
    exact Srow_step (F := F) d L 0 ⟨t2.val, t2_lt t2⟩ f g 343 (k0_off398_inb t2) (k0_off390_inb t2) (k0_off398_eq t2) (k0_off390_eq t2)
  have e345 : row_trip0.sl.Hrow_w345 d L t2 f g = Srow d L 0 ⟨t2.val, t2_lt t2⟩ f g 345 := by
    unfold row_trip0.sl.Hrow_w345 row_trip0.sl.r_110
    rw [e344]
    exact Srow_step (F := F) d L 0 ⟨t2.val, t2_lt t2⟩ f g 344 (k0_off400_inb t2) (k0_off399_inb t2) (k0_off400_eq t2) (k0_off399_eq t2)
  have e346 : row_trip0.sl.Hrow_w346 d L t2 f g = Srow d L 0 ⟨t2.val, t2_lt t2⟩ f g 346 := by
    unfold row_trip0.sl.Hrow_w346
    rw [e345]
    exact Srow_step (F := F) d L 0 ⟨t2.val, t2_lt t2⟩ f g 345 (k0_off401_inb t2) (k0_off399_inb t2) (k0_off401_eq t2) (k0_off399_eq t2)
  have e347 : row_trip0.sl.Hrow_w347 d L t2 f g = Srow d L 0 ⟨t2.val, t2_lt t2⟩ f g 347 := by
    unfold row_trip0.sl.Hrow_w347
    rw [e346]
    exact Srow_step (F := F) d L 0 ⟨t2.val, t2_lt t2⟩ f g 346 (k0_off402_inb t2) (k0_off399_inb t2) (k0_off402_eq t2) (k0_off399_eq t2)
  have e348 : row_trip0.sl.Hrow_w348 d L t2 f g = Srow d L 0 ⟨t2.val, t2_lt t2⟩ f g 348 := by
    unfold row_trip0.sl.Hrow_w348 row_trip0.sl.r_111
    rw [e347]
    exact Srow_step (F := F) d L 0 ⟨t2.val, t2_lt t2⟩ f g 347 (k0_off403_inb t2) (k0_off399_inb t2) (k0_off403_eq t2) (k0_off399_eq t2)
  have e349 : row_trip0.sl.Hrow_w349 d L t2 f g = Srow d L 0 ⟨t2.val, t2_lt t2⟩ f g 349 := by
    unfold row_trip0.sl.Hrow_w349
    rw [e348]
    exact Srow_step (F := F) d L 0 ⟨t2.val, t2_lt t2⟩ f g 348 (k0_off404_inb t2) (k0_off399_inb t2) (k0_off404_eq t2) (k0_off399_eq t2)
  have e350 : row_trip0.sl.Hrow_w350 d L t2 f g = Srow d L 0 ⟨t2.val, t2_lt t2⟩ f g 350 := by
    unfold row_trip0.sl.Hrow_w350
    rw [e349]
    exact Srow_step (F := F) d L 0 ⟨t2.val, t2_lt t2⟩ f g 349 (k0_off405_inb t2) (k0_off399_inb t2) (k0_off405_eq t2) (k0_off399_eq t2)
  have e351 : row_trip0.sl.Hrow_w351 d L t2 f g = Srow d L 0 ⟨t2.val, t2_lt t2⟩ f g 351 := by
    unfold row_trip0.sl.Hrow_w351 row_trip0.sl.r_112
    rw [e350]
    exact Srow_step (F := F) d L 0 ⟨t2.val, t2_lt t2⟩ f g 350 (k0_off406_inb t2) (k0_off399_inb t2) (k0_off406_eq t2) (k0_off399_eq t2)
  have e352 : row_trip0.sl.Hrow_w352 d L t2 f g = Srow d L 0 ⟨t2.val, t2_lt t2⟩ f g 352 := by
    unfold row_trip0.sl.Hrow_w352
    rw [e351]
    exact Srow_step (F := F) d L 0 ⟨t2.val, t2_lt t2⟩ f g 351 (k0_off407_inb t2) (k0_off399_inb t2) (k0_off407_eq t2) (k0_off399_eq t2)
  have e353 : row_trip0.sl.Hrow_w353 d L t2 f g = Srow d L 0 ⟨t2.val, t2_lt t2⟩ f g 353 := by
    unfold row_trip0.sl.Hrow_w353
    rw [e352]
    exact Srow_step (F := F) d L 0 ⟨t2.val, t2_lt t2⟩ f g 352 (k0_off409_inb t2) (k0_off408_inb t2) (k0_off409_eq t2) (k0_off408_eq t2)
  have e354 : row_trip0.sl.Hrow_w354 d L t2 f g = Srow d L 0 ⟨t2.val, t2_lt t2⟩ f g 354 := by
    unfold row_trip0.sl.Hrow_w354 row_trip0.sl.r_114
    rw [e353]
    exact Srow_step (F := F) d L 0 ⟨t2.val, t2_lt t2⟩ f g 353 (k0_off410_inb t2) (k0_off408_inb t2) (k0_off410_eq t2) (k0_off408_eq t2)
  have e355 : row_trip0.sl.Hrow_w355 d L t2 f g = Srow d L 0 ⟨t2.val, t2_lt t2⟩ f g 355 := by
    unfold row_trip0.sl.Hrow_w355
    rw [e354]
    exact Srow_step (F := F) d L 0 ⟨t2.val, t2_lt t2⟩ f g 354 (k0_off411_inb t2) (k0_off408_inb t2) (k0_off411_eq t2) (k0_off408_eq t2)
  have e356 : row_trip0.sl.Hrow_w356 d L t2 f g = Srow d L 0 ⟨t2.val, t2_lt t2⟩ f g 356 := by
    unfold row_trip0.sl.Hrow_w356
    rw [e355]
    exact Srow_step (F := F) d L 0 ⟨t2.val, t2_lt t2⟩ f g 355 (k0_off412_inb t2) (k0_off408_inb t2) (k0_off412_eq t2) (k0_off408_eq t2)
  have e357 : row_trip0.sl.Hrow_w357 d L t2 f g = Srow d L 0 ⟨t2.val, t2_lt t2⟩ f g 357 := by
    unfold row_trip0.sl.Hrow_w357 row_trip0.sl.r_115
    rw [e356]
    exact Srow_step (F := F) d L 0 ⟨t2.val, t2_lt t2⟩ f g 356 (k0_off413_inb t2) (k0_off408_inb t2) (k0_off413_eq t2) (k0_off408_eq t2)
  have e358 : row_trip0.sl.Hrow_w358 d L t2 f g = Srow d L 0 ⟨t2.val, t2_lt t2⟩ f g 358 := by
    unfold row_trip0.sl.Hrow_w358
    rw [e357]
    exact Srow_step (F := F) d L 0 ⟨t2.val, t2_lt t2⟩ f g 357 (k0_off414_inb t2) (k0_off408_inb t2) (k0_off414_eq t2) (k0_off408_eq t2)
  have e359 : row_trip0.sl.Hrow_w359 d L t2 f g = Srow d L 0 ⟨t2.val, t2_lt t2⟩ f g 359 := by
    unfold row_trip0.sl.Hrow_w359
    rw [e358]
    exact Srow_step (F := F) d L 0 ⟨t2.val, t2_lt t2⟩ f g 358 (k0_off415_inb t2) (k0_off408_inb t2) (k0_off415_eq t2) (k0_off408_eq t2)
  have e360 : row_trip0.sl.Hrow_w360 d L t2 f g = Srow d L 0 ⟨t2.val, t2_lt t2⟩ f g 360 := by
    unfold row_trip0.sl.Hrow_w360 row_trip0.sl.r_116
    rw [e359]
    exact Srow_step (F := F) d L 0 ⟨t2.val, t2_lt t2⟩ f g 359 (k0_off416_inb t2) (k0_off408_inb t2) (k0_off416_eq t2) (k0_off408_eq t2)
  have e361 : row_trip0.sl.Hrow_w361 d L t2 f g = Srow d L 0 ⟨t2.val, t2_lt t2⟩ f g 361 := by
    unfold row_trip0.sl.Hrow_w361
    rw [e360]
    exact Srow_step (F := F) d L 0 ⟨t2.val, t2_lt t2⟩ f g 360 (k0_off418_inb t2) (k0_off417_inb t2) (k0_off418_eq t2) (k0_off417_eq t2)
  have e362 : row_trip0.sl.Hrow_w362 d L t2 f g = Srow d L 0 ⟨t2.val, t2_lt t2⟩ f g 362 := by
    unfold row_trip0.sl.Hrow_w362
    rw [e361]
    exact Srow_step (F := F) d L 0 ⟨t2.val, t2_lt t2⟩ f g 361 (k0_off419_inb t2) (k0_off417_inb t2) (k0_off419_eq t2) (k0_off417_eq t2)
  have e363 : row_trip0.sl.Hrow_w363 d L t2 f g = Srow d L 0 ⟨t2.val, t2_lt t2⟩ f g 363 := by
    unfold row_trip0.sl.Hrow_w363 row_trip0.sl.r_118
    rw [e362]
    exact Srow_step (F := F) d L 0 ⟨t2.val, t2_lt t2⟩ f g 362 (k0_off420_inb t2) (k0_off417_inb t2) (k0_off420_eq t2) (k0_off417_eq t2)
  have e364 : row_trip0.sl.Hrow_w364 d L t2 f g = Srow d L 0 ⟨t2.val, t2_lt t2⟩ f g 364 := by
    unfold row_trip0.sl.Hrow_w364
    rw [e363]
    exact Srow_step (F := F) d L 0 ⟨t2.val, t2_lt t2⟩ f g 363 (k0_off421_inb t2) (k0_off417_inb t2) (k0_off421_eq t2) (k0_off417_eq t2)
  have e365 : row_trip0.sl.Hrow_w365 d L t2 f g = Srow d L 0 ⟨t2.val, t2_lt t2⟩ f g 365 := by
    unfold row_trip0.sl.Hrow_w365
    rw [e364]
    exact Srow_step (F := F) d L 0 ⟨t2.val, t2_lt t2⟩ f g 364 (k0_off422_inb t2) (k0_off417_inb t2) (k0_off422_eq t2) (k0_off417_eq t2)
  have e366 : row_trip0.sl.Hrow_w366 d L t2 f g = Srow d L 0 ⟨t2.val, t2_lt t2⟩ f g 366 := by
    unfold row_trip0.sl.Hrow_w366
    rw [e365]
    exact Srow_step (F := F) d L 0 ⟨t2.val, t2_lt t2⟩ f g 365 (k0_off423_inb t2) (k0_off417_inb t2) (k0_off423_eq t2) (k0_off417_eq t2)
  have e367 : row_trip0.sl.Hrow_w367 d L t2 f g = Srow d L 0 ⟨t2.val, t2_lt t2⟩ f g 367 := by
    unfold row_trip0.sl.Hrow_w367
    rw [e366]
    exact Srow_step (F := F) d L 0 ⟨t2.val, t2_lt t2⟩ f g 366 (k0_off424_inb t2) (k0_off417_inb t2) (k0_off424_eq t2) (k0_off417_eq t2)
  have e368 : row_trip0.sl.Hrow_w368 d L t2 f g = Srow d L 0 ⟨t2.val, t2_lt t2⟩ f g 368 := by
    unfold row_trip0.sl.Hrow_w368
    rw [e367]
    exact Srow_step (F := F) d L 0 ⟨t2.val, t2_lt t2⟩ f g 367 (k0_off425_inb t2) (k0_off417_inb t2) (k0_off425_eq t2) (k0_off417_eq t2)
  have e369 : row_trip0.sl.Hrow_w369 d L t2 f g = Srow d L 0 ⟨t2.val, t2_lt t2⟩ f g 369 := by
    unfold row_trip0.sl.Hrow_w369
    rw [e368]
    exact Srow_step (F := F) d L 0 ⟨t2.val, t2_lt t2⟩ f g 368 (k0_off427_inb t2) (k0_off426_inb t2) (k0_off427_eq t2) (k0_off426_eq t2)
  have e370 : row_trip0.sl.Hrow_w370 d L t2 f g = Srow d L 0 ⟨t2.val, t2_lt t2⟩ f g 370 := by
    unfold row_trip0.sl.Hrow_w370
    rw [e369]
    exact Srow_step (F := F) d L 0 ⟨t2.val, t2_lt t2⟩ f g 369 (k0_off428_inb t2) (k0_off426_inb t2) (k0_off428_eq t2) (k0_off426_eq t2)
  have e371 : row_trip0.sl.Hrow_w371 d L t2 f g = Srow d L 0 ⟨t2.val, t2_lt t2⟩ f g 371 := by
    unfold row_trip0.sl.Hrow_w371
    rw [e370]
    exact Srow_step (F := F) d L 0 ⟨t2.val, t2_lt t2⟩ f g 370 (k0_off429_inb t2) (k0_off426_inb t2) (k0_off429_eq t2) (k0_off426_eq t2)
  have e372 : row_trip0.sl.Hrow_w372 d L t2 f g = Srow d L 0 ⟨t2.val, t2_lt t2⟩ f g 372 := by
    unfold row_trip0.sl.Hrow_w372
    rw [e371]
    exact Srow_step (F := F) d L 0 ⟨t2.val, t2_lt t2⟩ f g 371 (k0_off430_inb t2) (k0_off426_inb t2) (k0_off430_eq t2) (k0_off426_eq t2)
  have e373 : row_trip0.sl.Hrow_w373 d L t2 f g = Srow d L 0 ⟨t2.val, t2_lt t2⟩ f g 373 := by
    unfold row_trip0.sl.Hrow_w373
    rw [e372]
    exact Srow_step (F := F) d L 0 ⟨t2.val, t2_lt t2⟩ f g 372 (k0_off431_inb t2) (k0_off426_inb t2) (k0_off431_eq t2) (k0_off426_eq t2)
  have e374 : row_trip0.sl.Hrow_w374 d L t2 f g = Srow d L 0 ⟨t2.val, t2_lt t2⟩ f g 374 := by
    unfold row_trip0.sl.Hrow_w374
    rw [e373]
    exact Srow_step (F := F) d L 0 ⟨t2.val, t2_lt t2⟩ f g 373 (k0_off432_inb t2) (k0_off426_inb t2) (k0_off432_eq t2) (k0_off426_eq t2)
  have e375 : row_trip0.sl.Hrow_w375 d L t2 f g = Srow d L 0 ⟨t2.val, t2_lt t2⟩ f g 375 := by
    unfold row_trip0.sl.Hrow_w375
    rw [e374]
    exact Srow_step (F := F) d L 0 ⟨t2.val, t2_lt t2⟩ f g 374 (k0_off433_inb t2) (k0_off426_inb t2) (k0_off433_eq t2) (k0_off426_eq t2)
  have e376 : row_trip0.sl.Hrow_w376 d L t2 f g = Srow d L 0 ⟨t2.val, t2_lt t2⟩ f g 376 := by
    unfold row_trip0.sl.Hrow_w376
    rw [e375]
    exact Srow_step (F := F) d L 0 ⟨t2.val, t2_lt t2⟩ f g 375 (k0_off434_inb t2) (k0_off426_inb t2) (k0_off434_eq t2) (k0_off426_eq t2)
  have e377 : row_trip0.sl.Hrow_w377 d L t2 f g = Srow d L 0 ⟨t2.val, t2_lt t2⟩ f g 377 := by
    unfold row_trip0.sl.Hrow_w377
    rw [e376]
    exact Srow_step (F := F) d L 0 ⟨t2.val, t2_lt t2⟩ f g 376 (k0_off436_inb t2) (k0_off435_inb t2) (k0_off436_eq t2) (k0_off435_eq t2)
  have e378 : row_trip0.sl.Hrow_w378 d L t2 f g = Srow d L 0 ⟨t2.val, t2_lt t2⟩ f g 378 := by
    unfold row_trip0.sl.Hrow_w378
    rw [e377]
    exact Srow_step (F := F) d L 0 ⟨t2.val, t2_lt t2⟩ f g 377 (k0_off437_inb t2) (k0_off435_inb t2) (k0_off437_eq t2) (k0_off435_eq t2)
  have e379 : row_trip0.sl.Hrow_w379 d L t2 f g = Srow d L 0 ⟨t2.val, t2_lt t2⟩ f g 379 := by
    unfold row_trip0.sl.Hrow_w379
    rw [e378]
    exact Srow_step (F := F) d L 0 ⟨t2.val, t2_lt t2⟩ f g 378 (k0_off438_inb t2) (k0_off435_inb t2) (k0_off438_eq t2) (k0_off435_eq t2)
  have e380 : row_trip0.sl.Hrow_w380 d L t2 f g = Srow d L 0 ⟨t2.val, t2_lt t2⟩ f g 380 := by
    unfold row_trip0.sl.Hrow_w380
    rw [e379]
    exact Srow_step (F := F) d L 0 ⟨t2.val, t2_lt t2⟩ f g 379 (k0_off439_inb t2) (k0_off435_inb t2) (k0_off439_eq t2) (k0_off435_eq t2)
  have e381 : row_trip0.sl.Hrow_w381 d L t2 f g = Srow d L 0 ⟨t2.val, t2_lt t2⟩ f g 381 := by
    unfold row_trip0.sl.Hrow_w381
    rw [e380]
    exact Srow_step (F := F) d L 0 ⟨t2.val, t2_lt t2⟩ f g 380 (k0_off440_inb t2) (k0_off435_inb t2) (k0_off440_eq t2) (k0_off435_eq t2)
  have e382 : row_trip0.sl.Hrow_w382 d L t2 f g = Srow d L 0 ⟨t2.val, t2_lt t2⟩ f g 382 := by
    unfold row_trip0.sl.Hrow_w382 row_trip0.sl.r_121
    rw [e381]
    exact Srow_step (F := F) d L 0 ⟨t2.val, t2_lt t2⟩ f g 381 (k0_off441_inb t2) (k0_off435_inb t2) (k0_off441_eq t2) (k0_off435_eq t2)
  have e383 : row_trip0.sl.Hrow_w383 d L t2 f g = Srow d L 0 ⟨t2.val, t2_lt t2⟩ f g 383 := by
    unfold row_trip0.sl.Hrow_w383
    rw [e382]
    exact Srow_step (F := F) d L 0 ⟨t2.val, t2_lt t2⟩ f g 382 (k0_off442_inb t2) (k0_off435_inb t2) (k0_off442_eq t2) (k0_off435_eq t2)
  have e384 : row_trip0.sl.Hrow_w384 d L t2 f g = Srow d L 0 ⟨t2.val, t2_lt t2⟩ f g 384 := by
    unfold row_trip0.sl.Hrow_w384
    rw [e383]
    exact Srow_step (F := F) d L 0 ⟨t2.val, t2_lt t2⟩ f g 383 (k0_off443_inb t2) (k0_off435_inb t2) (k0_off443_eq t2) (k0_off435_eq t2)
  have hval : row_trip0.sl.Hrow_w384 d L t2 f g = rowSum d L 0 ⟨t2.val, t2_lt t2⟩ f g := by rw [e384, Srow_full]
  rw [hval]
  -- the row copy: its source is the row, spelt by the program through the trip's offsets
  ihave Hrow' := (Entails.of_eq (pts_rowAt (F := F) d L t2 (k0_off444 t2) (k0_off444_inb t2) (k0_off444_eq t2) _)) $$ Hrow
  iapply (Transfers.wp_dmaBatched (countersEmb (U := UU)) 𝒱₀ (thr d L) none (default : HIx 1) Nrow rfl (Finset.Subset.refl _) hj hu) $$ [Hrow' Hout HB]
  · isplitl [Hrow']; · iexact Hrow'
    isplitl [Hout]; · iexact Hout
    iexact HB
  iintro HB
  rw [deliv_rowAt (F := F) d L t1 t2 (k0_off444 t2) (k0_off444_inb t2) (k0_off444_eq t2) fo]
  sl_step
  isplitl [Hpos]; · iexact Hpos
  isplitl [HB]; · iexact HB
  iexact HO

end Cert.KernelIdeal.Hand

end
-- ==== Proof.RowTrip1I.lean ====
/-
  One trip of the second row loop runs, and records its row copy.

  The trip's 816 memory operations touch two things only: position row r of staging slot 1, which the trip holds by
  exactly its own entries, and the chunk's position rows, held whole and only read. Every load and store of the slot
  goes through the whole staging buffer at a box [1, 1, 1, 16] inside that row; so the trip needs nothing else of the
  buffer. After the stores the row holds some contents; the trip then starts ONE copy, of the row to the eight batch
  rows of the output it belongs to (the second half of the worker's batches), on the slot's outgoing semaphore, and
  the copy's delivery (the output rows overwritten with the row, and the row back) is recorded as the next of the
  semaphore's batch of eight. Nothing is waited for in a trip, so what the worker owes and the waits it has recorded
  are unchanged.
-/
import proofs.«204390_g6468220748199_cont_9to1_m_1136_17_alg».proof.Proof.RowSpecI
import proofs.«204390_g6468220748199_cont_9to1_m_1136_17_alg».proof.Proof.OffsetsI
import proofs.«204390_g6468220748199_cont_9to1_m_1136_17_alg».proof.Proof.Gen.KernelIdeal.Skeleton

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Tactic

variable {F : FTy → Type} [FloatOps F] [∀ e, Nonempty (Elt F e)]

local notation "𝕄" => MT nD τ sig (HIx 1) (Elt F) ℕ UU ℕ

variable (d : Dev nD) (L : grid0.Coords)

/-- A position row of the staging buffer sliced at any offsets, as the program slices it. -/
abbrev rowAt1 (o : Fin 4 → Nat) (ho : ∀ a, o a + S1x8x1x768.size a ≤ S2x8x8x768.size a) : Memref sig .scVector .vmem S8x768 .f32 :=
  (slotV.slice (Rect.unit (s := S2x8x8x768) o S1x8x1x768.size ho) (fun _ => rfl)).squeeze S8x768 squeezes_S1x8x1x768_S8x768

/-- The row held through the program's slice is the row held through the named window of slot 1, when the offsets are
    the window's. -/
theorem pts_rowAt1 (t3 : Fin k0_t3_loop.trips) (o : Fin 4 → Nat) (ho : ∀ a, o a + S1x8x1x768.size a ≤ S2x8x8x768.size a)
    (e : o = ![1, 0, t3.val, 0]) (C : Buf (Elt F) ((thr d L).loc cc0_scratch1)) :
    ((rowWin 1 ⟨t3.val, t3_lt t3⟩ Nat.one_lt_two).view.loc (thr d L) ↦[(rowWin 1 ⟨t3.val, t3_lt t3⟩ Nat.one_lt_two).view.set]{fullShare} C : sProp 𝕄)
      = ((rowAt1 o ho).view.loc (thr d L) ↦[(rowAt1 o ho).view.set]{fullShare} C) := by
  subst e; rfl

/-- The delivery recorded through the program's slice is the named delivery. -/
theorem deliv_rowAt1 (t1 : Fin k0_t1_loop.trips) (t3 : Fin k0_t3_loop.trips) (o : Fin 4 → Nat)
    (ho : ∀ a, o a + S1x8x1x768.size a ≤ S2x8x8x768.size a) (e : o = ![1, 0, t3.val, 0])
    (fo : Buf (Elt F) (oLoc d)) (C : Buf (Elt F) ((thr d L).loc cc0_scratch1)) :
    (iprop(((outRow1 L t1 t3).view.loc (thr d L) ↦[(outRow1 L t1 t3).view.set]{fullShare}
          (outRow1 L t1 t3).view.write (Elt F) fo (ReadAs.same.apply ((rowAt1 o ho).view.read (Elt F) C)) Finset.univ)
        ∗ ((rowAt1 o ho).view.loc (thr d L) ↦[(rowAt1 o ho).view.set]{fullShare} C)) : sProp 𝕄)
      = deliv1 d L t1 t3 fo C := by
  subst e; rfl

theorem row_trip1F : RowTrip1F (F := F) d L := by
  intro t1 t3 v29 v30 a10 O W f g fo Ds u hj hu
  generalize hP : (iprop(□ Transfers.MayWaits (thr d L) (none : HIx 1) O
        ∗ ((rowWin 1 ⟨t3.val, t3_lt t3⟩ Nat.one_lt_two).view.loc (thr d L) ↦[(rowWin 1 ⟨t3.val, t3_lt t3⟩ Nat.one_lt_two).view.set]{fullShare} f)
        ∗ ((posV : Memref sig .scVector .vmem S8x768 .f32).view.loc (thr d L) ↦{fullShare} g)
        ∗ ((outRow1 L t1 t3).view.loc (thr d L) ↦[(outRow1 L t1 t3).view.set]{fullShare} fo)
        ∗ Transfers.Batched (countersEmb (U := UU)) (thr d L) (SemLoc.dma (sig := sig) (3 : Fin 9)) (default : HIx 1) Nrow 8 Ds u
        ∗ owes (thr d L) O W) : sProp 𝕄) = P
  unfold k0_t3_body
  subst hP
  iintro ⟨#Hmw, Hrow, Hpos, Hout, HB, HO⟩
  -- the row number as the boxes' closed forms spell it
  have hv : ((⟨t3.val, t3_lt t3⟩ : Fin 8)).val = t3.val := rfl
  sl_exec_parts
  -- the row copy: its source is the row, spelt by the program through the trip's offsets
  ihave Hrow' := (Entails.of_eq (pts_rowAt1 (F := F) d L t3 (k0_off880 t3) (k0_off880_inb t3) (k0_off880_eq t3) _)) $$ Hrow
  iapply (Transfers.wp_dmaBatched (countersEmb (U := UU)) 𝒱₀ (thr d L) none (default : HIx 1) Nrow rfl (Finset.Subset.refl _) hj hu) $$ [Hrow' Hout HB]
  · isplitl [Hrow']; · iexact Hrow'
    isplitl [Hout]; · iexact Hout
    iexact HB
  iintro HB
  rw [deliv_rowAt1 (F := F) d L t1 t3 (k0_off880 t3) (k0_off880_inb t3) (k0_off880_eq t3) fo]
  sl_step
  iexists _
  isplitl [Hpos]; · iexact Hpos
  isplitl [HB]; · iexact HB
  iexact HO

end Cert.KernelIdeal.Hand

end
-- ==== Proof.RowTrip1VI.lean ====
/-
  One trip of the second row loop, with the row named afterwards.

  The trip's stores go, one lane group of one batch row at a time, through 384 boxes [1, 1, 1, 16] that tile position
  row r of staging slot 1: store N (N = 1 … 384) writes batch row (N - 1) % 8 of lane group (N - 1) / 8. Each store
  writes what it has just read from its own box plus the lane group's sixteen entries of the chunk's position row r.
  No box is written twice and no store reads a box another store wrote, so after store N the entries of the first N
  boxes are what the row held plus the position row's entry of the same feature, and the rest is as it was (the
  invariant `Srow`); after the last store that is `rowSum`. The row copy then records its delivery over exactly
  that array.
-/
import proofs.«204390_g6468220748199_cont_9to1_m_1136_17_alg».proof.Proof.RowSpecI
import proofs.«204390_g6468220748199_cont_9to1_m_1136_17_alg».proof.Proof.RowValueI
import proofs.«204390_g6468220748199_cont_9to1_m_1136_17_alg».proof.Proof.RowTrip1I
import proofs.«204390_g6468220748199_cont_9to1_m_1136_17_alg».proof.Proof.OffsetsI
import proofs.«204390_g6468220748199_cont_9to1_m_1136_17_alg».proof.Proof.Gen.KernelIdeal.Skeleton

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Tactic

variable {F : FTy → Type} [FloatOps F] [∀ e, Nonempty (Elt F e)]

local notation "𝕄" => MT nD τ sig (HIx 1) (Elt F) ℕ UU ℕ

variable (d : Dev nD) (L : grid0.Coords)

/-- The step of the invariant with the row before the store as a variable: a store of "what the box holds plus the
    position row's lane group" into box n of a row that is `Srow … n` leaves `Srow … (n + 1)`. -/
theorem Srow_step' (pb : ℕ) (r : Fin 8) (f : Buf (Elt F) ((thr d L).loc cc0_scratch1)) (g : Buf (Elt F) ((thr d L).loc cc0_scratch0))
    (n : ℕ) {prev : Buf (Elt F) ((thr d L).loc cc0_scratch1)} (hprev : prev = Srow d L pb r f g n)
    {offA : Fin 4 → ℕ} {offB : Fin 2 → ℕ}
    {inbA : ∀ a, offA a + S1x1x1x16.size a ≤ S2x8x8x768.size a} {inbB : ∀ a, offB a + S1x16.size a ≤ S8x768.size a}
    (hA : offA = ![pb, n % 8, r.val, 16 * (n / 8)]) (hB : offB = ![r.val, 16 * (n / 8)])
    {h1 : S1x1x1x16.ShapeCasts S16} {h2 : S1x16.ShapeCasts S16} {h3 : S16.ShapeCasts S1x1x1x16} :
    View.write (Elt F) (slotV.access (Rect.unit (s := S2x8x8x768) offA S1x1x1x16.size inbA)) prev
        (shapeCast S1x1x1x16 (addf (shapeCast S16 (View.readAt (Elt F) slotV.view (Rect.unit (s := S2x8x8x768) offA S1x1x1x16.size inbA).toLoadRect prev) h1)
          (shapeCast S16 (View.readAt (Elt F) posV.view (Rect.unit (s := S8x768) offB S1x16.size inbB).toLoadRect g) h2)) h3) Finset.univ
      = Srow d L pb r f g (n + 1) := by
  subst hprev
  exact Srow_step d L pb r f g n inbA inbB hA hB

open Lean Elab Tactic in
set_option hygiene false in
/-- After store N of the trip the row is `Srow … N`, for N = 1 … 384 in turn: equation `eN` from `e(N-1)` by the step of
    the invariant at the box's offsets in closed form; `e1` from the row as the trip found it. The contents are named
    `<run>.sl.Hrow_wN` by the run whose theorem is `<run>`; the equations are over the caller's d, L, t3, f, g. -/
elab "row_chain1 " run:ident : tactic => do
  for n in [1:385] do
    let eN := mkIdent (Name.mkSimple s!"e{n}")
    let hN := mkIdent ((run.getId ++ `sl).str s!"Hrow_w{n}")
    let nLit := Syntax.mkNumLit (toString n)
    let mLit := Syntax.mkNumLit (toString (n - 1))
    if n = 1 then
      evalTactic (← `(tactic| have $eN : $hN d L t3 f g = Srow d L 1 ⟨t3.val, t3_lt t3⟩ f g $nLit :=
        Srow_step' d L 1 ⟨t3.val, t3_lt t3⟩ f g $mLit (Srow_zero d L 1 ⟨t3.val, t3_lt t3⟩ f g).symm ClosedOff.eq ClosedOff.eq))
    else
      let eP := mkIdent (Name.mkSimple s!"e{n - 1}")
      evalTactic (← `(tactic| have $eN : $hN d L t3 f g = Srow d L 1 ⟨t3.val, t3_lt t3⟩ f g $nLit :=
        Srow_step' d L 1 ⟨t3.val, t3_lt t3⟩ f g $mLit $eP ClosedOff.eq ClosedOff.eq))

set_option maxRecDepth 8192 in
set_option maxHeartbeats 8000000 in
theorem row_trip1 : RowTrip1 (F := F) d L := by
  intro t1 t3 v29 v30 a10 O W f g fo Ds u hj hu
  generalize hP : (iprop(□ Transfers.MayWaits (thr d L) (none : HIx 1) O
        ∗ ((rowWin 1 ⟨t3.val, t3_lt t3⟩ Nat.one_lt_two).view.loc (thr d L) ↦[(rowWin 1 ⟨t3.val, t3_lt t3⟩ Nat.one_lt_two).view.set]{fullShare} f)
        ∗ ((posV : Memref sig .scVector .vmem S8x768 .f32).view.loc (thr d L) ↦{fullShare} g)
        ∗ ((outRow1 L t1 t3).view.loc (thr d L) ↦[(outRow1 L t1 t3).view.set]{fullShare} fo)
        ∗ Transfers.Batched (countersEmb (U := UU)) (thr d L) (SemLoc.dma (sig := sig) (3 : Fin 9)) (default : HIx 1) Nrow 8 Ds u
        ∗ owes (thr d L) O W) : sProp 𝕄) = P
  unfold k0_t3_body
  subst hP
  iintro ⟨#Hmw, Hrow, Hpos, Hout, HB, HO⟩
  -- the row number as the boxes' closed forms spell it
  have hv : ((⟨t3.val, t3_lt t3⟩ : Fin 8)).val = t3.val := rfl
  sl_exec_parts
  -- the row after the 384 stores, store by store, is the row plus the position row
  row_chain1 row_trip1
  rw [e384.trans (Srow_full d L 1 ⟨t3.val, t3_lt t3⟩ f g)]
  -- the row copy: its source is the row, spelt by the program through the trip's offsets
  ihave Hrow' := (Entails.of_eq (pts_rowAt1 (F := F) d L t3 (k0_off880 t3) (k0_off880_inb t3) (k0_off880_eq t3) _)) $$ Hrow
  iapply (Transfers.wp_dmaBatched (countersEmb (U := UU)) 𝒱₀ (thr d L) none (default : HIx 1) Nrow rfl (Finset.Subset.refl _) hj hu) $$ [Hrow' Hout HB]
  · isplitl [Hrow']; · iexact Hrow'
    isplitl [Hout]; · iexact Hout
    iexact HB
  iintro HB
  rw [deliv_rowAt1 (F := F) d L t1 t3 (k0_off880 t3) (k0_off880_inb t3) (k0_off880_eq t3) fo]
  sl_step
  isplitl [Hpos]; · iexact Hpos
  isplitl [HB]; · iexact HB
  iexact HO

end Cert.KernelIdeal.Hand

end
-- ==== Proof.ClsTailI.lean ====
/-
  The class-token tail, first part: the two small copies and the first 264 stores, with their values.

  The tail writes the class-token row of the output: entry (576, b, col) = token (0, 0, col) + position (576, col).
  It first copies the token row into row (1, 0, 0, .) of the staging buffer and the last position row into row
  (1, 0, 1, .), waiting for each copy. Then, lane group by lane group (48 of them, 16 features each), it loads the
  two rows' 16 entries, adds them (token first), and stores the sum to rows (0, 0, k, .) for k = 0 .. 7. The stores
  never touch rows (1, 0, .), so every load reads what the two copies left. After n stores the buffer therefore
  holds the sums on the first n boxes (box n is row n % 8 of lane group n / 8) and the landed buffer elsewhere. This
  part performs the first 264 stores (lane groups 0 to 32); the second part the remaining 120 and the copy out.
-/
import proofs.«204390_g6468220748199_cont_9to1_m_1136_17_alg».proof.Proof.ClsDefsI
import proofs.«204390_g6468220748199_cont_9to1_m_1136_17_alg».proof.Proof.Gen.KernelIdeal.Skeleton

noncomputable section

namespace Cert.KernelIdeal.Hand

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Tactic

variable {F : FTy → Type} [FloatOps F] [∀ e, Nonempty (Elt F e)]

local notation "𝕄" => MT nD τ sig (HIx 1) (Elt F) ℕ UU ℕ

variable (m : (ℓ : Loc nD τ sig) → Buf (Elt F) ℓ)
variable (d : Dev nD) (L : grid0.Coords)

/-- One more listed store: box n, its payload the sum of the two rows' entries read off the buffer the stores go over. -/
theorem cls_cons (hb : Buf (Elt F) ((thr d L).loc cc0_scratch1)) (n : ℕ) {offA offT offP : Fin 4 → Nat}
    (inbA : ∀ a, offA a + S1x1x1x16.size a ≤ S2x8x8x768.size a) (inbT : ∀ a, offT a + S1x1x1x16.size a ≤ S2x8x8x768.size a)
    (inbP : ∀ a, offP a + S1x1x1x16.size a ≤ S2x8x8x768.size a)
    (hA : offA = ![0, 0, n % 8, 16 * (n / 8)]) (hT : offT = ![1, 0, 0, 16 * (n / 8)]) (hP : offP = ![1, 0, 1, 16 * (n / 8)])
    (Lp : List (View.Piece (Elt F) S2x8x8x768 .f32))
    (hL : (slotV : Memref sig .scVector .vmem S2x8x8x768 .f32).view.writes (Elt F) hb Lp = Scls d L hb (Tof d L hb) (Pof d L hb) n) :
    (slotV : Memref sig .scVector .vmem S2x8x8x768 .f32).view.writes (Elt F) hb
        (⟨Rect.unit (s := S2x8x8x768) offA S1x1x1x16.size inbA,
          shapeCast S1x1x1x16
            (addf (shapeCast S16 (View.readAt (Elt F) (slotV : Memref sig .scVector .vmem S2x8x8x768 .f32).view (Rect.unit (s := S2x8x8x768) offT S1x1x1x16.size inbT).toLoadRect hb) shapeCasts_S1x1x1x16_S16)
              (shapeCast S16 (View.readAt (Elt F) (slotV : Memref sig .scVector .vmem S2x8x8x768 .f32).view (Rect.unit (s := S2x8x8x768) offP S1x1x1x16.size inbP).toLoadRect hb) shapeCasts_S1x1x1x16_S16))
            shapeCasts_S16_S1x1x1x16⟩ :: Lp)
      = Scls d L hb (Tof d L hb) (Pof d L hb) (n + 1) := by
  rw [View.writes_cons]
  exact Scls_step' (F := F) d L hb (Tof d L hb) (Pof d L hb) n 0 inbA inbT inbP hA hT hP (fun _ => rfl) (fun _ => rfl) _ hb hL
    (Scls_zero d L hb (Tof d L hb) (Pof d L hb)).symm

set_option maxHeartbeats 4000000 in
theorem cls_tailA : ClsTailA (F := F) m d L (ClsMid m d L) := by
  intro O W h
  generalize hP : (iprop(□ Transfers.MayWaits (thr d L) (none : HIx 1) O
        ∗ ((slotV : Memref sig .scVector .vmem S2x8x8x768 .f32).view.loc (thr d L) ↦{fullShare} h)
        ∗ ((tV : Memref sig .scVector .hbm S1x1x768 .f32).view.loc (thr d L) ↦{Transfers.shareTokN fullShare (wid L)} m (tLoc d))
        ∗ ((pV : Memref sig .scVector .hbm S577x768 .f32).view.loc (thr d L) ↦{Transfers.shareTokN fullShare (wid L)} m (pLoc d))
        ∗ semVal (cell d L 5) 0 ∗ semVal (cell d L 6) 0
        ∗ owes (thr d L) O W) : sProp 𝕄) = P
  rw [k0_part348_eq_skeleton]; unfold k0_part348_skel
  subst hP
  iintro ⟨#Hmw, Hslot, Ht, Hp, Hs5, Hs6, HO⟩
  sl_exec_parts
  -- the buffer after its 264 stores, store by store over the landed buffer
  have e2 : (slotV : Memref sig .scVector .vmem S2x8x8x768 .f32).view.writes (Elt F) (landed m d L h) (cls_tailA.sl.Hslot_2 m d L h) = Scls d L (landed m d L h) (Tof d L (landed m d L h)) (Pof d L (landed m d L h)) 2 := by
    unfold cls_tailA.sl.Hslot_2
    refine cls_cons (F := F) d L (landed m d L h) 1 _ _ _ rfl rfl rfl _ ?_
    refine cls_cons (F := F) d L (landed m d L h) 0 _ _ _ rfl rfl rfl _ ?_
    exact (Scls_zero d L (landed m d L h) (Tof d L (landed m d L h)) (Pof d L (landed m d L h))).symm
  have e8 : (slotV : Memref sig .scVector .vmem S2x8x8x768 .f32).view.writes (Elt F) (landed m d L h) (cls_tailA.sl.Hslot_8 m d L h) = Scls d L (landed m d L h) (Tof d L (landed m d L h)) (Pof d L (landed m d L h)) 8 := by
    unfold cls_tailA.sl.Hslot_8
    refine cls_cons (F := F) d L (landed m d L h) 7 _ _ _ rfl rfl rfl _ ?_
    refine cls_cons (F := F) d L (landed m d L h) 6 _ _ _ rfl rfl rfl _ ?_
    refine cls_cons (F := F) d L (landed m d L h) 5 _ _ _ rfl rfl rfl _ ?_
    refine cls_cons (F := F) d L (landed m d L h) 4 _ _ _ rfl rfl rfl _ ?_
    refine cls_cons (F := F) d L (landed m d L h) 3 _ _ _ rfl rfl rfl _ ?_
    refine cls_cons (F := F) d L (landed m d L h) 2 _ _ _ rfl rfl rfl _ ?_
    exact e2
  have e12 : (slotV : Memref sig .scVector .vmem S2x8x8x768 .f32).view.writes (Elt F) (landed m d L h) (cls_tailA.sl.Hslot_12 m d L h) = Scls d L (landed m d L h) (Tof d L (landed m d L h)) (Pof d L (landed m d L h)) 12 := by
    unfold cls_tailA.sl.Hslot_12
    refine cls_cons (F := F) d L (landed m d L h) 11 _ _ _ rfl rfl rfl _ ?_
    refine cls_cons (F := F) d L (landed m d L h) 10 _ _ _ rfl rfl rfl _ ?_
    refine cls_cons (F := F) d L (landed m d L h) 9 _ _ _ rfl rfl rfl _ ?_
    refine cls_cons (F := F) d L (landed m d L h) 8 _ _ _ rfl rfl rfl _ ?_
    exact e8
  have e16 : (slotV : Memref sig .scVector .vmem S2x8x8x768 .f32).view.writes (Elt F) (landed m d L h) (cls_tailA.sl.Hslot_16 m d L h) = Scls d L (landed m d L h) (Tof d L (landed m d L h)) (Pof d L (landed m d L h)) 16 := by
    unfold cls_tailA.sl.Hslot_16
    refine cls_cons (F := F) d L (landed m d L h) 15 _ _ _ rfl rfl rfl _ ?_
    refine cls_cons (F := F) d L (landed m d L h) 14 _ _ _ rfl rfl rfl _ ?_
    refine cls_cons (F := F) d L (landed m d L h) 13 _ _ _ rfl rfl rfl _ ?_
    refine cls_cons (F := F) d L (landed m d L h) 12 _ _ _ rfl rfl rfl _ ?_
    exact e12
  have e21 : (slotV : Memref sig .scVector .vmem S2x8x8x768 .f32).view.writes (Elt F) (landed m d L h) (cls_tailA.sl.Hslot_21 m d L h) = Scls d L (landed m d L h) (Tof d L (landed m d L h)) (Pof d L (landed m d L h)) 21 := by
    unfold cls_tailA.sl.Hslot_21
    refine cls_cons (F := F) d L (landed m d L h) 20 _ _ _ rfl rfl rfl _ ?_
    refine cls_cons (F := F) d L (landed m d L h) 19 _ _ _ rfl rfl rfl _ ?_
    refine cls_cons (F := F) d L (landed m d L h) 18 _ _ _ rfl rfl rfl _ ?_
    refine cls_cons (F := F) d L (landed m d L h) 17 _ _ _ rfl rfl rfl _ ?_
    refine cls_cons (F := F) d L (landed m d L h) 16 _ _ _ rfl rfl rfl _ ?_
    exact e16
  have e25 : (slotV : Memref sig .scVector .vmem S2x8x8x768 .f32).view.writes (Elt F) (landed m d L h) (cls_tailA.sl.Hslot_25 m d L h) = Scls d L (landed m d L h) (Tof d L (landed m d L h)) (Pof d L (landed m d L h)) 25 := by
    unfold cls_tailA.sl.Hslot_25
    refine cls_cons (F := F) d L (landed m d L h) 24 _ _ _ rfl rfl rfl _ ?_
    refine cls_cons (F := F) d L (landed m d L h) 23 _ _ _ rfl rfl rfl _ ?_
    refine cls_cons (F := F) d L (landed m d L h) 22 _ _ _ rfl rfl rfl _ ?_
    refine cls_cons (F := F) d L (landed m d L h) 21 _ _ _ rfl rfl rfl _ ?_
    exact e21
  have e30 : (slotV : Memref sig .scVector .vmem S2x8x8x768 .f32).view.writes (Elt F) (landed m d L h) (cls_tailA.sl.Hslot_30 m d L h) = Scls d L (landed m d L h) (Tof d L (landed m d L h)) (Pof d L (landed m d L h)) 30 := by
    unfold cls_tailA.sl.Hslot_30
    refine cls_cons (F := F) d L (landed m d L h) 29 _ _ _ rfl rfl rfl _ ?_
    refine cls_cons (F := F) d L (landed m d L h) 28 _ _ _ rfl rfl rfl _ ?_
    refine cls_cons (F := F) d L (landed m d L h) 27 _ _ _ rfl rfl rfl _ ?_
    refine cls_cons (F := F) d L (landed m d L h) 26 _ _ _ rfl rfl rfl _ ?_
    refine cls_cons (F := F) d L (landed m d L h) 25 _ _ _ rfl rfl rfl _ ?_
    exact e25
  have e34 : (slotV : Memref sig .scVector .vmem S2x8x8x768 .f32).view.writes (Elt F) (landed m d L h) (cls_tailA.sl.Hslot_34 m d L h) = Scls d L (landed m d L h) (Tof d L (landed m d L h)) (Pof d L (landed m d L h)) 34 := by
    unfold cls_tailA.sl.Hslot_34
    refine cls_cons (F := F) d L (landed m d L h) 33 _ _ _ rfl rfl rfl _ ?_
    refine cls_cons (F := F) d L (landed m d L h) 32 _ _ _ rfl rfl rfl _ ?_
    refine cls_cons (F := F) d L (landed m d L h) 31 _ _ _ rfl rfl rfl _ ?_
    refine cls_cons (F := F) d L (landed m d L h) 30 _ _ _ rfl rfl rfl _ ?_
    exact e30
  have e39 : (slotV : Memref sig .scVector .vmem S2x8x8x768 .f32).view.writes (Elt F) (landed m d L h) (cls_tailA.sl.Hslot_39 m d L h) = Scls d L (landed m d L h) (Tof d L (landed m d L h)) (Pof d L (landed m d L h)) 39 := by
    unfold cls_tailA.sl.Hslot_39
    refine cls_cons (F := F) d L (landed m d L h) 38 _ _ _ rfl rfl rfl _ ?_
    refine cls_cons (F := F) d L (landed m d L h) 37 _ _ _ rfl rfl rfl _ ?_
    refine cls_cons (F := F) d L (landed m d L h) 36 _ _ _ rfl rfl rfl _ ?_
    refine cls_cons (F := F) d L (landed m d L h) 35 _ _ _ rfl rfl rfl _ ?_
    refine cls_cons (F := F) d L (landed m d L h) 34 _ _ _ rfl rfl rfl _ ?_
    exact e34
  have e43 : (slotV : Memref sig .scVector .vmem S2x8x8x768 .f32).view.writes (Elt F) (landed m d L h) (cls_tailA.sl.Hslot_43 m d L h) = Scls d L (landed m d L h) (Tof d L (landed m d L h)) (Pof d L (landed m d L h)) 43 := by
    unfold cls_tailA.sl.Hslot_43
    refine cls_cons (F := F) d L (landed m d L h) 42 _ _ _ rfl rfl rfl _ ?_
    refine cls_cons (F := F) d L (landed m d L h) 41 _ _ _ rfl rfl rfl _ ?_
    refine cls_cons (F := F) d L (landed m d L h) 40 _ _ _ rfl rfl rfl _ ?_
    refine cls_cons (F := F) d L (landed m d L h) 39 _ _ _ rfl rfl rfl _ ?_
    exact e39
  have e48 : (slotV : Memref sig .scVector .vmem S2x8x8x768 .f32).view.writes (Elt F) (landed m d L h) (cls_tailA.sl.Hslot_48 m d L h) = Scls d L (landed m d L h) (Tof d L (landed m d L h)) (Pof d L (landed m d L h)) 48 := by
    unfold cls_tailA.sl.Hslot_48
    refine cls_cons (F := F) d L (landed m d L h) 47 _ _ _ rfl rfl rfl _ ?_
    refine cls_cons (F := F) d L (landed m d L h) 46 _ _ _ rfl rfl rfl _ ?_
    refine cls_cons (F := F) d L (landed m d L h) 45 _ _ _ rfl rfl rfl _ ?_
    refine cls_cons (F := F) d L (landed m d L h) 44 _ _ _ rfl rfl rfl _ ?_
    refine cls_cons (F := F) d L (landed m d L h) 43 _ _ _ rfl rfl rfl _ ?_
    exact e43
  have e52 : (slotV : Memref sig .scVector .vmem S2x8x8x768 .f32).view.writes (Elt F) (landed m d L h) (cls_tailA.sl.Hslot_52 m d L h) = Scls d L (landed m d L h) (Tof d L (landed m d L h)) (Pof d L (landed m d L h)) 52 := by
    unfold cls_tailA.sl.Hslot_52
    refine cls_cons (F := F) d L (landed m d L h) 51 _ _ _ rfl rfl rfl _ ?_
    refine cls_cons (F := F) d L (landed m d L h) 50 _ _ _ rfl rfl rfl _ ?_
    refine cls_cons (F := F) d L (landed m d L h) 49 _ _ _ rfl rfl rfl _ ?_
    refine cls_cons (F := F) d L (landed m d L h) 48 _ _ _ rfl rfl rfl _ ?_
    exact e48
  have e56 : (slotV : Memref sig .scVector .vmem S2x8x8x768 .f32).view.writes (Elt F) (landed m d L h) (cls_tailA.sl.Hslot_56 m d L h) = Scls d L (landed m d L h) (Tof d L (landed m d L h)) (Pof d L (landed m d L h)) 56 := by
    unfold cls_tailA.sl.Hslot_56
    refine cls_cons (F := F) d L (landed m d L h) 55 _ _ _ rfl rfl rfl _ ?_
    refine cls_cons (F := F) d L (landed m d L h) 54 _ _ _ rfl rfl rfl _ ?_
    refine cls_cons (F := F) d L (landed m d L h) 53 _ _ _ rfl rfl rfl _ ?_
    refine cls_cons (F := F) d L (landed m d L h) 52 _ _ _ rfl rfl rfl _ ?_
    exact e52
  have e61 : (slotV : Memref sig .scVector .vmem S2x8x8x768 .f32).view.writes (Elt F) (landed m d L h) (cls_tailA.sl.Hslot_61 m d L h) = Scls d L (landed m d L h) (Tof d L (landed m d L h)) (Pof d L (landed m d L h)) 61 := by
    unfold cls_tailA.sl.Hslot_61
    refine cls_cons (F := F) d L (landed m d L h) 60 _ _ _ rfl rfl rfl _ ?_
    refine cls_cons (F := F) d L (landed m d L h) 59 _ _ _ rfl rfl rfl _ ?_
    refine cls_cons (F := F) d L (landed m d L h) 58 _ _ _ rfl rfl rfl _ ?_
    refine cls_cons (F := F) d L (landed m d L h) 57 _ _ _ rfl rfl rfl _ ?_
    refine cls_cons (F := F) d L (landed m d L h) 56 _ _ _ rfl rfl rfl _ ?_
    exact e56
  have e65 : (slotV : Memref sig .scVector .vmem S2x8x8x768 .f32).view.writes (Elt F) (landed m d L h) (cls_tailA.sl.Hslot_65 m d L h) = Scls d L (landed m d L h) (Tof d L (landed m d L h)) (Pof d L (landed m d L h)) 65 := by
    unfold cls_tailA.sl.Hslot_65
    refine cls_cons (F := F) d L (landed m d L h) 64 _ _ _ rfl rfl rfl _ ?_
    refine cls_cons (F := F) d L (landed m d L h) 63 _ _ _ rfl rfl rfl _ ?_
    refine cls_cons (F := F) d L (landed m d L h) 62 _ _ _ rfl rfl rfl _ ?_
    refine cls_cons (F := F) d L (landed m d L h) 61 _ _ _ rfl rfl rfl _ ?_
    exact e61
  have e70 : (slotV : Memref sig .scVector .vmem S2x8x8x768 .f32).view.writes (Elt F) (landed m d L h) (cls_tailA.sl.Hslot_70 m d L h) = Scls d L (landed m d L h) (Tof d L (landed m d L h)) (Pof d L (landed m d L h)) 70 := by
    unfold cls_tailA.sl.Hslot_70
    refine cls_cons (F := F) d L (landed m d L h) 69 _ _ _ rfl rfl rfl _ ?_
    refine cls_cons (F := F) d L (landed m d L h) 68 _ _ _ rfl rfl rfl _ ?_
    refine cls_cons (F := F) d L (landed m d L h) 67 _ _ _ rfl rfl rfl _ ?_
    refine cls_cons (F := F) d L (landed m d L h) 66 _ _ _ rfl rfl rfl _ ?_
    refine cls_cons (F := F) d L (landed m d L h) 65 _ _ _ rfl rfl rfl _ ?_
    exact e65
  have e74 : (slotV : Memref sig .scVector .vmem S2x8x8x768 .f32).view.writes (Elt F) (landed m d L h) (cls_tailA.sl.Hslot_74 m d L h) = Scls d L (landed m d L h) (Tof d L (landed m d L h)) (Pof d L (landed m d L h)) 74 := by
    unfold cls_tailA.sl.Hslot_74
    refine cls_cons (F := F) d L (landed m d L h) 73 _ _ _ rfl rfl rfl _ ?_
    refine cls_cons (F := F) d L (landed m d L h) 72 _ _ _ rfl rfl rfl _ ?_
    refine cls_cons (F := F) d L (landed m d L h) 71 _ _ _ rfl rfl rfl _ ?_
    refine cls_cons (F := F) d L (landed m d L h) 70 _ _ _ rfl rfl rfl _ ?_
    exact e70
  have e80 : (slotV : Memref sig .scVector .vmem S2x8x8x768 .f32).view.writes (Elt F) (landed m d L h) (cls_tailA.sl.Hslot_80 m d L h) = Scls d L (landed m d L h) (Tof d L (landed m d L h)) (Pof d L (landed m d L h)) 80 := by
    unfold cls_tailA.sl.Hslot_80
    refine cls_cons (F := F) d L (landed m d L h) 79 _ _ _ rfl rfl rfl _ ?_
    refine cls_cons (F := F) d L (landed m d L h) 78 _ _ _ rfl rfl rfl _ ?_
    refine cls_cons (F := F) d L (landed m d L h) 77 _ _ _ rfl rfl rfl _ ?_
    refine cls_cons (F := F) d L (landed m d L h) 76 _ _ _ rfl rfl rfl _ ?_
    refine cls_cons (F := F) d L (landed m d L h) 75 _ _ _ rfl rfl rfl _ ?_
    refine cls_cons (F := F) d L (landed m d L h) 74 _ _ _ rfl rfl rfl _ ?_
    exact e74
  have e83 : (slotV : Memref sig .scVector .vmem S2x8x8x768 .f32).view.writes (Elt F) (landed m d L h) (cls_tailA.sl.Hslot_83 m d L h) = Scls d L (landed m d L h) (Tof d L (landed m d L h)) (Pof d L (landed m d L h)) 83 := by
    unfold cls_tailA.sl.Hslot_83
    refine cls_cons (F := F) d L (landed m d L h) 82 _ _ _ rfl rfl rfl _ ?_
    refine cls_cons (F := F) d L (landed m d L h) 81 _ _ _ rfl rfl rfl _ ?_
    refine cls_cons (F := F) d L (landed m d L h) 80 _ _ _ rfl rfl rfl _ ?_
    exact e80
  have e88 : (slotV : Memref sig .scVector .vmem S2x8x8x768 .f32).view.writes (Elt F) (landed m d L h) (cls_tailA.sl.Hslot_88 m d L h) = Scls d L (landed m d L h) (Tof d L (landed m d L h)) (Pof d L (landed m d L h)) 88 := by
    unfold cls_tailA.sl.Hslot_88
    refine cls_cons (F := F) d L (landed m d L h) 87 _ _ _ rfl rfl rfl _ ?_
    refine cls_cons (F := F) d L (landed m d L h) 86 _ _ _ rfl rfl rfl _ ?_
    refine cls_cons (F := F) d L (landed m d L h) 85 _ _ _ rfl rfl rfl _ ?_
    refine cls_cons (F := F) d L (landed m d L h) 84 _ _ _ rfl rfl rfl _ ?_
    refine cls_cons (F := F) d L (landed m d L h) 83 _ _ _ rfl rfl rfl _ ?_
    exact e83
  have e93 : (slotV : Memref sig .scVector .vmem S2x8x8x768 .f32).view.writes (Elt F) (landed m d L h) (cls_tailA.sl.Hslot_93 m d L h) = Scls d L (landed m d L h) (Tof d L (landed m d L h)) (Pof d L (landed m d L h)) 93 := by
    unfold cls_tailA.sl.Hslot_93
    refine cls_cons (F := F) d L (landed m d L h) 92 _ _ _ rfl rfl rfl _ ?_
    refine cls_cons (F := F) d L (landed m d L h) 91 _ _ _ rfl rfl rfl _ ?_
    refine cls_cons (F := F) d L (landed m d L h) 90 _ _ _ rfl rfl rfl _ ?_
    refine cls_cons (F := F) d L (landed m d L h) 89 _ _ _ rfl rfl rfl _ ?_
    refine cls_cons (F := F) d L (landed m d L h) 88 _ _ _ rfl rfl rfl _ ?_
    exact e88
  have e96 : (slotV : Memref sig .scVector .vmem S2x8x8x768 .f32).view.writes (Elt F) (landed m d L h) (cls_tailA.sl.Hslot_96 m d L h) = Scls d L (landed m d L h) (Tof d L (landed m d L h)) (Pof d L (landed m d L h)) 96 := by
    unfold cls_tailA.sl.Hslot_96
    refine cls_cons (F := F) d L (landed m d L h) 95 _ _ _ rfl rfl rfl _ ?_
    refine cls_cons (F := F) d L (landed m d L h) 94 _ _ _ rfl rfl rfl _ ?_
    refine cls_cons (F := F) d L (landed m d L h) 93 _ _ _ rfl rfl rfl _ ?_
    exact e93
  have e102 : (slotV : Memref sig .scVector .vmem S2x8x8x768 .f32).view.writes (Elt F) (landed m d L h) (cls_tailA.sl.Hslot_102 m d L h) = Scls d L (landed m d L h) (Tof d L (landed m d L h)) (Pof d L (landed m d L h)) 102 := by
    unfold cls_tailA.sl.Hslot_102
    refine cls_cons (F := F) d L (landed m d L h) 101 _ _ _ rfl rfl rfl _ ?_
    refine cls_cons (F := F) d L (landed m d L h) 100 _ _ _ rfl rfl rfl _ ?_
    refine cls_cons (F := F) d L (landed m d L h) 99 _ _ _ rfl rfl rfl _ ?_
    refine cls_cons (F := F) d L (landed m d L h) 98 _ _ _ rfl rfl rfl _ ?_
    refine cls_cons (F := F) d L (landed m d L h) 97 _ _ _ rfl rfl rfl _ ?_
    refine cls_cons (F := F) d L (landed m d L h) 96 _ _ _ rfl rfl rfl _ ?_
    exact e96
  have e105 : (slotV : Memref sig .scVector .vmem S2x8x8x768 .f32).view.writes (Elt F) (landed m d L h) (cls_tailA.sl.Hslot_105 m d L h) = Scls d L (landed m d L h) (Tof d L (landed m d L h)) (Pof d L (landed m d L h)) 105 := by
    unfold cls_tailA.sl.Hslot_105
    refine cls_cons (F := F) d L (landed m d L h) 104 _ _ _ rfl rfl rfl _ ?_
    refine cls_cons (F := F) d L (landed m d L h) 103 _ _ _ rfl rfl rfl _ ?_
    refine cls_cons (F := F) d L (landed m d L h) 102 _ _ _ rfl rfl rfl _ ?_
    exact e102
  have e111 : (slotV : Memref sig .scVector .vmem S2x8x8x768 .f32).view.writes (Elt F) (landed m d L h) (cls_tailA.sl.Hslot_111 m d L h) = Scls d L (landed m d L h) (Tof d L (landed m d L h)) (Pof d L (landed m d L h)) 111 := by
    unfold cls_tailA.sl.Hslot_111
    refine cls_cons (F := F) d L (landed m d L h) 110 _ _ _ rfl rfl rfl _ ?_
    refine cls_cons (F := F) d L (landed m d L h) 109 _ _ _ rfl rfl rfl _ ?_
    refine cls_cons (F := F) d L (landed m d L h) 108 _ _ _ rfl rfl rfl _ ?_
    refine cls_cons (F := F) d L (landed m d L h) 107 _ _ _ rfl rfl rfl _ ?_
    refine cls_cons (F := F) d L (landed m d L h) 106 _ _ _ rfl rfl rfl _ ?_
    refine cls_cons (F := F) d L (landed m d L h) 105 _ _ _ rfl rfl rfl _ ?_
    exact e105
  have e115 : (slotV : Memref sig .scVector .vmem S2x8x8x768 .f32).view.writes (Elt F) (landed m d L h) (cls_tailA.sl.Hslot_115 m d L h) = Scls d L (landed m d L h) (Tof d L (landed m d L h)) (Pof d L (landed m d L h)) 115 := by
    unfold cls_tailA.sl.Hslot_115
    refine cls_cons (F := F) d L (landed m d L h) 114 _ _ _ rfl rfl rfl _ ?_
    refine cls_cons (F := F) d L (landed m d L h) 113 _ _ _ rfl rfl rfl _ ?_
    refine cls_cons (F := F) d L (landed m d L h) 112 _ _ _ rfl rfl rfl _ ?_
    refine cls_cons (F := F) d L (landed m d L h) 111 _ _ _ rfl rfl rfl _ ?_
    exact e111
  have e120 : (slotV : Memref sig .scVector .vmem S2x8x8x768 .f32).view.writes (Elt F) (landed m d L h) (cls_tailA.sl.Hslot_120 m d L h) = Scls d L (landed m d L h) (Tof d L (landed m d L h)) (Pof d L (landed m d L h)) 120 := by
    unfold cls_tailA.sl.Hslot_120
    refine cls_cons (F := F) d L (landed m d L h) 119 _ _ _ rfl rfl rfl _ ?_
    refine cls_cons (F := F) d L (landed m d L h) 118 _ _ _ rfl rfl rfl _ ?_
    refine cls_cons (F := F) d L (landed m d L h) 117 _ _ _ rfl rfl rfl _ ?_
    refine cls_cons (F := F) d L (landed m d L h) 116 _ _ _ rfl rfl rfl _ ?_
    refine cls_cons (F := F) d L (landed m d L h) 115 _ _ _ rfl rfl rfl _ ?_
    exact e115
  have e124 : (slotV : Memref sig .scVector .vmem S2x8x8x768 .f32).view.writes (Elt F) (landed m d L h) (cls_tailA.sl.Hslot_124 m d L h) = Scls d L (landed m d L h) (Tof d L (landed m d L h)) (Pof d L (landed m d L h)) 124 := by
    unfold cls_tailA.sl.Hslot_124
    refine cls_cons (F := F) d L (landed m d L h) 123 _ _ _ rfl rfl rfl _ ?_
    refine cls_cons (F := F) d L (landed m d L h) 122 _ _ _ rfl rfl rfl _ ?_
    refine cls_cons (F := F) d L (landed m d L h) 121 _ _ _ rfl rfl rfl _ ?_
    refine cls_cons (F := F) d L (landed m d L h) 120 _ _ _ rfl rfl rfl _ ?_
    exact e120
  have e128 : (slotV : Memref sig .scVector .vmem S2x8x8x768 .f32).view.writes (Elt F) (landed m d L h) (cls_tailA.sl.Hslot_128 m d L h) = Scls d L (landed m d L h) (Tof d L (landed m d L h)) (Pof d L (landed m d L h)) 128 := by
    unfold cls_tailA.sl.Hslot_128
    refine cls_cons (F := F) d L (landed m d L h) 127 _ _ _ rfl rfl rfl _ ?_
    refine cls_cons (F := F) d L (landed m d L h) 126 _ _ _ rfl rfl rfl _ ?_
    refine cls_cons (F := F) d L (landed m d L h) 125 _ _ _ rfl rfl rfl _ ?_
    refine cls_cons (F := F) d L (landed m d L h) 124 _ _ _ rfl rfl rfl _ ?_
    exact e124
  have e133 : (slotV : Memref sig .scVector .vmem S2x8x8x768 .f32).view.writes (Elt F) (landed m d L h) (cls_tailA.sl.Hslot_133 m d L h) = Scls d L (landed m d L h) (Tof d L (landed m d L h)) (Pof d L (landed m d L h)) 133 := by
    unfold cls_tailA.sl.Hslot_133
    refine cls_cons (F := F) d L (landed m d L h) 132 _ _ _ rfl rfl rfl _ ?_
    refine cls_cons (F := F) d L (landed m d L h) 131 _ _ _ rfl rfl rfl _ ?_
    refine cls_cons (F := F) d L (landed m d L h) 130 _ _ _ rfl rfl rfl _ ?_
    refine cls_cons (F := F) d L (landed m d L h) 129 _ _ _ rfl rfl rfl _ ?_
    refine cls_cons (F := F) d L (landed m d L h) 128 _ _ _ rfl rfl rfl _ ?_
    exact e128
  have e137 : (slotV : Memref sig .scVector .vmem S2x8x8x768 .f32).view.writes (Elt F) (landed m d L h) (cls_tailA.sl.Hslot_137 m d L h) = Scls d L (landed m d L h) (Tof d L (landed m d L h)) (Pof d L (landed m d L h)) 137 := by
    unfold cls_tailA.sl.Hslot_137
    refine cls_cons (F := F) d L (landed m d L h) 136 _ _ _ rfl rfl rfl _ ?_
    refine cls_cons (F := F) d L (landed m d L h) 135 _ _ _ rfl rfl rfl _ ?_
    refine cls_cons (F := F) d L (landed m d L h) 134 _ _ _ rfl rfl rfl _ ?_
    refine cls_cons (F := F) d L (landed m d L h) 133 _ _ _ rfl rfl rfl _ ?_
    exact e133
  have e142 : (slotV : Memref sig .scVector .vmem S2x8x8x768 .f32).view.writes (Elt F) (landed m d L h) (cls_tailA.sl.Hslot_142 m d L h) = Scls d L (landed m d L h) (Tof d L (landed m d L h)) (Pof d L (landed m d L h)) 142 := by
    unfold cls_tailA.sl.Hslot_142
    refine cls_cons (F := F) d L (landed m d L h) 141 _ _ _ rfl rfl rfl _ ?_
    refine cls_cons (F := F) d L (landed m d L h) 140 _ _ _ rfl rfl rfl _ ?_
    refine cls_cons (F := F) d L (landed m d L h) 139 _ _ _ rfl rfl rfl _ ?_
    refine cls_cons (F := F) d L (landed m d L h) 138 _ _ _ rfl rfl rfl _ ?_
    refine cls_cons (F := F) d L (landed m d L h) 137 _ _ _ rfl rfl rfl _ ?_
    exact e137
  have e146 : (slotV : Memref sig .scVector .vmem S2x8x8x768 .f32).view.writes (Elt F) (landed m d L h) (cls_tailA.sl.Hslot_146 m d L h) = Scls d L (landed m d L h) (Tof d L (landed m d L h)) (Pof d L (landed m d L h)) 146 := by
    unfold cls_tailA.sl.Hslot_146
    refine cls_cons (F := F) d L (landed m d L h) 145 _ _ _ rfl rfl rfl _ ?_
    refine cls_cons (F := F) d L (landed m d L h) 144 _ _ _ rfl rfl rfl _ ?_
    refine cls_cons (F := F) d L (landed m d L h) 143 _ _ _ rfl rfl rfl _ ?_
    refine cls_cons (F := F) d L (landed m d L h) 142 _ _ _ rfl rfl rfl _ ?_
    exact e142
  have e151 : (slotV : Memref sig .scVector .vmem S2x8x8x768 .f32).view.writes (Elt F) (landed m d L h) (cls_tailA.sl.Hslot_151 m d L h) = Scls d L (landed m d L h) (Tof d L (landed m d L h)) (Pof d L (landed m d L h)) 151 := by
    unfold cls_tailA.sl.Hslot_151
    refine cls_cons (F := F) d L (landed m d L h) 150 _ _ _ rfl rfl rfl _ ?_
    refine cls_cons (F := F) d L (landed m d L h) 149 _ _ _ rfl rfl rfl _ ?_
    refine cls_cons (F := F) d L (landed m d L h) 148 _ _ _ rfl rfl rfl _ ?_
    refine cls_cons (F := F) d L (landed m d L h) 147 _ _ _ rfl rfl rfl _ ?_
    refine cls_cons (F := F) d L (landed m d L h) 146 _ _ _ rfl rfl rfl _ ?_
    exact e146
  have e155 : (slotV : Memref sig .scVector .vmem S2x8x8x768 .f32).view.writes (Elt F) (landed m d L h) (cls_tailA.sl.Hslot_155 m d L h) = Scls d L (landed m d L h) (Tof d L (landed m d L h)) (Pof d L (landed m d L h)) 155 := by
    unfold cls_tailA.sl.Hslot_155
    refine cls_cons (F := F) d L (landed m d L h) 154 _ _ _ rfl rfl rfl _ ?_
    refine cls_cons (F := F) d L (landed m d L h) 153 _ _ _ rfl rfl rfl _ ?_
    refine cls_cons (F := F) d L (landed m d L h) 152 _ _ _ rfl rfl rfl _ ?_
    refine cls_cons (F := F) d L (landed m d L h) 151 _ _ _ rfl rfl rfl _ ?_
    exact e151
  have e160 : (slotV : Memref sig .scVector .vmem S2x8x8x768 .f32).view.writes (Elt F) (landed m d L h) (cls_tailA.sl.Hslot_160 m d L h) = Scls d L (landed m d L h) (Tof d L (landed m d L h)) (Pof d L (landed m d L h)) 160 := by
    unfold cls_tailA.sl.Hslot_160
    refine cls_cons (F := F) d L (landed m d L h) 159 _ _ _ rfl rfl rfl _ ?_
    refine cls_cons (F := F) d L (landed m d L h) 158 _ _ _ rfl rfl rfl _ ?_
    refine cls_cons (F := F) d L (landed m d L h) 157 _ _ _ rfl rfl rfl _ ?_
    refine cls_cons (F := F) d L (landed m d L h) 156 _ _ _ rfl rfl rfl _ ?_
    refine cls_cons (F := F) d L (landed m d L h) 155 _ _ _ rfl rfl rfl _ ?_
    exact e155
  have e164 : (slotV : Memref sig .scVector .vmem S2x8x8x768 .f32).view.writes (Elt F) (landed m d L h) (cls_tailA.sl.Hslot_164 m d L h) = Scls d L (landed m d L h) (Tof d L (landed m d L h)) (Pof d L (landed m d L h)) 164 := by
    unfold cls_tailA.sl.Hslot_164
    refine cls_cons (F := F) d L (landed m d L h) 163 _ _ _ rfl rfl rfl _ ?_
    refine cls_cons (F := F) d L (landed m d L h) 162 _ _ _ rfl rfl rfl _ ?_
    refine cls_cons (F := F) d L (landed m d L h) 161 _ _ _ rfl rfl rfl _ ?_
    refine cls_cons (F := F) d L (landed m d L h) 160 _ _ _ rfl rfl rfl _ ?_
    exact e160
  have e168 : (slotV : Memref sig .scVector .vmem S2x8x8x768 .f32).view.writes (Elt F) (landed m d L h) (cls_tailA.sl.Hslot_168 m d L h) = Scls d L (landed m d L h) (Tof d L (landed m d L h)) (Pof d L (landed m d L h)) 168 := by
    unfold cls_tailA.sl.Hslot_168
    refine cls_cons (F := F) d L (landed m d L h) 167 _ _ _ rfl rfl rfl _ ?_
    refine cls_cons (F := F) d L (landed m d L h) 166 _ _ _ rfl rfl rfl _ ?_
    refine cls_cons (F := F) d L (landed m d L h) 165 _ _ _ rfl rfl rfl _ ?_
    refine cls_cons (F := F) d L (landed m d L h) 164 _ _ _ rfl rfl rfl _ ?_
    exact e164
  have e173 : (slotV : Memref sig .scVector .vmem S2x8x8x768 .f32).view.writes (Elt F) (landed m d L h) (cls_tailA.sl.Hslot_173 m d L h) = Scls d L (landed m d L h) (Tof d L (landed m d L h)) (Pof d L (landed m d L h)) 173 := by
    unfold cls_tailA.sl.Hslot_173
    refine cls_cons (F := F) d L (landed m d L h) 172 _ _ _ rfl rfl rfl _ ?_
    refine cls_cons (F := F) d L (landed m d L h) 171 _ _ _ rfl rfl rfl _ ?_
    refine cls_cons (F := F) d L (landed m d L h) 170 _ _ _ rfl rfl rfl _ ?_
    refine cls_cons (F := F) d L (landed m d L h) 169 _ _ _ rfl rfl rfl _ ?_
    refine cls_cons (F := F) d L (landed m d L h) 168 _ _ _ rfl rfl rfl _ ?_
    exact e168
  have e177 : (slotV : Memref sig .scVector .vmem S2x8x8x768 .f32).view.writes (Elt F) (landed m d L h) (cls_tailA.sl.Hslot_177 m d L h) = Scls d L (landed m d L h) (Tof d L (landed m d L h)) (Pof d L (landed m d L h)) 177 := by
    unfold cls_tailA.sl.Hslot_177
    refine cls_cons (F := F) d L (landed m d L h) 176 _ _ _ rfl rfl rfl _ ?_
    refine cls_cons (F := F) d L (landed m d L h) 175 _ _ _ rfl rfl rfl _ ?_
    refine cls_cons (F := F) d L (landed m d L h) 174 _ _ _ rfl rfl rfl _ ?_
    refine cls_cons (F := F) d L (landed m d L h) 173 _ _ _ rfl rfl rfl _ ?_
    exact e173
  have e183 : (slotV : Memref sig .scVector .vmem S2x8x8x768 .f32).view.writes (Elt F) (landed m d L h) (cls_tailA.sl.Hslot_183 m d L h) = Scls d L (landed m d L h) (Tof d L (landed m d L h)) (Pof d L (landed m d L h)) 183 := by
    unfold cls_tailA.sl.Hslot_183
    refine cls_cons (F := F) d L (landed m d L h) 182 _ _ _ rfl rfl rfl _ ?_
    refine cls_cons (F := F) d L (landed m d L h) 181 _ _ _ rfl rfl rfl _ ?_
    refine cls_cons (F := F) d L (landed m d L h) 180 _ _ _ rfl rfl rfl _ ?_
    refine cls_cons (F := F) d L (landed m d L h) 179 _ _ _ rfl rfl rfl _ ?_
    refine cls_cons (F := F) d L (landed m d L h) 178 _ _ _ rfl rfl rfl _ ?_
    refine cls_cons (F := F) d L (landed m d L h) 177 _ _ _ rfl rfl rfl _ ?_
    exact e177
  have e186 : (slotV : Memref sig .scVector .vmem S2x8x8x768 .f32).view.writes (Elt F) (landed m d L h) (cls_tailA.sl.Hslot_186 m d L h) = Scls d L (landed m d L h) (Tof d L (landed m d L h)) (Pof d L (landed m d L h)) 186 := by
    unfold cls_tailA.sl.Hslot_186
    refine cls_cons (F := F) d L (landed m d L h) 185 _ _ _ rfl rfl rfl _ ?_
    refine cls_cons (F := F) d L (landed m d L h) 184 _ _ _ rfl rfl rfl _ ?_
    refine cls_cons (F := F) d L (landed m d L h) 183 _ _ _ rfl rfl rfl _ ?_
    exact e183
  have e192 : (slotV : Memref sig .scVector .vmem S2x8x8x768 .f32).view.writes (Elt F) (landed m d L h) (cls_tailA.sl.Hslot_192 m d L h) = Scls d L (landed m d L h) (Tof d L (landed m d L h)) (Pof d L (landed m d L h)) 192 := by
    unfold cls_tailA.sl.Hslot_192
    refine cls_cons (F := F) d L (landed m d L h) 191 _ _ _ rfl rfl rfl _ ?_
    refine cls_cons (F := F) d L (landed m d L h) 190 _ _ _ rfl rfl rfl _ ?_
    refine cls_cons (F := F) d L (landed m d L h) 189 _ _ _ rfl rfl rfl _ ?_
    refine cls_cons (F := F) d L (landed m d L h) 188 _ _ _ rfl rfl rfl _ ?_
    refine cls_cons (F := F) d L (landed m d L h) 187 _ _ _ rfl rfl rfl _ ?_
    refine cls_cons (F := F) d L (landed m d L h) 186 _ _ _ rfl rfl rfl _ ?_
    exact e186
  have e196 : (slotV : Memref sig .scVector .vmem S2x8x8x768 .f32).view.writes (Elt F) (landed m d L h) (cls_tailA.sl.Hslot_196 m d L h) = Scls d L (landed m d L h) (Tof d L (landed m d L h)) (Pof d L (landed m d L h)) 196 := by
    unfold cls_tailA.sl.Hslot_196
    refine cls_cons (F := F) d L (landed m d L h) 195 _ _ _ rfl rfl rfl _ ?_
    refine cls_cons (F := F) d L (landed m d L h) 194 _ _ _ rfl rfl rfl _ ?_
    refine cls_cons (F := F) d L (landed m d L h) 193 _ _ _ rfl rfl rfl _ ?_
    refine cls_cons (F := F) d L (landed m d L h) 192 _ _ _ rfl rfl rfl _ ?_
    exact e192
  have e200 : (slotV : Memref sig .scVector .vmem S2x8x8x768 .f32).view.writes (Elt F) (landed m d L h) (cls_tailA.sl.Hslot_200 m d L h) = Scls d L (landed m d L h) (Tof d L (landed m d L h)) (Pof d L (landed m d L h)) 200 := by
    unfold cls_tailA.sl.Hslot_200
    refine cls_cons (F := F) d L (landed m d L h) 199 _ _ _ rfl rfl rfl _ ?_
    refine cls_cons (F := F) d L (landed m d L h) 198 _ _ _ rfl rfl rfl _ ?_
    refine cls_cons (F := F) d L (landed m d L h) 197 _ _ _ rfl rfl rfl _ ?_
    refine cls_cons (F := F) d L (landed m d L h) 196 _ _ _ rfl rfl rfl _ ?_
    exact e196
  have e205 : (slotV : Memref sig .scVector .vmem S2x8x8x768 .f32).view.writes (Elt F) (landed m d L h) (cls_tailA.sl.Hslot_205 m d L h) = Scls d L (landed m d L h) (Tof d L (landed m d L h)) (Pof d L (landed m d L h)) 205 := by
    unfold cls_tailA.sl.Hslot_205
    refine cls_cons (F := F) d L (landed m d L h) 204 _ _ _ rfl rfl rfl _ ?_
    refine cls_cons (F := F) d L (landed m d L h) 203 _ _ _ rfl rfl rfl _ ?_
    refine cls_cons (F := F) d L (landed m d L h) 202 _ _ _ rfl rfl rfl _ ?_
    refine cls_cons (F := F) d L (landed m d L h) 201 _ _ _ rfl rfl rfl _ ?_
    refine cls_cons (F := F) d L (landed m d L h) 200 _ _ _ rfl rfl rfl _ ?_
    exact e200
  have e208 : (slotV : Memref sig .scVector .vmem S2x8x8x768 .f32).view.writes (Elt F) (landed m d L h) (cls_tailA.sl.Hslot_208 m d L h) = Scls d L (landed m d L h) (Tof d L (landed m d L h)) (Pof d L (landed m d L h)) 208 := by
    unfold cls_tailA.sl.Hslot_208
    refine cls_cons (F := F) d L (landed m d L h) 207 _ _ _ rfl rfl rfl _ ?_
    refine cls_cons (F := F) d L (landed m d L h) 206 _ _ _ rfl rfl rfl _ ?_
    refine cls_cons (F := F) d L (landed m d L h) 205 _ _ _ rfl rfl rfl _ ?_
    exact e205
  have e214 : (slotV : Memref sig .scVector .vmem S2x8x8x768 .f32).view.writes (Elt F) (landed m d L h) (cls_tailA.sl.Hslot_214 m d L h) = Scls d L (landed m d L h) (Tof d L (landed m d L h)) (Pof d L (landed m d L h)) 214 := by
    unfold cls_tailA.sl.Hslot_214
    refine cls_cons (F := F) d L (landed m d L h) 213 _ _ _ rfl rfl rfl _ ?_
    refine cls_cons (F := F) d L (landed m d L h) 212 _ _ _ rfl rfl rfl _ ?_
    refine cls_cons (F := F) d L (landed m d L h) 211 _ _ _ rfl rfl rfl _ ?_
    refine cls_cons (F := F) d L (landed m d L h) 210 _ _ _ rfl rfl rfl _ ?_
    refine cls_cons (F := F) d L (landed m d L h) 209 _ _ _ rfl rfl rfl _ ?_
    refine cls_cons (F := F) d L (landed m d L h) 208 _ _ _ rfl rfl rfl _ ?_
    exact e208
  have e218 : (slotV : Memref sig .scVector .vmem S2x8x8x768 .f32).view.writes (Elt F) (landed m d L h) (cls_tailA.sl.Hslot_218 m d L h) = Scls d L (landed m d L h) (Tof d L (landed m d L h)) (Pof d L (landed m d L h)) 218 := by
    unfold cls_tailA.sl.Hslot_218
    refine cls_cons (F := F) d L (landed m d L h) 217 _ _ _ rfl rfl rfl _ ?_
    refine cls_cons (F := F) d L (landed m d L h) 216 _ _ _ rfl rfl rfl _ ?_
    refine cls_cons (F := F) d L (landed m d L h) 215 _ _ _ rfl rfl rfl _ ?_
    refine cls_cons (F := F) d L (landed m d L h) 214 _ _ _ rfl rfl rfl _ ?_
    exact e214
  have e223 : (slotV : Memref sig .scVector .vmem S2x8x8x768 .f32).view.writes (Elt F) (landed m d L h) (cls_tailA.sl.Hslot_223 m d L h) = Scls d L (landed m d L h) (Tof d L (landed m d L h)) (Pof d L (landed m d L h)) 223 := by
    unfold cls_tailA.sl.Hslot_223
    refine cls_cons (F := F) d L (landed m d L h) 222 _ _ _ rfl rfl rfl _ ?_
    refine cls_cons (F := F) d L (landed m d L h) 221 _ _ _ rfl rfl rfl _ ?_
    refine cls_cons (F := F) d L (landed m d L h) 220 _ _ _ rfl rfl rfl _ ?_
    refine cls_cons (F := F) d L (landed m d L h) 219 _ _ _ rfl rfl rfl _ ?_
    refine cls_cons (F := F) d L (landed m d L h) 218 _ _ _ rfl rfl rfl _ ?_
    exact e218
  have e227 : (slotV : Memref sig .scVector .vmem S2x8x8x768 .f32).view.writes (Elt F) (landed m d L h) (cls_tailA.sl.Hslot_227 m d L h) = Scls d L (landed m d L h) (Tof d L (landed m d L h)) (Pof d L (landed m d L h)) 227 := by
    unfold cls_tailA.sl.Hslot_227
    refine cls_cons (F := F) d L (landed m d L h) 226 _ _ _ rfl rfl rfl _ ?_
    refine cls_cons (F := F) d L (landed m d L h) 225 _ _ _ rfl rfl rfl _ ?_
    refine cls_cons (F := F) d L (landed m d L h) 224 _ _ _ rfl rfl rfl _ ?_
    refine cls_cons (F := F) d L (landed m d L h) 223 _ _ _ rfl rfl rfl _ ?_
    exact e223
  have e232 : (slotV : Memref sig .scVector .vmem S2x8x8x768 .f32).view.writes (Elt F) (landed m d L h) (cls_tailA.sl.Hslot_232 m d L h) = Scls d L (landed m d L h) (Tof d L (landed m d L h)) (Pof d L (landed m d L h)) 232 := by
    unfold cls_tailA.sl.Hslot_232
    refine cls_cons (F := F) d L (landed m d L h) 231 _ _ _ rfl rfl rfl _ ?_
    refine cls_cons (F := F) d L (landed m d L h) 230 _ _ _ rfl rfl rfl _ ?_
    refine cls_cons (F := F) d L (landed m d L h) 229 _ _ _ rfl rfl rfl _ ?_
    refine cls_cons (F := F) d L (landed m d L h) 228 _ _ _ rfl rfl rfl _ ?_
    refine cls_cons (F := F) d L (landed m d L h) 227 _ _ _ rfl rfl rfl _ ?_
    exact e227
  have e236 : (slotV : Memref sig .scVector .vmem S2x8x8x768 .f32).view.writes (Elt F) (landed m d L h) (cls_tailA.sl.Hslot_236 m d L h) = Scls d L (landed m d L h) (Tof d L (landed m d L h)) (Pof d L (landed m d L h)) 236 := by
    unfold cls_tailA.sl.Hslot_236
    refine cls_cons (F := F) d L (landed m d L h) 235 _ _ _ rfl rfl rfl _ ?_
    refine cls_cons (F := F) d L (landed m d L h) 234 _ _ _ rfl rfl rfl _ ?_
    refine cls_cons (F := F) d L (landed m d L h) 233 _ _ _ rfl rfl rfl _ ?_
    refine cls_cons (F := F) d L (landed m d L h) 232 _ _ _ rfl rfl rfl _ ?_
    exact e232
  have e240 : (slotV : Memref sig .scVector .vmem S2x8x8x768 .f32).view.writes (Elt F) (landed m d L h) (cls_tailA.sl.Hslot_240 m d L h) = Scls d L (landed m d L h) (Tof d L (landed m d L h)) (Pof d L (landed m d L h)) 240 := by
    unfold cls_tailA.sl.Hslot_240
    refine cls_cons (F := F) d L (landed m d L h) 239 _ _ _ rfl rfl rfl _ ?_
    refine cls_cons (F := F) d L (landed m d L h) 238 _ _ _ rfl rfl rfl _ ?_
    refine cls_cons (F := F) d L (landed m d L h) 237 _ _ _ rfl rfl rfl _ ?_
    refine cls_cons (F := F) d L (landed m d L h) 236 _ _ _ rfl rfl rfl _ ?_
    exact e236
  have e245 : (slotV : Memref sig .scVector .vmem S2x8x8x768 .f32).view.writes (Elt F) (landed m d L h) (cls_tailA.sl.Hslot_245 m d L h) = Scls d L (landed m d L h) (Tof d L (landed m d L h)) (Pof d L (landed m d L h)) 245 := by
    unfold cls_tailA.sl.Hslot_245
    refine cls_cons (F := F) d L (landed m d L h) 244 _ _ _ rfl rfl rfl _ ?_
    refine cls_cons (F := F) d L (landed m d L h) 243 _ _ _ rfl rfl rfl _ ?_
    refine cls_cons (F := F) d L (landed m d L h) 242 _ _ _ rfl rfl rfl _ ?_
    refine cls_cons (F := F) d L (landed m d L h) 241 _ _ _ rfl rfl rfl _ ?_
    refine cls_cons (F := F) d L (landed m d L h) 240 _ _ _ rfl rfl rfl _ ?_
    exact e240
  have e249 : (slotV : Memref sig .scVector .vmem S2x8x8x768 .f32).view.writes (Elt F) (landed m d L h) (cls_tailA.sl.Hslot_249 m d L h) = Scls d L (landed m d L h) (Tof d L (landed m d L h)) (Pof d L (landed m d L h)) 249 := by
    unfold cls_tailA.sl.Hslot_249
    refine cls_cons (F := F) d L (landed m d L h) 248 _ _ _ rfl rfl rfl _ ?_
    refine cls_cons (F := F) d L (landed m d L h) 247 _ _ _ rfl rfl rfl _ ?_
    refine cls_cons (F := F) d L (landed m d L h) 246 _ _ _ rfl rfl rfl _ ?_
    refine cls_cons (F := F) d L (landed m d L h) 245 _ _ _ rfl rfl rfl _ ?_
    exact e245
  have e254 : (slotV : Memref sig .scVector .vmem S2x8x8x768 .f32).view.writes (Elt F) (landed m d L h) (cls_tailA.sl.Hslot_254 m d L h) = Scls d L (landed m d L h) (Tof d L (landed m d L h)) (Pof d L (landed m d L h)) 254 := by
    unfold cls_tailA.sl.Hslot_254
    refine cls_cons (F := F) d L (landed m d L h) 253 _ _ _ rfl rfl rfl _ ?_
    refine cls_cons (F := F) d L (landed m d L h) 252 _ _ _ rfl rfl rfl _ ?_
    refine cls_cons (F := F) d L (landed m d L h) 251 _ _ _ rfl rfl rfl _ ?_
    refine cls_cons (F := F) d L (landed m d L h) 250 _ _ _ rfl rfl rfl _ ?_
    refine cls_cons (F := F) d L (landed m d L h) 249 _ _ _ rfl rfl rfl _ ?_
    exact e249
  have e258 : (slotV : Memref sig .scVector .vmem S2x8x8x768 .f32).view.writes (Elt F) (landed m d L h) (cls_tailA.sl.Hslot_258 m d L h) = Scls d L (landed m d L h) (Tof d L (landed m d L h)) (Pof d L (landed m d L h)) 258 := by
    unfold cls_tailA.sl.Hslot_258
    refine cls_cons (F := F) d L (landed m d L h) 257 _ _ _ rfl rfl rfl _ ?_
    refine cls_cons (F := F) d L (landed m d L h) 256 _ _ _ rfl rfl rfl _ ?_
    refine cls_cons (F := F) d L (landed m d L h) 255 _ _ _ rfl rfl rfl _ ?_
    refine cls_cons (F := F) d L (landed m d L h) 254 _ _ _ rfl rfl rfl _ ?_
    exact e254
  have e264 : (slotV : Memref sig .scVector .vmem S2x8x8x768 .f32).view.writes (Elt F) (landed m d L h)
      (⟨Rect.unit (s := S2x8x8x768) ![0, 0, 7, 512] S1x1x1x16.size inb_S2x8x8x768_S1x1x1x16_0_0_7_512, cls_tailA.sl.v2169 m d L h⟩ ::
        ⟨Rect.unit (s := S2x8x8x768) ![0, 0, 6, 512] S1x1x1x16.size inb_S2x8x8x768_S1x1x1x16_0_0_6_512, cls_tailA.sl.v2169 m d L h⟩ ::
        ⟨Rect.unit (s := S2x8x8x768) ![0, 0, 5, 512] S1x1x1x16.size inb_S2x8x8x768_S1x1x1x16_0_0_5_512, cls_tailA.sl.v2169 m d L h⟩ ::
        ⟨Rect.unit (s := S2x8x8x768) ![0, 0, 4, 512] S1x1x1x16.size inb_S2x8x8x768_S1x1x1x16_0_0_4_512, cls_tailA.sl.v2169 m d L h⟩ ::
        ⟨Rect.unit (s := S2x8x8x768) ![0, 0, 3, 512] S1x1x1x16.size inb_S2x8x8x768_S1x1x1x16_0_0_3_512, cls_tailA.sl.v2169 m d L h⟩ ::
        ⟨Rect.unit (s := S2x8x8x768) ![0, 0, 2, 512] S1x1x1x16.size inb_S2x8x8x768_S1x1x1x16_0_0_2_512, cls_tailA.sl.v2169 m d L h⟩ ::
        cls_tailA.sl.Hslot_258 m d L h) = Scls d L (landed m d L h) (Tof d L (landed m d L h)) (Pof d L (landed m d L h)) 264 := by
    refine cls_cons (F := F) d L (landed m d L h) 263 _ _ _ rfl rfl rfl _ ?_
    refine cls_cons (F := F) d L (landed m d L h) 262 _ _ _ rfl rfl rfl _ ?_
    refine cls_cons (F := F) d L (landed m d L h) 261 _ _ _ rfl rfl rfl _ ?_
    refine cls_cons (F := F) d L (landed m d L h) 260 _ _ _ rfl rfl rfl _ ?_
    refine cls_cons (F := F) d L (landed m d L h) 259 _ _ _ rfl rfl rfl _ ?_
    refine cls_cons (F := F) d L (landed m d L h) 258 _ _ _ rfl rfl rfl _ ?_
    exact e258
  -- the same equation with the landed buffer written out: over h, the token row and then the last position row
  have e264' : (slotV : Memref sig .scVector .vmem S2x8x8x768 .f32).view.writes (Elt F)
      (((slotV.slice (Rect.unit (s := S2x8x8x768) ![1, 0, 1, 0] S1x1x1x768.size inb_S2x8x8x768_S1x1x1x768_1_0_1_0) (fun _ => rfl)).squeeze S1x768 squeezes_S1x1x1x768_S1x768).view.write (Elt F)
        (((slotV.slice (Rect.unit (s := S2x8x8x768) ![1, 0, 0, 0] S1x1x1x768.size inb_S2x8x8x768_S1x1x1x768_1_0_0_0) (fun _ => rfl)).squeeze S1x768 squeezes_S1x1x1x768_S1x768).view.write (Elt F) h
          (cls_tailA.sl.dma0 m d) Finset.univ)
        (cls_tailA.sl.dma0_1 m d) Finset.univ)
      (⟨Rect.unit (s := S2x8x8x768) ![0, 0, 7, 512] S1x1x1x16.size inb_S2x8x8x768_S1x1x1x16_0_0_7_512, cls_tailA.sl.v2169 m d L h⟩ ::
        ⟨Rect.unit (s := S2x8x8x768) ![0, 0, 6, 512] S1x1x1x16.size inb_S2x8x8x768_S1x1x1x16_0_0_6_512, cls_tailA.sl.v2169 m d L h⟩ ::
        ⟨Rect.unit (s := S2x8x8x768) ![0, 0, 5, 512] S1x1x1x16.size inb_S2x8x8x768_S1x1x1x16_0_0_5_512, cls_tailA.sl.v2169 m d L h⟩ ::
        ⟨Rect.unit (s := S2x8x8x768) ![0, 0, 4, 512] S1x1x1x16.size inb_S2x8x8x768_S1x1x1x16_0_0_4_512, cls_tailA.sl.v2169 m d L h⟩ ::
        ⟨Rect.unit (s := S2x8x8x768) ![0, 0, 3, 512] S1x1x1x16.size inb_S2x8x8x768_S1x1x1x16_0_0_3_512, cls_tailA.sl.v2169 m d L h⟩ ::
        ⟨Rect.unit (s := S2x8x8x768) ![0, 0, 2, 512] S1x1x1x16.size inb_S2x8x8x768_S1x1x1x16_0_0_2_512, cls_tailA.sl.v2169 m d L h⟩ ::
        cls_tailA.sl.Hslot_258 m d L h) = Scls d L (landed m d L h) (Tof d L (landed m d L h)) (Pof d L (landed m d L h)) 264 := e264
  ihave Hslot' := (Entails.of_eq (congrArg (fun C => ((slotV : Memref sig .scVector .vmem S2x8x8x768 .f32).view.loc (thr d L) ↦{fullShare} C : sProp 𝕄)) e264')) $$ Hslot
  sl_step
  iexists Scls d L (landed m d L h) (Tof d L (landed m d L h)) (Pof d L (landed m d L h)) 264
  isplitr
  · ipureintro
    exact ⟨landed m d L h, rfl, fun c => cls_both_tok_write (F := F) h (m (tLoc d)) (m (pLoc d)) c,
      fun c => cls_both_pos_write (F := F) h (m (tLoc d)) (m (pLoc d)) c⟩
  isplitl [Hslot']; · iexact Hslot'
  isplitl [Ht]; · iexact Ht
  isplitl [Hp]; · iexact Hp
  isplitl [Hs5]; · iexact Hs5
  isplitl [Hs6]; · iexact Hs6
  iexists _
  isplitr
  rotate_left
  · iexact HO
  · ipureintro
    intro p hp
    rcases Finset.mem_insert.mp hp with rfl | hp
    · exact .inr rfl
    rcases Finset.mem_insert.mp hp with rfl | hp
    · exact .inr rfl
    · exact .inl hp

end Cert.KernelIdeal.Hand

end
-- ==== Proof.lean ====
/-
  The certificate of the patch-embedding kernel against its reference: for patches x [64, 576, 768], a position table
  p [577, 768] and a class token t [1, 1, 768], both programs leave the array [64, 577, 768] whose entry (b, l, d) is
  x (b, l, d) + p (l, d) for a patch row l < 576 and t (0, 0, d) + p (576, d) for the appended class-token row
  (Proof/Spec.lean names that function).

  The reference concatenates the class token (broadcast over the batch) after the patches, gathers the position table at
  the positions 0 .. 576 (all in range, so the gather returns the table's own rows and its out-of-range fill is never
  taken) and adds: its run and its value are read off its operations (Proof/RefRun.lean, Proof/RefValue.lean).

  The kernel runs on the device's thirty-two vector subcores. Worker w = 2 s + c (subcore s of SparseCore c) takes batches
  16 (w / 8) .. + 15 and rows 72 (w % 8) .. + 71 of a positions-first array [577, 64, 768], and the workers with
  w % 8 = 0 also its row 576; these parts are pairwise disjoint and together the whole array (Proof/SplitI.lean,
  Proof/TileCoverI.lean, Proof/TileRemI.lean). A worker streams its patches through two staging slots, adds the chunk's
  position rows row by row and copies each finished row out, eight row copies to a batch on each slot's outgoing
  semaphore; no worker signals another, so the launch needs no schedule beyond its own handshakes (Proof/LaunchA.lean,
  Proof/LaunchI.lean). Afterwards the host exchanges the first two axes (Proof/ValueT.lean).

  One trip of a row loop is 384 stores of sixteen lanes into pairwise disjoint boxes of one slot row, each adding the
  position entry to what its own box held: afterwards the row is the landed block plus the position row
  (Proof/RowValueI.lean, Proof/RowTripVI.lean, Proof/RowTrip1VI.lean; the loop, Proof/RowLoopVI.lean). A landed copy reads
  at an index as its source at the corresponding index (Proof/ValueBlocksI.lean, Proof/BlockAtI.lean), so each output row
  holds the patches plus the position row when its copy has landed; the class-token tail likewise forms the class token
  plus the last position row and copies it to row 576 (Proof/ClsValueI.lean, Proof/ClsLandI.lean, Proof/ClsTailI.lean,
  Proof/ClsTailBI.lean). One worker's body with its part of the output named is Proof/BodyMainVI.lean; the same run with
  the output unnamed, generic in the reading of floats, is Proof/BodyMainI.lean, and serves the word-level program through
  its copy (the modules named …W are the …I texts at the word-level program). The ideal pass rewrote nothing, so its
  conjunct is trivial. The assembly is Proof/Assemble.lean.
-/
import proofs.«204390_g6468220748199_cont_9to1_m_1136_17_alg».proof.Proof.Assemble
import proofs.«204390_g6468220748199_cont_9to1_m_1136_17_alg».proof.Proof.BodyMainW
import proofs.«204390_g6468220748199_cont_9to1_m_1136_17_alg».proof.Proof.RowTripW
import proofs.«204390_g6468220748199_cont_9to1_m_1136_17_alg».proof.Proof.RowTrip1W
import proofs.«204390_g6468220748199_cont_9to1_m_1136_17_alg».proof.Proof.BodyMainVI
import proofs.«204390_g6468220748199_cont_9to1_m_1136_17_alg».proof.Proof.RowTripVI
import proofs.«204390_g6468220748199_cont_9to1_m_1136_17_alg».proof.Proof.RowTrip1VI
import proofs.«204390_g6468220748199_cont_9to1_m_1136_17_alg».proof.Proof.ClsTailI
import proofs.«204390_g6468220748199_cont_9to1_m_1136_17_alg».proof.Proof.ClsTailBI

noncomputable section

namespace Cert.Proof

open Idealize.ShloMosaic Idealize.SL.Sem

/-- One worker's body at the word-level program. -/
theorem body_w (m : (ℓ : Loc Cert.Kernel.nD Cert.Kernel.τ Cert.Kernel.sig) → Buf (Elt Bits) ℓ) :
    Cert.Kernel.Hand.TileBody (F := Bits) m Cert.Kernel.Hand.Rtriv :=
  Cert.Kernel.Hand.tile_body (F := Bits) m Cert.Kernel.Hand.facts
    (fun d L => Cert.Kernel.Hand.row_trip0F (F := Bits) d L) (fun d L => Cert.Kernel.Hand.row_trip1F (F := Bits) d L)

/-- One worker's body at the ideal reading, its part of the output named. -/
theorem body_v (m : (ℓ : Loc Cert.KernelIdeal.nD Cert.KernelIdeal.τ Cert.KernelIdeal.sig) → Buf (Elt Ideal) ℓ) :
    Cert.KernelIdeal.Hand.TileBody (F := Ideal) m (Cert.KernelIdeal.Hand.Rval m) :=
  Cert.KernelIdeal.Hand.tile_bodyV (F := Ideal) m Cert.KernelIdeal.Hand.facts
    (fun d L => Cert.KernelIdeal.Hand.row_trip0 (F := Ideal) d L) (fun d L => Cert.KernelIdeal.Hand.row_trip1 (F := Ideal) d L)
    (fun d L => Cert.KernelIdeal.Hand.cls_tailA (F := Ideal) m d L) (fun d L => Cert.KernelIdeal.Hand.cls_tailB (F := Ideal) m d L)

theorem claim : Cert.Claim := Cert.Proof.Assemble.claim_of_bodies body_w body_v

end Cert.Proof

end
